-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x2626 : Shape := ⟨2, ![1024, 2626]⟩
abbrev S1024x13 : Shape := ⟨2, ![1024, 13]⟩
abbrev S26x100x1 : Shape := ⟨3, ![26, 100, 1]⟩
abbrev S26x100x32 : Shape := ⟨3, ![26, 100, 32]⟩
abbrev S39x1 : Shape := ⟨2, ![39, 1]⟩
abbrev S1 : Shape := ⟨1, ![1]⟩
abbrev S_ : Shape := ⟨0, ![]⟩

class Facts : Prop where
  bcast_S_S1024x13 : S_.BroadcastsInDim S1024x13 (![] : Fin 0 → Fin S1024x13.rank)
  reducesTo_S1024x13_S_d0_1 : S1024x13.ReducesTo [0, 1] S_
  h_S_ : 0 < S_.numel
  bcast_S_S26x100x1 : S_.BroadcastsInDim S26x100x1 (![] : Fin 0 → Fin S26x100x1.rank)
  reducesTo_S26x100x1_S_d0_1_2 : S26x100x1.ReducesTo [0, 1, 2] S_
  bcast_S_S26x100x32 : S_.BroadcastsInDim S26x100x32 (![] : Fin 0 → Fin S26x100x32.rank)
  reducesTo_S26x100x32_S_d0_1_2 : S26x100x32.ReducesTo [0, 1, 2] S_
  bcast_S_S39x1 : S_.BroadcastsInDim S39x1 (![] : Fin 0 → Fin S39x1.rank)
  reducesTo_S39x1_S_d0_1 : S39x1.ReducesTo [0, 1] S_
  bcast_S_S1 : S_.BroadcastsInDim S1 (![] : Fin 0 → Fin S1.rank)
  reducesTo_S1_S_d0 : S1.ReducesTo [0] S_
  bcast_S_S1024x2626 : S_.BroadcastsInDim S1024x2626 (![] : Fin 0 → Fin S1024x2626.rank)
  reducesTo_S1024x2626_S_d0_1 : S1024x2626.ReducesTo [0, 1] S_

variable [Facts]

def fn_part1 {F : FTy → Type} [FloatOps F] (main_arg0 : IVec S1024x2626 32) (main_arg5 : FVec F S1 .f32) (main_v13 : IVec S_ 1) (main_v16 : IVec S39x1 1) : IVec S_ 1 :=
  let main_c_5 : IVec S_ 1 := constantI S_ 1 1#1
  let main_v17 : IVec S_ 1 := (fun x v => Host.reduce IntOp.andi x v reducesTo_S39x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S1024x2626 32 := broadcastInDim S1024x2626 ![] bcast_S_S1024x2626 main_c_8
  let main_v25 : IVec S1024x2626 1 := cmpi .sge main_arg0 main_v24
  let main_c_9 : IVec S_ 32 := constantI S_ 32 99#32
  let main_v26 : IVec S1024x2626 32 := broadcastInDim S1024x2626 ![] bcast_S_S1024x2626 main_c_9
  let main_v27 : IVec S1024x2626 1 := cmpi .sle main_arg0 main_v26
  let main_v28 : IVec S1024x2626 1 := andi main_v25 main_v27
  let main_c_10 : IVec S_ 1 := constantI S_ 1 1#1
  let main_v29 : IVec S_ 1 := (fun x v => Host.reduce IntOp.andi x v reducesTo_S1024x2626_S_d0_1 h_S_) main_v28 main_c_10
  let main_v30 : IVec S_ 1 := andi main_v23 main_v29
  main_v30

def fn {F : FTy → Type} [FloatOps F] (main_arg0 : IVec S1024x2626 32) (main_arg1 : FVec F S1024x13 .f32) (main_arg2 : FVec F S26x100x1 .f32) (main_arg3 : FVec F S26x100x32 .f32) (main_arg4 : FVec F S39x1 .f32) (main_arg5 : FVec F S1 .f32) : IVec S_ 1 :=
  let main_v0 : FVec F S1024x13 .f32 := Host.absf main_arg1
  let main_cst : FVec F S_ .f32 := constant S_ .f32 0x7F800000#32
  let main_v1 : FVec F S1024x13 .f32 := broadcastInDim S1024x13 ![] bcast_S_S1024x13 main_cst
  let main_v2 : IVec S1024x13 1 := cmpf .olt main_v0 main_v1
  let main_c : IVec S_ 1 := constantI S_ 1 1#1
  let main_v3 : IVec S_ 1 := (fun x v => Host.reduce IntOp.andi x v reducesTo_S1024x13_S_d0_1 h_S_) main_v2 main_c
  let main_v4 : FVec F S26x100x1 .f32 := Host.absf main_arg2
  let main_cst_0 : FVec F S_ .f32 := constant S_ .f32 0x7F800000#32
  let main_v5 : FVec F S26x100x1 .f32 := broadcastInDim S26x100x1 ![] bcast_S_S26x100x1 main_cst_0
  let main_v6 : IVec S26x100x1 1 := cmpf .olt main_v4 main_v5
  let main_c_1 : IVec S_ 1 := constantI S_ 1 1#1
  let main_v7 : IVec S_ 1 := (fun x v => Host.reduce IntOp.andi x v reducesTo_S26x100x1_S_d0_1_2 h_S_) main_v6 main_c_1
  let main_v8 : IVec S_ 1 := andi main_v3 main_v7
  let main_v9 : FVec F S26x100x32 .f32 := Host.absf main_arg3
  let main_cst_2 : FVec F S_ .f32 := constant S_ .f32 0x7F800000#32
  let main_v10 : FVec F S26x100x32 .f32 := broadcastInDim S26x100x32 ![] bcast_S_S26x100x32 main_cst_2
  let main_v11 : IVec S26x100x32 1 := cmpf .olt main_v9 main_v10
  let main_c_3 : IVec S_ 1 := constantI S_ 1 1#1
  let main_v12 : IVec S_ 1 := (fun x v => Host.reduce IntOp.andi x v reducesTo_S26x100x32_S_d0_1_2 h_S_) main_v11 main_c_3
  let main_v13 : IVec S_ 1 := andi main_v8 main_v12
  let main_v14 : FVec F S39x1 .f32 := Host.absf main_arg4
  let main_cst_4 : FVec F S_ .f32 := constant S_ .f32 0x7F800000#32
  let main_v15 : FVec F S39x1 .f32 := broadcastInDim S39x1 ![] bcast_S_S39x1 main_cst_4
  let main_v16 : IVec S39x1 1 := cmpf .olt main_v14 main_v15
  fn_part1 (F := F) main_arg0 main_arg5 main_v13 main_v16
-- ==== Kernel.lean ====
abbrev S1024x2626 : Shape := ⟨2, ![1024, 2626]⟩
abbrev S1024x13 : Shape := ⟨2, ![1024, 13]⟩
abbrev S26x100x1 : Shape := ⟨3, ![26, 100, 1]⟩
abbrev S26x100x32 : Shape := ⟨3, ![26, 100, 32]⟩
abbrev S39x1 : Shape := ⟨2, ![39, 1]⟩
abbrev S1 : Shape := ⟨1, ![1]⟩
abbrev S2688 : Shape := ⟨1, ![2688]⟩
abbrev S_ : Shape := ⟨0, ![]⟩
abbrev S1024x2688 : Shape := ⟨2, ![1024, 2688]⟩
abbrev S1x2688 : Shape := ⟨2, ![1, 2688]⟩
abbrev S1024x1344 : Shape := ⟨2, ![1024, 1344]⟩
abbrev S2600x32 : Shape := ⟨2, ![2600, 32]⟩
abbrev S26x100 : Shape := ⟨2, ![26, 100]⟩
abbrev S26x1 : Shape := ⟨2, ![26, 1]⟩
abbrev S2600x1 : Shape := ⟨2, ![2600, 1]⟩
abbrev S2600x31 : Shape := ⟨2, ![2600, 31]⟩
abbrev S2600x64 : Shape := ⟨2, ![2600, 64]⟩
abbrev S2688x64 : Shape := ⟨2, ![2688, 64]⟩
abbrev S13x1 : Shape := ⟨2, ![13, 1]⟩
abbrev S1x1 : Shape := ⟨2, ![1, 1]⟩
abbrev S1344 : Shape := ⟨1, ![1344]⟩
abbrev S2800 : Shape := ⟨1, ![2800]⟩
abbrev S16 : Shape := ⟨1, ![16]⟩
abbrev S1x1344 : Shape := ⟨2, ![1, 1344]⟩
abbrev S1024x1 : Shape := ⟨2, ![1024, 1]⟩
abbrev S256x2688 : Shape := ⟨2, ![256, 2688]⟩
abbrev S256x13 : Shape := ⟨2, ![256, 13]⟩
abbrev S256x1 : Shape := ⟨2, ![256, 1]⟩
abbrev S256x64 : Shape := ⟨2, ![256, 64]⟩
abbrev S256x32 : Shape := ⟨2, ![256, 32]⟩
abbrev S256 : Shape := ⟨1, ![256]⟩

abbrev nBuf : Table → Nat
  | .hbm => 35
  | .local .tc .vmem => 9
  | .local .scVector .vmem => 8
  | _ => 0

abbrev bufTy : (tb : Table) → Fin (nBuf tb) → BufTy
  | .hbm, ⟨0, _⟩ => ⟨S1024x2626, .i32⟩
  | .hbm, ⟨1, _⟩ => ⟨S1024x13, .f32⟩
  | .hbm, ⟨2, _⟩ => ⟨S26x100x1, .f32⟩
  | .hbm, ⟨3, _⟩ => ⟨S26x100x32, .f32⟩
  | .hbm, ⟨4, _⟩ => ⟨S39x1, .f32⟩
  | .hbm, ⟨5, _⟩ => ⟨S1, .f32⟩
  | .hbm, ⟨6, _⟩ => ⟨S2688, .i32⟩
  | .hbm, ⟨7, _⟩ => ⟨S_, .i32⟩
  | .hbm, ⟨8, _⟩ => ⟨S_, .i32⟩
  | .hbm, ⟨9, _⟩ => ⟨S1024x2688, .i32⟩
  | .hbm, ⟨10, _⟩ => ⟨S1x2688, .i32⟩
  | .hbm, ⟨11, _⟩ => ⟨S1024x2688, .i32⟩
  | .hbm, ⟨12, _⟩ => ⟨S1024x2688, .i32⟩
  | .hbm, ⟨13, _⟩ => ⟨S1024x1344, .i32⟩
  | .hbm, ⟨14, _⟩ => ⟨S1024x1344, .i32⟩
  | .hbm, ⟨15, _⟩ => ⟨S_, .i32⟩
  | .hbm, ⟨16, _⟩ => ⟨S1024x1344, .i32⟩
  | .hbm, ⟨17, _⟩ => ⟨S1024x1344, .i32⟩
  | .hbm, ⟨18, _⟩ => ⟨S1024x1344, .i32⟩
  | .hbm, ⟨19, _⟩ => ⟨S2600x32, .f32⟩
  | .hbm, ⟨20, _⟩ => ⟨S26x100, .f32⟩
  | .hbm, ⟨21, _⟩ => ⟨S26x1, .f32⟩
  | .hbm, ⟨22, _⟩ => ⟨S26x100, .f32⟩
  | .hbm, ⟨23, _⟩ => ⟨S26x100, .f32⟩
  | .hbm, ⟨24, _⟩ => ⟨S2600x1, .f32⟩
  | .hbm, ⟨25, _⟩ => ⟨S_, .f32⟩
  | .hbm, ⟨26, _⟩ => ⟨S2600x31, .f32⟩
  | .hbm, ⟨27, _⟩ => ⟨S2600x64, .f32⟩
  | .hbm, ⟨28, _⟩ => ⟨S_, .i32⟩
  | .hbm, ⟨29, _⟩ => ⟨S_, .f32⟩
  | .hbm, ⟨30, _⟩ => ⟨S2688x64, .f32⟩
  | .hbm, ⟨31, _⟩ => ⟨S13x1, .f32⟩
  | .hbm, ⟨32, _⟩ => ⟨S1x1, .f32⟩
  | .hbm, ⟨33, _⟩ => ⟨S1024x2688, .f32⟩
  | .hbm, ⟨34, _⟩ => ⟨S1024x1, .f32⟩
  | .local .tc .vmem, ⟨0, _⟩ => ⟨S256x2688, .f32⟩
  | .local .tc .vmem, ⟨1, _⟩ => ⟨S256x2688, .f32⟩
  | .local .tc .vmem, ⟨2, _⟩ => ⟨S2688x64, .f32⟩
  | .local .tc .vmem, ⟨3, _⟩ => ⟨S256x13, .f32⟩
  | .local .tc .vmem, ⟨4, _⟩ => ⟨S256x13, .f32⟩
  | .local .tc .vmem, ⟨5, _⟩ => ⟨S13x1, .f32⟩
  | .local .tc .vmem, ⟨6, _⟩ => ⟨S1x1, .f32⟩
  | .local .tc .vmem, ⟨7, _⟩ => ⟨S256x1, .f32⟩
  | .local .tc .vmem, ⟨8, _⟩ => ⟨S256x1, .f32⟩
  | .local .scVector .vmem, ⟨0, _⟩ => ⟨S1344, .i32⟩
  | .local .scVector .vmem, ⟨1, _⟩ => ⟨S1344, .i32⟩
  | .local .scVector .vmem, ⟨2, _⟩ => ⟨S1344, .i32⟩
  | .local .scVector .vmem, ⟨3, _⟩ => ⟨S1344, .i32⟩
  | .local .scVector .vmem, ⟨4, _⟩ => ⟨S2800, .f32⟩
  | .local .scVector .vmem, ⟨5, _⟩ => ⟨S2800, .f32⟩
  | .local .scVector .vmem, ⟨6, _⟩ => ⟨S2800, .f32⟩
  | .local .scVector .vmem, ⟨7, _⟩ => ⟨S2800, .f32⟩
  | _, _ => ⟨S1024x2626, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v8_scv : Ref sig .scVector := ⟨.hbm, 18, rfl⟩
abbrev main_v20_scv : Ref sig .scVector := ⟨.hbm, 33, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v5 : BitVec 32 := Scalar.addi v2 c0_i32
  let v6 : BitVec 32 := Scalar.addi v5 c0_i32_1
  let c0_i32_2 : BitVec 32 := 0#32
  ![v6.toNat, 0]
@[reducible] def k0_t1_loop : Scf.Loop 32 :=
  let c0_i32_16 : BitVec 32 := 0#32
  let c8_i32 : BitVec 32 := 8#32
  let v29 : BitVec 32 := Scalar.addi c0_i32_16 c8_i32
  let c1_i32_17 : BitVec 32 := 1#32
  ⟨c0_i32_16, v29, c1_i32_17⟩
def k0_cond1 (k0_t1 : Fin k0_t1_loop.trips) : BitVec 1 :=
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_45 : BitVec 32 := 2#32
  let v66 : BitVec 1 := Scalar.cmpi .sge v63 c2_i32_45
  let v67 : BitVec 32 := Scalar.extui v66
  let c0_i32_46 : BitVec 32 := 0#32
  let v68 : BitVec 1 := Scalar.cmpi .ne v67 c0_i32_46
  v68

def k0_off2 (i : grid0.Coords) (k0_t1 : Fin k0_t1_loop.trips) (c0_i32_1621 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_44 : BitVec 32 := 2#32
  let v64 : BitVec 32 := Scalar.muli v63 c2_i32_44
  let v65 : BitVec 32 := Scalar.addi v2 v64
  let c4_i32 : BitVec 32 := 4#32
  let v2512 : BitVec 32 := Scalar.subi v65 c4_i32
  let v2513 : BitVec 32 := Scalar.addi v2512 c0_i32_1621
  let c0_i32_1623 : BitVec 32 := 0#32
  ![v2513.toNat, 0]
def k0_off3 (i : grid0.Coords) (k0_t1 : Fin k0_t1_loop.trips) (c0_i32_222 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_44 : BitVec 32 := 2#32
  let v64 : BitVec 32 := Scalar.muli v63 c2_i32_44
  let v65 : BitVec 32 := Scalar.addi v2 v64
  let v419 : BitVec 32 := Scalar.addi v65 c0_i32_222
  let c0_i32_223 : BitVec 32 := 0#32
  ![v419.toNat, 0]

def k0_chk1 (v431 : IVec S16 32) : Prop :=
  (∀ a x, ((![v431] : Fin 1 → IVec S16 32) a x).toNat < S2800.size a)
instance k0_chk1.dec : ∀ (v431 : IVec S16 32), Decidable (k0_chk1 v431) := fun v431 => decidable_of_iff' _ (Iff.of_eq (k0_chk1.eq_1 v431))
theorem k0_idx1_inb : ∀ (v431 : IVec S16 32) (k0_hw1 : k0_chk1 v431), ∀ a x, ((![v431] : Fin 1 → IVec S16 32) a x).toNat < S2800.size a := fun v431 k0_hw1 => k0_hw1

def k0_chk2 (v433 : IVec S16 32) : Prop :=
  (∀ a x, ((![v433] : Fin 1 → IVec S16 32) a x).toNat < S2800.size a)
instance k0_chk2.dec : ∀ (v433 : IVec S16 32), Decidable (k0_chk2 v433) := fun v433 => decidable_of_iff' _ (Iff.of_eq (k0_chk2.eq_1 v433))
theorem k0_idx2_inb : ∀ (v433 : IVec S16 32) (k0_hw2 : k0_chk2 v433), ∀ a x, ((![v433] : Fin 1 → IVec S16 32) a x).toNat < S2800.size a := fun v433 k0_hw2 => k0_hw2

def k0_chk3 (v436 : IVec S16 32) : Prop :=
  (∀ a x, ((![v436] : Fin 1 → IVec S16 32) a x).toNat < S2800.size a)
instance k0_chk3.dec : ∀ (v436 : IVec S16 32), Decidable (k0_chk3 v436) := fun v436 => decidable_of_iff' _ (Iff.of_eq (k0_chk3.eq_1 v436))
theorem k0_idx3_inb : ∀ (v436 : IVec S16 32) (k0_hw3 : k0_chk3 v436), ∀ a x, ((![v436] : Fin 1 → IVec S16 32) a x).toNat < S2800.size a := fun v436 k0_hw3 => k0_hw3

def k0_chk4 (v438 : IVec S16 32) : Prop :=
  (∀ a x, ((![v438] : Fin 1 → IVec S16 32) a x).toNat < S2800.size a)
instance k0_chk4.dec : ∀ (v438 : IVec S16 32), Decidable (k0_chk4 v438) := fun v438 => decidable_of_iff' _ (Iff.of_eq (k0_chk4.eq_1 v438))
theorem k0_idx4_inb : ∀ (v438 : IVec S16 32) (k0_hw4 : k0_chk4 v438), ∀ a x, ((![v438] : Fin 1 → IVec S16 32) a x).toNat < S2800.size a := fun v438 k0_hw4 => k0_hw4

def k0_chk5 (v441 : IVec S16 32) : Prop :=
  (∀ a x, ((![v441] : Fin 1 → IVec S16 32) a x).toNat < S2800.size a)
instance k0_chk5.dec : ∀ (v441 : IVec S16 32), Decidable (k0_chk5 v441) := fun v441 => decidable_of_iff' _ (Iff.of_eq (k0_chk5.eq_1 v441))
theorem k0_idx5_inb : ∀ (v441 : IVec S16 32) (k0_hw5 : k0_chk5 v441), ∀ a x, ((![v441] : Fin 1 → IVec S16 32) a x).toNat < S2800.size a := fun v441 k0_hw5 => k0_hw5

def k0_chk6 (v443 : IVec S16 32) : Prop :=
  (∀ a x, ((![v443] : Fin 1 → IVec S16 32) a x).toNat < S2800.size a)
instance k0_chk6.dec : ∀ (v443 : IVec S16 32), Decidable (k0_chk6 v443) := fun v443 => decidable_of_iff' _ (Iff.of_eq (k0_chk6.eq_1 v443))
theorem k0_idx6_inb : ∀ (v443 : IVec S16 32) (k0_hw6 : k0_chk6 v443), ∀ a x, ((![v443] : Fin 1 → IVec S16 32) a x).toNat < S2800.size a := fun v443 k0_hw6 => k0_hw6

def k0_chk7 (v446 : IVec S16 32) : Prop :=
  (∀ a x, ((![v446] : Fin 1 → IVec S16 32) a x).toNat < S2800.size a)
instance k0_chk7.dec : ∀ (v446 : IVec S16 32), Decidable (k0_chk7 v446) := fun v446 => decidable_of_iff' _ (Iff.of_eq (k0_chk7.eq_1 v446))
theorem k0_idx7_inb : ∀ (v446 : IVec S16 32) (k0_hw7 : k0_chk7 v446), ∀ a x, ((![v446] : Fin 1 → IVec S16 32) a x).toNat < S2800.size a := fun v446 k0_hw7 => k0_hw7

def k0_chk8 (v448 : IVec S16 32) : Prop :=
  (∀ a x, ((![v448] : Fin 1 → IVec S16 32) a x).toNat < S2800.size a)
instance k0_chk8.dec : ∀ (v448 : IVec S16 32), Decidable (k0_chk8 v448) := fun v448 => decidable_of_iff' _ (Iff.of_eq (k0_chk8.eq_1 v448))
theorem k0_idx8_inb : ∀ (v448 : IVec S16 32) (k0_hw8 : k0_chk8 v448), ∀ a x, ((![v448] : Fin 1 → IVec S16 32) a x).toNat < S2800.size a := fun v448 k0_hw8 => k0_hw8

def k0_chk9 (v451 : IVec S16 32) : Prop :=
  (∀ a x, ((![v451] : Fin 1 → IVec S16 32) a x).toNat < S2800.size a)
instance k0_chk9.dec : ∀ (v451 : IVec S16 32), Decidable (k0_chk9 v451) := fun v451 => decidable_of_iff' _ (Iff.of_eq (k0_chk9.eq_1 v451))
theorem k0_idx9_inb : ∀ (v451 : IVec S16 32) (k0_hw9 : k0_chk9 v451), ∀ a x, ((![v451] : Fin 1 → IVec S16 32) a x).toNat < S2800.size a := fun v451 k0_hw9 => k0_hw9

def k0_chk10 (v453 : IVec S16 32) : Prop :=
  (∀ a x, ((![v453] : Fin 1 → IVec S16 32) a x).toNat < S2800.size a)
instance k0_chk10.dec : ∀ (v453 : IVec S16 32), Decidable (k0_chk10 v453) := fun v453 => decidable_of_iff' _ (Iff.of_eq (k0_chk10.eq_1 v453))
theorem k0_idx10_inb : ∀ (v453 : IVec S16 32) (k0_hw10 : k0_chk10 v453), ∀ a x, ((![v453] : Fin 1 → IVec S16 32) a x).toNat < S2800.size a := fun v453 k0_hw10 => k0_hw10

def k0_chk11 (v456 : IVec S16 32) : Prop :=
  (∀ a x, ((![v456] : Fin 1 → IVec S16 32) a x).toNat < S2800.size a)
instance k0_chk11.dec : ∀ (v456 : IVec S16 32), Decidable (k0_chk11 v456) := fun v456 => decidable_of_iff' _ (Iff.of_eq (k0_chk11.eq_1 v456))
theorem k0_idx11_inb : ∀ (v456 : IVec S16 32) (k0_hw11 : k0_chk11 v456), ∀ a x, ((![v456] : Fin 1 → IVec S16 32) a x).toNat < S2800.size a := fun v456 k0_hw11 => k0_hw11

def k0_chk12 (v458 : IVec S16 32) : Prop :=
  (∀ a x, ((![v458] : Fin 1 → IVec S16 32) a x).toNat < S2800.size a)
instance k0_chk12.dec : ∀ (v458 : IVec S16 32), Decidable (k0_chk12 v458) := fun v458 => decidable_of_iff' _ (Iff.of_eq (k0_chk12.eq_1 v458))
theorem k0_idx12_inb : ∀ (v458 : IVec S16 32) (k0_hw12 : k0_chk12 v458), ∀ a x, ((![v458] : Fin 1 → IVec S16 32) a x).toNat < S2800.size a := fun v458 k0_hw12 => k0_hw12

def k0_chk13 (v461 : IVec S16 32) : Prop :=
  (∀ a x, ((![v461] : Fin 1 → IVec S16 32) a x).toNat < S2800.size a)
instance k0_chk13.dec : ∀ (v461 : IVec S16 32), Decidable (k0_chk13 v461) := fun v461 => decidable_of_iff' _ (Iff.of_eq (k0_chk13.eq_1 v461))
theorem k0_idx13_inb : ∀ (v461 : IVec S16 32) (k0_hw13 : k0_chk13 v461), ∀ a x, ((![v461] : Fin 1 → IVec S16 32) a x).toNat < S2800.size a := fun v461 k0_hw13 => k0_hw13

def k0_chk14 (v463 : IVec S16 32) : Prop :=
  (∀ a x, ((![v463] : Fin 1 → IVec S16 32) a x).toNat < S2800.size a)
instance k0_chk14.dec : ∀ (v463 : IVec S16 32), Decidable (k0_chk14 v463) := fun v463 => decidable_of_iff' _ (Iff.of_eq (k0_chk14.eq_1 v463))
theorem k0_idx14_inb : ∀ (v463 : IVec S16 32) (k0_hw14 : k0_chk14 v463), ∀ a x, ((![v463] : Fin 1 → IVec S16 32) a x).toNat < S2800.size a := fun v463 k0_hw14 => k0_hw14

def k0_chk15 (v466 : IVec S16 32) : Prop :=
  (∀ a x, ((![v466] : Fin 1 → IVec S16 32) a x).toNat < S2800.size a)
instance k0_chk15.dec : ∀ (v466 : IVec S16 32), Decidable (k0_chk15 v466) := fun v466 => decidable_of_iff' _ (Iff.of_eq (k0_chk15.eq_1 v466))
theorem k0_idx15_inb : ∀ (v466 : IVec S16 32) (k0_hw15 : k0_chk15 v466), ∀ a x, ((![v466] : Fin 1 → IVec S16 32) a x).toNat < S2800.size a := fun v466 k0_hw15 => k0_hw15

def k0_chk16 (v468 : IVec S16 32) : Prop :=
  (∀ a x, ((![v468] : Fin 1 → IVec S16 32) a x).toNat < S2800.size a)
instance k0_chk16.dec : ∀ (v468 : IVec S16 32), Decidable (k0_chk16 v468) := fun v468 => decidable_of_iff' _ (Iff.of_eq (k0_chk16.eq_1 v468))
theorem k0_idx16_inb : ∀ (v468 : IVec S16 32) (k0_hw16 : k0_chk16 v468), ∀ a x, ((![v468] : Fin 1 → IVec S16 32) a x).toNat < S2800.size a := fun v468 k0_hw16 => k0_hw16

def k0_chk17 (v471 : IVec S16 32) : Prop :=
  (∀ a x, ((![v471] : Fin 1 → IVec S16 32) a x).toNat < S2800.size a)
instance k0_chk17.dec : ∀ (v471 : IVec S16 32), Decidable (k0_chk17 v471) := fun v471 => decidable_of_iff' _ (Iff.of_eq (k0_chk17.eq_1 v471))
theorem k0_idx17_inb : ∀ (v471 : IVec S16 32) (k0_hw17 : k0_chk17 v471), ∀ a x, ((![v471] : Fin 1 → IVec S16 32) a x).toNat < S2800.size a := fun v471 k0_hw17 => k0_hw17

def k0_chk18 (v473 : IVec S16 32) : Prop :=
  (∀ a x, ((![v473] : Fin 1 → IVec S16 32) a x).toNat < S2800.size a)
instance k0_chk18.dec : ∀ (v473 : IVec S16 32), Decidable (k0_chk18 v473) := fun v473 => decidable_of_iff' _ (Iff.of_eq (k0_chk18.eq_1 v473))
theorem k0_idx18_inb : ∀ (v473 : IVec S16 32) (k0_hw18 : k0_chk18 v473), ∀ a x, ((![v473] : Fin 1 → IVec S16 32) a x).toNat < S2800.size a := fun v473 k0_hw18 => k0_hw18

def k0_chk19 (v476 : IVec S16 32) : Prop :=
  (∀ a x, ((![v476] : Fin 1 → IVec S16 32) a x).toNat < S2800.size a)
instance k0_chk19.dec : ∀ (v476 : IVec S16 32), Decidable (k0_chk19 v476) := fun v476 => decidable_of_iff' _ (Iff.of_eq (k0_chk19.eq_1 v476))
theorem k0_idx19_inb : ∀ (v476 : IVec S16 32) (k0_hw19 : k0_chk19 v476), ∀ a x, ((![v476] : Fin 1 → IVec S16 32) a x).toNat < S2800.size a := fun v476 k0_hw19 => k0_hw19

def k0_chk20 (v478 : IVec S16 32) : Prop :=
  (∀ a x, ((![v478] : Fin 1 → IVec S16 32) a x).toNat < S2800.size a)
instance k0_chk20.dec : ∀ (v478 : IVec S16 32), Decidable (k0_chk20 v478) := fun v478 => decidable_of_iff' _ (Iff.of_eq (k0_chk20.eq_1 v478))
theorem k0_idx20_inb : ∀ (v478 : IVec S16 32) (k0_hw20 : k0_chk20 v478), ∀ a x, ((![v478] : Fin 1 → IVec S16 32) a x).toNat < S2800.size a := fun v478 k0_hw20 => k0_hw20

def k0_chk21 (v481 : IVec S16 32) : Prop :=
  (∀ a x, ((![v481] : Fin 1 → IVec S16 32) a x).toNat < S2800.size a)
instance k0_chk21.dec : ∀ (v481 : IVec S16 32), Decidable (k0_chk21 v481) := fun v481 => decidable_of_iff' _ (Iff.of_eq (k0_chk21.eq_1 v481))
theorem k0_idx21_inb : ∀ (v481 : IVec S16 32) (k0_hw21 : k0_chk21 v481), ∀ a x, ((![v481] : Fin 1 → IVec S16 32) a x).toNat < S2800.size a := fun v481 k0_hw21 => k0_hw21

def k0_chk22 (v483 : IVec S16 32) : Prop :=
  (∀ a x, ((![v483] : Fin 1 → IVec S16 32) a x).toNat < S2800.size a)
instance k0_chk22.dec : ∀ (v483 : IVec S16 32), Decidable (k0_chk22 v483) := fun v483 => decidable_of_iff' _ (Iff.of_eq (k0_chk22.eq_1 v483))
theorem k0_idx22_inb : ∀ (v483 : IVec S16 32) (k0_hw22 : k0_chk22 v483), ∀ a x, ((![v483] : Fin 1 → IVec S16 32) a x).toNat < S2800.size a := fun v483 k0_hw22 => k0_hw22

def k0_chk23 (v486 : IVec S16 32) : Prop :=
  (∀ a x, ((![v486] : Fin 1 → IVec S16 32) a x).toNat < S2800.size a)
instance k0_chk23.dec : ∀ (v486 : IVec S16 32), Decidable (k0_chk23 v486) := fun v486 => decidable_of_iff' _ (Iff.of_eq (k0_chk23.eq_1 v486))
theorem k0_idx23_inb : ∀ (v486 : IVec S16 32) (k0_hw23 : k0_chk23 v486), ∀ a x, ((![v486] : Fin 1 → IVec S16 32) a x).toNat < S2800.size a := fun v486 k0_hw23 => k0_hw23

def k0_chk24 (v488 : IVec S16 32) : Prop :=
  (∀ a x, ((![v488] : Fin 1 → IVec S16 32) a x).toNat < S2800.size a)
instance k0_chk24.dec : ∀ (v488 : IVec S16 32), Decidable (k0_chk24 v488) := fun v488 => decidable_of_iff' _ (Iff.of_eq (k0_chk24.eq_1 v488))
theorem k0_idx24_inb : ∀ (v488 : IVec S16 32) (k0_hw24 : k0_chk24 v488), ∀ a x, ((![v488] : Fin 1 → IVec S16 32) a x).toNat < S2800.size a := fun v488 k0_hw24 => k0_hw24

def k0_chk25 (v491 : IVec S16 32) : Prop :=
  (∀ a x, ((![v491] : Fin 1 → IVec S16 32) a x).toNat < S2800.size a)
instance k0_chk25.dec : ∀ (v491 : IVec S16 32), Decidable (k0_chk25 v491) := fun v491 => decidable_of_iff' _ (Iff.of_eq (k0_chk25.eq_1 v491))
theorem k0_idx25_inb : ∀ (v491 : IVec S16 32) (k0_hw25 : k0_chk25 v491), ∀ a x, ((![v491] : Fin 1 → IVec S16 32) a x).toNat < S2800.size a := fun v491 k0_hw25 => k0_hw25

def k0_chk26 (v493 : IVec S16 32) : Prop :=
  (∀ a x, ((![v493] : Fin 1 → IVec S16 32) a x).toNat < S2800.size a)
instance k0_chk26.dec : ∀ (v493 : IVec S16 32), Decidable (k0_chk26 v493) := fun v493 => decidable_of_iff' _ (Iff.of_eq (k0_chk26.eq_1 v493))
theorem k0_idx26_inb : ∀ (v493 : IVec S16 32) (k0_hw26 : k0_chk26 v493), ∀ a x, ((![v493] : Fin 1 → IVec S16 32) a x).toNat < S2800.size a := fun v493 k0_hw26 => k0_hw26

def k0_chk27 (v496 : IVec S16 32) : Prop :=
  (∀ a x, ((![v496] : Fin 1 → IVec S16 32) a x).toNat < S2800.size a)
instance k0_chk27.dec : ∀ (v496 : IVec S16 32), Decidable (k0_chk27 v496) := fun v496 => decidable_of_iff' _ (Iff.of_eq (k0_chk27.eq_1 v496))
theorem k0_idx27_inb : ∀ (v496 : IVec S16 32) (k0_hw27 : k0_chk27 v496), ∀ a x, ((![v496] : Fin 1 → IVec S16 32) a x).toNat < S2800.size a := fun v496 k0_hw27 => k0_hw27

def k0_chk28 (v498 : IVec S16 32) : Prop :=
  (∀ a x, ((![v498] : Fin 1 → IVec S16 32) a x).toNat < S2800.size a)
instance k0_chk28.dec : ∀ (v498 : IVec S16 32), Decidable (k0_chk28 v498) := fun v498 => decidable_of_iff' _ (Iff.of_eq (k0_chk28.eq_1 v498))
theorem k0_idx28_inb : ∀ (v498 : IVec S16 32) (k0_hw28 : k0_chk28 v498), ∀ a x, ((![v498] : Fin 1 → IVec S16 32) a x).toNat < S2800.size a := fun v498 k0_hw28 => k0_hw28

def k0_chk29 (v501 : IVec S16 32) : Prop :=
  (∀ a x, ((![v501] : Fin 1 → IVec S16 32) a x).toNat < S2800.size a)
instance k0_chk29.dec : ∀ (v501 : IVec S16 32), Decidable (k0_chk29 v501) := fun v501 => decidable_of_iff' _ (Iff.of_eq (k0_chk29.eq_1 v501))
theorem k0_idx29_inb : ∀ (v501 : IVec S16 32) (k0_hw29 : k0_chk29 v501), ∀ a x, ((![v501] : Fin 1 → IVec S16 32) a x).toNat < S2800.size a := fun v501 k0_hw29 => k0_hw29

def k0_chk30 (v503 : IVec S16 32) : Prop :=
  (∀ a x, ((![v503] : Fin 1 → IVec S16 32) a x).toNat < S2800.size a)
instance k0_chk30.dec : ∀ (v503 : IVec S16 32), Decidable (k0_chk30 v503) := fun v503 => decidable_of_iff' _ (Iff.of_eq (k0_chk30.eq_1 v503))
theorem k0_idx30_inb : ∀ (v503 : IVec S16 32) (k0_hw30 : k0_chk30 v503), ∀ a x, ((![v503] : Fin 1 → IVec S16 32) a x).toNat < S2800.size a := fun v503 k0_hw30 => k0_hw30

def k0_chk31 (v506 : IVec S16 32) : Prop :=
  (∀ a x, ((![v506] : Fin 1 → IVec S16 32) a x).toNat < S2800.size a)
instance k0_chk31.dec : ∀ (v506 : IVec S16 32), Decidable (k0_chk31 v506) := fun v506 => decidable_of_iff' _ (Iff.of_eq (k0_chk31.eq_1 v506))
theorem k0_idx31_inb : ∀ (v506 : IVec S16 32) (k0_hw31 : k0_chk31 v506), ∀ a x, ((![v506] : Fin 1 → IVec S16 32) a x).toNat < S2800.size a := fun v506 k0_hw31 => k0_hw31

def k0_chk32 (v508 : IVec S16 32) : Prop :=
  (∀ a x, ((![v508] : Fin 1 → IVec S16 32) a x).toNat < S2800.size a)
instance k0_chk32.dec : ∀ (v508 : IVec S16 32), Decidable (k0_chk32 v508) := fun v508 => decidable_of_iff' _ (Iff.of_eq (k0_chk32.eq_1 v508))
theorem k0_idx32_inb : ∀ (v508 : IVec S16 32) (k0_hw32 : k0_chk32 v508), ∀ a x, ((![v508] : Fin 1 → IVec S16 32) a x).toNat < S2800.size a := fun v508 k0_hw32 => k0_hw32

def k0_chk33 (v511 : IVec S16 32) : Prop :=
  (∀ a x, ((![v511] : Fin 1 → IVec S16 32) a x).toNat < S2800.size a)
instance k0_chk33.dec : ∀ (v511 : IVec S16 32), Decidable (k0_chk33 v511) := fun v511 => decidable_of_iff' _ (Iff.of_eq (k0_chk33.eq_1 v511))
theorem k0_idx33_inb : ∀ (v511 : IVec S16 32) (k0_hw33 : k0_chk33 v511), ∀ a x, ((![v511] : Fin 1 → IVec S16 32) a x).toNat < S2800.size a := fun v511 k0_hw33 => k0_hw33

def k0_chk34 (v513 : IVec S16 32) : Prop :=
  (∀ a x, ((![v513] : Fin 1 → IVec S16 32) a x).toNat < S2800.size a)
instance k0_chk34.dec : ∀ (v513 : IVec S16 32), Decidable (k0_chk34 v513) := fun v513 => decidable_of_iff' _ (Iff.of_eq (k0_chk34.eq_1 v513))
theorem k0_idx34_inb : ∀ (v513 : IVec S16 32) (k0_hw34 : k0_chk34 v513), ∀ a x, ((![v513] : Fin 1 → IVec S16 32) a x).toNat < S2800.size a := fun v513 k0_hw34 => k0_hw34

def k0_chk35 (v516 : IVec S16 32) : Prop :=
  (∀ a x, ((![v516] : Fin 1 → IVec S16 32) a x).toNat < S2800.size a)
instance k0_chk35.dec : ∀ (v516 : IVec S16 32), Decidable (k0_chk35 v516) := fun v516 => decidable_of_iff' _ (Iff.of_eq (k0_chk35.eq_1 v516))
theorem k0_idx35_inb : ∀ (v516 : IVec S16 32) (k0_hw35 : k0_chk35 v516), ∀ a x, ((![v516] : Fin 1 → IVec S16 32) a x).toNat < S2800.size a := fun v516 k0_hw35 => k0_hw35

def k0_chk36 (v518 : IVec S16 32) : Prop :=
  (∀ a x, ((![v518] : Fin 1 → IVec S16 32) a x).toNat < S2800.size a)
instance k0_chk36.dec : ∀ (v518 : IVec S16 32), Decidable (k0_chk36 v518) := fun v518 => decidable_of_iff' _ (Iff.of_eq (k0_chk36.eq_1 v518))
theorem k0_idx36_inb : ∀ (v518 : IVec S16 32) (k0_hw36 : k0_chk36 v518), ∀ a x, ((![v518] : Fin 1 → IVec S16 32) a x).toNat < S2800.size a := fun v518 k0_hw36 => k0_hw36

def k0_chk37 (v521 : IVec S16 32) : Prop :=
  (∀ a x, ((![v521] : Fin 1 → IVec S16 32) a x).toNat < S2800.size a)
instance k0_chk37.dec : ∀ (v521 : IVec S16 32), Decidable (k0_chk37 v521) := fun v521 => decidable_of_iff' _ (Iff.of_eq (k0_chk37.eq_1 v521))
theorem k0_idx37_inb : ∀ (v521 : IVec S16 32) (k0_hw37 : k0_chk37 v521), ∀ a x, ((![v521] : Fin 1 → IVec S16 32) a x).toNat < S2800.size a := fun v521 k0_hw37 => k0_hw37

def k0_chk38 (v523 : IVec S16 32) : Prop :=
  (∀ a x, ((![v523] : Fin 1 → IVec S16 32) a x).toNat < S2800.size a)
instance k0_chk38.dec : ∀ (v523 : IVec S16 32), Decidable (k0_chk38 v523) := fun v523 => decidable_of_iff' _ (Iff.of_eq (k0_chk38.eq_1 v523))
theorem k0_idx38_inb : ∀ (v523 : IVec S16 32) (k0_hw38 : k0_chk38 v523), ∀ a x, ((![v523] : Fin 1 → IVec S16 32) a x).toNat < S2800.size a := fun v523 k0_hw38 => k0_hw38

def k0_chk39 (v526 : IVec S16 32) : Prop :=
  (∀ a x, ((![v526] : Fin 1 → IVec S16 32) a x).toNat < S2800.size a)
instance k0_chk39.dec : ∀ (v526 : IVec S16 32), Decidable (k0_chk39 v526) := fun v526 => decidable_of_iff' _ (Iff.of_eq (k0_chk39.eq_1 v526))
theorem k0_idx39_inb : ∀ (v526 : IVec S16 32) (k0_hw39 : k0_chk39 v526), ∀ a x, ((![v526] : Fin 1 → IVec S16 32) a x).toNat < S2800.size a := fun v526 k0_hw39 => k0_hw39

def k0_chk40 (v528 : IVec S16 32) : Prop :=
  (∀ a x, ((![v528] : Fin 1 → IVec S16 32) a x).toNat < S2800.size a)
instance k0_chk40.dec : ∀ (v528 : IVec S16 32), Decidable (k0_chk40 v528) := fun v528 => decidable_of_iff' _ (Iff.of_eq (k0_chk40.eq_1 v528))
theorem k0_idx40_inb : ∀ (v528 : IVec S16 32) (k0_hw40 : k0_chk40 v528), ∀ a x, ((![v528] : Fin 1 → IVec S16 32) a x).toNat < S2800.size a := fun v528 k0_hw40 => k0_hw40

def k0_chk41 (v531 : IVec S16 32) : Prop :=
  (∀ a x, ((![v531] : Fin 1 → IVec S16 32) a x).toNat < S2800.size a)
instance k0_chk41.dec : ∀ (v531 : IVec S16 32), Decidable (k0_chk41 v531) := fun v531 => decidable_of_iff' _ (Iff.of_eq (k0_chk41.eq_1 v531))
theorem k0_idx41_inb : ∀ (v531 : IVec S16 32) (k0_hw41 : k0_chk41 v531), ∀ a x, ((![v531] : Fin 1 → IVec S16 32) a x).toNat < S2800.size a := fun v531 k0_hw41 => k0_hw41

def k0_chk42 (v533 : IVec S16 32) : Prop :=
  (∀ a x, ((![v533] : Fin 1 → IVec S16 32) a x).toNat < S2800.size a)
instance k0_chk42.dec : ∀ (v533 : IVec S16 32), Decidable (k0_chk42 v533) := fun v533 => decidable_of_iff' _ (Iff.of_eq (k0_chk42.eq_1 v533))
theorem k0_idx42_inb : ∀ (v533 : IVec S16 32) (k0_hw42 : k0_chk42 v533), ∀ a x, ((![v533] : Fin 1 → IVec S16 32) a x).toNat < S2800.size a := fun v533 k0_hw42 => k0_hw42

def k0_chk43 (v536 : IVec S16 32) : Prop :=
  (∀ a x, ((![v536] : Fin 1 → IVec S16 32) a x).toNat < S2800.size a)
instance k0_chk43.dec : ∀ (v536 : IVec S16 32), Decidable (k0_chk43 v536) := fun v536 => decidable_of_iff' _ (Iff.of_eq (k0_chk43.eq_1 v536))
theorem k0_idx43_inb : ∀ (v536 : IVec S16 32) (k0_hw43 : k0_chk43 v536), ∀ a x, ((![v536] : Fin 1 → IVec S16 32) a x).toNat < S2800.size a := fun v536 k0_hw43 => k0_hw43

def k0_chk44 (v538 : IVec S16 32) : Prop :=
  (∀ a x, ((![v538] : Fin 1 → IVec S16 32) a x).toNat < S2800.size a)
instance k0_chk44.dec : ∀ (v538 : IVec S16 32), Decidable (k0_chk44 v538) := fun v538 => decidable_of_iff' _ (Iff.of_eq (k0_chk44.eq_1 v538))
theorem k0_idx44_inb : ∀ (v538 : IVec S16 32) (k0_hw44 : k0_chk44 v538), ∀ a x, ((![v538] : Fin 1 → IVec S16 32) a x).toNat < S2800.size a := fun v538 k0_hw44 => k0_hw44

def k0_chk45 (v541 : IVec S16 32) : Prop :=
  (∀ a x, ((![v541] : Fin 1 → IVec S16 32) a x).toNat < S2800.size a)
instance k0_chk45.dec : ∀ (v541 : IVec S16 32), Decidable (k0_chk45 v541) := fun v541 => decidable_of_iff' _ (Iff.of_eq (k0_chk45.eq_1 v541))
theorem k0_idx45_inb : ∀ (v541 : IVec S16 32) (k0_hw45 : k0_chk45 v541), ∀ a x, ((![v541] : Fin 1 → IVec S16 32) a x).toNat < S2800.size a := fun v541 k0_hw45 => k0_hw45

def k0_chk46 (v543 : IVec S16 32) : Prop :=
  (∀ a x, ((![v543] : Fin 1 → IVec S16 32) a x).toNat < S2800.size a)
instance k0_chk46.dec : ∀ (v543 : IVec S16 32), Decidable (k0_chk46 v543) := fun v543 => decidable_of_iff' _ (Iff.of_eq (k0_chk46.eq_1 v543))
theorem k0_idx46_inb : ∀ (v543 : IVec S16 32) (k0_hw46 : k0_chk46 v543), ∀ a x, ((![v543] : Fin 1 → IVec S16 32) a x).toNat < S2800.size a := fun v543 k0_hw46 => k0_hw46

def k0_chk47 (v546 : IVec S16 32) : Prop :=
  (∀ a x, ((![v546] : Fin 1 → IVec S16 32) a x).toNat < S2800.size a)
instance k0_chk47.dec : ∀ (v546 : IVec S16 32), Decidable (k0_chk47 v546) := fun v546 => decidable_of_iff' _ (Iff.of_eq (k0_chk47.eq_1 v546))
theorem k0_idx47_inb : ∀ (v546 : IVec S16 32) (k0_hw47 : k0_chk47 v546), ∀ a x, ((![v546] : Fin 1 → IVec S16 32) a x).toNat < S2800.size a := fun v546 k0_hw47 => k0_hw47

def k0_chk48 (v548 : IVec S16 32) : Prop :=
  (∀ a x, ((![v548] : Fin 1 → IVec S16 32) a x).toNat < S2800.size a)
instance k0_chk48.dec : ∀ (v548 : IVec S16 32), Decidable (k0_chk48 v548) := fun v548 => decidable_of_iff' _ (Iff.of_eq (k0_chk48.eq_1 v548))
theorem k0_idx48_inb : ∀ (v548 : IVec S16 32) (k0_hw48 : k0_chk48 v548), ∀ a x, ((![v548] : Fin 1 → IVec S16 32) a x).toNat < S2800.size a := fun v548 k0_hw48 => k0_hw48

def k0_chk49 (v551 : IVec S16 32) : Prop :=
  (∀ a x, ((![v551] : Fin 1 → IVec S16 32) a x).toNat < S2800.size a)
instance k0_chk49.dec : ∀ (v551 : IVec S16 32), Decidable (k0_chk49 v551) := fun v551 => decidable_of_iff' _ (Iff.of_eq (k0_chk49.eq_1 v551))
theorem k0_idx49_inb : ∀ (v551 : IVec S16 32) (k0_hw49 : k0_chk49 v551), ∀ a x, ((![v551] : Fin 1 → IVec S16 32) a x).toNat < S2800.size a := fun v551 k0_hw49 => k0_hw49

def k0_chk50 (v553 : IVec S16 32) : Prop :=
  (∀ a x, ((![v553] : Fin 1 → IVec S16 32) a x).toNat < S2800.size a)
instance k0_chk50.dec : ∀ (v553 : IVec S16 32), Decidable (k0_chk50 v553) := fun v553 => decidable_of_iff' _ (Iff.of_eq (k0_chk50.eq_1 v553))
theorem k0_idx50_inb : ∀ (v553 : IVec S16 32) (k0_hw50 : k0_chk50 v553), ∀ a x, ((![v553] : Fin 1 → IVec S16 32) a x).toNat < S2800.size a := fun v553 k0_hw50 => k0_hw50

def k0_chk51 (v556 : IVec S16 32) : Prop :=
  (∀ a x, ((![v556] : Fin 1 → IVec S16 32) a x).toNat < S2800.size a)
instance k0_chk51.dec : ∀ (v556 : IVec S16 32), Decidable (k0_chk51 v556) := fun v556 => decidable_of_iff' _ (Iff.of_eq (k0_chk51.eq_1 v556))
theorem k0_idx51_inb : ∀ (v556 : IVec S16 32) (k0_hw51 : k0_chk51 v556), ∀ a x, ((![v556] : Fin 1 → IVec S16 32) a x).toNat < S2800.size a := fun v556 k0_hw51 => k0_hw51

def k0_chk52 (v558 : IVec S16 32) : Prop :=
  (∀ a x, ((![v558] : Fin 1 → IVec S16 32) a x).toNat < S2800.size a)
instance k0_chk52.dec : ∀ (v558 : IVec S16 32), Decidable (k0_chk52 v558) := fun v558 => decidable_of_iff' _ (Iff.of_eq (k0_chk52.eq_1 v558))
theorem k0_idx52_inb : ∀ (v558 : IVec S16 32) (k0_hw52 : k0_chk52 v558), ∀ a x, ((![v558] : Fin 1 → IVec S16 32) a x).toNat < S2800.size a := fun v558 k0_hw52 => k0_hw52

def k0_chk53 (v561 : IVec S16 32) : Prop :=
  (∀ a x, ((![v561] : Fin 1 → IVec S16 32) a x).toNat < S2800.size a)
instance k0_chk53.dec : ∀ (v561 : IVec S16 32), Decidable (k0_chk53 v561) := fun v561 => decidable_of_iff' _ (Iff.of_eq (k0_chk53.eq_1 v561))
theorem k0_idx53_inb : ∀ (v561 : IVec S16 32) (k0_hw53 : k0_chk53 v561), ∀ a x, ((![v561] : Fin 1 → IVec S16 32) a x).toNat < S2800.size a := fun v561 k0_hw53 => k0_hw53

def k0_chk54 (v563 : IVec S16 32) : Prop :=
  (∀ a x, ((![v563] : Fin 1 → IVec S16 32) a x).toNat < S2800.size a)
instance k0_chk54.dec : ∀ (v563 : IVec S16 32), Decidable (k0_chk54 v563) := fun v563 => decidable_of_iff' _ (Iff.of_eq (k0_chk54.eq_1 v563))
theorem k0_idx54_inb : ∀ (v563 : IVec S16 32) (k0_hw54 : k0_chk54 v563), ∀ a x, ((![v563] : Fin 1 → IVec S16 32) a x).toNat < S2800.size a := fun v563 k0_hw54 => k0_hw54

def k0_chk55 (v566 : IVec S16 32) : Prop :=
  (∀ a x, ((![v566] : Fin 1 → IVec S16 32) a x).toNat < S2800.size a)
instance k0_chk55.dec : ∀ (v566 : IVec S16 32), Decidable (k0_chk55 v566) := fun v566 => decidable_of_iff' _ (Iff.of_eq (k0_chk55.eq_1 v566))
theorem k0_idx55_inb : ∀ (v566 : IVec S16 32) (k0_hw55 : k0_chk55 v566), ∀ a x, ((![v566] : Fin 1 → IVec S16 32) a x).toNat < S2800.size a := fun v566 k0_hw55 => k0_hw55

def k0_chk56 (v568 : IVec S16 32) : Prop :=
  (∀ a x, ((![v568] : Fin 1 → IVec S16 32) a x).toNat < S2800.size a)
instance k0_chk56.dec : ∀ (v568 : IVec S16 32), Decidable (k0_chk56 v568) := fun v568 => decidable_of_iff' _ (Iff.of_eq (k0_chk56.eq_1 v568))
theorem k0_idx56_inb : ∀ (v568 : IVec S16 32) (k0_hw56 : k0_chk56 v568), ∀ a x, ((![v568] : Fin 1 → IVec S16 32) a x).toNat < S2800.size a := fun v568 k0_hw56 => k0_hw56

def k0_chk57 (v571 : IVec S16 32) : Prop :=
  (∀ a x, ((![v571] : Fin 1 → IVec S16 32) a x).toNat < S2800.size a)
instance k0_chk57.dec : ∀ (v571 : IVec S16 32), Decidable (k0_chk57 v571) := fun v571 => decidable_of_iff' _ (Iff.of_eq (k0_chk57.eq_1 v571))
theorem k0_idx57_inb : ∀ (v571 : IVec S16 32) (k0_hw57 : k0_chk57 v571), ∀ a x, ((![v571] : Fin 1 → IVec S16 32) a x).toNat < S2800.size a := fun v571 k0_hw57 => k0_hw57

def k0_chk58 (v573 : IVec S16 32) : Prop :=
  (∀ a x, ((![v573] : Fin 1 → IVec S16 32) a x).toNat < S2800.size a)
instance k0_chk58.dec : ∀ (v573 : IVec S16 32), Decidable (k0_chk58 v573) := fun v573 => decidable_of_iff' _ (Iff.of_eq (k0_chk58.eq_1 v573))
theorem k0_idx58_inb : ∀ (v573 : IVec S16 32) (k0_hw58 : k0_chk58 v573), ∀ a x, ((![v573] : Fin 1 → IVec S16 32) a x).toNat < S2800.size a := fun v573 k0_hw58 => k0_hw58

def k0_chk59 (v576 : IVec S16 32) : Prop :=
  (∀ a x, ((![v576] : Fin 1 → IVec S16 32) a x).toNat < S2800.size a)
instance k0_chk59.dec : ∀ (v576 : IVec S16 32), Decidable (k0_chk59 v576) := fun v576 => decidable_of_iff' _ (Iff.of_eq (k0_chk59.eq_1 v576))
theorem k0_idx59_inb : ∀ (v576 : IVec S16 32) (k0_hw59 : k0_chk59 v576), ∀ a x, ((![v576] : Fin 1 → IVec S16 32) a x).toNat < S2800.size a := fun v576 k0_hw59 => k0_hw59

def k0_chk60 (v578 : IVec S16 32) : Prop :=
  (∀ a x, ((![v578] : Fin 1 → IVec S16 32) a x).toNat < S2800.size a)
instance k0_chk60.dec : ∀ (v578 : IVec S16 32), Decidable (k0_chk60 v578) := fun v578 => decidable_of_iff' _ (Iff.of_eq (k0_chk60.eq_1 v578))
theorem k0_idx60_inb : ∀ (v578 : IVec S16 32) (k0_hw60 : k0_chk60 v578), ∀ a x, ((![v578] : Fin 1 → IVec S16 32) a x).toNat < S2800.size a := fun v578 k0_hw60 => k0_hw60

def k0_chk61 (v581 : IVec S16 32) : Prop :=
  (∀ a x, ((![v581] : Fin 1 → IVec S16 32) a x).toNat < S2800.size a)
instance k0_chk61.dec : ∀ (v581 : IVec S16 32), Decidable (k0_chk61 v581) := fun v581 => decidable_of_iff' _ (Iff.of_eq (k0_chk61.eq_1 v581))
theorem k0_idx61_inb : ∀ (v581 : IVec S16 32) (k0_hw61 : k0_chk61 v581), ∀ a x, ((![v581] : Fin 1 → IVec S16 32) a x).toNat < S2800.size a := fun v581 k0_hw61 => k0_hw61

def k0_chk62 (v583 : IVec S16 32) : Prop :=
  (∀ a x, ((![v583] : Fin 1 → IVec S16 32) a x).toNat < S2800.size a)
instance k0_chk62.dec : ∀ (v583 : IVec S16 32), Decidable (k0_chk62 v583) := fun v583 => decidable_of_iff' _ (Iff.of_eq (k0_chk62.eq_1 v583))
theorem k0_idx62_inb : ∀ (v583 : IVec S16 32) (k0_hw62 : k0_chk62 v583), ∀ a x, ((![v583] : Fin 1 → IVec S16 32) a x).toNat < S2800.size a := fun v583 k0_hw62 => k0_hw62

def k0_chk63 (v586 : IVec S16 32) : Prop :=
  (∀ a x, ((![v586] : Fin 1 → IVec S16 32) a x).toNat < S2800.size a)
instance k0_chk63.dec : ∀ (v586 : IVec S16 32), Decidable (k0_chk63 v586) := fun v586 => decidable_of_iff' _ (Iff.of_eq (k0_chk63.eq_1 v586))
theorem k0_idx63_inb : ∀ (v586 : IVec S16 32) (k0_hw63 : k0_chk63 v586), ∀ a x, ((![v586] : Fin 1 → IVec S16 32) a x).toNat < S2800.size a := fun v586 k0_hw63 => k0_hw63

def k0_chk64 (v588 : IVec S16 32) : Prop :=
  (∀ a x, ((![v588] : Fin 1 → IVec S16 32) a x).toNat < S2800.size a)
instance k0_chk64.dec : ∀ (v588 : IVec S16 32), Decidable (k0_chk64 v588) := fun v588 => decidable_of_iff' _ (Iff.of_eq (k0_chk64.eq_1 v588))
theorem k0_idx64_inb : ∀ (v588 : IVec S16 32) (k0_hw64 : k0_chk64 v588), ∀ a x, ((![v588] : Fin 1 → IVec S16 32) a x).toNat < S2800.size a := fun v588 k0_hw64 => k0_hw64

def k0_chk65 (v591 : IVec S16 32) : Prop :=
  (∀ a x, ((![v591] : Fin 1 → IVec S16 32) a x).toNat < S2800.size a)
instance k0_chk65.dec : ∀ (v591 : IVec S16 32), Decidable (k0_chk65 v591) := fun v591 => decidable_of_iff' _ (Iff.of_eq (k0_chk65.eq_1 v591))
theorem k0_idx65_inb : ∀ (v591 : IVec S16 32) (k0_hw65 : k0_chk65 v591), ∀ a x, ((![v591] : Fin 1 → IVec S16 32) a x).toNat < S2800.size a := fun v591 k0_hw65 => k0_hw65

def k0_chk66 (v593 : IVec S16 32) : Prop :=
  (∀ a x, ((![v593] : Fin 1 → IVec S16 32) a x).toNat < S2800.size a)
instance k0_chk66.dec : ∀ (v593 : IVec S16 32), Decidable (k0_chk66 v593) := fun v593 => decidable_of_iff' _ (Iff.of_eq (k0_chk66.eq_1 v593))
theorem k0_idx66_inb : ∀ (v593 : IVec S16 32) (k0_hw66 : k0_chk66 v593), ∀ a x, ((![v593] : Fin 1 → IVec S16 32) a x).toNat < S2800.size a := fun v593 k0_hw66 => k0_hw66

def k0_chk67 (v596 : IVec S16 32) : Prop :=
  (∀ a x, ((![v596] : Fin 1 → IVec S16 32) a x).toNat < S2800.size a)
instance k0_chk67.dec : ∀ (v596 : IVec S16 32), Decidable (k0_chk67 v596) := fun v596 => decidable_of_iff' _ (Iff.of_eq (k0_chk67.eq_1 v596))
theorem k0_idx67_inb : ∀ (v596 : IVec S16 32) (k0_hw67 : k0_chk67 v596), ∀ a x, ((![v596] : Fin 1 → IVec S16 32) a x).toNat < S2800.size a := fun v596 k0_hw67 => k0_hw67

def k0_chk68 (v598 : IVec S16 32) : Prop :=
  (∀ a x, ((![v598] : Fin 1 → IVec S16 32) a x).toNat < S2800.size a)
instance k0_chk68.dec : ∀ (v598 : IVec S16 32), Decidable (k0_chk68 v598) := fun v598 => decidable_of_iff' _ (Iff.of_eq (k0_chk68.eq_1 v598))
theorem k0_idx68_inb : ∀ (v598 : IVec S16 32) (k0_hw68 : k0_chk68 v598), ∀ a x, ((![v598] : Fin 1 → IVec S16 32) a x).toNat < S2800.size a := fun v598 k0_hw68 => k0_hw68

def k0_chk69 (v601 : IVec S16 32) : Prop :=
  (∀ a x, ((![v601] : Fin 1 → IVec S16 32) a x).toNat < S2800.size a)
instance k0_chk69.dec : ∀ (v601 : IVec S16 32), Decidable (k0_chk69 v601) := fun v601 => decidable_of_iff' _ (Iff.of_eq (k0_chk69.eq_1 v601))
theorem k0_idx69_inb : ∀ (v601 : IVec S16 32) (k0_hw69 : k0_chk69 v601), ∀ a x, ((![v601] : Fin 1 → IVec S16 32) a x).toNat < S2800.size a := fun v601 k0_hw69 => k0_hw69

def k0_chk70 (v603 : IVec S16 32) : Prop :=
  (∀ a x, ((![v603] : Fin 1 → IVec S16 32) a x).toNat < S2800.size a)
instance k0_chk70.dec : ∀ (v603 : IVec S16 32), Decidable (k0_chk70 v603) := fun v603 => decidable_of_iff' _ (Iff.of_eq (k0_chk70.eq_1 v603))
theorem k0_idx70_inb : ∀ (v603 : IVec S16 32) (k0_hw70 : k0_chk70 v603), ∀ a x, ((![v603] : Fin 1 → IVec S16 32) a x).toNat < S2800.size a := fun v603 k0_hw70 => k0_hw70

def k0_chk71 (v606 : IVec S16 32) : Prop :=
  (∀ a x, ((![v606] : Fin 1 → IVec S16 32) a x).toNat < S2800.size a)
instance k0_chk71.dec : ∀ (v606 : IVec S16 32), Decidable (k0_chk71 v606) := fun v606 => decidable_of_iff' _ (Iff.of_eq (k0_chk71.eq_1 v606))
theorem k0_idx71_inb : ∀ (v606 : IVec S16 32) (k0_hw71 : k0_chk71 v606), ∀ a x, ((![v606] : Fin 1 → IVec S16 32) a x).toNat < S2800.size a := fun v606 k0_hw71 => k0_hw71

def k0_chk72 (v608 : IVec S16 32) : Prop :=
  (∀ a x, ((![v608] : Fin 1 → IVec S16 32) a x).toNat < S2800.size a)
instance k0_chk72.dec : ∀ (v608 : IVec S16 32), Decidable (k0_chk72 v608) := fun v608 => decidable_of_iff' _ (Iff.of_eq (k0_chk72.eq_1 v608))
theorem k0_idx72_inb : ∀ (v608 : IVec S16 32) (k0_hw72 : k0_chk72 v608), ∀ a x, ((![v608] : Fin 1 → IVec S16 32) a x).toNat < S2800.size a := fun v608 k0_hw72 => k0_hw72

def k0_chk73 (v611 : IVec S16 32) : Prop :=
  (∀ a x, ((![v611] : Fin 1 → IVec S16 32) a x).toNat < S2800.size a)
instance k0_chk73.dec : ∀ (v611 : IVec S16 32), Decidable (k0_chk73 v611) := fun v611 => decidable_of_iff' _ (Iff.of_eq (k0_chk73.eq_1 v611))
theorem k0_idx73_inb : ∀ (v611 : IVec S16 32) (k0_hw73 : k0_chk73 v611), ∀ a x, ((![v611] : Fin 1 → IVec S16 32) a x).toNat < S2800.size a := fun v611 k0_hw73 => k0_hw73

def k0_chk74 (v613 : IVec S16 32) : Prop :=
  (∀ a x, ((![v613] : Fin 1 → IVec S16 32) a x).toNat < S2800.size a)
instance k0_chk74.dec : ∀ (v613 : IVec S16 32), Decidable (k0_chk74 v613) := fun v613 => decidable_of_iff' _ (Iff.of_eq (k0_chk74.eq_1 v613))
theorem k0_idx74_inb : ∀ (v613 : IVec S16 32) (k0_hw74 : k0_chk74 v613), ∀ a x, ((![v613] : Fin 1 → IVec S16 32) a x).toNat < S2800.size a := fun v613 k0_hw74 => k0_hw74

def k0_chk75 (v616 : IVec S16 32) : Prop :=
  (∀ a x, ((![v616] : Fin 1 → IVec S16 32) a x).toNat < S2800.size a)
instance k0_chk75.dec : ∀ (v616 : IVec S16 32), Decidable (k0_chk75 v616) := fun v616 => decidable_of_iff' _ (Iff.of_eq (k0_chk75.eq_1 v616))
theorem k0_idx75_inb : ∀ (v616 : IVec S16 32) (k0_hw75 : k0_chk75 v616), ∀ a x, ((![v616] : Fin 1 → IVec S16 32) a x).toNat < S2800.size a := fun v616 k0_hw75 => k0_hw75

def k0_chk76 (v618 : IVec S16 32) : Prop :=
  (∀ a x, ((![v618] : Fin 1 → IVec S16 32) a x).toNat < S2800.size a)
instance k0_chk76.dec : ∀ (v618 : IVec S16 32), Decidable (k0_chk76 v618) := fun v618 => decidable_of_iff' _ (Iff.of_eq (k0_chk76.eq_1 v618))
theorem k0_idx76_inb : ∀ (v618 : IVec S16 32) (k0_hw76 : k0_chk76 v618), ∀ a x, ((![v618] : Fin 1 → IVec S16 32) a x).toNat < S2800.size a := fun v618 k0_hw76 => k0_hw76

def k0_chk77 (v621 : IVec S16 32) : Prop :=
  (∀ a x, ((![v621] : Fin 1 → IVec S16 32) a x).toNat < S2800.size a)
instance k0_chk77.dec : ∀ (v621 : IVec S16 32), Decidable (k0_chk77 v621) := fun v621 => decidable_of_iff' _ (Iff.of_eq (k0_chk77.eq_1 v621))
theorem k0_idx77_inb : ∀ (v621 : IVec S16 32) (k0_hw77 : k0_chk77 v621), ∀ a x, ((![v621] : Fin 1 → IVec S16 32) a x).toNat < S2800.size a := fun v621 k0_hw77 => k0_hw77

def k0_chk78 (v623 : IVec S16 32) : Prop :=
  (∀ a x, ((![v623] : Fin 1 → IVec S16 32) a x).toNat < S2800.size a)
instance k0_chk78.dec : ∀ (v623 : IVec S16 32), Decidable (k0_chk78 v623) := fun v623 => decidable_of_iff' _ (Iff.of_eq (k0_chk78.eq_1 v623))
theorem k0_idx78_inb : ∀ (v623 : IVec S16 32) (k0_hw78 : k0_chk78 v623), ∀ a x, ((![v623] : Fin 1 → IVec S16 32) a x).toNat < S2800.size a := fun v623 k0_hw78 => k0_hw78

def k0_chk79 (v626 : IVec S16 32) : Prop :=
  (∀ a x, ((![v626] : Fin 1 → IVec S16 32) a x).toNat < S2800.size a)
instance k0_chk79.dec : ∀ (v626 : IVec S16 32), Decidable (k0_chk79 v626) := fun v626 => decidable_of_iff' _ (Iff.of_eq (k0_chk79.eq_1 v626))
theorem k0_idx79_inb : ∀ (v626 : IVec S16 32) (k0_hw79 : k0_chk79 v626), ∀ a x, ((![v626] : Fin 1 → IVec S16 32) a x).toNat < S2800.size a := fun v626 k0_hw79 => k0_hw79

def k0_chk80 (v628 : IVec S16 32) : Prop :=
  (∀ a x, ((![v628] : Fin 1 → IVec S16 32) a x).toNat < S2800.size a)
instance k0_chk80.dec : ∀ (v628 : IVec S16 32), Decidable (k0_chk80 v628) := fun v628 => decidable_of_iff' _ (Iff.of_eq (k0_chk80.eq_1 v628))
theorem k0_idx80_inb : ∀ (v628 : IVec S16 32) (k0_hw80 : k0_chk80 v628), ∀ a x, ((![v628] : Fin 1 → IVec S16 32) a x).toNat < S2800.size a := fun v628 k0_hw80 => k0_hw80

def k0_chk81 (v631 : IVec S16 32) : Prop :=
  (∀ a x, ((![v631] : Fin 1 → IVec S16 32) a x).toNat < S2800.size a)
instance k0_chk81.dec : ∀ (v631 : IVec S16 32), Decidable (k0_chk81 v631) := fun v631 => decidable_of_iff' _ (Iff.of_eq (k0_chk81.eq_1 v631))
theorem k0_idx81_inb : ∀ (v631 : IVec S16 32) (k0_hw81 : k0_chk81 v631), ∀ a x, ((![v631] : Fin 1 → IVec S16 32) a x).toNat < S2800.size a := fun v631 k0_hw81 => k0_hw81

def k0_chk82 (v633 : IVec S16 32) : Prop :=
  (∀ a x, ((![v633] : Fin 1 → IVec S16 32) a x).toNat < S2800.size a)
instance k0_chk82.dec : ∀ (v633 : IVec S16 32), Decidable (k0_chk82 v633) := fun v633 => decidable_of_iff' _ (Iff.of_eq (k0_chk82.eq_1 v633))
theorem k0_idx82_inb : ∀ (v633 : IVec S16 32) (k0_hw82 : k0_chk82 v633), ∀ a x, ((![v633] : Fin 1 → IVec S16 32) a x).toNat < S2800.size a := fun v633 k0_hw82 => k0_hw82

def k0_chk83 (v636 : IVec S16 32) : Prop :=
  (∀ a x, ((![v636] : Fin 1 → IVec S16 32) a x).toNat < S2800.size a)
instance k0_chk83.dec : ∀ (v636 : IVec S16 32), Decidable (k0_chk83 v636) := fun v636 => decidable_of_iff' _ (Iff.of_eq (k0_chk83.eq_1 v636))
theorem k0_idx83_inb : ∀ (v636 : IVec S16 32) (k0_hw83 : k0_chk83 v636), ∀ a x, ((![v636] : Fin 1 → IVec S16 32) a x).toNat < S2800.size a := fun v636 k0_hw83 => k0_hw83

def k0_chk84 (v638 : IVec S16 32) : Prop :=
  (∀ a x, ((![v638] : Fin 1 → IVec S16 32) a x).toNat < S2800.size a)
instance k0_chk84.dec : ∀ (v638 : IVec S16 32), Decidable (k0_chk84 v638) := fun v638 => decidable_of_iff' _ (Iff.of_eq (k0_chk84.eq_1 v638))
theorem k0_idx84_inb : ∀ (v638 : IVec S16 32) (k0_hw84 : k0_chk84 v638), ∀ a x, ((![v638] : Fin 1 → IVec S16 32) a x).toNat < S2800.size a := fun v638 k0_hw84 => k0_hw84

def k0_chk85 (v641 : IVec S16 32) : Prop :=
  (∀ a x, ((![v641] : Fin 1 → IVec S16 32) a x).toNat < S2800.size a)
instance k0_chk85.dec : ∀ (v641 : IVec S16 32), Decidable (k0_chk85 v641) := fun v641 => decidable_of_iff' _ (Iff.of_eq (k0_chk85.eq_1 v641))
theorem k0_idx85_inb : ∀ (v641 : IVec S16 32) (k0_hw85 : k0_chk85 v641), ∀ a x, ((![v641] : Fin 1 → IVec S16 32) a x).toNat < S2800.size a := fun v641 k0_hw85 => k0_hw85

def k0_chk86 (v643 : IVec S16 32) : Prop :=
  (∀ a x, ((![v643] : Fin 1 → IVec S16 32) a x).toNat < S2800.size a)
instance k0_chk86.dec : ∀ (v643 : IVec S16 32), Decidable (k0_chk86 v643) := fun v643 => decidable_of_iff' _ (Iff.of_eq (k0_chk86.eq_1 v643))
theorem k0_idx86_inb : ∀ (v643 : IVec S16 32) (k0_hw86 : k0_chk86 v643), ∀ a x, ((![v643] : Fin 1 → IVec S16 32) a x).toNat < S2800.size a := fun v643 k0_hw86 => k0_hw86

def k0_chk87 (v646 : IVec S16 32) : Prop :=
  (∀ a x, ((![v646] : Fin 1 → IVec S16 32) a x).toNat < S2800.size a)
instance k0_chk87.dec : ∀ (v646 : IVec S16 32), Decidable (k0_chk87 v646) := fun v646 => decidable_of_iff' _ (Iff.of_eq (k0_chk87.eq_1 v646))
theorem k0_idx87_inb : ∀ (v646 : IVec S16 32) (k0_hw87 : k0_chk87 v646), ∀ a x, ((![v646] : Fin 1 → IVec S16 32) a x).toNat < S2800.size a := fun v646 k0_hw87 => k0_hw87

def k0_chk88 (v648 : IVec S16 32) : Prop :=
  (∀ a x, ((![v648] : Fin 1 → IVec S16 32) a x).toNat < S2800.size a)
instance k0_chk88.dec : ∀ (v648 : IVec S16 32), Decidable (k0_chk88 v648) := fun v648 => decidable_of_iff' _ (Iff.of_eq (k0_chk88.eq_1 v648))
theorem k0_idx88_inb : ∀ (v648 : IVec S16 32) (k0_hw88 : k0_chk88 v648), ∀ a x, ((![v648] : Fin 1 → IVec S16 32) a x).toNat < S2800.size a := fun v648 k0_hw88 => k0_hw88

def k0_chk89 (v651 : IVec S16 32) : Prop :=
  (∀ a x, ((![v651] : Fin 1 → IVec S16 32) a x).toNat < S2800.size a)
instance k0_chk89.dec : ∀ (v651 : IVec S16 32), Decidable (k0_chk89 v651) := fun v651 => decidable_of_iff' _ (Iff.of_eq (k0_chk89.eq_1 v651))
theorem k0_idx89_inb : ∀ (v651 : IVec S16 32) (k0_hw89 : k0_chk89 v651), ∀ a x, ((![v651] : Fin 1 → IVec S16 32) a x).toNat < S2800.size a := fun v651 k0_hw89 => k0_hw89

def k0_chk90 (v653 : IVec S16 32) : Prop :=
  (∀ a x, ((![v653] : Fin 1 → IVec S16 32) a x).toNat < S2800.size a)
instance k0_chk90.dec : ∀ (v653 : IVec S16 32), Decidable (k0_chk90 v653) := fun v653 => decidable_of_iff' _ (Iff.of_eq (k0_chk90.eq_1 v653))
theorem k0_idx90_inb : ∀ (v653 : IVec S16 32) (k0_hw90 : k0_chk90 v653), ∀ a x, ((![v653] : Fin 1 → IVec S16 32) a x).toNat < S2800.size a := fun v653 k0_hw90 => k0_hw90

def k0_chk91 (v656 : IVec S16 32) : Prop :=
  (∀ a x, ((![v656] : Fin 1 → IVec S16 32) a x).toNat < S2800.size a)
instance k0_chk91.dec : ∀ (v656 : IVec S16 32), Decidable (k0_chk91 v656) := fun v656 => decidable_of_iff' _ (Iff.of_eq (k0_chk91.eq_1 v656))
theorem k0_idx91_inb : ∀ (v656 : IVec S16 32) (k0_hw91 : k0_chk91 v656), ∀ a x, ((![v656] : Fin 1 → IVec S16 32) a x).toNat < S2800.size a := fun v656 k0_hw91 => k0_hw91

def k0_chk92 (v658 : IVec S16 32) : Prop :=
  (∀ a x, ((![v658] : Fin 1 → IVec S16 32) a x).toNat < S2800.size a)
instance k0_chk92.dec : ∀ (v658 : IVec S16 32), Decidable (k0_chk92 v658) := fun v658 => decidable_of_iff' _ (Iff.of_eq (k0_chk92.eq_1 v658))
theorem k0_idx92_inb : ∀ (v658 : IVec S16 32) (k0_hw92 : k0_chk92 v658), ∀ a x, ((![v658] : Fin 1 → IVec S16 32) a x).toNat < S2800.size a := fun v658 k0_hw92 => k0_hw92

def k0_chk93 (v661 : IVec S16 32) : Prop :=
  (∀ a x, ((![v661] : Fin 1 → IVec S16 32) a x).toNat < S2800.size a)
instance k0_chk93.dec : ∀ (v661 : IVec S16 32), Decidable (k0_chk93 v661) := fun v661 => decidable_of_iff' _ (Iff.of_eq (k0_chk93.eq_1 v661))
theorem k0_idx93_inb : ∀ (v661 : IVec S16 32) (k0_hw93 : k0_chk93 v661), ∀ a x, ((![v661] : Fin 1 → IVec S16 32) a x).toNat < S2800.size a := fun v661 k0_hw93 => k0_hw93

def k0_chk94 (v663 : IVec S16 32) : Prop :=
  (∀ a x, ((![v663] : Fin 1 → IVec S16 32) a x).toNat < S2800.size a)
instance k0_chk94.dec : ∀ (v663 : IVec S16 32), Decidable (k0_chk94 v663) := fun v663 => decidable_of_iff' _ (Iff.of_eq (k0_chk94.eq_1 v663))
theorem k0_idx94_inb : ∀ (v663 : IVec S16 32) (k0_hw94 : k0_chk94 v663), ∀ a x, ((![v663] : Fin 1 → IVec S16 32) a x).toNat < S2800.size a := fun v663 k0_hw94 => k0_hw94

def k0_chk95 (v666 : IVec S16 32) : Prop :=
  (∀ a x, ((![v666] : Fin 1 → IVec S16 32) a x).toNat < S2800.size a)
instance k0_chk95.dec : ∀ (v666 : IVec S16 32), Decidable (k0_chk95 v666) := fun v666 => decidable_of_iff' _ (Iff.of_eq (k0_chk95.eq_1 v666))
theorem k0_idx95_inb : ∀ (v666 : IVec S16 32) (k0_hw95 : k0_chk95 v666), ∀ a x, ((![v666] : Fin 1 → IVec S16 32) a x).toNat < S2800.size a := fun v666 k0_hw95 => k0_hw95

def k0_chk96 (v668 : IVec S16 32) : Prop :=
  (∀ a x, ((![v668] : Fin 1 → IVec S16 32) a x).toNat < S2800.size a)
instance k0_chk96.dec : ∀ (v668 : IVec S16 32), Decidable (k0_chk96 v668) := fun v668 => decidable_of_iff' _ (Iff.of_eq (k0_chk96.eq_1 v668))
theorem k0_idx96_inb : ∀ (v668 : IVec S16 32) (k0_hw96 : k0_chk96 v668), ∀ a x, ((![v668] : Fin 1 → IVec S16 32) a x).toNat < S2800.size a := fun v668 k0_hw96 => k0_hw96

def k0_chk97 (v671 : IVec S16 32) : Prop :=
  (∀ a x, ((![v671] : Fin 1 → IVec S16 32) a x).toNat < S2800.size a)
instance k0_chk97.dec : ∀ (v671 : IVec S16 32), Decidable (k0_chk97 v671) := fun v671 => decidable_of_iff' _ (Iff.of_eq (k0_chk97.eq_1 v671))
theorem k0_idx97_inb : ∀ (v671 : IVec S16 32) (k0_hw97 : k0_chk97 v671), ∀ a x, ((![v671] : Fin 1 → IVec S16 32) a x).toNat < S2800.size a := fun v671 k0_hw97 => k0_hw97

def k0_chk98 (v673 : IVec S16 32) : Prop :=
  (∀ a x, ((![v673] : Fin 1 → IVec S16 32) a x).toNat < S2800.size a)
instance k0_chk98.dec : ∀ (v673 : IVec S16 32), Decidable (k0_chk98 v673) := fun v673 => decidable_of_iff' _ (Iff.of_eq (k0_chk98.eq_1 v673))
theorem k0_idx98_inb : ∀ (v673 : IVec S16 32) (k0_hw98 : k0_chk98 v673), ∀ a x, ((![v673] : Fin 1 → IVec S16 32) a x).toNat < S2800.size a := fun v673 k0_hw98 => k0_hw98

def k0_chk99 (v676 : IVec S16 32) : Prop :=
  (∀ a x, ((![v676] : Fin 1 → IVec S16 32) a x).toNat < S2800.size a)
instance k0_chk99.dec : ∀ (v676 : IVec S16 32), Decidable (k0_chk99 v676) := fun v676 => decidable_of_iff' _ (Iff.of_eq (k0_chk99.eq_1 v676))
theorem k0_idx99_inb : ∀ (v676 : IVec S16 32) (k0_hw99 : k0_chk99 v676), ∀ a x, ((![v676] : Fin 1 → IVec S16 32) a x).toNat < S2800.size a := fun v676 k0_hw99 => k0_hw99

def k0_chk100 (v678 : IVec S16 32) : Prop :=
  (∀ a x, ((![v678] : Fin 1 → IVec S16 32) a x).toNat < S2800.size a)
instance k0_chk100.dec : ∀ (v678 : IVec S16 32), Decidable (k0_chk100 v678) := fun v678 => decidable_of_iff' _ (Iff.of_eq (k0_chk100.eq_1 v678))
theorem k0_idx100_inb : ∀ (v678 : IVec S16 32) (k0_hw100 : k0_chk100 v678), ∀ a x, ((![v678] : Fin 1 → IVec S16 32) a x).toNat < S2800.size a := fun v678 k0_hw100 => k0_hw100

def k0_chk101 (v681 : IVec S16 32) : Prop :=
  (∀ a x, ((![v681] : Fin 1 → IVec S16 32) a x).toNat < S2800.size a)
instance k0_chk101.dec : ∀ (v681 : IVec S16 32), Decidable (k0_chk101 v681) := fun v681 => decidable_of_iff' _ (Iff.of_eq (k0_chk101.eq_1 v681))
theorem k0_idx101_inb : ∀ (v681 : IVec S16 32) (k0_hw101 : k0_chk101 v681), ∀ a x, ((![v681] : Fin 1 → IVec S16 32) a x).toNat < S2800.size a := fun v681 k0_hw101 => k0_hw101

def k0_chk102 (v683 : IVec S16 32) : Prop :=
  (∀ a x, ((![v683] : Fin 1 → IVec S16 32) a x).toNat < S2800.size a)
instance k0_chk102.dec : ∀ (v683 : IVec S16 32), Decidable (k0_chk102 v683) := fun v683 => decidable_of_iff' _ (Iff.of_eq (k0_chk102.eq_1 v683))
theorem k0_idx102_inb : ∀ (v683 : IVec S16 32) (k0_hw102 : k0_chk102 v683), ∀ a x, ((![v683] : Fin 1 → IVec S16 32) a x).toNat < S2800.size a := fun v683 k0_hw102 => k0_hw102

def k0_chk103 (v686 : IVec S16 32) : Prop :=
  (∀ a x, ((![v686] : Fin 1 → IVec S16 32) a x).toNat < S2800.size a)
instance k0_chk103.dec : ∀ (v686 : IVec S16 32), Decidable (k0_chk103 v686) := fun v686 => decidable_of_iff' _ (Iff.of_eq (k0_chk103.eq_1 v686))
theorem k0_idx103_inb : ∀ (v686 : IVec S16 32) (k0_hw103 : k0_chk103 v686), ∀ a x, ((![v686] : Fin 1 → IVec S16 32) a x).toNat < S2800.size a := fun v686 k0_hw103 => k0_hw103

def k0_chk104 (v688 : IVec S16 32) : Prop :=
  (∀ a x, ((![v688] : Fin 1 → IVec S16 32) a x).toNat < S2800.size a)
instance k0_chk104.dec : ∀ (v688 : IVec S16 32), Decidable (k0_chk104 v688) := fun v688 => decidable_of_iff' _ (Iff.of_eq (k0_chk104.eq_1 v688))
theorem k0_idx104_inb : ∀ (v688 : IVec S16 32) (k0_hw104 : k0_chk104 v688), ∀ a x, ((![v688] : Fin 1 → IVec S16 32) a x).toNat < S2800.size a := fun v688 k0_hw104 => k0_hw104

def k0_chk105 (v691 : IVec S16 32) : Prop :=
  (∀ a x, ((![v691] : Fin 1 → IVec S16 32) a x).toNat < S2800.size a)
instance k0_chk105.dec : ∀ (v691 : IVec S16 32), Decidable (k0_chk105 v691) := fun v691 => decidable_of_iff' _ (Iff.of_eq (k0_chk105.eq_1 v691))
theorem k0_idx105_inb : ∀ (v691 : IVec S16 32) (k0_hw105 : k0_chk105 v691), ∀ a x, ((![v691] : Fin 1 → IVec S16 32) a x).toNat < S2800.size a := fun v691 k0_hw105 => k0_hw105

def k0_chk106 (v693 : IVec S16 32) : Prop :=
  (∀ a x, ((![v693] : Fin 1 → IVec S16 32) a x).toNat < S2800.size a)
instance k0_chk106.dec : ∀ (v693 : IVec S16 32), Decidable (k0_chk106 v693) := fun v693 => decidable_of_iff' _ (Iff.of_eq (k0_chk106.eq_1 v693))
theorem k0_idx106_inb : ∀ (v693 : IVec S16 32) (k0_hw106 : k0_chk106 v693), ∀ a x, ((![v693] : Fin 1 → IVec S16 32) a x).toNat < S2800.size a := fun v693 k0_hw106 => k0_hw106

def k0_chk107 (v696 : IVec S16 32) : Prop :=
  (∀ a x, ((![v696] : Fin 1 → IVec S16 32) a x).toNat < S2800.size a)
instance k0_chk107.dec : ∀ (v696 : IVec S16 32), Decidable (k0_chk107 v696) := fun v696 => decidable_of_iff' _ (Iff.of_eq (k0_chk107.eq_1 v696))
theorem k0_idx107_inb : ∀ (v696 : IVec S16 32) (k0_hw107 : k0_chk107 v696), ∀ a x, ((![v696] : Fin 1 → IVec S16 32) a x).toNat < S2800.size a := fun v696 k0_hw107 => k0_hw107

def k0_chk108 (v698 : IVec S16 32) : Prop :=
  (∀ a x, ((![v698] : Fin 1 → IVec S16 32) a x).toNat < S2800.size a)
instance k0_chk108.dec : ∀ (v698 : IVec S16 32), Decidable (k0_chk108 v698) := fun v698 => decidable_of_iff' _ (Iff.of_eq (k0_chk108.eq_1 v698))
theorem k0_idx108_inb : ∀ (v698 : IVec S16 32) (k0_hw108 : k0_chk108 v698), ∀ a x, ((![v698] : Fin 1 → IVec S16 32) a x).toNat < S2800.size a := fun v698 k0_hw108 => k0_hw108

def k0_chk109 (v701 : IVec S16 32) : Prop :=
  (∀ a x, ((![v701] : Fin 1 → IVec S16 32) a x).toNat < S2800.size a)
instance k0_chk109.dec : ∀ (v701 : IVec S16 32), Decidable (k0_chk109 v701) := fun v701 => decidable_of_iff' _ (Iff.of_eq (k0_chk109.eq_1 v701))
theorem k0_idx109_inb : ∀ (v701 : IVec S16 32) (k0_hw109 : k0_chk109 v701), ∀ a x, ((![v701] : Fin 1 → IVec S16 32) a x).toNat < S2800.size a := fun v701 k0_hw109 => k0_hw109

def k0_chk110 (v703 : IVec S16 32) : Prop :=
  (∀ a x, ((![v703] : Fin 1 → IVec S16 32) a x).toNat < S2800.size a)
instance k0_chk110.dec : ∀ (v703 : IVec S16 32), Decidable (k0_chk110 v703) := fun v703 => decidable_of_iff' _ (Iff.of_eq (k0_chk110.eq_1 v703))
theorem k0_idx110_inb : ∀ (v703 : IVec S16 32) (k0_hw110 : k0_chk110 v703), ∀ a x, ((![v703] : Fin 1 → IVec S16 32) a x).toNat < S2800.size a := fun v703 k0_hw110 => k0_hw110

def k0_chk111 (v706 : IVec S16 32) : Prop :=
  (∀ a x, ((![v706] : Fin 1 → IVec S16 32) a x).toNat < S2800.size a)
instance k0_chk111.dec : ∀ (v706 : IVec S16 32), Decidable (k0_chk111 v706) := fun v706 => decidable_of_iff' _ (Iff.of_eq (k0_chk111.eq_1 v706))
theorem k0_idx111_inb : ∀ (v706 : IVec S16 32) (k0_hw111 : k0_chk111 v706), ∀ a x, ((![v706] : Fin 1 → IVec S16 32) a x).toNat < S2800.size a := fun v706 k0_hw111 => k0_hw111

def k0_chk112 (v708 : IVec S16 32) : Prop :=
  (∀ a x, ((![v708] : Fin 1 → IVec S16 32) a x).toNat < S2800.size a)
instance k0_chk112.dec : ∀ (v708 : IVec S16 32), Decidable (k0_chk112 v708) := fun v708 => decidable_of_iff' _ (Iff.of_eq (k0_chk112.eq_1 v708))
theorem k0_idx112_inb : ∀ (v708 : IVec S16 32) (k0_hw112 : k0_chk112 v708), ∀ a x, ((![v708] : Fin 1 → IVec S16 32) a x).toNat < S2800.size a := fun v708 k0_hw112 => k0_hw112

def k0_chk113 (v711 : IVec S16 32) : Prop :=
  (∀ a x, ((![v711] : Fin 1 → IVec S16 32) a x).toNat < S2800.size a)
instance k0_chk113.dec : ∀ (v711 : IVec S16 32), Decidable (k0_chk113 v711) := fun v711 => decidable_of_iff' _ (Iff.of_eq (k0_chk113.eq_1 v711))
theorem k0_idx113_inb : ∀ (v711 : IVec S16 32) (k0_hw113 : k0_chk113 v711), ∀ a x, ((![v711] : Fin 1 → IVec S16 32) a x).toNat < S2800.size a := fun v711 k0_hw113 => k0_hw113

def k0_chk114 (v713 : IVec S16 32) : Prop :=
  (∀ a x, ((![v713] : Fin 1 → IVec S16 32) a x).toNat < S2800.size a)
instance k0_chk114.dec : ∀ (v713 : IVec S16 32), Decidable (k0_chk114 v713) := fun v713 => decidable_of_iff' _ (Iff.of_eq (k0_chk114.eq_1 v713))
theorem k0_idx114_inb : ∀ (v713 : IVec S16 32) (k0_hw114 : k0_chk114 v713), ∀ a x, ((![v713] : Fin 1 → IVec S16 32) a x).toNat < S2800.size a := fun v713 k0_hw114 => k0_hw114

def k0_chk115 (v716 : IVec S16 32) : Prop :=
  (∀ a x, ((![v716] : Fin 1 → IVec S16 32) a x).toNat < S2800.size a)
instance k0_chk115.dec : ∀ (v716 : IVec S16 32), Decidable (k0_chk115 v716) := fun v716 => decidable_of_iff' _ (Iff.of_eq (k0_chk115.eq_1 v716))
theorem k0_idx115_inb : ∀ (v716 : IVec S16 32) (k0_hw115 : k0_chk115 v716), ∀ a x, ((![v716] : Fin 1 → IVec S16 32) a x).toNat < S2800.size a := fun v716 k0_hw115 => k0_hw115

def k0_chk116 (v718 : IVec S16 32) : Prop :=
  (∀ a x, ((![v718] : Fin 1 → IVec S16 32) a x).toNat < S2800.size a)
instance k0_chk116.dec : ∀ (v718 : IVec S16 32), Decidable (k0_chk116 v718) := fun v718 => decidable_of_iff' _ (Iff.of_eq (k0_chk116.eq_1 v718))
theorem k0_idx116_inb : ∀ (v718 : IVec S16 32) (k0_hw116 : k0_chk116 v718), ∀ a x, ((![v718] : Fin 1 → IVec S16 32) a x).toNat < S2800.size a := fun v718 k0_hw116 => k0_hw116

def k0_chk117 (v721 : IVec S16 32) : Prop :=
  (∀ a x, ((![v721] : Fin 1 → IVec S16 32) a x).toNat < S2800.size a)
instance k0_chk117.dec : ∀ (v721 : IVec S16 32), Decidable (k0_chk117 v721) := fun v721 => decidable_of_iff' _ (Iff.of_eq (k0_chk117.eq_1 v721))
theorem k0_idx117_inb : ∀ (v721 : IVec S16 32) (k0_hw117 : k0_chk117 v721), ∀ a x, ((![v721] : Fin 1 → IVec S16 32) a x).toNat < S2800.size a := fun v721 k0_hw117 => k0_hw117

def k0_chk118 (v723 : IVec S16 32) : Prop :=
  (∀ a x, ((![v723] : Fin 1 → IVec S16 32) a x).toNat < S2800.size a)
instance k0_chk118.dec : ∀ (v723 : IVec S16 32), Decidable (k0_chk118 v723) := fun v723 => decidable_of_iff' _ (Iff.of_eq (k0_chk118.eq_1 v723))
theorem k0_idx118_inb : ∀ (v723 : IVec S16 32) (k0_hw118 : k0_chk118 v723), ∀ a x, ((![v723] : Fin 1 → IVec S16 32) a x).toNat < S2800.size a := fun v723 k0_hw118 => k0_hw118

def k0_chk119 (v726 : IVec S16 32) : Prop :=
  (∀ a x, ((![v726] : Fin 1 → IVec S16 32) a x).toNat < S2800.size a)
instance k0_chk119.dec : ∀ (v726 : IVec S16 32), Decidable (k0_chk119 v726) := fun v726 => decidable_of_iff' _ (Iff.of_eq (k0_chk119.eq_1 v726))
theorem k0_idx119_inb : ∀ (v726 : IVec S16 32) (k0_hw119 : k0_chk119 v726), ∀ a x, ((![v726] : Fin 1 → IVec S16 32) a x).toNat < S2800.size a := fun v726 k0_hw119 => k0_hw119

def k0_chk120 (v728 : IVec S16 32) : Prop :=
  (∀ a x, ((![v728] : Fin 1 → IVec S16 32) a x).toNat < S2800.size a)
instance k0_chk120.dec : ∀ (v728 : IVec S16 32), Decidable (k0_chk120 v728) := fun v728 => decidable_of_iff' _ (Iff.of_eq (k0_chk120.eq_1 v728))
theorem k0_idx120_inb : ∀ (v728 : IVec S16 32) (k0_hw120 : k0_chk120 v728), ∀ a x, ((![v728] : Fin 1 → IVec S16 32) a x).toNat < S2800.size a := fun v728 k0_hw120 => k0_hw120

def k0_chk121 (v731 : IVec S16 32) : Prop :=
  (∀ a x, ((![v731] : Fin 1 → IVec S16 32) a x).toNat < S2800.size a)
instance k0_chk121.dec : ∀ (v731 : IVec S16 32), Decidable (k0_chk121 v731) := fun v731 => decidable_of_iff' _ (Iff.of_eq (k0_chk121.eq_1 v731))
theorem k0_idx121_inb : ∀ (v731 : IVec S16 32) (k0_hw121 : k0_chk121 v731), ∀ a x, ((![v731] : Fin 1 → IVec S16 32) a x).toNat < S2800.size a := fun v731 k0_hw121 => k0_hw121

def k0_chk122 (v733 : IVec S16 32) : Prop :=
  (∀ a x, ((![v733] : Fin 1 → IVec S16 32) a x).toNat < S2800.size a)
instance k0_chk122.dec : ∀ (v733 : IVec S16 32), Decidable (k0_chk122 v733) := fun v733 => decidable_of_iff' _ (Iff.of_eq (k0_chk122.eq_1 v733))
theorem k0_idx122_inb : ∀ (v733 : IVec S16 32) (k0_hw122 : k0_chk122 v733), ∀ a x, ((![v733] : Fin 1 → IVec S16 32) a x).toNat < S2800.size a := fun v733 k0_hw122 => k0_hw122

def k0_chk123 (v736 : IVec S16 32) : Prop :=
  (∀ a x, ((![v736] : Fin 1 → IVec S16 32) a x).toNat < S2800.size a)
instance k0_chk123.dec : ∀ (v736 : IVec S16 32), Decidable (k0_chk123 v736) := fun v736 => decidable_of_iff' _ (Iff.of_eq (k0_chk123.eq_1 v736))
theorem k0_idx123_inb : ∀ (v736 : IVec S16 32) (k0_hw123 : k0_chk123 v736), ∀ a x, ((![v736] : Fin 1 → IVec S16 32) a x).toNat < S2800.size a := fun v736 k0_hw123 => k0_hw123

def k0_chk124 (v738 : IVec S16 32) : Prop :=
  (∀ a x, ((![v738] : Fin 1 → IVec S16 32) a x).toNat < S2800.size a)
instance k0_chk124.dec : ∀ (v738 : IVec S16 32), Decidable (k0_chk124 v738) := fun v738 => decidable_of_iff' _ (Iff.of_eq (k0_chk124.eq_1 v738))
theorem k0_idx124_inb : ∀ (v738 : IVec S16 32) (k0_hw124 : k0_chk124 v738), ∀ a x, ((![v738] : Fin 1 → IVec S16 32) a x).toNat < S2800.size a := fun v738 k0_hw124 => k0_hw124

def k0_chk125 (v741 : IVec S16 32) : Prop :=
  (∀ a x, ((![v741] : Fin 1 → IVec S16 32) a x).toNat < S2800.size a)
instance k0_chk125.dec : ∀ (v741 : IVec S16 32), Decidable (k0_chk125 v741) := fun v741 => decidable_of_iff' _ (Iff.of_eq (k0_chk125.eq_1 v741))
theorem k0_idx125_inb : ∀ (v741 : IVec S16 32) (k0_hw125 : k0_chk125 v741), ∀ a x, ((![v741] : Fin 1 → IVec S16 32) a x).toNat < S2800.size a := fun v741 k0_hw125 => k0_hw125

def k0_chk126 (v743 : IVec S16 32) : Prop :=
  (∀ a x, ((![v743] : Fin 1 → IVec S16 32) a x).toNat < S2800.size a)
instance k0_chk126.dec : ∀ (v743 : IVec S16 32), Decidable (k0_chk126 v743) := fun v743 => decidable_of_iff' _ (Iff.of_eq (k0_chk126.eq_1 v743))
theorem k0_idx126_inb : ∀ (v743 : IVec S16 32) (k0_hw126 : k0_chk126 v743), ∀ a x, ((![v743] : Fin 1 → IVec S16 32) a x).toNat < S2800.size a := fun v743 k0_hw126 => k0_hw126

def k0_chk127 (v746 : IVec S16 32) : Prop :=
  (∀ a x, ((![v746] : Fin 1 → IVec S16 32) a x).toNat < S2800.size a)
instance k0_chk127.dec : ∀ (v746 : IVec S16 32), Decidable (k0_chk127 v746) := fun v746 => decidable_of_iff' _ (Iff.of_eq (k0_chk127.eq_1 v746))
theorem k0_idx127_inb : ∀ (v746 : IVec S16 32) (k0_hw127 : k0_chk127 v746), ∀ a x, ((![v746] : Fin 1 → IVec S16 32) a x).toNat < S2800.size a := fun v746 k0_hw127 => k0_hw127

def k0_chk128 (v748 : IVec S16 32) : Prop :=
  (∀ a x, ((![v748] : Fin 1 → IVec S16 32) a x).toNat < S2800.size a)
instance k0_chk128.dec : ∀ (v748 : IVec S16 32), Decidable (k0_chk128 v748) := fun v748 => decidable_of_iff' _ (Iff.of_eq (k0_chk128.eq_1 v748))
theorem k0_idx128_inb : ∀ (v748 : IVec S16 32) (k0_hw128 : k0_chk128 v748), ∀ a x, ((![v748] : Fin 1 → IVec S16 32) a x).toNat < S2800.size a := fun v748 k0_hw128 => k0_hw128

def k0_chk129 (v751 : IVec S16 32) : Prop :=
  (∀ a x, ((![v751] : Fin 1 → IVec S16 32) a x).toNat < S2800.size a)
instance k0_chk129.dec : ∀ (v751 : IVec S16 32), Decidable (k0_chk129 v751) := fun v751 => decidable_of_iff' _ (Iff.of_eq (k0_chk129.eq_1 v751))
theorem k0_idx129_inb : ∀ (v751 : IVec S16 32) (k0_hw129 : k0_chk129 v751), ∀ a x, ((![v751] : Fin 1 → IVec S16 32) a x).toNat < S2800.size a := fun v751 k0_hw129 => k0_hw129

def k0_chk130 (v753 : IVec S16 32) : Prop :=
  (∀ a x, ((![v753] : Fin 1 → IVec S16 32) a x).toNat < S2800.size a)
instance k0_chk130.dec : ∀ (v753 : IVec S16 32), Decidable (k0_chk130 v753) := fun v753 => decidable_of_iff' _ (Iff.of_eq (k0_chk130.eq_1 v753))
theorem k0_idx130_inb : ∀ (v753 : IVec S16 32) (k0_hw130 : k0_chk130 v753), ∀ a x, ((![v753] : Fin 1 → IVec S16 32) a x).toNat < S2800.size a := fun v753 k0_hw130 => k0_hw130

def k0_chk131 (v756 : IVec S16 32) : Prop :=
  (∀ a x, ((![v756] : Fin 1 → IVec S16 32) a x).toNat < S2800.size a)
instance k0_chk131.dec : ∀ (v756 : IVec S16 32), Decidable (k0_chk131 v756) := fun v756 => decidable_of_iff' _ (Iff.of_eq (k0_chk131.eq_1 v756))
theorem k0_idx131_inb : ∀ (v756 : IVec S16 32) (k0_hw131 : k0_chk131 v756), ∀ a x, ((![v756] : Fin 1 → IVec S16 32) a x).toNat < S2800.size a := fun v756 k0_hw131 => k0_hw131

def k0_chk132 (v758 : IVec S16 32) : Prop :=
  (∀ a x, ((![v758] : Fin 1 → IVec S16 32) a x).toNat < S2800.size a)
instance k0_chk132.dec : ∀ (v758 : IVec S16 32), Decidable (k0_chk132 v758) := fun v758 => decidable_of_iff' _ (Iff.of_eq (k0_chk132.eq_1 v758))
theorem k0_idx132_inb : ∀ (v758 : IVec S16 32) (k0_hw132 : k0_chk132 v758), ∀ a x, ((![v758] : Fin 1 → IVec S16 32) a x).toNat < S2800.size a := fun v758 k0_hw132 => k0_hw132

def k0_chk133 (v761 : IVec S16 32) : Prop :=
  (∀ a x, ((![v761] : Fin 1 → IVec S16 32) a x).toNat < S2800.size a)
instance k0_chk133.dec : ∀ (v761 : IVec S16 32), Decidable (k0_chk133 v761) := fun v761 => decidable_of_iff' _ (Iff.of_eq (k0_chk133.eq_1 v761))
theorem k0_idx133_inb : ∀ (v761 : IVec S16 32) (k0_hw133 : k0_chk133 v761), ∀ a x, ((![v761] : Fin 1 → IVec S16 32) a x).toNat < S2800.size a := fun v761 k0_hw133 => k0_hw133

def k0_chk134 (v763 : IVec S16 32) : Prop :=
  (∀ a x, ((![v763] : Fin 1 → IVec S16 32) a x).toNat < S2800.size a)
instance k0_chk134.dec : ∀ (v763 : IVec S16 32), Decidable (k0_chk134 v763) := fun v763 => decidable_of_iff' _ (Iff.of_eq (k0_chk134.eq_1 v763))
theorem k0_idx134_inb : ∀ (v763 : IVec S16 32) (k0_hw134 : k0_chk134 v763), ∀ a x, ((![v763] : Fin 1 → IVec S16 32) a x).toNat < S2800.size a := fun v763 k0_hw134 => k0_hw134

def k0_chk135 (v766 : IVec S16 32) : Prop :=
  (∀ a x, ((![v766] : Fin 1 → IVec S16 32) a x).toNat < S2800.size a)
instance k0_chk135.dec : ∀ (v766 : IVec S16 32), Decidable (k0_chk135 v766) := fun v766 => decidable_of_iff' _ (Iff.of_eq (k0_chk135.eq_1 v766))
theorem k0_idx135_inb : ∀ (v766 : IVec S16 32) (k0_hw135 : k0_chk135 v766), ∀ a x, ((![v766] : Fin 1 → IVec S16 32) a x).toNat < S2800.size a := fun v766 k0_hw135 => k0_hw135

def k0_chk136 (v768 : IVec S16 32) : Prop :=
  (∀ a x, ((![v768] : Fin 1 → IVec S16 32) a x).toNat < S2800.size a)
instance k0_chk136.dec : ∀ (v768 : IVec S16 32), Decidable (k0_chk136 v768) := fun v768 => decidable_of_iff' _ (Iff.of_eq (k0_chk136.eq_1 v768))
theorem k0_idx136_inb : ∀ (v768 : IVec S16 32) (k0_hw136 : k0_chk136 v768), ∀ a x, ((![v768] : Fin 1 → IVec S16 32) a x).toNat < S2800.size a := fun v768 k0_hw136 => k0_hw136

def k0_chk137 (v771 : IVec S16 32) : Prop :=
  (∀ a x, ((![v771] : Fin 1 → IVec S16 32) a x).toNat < S2800.size a)
instance k0_chk137.dec : ∀ (v771 : IVec S16 32), Decidable (k0_chk137 v771) := fun v771 => decidable_of_iff' _ (Iff.of_eq (k0_chk137.eq_1 v771))
theorem k0_idx137_inb : ∀ (v771 : IVec S16 32) (k0_hw137 : k0_chk137 v771), ∀ a x, ((![v771] : Fin 1 → IVec S16 32) a x).toNat < S2800.size a := fun v771 k0_hw137 => k0_hw137

def k0_chk138 (v773 : IVec S16 32) : Prop :=
  (∀ a x, ((![v773] : Fin 1 → IVec S16 32) a x).toNat < S2800.size a)
instance k0_chk138.dec : ∀ (v773 : IVec S16 32), Decidable (k0_chk138 v773) := fun v773 => decidable_of_iff' _ (Iff.of_eq (k0_chk138.eq_1 v773))
theorem k0_idx138_inb : ∀ (v773 : IVec S16 32) (k0_hw138 : k0_chk138 v773), ∀ a x, ((![v773] : Fin 1 → IVec S16 32) a x).toNat < S2800.size a := fun v773 k0_hw138 => k0_hw138

def k0_chk139 (v776 : IVec S16 32) : Prop :=
  (∀ a x, ((![v776] : Fin 1 → IVec S16 32) a x).toNat < S2800.size a)
instance k0_chk139.dec : ∀ (v776 : IVec S16 32), Decidable (k0_chk139 v776) := fun v776 => decidable_of_iff' _ (Iff.of_eq (k0_chk139.eq_1 v776))
theorem k0_idx139_inb : ∀ (v776 : IVec S16 32) (k0_hw139 : k0_chk139 v776), ∀ a x, ((![v776] : Fin 1 → IVec S16 32) a x).toNat < S2800.size a := fun v776 k0_hw139 => k0_hw139

def k0_chk140 (v778 : IVec S16 32) : Prop :=
  (∀ a x, ((![v778] : Fin 1 → IVec S16 32) a x).toNat < S2800.size a)
instance k0_chk140.dec : ∀ (v778 : IVec S16 32), Decidable (k0_chk140 v778) := fun v778 => decidable_of_iff' _ (Iff.of_eq (k0_chk140.eq_1 v778))
theorem k0_idx140_inb : ∀ (v778 : IVec S16 32) (k0_hw140 : k0_chk140 v778), ∀ a x, ((![v778] : Fin 1 → IVec S16 32) a x).toNat < S2800.size a := fun v778 k0_hw140 => k0_hw140

def k0_chk141 (v781 : IVec S16 32) : Prop :=
  (∀ a x, ((![v781] : Fin 1 → IVec S16 32) a x).toNat < S2800.size a)
instance k0_chk141.dec : ∀ (v781 : IVec S16 32), Decidable (k0_chk141 v781) := fun v781 => decidable_of_iff' _ (Iff.of_eq (k0_chk141.eq_1 v781))
theorem k0_idx141_inb : ∀ (v781 : IVec S16 32) (k0_hw141 : k0_chk141 v781), ∀ a x, ((![v781] : Fin 1 → IVec S16 32) a x).toNat < S2800.size a := fun v781 k0_hw141 => k0_hw141

def k0_chk142 (v783 : IVec S16 32) : Prop :=
  (∀ a x, ((![v783] : Fin 1 → IVec S16 32) a x).toNat < S2800.size a)
instance k0_chk142.dec : ∀ (v783 : IVec S16 32), Decidable (k0_chk142 v783) := fun v783 => decidable_of_iff' _ (Iff.of_eq (k0_chk142.eq_1 v783))
theorem k0_idx142_inb : ∀ (v783 : IVec S16 32) (k0_hw142 : k0_chk142 v783), ∀ a x, ((![v783] : Fin 1 → IVec S16 32) a x).toNat < S2800.size a := fun v783 k0_hw142 => k0_hw142

def k0_chk143 (v786 : IVec S16 32) : Prop :=
  (∀ a x, ((![v786] : Fin 1 → IVec S16 32) a x).toNat < S2800.size a)
instance k0_chk143.dec : ∀ (v786 : IVec S16 32), Decidable (k0_chk143 v786) := fun v786 => decidable_of_iff' _ (Iff.of_eq (k0_chk143.eq_1 v786))
theorem k0_idx143_inb : ∀ (v786 : IVec S16 32) (k0_hw143 : k0_chk143 v786), ∀ a x, ((![v786] : Fin 1 → IVec S16 32) a x).toNat < S2800.size a := fun v786 k0_hw143 => k0_hw143

def k0_chk144 (v788 : IVec S16 32) : Prop :=
  (∀ a x, ((![v788] : Fin 1 → IVec S16 32) a x).toNat < S2800.size a)
instance k0_chk144.dec : ∀ (v788 : IVec S16 32), Decidable (k0_chk144 v788) := fun v788 => decidable_of_iff' _ (Iff.of_eq (k0_chk144.eq_1 v788))
theorem k0_idx144_inb : ∀ (v788 : IVec S16 32) (k0_hw144 : k0_chk144 v788), ∀ a x, ((![v788] : Fin 1 → IVec S16 32) a x).toNat < S2800.size a := fun v788 k0_hw144 => k0_hw144

def k0_chk145 (v791 : IVec S16 32) : Prop :=
  (∀ a x, ((![v791] : Fin 1 → IVec S16 32) a x).toNat < S2800.size a)
instance k0_chk145.dec : ∀ (v791 : IVec S16 32), Decidable (k0_chk145 v791) := fun v791 => decidable_of_iff' _ (Iff.of_eq (k0_chk145.eq_1 v791))
theorem k0_idx145_inb : ∀ (v791 : IVec S16 32) (k0_hw145 : k0_chk145 v791), ∀ a x, ((![v791] : Fin 1 → IVec S16 32) a x).toNat < S2800.size a := fun v791 k0_hw145 => k0_hw145

def k0_chk146 (v793 : IVec S16 32) : Prop :=
  (∀ a x, ((![v793] : Fin 1 → IVec S16 32) a x).toNat < S2800.size a)
instance k0_chk146.dec : ∀ (v793 : IVec S16 32), Decidable (k0_chk146 v793) := fun v793 => decidable_of_iff' _ (Iff.of_eq (k0_chk146.eq_1 v793))
theorem k0_idx146_inb : ∀ (v793 : IVec S16 32) (k0_hw146 : k0_chk146 v793), ∀ a x, ((![v793] : Fin 1 → IVec S16 32) a x).toNat < S2800.size a := fun v793 k0_hw146 => k0_hw146

def k0_chk147 (v796 : IVec S16 32) : Prop :=
  (∀ a x, ((![v796] : Fin 1 → IVec S16 32) a x).toNat < S2800.size a)
instance k0_chk147.dec : ∀ (v796 : IVec S16 32), Decidable (k0_chk147 v796) := fun v796 => decidable_of_iff' _ (Iff.of_eq (k0_chk147.eq_1 v796))
theorem k0_idx147_inb : ∀ (v796 : IVec S16 32) (k0_hw147 : k0_chk147 v796), ∀ a x, ((![v796] : Fin 1 → IVec S16 32) a x).toNat < S2800.size a := fun v796 k0_hw147 => k0_hw147

def k0_chk148 (v798 : IVec S16 32) : Prop :=
  (∀ a x, ((![v798] : Fin 1 → IVec S16 32) a x).toNat < S2800.size a)
instance k0_chk148.dec : ∀ (v798 : IVec S16 32), Decidable (k0_chk148 v798) := fun v798 => decidable_of_iff' _ (Iff.of_eq (k0_chk148.eq_1 v798))
theorem k0_idx148_inb : ∀ (v798 : IVec S16 32) (k0_hw148 : k0_chk148 v798), ∀ a x, ((![v798] : Fin 1 → IVec S16 32) a x).toNat < S2800.size a := fun v798 k0_hw148 => k0_hw148

def k0_chk149 (v801 : IVec S16 32) : Prop :=
  (∀ a x, ((![v801] : Fin 1 → IVec S16 32) a x).toNat < S2800.size a)
instance k0_chk149.dec : ∀ (v801 : IVec S16 32), Decidable (k0_chk149 v801) := fun v801 => decidable_of_iff' _ (Iff.of_eq (k0_chk149.eq_1 v801))
theorem k0_idx149_inb : ∀ (v801 : IVec S16 32) (k0_hw149 : k0_chk149 v801), ∀ a x, ((![v801] : Fin 1 → IVec S16 32) a x).toNat < S2800.size a := fun v801 k0_hw149 => k0_hw149

def k0_chk150 (v803 : IVec S16 32) : Prop :=
  (∀ a x, ((![v803] : Fin 1 → IVec S16 32) a x).toNat < S2800.size a)
instance k0_chk150.dec : ∀ (v803 : IVec S16 32), Decidable (k0_chk150 v803) := fun v803 => decidable_of_iff' _ (Iff.of_eq (k0_chk150.eq_1 v803))
theorem k0_idx150_inb : ∀ (v803 : IVec S16 32) (k0_hw150 : k0_chk150 v803), ∀ a x, ((![v803] : Fin 1 → IVec S16 32) a x).toNat < S2800.size a := fun v803 k0_hw150 => k0_hw150

def k0_chk151 (v806 : IVec S16 32) : Prop :=
  (∀ a x, ((![v806] : Fin 1 → IVec S16 32) a x).toNat < S2800.size a)
instance k0_chk151.dec : ∀ (v806 : IVec S16 32), Decidable (k0_chk151 v806) := fun v806 => decidable_of_iff' _ (Iff.of_eq (k0_chk151.eq_1 v806))
theorem k0_idx151_inb : ∀ (v806 : IVec S16 32) (k0_hw151 : k0_chk151 v806), ∀ a x, ((![v806] : Fin 1 → IVec S16 32) a x).toNat < S2800.size a := fun v806 k0_hw151 => k0_hw151

def k0_chk152 (v808 : IVec S16 32) : Prop :=
  (∀ a x, ((![v808] : Fin 1 → IVec S16 32) a x).toNat < S2800.size a)
instance k0_chk152.dec : ∀ (v808 : IVec S16 32), Decidable (k0_chk152 v808) := fun v808 => decidable_of_iff' _ (Iff.of_eq (k0_chk152.eq_1 v808))
theorem k0_idx152_inb : ∀ (v808 : IVec S16 32) (k0_hw152 : k0_chk152 v808), ∀ a x, ((![v808] : Fin 1 → IVec S16 32) a x).toNat < S2800.size a := fun v808 k0_hw152 => k0_hw152

def k0_chk153 (v811 : IVec S16 32) : Prop :=
  (∀ a x, ((![v811] : Fin 1 → IVec S16 32) a x).toNat < S2800.size a)
instance k0_chk153.dec : ∀ (v811 : IVec S16 32), Decidable (k0_chk153 v811) := fun v811 => decidable_of_iff' _ (Iff.of_eq (k0_chk153.eq_1 v811))
theorem k0_idx153_inb : ∀ (v811 : IVec S16 32) (k0_hw153 : k0_chk153 v811), ∀ a x, ((![v811] : Fin 1 → IVec S16 32) a x).toNat < S2800.size a := fun v811 k0_hw153 => k0_hw153

def k0_chk154 (v813 : IVec S16 32) : Prop :=
  (∀ a x, ((![v813] : Fin 1 → IVec S16 32) a x).toNat < S2800.size a)
instance k0_chk154.dec : ∀ (v813 : IVec S16 32), Decidable (k0_chk154 v813) := fun v813 => decidable_of_iff' _ (Iff.of_eq (k0_chk154.eq_1 v813))
theorem k0_idx154_inb : ∀ (v813 : IVec S16 32) (k0_hw154 : k0_chk154 v813), ∀ a x, ((![v813] : Fin 1 → IVec S16 32) a x).toNat < S2800.size a := fun v813 k0_hw154 => k0_hw154

def k0_chk155 (v816 : IVec S16 32) : Prop :=
  (∀ a x, ((![v816] : Fin 1 → IVec S16 32) a x).toNat < S2800.size a)
instance k0_chk155.dec : ∀ (v816 : IVec S16 32), Decidable (k0_chk155 v816) := fun v816 => decidable_of_iff' _ (Iff.of_eq (k0_chk155.eq_1 v816))
theorem k0_idx155_inb : ∀ (v816 : IVec S16 32) (k0_hw155 : k0_chk155 v816), ∀ a x, ((![v816] : Fin 1 → IVec S16 32) a x).toNat < S2800.size a := fun v816 k0_hw155 => k0_hw155

def k0_chk156 (v818 : IVec S16 32) : Prop :=
  (∀ a x, ((![v818] : Fin 1 → IVec S16 32) a x).toNat < S2800.size a)
instance k0_chk156.dec : ∀ (v818 : IVec S16 32), Decidable (k0_chk156 v818) := fun v818 => decidable_of_iff' _ (Iff.of_eq (k0_chk156.eq_1 v818))
theorem k0_idx156_inb : ∀ (v818 : IVec S16 32) (k0_hw156 : k0_chk156 v818), ∀ a x, ((![v818] : Fin 1 → IVec S16 32) a x).toNat < S2800.size a := fun v818 k0_hw156 => k0_hw156

def k0_chk157 (v821 : IVec S16 32) : Prop :=
  (∀ a x, ((![v821] : Fin 1 → IVec S16 32) a x).toNat < S2800.size a)
instance k0_chk157.dec : ∀ (v821 : IVec S16 32), Decidable (k0_chk157 v821) := fun v821 => decidable_of_iff' _ (Iff.of_eq (k0_chk157.eq_1 v821))
theorem k0_idx157_inb : ∀ (v821 : IVec S16 32) (k0_hw157 : k0_chk157 v821), ∀ a x, ((![v821] : Fin 1 → IVec S16 32) a x).toNat < S2800.size a := fun v821 k0_hw157 => k0_hw157

def k0_chk158 (v823 : IVec S16 32) : Prop :=
  (∀ a x, ((![v823] : Fin 1 → IVec S16 32) a x).toNat < S2800.size a)
instance k0_chk158.dec : ∀ (v823 : IVec S16 32), Decidable (k0_chk158 v823) := fun v823 => decidable_of_iff' _ (Iff.of_eq (k0_chk158.eq_1 v823))
theorem k0_idx158_inb : ∀ (v823 : IVec S16 32) (k0_hw158 : k0_chk158 v823), ∀ a x, ((![v823] : Fin 1 → IVec S16 32) a x).toNat < S2800.size a := fun v823 k0_hw158 => k0_hw158

def k0_chk159 (v826 : IVec S16 32) : Prop :=
  (∀ a x, ((![v826] : Fin 1 → IVec S16 32) a x).toNat < S2800.size a)
instance k0_chk159.dec : ∀ (v826 : IVec S16 32), Decidable (k0_chk159 v826) := fun v826 => decidable_of_iff' _ (Iff.of_eq (k0_chk159.eq_1 v826))
theorem k0_idx159_inb : ∀ (v826 : IVec S16 32) (k0_hw159 : k0_chk159 v826), ∀ a x, ((![v826] : Fin 1 → IVec S16 32) a x).toNat < S2800.size a := fun v826 k0_hw159 => k0_hw159

def k0_chk160 (v828 : IVec S16 32) : Prop :=
  (∀ a x, ((![v828] : Fin 1 → IVec S16 32) a x).toNat < S2800.size a)
instance k0_chk160.dec : ∀ (v828 : IVec S16 32), Decidable (k0_chk160 v828) := fun v828 => decidable_of_iff' _ (Iff.of_eq (k0_chk160.eq_1 v828))
theorem k0_idx160_inb : ∀ (v828 : IVec S16 32) (k0_hw160 : k0_chk160 v828), ∀ a x, ((![v828] : Fin 1 → IVec S16 32) a x).toNat < S2800.size a := fun v828 k0_hw160 => k0_hw160

def k0_chk161 (v831 : IVec S16 32) : Prop :=
  (∀ a x, ((![v831] : Fin 1 → IVec S16 32) a x).toNat < S2800.size a)
instance k0_chk161.dec : ∀ (v831 : IVec S16 32), Decidable (k0_chk161 v831) := fun v831 => decidable_of_iff' _ (Iff.of_eq (k0_chk161.eq_1 v831))
theorem k0_idx161_inb : ∀ (v831 : IVec S16 32) (k0_hw161 : k0_chk161 v831), ∀ a x, ((![v831] : Fin 1 → IVec S16 32) a x).toNat < S2800.size a := fun v831 k0_hw161 => k0_hw161

def k0_chk162 (v833 : IVec S16 32) : Prop :=
  (∀ a x, ((![v833] : Fin 1 → IVec S16 32) a x).toNat < S2800.size a)
instance k0_chk162.dec : ∀ (v833 : IVec S16 32), Decidable (k0_chk162 v833) := fun v833 => decidable_of_iff' _ (Iff.of_eq (k0_chk162.eq_1 v833))
theorem k0_idx162_inb : ∀ (v833 : IVec S16 32) (k0_hw162 : k0_chk162 v833), ∀ a x, ((![v833] : Fin 1 → IVec S16 32) a x).toNat < S2800.size a := fun v833 k0_hw162 => k0_hw162

def k0_chk163 (v836 : IVec S16 32) : Prop :=
  (∀ a x, ((![v836] : Fin 1 → IVec S16 32) a x).toNat < S2800.size a)
instance k0_chk163.dec : ∀ (v836 : IVec S16 32), Decidable (k0_chk163 v836) := fun v836 => decidable_of_iff' _ (Iff.of_eq (k0_chk163.eq_1 v836))
theorem k0_idx163_inb : ∀ (v836 : IVec S16 32) (k0_hw163 : k0_chk163 v836), ∀ a x, ((![v836] : Fin 1 → IVec S16 32) a x).toNat < S2800.size a := fun v836 k0_hw163 => k0_hw163

def k0_chk164 (v838 : IVec S16 32) : Prop :=
  (∀ a x, ((![v838] : Fin 1 → IVec S16 32) a x).toNat < S2800.size a)
instance k0_chk164.dec : ∀ (v838 : IVec S16 32), Decidable (k0_chk164 v838) := fun v838 => decidable_of_iff' _ (Iff.of_eq (k0_chk164.eq_1 v838))
theorem k0_idx164_inb : ∀ (v838 : IVec S16 32) (k0_hw164 : k0_chk164 v838), ∀ a x, ((![v838] : Fin 1 → IVec S16 32) a x).toNat < S2800.size a := fun v838 k0_hw164 => k0_hw164

def k0_chk165 (v841 : IVec S16 32) : Prop :=
  (∀ a x, ((![v841] : Fin 1 → IVec S16 32) a x).toNat < S2800.size a)
instance k0_chk165.dec : ∀ (v841 : IVec S16 32), Decidable (k0_chk165 v841) := fun v841 => decidable_of_iff' _ (Iff.of_eq (k0_chk165.eq_1 v841))
theorem k0_idx165_inb : ∀ (v841 : IVec S16 32) (k0_hw165 : k0_chk165 v841), ∀ a x, ((![v841] : Fin 1 → IVec S16 32) a x).toNat < S2800.size a := fun v841 k0_hw165 => k0_hw165

def k0_chk166 (v843 : IVec S16 32) : Prop :=
  (∀ a x, ((![v843] : Fin 1 → IVec S16 32) a x).toNat < S2800.size a)
instance k0_chk166.dec : ∀ (v843 : IVec S16 32), Decidable (k0_chk166 v843) := fun v843 => decidable_of_iff' _ (Iff.of_eq (k0_chk166.eq_1 v843))
theorem k0_idx166_inb : ∀ (v843 : IVec S16 32) (k0_hw166 : k0_chk166 v843), ∀ a x, ((![v843] : Fin 1 → IVec S16 32) a x).toNat < S2800.size a := fun v843 k0_hw166 => k0_hw166

def k0_chk167 (v846 : IVec S16 32) : Prop :=
  (∀ a x, ((![v846] : Fin 1 → IVec S16 32) a x).toNat < S2800.size a)
instance k0_chk167.dec : ∀ (v846 : IVec S16 32), Decidable (k0_chk167 v846) := fun v846 => decidable_of_iff' _ (Iff.of_eq (k0_chk167.eq_1 v846))
theorem k0_idx167_inb : ∀ (v846 : IVec S16 32) (k0_hw167 : k0_chk167 v846), ∀ a x, ((![v846] : Fin 1 → IVec S16 32) a x).toNat < S2800.size a := fun v846 k0_hw167 => k0_hw167

def k0_chk168 (v848 : IVec S16 32) : Prop :=
  (∀ a x, ((![v848] : Fin 1 → IVec S16 32) a x).toNat < S2800.size a)
instance k0_chk168.dec : ∀ (v848 : IVec S16 32), Decidable (k0_chk168 v848) := fun v848 => decidable_of_iff' _ (Iff.of_eq (k0_chk168.eq_1 v848))
theorem k0_idx168_inb : ∀ (v848 : IVec S16 32) (k0_hw168 : k0_chk168 v848), ∀ a x, ((![v848] : Fin 1 → IVec S16 32) a x).toNat < S2800.size a := fun v848 k0_hw168 => k0_hw168

def k0_chk169 (v851 : IVec S16 32) : Prop :=
  (∀ a x, ((![v851] : Fin 1 → IVec S16 32) a x).toNat < S2800.size a)
instance k0_chk169.dec : ∀ (v851 : IVec S16 32), Decidable (k0_chk169 v851) := fun v851 => decidable_of_iff' _ (Iff.of_eq (k0_chk169.eq_1 v851))
theorem k0_idx169_inb : ∀ (v851 : IVec S16 32) (k0_hw169 : k0_chk169 v851), ∀ a x, ((![v851] : Fin 1 → IVec S16 32) a x).toNat < S2800.size a := fun v851 k0_hw169 => k0_hw169

def k0_chk170 (v853 : IVec S16 32) : Prop :=
  (∀ a x, ((![v853] : Fin 1 → IVec S16 32) a x).toNat < S2800.size a)
instance k0_chk170.dec : ∀ (v853 : IVec S16 32), Decidable (k0_chk170 v853) := fun v853 => decidable_of_iff' _ (Iff.of_eq (k0_chk170.eq_1 v853))
theorem k0_idx170_inb : ∀ (v853 : IVec S16 32) (k0_hw170 : k0_chk170 v853), ∀ a x, ((![v853] : Fin 1 → IVec S16 32) a x).toNat < S2800.size a := fun v853 k0_hw170 => k0_hw170

def k0_chk171 (v856 : IVec S16 32) : Prop :=
  (∀ a x, ((![v856] : Fin 1 → IVec S16 32) a x).toNat < S2800.size a)
instance k0_chk171.dec : ∀ (v856 : IVec S16 32), Decidable (k0_chk171 v856) := fun v856 => decidable_of_iff' _ (Iff.of_eq (k0_chk171.eq_1 v856))
theorem k0_idx171_inb : ∀ (v856 : IVec S16 32) (k0_hw171 : k0_chk171 v856), ∀ a x, ((![v856] : Fin 1 → IVec S16 32) a x).toNat < S2800.size a := fun v856 k0_hw171 => k0_hw171

def k0_chk172 (v858 : IVec S16 32) : Prop :=
  (∀ a x, ((![v858] : Fin 1 → IVec S16 32) a x).toNat < S2800.size a)
instance k0_chk172.dec : ∀ (v858 : IVec S16 32), Decidable (k0_chk172 v858) := fun v858 => decidable_of_iff' _ (Iff.of_eq (k0_chk172.eq_1 v858))
theorem k0_idx172_inb : ∀ (v858 : IVec S16 32) (k0_hw172 : k0_chk172 v858), ∀ a x, ((![v858] : Fin 1 → IVec S16 32) a x).toNat < S2800.size a := fun v858 k0_hw172 => k0_hw172

def k0_chk173 (v861 : IVec S16 32) : Prop :=
  (∀ a x, ((![v861] : Fin 1 → IVec S16 32) a x).toNat < S2800.size a)
instance k0_chk173.dec : ∀ (v861 : IVec S16 32), Decidable (k0_chk173 v861) := fun v861 => decidable_of_iff' _ (Iff.of_eq (k0_chk173.eq_1 v861))
theorem k0_idx173_inb : ∀ (v861 : IVec S16 32) (k0_hw173 : k0_chk173 v861), ∀ a x, ((![v861] : Fin 1 → IVec S16 32) a x).toNat < S2800.size a := fun v861 k0_hw173 => k0_hw173

def k0_chk174 (v863 : IVec S16 32) : Prop :=
  (∀ a x, ((![v863] : Fin 1 → IVec S16 32) a x).toNat < S2800.size a)
instance k0_chk174.dec : ∀ (v863 : IVec S16 32), Decidable (k0_chk174 v863) := fun v863 => decidable_of_iff' _ (Iff.of_eq (k0_chk174.eq_1 v863))
theorem k0_idx174_inb : ∀ (v863 : IVec S16 32) (k0_hw174 : k0_chk174 v863), ∀ a x, ((![v863] : Fin 1 → IVec S16 32) a x).toNat < S2800.size a := fun v863 k0_hw174 => k0_hw174

def k0_chk175 (v866 : IVec S16 32) : Prop :=
  (∀ a x, ((![v866] : Fin 1 → IVec S16 32) a x).toNat < S2800.size a)
instance k0_chk175.dec : ∀ (v866 : IVec S16 32), Decidable (k0_chk175 v866) := fun v866 => decidable_of_iff' _ (Iff.of_eq (k0_chk175.eq_1 v866))
theorem k0_idx175_inb : ∀ (v866 : IVec S16 32) (k0_hw175 : k0_chk175 v866), ∀ a x, ((![v866] : Fin 1 → IVec S16 32) a x).toNat < S2800.size a := fun v866 k0_hw175 => k0_hw175

def k0_chk176 (v868 : IVec S16 32) : Prop :=
  (∀ a x, ((![v868] : Fin 1 → IVec S16 32) a x).toNat < S2800.size a)
instance k0_chk176.dec : ∀ (v868 : IVec S16 32), Decidable (k0_chk176 v868) := fun v868 => decidable_of_iff' _ (Iff.of_eq (k0_chk176.eq_1 v868))
theorem k0_idx176_inb : ∀ (v868 : IVec S16 32) (k0_hw176 : k0_chk176 v868), ∀ a x, ((![v868] : Fin 1 → IVec S16 32) a x).toNat < S2800.size a := fun v868 k0_hw176 => k0_hw176

def k0_chk177 (v871 : IVec S16 32) : Prop :=
  (∀ a x, ((![v871] : Fin 1 → IVec S16 32) a x).toNat < S2800.size a)
instance k0_chk177.dec : ∀ (v871 : IVec S16 32), Decidable (k0_chk177 v871) := fun v871 => decidable_of_iff' _ (Iff.of_eq (k0_chk177.eq_1 v871))
theorem k0_idx177_inb : ∀ (v871 : IVec S16 32) (k0_hw177 : k0_chk177 v871), ∀ a x, ((![v871] : Fin 1 → IVec S16 32) a x).toNat < S2800.size a := fun v871 k0_hw177 => k0_hw177

def k0_chk178 (v873 : IVec S16 32) : Prop :=
  (∀ a x, ((![v873] : Fin 1 → IVec S16 32) a x).toNat < S2800.size a)
instance k0_chk178.dec : ∀ (v873 : IVec S16 32), Decidable (k0_chk178 v873) := fun v873 => decidable_of_iff' _ (Iff.of_eq (k0_chk178.eq_1 v873))
theorem k0_idx178_inb : ∀ (v873 : IVec S16 32) (k0_hw178 : k0_chk178 v873), ∀ a x, ((![v873] : Fin 1 → IVec S16 32) a x).toNat < S2800.size a := fun v873 k0_hw178 => k0_hw178

def k0_chk179 (v876 : IVec S16 32) : Prop :=
  (∀ a x, ((![v876] : Fin 1 → IVec S16 32) a x).toNat < S2800.size a)
instance k0_chk179.dec : ∀ (v876 : IVec S16 32), Decidable (k0_chk179 v876) := fun v876 => decidable_of_iff' _ (Iff.of_eq (k0_chk179.eq_1 v876))
theorem k0_idx179_inb : ∀ (v876 : IVec S16 32) (k0_hw179 : k0_chk179 v876), ∀ a x, ((![v876] : Fin 1 → IVec S16 32) a x).toNat < S2800.size a := fun v876 k0_hw179 => k0_hw179

def k0_chk180 (v878 : IVec S16 32) : Prop :=
  (∀ a x, ((![v878] : Fin 1 → IVec S16 32) a x).toNat < S2800.size a)
instance k0_chk180.dec : ∀ (v878 : IVec S16 32), Decidable (k0_chk180 v878) := fun v878 => decidable_of_iff' _ (Iff.of_eq (k0_chk180.eq_1 v878))
theorem k0_idx180_inb : ∀ (v878 : IVec S16 32) (k0_hw180 : k0_chk180 v878), ∀ a x, ((![v878] : Fin 1 → IVec S16 32) a x).toNat < S2800.size a := fun v878 k0_hw180 => k0_hw180

def k0_chk181 (v881 : IVec S16 32) : Prop :=
  (∀ a x, ((![v881] : Fin 1 → IVec S16 32) a x).toNat < S2800.size a)
instance k0_chk181.dec : ∀ (v881 : IVec S16 32), Decidable (k0_chk181 v881) := fun v881 => decidable_of_iff' _ (Iff.of_eq (k0_chk181.eq_1 v881))
theorem k0_idx181_inb : ∀ (v881 : IVec S16 32) (k0_hw181 : k0_chk181 v881), ∀ a x, ((![v881] : Fin 1 → IVec S16 32) a x).toNat < S2800.size a := fun v881 k0_hw181 => k0_hw181

def k0_chk182 (v883 : IVec S16 32) : Prop :=
  (∀ a x, ((![v883] : Fin 1 → IVec S16 32) a x).toNat < S2800.size a)
instance k0_chk182.dec : ∀ (v883 : IVec S16 32), Decidable (k0_chk182 v883) := fun v883 => decidable_of_iff' _ (Iff.of_eq (k0_chk182.eq_1 v883))
theorem k0_idx182_inb : ∀ (v883 : IVec S16 32) (k0_hw182 : k0_chk182 v883), ∀ a x, ((![v883] : Fin 1 → IVec S16 32) a x).toNat < S2800.size a := fun v883 k0_hw182 => k0_hw182

def k0_chk183 (v886 : IVec S16 32) : Prop :=
  (∀ a x, ((![v886] : Fin 1 → IVec S16 32) a x).toNat < S2800.size a)
instance k0_chk183.dec : ∀ (v886 : IVec S16 32), Decidable (k0_chk183 v886) := fun v886 => decidable_of_iff' _ (Iff.of_eq (k0_chk183.eq_1 v886))
theorem k0_idx183_inb : ∀ (v886 : IVec S16 32) (k0_hw183 : k0_chk183 v886), ∀ a x, ((![v886] : Fin 1 → IVec S16 32) a x).toNat < S2800.size a := fun v886 k0_hw183 => k0_hw183

def k0_chk184 (v888 : IVec S16 32) : Prop :=
  (∀ a x, ((![v888] : Fin 1 → IVec S16 32) a x).toNat < S2800.size a)
instance k0_chk184.dec : ∀ (v888 : IVec S16 32), Decidable (k0_chk184 v888) := fun v888 => decidable_of_iff' _ (Iff.of_eq (k0_chk184.eq_1 v888))
theorem k0_idx184_inb : ∀ (v888 : IVec S16 32) (k0_hw184 : k0_chk184 v888), ∀ a x, ((![v888] : Fin 1 → IVec S16 32) a x).toNat < S2800.size a := fun v888 k0_hw184 => k0_hw184

def k0_chk185 (v891 : IVec S16 32) : Prop :=
  (∀ a x, ((![v891] : Fin 1 → IVec S16 32) a x).toNat < S2800.size a)
instance k0_chk185.dec : ∀ (v891 : IVec S16 32), Decidable (k0_chk185 v891) := fun v891 => decidable_of_iff' _ (Iff.of_eq (k0_chk185.eq_1 v891))
theorem k0_idx185_inb : ∀ (v891 : IVec S16 32) (k0_hw185 : k0_chk185 v891), ∀ a x, ((![v891] : Fin 1 → IVec S16 32) a x).toNat < S2800.size a := fun v891 k0_hw185 => k0_hw185

def k0_chk186 (v893 : IVec S16 32) : Prop :=
  (∀ a x, ((![v893] : Fin 1 → IVec S16 32) a x).toNat < S2800.size a)
instance k0_chk186.dec : ∀ (v893 : IVec S16 32), Decidable (k0_chk186 v893) := fun v893 => decidable_of_iff' _ (Iff.of_eq (k0_chk186.eq_1 v893))
theorem k0_idx186_inb : ∀ (v893 : IVec S16 32) (k0_hw186 : k0_chk186 v893), ∀ a x, ((![v893] : Fin 1 → IVec S16 32) a x).toNat < S2800.size a := fun v893 k0_hw186 => k0_hw186

def k0_chk187 (v896 : IVec S16 32) : Prop :=
  (∀ a x, ((![v896] : Fin 1 → IVec S16 32) a x).toNat < S2800.size a)
instance k0_chk187.dec : ∀ (v896 : IVec S16 32), Decidable (k0_chk187 v896) := fun v896 => decidable_of_iff' _ (Iff.of_eq (k0_chk187.eq_1 v896))
theorem k0_idx187_inb : ∀ (v896 : IVec S16 32) (k0_hw187 : k0_chk187 v896), ∀ a x, ((![v896] : Fin 1 → IVec S16 32) a x).toNat < S2800.size a := fun v896 k0_hw187 => k0_hw187

def k0_chk188 (v898 : IVec S16 32) : Prop :=
  (∀ a x, ((![v898] : Fin 1 → IVec S16 32) a x).toNat < S2800.size a)
instance k0_chk188.dec : ∀ (v898 : IVec S16 32), Decidable (k0_chk188 v898) := fun v898 => decidable_of_iff' _ (Iff.of_eq (k0_chk188.eq_1 v898))
theorem k0_idx188_inb : ∀ (v898 : IVec S16 32) (k0_hw188 : k0_chk188 v898), ∀ a x, ((![v898] : Fin 1 → IVec S16 32) a x).toNat < S2800.size a := fun v898 k0_hw188 => k0_hw188

def k0_chk189 (v901 : IVec S16 32) : Prop :=
  (∀ a x, ((![v901] : Fin 1 → IVec S16 32) a x).toNat < S2800.size a)
instance k0_chk189.dec : ∀ (v901 : IVec S16 32), Decidable (k0_chk189 v901) := fun v901 => decidable_of_iff' _ (Iff.of_eq (k0_chk189.eq_1 v901))
theorem k0_idx189_inb : ∀ (v901 : IVec S16 32) (k0_hw189 : k0_chk189 v901), ∀ a x, ((![v901] : Fin 1 → IVec S16 32) a x).toNat < S2800.size a := fun v901 k0_hw189 => k0_hw189

def k0_chk190 (v903 : IVec S16 32) : Prop :=
  (∀ a x, ((![v903] : Fin 1 → IVec S16 32) a x).toNat < S2800.size a)
instance k0_chk190.dec : ∀ (v903 : IVec S16 32), Decidable (k0_chk190 v903) := fun v903 => decidable_of_iff' _ (Iff.of_eq (k0_chk190.eq_1 v903))
theorem k0_idx190_inb : ∀ (v903 : IVec S16 32) (k0_hw190 : k0_chk190 v903), ∀ a x, ((![v903] : Fin 1 → IVec S16 32) a x).toNat < S2800.size a := fun v903 k0_hw190 => k0_hw190

def k0_chk191 (v906 : IVec S16 32) : Prop :=
  (∀ a x, ((![v906] : Fin 1 → IVec S16 32) a x).toNat < S2800.size a)
instance k0_chk191.dec : ∀ (v906 : IVec S16 32), Decidable (k0_chk191 v906) := fun v906 => decidable_of_iff' _ (Iff.of_eq (k0_chk191.eq_1 v906))
theorem k0_idx191_inb : ∀ (v906 : IVec S16 32) (k0_hw191 : k0_chk191 v906), ∀ a x, ((![v906] : Fin 1 → IVec S16 32) a x).toNat < S2800.size a := fun v906 k0_hw191 => k0_hw191

def k0_chk192 (v908 : IVec S16 32) : Prop :=
  (∀ a x, ((![v908] : Fin 1 → IVec S16 32) a x).toNat < S2800.size a)
instance k0_chk192.dec : ∀ (v908 : IVec S16 32), Decidable (k0_chk192 v908) := fun v908 => decidable_of_iff' _ (Iff.of_eq (k0_chk192.eq_1 v908))
theorem k0_idx192_inb : ∀ (v908 : IVec S16 32) (k0_hw192 : k0_chk192 v908), ∀ a x, ((![v908] : Fin 1 → IVec S16 32) a x).toNat < S2800.size a := fun v908 k0_hw192 => k0_hw192

def k0_chk193 (v911 : IVec S16 32) : Prop :=
  (∀ a x, ((![v911] : Fin 1 → IVec S16 32) a x).toNat < S2800.size a)
instance k0_chk193.dec : ∀ (v911 : IVec S16 32), Decidable (k0_chk193 v911) := fun v911 => decidable_of_iff' _ (Iff.of_eq (k0_chk193.eq_1 v911))
theorem k0_idx193_inb : ∀ (v911 : IVec S16 32) (k0_hw193 : k0_chk193 v911), ∀ a x, ((![v911] : Fin 1 → IVec S16 32) a x).toNat < S2800.size a := fun v911 k0_hw193 => k0_hw193

def k0_chk194 (v913 : IVec S16 32) : Prop :=
  (∀ a x, ((![v913] : Fin 1 → IVec S16 32) a x).toNat < S2800.size a)
instance k0_chk194.dec : ∀ (v913 : IVec S16 32), Decidable (k0_chk194 v913) := fun v913 => decidable_of_iff' _ (Iff.of_eq (k0_chk194.eq_1 v913))
theorem k0_idx194_inb : ∀ (v913 : IVec S16 32) (k0_hw194 : k0_chk194 v913), ∀ a x, ((![v913] : Fin 1 → IVec S16 32) a x).toNat < S2800.size a := fun v913 k0_hw194 => k0_hw194

def k0_chk195 (v916 : IVec S16 32) : Prop :=
  (∀ a x, ((![v916] : Fin 1 → IVec S16 32) a x).toNat < S2800.size a)
instance k0_chk195.dec : ∀ (v916 : IVec S16 32), Decidable (k0_chk195 v916) := fun v916 => decidable_of_iff' _ (Iff.of_eq (k0_chk195.eq_1 v916))
theorem k0_idx195_inb : ∀ (v916 : IVec S16 32) (k0_hw195 : k0_chk195 v916), ∀ a x, ((![v916] : Fin 1 → IVec S16 32) a x).toNat < S2800.size a := fun v916 k0_hw195 => k0_hw195

def k0_chk196 (v918 : IVec S16 32) : Prop :=
  (∀ a x, ((![v918] : Fin 1 → IVec S16 32) a x).toNat < S2800.size a)
instance k0_chk196.dec : ∀ (v918 : IVec S16 32), Decidable (k0_chk196 v918) := fun v918 => decidable_of_iff' _ (Iff.of_eq (k0_chk196.eq_1 v918))
theorem k0_idx196_inb : ∀ (v918 : IVec S16 32) (k0_hw196 : k0_chk196 v918), ∀ a x, ((![v918] : Fin 1 → IVec S16 32) a x).toNat < S2800.size a := fun v918 k0_hw196 => k0_hw196

def k0_chk197 (v921 : IVec S16 32) : Prop :=
  (∀ a x, ((![v921] : Fin 1 → IVec S16 32) a x).toNat < S2800.size a)
instance k0_chk197.dec : ∀ (v921 : IVec S16 32), Decidable (k0_chk197 v921) := fun v921 => decidable_of_iff' _ (Iff.of_eq (k0_chk197.eq_1 v921))
theorem k0_idx197_inb : ∀ (v921 : IVec S16 32) (k0_hw197 : k0_chk197 v921), ∀ a x, ((![v921] : Fin 1 → IVec S16 32) a x).toNat < S2800.size a := fun v921 k0_hw197 => k0_hw197

def k0_chk198 (v923 : IVec S16 32) : Prop :=
  (∀ a x, ((![v923] : Fin 1 → IVec S16 32) a x).toNat < S2800.size a)
instance k0_chk198.dec : ∀ (v923 : IVec S16 32), Decidable (k0_chk198 v923) := fun v923 => decidable_of_iff' _ (Iff.of_eq (k0_chk198.eq_1 v923))
theorem k0_idx198_inb : ∀ (v923 : IVec S16 32) (k0_hw198 : k0_chk198 v923), ∀ a x, ((![v923] : Fin 1 → IVec S16 32) a x).toNat < S2800.size a := fun v923 k0_hw198 => k0_hw198

def k0_chk199 (v926 : IVec S16 32) : Prop :=
  (∀ a x, ((![v926] : Fin 1 → IVec S16 32) a x).toNat < S2800.size a)
instance k0_chk199.dec : ∀ (v926 : IVec S16 32), Decidable (k0_chk199 v926) := fun v926 => decidable_of_iff' _ (Iff.of_eq (k0_chk199.eq_1 v926))
theorem k0_idx199_inb : ∀ (v926 : IVec S16 32) (k0_hw199 : k0_chk199 v926), ∀ a x, ((![v926] : Fin 1 → IVec S16 32) a x).toNat < S2800.size a := fun v926 k0_hw199 => k0_hw199

def k0_chk200 (v928 : IVec S16 32) : Prop :=
  (∀ a x, ((![v928] : Fin 1 → IVec S16 32) a x).toNat < S2800.size a)
instance k0_chk200.dec : ∀ (v928 : IVec S16 32), Decidable (k0_chk200 v928) := fun v928 => decidable_of_iff' _ (Iff.of_eq (k0_chk200.eq_1 v928))
theorem k0_idx200_inb : ∀ (v928 : IVec S16 32) (k0_hw200 : k0_chk200 v928), ∀ a x, ((![v928] : Fin 1 → IVec S16 32) a x).toNat < S2800.size a := fun v928 k0_hw200 => k0_hw200

def k0_chk201 (v931 : IVec S16 32) : Prop :=
  (∀ a x, ((![v931] : Fin 1 → IVec S16 32) a x).toNat < S2800.size a)
instance k0_chk201.dec : ∀ (v931 : IVec S16 32), Decidable (k0_chk201 v931) := fun v931 => decidable_of_iff' _ (Iff.of_eq (k0_chk201.eq_1 v931))
theorem k0_idx201_inb : ∀ (v931 : IVec S16 32) (k0_hw201 : k0_chk201 v931), ∀ a x, ((![v931] : Fin 1 → IVec S16 32) a x).toNat < S2800.size a := fun v931 k0_hw201 => k0_hw201

def k0_chk202 (v933 : IVec S16 32) : Prop :=
  (∀ a x, ((![v933] : Fin 1 → IVec S16 32) a x).toNat < S2800.size a)
instance k0_chk202.dec : ∀ (v933 : IVec S16 32), Decidable (k0_chk202 v933) := fun v933 => decidable_of_iff' _ (Iff.of_eq (k0_chk202.eq_1 v933))
theorem k0_idx202_inb : ∀ (v933 : IVec S16 32) (k0_hw202 : k0_chk202 v933), ∀ a x, ((![v933] : Fin 1 → IVec S16 32) a x).toNat < S2800.size a := fun v933 k0_hw202 => k0_hw202

def k0_chk203 (v936 : IVec S16 32) : Prop :=
  (∀ a x, ((![v936] : Fin 1 → IVec S16 32) a x).toNat < S2800.size a)
instance k0_chk203.dec : ∀ (v936 : IVec S16 32), Decidable (k0_chk203 v936) := fun v936 => decidable_of_iff' _ (Iff.of_eq (k0_chk203.eq_1 v936))
theorem k0_idx203_inb : ∀ (v936 : IVec S16 32) (k0_hw203 : k0_chk203 v936), ∀ a x, ((![v936] : Fin 1 → IVec S16 32) a x).toNat < S2800.size a := fun v936 k0_hw203 => k0_hw203

def k0_chk204 (v938 : IVec S16 32) : Prop :=
  (∀ a x, ((![v938] : Fin 1 → IVec S16 32) a x).toNat < S2800.size a)
instance k0_chk204.dec : ∀ (v938 : IVec S16 32), Decidable (k0_chk204 v938) := fun v938 => decidable_of_iff' _ (Iff.of_eq (k0_chk204.eq_1 v938))
theorem k0_idx204_inb : ∀ (v938 : IVec S16 32) (k0_hw204 : k0_chk204 v938), ∀ a x, ((![v938] : Fin 1 → IVec S16 32) a x).toNat < S2800.size a := fun v938 k0_hw204 => k0_hw204

def k0_chk205 (v941 : IVec S16 32) : Prop :=
  (∀ a x, ((![v941] : Fin 1 → IVec S16 32) a x).toNat < S2800.size a)
instance k0_chk205.dec : ∀ (v941 : IVec S16 32), Decidable (k0_chk205 v941) := fun v941 => decidable_of_iff' _ (Iff.of_eq (k0_chk205.eq_1 v941))
theorem k0_idx205_inb : ∀ (v941 : IVec S16 32) (k0_hw205 : k0_chk205 v941), ∀ a x, ((![v941] : Fin 1 → IVec S16 32) a x).toNat < S2800.size a := fun v941 k0_hw205 => k0_hw205

def k0_chk206 (v943 : IVec S16 32) : Prop :=
  (∀ a x, ((![v943] : Fin 1 → IVec S16 32) a x).toNat < S2800.size a)
instance k0_chk206.dec : ∀ (v943 : IVec S16 32), Decidable (k0_chk206 v943) := fun v943 => decidable_of_iff' _ (Iff.of_eq (k0_chk206.eq_1 v943))
theorem k0_idx206_inb : ∀ (v943 : IVec S16 32) (k0_hw206 : k0_chk206 v943), ∀ a x, ((![v943] : Fin 1 → IVec S16 32) a x).toNat < S2800.size a := fun v943 k0_hw206 => k0_hw206

def k0_chk207 (v946 : IVec S16 32) : Prop :=
  (∀ a x, ((![v946] : Fin 1 → IVec S16 32) a x).toNat < S2800.size a)
instance k0_chk207.dec : ∀ (v946 : IVec S16 32), Decidable (k0_chk207 v946) := fun v946 => decidable_of_iff' _ (Iff.of_eq (k0_chk207.eq_1 v946))
theorem k0_idx207_inb : ∀ (v946 : IVec S16 32) (k0_hw207 : k0_chk207 v946), ∀ a x, ((![v946] : Fin 1 → IVec S16 32) a x).toNat < S2800.size a := fun v946 k0_hw207 => k0_hw207

def k0_chk208 (v948 : IVec S16 32) : Prop :=
  (∀ a x, ((![v948] : Fin 1 → IVec S16 32) a x).toNat < S2800.size a)
instance k0_chk208.dec : ∀ (v948 : IVec S16 32), Decidable (k0_chk208 v948) := fun v948 => decidable_of_iff' _ (Iff.of_eq (k0_chk208.eq_1 v948))
theorem k0_idx208_inb : ∀ (v948 : IVec S16 32) (k0_hw208 : k0_chk208 v948), ∀ a x, ((![v948] : Fin 1 → IVec S16 32) a x).toNat < S2800.size a := fun v948 k0_hw208 => k0_hw208

def k0_chk209 (v951 : IVec S16 32) : Prop :=
  (∀ a x, ((![v951] : Fin 1 → IVec S16 32) a x).toNat < S2800.size a)
instance k0_chk209.dec : ∀ (v951 : IVec S16 32), Decidable (k0_chk209 v951) := fun v951 => decidable_of_iff' _ (Iff.of_eq (k0_chk209.eq_1 v951))
theorem k0_idx209_inb : ∀ (v951 : IVec S16 32) (k0_hw209 : k0_chk209 v951), ∀ a x, ((![v951] : Fin 1 → IVec S16 32) a x).toNat < S2800.size a := fun v951 k0_hw209 => k0_hw209

def k0_chk210 (v953 : IVec S16 32) : Prop :=
  (∀ a x, ((![v953] : Fin 1 → IVec S16 32) a x).toNat < S2800.size a)
instance k0_chk210.dec : ∀ (v953 : IVec S16 32), Decidable (k0_chk210 v953) := fun v953 => decidable_of_iff' _ (Iff.of_eq (k0_chk210.eq_1 v953))
theorem k0_idx210_inb : ∀ (v953 : IVec S16 32) (k0_hw210 : k0_chk210 v953), ∀ a x, ((![v953] : Fin 1 → IVec S16 32) a x).toNat < S2800.size a := fun v953 k0_hw210 => k0_hw210

def k0_chk211 (v956 : IVec S16 32) : Prop :=
  (∀ a x, ((![v956] : Fin 1 → IVec S16 32) a x).toNat < S2800.size a)
instance k0_chk211.dec : ∀ (v956 : IVec S16 32), Decidable (k0_chk211 v956) := fun v956 => decidable_of_iff' _ (Iff.of_eq (k0_chk211.eq_1 v956))
theorem k0_idx211_inb : ∀ (v956 : IVec S16 32) (k0_hw211 : k0_chk211 v956), ∀ a x, ((![v956] : Fin 1 → IVec S16 32) a x).toNat < S2800.size a := fun v956 k0_hw211 => k0_hw211

def k0_chk212 (v958 : IVec S16 32) : Prop :=
  (∀ a x, ((![v958] : Fin 1 → IVec S16 32) a x).toNat < S2800.size a)
instance k0_chk212.dec : ∀ (v958 : IVec S16 32), Decidable (k0_chk212 v958) := fun v958 => decidable_of_iff' _ (Iff.of_eq (k0_chk212.eq_1 v958))
theorem k0_idx212_inb : ∀ (v958 : IVec S16 32) (k0_hw212 : k0_chk212 v958), ∀ a x, ((![v958] : Fin 1 → IVec S16 32) a x).toNat < S2800.size a := fun v958 k0_hw212 => k0_hw212

def k0_chk213 (v961 : IVec S16 32) : Prop :=
  (∀ a x, ((![v961] : Fin 1 → IVec S16 32) a x).toNat < S2800.size a)
instance k0_chk213.dec : ∀ (v961 : IVec S16 32), Decidable (k0_chk213 v961) := fun v961 => decidable_of_iff' _ (Iff.of_eq (k0_chk213.eq_1 v961))
theorem k0_idx213_inb : ∀ (v961 : IVec S16 32) (k0_hw213 : k0_chk213 v961), ∀ a x, ((![v961] : Fin 1 → IVec S16 32) a x).toNat < S2800.size a := fun v961 k0_hw213 => k0_hw213

def k0_chk214 (v963 : IVec S16 32) : Prop :=
  (∀ a x, ((![v963] : Fin 1 → IVec S16 32) a x).toNat < S2800.size a)
instance k0_chk214.dec : ∀ (v963 : IVec S16 32), Decidable (k0_chk214 v963) := fun v963 => decidable_of_iff' _ (Iff.of_eq (k0_chk214.eq_1 v963))
theorem k0_idx214_inb : ∀ (v963 : IVec S16 32) (k0_hw214 : k0_chk214 v963), ∀ a x, ((![v963] : Fin 1 → IVec S16 32) a x).toNat < S2800.size a := fun v963 k0_hw214 => k0_hw214

def k0_chk215 (v966 : IVec S16 32) : Prop :=
  (∀ a x, ((![v966] : Fin 1 → IVec S16 32) a x).toNat < S2800.size a)
instance k0_chk215.dec : ∀ (v966 : IVec S16 32), Decidable (k0_chk215 v966) := fun v966 => decidable_of_iff' _ (Iff.of_eq (k0_chk215.eq_1 v966))
theorem k0_idx215_inb : ∀ (v966 : IVec S16 32) (k0_hw215 : k0_chk215 v966), ∀ a x, ((![v966] : Fin 1 → IVec S16 32) a x).toNat < S2800.size a := fun v966 k0_hw215 => k0_hw215

def k0_chk216 (v968 : IVec S16 32) : Prop :=
  (∀ a x, ((![v968] : Fin 1 → IVec S16 32) a x).toNat < S2800.size a)
instance k0_chk216.dec : ∀ (v968 : IVec S16 32), Decidable (k0_chk216 v968) := fun v968 => decidable_of_iff' _ (Iff.of_eq (k0_chk216.eq_1 v968))
theorem k0_idx216_inb : ∀ (v968 : IVec S16 32) (k0_hw216 : k0_chk216 v968), ∀ a x, ((![v968] : Fin 1 → IVec S16 32) a x).toNat < S2800.size a := fun v968 k0_hw216 => k0_hw216

def k0_chk217 (v971 : IVec S16 32) : Prop :=
  (∀ a x, ((![v971] : Fin 1 → IVec S16 32) a x).toNat < S2800.size a)
instance k0_chk217.dec : ∀ (v971 : IVec S16 32), Decidable (k0_chk217 v971) := fun v971 => decidable_of_iff' _ (Iff.of_eq (k0_chk217.eq_1 v971))
theorem k0_idx217_inb : ∀ (v971 : IVec S16 32) (k0_hw217 : k0_chk217 v971), ∀ a x, ((![v971] : Fin 1 → IVec S16 32) a x).toNat < S2800.size a := fun v971 k0_hw217 => k0_hw217

def k0_chk218 (v973 : IVec S16 32) : Prop :=
  (∀ a x, ((![v973] : Fin 1 → IVec S16 32) a x).toNat < S2800.size a)
instance k0_chk218.dec : ∀ (v973 : IVec S16 32), Decidable (k0_chk218 v973) := fun v973 => decidable_of_iff' _ (Iff.of_eq (k0_chk218.eq_1 v973))
theorem k0_idx218_inb : ∀ (v973 : IVec S16 32) (k0_hw218 : k0_chk218 v973), ∀ a x, ((![v973] : Fin 1 → IVec S16 32) a x).toNat < S2800.size a := fun v973 k0_hw218 => k0_hw218

def k0_chk219 (v976 : IVec S16 32) : Prop :=
  (∀ a x, ((![v976] : Fin 1 → IVec S16 32) a x).toNat < S2800.size a)
instance k0_chk219.dec : ∀ (v976 : IVec S16 32), Decidable (k0_chk219 v976) := fun v976 => decidable_of_iff' _ (Iff.of_eq (k0_chk219.eq_1 v976))
theorem k0_idx219_inb : ∀ (v976 : IVec S16 32) (k0_hw219 : k0_chk219 v976), ∀ a x, ((![v976] : Fin 1 → IVec S16 32) a x).toNat < S2800.size a := fun v976 k0_hw219 => k0_hw219

def k0_chk220 (v978 : IVec S16 32) : Prop :=
  (∀ a x, ((![v978] : Fin 1 → IVec S16 32) a x).toNat < S2800.size a)
instance k0_chk220.dec : ∀ (v978 : IVec S16 32), Decidable (k0_chk220 v978) := fun v978 => decidable_of_iff' _ (Iff.of_eq (k0_chk220.eq_1 v978))
theorem k0_idx220_inb : ∀ (v978 : IVec S16 32) (k0_hw220 : k0_chk220 v978), ∀ a x, ((![v978] : Fin 1 → IVec S16 32) a x).toNat < S2800.size a := fun v978 k0_hw220 => k0_hw220

def k0_chk221 (v981 : IVec S16 32) : Prop :=
  (∀ a x, ((![v981] : Fin 1 → IVec S16 32) a x).toNat < S2800.size a)
instance k0_chk221.dec : ∀ (v981 : IVec S16 32), Decidable (k0_chk221 v981) := fun v981 => decidable_of_iff' _ (Iff.of_eq (k0_chk221.eq_1 v981))
theorem k0_idx221_inb : ∀ (v981 : IVec S16 32) (k0_hw221 : k0_chk221 v981), ∀ a x, ((![v981] : Fin 1 → IVec S16 32) a x).toNat < S2800.size a := fun v981 k0_hw221 => k0_hw221

def k0_chk222 (v983 : IVec S16 32) : Prop :=
  (∀ a x, ((![v983] : Fin 1 → IVec S16 32) a x).toNat < S2800.size a)
instance k0_chk222.dec : ∀ (v983 : IVec S16 32), Decidable (k0_chk222 v983) := fun v983 => decidable_of_iff' _ (Iff.of_eq (k0_chk222.eq_1 v983))
theorem k0_idx222_inb : ∀ (v983 : IVec S16 32) (k0_hw222 : k0_chk222 v983), ∀ a x, ((![v983] : Fin 1 → IVec S16 32) a x).toNat < S2800.size a := fun v983 k0_hw222 => k0_hw222

def k0_chk223 (v986 : IVec S16 32) : Prop :=
  (∀ a x, ((![v986] : Fin 1 → IVec S16 32) a x).toNat < S2800.size a)
instance k0_chk223.dec : ∀ (v986 : IVec S16 32), Decidable (k0_chk223 v986) := fun v986 => decidable_of_iff' _ (Iff.of_eq (k0_chk223.eq_1 v986))
theorem k0_idx223_inb : ∀ (v986 : IVec S16 32) (k0_hw223 : k0_chk223 v986), ∀ a x, ((![v986] : Fin 1 → IVec S16 32) a x).toNat < S2800.size a := fun v986 k0_hw223 => k0_hw223

def k0_chk224 (v988 : IVec S16 32) : Prop :=
  (∀ a x, ((![v988] : Fin 1 → IVec S16 32) a x).toNat < S2800.size a)
instance k0_chk224.dec : ∀ (v988 : IVec S16 32), Decidable (k0_chk224 v988) := fun v988 => decidable_of_iff' _ (Iff.of_eq (k0_chk224.eq_1 v988))
theorem k0_idx224_inb : ∀ (v988 : IVec S16 32) (k0_hw224 : k0_chk224 v988), ∀ a x, ((![v988] : Fin 1 → IVec S16 32) a x).toNat < S2800.size a := fun v988 k0_hw224 => k0_hw224

def k0_chk225 (v991 : IVec S16 32) : Prop :=
  (∀ a x, ((![v991] : Fin 1 → IVec S16 32) a x).toNat < S2800.size a)
instance k0_chk225.dec : ∀ (v991 : IVec S16 32), Decidable (k0_chk225 v991) := fun v991 => decidable_of_iff' _ (Iff.of_eq (k0_chk225.eq_1 v991))
theorem k0_idx225_inb : ∀ (v991 : IVec S16 32) (k0_hw225 : k0_chk225 v991), ∀ a x, ((![v991] : Fin 1 → IVec S16 32) a x).toNat < S2800.size a := fun v991 k0_hw225 => k0_hw225

def k0_chk226 (v993 : IVec S16 32) : Prop :=
  (∀ a x, ((![v993] : Fin 1 → IVec S16 32) a x).toNat < S2800.size a)
instance k0_chk226.dec : ∀ (v993 : IVec S16 32), Decidable (k0_chk226 v993) := fun v993 => decidable_of_iff' _ (Iff.of_eq (k0_chk226.eq_1 v993))
theorem k0_idx226_inb : ∀ (v993 : IVec S16 32) (k0_hw226 : k0_chk226 v993), ∀ a x, ((![v993] : Fin 1 → IVec S16 32) a x).toNat < S2800.size a := fun v993 k0_hw226 => k0_hw226

def k0_chk227 (v996 : IVec S16 32) : Prop :=
  (∀ a x, ((![v996] : Fin 1 → IVec S16 32) a x).toNat < S2800.size a)
instance k0_chk227.dec : ∀ (v996 : IVec S16 32), Decidable (k0_chk227 v996) := fun v996 => decidable_of_iff' _ (Iff.of_eq (k0_chk227.eq_1 v996))
theorem k0_idx227_inb : ∀ (v996 : IVec S16 32) (k0_hw227 : k0_chk227 v996), ∀ a x, ((![v996] : Fin 1 → IVec S16 32) a x).toNat < S2800.size a := fun v996 k0_hw227 => k0_hw227

def k0_chk228 (v998 : IVec S16 32) : Prop :=
  (∀ a x, ((![v998] : Fin 1 → IVec S16 32) a x).toNat < S2800.size a)
instance k0_chk228.dec : ∀ (v998 : IVec S16 32), Decidable (k0_chk228 v998) := fun v998 => decidable_of_iff' _ (Iff.of_eq (k0_chk228.eq_1 v998))
theorem k0_idx228_inb : ∀ (v998 : IVec S16 32) (k0_hw228 : k0_chk228 v998), ∀ a x, ((![v998] : Fin 1 → IVec S16 32) a x).toNat < S2800.size a := fun v998 k0_hw228 => k0_hw228

def k0_chk229 (v1001 : IVec S16 32) : Prop :=
  (∀ a x, ((![v1001] : Fin 1 → IVec S16 32) a x).toNat < S2800.size a)
instance k0_chk229.dec : ∀ (v1001 : IVec S16 32), Decidable (k0_chk229 v1001) := fun v1001 => decidable_of_iff' _ (Iff.of_eq (k0_chk229.eq_1 v1001))
theorem k0_idx229_inb : ∀ (v1001 : IVec S16 32) (k0_hw229 : k0_chk229 v1001), ∀ a x, ((![v1001] : Fin 1 → IVec S16 32) a x).toNat < S2800.size a := fun v1001 k0_hw229 => k0_hw229

def k0_chk230 (v1003 : IVec S16 32) : Prop :=
  (∀ a x, ((![v1003] : Fin 1 → IVec S16 32) a x).toNat < S2800.size a)
instance k0_chk230.dec : ∀ (v1003 : IVec S16 32), Decidable (k0_chk230 v1003) := fun v1003 => decidable_of_iff' _ (Iff.of_eq (k0_chk230.eq_1 v1003))
theorem k0_idx230_inb : ∀ (v1003 : IVec S16 32) (k0_hw230 : k0_chk230 v1003), ∀ a x, ((![v1003] : Fin 1 → IVec S16 32) a x).toNat < S2800.size a := fun v1003 k0_hw230 => k0_hw230

def k0_chk231 (v1006 : IVec S16 32) : Prop :=
  (∀ a x, ((![v1006] : Fin 1 → IVec S16 32) a x).toNat < S2800.size a)
instance k0_chk231.dec : ∀ (v1006 : IVec S16 32), Decidable (k0_chk231 v1006) := fun v1006 => decidable_of_iff' _ (Iff.of_eq (k0_chk231.eq_1 v1006))
theorem k0_idx231_inb : ∀ (v1006 : IVec S16 32) (k0_hw231 : k0_chk231 v1006), ∀ a x, ((![v1006] : Fin 1 → IVec S16 32) a x).toNat < S2800.size a := fun v1006 k0_hw231 => k0_hw231

def k0_chk232 (v1008 : IVec S16 32) : Prop :=
  (∀ a x, ((![v1008] : Fin 1 → IVec S16 32) a x).toNat < S2800.size a)
instance k0_chk232.dec : ∀ (v1008 : IVec S16 32), Decidable (k0_chk232 v1008) := fun v1008 => decidable_of_iff' _ (Iff.of_eq (k0_chk232.eq_1 v1008))
theorem k0_idx232_inb : ∀ (v1008 : IVec S16 32) (k0_hw232 : k0_chk232 v1008), ∀ a x, ((![v1008] : Fin 1 → IVec S16 32) a x).toNat < S2800.size a := fun v1008 k0_hw232 => k0_hw232

def k0_chk233 (v1011 : IVec S16 32) : Prop :=
  (∀ a x, ((![v1011] : Fin 1 → IVec S16 32) a x).toNat < S2800.size a)
instance k0_chk233.dec : ∀ (v1011 : IVec S16 32), Decidable (k0_chk233 v1011) := fun v1011 => decidable_of_iff' _ (Iff.of_eq (k0_chk233.eq_1 v1011))
theorem k0_idx233_inb : ∀ (v1011 : IVec S16 32) (k0_hw233 : k0_chk233 v1011), ∀ a x, ((![v1011] : Fin 1 → IVec S16 32) a x).toNat < S2800.size a := fun v1011 k0_hw233 => k0_hw233

def k0_chk234 (v1013 : IVec S16 32) : Prop :=
  (∀ a x, ((![v1013] : Fin 1 → IVec S16 32) a x).toNat < S2800.size a)
instance k0_chk234.dec : ∀ (v1013 : IVec S16 32), Decidable (k0_chk234 v1013) := fun v1013 => decidable_of_iff' _ (Iff.of_eq (k0_chk234.eq_1 v1013))
theorem k0_idx234_inb : ∀ (v1013 : IVec S16 32) (k0_hw234 : k0_chk234 v1013), ∀ a x, ((![v1013] : Fin 1 → IVec S16 32) a x).toNat < S2800.size a := fun v1013 k0_hw234 => k0_hw234

def k0_chk235 (v1016 : IVec S16 32) : Prop :=
  (∀ a x, ((![v1016] : Fin 1 → IVec S16 32) a x).toNat < S2800.size a)
instance k0_chk235.dec : ∀ (v1016 : IVec S16 32), Decidable (k0_chk235 v1016) := fun v1016 => decidable_of_iff' _ (Iff.of_eq (k0_chk235.eq_1 v1016))
theorem k0_idx235_inb : ∀ (v1016 : IVec S16 32) (k0_hw235 : k0_chk235 v1016), ∀ a x, ((![v1016] : Fin 1 → IVec S16 32) a x).toNat < S2800.size a := fun v1016 k0_hw235 => k0_hw235

def k0_chk236 (v1018 : IVec S16 32) : Prop :=
  (∀ a x, ((![v1018] : Fin 1 → IVec S16 32) a x).toNat < S2800.size a)
instance k0_chk236.dec : ∀ (v1018 : IVec S16 32), Decidable (k0_chk236 v1018) := fun v1018 => decidable_of_iff' _ (Iff.of_eq (k0_chk236.eq_1 v1018))
theorem k0_idx236_inb : ∀ (v1018 : IVec S16 32) (k0_hw236 : k0_chk236 v1018), ∀ a x, ((![v1018] : Fin 1 → IVec S16 32) a x).toNat < S2800.size a := fun v1018 k0_hw236 => k0_hw236

def k0_chk237 (v1021 : IVec S16 32) : Prop :=
  (∀ a x, ((![v1021] : Fin 1 → IVec S16 32) a x).toNat < S2800.size a)
instance k0_chk237.dec : ∀ (v1021 : IVec S16 32), Decidable (k0_chk237 v1021) := fun v1021 => decidable_of_iff' _ (Iff.of_eq (k0_chk237.eq_1 v1021))
theorem k0_idx237_inb : ∀ (v1021 : IVec S16 32) (k0_hw237 : k0_chk237 v1021), ∀ a x, ((![v1021] : Fin 1 → IVec S16 32) a x).toNat < S2800.size a := fun v1021 k0_hw237 => k0_hw237

def k0_chk238 (v1023 : IVec S16 32) : Prop :=
  (∀ a x, ((![v1023] : Fin 1 → IVec S16 32) a x).toNat < S2800.size a)
instance k0_chk238.dec : ∀ (v1023 : IVec S16 32), Decidable (k0_chk238 v1023) := fun v1023 => decidable_of_iff' _ (Iff.of_eq (k0_chk238.eq_1 v1023))
theorem k0_idx238_inb : ∀ (v1023 : IVec S16 32) (k0_hw238 : k0_chk238 v1023), ∀ a x, ((![v1023] : Fin 1 → IVec S16 32) a x).toNat < S2800.size a := fun v1023 k0_hw238 => k0_hw238

def k0_chk239 (v1026 : IVec S16 32) : Prop :=
  (∀ a x, ((![v1026] : Fin 1 → IVec S16 32) a x).toNat < S2800.size a)
instance k0_chk239.dec : ∀ (v1026 : IVec S16 32), Decidable (k0_chk239 v1026) := fun v1026 => decidable_of_iff' _ (Iff.of_eq (k0_chk239.eq_1 v1026))
theorem k0_idx239_inb : ∀ (v1026 : IVec S16 32) (k0_hw239 : k0_chk239 v1026), ∀ a x, ((![v1026] : Fin 1 → IVec S16 32) a x).toNat < S2800.size a := fun v1026 k0_hw239 => k0_hw239

def k0_chk240 (v1028 : IVec S16 32) : Prop :=
  (∀ a x, ((![v1028] : Fin 1 → IVec S16 32) a x).toNat < S2800.size a)
instance k0_chk240.dec : ∀ (v1028 : IVec S16 32), Decidable (k0_chk240 v1028) := fun v1028 => decidable_of_iff' _ (Iff.of_eq (k0_chk240.eq_1 v1028))
theorem k0_idx240_inb : ∀ (v1028 : IVec S16 32) (k0_hw240 : k0_chk240 v1028), ∀ a x, ((![v1028] : Fin 1 → IVec S16 32) a x).toNat < S2800.size a := fun v1028 k0_hw240 => k0_hw240

def k0_chk241 (v1031 : IVec S16 32) : Prop :=
  (∀ a x, ((![v1031] : Fin 1 → IVec S16 32) a x).toNat < S2800.size a)
instance k0_chk241.dec : ∀ (v1031 : IVec S16 32), Decidable (k0_chk241 v1031) := fun v1031 => decidable_of_iff' _ (Iff.of_eq (k0_chk241.eq_1 v1031))
theorem k0_idx241_inb : ∀ (v1031 : IVec S16 32) (k0_hw241 : k0_chk241 v1031), ∀ a x, ((![v1031] : Fin 1 → IVec S16 32) a x).toNat < S2800.size a := fun v1031 k0_hw241 => k0_hw241

def k0_chk242 (v1033 : IVec S16 32) : Prop :=
  (∀ a x, ((![v1033] : Fin 1 → IVec S16 32) a x).toNat < S2800.size a)
instance k0_chk242.dec : ∀ (v1033 : IVec S16 32), Decidable (k0_chk242 v1033) := fun v1033 => decidable_of_iff' _ (Iff.of_eq (k0_chk242.eq_1 v1033))
theorem k0_idx242_inb : ∀ (v1033 : IVec S16 32) (k0_hw242 : k0_chk242 v1033), ∀ a x, ((![v1033] : Fin 1 → IVec S16 32) a x).toNat < S2800.size a := fun v1033 k0_hw242 => k0_hw242

def k0_chk243 (v1036 : IVec S16 32) : Prop :=
  (∀ a x, ((![v1036] : Fin 1 → IVec S16 32) a x).toNat < S2800.size a)
instance k0_chk243.dec : ∀ (v1036 : IVec S16 32), Decidable (k0_chk243 v1036) := fun v1036 => decidable_of_iff' _ (Iff.of_eq (k0_chk243.eq_1 v1036))
theorem k0_idx243_inb : ∀ (v1036 : IVec S16 32) (k0_hw243 : k0_chk243 v1036), ∀ a x, ((![v1036] : Fin 1 → IVec S16 32) a x).toNat < S2800.size a := fun v1036 k0_hw243 => k0_hw243

def k0_chk244 (v1038 : IVec S16 32) : Prop :=
  (∀ a x, ((![v1038] : Fin 1 → IVec S16 32) a x).toNat < S2800.size a)
instance k0_chk244.dec : ∀ (v1038 : IVec S16 32), Decidable (k0_chk244 v1038) := fun v1038 => decidable_of_iff' _ (Iff.of_eq (k0_chk244.eq_1 v1038))
theorem k0_idx244_inb : ∀ (v1038 : IVec S16 32) (k0_hw244 : k0_chk244 v1038), ∀ a x, ((![v1038] : Fin 1 → IVec S16 32) a x).toNat < S2800.size a := fun v1038 k0_hw244 => k0_hw244

def k0_chk245 (v1041 : IVec S16 32) : Prop :=
  (∀ a x, ((![v1041] : Fin 1 → IVec S16 32) a x).toNat < S2800.size a)
instance k0_chk245.dec : ∀ (v1041 : IVec S16 32), Decidable (k0_chk245 v1041) := fun v1041 => decidable_of_iff' _ (Iff.of_eq (k0_chk245.eq_1 v1041))
theorem k0_idx245_inb : ∀ (v1041 : IVec S16 32) (k0_hw245 : k0_chk245 v1041), ∀ a x, ((![v1041] : Fin 1 → IVec S16 32) a x).toNat < S2800.size a := fun v1041 k0_hw245 => k0_hw245

def k0_chk246 (v1043 : IVec S16 32) : Prop :=
  (∀ a x, ((![v1043] : Fin 1 → IVec S16 32) a x).toNat < S2800.size a)
instance k0_chk246.dec : ∀ (v1043 : IVec S16 32), Decidable (k0_chk246 v1043) := fun v1043 => decidable_of_iff' _ (Iff.of_eq (k0_chk246.eq_1 v1043))
theorem k0_idx246_inb : ∀ (v1043 : IVec S16 32) (k0_hw246 : k0_chk246 v1043), ∀ a x, ((![v1043] : Fin 1 → IVec S16 32) a x).toNat < S2800.size a := fun v1043 k0_hw246 => k0_hw246

def k0_chk247 (v1046 : IVec S16 32) : Prop :=
  (∀ a x, ((![v1046] : Fin 1 → IVec S16 32) a x).toNat < S2800.size a)
instance k0_chk247.dec : ∀ (v1046 : IVec S16 32), Decidable (k0_chk247 v1046) := fun v1046 => decidable_of_iff' _ (Iff.of_eq (k0_chk247.eq_1 v1046))
theorem k0_idx247_inb : ∀ (v1046 : IVec S16 32) (k0_hw247 : k0_chk247 v1046), ∀ a x, ((![v1046] : Fin 1 → IVec S16 32) a x).toNat < S2800.size a := fun v1046 k0_hw247 => k0_hw247

def k0_chk248 (v1048 : IVec S16 32) : Prop :=
  (∀ a x, ((![v1048] : Fin 1 → IVec S16 32) a x).toNat < S2800.size a)
instance k0_chk248.dec : ∀ (v1048 : IVec S16 32), Decidable (k0_chk248 v1048) := fun v1048 => decidable_of_iff' _ (Iff.of_eq (k0_chk248.eq_1 v1048))
theorem k0_idx248_inb : ∀ (v1048 : IVec S16 32) (k0_hw248 : k0_chk248 v1048), ∀ a x, ((![v1048] : Fin 1 → IVec S16 32) a x).toNat < S2800.size a := fun v1048 k0_hw248 => k0_hw248

def k0_chk249 (v1051 : IVec S16 32) : Prop :=
  (∀ a x, ((![v1051] : Fin 1 → IVec S16 32) a x).toNat < S2800.size a)
instance k0_chk249.dec : ∀ (v1051 : IVec S16 32), Decidable (k0_chk249 v1051) := fun v1051 => decidable_of_iff' _ (Iff.of_eq (k0_chk249.eq_1 v1051))
theorem k0_idx249_inb : ∀ (v1051 : IVec S16 32) (k0_hw249 : k0_chk249 v1051), ∀ a x, ((![v1051] : Fin 1 → IVec S16 32) a x).toNat < S2800.size a := fun v1051 k0_hw249 => k0_hw249

def k0_chk250 (v1053 : IVec S16 32) : Prop :=
  (∀ a x, ((![v1053] : Fin 1 → IVec S16 32) a x).toNat < S2800.size a)
instance k0_chk250.dec : ∀ (v1053 : IVec S16 32), Decidable (k0_chk250 v1053) := fun v1053 => decidable_of_iff' _ (Iff.of_eq (k0_chk250.eq_1 v1053))
theorem k0_idx250_inb : ∀ (v1053 : IVec S16 32) (k0_hw250 : k0_chk250 v1053), ∀ a x, ((![v1053] : Fin 1 → IVec S16 32) a x).toNat < S2800.size a := fun v1053 k0_hw250 => k0_hw250

def k0_chk251 (v1056 : IVec S16 32) : Prop :=
  (∀ a x, ((![v1056] : Fin 1 → IVec S16 32) a x).toNat < S2800.size a)
instance k0_chk251.dec : ∀ (v1056 : IVec S16 32), Decidable (k0_chk251 v1056) := fun v1056 => decidable_of_iff' _ (Iff.of_eq (k0_chk251.eq_1 v1056))
theorem k0_idx251_inb : ∀ (v1056 : IVec S16 32) (k0_hw251 : k0_chk251 v1056), ∀ a x, ((![v1056] : Fin 1 → IVec S16 32) a x).toNat < S2800.size a := fun v1056 k0_hw251 => k0_hw251

def k0_chk252 (v1058 : IVec S16 32) : Prop :=
  (∀ a x, ((![v1058] : Fin 1 → IVec S16 32) a x).toNat < S2800.size a)
instance k0_chk252.dec : ∀ (v1058 : IVec S16 32), Decidable (k0_chk252 v1058) := fun v1058 => decidable_of_iff' _ (Iff.of_eq (k0_chk252.eq_1 v1058))
theorem k0_idx252_inb : ∀ (v1058 : IVec S16 32) (k0_hw252 : k0_chk252 v1058), ∀ a x, ((![v1058] : Fin 1 → IVec S16 32) a x).toNat < S2800.size a := fun v1058 k0_hw252 => k0_hw252

def k0_chk253 (v1061 : IVec S16 32) : Prop :=
  (∀ a x, ((![v1061] : Fin 1 → IVec S16 32) a x).toNat < S2800.size a)
instance k0_chk253.dec : ∀ (v1061 : IVec S16 32), Decidable (k0_chk253 v1061) := fun v1061 => decidable_of_iff' _ (Iff.of_eq (k0_chk253.eq_1 v1061))
theorem k0_idx253_inb : ∀ (v1061 : IVec S16 32) (k0_hw253 : k0_chk253 v1061), ∀ a x, ((![v1061] : Fin 1 → IVec S16 32) a x).toNat < S2800.size a := fun v1061 k0_hw253 => k0_hw253

def k0_chk254 (v1063 : IVec S16 32) : Prop :=
  (∀ a x, ((![v1063] : Fin 1 → IVec S16 32) a x).toNat < S2800.size a)
instance k0_chk254.dec : ∀ (v1063 : IVec S16 32), Decidable (k0_chk254 v1063) := fun v1063 => decidable_of_iff' _ (Iff.of_eq (k0_chk254.eq_1 v1063))
theorem k0_idx254_inb : ∀ (v1063 : IVec S16 32) (k0_hw254 : k0_chk254 v1063), ∀ a x, ((![v1063] : Fin 1 → IVec S16 32) a x).toNat < S2800.size a := fun v1063 k0_hw254 => k0_hw254

def k0_chk255 (v1066 : IVec S16 32) : Prop :=
  (∀ a x, ((![v1066] : Fin 1 → IVec S16 32) a x).toNat < S2800.size a)
instance k0_chk255.dec : ∀ (v1066 : IVec S16 32), Decidable (k0_chk255 v1066) := fun v1066 => decidable_of_iff' _ (Iff.of_eq (k0_chk255.eq_1 v1066))
theorem k0_idx255_inb : ∀ (v1066 : IVec S16 32) (k0_hw255 : k0_chk255 v1066), ∀ a x, ((![v1066] : Fin 1 → IVec S16 32) a x).toNat < S2800.size a := fun v1066 k0_hw255 => k0_hw255

def k0_chk256 (v1068 : IVec S16 32) : Prop :=
  (∀ a x, ((![v1068] : Fin 1 → IVec S16 32) a x).toNat < S2800.size a)
instance k0_chk256.dec : ∀ (v1068 : IVec S16 32), Decidable (k0_chk256 v1068) := fun v1068 => decidable_of_iff' _ (Iff.of_eq (k0_chk256.eq_1 v1068))
theorem k0_idx256_inb : ∀ (v1068 : IVec S16 32) (k0_hw256 : k0_chk256 v1068), ∀ a x, ((![v1068] : Fin 1 → IVec S16 32) a x).toNat < S2800.size a := fun v1068 k0_hw256 => k0_hw256

def k0_chk257 (v1071 : IVec S16 32) : Prop :=
  (∀ a x, ((![v1071] : Fin 1 → IVec S16 32) a x).toNat < S2800.size a)
instance k0_chk257.dec : ∀ (v1071 : IVec S16 32), Decidable (k0_chk257 v1071) := fun v1071 => decidable_of_iff' _ (Iff.of_eq (k0_chk257.eq_1 v1071))
theorem k0_idx257_inb : ∀ (v1071 : IVec S16 32) (k0_hw257 : k0_chk257 v1071), ∀ a x, ((![v1071] : Fin 1 → IVec S16 32) a x).toNat < S2800.size a := fun v1071 k0_hw257 => k0_hw257

def k0_chk258 (v1073 : IVec S16 32) : Prop :=
  (∀ a x, ((![v1073] : Fin 1 → IVec S16 32) a x).toNat < S2800.size a)
instance k0_chk258.dec : ∀ (v1073 : IVec S16 32), Decidable (k0_chk258 v1073) := fun v1073 => decidable_of_iff' _ (Iff.of_eq (k0_chk258.eq_1 v1073))
theorem k0_idx258_inb : ∀ (v1073 : IVec S16 32) (k0_hw258 : k0_chk258 v1073), ∀ a x, ((![v1073] : Fin 1 → IVec S16 32) a x).toNat < S2800.size a := fun v1073 k0_hw258 => k0_hw258

def k0_chk259 (v1076 : IVec S16 32) : Prop :=
  (∀ a x, ((![v1076] : Fin 1 → IVec S16 32) a x).toNat < S2800.size a)
instance k0_chk259.dec : ∀ (v1076 : IVec S16 32), Decidable (k0_chk259 v1076) := fun v1076 => decidable_of_iff' _ (Iff.of_eq (k0_chk259.eq_1 v1076))
theorem k0_idx259_inb : ∀ (v1076 : IVec S16 32) (k0_hw259 : k0_chk259 v1076), ∀ a x, ((![v1076] : Fin 1 → IVec S16 32) a x).toNat < S2800.size a := fun v1076 k0_hw259 => k0_hw259

def k0_chk260 (v1078 : IVec S16 32) : Prop :=
  (∀ a x, ((![v1078] : Fin 1 → IVec S16 32) a x).toNat < S2800.size a)
instance k0_chk260.dec : ∀ (v1078 : IVec S16 32), Decidable (k0_chk260 v1078) := fun v1078 => decidable_of_iff' _ (Iff.of_eq (k0_chk260.eq_1 v1078))
theorem k0_idx260_inb : ∀ (v1078 : IVec S16 32) (k0_hw260 : k0_chk260 v1078), ∀ a x, ((![v1078] : Fin 1 → IVec S16 32) a x).toNat < S2800.size a := fun v1078 k0_hw260 => k0_hw260

def k0_chk261 (v1081 : IVec S16 32) : Prop :=
  (∀ a x, ((![v1081] : Fin 1 → IVec S16 32) a x).toNat < S2800.size a)
instance k0_chk261.dec : ∀ (v1081 : IVec S16 32), Decidable (k0_chk261 v1081) := fun v1081 => decidable_of_iff' _ (Iff.of_eq (k0_chk261.eq_1 v1081))
theorem k0_idx261_inb : ∀ (v1081 : IVec S16 32) (k0_hw261 : k0_chk261 v1081), ∀ a x, ((![v1081] : Fin 1 → IVec S16 32) a x).toNat < S2800.size a := fun v1081 k0_hw261 => k0_hw261

def k0_chk262 (v1083 : IVec S16 32) : Prop :=
  (∀ a x, ((![v1083] : Fin 1 → IVec S16 32) a x).toNat < S2800.size a)
instance k0_chk262.dec : ∀ (v1083 : IVec S16 32), Decidable (k0_chk262 v1083) := fun v1083 => decidable_of_iff' _ (Iff.of_eq (k0_chk262.eq_1 v1083))
theorem k0_idx262_inb : ∀ (v1083 : IVec S16 32) (k0_hw262 : k0_chk262 v1083), ∀ a x, ((![v1083] : Fin 1 → IVec S16 32) a x).toNat < S2800.size a := fun v1083 k0_hw262 => k0_hw262

def k0_chk263 (v1086 : IVec S16 32) : Prop :=
  (∀ a x, ((![v1086] : Fin 1 → IVec S16 32) a x).toNat < S2800.size a)
instance k0_chk263.dec : ∀ (v1086 : IVec S16 32), Decidable (k0_chk263 v1086) := fun v1086 => decidable_of_iff' _ (Iff.of_eq (k0_chk263.eq_1 v1086))
theorem k0_idx263_inb : ∀ (v1086 : IVec S16 32) (k0_hw263 : k0_chk263 v1086), ∀ a x, ((![v1086] : Fin 1 → IVec S16 32) a x).toNat < S2800.size a := fun v1086 k0_hw263 => k0_hw263

def k0_chk264 (v1088 : IVec S16 32) : Prop :=
  (∀ a x, ((![v1088] : Fin 1 → IVec S16 32) a x).toNat < S2800.size a)
instance k0_chk264.dec : ∀ (v1088 : IVec S16 32), Decidable (k0_chk264 v1088) := fun v1088 => decidable_of_iff' _ (Iff.of_eq (k0_chk264.eq_1 v1088))
theorem k0_idx264_inb : ∀ (v1088 : IVec S16 32) (k0_hw264 : k0_chk264 v1088), ∀ a x, ((![v1088] : Fin 1 → IVec S16 32) a x).toNat < S2800.size a := fun v1088 k0_hw264 => k0_hw264

def k0_chk265 (v1091 : IVec S16 32) : Prop :=
  (∀ a x, ((![v1091] : Fin 1 → IVec S16 32) a x).toNat < S2800.size a)
instance k0_chk265.dec : ∀ (v1091 : IVec S16 32), Decidable (k0_chk265 v1091) := fun v1091 => decidable_of_iff' _ (Iff.of_eq (k0_chk265.eq_1 v1091))
theorem k0_idx265_inb : ∀ (v1091 : IVec S16 32) (k0_hw265 : k0_chk265 v1091), ∀ a x, ((![v1091] : Fin 1 → IVec S16 32) a x).toNat < S2800.size a := fun v1091 k0_hw265 => k0_hw265

def k0_chk266 (v1093 : IVec S16 32) : Prop :=
  (∀ a x, ((![v1093] : Fin 1 → IVec S16 32) a x).toNat < S2800.size a)
instance k0_chk266.dec : ∀ (v1093 : IVec S16 32), Decidable (k0_chk266 v1093) := fun v1093 => decidable_of_iff' _ (Iff.of_eq (k0_chk266.eq_1 v1093))
theorem k0_idx266_inb : ∀ (v1093 : IVec S16 32) (k0_hw266 : k0_chk266 v1093), ∀ a x, ((![v1093] : Fin 1 → IVec S16 32) a x).toNat < S2800.size a := fun v1093 k0_hw266 => k0_hw266

def k0_chk267 (v1096 : IVec S16 32) : Prop :=
  (∀ a x, ((![v1096] : Fin 1 → IVec S16 32) a x).toNat < S2800.size a)
instance k0_chk267.dec : ∀ (v1096 : IVec S16 32), Decidable (k0_chk267 v1096) := fun v1096 => decidable_of_iff' _ (Iff.of_eq (k0_chk267.eq_1 v1096))
theorem k0_idx267_inb : ∀ (v1096 : IVec S16 32) (k0_hw267 : k0_chk267 v1096), ∀ a x, ((![v1096] : Fin 1 → IVec S16 32) a x).toNat < S2800.size a := fun v1096 k0_hw267 => k0_hw267

def k0_chk268 (v1098 : IVec S16 32) : Prop :=
  (∀ a x, ((![v1098] : Fin 1 → IVec S16 32) a x).toNat < S2800.size a)
instance k0_chk268.dec : ∀ (v1098 : IVec S16 32), Decidable (k0_chk268 v1098) := fun v1098 => decidable_of_iff' _ (Iff.of_eq (k0_chk268.eq_1 v1098))
theorem k0_idx268_inb : ∀ (v1098 : IVec S16 32) (k0_hw268 : k0_chk268 v1098), ∀ a x, ((![v1098] : Fin 1 → IVec S16 32) a x).toNat < S2800.size a := fun v1098 k0_hw268 => k0_hw268

def k0_chk269 (v1101 : IVec S16 32) : Prop :=
  (∀ a x, ((![v1101] : Fin 1 → IVec S16 32) a x).toNat < S2800.size a)
instance k0_chk269.dec : ∀ (v1101 : IVec S16 32), Decidable (k0_chk269 v1101) := fun v1101 => decidable_of_iff' _ (Iff.of_eq (k0_chk269.eq_1 v1101))
theorem k0_idx269_inb : ∀ (v1101 : IVec S16 32) (k0_hw269 : k0_chk269 v1101), ∀ a x, ((![v1101] : Fin 1 → IVec S16 32) a x).toNat < S2800.size a := fun v1101 k0_hw269 => k0_hw269

def k0_chk270 (v1103 : IVec S16 32) : Prop :=
  (∀ a x, ((![v1103] : Fin 1 → IVec S16 32) a x).toNat < S2800.size a)
instance k0_chk270.dec : ∀ (v1103 : IVec S16 32), Decidable (k0_chk270 v1103) := fun v1103 => decidable_of_iff' _ (Iff.of_eq (k0_chk270.eq_1 v1103))
theorem k0_idx270_inb : ∀ (v1103 : IVec S16 32) (k0_hw270 : k0_chk270 v1103), ∀ a x, ((![v1103] : Fin 1 → IVec S16 32) a x).toNat < S2800.size a := fun v1103 k0_hw270 => k0_hw270

def k0_chk271 (v1106 : IVec S16 32) : Prop :=
  (∀ a x, ((![v1106] : Fin 1 → IVec S16 32) a x).toNat < S2800.size a)
instance k0_chk271.dec : ∀ (v1106 : IVec S16 32), Decidable (k0_chk271 v1106) := fun v1106 => decidable_of_iff' _ (Iff.of_eq (k0_chk271.eq_1 v1106))
theorem k0_idx271_inb : ∀ (v1106 : IVec S16 32) (k0_hw271 : k0_chk271 v1106), ∀ a x, ((![v1106] : Fin 1 → IVec S16 32) a x).toNat < S2800.size a := fun v1106 k0_hw271 => k0_hw271

def k0_chk272 (v1108 : IVec S16 32) : Prop :=
  (∀ a x, ((![v1108] : Fin 1 → IVec S16 32) a x).toNat < S2800.size a)
instance k0_chk272.dec : ∀ (v1108 : IVec S16 32), Decidable (k0_chk272 v1108) := fun v1108 => decidable_of_iff' _ (Iff.of_eq (k0_chk272.eq_1 v1108))
theorem k0_idx272_inb : ∀ (v1108 : IVec S16 32) (k0_hw272 : k0_chk272 v1108), ∀ a x, ((![v1108] : Fin 1 → IVec S16 32) a x).toNat < S2800.size a := fun v1108 k0_hw272 => k0_hw272

def k0_chk273 (v1111 : IVec S16 32) : Prop :=
  (∀ a x, ((![v1111] : Fin 1 → IVec S16 32) a x).toNat < S2800.size a)
instance k0_chk273.dec : ∀ (v1111 : IVec S16 32), Decidable (k0_chk273 v1111) := fun v1111 => decidable_of_iff' _ (Iff.of_eq (k0_chk273.eq_1 v1111))
theorem k0_idx273_inb : ∀ (v1111 : IVec S16 32) (k0_hw273 : k0_chk273 v1111), ∀ a x, ((![v1111] : Fin 1 → IVec S16 32) a x).toNat < S2800.size a := fun v1111 k0_hw273 => k0_hw273

def k0_chk274 (v1113 : IVec S16 32) : Prop :=
  (∀ a x, ((![v1113] : Fin 1 → IVec S16 32) a x).toNat < S2800.size a)
instance k0_chk274.dec : ∀ (v1113 : IVec S16 32), Decidable (k0_chk274 v1113) := fun v1113 => decidable_of_iff' _ (Iff.of_eq (k0_chk274.eq_1 v1113))
theorem k0_idx274_inb : ∀ (v1113 : IVec S16 32) (k0_hw274 : k0_chk274 v1113), ∀ a x, ((![v1113] : Fin 1 → IVec S16 32) a x).toNat < S2800.size a := fun v1113 k0_hw274 => k0_hw274

def k0_chk275 (v1116 : IVec S16 32) : Prop :=
  (∀ a x, ((![v1116] : Fin 1 → IVec S16 32) a x).toNat < S2800.size a)
instance k0_chk275.dec : ∀ (v1116 : IVec S16 32), Decidable (k0_chk275 v1116) := fun v1116 => decidable_of_iff' _ (Iff.of_eq (k0_chk275.eq_1 v1116))
theorem k0_idx275_inb : ∀ (v1116 : IVec S16 32) (k0_hw275 : k0_chk275 v1116), ∀ a x, ((![v1116] : Fin 1 → IVec S16 32) a x).toNat < S2800.size a := fun v1116 k0_hw275 => k0_hw275

def k0_chk276 (v1118 : IVec S16 32) : Prop :=
  (∀ a x, ((![v1118] : Fin 1 → IVec S16 32) a x).toNat < S2800.size a)
instance k0_chk276.dec : ∀ (v1118 : IVec S16 32), Decidable (k0_chk276 v1118) := fun v1118 => decidable_of_iff' _ (Iff.of_eq (k0_chk276.eq_1 v1118))
theorem k0_idx276_inb : ∀ (v1118 : IVec S16 32) (k0_hw276 : k0_chk276 v1118), ∀ a x, ((![v1118] : Fin 1 → IVec S16 32) a x).toNat < S2800.size a := fun v1118 k0_hw276 => k0_hw276

def k0_chk277 (v1121 : IVec S16 32) : Prop :=
  (∀ a x, ((![v1121] : Fin 1 → IVec S16 32) a x).toNat < S2800.size a)
instance k0_chk277.dec : ∀ (v1121 : IVec S16 32), Decidable (k0_chk277 v1121) := fun v1121 => decidable_of_iff' _ (Iff.of_eq (k0_chk277.eq_1 v1121))
theorem k0_idx277_inb : ∀ (v1121 : IVec S16 32) (k0_hw277 : k0_chk277 v1121), ∀ a x, ((![v1121] : Fin 1 → IVec S16 32) a x).toNat < S2800.size a := fun v1121 k0_hw277 => k0_hw277

def k0_chk278 (v1123 : IVec S16 32) : Prop :=
  (∀ a x, ((![v1123] : Fin 1 → IVec S16 32) a x).toNat < S2800.size a)
instance k0_chk278.dec : ∀ (v1123 : IVec S16 32), Decidable (k0_chk278 v1123) := fun v1123 => decidable_of_iff' _ (Iff.of_eq (k0_chk278.eq_1 v1123))
theorem k0_idx278_inb : ∀ (v1123 : IVec S16 32) (k0_hw278 : k0_chk278 v1123), ∀ a x, ((![v1123] : Fin 1 → IVec S16 32) a x).toNat < S2800.size a := fun v1123 k0_hw278 => k0_hw278

def k0_chk279 (v1126 : IVec S16 32) : Prop :=
  (∀ a x, ((![v1126] : Fin 1 → IVec S16 32) a x).toNat < S2800.size a)
instance k0_chk279.dec : ∀ (v1126 : IVec S16 32), Decidable (k0_chk279 v1126) := fun v1126 => decidable_of_iff' _ (Iff.of_eq (k0_chk279.eq_1 v1126))
theorem k0_idx279_inb : ∀ (v1126 : IVec S16 32) (k0_hw279 : k0_chk279 v1126), ∀ a x, ((![v1126] : Fin 1 → IVec S16 32) a x).toNat < S2800.size a := fun v1126 k0_hw279 => k0_hw279

def k0_chk280 (v1128 : IVec S16 32) : Prop :=
  (∀ a x, ((![v1128] : Fin 1 → IVec S16 32) a x).toNat < S2800.size a)
instance k0_chk280.dec : ∀ (v1128 : IVec S16 32), Decidable (k0_chk280 v1128) := fun v1128 => decidable_of_iff' _ (Iff.of_eq (k0_chk280.eq_1 v1128))
theorem k0_idx280_inb : ∀ (v1128 : IVec S16 32) (k0_hw280 : k0_chk280 v1128), ∀ a x, ((![v1128] : Fin 1 → IVec S16 32) a x).toNat < S2800.size a := fun v1128 k0_hw280 => k0_hw280

def k0_chk281 (v1131 : IVec S16 32) : Prop :=
  (∀ a x, ((![v1131] : Fin 1 → IVec S16 32) a x).toNat < S2800.size a)
instance k0_chk281.dec : ∀ (v1131 : IVec S16 32), Decidable (k0_chk281 v1131) := fun v1131 => decidable_of_iff' _ (Iff.of_eq (k0_chk281.eq_1 v1131))
theorem k0_idx281_inb : ∀ (v1131 : IVec S16 32) (k0_hw281 : k0_chk281 v1131), ∀ a x, ((![v1131] : Fin 1 → IVec S16 32) a x).toNat < S2800.size a := fun v1131 k0_hw281 => k0_hw281

def k0_chk282 (v1133 : IVec S16 32) : Prop :=
  (∀ a x, ((![v1133] : Fin 1 → IVec S16 32) a x).toNat < S2800.size a)
instance k0_chk282.dec : ∀ (v1133 : IVec S16 32), Decidable (k0_chk282 v1133) := fun v1133 => decidable_of_iff' _ (Iff.of_eq (k0_chk282.eq_1 v1133))
theorem k0_idx282_inb : ∀ (v1133 : IVec S16 32) (k0_hw282 : k0_chk282 v1133), ∀ a x, ((![v1133] : Fin 1 → IVec S16 32) a x).toNat < S2800.size a := fun v1133 k0_hw282 => k0_hw282

def k0_chk283 (v1136 : IVec S16 32) : Prop :=
  (∀ a x, ((![v1136] : Fin 1 → IVec S16 32) a x).toNat < S2800.size a)
instance k0_chk283.dec : ∀ (v1136 : IVec S16 32), Decidable (k0_chk283 v1136) := fun v1136 => decidable_of_iff' _ (Iff.of_eq (k0_chk283.eq_1 v1136))
theorem k0_idx283_inb : ∀ (v1136 : IVec S16 32) (k0_hw283 : k0_chk283 v1136), ∀ a x, ((![v1136] : Fin 1 → IVec S16 32) a x).toNat < S2800.size a := fun v1136 k0_hw283 => k0_hw283

def k0_chk284 (v1138 : IVec S16 32) : Prop :=
  (∀ a x, ((![v1138] : Fin 1 → IVec S16 32) a x).toNat < S2800.size a)
instance k0_chk284.dec : ∀ (v1138 : IVec S16 32), Decidable (k0_chk284 v1138) := fun v1138 => decidable_of_iff' _ (Iff.of_eq (k0_chk284.eq_1 v1138))
theorem k0_idx284_inb : ∀ (v1138 : IVec S16 32) (k0_hw284 : k0_chk284 v1138), ∀ a x, ((![v1138] : Fin 1 → IVec S16 32) a x).toNat < S2800.size a := fun v1138 k0_hw284 => k0_hw284

def k0_chk285 (v1141 : IVec S16 32) : Prop :=
  (∀ a x, ((![v1141] : Fin 1 → IVec S16 32) a x).toNat < S2800.size a)
instance k0_chk285.dec : ∀ (v1141 : IVec S16 32), Decidable (k0_chk285 v1141) := fun v1141 => decidable_of_iff' _ (Iff.of_eq (k0_chk285.eq_1 v1141))
theorem k0_idx285_inb : ∀ (v1141 : IVec S16 32) (k0_hw285 : k0_chk285 v1141), ∀ a x, ((![v1141] : Fin 1 → IVec S16 32) a x).toNat < S2800.size a := fun v1141 k0_hw285 => k0_hw285

def k0_chk286 (v1143 : IVec S16 32) : Prop :=
  (∀ a x, ((![v1143] : Fin 1 → IVec S16 32) a x).toNat < S2800.size a)
instance k0_chk286.dec : ∀ (v1143 : IVec S16 32), Decidable (k0_chk286 v1143) := fun v1143 => decidable_of_iff' _ (Iff.of_eq (k0_chk286.eq_1 v1143))
theorem k0_idx286_inb : ∀ (v1143 : IVec S16 32) (k0_hw286 : k0_chk286 v1143), ∀ a x, ((![v1143] : Fin 1 → IVec S16 32) a x).toNat < S2800.size a := fun v1143 k0_hw286 => k0_hw286

def k0_chk287 (v1146 : IVec S16 32) : Prop :=
  (∀ a x, ((![v1146] : Fin 1 → IVec S16 32) a x).toNat < S2800.size a)
instance k0_chk287.dec : ∀ (v1146 : IVec S16 32), Decidable (k0_chk287 v1146) := fun v1146 => decidable_of_iff' _ (Iff.of_eq (k0_chk287.eq_1 v1146))
theorem k0_idx287_inb : ∀ (v1146 : IVec S16 32) (k0_hw287 : k0_chk287 v1146), ∀ a x, ((![v1146] : Fin 1 → IVec S16 32) a x).toNat < S2800.size a := fun v1146 k0_hw287 => k0_hw287

def k0_chk288 (v1148 : IVec S16 32) : Prop :=
  (∀ a x, ((![v1148] : Fin 1 → IVec S16 32) a x).toNat < S2800.size a)
instance k0_chk288.dec : ∀ (v1148 : IVec S16 32), Decidable (k0_chk288 v1148) := fun v1148 => decidable_of_iff' _ (Iff.of_eq (k0_chk288.eq_1 v1148))
theorem k0_idx288_inb : ∀ (v1148 : IVec S16 32) (k0_hw288 : k0_chk288 v1148), ∀ a x, ((![v1148] : Fin 1 → IVec S16 32) a x).toNat < S2800.size a := fun v1148 k0_hw288 => k0_hw288

def k0_chk289 (v1151 : IVec S16 32) : Prop :=
  (∀ a x, ((![v1151] : Fin 1 → IVec S16 32) a x).toNat < S2800.size a)
instance k0_chk289.dec : ∀ (v1151 : IVec S16 32), Decidable (k0_chk289 v1151) := fun v1151 => decidable_of_iff' _ (Iff.of_eq (k0_chk289.eq_1 v1151))
theorem k0_idx289_inb : ∀ (v1151 : IVec S16 32) (k0_hw289 : k0_chk289 v1151), ∀ a x, ((![v1151] : Fin 1 → IVec S16 32) a x).toNat < S2800.size a := fun v1151 k0_hw289 => k0_hw289

def k0_chk290 (v1153 : IVec S16 32) : Prop :=
  (∀ a x, ((![v1153] : Fin 1 → IVec S16 32) a x).toNat < S2800.size a)
instance k0_chk290.dec : ∀ (v1153 : IVec S16 32), Decidable (k0_chk290 v1153) := fun v1153 => decidable_of_iff' _ (Iff.of_eq (k0_chk290.eq_1 v1153))
theorem k0_idx290_inb : ∀ (v1153 : IVec S16 32) (k0_hw290 : k0_chk290 v1153), ∀ a x, ((![v1153] : Fin 1 → IVec S16 32) a x).toNat < S2800.size a := fun v1153 k0_hw290 => k0_hw290

def k0_chk291 (v1156 : IVec S16 32) : Prop :=
  (∀ a x, ((![v1156] : Fin 1 → IVec S16 32) a x).toNat < S2800.size a)
instance k0_chk291.dec : ∀ (v1156 : IVec S16 32), Decidable (k0_chk291 v1156) := fun v1156 => decidable_of_iff' _ (Iff.of_eq (k0_chk291.eq_1 v1156))
theorem k0_idx291_inb : ∀ (v1156 : IVec S16 32) (k0_hw291 : k0_chk291 v1156), ∀ a x, ((![v1156] : Fin 1 → IVec S16 32) a x).toNat < S2800.size a := fun v1156 k0_hw291 => k0_hw291

def k0_chk292 (v1158 : IVec S16 32) : Prop :=
  (∀ a x, ((![v1158] : Fin 1 → IVec S16 32) a x).toNat < S2800.size a)
instance k0_chk292.dec : ∀ (v1158 : IVec S16 32), Decidable (k0_chk292 v1158) := fun v1158 => decidable_of_iff' _ (Iff.of_eq (k0_chk292.eq_1 v1158))
theorem k0_idx292_inb : ∀ (v1158 : IVec S16 32) (k0_hw292 : k0_chk292 v1158), ∀ a x, ((![v1158] : Fin 1 → IVec S16 32) a x).toNat < S2800.size a := fun v1158 k0_hw292 => k0_hw292

def k0_chk293 (v1161 : IVec S16 32) : Prop :=
  (∀ a x, ((![v1161] : Fin 1 → IVec S16 32) a x).toNat < S2800.size a)
instance k0_chk293.dec : ∀ (v1161 : IVec S16 32), Decidable (k0_chk293 v1161) := fun v1161 => decidable_of_iff' _ (Iff.of_eq (k0_chk293.eq_1 v1161))
theorem k0_idx293_inb : ∀ (v1161 : IVec S16 32) (k0_hw293 : k0_chk293 v1161), ∀ a x, ((![v1161] : Fin 1 → IVec S16 32) a x).toNat < S2800.size a := fun v1161 k0_hw293 => k0_hw293

def k0_chk294 (v1163 : IVec S16 32) : Prop :=
  (∀ a x, ((![v1163] : Fin 1 → IVec S16 32) a x).toNat < S2800.size a)
instance k0_chk294.dec : ∀ (v1163 : IVec S16 32), Decidable (k0_chk294 v1163) := fun v1163 => decidable_of_iff' _ (Iff.of_eq (k0_chk294.eq_1 v1163))
theorem k0_idx294_inb : ∀ (v1163 : IVec S16 32) (k0_hw294 : k0_chk294 v1163), ∀ a x, ((![v1163] : Fin 1 → IVec S16 32) a x).toNat < S2800.size a := fun v1163 k0_hw294 => k0_hw294

def k0_chk295 (v1166 : IVec S16 32) : Prop :=
  (∀ a x, ((![v1166] : Fin 1 → IVec S16 32) a x).toNat < S2800.size a)
instance k0_chk295.dec : ∀ (v1166 : IVec S16 32), Decidable (k0_chk295 v1166) := fun v1166 => decidable_of_iff' _ (Iff.of_eq (k0_chk295.eq_1 v1166))
theorem k0_idx295_inb : ∀ (v1166 : IVec S16 32) (k0_hw295 : k0_chk295 v1166), ∀ a x, ((![v1166] : Fin 1 → IVec S16 32) a x).toNat < S2800.size a := fun v1166 k0_hw295 => k0_hw295

def k0_chk296 (v1168 : IVec S16 32) : Prop :=
  (∀ a x, ((![v1168] : Fin 1 → IVec S16 32) a x).toNat < S2800.size a)
instance k0_chk296.dec : ∀ (v1168 : IVec S16 32), Decidable (k0_chk296 v1168) := fun v1168 => decidable_of_iff' _ (Iff.of_eq (k0_chk296.eq_1 v1168))
theorem k0_idx296_inb : ∀ (v1168 : IVec S16 32) (k0_hw296 : k0_chk296 v1168), ∀ a x, ((![v1168] : Fin 1 → IVec S16 32) a x).toNat < S2800.size a := fun v1168 k0_hw296 => k0_hw296

def k0_chk297 (v1171 : IVec S16 32) : Prop :=
  (∀ a x, ((![v1171] : Fin 1 → IVec S16 32) a x).toNat < S2800.size a)
instance k0_chk297.dec : ∀ (v1171 : IVec S16 32), Decidable (k0_chk297 v1171) := fun v1171 => decidable_of_iff' _ (Iff.of_eq (k0_chk297.eq_1 v1171))
theorem k0_idx297_inb : ∀ (v1171 : IVec S16 32) (k0_hw297 : k0_chk297 v1171), ∀ a x, ((![v1171] : Fin 1 → IVec S16 32) a x).toNat < S2800.size a := fun v1171 k0_hw297 => k0_hw297

def k0_chk298 (v1173 : IVec S16 32) : Prop :=
  (∀ a x, ((![v1173] : Fin 1 → IVec S16 32) a x).toNat < S2800.size a)
instance k0_chk298.dec : ∀ (v1173 : IVec S16 32), Decidable (k0_chk298 v1173) := fun v1173 => decidable_of_iff' _ (Iff.of_eq (k0_chk298.eq_1 v1173))
theorem k0_idx298_inb : ∀ (v1173 : IVec S16 32) (k0_hw298 : k0_chk298 v1173), ∀ a x, ((![v1173] : Fin 1 → IVec S16 32) a x).toNat < S2800.size a := fun v1173 k0_hw298 => k0_hw298

def k0_chk299 (v1176 : IVec S16 32) : Prop :=
  (∀ a x, ((![v1176] : Fin 1 → IVec S16 32) a x).toNat < S2800.size a)
instance k0_chk299.dec : ∀ (v1176 : IVec S16 32), Decidable (k0_chk299 v1176) := fun v1176 => decidable_of_iff' _ (Iff.of_eq (k0_chk299.eq_1 v1176))
theorem k0_idx299_inb : ∀ (v1176 : IVec S16 32) (k0_hw299 : k0_chk299 v1176), ∀ a x, ((![v1176] : Fin 1 → IVec S16 32) a x).toNat < S2800.size a := fun v1176 k0_hw299 => k0_hw299

def k0_chk300 (v1178 : IVec S16 32) : Prop :=
  (∀ a x, ((![v1178] : Fin 1 → IVec S16 32) a x).toNat < S2800.size a)
instance k0_chk300.dec : ∀ (v1178 : IVec S16 32), Decidable (k0_chk300 v1178) := fun v1178 => decidable_of_iff' _ (Iff.of_eq (k0_chk300.eq_1 v1178))
theorem k0_idx300_inb : ∀ (v1178 : IVec S16 32) (k0_hw300 : k0_chk300 v1178), ∀ a x, ((![v1178] : Fin 1 → IVec S16 32) a x).toNat < S2800.size a := fun v1178 k0_hw300 => k0_hw300

def k0_chk301 (v1181 : IVec S16 32) : Prop :=
  (∀ a x, ((![v1181] : Fin 1 → IVec S16 32) a x).toNat < S2800.size a)
instance k0_chk301.dec : ∀ (v1181 : IVec S16 32), Decidable (k0_chk301 v1181) := fun v1181 => decidable_of_iff' _ (Iff.of_eq (k0_chk301.eq_1 v1181))
theorem k0_idx301_inb : ∀ (v1181 : IVec S16 32) (k0_hw301 : k0_chk301 v1181), ∀ a x, ((![v1181] : Fin 1 → IVec S16 32) a x).toNat < S2800.size a := fun v1181 k0_hw301 => k0_hw301

def k0_chk302 (v1183 : IVec S16 32) : Prop :=
  (∀ a x, ((![v1183] : Fin 1 → IVec S16 32) a x).toNat < S2800.size a)
instance k0_chk302.dec : ∀ (v1183 : IVec S16 32), Decidable (k0_chk302 v1183) := fun v1183 => decidable_of_iff' _ (Iff.of_eq (k0_chk302.eq_1 v1183))
theorem k0_idx302_inb : ∀ (v1183 : IVec S16 32) (k0_hw302 : k0_chk302 v1183), ∀ a x, ((![v1183] : Fin 1 → IVec S16 32) a x).toNat < S2800.size a := fun v1183 k0_hw302 => k0_hw302

def k0_chk303 (v1186 : IVec S16 32) : Prop :=
  (∀ a x, ((![v1186] : Fin 1 → IVec S16 32) a x).toNat < S2800.size a)
instance k0_chk303.dec : ∀ (v1186 : IVec S16 32), Decidable (k0_chk303 v1186) := fun v1186 => decidable_of_iff' _ (Iff.of_eq (k0_chk303.eq_1 v1186))
theorem k0_idx303_inb : ∀ (v1186 : IVec S16 32) (k0_hw303 : k0_chk303 v1186), ∀ a x, ((![v1186] : Fin 1 → IVec S16 32) a x).toNat < S2800.size a := fun v1186 k0_hw303 => k0_hw303

def k0_chk304 (v1188 : IVec S16 32) : Prop :=
  (∀ a x, ((![v1188] : Fin 1 → IVec S16 32) a x).toNat < S2800.size a)
instance k0_chk304.dec : ∀ (v1188 : IVec S16 32), Decidable (k0_chk304 v1188) := fun v1188 => decidable_of_iff' _ (Iff.of_eq (k0_chk304.eq_1 v1188))
theorem k0_idx304_inb : ∀ (v1188 : IVec S16 32) (k0_hw304 : k0_chk304 v1188), ∀ a x, ((![v1188] : Fin 1 → IVec S16 32) a x).toNat < S2800.size a := fun v1188 k0_hw304 => k0_hw304

def k0_chk305 (v1191 : IVec S16 32) : Prop :=
  (∀ a x, ((![v1191] : Fin 1 → IVec S16 32) a x).toNat < S2800.size a)
instance k0_chk305.dec : ∀ (v1191 : IVec S16 32), Decidable (k0_chk305 v1191) := fun v1191 => decidable_of_iff' _ (Iff.of_eq (k0_chk305.eq_1 v1191))
theorem k0_idx305_inb : ∀ (v1191 : IVec S16 32) (k0_hw305 : k0_chk305 v1191), ∀ a x, ((![v1191] : Fin 1 → IVec S16 32) a x).toNat < S2800.size a := fun v1191 k0_hw305 => k0_hw305

def k0_chk306 (v1193 : IVec S16 32) : Prop :=
  (∀ a x, ((![v1193] : Fin 1 → IVec S16 32) a x).toNat < S2800.size a)
instance k0_chk306.dec : ∀ (v1193 : IVec S16 32), Decidable (k0_chk306 v1193) := fun v1193 => decidable_of_iff' _ (Iff.of_eq (k0_chk306.eq_1 v1193))
theorem k0_idx306_inb : ∀ (v1193 : IVec S16 32) (k0_hw306 : k0_chk306 v1193), ∀ a x, ((![v1193] : Fin 1 → IVec S16 32) a x).toNat < S2800.size a := fun v1193 k0_hw306 => k0_hw306

def k0_chk307 (v1196 : IVec S16 32) : Prop :=
  (∀ a x, ((![v1196] : Fin 1 → IVec S16 32) a x).toNat < S2800.size a)
instance k0_chk307.dec : ∀ (v1196 : IVec S16 32), Decidable (k0_chk307 v1196) := fun v1196 => decidable_of_iff' _ (Iff.of_eq (k0_chk307.eq_1 v1196))
theorem k0_idx307_inb : ∀ (v1196 : IVec S16 32) (k0_hw307 : k0_chk307 v1196), ∀ a x, ((![v1196] : Fin 1 → IVec S16 32) a x).toNat < S2800.size a := fun v1196 k0_hw307 => k0_hw307

def k0_chk308 (v1198 : IVec S16 32) : Prop :=
  (∀ a x, ((![v1198] : Fin 1 → IVec S16 32) a x).toNat < S2800.size a)
instance k0_chk308.dec : ∀ (v1198 : IVec S16 32), Decidable (k0_chk308 v1198) := fun v1198 => decidable_of_iff' _ (Iff.of_eq (k0_chk308.eq_1 v1198))
theorem k0_idx308_inb : ∀ (v1198 : IVec S16 32) (k0_hw308 : k0_chk308 v1198), ∀ a x, ((![v1198] : Fin 1 → IVec S16 32) a x).toNat < S2800.size a := fun v1198 k0_hw308 => k0_hw308

def k0_chk309 (v1201 : IVec S16 32) : Prop :=
  (∀ a x, ((![v1201] : Fin 1 → IVec S16 32) a x).toNat < S2800.size a)
instance k0_chk309.dec : ∀ (v1201 : IVec S16 32), Decidable (k0_chk309 v1201) := fun v1201 => decidable_of_iff' _ (Iff.of_eq (k0_chk309.eq_1 v1201))
theorem k0_idx309_inb : ∀ (v1201 : IVec S16 32) (k0_hw309 : k0_chk309 v1201), ∀ a x, ((![v1201] : Fin 1 → IVec S16 32) a x).toNat < S2800.size a := fun v1201 k0_hw309 => k0_hw309

def k0_chk310 (v1203 : IVec S16 32) : Prop :=
  (∀ a x, ((![v1203] : Fin 1 → IVec S16 32) a x).toNat < S2800.size a)
instance k0_chk310.dec : ∀ (v1203 : IVec S16 32), Decidable (k0_chk310 v1203) := fun v1203 => decidable_of_iff' _ (Iff.of_eq (k0_chk310.eq_1 v1203))
theorem k0_idx310_inb : ∀ (v1203 : IVec S16 32) (k0_hw310 : k0_chk310 v1203), ∀ a x, ((![v1203] : Fin 1 → IVec S16 32) a x).toNat < S2800.size a := fun v1203 k0_hw310 => k0_hw310

def k0_chk311 (v1206 : IVec S16 32) : Prop :=
  (∀ a x, ((![v1206] : Fin 1 → IVec S16 32) a x).toNat < S2800.size a)
instance k0_chk311.dec : ∀ (v1206 : IVec S16 32), Decidable (k0_chk311 v1206) := fun v1206 => decidable_of_iff' _ (Iff.of_eq (k0_chk311.eq_1 v1206))
theorem k0_idx311_inb : ∀ (v1206 : IVec S16 32) (k0_hw311 : k0_chk311 v1206), ∀ a x, ((![v1206] : Fin 1 → IVec S16 32) a x).toNat < S2800.size a := fun v1206 k0_hw311 => k0_hw311

def k0_chk312 (v1208 : IVec S16 32) : Prop :=
  (∀ a x, ((![v1208] : Fin 1 → IVec S16 32) a x).toNat < S2800.size a)
instance k0_chk312.dec : ∀ (v1208 : IVec S16 32), Decidable (k0_chk312 v1208) := fun v1208 => decidable_of_iff' _ (Iff.of_eq (k0_chk312.eq_1 v1208))
theorem k0_idx312_inb : ∀ (v1208 : IVec S16 32) (k0_hw312 : k0_chk312 v1208), ∀ a x, ((![v1208] : Fin 1 → IVec S16 32) a x).toNat < S2800.size a := fun v1208 k0_hw312 => k0_hw312

def k0_chk313 (v1211 : IVec S16 32) : Prop :=
  (∀ a x, ((![v1211] : Fin 1 → IVec S16 32) a x).toNat < S2800.size a)
instance k0_chk313.dec : ∀ (v1211 : IVec S16 32), Decidable (k0_chk313 v1211) := fun v1211 => decidable_of_iff' _ (Iff.of_eq (k0_chk313.eq_1 v1211))
theorem k0_idx313_inb : ∀ (v1211 : IVec S16 32) (k0_hw313 : k0_chk313 v1211), ∀ a x, ((![v1211] : Fin 1 → IVec S16 32) a x).toNat < S2800.size a := fun v1211 k0_hw313 => k0_hw313

def k0_chk314 (v1213 : IVec S16 32) : Prop :=
  (∀ a x, ((![v1213] : Fin 1 → IVec S16 32) a x).toNat < S2800.size a)
instance k0_chk314.dec : ∀ (v1213 : IVec S16 32), Decidable (k0_chk314 v1213) := fun v1213 => decidable_of_iff' _ (Iff.of_eq (k0_chk314.eq_1 v1213))
theorem k0_idx314_inb : ∀ (v1213 : IVec S16 32) (k0_hw314 : k0_chk314 v1213), ∀ a x, ((![v1213] : Fin 1 → IVec S16 32) a x).toNat < S2800.size a := fun v1213 k0_hw314 => k0_hw314

def k0_chk315 (v1216 : IVec S16 32) : Prop :=
  (∀ a x, ((![v1216] : Fin 1 → IVec S16 32) a x).toNat < S2800.size a)
instance k0_chk315.dec : ∀ (v1216 : IVec S16 32), Decidable (k0_chk315 v1216) := fun v1216 => decidable_of_iff' _ (Iff.of_eq (k0_chk315.eq_1 v1216))
theorem k0_idx315_inb : ∀ (v1216 : IVec S16 32) (k0_hw315 : k0_chk315 v1216), ∀ a x, ((![v1216] : Fin 1 → IVec S16 32) a x).toNat < S2800.size a := fun v1216 k0_hw315 => k0_hw315

def k0_chk316 (v1218 : IVec S16 32) : Prop :=
  (∀ a x, ((![v1218] : Fin 1 → IVec S16 32) a x).toNat < S2800.size a)
instance k0_chk316.dec : ∀ (v1218 : IVec S16 32), Decidable (k0_chk316 v1218) := fun v1218 => decidable_of_iff' _ (Iff.of_eq (k0_chk316.eq_1 v1218))
theorem k0_idx316_inb : ∀ (v1218 : IVec S16 32) (k0_hw316 : k0_chk316 v1218), ∀ a x, ((![v1218] : Fin 1 → IVec S16 32) a x).toNat < S2800.size a := fun v1218 k0_hw316 => k0_hw316

def k0_chk317 (v1221 : IVec S16 32) : Prop :=
  (∀ a x, ((![v1221] : Fin 1 → IVec S16 32) a x).toNat < S2800.size a)
instance k0_chk317.dec : ∀ (v1221 : IVec S16 32), Decidable (k0_chk317 v1221) := fun v1221 => decidable_of_iff' _ (Iff.of_eq (k0_chk317.eq_1 v1221))
theorem k0_idx317_inb : ∀ (v1221 : IVec S16 32) (k0_hw317 : k0_chk317 v1221), ∀ a x, ((![v1221] : Fin 1 → IVec S16 32) a x).toNat < S2800.size a := fun v1221 k0_hw317 => k0_hw317

def k0_chk318 (v1223 : IVec S16 32) : Prop :=
  (∀ a x, ((![v1223] : Fin 1 → IVec S16 32) a x).toNat < S2800.size a)
instance k0_chk318.dec : ∀ (v1223 : IVec S16 32), Decidable (k0_chk318 v1223) := fun v1223 => decidable_of_iff' _ (Iff.of_eq (k0_chk318.eq_1 v1223))
theorem k0_idx318_inb : ∀ (v1223 : IVec S16 32) (k0_hw318 : k0_chk318 v1223), ∀ a x, ((![v1223] : Fin 1 → IVec S16 32) a x).toNat < S2800.size a := fun v1223 k0_hw318 => k0_hw318

def k0_chk319 (v1226 : IVec S16 32) : Prop :=
  (∀ a x, ((![v1226] : Fin 1 → IVec S16 32) a x).toNat < S2800.size a)
instance k0_chk319.dec : ∀ (v1226 : IVec S16 32), Decidable (k0_chk319 v1226) := fun v1226 => decidable_of_iff' _ (Iff.of_eq (k0_chk319.eq_1 v1226))
theorem k0_idx319_inb : ∀ (v1226 : IVec S16 32) (k0_hw319 : k0_chk319 v1226), ∀ a x, ((![v1226] : Fin 1 → IVec S16 32) a x).toNat < S2800.size a := fun v1226 k0_hw319 => k0_hw319

def k0_chk320 (v1228 : IVec S16 32) : Prop :=
  (∀ a x, ((![v1228] : Fin 1 → IVec S16 32) a x).toNat < S2800.size a)
instance k0_chk320.dec : ∀ (v1228 : IVec S16 32), Decidable (k0_chk320 v1228) := fun v1228 => decidable_of_iff' _ (Iff.of_eq (k0_chk320.eq_1 v1228))
theorem k0_idx320_inb : ∀ (v1228 : IVec S16 32) (k0_hw320 : k0_chk320 v1228), ∀ a x, ((![v1228] : Fin 1 → IVec S16 32) a x).toNat < S2800.size a := fun v1228 k0_hw320 => k0_hw320

def k0_chk321 (v1231 : IVec S16 32) : Prop :=
  (∀ a x, ((![v1231] : Fin 1 → IVec S16 32) a x).toNat < S2800.size a)
instance k0_chk321.dec : ∀ (v1231 : IVec S16 32), Decidable (k0_chk321 v1231) := fun v1231 => decidable_of_iff' _ (Iff.of_eq (k0_chk321.eq_1 v1231))
theorem k0_idx321_inb : ∀ (v1231 : IVec S16 32) (k0_hw321 : k0_chk321 v1231), ∀ a x, ((![v1231] : Fin 1 → IVec S16 32) a x).toNat < S2800.size a := fun v1231 k0_hw321 => k0_hw321

def k0_chk322 (v1233 : IVec S16 32) : Prop :=
  (∀ a x, ((![v1233] : Fin 1 → IVec S16 32) a x).toNat < S2800.size a)
instance k0_chk322.dec : ∀ (v1233 : IVec S16 32), Decidable (k0_chk322 v1233) := fun v1233 => decidable_of_iff' _ (Iff.of_eq (k0_chk322.eq_1 v1233))
theorem k0_idx322_inb : ∀ (v1233 : IVec S16 32) (k0_hw322 : k0_chk322 v1233), ∀ a x, ((![v1233] : Fin 1 → IVec S16 32) a x).toNat < S2800.size a := fun v1233 k0_hw322 => k0_hw322

def k0_chk323 (v1236 : IVec S16 32) : Prop :=
  (∀ a x, ((![v1236] : Fin 1 → IVec S16 32) a x).toNat < S2800.size a)
instance k0_chk323.dec : ∀ (v1236 : IVec S16 32), Decidable (k0_chk323 v1236) := fun v1236 => decidable_of_iff' _ (Iff.of_eq (k0_chk323.eq_1 v1236))
theorem k0_idx323_inb : ∀ (v1236 : IVec S16 32) (k0_hw323 : k0_chk323 v1236), ∀ a x, ((![v1236] : Fin 1 → IVec S16 32) a x).toNat < S2800.size a := fun v1236 k0_hw323 => k0_hw323

def k0_chk324 (v1238 : IVec S16 32) : Prop :=
  (∀ a x, ((![v1238] : Fin 1 → IVec S16 32) a x).toNat < S2800.size a)
instance k0_chk324.dec : ∀ (v1238 : IVec S16 32), Decidable (k0_chk324 v1238) := fun v1238 => decidable_of_iff' _ (Iff.of_eq (k0_chk324.eq_1 v1238))
theorem k0_idx324_inb : ∀ (v1238 : IVec S16 32) (k0_hw324 : k0_chk324 v1238), ∀ a x, ((![v1238] : Fin 1 → IVec S16 32) a x).toNat < S2800.size a := fun v1238 k0_hw324 => k0_hw324

def k0_chk325 (v1241 : IVec S16 32) : Prop :=
  (∀ a x, ((![v1241] : Fin 1 → IVec S16 32) a x).toNat < S2800.size a)
instance k0_chk325.dec : ∀ (v1241 : IVec S16 32), Decidable (k0_chk325 v1241) := fun v1241 => decidable_of_iff' _ (Iff.of_eq (k0_chk325.eq_1 v1241))
theorem k0_idx325_inb : ∀ (v1241 : IVec S16 32) (k0_hw325 : k0_chk325 v1241), ∀ a x, ((![v1241] : Fin 1 → IVec S16 32) a x).toNat < S2800.size a := fun v1241 k0_hw325 => k0_hw325

def k0_chk326 (v1243 : IVec S16 32) : Prop :=
  (∀ a x, ((![v1243] : Fin 1 → IVec S16 32) a x).toNat < S2800.size a)
instance k0_chk326.dec : ∀ (v1243 : IVec S16 32), Decidable (k0_chk326 v1243) := fun v1243 => decidable_of_iff' _ (Iff.of_eq (k0_chk326.eq_1 v1243))
theorem k0_idx326_inb : ∀ (v1243 : IVec S16 32) (k0_hw326 : k0_chk326 v1243), ∀ a x, ((![v1243] : Fin 1 → IVec S16 32) a x).toNat < S2800.size a := fun v1243 k0_hw326 => k0_hw326

def k0_chk327 (v1246 : IVec S16 32) : Prop :=
  (∀ a x, ((![v1246] : Fin 1 → IVec S16 32) a x).toNat < S2800.size a)
instance k0_chk327.dec : ∀ (v1246 : IVec S16 32), Decidable (k0_chk327 v1246) := fun v1246 => decidable_of_iff' _ (Iff.of_eq (k0_chk327.eq_1 v1246))
theorem k0_idx327_inb : ∀ (v1246 : IVec S16 32) (k0_hw327 : k0_chk327 v1246), ∀ a x, ((![v1246] : Fin 1 → IVec S16 32) a x).toNat < S2800.size a := fun v1246 k0_hw327 => k0_hw327

def k0_chk328 (v1248 : IVec S16 32) : Prop :=
  (∀ a x, ((![v1248] : Fin 1 → IVec S16 32) a x).toNat < S2800.size a)
instance k0_chk328.dec : ∀ (v1248 : IVec S16 32), Decidable (k0_chk328 v1248) := fun v1248 => decidable_of_iff' _ (Iff.of_eq (k0_chk328.eq_1 v1248))
theorem k0_idx328_inb : ∀ (v1248 : IVec S16 32) (k0_hw328 : k0_chk328 v1248), ∀ a x, ((![v1248] : Fin 1 → IVec S16 32) a x).toNat < S2800.size a := fun v1248 k0_hw328 => k0_hw328

def k0_chk329 (v1251 : IVec S16 32) : Prop :=
  (∀ a x, ((![v1251] : Fin 1 → IVec S16 32) a x).toNat < S2800.size a)
instance k0_chk329.dec : ∀ (v1251 : IVec S16 32), Decidable (k0_chk329 v1251) := fun v1251 => decidable_of_iff' _ (Iff.of_eq (k0_chk329.eq_1 v1251))
theorem k0_idx329_inb : ∀ (v1251 : IVec S16 32) (k0_hw329 : k0_chk329 v1251), ∀ a x, ((![v1251] : Fin 1 → IVec S16 32) a x).toNat < S2800.size a := fun v1251 k0_hw329 => k0_hw329

def k0_chk330 (v1253 : IVec S16 32) : Prop :=
  (∀ a x, ((![v1253] : Fin 1 → IVec S16 32) a x).toNat < S2800.size a)
instance k0_chk330.dec : ∀ (v1253 : IVec S16 32), Decidable (k0_chk330 v1253) := fun v1253 => decidable_of_iff' _ (Iff.of_eq (k0_chk330.eq_1 v1253))
theorem k0_idx330_inb : ∀ (v1253 : IVec S16 32) (k0_hw330 : k0_chk330 v1253), ∀ a x, ((![v1253] : Fin 1 → IVec S16 32) a x).toNat < S2800.size a := fun v1253 k0_hw330 => k0_hw330

def k0_chk331 (v1256 : IVec S16 32) : Prop :=
  (∀ a x, ((![v1256] : Fin 1 → IVec S16 32) a x).toNat < S2800.size a)
instance k0_chk331.dec : ∀ (v1256 : IVec S16 32), Decidable (k0_chk331 v1256) := fun v1256 => decidable_of_iff' _ (Iff.of_eq (k0_chk331.eq_1 v1256))
theorem k0_idx331_inb : ∀ (v1256 : IVec S16 32) (k0_hw331 : k0_chk331 v1256), ∀ a x, ((![v1256] : Fin 1 → IVec S16 32) a x).toNat < S2800.size a := fun v1256 k0_hw331 => k0_hw331

def k0_chk332 (v1258 : IVec S16 32) : Prop :=
  (∀ a x, ((![v1258] : Fin 1 → IVec S16 32) a x).toNat < S2800.size a)
instance k0_chk332.dec : ∀ (v1258 : IVec S16 32), Decidable (k0_chk332 v1258) := fun v1258 => decidable_of_iff' _ (Iff.of_eq (k0_chk332.eq_1 v1258))
theorem k0_idx332_inb : ∀ (v1258 : IVec S16 32) (k0_hw332 : k0_chk332 v1258), ∀ a x, ((![v1258] : Fin 1 → IVec S16 32) a x).toNat < S2800.size a := fun v1258 k0_hw332 => k0_hw332

def k0_chk333 (v1261 : IVec S16 32) : Prop :=
  (∀ a x, ((![v1261] : Fin 1 → IVec S16 32) a x).toNat < S2800.size a)
instance k0_chk333.dec : ∀ (v1261 : IVec S16 32), Decidable (k0_chk333 v1261) := fun v1261 => decidable_of_iff' _ (Iff.of_eq (k0_chk333.eq_1 v1261))
theorem k0_idx333_inb : ∀ (v1261 : IVec S16 32) (k0_hw333 : k0_chk333 v1261), ∀ a x, ((![v1261] : Fin 1 → IVec S16 32) a x).toNat < S2800.size a := fun v1261 k0_hw333 => k0_hw333

def k0_chk334 (v1263 : IVec S16 32) : Prop :=
  (∀ a x, ((![v1263] : Fin 1 → IVec S16 32) a x).toNat < S2800.size a)
instance k0_chk334.dec : ∀ (v1263 : IVec S16 32), Decidable (k0_chk334 v1263) := fun v1263 => decidable_of_iff' _ (Iff.of_eq (k0_chk334.eq_1 v1263))
theorem k0_idx334_inb : ∀ (v1263 : IVec S16 32) (k0_hw334 : k0_chk334 v1263), ∀ a x, ((![v1263] : Fin 1 → IVec S16 32) a x).toNat < S2800.size a := fun v1263 k0_hw334 => k0_hw334

def k0_chk335 (v1266 : IVec S16 32) : Prop :=
  (∀ a x, ((![v1266] : Fin 1 → IVec S16 32) a x).toNat < S2800.size a)
instance k0_chk335.dec : ∀ (v1266 : IVec S16 32), Decidable (k0_chk335 v1266) := fun v1266 => decidable_of_iff' _ (Iff.of_eq (k0_chk335.eq_1 v1266))
theorem k0_idx335_inb : ∀ (v1266 : IVec S16 32) (k0_hw335 : k0_chk335 v1266), ∀ a x, ((![v1266] : Fin 1 → IVec S16 32) a x).toNat < S2800.size a := fun v1266 k0_hw335 => k0_hw335

def k0_chk336 (v1268 : IVec S16 32) : Prop :=
  (∀ a x, ((![v1268] : Fin 1 → IVec S16 32) a x).toNat < S2800.size a)
instance k0_chk336.dec : ∀ (v1268 : IVec S16 32), Decidable (k0_chk336 v1268) := fun v1268 => decidable_of_iff' _ (Iff.of_eq (k0_chk336.eq_1 v1268))
theorem k0_idx336_inb : ∀ (v1268 : IVec S16 32) (k0_hw336 : k0_chk336 v1268), ∀ a x, ((![v1268] : Fin 1 → IVec S16 32) a x).toNat < S2800.size a := fun v1268 k0_hw336 => k0_hw336
def k0_cond2 (k0_t1 : Fin k0_t1_loop.trips) : BitVec 1 :=
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_730 : BitVec 32 := 2#32
  let v1269 : BitVec 32 := Scalar.addi v63 c2_i32_730
  let c16_i32_731 : BitVec 32 := 16#32
  let v1270 : BitVec 1 := Scalar.cmpi .slt v1269 c16_i32_731
  let v1271 : BitVec 32 := Scalar.extui v1270
  let c0_i32_732 : BitVec 32 := 0#32
  let v1272 : BitVec 1 := Scalar.cmpi .ne v1271 c0_i32_732
  v1272

def k0_off4 (i : grid0.Coords) (k0_t1 : Fin k0_t1_loop.trips) (c0_i32_1621 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_44 : BitVec 32 := 2#32
  let v64 : BitVec 32 := Scalar.muli v63 c2_i32_44
  let v65 : BitVec 32 := Scalar.addi v2 v64
  let c4_i32 : BitVec 32 := 4#32
  let v2512 : BitVec 32 := Scalar.addi v65 c4_i32
  let v2513 : BitVec 32 := Scalar.addi v2512 c0_i32_1621
  let c0_i32_1622 : BitVec 32 := 0#32
  ![v2513.toNat, 0]
def k0_off5 (i : grid0.Coords) (k0_t1 : Fin k0_t1_loop.trips) (c0_i32_733 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_43 : BitVec 32 := 2#32
  let c0_i32_16 : BitVec 32 := 0#32
  let c1_i32_17 : BitVec 32 := 1#32
  let arg20 : BitVec 32 := Scf.iv c0_i32_16 c1_i32_17 k0_t1
  let v63 : BitVec 32 := Scalar.muli c2_i32_43 arg20
  let c2_i32_44 : BitVec 32 := 2#32
  let v64 : BitVec 32 := Scalar.muli v63 c2_i32_44
  let v65 : BitVec 32 := Scalar.addi v2 v64
  let v1273 : BitVec 32 := Scalar.addi v65 c0_i32_733
  let c0_i32_735 : BitVec 32 := 0#32
  ![v1273.toNat, 0]
def k0_cond3 (k0_t1 : Fin k0_t1_loop.trips) : BitVec 1 :=
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_746 : BitVec 32 := 2#32
  let v1291 : BitVec 1 := Scalar.cmpi .sge v1288 c2_i32_746
  let v1292 : BitVec 32 := Scalar.extui v1291
  let c0_i32_747 : BitVec 32 := 0#32
  let v1293 : BitVec 1 := Scalar.cmpi .ne v1292 c0_i32_747
  v1293

def k0_off6 (i : grid0.Coords) (k0_t1 : Fin k0_t1_loop.trips) (c0_i32_1621 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_745 : BitVec 32 := 2#32
  let v1289 : BitVec 32 := Scalar.muli v1288 c2_i32_745
  let v1290 : BitVec 32 := Scalar.addi v2 v1289
  let c4_i32 : BitVec 32 := 4#32
  let v2512 : BitVec 32 := Scalar.subi v1290 c4_i32
  let v2513 : BitVec 32 := Scalar.addi v2512 c0_i32_1621
  let c0_i32_1623 : BitVec 32 := 0#32
  ![v2513.toNat, 0]
def k0_off7 (i : grid0.Coords) (k0_t1 : Fin k0_t1_loop.trips) (c0_i32_1098 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_745 : BitVec 32 := 2#32
  let v1289 : BitVec 32 := Scalar.muli v1288 c2_i32_745
  let v1290 : BitVec 32 := Scalar.addi v2 v1289
  let v1644 : BitVec 32 := Scalar.addi v1290 c0_i32_1098
  let c0_i32_1099 : BitVec 32 := 0#32
  ![v1644.toNat, 0]

def k0_chk337 (v1656 : IVec S16 32) : Prop :=
  (∀ a x, ((![v1656] : Fin 1 → IVec S16 32) a x).toNat < S2800.size a)
instance k0_chk337.dec : ∀ (v1656 : IVec S16 32), Decidable (k0_chk337 v1656) := fun v1656 => decidable_of_iff' _ (Iff.of_eq (k0_chk337.eq_1 v1656))
theorem k0_idx337_inb : ∀ (v1656 : IVec S16 32) (k0_hw337 : k0_chk337 v1656), ∀ a x, ((![v1656] : Fin 1 → IVec S16 32) a x).toNat < S2800.size a := fun v1656 k0_hw337 => k0_hw337

def k0_chk338 (v1658 : IVec S16 32) : Prop :=
  (∀ a x, ((![v1658] : Fin 1 → IVec S16 32) a x).toNat < S2800.size a)
instance k0_chk338.dec : ∀ (v1658 : IVec S16 32), Decidable (k0_chk338 v1658) := fun v1658 => decidable_of_iff' _ (Iff.of_eq (k0_chk338.eq_1 v1658))
theorem k0_idx338_inb : ∀ (v1658 : IVec S16 32) (k0_hw338 : k0_chk338 v1658), ∀ a x, ((![v1658] : Fin 1 → IVec S16 32) a x).toNat < S2800.size a := fun v1658 k0_hw338 => k0_hw338

def k0_chk339 (v1661 : IVec S16 32) : Prop :=
  (∀ a x, ((![v1661] : Fin 1 → IVec S16 32) a x).toNat < S2800.size a)
instance k0_chk339.dec : ∀ (v1661 : IVec S16 32), Decidable (k0_chk339 v1661) := fun v1661 => decidable_of_iff' _ (Iff.of_eq (k0_chk339.eq_1 v1661))
theorem k0_idx339_inb : ∀ (v1661 : IVec S16 32) (k0_hw339 : k0_chk339 v1661), ∀ a x, ((![v1661] : Fin 1 → IVec S16 32) a x).toNat < S2800.size a := fun v1661 k0_hw339 => k0_hw339

def k0_chk340 (v1663 : IVec S16 32) : Prop :=
  (∀ a x, ((![v1663] : Fin 1 → IVec S16 32) a x).toNat < S2800.size a)
instance k0_chk340.dec : ∀ (v1663 : IVec S16 32), Decidable (k0_chk340 v1663) := fun v1663 => decidable_of_iff' _ (Iff.of_eq (k0_chk340.eq_1 v1663))
theorem k0_idx340_inb : ∀ (v1663 : IVec S16 32) (k0_hw340 : k0_chk340 v1663), ∀ a x, ((![v1663] : Fin 1 → IVec S16 32) a x).toNat < S2800.size a := fun v1663 k0_hw340 => k0_hw340

def k0_chk341 (v1666 : IVec S16 32) : Prop :=
  (∀ a x, ((![v1666] : Fin 1 → IVec S16 32) a x).toNat < S2800.size a)
instance k0_chk341.dec : ∀ (v1666 : IVec S16 32), Decidable (k0_chk341 v1666) := fun v1666 => decidable_of_iff' _ (Iff.of_eq (k0_chk341.eq_1 v1666))
theorem k0_idx341_inb : ∀ (v1666 : IVec S16 32) (k0_hw341 : k0_chk341 v1666), ∀ a x, ((![v1666] : Fin 1 → IVec S16 32) a x).toNat < S2800.size a := fun v1666 k0_hw341 => k0_hw341

def k0_chk342 (v1668 : IVec S16 32) : Prop :=
  (∀ a x, ((![v1668] : Fin 1 → IVec S16 32) a x).toNat < S2800.size a)
instance k0_chk342.dec : ∀ (v1668 : IVec S16 32), Decidable (k0_chk342 v1668) := fun v1668 => decidable_of_iff' _ (Iff.of_eq (k0_chk342.eq_1 v1668))
theorem k0_idx342_inb : ∀ (v1668 : IVec S16 32) (k0_hw342 : k0_chk342 v1668), ∀ a x, ((![v1668] : Fin 1 → IVec S16 32) a x).toNat < S2800.size a := fun v1668 k0_hw342 => k0_hw342

def k0_chk343 (v1671 : IVec S16 32) : Prop :=
  (∀ a x, ((![v1671] : Fin 1 → IVec S16 32) a x).toNat < S2800.size a)
instance k0_chk343.dec : ∀ (v1671 : IVec S16 32), Decidable (k0_chk343 v1671) := fun v1671 => decidable_of_iff' _ (Iff.of_eq (k0_chk343.eq_1 v1671))
theorem k0_idx343_inb : ∀ (v1671 : IVec S16 32) (k0_hw343 : k0_chk343 v1671), ∀ a x, ((![v1671] : Fin 1 → IVec S16 32) a x).toNat < S2800.size a := fun v1671 k0_hw343 => k0_hw343

def k0_chk344 (v1673 : IVec S16 32) : Prop :=
  (∀ a x, ((![v1673] : Fin 1 → IVec S16 32) a x).toNat < S2800.size a)
instance k0_chk344.dec : ∀ (v1673 : IVec S16 32), Decidable (k0_chk344 v1673) := fun v1673 => decidable_of_iff' _ (Iff.of_eq (k0_chk344.eq_1 v1673))
theorem k0_idx344_inb : ∀ (v1673 : IVec S16 32) (k0_hw344 : k0_chk344 v1673), ∀ a x, ((![v1673] : Fin 1 → IVec S16 32) a x).toNat < S2800.size a := fun v1673 k0_hw344 => k0_hw344

def k0_chk345 (v1676 : IVec S16 32) : Prop :=
  (∀ a x, ((![v1676] : Fin 1 → IVec S16 32) a x).toNat < S2800.size a)
instance k0_chk345.dec : ∀ (v1676 : IVec S16 32), Decidable (k0_chk345 v1676) := fun v1676 => decidable_of_iff' _ (Iff.of_eq (k0_chk345.eq_1 v1676))
theorem k0_idx345_inb : ∀ (v1676 : IVec S16 32) (k0_hw345 : k0_chk345 v1676), ∀ a x, ((![v1676] : Fin 1 → IVec S16 32) a x).toNat < S2800.size a := fun v1676 k0_hw345 => k0_hw345

def k0_chk346 (v1678 : IVec S16 32) : Prop :=
  (∀ a x, ((![v1678] : Fin 1 → IVec S16 32) a x).toNat < S2800.size a)
instance k0_chk346.dec : ∀ (v1678 : IVec S16 32), Decidable (k0_chk346 v1678) := fun v1678 => decidable_of_iff' _ (Iff.of_eq (k0_chk346.eq_1 v1678))
theorem k0_idx346_inb : ∀ (v1678 : IVec S16 32) (k0_hw346 : k0_chk346 v1678), ∀ a x, ((![v1678] : Fin 1 → IVec S16 32) a x).toNat < S2800.size a := fun v1678 k0_hw346 => k0_hw346

def k0_chk347 (v1681 : IVec S16 32) : Prop :=
  (∀ a x, ((![v1681] : Fin 1 → IVec S16 32) a x).toNat < S2800.size a)
instance k0_chk347.dec : ∀ (v1681 : IVec S16 32), Decidable (k0_chk347 v1681) := fun v1681 => decidable_of_iff' _ (Iff.of_eq (k0_chk347.eq_1 v1681))
theorem k0_idx347_inb : ∀ (v1681 : IVec S16 32) (k0_hw347 : k0_chk347 v1681), ∀ a x, ((![v1681] : Fin 1 → IVec S16 32) a x).toNat < S2800.size a := fun v1681 k0_hw347 => k0_hw347

def k0_chk348 (v1683 : IVec S16 32) : Prop :=
  (∀ a x, ((![v1683] : Fin 1 → IVec S16 32) a x).toNat < S2800.size a)
instance k0_chk348.dec : ∀ (v1683 : IVec S16 32), Decidable (k0_chk348 v1683) := fun v1683 => decidable_of_iff' _ (Iff.of_eq (k0_chk348.eq_1 v1683))
theorem k0_idx348_inb : ∀ (v1683 : IVec S16 32) (k0_hw348 : k0_chk348 v1683), ∀ a x, ((![v1683] : Fin 1 → IVec S16 32) a x).toNat < S2800.size a := fun v1683 k0_hw348 => k0_hw348

def k0_chk349 (v1686 : IVec S16 32) : Prop :=
  (∀ a x, ((![v1686] : Fin 1 → IVec S16 32) a x).toNat < S2800.size a)
instance k0_chk349.dec : ∀ (v1686 : IVec S16 32), Decidable (k0_chk349 v1686) := fun v1686 => decidable_of_iff' _ (Iff.of_eq (k0_chk349.eq_1 v1686))
theorem k0_idx349_inb : ∀ (v1686 : IVec S16 32) (k0_hw349 : k0_chk349 v1686), ∀ a x, ((![v1686] : Fin 1 → IVec S16 32) a x).toNat < S2800.size a := fun v1686 k0_hw349 => k0_hw349

def k0_chk350 (v1688 : IVec S16 32) : Prop :=
  (∀ a x, ((![v1688] : Fin 1 → IVec S16 32) a x).toNat < S2800.size a)
instance k0_chk350.dec : ∀ (v1688 : IVec S16 32), Decidable (k0_chk350 v1688) := fun v1688 => decidable_of_iff' _ (Iff.of_eq (k0_chk350.eq_1 v1688))
theorem k0_idx350_inb : ∀ (v1688 : IVec S16 32) (k0_hw350 : k0_chk350 v1688), ∀ a x, ((![v1688] : Fin 1 → IVec S16 32) a x).toNat < S2800.size a := fun v1688 k0_hw350 => k0_hw350

def k0_chk351 (v1691 : IVec S16 32) : Prop :=
  (∀ a x, ((![v1691] : Fin 1 → IVec S16 32) a x).toNat < S2800.size a)
instance k0_chk351.dec : ∀ (v1691 : IVec S16 32), Decidable (k0_chk351 v1691) := fun v1691 => decidable_of_iff' _ (Iff.of_eq (k0_chk351.eq_1 v1691))
theorem k0_idx351_inb : ∀ (v1691 : IVec S16 32) (k0_hw351 : k0_chk351 v1691), ∀ a x, ((![v1691] : Fin 1 → IVec S16 32) a x).toNat < S2800.size a := fun v1691 k0_hw351 => k0_hw351

def k0_chk352 (v1693 : IVec S16 32) : Prop :=
  (∀ a x, ((![v1693] : Fin 1 → IVec S16 32) a x).toNat < S2800.size a)
instance k0_chk352.dec : ∀ (v1693 : IVec S16 32), Decidable (k0_chk352 v1693) := fun v1693 => decidable_of_iff' _ (Iff.of_eq (k0_chk352.eq_1 v1693))
theorem k0_idx352_inb : ∀ (v1693 : IVec S16 32) (k0_hw352 : k0_chk352 v1693), ∀ a x, ((![v1693] : Fin 1 → IVec S16 32) a x).toNat < S2800.size a := fun v1693 k0_hw352 => k0_hw352

def k0_chk353 (v1696 : IVec S16 32) : Prop :=
  (∀ a x, ((![v1696] : Fin 1 → IVec S16 32) a x).toNat < S2800.size a)
instance k0_chk353.dec : ∀ (v1696 : IVec S16 32), Decidable (k0_chk353 v1696) := fun v1696 => decidable_of_iff' _ (Iff.of_eq (k0_chk353.eq_1 v1696))
theorem k0_idx353_inb : ∀ (v1696 : IVec S16 32) (k0_hw353 : k0_chk353 v1696), ∀ a x, ((![v1696] : Fin 1 → IVec S16 32) a x).toNat < S2800.size a := fun v1696 k0_hw353 => k0_hw353

def k0_chk354 (v1698 : IVec S16 32) : Prop :=
  (∀ a x, ((![v1698] : Fin 1 → IVec S16 32) a x).toNat < S2800.size a)
instance k0_chk354.dec : ∀ (v1698 : IVec S16 32), Decidable (k0_chk354 v1698) := fun v1698 => decidable_of_iff' _ (Iff.of_eq (k0_chk354.eq_1 v1698))
theorem k0_idx354_inb : ∀ (v1698 : IVec S16 32) (k0_hw354 : k0_chk354 v1698), ∀ a x, ((![v1698] : Fin 1 → IVec S16 32) a x).toNat < S2800.size a := fun v1698 k0_hw354 => k0_hw354

def k0_chk355 (v1701 : IVec S16 32) : Prop :=
  (∀ a x, ((![v1701] : Fin 1 → IVec S16 32) a x).toNat < S2800.size a)
instance k0_chk355.dec : ∀ (v1701 : IVec S16 32), Decidable (k0_chk355 v1701) := fun v1701 => decidable_of_iff' _ (Iff.of_eq (k0_chk355.eq_1 v1701))
theorem k0_idx355_inb : ∀ (v1701 : IVec S16 32) (k0_hw355 : k0_chk355 v1701), ∀ a x, ((![v1701] : Fin 1 → IVec S16 32) a x).toNat < S2800.size a := fun v1701 k0_hw355 => k0_hw355

def k0_chk356 (v1703 : IVec S16 32) : Prop :=
  (∀ a x, ((![v1703] : Fin 1 → IVec S16 32) a x).toNat < S2800.size a)
instance k0_chk356.dec : ∀ (v1703 : IVec S16 32), Decidable (k0_chk356 v1703) := fun v1703 => decidable_of_iff' _ (Iff.of_eq (k0_chk356.eq_1 v1703))
theorem k0_idx356_inb : ∀ (v1703 : IVec S16 32) (k0_hw356 : k0_chk356 v1703), ∀ a x, ((![v1703] : Fin 1 → IVec S16 32) a x).toNat < S2800.size a := fun v1703 k0_hw356 => k0_hw356

def k0_chk357 (v1706 : IVec S16 32) : Prop :=
  (∀ a x, ((![v1706] : Fin 1 → IVec S16 32) a x).toNat < S2800.size a)
instance k0_chk357.dec : ∀ (v1706 : IVec S16 32), Decidable (k0_chk357 v1706) := fun v1706 => decidable_of_iff' _ (Iff.of_eq (k0_chk357.eq_1 v1706))
theorem k0_idx357_inb : ∀ (v1706 : IVec S16 32) (k0_hw357 : k0_chk357 v1706), ∀ a x, ((![v1706] : Fin 1 → IVec S16 32) a x).toNat < S2800.size a := fun v1706 k0_hw357 => k0_hw357

def k0_chk358 (v1708 : IVec S16 32) : Prop :=
  (∀ a x, ((![v1708] : Fin 1 → IVec S16 32) a x).toNat < S2800.size a)
instance k0_chk358.dec : ∀ (v1708 : IVec S16 32), Decidable (k0_chk358 v1708) := fun v1708 => decidable_of_iff' _ (Iff.of_eq (k0_chk358.eq_1 v1708))
theorem k0_idx358_inb : ∀ (v1708 : IVec S16 32) (k0_hw358 : k0_chk358 v1708), ∀ a x, ((![v1708] : Fin 1 → IVec S16 32) a x).toNat < S2800.size a := fun v1708 k0_hw358 => k0_hw358

def k0_chk359 (v1711 : IVec S16 32) : Prop :=
  (∀ a x, ((![v1711] : Fin 1 → IVec S16 32) a x).toNat < S2800.size a)
instance k0_chk359.dec : ∀ (v1711 : IVec S16 32), Decidable (k0_chk359 v1711) := fun v1711 => decidable_of_iff' _ (Iff.of_eq (k0_chk359.eq_1 v1711))
theorem k0_idx359_inb : ∀ (v1711 : IVec S16 32) (k0_hw359 : k0_chk359 v1711), ∀ a x, ((![v1711] : Fin 1 → IVec S16 32) a x).toNat < S2800.size a := fun v1711 k0_hw359 => k0_hw359

def k0_chk360 (v1713 : IVec S16 32) : Prop :=
  (∀ a x, ((![v1713] : Fin 1 → IVec S16 32) a x).toNat < S2800.size a)
instance k0_chk360.dec : ∀ (v1713 : IVec S16 32), Decidable (k0_chk360 v1713) := fun v1713 => decidable_of_iff' _ (Iff.of_eq (k0_chk360.eq_1 v1713))
theorem k0_idx360_inb : ∀ (v1713 : IVec S16 32) (k0_hw360 : k0_chk360 v1713), ∀ a x, ((![v1713] : Fin 1 → IVec S16 32) a x).toNat < S2800.size a := fun v1713 k0_hw360 => k0_hw360

def k0_chk361 (v1716 : IVec S16 32) : Prop :=
  (∀ a x, ((![v1716] : Fin 1 → IVec S16 32) a x).toNat < S2800.size a)
instance k0_chk361.dec : ∀ (v1716 : IVec S16 32), Decidable (k0_chk361 v1716) := fun v1716 => decidable_of_iff' _ (Iff.of_eq (k0_chk361.eq_1 v1716))
theorem k0_idx361_inb : ∀ (v1716 : IVec S16 32) (k0_hw361 : k0_chk361 v1716), ∀ a x, ((![v1716] : Fin 1 → IVec S16 32) a x).toNat < S2800.size a := fun v1716 k0_hw361 => k0_hw361

def k0_chk362 (v1718 : IVec S16 32) : Prop :=
  (∀ a x, ((![v1718] : Fin 1 → IVec S16 32) a x).toNat < S2800.size a)
instance k0_chk362.dec : ∀ (v1718 : IVec S16 32), Decidable (k0_chk362 v1718) := fun v1718 => decidable_of_iff' _ (Iff.of_eq (k0_chk362.eq_1 v1718))
theorem k0_idx362_inb : ∀ (v1718 : IVec S16 32) (k0_hw362 : k0_chk362 v1718), ∀ a x, ((![v1718] : Fin 1 → IVec S16 32) a x).toNat < S2800.size a := fun v1718 k0_hw362 => k0_hw362

def k0_chk363 (v1721 : IVec S16 32) : Prop :=
  (∀ a x, ((![v1721] : Fin 1 → IVec S16 32) a x).toNat < S2800.size a)
instance k0_chk363.dec : ∀ (v1721 : IVec S16 32), Decidable (k0_chk363 v1721) := fun v1721 => decidable_of_iff' _ (Iff.of_eq (k0_chk363.eq_1 v1721))
theorem k0_idx363_inb : ∀ (v1721 : IVec S16 32) (k0_hw363 : k0_chk363 v1721), ∀ a x, ((![v1721] : Fin 1 → IVec S16 32) a x).toNat < S2800.size a := fun v1721 k0_hw363 => k0_hw363

def k0_chk364 (v1723 : IVec S16 32) : Prop :=
  (∀ a x, ((![v1723] : Fin 1 → IVec S16 32) a x).toNat < S2800.size a)
instance k0_chk364.dec : ∀ (v1723 : IVec S16 32), Decidable (k0_chk364 v1723) := fun v1723 => decidable_of_iff' _ (Iff.of_eq (k0_chk364.eq_1 v1723))
theorem k0_idx364_inb : ∀ (v1723 : IVec S16 32) (k0_hw364 : k0_chk364 v1723), ∀ a x, ((![v1723] : Fin 1 → IVec S16 32) a x).toNat < S2800.size a := fun v1723 k0_hw364 => k0_hw364

def k0_chk365 (v1726 : IVec S16 32) : Prop :=
  (∀ a x, ((![v1726] : Fin 1 → IVec S16 32) a x).toNat < S2800.size a)
instance k0_chk365.dec : ∀ (v1726 : IVec S16 32), Decidable (k0_chk365 v1726) := fun v1726 => decidable_of_iff' _ (Iff.of_eq (k0_chk365.eq_1 v1726))
theorem k0_idx365_inb : ∀ (v1726 : IVec S16 32) (k0_hw365 : k0_chk365 v1726), ∀ a x, ((![v1726] : Fin 1 → IVec S16 32) a x).toNat < S2800.size a := fun v1726 k0_hw365 => k0_hw365

def k0_chk366 (v1728 : IVec S16 32) : Prop :=
  (∀ a x, ((![v1728] : Fin 1 → IVec S16 32) a x).toNat < S2800.size a)
instance k0_chk366.dec : ∀ (v1728 : IVec S16 32), Decidable (k0_chk366 v1728) := fun v1728 => decidable_of_iff' _ (Iff.of_eq (k0_chk366.eq_1 v1728))
theorem k0_idx366_inb : ∀ (v1728 : IVec S16 32) (k0_hw366 : k0_chk366 v1728), ∀ a x, ((![v1728] : Fin 1 → IVec S16 32) a x).toNat < S2800.size a := fun v1728 k0_hw366 => k0_hw366

def k0_chk367 (v1731 : IVec S16 32) : Prop :=
  (∀ a x, ((![v1731] : Fin 1 → IVec S16 32) a x).toNat < S2800.size a)
instance k0_chk367.dec : ∀ (v1731 : IVec S16 32), Decidable (k0_chk367 v1731) := fun v1731 => decidable_of_iff' _ (Iff.of_eq (k0_chk367.eq_1 v1731))
theorem k0_idx367_inb : ∀ (v1731 : IVec S16 32) (k0_hw367 : k0_chk367 v1731), ∀ a x, ((![v1731] : Fin 1 → IVec S16 32) a x).toNat < S2800.size a := fun v1731 k0_hw367 => k0_hw367

def k0_chk368 (v1733 : IVec S16 32) : Prop :=
  (∀ a x, ((![v1733] : Fin 1 → IVec S16 32) a x).toNat < S2800.size a)
instance k0_chk368.dec : ∀ (v1733 : IVec S16 32), Decidable (k0_chk368 v1733) := fun v1733 => decidable_of_iff' _ (Iff.of_eq (k0_chk368.eq_1 v1733))
theorem k0_idx368_inb : ∀ (v1733 : IVec S16 32) (k0_hw368 : k0_chk368 v1733), ∀ a x, ((![v1733] : Fin 1 → IVec S16 32) a x).toNat < S2800.size a := fun v1733 k0_hw368 => k0_hw368

def k0_chk369 (v1736 : IVec S16 32) : Prop :=
  (∀ a x, ((![v1736] : Fin 1 → IVec S16 32) a x).toNat < S2800.size a)
instance k0_chk369.dec : ∀ (v1736 : IVec S16 32), Decidable (k0_chk369 v1736) := fun v1736 => decidable_of_iff' _ (Iff.of_eq (k0_chk369.eq_1 v1736))
theorem k0_idx369_inb : ∀ (v1736 : IVec S16 32) (k0_hw369 : k0_chk369 v1736), ∀ a x, ((![v1736] : Fin 1 → IVec S16 32) a x).toNat < S2800.size a := fun v1736 k0_hw369 => k0_hw369

def k0_chk370 (v1738 : IVec S16 32) : Prop :=
  (∀ a x, ((![v1738] : Fin 1 → IVec S16 32) a x).toNat < S2800.size a)
instance k0_chk370.dec : ∀ (v1738 : IVec S16 32), Decidable (k0_chk370 v1738) := fun v1738 => decidable_of_iff' _ (Iff.of_eq (k0_chk370.eq_1 v1738))
theorem k0_idx370_inb : ∀ (v1738 : IVec S16 32) (k0_hw370 : k0_chk370 v1738), ∀ a x, ((![v1738] : Fin 1 → IVec S16 32) a x).toNat < S2800.size a := fun v1738 k0_hw370 => k0_hw370

def k0_chk371 (v1741 : IVec S16 32) : Prop :=
  (∀ a x, ((![v1741] : Fin 1 → IVec S16 32) a x).toNat < S2800.size a)
instance k0_chk371.dec : ∀ (v1741 : IVec S16 32), Decidable (k0_chk371 v1741) := fun v1741 => decidable_of_iff' _ (Iff.of_eq (k0_chk371.eq_1 v1741))
theorem k0_idx371_inb : ∀ (v1741 : IVec S16 32) (k0_hw371 : k0_chk371 v1741), ∀ a x, ((![v1741] : Fin 1 → IVec S16 32) a x).toNat < S2800.size a := fun v1741 k0_hw371 => k0_hw371

def k0_chk372 (v1743 : IVec S16 32) : Prop :=
  (∀ a x, ((![v1743] : Fin 1 → IVec S16 32) a x).toNat < S2800.size a)
instance k0_chk372.dec : ∀ (v1743 : IVec S16 32), Decidable (k0_chk372 v1743) := fun v1743 => decidable_of_iff' _ (Iff.of_eq (k0_chk372.eq_1 v1743))
theorem k0_idx372_inb : ∀ (v1743 : IVec S16 32) (k0_hw372 : k0_chk372 v1743), ∀ a x, ((![v1743] : Fin 1 → IVec S16 32) a x).toNat < S2800.size a := fun v1743 k0_hw372 => k0_hw372

def k0_chk373 (v1746 : IVec S16 32) : Prop :=
  (∀ a x, ((![v1746] : Fin 1 → IVec S16 32) a x).toNat < S2800.size a)
instance k0_chk373.dec : ∀ (v1746 : IVec S16 32), Decidable (k0_chk373 v1746) := fun v1746 => decidable_of_iff' _ (Iff.of_eq (k0_chk373.eq_1 v1746))
theorem k0_idx373_inb : ∀ (v1746 : IVec S16 32) (k0_hw373 : k0_chk373 v1746), ∀ a x, ((![v1746] : Fin 1 → IVec S16 32) a x).toNat < S2800.size a := fun v1746 k0_hw373 => k0_hw373

def k0_chk374 (v1748 : IVec S16 32) : Prop :=
  (∀ a x, ((![v1748] : Fin 1 → IVec S16 32) a x).toNat < S2800.size a)
instance k0_chk374.dec : ∀ (v1748 : IVec S16 32), Decidable (k0_chk374 v1748) := fun v1748 => decidable_of_iff' _ (Iff.of_eq (k0_chk374.eq_1 v1748))
theorem k0_idx374_inb : ∀ (v1748 : IVec S16 32) (k0_hw374 : k0_chk374 v1748), ∀ a x, ((![v1748] : Fin 1 → IVec S16 32) a x).toNat < S2800.size a := fun v1748 k0_hw374 => k0_hw374

def k0_chk375 (v1751 : IVec S16 32) : Prop :=
  (∀ a x, ((![v1751] : Fin 1 → IVec S16 32) a x).toNat < S2800.size a)
instance k0_chk375.dec : ∀ (v1751 : IVec S16 32), Decidable (k0_chk375 v1751) := fun v1751 => decidable_of_iff' _ (Iff.of_eq (k0_chk375.eq_1 v1751))
theorem k0_idx375_inb : ∀ (v1751 : IVec S16 32) (k0_hw375 : k0_chk375 v1751), ∀ a x, ((![v1751] : Fin 1 → IVec S16 32) a x).toNat < S2800.size a := fun v1751 k0_hw375 => k0_hw375

def k0_chk376 (v1753 : IVec S16 32) : Prop :=
  (∀ a x, ((![v1753] : Fin 1 → IVec S16 32) a x).toNat < S2800.size a)
instance k0_chk376.dec : ∀ (v1753 : IVec S16 32), Decidable (k0_chk376 v1753) := fun v1753 => decidable_of_iff' _ (Iff.of_eq (k0_chk376.eq_1 v1753))
theorem k0_idx376_inb : ∀ (v1753 : IVec S16 32) (k0_hw376 : k0_chk376 v1753), ∀ a x, ((![v1753] : Fin 1 → IVec S16 32) a x).toNat < S2800.size a := fun v1753 k0_hw376 => k0_hw376

def k0_chk377 (v1756 : IVec S16 32) : Prop :=
  (∀ a x, ((![v1756] : Fin 1 → IVec S16 32) a x).toNat < S2800.size a)
instance k0_chk377.dec : ∀ (v1756 : IVec S16 32), Decidable (k0_chk377 v1756) := fun v1756 => decidable_of_iff' _ (Iff.of_eq (k0_chk377.eq_1 v1756))
theorem k0_idx377_inb : ∀ (v1756 : IVec S16 32) (k0_hw377 : k0_chk377 v1756), ∀ a x, ((![v1756] : Fin 1 → IVec S16 32) a x).toNat < S2800.size a := fun v1756 k0_hw377 => k0_hw377

def k0_chk378 (v1758 : IVec S16 32) : Prop :=
  (∀ a x, ((![v1758] : Fin 1 → IVec S16 32) a x).toNat < S2800.size a)
instance k0_chk378.dec : ∀ (v1758 : IVec S16 32), Decidable (k0_chk378 v1758) := fun v1758 => decidable_of_iff' _ (Iff.of_eq (k0_chk378.eq_1 v1758))
theorem k0_idx378_inb : ∀ (v1758 : IVec S16 32) (k0_hw378 : k0_chk378 v1758), ∀ a x, ((![v1758] : Fin 1 → IVec S16 32) a x).toNat < S2800.size a := fun v1758 k0_hw378 => k0_hw378

def k0_chk379 (v1761 : IVec S16 32) : Prop :=
  (∀ a x, ((![v1761] : Fin 1 → IVec S16 32) a x).toNat < S2800.size a)
instance k0_chk379.dec : ∀ (v1761 : IVec S16 32), Decidable (k0_chk379 v1761) := fun v1761 => decidable_of_iff' _ (Iff.of_eq (k0_chk379.eq_1 v1761))
theorem k0_idx379_inb : ∀ (v1761 : IVec S16 32) (k0_hw379 : k0_chk379 v1761), ∀ a x, ((![v1761] : Fin 1 → IVec S16 32) a x).toNat < S2800.size a := fun v1761 k0_hw379 => k0_hw379

def k0_chk380 (v1763 : IVec S16 32) : Prop :=
  (∀ a x, ((![v1763] : Fin 1 → IVec S16 32) a x).toNat < S2800.size a)
instance k0_chk380.dec : ∀ (v1763 : IVec S16 32), Decidable (k0_chk380 v1763) := fun v1763 => decidable_of_iff' _ (Iff.of_eq (k0_chk380.eq_1 v1763))
theorem k0_idx380_inb : ∀ (v1763 : IVec S16 32) (k0_hw380 : k0_chk380 v1763), ∀ a x, ((![v1763] : Fin 1 → IVec S16 32) a x).toNat < S2800.size a := fun v1763 k0_hw380 => k0_hw380

def k0_chk381 (v1766 : IVec S16 32) : Prop :=
  (∀ a x, ((![v1766] : Fin 1 → IVec S16 32) a x).toNat < S2800.size a)
instance k0_chk381.dec : ∀ (v1766 : IVec S16 32), Decidable (k0_chk381 v1766) := fun v1766 => decidable_of_iff' _ (Iff.of_eq (k0_chk381.eq_1 v1766))
theorem k0_idx381_inb : ∀ (v1766 : IVec S16 32) (k0_hw381 : k0_chk381 v1766), ∀ a x, ((![v1766] : Fin 1 → IVec S16 32) a x).toNat < S2800.size a := fun v1766 k0_hw381 => k0_hw381

def k0_chk382 (v1768 : IVec S16 32) : Prop :=
  (∀ a x, ((![v1768] : Fin 1 → IVec S16 32) a x).toNat < S2800.size a)
instance k0_chk382.dec : ∀ (v1768 : IVec S16 32), Decidable (k0_chk382 v1768) := fun v1768 => decidable_of_iff' _ (Iff.of_eq (k0_chk382.eq_1 v1768))
theorem k0_idx382_inb : ∀ (v1768 : IVec S16 32) (k0_hw382 : k0_chk382 v1768), ∀ a x, ((![v1768] : Fin 1 → IVec S16 32) a x).toNat < S2800.size a := fun v1768 k0_hw382 => k0_hw382

def k0_chk383 (v1771 : IVec S16 32) : Prop :=
  (∀ a x, ((![v1771] : Fin 1 → IVec S16 32) a x).toNat < S2800.size a)
instance k0_chk383.dec : ∀ (v1771 : IVec S16 32), Decidable (k0_chk383 v1771) := fun v1771 => decidable_of_iff' _ (Iff.of_eq (k0_chk383.eq_1 v1771))
theorem k0_idx383_inb : ∀ (v1771 : IVec S16 32) (k0_hw383 : k0_chk383 v1771), ∀ a x, ((![v1771] : Fin 1 → IVec S16 32) a x).toNat < S2800.size a := fun v1771 k0_hw383 => k0_hw383

def k0_chk384 (v1773 : IVec S16 32) : Prop :=
  (∀ a x, ((![v1773] : Fin 1 → IVec S16 32) a x).toNat < S2800.size a)
instance k0_chk384.dec : ∀ (v1773 : IVec S16 32), Decidable (k0_chk384 v1773) := fun v1773 => decidable_of_iff' _ (Iff.of_eq (k0_chk384.eq_1 v1773))
theorem k0_idx384_inb : ∀ (v1773 : IVec S16 32) (k0_hw384 : k0_chk384 v1773), ∀ a x, ((![v1773] : Fin 1 → IVec S16 32) a x).toNat < S2800.size a := fun v1773 k0_hw384 => k0_hw384

def k0_chk385 (v1776 : IVec S16 32) : Prop :=
  (∀ a x, ((![v1776] : Fin 1 → IVec S16 32) a x).toNat < S2800.size a)
instance k0_chk385.dec : ∀ (v1776 : IVec S16 32), Decidable (k0_chk385 v1776) := fun v1776 => decidable_of_iff' _ (Iff.of_eq (k0_chk385.eq_1 v1776))
theorem k0_idx385_inb : ∀ (v1776 : IVec S16 32) (k0_hw385 : k0_chk385 v1776), ∀ a x, ((![v1776] : Fin 1 → IVec S16 32) a x).toNat < S2800.size a := fun v1776 k0_hw385 => k0_hw385

def k0_chk386 (v1778 : IVec S16 32) : Prop :=
  (∀ a x, ((![v1778] : Fin 1 → IVec S16 32) a x).toNat < S2800.size a)
instance k0_chk386.dec : ∀ (v1778 : IVec S16 32), Decidable (k0_chk386 v1778) := fun v1778 => decidable_of_iff' _ (Iff.of_eq (k0_chk386.eq_1 v1778))
theorem k0_idx386_inb : ∀ (v1778 : IVec S16 32) (k0_hw386 : k0_chk386 v1778), ∀ a x, ((![v1778] : Fin 1 → IVec S16 32) a x).toNat < S2800.size a := fun v1778 k0_hw386 => k0_hw386

def k0_chk387 (v1781 : IVec S16 32) : Prop :=
  (∀ a x, ((![v1781] : Fin 1 → IVec S16 32) a x).toNat < S2800.size a)
instance k0_chk387.dec : ∀ (v1781 : IVec S16 32), Decidable (k0_chk387 v1781) := fun v1781 => decidable_of_iff' _ (Iff.of_eq (k0_chk387.eq_1 v1781))
theorem k0_idx387_inb : ∀ (v1781 : IVec S16 32) (k0_hw387 : k0_chk387 v1781), ∀ a x, ((![v1781] : Fin 1 → IVec S16 32) a x).toNat < S2800.size a := fun v1781 k0_hw387 => k0_hw387

def k0_chk388 (v1783 : IVec S16 32) : Prop :=
  (∀ a x, ((![v1783] : Fin 1 → IVec S16 32) a x).toNat < S2800.size a)
instance k0_chk388.dec : ∀ (v1783 : IVec S16 32), Decidable (k0_chk388 v1783) := fun v1783 => decidable_of_iff' _ (Iff.of_eq (k0_chk388.eq_1 v1783))
theorem k0_idx388_inb : ∀ (v1783 : IVec S16 32) (k0_hw388 : k0_chk388 v1783), ∀ a x, ((![v1783] : Fin 1 → IVec S16 32) a x).toNat < S2800.size a := fun v1783 k0_hw388 => k0_hw388

def k0_chk389 (v1786 : IVec S16 32) : Prop :=
  (∀ a x, ((![v1786] : Fin 1 → IVec S16 32) a x).toNat < S2800.size a)
instance k0_chk389.dec : ∀ (v1786 : IVec S16 32), Decidable (k0_chk389 v1786) := fun v1786 => decidable_of_iff' _ (Iff.of_eq (k0_chk389.eq_1 v1786))
theorem k0_idx389_inb : ∀ (v1786 : IVec S16 32) (k0_hw389 : k0_chk389 v1786), ∀ a x, ((![v1786] : Fin 1 → IVec S16 32) a x).toNat < S2800.size a := fun v1786 k0_hw389 => k0_hw389

def k0_chk390 (v1788 : IVec S16 32) : Prop :=
  (∀ a x, ((![v1788] : Fin 1 → IVec S16 32) a x).toNat < S2800.size a)
instance k0_chk390.dec : ∀ (v1788 : IVec S16 32), Decidable (k0_chk390 v1788) := fun v1788 => decidable_of_iff' _ (Iff.of_eq (k0_chk390.eq_1 v1788))
theorem k0_idx390_inb : ∀ (v1788 : IVec S16 32) (k0_hw390 : k0_chk390 v1788), ∀ a x, ((![v1788] : Fin 1 → IVec S16 32) a x).toNat < S2800.size a := fun v1788 k0_hw390 => k0_hw390

def k0_chk391 (v1791 : IVec S16 32) : Prop :=
  (∀ a x, ((![v1791] : Fin 1 → IVec S16 32) a x).toNat < S2800.size a)
instance k0_chk391.dec : ∀ (v1791 : IVec S16 32), Decidable (k0_chk391 v1791) := fun v1791 => decidable_of_iff' _ (Iff.of_eq (k0_chk391.eq_1 v1791))
theorem k0_idx391_inb : ∀ (v1791 : IVec S16 32) (k0_hw391 : k0_chk391 v1791), ∀ a x, ((![v1791] : Fin 1 → IVec S16 32) a x).toNat < S2800.size a := fun v1791 k0_hw391 => k0_hw391

def k0_chk392 (v1793 : IVec S16 32) : Prop :=
  (∀ a x, ((![v1793] : Fin 1 → IVec S16 32) a x).toNat < S2800.size a)
instance k0_chk392.dec : ∀ (v1793 : IVec S16 32), Decidable (k0_chk392 v1793) := fun v1793 => decidable_of_iff' _ (Iff.of_eq (k0_chk392.eq_1 v1793))
theorem k0_idx392_inb : ∀ (v1793 : IVec S16 32) (k0_hw392 : k0_chk392 v1793), ∀ a x, ((![v1793] : Fin 1 → IVec S16 32) a x).toNat < S2800.size a := fun v1793 k0_hw392 => k0_hw392

def k0_chk393 (v1796 : IVec S16 32) : Prop :=
  (∀ a x, ((![v1796] : Fin 1 → IVec S16 32) a x).toNat < S2800.size a)
instance k0_chk393.dec : ∀ (v1796 : IVec S16 32), Decidable (k0_chk393 v1796) := fun v1796 => decidable_of_iff' _ (Iff.of_eq (k0_chk393.eq_1 v1796))
theorem k0_idx393_inb : ∀ (v1796 : IVec S16 32) (k0_hw393 : k0_chk393 v1796), ∀ a x, ((![v1796] : Fin 1 → IVec S16 32) a x).toNat < S2800.size a := fun v1796 k0_hw393 => k0_hw393

def k0_chk394 (v1798 : IVec S16 32) : Prop :=
  (∀ a x, ((![v1798] : Fin 1 → IVec S16 32) a x).toNat < S2800.size a)
instance k0_chk394.dec : ∀ (v1798 : IVec S16 32), Decidable (k0_chk394 v1798) := fun v1798 => decidable_of_iff' _ (Iff.of_eq (k0_chk394.eq_1 v1798))
theorem k0_idx394_inb : ∀ (v1798 : IVec S16 32) (k0_hw394 : k0_chk394 v1798), ∀ a x, ((![v1798] : Fin 1 → IVec S16 32) a x).toNat < S2800.size a := fun v1798 k0_hw394 => k0_hw394

def k0_chk395 (v1801 : IVec S16 32) : Prop :=
  (∀ a x, ((![v1801] : Fin 1 → IVec S16 32) a x).toNat < S2800.size a)
instance k0_chk395.dec : ∀ (v1801 : IVec S16 32), Decidable (k0_chk395 v1801) := fun v1801 => decidable_of_iff' _ (Iff.of_eq (k0_chk395.eq_1 v1801))
theorem k0_idx395_inb : ∀ (v1801 : IVec S16 32) (k0_hw395 : k0_chk395 v1801), ∀ a x, ((![v1801] : Fin 1 → IVec S16 32) a x).toNat < S2800.size a := fun v1801 k0_hw395 => k0_hw395

def k0_chk396 (v1803 : IVec S16 32) : Prop :=
  (∀ a x, ((![v1803] : Fin 1 → IVec S16 32) a x).toNat < S2800.size a)
instance k0_chk396.dec : ∀ (v1803 : IVec S16 32), Decidable (k0_chk396 v1803) := fun v1803 => decidable_of_iff' _ (Iff.of_eq (k0_chk396.eq_1 v1803))
theorem k0_idx396_inb : ∀ (v1803 : IVec S16 32) (k0_hw396 : k0_chk396 v1803), ∀ a x, ((![v1803] : Fin 1 → IVec S16 32) a x).toNat < S2800.size a := fun v1803 k0_hw396 => k0_hw396

def k0_chk397 (v1806 : IVec S16 32) : Prop :=
  (∀ a x, ((![v1806] : Fin 1 → IVec S16 32) a x).toNat < S2800.size a)
instance k0_chk397.dec : ∀ (v1806 : IVec S16 32), Decidable (k0_chk397 v1806) := fun v1806 => decidable_of_iff' _ (Iff.of_eq (k0_chk397.eq_1 v1806))
theorem k0_idx397_inb : ∀ (v1806 : IVec S16 32) (k0_hw397 : k0_chk397 v1806), ∀ a x, ((![v1806] : Fin 1 → IVec S16 32) a x).toNat < S2800.size a := fun v1806 k0_hw397 => k0_hw397

def k0_chk398 (v1808 : IVec S16 32) : Prop :=
  (∀ a x, ((![v1808] : Fin 1 → IVec S16 32) a x).toNat < S2800.size a)
instance k0_chk398.dec : ∀ (v1808 : IVec S16 32), Decidable (k0_chk398 v1808) := fun v1808 => decidable_of_iff' _ (Iff.of_eq (k0_chk398.eq_1 v1808))
theorem k0_idx398_inb : ∀ (v1808 : IVec S16 32) (k0_hw398 : k0_chk398 v1808), ∀ a x, ((![v1808] : Fin 1 → IVec S16 32) a x).toNat < S2800.size a := fun v1808 k0_hw398 => k0_hw398

def k0_chk399 (v1811 : IVec S16 32) : Prop :=
  (∀ a x, ((![v1811] : Fin 1 → IVec S16 32) a x).toNat < S2800.size a)
instance k0_chk399.dec : ∀ (v1811 : IVec S16 32), Decidable (k0_chk399 v1811) := fun v1811 => decidable_of_iff' _ (Iff.of_eq (k0_chk399.eq_1 v1811))
theorem k0_idx399_inb : ∀ (v1811 : IVec S16 32) (k0_hw399 : k0_chk399 v1811), ∀ a x, ((![v1811] : Fin 1 → IVec S16 32) a x).toNat < S2800.size a := fun v1811 k0_hw399 => k0_hw399

def k0_chk400 (v1813 : IVec S16 32) : Prop :=
  (∀ a x, ((![v1813] : Fin 1 → IVec S16 32) a x).toNat < S2800.size a)
instance k0_chk400.dec : ∀ (v1813 : IVec S16 32), Decidable (k0_chk400 v1813) := fun v1813 => decidable_of_iff' _ (Iff.of_eq (k0_chk400.eq_1 v1813))
theorem k0_idx400_inb : ∀ (v1813 : IVec S16 32) (k0_hw400 : k0_chk400 v1813), ∀ a x, ((![v1813] : Fin 1 → IVec S16 32) a x).toNat < S2800.size a := fun v1813 k0_hw400 => k0_hw400

def k0_chk401 (v1816 : IVec S16 32) : Prop :=
  (∀ a x, ((![v1816] : Fin 1 → IVec S16 32) a x).toNat < S2800.size a)
instance k0_chk401.dec : ∀ (v1816 : IVec S16 32), Decidable (k0_chk401 v1816) := fun v1816 => decidable_of_iff' _ (Iff.of_eq (k0_chk401.eq_1 v1816))
theorem k0_idx401_inb : ∀ (v1816 : IVec S16 32) (k0_hw401 : k0_chk401 v1816), ∀ a x, ((![v1816] : Fin 1 → IVec S16 32) a x).toNat < S2800.size a := fun v1816 k0_hw401 => k0_hw401

def k0_chk402 (v1818 : IVec S16 32) : Prop :=
  (∀ a x, ((![v1818] : Fin 1 → IVec S16 32) a x).toNat < S2800.size a)
instance k0_chk402.dec : ∀ (v1818 : IVec S16 32), Decidable (k0_chk402 v1818) := fun v1818 => decidable_of_iff' _ (Iff.of_eq (k0_chk402.eq_1 v1818))
theorem k0_idx402_inb : ∀ (v1818 : IVec S16 32) (k0_hw402 : k0_chk402 v1818), ∀ a x, ((![v1818] : Fin 1 → IVec S16 32) a x).toNat < S2800.size a := fun v1818 k0_hw402 => k0_hw402

def k0_chk403 (v1821 : IVec S16 32) : Prop :=
  (∀ a x, ((![v1821] : Fin 1 → IVec S16 32) a x).toNat < S2800.size a)
instance k0_chk403.dec : ∀ (v1821 : IVec S16 32), Decidable (k0_chk403 v1821) := fun v1821 => decidable_of_iff' _ (Iff.of_eq (k0_chk403.eq_1 v1821))
theorem k0_idx403_inb : ∀ (v1821 : IVec S16 32) (k0_hw403 : k0_chk403 v1821), ∀ a x, ((![v1821] : Fin 1 → IVec S16 32) a x).toNat < S2800.size a := fun v1821 k0_hw403 => k0_hw403

def k0_chk404 (v1823 : IVec S16 32) : Prop :=
  (∀ a x, ((![v1823] : Fin 1 → IVec S16 32) a x).toNat < S2800.size a)
instance k0_chk404.dec : ∀ (v1823 : IVec S16 32), Decidable (k0_chk404 v1823) := fun v1823 => decidable_of_iff' _ (Iff.of_eq (k0_chk404.eq_1 v1823))
theorem k0_idx404_inb : ∀ (v1823 : IVec S16 32) (k0_hw404 : k0_chk404 v1823), ∀ a x, ((![v1823] : Fin 1 → IVec S16 32) a x).toNat < S2800.size a := fun v1823 k0_hw404 => k0_hw404

def k0_chk405 (v1826 : IVec S16 32) : Prop :=
  (∀ a x, ((![v1826] : Fin 1 → IVec S16 32) a x).toNat < S2800.size a)
instance k0_chk405.dec : ∀ (v1826 : IVec S16 32), Decidable (k0_chk405 v1826) := fun v1826 => decidable_of_iff' _ (Iff.of_eq (k0_chk405.eq_1 v1826))
theorem k0_idx405_inb : ∀ (v1826 : IVec S16 32) (k0_hw405 : k0_chk405 v1826), ∀ a x, ((![v1826] : Fin 1 → IVec S16 32) a x).toNat < S2800.size a := fun v1826 k0_hw405 => k0_hw405

def k0_chk406 (v1828 : IVec S16 32) : Prop :=
  (∀ a x, ((![v1828] : Fin 1 → IVec S16 32) a x).toNat < S2800.size a)
instance k0_chk406.dec : ∀ (v1828 : IVec S16 32), Decidable (k0_chk406 v1828) := fun v1828 => decidable_of_iff' _ (Iff.of_eq (k0_chk406.eq_1 v1828))
theorem k0_idx406_inb : ∀ (v1828 : IVec S16 32) (k0_hw406 : k0_chk406 v1828), ∀ a x, ((![v1828] : Fin 1 → IVec S16 32) a x).toNat < S2800.size a := fun v1828 k0_hw406 => k0_hw406

def k0_chk407 (v1831 : IVec S16 32) : Prop :=
  (∀ a x, ((![v1831] : Fin 1 → IVec S16 32) a x).toNat < S2800.size a)
instance k0_chk407.dec : ∀ (v1831 : IVec S16 32), Decidable (k0_chk407 v1831) := fun v1831 => decidable_of_iff' _ (Iff.of_eq (k0_chk407.eq_1 v1831))
theorem k0_idx407_inb : ∀ (v1831 : IVec S16 32) (k0_hw407 : k0_chk407 v1831), ∀ a x, ((![v1831] : Fin 1 → IVec S16 32) a x).toNat < S2800.size a := fun v1831 k0_hw407 => k0_hw407

def k0_chk408 (v1833 : IVec S16 32) : Prop :=
  (∀ a x, ((![v1833] : Fin 1 → IVec S16 32) a x).toNat < S2800.size a)
instance k0_chk408.dec : ∀ (v1833 : IVec S16 32), Decidable (k0_chk408 v1833) := fun v1833 => decidable_of_iff' _ (Iff.of_eq (k0_chk408.eq_1 v1833))
theorem k0_idx408_inb : ∀ (v1833 : IVec S16 32) (k0_hw408 : k0_chk408 v1833), ∀ a x, ((![v1833] : Fin 1 → IVec S16 32) a x).toNat < S2800.size a := fun v1833 k0_hw408 => k0_hw408

def k0_chk409 (v1836 : IVec S16 32) : Prop :=
  (∀ a x, ((![v1836] : Fin 1 → IVec S16 32) a x).toNat < S2800.size a)
instance k0_chk409.dec : ∀ (v1836 : IVec S16 32), Decidable (k0_chk409 v1836) := fun v1836 => decidable_of_iff' _ (Iff.of_eq (k0_chk409.eq_1 v1836))
theorem k0_idx409_inb : ∀ (v1836 : IVec S16 32) (k0_hw409 : k0_chk409 v1836), ∀ a x, ((![v1836] : Fin 1 → IVec S16 32) a x).toNat < S2800.size a := fun v1836 k0_hw409 => k0_hw409

def k0_chk410 (v1838 : IVec S16 32) : Prop :=
  (∀ a x, ((![v1838] : Fin 1 → IVec S16 32) a x).toNat < S2800.size a)
instance k0_chk410.dec : ∀ (v1838 : IVec S16 32), Decidable (k0_chk410 v1838) := fun v1838 => decidable_of_iff' _ (Iff.of_eq (k0_chk410.eq_1 v1838))
theorem k0_idx410_inb : ∀ (v1838 : IVec S16 32) (k0_hw410 : k0_chk410 v1838), ∀ a x, ((![v1838] : Fin 1 → IVec S16 32) a x).toNat < S2800.size a := fun v1838 k0_hw410 => k0_hw410

def k0_chk411 (v1841 : IVec S16 32) : Prop :=
  (∀ a x, ((![v1841] : Fin 1 → IVec S16 32) a x).toNat < S2800.size a)
instance k0_chk411.dec : ∀ (v1841 : IVec S16 32), Decidable (k0_chk411 v1841) := fun v1841 => decidable_of_iff' _ (Iff.of_eq (k0_chk411.eq_1 v1841))
theorem k0_idx411_inb : ∀ (v1841 : IVec S16 32) (k0_hw411 : k0_chk411 v1841), ∀ a x, ((![v1841] : Fin 1 → IVec S16 32) a x).toNat < S2800.size a := fun v1841 k0_hw411 => k0_hw411

def k0_chk412 (v1843 : IVec S16 32) : Prop :=
  (∀ a x, ((![v1843] : Fin 1 → IVec S16 32) a x).toNat < S2800.size a)
instance k0_chk412.dec : ∀ (v1843 : IVec S16 32), Decidable (k0_chk412 v1843) := fun v1843 => decidable_of_iff' _ (Iff.of_eq (k0_chk412.eq_1 v1843))
theorem k0_idx412_inb : ∀ (v1843 : IVec S16 32) (k0_hw412 : k0_chk412 v1843), ∀ a x, ((![v1843] : Fin 1 → IVec S16 32) a x).toNat < S2800.size a := fun v1843 k0_hw412 => k0_hw412

def k0_chk413 (v1846 : IVec S16 32) : Prop :=
  (∀ a x, ((![v1846] : Fin 1 → IVec S16 32) a x).toNat < S2800.size a)
instance k0_chk413.dec : ∀ (v1846 : IVec S16 32), Decidable (k0_chk413 v1846) := fun v1846 => decidable_of_iff' _ (Iff.of_eq (k0_chk413.eq_1 v1846))
theorem k0_idx413_inb : ∀ (v1846 : IVec S16 32) (k0_hw413 : k0_chk413 v1846), ∀ a x, ((![v1846] : Fin 1 → IVec S16 32) a x).toNat < S2800.size a := fun v1846 k0_hw413 => k0_hw413

def k0_chk414 (v1848 : IVec S16 32) : Prop :=
  (∀ a x, ((![v1848] : Fin 1 → IVec S16 32) a x).toNat < S2800.size a)
instance k0_chk414.dec : ∀ (v1848 : IVec S16 32), Decidable (k0_chk414 v1848) := fun v1848 => decidable_of_iff' _ (Iff.of_eq (k0_chk414.eq_1 v1848))
theorem k0_idx414_inb : ∀ (v1848 : IVec S16 32) (k0_hw414 : k0_chk414 v1848), ∀ a x, ((![v1848] : Fin 1 → IVec S16 32) a x).toNat < S2800.size a := fun v1848 k0_hw414 => k0_hw414

def k0_chk415 (v1851 : IVec S16 32) : Prop :=
  (∀ a x, ((![v1851] : Fin 1 → IVec S16 32) a x).toNat < S2800.size a)
instance k0_chk415.dec : ∀ (v1851 : IVec S16 32), Decidable (k0_chk415 v1851) := fun v1851 => decidable_of_iff' _ (Iff.of_eq (k0_chk415.eq_1 v1851))
theorem k0_idx415_inb : ∀ (v1851 : IVec S16 32) (k0_hw415 : k0_chk415 v1851), ∀ a x, ((![v1851] : Fin 1 → IVec S16 32) a x).toNat < S2800.size a := fun v1851 k0_hw415 => k0_hw415

def k0_chk416 (v1853 : IVec S16 32) : Prop :=
  (∀ a x, ((![v1853] : Fin 1 → IVec S16 32) a x).toNat < S2800.size a)
instance k0_chk416.dec : ∀ (v1853 : IVec S16 32), Decidable (k0_chk416 v1853) := fun v1853 => decidable_of_iff' _ (Iff.of_eq (k0_chk416.eq_1 v1853))
theorem k0_idx416_inb : ∀ (v1853 : IVec S16 32) (k0_hw416 : k0_chk416 v1853), ∀ a x, ((![v1853] : Fin 1 → IVec S16 32) a x).toNat < S2800.size a := fun v1853 k0_hw416 => k0_hw416

def k0_chk417 (v1856 : IVec S16 32) : Prop :=
  (∀ a x, ((![v1856] : Fin 1 → IVec S16 32) a x).toNat < S2800.size a)
instance k0_chk417.dec : ∀ (v1856 : IVec S16 32), Decidable (k0_chk417 v1856) := fun v1856 => decidable_of_iff' _ (Iff.of_eq (k0_chk417.eq_1 v1856))
theorem k0_idx417_inb : ∀ (v1856 : IVec S16 32) (k0_hw417 : k0_chk417 v1856), ∀ a x, ((![v1856] : Fin 1 → IVec S16 32) a x).toNat < S2800.size a := fun v1856 k0_hw417 => k0_hw417

def k0_chk418 (v1858 : IVec S16 32) : Prop :=
  (∀ a x, ((![v1858] : Fin 1 → IVec S16 32) a x).toNat < S2800.size a)
instance k0_chk418.dec : ∀ (v1858 : IVec S16 32), Decidable (k0_chk418 v1858) := fun v1858 => decidable_of_iff' _ (Iff.of_eq (k0_chk418.eq_1 v1858))
theorem k0_idx418_inb : ∀ (v1858 : IVec S16 32) (k0_hw418 : k0_chk418 v1858), ∀ a x, ((![v1858] : Fin 1 → IVec S16 32) a x).toNat < S2800.size a := fun v1858 k0_hw418 => k0_hw418

def k0_chk419 (v1861 : IVec S16 32) : Prop :=
  (∀ a x, ((![v1861] : Fin 1 → IVec S16 32) a x).toNat < S2800.size a)
instance k0_chk419.dec : ∀ (v1861 : IVec S16 32), Decidable (k0_chk419 v1861) := fun v1861 => decidable_of_iff' _ (Iff.of_eq (k0_chk419.eq_1 v1861))
theorem k0_idx419_inb : ∀ (v1861 : IVec S16 32) (k0_hw419 : k0_chk419 v1861), ∀ a x, ((![v1861] : Fin 1 → IVec S16 32) a x).toNat < S2800.size a := fun v1861 k0_hw419 => k0_hw419

def k0_chk420 (v1863 : IVec S16 32) : Prop :=
  (∀ a x, ((![v1863] : Fin 1 → IVec S16 32) a x).toNat < S2800.size a)
instance k0_chk420.dec : ∀ (v1863 : IVec S16 32), Decidable (k0_chk420 v1863) := fun v1863 => decidable_of_iff' _ (Iff.of_eq (k0_chk420.eq_1 v1863))
theorem k0_idx420_inb : ∀ (v1863 : IVec S16 32) (k0_hw420 : k0_chk420 v1863), ∀ a x, ((![v1863] : Fin 1 → IVec S16 32) a x).toNat < S2800.size a := fun v1863 k0_hw420 => k0_hw420

def k0_chk421 (v1866 : IVec S16 32) : Prop :=
  (∀ a x, ((![v1866] : Fin 1 → IVec S16 32) a x).toNat < S2800.size a)
instance k0_chk421.dec : ∀ (v1866 : IVec S16 32), Decidable (k0_chk421 v1866) := fun v1866 => decidable_of_iff' _ (Iff.of_eq (k0_chk421.eq_1 v1866))
theorem k0_idx421_inb : ∀ (v1866 : IVec S16 32) (k0_hw421 : k0_chk421 v1866), ∀ a x, ((![v1866] : Fin 1 → IVec S16 32) a x).toNat < S2800.size a := fun v1866 k0_hw421 => k0_hw421

def k0_chk422 (v1868 : IVec S16 32) : Prop :=
  (∀ a x, ((![v1868] : Fin 1 → IVec S16 32) a x).toNat < S2800.size a)
instance k0_chk422.dec : ∀ (v1868 : IVec S16 32), Decidable (k0_chk422 v1868) := fun v1868 => decidable_of_iff' _ (Iff.of_eq (k0_chk422.eq_1 v1868))
theorem k0_idx422_inb : ∀ (v1868 : IVec S16 32) (k0_hw422 : k0_chk422 v1868), ∀ a x, ((![v1868] : Fin 1 → IVec S16 32) a x).toNat < S2800.size a := fun v1868 k0_hw422 => k0_hw422

def k0_chk423 (v1871 : IVec S16 32) : Prop :=
  (∀ a x, ((![v1871] : Fin 1 → IVec S16 32) a x).toNat < S2800.size a)
instance k0_chk423.dec : ∀ (v1871 : IVec S16 32), Decidable (k0_chk423 v1871) := fun v1871 => decidable_of_iff' _ (Iff.of_eq (k0_chk423.eq_1 v1871))
theorem k0_idx423_inb : ∀ (v1871 : IVec S16 32) (k0_hw423 : k0_chk423 v1871), ∀ a x, ((![v1871] : Fin 1 → IVec S16 32) a x).toNat < S2800.size a := fun v1871 k0_hw423 => k0_hw423

def k0_chk424 (v1873 : IVec S16 32) : Prop :=
  (∀ a x, ((![v1873] : Fin 1 → IVec S16 32) a x).toNat < S2800.size a)
instance k0_chk424.dec : ∀ (v1873 : IVec S16 32), Decidable (k0_chk424 v1873) := fun v1873 => decidable_of_iff' _ (Iff.of_eq (k0_chk424.eq_1 v1873))
theorem k0_idx424_inb : ∀ (v1873 : IVec S16 32) (k0_hw424 : k0_chk424 v1873), ∀ a x, ((![v1873] : Fin 1 → IVec S16 32) a x).toNat < S2800.size a := fun v1873 k0_hw424 => k0_hw424

def k0_chk425 (v1876 : IVec S16 32) : Prop :=
  (∀ a x, ((![v1876] : Fin 1 → IVec S16 32) a x).toNat < S2800.size a)
instance k0_chk425.dec : ∀ (v1876 : IVec S16 32), Decidable (k0_chk425 v1876) := fun v1876 => decidable_of_iff' _ (Iff.of_eq (k0_chk425.eq_1 v1876))
theorem k0_idx425_inb : ∀ (v1876 : IVec S16 32) (k0_hw425 : k0_chk425 v1876), ∀ a x, ((![v1876] : Fin 1 → IVec S16 32) a x).toNat < S2800.size a := fun v1876 k0_hw425 => k0_hw425

def k0_chk426 (v1878 : IVec S16 32) : Prop :=
  (∀ a x, ((![v1878] : Fin 1 → IVec S16 32) a x).toNat < S2800.size a)
instance k0_chk426.dec : ∀ (v1878 : IVec S16 32), Decidable (k0_chk426 v1878) := fun v1878 => decidable_of_iff' _ (Iff.of_eq (k0_chk426.eq_1 v1878))
theorem k0_idx426_inb : ∀ (v1878 : IVec S16 32) (k0_hw426 : k0_chk426 v1878), ∀ a x, ((![v1878] : Fin 1 → IVec S16 32) a x).toNat < S2800.size a := fun v1878 k0_hw426 => k0_hw426

def k0_chk427 (v1881 : IVec S16 32) : Prop :=
  (∀ a x, ((![v1881] : Fin 1 → IVec S16 32) a x).toNat < S2800.size a)
instance k0_chk427.dec : ∀ (v1881 : IVec S16 32), Decidable (k0_chk427 v1881) := fun v1881 => decidable_of_iff' _ (Iff.of_eq (k0_chk427.eq_1 v1881))
theorem k0_idx427_inb : ∀ (v1881 : IVec S16 32) (k0_hw427 : k0_chk427 v1881), ∀ a x, ((![v1881] : Fin 1 → IVec S16 32) a x).toNat < S2800.size a := fun v1881 k0_hw427 => k0_hw427

def k0_chk428 (v1883 : IVec S16 32) : Prop :=
  (∀ a x, ((![v1883] : Fin 1 → IVec S16 32) a x).toNat < S2800.size a)
instance k0_chk428.dec : ∀ (v1883 : IVec S16 32), Decidable (k0_chk428 v1883) := fun v1883 => decidable_of_iff' _ (Iff.of_eq (k0_chk428.eq_1 v1883))
theorem k0_idx428_inb : ∀ (v1883 : IVec S16 32) (k0_hw428 : k0_chk428 v1883), ∀ a x, ((![v1883] : Fin 1 → IVec S16 32) a x).toNat < S2800.size a := fun v1883 k0_hw428 => k0_hw428

def k0_chk429 (v1886 : IVec S16 32) : Prop :=
  (∀ a x, ((![v1886] : Fin 1 → IVec S16 32) a x).toNat < S2800.size a)
instance k0_chk429.dec : ∀ (v1886 : IVec S16 32), Decidable (k0_chk429 v1886) := fun v1886 => decidable_of_iff' _ (Iff.of_eq (k0_chk429.eq_1 v1886))
theorem k0_idx429_inb : ∀ (v1886 : IVec S16 32) (k0_hw429 : k0_chk429 v1886), ∀ a x, ((![v1886] : Fin 1 → IVec S16 32) a x).toNat < S2800.size a := fun v1886 k0_hw429 => k0_hw429

def k0_chk430 (v1888 : IVec S16 32) : Prop :=
  (∀ a x, ((![v1888] : Fin 1 → IVec S16 32) a x).toNat < S2800.size a)
instance k0_chk430.dec : ∀ (v1888 : IVec S16 32), Decidable (k0_chk430 v1888) := fun v1888 => decidable_of_iff' _ (Iff.of_eq (k0_chk430.eq_1 v1888))
theorem k0_idx430_inb : ∀ (v1888 : IVec S16 32) (k0_hw430 : k0_chk430 v1888), ∀ a x, ((![v1888] : Fin 1 → IVec S16 32) a x).toNat < S2800.size a := fun v1888 k0_hw430 => k0_hw430

def k0_chk431 (v1891 : IVec S16 32) : Prop :=
  (∀ a x, ((![v1891] : Fin 1 → IVec S16 32) a x).toNat < S2800.size a)
instance k0_chk431.dec : ∀ (v1891 : IVec S16 32), Decidable (k0_chk431 v1891) := fun v1891 => decidable_of_iff' _ (Iff.of_eq (k0_chk431.eq_1 v1891))
theorem k0_idx431_inb : ∀ (v1891 : IVec S16 32) (k0_hw431 : k0_chk431 v1891), ∀ a x, ((![v1891] : Fin 1 → IVec S16 32) a x).toNat < S2800.size a := fun v1891 k0_hw431 => k0_hw431

def k0_chk432 (v1893 : IVec S16 32) : Prop :=
  (∀ a x, ((![v1893] : Fin 1 → IVec S16 32) a x).toNat < S2800.size a)
instance k0_chk432.dec : ∀ (v1893 : IVec S16 32), Decidable (k0_chk432 v1893) := fun v1893 => decidable_of_iff' _ (Iff.of_eq (k0_chk432.eq_1 v1893))
theorem k0_idx432_inb : ∀ (v1893 : IVec S16 32) (k0_hw432 : k0_chk432 v1893), ∀ a x, ((![v1893] : Fin 1 → IVec S16 32) a x).toNat < S2800.size a := fun v1893 k0_hw432 => k0_hw432

def k0_chk433 (v1896 : IVec S16 32) : Prop :=
  (∀ a x, ((![v1896] : Fin 1 → IVec S16 32) a x).toNat < S2800.size a)
instance k0_chk433.dec : ∀ (v1896 : IVec S16 32), Decidable (k0_chk433 v1896) := fun v1896 => decidable_of_iff' _ (Iff.of_eq (k0_chk433.eq_1 v1896))
theorem k0_idx433_inb : ∀ (v1896 : IVec S16 32) (k0_hw433 : k0_chk433 v1896), ∀ a x, ((![v1896] : Fin 1 → IVec S16 32) a x).toNat < S2800.size a := fun v1896 k0_hw433 => k0_hw433

def k0_chk434 (v1898 : IVec S16 32) : Prop :=
  (∀ a x, ((![v1898] : Fin 1 → IVec S16 32) a x).toNat < S2800.size a)
instance k0_chk434.dec : ∀ (v1898 : IVec S16 32), Decidable (k0_chk434 v1898) := fun v1898 => decidable_of_iff' _ (Iff.of_eq (k0_chk434.eq_1 v1898))
theorem k0_idx434_inb : ∀ (v1898 : IVec S16 32) (k0_hw434 : k0_chk434 v1898), ∀ a x, ((![v1898] : Fin 1 → IVec S16 32) a x).toNat < S2800.size a := fun v1898 k0_hw434 => k0_hw434

def k0_chk435 (v1901 : IVec S16 32) : Prop :=
  (∀ a x, ((![v1901] : Fin 1 → IVec S16 32) a x).toNat < S2800.size a)
instance k0_chk435.dec : ∀ (v1901 : IVec S16 32), Decidable (k0_chk435 v1901) := fun v1901 => decidable_of_iff' _ (Iff.of_eq (k0_chk435.eq_1 v1901))
theorem k0_idx435_inb : ∀ (v1901 : IVec S16 32) (k0_hw435 : k0_chk435 v1901), ∀ a x, ((![v1901] : Fin 1 → IVec S16 32) a x).toNat < S2800.size a := fun v1901 k0_hw435 => k0_hw435

def k0_chk436 (v1903 : IVec S16 32) : Prop :=
  (∀ a x, ((![v1903] : Fin 1 → IVec S16 32) a x).toNat < S2800.size a)
instance k0_chk436.dec : ∀ (v1903 : IVec S16 32), Decidable (k0_chk436 v1903) := fun v1903 => decidable_of_iff' _ (Iff.of_eq (k0_chk436.eq_1 v1903))
theorem k0_idx436_inb : ∀ (v1903 : IVec S16 32) (k0_hw436 : k0_chk436 v1903), ∀ a x, ((![v1903] : Fin 1 → IVec S16 32) a x).toNat < S2800.size a := fun v1903 k0_hw436 => k0_hw436

def k0_chk437 (v1906 : IVec S16 32) : Prop :=
  (∀ a x, ((![v1906] : Fin 1 → IVec S16 32) a x).toNat < S2800.size a)
instance k0_chk437.dec : ∀ (v1906 : IVec S16 32), Decidable (k0_chk437 v1906) := fun v1906 => decidable_of_iff' _ (Iff.of_eq (k0_chk437.eq_1 v1906))
theorem k0_idx437_inb : ∀ (v1906 : IVec S16 32) (k0_hw437 : k0_chk437 v1906), ∀ a x, ((![v1906] : Fin 1 → IVec S16 32) a x).toNat < S2800.size a := fun v1906 k0_hw437 => k0_hw437

def k0_chk438 (v1908 : IVec S16 32) : Prop :=
  (∀ a x, ((![v1908] : Fin 1 → IVec S16 32) a x).toNat < S2800.size a)
instance k0_chk438.dec : ∀ (v1908 : IVec S16 32), Decidable (k0_chk438 v1908) := fun v1908 => decidable_of_iff' _ (Iff.of_eq (k0_chk438.eq_1 v1908))
theorem k0_idx438_inb : ∀ (v1908 : IVec S16 32) (k0_hw438 : k0_chk438 v1908), ∀ a x, ((![v1908] : Fin 1 → IVec S16 32) a x).toNat < S2800.size a := fun v1908 k0_hw438 => k0_hw438

def k0_chk439 (v1911 : IVec S16 32) : Prop :=
  (∀ a x, ((![v1911] : Fin 1 → IVec S16 32) a x).toNat < S2800.size a)
instance k0_chk439.dec : ∀ (v1911 : IVec S16 32), Decidable (k0_chk439 v1911) := fun v1911 => decidable_of_iff' _ (Iff.of_eq (k0_chk439.eq_1 v1911))
theorem k0_idx439_inb : ∀ (v1911 : IVec S16 32) (k0_hw439 : k0_chk439 v1911), ∀ a x, ((![v1911] : Fin 1 → IVec S16 32) a x).toNat < S2800.size a := fun v1911 k0_hw439 => k0_hw439

def k0_chk440 (v1913 : IVec S16 32) : Prop :=
  (∀ a x, ((![v1913] : Fin 1 → IVec S16 32) a x).toNat < S2800.size a)
instance k0_chk440.dec : ∀ (v1913 : IVec S16 32), Decidable (k0_chk440 v1913) := fun v1913 => decidable_of_iff' _ (Iff.of_eq (k0_chk440.eq_1 v1913))
theorem k0_idx440_inb : ∀ (v1913 : IVec S16 32) (k0_hw440 : k0_chk440 v1913), ∀ a x, ((![v1913] : Fin 1 → IVec S16 32) a x).toNat < S2800.size a := fun v1913 k0_hw440 => k0_hw440

def k0_chk441 (v1916 : IVec S16 32) : Prop :=
  (∀ a x, ((![v1916] : Fin 1 → IVec S16 32) a x).toNat < S2800.size a)
instance k0_chk441.dec : ∀ (v1916 : IVec S16 32), Decidable (k0_chk441 v1916) := fun v1916 => decidable_of_iff' _ (Iff.of_eq (k0_chk441.eq_1 v1916))
theorem k0_idx441_inb : ∀ (v1916 : IVec S16 32) (k0_hw441 : k0_chk441 v1916), ∀ a x, ((![v1916] : Fin 1 → IVec S16 32) a x).toNat < S2800.size a := fun v1916 k0_hw441 => k0_hw441

def k0_chk442 (v1918 : IVec S16 32) : Prop :=
  (∀ a x, ((![v1918] : Fin 1 → IVec S16 32) a x).toNat < S2800.size a)
instance k0_chk442.dec : ∀ (v1918 : IVec S16 32), Decidable (k0_chk442 v1918) := fun v1918 => decidable_of_iff' _ (Iff.of_eq (k0_chk442.eq_1 v1918))
theorem k0_idx442_inb : ∀ (v1918 : IVec S16 32) (k0_hw442 : k0_chk442 v1918), ∀ a x, ((![v1918] : Fin 1 → IVec S16 32) a x).toNat < S2800.size a := fun v1918 k0_hw442 => k0_hw442

def k0_chk443 (v1921 : IVec S16 32) : Prop :=
  (∀ a x, ((![v1921] : Fin 1 → IVec S16 32) a x).toNat < S2800.size a)
instance k0_chk443.dec : ∀ (v1921 : IVec S16 32), Decidable (k0_chk443 v1921) := fun v1921 => decidable_of_iff' _ (Iff.of_eq (k0_chk443.eq_1 v1921))
theorem k0_idx443_inb : ∀ (v1921 : IVec S16 32) (k0_hw443 : k0_chk443 v1921), ∀ a x, ((![v1921] : Fin 1 → IVec S16 32) a x).toNat < S2800.size a := fun v1921 k0_hw443 => k0_hw443

def k0_chk444 (v1923 : IVec S16 32) : Prop :=
  (∀ a x, ((![v1923] : Fin 1 → IVec S16 32) a x).toNat < S2800.size a)
instance k0_chk444.dec : ∀ (v1923 : IVec S16 32), Decidable (k0_chk444 v1923) := fun v1923 => decidable_of_iff' _ (Iff.of_eq (k0_chk444.eq_1 v1923))
theorem k0_idx444_inb : ∀ (v1923 : IVec S16 32) (k0_hw444 : k0_chk444 v1923), ∀ a x, ((![v1923] : Fin 1 → IVec S16 32) a x).toNat < S2800.size a := fun v1923 k0_hw444 => k0_hw444

def k0_chk445 (v1926 : IVec S16 32) : Prop :=
  (∀ a x, ((![v1926] : Fin 1 → IVec S16 32) a x).toNat < S2800.size a)
instance k0_chk445.dec : ∀ (v1926 : IVec S16 32), Decidable (k0_chk445 v1926) := fun v1926 => decidable_of_iff' _ (Iff.of_eq (k0_chk445.eq_1 v1926))
theorem k0_idx445_inb : ∀ (v1926 : IVec S16 32) (k0_hw445 : k0_chk445 v1926), ∀ a x, ((![v1926] : Fin 1 → IVec S16 32) a x).toNat < S2800.size a := fun v1926 k0_hw445 => k0_hw445

def k0_chk446 (v1928 : IVec S16 32) : Prop :=
  (∀ a x, ((![v1928] : Fin 1 → IVec S16 32) a x).toNat < S2800.size a)
instance k0_chk446.dec : ∀ (v1928 : IVec S16 32), Decidable (k0_chk446 v1928) := fun v1928 => decidable_of_iff' _ (Iff.of_eq (k0_chk446.eq_1 v1928))
theorem k0_idx446_inb : ∀ (v1928 : IVec S16 32) (k0_hw446 : k0_chk446 v1928), ∀ a x, ((![v1928] : Fin 1 → IVec S16 32) a x).toNat < S2800.size a := fun v1928 k0_hw446 => k0_hw446

def k0_chk447 (v1931 : IVec S16 32) : Prop :=
  (∀ a x, ((![v1931] : Fin 1 → IVec S16 32) a x).toNat < S2800.size a)
instance k0_chk447.dec : ∀ (v1931 : IVec S16 32), Decidable (k0_chk447 v1931) := fun v1931 => decidable_of_iff' _ (Iff.of_eq (k0_chk447.eq_1 v1931))
theorem k0_idx447_inb : ∀ (v1931 : IVec S16 32) (k0_hw447 : k0_chk447 v1931), ∀ a x, ((![v1931] : Fin 1 → IVec S16 32) a x).toNat < S2800.size a := fun v1931 k0_hw447 => k0_hw447

def k0_chk448 (v1933 : IVec S16 32) : Prop :=
  (∀ a x, ((![v1933] : Fin 1 → IVec S16 32) a x).toNat < S2800.size a)
instance k0_chk448.dec : ∀ (v1933 : IVec S16 32), Decidable (k0_chk448 v1933) := fun v1933 => decidable_of_iff' _ (Iff.of_eq (k0_chk448.eq_1 v1933))
theorem k0_idx448_inb : ∀ (v1933 : IVec S16 32) (k0_hw448 : k0_chk448 v1933), ∀ a x, ((![v1933] : Fin 1 → IVec S16 32) a x).toNat < S2800.size a := fun v1933 k0_hw448 => k0_hw448

def k0_chk449 (v1936 : IVec S16 32) : Prop :=
  (∀ a x, ((![v1936] : Fin 1 → IVec S16 32) a x).toNat < S2800.size a)
instance k0_chk449.dec : ∀ (v1936 : IVec S16 32), Decidable (k0_chk449 v1936) := fun v1936 => decidable_of_iff' _ (Iff.of_eq (k0_chk449.eq_1 v1936))
theorem k0_idx449_inb : ∀ (v1936 : IVec S16 32) (k0_hw449 : k0_chk449 v1936), ∀ a x, ((![v1936] : Fin 1 → IVec S16 32) a x).toNat < S2800.size a := fun v1936 k0_hw449 => k0_hw449

def k0_chk450 (v1938 : IVec S16 32) : Prop :=
  (∀ a x, ((![v1938] : Fin 1 → IVec S16 32) a x).toNat < S2800.size a)
instance k0_chk450.dec : ∀ (v1938 : IVec S16 32), Decidable (k0_chk450 v1938) := fun v1938 => decidable_of_iff' _ (Iff.of_eq (k0_chk450.eq_1 v1938))
theorem k0_idx450_inb : ∀ (v1938 : IVec S16 32) (k0_hw450 : k0_chk450 v1938), ∀ a x, ((![v1938] : Fin 1 → IVec S16 32) a x).toNat < S2800.size a := fun v1938 k0_hw450 => k0_hw450

def k0_chk451 (v1941 : IVec S16 32) : Prop :=
  (∀ a x, ((![v1941] : Fin 1 → IVec S16 32) a x).toNat < S2800.size a)
instance k0_chk451.dec : ∀ (v1941 : IVec S16 32), Decidable (k0_chk451 v1941) := fun v1941 => decidable_of_iff' _ (Iff.of_eq (k0_chk451.eq_1 v1941))
theorem k0_idx451_inb : ∀ (v1941 : IVec S16 32) (k0_hw451 : k0_chk451 v1941), ∀ a x, ((![v1941] : Fin 1 → IVec S16 32) a x).toNat < S2800.size a := fun v1941 k0_hw451 => k0_hw451

def k0_chk452 (v1943 : IVec S16 32) : Prop :=
  (∀ a x, ((![v1943] : Fin 1 → IVec S16 32) a x).toNat < S2800.size a)
instance k0_chk452.dec : ∀ (v1943 : IVec S16 32), Decidable (k0_chk452 v1943) := fun v1943 => decidable_of_iff' _ (Iff.of_eq (k0_chk452.eq_1 v1943))
theorem k0_idx452_inb : ∀ (v1943 : IVec S16 32) (k0_hw452 : k0_chk452 v1943), ∀ a x, ((![v1943] : Fin 1 → IVec S16 32) a x).toNat < S2800.size a := fun v1943 k0_hw452 => k0_hw452

def k0_chk453 (v1946 : IVec S16 32) : Prop :=
  (∀ a x, ((![v1946] : Fin 1 → IVec S16 32) a x).toNat < S2800.size a)
instance k0_chk453.dec : ∀ (v1946 : IVec S16 32), Decidable (k0_chk453 v1946) := fun v1946 => decidable_of_iff' _ (Iff.of_eq (k0_chk453.eq_1 v1946))
theorem k0_idx453_inb : ∀ (v1946 : IVec S16 32) (k0_hw453 : k0_chk453 v1946), ∀ a x, ((![v1946] : Fin 1 → IVec S16 32) a x).toNat < S2800.size a := fun v1946 k0_hw453 => k0_hw453

def k0_chk454 (v1948 : IVec S16 32) : Prop :=
  (∀ a x, ((![v1948] : Fin 1 → IVec S16 32) a x).toNat < S2800.size a)
instance k0_chk454.dec : ∀ (v1948 : IVec S16 32), Decidable (k0_chk454 v1948) := fun v1948 => decidable_of_iff' _ (Iff.of_eq (k0_chk454.eq_1 v1948))
theorem k0_idx454_inb : ∀ (v1948 : IVec S16 32) (k0_hw454 : k0_chk454 v1948), ∀ a x, ((![v1948] : Fin 1 → IVec S16 32) a x).toNat < S2800.size a := fun v1948 k0_hw454 => k0_hw454

def k0_chk455 (v1951 : IVec S16 32) : Prop :=
  (∀ a x, ((![v1951] : Fin 1 → IVec S16 32) a x).toNat < S2800.size a)
instance k0_chk455.dec : ∀ (v1951 : IVec S16 32), Decidable (k0_chk455 v1951) := fun v1951 => decidable_of_iff' _ (Iff.of_eq (k0_chk455.eq_1 v1951))
theorem k0_idx455_inb : ∀ (v1951 : IVec S16 32) (k0_hw455 : k0_chk455 v1951), ∀ a x, ((![v1951] : Fin 1 → IVec S16 32) a x).toNat < S2800.size a := fun v1951 k0_hw455 => k0_hw455

def k0_chk456 (v1953 : IVec S16 32) : Prop :=
  (∀ a x, ((![v1953] : Fin 1 → IVec S16 32) a x).toNat < S2800.size a)
instance k0_chk456.dec : ∀ (v1953 : IVec S16 32), Decidable (k0_chk456 v1953) := fun v1953 => decidable_of_iff' _ (Iff.of_eq (k0_chk456.eq_1 v1953))
theorem k0_idx456_inb : ∀ (v1953 : IVec S16 32) (k0_hw456 : k0_chk456 v1953), ∀ a x, ((![v1953] : Fin 1 → IVec S16 32) a x).toNat < S2800.size a := fun v1953 k0_hw456 => k0_hw456

def k0_chk457 (v1956 : IVec S16 32) : Prop :=
  (∀ a x, ((![v1956] : Fin 1 → IVec S16 32) a x).toNat < S2800.size a)
instance k0_chk457.dec : ∀ (v1956 : IVec S16 32), Decidable (k0_chk457 v1956) := fun v1956 => decidable_of_iff' _ (Iff.of_eq (k0_chk457.eq_1 v1956))
theorem k0_idx457_inb : ∀ (v1956 : IVec S16 32) (k0_hw457 : k0_chk457 v1956), ∀ a x, ((![v1956] : Fin 1 → IVec S16 32) a x).toNat < S2800.size a := fun v1956 k0_hw457 => k0_hw457

def k0_chk458 (v1958 : IVec S16 32) : Prop :=
  (∀ a x, ((![v1958] : Fin 1 → IVec S16 32) a x).toNat < S2800.size a)
instance k0_chk458.dec : ∀ (v1958 : IVec S16 32), Decidable (k0_chk458 v1958) := fun v1958 => decidable_of_iff' _ (Iff.of_eq (k0_chk458.eq_1 v1958))
theorem k0_idx458_inb : ∀ (v1958 : IVec S16 32) (k0_hw458 : k0_chk458 v1958), ∀ a x, ((![v1958] : Fin 1 → IVec S16 32) a x).toNat < S2800.size a := fun v1958 k0_hw458 => k0_hw458

def k0_chk459 (v1961 : IVec S16 32) : Prop :=
  (∀ a x, ((![v1961] : Fin 1 → IVec S16 32) a x).toNat < S2800.size a)
instance k0_chk459.dec : ∀ (v1961 : IVec S16 32), Decidable (k0_chk459 v1961) := fun v1961 => decidable_of_iff' _ (Iff.of_eq (k0_chk459.eq_1 v1961))
theorem k0_idx459_inb : ∀ (v1961 : IVec S16 32) (k0_hw459 : k0_chk459 v1961), ∀ a x, ((![v1961] : Fin 1 → IVec S16 32) a x).toNat < S2800.size a := fun v1961 k0_hw459 => k0_hw459

def k0_chk460 (v1963 : IVec S16 32) : Prop :=
  (∀ a x, ((![v1963] : Fin 1 → IVec S16 32) a x).toNat < S2800.size a)
instance k0_chk460.dec : ∀ (v1963 : IVec S16 32), Decidable (k0_chk460 v1963) := fun v1963 => decidable_of_iff' _ (Iff.of_eq (k0_chk460.eq_1 v1963))
theorem k0_idx460_inb : ∀ (v1963 : IVec S16 32) (k0_hw460 : k0_chk460 v1963), ∀ a x, ((![v1963] : Fin 1 → IVec S16 32) a x).toNat < S2800.size a := fun v1963 k0_hw460 => k0_hw460

def k0_chk461 (v1966 : IVec S16 32) : Prop :=
  (∀ a x, ((![v1966] : Fin 1 → IVec S16 32) a x).toNat < S2800.size a)
instance k0_chk461.dec : ∀ (v1966 : IVec S16 32), Decidable (k0_chk461 v1966) := fun v1966 => decidable_of_iff' _ (Iff.of_eq (k0_chk461.eq_1 v1966))
theorem k0_idx461_inb : ∀ (v1966 : IVec S16 32) (k0_hw461 : k0_chk461 v1966), ∀ a x, ((![v1966] : Fin 1 → IVec S16 32) a x).toNat < S2800.size a := fun v1966 k0_hw461 => k0_hw461

def k0_chk462 (v1968 : IVec S16 32) : Prop :=
  (∀ a x, ((![v1968] : Fin 1 → IVec S16 32) a x).toNat < S2800.size a)
instance k0_chk462.dec : ∀ (v1968 : IVec S16 32), Decidable (k0_chk462 v1968) := fun v1968 => decidable_of_iff' _ (Iff.of_eq (k0_chk462.eq_1 v1968))
theorem k0_idx462_inb : ∀ (v1968 : IVec S16 32) (k0_hw462 : k0_chk462 v1968), ∀ a x, ((![v1968] : Fin 1 → IVec S16 32) a x).toNat < S2800.size a := fun v1968 k0_hw462 => k0_hw462

def k0_chk463 (v1971 : IVec S16 32) : Prop :=
  (∀ a x, ((![v1971] : Fin 1 → IVec S16 32) a x).toNat < S2800.size a)
instance k0_chk463.dec : ∀ (v1971 : IVec S16 32), Decidable (k0_chk463 v1971) := fun v1971 => decidable_of_iff' _ (Iff.of_eq (k0_chk463.eq_1 v1971))
theorem k0_idx463_inb : ∀ (v1971 : IVec S16 32) (k0_hw463 : k0_chk463 v1971), ∀ a x, ((![v1971] : Fin 1 → IVec S16 32) a x).toNat < S2800.size a := fun v1971 k0_hw463 => k0_hw463

def k0_chk464 (v1973 : IVec S16 32) : Prop :=
  (∀ a x, ((![v1973] : Fin 1 → IVec S16 32) a x).toNat < S2800.size a)
instance k0_chk464.dec : ∀ (v1973 : IVec S16 32), Decidable (k0_chk464 v1973) := fun v1973 => decidable_of_iff' _ (Iff.of_eq (k0_chk464.eq_1 v1973))
theorem k0_idx464_inb : ∀ (v1973 : IVec S16 32) (k0_hw464 : k0_chk464 v1973), ∀ a x, ((![v1973] : Fin 1 → IVec S16 32) a x).toNat < S2800.size a := fun v1973 k0_hw464 => k0_hw464

def k0_chk465 (v1976 : IVec S16 32) : Prop :=
  (∀ a x, ((![v1976] : Fin 1 → IVec S16 32) a x).toNat < S2800.size a)
instance k0_chk465.dec : ∀ (v1976 : IVec S16 32), Decidable (k0_chk465 v1976) := fun v1976 => decidable_of_iff' _ (Iff.of_eq (k0_chk465.eq_1 v1976))
theorem k0_idx465_inb : ∀ (v1976 : IVec S16 32) (k0_hw465 : k0_chk465 v1976), ∀ a x, ((![v1976] : Fin 1 → IVec S16 32) a x).toNat < S2800.size a := fun v1976 k0_hw465 => k0_hw465

def k0_chk466 (v1978 : IVec S16 32) : Prop :=
  (∀ a x, ((![v1978] : Fin 1 → IVec S16 32) a x).toNat < S2800.size a)
instance k0_chk466.dec : ∀ (v1978 : IVec S16 32), Decidable (k0_chk466 v1978) := fun v1978 => decidable_of_iff' _ (Iff.of_eq (k0_chk466.eq_1 v1978))
theorem k0_idx466_inb : ∀ (v1978 : IVec S16 32) (k0_hw466 : k0_chk466 v1978), ∀ a x, ((![v1978] : Fin 1 → IVec S16 32) a x).toNat < S2800.size a := fun v1978 k0_hw466 => k0_hw466

def k0_chk467 (v1981 : IVec S16 32) : Prop :=
  (∀ a x, ((![v1981] : Fin 1 → IVec S16 32) a x).toNat < S2800.size a)
instance k0_chk467.dec : ∀ (v1981 : IVec S16 32), Decidable (k0_chk467 v1981) := fun v1981 => decidable_of_iff' _ (Iff.of_eq (k0_chk467.eq_1 v1981))
theorem k0_idx467_inb : ∀ (v1981 : IVec S16 32) (k0_hw467 : k0_chk467 v1981), ∀ a x, ((![v1981] : Fin 1 → IVec S16 32) a x).toNat < S2800.size a := fun v1981 k0_hw467 => k0_hw467

def k0_chk468 (v1983 : IVec S16 32) : Prop :=
  (∀ a x, ((![v1983] : Fin 1 → IVec S16 32) a x).toNat < S2800.size a)
instance k0_chk468.dec : ∀ (v1983 : IVec S16 32), Decidable (k0_chk468 v1983) := fun v1983 => decidable_of_iff' _ (Iff.of_eq (k0_chk468.eq_1 v1983))
theorem k0_idx468_inb : ∀ (v1983 : IVec S16 32) (k0_hw468 : k0_chk468 v1983), ∀ a x, ((![v1983] : Fin 1 → IVec S16 32) a x).toNat < S2800.size a := fun v1983 k0_hw468 => k0_hw468

def k0_chk469 (v1986 : IVec S16 32) : Prop :=
  (∀ a x, ((![v1986] : Fin 1 → IVec S16 32) a x).toNat < S2800.size a)
instance k0_chk469.dec : ∀ (v1986 : IVec S16 32), Decidable (k0_chk469 v1986) := fun v1986 => decidable_of_iff' _ (Iff.of_eq (k0_chk469.eq_1 v1986))
theorem k0_idx469_inb : ∀ (v1986 : IVec S16 32) (k0_hw469 : k0_chk469 v1986), ∀ a x, ((![v1986] : Fin 1 → IVec S16 32) a x).toNat < S2800.size a := fun v1986 k0_hw469 => k0_hw469

def k0_chk470 (v1988 : IVec S16 32) : Prop :=
  (∀ a x, ((![v1988] : Fin 1 → IVec S16 32) a x).toNat < S2800.size a)
instance k0_chk470.dec : ∀ (v1988 : IVec S16 32), Decidable (k0_chk470 v1988) := fun v1988 => decidable_of_iff' _ (Iff.of_eq (k0_chk470.eq_1 v1988))
theorem k0_idx470_inb : ∀ (v1988 : IVec S16 32) (k0_hw470 : k0_chk470 v1988), ∀ a x, ((![v1988] : Fin 1 → IVec S16 32) a x).toNat < S2800.size a := fun v1988 k0_hw470 => k0_hw470

def k0_chk471 (v1991 : IVec S16 32) : Prop :=
  (∀ a x, ((![v1991] : Fin 1 → IVec S16 32) a x).toNat < S2800.size a)
instance k0_chk471.dec : ∀ (v1991 : IVec S16 32), Decidable (k0_chk471 v1991) := fun v1991 => decidable_of_iff' _ (Iff.of_eq (k0_chk471.eq_1 v1991))
theorem k0_idx471_inb : ∀ (v1991 : IVec S16 32) (k0_hw471 : k0_chk471 v1991), ∀ a x, ((![v1991] : Fin 1 → IVec S16 32) a x).toNat < S2800.size a := fun v1991 k0_hw471 => k0_hw471

def k0_chk472 (v1993 : IVec S16 32) : Prop :=
  (∀ a x, ((![v1993] : Fin 1 → IVec S16 32) a x).toNat < S2800.size a)
instance k0_chk472.dec : ∀ (v1993 : IVec S16 32), Decidable (k0_chk472 v1993) := fun v1993 => decidable_of_iff' _ (Iff.of_eq (k0_chk472.eq_1 v1993))
theorem k0_idx472_inb : ∀ (v1993 : IVec S16 32) (k0_hw472 : k0_chk472 v1993), ∀ a x, ((![v1993] : Fin 1 → IVec S16 32) a x).toNat < S2800.size a := fun v1993 k0_hw472 => k0_hw472

def k0_chk473 (v1996 : IVec S16 32) : Prop :=
  (∀ a x, ((![v1996] : Fin 1 → IVec S16 32) a x).toNat < S2800.size a)
instance k0_chk473.dec : ∀ (v1996 : IVec S16 32), Decidable (k0_chk473 v1996) := fun v1996 => decidable_of_iff' _ (Iff.of_eq (k0_chk473.eq_1 v1996))
theorem k0_idx473_inb : ∀ (v1996 : IVec S16 32) (k0_hw473 : k0_chk473 v1996), ∀ a x, ((![v1996] : Fin 1 → IVec S16 32) a x).toNat < S2800.size a := fun v1996 k0_hw473 => k0_hw473

def k0_chk474 (v1998 : IVec S16 32) : Prop :=
  (∀ a x, ((![v1998] : Fin 1 → IVec S16 32) a x).toNat < S2800.size a)
instance k0_chk474.dec : ∀ (v1998 : IVec S16 32), Decidable (k0_chk474 v1998) := fun v1998 => decidable_of_iff' _ (Iff.of_eq (k0_chk474.eq_1 v1998))
theorem k0_idx474_inb : ∀ (v1998 : IVec S16 32) (k0_hw474 : k0_chk474 v1998), ∀ a x, ((![v1998] : Fin 1 → IVec S16 32) a x).toNat < S2800.size a := fun v1998 k0_hw474 => k0_hw474

def k0_chk475 (v2001 : IVec S16 32) : Prop :=
  (∀ a x, ((![v2001] : Fin 1 → IVec S16 32) a x).toNat < S2800.size a)
instance k0_chk475.dec : ∀ (v2001 : IVec S16 32), Decidable (k0_chk475 v2001) := fun v2001 => decidable_of_iff' _ (Iff.of_eq (k0_chk475.eq_1 v2001))
theorem k0_idx475_inb : ∀ (v2001 : IVec S16 32) (k0_hw475 : k0_chk475 v2001), ∀ a x, ((![v2001] : Fin 1 → IVec S16 32) a x).toNat < S2800.size a := fun v2001 k0_hw475 => k0_hw475

def k0_chk476 (v2003 : IVec S16 32) : Prop :=
  (∀ a x, ((![v2003] : Fin 1 → IVec S16 32) a x).toNat < S2800.size a)
instance k0_chk476.dec : ∀ (v2003 : IVec S16 32), Decidable (k0_chk476 v2003) := fun v2003 => decidable_of_iff' _ (Iff.of_eq (k0_chk476.eq_1 v2003))
theorem k0_idx476_inb : ∀ (v2003 : IVec S16 32) (k0_hw476 : k0_chk476 v2003), ∀ a x, ((![v2003] : Fin 1 → IVec S16 32) a x).toNat < S2800.size a := fun v2003 k0_hw476 => k0_hw476

def k0_chk477 (v2006 : IVec S16 32) : Prop :=
  (∀ a x, ((![v2006] : Fin 1 → IVec S16 32) a x).toNat < S2800.size a)
instance k0_chk477.dec : ∀ (v2006 : IVec S16 32), Decidable (k0_chk477 v2006) := fun v2006 => decidable_of_iff' _ (Iff.of_eq (k0_chk477.eq_1 v2006))
theorem k0_idx477_inb : ∀ (v2006 : IVec S16 32) (k0_hw477 : k0_chk477 v2006), ∀ a x, ((![v2006] : Fin 1 → IVec S16 32) a x).toNat < S2800.size a := fun v2006 k0_hw477 => k0_hw477

def k0_chk478 (v2008 : IVec S16 32) : Prop :=
  (∀ a x, ((![v2008] : Fin 1 → IVec S16 32) a x).toNat < S2800.size a)
instance k0_chk478.dec : ∀ (v2008 : IVec S16 32), Decidable (k0_chk478 v2008) := fun v2008 => decidable_of_iff' _ (Iff.of_eq (k0_chk478.eq_1 v2008))
theorem k0_idx478_inb : ∀ (v2008 : IVec S16 32) (k0_hw478 : k0_chk478 v2008), ∀ a x, ((![v2008] : Fin 1 → IVec S16 32) a x).toNat < S2800.size a := fun v2008 k0_hw478 => k0_hw478

def k0_chk479 (v2011 : IVec S16 32) : Prop :=
  (∀ a x, ((![v2011] : Fin 1 → IVec S16 32) a x).toNat < S2800.size a)
instance k0_chk479.dec : ∀ (v2011 : IVec S16 32), Decidable (k0_chk479 v2011) := fun v2011 => decidable_of_iff' _ (Iff.of_eq (k0_chk479.eq_1 v2011))
theorem k0_idx479_inb : ∀ (v2011 : IVec S16 32) (k0_hw479 : k0_chk479 v2011), ∀ a x, ((![v2011] : Fin 1 → IVec S16 32) a x).toNat < S2800.size a := fun v2011 k0_hw479 => k0_hw479

def k0_chk480 (v2013 : IVec S16 32) : Prop :=
  (∀ a x, ((![v2013] : Fin 1 → IVec S16 32) a x).toNat < S2800.size a)
instance k0_chk480.dec : ∀ (v2013 : IVec S16 32), Decidable (k0_chk480 v2013) := fun v2013 => decidable_of_iff' _ (Iff.of_eq (k0_chk480.eq_1 v2013))
theorem k0_idx480_inb : ∀ (v2013 : IVec S16 32) (k0_hw480 : k0_chk480 v2013), ∀ a x, ((![v2013] : Fin 1 → IVec S16 32) a x).toNat < S2800.size a := fun v2013 k0_hw480 => k0_hw480

def k0_chk481 (v2016 : IVec S16 32) : Prop :=
  (∀ a x, ((![v2016] : Fin 1 → IVec S16 32) a x).toNat < S2800.size a)
instance k0_chk481.dec : ∀ (v2016 : IVec S16 32), Decidable (k0_chk481 v2016) := fun v2016 => decidable_of_iff' _ (Iff.of_eq (k0_chk481.eq_1 v2016))
theorem k0_idx481_inb : ∀ (v2016 : IVec S16 32) (k0_hw481 : k0_chk481 v2016), ∀ a x, ((![v2016] : Fin 1 → IVec S16 32) a x).toNat < S2800.size a := fun v2016 k0_hw481 => k0_hw481

def k0_chk482 (v2018 : IVec S16 32) : Prop :=
  (∀ a x, ((![v2018] : Fin 1 → IVec S16 32) a x).toNat < S2800.size a)
instance k0_chk482.dec : ∀ (v2018 : IVec S16 32), Decidable (k0_chk482 v2018) := fun v2018 => decidable_of_iff' _ (Iff.of_eq (k0_chk482.eq_1 v2018))
theorem k0_idx482_inb : ∀ (v2018 : IVec S16 32) (k0_hw482 : k0_chk482 v2018), ∀ a x, ((![v2018] : Fin 1 → IVec S16 32) a x).toNat < S2800.size a := fun v2018 k0_hw482 => k0_hw482

def k0_chk483 (v2021 : IVec S16 32) : Prop :=
  (∀ a x, ((![v2021] : Fin 1 → IVec S16 32) a x).toNat < S2800.size a)
instance k0_chk483.dec : ∀ (v2021 : IVec S16 32), Decidable (k0_chk483 v2021) := fun v2021 => decidable_of_iff' _ (Iff.of_eq (k0_chk483.eq_1 v2021))
theorem k0_idx483_inb : ∀ (v2021 : IVec S16 32) (k0_hw483 : k0_chk483 v2021), ∀ a x, ((![v2021] : Fin 1 → IVec S16 32) a x).toNat < S2800.size a := fun v2021 k0_hw483 => k0_hw483

def k0_chk484 (v2023 : IVec S16 32) : Prop :=
  (∀ a x, ((![v2023] : Fin 1 → IVec S16 32) a x).toNat < S2800.size a)
instance k0_chk484.dec : ∀ (v2023 : IVec S16 32), Decidable (k0_chk484 v2023) := fun v2023 => decidable_of_iff' _ (Iff.of_eq (k0_chk484.eq_1 v2023))
theorem k0_idx484_inb : ∀ (v2023 : IVec S16 32) (k0_hw484 : k0_chk484 v2023), ∀ a x, ((![v2023] : Fin 1 → IVec S16 32) a x).toNat < S2800.size a := fun v2023 k0_hw484 => k0_hw484

def k0_chk485 (v2026 : IVec S16 32) : Prop :=
  (∀ a x, ((![v2026] : Fin 1 → IVec S16 32) a x).toNat < S2800.size a)
instance k0_chk485.dec : ∀ (v2026 : IVec S16 32), Decidable (k0_chk485 v2026) := fun v2026 => decidable_of_iff' _ (Iff.of_eq (k0_chk485.eq_1 v2026))
theorem k0_idx485_inb : ∀ (v2026 : IVec S16 32) (k0_hw485 : k0_chk485 v2026), ∀ a x, ((![v2026] : Fin 1 → IVec S16 32) a x).toNat < S2800.size a := fun v2026 k0_hw485 => k0_hw485

def k0_chk486 (v2028 : IVec S16 32) : Prop :=
  (∀ a x, ((![v2028] : Fin 1 → IVec S16 32) a x).toNat < S2800.size a)
instance k0_chk486.dec : ∀ (v2028 : IVec S16 32), Decidable (k0_chk486 v2028) := fun v2028 => decidable_of_iff' _ (Iff.of_eq (k0_chk486.eq_1 v2028))
theorem k0_idx486_inb : ∀ (v2028 : IVec S16 32) (k0_hw486 : k0_chk486 v2028), ∀ a x, ((![v2028] : Fin 1 → IVec S16 32) a x).toNat < S2800.size a := fun v2028 k0_hw486 => k0_hw486

def k0_chk487 (v2031 : IVec S16 32) : Prop :=
  (∀ a x, ((![v2031] : Fin 1 → IVec S16 32) a x).toNat < S2800.size a)
instance k0_chk487.dec : ∀ (v2031 : IVec S16 32), Decidable (k0_chk487 v2031) := fun v2031 => decidable_of_iff' _ (Iff.of_eq (k0_chk487.eq_1 v2031))
theorem k0_idx487_inb : ∀ (v2031 : IVec S16 32) (k0_hw487 : k0_chk487 v2031), ∀ a x, ((![v2031] : Fin 1 → IVec S16 32) a x).toNat < S2800.size a := fun v2031 k0_hw487 => k0_hw487

def k0_chk488 (v2033 : IVec S16 32) : Prop :=
  (∀ a x, ((![v2033] : Fin 1 → IVec S16 32) a x).toNat < S2800.size a)
instance k0_chk488.dec : ∀ (v2033 : IVec S16 32), Decidable (k0_chk488 v2033) := fun v2033 => decidable_of_iff' _ (Iff.of_eq (k0_chk488.eq_1 v2033))
theorem k0_idx488_inb : ∀ (v2033 : IVec S16 32) (k0_hw488 : k0_chk488 v2033), ∀ a x, ((![v2033] : Fin 1 → IVec S16 32) a x).toNat < S2800.size a := fun v2033 k0_hw488 => k0_hw488

def k0_chk489 (v2036 : IVec S16 32) : Prop :=
  (∀ a x, ((![v2036] : Fin 1 → IVec S16 32) a x).toNat < S2800.size a)
instance k0_chk489.dec : ∀ (v2036 : IVec S16 32), Decidable (k0_chk489 v2036) := fun v2036 => decidable_of_iff' _ (Iff.of_eq (k0_chk489.eq_1 v2036))
theorem k0_idx489_inb : ∀ (v2036 : IVec S16 32) (k0_hw489 : k0_chk489 v2036), ∀ a x, ((![v2036] : Fin 1 → IVec S16 32) a x).toNat < S2800.size a := fun v2036 k0_hw489 => k0_hw489

def k0_chk490 (v2038 : IVec S16 32) : Prop :=
  (∀ a x, ((![v2038] : Fin 1 → IVec S16 32) a x).toNat < S2800.size a)
instance k0_chk490.dec : ∀ (v2038 : IVec S16 32), Decidable (k0_chk490 v2038) := fun v2038 => decidable_of_iff' _ (Iff.of_eq (k0_chk490.eq_1 v2038))
theorem k0_idx490_inb : ∀ (v2038 : IVec S16 32) (k0_hw490 : k0_chk490 v2038), ∀ a x, ((![v2038] : Fin 1 → IVec S16 32) a x).toNat < S2800.size a := fun v2038 k0_hw490 => k0_hw490

def k0_chk491 (v2041 : IVec S16 32) : Prop :=
  (∀ a x, ((![v2041] : Fin 1 → IVec S16 32) a x).toNat < S2800.size a)
instance k0_chk491.dec : ∀ (v2041 : IVec S16 32), Decidable (k0_chk491 v2041) := fun v2041 => decidable_of_iff' _ (Iff.of_eq (k0_chk491.eq_1 v2041))
theorem k0_idx491_inb : ∀ (v2041 : IVec S16 32) (k0_hw491 : k0_chk491 v2041), ∀ a x, ((![v2041] : Fin 1 → IVec S16 32) a x).toNat < S2800.size a := fun v2041 k0_hw491 => k0_hw491

def k0_chk492 (v2043 : IVec S16 32) : Prop :=
  (∀ a x, ((![v2043] : Fin 1 → IVec S16 32) a x).toNat < S2800.size a)
instance k0_chk492.dec : ∀ (v2043 : IVec S16 32), Decidable (k0_chk492 v2043) := fun v2043 => decidable_of_iff' _ (Iff.of_eq (k0_chk492.eq_1 v2043))
theorem k0_idx492_inb : ∀ (v2043 : IVec S16 32) (k0_hw492 : k0_chk492 v2043), ∀ a x, ((![v2043] : Fin 1 → IVec S16 32) a x).toNat < S2800.size a := fun v2043 k0_hw492 => k0_hw492

def k0_chk493 (v2046 : IVec S16 32) : Prop :=
  (∀ a x, ((![v2046] : Fin 1 → IVec S16 32) a x).toNat < S2800.size a)
instance k0_chk493.dec : ∀ (v2046 : IVec S16 32), Decidable (k0_chk493 v2046) := fun v2046 => decidable_of_iff' _ (Iff.of_eq (k0_chk493.eq_1 v2046))
theorem k0_idx493_inb : ∀ (v2046 : IVec S16 32) (k0_hw493 : k0_chk493 v2046), ∀ a x, ((![v2046] : Fin 1 → IVec S16 32) a x).toNat < S2800.size a := fun v2046 k0_hw493 => k0_hw493

def k0_chk494 (v2048 : IVec S16 32) : Prop :=
  (∀ a x, ((![v2048] : Fin 1 → IVec S16 32) a x).toNat < S2800.size a)
instance k0_chk494.dec : ∀ (v2048 : IVec S16 32), Decidable (k0_chk494 v2048) := fun v2048 => decidable_of_iff' _ (Iff.of_eq (k0_chk494.eq_1 v2048))
theorem k0_idx494_inb : ∀ (v2048 : IVec S16 32) (k0_hw494 : k0_chk494 v2048), ∀ a x, ((![v2048] : Fin 1 → IVec S16 32) a x).toNat < S2800.size a := fun v2048 k0_hw494 => k0_hw494

def k0_chk495 (v2051 : IVec S16 32) : Prop :=
  (∀ a x, ((![v2051] : Fin 1 → IVec S16 32) a x).toNat < S2800.size a)
instance k0_chk495.dec : ∀ (v2051 : IVec S16 32), Decidable (k0_chk495 v2051) := fun v2051 => decidable_of_iff' _ (Iff.of_eq (k0_chk495.eq_1 v2051))
theorem k0_idx495_inb : ∀ (v2051 : IVec S16 32) (k0_hw495 : k0_chk495 v2051), ∀ a x, ((![v2051] : Fin 1 → IVec S16 32) a x).toNat < S2800.size a := fun v2051 k0_hw495 => k0_hw495

def k0_chk496 (v2053 : IVec S16 32) : Prop :=
  (∀ a x, ((![v2053] : Fin 1 → IVec S16 32) a x).toNat < S2800.size a)
instance k0_chk496.dec : ∀ (v2053 : IVec S16 32), Decidable (k0_chk496 v2053) := fun v2053 => decidable_of_iff' _ (Iff.of_eq (k0_chk496.eq_1 v2053))
theorem k0_idx496_inb : ∀ (v2053 : IVec S16 32) (k0_hw496 : k0_chk496 v2053), ∀ a x, ((![v2053] : Fin 1 → IVec S16 32) a x).toNat < S2800.size a := fun v2053 k0_hw496 => k0_hw496

def k0_chk497 (v2056 : IVec S16 32) : Prop :=
  (∀ a x, ((![v2056] : Fin 1 → IVec S16 32) a x).toNat < S2800.size a)
instance k0_chk497.dec : ∀ (v2056 : IVec S16 32), Decidable (k0_chk497 v2056) := fun v2056 => decidable_of_iff' _ (Iff.of_eq (k0_chk497.eq_1 v2056))
theorem k0_idx497_inb : ∀ (v2056 : IVec S16 32) (k0_hw497 : k0_chk497 v2056), ∀ a x, ((![v2056] : Fin 1 → IVec S16 32) a x).toNat < S2800.size a := fun v2056 k0_hw497 => k0_hw497

def k0_chk498 (v2058 : IVec S16 32) : Prop :=
  (∀ a x, ((![v2058] : Fin 1 → IVec S16 32) a x).toNat < S2800.size a)
instance k0_chk498.dec : ∀ (v2058 : IVec S16 32), Decidable (k0_chk498 v2058) := fun v2058 => decidable_of_iff' _ (Iff.of_eq (k0_chk498.eq_1 v2058))
theorem k0_idx498_inb : ∀ (v2058 : IVec S16 32) (k0_hw498 : k0_chk498 v2058), ∀ a x, ((![v2058] : Fin 1 → IVec S16 32) a x).toNat < S2800.size a := fun v2058 k0_hw498 => k0_hw498

def k0_chk499 (v2061 : IVec S16 32) : Prop :=
  (∀ a x, ((![v2061] : Fin 1 → IVec S16 32) a x).toNat < S2800.size a)
instance k0_chk499.dec : ∀ (v2061 : IVec S16 32), Decidable (k0_chk499 v2061) := fun v2061 => decidable_of_iff' _ (Iff.of_eq (k0_chk499.eq_1 v2061))
theorem k0_idx499_inb : ∀ (v2061 : IVec S16 32) (k0_hw499 : k0_chk499 v2061), ∀ a x, ((![v2061] : Fin 1 → IVec S16 32) a x).toNat < S2800.size a := fun v2061 k0_hw499 => k0_hw499

def k0_chk500 (v2063 : IVec S16 32) : Prop :=
  (∀ a x, ((![v2063] : Fin 1 → IVec S16 32) a x).toNat < S2800.size a)
instance k0_chk500.dec : ∀ (v2063 : IVec S16 32), Decidable (k0_chk500 v2063) := fun v2063 => decidable_of_iff' _ (Iff.of_eq (k0_chk500.eq_1 v2063))
theorem k0_idx500_inb : ∀ (v2063 : IVec S16 32) (k0_hw500 : k0_chk500 v2063), ∀ a x, ((![v2063] : Fin 1 → IVec S16 32) a x).toNat < S2800.size a := fun v2063 k0_hw500 => k0_hw500

def k0_chk501 (v2066 : IVec S16 32) : Prop :=
  (∀ a x, ((![v2066] : Fin 1 → IVec S16 32) a x).toNat < S2800.size a)
instance k0_chk501.dec : ∀ (v2066 : IVec S16 32), Decidable (k0_chk501 v2066) := fun v2066 => decidable_of_iff' _ (Iff.of_eq (k0_chk501.eq_1 v2066))
theorem k0_idx501_inb : ∀ (v2066 : IVec S16 32) (k0_hw501 : k0_chk501 v2066), ∀ a x, ((![v2066] : Fin 1 → IVec S16 32) a x).toNat < S2800.size a := fun v2066 k0_hw501 => k0_hw501

def k0_chk502 (v2068 : IVec S16 32) : Prop :=
  (∀ a x, ((![v2068] : Fin 1 → IVec S16 32) a x).toNat < S2800.size a)
instance k0_chk502.dec : ∀ (v2068 : IVec S16 32), Decidable (k0_chk502 v2068) := fun v2068 => decidable_of_iff' _ (Iff.of_eq (k0_chk502.eq_1 v2068))
theorem k0_idx502_inb : ∀ (v2068 : IVec S16 32) (k0_hw502 : k0_chk502 v2068), ∀ a x, ((![v2068] : Fin 1 → IVec S16 32) a x).toNat < S2800.size a := fun v2068 k0_hw502 => k0_hw502

def k0_chk503 (v2071 : IVec S16 32) : Prop :=
  (∀ a x, ((![v2071] : Fin 1 → IVec S16 32) a x).toNat < S2800.size a)
instance k0_chk503.dec : ∀ (v2071 : IVec S16 32), Decidable (k0_chk503 v2071) := fun v2071 => decidable_of_iff' _ (Iff.of_eq (k0_chk503.eq_1 v2071))
theorem k0_idx503_inb : ∀ (v2071 : IVec S16 32) (k0_hw503 : k0_chk503 v2071), ∀ a x, ((![v2071] : Fin 1 → IVec S16 32) a x).toNat < S2800.size a := fun v2071 k0_hw503 => k0_hw503

def k0_chk504 (v2073 : IVec S16 32) : Prop :=
  (∀ a x, ((![v2073] : Fin 1 → IVec S16 32) a x).toNat < S2800.size a)
instance k0_chk504.dec : ∀ (v2073 : IVec S16 32), Decidable (k0_chk504 v2073) := fun v2073 => decidable_of_iff' _ (Iff.of_eq (k0_chk504.eq_1 v2073))
theorem k0_idx504_inb : ∀ (v2073 : IVec S16 32) (k0_hw504 : k0_chk504 v2073), ∀ a x, ((![v2073] : Fin 1 → IVec S16 32) a x).toNat < S2800.size a := fun v2073 k0_hw504 => k0_hw504

def k0_chk505 (v2076 : IVec S16 32) : Prop :=
  (∀ a x, ((![v2076] : Fin 1 → IVec S16 32) a x).toNat < S2800.size a)
instance k0_chk505.dec : ∀ (v2076 : IVec S16 32), Decidable (k0_chk505 v2076) := fun v2076 => decidable_of_iff' _ (Iff.of_eq (k0_chk505.eq_1 v2076))
theorem k0_idx505_inb : ∀ (v2076 : IVec S16 32) (k0_hw505 : k0_chk505 v2076), ∀ a x, ((![v2076] : Fin 1 → IVec S16 32) a x).toNat < S2800.size a := fun v2076 k0_hw505 => k0_hw505

def k0_chk506 (v2078 : IVec S16 32) : Prop :=
  (∀ a x, ((![v2078] : Fin 1 → IVec S16 32) a x).toNat < S2800.size a)
instance k0_chk506.dec : ∀ (v2078 : IVec S16 32), Decidable (k0_chk506 v2078) := fun v2078 => decidable_of_iff' _ (Iff.of_eq (k0_chk506.eq_1 v2078))
theorem k0_idx506_inb : ∀ (v2078 : IVec S16 32) (k0_hw506 : k0_chk506 v2078), ∀ a x, ((![v2078] : Fin 1 → IVec S16 32) a x).toNat < S2800.size a := fun v2078 k0_hw506 => k0_hw506

def k0_chk507 (v2081 : IVec S16 32) : Prop :=
  (∀ a x, ((![v2081] : Fin 1 → IVec S16 32) a x).toNat < S2800.size a)
instance k0_chk507.dec : ∀ (v2081 : IVec S16 32), Decidable (k0_chk507 v2081) := fun v2081 => decidable_of_iff' _ (Iff.of_eq (k0_chk507.eq_1 v2081))
theorem k0_idx507_inb : ∀ (v2081 : IVec S16 32) (k0_hw507 : k0_chk507 v2081), ∀ a x, ((![v2081] : Fin 1 → IVec S16 32) a x).toNat < S2800.size a := fun v2081 k0_hw507 => k0_hw507

def k0_chk508 (v2083 : IVec S16 32) : Prop :=
  (∀ a x, ((![v2083] : Fin 1 → IVec S16 32) a x).toNat < S2800.size a)
instance k0_chk508.dec : ∀ (v2083 : IVec S16 32), Decidable (k0_chk508 v2083) := fun v2083 => decidable_of_iff' _ (Iff.of_eq (k0_chk508.eq_1 v2083))
theorem k0_idx508_inb : ∀ (v2083 : IVec S16 32) (k0_hw508 : k0_chk508 v2083), ∀ a x, ((![v2083] : Fin 1 → IVec S16 32) a x).toNat < S2800.size a := fun v2083 k0_hw508 => k0_hw508

def k0_chk509 (v2086 : IVec S16 32) : Prop :=
  (∀ a x, ((![v2086] : Fin 1 → IVec S16 32) a x).toNat < S2800.size a)
instance k0_chk509.dec : ∀ (v2086 : IVec S16 32), Decidable (k0_chk509 v2086) := fun v2086 => decidable_of_iff' _ (Iff.of_eq (k0_chk509.eq_1 v2086))
theorem k0_idx509_inb : ∀ (v2086 : IVec S16 32) (k0_hw509 : k0_chk509 v2086), ∀ a x, ((![v2086] : Fin 1 → IVec S16 32) a x).toNat < S2800.size a := fun v2086 k0_hw509 => k0_hw509

def k0_chk510 (v2088 : IVec S16 32) : Prop :=
  (∀ a x, ((![v2088] : Fin 1 → IVec S16 32) a x).toNat < S2800.size a)
instance k0_chk510.dec : ∀ (v2088 : IVec S16 32), Decidable (k0_chk510 v2088) := fun v2088 => decidable_of_iff' _ (Iff.of_eq (k0_chk510.eq_1 v2088))
theorem k0_idx510_inb : ∀ (v2088 : IVec S16 32) (k0_hw510 : k0_chk510 v2088), ∀ a x, ((![v2088] : Fin 1 → IVec S16 32) a x).toNat < S2800.size a := fun v2088 k0_hw510 => k0_hw510

def k0_chk511 (v2091 : IVec S16 32) : Prop :=
  (∀ a x, ((![v2091] : Fin 1 → IVec S16 32) a x).toNat < S2800.size a)
instance k0_chk511.dec : ∀ (v2091 : IVec S16 32), Decidable (k0_chk511 v2091) := fun v2091 => decidable_of_iff' _ (Iff.of_eq (k0_chk511.eq_1 v2091))
theorem k0_idx511_inb : ∀ (v2091 : IVec S16 32) (k0_hw511 : k0_chk511 v2091), ∀ a x, ((![v2091] : Fin 1 → IVec S16 32) a x).toNat < S2800.size a := fun v2091 k0_hw511 => k0_hw511

def k0_chk512 (v2093 : IVec S16 32) : Prop :=
  (∀ a x, ((![v2093] : Fin 1 → IVec S16 32) a x).toNat < S2800.size a)
instance k0_chk512.dec : ∀ (v2093 : IVec S16 32), Decidable (k0_chk512 v2093) := fun v2093 => decidable_of_iff' _ (Iff.of_eq (k0_chk512.eq_1 v2093))
theorem k0_idx512_inb : ∀ (v2093 : IVec S16 32) (k0_hw512 : k0_chk512 v2093), ∀ a x, ((![v2093] : Fin 1 → IVec S16 32) a x).toNat < S2800.size a := fun v2093 k0_hw512 => k0_hw512

def k0_chk513 (v2096 : IVec S16 32) : Prop :=
  (∀ a x, ((![v2096] : Fin 1 → IVec S16 32) a x).toNat < S2800.size a)
instance k0_chk513.dec : ∀ (v2096 : IVec S16 32), Decidable (k0_chk513 v2096) := fun v2096 => decidable_of_iff' _ (Iff.of_eq (k0_chk513.eq_1 v2096))
theorem k0_idx513_inb : ∀ (v2096 : IVec S16 32) (k0_hw513 : k0_chk513 v2096), ∀ a x, ((![v2096] : Fin 1 → IVec S16 32) a x).toNat < S2800.size a := fun v2096 k0_hw513 => k0_hw513

def k0_chk514 (v2098 : IVec S16 32) : Prop :=
  (∀ a x, ((![v2098] : Fin 1 → IVec S16 32) a x).toNat < S2800.size a)
instance k0_chk514.dec : ∀ (v2098 : IVec S16 32), Decidable (k0_chk514 v2098) := fun v2098 => decidable_of_iff' _ (Iff.of_eq (k0_chk514.eq_1 v2098))
theorem k0_idx514_inb : ∀ (v2098 : IVec S16 32) (k0_hw514 : k0_chk514 v2098), ∀ a x, ((![v2098] : Fin 1 → IVec S16 32) a x).toNat < S2800.size a := fun v2098 k0_hw514 => k0_hw514

def k0_chk515 (v2101 : IVec S16 32) : Prop :=
  (∀ a x, ((![v2101] : Fin 1 → IVec S16 32) a x).toNat < S2800.size a)
instance k0_chk515.dec : ∀ (v2101 : IVec S16 32), Decidable (k0_chk515 v2101) := fun v2101 => decidable_of_iff' _ (Iff.of_eq (k0_chk515.eq_1 v2101))
theorem k0_idx515_inb : ∀ (v2101 : IVec S16 32) (k0_hw515 : k0_chk515 v2101), ∀ a x, ((![v2101] : Fin 1 → IVec S16 32) a x).toNat < S2800.size a := fun v2101 k0_hw515 => k0_hw515

def k0_chk516 (v2103 : IVec S16 32) : Prop :=
  (∀ a x, ((![v2103] : Fin 1 → IVec S16 32) a x).toNat < S2800.size a)
instance k0_chk516.dec : ∀ (v2103 : IVec S16 32), Decidable (k0_chk516 v2103) := fun v2103 => decidable_of_iff' _ (Iff.of_eq (k0_chk516.eq_1 v2103))
theorem k0_idx516_inb : ∀ (v2103 : IVec S16 32) (k0_hw516 : k0_chk516 v2103), ∀ a x, ((![v2103] : Fin 1 → IVec S16 32) a x).toNat < S2800.size a := fun v2103 k0_hw516 => k0_hw516

def k0_chk517 (v2106 : IVec S16 32) : Prop :=
  (∀ a x, ((![v2106] : Fin 1 → IVec S16 32) a x).toNat < S2800.size a)
instance k0_chk517.dec : ∀ (v2106 : IVec S16 32), Decidable (k0_chk517 v2106) := fun v2106 => decidable_of_iff' _ (Iff.of_eq (k0_chk517.eq_1 v2106))
theorem k0_idx517_inb : ∀ (v2106 : IVec S16 32) (k0_hw517 : k0_chk517 v2106), ∀ a x, ((![v2106] : Fin 1 → IVec S16 32) a x).toNat < S2800.size a := fun v2106 k0_hw517 => k0_hw517

def k0_chk518 (v2108 : IVec S16 32) : Prop :=
  (∀ a x, ((![v2108] : Fin 1 → IVec S16 32) a x).toNat < S2800.size a)
instance k0_chk518.dec : ∀ (v2108 : IVec S16 32), Decidable (k0_chk518 v2108) := fun v2108 => decidable_of_iff' _ (Iff.of_eq (k0_chk518.eq_1 v2108))
theorem k0_idx518_inb : ∀ (v2108 : IVec S16 32) (k0_hw518 : k0_chk518 v2108), ∀ a x, ((![v2108] : Fin 1 → IVec S16 32) a x).toNat < S2800.size a := fun v2108 k0_hw518 => k0_hw518

def k0_chk519 (v2111 : IVec S16 32) : Prop :=
  (∀ a x, ((![v2111] : Fin 1 → IVec S16 32) a x).toNat < S2800.size a)
instance k0_chk519.dec : ∀ (v2111 : IVec S16 32), Decidable (k0_chk519 v2111) := fun v2111 => decidable_of_iff' _ (Iff.of_eq (k0_chk519.eq_1 v2111))
theorem k0_idx519_inb : ∀ (v2111 : IVec S16 32) (k0_hw519 : k0_chk519 v2111), ∀ a x, ((![v2111] : Fin 1 → IVec S16 32) a x).toNat < S2800.size a := fun v2111 k0_hw519 => k0_hw519

def k0_chk520 (v2113 : IVec S16 32) : Prop :=
  (∀ a x, ((![v2113] : Fin 1 → IVec S16 32) a x).toNat < S2800.size a)
instance k0_chk520.dec : ∀ (v2113 : IVec S16 32), Decidable (k0_chk520 v2113) := fun v2113 => decidable_of_iff' _ (Iff.of_eq (k0_chk520.eq_1 v2113))
theorem k0_idx520_inb : ∀ (v2113 : IVec S16 32) (k0_hw520 : k0_chk520 v2113), ∀ a x, ((![v2113] : Fin 1 → IVec S16 32) a x).toNat < S2800.size a := fun v2113 k0_hw520 => k0_hw520

def k0_chk521 (v2116 : IVec S16 32) : Prop :=
  (∀ a x, ((![v2116] : Fin 1 → IVec S16 32) a x).toNat < S2800.size a)
instance k0_chk521.dec : ∀ (v2116 : IVec S16 32), Decidable (k0_chk521 v2116) := fun v2116 => decidable_of_iff' _ (Iff.of_eq (k0_chk521.eq_1 v2116))
theorem k0_idx521_inb : ∀ (v2116 : IVec S16 32) (k0_hw521 : k0_chk521 v2116), ∀ a x, ((![v2116] : Fin 1 → IVec S16 32) a x).toNat < S2800.size a := fun v2116 k0_hw521 => k0_hw521

def k0_chk522 (v2118 : IVec S16 32) : Prop :=
  (∀ a x, ((![v2118] : Fin 1 → IVec S16 32) a x).toNat < S2800.size a)
instance k0_chk522.dec : ∀ (v2118 : IVec S16 32), Decidable (k0_chk522 v2118) := fun v2118 => decidable_of_iff' _ (Iff.of_eq (k0_chk522.eq_1 v2118))
theorem k0_idx522_inb : ∀ (v2118 : IVec S16 32) (k0_hw522 : k0_chk522 v2118), ∀ a x, ((![v2118] : Fin 1 → IVec S16 32) a x).toNat < S2800.size a := fun v2118 k0_hw522 => k0_hw522

def k0_chk523 (v2121 : IVec S16 32) : Prop :=
  (∀ a x, ((![v2121] : Fin 1 → IVec S16 32) a x).toNat < S2800.size a)
instance k0_chk523.dec : ∀ (v2121 : IVec S16 32), Decidable (k0_chk523 v2121) := fun v2121 => decidable_of_iff' _ (Iff.of_eq (k0_chk523.eq_1 v2121))
theorem k0_idx523_inb : ∀ (v2121 : IVec S16 32) (k0_hw523 : k0_chk523 v2121), ∀ a x, ((![v2121] : Fin 1 → IVec S16 32) a x).toNat < S2800.size a := fun v2121 k0_hw523 => k0_hw523

def k0_chk524 (v2123 : IVec S16 32) : Prop :=
  (∀ a x, ((![v2123] : Fin 1 → IVec S16 32) a x).toNat < S2800.size a)
instance k0_chk524.dec : ∀ (v2123 : IVec S16 32), Decidable (k0_chk524 v2123) := fun v2123 => decidable_of_iff' _ (Iff.of_eq (k0_chk524.eq_1 v2123))
theorem k0_idx524_inb : ∀ (v2123 : IVec S16 32) (k0_hw524 : k0_chk524 v2123), ∀ a x, ((![v2123] : Fin 1 → IVec S16 32) a x).toNat < S2800.size a := fun v2123 k0_hw524 => k0_hw524

def k0_chk525 (v2126 : IVec S16 32) : Prop :=
  (∀ a x, ((![v2126] : Fin 1 → IVec S16 32) a x).toNat < S2800.size a)
instance k0_chk525.dec : ∀ (v2126 : IVec S16 32), Decidable (k0_chk525 v2126) := fun v2126 => decidable_of_iff' _ (Iff.of_eq (k0_chk525.eq_1 v2126))
theorem k0_idx525_inb : ∀ (v2126 : IVec S16 32) (k0_hw525 : k0_chk525 v2126), ∀ a x, ((![v2126] : Fin 1 → IVec S16 32) a x).toNat < S2800.size a := fun v2126 k0_hw525 => k0_hw525

def k0_chk526 (v2128 : IVec S16 32) : Prop :=
  (∀ a x, ((![v2128] : Fin 1 → IVec S16 32) a x).toNat < S2800.size a)
instance k0_chk526.dec : ∀ (v2128 : IVec S16 32), Decidable (k0_chk526 v2128) := fun v2128 => decidable_of_iff' _ (Iff.of_eq (k0_chk526.eq_1 v2128))
theorem k0_idx526_inb : ∀ (v2128 : IVec S16 32) (k0_hw526 : k0_chk526 v2128), ∀ a x, ((![v2128] : Fin 1 → IVec S16 32) a x).toNat < S2800.size a := fun v2128 k0_hw526 => k0_hw526

def k0_chk527 (v2131 : IVec S16 32) : Prop :=
  (∀ a x, ((![v2131] : Fin 1 → IVec S16 32) a x).toNat < S2800.size a)
instance k0_chk527.dec : ∀ (v2131 : IVec S16 32), Decidable (k0_chk527 v2131) := fun v2131 => decidable_of_iff' _ (Iff.of_eq (k0_chk527.eq_1 v2131))
theorem k0_idx527_inb : ∀ (v2131 : IVec S16 32) (k0_hw527 : k0_chk527 v2131), ∀ a x, ((![v2131] : Fin 1 → IVec S16 32) a x).toNat < S2800.size a := fun v2131 k0_hw527 => k0_hw527

def k0_chk528 (v2133 : IVec S16 32) : Prop :=
  (∀ a x, ((![v2133] : Fin 1 → IVec S16 32) a x).toNat < S2800.size a)
instance k0_chk528.dec : ∀ (v2133 : IVec S16 32), Decidable (k0_chk528 v2133) := fun v2133 => decidable_of_iff' _ (Iff.of_eq (k0_chk528.eq_1 v2133))
theorem k0_idx528_inb : ∀ (v2133 : IVec S16 32) (k0_hw528 : k0_chk528 v2133), ∀ a x, ((![v2133] : Fin 1 → IVec S16 32) a x).toNat < S2800.size a := fun v2133 k0_hw528 => k0_hw528

def k0_chk529 (v2136 : IVec S16 32) : Prop :=
  (∀ a x, ((![v2136] : Fin 1 → IVec S16 32) a x).toNat < S2800.size a)
instance k0_chk529.dec : ∀ (v2136 : IVec S16 32), Decidable (k0_chk529 v2136) := fun v2136 => decidable_of_iff' _ (Iff.of_eq (k0_chk529.eq_1 v2136))
theorem k0_idx529_inb : ∀ (v2136 : IVec S16 32) (k0_hw529 : k0_chk529 v2136), ∀ a x, ((![v2136] : Fin 1 → IVec S16 32) a x).toNat < S2800.size a := fun v2136 k0_hw529 => k0_hw529

def k0_chk530 (v2138 : IVec S16 32) : Prop :=
  (∀ a x, ((![v2138] : Fin 1 → IVec S16 32) a x).toNat < S2800.size a)
instance k0_chk530.dec : ∀ (v2138 : IVec S16 32), Decidable (k0_chk530 v2138) := fun v2138 => decidable_of_iff' _ (Iff.of_eq (k0_chk530.eq_1 v2138))
theorem k0_idx530_inb : ∀ (v2138 : IVec S16 32) (k0_hw530 : k0_chk530 v2138), ∀ a x, ((![v2138] : Fin 1 → IVec S16 32) a x).toNat < S2800.size a := fun v2138 k0_hw530 => k0_hw530

def k0_chk531 (v2141 : IVec S16 32) : Prop :=
  (∀ a x, ((![v2141] : Fin 1 → IVec S16 32) a x).toNat < S2800.size a)
instance k0_chk531.dec : ∀ (v2141 : IVec S16 32), Decidable (k0_chk531 v2141) := fun v2141 => decidable_of_iff' _ (Iff.of_eq (k0_chk531.eq_1 v2141))
theorem k0_idx531_inb : ∀ (v2141 : IVec S16 32) (k0_hw531 : k0_chk531 v2141), ∀ a x, ((![v2141] : Fin 1 → IVec S16 32) a x).toNat < S2800.size a := fun v2141 k0_hw531 => k0_hw531

def k0_chk532 (v2143 : IVec S16 32) : Prop :=
  (∀ a x, ((![v2143] : Fin 1 → IVec S16 32) a x).toNat < S2800.size a)
instance k0_chk532.dec : ∀ (v2143 : IVec S16 32), Decidable (k0_chk532 v2143) := fun v2143 => decidable_of_iff' _ (Iff.of_eq (k0_chk532.eq_1 v2143))
theorem k0_idx532_inb : ∀ (v2143 : IVec S16 32) (k0_hw532 : k0_chk532 v2143), ∀ a x, ((![v2143] : Fin 1 → IVec S16 32) a x).toNat < S2800.size a := fun v2143 k0_hw532 => k0_hw532

def k0_chk533 (v2146 : IVec S16 32) : Prop :=
  (∀ a x, ((![v2146] : Fin 1 → IVec S16 32) a x).toNat < S2800.size a)
instance k0_chk533.dec : ∀ (v2146 : IVec S16 32), Decidable (k0_chk533 v2146) := fun v2146 => decidable_of_iff' _ (Iff.of_eq (k0_chk533.eq_1 v2146))
theorem k0_idx533_inb : ∀ (v2146 : IVec S16 32) (k0_hw533 : k0_chk533 v2146), ∀ a x, ((![v2146] : Fin 1 → IVec S16 32) a x).toNat < S2800.size a := fun v2146 k0_hw533 => k0_hw533

def k0_chk534 (v2148 : IVec S16 32) : Prop :=
  (∀ a x, ((![v2148] : Fin 1 → IVec S16 32) a x).toNat < S2800.size a)
instance k0_chk534.dec : ∀ (v2148 : IVec S16 32), Decidable (k0_chk534 v2148) := fun v2148 => decidable_of_iff' _ (Iff.of_eq (k0_chk534.eq_1 v2148))
theorem k0_idx534_inb : ∀ (v2148 : IVec S16 32) (k0_hw534 : k0_chk534 v2148), ∀ a x, ((![v2148] : Fin 1 → IVec S16 32) a x).toNat < S2800.size a := fun v2148 k0_hw534 => k0_hw534

def k0_chk535 (v2151 : IVec S16 32) : Prop :=
  (∀ a x, ((![v2151] : Fin 1 → IVec S16 32) a x).toNat < S2800.size a)
instance k0_chk535.dec : ∀ (v2151 : IVec S16 32), Decidable (k0_chk535 v2151) := fun v2151 => decidable_of_iff' _ (Iff.of_eq (k0_chk535.eq_1 v2151))
theorem k0_idx535_inb : ∀ (v2151 : IVec S16 32) (k0_hw535 : k0_chk535 v2151), ∀ a x, ((![v2151] : Fin 1 → IVec S16 32) a x).toNat < S2800.size a := fun v2151 k0_hw535 => k0_hw535

def k0_chk536 (v2153 : IVec S16 32) : Prop :=
  (∀ a x, ((![v2153] : Fin 1 → IVec S16 32) a x).toNat < S2800.size a)
instance k0_chk536.dec : ∀ (v2153 : IVec S16 32), Decidable (k0_chk536 v2153) := fun v2153 => decidable_of_iff' _ (Iff.of_eq (k0_chk536.eq_1 v2153))
theorem k0_idx536_inb : ∀ (v2153 : IVec S16 32) (k0_hw536 : k0_chk536 v2153), ∀ a x, ((![v2153] : Fin 1 → IVec S16 32) a x).toNat < S2800.size a := fun v2153 k0_hw536 => k0_hw536

def k0_chk537 (v2156 : IVec S16 32) : Prop :=
  (∀ a x, ((![v2156] : Fin 1 → IVec S16 32) a x).toNat < S2800.size a)
instance k0_chk537.dec : ∀ (v2156 : IVec S16 32), Decidable (k0_chk537 v2156) := fun v2156 => decidable_of_iff' _ (Iff.of_eq (k0_chk537.eq_1 v2156))
theorem k0_idx537_inb : ∀ (v2156 : IVec S16 32) (k0_hw537 : k0_chk537 v2156), ∀ a x, ((![v2156] : Fin 1 → IVec S16 32) a x).toNat < S2800.size a := fun v2156 k0_hw537 => k0_hw537

def k0_chk538 (v2158 : IVec S16 32) : Prop :=
  (∀ a x, ((![v2158] : Fin 1 → IVec S16 32) a x).toNat < S2800.size a)
instance k0_chk538.dec : ∀ (v2158 : IVec S16 32), Decidable (k0_chk538 v2158) := fun v2158 => decidable_of_iff' _ (Iff.of_eq (k0_chk538.eq_1 v2158))
theorem k0_idx538_inb : ∀ (v2158 : IVec S16 32) (k0_hw538 : k0_chk538 v2158), ∀ a x, ((![v2158] : Fin 1 → IVec S16 32) a x).toNat < S2800.size a := fun v2158 k0_hw538 => k0_hw538

def k0_chk539 (v2161 : IVec S16 32) : Prop :=
  (∀ a x, ((![v2161] : Fin 1 → IVec S16 32) a x).toNat < S2800.size a)
instance k0_chk539.dec : ∀ (v2161 : IVec S16 32), Decidable (k0_chk539 v2161) := fun v2161 => decidable_of_iff' _ (Iff.of_eq (k0_chk539.eq_1 v2161))
theorem k0_idx539_inb : ∀ (v2161 : IVec S16 32) (k0_hw539 : k0_chk539 v2161), ∀ a x, ((![v2161] : Fin 1 → IVec S16 32) a x).toNat < S2800.size a := fun v2161 k0_hw539 => k0_hw539

def k0_chk540 (v2163 : IVec S16 32) : Prop :=
  (∀ a x, ((![v2163] : Fin 1 → IVec S16 32) a x).toNat < S2800.size a)
instance k0_chk540.dec : ∀ (v2163 : IVec S16 32), Decidable (k0_chk540 v2163) := fun v2163 => decidable_of_iff' _ (Iff.of_eq (k0_chk540.eq_1 v2163))
theorem k0_idx540_inb : ∀ (v2163 : IVec S16 32) (k0_hw540 : k0_chk540 v2163), ∀ a x, ((![v2163] : Fin 1 → IVec S16 32) a x).toNat < S2800.size a := fun v2163 k0_hw540 => k0_hw540

def k0_chk541 (v2166 : IVec S16 32) : Prop :=
  (∀ a x, ((![v2166] : Fin 1 → IVec S16 32) a x).toNat < S2800.size a)
instance k0_chk541.dec : ∀ (v2166 : IVec S16 32), Decidable (k0_chk541 v2166) := fun v2166 => decidable_of_iff' _ (Iff.of_eq (k0_chk541.eq_1 v2166))
theorem k0_idx541_inb : ∀ (v2166 : IVec S16 32) (k0_hw541 : k0_chk541 v2166), ∀ a x, ((![v2166] : Fin 1 → IVec S16 32) a x).toNat < S2800.size a := fun v2166 k0_hw541 => k0_hw541

def k0_chk542 (v2168 : IVec S16 32) : Prop :=
  (∀ a x, ((![v2168] : Fin 1 → IVec S16 32) a x).toNat < S2800.size a)
instance k0_chk542.dec : ∀ (v2168 : IVec S16 32), Decidable (k0_chk542 v2168) := fun v2168 => decidable_of_iff' _ (Iff.of_eq (k0_chk542.eq_1 v2168))
theorem k0_idx542_inb : ∀ (v2168 : IVec S16 32) (k0_hw542 : k0_chk542 v2168), ∀ a x, ((![v2168] : Fin 1 → IVec S16 32) a x).toNat < S2800.size a := fun v2168 k0_hw542 => k0_hw542

def k0_chk543 (v2171 : IVec S16 32) : Prop :=
  (∀ a x, ((![v2171] : Fin 1 → IVec S16 32) a x).toNat < S2800.size a)
instance k0_chk543.dec : ∀ (v2171 : IVec S16 32), Decidable (k0_chk543 v2171) := fun v2171 => decidable_of_iff' _ (Iff.of_eq (k0_chk543.eq_1 v2171))
theorem k0_idx543_inb : ∀ (v2171 : IVec S16 32) (k0_hw543 : k0_chk543 v2171), ∀ a x, ((![v2171] : Fin 1 → IVec S16 32) a x).toNat < S2800.size a := fun v2171 k0_hw543 => k0_hw543

def k0_chk544 (v2173 : IVec S16 32) : Prop :=
  (∀ a x, ((![v2173] : Fin 1 → IVec S16 32) a x).toNat < S2800.size a)
instance k0_chk544.dec : ∀ (v2173 : IVec S16 32), Decidable (k0_chk544 v2173) := fun v2173 => decidable_of_iff' _ (Iff.of_eq (k0_chk544.eq_1 v2173))
theorem k0_idx544_inb : ∀ (v2173 : IVec S16 32) (k0_hw544 : k0_chk544 v2173), ∀ a x, ((![v2173] : Fin 1 → IVec S16 32) a x).toNat < S2800.size a := fun v2173 k0_hw544 => k0_hw544

def k0_chk545 (v2176 : IVec S16 32) : Prop :=
  (∀ a x, ((![v2176] : Fin 1 → IVec S16 32) a x).toNat < S2800.size a)
instance k0_chk545.dec : ∀ (v2176 : IVec S16 32), Decidable (k0_chk545 v2176) := fun v2176 => decidable_of_iff' _ (Iff.of_eq (k0_chk545.eq_1 v2176))
theorem k0_idx545_inb : ∀ (v2176 : IVec S16 32) (k0_hw545 : k0_chk545 v2176), ∀ a x, ((![v2176] : Fin 1 → IVec S16 32) a x).toNat < S2800.size a := fun v2176 k0_hw545 => k0_hw545

def k0_chk546 (v2178 : IVec S16 32) : Prop :=
  (∀ a x, ((![v2178] : Fin 1 → IVec S16 32) a x).toNat < S2800.size a)
instance k0_chk546.dec : ∀ (v2178 : IVec S16 32), Decidable (k0_chk546 v2178) := fun v2178 => decidable_of_iff' _ (Iff.of_eq (k0_chk546.eq_1 v2178))
theorem k0_idx546_inb : ∀ (v2178 : IVec S16 32) (k0_hw546 : k0_chk546 v2178), ∀ a x, ((![v2178] : Fin 1 → IVec S16 32) a x).toNat < S2800.size a := fun v2178 k0_hw546 => k0_hw546

def k0_chk547 (v2181 : IVec S16 32) : Prop :=
  (∀ a x, ((![v2181] : Fin 1 → IVec S16 32) a x).toNat < S2800.size a)
instance k0_chk547.dec : ∀ (v2181 : IVec S16 32), Decidable (k0_chk547 v2181) := fun v2181 => decidable_of_iff' _ (Iff.of_eq (k0_chk547.eq_1 v2181))
theorem k0_idx547_inb : ∀ (v2181 : IVec S16 32) (k0_hw547 : k0_chk547 v2181), ∀ a x, ((![v2181] : Fin 1 → IVec S16 32) a x).toNat < S2800.size a := fun v2181 k0_hw547 => k0_hw547

def k0_chk548 (v2183 : IVec S16 32) : Prop :=
  (∀ a x, ((![v2183] : Fin 1 → IVec S16 32) a x).toNat < S2800.size a)
instance k0_chk548.dec : ∀ (v2183 : IVec S16 32), Decidable (k0_chk548 v2183) := fun v2183 => decidable_of_iff' _ (Iff.of_eq (k0_chk548.eq_1 v2183))
theorem k0_idx548_inb : ∀ (v2183 : IVec S16 32) (k0_hw548 : k0_chk548 v2183), ∀ a x, ((![v2183] : Fin 1 → IVec S16 32) a x).toNat < S2800.size a := fun v2183 k0_hw548 => k0_hw548

def k0_chk549 (v2186 : IVec S16 32) : Prop :=
  (∀ a x, ((![v2186] : Fin 1 → IVec S16 32) a x).toNat < S2800.size a)
instance k0_chk549.dec : ∀ (v2186 : IVec S16 32), Decidable (k0_chk549 v2186) := fun v2186 => decidable_of_iff' _ (Iff.of_eq (k0_chk549.eq_1 v2186))
theorem k0_idx549_inb : ∀ (v2186 : IVec S16 32) (k0_hw549 : k0_chk549 v2186), ∀ a x, ((![v2186] : Fin 1 → IVec S16 32) a x).toNat < S2800.size a := fun v2186 k0_hw549 => k0_hw549

def k0_chk550 (v2188 : IVec S16 32) : Prop :=
  (∀ a x, ((![v2188] : Fin 1 → IVec S16 32) a x).toNat < S2800.size a)
instance k0_chk550.dec : ∀ (v2188 : IVec S16 32), Decidable (k0_chk550 v2188) := fun v2188 => decidable_of_iff' _ (Iff.of_eq (k0_chk550.eq_1 v2188))
theorem k0_idx550_inb : ∀ (v2188 : IVec S16 32) (k0_hw550 : k0_chk550 v2188), ∀ a x, ((![v2188] : Fin 1 → IVec S16 32) a x).toNat < S2800.size a := fun v2188 k0_hw550 => k0_hw550

def k0_chk551 (v2191 : IVec S16 32) : Prop :=
  (∀ a x, ((![v2191] : Fin 1 → IVec S16 32) a x).toNat < S2800.size a)
instance k0_chk551.dec : ∀ (v2191 : IVec S16 32), Decidable (k0_chk551 v2191) := fun v2191 => decidable_of_iff' _ (Iff.of_eq (k0_chk551.eq_1 v2191))
theorem k0_idx551_inb : ∀ (v2191 : IVec S16 32) (k0_hw551 : k0_chk551 v2191), ∀ a x, ((![v2191] : Fin 1 → IVec S16 32) a x).toNat < S2800.size a := fun v2191 k0_hw551 => k0_hw551

def k0_chk552 (v2193 : IVec S16 32) : Prop :=
  (∀ a x, ((![v2193] : Fin 1 → IVec S16 32) a x).toNat < S2800.size a)
instance k0_chk552.dec : ∀ (v2193 : IVec S16 32), Decidable (k0_chk552 v2193) := fun v2193 => decidable_of_iff' _ (Iff.of_eq (k0_chk552.eq_1 v2193))
theorem k0_idx552_inb : ∀ (v2193 : IVec S16 32) (k0_hw552 : k0_chk552 v2193), ∀ a x, ((![v2193] : Fin 1 → IVec S16 32) a x).toNat < S2800.size a := fun v2193 k0_hw552 => k0_hw552

def k0_chk553 (v2196 : IVec S16 32) : Prop :=
  (∀ a x, ((![v2196] : Fin 1 → IVec S16 32) a x).toNat < S2800.size a)
instance k0_chk553.dec : ∀ (v2196 : IVec S16 32), Decidable (k0_chk553 v2196) := fun v2196 => decidable_of_iff' _ (Iff.of_eq (k0_chk553.eq_1 v2196))
theorem k0_idx553_inb : ∀ (v2196 : IVec S16 32) (k0_hw553 : k0_chk553 v2196), ∀ a x, ((![v2196] : Fin 1 → IVec S16 32) a x).toNat < S2800.size a := fun v2196 k0_hw553 => k0_hw553

def k0_chk554 (v2198 : IVec S16 32) : Prop :=
  (∀ a x, ((![v2198] : Fin 1 → IVec S16 32) a x).toNat < S2800.size a)
instance k0_chk554.dec : ∀ (v2198 : IVec S16 32), Decidable (k0_chk554 v2198) := fun v2198 => decidable_of_iff' _ (Iff.of_eq (k0_chk554.eq_1 v2198))
theorem k0_idx554_inb : ∀ (v2198 : IVec S16 32) (k0_hw554 : k0_chk554 v2198), ∀ a x, ((![v2198] : Fin 1 → IVec S16 32) a x).toNat < S2800.size a := fun v2198 k0_hw554 => k0_hw554

def k0_chk555 (v2201 : IVec S16 32) : Prop :=
  (∀ a x, ((![v2201] : Fin 1 → IVec S16 32) a x).toNat < S2800.size a)
instance k0_chk555.dec : ∀ (v2201 : IVec S16 32), Decidable (k0_chk555 v2201) := fun v2201 => decidable_of_iff' _ (Iff.of_eq (k0_chk555.eq_1 v2201))
theorem k0_idx555_inb : ∀ (v2201 : IVec S16 32) (k0_hw555 : k0_chk555 v2201), ∀ a x, ((![v2201] : Fin 1 → IVec S16 32) a x).toNat < S2800.size a := fun v2201 k0_hw555 => k0_hw555

def k0_chk556 (v2203 : IVec S16 32) : Prop :=
  (∀ a x, ((![v2203] : Fin 1 → IVec S16 32) a x).toNat < S2800.size a)
instance k0_chk556.dec : ∀ (v2203 : IVec S16 32), Decidable (k0_chk556 v2203) := fun v2203 => decidable_of_iff' _ (Iff.of_eq (k0_chk556.eq_1 v2203))
theorem k0_idx556_inb : ∀ (v2203 : IVec S16 32) (k0_hw556 : k0_chk556 v2203), ∀ a x, ((![v2203] : Fin 1 → IVec S16 32) a x).toNat < S2800.size a := fun v2203 k0_hw556 => k0_hw556

def k0_chk557 (v2206 : IVec S16 32) : Prop :=
  (∀ a x, ((![v2206] : Fin 1 → IVec S16 32) a x).toNat < S2800.size a)
instance k0_chk557.dec : ∀ (v2206 : IVec S16 32), Decidable (k0_chk557 v2206) := fun v2206 => decidable_of_iff' _ (Iff.of_eq (k0_chk557.eq_1 v2206))
theorem k0_idx557_inb : ∀ (v2206 : IVec S16 32) (k0_hw557 : k0_chk557 v2206), ∀ a x, ((![v2206] : Fin 1 → IVec S16 32) a x).toNat < S2800.size a := fun v2206 k0_hw557 => k0_hw557

def k0_chk558 (v2208 : IVec S16 32) : Prop :=
  (∀ a x, ((![v2208] : Fin 1 → IVec S16 32) a x).toNat < S2800.size a)
instance k0_chk558.dec : ∀ (v2208 : IVec S16 32), Decidable (k0_chk558 v2208) := fun v2208 => decidable_of_iff' _ (Iff.of_eq (k0_chk558.eq_1 v2208))
theorem k0_idx558_inb : ∀ (v2208 : IVec S16 32) (k0_hw558 : k0_chk558 v2208), ∀ a x, ((![v2208] : Fin 1 → IVec S16 32) a x).toNat < S2800.size a := fun v2208 k0_hw558 => k0_hw558

def k0_chk559 (v2211 : IVec S16 32) : Prop :=
  (∀ a x, ((![v2211] : Fin 1 → IVec S16 32) a x).toNat < S2800.size a)
instance k0_chk559.dec : ∀ (v2211 : IVec S16 32), Decidable (k0_chk559 v2211) := fun v2211 => decidable_of_iff' _ (Iff.of_eq (k0_chk559.eq_1 v2211))
theorem k0_idx559_inb : ∀ (v2211 : IVec S16 32) (k0_hw559 : k0_chk559 v2211), ∀ a x, ((![v2211] : Fin 1 → IVec S16 32) a x).toNat < S2800.size a := fun v2211 k0_hw559 => k0_hw559

def k0_chk560 (v2213 : IVec S16 32) : Prop :=
  (∀ a x, ((![v2213] : Fin 1 → IVec S16 32) a x).toNat < S2800.size a)
instance k0_chk560.dec : ∀ (v2213 : IVec S16 32), Decidable (k0_chk560 v2213) := fun v2213 => decidable_of_iff' _ (Iff.of_eq (k0_chk560.eq_1 v2213))
theorem k0_idx560_inb : ∀ (v2213 : IVec S16 32) (k0_hw560 : k0_chk560 v2213), ∀ a x, ((![v2213] : Fin 1 → IVec S16 32) a x).toNat < S2800.size a := fun v2213 k0_hw560 => k0_hw560

def k0_chk561 (v2216 : IVec S16 32) : Prop :=
  (∀ a x, ((![v2216] : Fin 1 → IVec S16 32) a x).toNat < S2800.size a)
instance k0_chk561.dec : ∀ (v2216 : IVec S16 32), Decidable (k0_chk561 v2216) := fun v2216 => decidable_of_iff' _ (Iff.of_eq (k0_chk561.eq_1 v2216))
theorem k0_idx561_inb : ∀ (v2216 : IVec S16 32) (k0_hw561 : k0_chk561 v2216), ∀ a x, ((![v2216] : Fin 1 → IVec S16 32) a x).toNat < S2800.size a := fun v2216 k0_hw561 => k0_hw561

def k0_chk562 (v2218 : IVec S16 32) : Prop :=
  (∀ a x, ((![v2218] : Fin 1 → IVec S16 32) a x).toNat < S2800.size a)
instance k0_chk562.dec : ∀ (v2218 : IVec S16 32), Decidable (k0_chk562 v2218) := fun v2218 => decidable_of_iff' _ (Iff.of_eq (k0_chk562.eq_1 v2218))
theorem k0_idx562_inb : ∀ (v2218 : IVec S16 32) (k0_hw562 : k0_chk562 v2218), ∀ a x, ((![v2218] : Fin 1 → IVec S16 32) a x).toNat < S2800.size a := fun v2218 k0_hw562 => k0_hw562

def k0_chk563 (v2221 : IVec S16 32) : Prop :=
  (∀ a x, ((![v2221] : Fin 1 → IVec S16 32) a x).toNat < S2800.size a)
instance k0_chk563.dec : ∀ (v2221 : IVec S16 32), Decidable (k0_chk563 v2221) := fun v2221 => decidable_of_iff' _ (Iff.of_eq (k0_chk563.eq_1 v2221))
theorem k0_idx563_inb : ∀ (v2221 : IVec S16 32) (k0_hw563 : k0_chk563 v2221), ∀ a x, ((![v2221] : Fin 1 → IVec S16 32) a x).toNat < S2800.size a := fun v2221 k0_hw563 => k0_hw563

def k0_chk564 (v2223 : IVec S16 32) : Prop :=
  (∀ a x, ((![v2223] : Fin 1 → IVec S16 32) a x).toNat < S2800.size a)
instance k0_chk564.dec : ∀ (v2223 : IVec S16 32), Decidable (k0_chk564 v2223) := fun v2223 => decidable_of_iff' _ (Iff.of_eq (k0_chk564.eq_1 v2223))
theorem k0_idx564_inb : ∀ (v2223 : IVec S16 32) (k0_hw564 : k0_chk564 v2223), ∀ a x, ((![v2223] : Fin 1 → IVec S16 32) a x).toNat < S2800.size a := fun v2223 k0_hw564 => k0_hw564

def k0_chk565 (v2226 : IVec S16 32) : Prop :=
  (∀ a x, ((![v2226] : Fin 1 → IVec S16 32) a x).toNat < S2800.size a)
instance k0_chk565.dec : ∀ (v2226 : IVec S16 32), Decidable (k0_chk565 v2226) := fun v2226 => decidable_of_iff' _ (Iff.of_eq (k0_chk565.eq_1 v2226))
theorem k0_idx565_inb : ∀ (v2226 : IVec S16 32) (k0_hw565 : k0_chk565 v2226), ∀ a x, ((![v2226] : Fin 1 → IVec S16 32) a x).toNat < S2800.size a := fun v2226 k0_hw565 => k0_hw565

def k0_chk566 (v2228 : IVec S16 32) : Prop :=
  (∀ a x, ((![v2228] : Fin 1 → IVec S16 32) a x).toNat < S2800.size a)
instance k0_chk566.dec : ∀ (v2228 : IVec S16 32), Decidable (k0_chk566 v2228) := fun v2228 => decidable_of_iff' _ (Iff.of_eq (k0_chk566.eq_1 v2228))
theorem k0_idx566_inb : ∀ (v2228 : IVec S16 32) (k0_hw566 : k0_chk566 v2228), ∀ a x, ((![v2228] : Fin 1 → IVec S16 32) a x).toNat < S2800.size a := fun v2228 k0_hw566 => k0_hw566

def k0_chk567 (v2231 : IVec S16 32) : Prop :=
  (∀ a x, ((![v2231] : Fin 1 → IVec S16 32) a x).toNat < S2800.size a)
instance k0_chk567.dec : ∀ (v2231 : IVec S16 32), Decidable (k0_chk567 v2231) := fun v2231 => decidable_of_iff' _ (Iff.of_eq (k0_chk567.eq_1 v2231))
theorem k0_idx567_inb : ∀ (v2231 : IVec S16 32) (k0_hw567 : k0_chk567 v2231), ∀ a x, ((![v2231] : Fin 1 → IVec S16 32) a x).toNat < S2800.size a := fun v2231 k0_hw567 => k0_hw567

def k0_chk568 (v2233 : IVec S16 32) : Prop :=
  (∀ a x, ((![v2233] : Fin 1 → IVec S16 32) a x).toNat < S2800.size a)
instance k0_chk568.dec : ∀ (v2233 : IVec S16 32), Decidable (k0_chk568 v2233) := fun v2233 => decidable_of_iff' _ (Iff.of_eq (k0_chk568.eq_1 v2233))
theorem k0_idx568_inb : ∀ (v2233 : IVec S16 32) (k0_hw568 : k0_chk568 v2233), ∀ a x, ((![v2233] : Fin 1 → IVec S16 32) a x).toNat < S2800.size a := fun v2233 k0_hw568 => k0_hw568

def k0_chk569 (v2236 : IVec S16 32) : Prop :=
  (∀ a x, ((![v2236] : Fin 1 → IVec S16 32) a x).toNat < S2800.size a)
instance k0_chk569.dec : ∀ (v2236 : IVec S16 32), Decidable (k0_chk569 v2236) := fun v2236 => decidable_of_iff' _ (Iff.of_eq (k0_chk569.eq_1 v2236))
theorem k0_idx569_inb : ∀ (v2236 : IVec S16 32) (k0_hw569 : k0_chk569 v2236), ∀ a x, ((![v2236] : Fin 1 → IVec S16 32) a x).toNat < S2800.size a := fun v2236 k0_hw569 => k0_hw569

def k0_chk570 (v2238 : IVec S16 32) : Prop :=
  (∀ a x, ((![v2238] : Fin 1 → IVec S16 32) a x).toNat < S2800.size a)
instance k0_chk570.dec : ∀ (v2238 : IVec S16 32), Decidable (k0_chk570 v2238) := fun v2238 => decidable_of_iff' _ (Iff.of_eq (k0_chk570.eq_1 v2238))
theorem k0_idx570_inb : ∀ (v2238 : IVec S16 32) (k0_hw570 : k0_chk570 v2238), ∀ a x, ((![v2238] : Fin 1 → IVec S16 32) a x).toNat < S2800.size a := fun v2238 k0_hw570 => k0_hw570

def k0_chk571 (v2241 : IVec S16 32) : Prop :=
  (∀ a x, ((![v2241] : Fin 1 → IVec S16 32) a x).toNat < S2800.size a)
instance k0_chk571.dec : ∀ (v2241 : IVec S16 32), Decidable (k0_chk571 v2241) := fun v2241 => decidable_of_iff' _ (Iff.of_eq (k0_chk571.eq_1 v2241))
theorem k0_idx571_inb : ∀ (v2241 : IVec S16 32) (k0_hw571 : k0_chk571 v2241), ∀ a x, ((![v2241] : Fin 1 → IVec S16 32) a x).toNat < S2800.size a := fun v2241 k0_hw571 => k0_hw571

def k0_chk572 (v2243 : IVec S16 32) : Prop :=
  (∀ a x, ((![v2243] : Fin 1 → IVec S16 32) a x).toNat < S2800.size a)
instance k0_chk572.dec : ∀ (v2243 : IVec S16 32), Decidable (k0_chk572 v2243) := fun v2243 => decidable_of_iff' _ (Iff.of_eq (k0_chk572.eq_1 v2243))
theorem k0_idx572_inb : ∀ (v2243 : IVec S16 32) (k0_hw572 : k0_chk572 v2243), ∀ a x, ((![v2243] : Fin 1 → IVec S16 32) a x).toNat < S2800.size a := fun v2243 k0_hw572 => k0_hw572

def k0_chk573 (v2246 : IVec S16 32) : Prop :=
  (∀ a x, ((![v2246] : Fin 1 → IVec S16 32) a x).toNat < S2800.size a)
instance k0_chk573.dec : ∀ (v2246 : IVec S16 32), Decidable (k0_chk573 v2246) := fun v2246 => decidable_of_iff' _ (Iff.of_eq (k0_chk573.eq_1 v2246))
theorem k0_idx573_inb : ∀ (v2246 : IVec S16 32) (k0_hw573 : k0_chk573 v2246), ∀ a x, ((![v2246] : Fin 1 → IVec S16 32) a x).toNat < S2800.size a := fun v2246 k0_hw573 => k0_hw573

def k0_chk574 (v2248 : IVec S16 32) : Prop :=
  (∀ a x, ((![v2248] : Fin 1 → IVec S16 32) a x).toNat < S2800.size a)
instance k0_chk574.dec : ∀ (v2248 : IVec S16 32), Decidable (k0_chk574 v2248) := fun v2248 => decidable_of_iff' _ (Iff.of_eq (k0_chk574.eq_1 v2248))
theorem k0_idx574_inb : ∀ (v2248 : IVec S16 32) (k0_hw574 : k0_chk574 v2248), ∀ a x, ((![v2248] : Fin 1 → IVec S16 32) a x).toNat < S2800.size a := fun v2248 k0_hw574 => k0_hw574

def k0_chk575 (v2251 : IVec S16 32) : Prop :=
  (∀ a x, ((![v2251] : Fin 1 → IVec S16 32) a x).toNat < S2800.size a)
instance k0_chk575.dec : ∀ (v2251 : IVec S16 32), Decidable (k0_chk575 v2251) := fun v2251 => decidable_of_iff' _ (Iff.of_eq (k0_chk575.eq_1 v2251))
theorem k0_idx575_inb : ∀ (v2251 : IVec S16 32) (k0_hw575 : k0_chk575 v2251), ∀ a x, ((![v2251] : Fin 1 → IVec S16 32) a x).toNat < S2800.size a := fun v2251 k0_hw575 => k0_hw575

def k0_chk576 (v2253 : IVec S16 32) : Prop :=
  (∀ a x, ((![v2253] : Fin 1 → IVec S16 32) a x).toNat < S2800.size a)
instance k0_chk576.dec : ∀ (v2253 : IVec S16 32), Decidable (k0_chk576 v2253) := fun v2253 => decidable_of_iff' _ (Iff.of_eq (k0_chk576.eq_1 v2253))
theorem k0_idx576_inb : ∀ (v2253 : IVec S16 32) (k0_hw576 : k0_chk576 v2253), ∀ a x, ((![v2253] : Fin 1 → IVec S16 32) a x).toNat < S2800.size a := fun v2253 k0_hw576 => k0_hw576

def k0_chk577 (v2256 : IVec S16 32) : Prop :=
  (∀ a x, ((![v2256] : Fin 1 → IVec S16 32) a x).toNat < S2800.size a)
instance k0_chk577.dec : ∀ (v2256 : IVec S16 32), Decidable (k0_chk577 v2256) := fun v2256 => decidable_of_iff' _ (Iff.of_eq (k0_chk577.eq_1 v2256))
theorem k0_idx577_inb : ∀ (v2256 : IVec S16 32) (k0_hw577 : k0_chk577 v2256), ∀ a x, ((![v2256] : Fin 1 → IVec S16 32) a x).toNat < S2800.size a := fun v2256 k0_hw577 => k0_hw577

def k0_chk578 (v2258 : IVec S16 32) : Prop :=
  (∀ a x, ((![v2258] : Fin 1 → IVec S16 32) a x).toNat < S2800.size a)
instance k0_chk578.dec : ∀ (v2258 : IVec S16 32), Decidable (k0_chk578 v2258) := fun v2258 => decidable_of_iff' _ (Iff.of_eq (k0_chk578.eq_1 v2258))
theorem k0_idx578_inb : ∀ (v2258 : IVec S16 32) (k0_hw578 : k0_chk578 v2258), ∀ a x, ((![v2258] : Fin 1 → IVec S16 32) a x).toNat < S2800.size a := fun v2258 k0_hw578 => k0_hw578

def k0_chk579 (v2261 : IVec S16 32) : Prop :=
  (∀ a x, ((![v2261] : Fin 1 → IVec S16 32) a x).toNat < S2800.size a)
instance k0_chk579.dec : ∀ (v2261 : IVec S16 32), Decidable (k0_chk579 v2261) := fun v2261 => decidable_of_iff' _ (Iff.of_eq (k0_chk579.eq_1 v2261))
theorem k0_idx579_inb : ∀ (v2261 : IVec S16 32) (k0_hw579 : k0_chk579 v2261), ∀ a x, ((![v2261] : Fin 1 → IVec S16 32) a x).toNat < S2800.size a := fun v2261 k0_hw579 => k0_hw579

def k0_chk580 (v2263 : IVec S16 32) : Prop :=
  (∀ a x, ((![v2263] : Fin 1 → IVec S16 32) a x).toNat < S2800.size a)
instance k0_chk580.dec : ∀ (v2263 : IVec S16 32), Decidable (k0_chk580 v2263) := fun v2263 => decidable_of_iff' _ (Iff.of_eq (k0_chk580.eq_1 v2263))
theorem k0_idx580_inb : ∀ (v2263 : IVec S16 32) (k0_hw580 : k0_chk580 v2263), ∀ a x, ((![v2263] : Fin 1 → IVec S16 32) a x).toNat < S2800.size a := fun v2263 k0_hw580 => k0_hw580

def k0_chk581 (v2266 : IVec S16 32) : Prop :=
  (∀ a x, ((![v2266] : Fin 1 → IVec S16 32) a x).toNat < S2800.size a)
instance k0_chk581.dec : ∀ (v2266 : IVec S16 32), Decidable (k0_chk581 v2266) := fun v2266 => decidable_of_iff' _ (Iff.of_eq (k0_chk581.eq_1 v2266))
theorem k0_idx581_inb : ∀ (v2266 : IVec S16 32) (k0_hw581 : k0_chk581 v2266), ∀ a x, ((![v2266] : Fin 1 → IVec S16 32) a x).toNat < S2800.size a := fun v2266 k0_hw581 => k0_hw581

def k0_chk582 (v2268 : IVec S16 32) : Prop :=
  (∀ a x, ((![v2268] : Fin 1 → IVec S16 32) a x).toNat < S2800.size a)
instance k0_chk582.dec : ∀ (v2268 : IVec S16 32), Decidable (k0_chk582 v2268) := fun v2268 => decidable_of_iff' _ (Iff.of_eq (k0_chk582.eq_1 v2268))
theorem k0_idx582_inb : ∀ (v2268 : IVec S16 32) (k0_hw582 : k0_chk582 v2268), ∀ a x, ((![v2268] : Fin 1 → IVec S16 32) a x).toNat < S2800.size a := fun v2268 k0_hw582 => k0_hw582

def k0_chk583 (v2271 : IVec S16 32) : Prop :=
  (∀ a x, ((![v2271] : Fin 1 → IVec S16 32) a x).toNat < S2800.size a)
instance k0_chk583.dec : ∀ (v2271 : IVec S16 32), Decidable (k0_chk583 v2271) := fun v2271 => decidable_of_iff' _ (Iff.of_eq (k0_chk583.eq_1 v2271))
theorem k0_idx583_inb : ∀ (v2271 : IVec S16 32) (k0_hw583 : k0_chk583 v2271), ∀ a x, ((![v2271] : Fin 1 → IVec S16 32) a x).toNat < S2800.size a := fun v2271 k0_hw583 => k0_hw583

def k0_chk584 (v2273 : IVec S16 32) : Prop :=
  (∀ a x, ((![v2273] : Fin 1 → IVec S16 32) a x).toNat < S2800.size a)
instance k0_chk584.dec : ∀ (v2273 : IVec S16 32), Decidable (k0_chk584 v2273) := fun v2273 => decidable_of_iff' _ (Iff.of_eq (k0_chk584.eq_1 v2273))
theorem k0_idx584_inb : ∀ (v2273 : IVec S16 32) (k0_hw584 : k0_chk584 v2273), ∀ a x, ((![v2273] : Fin 1 → IVec S16 32) a x).toNat < S2800.size a := fun v2273 k0_hw584 => k0_hw584

def k0_chk585 (v2276 : IVec S16 32) : Prop :=
  (∀ a x, ((![v2276] : Fin 1 → IVec S16 32) a x).toNat < S2800.size a)
instance k0_chk585.dec : ∀ (v2276 : IVec S16 32), Decidable (k0_chk585 v2276) := fun v2276 => decidable_of_iff' _ (Iff.of_eq (k0_chk585.eq_1 v2276))
theorem k0_idx585_inb : ∀ (v2276 : IVec S16 32) (k0_hw585 : k0_chk585 v2276), ∀ a x, ((![v2276] : Fin 1 → IVec S16 32) a x).toNat < S2800.size a := fun v2276 k0_hw585 => k0_hw585

def k0_chk586 (v2278 : IVec S16 32) : Prop :=
  (∀ a x, ((![v2278] : Fin 1 → IVec S16 32) a x).toNat < S2800.size a)
instance k0_chk586.dec : ∀ (v2278 : IVec S16 32), Decidable (k0_chk586 v2278) := fun v2278 => decidable_of_iff' _ (Iff.of_eq (k0_chk586.eq_1 v2278))
theorem k0_idx586_inb : ∀ (v2278 : IVec S16 32) (k0_hw586 : k0_chk586 v2278), ∀ a x, ((![v2278] : Fin 1 → IVec S16 32) a x).toNat < S2800.size a := fun v2278 k0_hw586 => k0_hw586

def k0_chk587 (v2281 : IVec S16 32) : Prop :=
  (∀ a x, ((![v2281] : Fin 1 → IVec S16 32) a x).toNat < S2800.size a)
instance k0_chk587.dec : ∀ (v2281 : IVec S16 32), Decidable (k0_chk587 v2281) := fun v2281 => decidable_of_iff' _ (Iff.of_eq (k0_chk587.eq_1 v2281))
theorem k0_idx587_inb : ∀ (v2281 : IVec S16 32) (k0_hw587 : k0_chk587 v2281), ∀ a x, ((![v2281] : Fin 1 → IVec S16 32) a x).toNat < S2800.size a := fun v2281 k0_hw587 => k0_hw587

def k0_chk588 (v2283 : IVec S16 32) : Prop :=
  (∀ a x, ((![v2283] : Fin 1 → IVec S16 32) a x).toNat < S2800.size a)
instance k0_chk588.dec : ∀ (v2283 : IVec S16 32), Decidable (k0_chk588 v2283) := fun v2283 => decidable_of_iff' _ (Iff.of_eq (k0_chk588.eq_1 v2283))
theorem k0_idx588_inb : ∀ (v2283 : IVec S16 32) (k0_hw588 : k0_chk588 v2283), ∀ a x, ((![v2283] : Fin 1 → IVec S16 32) a x).toNat < S2800.size a := fun v2283 k0_hw588 => k0_hw588

def k0_chk589 (v2286 : IVec S16 32) : Prop :=
  (∀ a x, ((![v2286] : Fin 1 → IVec S16 32) a x).toNat < S2800.size a)
instance k0_chk589.dec : ∀ (v2286 : IVec S16 32), Decidable (k0_chk589 v2286) := fun v2286 => decidable_of_iff' _ (Iff.of_eq (k0_chk589.eq_1 v2286))
theorem k0_idx589_inb : ∀ (v2286 : IVec S16 32) (k0_hw589 : k0_chk589 v2286), ∀ a x, ((![v2286] : Fin 1 → IVec S16 32) a x).toNat < S2800.size a := fun v2286 k0_hw589 => k0_hw589

def k0_chk590 (v2288 : IVec S16 32) : Prop :=
  (∀ a x, ((![v2288] : Fin 1 → IVec S16 32) a x).toNat < S2800.size a)
instance k0_chk590.dec : ∀ (v2288 : IVec S16 32), Decidable (k0_chk590 v2288) := fun v2288 => decidable_of_iff' _ (Iff.of_eq (k0_chk590.eq_1 v2288))
theorem k0_idx590_inb : ∀ (v2288 : IVec S16 32) (k0_hw590 : k0_chk590 v2288), ∀ a x, ((![v2288] : Fin 1 → IVec S16 32) a x).toNat < S2800.size a := fun v2288 k0_hw590 => k0_hw590

def k0_chk591 (v2291 : IVec S16 32) : Prop :=
  (∀ a x, ((![v2291] : Fin 1 → IVec S16 32) a x).toNat < S2800.size a)
instance k0_chk591.dec : ∀ (v2291 : IVec S16 32), Decidable (k0_chk591 v2291) := fun v2291 => decidable_of_iff' _ (Iff.of_eq (k0_chk591.eq_1 v2291))
theorem k0_idx591_inb : ∀ (v2291 : IVec S16 32) (k0_hw591 : k0_chk591 v2291), ∀ a x, ((![v2291] : Fin 1 → IVec S16 32) a x).toNat < S2800.size a := fun v2291 k0_hw591 => k0_hw591

def k0_chk592 (v2293 : IVec S16 32) : Prop :=
  (∀ a x, ((![v2293] : Fin 1 → IVec S16 32) a x).toNat < S2800.size a)
instance k0_chk592.dec : ∀ (v2293 : IVec S16 32), Decidable (k0_chk592 v2293) := fun v2293 => decidable_of_iff' _ (Iff.of_eq (k0_chk592.eq_1 v2293))
theorem k0_idx592_inb : ∀ (v2293 : IVec S16 32) (k0_hw592 : k0_chk592 v2293), ∀ a x, ((![v2293] : Fin 1 → IVec S16 32) a x).toNat < S2800.size a := fun v2293 k0_hw592 => k0_hw592

def k0_chk593 (v2296 : IVec S16 32) : Prop :=
  (∀ a x, ((![v2296] : Fin 1 → IVec S16 32) a x).toNat < S2800.size a)
instance k0_chk593.dec : ∀ (v2296 : IVec S16 32), Decidable (k0_chk593 v2296) := fun v2296 => decidable_of_iff' _ (Iff.of_eq (k0_chk593.eq_1 v2296))
theorem k0_idx593_inb : ∀ (v2296 : IVec S16 32) (k0_hw593 : k0_chk593 v2296), ∀ a x, ((![v2296] : Fin 1 → IVec S16 32) a x).toNat < S2800.size a := fun v2296 k0_hw593 => k0_hw593

def k0_chk594 (v2298 : IVec S16 32) : Prop :=
  (∀ a x, ((![v2298] : Fin 1 → IVec S16 32) a x).toNat < S2800.size a)
instance k0_chk594.dec : ∀ (v2298 : IVec S16 32), Decidable (k0_chk594 v2298) := fun v2298 => decidable_of_iff' _ (Iff.of_eq (k0_chk594.eq_1 v2298))
theorem k0_idx594_inb : ∀ (v2298 : IVec S16 32) (k0_hw594 : k0_chk594 v2298), ∀ a x, ((![v2298] : Fin 1 → IVec S16 32) a x).toNat < S2800.size a := fun v2298 k0_hw594 => k0_hw594

def k0_chk595 (v2301 : IVec S16 32) : Prop :=
  (∀ a x, ((![v2301] : Fin 1 → IVec S16 32) a x).toNat < S2800.size a)
instance k0_chk595.dec : ∀ (v2301 : IVec S16 32), Decidable (k0_chk595 v2301) := fun v2301 => decidable_of_iff' _ (Iff.of_eq (k0_chk595.eq_1 v2301))
theorem k0_idx595_inb : ∀ (v2301 : IVec S16 32) (k0_hw595 : k0_chk595 v2301), ∀ a x, ((![v2301] : Fin 1 → IVec S16 32) a x).toNat < S2800.size a := fun v2301 k0_hw595 => k0_hw595

def k0_chk596 (v2303 : IVec S16 32) : Prop :=
  (∀ a x, ((![v2303] : Fin 1 → IVec S16 32) a x).toNat < S2800.size a)
instance k0_chk596.dec : ∀ (v2303 : IVec S16 32), Decidable (k0_chk596 v2303) := fun v2303 => decidable_of_iff' _ (Iff.of_eq (k0_chk596.eq_1 v2303))
theorem k0_idx596_inb : ∀ (v2303 : IVec S16 32) (k0_hw596 : k0_chk596 v2303), ∀ a x, ((![v2303] : Fin 1 → IVec S16 32) a x).toNat < S2800.size a := fun v2303 k0_hw596 => k0_hw596

def k0_chk597 (v2306 : IVec S16 32) : Prop :=
  (∀ a x, ((![v2306] : Fin 1 → IVec S16 32) a x).toNat < S2800.size a)
instance k0_chk597.dec : ∀ (v2306 : IVec S16 32), Decidable (k0_chk597 v2306) := fun v2306 => decidable_of_iff' _ (Iff.of_eq (k0_chk597.eq_1 v2306))
theorem k0_idx597_inb : ∀ (v2306 : IVec S16 32) (k0_hw597 : k0_chk597 v2306), ∀ a x, ((![v2306] : Fin 1 → IVec S16 32) a x).toNat < S2800.size a := fun v2306 k0_hw597 => k0_hw597

def k0_chk598 (v2308 : IVec S16 32) : Prop :=
  (∀ a x, ((![v2308] : Fin 1 → IVec S16 32) a x).toNat < S2800.size a)
instance k0_chk598.dec : ∀ (v2308 : IVec S16 32), Decidable (k0_chk598 v2308) := fun v2308 => decidable_of_iff' _ (Iff.of_eq (k0_chk598.eq_1 v2308))
theorem k0_idx598_inb : ∀ (v2308 : IVec S16 32) (k0_hw598 : k0_chk598 v2308), ∀ a x, ((![v2308] : Fin 1 → IVec S16 32) a x).toNat < S2800.size a := fun v2308 k0_hw598 => k0_hw598

def k0_chk599 (v2311 : IVec S16 32) : Prop :=
  (∀ a x, ((![v2311] : Fin 1 → IVec S16 32) a x).toNat < S2800.size a)
instance k0_chk599.dec : ∀ (v2311 : IVec S16 32), Decidable (k0_chk599 v2311) := fun v2311 => decidable_of_iff' _ (Iff.of_eq (k0_chk599.eq_1 v2311))
theorem k0_idx599_inb : ∀ (v2311 : IVec S16 32) (k0_hw599 : k0_chk599 v2311), ∀ a x, ((![v2311] : Fin 1 → IVec S16 32) a x).toNat < S2800.size a := fun v2311 k0_hw599 => k0_hw599

def k0_chk600 (v2313 : IVec S16 32) : Prop :=
  (∀ a x, ((![v2313] : Fin 1 → IVec S16 32) a x).toNat < S2800.size a)
instance k0_chk600.dec : ∀ (v2313 : IVec S16 32), Decidable (k0_chk600 v2313) := fun v2313 => decidable_of_iff' _ (Iff.of_eq (k0_chk600.eq_1 v2313))
theorem k0_idx600_inb : ∀ (v2313 : IVec S16 32) (k0_hw600 : k0_chk600 v2313), ∀ a x, ((![v2313] : Fin 1 → IVec S16 32) a x).toNat < S2800.size a := fun v2313 k0_hw600 => k0_hw600

def k0_chk601 (v2316 : IVec S16 32) : Prop :=
  (∀ a x, ((![v2316] : Fin 1 → IVec S16 32) a x).toNat < S2800.size a)
instance k0_chk601.dec : ∀ (v2316 : IVec S16 32), Decidable (k0_chk601 v2316) := fun v2316 => decidable_of_iff' _ (Iff.of_eq (k0_chk601.eq_1 v2316))
theorem k0_idx601_inb : ∀ (v2316 : IVec S16 32) (k0_hw601 : k0_chk601 v2316), ∀ a x, ((![v2316] : Fin 1 → IVec S16 32) a x).toNat < S2800.size a := fun v2316 k0_hw601 => k0_hw601

def k0_chk602 (v2318 : IVec S16 32) : Prop :=
  (∀ a x, ((![v2318] : Fin 1 → IVec S16 32) a x).toNat < S2800.size a)
instance k0_chk602.dec : ∀ (v2318 : IVec S16 32), Decidable (k0_chk602 v2318) := fun v2318 => decidable_of_iff' _ (Iff.of_eq (k0_chk602.eq_1 v2318))
theorem k0_idx602_inb : ∀ (v2318 : IVec S16 32) (k0_hw602 : k0_chk602 v2318), ∀ a x, ((![v2318] : Fin 1 → IVec S16 32) a x).toNat < S2800.size a := fun v2318 k0_hw602 => k0_hw602

def k0_chk603 (v2321 : IVec S16 32) : Prop :=
  (∀ a x, ((![v2321] : Fin 1 → IVec S16 32) a x).toNat < S2800.size a)
instance k0_chk603.dec : ∀ (v2321 : IVec S16 32), Decidable (k0_chk603 v2321) := fun v2321 => decidable_of_iff' _ (Iff.of_eq (k0_chk603.eq_1 v2321))
theorem k0_idx603_inb : ∀ (v2321 : IVec S16 32) (k0_hw603 : k0_chk603 v2321), ∀ a x, ((![v2321] : Fin 1 → IVec S16 32) a x).toNat < S2800.size a := fun v2321 k0_hw603 => k0_hw603

def k0_chk604 (v2323 : IVec S16 32) : Prop :=
  (∀ a x, ((![v2323] : Fin 1 → IVec S16 32) a x).toNat < S2800.size a)
instance k0_chk604.dec : ∀ (v2323 : IVec S16 32), Decidable (k0_chk604 v2323) := fun v2323 => decidable_of_iff' _ (Iff.of_eq (k0_chk604.eq_1 v2323))
theorem k0_idx604_inb : ∀ (v2323 : IVec S16 32) (k0_hw604 : k0_chk604 v2323), ∀ a x, ((![v2323] : Fin 1 → IVec S16 32) a x).toNat < S2800.size a := fun v2323 k0_hw604 => k0_hw604

def k0_chk605 (v2326 : IVec S16 32) : Prop :=
  (∀ a x, ((![v2326] : Fin 1 → IVec S16 32) a x).toNat < S2800.size a)
instance k0_chk605.dec : ∀ (v2326 : IVec S16 32), Decidable (k0_chk605 v2326) := fun v2326 => decidable_of_iff' _ (Iff.of_eq (k0_chk605.eq_1 v2326))
theorem k0_idx605_inb : ∀ (v2326 : IVec S16 32) (k0_hw605 : k0_chk605 v2326), ∀ a x, ((![v2326] : Fin 1 → IVec S16 32) a x).toNat < S2800.size a := fun v2326 k0_hw605 => k0_hw605

def k0_chk606 (v2328 : IVec S16 32) : Prop :=
  (∀ a x, ((![v2328] : Fin 1 → IVec S16 32) a x).toNat < S2800.size a)
instance k0_chk606.dec : ∀ (v2328 : IVec S16 32), Decidable (k0_chk606 v2328) := fun v2328 => decidable_of_iff' _ (Iff.of_eq (k0_chk606.eq_1 v2328))
theorem k0_idx606_inb : ∀ (v2328 : IVec S16 32) (k0_hw606 : k0_chk606 v2328), ∀ a x, ((![v2328] : Fin 1 → IVec S16 32) a x).toNat < S2800.size a := fun v2328 k0_hw606 => k0_hw606

def k0_chk607 (v2331 : IVec S16 32) : Prop :=
  (∀ a x, ((![v2331] : Fin 1 → IVec S16 32) a x).toNat < S2800.size a)
instance k0_chk607.dec : ∀ (v2331 : IVec S16 32), Decidable (k0_chk607 v2331) := fun v2331 => decidable_of_iff' _ (Iff.of_eq (k0_chk607.eq_1 v2331))
theorem k0_idx607_inb : ∀ (v2331 : IVec S16 32) (k0_hw607 : k0_chk607 v2331), ∀ a x, ((![v2331] : Fin 1 → IVec S16 32) a x).toNat < S2800.size a := fun v2331 k0_hw607 => k0_hw607

def k0_chk608 (v2333 : IVec S16 32) : Prop :=
  (∀ a x, ((![v2333] : Fin 1 → IVec S16 32) a x).toNat < S2800.size a)
instance k0_chk608.dec : ∀ (v2333 : IVec S16 32), Decidable (k0_chk608 v2333) := fun v2333 => decidable_of_iff' _ (Iff.of_eq (k0_chk608.eq_1 v2333))
theorem k0_idx608_inb : ∀ (v2333 : IVec S16 32) (k0_hw608 : k0_chk608 v2333), ∀ a x, ((![v2333] : Fin 1 → IVec S16 32) a x).toNat < S2800.size a := fun v2333 k0_hw608 => k0_hw608

def k0_chk609 (v2336 : IVec S16 32) : Prop :=
  (∀ a x, ((![v2336] : Fin 1 → IVec S16 32) a x).toNat < S2800.size a)
instance k0_chk609.dec : ∀ (v2336 : IVec S16 32), Decidable (k0_chk609 v2336) := fun v2336 => decidable_of_iff' _ (Iff.of_eq (k0_chk609.eq_1 v2336))
theorem k0_idx609_inb : ∀ (v2336 : IVec S16 32) (k0_hw609 : k0_chk609 v2336), ∀ a x, ((![v2336] : Fin 1 → IVec S16 32) a x).toNat < S2800.size a := fun v2336 k0_hw609 => k0_hw609

def k0_chk610 (v2338 : IVec S16 32) : Prop :=
  (∀ a x, ((![v2338] : Fin 1 → IVec S16 32) a x).toNat < S2800.size a)
instance k0_chk610.dec : ∀ (v2338 : IVec S16 32), Decidable (k0_chk610 v2338) := fun v2338 => decidable_of_iff' _ (Iff.of_eq (k0_chk610.eq_1 v2338))
theorem k0_idx610_inb : ∀ (v2338 : IVec S16 32) (k0_hw610 : k0_chk610 v2338), ∀ a x, ((![v2338] : Fin 1 → IVec S16 32) a x).toNat < S2800.size a := fun v2338 k0_hw610 => k0_hw610

def k0_chk611 (v2341 : IVec S16 32) : Prop :=
  (∀ a x, ((![v2341] : Fin 1 → IVec S16 32) a x).toNat < S2800.size a)
instance k0_chk611.dec : ∀ (v2341 : IVec S16 32), Decidable (k0_chk611 v2341) := fun v2341 => decidable_of_iff' _ (Iff.of_eq (k0_chk611.eq_1 v2341))
theorem k0_idx611_inb : ∀ (v2341 : IVec S16 32) (k0_hw611 : k0_chk611 v2341), ∀ a x, ((![v2341] : Fin 1 → IVec S16 32) a x).toNat < S2800.size a := fun v2341 k0_hw611 => k0_hw611

def k0_chk612 (v2343 : IVec S16 32) : Prop :=
  (∀ a x, ((![v2343] : Fin 1 → IVec S16 32) a x).toNat < S2800.size a)
instance k0_chk612.dec : ∀ (v2343 : IVec S16 32), Decidable (k0_chk612 v2343) := fun v2343 => decidable_of_iff' _ (Iff.of_eq (k0_chk612.eq_1 v2343))
theorem k0_idx612_inb : ∀ (v2343 : IVec S16 32) (k0_hw612 : k0_chk612 v2343), ∀ a x, ((![v2343] : Fin 1 → IVec S16 32) a x).toNat < S2800.size a := fun v2343 k0_hw612 => k0_hw612

def k0_chk613 (v2346 : IVec S16 32) : Prop :=
  (∀ a x, ((![v2346] : Fin 1 → IVec S16 32) a x).toNat < S2800.size a)
instance k0_chk613.dec : ∀ (v2346 : IVec S16 32), Decidable (k0_chk613 v2346) := fun v2346 => decidable_of_iff' _ (Iff.of_eq (k0_chk613.eq_1 v2346))
theorem k0_idx613_inb : ∀ (v2346 : IVec S16 32) (k0_hw613 : k0_chk613 v2346), ∀ a x, ((![v2346] : Fin 1 → IVec S16 32) a x).toNat < S2800.size a := fun v2346 k0_hw613 => k0_hw613

def k0_chk614 (v2348 : IVec S16 32) : Prop :=
  (∀ a x, ((![v2348] : Fin 1 → IVec S16 32) a x).toNat < S2800.size a)
instance k0_chk614.dec : ∀ (v2348 : IVec S16 32), Decidable (k0_chk614 v2348) := fun v2348 => decidable_of_iff' _ (Iff.of_eq (k0_chk614.eq_1 v2348))
theorem k0_idx614_inb : ∀ (v2348 : IVec S16 32) (k0_hw614 : k0_chk614 v2348), ∀ a x, ((![v2348] : Fin 1 → IVec S16 32) a x).toNat < S2800.size a := fun v2348 k0_hw614 => k0_hw614

def k0_chk615 (v2351 : IVec S16 32) : Prop :=
  (∀ a x, ((![v2351] : Fin 1 → IVec S16 32) a x).toNat < S2800.size a)
instance k0_chk615.dec : ∀ (v2351 : IVec S16 32), Decidable (k0_chk615 v2351) := fun v2351 => decidable_of_iff' _ (Iff.of_eq (k0_chk615.eq_1 v2351))
theorem k0_idx615_inb : ∀ (v2351 : IVec S16 32) (k0_hw615 : k0_chk615 v2351), ∀ a x, ((![v2351] : Fin 1 → IVec S16 32) a x).toNat < S2800.size a := fun v2351 k0_hw615 => k0_hw615

def k0_chk616 (v2353 : IVec S16 32) : Prop :=
  (∀ a x, ((![v2353] : Fin 1 → IVec S16 32) a x).toNat < S2800.size a)
instance k0_chk616.dec : ∀ (v2353 : IVec S16 32), Decidable (k0_chk616 v2353) := fun v2353 => decidable_of_iff' _ (Iff.of_eq (k0_chk616.eq_1 v2353))
theorem k0_idx616_inb : ∀ (v2353 : IVec S16 32) (k0_hw616 : k0_chk616 v2353), ∀ a x, ((![v2353] : Fin 1 → IVec S16 32) a x).toNat < S2800.size a := fun v2353 k0_hw616 => k0_hw616

def k0_chk617 (v2356 : IVec S16 32) : Prop :=
  (∀ a x, ((![v2356] : Fin 1 → IVec S16 32) a x).toNat < S2800.size a)
instance k0_chk617.dec : ∀ (v2356 : IVec S16 32), Decidable (k0_chk617 v2356) := fun v2356 => decidable_of_iff' _ (Iff.of_eq (k0_chk617.eq_1 v2356))
theorem k0_idx617_inb : ∀ (v2356 : IVec S16 32) (k0_hw617 : k0_chk617 v2356), ∀ a x, ((![v2356] : Fin 1 → IVec S16 32) a x).toNat < S2800.size a := fun v2356 k0_hw617 => k0_hw617

def k0_chk618 (v2358 : IVec S16 32) : Prop :=
  (∀ a x, ((![v2358] : Fin 1 → IVec S16 32) a x).toNat < S2800.size a)
instance k0_chk618.dec : ∀ (v2358 : IVec S16 32), Decidable (k0_chk618 v2358) := fun v2358 => decidable_of_iff' _ (Iff.of_eq (k0_chk618.eq_1 v2358))
theorem k0_idx618_inb : ∀ (v2358 : IVec S16 32) (k0_hw618 : k0_chk618 v2358), ∀ a x, ((![v2358] : Fin 1 → IVec S16 32) a x).toNat < S2800.size a := fun v2358 k0_hw618 => k0_hw618

def k0_chk619 (v2361 : IVec S16 32) : Prop :=
  (∀ a x, ((![v2361] : Fin 1 → IVec S16 32) a x).toNat < S2800.size a)
instance k0_chk619.dec : ∀ (v2361 : IVec S16 32), Decidable (k0_chk619 v2361) := fun v2361 => decidable_of_iff' _ (Iff.of_eq (k0_chk619.eq_1 v2361))
theorem k0_idx619_inb : ∀ (v2361 : IVec S16 32) (k0_hw619 : k0_chk619 v2361), ∀ a x, ((![v2361] : Fin 1 → IVec S16 32) a x).toNat < S2800.size a := fun v2361 k0_hw619 => k0_hw619

def k0_chk620 (v2363 : IVec S16 32) : Prop :=
  (∀ a x, ((![v2363] : Fin 1 → IVec S16 32) a x).toNat < S2800.size a)
instance k0_chk620.dec : ∀ (v2363 : IVec S16 32), Decidable (k0_chk620 v2363) := fun v2363 => decidable_of_iff' _ (Iff.of_eq (k0_chk620.eq_1 v2363))
theorem k0_idx620_inb : ∀ (v2363 : IVec S16 32) (k0_hw620 : k0_chk620 v2363), ∀ a x, ((![v2363] : Fin 1 → IVec S16 32) a x).toNat < S2800.size a := fun v2363 k0_hw620 => k0_hw620

def k0_chk621 (v2366 : IVec S16 32) : Prop :=
  (∀ a x, ((![v2366] : Fin 1 → IVec S16 32) a x).toNat < S2800.size a)
instance k0_chk621.dec : ∀ (v2366 : IVec S16 32), Decidable (k0_chk621 v2366) := fun v2366 => decidable_of_iff' _ (Iff.of_eq (k0_chk621.eq_1 v2366))
theorem k0_idx621_inb : ∀ (v2366 : IVec S16 32) (k0_hw621 : k0_chk621 v2366), ∀ a x, ((![v2366] : Fin 1 → IVec S16 32) a x).toNat < S2800.size a := fun v2366 k0_hw621 => k0_hw621

def k0_chk622 (v2368 : IVec S16 32) : Prop :=
  (∀ a x, ((![v2368] : Fin 1 → IVec S16 32) a x).toNat < S2800.size a)
instance k0_chk622.dec : ∀ (v2368 : IVec S16 32), Decidable (k0_chk622 v2368) := fun v2368 => decidable_of_iff' _ (Iff.of_eq (k0_chk622.eq_1 v2368))
theorem k0_idx622_inb : ∀ (v2368 : IVec S16 32) (k0_hw622 : k0_chk622 v2368), ∀ a x, ((![v2368] : Fin 1 → IVec S16 32) a x).toNat < S2800.size a := fun v2368 k0_hw622 => k0_hw622

def k0_chk623 (v2371 : IVec S16 32) : Prop :=
  (∀ a x, ((![v2371] : Fin 1 → IVec S16 32) a x).toNat < S2800.size a)
instance k0_chk623.dec : ∀ (v2371 : IVec S16 32), Decidable (k0_chk623 v2371) := fun v2371 => decidable_of_iff' _ (Iff.of_eq (k0_chk623.eq_1 v2371))
theorem k0_idx623_inb : ∀ (v2371 : IVec S16 32) (k0_hw623 : k0_chk623 v2371), ∀ a x, ((![v2371] : Fin 1 → IVec S16 32) a x).toNat < S2800.size a := fun v2371 k0_hw623 => k0_hw623

def k0_chk624 (v2373 : IVec S16 32) : Prop :=
  (∀ a x, ((![v2373] : Fin 1 → IVec S16 32) a x).toNat < S2800.size a)
instance k0_chk624.dec : ∀ (v2373 : IVec S16 32), Decidable (k0_chk624 v2373) := fun v2373 => decidable_of_iff' _ (Iff.of_eq (k0_chk624.eq_1 v2373))
theorem k0_idx624_inb : ∀ (v2373 : IVec S16 32) (k0_hw624 : k0_chk624 v2373), ∀ a x, ((![v2373] : Fin 1 → IVec S16 32) a x).toNat < S2800.size a := fun v2373 k0_hw624 => k0_hw624

def k0_chk625 (v2376 : IVec S16 32) : Prop :=
  (∀ a x, ((![v2376] : Fin 1 → IVec S16 32) a x).toNat < S2800.size a)
instance k0_chk625.dec : ∀ (v2376 : IVec S16 32), Decidable (k0_chk625 v2376) := fun v2376 => decidable_of_iff' _ (Iff.of_eq (k0_chk625.eq_1 v2376))
theorem k0_idx625_inb : ∀ (v2376 : IVec S16 32) (k0_hw625 : k0_chk625 v2376), ∀ a x, ((![v2376] : Fin 1 → IVec S16 32) a x).toNat < S2800.size a := fun v2376 k0_hw625 => k0_hw625

def k0_chk626 (v2378 : IVec S16 32) : Prop :=
  (∀ a x, ((![v2378] : Fin 1 → IVec S16 32) a x).toNat < S2800.size a)
instance k0_chk626.dec : ∀ (v2378 : IVec S16 32), Decidable (k0_chk626 v2378) := fun v2378 => decidable_of_iff' _ (Iff.of_eq (k0_chk626.eq_1 v2378))
theorem k0_idx626_inb : ∀ (v2378 : IVec S16 32) (k0_hw626 : k0_chk626 v2378), ∀ a x, ((![v2378] : Fin 1 → IVec S16 32) a x).toNat < S2800.size a := fun v2378 k0_hw626 => k0_hw626

def k0_chk627 (v2381 : IVec S16 32) : Prop :=
  (∀ a x, ((![v2381] : Fin 1 → IVec S16 32) a x).toNat < S2800.size a)
instance k0_chk627.dec : ∀ (v2381 : IVec S16 32), Decidable (k0_chk627 v2381) := fun v2381 => decidable_of_iff' _ (Iff.of_eq (k0_chk627.eq_1 v2381))
theorem k0_idx627_inb : ∀ (v2381 : IVec S16 32) (k0_hw627 : k0_chk627 v2381), ∀ a x, ((![v2381] : Fin 1 → IVec S16 32) a x).toNat < S2800.size a := fun v2381 k0_hw627 => k0_hw627

def k0_chk628 (v2383 : IVec S16 32) : Prop :=
  (∀ a x, ((![v2383] : Fin 1 → IVec S16 32) a x).toNat < S2800.size a)
instance k0_chk628.dec : ∀ (v2383 : IVec S16 32), Decidable (k0_chk628 v2383) := fun v2383 => decidable_of_iff' _ (Iff.of_eq (k0_chk628.eq_1 v2383))
theorem k0_idx628_inb : ∀ (v2383 : IVec S16 32) (k0_hw628 : k0_chk628 v2383), ∀ a x, ((![v2383] : Fin 1 → IVec S16 32) a x).toNat < S2800.size a := fun v2383 k0_hw628 => k0_hw628

def k0_chk629 (v2386 : IVec S16 32) : Prop :=
  (∀ a x, ((![v2386] : Fin 1 → IVec S16 32) a x).toNat < S2800.size a)
instance k0_chk629.dec : ∀ (v2386 : IVec S16 32), Decidable (k0_chk629 v2386) := fun v2386 => decidable_of_iff' _ (Iff.of_eq (k0_chk629.eq_1 v2386))
theorem k0_idx629_inb : ∀ (v2386 : IVec S16 32) (k0_hw629 : k0_chk629 v2386), ∀ a x, ((![v2386] : Fin 1 → IVec S16 32) a x).toNat < S2800.size a := fun v2386 k0_hw629 => k0_hw629

def k0_chk630 (v2388 : IVec S16 32) : Prop :=
  (∀ a x, ((![v2388] : Fin 1 → IVec S16 32) a x).toNat < S2800.size a)
instance k0_chk630.dec : ∀ (v2388 : IVec S16 32), Decidable (k0_chk630 v2388) := fun v2388 => decidable_of_iff' _ (Iff.of_eq (k0_chk630.eq_1 v2388))
theorem k0_idx630_inb : ∀ (v2388 : IVec S16 32) (k0_hw630 : k0_chk630 v2388), ∀ a x, ((![v2388] : Fin 1 → IVec S16 32) a x).toNat < S2800.size a := fun v2388 k0_hw630 => k0_hw630

def k0_chk631 (v2391 : IVec S16 32) : Prop :=
  (∀ a x, ((![v2391] : Fin 1 → IVec S16 32) a x).toNat < S2800.size a)
instance k0_chk631.dec : ∀ (v2391 : IVec S16 32), Decidable (k0_chk631 v2391) := fun v2391 => decidable_of_iff' _ (Iff.of_eq (k0_chk631.eq_1 v2391))
theorem k0_idx631_inb : ∀ (v2391 : IVec S16 32) (k0_hw631 : k0_chk631 v2391), ∀ a x, ((![v2391] : Fin 1 → IVec S16 32) a x).toNat < S2800.size a := fun v2391 k0_hw631 => k0_hw631

def k0_chk632 (v2393 : IVec S16 32) : Prop :=
  (∀ a x, ((![v2393] : Fin 1 → IVec S16 32) a x).toNat < S2800.size a)
instance k0_chk632.dec : ∀ (v2393 : IVec S16 32), Decidable (k0_chk632 v2393) := fun v2393 => decidable_of_iff' _ (Iff.of_eq (k0_chk632.eq_1 v2393))
theorem k0_idx632_inb : ∀ (v2393 : IVec S16 32) (k0_hw632 : k0_chk632 v2393), ∀ a x, ((![v2393] : Fin 1 → IVec S16 32) a x).toNat < S2800.size a := fun v2393 k0_hw632 => k0_hw632

def k0_chk633 (v2396 : IVec S16 32) : Prop :=
  (∀ a x, ((![v2396] : Fin 1 → IVec S16 32) a x).toNat < S2800.size a)
instance k0_chk633.dec : ∀ (v2396 : IVec S16 32), Decidable (k0_chk633 v2396) := fun v2396 => decidable_of_iff' _ (Iff.of_eq (k0_chk633.eq_1 v2396))
theorem k0_idx633_inb : ∀ (v2396 : IVec S16 32) (k0_hw633 : k0_chk633 v2396), ∀ a x, ((![v2396] : Fin 1 → IVec S16 32) a x).toNat < S2800.size a := fun v2396 k0_hw633 => k0_hw633

def k0_chk634 (v2398 : IVec S16 32) : Prop :=
  (∀ a x, ((![v2398] : Fin 1 → IVec S16 32) a x).toNat < S2800.size a)
instance k0_chk634.dec : ∀ (v2398 : IVec S16 32), Decidable (k0_chk634 v2398) := fun v2398 => decidable_of_iff' _ (Iff.of_eq (k0_chk634.eq_1 v2398))
theorem k0_idx634_inb : ∀ (v2398 : IVec S16 32) (k0_hw634 : k0_chk634 v2398), ∀ a x, ((![v2398] : Fin 1 → IVec S16 32) a x).toNat < S2800.size a := fun v2398 k0_hw634 => k0_hw634

def k0_chk635 (v2401 : IVec S16 32) : Prop :=
  (∀ a x, ((![v2401] : Fin 1 → IVec S16 32) a x).toNat < S2800.size a)
instance k0_chk635.dec : ∀ (v2401 : IVec S16 32), Decidable (k0_chk635 v2401) := fun v2401 => decidable_of_iff' _ (Iff.of_eq (k0_chk635.eq_1 v2401))
theorem k0_idx635_inb : ∀ (v2401 : IVec S16 32) (k0_hw635 : k0_chk635 v2401), ∀ a x, ((![v2401] : Fin 1 → IVec S16 32) a x).toNat < S2800.size a := fun v2401 k0_hw635 => k0_hw635

def k0_chk636 (v2403 : IVec S16 32) : Prop :=
  (∀ a x, ((![v2403] : Fin 1 → IVec S16 32) a x).toNat < S2800.size a)
instance k0_chk636.dec : ∀ (v2403 : IVec S16 32), Decidable (k0_chk636 v2403) := fun v2403 => decidable_of_iff' _ (Iff.of_eq (k0_chk636.eq_1 v2403))
theorem k0_idx636_inb : ∀ (v2403 : IVec S16 32) (k0_hw636 : k0_chk636 v2403), ∀ a x, ((![v2403] : Fin 1 → IVec S16 32) a x).toNat < S2800.size a := fun v2403 k0_hw636 => k0_hw636

def k0_chk637 (v2406 : IVec S16 32) : Prop :=
  (∀ a x, ((![v2406] : Fin 1 → IVec S16 32) a x).toNat < S2800.size a)
instance k0_chk637.dec : ∀ (v2406 : IVec S16 32), Decidable (k0_chk637 v2406) := fun v2406 => decidable_of_iff' _ (Iff.of_eq (k0_chk637.eq_1 v2406))
theorem k0_idx637_inb : ∀ (v2406 : IVec S16 32) (k0_hw637 : k0_chk637 v2406), ∀ a x, ((![v2406] : Fin 1 → IVec S16 32) a x).toNat < S2800.size a := fun v2406 k0_hw637 => k0_hw637

def k0_chk638 (v2408 : IVec S16 32) : Prop :=
  (∀ a x, ((![v2408] : Fin 1 → IVec S16 32) a x).toNat < S2800.size a)
instance k0_chk638.dec : ∀ (v2408 : IVec S16 32), Decidable (k0_chk638 v2408) := fun v2408 => decidable_of_iff' _ (Iff.of_eq (k0_chk638.eq_1 v2408))
theorem k0_idx638_inb : ∀ (v2408 : IVec S16 32) (k0_hw638 : k0_chk638 v2408), ∀ a x, ((![v2408] : Fin 1 → IVec S16 32) a x).toNat < S2800.size a := fun v2408 k0_hw638 => k0_hw638

def k0_chk639 (v2411 : IVec S16 32) : Prop :=
  (∀ a x, ((![v2411] : Fin 1 → IVec S16 32) a x).toNat < S2800.size a)
instance k0_chk639.dec : ∀ (v2411 : IVec S16 32), Decidable (k0_chk639 v2411) := fun v2411 => decidable_of_iff' _ (Iff.of_eq (k0_chk639.eq_1 v2411))
theorem k0_idx639_inb : ∀ (v2411 : IVec S16 32) (k0_hw639 : k0_chk639 v2411), ∀ a x, ((![v2411] : Fin 1 → IVec S16 32) a x).toNat < S2800.size a := fun v2411 k0_hw639 => k0_hw639

def k0_chk640 (v2413 : IVec S16 32) : Prop :=
  (∀ a x, ((![v2413] : Fin 1 → IVec S16 32) a x).toNat < S2800.size a)
instance k0_chk640.dec : ∀ (v2413 : IVec S16 32), Decidable (k0_chk640 v2413) := fun v2413 => decidable_of_iff' _ (Iff.of_eq (k0_chk640.eq_1 v2413))
theorem k0_idx640_inb : ∀ (v2413 : IVec S16 32) (k0_hw640 : k0_chk640 v2413), ∀ a x, ((![v2413] : Fin 1 → IVec S16 32) a x).toNat < S2800.size a := fun v2413 k0_hw640 => k0_hw640

def k0_chk641 (v2416 : IVec S16 32) : Prop :=
  (∀ a x, ((![v2416] : Fin 1 → IVec S16 32) a x).toNat < S2800.size a)
instance k0_chk641.dec : ∀ (v2416 : IVec S16 32), Decidable (k0_chk641 v2416) := fun v2416 => decidable_of_iff' _ (Iff.of_eq (k0_chk641.eq_1 v2416))
theorem k0_idx641_inb : ∀ (v2416 : IVec S16 32) (k0_hw641 : k0_chk641 v2416), ∀ a x, ((![v2416] : Fin 1 → IVec S16 32) a x).toNat < S2800.size a := fun v2416 k0_hw641 => k0_hw641

def k0_chk642 (v2418 : IVec S16 32) : Prop :=
  (∀ a x, ((![v2418] : Fin 1 → IVec S16 32) a x).toNat < S2800.size a)
instance k0_chk642.dec : ∀ (v2418 : IVec S16 32), Decidable (k0_chk642 v2418) := fun v2418 => decidable_of_iff' _ (Iff.of_eq (k0_chk642.eq_1 v2418))
theorem k0_idx642_inb : ∀ (v2418 : IVec S16 32) (k0_hw642 : k0_chk642 v2418), ∀ a x, ((![v2418] : Fin 1 → IVec S16 32) a x).toNat < S2800.size a := fun v2418 k0_hw642 => k0_hw642

def k0_chk643 (v2421 : IVec S16 32) : Prop :=
  (∀ a x, ((![v2421] : Fin 1 → IVec S16 32) a x).toNat < S2800.size a)
instance k0_chk643.dec : ∀ (v2421 : IVec S16 32), Decidable (k0_chk643 v2421) := fun v2421 => decidable_of_iff' _ (Iff.of_eq (k0_chk643.eq_1 v2421))
theorem k0_idx643_inb : ∀ (v2421 : IVec S16 32) (k0_hw643 : k0_chk643 v2421), ∀ a x, ((![v2421] : Fin 1 → IVec S16 32) a x).toNat < S2800.size a := fun v2421 k0_hw643 => k0_hw643

def k0_chk644 (v2423 : IVec S16 32) : Prop :=
  (∀ a x, ((![v2423] : Fin 1 → IVec S16 32) a x).toNat < S2800.size a)
instance k0_chk644.dec : ∀ (v2423 : IVec S16 32), Decidable (k0_chk644 v2423) := fun v2423 => decidable_of_iff' _ (Iff.of_eq (k0_chk644.eq_1 v2423))
theorem k0_idx644_inb : ∀ (v2423 : IVec S16 32) (k0_hw644 : k0_chk644 v2423), ∀ a x, ((![v2423] : Fin 1 → IVec S16 32) a x).toNat < S2800.size a := fun v2423 k0_hw644 => k0_hw644

def k0_chk645 (v2426 : IVec S16 32) : Prop :=
  (∀ a x, ((![v2426] : Fin 1 → IVec S16 32) a x).toNat < S2800.size a)
instance k0_chk645.dec : ∀ (v2426 : IVec S16 32), Decidable (k0_chk645 v2426) := fun v2426 => decidable_of_iff' _ (Iff.of_eq (k0_chk645.eq_1 v2426))
theorem k0_idx645_inb : ∀ (v2426 : IVec S16 32) (k0_hw645 : k0_chk645 v2426), ∀ a x, ((![v2426] : Fin 1 → IVec S16 32) a x).toNat < S2800.size a := fun v2426 k0_hw645 => k0_hw645

def k0_chk646 (v2428 : IVec S16 32) : Prop :=
  (∀ a x, ((![v2428] : Fin 1 → IVec S16 32) a x).toNat < S2800.size a)
instance k0_chk646.dec : ∀ (v2428 : IVec S16 32), Decidable (k0_chk646 v2428) := fun v2428 => decidable_of_iff' _ (Iff.of_eq (k0_chk646.eq_1 v2428))
theorem k0_idx646_inb : ∀ (v2428 : IVec S16 32) (k0_hw646 : k0_chk646 v2428), ∀ a x, ((![v2428] : Fin 1 → IVec S16 32) a x).toNat < S2800.size a := fun v2428 k0_hw646 => k0_hw646

def k0_chk647 (v2431 : IVec S16 32) : Prop :=
  (∀ a x, ((![v2431] : Fin 1 → IVec S16 32) a x).toNat < S2800.size a)
instance k0_chk647.dec : ∀ (v2431 : IVec S16 32), Decidable (k0_chk647 v2431) := fun v2431 => decidable_of_iff' _ (Iff.of_eq (k0_chk647.eq_1 v2431))
theorem k0_idx647_inb : ∀ (v2431 : IVec S16 32) (k0_hw647 : k0_chk647 v2431), ∀ a x, ((![v2431] : Fin 1 → IVec S16 32) a x).toNat < S2800.size a := fun v2431 k0_hw647 => k0_hw647

def k0_chk648 (v2433 : IVec S16 32) : Prop :=
  (∀ a x, ((![v2433] : Fin 1 → IVec S16 32) a x).toNat < S2800.size a)
instance k0_chk648.dec : ∀ (v2433 : IVec S16 32), Decidable (k0_chk648 v2433) := fun v2433 => decidable_of_iff' _ (Iff.of_eq (k0_chk648.eq_1 v2433))
theorem k0_idx648_inb : ∀ (v2433 : IVec S16 32) (k0_hw648 : k0_chk648 v2433), ∀ a x, ((![v2433] : Fin 1 → IVec S16 32) a x).toNat < S2800.size a := fun v2433 k0_hw648 => k0_hw648

def k0_chk649 (v2436 : IVec S16 32) : Prop :=
  (∀ a x, ((![v2436] : Fin 1 → IVec S16 32) a x).toNat < S2800.size a)
instance k0_chk649.dec : ∀ (v2436 : IVec S16 32), Decidable (k0_chk649 v2436) := fun v2436 => decidable_of_iff' _ (Iff.of_eq (k0_chk649.eq_1 v2436))
theorem k0_idx649_inb : ∀ (v2436 : IVec S16 32) (k0_hw649 : k0_chk649 v2436), ∀ a x, ((![v2436] : Fin 1 → IVec S16 32) a x).toNat < S2800.size a := fun v2436 k0_hw649 => k0_hw649

def k0_chk650 (v2438 : IVec S16 32) : Prop :=
  (∀ a x, ((![v2438] : Fin 1 → IVec S16 32) a x).toNat < S2800.size a)
instance k0_chk650.dec : ∀ (v2438 : IVec S16 32), Decidable (k0_chk650 v2438) := fun v2438 => decidable_of_iff' _ (Iff.of_eq (k0_chk650.eq_1 v2438))
theorem k0_idx650_inb : ∀ (v2438 : IVec S16 32) (k0_hw650 : k0_chk650 v2438), ∀ a x, ((![v2438] : Fin 1 → IVec S16 32) a x).toNat < S2800.size a := fun v2438 k0_hw650 => k0_hw650

def k0_chk651 (v2441 : IVec S16 32) : Prop :=
  (∀ a x, ((![v2441] : Fin 1 → IVec S16 32) a x).toNat < S2800.size a)
instance k0_chk651.dec : ∀ (v2441 : IVec S16 32), Decidable (k0_chk651 v2441) := fun v2441 => decidable_of_iff' _ (Iff.of_eq (k0_chk651.eq_1 v2441))
theorem k0_idx651_inb : ∀ (v2441 : IVec S16 32) (k0_hw651 : k0_chk651 v2441), ∀ a x, ((![v2441] : Fin 1 → IVec S16 32) a x).toNat < S2800.size a := fun v2441 k0_hw651 => k0_hw651

def k0_chk652 (v2443 : IVec S16 32) : Prop :=
  (∀ a x, ((![v2443] : Fin 1 → IVec S16 32) a x).toNat < S2800.size a)
instance k0_chk652.dec : ∀ (v2443 : IVec S16 32), Decidable (k0_chk652 v2443) := fun v2443 => decidable_of_iff' _ (Iff.of_eq (k0_chk652.eq_1 v2443))
theorem k0_idx652_inb : ∀ (v2443 : IVec S16 32) (k0_hw652 : k0_chk652 v2443), ∀ a x, ((![v2443] : Fin 1 → IVec S16 32) a x).toNat < S2800.size a := fun v2443 k0_hw652 => k0_hw652

def k0_chk653 (v2446 : IVec S16 32) : Prop :=
  (∀ a x, ((![v2446] : Fin 1 → IVec S16 32) a x).toNat < S2800.size a)
instance k0_chk653.dec : ∀ (v2446 : IVec S16 32), Decidable (k0_chk653 v2446) := fun v2446 => decidable_of_iff' _ (Iff.of_eq (k0_chk653.eq_1 v2446))
theorem k0_idx653_inb : ∀ (v2446 : IVec S16 32) (k0_hw653 : k0_chk653 v2446), ∀ a x, ((![v2446] : Fin 1 → IVec S16 32) a x).toNat < S2800.size a := fun v2446 k0_hw653 => k0_hw653

def k0_chk654 (v2448 : IVec S16 32) : Prop :=
  (∀ a x, ((![v2448] : Fin 1 → IVec S16 32) a x).toNat < S2800.size a)
instance k0_chk654.dec : ∀ (v2448 : IVec S16 32), Decidable (k0_chk654 v2448) := fun v2448 => decidable_of_iff' _ (Iff.of_eq (k0_chk654.eq_1 v2448))
theorem k0_idx654_inb : ∀ (v2448 : IVec S16 32) (k0_hw654 : k0_chk654 v2448), ∀ a x, ((![v2448] : Fin 1 → IVec S16 32) a x).toNat < S2800.size a := fun v2448 k0_hw654 => k0_hw654

def k0_chk655 (v2451 : IVec S16 32) : Prop :=
  (∀ a x, ((![v2451] : Fin 1 → IVec S16 32) a x).toNat < S2800.size a)
instance k0_chk655.dec : ∀ (v2451 : IVec S16 32), Decidable (k0_chk655 v2451) := fun v2451 => decidable_of_iff' _ (Iff.of_eq (k0_chk655.eq_1 v2451))
theorem k0_idx655_inb : ∀ (v2451 : IVec S16 32) (k0_hw655 : k0_chk655 v2451), ∀ a x, ((![v2451] : Fin 1 → IVec S16 32) a x).toNat < S2800.size a := fun v2451 k0_hw655 => k0_hw655

def k0_chk656 (v2453 : IVec S16 32) : Prop :=
  (∀ a x, ((![v2453] : Fin 1 → IVec S16 32) a x).toNat < S2800.size a)
instance k0_chk656.dec : ∀ (v2453 : IVec S16 32), Decidable (k0_chk656 v2453) := fun v2453 => decidable_of_iff' _ (Iff.of_eq (k0_chk656.eq_1 v2453))
theorem k0_idx656_inb : ∀ (v2453 : IVec S16 32) (k0_hw656 : k0_chk656 v2453), ∀ a x, ((![v2453] : Fin 1 → IVec S16 32) a x).toNat < S2800.size a := fun v2453 k0_hw656 => k0_hw656

def k0_chk657 (v2456 : IVec S16 32) : Prop :=
  (∀ a x, ((![v2456] : Fin 1 → IVec S16 32) a x).toNat < S2800.size a)
instance k0_chk657.dec : ∀ (v2456 : IVec S16 32), Decidable (k0_chk657 v2456) := fun v2456 => decidable_of_iff' _ (Iff.of_eq (k0_chk657.eq_1 v2456))
theorem k0_idx657_inb : ∀ (v2456 : IVec S16 32) (k0_hw657 : k0_chk657 v2456), ∀ a x, ((![v2456] : Fin 1 → IVec S16 32) a x).toNat < S2800.size a := fun v2456 k0_hw657 => k0_hw657

def k0_chk658 (v2458 : IVec S16 32) : Prop :=
  (∀ a x, ((![v2458] : Fin 1 → IVec S16 32) a x).toNat < S2800.size a)
instance k0_chk658.dec : ∀ (v2458 : IVec S16 32), Decidable (k0_chk658 v2458) := fun v2458 => decidable_of_iff' _ (Iff.of_eq (k0_chk658.eq_1 v2458))
theorem k0_idx658_inb : ∀ (v2458 : IVec S16 32) (k0_hw658 : k0_chk658 v2458), ∀ a x, ((![v2458] : Fin 1 → IVec S16 32) a x).toNat < S2800.size a := fun v2458 k0_hw658 => k0_hw658

def k0_chk659 (v2461 : IVec S16 32) : Prop :=
  (∀ a x, ((![v2461] : Fin 1 → IVec S16 32) a x).toNat < S2800.size a)
instance k0_chk659.dec : ∀ (v2461 : IVec S16 32), Decidable (k0_chk659 v2461) := fun v2461 => decidable_of_iff' _ (Iff.of_eq (k0_chk659.eq_1 v2461))
theorem k0_idx659_inb : ∀ (v2461 : IVec S16 32) (k0_hw659 : k0_chk659 v2461), ∀ a x, ((![v2461] : Fin 1 → IVec S16 32) a x).toNat < S2800.size a := fun v2461 k0_hw659 => k0_hw659

def k0_chk660 (v2463 : IVec S16 32) : Prop :=
  (∀ a x, ((![v2463] : Fin 1 → IVec S16 32) a x).toNat < S2800.size a)
instance k0_chk660.dec : ∀ (v2463 : IVec S16 32), Decidable (k0_chk660 v2463) := fun v2463 => decidable_of_iff' _ (Iff.of_eq (k0_chk660.eq_1 v2463))
theorem k0_idx660_inb : ∀ (v2463 : IVec S16 32) (k0_hw660 : k0_chk660 v2463), ∀ a x, ((![v2463] : Fin 1 → IVec S16 32) a x).toNat < S2800.size a := fun v2463 k0_hw660 => k0_hw660

def k0_chk661 (v2466 : IVec S16 32) : Prop :=
  (∀ a x, ((![v2466] : Fin 1 → IVec S16 32) a x).toNat < S2800.size a)
instance k0_chk661.dec : ∀ (v2466 : IVec S16 32), Decidable (k0_chk661 v2466) := fun v2466 => decidable_of_iff' _ (Iff.of_eq (k0_chk661.eq_1 v2466))
theorem k0_idx661_inb : ∀ (v2466 : IVec S16 32) (k0_hw661 : k0_chk661 v2466), ∀ a x, ((![v2466] : Fin 1 → IVec S16 32) a x).toNat < S2800.size a := fun v2466 k0_hw661 => k0_hw661

def k0_chk662 (v2468 : IVec S16 32) : Prop :=
  (∀ a x, ((![v2468] : Fin 1 → IVec S16 32) a x).toNat < S2800.size a)
instance k0_chk662.dec : ∀ (v2468 : IVec S16 32), Decidable (k0_chk662 v2468) := fun v2468 => decidable_of_iff' _ (Iff.of_eq (k0_chk662.eq_1 v2468))
theorem k0_idx662_inb : ∀ (v2468 : IVec S16 32) (k0_hw662 : k0_chk662 v2468), ∀ a x, ((![v2468] : Fin 1 → IVec S16 32) a x).toNat < S2800.size a := fun v2468 k0_hw662 => k0_hw662

def k0_chk663 (v2471 : IVec S16 32) : Prop :=
  (∀ a x, ((![v2471] : Fin 1 → IVec S16 32) a x).toNat < S2800.size a)
instance k0_chk663.dec : ∀ (v2471 : IVec S16 32), Decidable (k0_chk663 v2471) := fun v2471 => decidable_of_iff' _ (Iff.of_eq (k0_chk663.eq_1 v2471))
theorem k0_idx663_inb : ∀ (v2471 : IVec S16 32) (k0_hw663 : k0_chk663 v2471), ∀ a x, ((![v2471] : Fin 1 → IVec S16 32) a x).toNat < S2800.size a := fun v2471 k0_hw663 => k0_hw663

def k0_chk664 (v2473 : IVec S16 32) : Prop :=
  (∀ a x, ((![v2473] : Fin 1 → IVec S16 32) a x).toNat < S2800.size a)
instance k0_chk664.dec : ∀ (v2473 : IVec S16 32), Decidable (k0_chk664 v2473) := fun v2473 => decidable_of_iff' _ (Iff.of_eq (k0_chk664.eq_1 v2473))
theorem k0_idx664_inb : ∀ (v2473 : IVec S16 32) (k0_hw664 : k0_chk664 v2473), ∀ a x, ((![v2473] : Fin 1 → IVec S16 32) a x).toNat < S2800.size a := fun v2473 k0_hw664 => k0_hw664

def k0_chk665 (v2476 : IVec S16 32) : Prop :=
  (∀ a x, ((![v2476] : Fin 1 → IVec S16 32) a x).toNat < S2800.size a)
instance k0_chk665.dec : ∀ (v2476 : IVec S16 32), Decidable (k0_chk665 v2476) := fun v2476 => decidable_of_iff' _ (Iff.of_eq (k0_chk665.eq_1 v2476))
theorem k0_idx665_inb : ∀ (v2476 : IVec S16 32) (k0_hw665 : k0_chk665 v2476), ∀ a x, ((![v2476] : Fin 1 → IVec S16 32) a x).toNat < S2800.size a := fun v2476 k0_hw665 => k0_hw665

def k0_chk666 (v2478 : IVec S16 32) : Prop :=
  (∀ a x, ((![v2478] : Fin 1 → IVec S16 32) a x).toNat < S2800.size a)
instance k0_chk666.dec : ∀ (v2478 : IVec S16 32), Decidable (k0_chk666 v2478) := fun v2478 => decidable_of_iff' _ (Iff.of_eq (k0_chk666.eq_1 v2478))
theorem k0_idx666_inb : ∀ (v2478 : IVec S16 32) (k0_hw666 : k0_chk666 v2478), ∀ a x, ((![v2478] : Fin 1 → IVec S16 32) a x).toNat < S2800.size a := fun v2478 k0_hw666 => k0_hw666

def k0_chk667 (v2481 : IVec S16 32) : Prop :=
  (∀ a x, ((![v2481] : Fin 1 → IVec S16 32) a x).toNat < S2800.size a)
instance k0_chk667.dec : ∀ (v2481 : IVec S16 32), Decidable (k0_chk667 v2481) := fun v2481 => decidable_of_iff' _ (Iff.of_eq (k0_chk667.eq_1 v2481))
theorem k0_idx667_inb : ∀ (v2481 : IVec S16 32) (k0_hw667 : k0_chk667 v2481), ∀ a x, ((![v2481] : Fin 1 → IVec S16 32) a x).toNat < S2800.size a := fun v2481 k0_hw667 => k0_hw667

def k0_chk668 (v2483 : IVec S16 32) : Prop :=
  (∀ a x, ((![v2483] : Fin 1 → IVec S16 32) a x).toNat < S2800.size a)
instance k0_chk668.dec : ∀ (v2483 : IVec S16 32), Decidable (k0_chk668 v2483) := fun v2483 => decidable_of_iff' _ (Iff.of_eq (k0_chk668.eq_1 v2483))
theorem k0_idx668_inb : ∀ (v2483 : IVec S16 32) (k0_hw668 : k0_chk668 v2483), ∀ a x, ((![v2483] : Fin 1 → IVec S16 32) a x).toNat < S2800.size a := fun v2483 k0_hw668 => k0_hw668

def k0_chk669 (v2486 : IVec S16 32) : Prop :=
  (∀ a x, ((![v2486] : Fin 1 → IVec S16 32) a x).toNat < S2800.size a)
instance k0_chk669.dec : ∀ (v2486 : IVec S16 32), Decidable (k0_chk669 v2486) := fun v2486 => decidable_of_iff' _ (Iff.of_eq (k0_chk669.eq_1 v2486))
theorem k0_idx669_inb : ∀ (v2486 : IVec S16 32) (k0_hw669 : k0_chk669 v2486), ∀ a x, ((![v2486] : Fin 1 → IVec S16 32) a x).toNat < S2800.size a := fun v2486 k0_hw669 => k0_hw669

def k0_chk670 (v2488 : IVec S16 32) : Prop :=
  (∀ a x, ((![v2488] : Fin 1 → IVec S16 32) a x).toNat < S2800.size a)
instance k0_chk670.dec : ∀ (v2488 : IVec S16 32), Decidable (k0_chk670 v2488) := fun v2488 => decidable_of_iff' _ (Iff.of_eq (k0_chk670.eq_1 v2488))
theorem k0_idx670_inb : ∀ (v2488 : IVec S16 32) (k0_hw670 : k0_chk670 v2488), ∀ a x, ((![v2488] : Fin 1 → IVec S16 32) a x).toNat < S2800.size a := fun v2488 k0_hw670 => k0_hw670

def k0_chk671 (v2491 : IVec S16 32) : Prop :=
  (∀ a x, ((![v2491] : Fin 1 → IVec S16 32) a x).toNat < S2800.size a)
instance k0_chk671.dec : ∀ (v2491 : IVec S16 32), Decidable (k0_chk671 v2491) := fun v2491 => decidable_of_iff' _ (Iff.of_eq (k0_chk671.eq_1 v2491))
theorem k0_idx671_inb : ∀ (v2491 : IVec S16 32) (k0_hw671 : k0_chk671 v2491), ∀ a x, ((![v2491] : Fin 1 → IVec S16 32) a x).toNat < S2800.size a := fun v2491 k0_hw671 => k0_hw671

def k0_chk672 (v2493 : IVec S16 32) : Prop :=
  (∀ a x, ((![v2493] : Fin 1 → IVec S16 32) a x).toNat < S2800.size a)
instance k0_chk672.dec : ∀ (v2493 : IVec S16 32), Decidable (k0_chk672 v2493) := fun v2493 => decidable_of_iff' _ (Iff.of_eq (k0_chk672.eq_1 v2493))
theorem k0_idx672_inb : ∀ (v2493 : IVec S16 32) (k0_hw672 : k0_chk672 v2493), ∀ a x, ((![v2493] : Fin 1 → IVec S16 32) a x).toNat < S2800.size a := fun v2493 k0_hw672 => k0_hw672
def k0_cond4 (k0_t1 : Fin k0_t1_loop.trips) : BitVec 1 :=
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_1608 : BitVec 32 := 2#32
  let v2494 : BitVec 32 := Scalar.addi v1288 c2_i32_1608
  let c16_i32_1609 : BitVec 32 := 16#32
  let v2495 : BitVec 1 := Scalar.cmpi .slt v2494 c16_i32_1609
  let v2496 : BitVec 32 := Scalar.extui v2495
  let c0_i32_1610 : BitVec 32 := 0#32
  let v2497 : BitVec 1 := Scalar.cmpi .ne v2496 c0_i32_1610
  v2497

def k0_off8 (i : grid0.Coords) (k0_t1 : Fin k0_t1_loop.trips) (c0_i32_1621 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_745 : BitVec 32 := 2#32
  let v1289 : BitVec 32 := Scalar.muli v1288 c2_i32_745
  let v1290 : BitVec 32 := Scalar.addi v2 v1289
  let c4_i32 : BitVec 32 := 4#32
  let v2512 : BitVec 32 := Scalar.addi v1290 c4_i32
  let v2513 : BitVec 32 := Scalar.addi v2512 c0_i32_1621
  let c0_i32_1622 : BitVec 32 := 0#32
  ![v2513.toNat, 0]
def k0_off9 (i : grid0.Coords) (k0_t1 : Fin k0_t1_loop.trips) (c0_i32_1611 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c2_i32_743 : BitVec 32 := 2#32
  let c0_i32_16 : BitVec 32 := 0#32
  let c1_i32_17 : BitVec 32 := 1#32
  let arg20 : BitVec 32 := Scf.iv c0_i32_16 c1_i32_17 k0_t1
  let v1287 : BitVec 32 := Scalar.muli c2_i32_743 arg20
  let c1_i32_744 : BitVec 32 := 1#32
  let v1288 : BitVec 32 := Scalar.addi v1287 c1_i32_744
  let c2_i32_745 : BitVec 32 := 2#32
  let v1289 : BitVec 32 := Scalar.muli v1288 c2_i32_745
  let v1290 : BitVec 32 := Scalar.addi v2 v1289
  let v2498 : BitVec 32 := Scalar.addi v1290 c0_i32_1611
  let c0_i32_1613 : BitVec 32 := 0#32
  ![v2498.toNat, 0]
def k0_off10 (i : grid0.Coords) (c0_i32_19 : BitVec 32) (c0_i32_20 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c28_i32 : BitVec 32 := 28#32
  let v30 : BitVec 32 := Scalar.addi v2 c28_i32
  let v31 : BitVec 32 := Scalar.addi v30 c0_i32_19
  let v32 : BitVec 32 := Scalar.addi v31 c0_i32_20
  let c0_i32_22 : BitVec 32 := 0#32
  ![v32.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2688 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2688x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x13 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S13x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S1024x2626_S1024x2688_000_0620 : S1024x2626.Pads (![0, 0] : Fin 2 → Nat) ![0, 62] ![0, 0] S1024x2688
  h_S_ : 0 < S_.numel
  bcast_S2688_S1x2688_1 : S2688.BroadcastsInDim S1x2688 (![1] : Fin 1 → Fin S1x2688.rank)
  bcast_S1x2688_S1024x2688_0_1 : S1x2688.BroadcastsInDim S1024x2688 (![0, 1] : Fin 2 → Fin S1024x2688.rank)
  slices_S1024x2688_S1024x1344_0_0 : S1024x2688.Slices ![0, 0] S1024x1344
  slices_S1024x2688_S1024x1344_0_1344 : S1024x2688.Slices ![0, 1344] S1024x1344
  bcast_S_S1024x1344 : S_.BroadcastsInDim S1024x1344 (![] : Fin 0 → Fin S1024x1344.rank)
  shapeCasts_S26x100x32_S2600x32 : S26x100x32.ShapeCasts S2600x32
  shapeCasts_S26x100x1_S26x100 : S26x100x1.ShapeCasts S26x100
  slices_S39x1_S26x1_0_0 : S39x1.Slices ![0, 0] S26x1
  bcast_S26x1_S26x100_0_1 : S26x1.BroadcastsInDim S26x100 (![0, 1] : Fin 2 → Fin S26x100.rank)
  shapeCasts_S26x100_S2600x1 : S26x100.ShapeCasts S2600x1
  bcast_S_S2600x31 : S_.BroadcastsInDim S2600x31 (![] : Fin 0 → Fin S2600x31.rank)
  concatenates_S2600x32_S2600x1_S2600x31_S2600x64_d1 : Shape.Concatenates [S2600x32, S2600x1, S2600x31] S2600x64 1
  pads_S2600x64_S2688x64_0880_000 : S2600x64.Pads (![0, 0] : Fin 2 → Nat) ![88, 0] ![0, 0] S2688x64
  slices_S39x1_S13x1_26_0 : S39x1.Slices ![26, 0] S13x1
  shapeCasts_S1_S1x1 : S1.ShapeCasts S1x1
  squeezes_S1x1344_S1344 : S1x1344.Squeezes S1344
  inb_S2800_S2688_0 : ∀ a, (![0] : Fin 1 → Nat) a + S2688.size a ≤ S2800.size a
  squeezes_S1x2688_S2688 : S1x2688.Squeezes S2688
  inb_S2800_S16_0 : ∀ a, (![0] : Fin 1 → Nat) a + S16.size a ≤ S2800.size a
  h_S16 : 0 < S16.numel
  inb_S2800_S16_16 : ∀ a, (![16] : Fin 1 → Nat) a + S16.size a ≤ S2800.size a
  inb_S2800_S16_32 : ∀ a, (![32] : Fin 1 → Nat) a + S16.size a ≤ S2800.size a
  inb_S2800_S16_48 : ∀ a, (![48] : Fin 1 → Nat) a + S16.size a ≤ S2800.size a
  inb_S2800_S16_64 : ∀ a, (![64] : Fin 1 → Nat) a + S16.size a ≤ S2800.size a
  inb_S2800_S16_80 : ∀ a, (![80] : Fin 1 → Nat) a + S16.size a ≤ S2800.size a
  inb_S2800_S16_96 : ∀ a, (![96] : Fin 1 → Nat) a + S16.size a ≤ S2800.size a
  inb_S2800_S16_112 : ∀ a, (![112] : Fin 1 → Nat) a + S16.size a ≤ S2800.size a
  inb_S2800_S16_128 : ∀ a, (![128] : Fin 1 → Nat) a + S16.size a ≤ S2800.size a
  inb_S2800_S16_144 : ∀ a, (![144] : Fin 1 → Nat) a + S16.size a ≤ S2800.size a
  inb_S2800_S16_160 : ∀ a, (![160] : Fin 1 → Nat) a + S16.size a ≤ S2800.size a
  inb_S2800_S16_176 : ∀ a, (![176] : Fin 1 → Nat) a + S16.size a ≤ S2800.size a
  inb_S2800_S16_192 : ∀ a, (![192] : Fin 1 → Nat) a + S16.size a ≤ S2800.size a
  inb_S2800_S16_208 : ∀ a, (![208] : Fin 1 → Nat) a + S16.size a ≤ S2800.size a
  inb_S2800_S16_224 : ∀ a, (![224] : Fin 1 → Nat) a + S16.size a ≤ S2800.size a
  inb_S2800_S16_240 : ∀ a, (![240] : Fin 1 → Nat) a + S16.size a ≤ S2800.size a
  inb_S2800_S16_256 : ∀ a, (![256] : Fin 1 → Nat) a + S16.size a ≤ S2800.size a
  inb_S2800_S16_272 : ∀ a, (![272] : Fin 1 → Nat) a + S16.size a ≤ S2800.size a
  inb_S2800_S16_288 : ∀ a, (![288] : Fin 1 → Nat) a + S16.size a ≤ S2800.size a
  inb_S2800_S16_304 : ∀ a, (![304] : Fin 1 → Nat) a + S16.size a ≤ S2800.size a
  inb_S2800_S16_320 : ∀ a, (![320] : Fin 1 → Nat) a + S16.size a ≤ S2800.size a
  inb_S2800_S16_336 : ∀ a, (![336] : Fin 1 → Nat) a + S16.size a ≤ S2800.size a
  inb_S2800_S16_352 : ∀ a, (![352] : Fin 1 → Nat) a + S16.size a ≤ S2800.size a
  inb_S2800_S16_368 : ∀ a, (![368] : Fin 1 → Nat) a + S16.size a ≤ S2800.size a
  inb_S2800_S16_384 : ∀ a, (![384] : Fin 1 → Nat) a + S16.size a ≤ S2800.size a
  inb_S2800_S16_400 : ∀ a, (![400] : Fin 1 → Nat) a + S16.size a ≤ S2800.size a
  inb_S2800_S16_416 : ∀ a, (![416] : Fin 1 → Nat) a + S16.size a ≤ S2800.size a
  inb_S2800_S16_432 : ∀ a, (![432] : Fin 1 → Nat) a + S16.size a ≤ S2800.size a
  inb_S2800_S16_448 : ∀ a, (![448] : Fin 1 → Nat) a + S16.size a ≤ S2800.size a
  inb_S2800_S16_464 : ∀ a, (![464] : Fin 1 → Nat) a + S16.size a ≤ S2800.size a
  inb_S2800_S16_480 : ∀ a, (![480] : Fin 1 → Nat) a + S16.size a ≤ S2800.size a
  inb_S2800_S16_496 : ∀ a, (![496] : Fin 1 → Nat) a + S16.size a ≤ S2800.size a
  inb_S2800_S16_512 : ∀ a, (![512] : Fin 1 → Nat) a + S16.size a ≤ S2800.size a
  inb_S2800_S16_528 : ∀ a, (![528] : Fin 1 → Nat) a + S16.size a ≤ S2800.size a
  inb_S2800_S16_544 : ∀ a, (![544] : Fin 1 → Nat) a + S16.size a ≤ S2800.size a
  inb_S2800_S16_560 : ∀ a, (![560] : Fin 1 → Nat) a + S16.size a ≤ S2800.size a
  inb_S2800_S16_576 : ∀ a, (![576] : Fin 1 → Nat) a + S16.size a ≤ S2800.size a
  inb_S2800_S16_592 : ∀ a, (![592] : Fin 1 → Nat) a + S16.size a ≤ S2800.size a
  inb_S2800_S16_608 : ∀ a, (![608] : Fin 1 → Nat) a + S16.size a ≤ S2800.size a
  inb_S2800_S16_624 : ∀ a, (![624] : Fin 1 → Nat) a + S16.size a ≤ S2800.size a
  inb_S2800_S16_640 : ∀ a, (![640] : Fin 1 → Nat) a + S16.size a ≤ S2800.size a
  inb_S2800_S16_656 : ∀ a, (![656] : Fin 1 → Nat) a + S16.size a ≤ S2800.size a
  inb_S2800_S16_672 : ∀ a, (![672] : Fin 1 → Nat) a + S16.size a ≤ S2800.size a
  inb_S2800_S16_688 : ∀ a, (![688] : Fin 1 → Nat) a + S16.size a ≤ S2800.size a
  inb_S2800_S16_704 : ∀ a, (![704] : Fin 1 → Nat) a + S16.size a ≤ S2800.size a
  inb_S2800_S16_720 : ∀ a, (![720] : Fin 1 → Nat) a + S16.size a ≤ S2800.size a
  inb_S2800_S16_736 : ∀ a, (![736] : Fin 1 → Nat) a + S16.size a ≤ S2800.size a
  inb_S2800_S16_752 : ∀ a, (![752] : Fin 1 → Nat) a + S16.size a ≤ S2800.size a
  inb_S2800_S16_768 : ∀ a, (![768] : Fin 1 → Nat) a + S16.size a ≤ S2800.size a
  inb_S2800_S16_784 : ∀ a, (![784] : Fin 1 → Nat) a + S16.size a ≤ S2800.size a
  inb_S2800_S16_800 : ∀ a, (![800] : Fin 1 → Nat) a + S16.size a ≤ S2800.size a
  inb_S2800_S16_816 : ∀ a, (![816] : Fin 1 → Nat) a + S16.size a ≤ S2800.size a
  inb_S2800_S16_832 : ∀ a, (![832] : Fin 1 → Nat) a + S16.size a ≤ S2800.size a
  inb_S2800_S16_848 : ∀ a, (![848] : Fin 1 → Nat) a + S16.size a ≤ S2800.size a
  inb_S2800_S16_864 : ∀ a, (![864] : Fin 1 → Nat) a + S16.size a ≤ S2800.size a
  inb_S2800_S16_880 : ∀ a, (![880] : Fin 1 → Nat) a + S16.size a ≤ S2800.size a
  inb_S2800_S16_896 : ∀ a, (![896] : Fin 1 → Nat) a + S16.size a ≤ S2800.size a
  inb_S2800_S16_912 : ∀ a, (![912] : Fin 1 → Nat) a + S16.size a ≤ S2800.size a
  inb_S2800_S16_928 : ∀ a, (![928] : Fin 1 → Nat) a + S16.size a ≤ S2800.size a
  inb_S2800_S16_944 : ∀ a, (![944] : Fin 1 → Nat) a + S16.size a ≤ S2800.size a
  inb_S2800_S16_960 : ∀ a, (![960] : Fin 1 → Nat) a + S16.size a ≤ S2800.size a
  inb_S2800_S16_976 : ∀ a, (![976] : Fin 1 → Nat) a + S16.size a ≤ S2800.size a
  inb_S2800_S16_992 : ∀ a, (![992] : Fin 1 → Nat) a + S16.size a ≤ S2800.size a
  inb_S2800_S16_1008 : ∀ a, (![1008] : Fin 1 → Nat) a + S16.size a ≤ S2800.size a
  inb_S2800_S16_1024 : ∀ a, (![1024] : Fin 1 → Nat) a + S16.size a ≤ S2800.size a
  inb_S2800_S16_1040 : ∀ a, (![1040] : Fin 1 → Nat) a + S16.size a ≤ S2800.size a
  inb_S2800_S16_1056 : ∀ a, (![1056] : Fin 1 → Nat) a + S16.size a ≤ S2800.size a
  inb_S2800_S16_1072 : ∀ a, (![1072] : Fin 1 → Nat) a + S16.size a ≤ S2800.size a
  inb_S2800_S16_1088 : ∀ a, (![1088] : Fin 1 → Nat) a + S16.size a ≤ S2800.size a
  inb_S2800_S16_1104 : ∀ a, (![1104] : Fin 1 → Nat) a + S16.size a ≤ S2800.size a
  inb_S2800_S16_1120 : ∀ a, (![1120] : Fin 1 → Nat) a + S16.size a ≤ S2800.size a
  inb_S2800_S16_1136 : ∀ a, (![1136] : Fin 1 → Nat) a + S16.size a ≤ S2800.size a
  inb_S2800_S16_1152 : ∀ a, (![1152] : Fin 1 → Nat) a + S16.size a ≤ S2800.size a
  inb_S2800_S16_1168 : ∀ a, (![1168] : Fin 1 → Nat) a + S16.size a ≤ S2800.size a
  inb_S2800_S16_1184 : ∀ a, (![1184] : Fin 1 → Nat) a + S16.size a ≤ S2800.size a
  inb_S2800_S16_1200 : ∀ a, (![1200] : Fin 1 → Nat) a + S16.size a ≤ S2800.size a
  inb_S2800_S16_1216 : ∀ a, (![1216] : Fin 1 → Nat) a + S16.size a ≤ S2800.size a
  inb_S2800_S16_1232 : ∀ a, (![1232] : Fin 1 → Nat) a + S16.size a ≤ S2800.size a
  inb_S2800_S16_1248 : ∀ a, (![1248] : Fin 1 → Nat) a + S16.size a ≤ S2800.size a
  inb_S2800_S16_1264 : ∀ a, (![1264] : Fin 1 → Nat) a + S16.size a ≤ S2800.size a
  inb_S2800_S16_1280 : ∀ a, (![1280] : Fin 1 → Nat) a + S16.size a ≤ S2800.size a
  inb_S2800_S16_1296 : ∀ a, (![1296] : Fin 1 → Nat) a + S16.size a ≤ S2800.size a
  inb_S2800_S16_1312 : ∀ a, (![1312] : Fin 1 → Nat) a + S16.size a ≤ S2800.size a
  inb_S2800_S16_1328 : ∀ a, (![1328] : Fin 1 → Nat) a + S16.size a ≤ S2800.size a
  inb_S2800_S16_1344 : ∀ a, (![1344] : Fin 1 → Nat) a + S16.size a ≤ S2800.size a
  inb_S2800_S16_1360 : ∀ a, (![1360] : Fin 1 → Nat) a + S16.size a ≤ S2800.size a
  inb_S2800_S16_1376 : ∀ a, (![1376] : Fin 1 → Nat) a + S16.size a ≤ S2800.size a
  inb_S2800_S16_1392 : ∀ a, (![1392] : Fin 1 → Nat) a + S16.size a ≤ S2800.size a
  inb_S2800_S16_1408 : ∀ a, (![1408] : Fin 1 → Nat) a + S16.size a ≤ S2800.size a
  inb_S2800_S16_1424 : ∀ a, (![1424] : Fin 1 → Nat) a + S16.size a ≤ S2800.size a
  inb_S2800_S16_1440 : ∀ a, (![1440] : Fin 1 → Nat) a + S16.size a ≤ S2800.size a
  inb_S2800_S16_1456 : ∀ a, (![1456] : Fin 1 → Nat) a + S16.size a ≤ S2800.size a
  inb_S2800_S16_1472 : ∀ a, (![1472] : Fin 1 → Nat) a + S16.size a ≤ S2800.size a
  inb_S2800_S16_1488 : ∀ a, (![1488] : Fin 1 → Nat) a + S16.size a ≤ S2800.size a
  inb_S2800_S16_1504 : ∀ a, (![1504] : Fin 1 → Nat) a + S16.size a ≤ S2800.size a
  inb_S2800_S16_1520 : ∀ a, (![1520] : Fin 1 → Nat) a + S16.size a ≤ S2800.size a
  inb_S2800_S16_1536 : ∀ a, (![1536] : Fin 1 → Nat) a + S16.size a ≤ S2800.size a
  inb_S2800_S16_1552 : ∀ a, (![1552] : Fin 1 → Nat) a + S16.size a ≤ S2800.size a
  inb_S2800_S16_1568 : ∀ a, (![1568] : Fin 1 → Nat) a + S16.size a ≤ S2800.size a
  inb_S2800_S16_1584 : ∀ a, (![1584] : Fin 1 → Nat) a + S16.size a ≤ S2800.size a
  inb_S2800_S16_1600 : ∀ a, (![1600] : Fin 1 → Nat) a + S16.size a ≤ S2800.size a
  inb_S2800_S16_1616 : ∀ a, (![1616] : Fin 1 → Nat) a + S16.size a ≤ S2800.size a
  inb_S2800_S16_1632 : ∀ a, (![1632] : Fin 1 → Nat) a + S16.size a ≤ S2800.size a
  inb_S2800_S16_1648 : ∀ a, (![1648] : Fin 1 → Nat) a + S16.size a ≤ S2800.size a
  inb_S2800_S16_1664 : ∀ a, (![1664] : Fin 1 → Nat) a + S16.size a ≤ S2800.size a
  inb_S2800_S16_1680 : ∀ a, (![1680] : Fin 1 → Nat) a + S16.size a ≤ S2800.size a
  inb_S2800_S16_1696 : ∀ a, (![1696] : Fin 1 → Nat) a + S16.size a ≤ S2800.size a
  inb_S2800_S16_1712 : ∀ a, (![1712] : Fin 1 → Nat) a + S16.size a ≤ S2800.size a
  inb_S2800_S16_1728 : ∀ a, (![1728] : Fin 1 → Nat) a + S16.size a ≤ S2800.size a
  inb_S2800_S16_1744 : ∀ a, (![1744] : Fin 1 → Nat) a + S16.size a ≤ S2800.size a
  inb_S2800_S16_1760 : ∀ a, (![1760] : Fin 1 → Nat) a + S16.size a ≤ S2800.size a
  inb_S2800_S16_1776 : ∀ a, (![1776] : Fin 1 → Nat) a + S16.size a ≤ S2800.size a
  inb_S2800_S16_1792 : ∀ a, (![1792] : Fin 1 → Nat) a + S16.size a ≤ S2800.size a
  inb_S2800_S16_1808 : ∀ a, (![1808] : Fin 1 → Nat) a + S16.size a ≤ S2800.size a
  inb_S2800_S16_1824 : ∀ a, (![1824] : Fin 1 → Nat) a + S16.size a ≤ S2800.size a
  inb_S2800_S16_1840 : ∀ a, (![1840] : Fin 1 → Nat) a + S16.size a ≤ S2800.size a
  inb_S2800_S16_1856 : ∀ a, (![1856] : Fin 1 → Nat) a + S16.size a ≤ S2800.size a
  inb_S2800_S16_1872 : ∀ a, (![1872] : Fin 1 → Nat) a + S16.size a ≤ S2800.size a
  inb_S2800_S16_1888 : ∀ a, (![1888] : Fin 1 → Nat) a + S16.size a ≤ S2800.size a
  inb_S2800_S16_1904 : ∀ a, (![1904] : Fin 1 → Nat) a + S16.size a ≤ S2800.size a
  inb_S2800_S16_1920 : ∀ a, (![1920] : Fin 1 → Nat) a + S16.size a ≤ S2800.size a
  inb_S2800_S16_1936 : ∀ a, (![1936] : Fin 1 → Nat) a + S16.size a ≤ S2800.size a
  inb_S2800_S16_1952 : ∀ a, (![1952] : Fin 1 → Nat) a + S16.size a ≤ S2800.size a
  inb_S2800_S16_1968 : ∀ a, (![1968] : Fin 1 → Nat) a + S16.size a ≤ S2800.size a
  inb_S2800_S16_1984 : ∀ a, (![1984] : Fin 1 → Nat) a + S16.size a ≤ S2800.size a
  inb_S2800_S16_2000 : ∀ a, (![2000] : Fin 1 → Nat) a + S16.size a ≤ S2800.size a
  inb_S2800_S16_2016 : ∀ a, (![2016] : Fin 1 → Nat) a + S16.size a ≤ S2800.size a
  inb_S2800_S16_2032 : ∀ a, (![2032] : Fin 1 → Nat) a + S16.size a ≤ S2800.size a
  inb_S2800_S16_2048 : ∀ a, (![2048] : Fin 1 → Nat) a + S16.size a ≤ S2800.size a
  inb_S2800_S16_2064 : ∀ a, (![2064] : Fin 1 → Nat) a + S16.size a ≤ S2800.size a
  inb_S2800_S16_2080 : ∀ a, (![2080] : Fin 1 → Nat) a + S16.size a ≤ S2800.size a
  inb_S2800_S16_2096 : ∀ a, (![2096] : Fin 1 → Nat) a + S16.size a ≤ S2800.size a
  inb_S2800_S16_2112 : ∀ a, (![2112] : Fin 1 → Nat) a + S16.size a ≤ S2800.size a
  inb_S2800_S16_2128 : ∀ a, (![2128] : Fin 1 → Nat) a + S16.size a ≤ S2800.size a
  inb_S2800_S16_2144 : ∀ a, (![2144] : Fin 1 → Nat) a + S16.size a ≤ S2800.size a
  inb_S2800_S16_2160 : ∀ a, (![2160] : Fin 1 → Nat) a + S16.size a ≤ S2800.size a
  inb_S2800_S16_2176 : ∀ a, (![2176] : Fin 1 → Nat) a + S16.size a ≤ S2800.size a
  inb_S2800_S16_2192 : ∀ a, (![2192] : Fin 1 → Nat) a + S16.size a ≤ S2800.size a
  inb_S2800_S16_2208 : ∀ a, (![2208] : Fin 1 → Nat) a + S16.size a ≤ S2800.size a
  inb_S2800_S16_2224 : ∀ a, (![2224] : Fin 1 → Nat) a + S16.size a ≤ S2800.size a
  inb_S2800_S16_2240 : ∀ a, (![2240] : Fin 1 → Nat) a + S16.size a ≤ S2800.size a
  inb_S2800_S16_2256 : ∀ a, (![2256] : Fin 1 → Nat) a + S16.size a ≤ S2800.size a
  inb_S2800_S16_2272 : ∀ a, (![2272] : Fin 1 → Nat) a + S16.size a ≤ S2800.size a
  inb_S2800_S16_2288 : ∀ a, (![2288] : Fin 1 → Nat) a + S16.size a ≤ S2800.size a
  inb_S2800_S16_2304 : ∀ a, (![2304] : Fin 1 → Nat) a + S16.size a ≤ S2800.size a
  inb_S2800_S16_2320 : ∀ a, (![2320] : Fin 1 → Nat) a + S16.size a ≤ S2800.size a
  inb_S2800_S16_2336 : ∀ a, (![2336] : Fin 1 → Nat) a + S16.size a ≤ S2800.size a
  inb_S2800_S16_2352 : ∀ a, (![2352] : Fin 1 → Nat) a + S16.size a ≤ S2800.size a
  inb_S2800_S16_2368 : ∀ a, (![2368] : Fin 1 → Nat) a + S16.size a ≤ S2800.size a
  inb_S2800_S16_2384 : ∀ a, (![2384] : Fin 1 → Nat) a + S16.size a ≤ S2800.size a
  inb_S2800_S16_2400 : ∀ a, (![2400] : Fin 1 → Nat) a + S16.size a ≤ S2800.size a
  inb_S2800_S16_2416 : ∀ a, (![2416] : Fin 1 → Nat) a + S16.size a ≤ S2800.size a
  inb_S2800_S16_2432 : ∀ a, (![2432] : Fin 1 → Nat) a + S16.size a ≤ S2800.size a
  inb_S2800_S16_2448 : ∀ a, (![2448] : Fin 1 → Nat) a + S16.size a ≤ S2800.size a
  inb_S2800_S16_2464 : ∀ a, (![2464] : Fin 1 → Nat) a + S16.size a ≤ S2800.size a
  inb_S2800_S16_2480 : ∀ a, (![2480] : Fin 1 → Nat) a + S16.size a ≤ S2800.size a
  inb_S2800_S16_2496 : ∀ a, (![2496] : Fin 1 → Nat) a + S16.size a ≤ S2800.size a
  inb_S2800_S16_2512 : ∀ a, (![2512] : Fin 1 → Nat) a + S16.size a ≤ S2800.size a
  inb_S2800_S16_2528 : ∀ a, (![2528] : Fin 1 → Nat) a + S16.size a ≤ S2800.size a
  inb_S2800_S16_2544 : ∀ a, (![2544] : Fin 1 → Nat) a + S16.size a ≤ S2800.size a
  inb_S2800_S16_2560 : ∀ a, (![2560] : Fin 1 → Nat) a + S16.size a ≤ S2800.size a
  inb_S2800_S16_2576 : ∀ a, (![2576] : Fin 1 → Nat) a + S16.size a ≤ S2800.size a
  inb_S2800_S16_2592 : ∀ a, (![2592] : Fin 1 → Nat) a + S16.size a ≤ S2800.size a
  inb_S2800_S16_2608 : ∀ a, (![2608] : Fin 1 → Nat) a + S16.size a ≤ S2800.size a
  inb_S2800_S16_2624 : ∀ a, (![2624] : Fin 1 → Nat) a + S16.size a ≤ S2800.size a
  inb_S2800_S16_2640 : ∀ a, (![2640] : Fin 1 → Nat) a + S16.size a ≤ S2800.size a
  inb_S2800_S16_2656 : ∀ a, (![2656] : Fin 1 → Nat) a + S16.size a ≤ S2800.size a
  inb_S2800_S16_2672 : ∀ a, (![2672] : Fin 1 → Nat) a + S16.size a ≤ S2800.size a
  inb_S2800_S16_2688 : ∀ a, (![2688] : Fin 1 → Nat) a + S16.size a ≤ S2800.size a
  inb_S2800_S16_2704 : ∀ a, (![2704] : Fin 1 → Nat) a + S16.size a ≤ S2800.size a
  inb_S2800_S16_2720 : ∀ a, (![2720] : Fin 1 → Nat) a + S16.size a ≤ S2800.size a
  inb_S2800_S16_2736 : ∀ a, (![2736] : Fin 1 → Nat) a + S16.size a ≤ S2800.size a
  inb_S2800_S16_2752 : ∀ a, (![2752] : Fin 1 → Nat) a + S16.size a ≤ S2800.size a
  inb_S2800_S16_2768 : ∀ a, (![2768] : Fin 1 → Nat) a + S16.size a ≤ S2800.size a
  inb_S2800_S16_2784 : ∀ a, (![2784] : Fin 1 → Nat) a + S16.size a ≤ S2800.size a
  inb_S1344_S16_0 : ∀ a, (![0] : Fin 1 → Nat) a + S16.size a ≤ S1344.size a
  h_S2800 : 0 < S2800.numel
  inb_S1344_S16_16 : ∀ a, (![16] : Fin 1 → Nat) a + S16.size a ≤ S1344.size a
  inb_S1344_S16_32 : ∀ a, (![32] : Fin 1 → Nat) a + S16.size a ≤ S1344.size a
  inb_S1344_S16_48 : ∀ a, (![48] : Fin 1 → Nat) a + S16.size a ≤ S1344.size a
  inb_S1344_S16_64 : ∀ a, (![64] : Fin 1 → Nat) a + S16.size a ≤ S1344.size a
  inb_S1344_S16_80 : ∀ a, (![80] : Fin 1 → Nat) a + S16.size a ≤ S1344.size a
  inb_S1344_S16_96 : ∀ a, (![96] : Fin 1 → Nat) a + S16.size a ≤ S1344.size a
  inb_S1344_S16_112 : ∀ a, (![112] : Fin 1 → Nat) a + S16.size a ≤ S1344.size a
  inb_S1344_S16_128 : ∀ a, (![128] : Fin 1 → Nat) a + S16.size a ≤ S1344.size a
  inb_S1344_S16_144 : ∀ a, (![144] : Fin 1 → Nat) a + S16.size a ≤ S1344.size a
  inb_S1344_S16_160 : ∀ a, (![160] : Fin 1 → Nat) a + S16.size a ≤ S1344.size a
  inb_S1344_S16_176 : ∀ a, (![176] : Fin 1 → Nat) a + S16.size a ≤ S1344.size a
  inb_S1344_S16_192 : ∀ a, (![192] : Fin 1 → Nat) a + S16.size a ≤ S1344.size a
  inb_S1344_S16_208 : ∀ a, (![208] : Fin 1 → Nat) a + S16.size a ≤ S1344.size a
  inb_S1344_S16_224 : ∀ a, (![224] : Fin 1 → Nat) a + S16.size a ≤ S1344.size a
  inb_S1344_S16_240 : ∀ a, (![240] : Fin 1 → Nat) a + S16.size a ≤ S1344.size a
  inb_S1344_S16_256 : ∀ a, (![256] : Fin 1 → Nat) a + S16.size a ≤ S1344.size a
  inb_S1344_S16_272 : ∀ a, (![272] : Fin 1 → Nat) a + S16.size a ≤ S1344.size a
  inb_S1344_S16_288 : ∀ a, (![288] : Fin 1 → Nat) a + S16.size a ≤ S1344.size a
  inb_S1344_S16_304 : ∀ a, (![304] : Fin 1 → Nat) a + S16.size a ≤ S1344.size a
  inb_S1344_S16_320 : ∀ a, (![320] : Fin 1 → Nat) a + S16.size a ≤ S1344.size a
  inb_S1344_S16_336 : ∀ a, (![336] : Fin 1 → Nat) a + S16.size a ≤ S1344.size a
  inb_S1344_S16_352 : ∀ a, (![352] : Fin 1 → Nat) a + S16.size a ≤ S1344.size a
  inb_S1344_S16_368 : ∀ a, (![368] : Fin 1 → Nat) a + S16.size a ≤ S1344.size a
  inb_S1344_S16_384 : ∀ a, (![384] : Fin 1 → Nat) a + S16.size a ≤ S1344.size a
  inb_S1344_S16_400 : ∀ a, (![400] : Fin 1 → Nat) a + S16.size a ≤ S1344.size a
  inb_S1344_S16_416 : ∀ a, (![416] : Fin 1 → Nat) a + S16.size a ≤ S1344.size a
  inb_S1344_S16_432 : ∀ a, (![432] : Fin 1 → Nat) a + S16.size a ≤ S1344.size a
  inb_S1344_S16_448 : ∀ a, (![448] : Fin 1 → Nat) a + S16.size a ≤ S1344.size a
  inb_S1344_S16_464 : ∀ a, (![464] : Fin 1 → Nat) a + S16.size a ≤ S1344.size a
  inb_S1344_S16_480 : ∀ a, (![480] : Fin 1 → Nat) a + S16.size a ≤ S1344.size a
  inb_S1344_S16_496 : ∀ a, (![496] : Fin 1 → Nat) a + S16.size a ≤ S1344.size a
  inb_S1344_S16_512 : ∀ a, (![512] : Fin 1 → Nat) a + S16.size a ≤ S1344.size a
  inb_S1344_S16_528 : ∀ a, (![528] : Fin 1 → Nat) a + S16.size a ≤ S1344.size a
  inb_S1344_S16_544 : ∀ a, (![544] : Fin 1 → Nat) a + S16.size a ≤ S1344.size a
  inb_S1344_S16_560 : ∀ a, (![560] : Fin 1 → Nat) a + S16.size a ≤ S1344.size a
  inb_S1344_S16_576 : ∀ a, (![576] : Fin 1 → Nat) a + S16.size a ≤ S1344.size a
  inb_S1344_S16_592 : ∀ a, (![592] : Fin 1 → Nat) a + S16.size a ≤ S1344.size a
  inb_S1344_S16_608 : ∀ a, (![608] : Fin 1 → Nat) a + S16.size a ≤ S1344.size a
  inb_S1344_S16_624 : ∀ a, (![624] : Fin 1 → Nat) a + S16.size a ≤ S1344.size a
  inb_S1344_S16_640 : ∀ a, (![640] : Fin 1 → Nat) a + S16.size a ≤ S1344.size a
  inb_S1344_S16_656 : ∀ a, (![656] : Fin 1 → Nat) a + S16.size a ≤ S1344.size a
  inb_S1344_S16_672 : ∀ a, (![672] : Fin 1 → Nat) a + S16.size a ≤ S1344.size a
  inb_S1344_S16_688 : ∀ a, (![688] : Fin 1 → Nat) a + S16.size a ≤ S1344.size a
  inb_S1344_S16_704 : ∀ a, (![704] : Fin 1 → Nat) a + S16.size a ≤ S1344.size a
  inb_S1344_S16_720 : ∀ a, (![720] : Fin 1 → Nat) a + S16.size a ≤ S1344.size a
  inb_S1344_S16_736 : ∀ a, (![736] : Fin 1 → Nat) a + S16.size a ≤ S1344.size a
  inb_S1344_S16_752 : ∀ a, (![752] : Fin 1 → Nat) a + S16.size a ≤ S1344.size a
  inb_S1344_S16_768 : ∀ a, (![768] : Fin 1 → Nat) a + S16.size a ≤ S1344.size a
  inb_S1344_S16_784 : ∀ a, (![784] : Fin 1 → Nat) a + S16.size a ≤ S1344.size a
  inb_S1344_S16_800 : ∀ a, (![800] : Fin 1 → Nat) a + S16.size a ≤ S1344.size a
  inb_S1344_S16_816 : ∀ a, (![816] : Fin 1 → Nat) a + S16.size a ≤ S1344.size a
  inb_S1344_S16_832 : ∀ a, (![832] : Fin 1 → Nat) a + S16.size a ≤ S1344.size a
  inb_S1344_S16_848 : ∀ a, (![848] : Fin 1 → Nat) a + S16.size a ≤ S1344.size a
  inb_S1344_S16_864 : ∀ a, (![864] : Fin 1 → Nat) a + S16.size a ≤ S1344.size a
  inb_S1344_S16_880 : ∀ a, (![880] : Fin 1 → Nat) a + S16.size a ≤ S1344.size a
  inb_S1344_S16_896 : ∀ a, (![896] : Fin 1 → Nat) a + S16.size a ≤ S1344.size a
  inb_S1344_S16_912 : ∀ a, (![912] : Fin 1 → Nat) a + S16.size a ≤ S1344.size a
  inb_S1344_S16_928 : ∀ a, (![928] : Fin 1 → Nat) a + S16.size a ≤ S1344.size a
  inb_S1344_S16_944 : ∀ a, (![944] : Fin 1 → Nat) a + S16.size a ≤ S1344.size a
  inb_S1344_S16_960 : ∀ a, (![960] : Fin 1 → Nat) a + S16.size a ≤ S1344.size a
  inb_S1344_S16_976 : ∀ a, (![976] : Fin 1 → Nat) a + S16.size a ≤ S1344.size a
  inb_S1344_S16_992 : ∀ a, (![992] : Fin 1 → Nat) a + S16.size a ≤ S1344.size a
  inb_S1344_S16_1008 : ∀ a, (![1008] : Fin 1 → Nat) a + S16.size a ≤ S1344.size a
  inb_S1344_S16_1024 : ∀ a, (![1024] : Fin 1 → Nat) a + S16.size a ≤ S1344.size a
  inb_S1344_S16_1040 : ∀ a, (![1040] : Fin 1 → Nat) a + S16.size a ≤ S1344.size a
  inb_S1344_S16_1056 : ∀ a, (![1056] : Fin 1 → Nat) a + S16.size a ≤ S1344.size a
  inb_S1344_S16_1072 : ∀ a, (![1072] : Fin 1 → Nat) a + S16.size a ≤ S1344.size a
  inb_S1344_S16_1088 : ∀ a, (![1088] : Fin 1 → Nat) a + S16.size a ≤ S1344.size a
  inb_S1344_S16_1104 : ∀ a, (![1104] : Fin 1 → Nat) a + S16.size a ≤ S1344.size a
  inb_S1344_S16_1120 : ∀ a, (![1120] : Fin 1 → Nat) a + S16.size a ≤ S1344.size a
  inb_S1344_S16_1136 : ∀ a, (![1136] : Fin 1 → Nat) a + S16.size a ≤ S1344.size a
  inb_S1344_S16_1152 : ∀ a, (![1152] : Fin 1 → Nat) a + S16.size a ≤ S1344.size a
  inb_S1344_S16_1168 : ∀ a, (![1168] : Fin 1 → Nat) a + S16.size a ≤ S1344.size a
  inb_S1344_S16_1184 : ∀ a, (![1184] : Fin 1 → Nat) a + S16.size a ≤ S1344.size a
  inb_S1344_S16_1200 : ∀ a, (![1200] : Fin 1 → Nat) a + S16.size a ≤ S1344.size a
  inb_S1344_S16_1216 : ∀ a, (![1216] : Fin 1 → Nat) a + S16.size a ≤ S1344.size a
  inb_S1344_S16_1232 : ∀ a, (![1232] : Fin 1 → Nat) a + S16.size a ≤ S1344.size a
  inb_S1344_S16_1248 : ∀ a, (![1248] : Fin 1 → Nat) a + S16.size a ≤ S1344.size a
  inb_S1344_S16_1264 : ∀ a, (![1264] : Fin 1 → Nat) a + S16.size a ≤ S1344.size a
  inb_S1344_S16_1280 : ∀ a, (![1280] : Fin 1 → Nat) a + S16.size a ≤ S1344.size a
  inb_S1344_S16_1296 : ∀ a, (![1296] : Fin 1 → Nat) a + S16.size a ≤ S1344.size a
  inb_S1344_S16_1312 : ∀ a, (![1312] : Fin 1 → Nat) a + S16.size a ≤ S1344.size a
  inb_S1344_S16_1328 : ∀ a, (![1328] : Fin 1 → Nat) a + S16.size a ≤ S1344.size a
  inb_S256x2688_S256x2688_0_0 : ∀ a, (![0, 0] : Fin 2 → Nat) a + S256x2688.size a ≤ S256x2688.size a
  h_S256x2688 : 0 < S256x2688.numel
  shapeCasts_S256x2688_S256x2688 : S256x2688.ShapeCasts S256x2688
  inb_S2688x64_S2688x64_0_0 : ∀ a, (![0, 0] : Fin 2 → Nat) a + S2688x64.size a ≤ S2688x64.size a
  h_S2688x64 : 0 < S2688x64.numel
  shapeCasts_S2688x64_S2688x64 : S2688x64.ShapeCasts S2688x64
  slices_S256x64_o0_0_S256x32 : S256x64.Slices ![0, 0] S256x32
  slices_S256x64_o0_32_S256x1 : S256x64.Slices ![0, 32] S256x1
  reduces_S256x32_S256 : S256x32.Reduces [1] S256
  shapeCasts_S256_S256x1 : S256.ShapeCasts S256x1
  inb_S256x13_S256x13_0_0 : ∀ a, (![0, 0] : Fin 2 → Nat) a + S256x13.size a ≤ S256x13.size a
  h_S256x13 : 0 < S256x13.numel
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x1_S256x1_0_0 : ∀ a, (![0, 0] : Fin 2 → Nat) a + S256x1.size a ≤ S256x1.size a
  h_S256x1 : 0 < S256x1.numel
  dot_S256x2688_S2688x64_S256x64_1_0_0_1_n_n_wf : DotDims.WF S256x2688 S2688x64 S256x64 [1] [0] [0] [1] [] []
  dot_S256x13_S13x1_S256x1_1_0_0_1_n_n_wf : DotDims.WF S256x13 S13x1 S256x1 [1] [0] [0] [1] [] []
  hcc0_scratch8 : 0 + S_.numel ≤ 17
  hcc0_scratch9 : 1 + S_.numel ≤ 17
  hcc0_scratch10 : 2 + S_.numel ≤ 17
  hcc0_scratch11 : 3 + S_.numel ≤ 17
  hcc0_scratch12 : 4 + S_.numel ≤ 17
  hcc0_scratch13 : 5 + S_.numel ≤ 17
  hcc0_scratch14 : 6 + S_.numel ≤ 17
  hcc0_scratch15 : 7 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r₁ : Fin 2) (r₂ : Fin 2), ∀ a, (k0_off1 i (BitVec.ofNat 32 (2 * r₁.val)) (BitVec.ofNat 32 r₂.val)) a + S1x1344.size a ≤ S1024x1344.size a
  k0_t1_ok : k0_t1_loop.OK
  k0_off2_inb : ∀ (i : grid0.Coords) (k0_t1 : Fin k0_t1_loop.trips), ∀ (k0_h1 : k0_cond1 k0_t1 = 1#1), ∀ (r : Fin 2), ∀ a, (k0_off2 i k0_t1 (BitVec.ofNat 32 r.val)) a + S1x2688.size a ≤ S1024x2688.size a
  k0_off3_inb : ∀ (i : grid0.Coords) (k0_t1 : Fin k0_t1_loop.trips), ∀ (r : Fin 2), ∀ a, (k0_off3 i k0_t1 (BitVec.ofNat 32 r.val)) a + S1x1344.size a ≤ S1024x1344.size a
  k0_off4_inb : ∀ (i : grid0.Coords) (k0_t1 : Fin k0_t1_loop.trips), ∀ (k0_h2 : k0_cond2 k0_t1 = 1#1), ∀ (r : Fin 2), ∀ a, (k0_off4 i k0_t1 (BitVec.ofNat 32 r.val)) a + S1x1344.size a ≤ S1024x1344.size a
  k0_off5_inb : ∀ (i : grid0.Coords) (k0_t1 : Fin k0_t1_loop.trips), ∀ (r : Fin 2), ∀ a, (k0_off5 i k0_t1 (BitVec.ofNat 32 r.val)) a + S1x2688.size a ≤ S1024x2688.size a
  k0_off6_inb : ∀ (i : grid0.Coords) (k0_t1 : Fin k0_t1_loop.trips), ∀ (k0_h3 : k0_cond3 k0_t1 = 1#1), ∀ (r : Fin 2), ∀ a, (k0_off6 i k0_t1 (BitVec.ofNat 32 r.val)) a + S1x2688.size a ≤ S1024x2688.size a
  k0_off7_inb : ∀ (i : grid0.Coords) (k0_t1 : Fin k0_t1_loop.trips), ∀ (r : Fin 2), ∀ a, (k0_off7 i k0_t1 (BitVec.ofNat 32 r.val)) a + S1x1344.size a ≤ S1024x1344.size a
  k0_off8_inb : ∀ (i : grid0.Coords) (k0_t1 : Fin k0_t1_loop.trips), ∀ (k0_h4 : k0_cond4 k0_t1 = 1#1), ∀ (r : Fin 2), ∀ a, (k0_off8 i k0_t1 (BitVec.ofNat 32 r.val)) a + S1x1344.size a ≤ S1024x1344.size a
  k0_off9_inb : ∀ (i : grid0.Coords) (k0_t1 : Fin k0_t1_loop.trips), ∀ (r : Fin 2), ∀ a, (k0_off9 i k0_t1 (BitVec.ofNat 32 r.val)) a + S1x2688.size a ≤ S1024x2688.size a
  k0_off10_inb : ∀ i : grid0.Coords, ∀ (r₁ : Fin 2) (r₂ : Fin 2), ∀ a, (k0_off10 i (BitVec.ofNat 32 (2 * r₁.val)) (BitVec.ofNat 32 r₂.val)) a + S1x2688.size a ≤ S1024x2688.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2688.size a ≤ S1024x2688.size a
  hwx1_0 : ∀ i : grid1.Coords, EltTy.bits .f32 = 32 ∨ (Rect.block (s := S1024x2688) S256x2688.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2688x64.size a ≤ S2688x64.size a
  hwx1_1 : ∀ i : grid1.Coords, EltTy.bits .f32 = 32 ∨ (Rect.block (s := S2688x64) S2688x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x13.size a ≤ S1024x13.size a
  hwx1_2 : ∀ i : grid1.Coords, EltTy.bits .f32 = 32 ∨ (Rect.block (s := S1024x13) S256x13.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S13x1.size a ≤ S13x1.size a
  hwx1_3 : ∀ i : grid1.Coords, EltTy.bits .f32 = 32 ∨ (Rect.block (s := S13x1) S13x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S1024x1.size a
  hwx1_5 : ∀ i : grid1.Coords, EltTy.bits .f32 = 32 ∨ (Rect.block (s := S1024x1) S256x1.size (cc1_transform_5 i) (hinb1_5 i)).WholeWords (EltTy.packing .f32)

variable [Facts₀]

abbrev cc0_scratch8 : DmaSems sig S_ := SemArray.consecutive 0 S_ hcc0_scratch8
abbrev cc0_scratch9 : DmaSems sig S_ := SemArray.consecutive 1 S_ hcc0_scratch9
abbrev cc0_scratch10 : DmaSems sig S_ := SemArray.consecutive 2 S_ hcc0_scratch10
abbrev cc0_scratch11 : DmaSems sig S_ := SemArray.consecutive 3 S_ hcc0_scratch11
abbrev cc0_scratch12 : DmaSems sig S_ := SemArray.consecutive 4 S_ hcc0_scratch12
abbrev cc0_scratch13 : DmaSems sig S_ := SemArray.consecutive 5 S_ hcc0_scratch13
abbrev cc0_scratch14 : DmaSems sig S_ := SemArray.consecutive 6 S_ hcc0_scratch14
abbrev cc0_scratch15 : DmaSems sig S_ := SemArray.consecutive 7 S_ hcc0_scratch15
def dot_S256x2688_S2688x64_S256x64_1_0_0_1_n_n : DotDims S256x2688 S2688x64 S256x64 where
  lhsContracting := [1]
  rhsContracting := [0]
  lhsNonContracting := [0]
  rhsNonContracting := [1]
  lhsBatch := []
  rhsBatch := []
  wf := dot_S256x2688_S2688x64_S256x64_1_0_0_1_n_n_wf
def dot_S256x13_S13x1_S256x1_1_0_0_1_n_n : DotDims S256x13 S13x1 S256x1 where
  lhsContracting := [1]
  rhsContracting := [0]
  lhsNonContracting := [0]
  rhsNonContracting := [1]
  lhsBatch := []
  rhsBatch := []
  wf := dot_S256x13_S13x1_S256x1_1_0_0_1_n_n_wf

abbrev win1_0 : Pipeline.Window sig grid1 :=
  Pipeline.Window.ofSpec (Memref.whole main_v20) S256x2688.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2688x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x13.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S13x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S256x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1024x2626 : Shape := ⟨2, ![1024, 2626]⟩
abbrev S1024x13 : Shape := ⟨2, ![1024, 13]⟩
abbrev S26x100x1 : Shape := ⟨3, ![26, 100, 1]⟩
abbrev S26x100x32 : Shape := ⟨3, ![26, 100, 32]⟩
abbrev S39x1 : Shape := ⟨2, ![39, 1]⟩
abbrev S1 : Shape := ⟨1, ![1]⟩
abbrev S1024x100 : Shape := ⟨2, ![1024, 100]⟩
abbrev S1x100x1 : Shape := ⟨3, ![1, 100, 1]⟩
abbrev S100x1 : Shape := ⟨2, ![100, 1]⟩
abbrev S_ : Shape := ⟨0, ![]⟩
abbrev S1024x100x1 : Shape := ⟨3, ![1024, 100, 1]⟩
abbrev S1x1x1 : Shape := ⟨3, ![1, 1, 1]⟩
abbrev S1024x1 : Shape := ⟨2, ![1024, 1]⟩
abbrev S1x100x32 : Shape := ⟨3, ![1, 100, 32]⟩
abbrev S100x32 : Shape := ⟨2, ![100, 32]⟩
abbrev S1024x100x32 : Shape := ⟨3, ![1024, 100, 32]⟩
abbrev S1024x16 : Shape := ⟨2, ![1024, 16]⟩
abbrev S1024x10 : Shape := ⟨2, ![1024, 10]⟩
abbrev S1024x26 : Shape := ⟨2, ![1024, 26]⟩
abbrev S1024x39 : Shape := ⟨2, ![1024, 39]⟩
abbrev S1x1 : Shape := ⟨2, ![1, 1]⟩
abbrev S1024x1600x32 : Shape := ⟨3, ![1024, 1600, 32]⟩
abbrev S1024x1000x32 : Shape := ⟨3, ![1024, 1000, 32]⟩
abbrev S1024x2600x32 : Shape := ⟨3, ![1024, 2600, 32]⟩
abbrev S1024x32 : Shape := ⟨2, ![1024, 32]⟩
abbrev S1024x1x32 : Shape := ⟨3, ![1024, 1, 32]⟩

abbrev nBuf : Space → Nat
  | .hbm => 1418
  | .vmem => 0
  | .smem => 0
  | _ => 0

abbrev hbmTy0_0 (i : Nat) : BufTy := match i % 128 with
  | 0 => ⟨S1024x2626, .i32⟩
  | 1 => ⟨S1024x13, .f32⟩
  | 2 => ⟨S26x100x1, .f32⟩
  | 3 => ⟨S26x100x32, .f32⟩
  | 4 => ⟨S39x1, .f32⟩
  | 5 => ⟨S1, .f32⟩
  | 6 => ⟨S1024x100, .i32⟩
  | 7 => ⟨S1x100x1, .f32⟩
  | 8 => ⟨S100x1, .f32⟩
  | 9 => ⟨S_, .i32⟩
  | 10 => ⟨S1024x100, .i32⟩
  | 11 => ⟨S1024x100, .i1⟩
  | 12 => ⟨S_, .i32⟩
  | 13 => ⟨S1024x100, .i32⟩
  | 14 => ⟨S1024x100, .i32⟩
  | 15 => ⟨S1024x100, .i32⟩
  | 16 => ⟨S1024x100x1, .i32⟩
  | 17 => ⟨S1, .i32⟩
  | 18 => ⟨S_, .i32⟩
  | 19 => ⟨S1024x100x1, .i32⟩
  | 20 => ⟨S1024x100x1, .i1⟩
  | 21 => ⟨S1x1x1, .i32⟩
  | 22 => ⟨S1024x100x1, .i32⟩
  | 23 => ⟨S1024x100x1, .i1⟩
  | 24 => ⟨S1024x100x1, .i1⟩
  | 25 => ⟨S_, .i1⟩
  | 26 => ⟨S1024x100, .i1⟩
  | 27 => ⟨S1024x100x1, .f32⟩
  | 28 => ⟨S1024x100x1, .i1⟩
  | 29 => ⟨S_, .f32⟩
  | 30 => ⟨S1024x100x1, .f32⟩
  | 31 => ⟨S1024x100x1, .f32⟩
  | 32 => ⟨S_, .f32⟩
  | 33 => ⟨S1024x1, .f32⟩
  | 34 => ⟨S1x100x32, .f32⟩
  | 35 => ⟨S100x32, .f32⟩
  | 36 => ⟨S_, .i32⟩
  | 37 => ⟨S1024x100, .i32⟩
  | 38 => ⟨S1024x100, .i1⟩
  | 39 => ⟨S_, .i32⟩
  | 40 => ⟨S1024x100, .i32⟩
  | 41 => ⟨S1024x100, .i32⟩
  | 42 => ⟨S1024x100, .i32⟩
  | 43 => ⟨S1024x100x1, .i32⟩
  | 44 => ⟨S1, .i32⟩
  | 45 => ⟨S_, .i32⟩
  | 46 => ⟨S1024x100x1, .i32⟩
  | 47 => ⟨S1024x100x1, .i1⟩
  | 48 => ⟨S1x1x1, .i32⟩
  | 49 => ⟨S1024x100x1, .i32⟩
  | 50 => ⟨S1024x100x1, .i1⟩
  | 51 => ⟨S1024x100x1, .i1⟩
  | 52 => ⟨S_, .i1⟩
  | 53 => ⟨S1024x100, .i1⟩
  | 54 => ⟨S1024x100x32, .f32⟩
  | 55 => ⟨S1024x100x32, .i1⟩
  | 56 => ⟨S_, .f32⟩
  | 57 => ⟨S1024x100x32, .f32⟩
  | 58 => ⟨S1024x100x32, .f32⟩
  | 59 => ⟨S1024x100, .i32⟩
  | 60 => ⟨S1x100x1, .f32⟩
  | 61 => ⟨S100x1, .f32⟩
  | 62 => ⟨S_, .i32⟩
  | 63 => ⟨S1024x100, .i32⟩
  | 64 => ⟨S1024x100, .i1⟩
  | 65 => ⟨S_, .i32⟩
  | 66 => ⟨S1024x100, .i32⟩
  | 67 => ⟨S1024x100, .i32⟩
  | 68 => ⟨S1024x100, .i32⟩
  | 69 => ⟨S1024x100x1, .i32⟩
  | 70 => ⟨S1, .i32⟩
  | 71 => ⟨S_, .i32⟩
  | 72 => ⟨S1024x100x1, .i32⟩
  | 73 => ⟨S1024x100x1, .i1⟩
  | 74 => ⟨S1x1x1, .i32⟩
  | 75 => ⟨S1024x100x1, .i32⟩
  | 76 => ⟨S1024x100x1, .i1⟩
  | 77 => ⟨S1024x100x1, .i1⟩
  | 78 => ⟨S_, .i1⟩
  | 79 => ⟨S1024x100, .i1⟩
  | 80 => ⟨S1024x100x1, .f32⟩
  | 81 => ⟨S1024x100x1, .i1⟩
  | 82 => ⟨S_, .f32⟩
  | 83 => ⟨S1024x100x1, .f32⟩
  | 84 => ⟨S1024x100x1, .f32⟩
  | 85 => ⟨S_, .f32⟩
  | 86 => ⟨S1024x1, .f32⟩
  | 87 => ⟨S1x100x32, .f32⟩
  | 88 => ⟨S100x32, .f32⟩
  | 89 => ⟨S_, .i32⟩
  | 90 => ⟨S1024x100, .i32⟩
  | 91 => ⟨S1024x100, .i1⟩
  | 92 => ⟨S_, .i32⟩
  | 93 => ⟨S1024x100, .i32⟩
  | 94 => ⟨S1024x100, .i32⟩
  | 95 => ⟨S1024x100, .i32⟩
  | 96 => ⟨S1024x100x1, .i32⟩
  | 97 => ⟨S1, .i32⟩
  | 98 => ⟨S_, .i32⟩
  | 99 => ⟨S1024x100x1, .i32⟩
  | 100 => ⟨S1024x100x1, .i1⟩
  | 101 => ⟨S1x1x1, .i32⟩
  | 102 => ⟨S1024x100x1, .i32⟩
  | 103 => ⟨S1024x100x1, .i1⟩
  | 104 => ⟨S1024x100x1, .i1⟩
  | 105 => ⟨S_, .i1⟩
  | 106 => ⟨S1024x100, .i1⟩
  | 107 => ⟨S1024x100x32, .f32⟩
  | 108 => ⟨S1024x100x32, .i1⟩
  | 109 => ⟨S_, .f32⟩
  | 110 => ⟨S1024x100x32, .f32⟩
  | 111 => ⟨S1024x100x32, .f32⟩
  | 112 => ⟨S1024x100, .i32⟩
  | 113 => ⟨S1x100x1, .f32⟩
  | 114 => ⟨S100x1, .f32⟩
  | 115 => ⟨S_, .i32⟩
  | 116 => ⟨S1024x100, .i32⟩
  | 117 => ⟨S1024x100, .i1⟩
  | 118 => ⟨S_, .i32⟩
  | 119 => ⟨S1024x100, .i32⟩
  | 120 => ⟨S1024x100, .i32⟩
  | 121 => ⟨S1024x100, .i32⟩
  | 122 => ⟨S1024x100x1, .i32⟩
  | 123 => ⟨S1, .i32⟩
  | 124 => ⟨S_, .i32⟩
  | 125 => ⟨S1024x100x1, .i32⟩
  | 126 => ⟨S1024x100x1, .i1⟩
  | 127 => ⟨S1x1x1, .i32⟩
  | _ => ⟨S1024x2626, .i32⟩

abbrev hbmTy0_1 (i : Nat) : BufTy := match i % 128 with
  | 0 => ⟨S1024x100x1, .i32⟩
  | 1 => ⟨S1024x100x1, .i1⟩
  | 2 => ⟨S1024x100x1, .i1⟩
  | 3 => ⟨S_, .i1⟩
  | 4 => ⟨S1024x100, .i1⟩
  | 5 => ⟨S1024x100x1, .f32⟩
  | 6 => ⟨S1024x100x1, .i1⟩
  | 7 => ⟨S_, .f32⟩
  | 8 => ⟨S1024x100x1, .f32⟩
  | 9 => ⟨S1024x100x1, .f32⟩
  | 10 => ⟨S_, .f32⟩
  | 11 => ⟨S1024x1, .f32⟩
  | 12 => ⟨S1x100x32, .f32⟩
  | 13 => ⟨S100x32, .f32⟩
  | 14 => ⟨S_, .i32⟩
  | 15 => ⟨S1024x100, .i32⟩
  | 16 => ⟨S1024x100, .i1⟩
  | 17 => ⟨S_, .i32⟩
  | 18 => ⟨S1024x100, .i32⟩
  | 19 => ⟨S1024x100, .i32⟩
  | 20 => ⟨S1024x100, .i32⟩
  | 21 => ⟨S1024x100x1, .i32⟩
  | 22 => ⟨S1, .i32⟩
  | 23 => ⟨S_, .i32⟩
  | 24 => ⟨S1024x100x1, .i32⟩
  | 25 => ⟨S1024x100x1, .i1⟩
  | 26 => ⟨S1x1x1, .i32⟩
  | 27 => ⟨S1024x100x1, .i32⟩
  | 28 => ⟨S1024x100x1, .i1⟩
  | 29 => ⟨S1024x100x1, .i1⟩
  | 30 => ⟨S_, .i1⟩
  | 31 => ⟨S1024x100, .i1⟩
  | 32 => ⟨S1024x100x32, .f32⟩
  | 33 => ⟨S1024x100x32, .i1⟩
  | 34 => ⟨S_, .f32⟩
  | 35 => ⟨S1024x100x32, .f32⟩
  | 36 => ⟨S1024x100x32, .f32⟩
  | 37 => ⟨S1024x100, .i32⟩
  | 38 => ⟨S1x100x1, .f32⟩
  | 39 => ⟨S100x1, .f32⟩
  | 40 => ⟨S_, .i32⟩
  | 41 => ⟨S1024x100, .i32⟩
  | 42 => ⟨S1024x100, .i1⟩
  | 43 => ⟨S_, .i32⟩
  | 44 => ⟨S1024x100, .i32⟩
  | 45 => ⟨S1024x100, .i32⟩
  | 46 => ⟨S1024x100, .i32⟩
  | 47 => ⟨S1024x100x1, .i32⟩
  | 48 => ⟨S1, .i32⟩
  | 49 => ⟨S_, .i32⟩
  | 50 => ⟨S1024x100x1, .i32⟩
  | 51 => ⟨S1024x100x1, .i1⟩
  | 52 => ⟨S1x1x1, .i32⟩
  | 53 => ⟨S1024x100x1, .i32⟩
  | 54 => ⟨S1024x100x1, .i1⟩
  | 55 => ⟨S1024x100x1, .i1⟩
  | 56 => ⟨S_, .i1⟩
  | 57 => ⟨S1024x100, .i1⟩
  | 58 => ⟨S1024x100x1, .f32⟩
  | 59 => ⟨S1024x100x1, .i1⟩
  | 60 => ⟨S_, .f32⟩
  | 61 => ⟨S1024x100x1, .f32⟩
  | 62 => ⟨S1024x100x1, .f32⟩
  | 63 => ⟨S_, .f32⟩
  | 64 => ⟨S1024x1, .f32⟩
  | 65 => ⟨S1x100x32, .f32⟩
  | 66 => ⟨S100x32, .f32⟩
  | 67 => ⟨S_, .i32⟩
  | 68 => ⟨S1024x100, .i32⟩
  | 69 => ⟨S1024x100, .i1⟩
  | 70 => ⟨S_, .i32⟩
  | 71 => ⟨S1024x100, .i32⟩
  | 72 => ⟨S1024x100, .i32⟩
  | 73 => ⟨S1024x100, .i32⟩
  | 74 => ⟨S1024x100x1, .i32⟩
  | 75 => ⟨S1, .i32⟩
  | 76 => ⟨S_, .i32⟩
  | 77 => ⟨S1024x100x1, .i32⟩
  | 78 => ⟨S1024x100x1, .i1⟩
  | 79 => ⟨S1x1x1, .i32⟩
  | 80 => ⟨S1024x100x1, .i32⟩
  | 81 => ⟨S1024x100x1, .i1⟩
  | 82 => ⟨S1024x100x1, .i1⟩
  | 83 => ⟨S_, .i1⟩
  | 84 => ⟨S1024x100, .i1⟩
  | 85 => ⟨S1024x100x32, .f32⟩
  | 86 => ⟨S1024x100x32, .i1⟩
  | 87 => ⟨S_, .f32⟩
  | 88 => ⟨S1024x100x32, .f32⟩
  | 89 => ⟨S1024x100x32, .f32⟩
  | 90 => ⟨S1024x100, .i32⟩
  | 91 => ⟨S1x100x1, .f32⟩
  | 92 => ⟨S100x1, .f32⟩
  | 93 => ⟨S_, .i32⟩
  | 94 => ⟨S1024x100, .i32⟩
  | 95 => ⟨S1024x100, .i1⟩
  | 96 => ⟨S_, .i32⟩
  | 97 => ⟨S1024x100, .i32⟩
  | 98 => ⟨S1024x100, .i32⟩
  | 99 => ⟨S1024x100, .i32⟩
  | 100 => ⟨S1024x100x1, .i32⟩
  | 101 => ⟨S1, .i32⟩
  | 102 => ⟨S_, .i32⟩
  | 103 => ⟨S1024x100x1, .i32⟩
  | 104 => ⟨S1024x100x1, .i1⟩
  | 105 => ⟨S1x1x1, .i32⟩
  | 106 => ⟨S1024x100x1, .i32⟩
  | 107 => ⟨S1024x100x1, .i1⟩
  | 108 => ⟨S1024x100x1, .i1⟩
  | 109 => ⟨S_, .i1⟩
  | 110 => ⟨S1024x100, .i1⟩
  | 111 => ⟨S1024x100x1, .f32⟩
  | 112 => ⟨S1024x100x1, .i1⟩
  | 113 => ⟨S_, .f32⟩
  | 114 => ⟨S1024x100x1, .f32⟩
  | 115 => ⟨S1024x100x1, .f32⟩
  | 116 => ⟨S_, .f32⟩
  | 117 => ⟨S1024x1, .f32⟩
  | 118 => ⟨S1x100x32, .f32⟩
  | 119 => ⟨S100x32, .f32⟩
  | 120 => ⟨S_, .i32⟩
  | 121 => ⟨S1024x100, .i32⟩
  | 122 => ⟨S1024x100, .i1⟩
  | 123 => ⟨S_, .i32⟩
  | 124 => ⟨S1024x100, .i32⟩
  | 125 => ⟨S1024x100, .i32⟩
  | 126 => ⟨S1024x100, .i32⟩
  | 127 => ⟨S1024x100x1, .i32⟩
  | _ => ⟨S1024x2626, .i32⟩

abbrev hbmTy0_2 (i : Nat) : BufTy := match i % 128 with
  | 0 => ⟨S1, .i32⟩
  | 1 => ⟨S_, .i32⟩
  | 2 => ⟨S1024x100x1, .i32⟩
  | 3 => ⟨S1024x100x1, .i1⟩
  | 4 => ⟨S1x1x1, .i32⟩
  | 5 => ⟨S1024x100x1, .i32⟩
  | 6 => ⟨S1024x100x1, .i1⟩
  | 7 => ⟨S1024x100x1, .i1⟩
  | 8 => ⟨S_, .i1⟩
  | 9 => ⟨S1024x100, .i1⟩
  | 10 => ⟨S1024x100x32, .f32⟩
  | 11 => ⟨S1024x100x32, .i1⟩
  | 12 => ⟨S_, .f32⟩
  | 13 => ⟨S1024x100x32, .f32⟩
  | 14 => ⟨S1024x100x32, .f32⟩
  | 15 => ⟨S1024x100, .i32⟩
  | 16 => ⟨S1x100x1, .f32⟩
  | 17 => ⟨S100x1, .f32⟩
  | 18 => ⟨S_, .i32⟩
  | 19 => ⟨S1024x100, .i32⟩
  | 20 => ⟨S1024x100, .i1⟩
  | 21 => ⟨S_, .i32⟩
  | 22 => ⟨S1024x100, .i32⟩
  | 23 => ⟨S1024x100, .i32⟩
  | 24 => ⟨S1024x100, .i32⟩
  | 25 => ⟨S1024x100x1, .i32⟩
  | 26 => ⟨S1, .i32⟩
  | 27 => ⟨S_, .i32⟩
  | 28 => ⟨S1024x100x1, .i32⟩
  | 29 => ⟨S1024x100x1, .i1⟩
  | 30 => ⟨S1x1x1, .i32⟩
  | 31 => ⟨S1024x100x1, .i32⟩
  | 32 => ⟨S1024x100x1, .i1⟩
  | 33 => ⟨S1024x100x1, .i1⟩
  | 34 => ⟨S_, .i1⟩
  | 35 => ⟨S1024x100, .i1⟩
  | 36 => ⟨S1024x100x1, .f32⟩
  | 37 => ⟨S1024x100x1, .i1⟩
  | 38 => ⟨S_, .f32⟩
  | 39 => ⟨S1024x100x1, .f32⟩
  | 40 => ⟨S1024x100x1, .f32⟩
  | 41 => ⟨S_, .f32⟩
  | 42 => ⟨S1024x1, .f32⟩
  | 43 => ⟨S1x100x32, .f32⟩
  | 44 => ⟨S100x32, .f32⟩
  | 45 => ⟨S_, .i32⟩
  | 46 => ⟨S1024x100, .i32⟩
  | 47 => ⟨S1024x100, .i1⟩
  | 48 => ⟨S_, .i32⟩
  | 49 => ⟨S1024x100, .i32⟩
  | 50 => ⟨S1024x100, .i32⟩
  | 51 => ⟨S1024x100, .i32⟩
  | 52 => ⟨S1024x100x1, .i32⟩
  | 53 => ⟨S1, .i32⟩
  | 54 => ⟨S_, .i32⟩
  | 55 => ⟨S1024x100x1, .i32⟩
  | 56 => ⟨S1024x100x1, .i1⟩
  | 57 => ⟨S1x1x1, .i32⟩
  | 58 => ⟨S1024x100x1, .i32⟩
  | 59 => ⟨S1024x100x1, .i1⟩
  | 60 => ⟨S1024x100x1, .i1⟩
  | 61 => ⟨S_, .i1⟩
  | 62 => ⟨S1024x100, .i1⟩
  | 63 => ⟨S1024x100x32, .f32⟩
  | 64 => ⟨S1024x100x32, .i1⟩
  | 65 => ⟨S_, .f32⟩
  | 66 => ⟨S1024x100x32, .f32⟩
  | 67 => ⟨S1024x100x32, .f32⟩
  | 68 => ⟨S1024x100, .i32⟩
  | 69 => ⟨S1x100x1, .f32⟩
  | 70 => ⟨S100x1, .f32⟩
  | 71 => ⟨S_, .i32⟩
  | 72 => ⟨S1024x100, .i32⟩
  | 73 => ⟨S1024x100, .i1⟩
  | 74 => ⟨S_, .i32⟩
  | 75 => ⟨S1024x100, .i32⟩
  | 76 => ⟨S1024x100, .i32⟩
  | 77 => ⟨S1024x100, .i32⟩
  | 78 => ⟨S1024x100x1, .i32⟩
  | 79 => ⟨S1, .i32⟩
  | 80 => ⟨S_, .i32⟩
  | 81 => ⟨S1024x100x1, .i32⟩
  | 82 => ⟨S1024x100x1, .i1⟩
  | 83 => ⟨S1x1x1, .i32⟩
  | 84 => ⟨S1024x100x1, .i32⟩
  | 85 => ⟨S1024x100x1, .i1⟩
  | 86 => ⟨S1024x100x1, .i1⟩
  | 87 => ⟨S_, .i1⟩
  | 88 => ⟨S1024x100, .i1⟩
  | 89 => ⟨S1024x100x1, .f32⟩
  | 90 => ⟨S1024x100x1, .i1⟩
  | 91 => ⟨S_, .f32⟩
  | 92 => ⟨S1024x100x1, .f32⟩
  | 93 => ⟨S1024x100x1, .f32⟩
  | 94 => ⟨S_, .f32⟩
  | 95 => ⟨S1024x1, .f32⟩
  | 96 => ⟨S1x100x32, .f32⟩
  | 97 => ⟨S100x32, .f32⟩
  | 98 => ⟨S_, .i32⟩
  | 99 => ⟨S1024x100, .i32⟩
  | 100 => ⟨S1024x100, .i1⟩
  | 101 => ⟨S_, .i32⟩
  | 102 => ⟨S1024x100, .i32⟩
  | 103 => ⟨S1024x100, .i32⟩
  | 104 => ⟨S1024x100, .i32⟩
  | 105 => ⟨S1024x100x1, .i32⟩
  | 106 => ⟨S1, .i32⟩
  | 107 => ⟨S_, .i32⟩
  | 108 => ⟨S1024x100x1, .i32⟩
  | 109 => ⟨S1024x100x1, .i1⟩
  | 110 => ⟨S1x1x1, .i32⟩
  | 111 => ⟨S1024x100x1, .i32⟩
  | 112 => ⟨S1024x100x1, .i1⟩
  | 113 => ⟨S1024x100x1, .i1⟩
  | 114 => ⟨S_, .i1⟩
  | 115 => ⟨S1024x100, .i1⟩
  | 116 => ⟨S1024x100x32, .f32⟩
  | 117 => ⟨S1024x100x32, .i1⟩
  | 118 => ⟨S_, .f32⟩
  | 119 => ⟨S1024x100x32, .f32⟩
  | 120 => ⟨S1024x100x32, .f32⟩
  | 121 => ⟨S1024x100, .i32⟩
  | 122 => ⟨S1x100x1, .f32⟩
  | 123 => ⟨S100x1, .f32⟩
  | 124 => ⟨S_, .i32⟩
  | 125 => ⟨S1024x100, .i32⟩
  | 126 => ⟨S1024x100, .i1⟩
  | 127 => ⟨S_, .i32⟩
  | _ => ⟨S1024x2626, .i32⟩

abbrev hbmTy0_3 (i : Nat) : BufTy := match i % 128 with
  | 0 => ⟨S1024x100, .i32⟩
  | 1 => ⟨S1024x100, .i32⟩
  | 2 => ⟨S1024x100, .i32⟩
  | 3 => ⟨S1024x100x1, .i32⟩
  | 4 => ⟨S1, .i32⟩
  | 5 => ⟨S_, .i32⟩
  | 6 => ⟨S1024x100x1, .i32⟩
  | 7 => ⟨S1024x100x1, .i1⟩
  | 8 => ⟨S1x1x1, .i32⟩
  | 9 => ⟨S1024x100x1, .i32⟩
  | 10 => ⟨S1024x100x1, .i1⟩
  | 11 => ⟨S1024x100x1, .i1⟩
  | 12 => ⟨S_, .i1⟩
  | 13 => ⟨S1024x100, .i1⟩
  | 14 => ⟨S1024x100x1, .f32⟩
  | 15 => ⟨S1024x100x1, .i1⟩
  | 16 => ⟨S_, .f32⟩
  | 17 => ⟨S1024x100x1, .f32⟩
  | 18 => ⟨S1024x100x1, .f32⟩
  | 19 => ⟨S_, .f32⟩
  | 20 => ⟨S1024x1, .f32⟩
  | 21 => ⟨S1x100x32, .f32⟩
  | 22 => ⟨S100x32, .f32⟩
  | 23 => ⟨S_, .i32⟩
  | 24 => ⟨S1024x100, .i32⟩
  | 25 => ⟨S1024x100, .i1⟩
  | 26 => ⟨S_, .i32⟩
  | 27 => ⟨S1024x100, .i32⟩
  | 28 => ⟨S1024x100, .i32⟩
  | 29 => ⟨S1024x100, .i32⟩
  | 30 => ⟨S1024x100x1, .i32⟩
  | 31 => ⟨S1, .i32⟩
  | 32 => ⟨S_, .i32⟩
  | 33 => ⟨S1024x100x1, .i32⟩
  | 34 => ⟨S1024x100x1, .i1⟩
  | 35 => ⟨S1x1x1, .i32⟩
  | 36 => ⟨S1024x100x1, .i32⟩
  | 37 => ⟨S1024x100x1, .i1⟩
  | 38 => ⟨S1024x100x1, .i1⟩
  | 39 => ⟨S_, .i1⟩
  | 40 => ⟨S1024x100, .i1⟩
  | 41 => ⟨S1024x100x32, .f32⟩
  | 42 => ⟨S1024x100x32, .i1⟩
  | 43 => ⟨S_, .f32⟩
  | 44 => ⟨S1024x100x32, .f32⟩
  | 45 => ⟨S1024x100x32, .f32⟩
  | 46 => ⟨S1024x100, .i32⟩
  | 47 => ⟨S1x100x1, .f32⟩
  | 48 => ⟨S100x1, .f32⟩
  | 49 => ⟨S_, .i32⟩
  | 50 => ⟨S1024x100, .i32⟩
  | 51 => ⟨S1024x100, .i1⟩
  | 52 => ⟨S_, .i32⟩
  | 53 => ⟨S1024x100, .i32⟩
  | 54 => ⟨S1024x100, .i32⟩
  | 55 => ⟨S1024x100, .i32⟩
  | 56 => ⟨S1024x100x1, .i32⟩
  | 57 => ⟨S1, .i32⟩
  | 58 => ⟨S_, .i32⟩
  | 59 => ⟨S1024x100x1, .i32⟩
  | 60 => ⟨S1024x100x1, .i1⟩
  | 61 => ⟨S1x1x1, .i32⟩
  | 62 => ⟨S1024x100x1, .i32⟩
  | 63 => ⟨S1024x100x1, .i1⟩
  | 64 => ⟨S1024x100x1, .i1⟩
  | 65 => ⟨S_, .i1⟩
  | 66 => ⟨S1024x100, .i1⟩
  | 67 => ⟨S1024x100x1, .f32⟩
  | 68 => ⟨S1024x100x1, .i1⟩
  | 69 => ⟨S_, .f32⟩
  | 70 => ⟨S1024x100x1, .f32⟩
  | 71 => ⟨S1024x100x1, .f32⟩
  | 72 => ⟨S_, .f32⟩
  | 73 => ⟨S1024x1, .f32⟩
  | 74 => ⟨S1x100x32, .f32⟩
  | 75 => ⟨S100x32, .f32⟩
  | 76 => ⟨S_, .i32⟩
  | 77 => ⟨S1024x100, .i32⟩
  | 78 => ⟨S1024x100, .i1⟩
  | 79 => ⟨S_, .i32⟩
  | 80 => ⟨S1024x100, .i32⟩
  | 81 => ⟨S1024x100, .i32⟩
  | 82 => ⟨S1024x100, .i32⟩
  | 83 => ⟨S1024x100x1, .i32⟩
  | 84 => ⟨S1, .i32⟩
  | 85 => ⟨S_, .i32⟩
  | 86 => ⟨S1024x100x1, .i32⟩
  | 87 => ⟨S1024x100x1, .i1⟩
  | 88 => ⟨S1x1x1, .i32⟩
  | 89 => ⟨S1024x100x1, .i32⟩
  | 90 => ⟨S1024x100x1, .i1⟩
  | 91 => ⟨S1024x100x1, .i1⟩
  | 92 => ⟨S_, .i1⟩
  | 93 => ⟨S1024x100, .i1⟩
  | 94 => ⟨S1024x100x32, .f32⟩
  | 95 => ⟨S1024x100x32, .i1⟩
  | 96 => ⟨S_, .f32⟩
  | 97 => ⟨S1024x100x32, .f32⟩
  | 98 => ⟨S1024x100x32, .f32⟩
  | 99 => ⟨S1024x100, .i32⟩
  | 100 => ⟨S1x100x1, .f32⟩
  | 101 => ⟨S100x1, .f32⟩
  | 102 => ⟨S_, .i32⟩
  | 103 => ⟨S1024x100, .i32⟩
  | 104 => ⟨S1024x100, .i1⟩
  | 105 => ⟨S_, .i32⟩
  | 106 => ⟨S1024x100, .i32⟩
  | 107 => ⟨S1024x100, .i32⟩
  | 108 => ⟨S1024x100, .i32⟩
  | 109 => ⟨S1024x100x1, .i32⟩
  | 110 => ⟨S1, .i32⟩
  | 111 => ⟨S_, .i32⟩
  | 112 => ⟨S1024x100x1, .i32⟩
  | 113 => ⟨S1024x100x1, .i1⟩
  | 114 => ⟨S1x1x1, .i32⟩
  | 115 => ⟨S1024x100x1, .i32⟩
  | 116 => ⟨S1024x100x1, .i1⟩
  | 117 => ⟨S1024x100x1, .i1⟩
  | 118 => ⟨S_, .i1⟩
  | 119 => ⟨S1024x100, .i1⟩
  | 120 => ⟨S1024x100x1, .f32⟩
  | 121 => ⟨S1024x100x1, .i1⟩
  | 122 => ⟨S_, .f32⟩
  | 123 => ⟨S1024x100x1, .f32⟩
  | 124 => ⟨S1024x100x1, .f32⟩
  | 125 => ⟨S_, .f32⟩
  | 126 => ⟨S1024x1, .f32⟩
  | 127 => ⟨S1x100x32, .f32⟩
  | _ => ⟨S1024x2626, .i32⟩

abbrev hbmTy0_4 (i : Nat) : BufTy := match i % 128 with
  | 0 => ⟨S100x32, .f32⟩
  | 1 => ⟨S_, .i32⟩
  | 2 => ⟨S1024x100, .i32⟩
  | 3 => ⟨S1024x100, .i1⟩
  | 4 => ⟨S_, .i32⟩
  | 5 => ⟨S1024x100, .i32⟩
  | 6 => ⟨S1024x100, .i32⟩
  | 7 => ⟨S1024x100, .i32⟩
  | 8 => ⟨S1024x100x1, .i32⟩
  | 9 => ⟨S1, .i32⟩
  | 10 => ⟨S_, .i32⟩
  | 11 => ⟨S1024x100x1, .i32⟩
  | 12 => ⟨S1024x100x1, .i1⟩
  | 13 => ⟨S1x1x1, .i32⟩
  | 14 => ⟨S1024x100x1, .i32⟩
  | 15 => ⟨S1024x100x1, .i1⟩
  | 16 => ⟨S1024x100x1, .i1⟩
  | 17 => ⟨S_, .i1⟩
  | 18 => ⟨S1024x100, .i1⟩
  | 19 => ⟨S1024x100x32, .f32⟩
  | 20 => ⟨S1024x100x32, .i1⟩
  | 21 => ⟨S_, .f32⟩
  | 22 => ⟨S1024x100x32, .f32⟩
  | 23 => ⟨S1024x100x32, .f32⟩
  | 24 => ⟨S1024x100, .i32⟩
  | 25 => ⟨S1x100x1, .f32⟩
  | 26 => ⟨S100x1, .f32⟩
  | 27 => ⟨S_, .i32⟩
  | 28 => ⟨S1024x100, .i32⟩
  | 29 => ⟨S1024x100, .i1⟩
  | 30 => ⟨S_, .i32⟩
  | 31 => ⟨S1024x100, .i32⟩
  | 32 => ⟨S1024x100, .i32⟩
  | 33 => ⟨S1024x100, .i32⟩
  | 34 => ⟨S1024x100x1, .i32⟩
  | 35 => ⟨S1, .i32⟩
  | 36 => ⟨S_, .i32⟩
  | 37 => ⟨S1024x100x1, .i32⟩
  | 38 => ⟨S1024x100x1, .i1⟩
  | 39 => ⟨S1x1x1, .i32⟩
  | 40 => ⟨S1024x100x1, .i32⟩
  | 41 => ⟨S1024x100x1, .i1⟩
  | 42 => ⟨S1024x100x1, .i1⟩
  | 43 => ⟨S_, .i1⟩
  | 44 => ⟨S1024x100, .i1⟩
  | 45 => ⟨S1024x100x1, .f32⟩
  | 46 => ⟨S1024x100x1, .i1⟩
  | 47 => ⟨S_, .f32⟩
  | 48 => ⟨S1024x100x1, .f32⟩
  | 49 => ⟨S1024x100x1, .f32⟩
  | 50 => ⟨S_, .f32⟩
  | 51 => ⟨S1024x1, .f32⟩
  | 52 => ⟨S1x100x32, .f32⟩
  | 53 => ⟨S100x32, .f32⟩
  | 54 => ⟨S_, .i32⟩
  | 55 => ⟨S1024x100, .i32⟩
  | 56 => ⟨S1024x100, .i1⟩
  | 57 => ⟨S_, .i32⟩
  | 58 => ⟨S1024x100, .i32⟩
  | 59 => ⟨S1024x100, .i32⟩
  | 60 => ⟨S1024x100, .i32⟩
  | 61 => ⟨S1024x100x1, .i32⟩
  | 62 => ⟨S1, .i32⟩
  | 63 => ⟨S_, .i32⟩
  | 64 => ⟨S1024x100x1, .i32⟩
  | 65 => ⟨S1024x100x1, .i1⟩
  | 66 => ⟨S1x1x1, .i32⟩
  | 67 => ⟨S1024x100x1, .i32⟩
  | 68 => ⟨S1024x100x1, .i1⟩
  | 69 => ⟨S1024x100x1, .i1⟩
  | 70 => ⟨S_, .i1⟩
  | 71 => ⟨S1024x100, .i1⟩
  | 72 => ⟨S1024x100x32, .f32⟩
  | 73 => ⟨S1024x100x32, .i1⟩
  | 74 => ⟨S_, .f32⟩
  | 75 => ⟨S1024x100x32, .f32⟩
  | 76 => ⟨S1024x100x32, .f32⟩
  | 77 => ⟨S1024x100, .i32⟩
  | 78 => ⟨S1x100x1, .f32⟩
  | 79 => ⟨S100x1, .f32⟩
  | 80 => ⟨S_, .i32⟩
  | 81 => ⟨S1024x100, .i32⟩
  | 82 => ⟨S1024x100, .i1⟩
  | 83 => ⟨S_, .i32⟩
  | 84 => ⟨S1024x100, .i32⟩
  | 85 => ⟨S1024x100, .i32⟩
  | 86 => ⟨S1024x100, .i32⟩
  | 87 => ⟨S1024x100x1, .i32⟩
  | 88 => ⟨S1, .i32⟩
  | 89 => ⟨S_, .i32⟩
  | 90 => ⟨S1024x100x1, .i32⟩
  | 91 => ⟨S1024x100x1, .i1⟩
  | 92 => ⟨S1x1x1, .i32⟩
  | 93 => ⟨S1024x100x1, .i32⟩
  | 94 => ⟨S1024x100x1, .i1⟩
  | 95 => ⟨S1024x100x1, .i1⟩
  | 96 => ⟨S_, .i1⟩
  | 97 => ⟨S1024x100, .i1⟩
  | 98 => ⟨S1024x100x1, .f32⟩
  | 99 => ⟨S1024x100x1, .i1⟩
  | 100 => ⟨S_, .f32⟩
  | 101 => ⟨S1024x100x1, .f32⟩
  | 102 => ⟨S1024x100x1, .f32⟩
  | 103 => ⟨S_, .f32⟩
  | 104 => ⟨S1024x1, .f32⟩
  | 105 => ⟨S1x100x32, .f32⟩
  | 106 => ⟨S100x32, .f32⟩
  | 107 => ⟨S_, .i32⟩
  | 108 => ⟨S1024x100, .i32⟩
  | 109 => ⟨S1024x100, .i1⟩
  | 110 => ⟨S_, .i32⟩
  | 111 => ⟨S1024x100, .i32⟩
  | 112 => ⟨S1024x100, .i32⟩
  | 113 => ⟨S1024x100, .i32⟩
  | 114 => ⟨S1024x100x1, .i32⟩
  | 115 => ⟨S1, .i32⟩
  | 116 => ⟨S_, .i32⟩
  | 117 => ⟨S1024x100x1, .i32⟩
  | 118 => ⟨S1024x100x1, .i1⟩
  | 119 => ⟨S1x1x1, .i32⟩
  | 120 => ⟨S1024x100x1, .i32⟩
  | 121 => ⟨S1024x100x1, .i1⟩
  | 122 => ⟨S1024x100x1, .i1⟩
  | 123 => ⟨S_, .i1⟩
  | 124 => ⟨S1024x100, .i1⟩
  | 125 => ⟨S1024x100x32, .f32⟩
  | 126 => ⟨S1024x100x32, .i1⟩
  | 127 => ⟨S_, .f32⟩
  | _ => ⟨S1024x2626, .i32⟩

abbrev hbmTy0_5 (i : Nat) : BufTy := match i % 128 with
  | 0 => ⟨S1024x100x32, .f32⟩
  | 1 => ⟨S1024x100x32, .f32⟩
  | 2 => ⟨S1024x100, .i32⟩
  | 3 => ⟨S1x100x1, .f32⟩
  | 4 => ⟨S100x1, .f32⟩
  | 5 => ⟨S_, .i32⟩
  | 6 => ⟨S1024x100, .i32⟩
  | 7 => ⟨S1024x100, .i1⟩
  | 8 => ⟨S_, .i32⟩
  | 9 => ⟨S1024x100, .i32⟩
  | 10 => ⟨S1024x100, .i32⟩
  | 11 => ⟨S1024x100, .i32⟩
  | 12 => ⟨S1024x100x1, .i32⟩
  | 13 => ⟨S1, .i32⟩
  | 14 => ⟨S_, .i32⟩
  | 15 => ⟨S1024x100x1, .i32⟩
  | 16 => ⟨S1024x100x1, .i1⟩
  | 17 => ⟨S1x1x1, .i32⟩
  | 18 => ⟨S1024x100x1, .i32⟩
  | 19 => ⟨S1024x100x1, .i1⟩
  | 20 => ⟨S1024x100x1, .i1⟩
  | 21 => ⟨S_, .i1⟩
  | 22 => ⟨S1024x100, .i1⟩
  | 23 => ⟨S1024x100x1, .f32⟩
  | 24 => ⟨S1024x100x1, .i1⟩
  | 25 => ⟨S_, .f32⟩
  | 26 => ⟨S1024x100x1, .f32⟩
  | 27 => ⟨S1024x100x1, .f32⟩
  | 28 => ⟨S_, .f32⟩
  | 29 => ⟨S1024x1, .f32⟩
  | 30 => ⟨S1x100x32, .f32⟩
  | 31 => ⟨S100x32, .f32⟩
  | 32 => ⟨S_, .i32⟩
  | 33 => ⟨S1024x100, .i32⟩
  | 34 => ⟨S1024x100, .i1⟩
  | 35 => ⟨S_, .i32⟩
  | 36 => ⟨S1024x100, .i32⟩
  | 37 => ⟨S1024x100, .i32⟩
  | 38 => ⟨S1024x100, .i32⟩
  | 39 => ⟨S1024x100x1, .i32⟩
  | 40 => ⟨S1, .i32⟩
  | 41 => ⟨S_, .i32⟩
  | 42 => ⟨S1024x100x1, .i32⟩
  | 43 => ⟨S1024x100x1, .i1⟩
  | 44 => ⟨S1x1x1, .i32⟩
  | 45 => ⟨S1024x100x1, .i32⟩
  | 46 => ⟨S1024x100x1, .i1⟩
  | 47 => ⟨S1024x100x1, .i1⟩
  | 48 => ⟨S_, .i1⟩
  | 49 => ⟨S1024x100, .i1⟩
  | 50 => ⟨S1024x100x32, .f32⟩
  | 51 => ⟨S1024x100x32, .i1⟩
  | 52 => ⟨S_, .f32⟩
  | 53 => ⟨S1024x100x32, .f32⟩
  | 54 => ⟨S1024x100x32, .f32⟩
  | 55 => ⟨S1024x100, .i32⟩
  | 56 => ⟨S1x100x1, .f32⟩
  | 57 => ⟨S100x1, .f32⟩
  | 58 => ⟨S_, .i32⟩
  | 59 => ⟨S1024x100, .i32⟩
  | 60 => ⟨S1024x100, .i1⟩
  | 61 => ⟨S_, .i32⟩
  | 62 => ⟨S1024x100, .i32⟩
  | 63 => ⟨S1024x100, .i32⟩
  | 64 => ⟨S1024x100, .i32⟩
  | 65 => ⟨S1024x100x1, .i32⟩
  | 66 => ⟨S1, .i32⟩
  | 67 => ⟨S_, .i32⟩
  | 68 => ⟨S1024x100x1, .i32⟩
  | 69 => ⟨S1024x100x1, .i1⟩
  | 70 => ⟨S1x1x1, .i32⟩
  | 71 => ⟨S1024x100x1, .i32⟩
  | 72 => ⟨S1024x100x1, .i1⟩
  | 73 => ⟨S1024x100x1, .i1⟩
  | 74 => ⟨S_, .i1⟩
  | 75 => ⟨S1024x100, .i1⟩
  | 76 => ⟨S1024x100x1, .f32⟩
  | 77 => ⟨S1024x100x1, .i1⟩
  | 78 => ⟨S_, .f32⟩
  | 79 => ⟨S1024x100x1, .f32⟩
  | 80 => ⟨S1024x100x1, .f32⟩
  | 81 => ⟨S_, .f32⟩
  | 82 => ⟨S1024x1, .f32⟩
  | 83 => ⟨S1x100x32, .f32⟩
  | 84 => ⟨S100x32, .f32⟩
  | 85 => ⟨S_, .i32⟩
  | 86 => ⟨S1024x100, .i32⟩
  | 87 => ⟨S1024x100, .i1⟩
  | 88 => ⟨S_, .i32⟩
  | 89 => ⟨S1024x100, .i32⟩
  | 90 => ⟨S1024x100, .i32⟩
  | 91 => ⟨S1024x100, .i32⟩
  | 92 => ⟨S1024x100x1, .i32⟩
  | 93 => ⟨S1, .i32⟩
  | 94 => ⟨S_, .i32⟩
  | 95 => ⟨S1024x100x1, .i32⟩
  | 96 => ⟨S1024x100x1, .i1⟩
  | 97 => ⟨S1x1x1, .i32⟩
  | 98 => ⟨S1024x100x1, .i32⟩
  | 99 => ⟨S1024x100x1, .i1⟩
  | 100 => ⟨S1024x100x1, .i1⟩
  | 101 => ⟨S_, .i1⟩
  | 102 => ⟨S1024x100, .i1⟩
  | 103 => ⟨S1024x100x32, .f32⟩
  | 104 => ⟨S1024x100x32, .i1⟩
  | 105 => ⟨S_, .f32⟩
  | 106 => ⟨S1024x100x32, .f32⟩
  | 107 => ⟨S1024x100x32, .f32⟩
  | 108 => ⟨S1024x100, .i32⟩
  | 109 => ⟨S1x100x1, .f32⟩
  | 110 => ⟨S100x1, .f32⟩
  | 111 => ⟨S_, .i32⟩
  | 112 => ⟨S1024x100, .i32⟩
  | 113 => ⟨S1024x100, .i1⟩
  | 114 => ⟨S_, .i32⟩
  | 115 => ⟨S1024x100, .i32⟩
  | 116 => ⟨S1024x100, .i32⟩
  | 117 => ⟨S1024x100, .i32⟩
  | 118 => ⟨S1024x100x1, .i32⟩
  | 119 => ⟨S1, .i32⟩
  | 120 => ⟨S_, .i32⟩
  | 121 => ⟨S1024x100x1, .i32⟩
  | 122 => ⟨S1024x100x1, .i1⟩
  | 123 => ⟨S1x1x1, .i32⟩
  | 124 => ⟨S1024x100x1, .i32⟩
  | 125 => ⟨S1024x100x1, .i1⟩
  | 126 => ⟨S1024x100x1, .i1⟩
  | 127 => ⟨S_, .i1⟩
  | _ => ⟨S1024x2626, .i32⟩

abbrev hbmTy0_6 (i : Nat) : BufTy := match i % 128 with
  | 0 => ⟨S1024x100, .i1⟩
  | 1 => ⟨S1024x100x1, .f32⟩
  | 2 => ⟨S1024x100x1, .i1⟩
  | 3 => ⟨S_, .f32⟩
  | 4 => ⟨S1024x100x1, .f32⟩
  | 5 => ⟨S1024x100x1, .f32⟩
  | 6 => ⟨S_, .f32⟩
  | 7 => ⟨S1024x1, .f32⟩
  | 8 => ⟨S1x100x32, .f32⟩
  | 9 => ⟨S100x32, .f32⟩
  | 10 => ⟨S_, .i32⟩
  | 11 => ⟨S1024x100, .i32⟩
  | 12 => ⟨S1024x100, .i1⟩
  | 13 => ⟨S_, .i32⟩
  | 14 => ⟨S1024x100, .i32⟩
  | 15 => ⟨S1024x100, .i32⟩
  | 16 => ⟨S1024x100, .i32⟩
  | 17 => ⟨S1024x100x1, .i32⟩
  | 18 => ⟨S1, .i32⟩
  | 19 => ⟨S_, .i32⟩
  | 20 => ⟨S1024x100x1, .i32⟩
  | 21 => ⟨S1024x100x1, .i1⟩
  | 22 => ⟨S1x1x1, .i32⟩
  | 23 => ⟨S1024x100x1, .i32⟩
  | 24 => ⟨S1024x100x1, .i1⟩
  | 25 => ⟨S1024x100x1, .i1⟩
  | 26 => ⟨S_, .i1⟩
  | 27 => ⟨S1024x100, .i1⟩
  | 28 => ⟨S1024x100x32, .f32⟩
  | 29 => ⟨S1024x100x32, .i1⟩
  | 30 => ⟨S_, .f32⟩
  | 31 => ⟨S1024x100x32, .f32⟩
  | 32 => ⟨S1024x100x32, .f32⟩
  | 33 => ⟨S1024x100, .i32⟩
  | 34 => ⟨S1x100x1, .f32⟩
  | 35 => ⟨S100x1, .f32⟩
  | 36 => ⟨S_, .i32⟩
  | 37 => ⟨S1024x100, .i32⟩
  | 38 => ⟨S1024x100, .i1⟩
  | 39 => ⟨S_, .i32⟩
  | 40 => ⟨S1024x100, .i32⟩
  | 41 => ⟨S1024x100, .i32⟩
  | 42 => ⟨S1024x100, .i32⟩
  | 43 => ⟨S1024x100x1, .i32⟩
  | 44 => ⟨S1, .i32⟩
  | 45 => ⟨S_, .i32⟩
  | 46 => ⟨S1024x100x1, .i32⟩
  | 47 => ⟨S1024x100x1, .i1⟩
  | 48 => ⟨S1x1x1, .i32⟩
  | 49 => ⟨S1024x100x1, .i32⟩
  | 50 => ⟨S1024x100x1, .i1⟩
  | 51 => ⟨S1024x100x1, .i1⟩
  | 52 => ⟨S_, .i1⟩
  | 53 => ⟨S1024x100, .i1⟩
  | 54 => ⟨S1024x100x1, .f32⟩
  | 55 => ⟨S1024x100x1, .i1⟩
  | 56 => ⟨S_, .f32⟩
  | 57 => ⟨S1024x100x1, .f32⟩
  | 58 => ⟨S1024x100x1, .f32⟩
  | 59 => ⟨S_, .f32⟩
  | 60 => ⟨S1024x1, .f32⟩
  | 61 => ⟨S1x100x32, .f32⟩
  | 62 => ⟨S100x32, .f32⟩
  | 63 => ⟨S_, .i32⟩
  | 64 => ⟨S1024x100, .i32⟩
  | 65 => ⟨S1024x100, .i1⟩
  | 66 => ⟨S_, .i32⟩
  | 67 => ⟨S1024x100, .i32⟩
  | 68 => ⟨S1024x100, .i32⟩
  | 69 => ⟨S1024x100, .i32⟩
  | 70 => ⟨S1024x100x1, .i32⟩
  | 71 => ⟨S1, .i32⟩
  | 72 => ⟨S_, .i32⟩
  | 73 => ⟨S1024x100x1, .i32⟩
  | 74 => ⟨S1024x100x1, .i1⟩
  | 75 => ⟨S1x1x1, .i32⟩
  | 76 => ⟨S1024x100x1, .i32⟩
  | 77 => ⟨S1024x100x1, .i1⟩
  | 78 => ⟨S1024x100x1, .i1⟩
  | 79 => ⟨S_, .i1⟩
  | 80 => ⟨S1024x100, .i1⟩
  | 81 => ⟨S1024x100x32, .f32⟩
  | 82 => ⟨S1024x100x32, .i1⟩
  | 83 => ⟨S_, .f32⟩
  | 84 => ⟨S1024x100x32, .f32⟩
  | 85 => ⟨S1024x100x32, .f32⟩
  | 86 => ⟨S1024x100, .i32⟩
  | 87 => ⟨S1x100x1, .f32⟩
  | 88 => ⟨S100x1, .f32⟩
  | 89 => ⟨S_, .i32⟩
  | 90 => ⟨S1024x100, .i32⟩
  | 91 => ⟨S1024x100, .i1⟩
  | 92 => ⟨S_, .i32⟩
  | 93 => ⟨S1024x100, .i32⟩
  | 94 => ⟨S1024x100, .i32⟩
  | 95 => ⟨S1024x100, .i32⟩
  | 96 => ⟨S1024x100x1, .i32⟩
  | 97 => ⟨S1, .i32⟩
  | 98 => ⟨S_, .i32⟩
  | 99 => ⟨S1024x100x1, .i32⟩
  | 100 => ⟨S1024x100x1, .i1⟩
  | 101 => ⟨S1x1x1, .i32⟩
  | 102 => ⟨S1024x100x1, .i32⟩
  | 103 => ⟨S1024x100x1, .i1⟩
  | 104 => ⟨S1024x100x1, .i1⟩
  | 105 => ⟨S_, .i1⟩
  | 106 => ⟨S1024x100, .i1⟩
  | 107 => ⟨S1024x100x1, .f32⟩
  | 108 => ⟨S1024x100x1, .i1⟩
  | 109 => ⟨S_, .f32⟩
  | 110 => ⟨S1024x100x1, .f32⟩
  | 111 => ⟨S1024x100x1, .f32⟩
  | 112 => ⟨S_, .f32⟩
  | 113 => ⟨S1024x1, .f32⟩
  | 114 => ⟨S1x100x32, .f32⟩
  | 115 => ⟨S100x32, .f32⟩
  | 116 => ⟨S_, .i32⟩
  | 117 => ⟨S1024x100, .i32⟩
  | 118 => ⟨S1024x100, .i1⟩
  | 119 => ⟨S_, .i32⟩
  | 120 => ⟨S1024x100, .i32⟩
  | 121 => ⟨S1024x100, .i32⟩
  | 122 => ⟨S1024x100, .i32⟩
  | 123 => ⟨S1024x100x1, .i32⟩
  | 124 => ⟨S1, .i32⟩
  | 125 => ⟨S_, .i32⟩
  | 126 => ⟨S1024x100x1, .i32⟩
  | 127 => ⟨S1024x100x1, .i1⟩
  | _ => ⟨S1024x2626, .i32⟩

abbrev hbmTy0_7 (i : Nat) : BufTy := match i % 128 with
  | 0 => ⟨S1x1x1, .i32⟩
  | 1 => ⟨S1024x100x1, .i32⟩
  | 2 => ⟨S1024x100x1, .i1⟩
  | 3 => ⟨S1024x100x1, .i1⟩
  | 4 => ⟨S_, .i1⟩
  | 5 => ⟨S1024x100, .i1⟩
  | 6 => ⟨S1024x100x32, .f32⟩
  | 7 => ⟨S1024x100x32, .i1⟩
  | 8 => ⟨S_, .f32⟩
  | 9 => ⟨S1024x100x32, .f32⟩
  | 10 => ⟨S1024x100x32, .f32⟩
  | 11 => ⟨S1024x100, .i32⟩
  | 12 => ⟨S1x100x1, .f32⟩
  | 13 => ⟨S100x1, .f32⟩
  | 14 => ⟨S_, .i32⟩
  | 15 => ⟨S1024x100, .i32⟩
  | 16 => ⟨S1024x100, .i1⟩
  | 17 => ⟨S_, .i32⟩
  | 18 => ⟨S1024x100, .i32⟩
  | 19 => ⟨S1024x100, .i32⟩
  | 20 => ⟨S1024x100, .i32⟩
  | 21 => ⟨S1024x100x1, .i32⟩
  | 22 => ⟨S1, .i32⟩
  | 23 => ⟨S_, .i32⟩
  | 24 => ⟨S1024x100x1, .i32⟩
  | 25 => ⟨S1024x100x1, .i1⟩
  | 26 => ⟨S1x1x1, .i32⟩
  | 27 => ⟨S1024x100x1, .i32⟩
  | 28 => ⟨S1024x100x1, .i1⟩
  | 29 => ⟨S1024x100x1, .i1⟩
  | 30 => ⟨S_, .i1⟩
  | 31 => ⟨S1024x100, .i1⟩
  | 32 => ⟨S1024x100x1, .f32⟩
  | 33 => ⟨S1024x100x1, .i1⟩
  | 34 => ⟨S_, .f32⟩
  | 35 => ⟨S1024x100x1, .f32⟩
  | 36 => ⟨S1024x100x1, .f32⟩
  | 37 => ⟨S_, .f32⟩
  | 38 => ⟨S1024x1, .f32⟩
  | 39 => ⟨S1x100x32, .f32⟩
  | 40 => ⟨S100x32, .f32⟩
  | 41 => ⟨S_, .i32⟩
  | 42 => ⟨S1024x100, .i32⟩
  | 43 => ⟨S1024x100, .i1⟩
  | 44 => ⟨S_, .i32⟩
  | 45 => ⟨S1024x100, .i32⟩
  | 46 => ⟨S1024x100, .i32⟩
  | 47 => ⟨S1024x100, .i32⟩
  | 48 => ⟨S1024x100x1, .i32⟩
  | 49 => ⟨S1, .i32⟩
  | 50 => ⟨S_, .i32⟩
  | 51 => ⟨S1024x100x1, .i32⟩
  | 52 => ⟨S1024x100x1, .i1⟩
  | 53 => ⟨S1x1x1, .i32⟩
  | 54 => ⟨S1024x100x1, .i32⟩
  | 55 => ⟨S1024x100x1, .i1⟩
  | 56 => ⟨S1024x100x1, .i1⟩
  | 57 => ⟨S_, .i1⟩
  | 58 => ⟨S1024x100, .i1⟩
  | 59 => ⟨S1024x100x32, .f32⟩
  | 60 => ⟨S1024x100x32, .i1⟩
  | 61 => ⟨S_, .f32⟩
  | 62 => ⟨S1024x100x32, .f32⟩
  | 63 => ⟨S1024x100x32, .f32⟩
  | 64 => ⟨S1024x100, .i32⟩
  | 65 => ⟨S1x100x1, .f32⟩
  | 66 => ⟨S100x1, .f32⟩
  | 67 => ⟨S_, .i32⟩
  | 68 => ⟨S1024x100, .i32⟩
  | 69 => ⟨S1024x100, .i1⟩
  | 70 => ⟨S_, .i32⟩
  | 71 => ⟨S1024x100, .i32⟩
  | 72 => ⟨S1024x100, .i32⟩
  | 73 => ⟨S1024x100, .i32⟩
  | 74 => ⟨S1024x100x1, .i32⟩
  | 75 => ⟨S1, .i32⟩
  | 76 => ⟨S_, .i32⟩
  | 77 => ⟨S1024x100x1, .i32⟩
  | 78 => ⟨S1024x100x1, .i1⟩
  | 79 => ⟨S1x1x1, .i32⟩
  | 80 => ⟨S1024x100x1, .i32⟩
  | 81 => ⟨S1024x100x1, .i1⟩
  | 82 => ⟨S1024x100x1, .i1⟩
  | 83 => ⟨S_, .i1⟩
  | 84 => ⟨S1024x100, .i1⟩
  | 85 => ⟨S1024x100x1, .f32⟩
  | 86 => ⟨S1024x100x1, .i1⟩
  | 87 => ⟨S_, .f32⟩
  | 88 => ⟨S1024x100x1, .f32⟩
  | 89 => ⟨S1024x100x1, .f32⟩
  | 90 => ⟨S_, .f32⟩
  | 91 => ⟨S1024x1, .f32⟩
  | 92 => ⟨S1x100x32, .f32⟩
  | 93 => ⟨S100x32, .f32⟩
  | 94 => ⟨S_, .i32⟩
  | 95 => ⟨S1024x100, .i32⟩
  | 96 => ⟨S1024x100, .i1⟩
  | 97 => ⟨S_, .i32⟩
  | 98 => ⟨S1024x100, .i32⟩
  | 99 => ⟨S1024x100, .i32⟩
  | 100 => ⟨S1024x100, .i32⟩
  | 101 => ⟨S1024x100x1, .i32⟩
  | 102 => ⟨S1, .i32⟩
  | 103 => ⟨S_, .i32⟩
  | 104 => ⟨S1024x100x1, .i32⟩
  | 105 => ⟨S1024x100x1, .i1⟩
  | 106 => ⟨S1x1x1, .i32⟩
  | 107 => ⟨S1024x100x1, .i32⟩
  | 108 => ⟨S1024x100x1, .i1⟩
  | 109 => ⟨S1024x100x1, .i1⟩
  | 110 => ⟨S_, .i1⟩
  | 111 => ⟨S1024x100, .i1⟩
  | 112 => ⟨S1024x100x32, .f32⟩
  | 113 => ⟨S1024x100x32, .i1⟩
  | 114 => ⟨S_, .f32⟩
  | 115 => ⟨S1024x100x32, .f32⟩
  | 116 => ⟨S1024x100x32, .f32⟩
  | 117 => ⟨S1024x100, .i32⟩
  | 118 => ⟨S1x100x1, .f32⟩
  | 119 => ⟨S100x1, .f32⟩
  | 120 => ⟨S_, .i32⟩
  | 121 => ⟨S1024x100, .i32⟩
  | 122 => ⟨S1024x100, .i1⟩
  | 123 => ⟨S_, .i32⟩
  | 124 => ⟨S1024x100, .i32⟩
  | 125 => ⟨S1024x100, .i32⟩
  | 126 => ⟨S1024x100, .i32⟩
  | 127 => ⟨S1024x100x1, .i32⟩
  | _ => ⟨S1024x2626, .i32⟩

abbrev hbmTy0_8 (i : Nat) : BufTy := match i % 128 with
  | 0 => ⟨S1, .i32⟩
  | 1 => ⟨S_, .i32⟩
  | 2 => ⟨S1024x100x1, .i32⟩
  | 3 => ⟨S1024x100x1, .i1⟩
  | 4 => ⟨S1x1x1, .i32⟩
  | 5 => ⟨S1024x100x1, .i32⟩
  | 6 => ⟨S1024x100x1, .i1⟩
  | 7 => ⟨S1024x100x1, .i1⟩
  | 8 => ⟨S_, .i1⟩
  | 9 => ⟨S1024x100, .i1⟩
  | 10 => ⟨S1024x100x1, .f32⟩
  | 11 => ⟨S1024x100x1, .i1⟩
  | 12 => ⟨S_, .f32⟩
  | 13 => ⟨S1024x100x1, .f32⟩
  | 14 => ⟨S1024x100x1, .f32⟩
  | 15 => ⟨S_, .f32⟩
  | 16 => ⟨S1024x1, .f32⟩
  | 17 => ⟨S1x100x32, .f32⟩
  | 18 => ⟨S100x32, .f32⟩
  | 19 => ⟨S_, .i32⟩
  | 20 => ⟨S1024x100, .i32⟩
  | 21 => ⟨S1024x100, .i1⟩
  | 22 => ⟨S_, .i32⟩
  | 23 => ⟨S1024x100, .i32⟩
  | 24 => ⟨S1024x100, .i32⟩
  | 25 => ⟨S1024x100, .i32⟩
  | 26 => ⟨S1024x100x1, .i32⟩
  | 27 => ⟨S1, .i32⟩
  | 28 => ⟨S_, .i32⟩
  | 29 => ⟨S1024x100x1, .i32⟩
  | 30 => ⟨S1024x100x1, .i1⟩
  | 31 => ⟨S1x1x1, .i32⟩
  | 32 => ⟨S1024x100x1, .i32⟩
  | 33 => ⟨S1024x100x1, .i1⟩
  | 34 => ⟨S1024x100x1, .i1⟩
  | 35 => ⟨S_, .i1⟩
  | 36 => ⟨S1024x100, .i1⟩
  | 37 => ⟨S1024x100x32, .f32⟩
  | 38 => ⟨S1024x100x32, .i1⟩
  | 39 => ⟨S_, .f32⟩
  | 40 => ⟨S1024x100x32, .f32⟩
  | 41 => ⟨S1024x100x32, .f32⟩
  | 42 => ⟨S1024x100, .i32⟩
  | 43 => ⟨S1x100x1, .f32⟩
  | 44 => ⟨S100x1, .f32⟩
  | 45 => ⟨S_, .i32⟩
  | 46 => ⟨S1024x100, .i32⟩
  | 47 => ⟨S1024x100, .i1⟩
  | 48 => ⟨S_, .i32⟩
  | 49 => ⟨S1024x100, .i32⟩
  | 50 => ⟨S1024x100, .i32⟩
  | 51 => ⟨S1024x100, .i32⟩
  | 52 => ⟨S1024x100x1, .i32⟩
  | 53 => ⟨S1, .i32⟩
  | 54 => ⟨S_, .i32⟩
  | 55 => ⟨S1024x100x1, .i32⟩
  | 56 => ⟨S1024x100x1, .i1⟩
  | 57 => ⟨S1x1x1, .i32⟩
  | 58 => ⟨S1024x100x1, .i32⟩
  | 59 => ⟨S1024x100x1, .i1⟩
  | 60 => ⟨S1024x100x1, .i1⟩
  | 61 => ⟨S_, .i1⟩
  | 62 => ⟨S1024x100, .i1⟩
  | 63 => ⟨S1024x100x1, .f32⟩
  | 64 => ⟨S1024x100x1, .i1⟩
  | 65 => ⟨S_, .f32⟩
  | 66 => ⟨S1024x100x1, .f32⟩
  | 67 => ⟨S1024x100x1, .f32⟩
  | 68 => ⟨S_, .f32⟩
  | 69 => ⟨S1024x1, .f32⟩
  | 70 => ⟨S1x100x32, .f32⟩
  | 71 => ⟨S100x32, .f32⟩
  | 72 => ⟨S_, .i32⟩
  | 73 => ⟨S1024x100, .i32⟩
  | 74 => ⟨S1024x100, .i1⟩
  | 75 => ⟨S_, .i32⟩
  | 76 => ⟨S1024x100, .i32⟩
  | 77 => ⟨S1024x100, .i32⟩
  | 78 => ⟨S1024x100, .i32⟩
  | 79 => ⟨S1024x100x1, .i32⟩
  | 80 => ⟨S1, .i32⟩
  | 81 => ⟨S_, .i32⟩
  | 82 => ⟨S1024x100x1, .i32⟩
  | 83 => ⟨S1024x100x1, .i1⟩
  | 84 => ⟨S1x1x1, .i32⟩
  | 85 => ⟨S1024x100x1, .i32⟩
  | 86 => ⟨S1024x100x1, .i1⟩
  | 87 => ⟨S1024x100x1, .i1⟩
  | 88 => ⟨S_, .i1⟩
  | 89 => ⟨S1024x100, .i1⟩
  | 90 => ⟨S1024x100x32, .f32⟩
  | 91 => ⟨S1024x100x32, .i1⟩
  | 92 => ⟨S_, .f32⟩
  | 93 => ⟨S1024x100x32, .f32⟩
  | 94 => ⟨S1024x100x32, .f32⟩
  | 95 => ⟨S1024x100, .i32⟩
  | 96 => ⟨S1x100x1, .f32⟩
  | 97 => ⟨S100x1, .f32⟩
  | 98 => ⟨S_, .i32⟩
  | 99 => ⟨S1024x100, .i32⟩
  | 100 => ⟨S1024x100, .i1⟩
  | 101 => ⟨S_, .i32⟩
  | 102 => ⟨S1024x100, .i32⟩
  | 103 => ⟨S1024x100, .i32⟩
  | 104 => ⟨S1024x100, .i32⟩
  | 105 => ⟨S1024x100x1, .i32⟩
  | 106 => ⟨S1, .i32⟩
  | 107 => ⟨S_, .i32⟩
  | 108 => ⟨S1024x100x1, .i32⟩
  | 109 => ⟨S1024x100x1, .i1⟩
  | 110 => ⟨S1x1x1, .i32⟩
  | 111 => ⟨S1024x100x1, .i32⟩
  | 112 => ⟨S1024x100x1, .i1⟩
  | 113 => ⟨S1024x100x1, .i1⟩
  | 114 => ⟨S_, .i1⟩
  | 115 => ⟨S1024x100, .i1⟩
  | 116 => ⟨S1024x100x1, .f32⟩
  | 117 => ⟨S1024x100x1, .i1⟩
  | 118 => ⟨S_, .f32⟩
  | 119 => ⟨S1024x100x1, .f32⟩
  | 120 => ⟨S1024x100x1, .f32⟩
  | 121 => ⟨S_, .f32⟩
  | 122 => ⟨S1024x1, .f32⟩
  | 123 => ⟨S1x100x32, .f32⟩
  | 124 => ⟨S100x32, .f32⟩
  | 125 => ⟨S_, .i32⟩
  | 126 => ⟨S1024x100, .i32⟩
  | 127 => ⟨S1024x100, .i1⟩
  | _ => ⟨S1024x2626, .i32⟩

abbrev hbmTy0_9 (i : Nat) : BufTy := match i % 128 with
  | 0 => ⟨S_, .i32⟩
  | 1 => ⟨S1024x100, .i32⟩
  | 2 => ⟨S1024x100, .i32⟩
  | 3 => ⟨S1024x100, .i32⟩
  | 4 => ⟨S1024x100x1, .i32⟩
  | 5 => ⟨S1, .i32⟩
  | 6 => ⟨S_, .i32⟩
  | 7 => ⟨S1024x100x1, .i32⟩
  | 8 => ⟨S1024x100x1, .i1⟩
  | 9 => ⟨S1x1x1, .i32⟩
  | 10 => ⟨S1024x100x1, .i32⟩
  | 11 => ⟨S1024x100x1, .i1⟩
  | 12 => ⟨S1024x100x1, .i1⟩
  | 13 => ⟨S_, .i1⟩
  | 14 => ⟨S1024x100, .i1⟩
  | 15 => ⟨S1024x100x32, .f32⟩
  | 16 => ⟨S1024x100x32, .i1⟩
  | 17 => ⟨S_, .f32⟩
  | 18 => ⟨S1024x100x32, .f32⟩
  | 19 => ⟨S1024x100x32, .f32⟩
  | 20 => ⟨S1024x100, .i32⟩
  | 21 => ⟨S1x100x1, .f32⟩
  | 22 => ⟨S100x1, .f32⟩
  | 23 => ⟨S_, .i32⟩
  | 24 => ⟨S1024x100, .i32⟩
  | 25 => ⟨S1024x100, .i1⟩
  | 26 => ⟨S_, .i32⟩
  | 27 => ⟨S1024x100, .i32⟩
  | 28 => ⟨S1024x100, .i32⟩
  | 29 => ⟨S1024x100, .i32⟩
  | 30 => ⟨S1024x100x1, .i32⟩
  | 31 => ⟨S1, .i32⟩
  | 32 => ⟨S_, .i32⟩
  | 33 => ⟨S1024x100x1, .i32⟩
  | 34 => ⟨S1024x100x1, .i1⟩
  | 35 => ⟨S1x1x1, .i32⟩
  | 36 => ⟨S1024x100x1, .i32⟩
  | 37 => ⟨S1024x100x1, .i1⟩
  | 38 => ⟨S1024x100x1, .i1⟩
  | 39 => ⟨S_, .i1⟩
  | 40 => ⟨S1024x100, .i1⟩
  | 41 => ⟨S1024x100x1, .f32⟩
  | 42 => ⟨S1024x100x1, .i1⟩
  | 43 => ⟨S_, .f32⟩
  | 44 => ⟨S1024x100x1, .f32⟩
  | 45 => ⟨S1024x100x1, .f32⟩
  | 46 => ⟨S_, .f32⟩
  | 47 => ⟨S1024x1, .f32⟩
  | 48 => ⟨S1x100x32, .f32⟩
  | 49 => ⟨S100x32, .f32⟩
  | 50 => ⟨S_, .i32⟩
  | 51 => ⟨S1024x100, .i32⟩
  | 52 => ⟨S1024x100, .i1⟩
  | 53 => ⟨S_, .i32⟩
  | 54 => ⟨S1024x100, .i32⟩
  | 55 => ⟨S1024x100, .i32⟩
  | 56 => ⟨S1024x100, .i32⟩
  | 57 => ⟨S1024x100x1, .i32⟩
  | 58 => ⟨S1, .i32⟩
  | 59 => ⟨S_, .i32⟩
  | 60 => ⟨S1024x100x1, .i32⟩
  | 61 => ⟨S1024x100x1, .i1⟩
  | 62 => ⟨S1x1x1, .i32⟩
  | 63 => ⟨S1024x100x1, .i32⟩
  | 64 => ⟨S1024x100x1, .i1⟩
  | 65 => ⟨S1024x100x1, .i1⟩
  | 66 => ⟨S_, .i1⟩
  | 67 => ⟨S1024x100, .i1⟩
  | 68 => ⟨S1024x100x32, .f32⟩
  | 69 => ⟨S1024x100x32, .i1⟩
  | 70 => ⟨S_, .f32⟩
  | 71 => ⟨S1024x100x32, .f32⟩
  | 72 => ⟨S1024x100x32, .f32⟩
  | 73 => ⟨S1024x100, .i32⟩
  | 74 => ⟨S1x100x1, .f32⟩
  | 75 => ⟨S100x1, .f32⟩
  | 76 => ⟨S_, .i32⟩
  | 77 => ⟨S1024x100, .i32⟩
  | 78 => ⟨S1024x100, .i1⟩
  | 79 => ⟨S_, .i32⟩
  | 80 => ⟨S1024x100, .i32⟩
  | 81 => ⟨S1024x100, .i32⟩
  | 82 => ⟨S1024x100, .i32⟩
  | 83 => ⟨S1024x100x1, .i32⟩
  | 84 => ⟨S1, .i32⟩
  | 85 => ⟨S_, .i32⟩
  | 86 => ⟨S1024x100x1, .i32⟩
  | 87 => ⟨S1024x100x1, .i1⟩
  | 88 => ⟨S1x1x1, .i32⟩
  | 89 => ⟨S1024x100x1, .i32⟩
  | 90 => ⟨S1024x100x1, .i1⟩
  | 91 => ⟨S1024x100x1, .i1⟩
  | 92 => ⟨S_, .i1⟩
  | 93 => ⟨S1024x100, .i1⟩
  | 94 => ⟨S1024x100x1, .f32⟩
  | 95 => ⟨S1024x100x1, .i1⟩
  | 96 => ⟨S_, .f32⟩
  | 97 => ⟨S1024x100x1, .f32⟩
  | 98 => ⟨S1024x100x1, .f32⟩
  | 99 => ⟨S_, .f32⟩
  | 100 => ⟨S1024x1, .f32⟩
  | 101 => ⟨S1x100x32, .f32⟩
  | 102 => ⟨S100x32, .f32⟩
  | 103 => ⟨S_, .i32⟩
  | 104 => ⟨S1024x100, .i32⟩
  | 105 => ⟨S1024x100, .i1⟩
  | 106 => ⟨S_, .i32⟩
  | 107 => ⟨S1024x100, .i32⟩
  | 108 => ⟨S1024x100, .i32⟩
  | 109 => ⟨S1024x100, .i32⟩
  | 110 => ⟨S1024x100x1, .i32⟩
  | 111 => ⟨S1, .i32⟩
  | 112 => ⟨S_, .i32⟩
  | 113 => ⟨S1024x100x1, .i32⟩
  | 114 => ⟨S1024x100x1, .i1⟩
  | 115 => ⟨S1x1x1, .i32⟩
  | 116 => ⟨S1024x100x1, .i32⟩
  | 117 => ⟨S1024x100x1, .i1⟩
  | 118 => ⟨S1024x100x1, .i1⟩
  | 119 => ⟨S_, .i1⟩
  | 120 => ⟨S1024x100, .i1⟩
  | 121 => ⟨S1024x100x32, .f32⟩
  | 122 => ⟨S1024x100x32, .i1⟩
  | 123 => ⟨S_, .f32⟩
  | 124 => ⟨S1024x100x32, .f32⟩
  | 125 => ⟨S1024x100x32, .f32⟩
  | 126 => ⟨S1024x100, .i32⟩
  | 127 => ⟨S1x100x1, .f32⟩
  | _ => ⟨S1024x2626, .i32⟩

abbrev hbmTy0_10 (i : Nat) : BufTy := match i % 128 with
  | 0 => ⟨S100x1, .f32⟩
  | 1 => ⟨S_, .i32⟩
  | 2 => ⟨S1024x100, .i32⟩
  | 3 => ⟨S1024x100, .i1⟩
  | 4 => ⟨S_, .i32⟩
  | 5 => ⟨S1024x100, .i32⟩
  | 6 => ⟨S1024x100, .i32⟩
  | 7 => ⟨S1024x100, .i32⟩
  | 8 => ⟨S1024x100x1, .i32⟩
  | 9 => ⟨S1, .i32⟩
  | 10 => ⟨S_, .i32⟩
  | 11 => ⟨S1024x100x1, .i32⟩
  | 12 => ⟨S1024x100x1, .i1⟩
  | 13 => ⟨S1x1x1, .i32⟩
  | 14 => ⟨S1024x100x1, .i32⟩
  | 15 => ⟨S1024x100x1, .i1⟩
  | 16 => ⟨S1024x100x1, .i1⟩
  | 17 => ⟨S_, .i1⟩
  | 18 => ⟨S1024x100, .i1⟩
  | 19 => ⟨S1024x100x1, .f32⟩
  | 20 => ⟨S1024x100x1, .i1⟩
  | 21 => ⟨S_, .f32⟩
  | 22 => ⟨S1024x100x1, .f32⟩
  | 23 => ⟨S1024x100x1, .f32⟩
  | 24 => ⟨S_, .f32⟩
  | 25 => ⟨S1024x1, .f32⟩
  | 26 => ⟨S1x100x32, .f32⟩
  | 27 => ⟨S100x32, .f32⟩
  | 28 => ⟨S_, .i32⟩
  | 29 => ⟨S1024x100, .i32⟩
  | 30 => ⟨S1024x100, .i1⟩
  | 31 => ⟨S_, .i32⟩
  | 32 => ⟨S1024x100, .i32⟩
  | 33 => ⟨S1024x100, .i32⟩
  | 34 => ⟨S1024x100, .i32⟩
  | 35 => ⟨S1024x100x1, .i32⟩
  | 36 => ⟨S1, .i32⟩
  | 37 => ⟨S_, .i32⟩
  | 38 => ⟨S1024x100x1, .i32⟩
  | 39 => ⟨S1024x100x1, .i1⟩
  | 40 => ⟨S1x1x1, .i32⟩
  | 41 => ⟨S1024x100x1, .i32⟩
  | 42 => ⟨S1024x100x1, .i1⟩
  | 43 => ⟨S1024x100x1, .i1⟩
  | 44 => ⟨S_, .i1⟩
  | 45 => ⟨S1024x100, .i1⟩
  | 46 => ⟨S1024x100x32, .f32⟩
  | 47 => ⟨S1024x100x32, .i1⟩
  | 48 => ⟨S_, .f32⟩
  | 49 => ⟨S1024x100x32, .f32⟩
  | 50 => ⟨S1024x100x32, .f32⟩
  | 51 => ⟨S1024x100, .i32⟩
  | 52 => ⟨S1x100x1, .f32⟩
  | 53 => ⟨S100x1, .f32⟩
  | 54 => ⟨S_, .i32⟩
  | 55 => ⟨S1024x100, .i32⟩
  | 56 => ⟨S1024x100, .i1⟩
  | 57 => ⟨S_, .i32⟩
  | 58 => ⟨S1024x100, .i32⟩
  | 59 => ⟨S1024x100, .i32⟩
  | 60 => ⟨S1024x100, .i32⟩
  | 61 => ⟨S1024x100x1, .i32⟩
  | 62 => ⟨S1, .i32⟩
  | 63 => ⟨S_, .i32⟩
  | 64 => ⟨S1024x100x1, .i32⟩
  | 65 => ⟨S1024x100x1, .i1⟩
  | 66 => ⟨S1x1x1, .i32⟩
  | 67 => ⟨S1024x100x1, .i32⟩
  | 68 => ⟨S1024x100x1, .i1⟩
  | 69 => ⟨S1024x100x1, .i1⟩
  | 70 => ⟨S_, .i1⟩
  | 71 => ⟨S1024x100, .i1⟩
  | 72 => ⟨S1024x100x1, .f32⟩
  | 73 => ⟨S1024x100x1, .i1⟩
  | 74 => ⟨S_, .f32⟩
  | 75 => ⟨S1024x100x1, .f32⟩
  | 76 => ⟨S1024x100x1, .f32⟩
  | 77 => ⟨S_, .f32⟩
  | 78 => ⟨S1024x1, .f32⟩
  | 79 => ⟨S1x100x32, .f32⟩
  | 80 => ⟨S100x32, .f32⟩
  | 81 => ⟨S_, .i32⟩
  | 82 => ⟨S1024x100, .i32⟩
  | 83 => ⟨S1024x100, .i1⟩
  | 84 => ⟨S_, .i32⟩
  | 85 => ⟨S1024x100, .i32⟩
  | 86 => ⟨S1024x100, .i32⟩
  | 87 => ⟨S1024x100, .i32⟩
  | 88 => ⟨S1024x100x1, .i32⟩
  | 89 => ⟨S1, .i32⟩
  | 90 => ⟨S_, .i32⟩
  | 91 => ⟨S1024x100x1, .i32⟩
  | 92 => ⟨S1024x100x1, .i1⟩
  | 93 => ⟨S1x1x1, .i32⟩
  | 94 => ⟨S1024x100x1, .i32⟩
  | 95 => ⟨S1024x100x1, .i1⟩
  | 96 => ⟨S1024x100x1, .i1⟩
  | 97 => ⟨S_, .i1⟩
  | 98 => ⟨S1024x100, .i1⟩
  | 99 => ⟨S1024x100x32, .f32⟩
  | 100 => ⟨S1024x100x32, .i1⟩
  | 101 => ⟨S_, .f32⟩
  | 102 => ⟨S1024x100x32, .f32⟩
  | 103 => ⟨S1024x100x32, .f32⟩
  | 104 => ⟨S1024x16, .f32⟩
  | 105 => ⟨S1024x10, .f32⟩
  | 106 => ⟨S1024x26, .f32⟩
  | 107 => ⟨S1024x39, .f32⟩
  | 108 => ⟨S1024x1, .f32⟩
  | 109 => ⟨S1x1, .f32⟩
  | 110 => ⟨S1024x1, .f32⟩
  | 111 => ⟨S1024x1, .f32⟩
  | 112 => ⟨S1024x1600x32, .f32⟩
  | 113 => ⟨S1024x1000x32, .f32⟩
  | 114 => ⟨S1024x2600x32, .f32⟩
  | 115 => ⟨S_, .f32⟩
  | 116 => ⟨S1024x32, .f32⟩
  | 117 => ⟨S1024x1x32, .f32⟩
  | 118 => ⟨S1024x1x32, .f32⟩
  | 119 => ⟨S1024x2600x32, .f32⟩
  | 120 => ⟨S_, .f32⟩
  | 121 => ⟨S1024x32, .f32⟩
  | 122 => ⟨S1024x1x32, .f32⟩
  | 123 => ⟨S1024x1x32, .f32⟩
  | 124 => ⟨S_, .f32⟩
  | 125 => ⟨S1024x1, .f32⟩
  | 126 => ⟨S_, .f32⟩
  | 127 => ⟨S1024x1, .f32⟩
  | _ => ⟨S1024x2626, .i32⟩

abbrev hbmTy0_11 (i : Nat) : BufTy := match i % 128 with
  | 0 => ⟨S1024x1, .f32⟩
  | 1 => ⟨S1024x1, .f32⟩
  | 2 => ⟨S1024x1, .f32⟩
  | 3 => ⟨S1024x1, .f32⟩
  | 4 => ⟨S_, .f32⟩
  | 5 => ⟨S1024x1, .f32⟩
  | 6 => ⟨S1024x1, .f32⟩
  | 7 => ⟨S_, .f32⟩
  | 8 => ⟨S1024x1, .f32⟩
  | 9 => ⟨S1024x1, .f32⟩
  | _ => ⟨S1024x2626, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S1024x2626, .i32⟩

abbrev bufTy : (tb : Table) → Fin (tcTables nBuf tb) → BufTy
  | .hbm, ⟨i, _⟩ => hbmTy i
  | _, _ => ⟨S1024x2626, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v11 : Ref sig .tc := ⟨.hbm, 84, rfl⟩
abbrev main_cst_0 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v19 : Ref sig .tc := ⟨.hbm, 137, rfl⟩
abbrev main_cst_1 : Ref sig .tc := ⟨.hbm, 138, rfl⟩
abbrev main_v20 : Ref sig .tc := ⟨.hbm, 139, rfl⟩
abbrev main_v21 : Ref sig .tc := ⟨.hbm, 140, rfl⟩
abbrev main_v22 : Ref sig .tc := ⟨.hbm, 141, rfl⟩
abbrev main_call5_c : Ref sig .tc := ⟨.hbm, 142, rfl⟩
abbrev main_call5_v0 : Ref sig .tc := ⟨.hbm, 143, rfl⟩
abbrev main_call5_v1 : Ref sig .tc := ⟨.hbm, 144, rfl⟩
abbrev main_call5_c_0 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_c_1 : Ref sig .tc := ⟨.hbm, 150, rfl⟩
abbrev main_call5_c_2 : Ref sig .tc := ⟨.hbm, 151, rfl⟩
abbrev main_call5_v6 : Ref sig .tc := ⟨.hbm, 152, rfl⟩
abbrev main_call5_v7 : Ref sig .tc := ⟨.hbm, 153, rfl⟩
abbrev main_call5_v8 : Ref sig .tc := ⟨.hbm, 154, rfl⟩
abbrev main_call5_v9 : Ref sig .tc := ⟨.hbm, 155, rfl⟩
abbrev main_call5_v10 : Ref sig .tc := ⟨.hbm, 156, rfl⟩
abbrev main_call5_v11 : Ref sig .tc := ⟨.hbm, 157, rfl⟩
abbrev main_call5_c_3 : Ref sig .tc := ⟨.hbm, 158, rfl⟩
abbrev main_call5_v12 : Ref sig .tc := ⟨.hbm, 159, rfl⟩
abbrev main_call5_v13 : Ref sig .tc := ⟨.hbm, 160, rfl⟩
abbrev main_call5_v14 : Ref sig .tc := ⟨.hbm, 161, rfl⟩
abbrev main_call5_cst : Ref sig .tc := ⟨.hbm, 162, rfl⟩
abbrev main_call5_v15 : Ref sig .tc := ⟨.hbm, 163, rfl⟩
abbrev main_v23 : Ref sig .tc := ⟨.hbm, 164, rfl⟩
abbrev main_v24 : Ref sig .tc := ⟨.hbm, 165, rfl⟩
abbrev main_v25 : Ref sig .tc := ⟨.hbm, 166, rfl⟩
abbrev main_v26 : Ref sig .tc := ⟨.hbm, 167, rfl⟩
abbrev main_call6_c : Ref sig .tc := ⟨.hbm, 168, rfl⟩
abbrev main_call6_v0 : Ref sig .tc := ⟨.hbm, 169, rfl⟩
abbrev main_call6_v1 : Ref sig .tc := ⟨.hbm, 170, rfl⟩
abbrev main_call6_c_0 : Ref sig .tc := ⟨.hbm, 171, rfl⟩
abbrev main_call6_v2 : Ref sig .tc := ⟨.hbm, 172, rfl⟩
abbrev main_call6_v3 : Ref sig .tc := ⟨.hbm, 173, rfl⟩
abbrev main_call6_v4 : Ref sig .tc := ⟨.hbm, 174, rfl⟩
abbrev main_call6_v5 : Ref sig .tc := ⟨.hbm, 175, rfl⟩
abbrev main_call6_c_1 : Ref sig .tc := ⟨.hbm, 176, rfl⟩
abbrev main_call6_c_2 : Ref sig .tc := ⟨.hbm, 177, rfl⟩
abbrev main_call6_v6 : Ref sig .tc := ⟨.hbm, 178, rfl⟩
abbrev main_call6_v7 : Ref sig .tc := ⟨.hbm, 179, rfl⟩
abbrev main_call6_v8 : Ref sig .tc := ⟨.hbm, 180, rfl⟩
abbrev main_call6_v9 : Ref sig .tc := ⟨.hbm, 181, rfl⟩
abbrev main_call6_v10 : Ref sig .tc := ⟨.hbm, 182, rfl⟩
abbrev main_call6_v11 : Ref sig .tc := ⟨.hbm, 183, rfl⟩
abbrev main_call6_c_3 : Ref sig .tc := ⟨.hbm, 184, rfl⟩
abbrev main_call6_v12 : Ref sig .tc := ⟨.hbm, 185, rfl⟩
abbrev main_call6_v13 : Ref sig .tc := ⟨.hbm, 186, rfl⟩
abbrev main_call6_v14 : Ref sig .tc := ⟨.hbm, 187, rfl⟩
abbrev main_call6_cst : Ref sig .tc := ⟨.hbm, 188, rfl⟩
abbrev main_call6_v15 : Ref sig .tc := ⟨.hbm, 189, rfl⟩
abbrev main_v27 : Ref sig .tc := ⟨.hbm, 190, rfl⟩
abbrev main_cst_2 : Ref sig .tc := ⟨.hbm, 191, rfl⟩
abbrev main_v28 : Ref sig .tc := ⟨.hbm, 192, rfl⟩
abbrev main_v29 : Ref sig .tc := ⟨.hbm, 193, rfl⟩
abbrev main_v30 : Ref sig .tc := ⟨.hbm, 194, rfl⟩
abbrev main_call7_c : Ref sig .tc := ⟨.hbm, 195, rfl⟩
abbrev main_call7_v0 : Ref sig .tc := ⟨.hbm, 196, rfl⟩
abbrev main_call7_v1 : Ref sig .tc := ⟨.hbm, 197, rfl⟩
abbrev main_call7_c_0 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_call7_v5 : Ref sig .tc := ⟨.hbm, 202, rfl⟩
abbrev main_call7_c_1 : Ref sig .tc := ⟨.hbm, 203, rfl⟩
abbrev main_call7_c_2 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_v9 : Ref sig .tc := ⟨.hbm, 208, rfl⟩
abbrev main_call7_v10 : Ref sig .tc := ⟨.hbm, 209, rfl⟩
abbrev main_call7_v11 : Ref sig .tc := ⟨.hbm, 210, rfl⟩
abbrev main_call7_c_3 : Ref sig .tc := ⟨.hbm, 211, rfl⟩
abbrev main_call7_v12 : Ref sig .tc := ⟨.hbm, 212, rfl⟩
abbrev main_call7_v13 : Ref sig .tc := ⟨.hbm, 213, rfl⟩
abbrev main_call7_v14 : Ref sig .tc := ⟨.hbm, 214, rfl⟩
abbrev main_call7_cst : Ref sig .tc := ⟨.hbm, 215, rfl⟩
abbrev main_call7_v15 : Ref sig .tc := ⟨.hbm, 216, rfl⟩
abbrev main_v31 : Ref sig .tc := ⟨.hbm, 217, rfl⟩
abbrev main_v32 : Ref sig .tc := ⟨.hbm, 218, rfl⟩
abbrev main_v33 : Ref sig .tc := ⟨.hbm, 219, rfl⟩
abbrev main_v34 : Ref sig .tc := ⟨.hbm, 220, rfl⟩
abbrev main_call8_c : Ref sig .tc := ⟨.hbm, 221, rfl⟩
abbrev main_call8_v0 : Ref sig .tc := ⟨.hbm, 222, rfl⟩
abbrev main_call8_v1 : Ref sig .tc := ⟨.hbm, 223, rfl⟩
abbrev main_call8_c_0 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_call8_v5 : Ref sig .tc := ⟨.hbm, 228, rfl⟩
abbrev main_call8_c_1 : Ref sig .tc := ⟨.hbm, 229, rfl⟩
abbrev main_call8_c_2 : Ref sig .tc := ⟨.hbm, 230, rfl⟩
abbrev main_call8_v6 : Ref sig .tc := ⟨.hbm, 231, rfl⟩
abbrev main_call8_v7 : Ref sig .tc := ⟨.hbm, 232, rfl⟩
abbrev main_call8_v8 : Ref sig .tc := ⟨.hbm, 233, rfl⟩
abbrev main_call8_v9 : Ref sig .tc := ⟨.hbm, 234, rfl⟩
abbrev main_call8_v10 : Ref sig .tc := ⟨.hbm, 235, rfl⟩
abbrev main_call8_v11 : Ref sig .tc := ⟨.hbm, 236, rfl⟩
abbrev main_call8_c_3 : Ref sig .tc := ⟨.hbm, 237, rfl⟩
abbrev main_call8_v12 : Ref sig .tc := ⟨.hbm, 238, rfl⟩
abbrev main_call8_v13 : Ref sig .tc := ⟨.hbm, 239, rfl⟩
abbrev main_call8_v14 : Ref sig .tc := ⟨.hbm, 240, rfl⟩
abbrev main_call8_cst : Ref sig .tc := ⟨.hbm, 241, rfl⟩
abbrev main_call8_v15 : Ref sig .tc := ⟨.hbm, 242, rfl⟩
abbrev main_v35 : Ref sig .tc := ⟨.hbm, 243, rfl⟩
abbrev main_cst_3 : Ref sig .tc := ⟨.hbm, 244, rfl⟩
abbrev main_v36 : Ref sig .tc := ⟨.hbm, 245, rfl⟩
abbrev main_v37 : Ref sig .tc := ⟨.hbm, 246, rfl⟩
abbrev main_v38 : Ref sig .tc := ⟨.hbm, 247, rfl⟩
abbrev main_call9_c : Ref sig .tc := ⟨.hbm, 248, rfl⟩
abbrev main_call9_v0 : Ref sig .tc := ⟨.hbm, 249, rfl⟩
abbrev main_call9_v1 : Ref sig .tc := ⟨.hbm, 250, rfl⟩
abbrev main_call9_c_0 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_call9_v5 : Ref sig .tc := ⟨.hbm, 255, rfl⟩
abbrev main_call9_c_1 : Ref sig .tc := ⟨.hbm, 256, rfl⟩
abbrev main_call9_c_2 : Ref sig .tc := ⟨.hbm, 257, rfl⟩
abbrev main_call9_v6 : Ref sig .tc := ⟨.hbm, 258, rfl⟩
abbrev main_call9_v7 : Ref sig .tc := ⟨.hbm, 259, rfl⟩
abbrev main_call9_v8 : Ref sig .tc := ⟨.hbm, 260, rfl⟩
abbrev main_call9_v9 : Ref sig .tc := ⟨.hbm, 261, rfl⟩
abbrev main_call9_v10 : Ref sig .tc := ⟨.hbm, 262, rfl⟩
abbrev main_call9_v11 : Ref sig .tc := ⟨.hbm, 263, rfl⟩
abbrev main_call9_c_3 : Ref sig .tc := ⟨.hbm, 264, rfl⟩
abbrev main_call9_v12 : Ref sig .tc := ⟨.hbm, 265, rfl⟩
abbrev main_call9_v13 : Ref sig .tc := ⟨.hbm, 266, rfl⟩
abbrev main_call9_v14 : Ref sig .tc := ⟨.hbm, 267, rfl⟩
abbrev main_call9_cst : Ref sig .tc := ⟨.hbm, 268, rfl⟩
abbrev main_call9_v15 : Ref sig .tc := ⟨.hbm, 269, rfl⟩
abbrev main_v39 : Ref sig .tc := ⟨.hbm, 270, rfl⟩
abbrev main_v40 : Ref sig .tc := ⟨.hbm, 271, rfl⟩
abbrev main_v41 : Ref sig .tc := ⟨.hbm, 272, rfl⟩
abbrev main_v42 : Ref sig .tc := ⟨.hbm, 273, rfl⟩
abbrev main_call10_c : Ref sig .tc := ⟨.hbm, 274, rfl⟩
abbrev main_call10_v0 : Ref sig .tc := ⟨.hbm, 275, rfl⟩
abbrev main_call10_v1 : Ref sig .tc := ⟨.hbm, 276, rfl⟩
abbrev main_call10_c_0 : Ref sig .tc := ⟨.hbm, 277, rfl⟩
abbrev main_call10_v2 : Ref sig .tc := ⟨.hbm, 278, rfl⟩
abbrev main_call10_v3 : Ref sig .tc := ⟨.hbm, 279, rfl⟩
abbrev main_call10_v4 : Ref sig .tc := ⟨.hbm, 280, rfl⟩
abbrev main_call10_v5 : Ref sig .tc := ⟨.hbm, 281, rfl⟩
abbrev main_call10_c_1 : Ref sig .tc := ⟨.hbm, 282, rfl⟩
abbrev main_call10_c_2 : Ref sig .tc := ⟨.hbm, 283, rfl⟩
abbrev main_call10_v6 : Ref sig .tc := ⟨.hbm, 284, rfl⟩
abbrev main_call10_v7 : Ref sig .tc := ⟨.hbm, 285, rfl⟩
abbrev main_call10_v8 : Ref sig .tc := ⟨.hbm, 286, rfl⟩
abbrev main_call10_v9 : Ref sig .tc := ⟨.hbm, 287, rfl⟩
abbrev main_call10_v10 : Ref sig .tc := ⟨.hbm, 288, rfl⟩
abbrev main_call10_v11 : Ref sig .tc := ⟨.hbm, 289, rfl⟩
abbrev main_call10_c_3 : Ref sig .tc := ⟨.hbm, 290, rfl⟩
abbrev main_call10_v12 : Ref sig .tc := ⟨.hbm, 291, rfl⟩
abbrev main_call10_v13 : Ref sig .tc := ⟨.hbm, 292, rfl⟩
abbrev main_call10_v14 : Ref sig .tc := ⟨.hbm, 293, rfl⟩
abbrev main_call10_cst : Ref sig .tc := ⟨.hbm, 294, rfl⟩
abbrev main_call10_v15 : Ref sig .tc := ⟨.hbm, 295, rfl⟩
abbrev main_v43 : Ref sig .tc := ⟨.hbm, 296, rfl⟩
abbrev main_cst_4 : Ref sig .tc := ⟨.hbm, 297, rfl⟩
abbrev main_v44 : Ref sig .tc := ⟨.hbm, 298, rfl⟩
abbrev main_v45 : Ref sig .tc := ⟨.hbm, 299, rfl⟩
abbrev main_v46 : Ref sig .tc := ⟨.hbm, 300, rfl⟩
abbrev main_call11_c : Ref sig .tc := ⟨.hbm, 301, rfl⟩
abbrev main_call11_v0 : Ref sig .tc := ⟨.hbm, 302, rfl⟩
abbrev main_call11_v1 : Ref sig .tc := ⟨.hbm, 303, rfl⟩
abbrev main_call11_c_0 : Ref sig .tc := ⟨.hbm, 304, rfl⟩
abbrev main_call11_v2 : Ref sig .tc := ⟨.hbm, 305, rfl⟩
abbrev main_call11_v3 : Ref sig .tc := ⟨.hbm, 306, rfl⟩
abbrev main_call11_v4 : Ref sig .tc := ⟨.hbm, 307, rfl⟩
abbrev main_call11_v5 : Ref sig .tc := ⟨.hbm, 308, rfl⟩
abbrev main_call11_c_1 : Ref sig .tc := ⟨.hbm, 309, rfl⟩
abbrev main_call11_c_2 : Ref sig .tc := ⟨.hbm, 310, rfl⟩
abbrev main_call11_v6 : Ref sig .tc := ⟨.hbm, 311, rfl⟩
abbrev main_call11_v7 : Ref sig .tc := ⟨.hbm, 312, rfl⟩
abbrev main_call11_v8 : Ref sig .tc := ⟨.hbm, 313, rfl⟩
abbrev main_call11_v9 : Ref sig .tc := ⟨.hbm, 314, rfl⟩
abbrev main_call11_v10 : Ref sig .tc := ⟨.hbm, 315, rfl⟩
abbrev main_call11_v11 : Ref sig .tc := ⟨.hbm, 316, rfl⟩
abbrev main_call11_c_3 : Ref sig .tc := ⟨.hbm, 317, rfl⟩
abbrev main_call11_v12 : Ref sig .tc := ⟨.hbm, 318, rfl⟩
abbrev main_call11_v13 : Ref sig .tc := ⟨.hbm, 319, rfl⟩
abbrev main_call11_v14 : Ref sig .tc := ⟨.hbm, 320, rfl⟩
abbrev main_call11_cst : Ref sig .tc := ⟨.hbm, 321, rfl⟩
abbrev main_call11_v15 : Ref sig .tc := ⟨.hbm, 322, rfl⟩
abbrev main_v47 : Ref sig .tc := ⟨.hbm, 323, rfl⟩
abbrev main_v48 : Ref sig .tc := ⟨.hbm, 324, rfl⟩
abbrev main_v49 : Ref sig .tc := ⟨.hbm, 325, rfl⟩
abbrev main_v50 : Ref sig .tc := ⟨.hbm, 326, rfl⟩
abbrev main_call12_c : Ref sig .tc := ⟨.hbm, 327, rfl⟩
abbrev main_call12_v0 : Ref sig .tc := ⟨.hbm, 328, rfl⟩
abbrev main_call12_v1 : Ref sig .tc := ⟨.hbm, 329, rfl⟩
abbrev main_call12_c_0 : Ref sig .tc := ⟨.hbm, 330, rfl⟩
abbrev main_call12_v2 : Ref sig .tc := ⟨.hbm, 331, rfl⟩
abbrev main_call12_v3 : Ref sig .tc := ⟨.hbm, 332, rfl⟩
abbrev main_call12_v4 : Ref sig .tc := ⟨.hbm, 333, rfl⟩
abbrev main_call12_v5 : Ref sig .tc := ⟨.hbm, 334, rfl⟩
abbrev main_call12_c_1 : Ref sig .tc := ⟨.hbm, 335, rfl⟩
abbrev main_call12_c_2 : Ref sig .tc := ⟨.hbm, 336, rfl⟩
abbrev main_call12_v6 : Ref sig .tc := ⟨.hbm, 337, rfl⟩
abbrev main_call12_v7 : Ref sig .tc := ⟨.hbm, 338, rfl⟩
abbrev main_call12_v8 : Ref sig .tc := ⟨.hbm, 339, rfl⟩
abbrev main_call12_v9 : Ref sig .tc := ⟨.hbm, 340, rfl⟩
abbrev main_call12_v10 : Ref sig .tc := ⟨.hbm, 341, rfl⟩
abbrev main_call12_v11 : Ref sig .tc := ⟨.hbm, 342, rfl⟩
abbrev main_call12_c_3 : Ref sig .tc := ⟨.hbm, 343, rfl⟩
abbrev main_call12_v12 : Ref sig .tc := ⟨.hbm, 344, rfl⟩
abbrev main_call12_v13 : Ref sig .tc := ⟨.hbm, 345, rfl⟩
abbrev main_call12_v14 : Ref sig .tc := ⟨.hbm, 346, rfl⟩
abbrev main_call12_cst : Ref sig .tc := ⟨.hbm, 347, rfl⟩
abbrev main_call12_v15 : Ref sig .tc := ⟨.hbm, 348, rfl⟩
abbrev main_v51 : Ref sig .tc := ⟨.hbm, 349, rfl⟩
abbrev main_cst_5 : Ref sig .tc := ⟨.hbm, 350, rfl⟩
abbrev main_v52 : Ref sig .tc := ⟨.hbm, 351, rfl⟩
abbrev main_v53 : Ref sig .tc := ⟨.hbm, 352, rfl⟩
abbrev main_v54 : Ref sig .tc := ⟨.hbm, 353, rfl⟩
abbrev main_call13_c : Ref sig .tc := ⟨.hbm, 354, rfl⟩
abbrev main_call13_v0 : Ref sig .tc := ⟨.hbm, 355, rfl⟩
abbrev main_call13_v1 : Ref sig .tc := ⟨.hbm, 356, rfl⟩
abbrev main_call13_c_0 : Ref sig .tc := ⟨.hbm, 357, rfl⟩
abbrev main_call13_v2 : Ref sig .tc := ⟨.hbm, 358, rfl⟩
abbrev main_call13_v3 : Ref sig .tc := ⟨.hbm, 359, rfl⟩
abbrev main_call13_v4 : Ref sig .tc := ⟨.hbm, 360, rfl⟩
abbrev main_call13_v5 : Ref sig .tc := ⟨.hbm, 361, rfl⟩
abbrev main_call13_c_1 : Ref sig .tc := ⟨.hbm, 362, rfl⟩
abbrev main_call13_c_2 : Ref sig .tc := ⟨.hbm, 363, rfl⟩
abbrev main_call13_v6 : Ref sig .tc := ⟨.hbm, 364, rfl⟩
abbrev main_call13_v7 : Ref sig .tc := ⟨.hbm, 365, rfl⟩
abbrev main_call13_v8 : Ref sig .tc := ⟨.hbm, 366, rfl⟩
abbrev main_call13_v9 : Ref sig .tc := ⟨.hbm, 367, rfl⟩
abbrev main_call13_v10 : Ref sig .tc := ⟨.hbm, 368, rfl⟩
abbrev main_call13_v11 : Ref sig .tc := ⟨.hbm, 369, rfl⟩
abbrev main_call13_c_3 : Ref sig .tc := ⟨.hbm, 370, rfl⟩
abbrev main_call13_v12 : Ref sig .tc := ⟨.hbm, 371, rfl⟩
abbrev main_call13_v13 : Ref sig .tc := ⟨.hbm, 372, rfl⟩
abbrev main_call13_v14 : Ref sig .tc := ⟨.hbm, 373, rfl⟩
abbrev main_call13_cst : Ref sig .tc := ⟨.hbm, 374, rfl⟩
abbrev main_call13_v15 : Ref sig .tc := ⟨.hbm, 375, rfl⟩
abbrev main_v55 : Ref sig .tc := ⟨.hbm, 376, rfl⟩
abbrev main_v56 : Ref sig .tc := ⟨.hbm, 377, rfl⟩
abbrev main_v57 : Ref sig .tc := ⟨.hbm, 378, rfl⟩
abbrev main_v58 : Ref sig .tc := ⟨.hbm, 379, rfl⟩
abbrev main_call14_c : Ref sig .tc := ⟨.hbm, 380, rfl⟩
abbrev main_call14_v0 : Ref sig .tc := ⟨.hbm, 381, rfl⟩
abbrev main_call14_v1 : Ref sig .tc := ⟨.hbm, 382, rfl⟩
abbrev main_call14_c_0 : Ref sig .tc := ⟨.hbm, 383, rfl⟩
abbrev main_call14_v2 : Ref sig .tc := ⟨.hbm, 384, rfl⟩
abbrev main_call14_v3 : Ref sig .tc := ⟨.hbm, 385, rfl⟩
abbrev main_call14_v4 : Ref sig .tc := ⟨.hbm, 386, rfl⟩
abbrev main_call14_v5 : Ref sig .tc := ⟨.hbm, 387, rfl⟩
abbrev main_call14_c_1 : Ref sig .tc := ⟨.hbm, 388, rfl⟩
abbrev main_call14_c_2 : Ref sig .tc := ⟨.hbm, 389, rfl⟩
abbrev main_call14_v6 : Ref sig .tc := ⟨.hbm, 390, rfl⟩
abbrev main_call14_v7 : Ref sig .tc := ⟨.hbm, 391, rfl⟩
abbrev main_call14_v8 : Ref sig .tc := ⟨.hbm, 392, rfl⟩
abbrev main_call14_v9 : Ref sig .tc := ⟨.hbm, 393, rfl⟩
abbrev main_call14_v10 : Ref sig .tc := ⟨.hbm, 394, rfl⟩
abbrev main_call14_v11 : Ref sig .tc := ⟨.hbm, 395, rfl⟩
abbrev main_call14_c_3 : Ref sig .tc := ⟨.hbm, 396, rfl⟩
abbrev main_call14_v12 : Ref sig .tc := ⟨.hbm, 397, rfl⟩
abbrev main_call14_v13 : Ref sig .tc := ⟨.hbm, 398, rfl⟩
abbrev main_call14_v14 : Ref sig .tc := ⟨.hbm, 399, rfl⟩
abbrev main_call14_cst : Ref sig .tc := ⟨.hbm, 400, rfl⟩
abbrev main_call14_v15 : Ref sig .tc := ⟨.hbm, 401, rfl⟩
abbrev main_v59 : Ref sig .tc := ⟨.hbm, 402, rfl⟩
abbrev main_cst_6 : Ref sig .tc := ⟨.hbm, 403, rfl⟩
abbrev main_v60 : Ref sig .tc := ⟨.hbm, 404, rfl⟩
abbrev main_v61 : Ref sig .tc := ⟨.hbm, 405, rfl⟩
abbrev main_v62 : Ref sig .tc := ⟨.hbm, 406, rfl⟩
abbrev main_call15_c : Ref sig .tc := ⟨.hbm, 407, rfl⟩
abbrev main_call15_v0 : Ref sig .tc := ⟨.hbm, 408, rfl⟩
abbrev main_call15_v1 : Ref sig .tc := ⟨.hbm, 409, rfl⟩
abbrev main_call15_c_0 : Ref sig .tc := ⟨.hbm, 410, rfl⟩
abbrev main_call15_v2 : Ref sig .tc := ⟨.hbm, 411, rfl⟩
abbrev main_call15_v3 : Ref sig .tc := ⟨.hbm, 412, rfl⟩
abbrev main_call15_v4 : Ref sig .tc := ⟨.hbm, 413, rfl⟩
abbrev main_call15_v5 : Ref sig .tc := ⟨.hbm, 414, rfl⟩
abbrev main_call15_c_1 : Ref sig .tc := ⟨.hbm, 415, rfl⟩
abbrev main_call15_c_2 : Ref sig .tc := ⟨.hbm, 416, rfl⟩
abbrev main_call15_v6 : Ref sig .tc := ⟨.hbm, 417, rfl⟩
abbrev main_call15_v7 : Ref sig .tc := ⟨.hbm, 418, rfl⟩
abbrev main_call15_v8 : Ref sig .tc := ⟨.hbm, 419, rfl⟩
abbrev main_call15_v9 : Ref sig .tc := ⟨.hbm, 420, rfl⟩
abbrev main_call15_v10 : Ref sig .tc := ⟨.hbm, 421, rfl⟩
abbrev main_call15_v11 : Ref sig .tc := ⟨.hbm, 422, rfl⟩
abbrev main_call15_c_3 : Ref sig .tc := ⟨.hbm, 423, rfl⟩
abbrev main_call15_v12 : Ref sig .tc := ⟨.hbm, 424, rfl⟩
abbrev main_call15_v13 : Ref sig .tc := ⟨.hbm, 425, rfl⟩
abbrev main_call15_v14 : Ref sig .tc := ⟨.hbm, 426, rfl⟩
abbrev main_call15_cst : Ref sig .tc := ⟨.hbm, 427, rfl⟩
abbrev main_call15_v15 : Ref sig .tc := ⟨.hbm, 428, rfl⟩
abbrev main_v63 : Ref sig .tc := ⟨.hbm, 429, rfl⟩
abbrev main_v64 : Ref sig .tc := ⟨.hbm, 430, rfl⟩
abbrev main_v65 : Ref sig .tc := ⟨.hbm, 431, rfl⟩
abbrev main_v66 : Ref sig .tc := ⟨.hbm, 432, rfl⟩
abbrev main_call16_c : Ref sig .tc := ⟨.hbm, 433, rfl⟩
abbrev main_call16_v0 : Ref sig .tc := ⟨.hbm, 434, rfl⟩
abbrev main_call16_v1 : Ref sig .tc := ⟨.hbm, 435, rfl⟩
abbrev main_call16_c_0 : Ref sig .tc := ⟨.hbm, 436, rfl⟩
abbrev main_call16_v2 : Ref sig .tc := ⟨.hbm, 437, rfl⟩
abbrev main_call16_v3 : Ref sig .tc := ⟨.hbm, 438, rfl⟩
abbrev main_call16_v4 : Ref sig .tc := ⟨.hbm, 439, rfl⟩
abbrev main_call16_v5 : Ref sig .tc := ⟨.hbm, 440, rfl⟩
abbrev main_call16_c_1 : Ref sig .tc := ⟨.hbm, 441, rfl⟩
abbrev main_call16_c_2 : Ref sig .tc := ⟨.hbm, 442, rfl⟩
abbrev main_call16_v6 : Ref sig .tc := ⟨.hbm, 443, rfl⟩
abbrev main_call16_v7 : Ref sig .tc := ⟨.hbm, 444, rfl⟩
abbrev main_call16_v8 : Ref sig .tc := ⟨.hbm, 445, rfl⟩
abbrev main_call16_v9 : Ref sig .tc := ⟨.hbm, 446, rfl⟩
abbrev main_call16_v10 : Ref sig .tc := ⟨.hbm, 447, rfl⟩
abbrev main_call16_v11 : Ref sig .tc := ⟨.hbm, 448, rfl⟩
abbrev main_call16_c_3 : Ref sig .tc := ⟨.hbm, 449, rfl⟩
abbrev main_call16_v12 : Ref sig .tc := ⟨.hbm, 450, rfl⟩
abbrev main_call16_v13 : Ref sig .tc := ⟨.hbm, 451, rfl⟩
abbrev main_call16_v14 : Ref sig .tc := ⟨.hbm, 452, rfl⟩
abbrev main_call16_cst : Ref sig .tc := ⟨.hbm, 453, rfl⟩
abbrev main_call16_v15 : Ref sig .tc := ⟨.hbm, 454, rfl⟩
abbrev main_v67 : Ref sig .tc := ⟨.hbm, 455, rfl⟩
abbrev main_cst_7 : Ref sig .tc := ⟨.hbm, 456, rfl⟩
abbrev main_v68 : Ref sig .tc := ⟨.hbm, 457, rfl⟩
abbrev main_v69 : Ref sig .tc := ⟨.hbm, 458, rfl⟩
abbrev main_v70 : Ref sig .tc := ⟨.hbm, 459, rfl⟩
abbrev main_call17_c : Ref sig .tc := ⟨.hbm, 460, rfl⟩
abbrev main_call17_v0 : Ref sig .tc := ⟨.hbm, 461, rfl⟩
abbrev main_call17_v1 : Ref sig .tc := ⟨.hbm, 462, rfl⟩
abbrev main_call17_c_0 : Ref sig .tc := ⟨.hbm, 463, rfl⟩
abbrev main_call17_v2 : Ref sig .tc := ⟨.hbm, 464, rfl⟩
abbrev main_call17_v3 : Ref sig .tc := ⟨.hbm, 465, rfl⟩
abbrev main_call17_v4 : Ref sig .tc := ⟨.hbm, 466, rfl⟩
abbrev main_call17_v5 : Ref sig .tc := ⟨.hbm, 467, rfl⟩
abbrev main_call17_c_1 : Ref sig .tc := ⟨.hbm, 468, rfl⟩
abbrev main_call17_c_2 : Ref sig .tc := ⟨.hbm, 469, rfl⟩
abbrev main_call17_v6 : Ref sig .tc := ⟨.hbm, 470, rfl⟩
abbrev main_call17_v7 : Ref sig .tc := ⟨.hbm, 471, rfl⟩
abbrev main_call17_v8 : Ref sig .tc := ⟨.hbm, 472, rfl⟩
abbrev main_call17_v9 : Ref sig .tc := ⟨.hbm, 473, rfl⟩
abbrev main_call17_v10 : Ref sig .tc := ⟨.hbm, 474, rfl⟩
abbrev main_call17_v11 : Ref sig .tc := ⟨.hbm, 475, rfl⟩
abbrev main_call17_c_3 : Ref sig .tc := ⟨.hbm, 476, rfl⟩
abbrev main_call17_v12 : Ref sig .tc := ⟨.hbm, 477, rfl⟩
abbrev main_call17_v13 : Ref sig .tc := ⟨.hbm, 478, rfl⟩
abbrev main_call17_v14 : Ref sig .tc := ⟨.hbm, 479, rfl⟩
abbrev main_call17_cst : Ref sig .tc := ⟨.hbm, 480, rfl⟩
abbrev main_call17_v15 : Ref sig .tc := ⟨.hbm, 481, rfl⟩
abbrev main_v71 : Ref sig .tc := ⟨.hbm, 482, rfl⟩
abbrev main_v72 : Ref sig .tc := ⟨.hbm, 483, rfl⟩
abbrev main_v73 : Ref sig .tc := ⟨.hbm, 484, rfl⟩
abbrev main_v74 : Ref sig .tc := ⟨.hbm, 485, rfl⟩
abbrev main_call18_c : Ref sig .tc := ⟨.hbm, 486, rfl⟩
abbrev main_call18_v0 : Ref sig .tc := ⟨.hbm, 487, rfl⟩
abbrev main_call18_v1 : Ref sig .tc := ⟨.hbm, 488, rfl⟩
abbrev main_call18_c_0 : Ref sig .tc := ⟨.hbm, 489, rfl⟩
abbrev main_call18_v2 : Ref sig .tc := ⟨.hbm, 490, rfl⟩
abbrev main_call18_v3 : Ref sig .tc := ⟨.hbm, 491, rfl⟩
abbrev main_call18_v4 : Ref sig .tc := ⟨.hbm, 492, rfl⟩
abbrev main_call18_v5 : Ref sig .tc := ⟨.hbm, 493, rfl⟩
abbrev main_call18_c_1 : Ref sig .tc := ⟨.hbm, 494, rfl⟩
abbrev main_call18_c_2 : Ref sig .tc := ⟨.hbm, 495, rfl⟩
abbrev main_call18_v6 : Ref sig .tc := ⟨.hbm, 496, rfl⟩
abbrev main_call18_v7 : Ref sig .tc := ⟨.hbm, 497, rfl⟩
abbrev main_call18_v8 : Ref sig .tc := ⟨.hbm, 498, rfl⟩
abbrev main_call18_v9 : Ref sig .tc := ⟨.hbm, 499, rfl⟩
abbrev main_call18_v10 : Ref sig .tc := ⟨.hbm, 500, rfl⟩
abbrev main_call18_v11 : Ref sig .tc := ⟨.hbm, 501, rfl⟩
abbrev main_call18_c_3 : Ref sig .tc := ⟨.hbm, 502, rfl⟩
abbrev main_call18_v12 : Ref sig .tc := ⟨.hbm, 503, rfl⟩
abbrev main_call18_v13 : Ref sig .tc := ⟨.hbm, 504, rfl⟩
abbrev main_call18_v14 : Ref sig .tc := ⟨.hbm, 505, rfl⟩
abbrev main_call18_cst : Ref sig .tc := ⟨.hbm, 506, rfl⟩
abbrev main_call18_v15 : Ref sig .tc := ⟨.hbm, 507, rfl⟩
abbrev main_v75 : Ref sig .tc := ⟨.hbm, 508, rfl⟩
abbrev main_cst_8 : Ref sig .tc := ⟨.hbm, 509, rfl⟩
abbrev main_v76 : Ref sig .tc := ⟨.hbm, 510, rfl⟩
abbrev main_v77 : Ref sig .tc := ⟨.hbm, 511, rfl⟩
abbrev main_v78 : Ref sig .tc := ⟨.hbm, 512, rfl⟩
abbrev main_call19_c : Ref sig .tc := ⟨.hbm, 513, rfl⟩
abbrev main_call19_v0 : Ref sig .tc := ⟨.hbm, 514, rfl⟩
abbrev main_call19_v1 : Ref sig .tc := ⟨.hbm, 515, rfl⟩
abbrev main_call19_c_0 : Ref sig .tc := ⟨.hbm, 516, rfl⟩
abbrev main_call19_v2 : Ref sig .tc := ⟨.hbm, 517, rfl⟩
abbrev main_call19_v3 : Ref sig .tc := ⟨.hbm, 518, rfl⟩
abbrev main_call19_v4 : Ref sig .tc := ⟨.hbm, 519, rfl⟩
abbrev main_call19_v5 : Ref sig .tc := ⟨.hbm, 520, rfl⟩
abbrev main_call19_c_1 : Ref sig .tc := ⟨.hbm, 521, rfl⟩
abbrev main_call19_c_2 : Ref sig .tc := ⟨.hbm, 522, rfl⟩
abbrev main_call19_v6 : Ref sig .tc := ⟨.hbm, 523, rfl⟩
abbrev main_call19_v7 : Ref sig .tc := ⟨.hbm, 524, rfl⟩
abbrev main_call19_v8 : Ref sig .tc := ⟨.hbm, 525, rfl⟩
abbrev main_call19_v9 : Ref sig .tc := ⟨.hbm, 526, rfl⟩
abbrev main_call19_v10 : Ref sig .tc := ⟨.hbm, 527, rfl⟩
abbrev main_call19_v11 : Ref sig .tc := ⟨.hbm, 528, rfl⟩
abbrev main_call19_c_3 : Ref sig .tc := ⟨.hbm, 529, rfl⟩
abbrev main_call19_v12 : Ref sig .tc := ⟨.hbm, 530, rfl⟩
abbrev main_call19_v13 : Ref sig .tc := ⟨.hbm, 531, rfl⟩
abbrev main_call19_v14 : Ref sig .tc := ⟨.hbm, 532, rfl⟩
abbrev main_call19_cst : Ref sig .tc := ⟨.hbm, 533, rfl⟩
abbrev main_call19_v15 : Ref sig .tc := ⟨.hbm, 534, rfl⟩
abbrev main_v79 : Ref sig .tc := ⟨.hbm, 535, rfl⟩
abbrev main_v80 : Ref sig .tc := ⟨.hbm, 536, rfl⟩
abbrev main_v81 : Ref sig .tc := ⟨.hbm, 537, rfl⟩
abbrev main_v82 : Ref sig .tc := ⟨.hbm, 538, rfl⟩
abbrev main_call20_c : Ref sig .tc := ⟨.hbm, 539, rfl⟩
abbrev main_call20_v0 : Ref sig .tc := ⟨.hbm, 540, rfl⟩
abbrev main_call20_v1 : Ref sig .tc := ⟨.hbm, 541, rfl⟩
abbrev main_call20_c_0 : Ref sig .tc := ⟨.hbm, 542, rfl⟩
abbrev main_call20_v2 : Ref sig .tc := ⟨.hbm, 543, rfl⟩
abbrev main_call20_v3 : Ref sig .tc := ⟨.hbm, 544, rfl⟩
abbrev main_call20_v4 : Ref sig .tc := ⟨.hbm, 545, rfl⟩
abbrev main_call20_v5 : Ref sig .tc := ⟨.hbm, 546, rfl⟩
abbrev main_call20_c_1 : Ref sig .tc := ⟨.hbm, 547, rfl⟩
abbrev main_call20_c_2 : Ref sig .tc := ⟨.hbm, 548, rfl⟩
abbrev main_call20_v6 : Ref sig .tc := ⟨.hbm, 549, rfl⟩
abbrev main_call20_v7 : Ref sig .tc := ⟨.hbm, 550, rfl⟩
abbrev main_call20_v8 : Ref sig .tc := ⟨.hbm, 551, rfl⟩
abbrev main_call20_v9 : Ref sig .tc := ⟨.hbm, 552, rfl⟩
abbrev main_call20_v10 : Ref sig .tc := ⟨.hbm, 553, rfl⟩
abbrev main_call20_v11 : Ref sig .tc := ⟨.hbm, 554, rfl⟩
abbrev main_call20_c_3 : Ref sig .tc := ⟨.hbm, 555, rfl⟩
abbrev main_call20_v12 : Ref sig .tc := ⟨.hbm, 556, rfl⟩
abbrev main_call20_v13 : Ref sig .tc := ⟨.hbm, 557, rfl⟩
abbrev main_call20_v14 : Ref sig .tc := ⟨.hbm, 558, rfl⟩
abbrev main_call20_cst : Ref sig .tc := ⟨.hbm, 559, rfl⟩
abbrev main_call20_v15 : Ref sig .tc := ⟨.hbm, 560, rfl⟩
abbrev main_v83 : Ref sig .tc := ⟨.hbm, 561, rfl⟩
abbrev main_cst_9 : Ref sig .tc := ⟨.hbm, 562, rfl⟩
abbrev main_v84 : Ref sig .tc := ⟨.hbm, 563, rfl⟩
abbrev main_v85 : Ref sig .tc := ⟨.hbm, 564, rfl⟩
abbrev main_v86 : Ref sig .tc := ⟨.hbm, 565, rfl⟩
abbrev main_call21_c : Ref sig .tc := ⟨.hbm, 566, rfl⟩
abbrev main_call21_v0 : Ref sig .tc := ⟨.hbm, 567, rfl⟩
abbrev main_call21_v1 : Ref sig .tc := ⟨.hbm, 568, rfl⟩
abbrev main_call21_c_0 : Ref sig .tc := ⟨.hbm, 569, rfl⟩
abbrev main_call21_v2 : Ref sig .tc := ⟨.hbm, 570, rfl⟩
abbrev main_call21_v3 : Ref sig .tc := ⟨.hbm, 571, rfl⟩
abbrev main_call21_v4 : Ref sig .tc := ⟨.hbm, 572, rfl⟩
abbrev main_call21_v5 : Ref sig .tc := ⟨.hbm, 573, rfl⟩
abbrev main_call21_c_1 : Ref sig .tc := ⟨.hbm, 574, rfl⟩
abbrev main_call21_c_2 : Ref sig .tc := ⟨.hbm, 575, rfl⟩
abbrev main_call21_v6 : Ref sig .tc := ⟨.hbm, 576, rfl⟩
abbrev main_call21_v7 : Ref sig .tc := ⟨.hbm, 577, rfl⟩
abbrev main_call21_v8 : Ref sig .tc := ⟨.hbm, 578, rfl⟩
abbrev main_call21_v9 : Ref sig .tc := ⟨.hbm, 579, rfl⟩
abbrev main_call21_v10 : Ref sig .tc := ⟨.hbm, 580, rfl⟩
abbrev main_call21_v11 : Ref sig .tc := ⟨.hbm, 581, rfl⟩
abbrev main_call21_c_3 : Ref sig .tc := ⟨.hbm, 582, rfl⟩
abbrev main_call21_v12 : Ref sig .tc := ⟨.hbm, 583, rfl⟩
abbrev main_call21_v13 : Ref sig .tc := ⟨.hbm, 584, rfl⟩
abbrev main_call21_v14 : Ref sig .tc := ⟨.hbm, 585, rfl⟩
abbrev main_call21_cst : Ref sig .tc := ⟨.hbm, 586, rfl⟩
abbrev main_call21_v15 : Ref sig .tc := ⟨.hbm, 587, rfl⟩
abbrev main_v87 : Ref sig .tc := ⟨.hbm, 588, rfl⟩
abbrev main_v88 : Ref sig .tc := ⟨.hbm, 589, rfl⟩
abbrev main_v89 : Ref sig .tc := ⟨.hbm, 590, rfl⟩
abbrev main_v90 : Ref sig .tc := ⟨.hbm, 591, rfl⟩
abbrev main_call22_c : Ref sig .tc := ⟨.hbm, 592, rfl⟩
abbrev main_call22_v0 : Ref sig .tc := ⟨.hbm, 593, rfl⟩
abbrev main_call22_v1 : Ref sig .tc := ⟨.hbm, 594, rfl⟩
abbrev main_call22_c_0 : Ref sig .tc := ⟨.hbm, 595, rfl⟩
abbrev main_call22_v2 : Ref sig .tc := ⟨.hbm, 596, rfl⟩
abbrev main_call22_v3 : Ref sig .tc := ⟨.hbm, 597, rfl⟩
abbrev main_call22_v4 : Ref sig .tc := ⟨.hbm, 598, rfl⟩
abbrev main_call22_v5 : Ref sig .tc := ⟨.hbm, 599, rfl⟩
abbrev main_call22_c_1 : Ref sig .tc := ⟨.hbm, 600, rfl⟩
abbrev main_call22_c_2 : Ref sig .tc := ⟨.hbm, 601, rfl⟩
abbrev main_call22_v6 : Ref sig .tc := ⟨.hbm, 602, rfl⟩
abbrev main_call22_v7 : Ref sig .tc := ⟨.hbm, 603, rfl⟩
abbrev main_call22_v8 : Ref sig .tc := ⟨.hbm, 604, rfl⟩
abbrev main_call22_v9 : Ref sig .tc := ⟨.hbm, 605, rfl⟩
abbrev main_call22_v10 : Ref sig .tc := ⟨.hbm, 606, rfl⟩
abbrev main_call22_v11 : Ref sig .tc := ⟨.hbm, 607, rfl⟩
abbrev main_call22_c_3 : Ref sig .tc := ⟨.hbm, 608, rfl⟩
abbrev main_call22_v12 : Ref sig .tc := ⟨.hbm, 609, rfl⟩
abbrev main_call22_v13 : Ref sig .tc := ⟨.hbm, 610, rfl⟩
abbrev main_call22_v14 : Ref sig .tc := ⟨.hbm, 611, rfl⟩
abbrev main_call22_cst : Ref sig .tc := ⟨.hbm, 612, rfl⟩
abbrev main_call22_v15 : Ref sig .tc := ⟨.hbm, 613, rfl⟩
abbrev main_v91 : Ref sig .tc := ⟨.hbm, 614, rfl⟩
abbrev main_cst_10 : Ref sig .tc := ⟨.hbm, 615, rfl⟩
abbrev main_v92 : Ref sig .tc := ⟨.hbm, 616, rfl⟩
abbrev main_v93 : Ref sig .tc := ⟨.hbm, 617, rfl⟩
abbrev main_v94 : Ref sig .tc := ⟨.hbm, 618, rfl⟩
abbrev main_call23_c : Ref sig .tc := ⟨.hbm, 619, rfl⟩
abbrev main_call23_v0 : Ref sig .tc := ⟨.hbm, 620, rfl⟩
abbrev main_call23_v1 : Ref sig .tc := ⟨.hbm, 621, rfl⟩
abbrev main_call23_c_0 : Ref sig .tc := ⟨.hbm, 622, rfl⟩
abbrev main_call23_v2 : Ref sig .tc := ⟨.hbm, 623, rfl⟩
abbrev main_call23_v3 : Ref sig .tc := ⟨.hbm, 624, rfl⟩
abbrev main_call23_v4 : Ref sig .tc := ⟨.hbm, 625, rfl⟩
abbrev main_call23_v5 : Ref sig .tc := ⟨.hbm, 626, rfl⟩
abbrev main_call23_c_1 : Ref sig .tc := ⟨.hbm, 627, rfl⟩
abbrev main_call23_c_2 : Ref sig .tc := ⟨.hbm, 628, rfl⟩
abbrev main_call23_v6 : Ref sig .tc := ⟨.hbm, 629, rfl⟩
abbrev main_call23_v7 : Ref sig .tc := ⟨.hbm, 630, rfl⟩
abbrev main_call23_v8 : Ref sig .tc := ⟨.hbm, 631, rfl⟩
abbrev main_call23_v9 : Ref sig .tc := ⟨.hbm, 632, rfl⟩
abbrev main_call23_v10 : Ref sig .tc := ⟨.hbm, 633, rfl⟩
abbrev main_call23_v11 : Ref sig .tc := ⟨.hbm, 634, rfl⟩
abbrev main_call23_c_3 : Ref sig .tc := ⟨.hbm, 635, rfl⟩
abbrev main_call23_v12 : Ref sig .tc := ⟨.hbm, 636, rfl⟩
abbrev main_call23_v13 : Ref sig .tc := ⟨.hbm, 637, rfl⟩
abbrev main_call23_v14 : Ref sig .tc := ⟨.hbm, 638, rfl⟩
abbrev main_call23_cst : Ref sig .tc := ⟨.hbm, 639, rfl⟩
abbrev main_call23_v15 : Ref sig .tc := ⟨.hbm, 640, rfl⟩
abbrev main_v95 : Ref sig .tc := ⟨.hbm, 641, rfl⟩
abbrev main_v96 : Ref sig .tc := ⟨.hbm, 642, rfl⟩
abbrev main_v97 : Ref sig .tc := ⟨.hbm, 643, rfl⟩
abbrev main_v98 : Ref sig .tc := ⟨.hbm, 644, rfl⟩
abbrev main_call24_c : Ref sig .tc := ⟨.hbm, 645, rfl⟩
abbrev main_call24_v0 : Ref sig .tc := ⟨.hbm, 646, rfl⟩
abbrev main_call24_v1 : Ref sig .tc := ⟨.hbm, 647, rfl⟩
abbrev main_call24_c_0 : Ref sig .tc := ⟨.hbm, 648, rfl⟩
abbrev main_call24_v2 : Ref sig .tc := ⟨.hbm, 649, rfl⟩
abbrev main_call24_v3 : Ref sig .tc := ⟨.hbm, 650, rfl⟩
abbrev main_call24_v4 : Ref sig .tc := ⟨.hbm, 651, rfl⟩
abbrev main_call24_v5 : Ref sig .tc := ⟨.hbm, 652, rfl⟩
abbrev main_call24_c_1 : Ref sig .tc := ⟨.hbm, 653, rfl⟩
abbrev main_call24_c_2 : Ref sig .tc := ⟨.hbm, 654, rfl⟩
abbrev main_call24_v6 : Ref sig .tc := ⟨.hbm, 655, rfl⟩
abbrev main_call24_v7 : Ref sig .tc := ⟨.hbm, 656, rfl⟩
abbrev main_call24_v8 : Ref sig .tc := ⟨.hbm, 657, rfl⟩
abbrev main_call24_v9 : Ref sig .tc := ⟨.hbm, 658, rfl⟩
abbrev main_call24_v10 : Ref sig .tc := ⟨.hbm, 659, rfl⟩
abbrev main_call24_v11 : Ref sig .tc := ⟨.hbm, 660, rfl⟩
abbrev main_call24_c_3 : Ref sig .tc := ⟨.hbm, 661, rfl⟩
abbrev main_call24_v12 : Ref sig .tc := ⟨.hbm, 662, rfl⟩
abbrev main_call24_v13 : Ref sig .tc := ⟨.hbm, 663, rfl⟩
abbrev main_call24_v14 : Ref sig .tc := ⟨.hbm, 664, rfl⟩
abbrev main_call24_cst : Ref sig .tc := ⟨.hbm, 665, rfl⟩
abbrev main_call24_v15 : Ref sig .tc := ⟨.hbm, 666, rfl⟩
abbrev main_v99 : Ref sig .tc := ⟨.hbm, 667, rfl⟩
abbrev main_cst_11 : Ref sig .tc := ⟨.hbm, 668, rfl⟩
abbrev main_v100 : Ref sig .tc := ⟨.hbm, 669, rfl⟩
abbrev main_v101 : Ref sig .tc := ⟨.hbm, 670, rfl⟩
abbrev main_v102 : Ref sig .tc := ⟨.hbm, 671, rfl⟩
abbrev main_call25_c : Ref sig .tc := ⟨.hbm, 672, rfl⟩
abbrev main_call25_v0 : Ref sig .tc := ⟨.hbm, 673, rfl⟩
abbrev main_call25_v1 : Ref sig .tc := ⟨.hbm, 674, rfl⟩
abbrev main_call25_c_0 : Ref sig .tc := ⟨.hbm, 675, rfl⟩
abbrev main_call25_v2 : Ref sig .tc := ⟨.hbm, 676, rfl⟩
abbrev main_call25_v3 : Ref sig .tc := ⟨.hbm, 677, rfl⟩
abbrev main_call25_v4 : Ref sig .tc := ⟨.hbm, 678, rfl⟩
abbrev main_call25_v5 : Ref sig .tc := ⟨.hbm, 679, rfl⟩
abbrev main_call25_c_1 : Ref sig .tc := ⟨.hbm, 680, rfl⟩
abbrev main_call25_c_2 : Ref sig .tc := ⟨.hbm, 681, rfl⟩
abbrev main_call25_v6 : Ref sig .tc := ⟨.hbm, 682, rfl⟩
abbrev main_call25_v7 : Ref sig .tc := ⟨.hbm, 683, rfl⟩
abbrev main_call25_v8 : Ref sig .tc := ⟨.hbm, 684, rfl⟩
abbrev main_call25_v9 : Ref sig .tc := ⟨.hbm, 685, rfl⟩
abbrev main_call25_v10 : Ref sig .tc := ⟨.hbm, 686, rfl⟩
abbrev main_call25_v11 : Ref sig .tc := ⟨.hbm, 687, rfl⟩
abbrev main_call25_c_3 : Ref sig .tc := ⟨.hbm, 688, rfl⟩
abbrev main_call25_v12 : Ref sig .tc := ⟨.hbm, 689, rfl⟩
abbrev main_call25_v13 : Ref sig .tc := ⟨.hbm, 690, rfl⟩
abbrev main_call25_v14 : Ref sig .tc := ⟨.hbm, 691, rfl⟩
abbrev main_call25_cst : Ref sig .tc := ⟨.hbm, 692, rfl⟩
abbrev main_call25_v15 : Ref sig .tc := ⟨.hbm, 693, rfl⟩
abbrev main_v103 : Ref sig .tc := ⟨.hbm, 694, rfl⟩
abbrev main_v104 : Ref sig .tc := ⟨.hbm, 695, rfl⟩
abbrev main_v105 : Ref sig .tc := ⟨.hbm, 696, rfl⟩
abbrev main_v106 : Ref sig .tc := ⟨.hbm, 697, rfl⟩
abbrev main_call26_c : Ref sig .tc := ⟨.hbm, 698, rfl⟩
abbrev main_call26_v0 : Ref sig .tc := ⟨.hbm, 699, rfl⟩
abbrev main_call26_v1 : Ref sig .tc := ⟨.hbm, 700, rfl⟩
abbrev main_call26_c_0 : Ref sig .tc := ⟨.hbm, 701, rfl⟩
abbrev main_call26_v2 : Ref sig .tc := ⟨.hbm, 702, rfl⟩
abbrev main_call26_v3 : Ref sig .tc := ⟨.hbm, 703, rfl⟩
abbrev main_call26_v4 : Ref sig .tc := ⟨.hbm, 704, rfl⟩
abbrev main_call26_v5 : Ref sig .tc := ⟨.hbm, 705, rfl⟩
abbrev main_call26_c_1 : Ref sig .tc := ⟨.hbm, 706, rfl⟩
abbrev main_call26_c_2 : Ref sig .tc := ⟨.hbm, 707, rfl⟩
abbrev main_call26_v6 : Ref sig .tc := ⟨.hbm, 708, rfl⟩
abbrev main_call26_v7 : Ref sig .tc := ⟨.hbm, 709, rfl⟩
abbrev main_call26_v8 : Ref sig .tc := ⟨.hbm, 710, rfl⟩
abbrev main_call26_v9 : Ref sig .tc := ⟨.hbm, 711, rfl⟩
abbrev main_call26_v10 : Ref sig .tc := ⟨.hbm, 712, rfl⟩
abbrev main_call26_v11 : Ref sig .tc := ⟨.hbm, 713, rfl⟩
abbrev main_call26_c_3 : Ref sig .tc := ⟨.hbm, 714, rfl⟩
abbrev main_call26_v12 : Ref sig .tc := ⟨.hbm, 715, rfl⟩
abbrev main_call26_v13 : Ref sig .tc := ⟨.hbm, 716, rfl⟩
abbrev main_call26_v14 : Ref sig .tc := ⟨.hbm, 717, rfl⟩
abbrev main_call26_cst : Ref sig .tc := ⟨.hbm, 718, rfl⟩
abbrev main_call26_v15 : Ref sig .tc := ⟨.hbm, 719, rfl⟩
abbrev main_v107 : Ref sig .tc := ⟨.hbm, 720, rfl⟩
abbrev main_cst_12 : Ref sig .tc := ⟨.hbm, 721, rfl⟩
abbrev main_v108 : Ref sig .tc := ⟨.hbm, 722, rfl⟩
abbrev main_v109 : Ref sig .tc := ⟨.hbm, 723, rfl⟩
abbrev main_v110 : Ref sig .tc := ⟨.hbm, 724, rfl⟩
abbrev main_call27_c : Ref sig .tc := ⟨.hbm, 725, rfl⟩
abbrev main_call27_v0 : Ref sig .tc := ⟨.hbm, 726, rfl⟩
abbrev main_call27_v1 : Ref sig .tc := ⟨.hbm, 727, rfl⟩
abbrev main_call27_c_0 : Ref sig .tc := ⟨.hbm, 728, rfl⟩
abbrev main_call27_v2 : Ref sig .tc := ⟨.hbm, 729, rfl⟩
abbrev main_call27_v3 : Ref sig .tc := ⟨.hbm, 730, rfl⟩
abbrev main_call27_v4 : Ref sig .tc := ⟨.hbm, 731, rfl⟩
abbrev main_call27_v5 : Ref sig .tc := ⟨.hbm, 732, rfl⟩
abbrev main_call27_c_1 : Ref sig .tc := ⟨.hbm, 733, rfl⟩
abbrev main_call27_c_2 : Ref sig .tc := ⟨.hbm, 734, rfl⟩
abbrev main_call27_v6 : Ref sig .tc := ⟨.hbm, 735, rfl⟩
abbrev main_call27_v7 : Ref sig .tc := ⟨.hbm, 736, rfl⟩
abbrev main_call27_v8 : Ref sig .tc := ⟨.hbm, 737, rfl⟩
abbrev main_call27_v9 : Ref sig .tc := ⟨.hbm, 738, rfl⟩
abbrev main_call27_v10 : Ref sig .tc := ⟨.hbm, 739, rfl⟩
abbrev main_call27_v11 : Ref sig .tc := ⟨.hbm, 740, rfl⟩
abbrev main_call27_c_3 : Ref sig .tc := ⟨.hbm, 741, rfl⟩
abbrev main_call27_v12 : Ref sig .tc := ⟨.hbm, 742, rfl⟩
abbrev main_call27_v13 : Ref sig .tc := ⟨.hbm, 743, rfl⟩
abbrev main_call27_v14 : Ref sig .tc := ⟨.hbm, 744, rfl⟩
abbrev main_call27_cst : Ref sig .tc := ⟨.hbm, 745, rfl⟩
abbrev main_call27_v15 : Ref sig .tc := ⟨.hbm, 746, rfl⟩
abbrev main_v111 : Ref sig .tc := ⟨.hbm, 747, rfl⟩
abbrev main_v112 : Ref sig .tc := ⟨.hbm, 748, rfl⟩
abbrev main_v113 : Ref sig .tc := ⟨.hbm, 749, rfl⟩
abbrev main_v114 : Ref sig .tc := ⟨.hbm, 750, rfl⟩
abbrev main_call28_c : Ref sig .tc := ⟨.hbm, 751, rfl⟩
abbrev main_call28_v0 : Ref sig .tc := ⟨.hbm, 752, rfl⟩
abbrev main_call28_v1 : Ref sig .tc := ⟨.hbm, 753, rfl⟩
abbrev main_call28_c_0 : Ref sig .tc := ⟨.hbm, 754, rfl⟩
abbrev main_call28_v2 : Ref sig .tc := ⟨.hbm, 755, rfl⟩
abbrev main_call28_v3 : Ref sig .tc := ⟨.hbm, 756, rfl⟩
abbrev main_call28_v4 : Ref sig .tc := ⟨.hbm, 757, rfl⟩
abbrev main_call28_v5 : Ref sig .tc := ⟨.hbm, 758, rfl⟩
abbrev main_call28_c_1 : Ref sig .tc := ⟨.hbm, 759, rfl⟩
abbrev main_call28_c_2 : Ref sig .tc := ⟨.hbm, 760, rfl⟩
abbrev main_call28_v6 : Ref sig .tc := ⟨.hbm, 761, rfl⟩
abbrev main_call28_v7 : Ref sig .tc := ⟨.hbm, 762, rfl⟩
abbrev main_call28_v8 : Ref sig .tc := ⟨.hbm, 763, rfl⟩
abbrev main_call28_v9 : Ref sig .tc := ⟨.hbm, 764, rfl⟩
abbrev main_call28_v10 : Ref sig .tc := ⟨.hbm, 765, rfl⟩
abbrev main_call28_v11 : Ref sig .tc := ⟨.hbm, 766, rfl⟩
abbrev main_call28_c_3 : Ref sig .tc := ⟨.hbm, 767, rfl⟩
abbrev main_call28_v12 : Ref sig .tc := ⟨.hbm, 768, rfl⟩
abbrev main_call28_v13 : Ref sig .tc := ⟨.hbm, 769, rfl⟩
abbrev main_call28_v14 : Ref sig .tc := ⟨.hbm, 770, rfl⟩
abbrev main_call28_cst : Ref sig .tc := ⟨.hbm, 771, rfl⟩
abbrev main_call28_v15 : Ref sig .tc := ⟨.hbm, 772, rfl⟩
abbrev main_v115 : Ref sig .tc := ⟨.hbm, 773, rfl⟩
abbrev main_cst_13 : Ref sig .tc := ⟨.hbm, 774, rfl⟩
abbrev main_v116 : Ref sig .tc := ⟨.hbm, 775, rfl⟩
abbrev main_v117 : Ref sig .tc := ⟨.hbm, 776, rfl⟩
abbrev main_v118 : Ref sig .tc := ⟨.hbm, 777, rfl⟩
abbrev main_call29_c : Ref sig .tc := ⟨.hbm, 778, rfl⟩
abbrev main_call29_v0 : Ref sig .tc := ⟨.hbm, 779, rfl⟩
abbrev main_call29_v1 : Ref sig .tc := ⟨.hbm, 780, rfl⟩
abbrev main_call29_c_0 : Ref sig .tc := ⟨.hbm, 781, rfl⟩
abbrev main_call29_v2 : Ref sig .tc := ⟨.hbm, 782, rfl⟩
abbrev main_call29_v3 : Ref sig .tc := ⟨.hbm, 783, rfl⟩
abbrev main_call29_v4 : Ref sig .tc := ⟨.hbm, 784, rfl⟩
abbrev main_call29_v5 : Ref sig .tc := ⟨.hbm, 785, rfl⟩
abbrev main_call29_c_1 : Ref sig .tc := ⟨.hbm, 786, rfl⟩
abbrev main_call29_c_2 : Ref sig .tc := ⟨.hbm, 787, rfl⟩
abbrev main_call29_v6 : Ref sig .tc := ⟨.hbm, 788, rfl⟩
abbrev main_call29_v7 : Ref sig .tc := ⟨.hbm, 789, rfl⟩
abbrev main_call29_v8 : Ref sig .tc := ⟨.hbm, 790, rfl⟩
abbrev main_call29_v9 : Ref sig .tc := ⟨.hbm, 791, rfl⟩
abbrev main_call29_v10 : Ref sig .tc := ⟨.hbm, 792, rfl⟩
abbrev main_call29_v11 : Ref sig .tc := ⟨.hbm, 793, rfl⟩
abbrev main_call29_c_3 : Ref sig .tc := ⟨.hbm, 794, rfl⟩
abbrev main_call29_v12 : Ref sig .tc := ⟨.hbm, 795, rfl⟩
abbrev main_call29_v13 : Ref sig .tc := ⟨.hbm, 796, rfl⟩
abbrev main_call29_v14 : Ref sig .tc := ⟨.hbm, 797, rfl⟩
abbrev main_call29_cst : Ref sig .tc := ⟨.hbm, 798, rfl⟩
abbrev main_call29_v15 : Ref sig .tc := ⟨.hbm, 799, rfl⟩
abbrev main_v119 : Ref sig .tc := ⟨.hbm, 800, rfl⟩
abbrev main_v120 : Ref sig .tc := ⟨.hbm, 801, rfl⟩
abbrev main_v121 : Ref sig .tc := ⟨.hbm, 802, rfl⟩
abbrev main_v122 : Ref sig .tc := ⟨.hbm, 803, rfl⟩
abbrev main_call30_c : Ref sig .tc := ⟨.hbm, 804, rfl⟩
abbrev main_call30_v0 : Ref sig .tc := ⟨.hbm, 805, rfl⟩
abbrev main_call30_v1 : Ref sig .tc := ⟨.hbm, 806, rfl⟩
abbrev main_call30_c_0 : Ref sig .tc := ⟨.hbm, 807, rfl⟩
abbrev main_call30_v2 : Ref sig .tc := ⟨.hbm, 808, rfl⟩
abbrev main_call30_v3 : Ref sig .tc := ⟨.hbm, 809, rfl⟩
abbrev main_call30_v4 : Ref sig .tc := ⟨.hbm, 810, rfl⟩
abbrev main_call30_v5 : Ref sig .tc := ⟨.hbm, 811, rfl⟩
abbrev main_call30_c_1 : Ref sig .tc := ⟨.hbm, 812, rfl⟩
abbrev main_call30_c_2 : Ref sig .tc := ⟨.hbm, 813, rfl⟩
abbrev main_call30_v6 : Ref sig .tc := ⟨.hbm, 814, rfl⟩
abbrev main_call30_v7 : Ref sig .tc := ⟨.hbm, 815, rfl⟩
abbrev main_call30_v8 : Ref sig .tc := ⟨.hbm, 816, rfl⟩
abbrev main_call30_v9 : Ref sig .tc := ⟨.hbm, 817, rfl⟩
abbrev main_call30_v10 : Ref sig .tc := ⟨.hbm, 818, rfl⟩
abbrev main_call30_v11 : Ref sig .tc := ⟨.hbm, 819, rfl⟩
abbrev main_call30_c_3 : Ref sig .tc := ⟨.hbm, 820, rfl⟩
abbrev main_call30_v12 : Ref sig .tc := ⟨.hbm, 821, rfl⟩
abbrev main_call30_v13 : Ref sig .tc := ⟨.hbm, 822, rfl⟩
abbrev main_call30_v14 : Ref sig .tc := ⟨.hbm, 823, rfl⟩
abbrev main_call30_cst : Ref sig .tc := ⟨.hbm, 824, rfl⟩
abbrev main_call30_v15 : Ref sig .tc := ⟨.hbm, 825, rfl⟩
abbrev main_v123 : Ref sig .tc := ⟨.hbm, 826, rfl⟩
abbrev main_cst_14 : Ref sig .tc := ⟨.hbm, 827, rfl⟩
abbrev main_v124 : Ref sig .tc := ⟨.hbm, 828, rfl⟩
abbrev main_v125 : Ref sig .tc := ⟨.hbm, 829, rfl⟩
abbrev main_v126 : Ref sig .tc := ⟨.hbm, 830, rfl⟩
abbrev main_call31_c : Ref sig .tc := ⟨.hbm, 831, rfl⟩
abbrev main_call31_v0 : Ref sig .tc := ⟨.hbm, 832, rfl⟩
abbrev main_call31_v1 : Ref sig .tc := ⟨.hbm, 833, rfl⟩
abbrev main_call31_c_0 : Ref sig .tc := ⟨.hbm, 834, rfl⟩
abbrev main_call31_v2 : Ref sig .tc := ⟨.hbm, 835, rfl⟩
abbrev main_call31_v3 : Ref sig .tc := ⟨.hbm, 836, rfl⟩
abbrev main_call31_v4 : Ref sig .tc := ⟨.hbm, 837, rfl⟩
abbrev main_call31_v5 : Ref sig .tc := ⟨.hbm, 838, rfl⟩
abbrev main_call31_c_1 : Ref sig .tc := ⟨.hbm, 839, rfl⟩
abbrev main_call31_c_2 : Ref sig .tc := ⟨.hbm, 840, rfl⟩
abbrev main_call31_v6 : Ref sig .tc := ⟨.hbm, 841, rfl⟩
abbrev main_call31_v7 : Ref sig .tc := ⟨.hbm, 842, rfl⟩
abbrev main_call31_v8 : Ref sig .tc := ⟨.hbm, 843, rfl⟩
abbrev main_call31_v9 : Ref sig .tc := ⟨.hbm, 844, rfl⟩
abbrev main_call31_v10 : Ref sig .tc := ⟨.hbm, 845, rfl⟩
abbrev main_call31_v11 : Ref sig .tc := ⟨.hbm, 846, rfl⟩
abbrev main_call31_c_3 : Ref sig .tc := ⟨.hbm, 847, rfl⟩
abbrev main_call31_v12 : Ref sig .tc := ⟨.hbm, 848, rfl⟩
abbrev main_call31_v13 : Ref sig .tc := ⟨.hbm, 849, rfl⟩
abbrev main_call31_v14 : Ref sig .tc := ⟨.hbm, 850, rfl⟩
abbrev main_call31_cst : Ref sig .tc := ⟨.hbm, 851, rfl⟩
abbrev main_call31_v15 : Ref sig .tc := ⟨.hbm, 852, rfl⟩
abbrev main_v127 : Ref sig .tc := ⟨.hbm, 853, rfl⟩
abbrev main_v128 : Ref sig .tc := ⟨.hbm, 854, rfl⟩
abbrev main_v129 : Ref sig .tc := ⟨.hbm, 855, rfl⟩
abbrev main_v130 : Ref sig .tc := ⟨.hbm, 856, rfl⟩
abbrev main_call32_c : Ref sig .tc := ⟨.hbm, 857, rfl⟩
abbrev main_call32_v0 : Ref sig .tc := ⟨.hbm, 858, rfl⟩
abbrev main_call32_v1 : Ref sig .tc := ⟨.hbm, 859, rfl⟩
abbrev main_call32_c_0 : Ref sig .tc := ⟨.hbm, 860, rfl⟩
abbrev main_call32_v2 : Ref sig .tc := ⟨.hbm, 861, rfl⟩
abbrev main_call32_v3 : Ref sig .tc := ⟨.hbm, 862, rfl⟩
abbrev main_call32_v4 : Ref sig .tc := ⟨.hbm, 863, rfl⟩
abbrev main_call32_v5 : Ref sig .tc := ⟨.hbm, 864, rfl⟩
abbrev main_call32_c_1 : Ref sig .tc := ⟨.hbm, 865, rfl⟩
abbrev main_call32_c_2 : Ref sig .tc := ⟨.hbm, 866, rfl⟩
abbrev main_call32_v6 : Ref sig .tc := ⟨.hbm, 867, rfl⟩
abbrev main_call32_v7 : Ref sig .tc := ⟨.hbm, 868, rfl⟩
abbrev main_call32_v8 : Ref sig .tc := ⟨.hbm, 869, rfl⟩
abbrev main_call32_v9 : Ref sig .tc := ⟨.hbm, 870, rfl⟩
abbrev main_call32_v10 : Ref sig .tc := ⟨.hbm, 871, rfl⟩
abbrev main_call32_v11 : Ref sig .tc := ⟨.hbm, 872, rfl⟩
abbrev main_call32_c_3 : Ref sig .tc := ⟨.hbm, 873, rfl⟩
abbrev main_call32_v12 : Ref sig .tc := ⟨.hbm, 874, rfl⟩
abbrev main_call32_v13 : Ref sig .tc := ⟨.hbm, 875, rfl⟩
abbrev main_call32_v14 : Ref sig .tc := ⟨.hbm, 876, rfl⟩
abbrev main_call32_cst : Ref sig .tc := ⟨.hbm, 877, rfl⟩
abbrev main_call32_v15 : Ref sig .tc := ⟨.hbm, 878, rfl⟩
abbrev main_v131 : Ref sig .tc := ⟨.hbm, 879, rfl⟩
abbrev main_cst_15 : Ref sig .tc := ⟨.hbm, 880, rfl⟩
abbrev main_v132 : Ref sig .tc := ⟨.hbm, 881, rfl⟩
abbrev main_v133 : Ref sig .tc := ⟨.hbm, 882, rfl⟩
abbrev main_v134 : Ref sig .tc := ⟨.hbm, 883, rfl⟩
abbrev main_call33_c : Ref sig .tc := ⟨.hbm, 884, rfl⟩
abbrev main_call33_v0 : Ref sig .tc := ⟨.hbm, 885, rfl⟩
abbrev main_call33_v1 : Ref sig .tc := ⟨.hbm, 886, rfl⟩
abbrev main_call33_c_0 : Ref sig .tc := ⟨.hbm, 887, rfl⟩
abbrev main_call33_v2 : Ref sig .tc := ⟨.hbm, 888, rfl⟩
abbrev main_call33_v3 : Ref sig .tc := ⟨.hbm, 889, rfl⟩
abbrev main_call33_v4 : Ref sig .tc := ⟨.hbm, 890, rfl⟩
abbrev main_call33_v5 : Ref sig .tc := ⟨.hbm, 891, rfl⟩
abbrev main_call33_c_1 : Ref sig .tc := ⟨.hbm, 892, rfl⟩
abbrev main_call33_c_2 : Ref sig .tc := ⟨.hbm, 893, rfl⟩
abbrev main_call33_v6 : Ref sig .tc := ⟨.hbm, 894, rfl⟩
abbrev main_call33_v7 : Ref sig .tc := ⟨.hbm, 895, rfl⟩
abbrev main_call33_v8 : Ref sig .tc := ⟨.hbm, 896, rfl⟩
abbrev main_call33_v9 : Ref sig .tc := ⟨.hbm, 897, rfl⟩
abbrev main_call33_v10 : Ref sig .tc := ⟨.hbm, 898, rfl⟩
abbrev main_call33_v11 : Ref sig .tc := ⟨.hbm, 899, rfl⟩
abbrev main_call33_c_3 : Ref sig .tc := ⟨.hbm, 900, rfl⟩
abbrev main_call33_v12 : Ref sig .tc := ⟨.hbm, 901, rfl⟩
abbrev main_call33_v13 : Ref sig .tc := ⟨.hbm, 902, rfl⟩
abbrev main_call33_v14 : Ref sig .tc := ⟨.hbm, 903, rfl⟩
abbrev main_call33_cst : Ref sig .tc := ⟨.hbm, 904, rfl⟩
abbrev main_call33_v15 : Ref sig .tc := ⟨.hbm, 905, rfl⟩
abbrev main_v135 : Ref sig .tc := ⟨.hbm, 906, rfl⟩
abbrev main_v136 : Ref sig .tc := ⟨.hbm, 907, rfl⟩
abbrev main_v137 : Ref sig .tc := ⟨.hbm, 908, rfl⟩
abbrev main_v138 : Ref sig .tc := ⟨.hbm, 909, rfl⟩
abbrev main_call34_c : Ref sig .tc := ⟨.hbm, 910, rfl⟩
abbrev main_call34_v0 : Ref sig .tc := ⟨.hbm, 911, rfl⟩
abbrev main_call34_v1 : Ref sig .tc := ⟨.hbm, 912, rfl⟩
abbrev main_call34_c_0 : Ref sig .tc := ⟨.hbm, 913, rfl⟩
abbrev main_call34_v2 : Ref sig .tc := ⟨.hbm, 914, rfl⟩
abbrev main_call34_v3 : Ref sig .tc := ⟨.hbm, 915, rfl⟩
abbrev main_call34_v4 : Ref sig .tc := ⟨.hbm, 916, rfl⟩
abbrev main_call34_v5 : Ref sig .tc := ⟨.hbm, 917, rfl⟩
abbrev main_call34_c_1 : Ref sig .tc := ⟨.hbm, 918, rfl⟩
abbrev main_call34_c_2 : Ref sig .tc := ⟨.hbm, 919, rfl⟩
abbrev main_call34_v6 : Ref sig .tc := ⟨.hbm, 920, rfl⟩
abbrev main_call34_v7 : Ref sig .tc := ⟨.hbm, 921, rfl⟩
abbrev main_call34_v8 : Ref sig .tc := ⟨.hbm, 922, rfl⟩
abbrev main_call34_v9 : Ref sig .tc := ⟨.hbm, 923, rfl⟩
abbrev main_call34_v10 : Ref sig .tc := ⟨.hbm, 924, rfl⟩
abbrev main_call34_v11 : Ref sig .tc := ⟨.hbm, 925, rfl⟩
abbrev main_call34_c_3 : Ref sig .tc := ⟨.hbm, 926, rfl⟩
abbrev main_call34_v12 : Ref sig .tc := ⟨.hbm, 927, rfl⟩
abbrev main_call34_v13 : Ref sig .tc := ⟨.hbm, 928, rfl⟩
abbrev main_call34_v14 : Ref sig .tc := ⟨.hbm, 929, rfl⟩
abbrev main_call34_cst : Ref sig .tc := ⟨.hbm, 930, rfl⟩
abbrev main_call34_v15 : Ref sig .tc := ⟨.hbm, 931, rfl⟩
abbrev main_v139 : Ref sig .tc := ⟨.hbm, 932, rfl⟩
abbrev main_cst_16 : Ref sig .tc := ⟨.hbm, 933, rfl⟩
abbrev main_v140 : Ref sig .tc := ⟨.hbm, 934, rfl⟩
abbrev main_v141 : Ref sig .tc := ⟨.hbm, 935, rfl⟩
abbrev main_v142 : Ref sig .tc := ⟨.hbm, 936, rfl⟩
abbrev main_call35_c : Ref sig .tc := ⟨.hbm, 937, rfl⟩
abbrev main_call35_v0 : Ref sig .tc := ⟨.hbm, 938, rfl⟩
abbrev main_call35_v1 : Ref sig .tc := ⟨.hbm, 939, rfl⟩
abbrev main_call35_c_0 : Ref sig .tc := ⟨.hbm, 940, rfl⟩
abbrev main_call35_v2 : Ref sig .tc := ⟨.hbm, 941, rfl⟩
abbrev main_call35_v3 : Ref sig .tc := ⟨.hbm, 942, rfl⟩
abbrev main_call35_v4 : Ref sig .tc := ⟨.hbm, 943, rfl⟩
abbrev main_call35_v5 : Ref sig .tc := ⟨.hbm, 944, rfl⟩
abbrev main_call35_c_1 : Ref sig .tc := ⟨.hbm, 945, rfl⟩
abbrev main_call35_c_2 : Ref sig .tc := ⟨.hbm, 946, rfl⟩
abbrev main_call35_v6 : Ref sig .tc := ⟨.hbm, 947, rfl⟩
abbrev main_call35_v7 : Ref sig .tc := ⟨.hbm, 948, rfl⟩
abbrev main_call35_v8 : Ref sig .tc := ⟨.hbm, 949, rfl⟩
abbrev main_call35_v9 : Ref sig .tc := ⟨.hbm, 950, rfl⟩
abbrev main_call35_v10 : Ref sig .tc := ⟨.hbm, 951, rfl⟩
abbrev main_call35_v11 : Ref sig .tc := ⟨.hbm, 952, rfl⟩
abbrev main_call35_c_3 : Ref sig .tc := ⟨.hbm, 953, rfl⟩
abbrev main_call35_v12 : Ref sig .tc := ⟨.hbm, 954, rfl⟩
abbrev main_call35_v13 : Ref sig .tc := ⟨.hbm, 955, rfl⟩
abbrev main_call35_v14 : Ref sig .tc := ⟨.hbm, 956, rfl⟩
abbrev main_call35_cst : Ref sig .tc := ⟨.hbm, 957, rfl⟩
abbrev main_call35_v15 : Ref sig .tc := ⟨.hbm, 958, rfl⟩
abbrev main_v143 : Ref sig .tc := ⟨.hbm, 959, rfl⟩
abbrev main_v144 : Ref sig .tc := ⟨.hbm, 960, rfl⟩
abbrev main_v145 : Ref sig .tc := ⟨.hbm, 961, rfl⟩
abbrev main_v146 : Ref sig .tc := ⟨.hbm, 962, rfl⟩
abbrev main_call36_c : Ref sig .tc := ⟨.hbm, 963, rfl⟩
abbrev main_call36_v0 : Ref sig .tc := ⟨.hbm, 964, rfl⟩
abbrev main_call36_v1 : Ref sig .tc := ⟨.hbm, 965, rfl⟩
abbrev main_call36_c_0 : Ref sig .tc := ⟨.hbm, 966, rfl⟩
abbrev main_call36_v2 : Ref sig .tc := ⟨.hbm, 967, rfl⟩
abbrev main_call36_v3 : Ref sig .tc := ⟨.hbm, 968, rfl⟩
abbrev main_call36_v4 : Ref sig .tc := ⟨.hbm, 969, rfl⟩
abbrev main_call36_v5 : Ref sig .tc := ⟨.hbm, 970, rfl⟩
abbrev main_call36_c_1 : Ref sig .tc := ⟨.hbm, 971, rfl⟩
abbrev main_call36_c_2 : Ref sig .tc := ⟨.hbm, 972, rfl⟩
abbrev main_call36_v6 : Ref sig .tc := ⟨.hbm, 973, rfl⟩
abbrev main_call36_v7 : Ref sig .tc := ⟨.hbm, 974, rfl⟩
abbrev main_call36_v8 : Ref sig .tc := ⟨.hbm, 975, rfl⟩
abbrev main_call36_v9 : Ref sig .tc := ⟨.hbm, 976, rfl⟩
abbrev main_call36_v10 : Ref sig .tc := ⟨.hbm, 977, rfl⟩
abbrev main_call36_v11 : Ref sig .tc := ⟨.hbm, 978, rfl⟩
abbrev main_call36_c_3 : Ref sig .tc := ⟨.hbm, 979, rfl⟩
abbrev main_call36_v12 : Ref sig .tc := ⟨.hbm, 980, rfl⟩
abbrev main_call36_v13 : Ref sig .tc := ⟨.hbm, 981, rfl⟩
abbrev main_call36_v14 : Ref sig .tc := ⟨.hbm, 982, rfl⟩
abbrev main_call36_cst : Ref sig .tc := ⟨.hbm, 983, rfl⟩
abbrev main_call36_v15 : Ref sig .tc := ⟨.hbm, 984, rfl⟩
abbrev main_v147 : Ref sig .tc := ⟨.hbm, 985, rfl⟩
abbrev main_cst_17 : Ref sig .tc := ⟨.hbm, 986, rfl⟩
abbrev main_v148 : Ref sig .tc := ⟨.hbm, 987, rfl⟩
abbrev main_v149 : Ref sig .tc := ⟨.hbm, 988, rfl⟩
abbrev main_v150 : Ref sig .tc := ⟨.hbm, 989, rfl⟩
abbrev main_call37_c : Ref sig .tc := ⟨.hbm, 990, rfl⟩
abbrev main_call37_v0 : Ref sig .tc := ⟨.hbm, 991, rfl⟩
abbrev main_call37_v1 : Ref sig .tc := ⟨.hbm, 992, rfl⟩
abbrev main_call37_c_0 : Ref sig .tc := ⟨.hbm, 993, rfl⟩
abbrev main_call37_v2 : Ref sig .tc := ⟨.hbm, 994, rfl⟩
abbrev main_call37_v3 : Ref sig .tc := ⟨.hbm, 995, rfl⟩
abbrev main_call37_v4 : Ref sig .tc := ⟨.hbm, 996, rfl⟩
abbrev main_call37_v5 : Ref sig .tc := ⟨.hbm, 997, rfl⟩
abbrev main_call37_c_1 : Ref sig .tc := ⟨.hbm, 998, rfl⟩
abbrev main_call37_c_2 : Ref sig .tc := ⟨.hbm, 999, rfl⟩
abbrev main_call37_v6 : Ref sig .tc := ⟨.hbm, 1000, rfl⟩
abbrev main_call37_v7 : Ref sig .tc := ⟨.hbm, 1001, rfl⟩
abbrev main_call37_v8 : Ref sig .tc := ⟨.hbm, 1002, rfl⟩
abbrev main_call37_v9 : Ref sig .tc := ⟨.hbm, 1003, rfl⟩
abbrev main_call37_v10 : Ref sig .tc := ⟨.hbm, 1004, rfl⟩
abbrev main_call37_v11 : Ref sig .tc := ⟨.hbm, 1005, rfl⟩
abbrev main_call37_c_3 : Ref sig .tc := ⟨.hbm, 1006, rfl⟩
abbrev main_call37_v12 : Ref sig .tc := ⟨.hbm, 1007, rfl⟩
abbrev main_call37_v13 : Ref sig .tc := ⟨.hbm, 1008, rfl⟩
abbrev main_call37_v14 : Ref sig .tc := ⟨.hbm, 1009, rfl⟩
abbrev main_call37_cst : Ref sig .tc := ⟨.hbm, 1010, rfl⟩
abbrev main_call37_v15 : Ref sig .tc := ⟨.hbm, 1011, rfl⟩
abbrev main_v151 : Ref sig .tc := ⟨.hbm, 1012, rfl⟩
abbrev main_v152 : Ref sig .tc := ⟨.hbm, 1013, rfl⟩
abbrev main_v153 : Ref sig .tc := ⟨.hbm, 1014, rfl⟩
abbrev main_v154 : Ref sig .tc := ⟨.hbm, 1015, rfl⟩
abbrev main_call38_c : Ref sig .tc := ⟨.hbm, 1016, rfl⟩
abbrev main_call38_v0 : Ref sig .tc := ⟨.hbm, 1017, rfl⟩
abbrev main_call38_v1 : Ref sig .tc := ⟨.hbm, 1018, rfl⟩
abbrev main_call38_c_0 : Ref sig .tc := ⟨.hbm, 1019, rfl⟩
abbrev main_call38_v2 : Ref sig .tc := ⟨.hbm, 1020, rfl⟩
abbrev main_call38_v3 : Ref sig .tc := ⟨.hbm, 1021, rfl⟩
abbrev main_call38_v4 : Ref sig .tc := ⟨.hbm, 1022, rfl⟩
abbrev main_call38_v5 : Ref sig .tc := ⟨.hbm, 1023, rfl⟩
abbrev main_call38_c_1 : Ref sig .tc := ⟨.hbm, 1024, rfl⟩
abbrev main_call38_c_2 : Ref sig .tc := ⟨.hbm, 1025, rfl⟩
abbrev main_call38_v6 : Ref sig .tc := ⟨.hbm, 1026, rfl⟩
abbrev main_call38_v7 : Ref sig .tc := ⟨.hbm, 1027, rfl⟩
abbrev main_call38_v8 : Ref sig .tc := ⟨.hbm, 1028, rfl⟩
abbrev main_call38_v9 : Ref sig .tc := ⟨.hbm, 1029, rfl⟩
abbrev main_call38_v10 : Ref sig .tc := ⟨.hbm, 1030, rfl⟩
abbrev main_call38_v11 : Ref sig .tc := ⟨.hbm, 1031, rfl⟩
abbrev main_call38_c_3 : Ref sig .tc := ⟨.hbm, 1032, rfl⟩
abbrev main_call38_v12 : Ref sig .tc := ⟨.hbm, 1033, rfl⟩
abbrev main_call38_v13 : Ref sig .tc := ⟨.hbm, 1034, rfl⟩
abbrev main_call38_v14 : Ref sig .tc := ⟨.hbm, 1035, rfl⟩
abbrev main_call38_cst : Ref sig .tc := ⟨.hbm, 1036, rfl⟩
abbrev main_call38_v15 : Ref sig .tc := ⟨.hbm, 1037, rfl⟩
abbrev main_v155 : Ref sig .tc := ⟨.hbm, 1038, rfl⟩
abbrev main_cst_18 : Ref sig .tc := ⟨.hbm, 1039, rfl⟩
abbrev main_v156 : Ref sig .tc := ⟨.hbm, 1040, rfl⟩
abbrev main_v157 : Ref sig .tc := ⟨.hbm, 1041, rfl⟩
abbrev main_v158 : Ref sig .tc := ⟨.hbm, 1042, rfl⟩
abbrev main_call39_c : Ref sig .tc := ⟨.hbm, 1043, rfl⟩
abbrev main_call39_v0 : Ref sig .tc := ⟨.hbm, 1044, rfl⟩
abbrev main_call39_v1 : Ref sig .tc := ⟨.hbm, 1045, rfl⟩
abbrev main_call39_c_0 : Ref sig .tc := ⟨.hbm, 1046, rfl⟩
abbrev main_call39_v2 : Ref sig .tc := ⟨.hbm, 1047, rfl⟩
abbrev main_call39_v3 : Ref sig .tc := ⟨.hbm, 1048, rfl⟩
abbrev main_call39_v4 : Ref sig .tc := ⟨.hbm, 1049, rfl⟩
abbrev main_call39_v5 : Ref sig .tc := ⟨.hbm, 1050, rfl⟩
abbrev main_call39_c_1 : Ref sig .tc := ⟨.hbm, 1051, rfl⟩
abbrev main_call39_c_2 : Ref sig .tc := ⟨.hbm, 1052, rfl⟩
abbrev main_call39_v6 : Ref sig .tc := ⟨.hbm, 1053, rfl⟩
abbrev main_call39_v7 : Ref sig .tc := ⟨.hbm, 1054, rfl⟩
abbrev main_call39_v8 : Ref sig .tc := ⟨.hbm, 1055, rfl⟩
abbrev main_call39_v9 : Ref sig .tc := ⟨.hbm, 1056, rfl⟩
abbrev main_call39_v10 : Ref sig .tc := ⟨.hbm, 1057, rfl⟩
abbrev main_call39_v11 : Ref sig .tc := ⟨.hbm, 1058, rfl⟩
abbrev main_call39_c_3 : Ref sig .tc := ⟨.hbm, 1059, rfl⟩
abbrev main_call39_v12 : Ref sig .tc := ⟨.hbm, 1060, rfl⟩
abbrev main_call39_v13 : Ref sig .tc := ⟨.hbm, 1061, rfl⟩
abbrev main_call39_v14 : Ref sig .tc := ⟨.hbm, 1062, rfl⟩
abbrev main_call39_cst : Ref sig .tc := ⟨.hbm, 1063, rfl⟩
abbrev main_call39_v15 : Ref sig .tc := ⟨.hbm, 1064, rfl⟩
abbrev main_v159 : Ref sig .tc := ⟨.hbm, 1065, rfl⟩
abbrev main_v160 : Ref sig .tc := ⟨.hbm, 1066, rfl⟩
abbrev main_v161 : Ref sig .tc := ⟨.hbm, 1067, rfl⟩
abbrev main_v162 : Ref sig .tc := ⟨.hbm, 1068, rfl⟩
abbrev main_call40_c : Ref sig .tc := ⟨.hbm, 1069, rfl⟩
abbrev main_call40_v0 : Ref sig .tc := ⟨.hbm, 1070, rfl⟩
abbrev main_call40_v1 : Ref sig .tc := ⟨.hbm, 1071, rfl⟩
abbrev main_call40_c_0 : Ref sig .tc := ⟨.hbm, 1072, rfl⟩
abbrev main_call40_v2 : Ref sig .tc := ⟨.hbm, 1073, rfl⟩
abbrev main_call40_v3 : Ref sig .tc := ⟨.hbm, 1074, rfl⟩
abbrev main_call40_v4 : Ref sig .tc := ⟨.hbm, 1075, rfl⟩
abbrev main_call40_v5 : Ref sig .tc := ⟨.hbm, 1076, rfl⟩
abbrev main_call40_c_1 : Ref sig .tc := ⟨.hbm, 1077, rfl⟩
abbrev main_call40_c_2 : Ref sig .tc := ⟨.hbm, 1078, rfl⟩
abbrev main_call40_v6 : Ref sig .tc := ⟨.hbm, 1079, rfl⟩
abbrev main_call40_v7 : Ref sig .tc := ⟨.hbm, 1080, rfl⟩
abbrev main_call40_v8 : Ref sig .tc := ⟨.hbm, 1081, rfl⟩
abbrev main_call40_v9 : Ref sig .tc := ⟨.hbm, 1082, rfl⟩
abbrev main_call40_v10 : Ref sig .tc := ⟨.hbm, 1083, rfl⟩
abbrev main_call40_v11 : Ref sig .tc := ⟨.hbm, 1084, rfl⟩
abbrev main_call40_c_3 : Ref sig .tc := ⟨.hbm, 1085, rfl⟩
abbrev main_call40_v12 : Ref sig .tc := ⟨.hbm, 1086, rfl⟩
abbrev main_call40_v13 : Ref sig .tc := ⟨.hbm, 1087, rfl⟩
abbrev main_call40_v14 : Ref sig .tc := ⟨.hbm, 1088, rfl⟩
abbrev main_call40_cst : Ref sig .tc := ⟨.hbm, 1089, rfl⟩
abbrev main_call40_v15 : Ref sig .tc := ⟨.hbm, 1090, rfl⟩
abbrev main_v163 : Ref sig .tc := ⟨.hbm, 1091, rfl⟩
abbrev main_cst_19 : Ref sig .tc := ⟨.hbm, 1092, rfl⟩
abbrev main_v164 : Ref sig .tc := ⟨.hbm, 1093, rfl⟩
abbrev main_v165 : Ref sig .tc := ⟨.hbm, 1094, rfl⟩
abbrev main_v166 : Ref sig .tc := ⟨.hbm, 1095, rfl⟩
abbrev main_call41_c : Ref sig .tc := ⟨.hbm, 1096, rfl⟩
abbrev main_call41_v0 : Ref sig .tc := ⟨.hbm, 1097, rfl⟩
abbrev main_call41_v1 : Ref sig .tc := ⟨.hbm, 1098, rfl⟩
abbrev main_call41_c_0 : Ref sig .tc := ⟨.hbm, 1099, rfl⟩
abbrev main_call41_v2 : Ref sig .tc := ⟨.hbm, 1100, rfl⟩
abbrev main_call41_v3 : Ref sig .tc := ⟨.hbm, 1101, rfl⟩
abbrev main_call41_v4 : Ref sig .tc := ⟨.hbm, 1102, rfl⟩
abbrev main_call41_v5 : Ref sig .tc := ⟨.hbm, 1103, rfl⟩
abbrev main_call41_c_1 : Ref sig .tc := ⟨.hbm, 1104, rfl⟩
abbrev main_call41_c_2 : Ref sig .tc := ⟨.hbm, 1105, rfl⟩
abbrev main_call41_v6 : Ref sig .tc := ⟨.hbm, 1106, rfl⟩
abbrev main_call41_v7 : Ref sig .tc := ⟨.hbm, 1107, rfl⟩
abbrev main_call41_v8 : Ref sig .tc := ⟨.hbm, 1108, rfl⟩
abbrev main_call41_v9 : Ref sig .tc := ⟨.hbm, 1109, rfl⟩
abbrev main_call41_v10 : Ref sig .tc := ⟨.hbm, 1110, rfl⟩
abbrev main_call41_v11 : Ref sig .tc := ⟨.hbm, 1111, rfl⟩
abbrev main_call41_c_3 : Ref sig .tc := ⟨.hbm, 1112, rfl⟩
abbrev main_call41_v12 : Ref sig .tc := ⟨.hbm, 1113, rfl⟩
abbrev main_call41_v13 : Ref sig .tc := ⟨.hbm, 1114, rfl⟩
abbrev main_call41_v14 : Ref sig .tc := ⟨.hbm, 1115, rfl⟩
abbrev main_call41_cst : Ref sig .tc := ⟨.hbm, 1116, rfl⟩
abbrev main_call41_v15 : Ref sig .tc := ⟨.hbm, 1117, rfl⟩
abbrev main_v167 : Ref sig .tc := ⟨.hbm, 1118, rfl⟩
abbrev main_v168 : Ref sig .tc := ⟨.hbm, 1119, rfl⟩
abbrev main_v169 : Ref sig .tc := ⟨.hbm, 1120, rfl⟩
abbrev main_v170 : Ref sig .tc := ⟨.hbm, 1121, rfl⟩
abbrev main_call42_c : Ref sig .tc := ⟨.hbm, 1122, rfl⟩
abbrev main_call42_v0 : Ref sig .tc := ⟨.hbm, 1123, rfl⟩
abbrev main_call42_v1 : Ref sig .tc := ⟨.hbm, 1124, rfl⟩
abbrev main_call42_c_0 : Ref sig .tc := ⟨.hbm, 1125, rfl⟩
abbrev main_call42_v2 : Ref sig .tc := ⟨.hbm, 1126, rfl⟩
abbrev main_call42_v3 : Ref sig .tc := ⟨.hbm, 1127, rfl⟩
abbrev main_call42_v4 : Ref sig .tc := ⟨.hbm, 1128, rfl⟩
abbrev main_call42_v5 : Ref sig .tc := ⟨.hbm, 1129, rfl⟩
abbrev main_call42_c_1 : Ref sig .tc := ⟨.hbm, 1130, rfl⟩
abbrev main_call42_c_2 : Ref sig .tc := ⟨.hbm, 1131, rfl⟩
abbrev main_call42_v6 : Ref sig .tc := ⟨.hbm, 1132, rfl⟩
abbrev main_call42_v7 : Ref sig .tc := ⟨.hbm, 1133, rfl⟩
abbrev main_call42_v8 : Ref sig .tc := ⟨.hbm, 1134, rfl⟩
abbrev main_call42_v9 : Ref sig .tc := ⟨.hbm, 1135, rfl⟩
abbrev main_call42_v10 : Ref sig .tc := ⟨.hbm, 1136, rfl⟩
abbrev main_call42_v11 : Ref sig .tc := ⟨.hbm, 1137, rfl⟩
abbrev main_call42_c_3 : Ref sig .tc := ⟨.hbm, 1138, rfl⟩
abbrev main_call42_v12 : Ref sig .tc := ⟨.hbm, 1139, rfl⟩
abbrev main_call42_v13 : Ref sig .tc := ⟨.hbm, 1140, rfl⟩
abbrev main_call42_v14 : Ref sig .tc := ⟨.hbm, 1141, rfl⟩
abbrev main_call42_cst : Ref sig .tc := ⟨.hbm, 1142, rfl⟩
abbrev main_call42_v15 : Ref sig .tc := ⟨.hbm, 1143, rfl⟩
abbrev main_v171 : Ref sig .tc := ⟨.hbm, 1144, rfl⟩
abbrev main_cst_20 : Ref sig .tc := ⟨.hbm, 1145, rfl⟩
abbrev main_v172 : Ref sig .tc := ⟨.hbm, 1146, rfl⟩
abbrev main_v173 : Ref sig .tc := ⟨.hbm, 1147, rfl⟩
abbrev main_v174 : Ref sig .tc := ⟨.hbm, 1148, rfl⟩
abbrev main_call43_c : Ref sig .tc := ⟨.hbm, 1149, rfl⟩
abbrev main_call43_v0 : Ref sig .tc := ⟨.hbm, 1150, rfl⟩
abbrev main_call43_v1 : Ref sig .tc := ⟨.hbm, 1151, rfl⟩
abbrev main_call43_c_0 : Ref sig .tc := ⟨.hbm, 1152, rfl⟩
abbrev main_call43_v2 : Ref sig .tc := ⟨.hbm, 1153, rfl⟩
abbrev main_call43_v3 : Ref sig .tc := ⟨.hbm, 1154, rfl⟩
abbrev main_call43_v4 : Ref sig .tc := ⟨.hbm, 1155, rfl⟩
abbrev main_call43_v5 : Ref sig .tc := ⟨.hbm, 1156, rfl⟩
abbrev main_call43_c_1 : Ref sig .tc := ⟨.hbm, 1157, rfl⟩
abbrev main_call43_c_2 : Ref sig .tc := ⟨.hbm, 1158, rfl⟩
abbrev main_call43_v6 : Ref sig .tc := ⟨.hbm, 1159, rfl⟩
abbrev main_call43_v7 : Ref sig .tc := ⟨.hbm, 1160, rfl⟩
abbrev main_call43_v8 : Ref sig .tc := ⟨.hbm, 1161, rfl⟩
abbrev main_call43_v9 : Ref sig .tc := ⟨.hbm, 1162, rfl⟩
abbrev main_call43_v10 : Ref sig .tc := ⟨.hbm, 1163, rfl⟩
abbrev main_call43_v11 : Ref sig .tc := ⟨.hbm, 1164, rfl⟩
abbrev main_call43_c_3 : Ref sig .tc := ⟨.hbm, 1165, rfl⟩
abbrev main_call43_v12 : Ref sig .tc := ⟨.hbm, 1166, rfl⟩
abbrev main_call43_v13 : Ref sig .tc := ⟨.hbm, 1167, rfl⟩
abbrev main_call43_v14 : Ref sig .tc := ⟨.hbm, 1168, rfl⟩
abbrev main_call43_cst : Ref sig .tc := ⟨.hbm, 1169, rfl⟩
abbrev main_call43_v15 : Ref sig .tc := ⟨.hbm, 1170, rfl⟩
abbrev main_v175 : Ref sig .tc := ⟨.hbm, 1171, rfl⟩
abbrev main_v176 : Ref sig .tc := ⟨.hbm, 1172, rfl⟩
abbrev main_v177 : Ref sig .tc := ⟨.hbm, 1173, rfl⟩
abbrev main_v178 : Ref sig .tc := ⟨.hbm, 1174, rfl⟩
abbrev main_call44_c : Ref sig .tc := ⟨.hbm, 1175, rfl⟩
abbrev main_call44_v0 : Ref sig .tc := ⟨.hbm, 1176, rfl⟩
abbrev main_call44_v1 : Ref sig .tc := ⟨.hbm, 1177, rfl⟩
abbrev main_call44_c_0 : Ref sig .tc := ⟨.hbm, 1178, rfl⟩
abbrev main_call44_v2 : Ref sig .tc := ⟨.hbm, 1179, rfl⟩
abbrev main_call44_v3 : Ref sig .tc := ⟨.hbm, 1180, rfl⟩
abbrev main_call44_v4 : Ref sig .tc := ⟨.hbm, 1181, rfl⟩
abbrev main_call44_v5 : Ref sig .tc := ⟨.hbm, 1182, rfl⟩
abbrev main_call44_c_1 : Ref sig .tc := ⟨.hbm, 1183, rfl⟩
abbrev main_call44_c_2 : Ref sig .tc := ⟨.hbm, 1184, rfl⟩
abbrev main_call44_v6 : Ref sig .tc := ⟨.hbm, 1185, rfl⟩
abbrev main_call44_v7 : Ref sig .tc := ⟨.hbm, 1186, rfl⟩
abbrev main_call44_v8 : Ref sig .tc := ⟨.hbm, 1187, rfl⟩
abbrev main_call44_v9 : Ref sig .tc := ⟨.hbm, 1188, rfl⟩
abbrev main_call44_v10 : Ref sig .tc := ⟨.hbm, 1189, rfl⟩
abbrev main_call44_v11 : Ref sig .tc := ⟨.hbm, 1190, rfl⟩
abbrev main_call44_c_3 : Ref sig .tc := ⟨.hbm, 1191, rfl⟩
abbrev main_call44_v12 : Ref sig .tc := ⟨.hbm, 1192, rfl⟩
abbrev main_call44_v13 : Ref sig .tc := ⟨.hbm, 1193, rfl⟩
abbrev main_call44_v14 : Ref sig .tc := ⟨.hbm, 1194, rfl⟩
abbrev main_call44_cst : Ref sig .tc := ⟨.hbm, 1195, rfl⟩
abbrev main_call44_v15 : Ref sig .tc := ⟨.hbm, 1196, rfl⟩
abbrev main_v179 : Ref sig .tc := ⟨.hbm, 1197, rfl⟩
abbrev main_cst_21 : Ref sig .tc := ⟨.hbm, 1198, rfl⟩
abbrev main_v180 : Ref sig .tc := ⟨.hbm, 1199, rfl⟩
abbrev main_v181 : Ref sig .tc := ⟨.hbm, 1200, rfl⟩
abbrev main_v182 : Ref sig .tc := ⟨.hbm, 1201, rfl⟩
abbrev main_call45_c : Ref sig .tc := ⟨.hbm, 1202, rfl⟩
abbrev main_call45_v0 : Ref sig .tc := ⟨.hbm, 1203, rfl⟩
abbrev main_call45_v1 : Ref sig .tc := ⟨.hbm, 1204, rfl⟩
abbrev main_call45_c_0 : Ref sig .tc := ⟨.hbm, 1205, rfl⟩
abbrev main_call45_v2 : Ref sig .tc := ⟨.hbm, 1206, rfl⟩
abbrev main_call45_v3 : Ref sig .tc := ⟨.hbm, 1207, rfl⟩
abbrev main_call45_v4 : Ref sig .tc := ⟨.hbm, 1208, rfl⟩
abbrev main_call45_v5 : Ref sig .tc := ⟨.hbm, 1209, rfl⟩
abbrev main_call45_c_1 : Ref sig .tc := ⟨.hbm, 1210, rfl⟩
abbrev main_call45_c_2 : Ref sig .tc := ⟨.hbm, 1211, rfl⟩
abbrev main_call45_v6 : Ref sig .tc := ⟨.hbm, 1212, rfl⟩
abbrev main_call45_v7 : Ref sig .tc := ⟨.hbm, 1213, rfl⟩
abbrev main_call45_v8 : Ref sig .tc := ⟨.hbm, 1214, rfl⟩
abbrev main_call45_v9 : Ref sig .tc := ⟨.hbm, 1215, rfl⟩
abbrev main_call45_v10 : Ref sig .tc := ⟨.hbm, 1216, rfl⟩
abbrev main_call45_v11 : Ref sig .tc := ⟨.hbm, 1217, rfl⟩
abbrev main_call45_c_3 : Ref sig .tc := ⟨.hbm, 1218, rfl⟩
abbrev main_call45_v12 : Ref sig .tc := ⟨.hbm, 1219, rfl⟩
abbrev main_call45_v13 : Ref sig .tc := ⟨.hbm, 1220, rfl⟩
abbrev main_call45_v14 : Ref sig .tc := ⟨.hbm, 1221, rfl⟩
abbrev main_call45_cst : Ref sig .tc := ⟨.hbm, 1222, rfl⟩
abbrev main_call45_v15 : Ref sig .tc := ⟨.hbm, 1223, rfl⟩
abbrev main_v183 : Ref sig .tc := ⟨.hbm, 1224, rfl⟩
abbrev main_v184 : Ref sig .tc := ⟨.hbm, 1225, rfl⟩
abbrev main_v185 : Ref sig .tc := ⟨.hbm, 1226, rfl⟩
abbrev main_v186 : Ref sig .tc := ⟨.hbm, 1227, rfl⟩
abbrev main_call46_c : Ref sig .tc := ⟨.hbm, 1228, rfl⟩
abbrev main_call46_v0 : Ref sig .tc := ⟨.hbm, 1229, rfl⟩
abbrev main_call46_v1 : Ref sig .tc := ⟨.hbm, 1230, rfl⟩
abbrev main_call46_c_0 : Ref sig .tc := ⟨.hbm, 1231, rfl⟩
abbrev main_call46_v2 : Ref sig .tc := ⟨.hbm, 1232, rfl⟩
abbrev main_call46_v3 : Ref sig .tc := ⟨.hbm, 1233, rfl⟩
abbrev main_call46_v4 : Ref sig .tc := ⟨.hbm, 1234, rfl⟩
abbrev main_call46_v5 : Ref sig .tc := ⟨.hbm, 1235, rfl⟩
abbrev main_call46_c_1 : Ref sig .tc := ⟨.hbm, 1236, rfl⟩
abbrev main_call46_c_2 : Ref sig .tc := ⟨.hbm, 1237, rfl⟩
abbrev main_call46_v6 : Ref sig .tc := ⟨.hbm, 1238, rfl⟩
abbrev main_call46_v7 : Ref sig .tc := ⟨.hbm, 1239, rfl⟩
abbrev main_call46_v8 : Ref sig .tc := ⟨.hbm, 1240, rfl⟩
abbrev main_call46_v9 : Ref sig .tc := ⟨.hbm, 1241, rfl⟩
abbrev main_call46_v10 : Ref sig .tc := ⟨.hbm, 1242, rfl⟩
abbrev main_call46_v11 : Ref sig .tc := ⟨.hbm, 1243, rfl⟩
abbrev main_call46_c_3 : Ref sig .tc := ⟨.hbm, 1244, rfl⟩
abbrev main_call46_v12 : Ref sig .tc := ⟨.hbm, 1245, rfl⟩
abbrev main_call46_v13 : Ref sig .tc := ⟨.hbm, 1246, rfl⟩
abbrev main_call46_v14 : Ref sig .tc := ⟨.hbm, 1247, rfl⟩
abbrev main_call46_cst : Ref sig .tc := ⟨.hbm, 1248, rfl⟩
abbrev main_call46_v15 : Ref sig .tc := ⟨.hbm, 1249, rfl⟩
abbrev main_v187 : Ref sig .tc := ⟨.hbm, 1250, rfl⟩
abbrev main_cst_22 : Ref sig .tc := ⟨.hbm, 1251, rfl⟩
abbrev main_v188 : Ref sig .tc := ⟨.hbm, 1252, rfl⟩
abbrev main_v189 : Ref sig .tc := ⟨.hbm, 1253, rfl⟩
abbrev main_v190 : Ref sig .tc := ⟨.hbm, 1254, rfl⟩
abbrev main_call47_c : Ref sig .tc := ⟨.hbm, 1255, rfl⟩
abbrev main_call47_v0 : Ref sig .tc := ⟨.hbm, 1256, rfl⟩
abbrev main_call47_v1 : Ref sig .tc := ⟨.hbm, 1257, rfl⟩
abbrev main_call47_c_0 : Ref sig .tc := ⟨.hbm, 1258, rfl⟩
abbrev main_call47_v2 : Ref sig .tc := ⟨.hbm, 1259, rfl⟩
abbrev main_call47_v3 : Ref sig .tc := ⟨.hbm, 1260, rfl⟩
abbrev main_call47_v4 : Ref sig .tc := ⟨.hbm, 1261, rfl⟩
abbrev main_call47_v5 : Ref sig .tc := ⟨.hbm, 1262, rfl⟩
abbrev main_call47_c_1 : Ref sig .tc := ⟨.hbm, 1263, rfl⟩
abbrev main_call47_c_2 : Ref sig .tc := ⟨.hbm, 1264, rfl⟩
abbrev main_call47_v6 : Ref sig .tc := ⟨.hbm, 1265, rfl⟩
abbrev main_call47_v7 : Ref sig .tc := ⟨.hbm, 1266, rfl⟩
abbrev main_call47_v8 : Ref sig .tc := ⟨.hbm, 1267, rfl⟩
abbrev main_call47_v9 : Ref sig .tc := ⟨.hbm, 1268, rfl⟩
abbrev main_call47_v10 : Ref sig .tc := ⟨.hbm, 1269, rfl⟩
abbrev main_call47_v11 : Ref sig .tc := ⟨.hbm, 1270, rfl⟩
abbrev main_call47_c_3 : Ref sig .tc := ⟨.hbm, 1271, rfl⟩
abbrev main_call47_v12 : Ref sig .tc := ⟨.hbm, 1272, rfl⟩
abbrev main_call47_v13 : Ref sig .tc := ⟨.hbm, 1273, rfl⟩
abbrev main_call47_v14 : Ref sig .tc := ⟨.hbm, 1274, rfl⟩
abbrev main_call47_cst : Ref sig .tc := ⟨.hbm, 1275, rfl⟩
abbrev main_call47_v15 : Ref sig .tc := ⟨.hbm, 1276, rfl⟩
abbrev main_v191 : Ref sig .tc := ⟨.hbm, 1277, rfl⟩
abbrev main_v192 : Ref sig .tc := ⟨.hbm, 1278, rfl⟩
abbrev main_v193 : Ref sig .tc := ⟨.hbm, 1279, rfl⟩
abbrev main_v194 : Ref sig .tc := ⟨.hbm, 1280, rfl⟩
abbrev main_call48_c : Ref sig .tc := ⟨.hbm, 1281, rfl⟩
abbrev main_call48_v0 : Ref sig .tc := ⟨.hbm, 1282, rfl⟩
abbrev main_call48_v1 : Ref sig .tc := ⟨.hbm, 1283, rfl⟩
abbrev main_call48_c_0 : Ref sig .tc := ⟨.hbm, 1284, rfl⟩
abbrev main_call48_v2 : Ref sig .tc := ⟨.hbm, 1285, rfl⟩
abbrev main_call48_v3 : Ref sig .tc := ⟨.hbm, 1286, rfl⟩
abbrev main_call48_v4 : Ref sig .tc := ⟨.hbm, 1287, rfl⟩
abbrev main_call48_v5 : Ref sig .tc := ⟨.hbm, 1288, rfl⟩
abbrev main_call48_c_1 : Ref sig .tc := ⟨.hbm, 1289, rfl⟩
abbrev main_call48_c_2 : Ref sig .tc := ⟨.hbm, 1290, rfl⟩
abbrev main_call48_v6 : Ref sig .tc := ⟨.hbm, 1291, rfl⟩
abbrev main_call48_v7 : Ref sig .tc := ⟨.hbm, 1292, rfl⟩
abbrev main_call48_v8 : Ref sig .tc := ⟨.hbm, 1293, rfl⟩
abbrev main_call48_v9 : Ref sig .tc := ⟨.hbm, 1294, rfl⟩
abbrev main_call48_v10 : Ref sig .tc := ⟨.hbm, 1295, rfl⟩
abbrev main_call48_v11 : Ref sig .tc := ⟨.hbm, 1296, rfl⟩
abbrev main_call48_c_3 : Ref sig .tc := ⟨.hbm, 1297, rfl⟩
abbrev main_call48_v12 : Ref sig .tc := ⟨.hbm, 1298, rfl⟩
abbrev main_call48_v13 : Ref sig .tc := ⟨.hbm, 1299, rfl⟩
abbrev main_call48_v14 : Ref sig .tc := ⟨.hbm, 1300, rfl⟩
abbrev main_call48_cst : Ref sig .tc := ⟨.hbm, 1301, rfl⟩
abbrev main_call48_v15 : Ref sig .tc := ⟨.hbm, 1302, rfl⟩
abbrev main_v195 : Ref sig .tc := ⟨.hbm, 1303, rfl⟩
abbrev main_cst_23 : Ref sig .tc := ⟨.hbm, 1304, rfl⟩
abbrev main_v196 : Ref sig .tc := ⟨.hbm, 1305, rfl⟩
abbrev main_v197 : Ref sig .tc := ⟨.hbm, 1306, rfl⟩
abbrev main_v198 : Ref sig .tc := ⟨.hbm, 1307, rfl⟩
abbrev main_call49_c : Ref sig .tc := ⟨.hbm, 1308, rfl⟩
abbrev main_call49_v0 : Ref sig .tc := ⟨.hbm, 1309, rfl⟩
abbrev main_call49_v1 : Ref sig .tc := ⟨.hbm, 1310, rfl⟩
abbrev main_call49_c_0 : Ref sig .tc := ⟨.hbm, 1311, rfl⟩
abbrev main_call49_v2 : Ref sig .tc := ⟨.hbm, 1312, rfl⟩
abbrev main_call49_v3 : Ref sig .tc := ⟨.hbm, 1313, rfl⟩
abbrev main_call49_v4 : Ref sig .tc := ⟨.hbm, 1314, rfl⟩
abbrev main_call49_v5 : Ref sig .tc := ⟨.hbm, 1315, rfl⟩
abbrev main_call49_c_1 : Ref sig .tc := ⟨.hbm, 1316, rfl⟩
abbrev main_call49_c_2 : Ref sig .tc := ⟨.hbm, 1317, rfl⟩
abbrev main_call49_v6 : Ref sig .tc := ⟨.hbm, 1318, rfl⟩
abbrev main_call49_v7 : Ref sig .tc := ⟨.hbm, 1319, rfl⟩
abbrev main_call49_v8 : Ref sig .tc := ⟨.hbm, 1320, rfl⟩
abbrev main_call49_v9 : Ref sig .tc := ⟨.hbm, 1321, rfl⟩
abbrev main_call49_v10 : Ref sig .tc := ⟨.hbm, 1322, rfl⟩
abbrev main_call49_v11 : Ref sig .tc := ⟨.hbm, 1323, rfl⟩
abbrev main_call49_c_3 : Ref sig .tc := ⟨.hbm, 1324, rfl⟩
abbrev main_call49_v12 : Ref sig .tc := ⟨.hbm, 1325, rfl⟩
abbrev main_call49_v13 : Ref sig .tc := ⟨.hbm, 1326, rfl⟩
abbrev main_call49_v14 : Ref sig .tc := ⟨.hbm, 1327, rfl⟩
abbrev main_call49_cst : Ref sig .tc := ⟨.hbm, 1328, rfl⟩
abbrev main_call49_v15 : Ref sig .tc := ⟨.hbm, 1329, rfl⟩
abbrev main_v199 : Ref sig .tc := ⟨.hbm, 1330, rfl⟩
abbrev main_v200 : Ref sig .tc := ⟨.hbm, 1331, rfl⟩
abbrev main_v201 : Ref sig .tc := ⟨.hbm, 1332, rfl⟩
abbrev main_v202 : Ref sig .tc := ⟨.hbm, 1333, rfl⟩
abbrev main_call50_c : Ref sig .tc := ⟨.hbm, 1334, rfl⟩
abbrev main_call50_v0 : Ref sig .tc := ⟨.hbm, 1335, rfl⟩
abbrev main_call50_v1 : Ref sig .tc := ⟨.hbm, 1336, rfl⟩
abbrev main_call50_c_0 : Ref sig .tc := ⟨.hbm, 1337, rfl⟩
abbrev main_call50_v2 : Ref sig .tc := ⟨.hbm, 1338, rfl⟩
abbrev main_call50_v3 : Ref sig .tc := ⟨.hbm, 1339, rfl⟩
abbrev main_call50_v4 : Ref sig .tc := ⟨.hbm, 1340, rfl⟩
abbrev main_call50_v5 : Ref sig .tc := ⟨.hbm, 1341, rfl⟩
abbrev main_call50_c_1 : Ref sig .tc := ⟨.hbm, 1342, rfl⟩
abbrev main_call50_c_2 : Ref sig .tc := ⟨.hbm, 1343, rfl⟩
abbrev main_call50_v6 : Ref sig .tc := ⟨.hbm, 1344, rfl⟩
abbrev main_call50_v7 : Ref sig .tc := ⟨.hbm, 1345, rfl⟩
abbrev main_call50_v8 : Ref sig .tc := ⟨.hbm, 1346, rfl⟩
abbrev main_call50_v9 : Ref sig .tc := ⟨.hbm, 1347, rfl⟩
abbrev main_call50_v10 : Ref sig .tc := ⟨.hbm, 1348, rfl⟩
abbrev main_call50_v11 : Ref sig .tc := ⟨.hbm, 1349, rfl⟩
abbrev main_call50_c_3 : Ref sig .tc := ⟨.hbm, 1350, rfl⟩
abbrev main_call50_v12 : Ref sig .tc := ⟨.hbm, 1351, rfl⟩
abbrev main_call50_v13 : Ref sig .tc := ⟨.hbm, 1352, rfl⟩
abbrev main_call50_v14 : Ref sig .tc := ⟨.hbm, 1353, rfl⟩
abbrev main_call50_cst : Ref sig .tc := ⟨.hbm, 1354, rfl⟩
abbrev main_call50_v15 : Ref sig .tc := ⟨.hbm, 1355, rfl⟩
abbrev main_v203 : Ref sig .tc := ⟨.hbm, 1356, rfl⟩
abbrev main_cst_24 : Ref sig .tc := ⟨.hbm, 1357, rfl⟩
abbrev main_v204 : Ref sig .tc := ⟨.hbm, 1358, rfl⟩
abbrev main_v205 : Ref sig .tc := ⟨.hbm, 1359, rfl⟩
abbrev main_v206 : Ref sig .tc := ⟨.hbm, 1360, rfl⟩
abbrev main_call51_c : Ref sig .tc := ⟨.hbm, 1361, rfl⟩
abbrev main_call51_v0 : Ref sig .tc := ⟨.hbm, 1362, rfl⟩
abbrev main_call51_v1 : Ref sig .tc := ⟨.hbm, 1363, rfl⟩
abbrev main_call51_c_0 : Ref sig .tc := ⟨.hbm, 1364, rfl⟩
abbrev main_call51_v2 : Ref sig .tc := ⟨.hbm, 1365, rfl⟩
abbrev main_call51_v3 : Ref sig .tc := ⟨.hbm, 1366, rfl⟩
abbrev main_call51_v4 : Ref sig .tc := ⟨.hbm, 1367, rfl⟩
abbrev main_call51_v5 : Ref sig .tc := ⟨.hbm, 1368, rfl⟩
abbrev main_call51_c_1 : Ref sig .tc := ⟨.hbm, 1369, rfl⟩
abbrev main_call51_c_2 : Ref sig .tc := ⟨.hbm, 1370, rfl⟩
abbrev main_call51_v6 : Ref sig .tc := ⟨.hbm, 1371, rfl⟩
abbrev main_call51_v7 : Ref sig .tc := ⟨.hbm, 1372, rfl⟩
abbrev main_call51_v8 : Ref sig .tc := ⟨.hbm, 1373, rfl⟩
abbrev main_call51_v9 : Ref sig .tc := ⟨.hbm, 1374, rfl⟩
abbrev main_call51_v10 : Ref sig .tc := ⟨.hbm, 1375, rfl⟩
abbrev main_call51_v11 : Ref sig .tc := ⟨.hbm, 1376, rfl⟩
abbrev main_call51_c_3 : Ref sig .tc := ⟨.hbm, 1377, rfl⟩
abbrev main_call51_v12 : Ref sig .tc := ⟨.hbm, 1378, rfl⟩
abbrev main_call51_v13 : Ref sig .tc := ⟨.hbm, 1379, rfl⟩
abbrev main_call51_v14 : Ref sig .tc := ⟨.hbm, 1380, rfl⟩
abbrev main_call51_cst : Ref sig .tc := ⟨.hbm, 1381, rfl⟩
abbrev main_call51_v15 : Ref sig .tc := ⟨.hbm, 1382, rfl⟩
abbrev main_v207 : Ref sig .tc := ⟨.hbm, 1383, rfl⟩
abbrev main_v208 : Ref sig .tc := ⟨.hbm, 1384, rfl⟩
abbrev main_v209 : Ref sig .tc := ⟨.hbm, 1385, rfl⟩
abbrev main_v210 : Ref sig .tc := ⟨.hbm, 1386, rfl⟩
abbrev main_v211 : Ref sig .tc := ⟨.hbm, 1387, rfl⟩
abbrev main_v212 : Ref sig .tc := ⟨.hbm, 1388, rfl⟩
abbrev main_v213 : Ref sig .tc := ⟨.hbm, 1389, rfl⟩
abbrev main_v214 : Ref sig .tc := ⟨.hbm, 1390, rfl⟩
abbrev main_v215 : Ref sig .tc := ⟨.hbm, 1391, rfl⟩
abbrev main_v216 : Ref sig .tc := ⟨.hbm, 1392, rfl⟩
abbrev main_v217 : Ref sig .tc := ⟨.hbm, 1393, rfl⟩
abbrev main_v218 : Ref sig .tc := ⟨.hbm, 1394, rfl⟩
abbrev main_cst_25 : Ref sig .tc := ⟨.hbm, 1395, rfl⟩
abbrev main_v219 : Ref sig .tc := ⟨.hbm, 1396, rfl⟩
abbrev main_v220 : Ref sig .tc := ⟨.hbm, 1397, rfl⟩
abbrev main_v221 : Ref sig .tc := ⟨.hbm, 1398, rfl⟩
abbrev main_v222 : Ref sig .tc := ⟨.hbm, 1399, rfl⟩
abbrev main_cst_26 : Ref sig .tc := ⟨.hbm, 1400, rfl⟩
abbrev main_v223 : Ref sig .tc := ⟨.hbm, 1401, rfl⟩
abbrev main_v224 : Ref sig .tc := ⟨.hbm, 1402, rfl⟩
abbrev main_v225 : Ref sig .tc := ⟨.hbm, 1403, rfl⟩
abbrev main_cst_27 : Ref sig .tc := ⟨.hbm, 1404, rfl⟩
abbrev main_v226 : Ref sig .tc := ⟨.hbm, 1405, rfl⟩
abbrev main_cst_28 : Ref sig .tc := ⟨.hbm, 1406, rfl⟩
abbrev main_v227 : Ref sig .tc := ⟨.hbm, 1407, rfl⟩
abbrev main_v228 : Ref sig .tc := ⟨.hbm, 1408, rfl⟩
abbrev main_v229 : Ref sig .tc := ⟨.hbm, 1409, rfl⟩
abbrev main_v230 : Ref sig .tc := ⟨.hbm, 1410, rfl⟩
abbrev main_v231 : Ref sig .tc := ⟨.hbm, 1411, rfl⟩
abbrev main_cst_29 : Ref sig .tc := ⟨.hbm, 1412, rfl⟩
abbrev main_v232 : Ref sig .tc := ⟨.hbm, 1413, rfl⟩
abbrev main_v233 : Ref sig .tc := ⟨.hbm, 1414, rfl⟩
abbrev main_cst_30 : Ref sig .tc := ⟨.hbm, 1415, rfl⟩
abbrev main_v234 : Ref sig .tc := ⟨.hbm, 1416, rfl⟩
abbrev main_v235 : Ref sig .tc := ⟨.hbm, 1417, rfl⟩

abbrev nD : Nat := 1
abbrev τ : Topo := Topo.v7x

variable {F : FTy → Type} [FloatOps F]

class Facts₀ : Prop where
  slices_S1024x2626_S1024x100_0_0 : S1024x2626.Slices ![0, 0] S1024x100
  slices_S26x100x1_S1x100x1_0_0_0 : S26x100x1.Slices ![0, 0, 0] S1x100x1
  shapeCasts_S1x100x1_S100x1 : S1x100x1.ShapeCasts S100x1
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  bcast_S_S1024x100x1 : S_.BroadcastsInDim S1024x100x1 (![] : Fin 0 → Fin S1024x100x1.rank)
  bcast_S1_S1x1x1_2 : S1.BroadcastsInDim S1x1x1 (![2] : Fin 1 → Fin S1x1x1.rank)
  bcast_S1x1x1_S1024x100x1_0_1_2 : S1x1x1.BroadcastsInDim S1024x100x1 (![0, 1, 2] : Fin 3 → Fin S1024x100x1.rank)
  reducesTo_S1024x100x1_S1024x100_d2 : S1024x100x1.ReducesTo [2] S1024x100
  h_S_ : 0 < S_.numel
  reducesTo_S1024x100x1_S1024x1_d1 : S1024x100x1.ReducesTo [1] S1024x1
  slices_S26x100x32_S1x100x32_0_0_0 : S26x100x32.Slices ![0, 0, 0] S1x100x32
  shapeCasts_S1x100x32_S100x32 : S1x100x32.ShapeCasts S100x32
  bcast_S1024x100_S1024x100x32_0_1 : S1024x100.BroadcastsInDim S1024x100x32 (![0, 1] : Fin 2 → Fin S1024x100x32.rank)
  bcast_S_S1024x100x32 : S_.BroadcastsInDim S1024x100x32 (![] : Fin 0 → Fin S1024x100x32.rank)
  slices_S1024x2626_S1024x100_0_101 : S1024x2626.Slices ![0, 101] S1024x100
  slices_S26x100x1_S1x100x1_1_0_0 : S26x100x1.Slices ![1, 0, 0] S1x100x1
  slices_S26x100x32_S1x100x32_1_0_0 : S26x100x32.Slices ![1, 0, 0] S1x100x32
  slices_S1024x2626_S1024x100_0_202 : S1024x2626.Slices ![0, 202] S1024x100
  slices_S26x100x1_S1x100x1_2_0_0 : S26x100x1.Slices ![2, 0, 0] S1x100x1
  slices_S26x100x32_S1x100x32_2_0_0 : S26x100x32.Slices ![2, 0, 0] S1x100x32
  slices_S1024x2626_S1024x100_0_303 : S1024x2626.Slices ![0, 303] S1024x100
  slices_S26x100x1_S1x100x1_3_0_0 : S26x100x1.Slices ![3, 0, 0] S1x100x1
  slices_S26x100x32_S1x100x32_3_0_0 : S26x100x32.Slices ![3, 0, 0] S1x100x32
  slices_S1024x2626_S1024x100_0_404 : S1024x2626.Slices ![0, 404] S1024x100
  slices_S26x100x1_S1x100x1_4_0_0 : S26x100x1.Slices ![4, 0, 0] S1x100x1
  slices_S26x100x32_S1x100x32_4_0_0 : S26x100x32.Slices ![4, 0, 0] S1x100x32
  slices_S1024x2626_S1024x100_0_505 : S1024x2626.Slices ![0, 505] S1024x100
  slices_S26x100x1_S1x100x1_5_0_0 : S26x100x1.Slices ![5, 0, 0] S1x100x1
  slices_S26x100x32_S1x100x32_5_0_0 : S26x100x32.Slices ![5, 0, 0] S1x100x32
  slices_S1024x2626_S1024x100_0_606 : S1024x2626.Slices ![0, 606] S1024x100
  slices_S26x100x1_S1x100x1_6_0_0 : S26x100x1.Slices ![6, 0, 0] S1x100x1
  slices_S26x100x32_S1x100x32_6_0_0 : S26x100x32.Slices ![6, 0, 0] S1x100x32
  slices_S1024x2626_S1024x100_0_707 : S1024x2626.Slices ![0, 707] S1024x100
  slices_S26x100x1_S1x100x1_7_0_0 : S26x100x1.Slices ![7, 0, 0] S1x100x1
  slices_S26x100x32_S1x100x32_7_0_0 : S26x100x32.Slices ![7, 0, 0] S1x100x32
  slices_S1024x2626_S1024x100_0_808 : S1024x2626.Slices ![0, 808] S1024x100
  slices_S26x100x1_S1x100x1_8_0_0 : S26x100x1.Slices ![8, 0, 0] S1x100x1
  slices_S26x100x32_S1x100x32_8_0_0 : S26x100x32.Slices ![8, 0, 0] S1x100x32
  slices_S1024x2626_S1024x100_0_909 : S1024x2626.Slices ![0, 909] S1024x100
  slices_S26x100x1_S1x100x1_9_0_0 : S26x100x1.Slices ![9, 0, 0] S1x100x1
  slices_S26x100x32_S1x100x32_9_0_0 : S26x100x32.Slices ![9, 0, 0] S1x100x32
  slices_S1024x2626_S1024x100_0_1010 : S1024x2626.Slices ![0, 1010] S1024x100
  slices_S26x100x1_S1x100x1_10_0_0 : S26x100x1.Slices ![10, 0, 0] S1x100x1
  slices_S26x100x32_S1x100x32_10_0_0 : S26x100x32.Slices ![10, 0, 0] S1x100x32
  slices_S1024x2626_S1024x100_0_1111 : S1024x2626.Slices ![0, 1111] S1024x100
  slices_S26x100x1_S1x100x1_11_0_0 : S26x100x1.Slices ![11, 0, 0] S1x100x1
  slices_S26x100x32_S1x100x32_11_0_0 : S26x100x32.Slices ![11, 0, 0] S1x100x32
  slices_S1024x2626_S1024x100_0_1212 : S1024x2626.Slices ![0, 1212] S1024x100
  slices_S26x100x1_S1x100x1_12_0_0 : S26x100x1.Slices ![12, 0, 0] S1x100x1
  slices_S26x100x32_S1x100x32_12_0_0 : S26x100x32.Slices ![12, 0, 0] S1x100x32
  slices_S1024x2626_S1024x100_0_1313 : S1024x2626.Slices ![0, 1313] S1024x100
  slices_S26x100x1_S1x100x1_13_0_0 : S26x100x1.Slices ![13, 0, 0] S1x100x1
  slices_S26x100x32_S1x100x32_13_0_0 : S26x100x32.Slices ![13, 0, 0] S1x100x32
  slices_S1024x2626_S1024x100_0_1414 : S1024x2626.Slices ![0, 1414] S1024x100
  slices_S26x100x1_S1x100x1_14_0_0 : S26x100x1.Slices ![14, 0, 0] S1x100x1
  slices_S26x100x32_S1x100x32_14_0_0 : S26x100x32.Slices ![14, 0, 0] S1x100x32
  slices_S1024x2626_S1024x100_0_1515 : S1024x2626.Slices ![0, 1515] S1024x100
  slices_S26x100x1_S1x100x1_15_0_0 : S26x100x1.Slices ![15, 0, 0] S1x100x1
  slices_S26x100x32_S1x100x32_15_0_0 : S26x100x32.Slices ![15, 0, 0] S1x100x32
  slices_S1024x2626_S1024x100_0_1616 : S1024x2626.Slices ![0, 1616] S1024x100
  slices_S26x100x1_S1x100x1_16_0_0 : S26x100x1.Slices ![16, 0, 0] S1x100x1
  slices_S26x100x32_S1x100x32_16_0_0 : S26x100x32.Slices ![16, 0, 0] S1x100x32
  slices_S1024x2626_S1024x100_0_1717 : S1024x2626.Slices ![0, 1717] S1024x100
  slices_S26x100x1_S1x100x1_17_0_0 : S26x100x1.Slices ![17, 0, 0] S1x100x1
  slices_S26x100x32_S1x100x32_17_0_0 : S26x100x32.Slices ![17, 0, 0] S1x100x32
  slices_S1024x2626_S1024x100_0_1818 : S1024x2626.Slices ![0, 1818] S1024x100
  slices_S26x100x1_S1x100x1_18_0_0 : S26x100x1.Slices ![18, 0, 0] S1x100x1
  slices_S26x100x32_S1x100x32_18_0_0 : S26x100x32.Slices ![18, 0, 0] S1x100x32
  slices_S1024x2626_S1024x100_0_1919 : S1024x2626.Slices ![0, 1919] S1024x100
  slices_S26x100x1_S1x100x1_19_0_0 : S26x100x1.Slices ![19, 0, 0] S1x100x1
  slices_S26x100x32_S1x100x32_19_0_0 : S26x100x32.Slices ![19, 0, 0] S1x100x32
  slices_S1024x2626_S1024x100_0_2020 : S1024x2626.Slices ![0, 2020] S1024x100
  slices_S26x100x1_S1x100x1_20_0_0 : S26x100x1.Slices ![20, 0, 0] S1x100x1
  slices_S26x100x32_S1x100x32_20_0_0 : S26x100x32.Slices ![20, 0, 0] S1x100x32
  slices_S1024x2626_S1024x100_0_2121 : S1024x2626.Slices ![0, 2121] S1024x100
  slices_S26x100x1_S1x100x1_21_0_0 : S26x100x1.Slices ![21, 0, 0] S1x100x1
  slices_S26x100x32_S1x100x32_21_0_0 : S26x100x32.Slices ![21, 0, 0] S1x100x32
  slices_S1024x2626_S1024x100_0_2222 : S1024x2626.Slices ![0, 2222] S1024x100
  slices_S26x100x1_S1x100x1_22_0_0 : S26x100x1.Slices ![22, 0, 0] S1x100x1
  slices_S26x100x32_S1x100x32_22_0_0 : S26x100x32.Slices ![22, 0, 0] S1x100x32
  slices_S1024x2626_S1024x100_0_2323 : S1024x2626.Slices ![0, 2323] S1024x100
  slices_S26x100x1_S1x100x1_23_0_0 : S26x100x1.Slices ![23, 0, 0] S1x100x1
  slices_S26x100x32_S1x100x32_23_0_0 : S26x100x32.Slices ![23, 0, 0] S1x100x32
  slices_S1024x2626_S1024x100_0_2424 : S1024x2626.Slices ![0, 2424] S1024x100
  slices_S26x100x1_S1x100x1_24_0_0 : S26x100x1.Slices ![24, 0, 0] S1x100x1
  slices_S26x100x32_S1x100x32_24_0_0 : S26x100x32.Slices ![24, 0, 0] S1x100x32
  slices_S1024x2626_S1024x100_0_2525 : S1024x2626.Slices ![0, 2525] S1024x100
  slices_S26x100x1_S1x100x1_25_0_0 : S26x100x1.Slices ![25, 0, 0] S1x100x1
  slices_S26x100x32_S1x100x32_25_0_0 : S26x100x32.Slices ![25, 0, 0] S1x100x32
  concatenates_S1024x1_S1024x1_S1024x1_S1024x1_S1024x1_S1024x1_S1024x1_S1024x1_S1024x1_S1024x1_S1024x1_S1024x1_S1024x1_S1024x1_S1024x1_S1024x1_S1024x16_d1 : Shape.Concatenates [S1024x1, S1024x1, S1024x1, S1024x1, S1024x1, S1024x1, S1024x1, S1024x1, S1024x1, S1024x1, S1024x1, S1024x1, S1024x1, S1024x1, S1024x1, S1024x1] S1024x16 1
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  concatenates_S1024x16_S1024x10_S1024x26_d1 : Shape.Concatenates [S1024x16, S1024x10] S1024x26 1
  concatenates_S1024x26_S1024x13_S1024x39_d1 : Shape.Concatenates [S1024x26, S1024x13] S1024x39 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1 : Shape.Concatenates [S1024x100x32, S1024x100x32, S1024x100x32, S1024x100x32, S1024x100x32, S1024x100x32, S1024x100x32, S1024x100x32, S1024x100x32, S1024x100x32, S1024x100x32, S1024x100x32, S1024x100x32, S1024x100x32, S1024x100x32, S1024x100x32] S1024x1600x32 1
  concatenates_S1024x100x32_S1024x100x32_S1024x100x32_S1024x100x32_S1024x100x32_S1024x100x32_S1024x100x32_S1024x100x32_S1024x100x32_S1024x100x32_S1024x1000x32_d1 : Shape.Concatenates [S1024x100x32, S1024x100x32, S1024x100x32, S1024x100x32, S1024x100x32, S1024x100x32, S1024x100x32, S1024x100x32, S1024x100x32, S1024x100x32] S1024x1000x32 1
  concatenates_S1024x1600x32_S1024x1000x32_S1024x2600x32_d1 : Shape.Concatenates [S1024x1600x32, S1024x1000x32] S1024x2600x32 1
  reducesTo_S1024x2600x32_S1024x32_d1 : S1024x2600x32.ReducesTo [1] S1024x32
  bcast_S1024x32_S1024x1x32_0_2 : S1024x32.BroadcastsInDim S1024x1x32 (![0, 2] : Fin 2 → Fin S1024x1x32.rank)
  reducesTo_S1024x1x32_S1024x1_d2 : S1024x1x32.ReducesTo [2] S1024x1
  bcast_S_S1024x1 : S_.BroadcastsInDim S1024x1 (![] : Fin 0 → Fin S1024x1.rank)
  gather_S100x1_S1024x100x1_S1024x100x1_2_0_n_n_0_2_11_wf : GatherDims.WF S100x1 S1024x100x1 S1024x100x1 [2] [0] [] [0] [] 2 ![1, 1]
  gather_S100x32_S1024x100x1_S1024x100x32_2_0_n_n_0_2_132_wf : GatherDims.WF S100x32 S1024x100x1 S1024x100x32 [2] [0] [] [0] [] 2 ![1, 32]
  dot_S1024x39_S39x1_S1024x1_1_0_0_1_n_n_wf : DotDims.WF S1024x39 S39x1 S1024x1 [1] [0] [0] [1] [] []

variable [Facts₀]

def gather_S100x1_S1024x100x1_S1024x100x1_2_0_n_n_0_2_11 : GatherDims S100x1 S1024x100x1 S1024x100x1 where
  offsetDims := [2]
  collapsedSliceDims := [0]
  operandBatchingDims := []
  startIndicesBatchingDims := []
  startIndexMap := [0]
  indexVectorDim := 2
  sliceSizes := ![1, 1]
  wf := gather_S100x1_S1024x100x1_S1024x100x1_2_0_n_n_0_2_11_wf
def gather_S100x32_S1024x100x1_S1024x100x32_2_0_n_n_0_2_132 : GatherDims S100x32 S1024x100x1 S1024x100x32 where
  offsetDims := [2]
  collapsedSliceDims := [0]
  operandBatchingDims := []
  startIndicesBatchingDims := []
  startIndexMap := [0]
  indexVectorDim := 2
  sliceSizes := ![1, 32]
  wf := gather_S100x32_S1024x100x1_S1024x100x32_2_0_n_n_0_2_132_wf
def dot_S1024x39_S39x1_S1024x1_1_0_0_1_n_n : DotDims S1024x39 S39x1 S1024x1 where
  lhsContracting := [1]
  rhsContracting := [0]
  lhsNonContracting := [0]
  rhsNonContracting := [1]
  lhsBatch := []
  rhsBatch := []
  wf := dot_S1024x39_S39x1_S1024x1_1_0_0_1_n_n_wf

class Facts : Prop extends Facts₀ where

variable [Facts]
-- ==== Proof.ScSpec.lean ====
/-
  The histogram a vector subcore builds from one packed row, as a pure function (any float instance).

  A packed row holds 1344 words; word q carries two 16-bit bin numbers, the low half and the high half.
  The row is consumed sixteen words at a time (84 groups). For each group, first the sixteen low halves
  and then the sixteen high halves each add one to their bin, lanes in ascending order. The bins start
  at zero; there are 2800 of them and the first 2688 are what is kept.
-/
import Idealize.ShloMosaic.PureOps
import Idealize.ShloMosaic.Lib.ValueIdx

noncomputable section

namespace Cert.Proof.ScSpec

open Idealize.ShloMosaic

abbrev S16 : Shape := ⟨1, ![16]⟩
abbrev S1344 : Shape := ⟨1, ![1344]⟩
abbrev S2800 : Shape := ⟨1, ![2800]⟩
abbrev S2688 : Shape := ⟨1, ![2688]⟩
abbrev S1024x1344 : Shape := ⟨2, ![1024, 1344]⟩
abbrev S1024x2688 : Shape := ⟨2, ![1024, 2688]⟩

variable {F : FTy → Type} [FloatOps F]

/-- Every lane of an index vector names one of the 2800 bins. -/
def InBins (v : IVec S16 32) : Prop :=
  ∀ (a : Fin S2800.rank) (x : S16.Idx), ((![v] : Fin 1 → IVec S16 32) a x).toNat < S2800.size a

/-- The low and the high half of each word of a group. -/
def lo (v : IVec S16 32) : IVec S16 32 := andi v (broadcast S16 65535#32)
def hi (v : IVec S16 32) : IVec S16 32 := shrui v (broadcast S16 16#32)

/-- The vector of ones each lane adds, and the vector of zeros the bins start from. -/
def ones : FVec F S16 .f32 := broadcast S16 (Scalar.ofBits .f32 0x3F800000#32 : F .f32)
def zeros : FVec F S16 .f32 := broadcast S16 (Scalar.ofBits .f32 0x00000000#32 : F .f32)

open Classical in
/-- Sixteen lanes each add one to the bin they name (lowest lane first); bins untouched when a lane names no bin. -/
def bump (h : FVec F S2800 .f32) (v : IVec S16 32) : FVec F S2800 .f32 :=
  if hv : InBins v then
    (storeIdx (F := F) (s := S2800) (e := EltTy.f32) (h : Vec F S2800 EltTy.f32) (![v] : Fin 1 → IVec S16 32)
      ((ones (F := F)) : Vec F S16 EltTy.f32) (fun _ => 1#1) true (fun a x => hv a x) : Vec F S2800 EltTy.f32)
  else h

/-- Group g of a packed row: its words 16 g … 16 g + 15. -/
def group (xrow : IVec S1344 32) (g : Fin 84) : IVec S16 32 :=
  fun x => xrow (ValueIdx.ix1 (⟨16 * g.val + (x 0).val, by have := (x 0).isLt; have := g.isLt; simp at *; omega⟩ : Fin 1344))

/-- One group consumed: its low halves, then its high halves. -/
def histStep (xrow : IVec S1344 32) (h : FVec F S2800 .f32) (g : Fin 84) : FVec F S2800 .f32 :=
  bump (bump h (lo (group xrow g))) (hi (group xrow g))

/-- The bins all at zero. -/
def bins0 : FVec F S2800 .f32 := fun _ => (Scalar.ofBits .f32 0x00000000#32 : F .f32)

/-- The bins after the first n groups of a row, and after all 84. -/
def histUpTo (xrow : IVec S1344 32) (n : Nat) : FVec F S2800 .f32 :=
  ((List.finRange 84).take n).foldl (histStep xrow) (bins0 (F := F))
def histRow (xrow : IVec S1344 32) : FVec F S2800 .f32 := histUpTo xrow 84

/-- Row b of the packed array. -/
def rowOf (xp : IVec S1024x1344 32) (b : Fin 1024) : IVec S1344 32 :=
  fun q => xp (ValueIdx.ix2 b (⟨(q 0).val, (q 0).isLt⟩ : Fin 1344))

/-- The whole result: row b keeps the first 2688 bins of row b's histogram. -/
def counts (xp : IVec S1024x1344 32) : FVec F S1024x2688 .f32 :=
  fun i => histRow (F := F) (rowOf xp (⟨(i 0).val, (i 0).isLt⟩ : Fin 1024)) (ValueIdx.ix1 (⟨(i 1).val, Nat.lt_trans (i 1).isLt (by decide)⟩ : Fin 2800))

/-- Every word of the packed array carries two bin numbers below 2800. -/
def Packed (xp : IVec S1024x1344 32) : Prop :=
  ∀ i, ((xp i) &&& 65535#32).toNat < 2800 ∧ ((xp i) >>> 16).toNat < 2800

end Cert.Proof.ScSpec

end
-- ==== Proof.ScIface.lean ====
/-
  What the SparseCore call carries between the threads, and the statement of one vector subcore's task.

  Tile (core c, subcore i) has the number w = 2 i + c and owns rows 32 w … 32 w + 31 of the packed array
  (read only, unchanged) and of the counts array (written whole: row b ends at the histogram of packed row b).
-/
import proofs.«205260_g26156350832969_cont_9to1_3_23_alg».proof.Defs
import proofs.«205260_g26156350832969_cont_9to1_3_23_alg».proof.Proof.ScSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205260_g26156350832969_cont_9to1_3_23_alg».proof.Proof.Gen.KernelIdeal
import proofs.«205260_g26156350832969_cont_9to1_3_23_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline's rounds, the local transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev xpLoc (d : Dev nD) : Loc nD τ sig := (SparseCore.T d).loc main_v8
abbrev cntLoc (d : Dev nD) : Loc nD τ sig := (SparseCore.T d).loc main_v20

/-- The number of tile (c, i) and the rows it owns. -/
def wid (c : Fin 2) (i : Fin 16) : Fin 32 := ⟨2 * i.val + c.val, by omega⟩
def xpRows (w : Fin 32) : Finset S1024x1344.Idx := Finset.univ.filter fun j => (j 0).val / 32 = w.val
def cntRows (w : Fin 32) : Finset S1024x2688.Idx := Finset.univ.filter fun j => (j 0).val / 32 = w.val

variable [FloatOps F]

/-- What a tile is handed: its rows of the packed array at `XP d`, its rows of the counts array at anything. -/
def goP (XP : (d : Dev nD) → Buf (Elt F) (xpLoc d)) (d : Dev nD) (c : Fin 2) (i : Fin 16) : sProp (MT nD τ sig (HIx 1) (Elt F) ℕ UU ℕ) :=
  iprop((xpLoc d ↦[xpRows (wid c i)]{fullShare} XP d) ∗ ∃ f, cntLoc d ↦[cntRows (wid c i)]{fullShare} f)
/-- What it hands back: the packed rows unchanged, the counts rows at the histogram. -/
def tdP (XP : (d : Dev nD) → Buf (Elt F) (xpLoc d)) (d : Dev nD) (c : Fin 2) (i : Fin 16) : sProp (MT nD τ sig (HIx 1) (Elt F) ℕ UU ℕ) :=
  iprop((xpLoc d ↦[xpRows (wid c i)]{fullShare} XP d)
    ∗ cntLoc d ↦[cntRows (wid c i)]{fullShare} (Cert.Proof.ScSpec.counts (F := F) (XP d)))

/-- The call's payloads: a tile's are `goP` / `tdP`; a SparseCore's are its sixteen tiles'. -/
def P (XP : (d : Dev nD) → Buf (Elt F) (xpLoc d)) : (K (F := F)).Pay (nD := nD) (Val := Elt F) (Name := ℕ) (U := UU) where
  go := fun q d c i => match q with | 0 => goP XP d (Fin.cast nCore_zero c) (Fin.cast nSub_zero i)
  td := fun q d c i => match q with | 0 => tdP XP d (Fin.cast nCore_zero c) (Fin.cast nSub_zero i)
  st := fun q d c => match q with | 0 => bigSep Finset.univ fun i : Fin 16 => goP XP d (Fin.cast nCore_zero c) i
  dn := fun q d c => match q with | 0 => bigSep Finset.univ fun i : Fin 16 => tdP XP d (Fin.cast nCore_zero c) i
  x := fun _ _ => iprop(emp)

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The tile's number, from its grid coordinates. -/
abbrev widL (L : grid0.Coords) : Fin 32 := wid (Fin.cast bound_zero (L 0)) (Fin.cast bound_one (L 1))

/-- The kernel function as the body table calls it at grid coordinates `L`. -/
abbrev bodyAt (L : grid0.Coords) :=
  cc0_sc_body (F := F) L (Memref.whole main_v8_scv) (Memref.isWhole_whole _) (Memref.whole main_v20_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15

/-- The task of the vector subcore at grid coordinates `L` of device `d`: from its rows of the packed array (at `XP d`, every
    word two bin numbers below 2800) and of the counts array, its own scratch and semaphores, and what it owes the launch,
    the kernel function runs to the end, the packed rows unchanged and the counts rows at the histogram. -/
def TileStmt (XP : (d : Dev nD) → Buf (Elt F) (xpLoc d)) : Prop :=
  ∀ (d : Dev nD) (L : grid0.Coords) (O : CellTallies nD τ sig (HIx 1)) (W : Waits sig (HIx 1)), (∀ g, O g none = 0) →
    iprop(levAts (K (F := F)).L (K (F := F)).lev ∗ emp
        ∗ ((xpLoc d ↦[xpRows (widL L)]{fullShare} XP d) ∗ ∃ f, cntLoc d ↦[cntRows (widL L)]{fullShare} f)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (bodyAt (F := F) L)
          fun _ => iprop(((xpLoc d ↦[xpRows (widL L)]{fullShare} XP d)
              ∗ cntLoc d ↦[cntRows (widL L)]{fullShare} (Cert.Proof.ScSpec.counts (F := F) (XP d)))
            ∗ scopedBufs (V d (cV L) (jV L)) ∗ scopedSems0 (V d (cV L) (jV L))
            ∗ ∃ W', ⌜∀ p ∈ W', p ∈ W ∨ p.2 = none⌝ ∗ owes (V d (cV L) (jV L)) O W') : sProp (MT nD τ sig (HIx 1) (Elt F) ℕ UU ℕ))

end Tile

end Cert.Proof.KI

end
-- ==== Proof.HostOps.lean ====
/-
  @main's host operations before the two calls, as lists, and @main as the chain of its parts.
-/
import proofs.«205260_g26156350832969_cont_9to1_3_23_alg».proof.Proof.ScIface
import proofs.«205260_g26156350832969_cont_9to1_3_23_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

abbrev ΛS : Labels := SparseCore.Sig (ΛP (F := F)) 1

/-- The index-offset table and the padding value of the indices. -/
def opsA : List (HloOp τ sig (Elt F)) := [
    (StableHlo.nullary main_c (fun i => lit0 (S2688.rowMajor i))),
    (StableHlo.nullary main_c_0 (constantI S_ 32 0#32)) ]

/-- The indices padded to 2688 columns. -/
def padA : List (HloOp τ sig (Elt F)) := [
    (StableHlo.TRef.unary (.of main_c_0 : StableHlo.TRef sig ⟨S_, .i32⟩) main_call0.v0 id),
    (StableHlo.TRef.binary (.of main_arg0 : StableHlo.TRef sig ⟨S1024x2626, .i32⟩) main_call0.v0 main_call0.v1 (fun x v => pad S1024x2688 ![0, 0] ![0, 62] ![0, 0] x v pads_S1024x2626_S1024x2688_000_0620 h_S_)) ]

/-- The packed indices and the table before its padding. -/
def opsB : List (HloOp τ sig (Elt F)) := [
    (StableHlo.unary main_c main_v1 (broadcastInDim S1x2688 ![1] bcast_S2688_S1x2688_1 : (⟨S2688, .i32⟩ : BufTy).Contents (Elt F) → (⟨S1x2688, .i32⟩ : BufTy).Contents (Elt F))),
    (StableHlo.unary main_v1 main_v2 (broadcastInDim S1024x2688 ![0, 1] bcast_S1x2688_S1024x2688_0_1 : (⟨S1x2688, .i32⟩ : BufTy).Contents (Elt F) → (⟨S1024x2688, .i32⟩ : BufTy).Contents (Elt F))),
    (StableHlo.binary main_v0 main_v2 main_v3 (addi : (⟨S1024x2688, .i32⟩ : BufTy).Contents (Elt F) → (⟨S1024x2688, .i32⟩ : BufTy).Contents (Elt F) → (⟨S1024x2688, .i32⟩ : BufTy).Contents (Elt F))),
    (StableHlo.unary main_v3 main_v4 ((extractStridedSlice S1024x1344 ![0, 0] · slices_S1024x2688_S1024x1344_0_0) : (⟨S1024x2688, .i32⟩ : BufTy).Contents (Elt F) → (⟨S1024x1344, .i32⟩ : BufTy).Contents (Elt F))),
    (StableHlo.unary main_v3 main_v5 ((extractStridedSlice S1024x1344 ![0, 1344] · slices_S1024x2688_S1024x1344_0_1344) : (⟨S1024x2688, .i32⟩ : BufTy).Contents (Elt F) → (⟨S1024x1344, .i32⟩ : BufTy).Contents (Elt F))),
    (StableHlo.nullary main_c_1 (constantI S_ 32 16#32)),
    (StableHlo.unary main_c_1 main_v6 (broadcastInDim S1024x1344 ![] bcast_S_S1024x1344 : (⟨S_, .i32⟩ : BufTy).Contents (Elt F) → (⟨S1024x1344, .i32⟩ : BufTy).Contents (Elt F))),
    (StableHlo.binary main_v5 main_v6 main_v7 (Host.shli : (⟨S1024x1344, .i32⟩ : BufTy).Contents (Elt F) → (⟨S1024x1344, .i32⟩ : BufTy).Contents (Elt F) → (⟨S1024x1344, .i32⟩ : BufTy).Contents (Elt F))),
    (StableHlo.binary main_v4 main_v7 main_v8 (ori : (⟨S1024x1344, .i32⟩ : BufTy).Contents (Elt F) → (⟨S1024x1344, .i32⟩ : BufTy).Contents (Elt F) → (⟨S1024x1344, .i32⟩ : BufTy).Contents (Elt F))),
    (StableHlo.reshape main_arg3 main_v9 rfl shapeCasts_S26x100x32_S2600x32),
    (StableHlo.reshape main_arg2 main_v10 rfl shapeCasts_S26x100x1_S26x100),
    (StableHlo.unary main_arg4 main_v11 ((extractStridedSlice S26x1 ![0, 0] · slices_S39x1_S26x1_0_0) : (⟨S39x1, .f32⟩ : BufTy).Contents (Elt F) → (⟨S26x1, .f32⟩ : BufTy).Contents (Elt F))),
    (StableHlo.unary main_v11 main_v12 (broadcastInDim S26x100 ![0, 1] bcast_S26x1_S26x100_0_1 : (⟨S26x1, .f32⟩ : BufTy).Contents (Elt F) → (⟨S26x100, .f32⟩ : BufTy).Contents (Elt F))),
    (StableHlo.binary main_v10 main_v12 main_v13 (mulf : (⟨S26x100, .f32⟩ : BufTy).Contents (Elt F) → (⟨S26x100, .f32⟩ : BufTy).Contents (Elt F) → (⟨S26x100, .f32⟩ : BufTy).Contents (Elt F))),
    (StableHlo.reshape main_v13 main_v14 rfl shapeCasts_S26x100_S2600x1),
    (StableHlo.nullary main_cst (constant S_ .f32 0x00000000#32)),
    (StableHlo.unary main_cst main_v15 (broadcastInDim S2600x31 ![] bcast_S_S2600x31 : (⟨S_, .f32⟩ : BufTy).Contents (Elt F) → (⟨S2600x31, .f32⟩ : BufTy).Contents (Elt F))),
    (StableHlo.nary ![main_v9, main_v14, main_v15] main_v16 (fun u => concatenate S2600x64 1 [⟨S2600x32, u 0⟩, ⟨S2600x1, u 1⟩, ⟨S2600x31, u 2⟩] concatenates_S2600x32_S2600x1_S2600x31_S2600x64_d1)),
    (StableHlo.nullary main_c_2 (constantI S_ 32 0#32)) ]

/-- The table padded to 2688 rows. -/
def padB : List (HloOp τ sig (Elt F)) := [
    (StableHlo.TRef.unary (.of main_c_2 : StableHlo.TRef sig ⟨S_, .i32⟩) main_call1.v0 (sitofp .f32)),
    (StableHlo.TRef.binary (.of main_v16 : StableHlo.TRef sig ⟨S2600x64, .f32⟩) main_call1.v0 main_call1.v1 (fun x v => pad S2688x64 ![0, 0] ![88, 0] ![0, 0] x v pads_S2600x64_S2688x64_0880_000 h_S_)) ]

/-- The dense weights and the bias. -/
def opsC : List (HloOp τ sig (Elt F)) := [
    (StableHlo.unary main_arg4 main_v18 ((extractStridedSlice S13x1 ![26, 0] · slices_S39x1_S13x1_26_0) : (⟨S39x1, .f32⟩ : BufTy).Contents (Elt F) → (⟨S13x1, .f32⟩ : BufTy).Contents (Elt F))),
    (StableHlo.reshape main_arg5 main_v19 rfl shapeCasts_S1_S1x1) ]

theorem fn_pad_eq : fn_pad.body (F := F) (.of main_arg0) (.of main_c_0) main_call0
    = (StableHlo.seq (padA (F := F)) : Prog (TpuEff nD τ sig (Elt F) (ΛS (F := F)) .tc) PUnit) := by chain_rfl
theorem fn_pad_0_eq : fn_pad_0.body (F := F) (.of main_v16) (.of main_c_2) main_call1
    = (StableHlo.seq (padB (F := F)) : Prog (TpuEff nD τ sig (Elt F) (ΛS (F := F)) .tc) PUnit) := by chain_rfl

/-- @main: five stretches of host operations, the SparseCore call, the TensorCore call. -/
theorem main_eq (d : Dev nD) : main (F := F) d
    = Pipeline.chain [ (StableHlo.seq (opsA (F := F)) : Prog (TpuEff nD τ sig (Elt F) (ΛS (F := F)) .tc) PUnit),
        fn_pad.body (F := F) (.of main_arg0) (.of main_c_0) main_call0,
        StableHlo.seq (opsB (F := F)),
        fn_pad_0.body (F := F) (.of main_v16) (.of main_c_2) main_call1,
        StableHlo.seq (opsC (F := F)),
        sc.run d 0,
        Prog.lift (.customCall (SparseCore.inner (Pipeline.entry 0)) ()) ] := by chain_rfl

end Cert.Proof.KI

end
-- ==== Proof.TcOut.lean ====
/-
  What the dense head computes, as pure functions of arrays (any float instance).

  One block: from 256 rows of the counts, the whole table, 256 rows of the dense features, the thirteen dense
  weights and the bias, the 256 outputs. The whole array: row b of the result is row b mod 256 of the block
  computed from rows 256 (b / 256) … 256 (b / 256) + 255 of the counts and of the dense features.
-/
import proofs.«205260_g26156350832969_cont_9to1_3_23_alg».proof.Proof.Gen.KernelIdeal.Skeleton
import Idealize.ShloMosaic.Lib.ValueIdx

noncomputable section

namespace Cert.Proof.KI

open Cert.KernelIdeal Cert.KernelIdeal.Gen
open Idealize.ShloMosaic
open Idealize.ShloMosaic.ValueIdx (ix2)

variable {F : FTy → Type} [FloatOps F]

/-- The 256 outputs of one block. -/
def tcBlock (c : FVec F S256x2688 .f32) (t : FVec F S2688x64 .f32) (dn : FVec F S256x13 .f32) (wd : FVec F S13x1 .f32)
    (bs : FVec F S1x1 .f32) : FVec F S256x1 .f32 :=
  k1_pay1 (F := F) c t dn wd bs

/-- Rows 256 t … 256 t + 255 of the counts. -/
def cntBlock (cnt : FVec F S1024x2688 .f32) (t : Fin 4) : FVec F S256x2688 .f32 :=
  fun j => cnt (ix2 (⟨256 * t.val + (j 0).val, by have h : (j 0).val < 256 := (j 0).isLt; have := t.isLt; omega⟩ : Fin 1024)
    (⟨(j 1).val, (j 1).isLt⟩ : Fin 2688))

/-- Rows 256 t … 256 t + 255 of the dense features. -/
def denseBlock (dense : FVec F S1024x13 .f32) (t : Fin 4) : FVec F S256x13 .f32 :=
  fun j => dense (ix2 (⟨256 * t.val + (j 0).val, by have h : (j 0).val < 256 := (j 0).isLt; have := t.isLt; omega⟩ : Fin 1024)
    (⟨(j 1).val, (j 1).isLt⟩ : Fin 13))

/-- The block a row lies in, and its place there. -/
def blockOfRow (b : Fin 1024) : Fin 4 := ⟨b.val / 256, by have := b.isLt; omega⟩
def rowInBlock (b : Fin 1024) : Fin 256 := ⟨b.val % 256, Nat.mod_lt _ (by decide)⟩

/-- The whole result. -/
def tcOut (cnt : FVec F S1024x2688 .f32) (tbl : FVec F S2688x64 .f32) (dense : FVec F S1024x13 .f32) (wd : FVec F S13x1 .f32)
    (bs : FVec F S1x1 .f32) : FVec F S1024x1 .f32 :=
  fun i => tcBlock (cntBlock cnt (blockOfRow ⟨(i 0).val, (i 0).isLt⟩)) tbl (denseBlock dense (blockOfRow ⟨(i 0).val, (i 0).isLt⟩)) wd bs
    (ix2 (rowInBlock ⟨(i 0).val, (i 0).isLt⟩) (0 : Fin 1))

end Cert.Proof.KI

end
-- ==== Proof.TcBlockC.lean ====
/-
  The block's outputs as the one whole-buffer store of the kernel function leaves them, and that this is `tcBlock`.
-/
import proofs.«205260_g26156350832969_cont_9to1_3_23_alg».proof.Proof.TcOut
import proofs.«205260_g26156350832969_cont_9to1_3_23_alg».proof.Proof.Gen.KernelIdeal
import Idealize.ShloMosaic.Lib.Pipeline.FrameBody
import Idealize.ShloMosaic.Lib.Pipeline.Value

noncomputable section

namespace Cert.Proof.KI

open Cert.KernelIdeal Cert.KernelIdeal.Gen
open Idealize.ShloMosaic

variable {F : FTy → Type} [FloatOps F]

theorem zeros2 : (![0, 0] : Fin 2 → Nat) = fun _ => 0 := by
  funext a; match a with | ⟨0, _⟩ => rfl | ⟨1, _⟩ => rfl

/-- The kernel function's accesses: each buffer whole. -/
abbrev rc : Rect S256x2688 := Rect.unit (s := S256x2688) ![0, 0] S256x2688.size inb_S256x2688_S256x2688_0_0
abbrev rt : Rect S2688x64 := Rect.unit (s := S2688x64) ![0, 0] S2688x64.size inb_S2688x64_S2688x64_0_0
abbrev rd : Rect S256x13 := Rect.unit (s := S256x13) ![0, 0] S256x13.size inb_S256x13_S256x13_0_0
abbrev rw' : Rect S13x1 := Rect.unit (s := S13x1) ![0, 0] S13x1.size inb_S13x1_S13x1_0_0
abbrev rb : Rect S1x1 := Rect.unit (s := S1x1) ![0, 0] S1x1.size inb_S1x1_S1x1_0_0
abbrev ro : Rect S256x1 := Rect.unit (s := S256x1) ![0, 0] S256x1.size inb_S256x1_S256x1_0_0

/-- The output buffer after the body: its one store, over the loaded inputs. -/
def tcBlockC (x1 : Vec F S256x2688 .f32) (x2 : Vec F S2688x64 .f32) (x3 : Vec F S256x13 .f32) (x4 : Vec F S13x1 .f32) (x5 : Vec F S1x1 .f32) :
    Vec F S256x1 .f32 :=
  View.canon [⟨ro, k1_pay1 (F := F) (View.ld x1 rc) (View.ld x2 rt) (View.ld x3 rd) (View.ld x4 rw') (View.ld x5 rb)⟩]

/-- The store covers the buffer. -/
theorem cover_out (p0 : Vec F S256x1 .f32) (y : S256x1.Idx) :
    ∃ pc ∈ ([⟨ro, p0⟩] : List (View.Piece (Elt F) S256x1 .f32)), y ∈ pc.1.set :=
  ⟨⟨ro, p0⟩, List.mem_singleton_self _, View.mem_set_unit_zero (S := S256x1) zeros2 inb_S256x1_S256x1_0_0 y⟩

theorem tcBlockC_eq (x1 : Vec F S256x2688 .f32) (x2 : Vec F S2688x64 .f32) (x3 : Vec F S256x13 .f32) (x4 : Vec F S13x1 .f32) (x5 : Vec F S1x1 .f32) :
    tcBlockC x1 x2 x3 x4 x5 = tcBlock (F := F) x1 x2 x3 x4 x5 := by
  unfold tcBlockC tcBlock
  rw [View.canon_unit_zero (S := S256x1) zeros2 inb_S256x1_S256x1_0_0,
    View.ld_unit_zero (S := S256x2688) zeros2 inb_S256x2688_S256x2688_0_0,
    View.ld_unit_zero (S := S2688x64) zeros2 inb_S2688x64_S2688x64_0_0,
    View.ld_unit_zero (S := S256x13) zeros2 inb_S256x13_S256x13_0_0,
    View.ld_unit_zero (S := S13x1) zeros2 inb_S13x1_S13x1_0_0,
    View.ld_unit_zero (S := S1x1) zeros2 inb_S1x1_S1x1_0_0]

end Cert.Proof.KI

end
-- ==== Proof.TcBody.lean ====
/-
  The dense head's kernel function, run once on whole staging buffers: the five inputs are read and left as they
  were, the output buffer is left at the block's 256 outputs.
-/
import proofs.«205260_g26156350832969_cont_9to1_3_23_alg».proof.Proof.ScIface
import proofs.«205260_g26156350832969_cont_9to1_3_23_alg».proof.Proof.TcBlockC
import Idealize.ShloMosaic.Lib.Pipeline.FrameBody
import Idealize.ShloMosaic.Lib.Pipeline.Value
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic

variable [FloatOps F]

set_option maxHeartbeats 1000000 in
/-- The kernel function on whole staging memrefs: the inputs' at read contents and the output's at anything run to the
    continuation holding the inputs' as they were and the output's at its one store's payload over the inputs'. -/
theorem tc_kernel (c : Dev nD) (E : Set ℕ) (i : grid1.Coords)
    (arg1 : Memref sig .tc .vmem S256x2688 .f32) (harg1 : arg1.IsWhole) (arg2 : Memref sig .tc .vmem S2688x64 .f32) (harg2 : arg2.IsWhole)
    (arg3 : Memref sig .tc .vmem S256x13 .f32) (harg3 : arg3.IsWhole) (arg4 : Memref sig .tc .vmem S13x1 .f32) (harg4 : arg4.IsWhole)
    (arg5 : Memref sig .tc .vmem S1x1 .f32) (harg5 : arg5.IsWhole) (arg6 : Memref sig .tc .vmem S256x1 .f32) (harg6 : arg6.IsWhole)
    (x1 : Vec F S256x2688 .f32) (x2 : Vec F S2688x64 .f32) (x3 : Vec F S256x13 .f32) (x4 : Vec F S13x1 .f32) (x5 : Vec F S1x1 .f32)
    (Q : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (tcBlockC (F := F) x1 x2 x3 x4 x5)) -∗ Q ⟨⟩))
      ⊢ wp frame (wpE (defs₀ (F := F)) Variants.none c none) E
          (cc1__tc_fm_body i arg1 harg1 arg2 harg2 arg3 harg3 arg4 harg4 arg5 harg5 arg6 harg6) Q := by
  simp only [cc1__tc_fm_body_eq_skeleton]; unfold cc1__tc_fm_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.Proof.KI

end
-- ==== Proof.Region.lean ====
/-
  The dense head's call as a region of @main: the proof data of its pipeline over the TensorCore's buffers as the
  region finds them, the body obligation at a symbolic grid point, and the region's record.
-/
import proofs.«205260_g26156350832969_cont_9to1_3_23_alg».proof.Proof.HostOps
import proofs.«205260_g26156350832969_cont_9to1_3_23_alg».proof.Proof.TcBody
import proofs.«205260_g26156350832969_cont_9to1_3_23_alg».proof.Proof.Gen.KernelIdeal.Launch
import proofs.«205260_g26156350832969_cont_9to1_3_23_alg».proof.Proof.Gen.KernelIdeal.Points
import Idealize.ShloMosaic.Lib.Pipeline.Regions
import Idealize.ShloMosaic.Lib.Pipeline.FrameBody

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The pipeline's place in the algebra -/

/-- The pipeline library's rounds are the middle component. -/
abbrev EP : Emb (UR sig nD τ) (MT nD τ sig (HIx 1) (Elt F) ℕ UU ℕ) := (Emb.inl : Emb UP (UP × Counters)).trans embR

instance EP_landsIn : (EP : Emb (UR sig nD τ) 𝕄).LandsIn (upEmb : UEmb _ 𝕄) := by unfold EP; infer_instance

/-- No prefetched table. -/
abbrev adm : (p : Fin 1) → (pcfgs (F := F) p).Adm := fun p => (cfgs p).toPCfg_adm

/-- The handshakes' levels: what the region's obligations are handed. -/
abbrev LL : GSem nD τ sig → Finset (HIx 1) := (K (F := F)).L
abbrev lvv : GSem nD τ sig → HIx 1 → ℕ := (K (F := F)).lev

/-! ## The buffers as the region finds them -/

variable (VR : Dev nD → Valuation τ sig (Elt F))

/-- The TensorCore's buffers on device `c`, by reference. -/
abbrev Vb (c : Dev nD) (b : Ref sig .tc) : Buf (Elt F) ((c : Thread nD τ).loc b) := VR c (Proc.devRef .tc b)

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (Vb VR c (Pipeline.arrRef spec1 w))

/-- The proof data on device `c`: the arrays as found; after the body each input's buffer at its block and the output's
    at the block's 256 outputs; between points the scoped buffers no window stages; nothing owed, and every wait the core has recorded or records below the launch's later levels; full shares. -/
def dats (_ : Fin 1) (c : Dev nD) : Dat τ (Elt F) (HIx 1) ℕ UU ℕ cfg1 c where
  A w := Vb VR c (Pipeline.arrRef spec1 w)
  after w t := match w with
    | ⟨0, _⟩ => iblk VR c 0 t
    | ⟨1, _⟩ => iblk VR c 1 t
    | ⟨2, _⟩ => iblk VR c 2 t
    | ⟨3, _⟩ => iblk VR c 3 t
    | ⟨4, _⟩ => iblk VR c 4 t
    | ⟨5, _⟩ => tcBlock (F := F) (iblk VR c 0 t) (iblk VR c 1 t) (iblk VR c 2 t) (iblk VR c 3 t) (iblk VR c 4 t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8}

theorem A_eq (c : Dev nD) (w : Fin cfg1.W) : (dats VR 0 c).A w = Vb VR c (Pipeline.arrRef spec1 w) := by
  dsimp only [dats]

theorem after1_0 (c : Dev nD) (t : Fin cfg1.N) : (dats VR 0 c).after 0 t = iblk VR c 0 t := by dsimp only [dats]
theorem after1_1 (c : Dev nD) (t : Fin cfg1.N) : (dats VR 0 c).after 1 t = iblk VR c 1 t := by dsimp only [dats]
theorem after1_2 (c : Dev nD) (t : Fin cfg1.N) : (dats VR 0 c).after 2 t = iblk VR c 2 t := by dsimp only [dats]
theorem after1_3 (c : Dev nD) (t : Fin cfg1.N) : (dats VR 0 c).after 3 t = iblk VR c 3 t := by dsimp only [dats]
theorem after1_4 (c : Dev nD) (t : Fin cfg1.N) : (dats VR 0 c).after 4 t = iblk VR c 4 t := by dsimp only [dats]
theorem after1_5 (c : Dev nD) (t : Fin cfg1.N) :
    (dats VR 0 c).after 5 t = tcBlock (F := F) (iblk VR c 0 t) (iblk VR c 1 t) (iblk VR c 2 t) (iblk VR c 3 t) (iblk VR c 4 t) := by
  dsimp only [dats]

/-! Each input's staging buffer holds its block when the body runs, fetched at that point or not. -/
theorem before1_0 (c : Dev nD) (t : Fin cfg1.N) (d) : (dats VR 0 c).before 0 t d = iblk VR c 0 t :=
  ((dats VR 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats VR 0 c).before 1 t d = iblk VR c 1 t :=
  ((dats VR 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats VR 0 c).before 2 t d = iblk VR c 2 t :=
  ((dats VR 0 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats VR 0 c).before 3 t d = iblk VR c 3 t :=
  ((dats VR 0 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats VR 0 c).before 4 t d = iblk VR c 4 t :=
  ((dats VR 0 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)

/-! ## The body at a symbolic point -/

theorem sound_body (c : Dev nD) (t : Fin cfg1.N) :
    iprop((dats VR 0 c).Φ t.castSucc ∗ (dats VR 0 c).owesAt (none : HIx 1) t.castSucc
      ∗ (∃ d, owns (c : Thread nD τ) (st1_0 t) fullShare ((dats VR 0 c).before 0 t d))
      ∗ (∃ d, owns (c : Thread nD τ) (st1_1 t) fullShare ((dats VR 0 c).before 1 t d))
      ∗ (∃ d, owns (c : Thread nD τ) (st1_2 t) fullShare ((dats VR 0 c).before 2 t d))
      ∗ (∃ d, owns (c : Thread nD τ) (st1_3 t) fullShare ((dats VR 0 c).before 3 t d))
      ∗ (∃ d, owns (c : Thread nD τ) (st1_4 t) fullShare ((dats VR 0 c).before 4 t d))
      ∗ (∃ d, owns (c : Thread nD τ) (st1_5 t) fullShare ((dats VR 0 c).before 5 t d)))
    ⊢ wp frame (wpE (defs₀ (F := F)) Variants.none c none) Set.univ (bodyAt1 t) (fun _ =>
        iprop((dats VR 0 c).Φ t.succ ∗ (dats VR 0 c).owesAt (none : HIx 1) t.succ
          ∗ owns (c : Thread nD τ) (st1_0 t) fullShare ((dats VR 0 c).after 0 t)
          ∗ owns (c : Thread nD τ) (st1_1 t) fullShare ((dats VR 0 c).after 1 t)
          ∗ owns (c : Thread nD τ) (st1_2 t) fullShare ((dats VR 0 c).after 2 t)
          ∗ owns (c : Thread nD τ) (st1_3 t) fullShare ((dats VR 0 c).after 3 t)
          ∗ owns (c : Thread nD τ) (st1_4 t) fullShare ((dats VR 0 c).after 4 t)
          ∗ owns (c : Thread nD τ) (st1_5 t) fullShare ((dats VR 0 c).after 5 t))) := by
  unfold bodyAt1
  simp only [before1_0, before1_1, before1_2, before1_3, before1_4]
  rw [show (dats VR 0 c).Φ t.succ = (dats VR 0 c).Φ t.castSucc from rfl,
    show (dats VR 0 c).owesAt (none : HIx 1) t.succ = (dats VR 0 c).owesAt (none : HIx 1) t.castSucc from rfl,
    after1_0, after1_1, after1_2, after1_3, after1_4, after1_5, ← tcBlockC_eq]
  iintro ⟨HΦ, Ho, ⟨%d0, H0⟩, ⟨%d1, H1⟩, ⟨%d2, H2⟩, ⟨%d3, H3⟩, ⟨%d4, H4⟩, ⟨%d5, H5⟩⟩
  iapply (tc_kernel c Set.univ _ _ _ _ _ _ _ _ _ _ _ _ _ (iblk VR c 0 t) (iblk VR c 1 t) (iblk VR c 2 t) (iblk VR c 3 t) (iblk VR c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats VR 0 c) (defs₀ (F := F)) Variants.none (none : HIx 1) Set.univ := fun t => by
  rw [bigSep_W1, bigSep_W1]
  exact sound_body VR c t

end Cert.Proof.KI

end
-- ==== Proof.RegionSeg.lean ====
/-
  The dense head's call entered from @main: the region's record over the thread state before and after it, and the
  call itself run through it.
-/
import proofs.«205260_g26156350832969_cont_9to1_3_23_alg».proof.Proof.Region

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held)

variable [FloatOps F]

/-! ## The TensorCore's unscoped buffers as a held set -/

/-- The TensorCore's unscoped references, as device buffers. -/
def ucRefs : Finset (DevRef τ sig) := (StableHlo.tcRefs τ sig).filter fun b => ¬ b.isScoped

omit [FloatOps F] in
/-- The unscoped buffers at a valuation are that set held at it. -/
theorem unscopedBufs_held (c : Dev nD) (W : Valuation τ sig (Elt F)) :
    (unscopedBufs c (fun b => W (Proc.devRef .tc b)) : sProp 𝕄) = held (c : Thread nD τ) ucRefs W := by
  unfold unscopedBufs held ucRefs StableHlo.tcRefs
  rw [Finset.filter_map, bigSep_map]
  rfl

/-- The core owes nothing, and every wait it has recorded lies below the launch's later levels: what rides beside the buffers. -/
abbrev owesNone (c : Dev nD) : sProp 𝕄 :=
  iprop(∃ W, ⌜(K (F := F)).WBelow (c : Thread nD τ) W 8⌝ ∗ owes (c : Thread nD τ) (0 : CellTallies nD τ sig (HIx 1)) W)

variable (VR : Dev nD → Valuation τ sig (Elt F))

/-- What the region leaves: its arrays at their final contents, every other unscoped buffer as found. -/
abbrev afterRegion (c : Dev nD) : sProp 𝕄 :=
  iprop((dats VR 0 c).arrays ((dats VR 0 c).arrAt · cfg1.N)
    ∗ Pipeline.unscopedRest (Ix := HIx 1) (Name := ℕ) (U := UU) (Lvl := ℕ) spec1 c (Vb VR c))

omit [FloatOps F] in
theorem ownSems0_none (c : Dev nD) :
    (Pipeline.ownSems0 (Ix := HIx 1) (Name := ℕ) (U := UU) (Lvl := ℕ) (Val := Elt F) (τ := τ) (fun k : Fin 0 => k.elim0) c : sProp 𝕄) = iprop(emp) := by
  unfold Pipeline.ownSems0
  rw [show (Finset.univ : Finset (Fin 0)) = ∅ from rfl, BI.bigSep_empty]
  rfl

omit [FloatOps F] in
/-- The kernel has no semaphore of its own. -/
theorem ownSemFacts : Pipeline.OwnSemFacts spec1 (fun k : Fin 0 => k.elim0) := by decide

set_option backward.isDefEq.respectTransparency.types false in
/-- THE REGION: entered from the unscoped buffers held at `VR` and nothing owed; left with the pipeline's arrays at
    their final contents, the rest as found, nothing owed. -/
def reg : Pipeline.RegionSeg (pcfgs (F := F)) adm (dats VR) (none : HIx 1) defs₀ Variants.none (LL (F := F)) (lvv (F := F)) 0 where
  win := launch1.win.to₀
  block_pos := launch1.block_pos
  stage_whole := launch1.stage_whole
  K := Fin 0
  osem := fun k => k.elim0
  ho := ownSemFacts
  hbody c := (body_obligation VR c).loose
  hwaits := Pipeline.hwaits_of_owed_zero _ _ _ _ (LL (F := F)) (lvv (F := F)) 0 fun _ _ => rfl
  pre c := iprop(held (c : Thread nD τ) ucRefs (VR c) ∗ owesNone c)
  post c := iprop(afterRegion VR c ∗ owesNone c)
  X _ := iprop(emp)
  Y _ := iprop(emp)
  Z c := Pipeline.unscopedRest (Ix := HIx 1) (Name := ℕ) (U := UU) (Lvl := ℕ) spec1 c (Vb VR c)
  hentry c := by
    rw [← unscopedBufs_held c (VR c)]
    have hsplit := Pipeline.arrays_of_unscopedBufs (pcfgs (F := F)) adm (dats VR) launch1.win launch1.arr_whole c
      ((dats VR 0 c).share_full fun _ => rfl) (Vb VR c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitr; · iempintro
    iexact Hrest
  hin c := by
    rw [show (dats VR 0 c).Φ 0 = Pipeline.scopedRest (Ix := HIx 1) (Name := ℕ) (U := UU) (Lvl := ℕ) (Val := Elt F) spec1 c from rfl]
    iintro ⟨-, -, Hr⟩; iexact Hr
  hout c := by
    rw [ownSems0_none, show (dats VR 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, HZ⟩
    imodintro
    isplitr [HO]
    · isplitl [Ha]; · iexact Ha
      iexact HZ
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · exact (by rw [SparseCore.Cfg.lev_none]; exact Nat.zero_le _)
      iexact HO

theorem reg_pre (c : Dev nD) : (reg VR).pre c = iprop(held (c : Thread nD τ) ucRefs (VR c) ∗ owesNone c) := rfl
theorem reg_post (c : Dev nD) : (reg VR).post c = iprop(afterRegion VR c ∗ owesNone c) := rfl

/-- What the launch funds the pipeline's staging cells from, on device `c`. -/
abbrev pipeGhost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

set_option backward.isDefEq.respectTransparency.types false in
/-- The call, in the certificate's own body table: from the boundary, the buffers held at `VR`, nothing owed, the level
    facts and the staging cells' ghost state, to the boundary and what the region leaves. -/
theorem wp_region (c : Dev nD) (Q : PUnit → sProp 𝕄) :
    iprop((iprop(boundary (c : Thread nD τ) ∗ afterRegion VR c ∗ owesNone c) -∗ Q ⟨⟩)
        ∗ boundary (c : Thread nD τ) ∗ (held (c : Thread nD τ) ucRefs (VR c) ∗ owesNone c) ∗ levAts (LL (F := F)) (lvv (F := F)) ∗ pipeGhost c)
      ⊢ wp frame (wpE (D (F := F)) 𝒱 (c : Thread nD τ) none) Set.univ
          (.op (.customCall (Pipeline.entry 0) ()) fun _ => .ret ⟨⟩) Q := by
  have h := Pipeline.RegionSeg.wp (pcfgs (F := F)) adm (dats VR) (none : HIx 1) cellOf_inj (EP (F := F)) defs₀ Variants.none
    (LL (F := F)) (lvv (F := F)) (reg VR) c none (fun _ hu => nomatch hu) (fun _ => .ret ⟨⟩) Q
  rw [reg_pre, reg_post] at h
  iintro ⟨Hk, Hb, Hpre, Hlv, Hg1, Hg2⟩
  iapply h
  isplitl [Hk]
  · iintro Hpost
    rw [wp_ret]; imodintro
    iapply Hk; iexact Hpost
  isplitl [Hb]; · iexact Hb
  isplitl [Hpre]; · iexact Hpre
  isplitl [Hlv]; · iexact Hlv
  isplitl [Hg1]; · iexact Hg1
  iexact Hg2

end Cert.Proof.KI

end
-- ==== Proof.TileObl.lean ====
/-
  The launch theorem's two obligations for the vector-subcore call: one tile's task, from the statement of the
  task at grid coordinates, and the split of a SparseCore's operands among its sixteen tiles (the identity: a
  SparseCore's share is spelt as its tiles' shares).
-/
import proofs.«205260_g26156350832969_cont_9to1_3_23_alg».proof.Proof.ScIface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (XP : (d : Dev nD) → Buf (Elt F) (xpLoc d))

/-! ## The payloads, field by field -/

theorem P_go (d : Dev nD) (c : Fin ((K (F := F)).nCore 0)) (i : Fin ((K (F := F)).nSub 0)) :
    (P XP).go 0 d c i = goP XP d (Fin.cast nCore_zero c) (Fin.cast nSub_zero i) := rfl
theorem P_td (d : Dev nD) (c : Fin ((K (F := F)).nCore 0)) (i : Fin ((K (F := F)).nSub 0)) :
    (P XP).td 0 d c i = tdP XP d (Fin.cast nCore_zero c) (Fin.cast nSub_zero i) := rfl
theorem P_st (d : Dev nD) (c : Fin ((K (F := F)).nCore 0)) :
    (P XP).st 0 d c = bigSep Finset.univ fun i : Fin 16 => goP XP d (Fin.cast nCore_zero c) i := rfl
theorem P_dn (d : Dev nD) (c : Fin ((K (F := F)).nCore 0)) :
    (P XP).dn 0 d c = bigSep Finset.univ fun i : Fin 16 => tdP XP d (Fin.cast nCore_zero c) i := rfl
theorem P_x (thr : Thread nD τ) : (P XP).x 0 thr = iprop(emp) := rfl

instance P_storable : (P (F := F) XP).IsStorable where
  st q d c := match q with | 0 => by rw [P_st]; unfold goP; infer_instance
  dn q d c := match q with | 0 => by rw [P_dn]; unfold tdP; infer_instance
  go q d c i := match q with | 0 => by rw [P_go]; unfold goP; infer_instance
  td q d c i := match q with | 0 => by rw [P_td]; unfold tdP; infer_instance

/-! ## One tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of call 0 from the statement of one tile's task. -/
theorem tileObl (htile : TileStmt XP) : (K (F := F)).TileObl (D (F := F)) 𝒱 (P XP) v₀ 0 := by
  intro d c i O W hO _ _
  -- the kernel owes nothing for a protocol of its own
  simp only [show (P XP).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold goP tdP
  exact (htile d (coordsV ⟨_, hc.1⟩ ⟨_, hc.2⟩) O W hO).trans (wp_mono frame _ _ fun _ => obl_post)

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P XP) 0 := by
  intro d c
  rw [P_st, P_dn]
  simp only [P_go, P_td]
  rw [bigSep_tasks (F := F) (fun i => goP XP d (Fin.cast nCore_zero c) i), bigSep_tasks (F := F) (fun i => tdP XP d (Fin.cast nCore_zero c) i)]
  iintro H; imodintro
  isplitl [H]; · iexact H
  iintro H; iexact H

end Cert.Proof.KI

end
-- ==== Proof.ScCall.lean ====
/-
  The SparseCore call's operands: the packed array and the counts array, whole, are the thirty-two tiles' rows; so
  the TensorCore hands both arrays over whole and gets them back whole, the counts at the histogram.
-/
import proofs.«205260_g26156350832969_cont_9to1_3_23_alg».proof.Proof.TileObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (XP : (d : Dev nD) → Buf (Elt F) (xpLoc d))

omit [FloatOps F] in
theorem wid_inj (t t' : Fin 2 × Fin 16) (h : wid t.1 t.2 = wid t'.1 t'.2) : t = t' := by
  have hv : 2 * t.2.val + t.1.val = 2 * t'.2.val + t'.1.val := congrArg Fin.val h
  have h1 := t.1.isLt; have h2 := t'.1.isLt
  exact Prod.ext (Fin.ext (by omega)) (Fin.ext (by omega))

omit [FloatOps F] in
theorem xpRows_disjoint : ∀ t ∈ (Finset.univ : Finset (Fin 2 × Fin 16)), ∀ t' ∈ (Finset.univ : Finset (Fin 2 × Fin 16)), t ≠ t' →
    Disjoint (xpRows (wid t.1 t.2)) (xpRows (wid t'.1 t'.2)) := by
  intro t _ t' _ hne
  refine Finset.disjoint_left.mpr fun j h1 h2 => hne (wid_inj t t' ?_)
  have e1 := (Finset.mem_filter.mp h1).2
  have e2 := (Finset.mem_filter.mp h2).2
  exact Fin.ext (e1.symm.trans e2)

omit [FloatOps F] in
theorem xpRows_cover : (Finset.univ : Finset (Fin 2 × Fin 16)).biUnion (fun t => xpRows (wid t.1 t.2)) = Finset.univ := by
  refine Finset.eq_univ_of_forall fun j => Finset.mem_biUnion.mpr ?_
  have hj : (j 0).val < 1024 := (j 0).isLt
  refine ⟨(⟨((j 0).val / 32) % 2, Nat.mod_lt _ (by decide)⟩, ⟨((j 0).val / 32) / 2, by omega⟩), Finset.mem_univ _, ?_⟩
  refine Finset.mem_filter.mpr ⟨Finset.mem_univ _, ?_⟩
  show (j 0).val / 32 = 2 * (((j 0).val / 32) / 2) + ((j 0).val / 32) % 2
  omega

omit [FloatOps F] in
/-- The array whole is its thirty-two tiles' rows. -/
theorem xp_tiles (d : Dev nD) (f : Buf (Elt F) (xpLoc d)) :
    (xpLoc d ↦{fullShare} f : sProp 𝕄) = bigSep Finset.univ fun t : Fin 2 × Fin 16 => xpLoc d ↦[xpRows (wid t.1 t.2)]{fullShare} f := by
  rw [← pointsTo_biUnion Finset.univ (ℓ := xpLoc d) (fun t : Fin 2 × Fin 16 => xpRows (wid t.1 t.2)) xpRows_disjoint, xpRows_cover]; try rfl

omit [FloatOps F] in
theorem cntRows_disjoint : ∀ t ∈ (Finset.univ : Finset (Fin 2 × Fin 16)), ∀ t' ∈ (Finset.univ : Finset (Fin 2 × Fin 16)), t ≠ t' →
    Disjoint (cntRows (wid t.1 t.2)) (cntRows (wid t'.1 t'.2)) := by
  intro t _ t' _ hne
  refine Finset.disjoint_left.mpr fun j h1 h2 => hne (wid_inj t t' ?_)
  have e1 := (Finset.mem_filter.mp h1).2
  have e2 := (Finset.mem_filter.mp h2).2
  exact Fin.ext (e1.symm.trans e2)

omit [FloatOps F] in
theorem cntRows_cover : (Finset.univ : Finset (Fin 2 × Fin 16)).biUnion (fun t => cntRows (wid t.1 t.2)) = Finset.univ := by
  refine Finset.eq_univ_of_forall fun j => Finset.mem_biUnion.mpr ?_
  have hj : (j 0).val < 1024 := (j 0).isLt
  refine ⟨(⟨((j 0).val / 32) % 2, Nat.mod_lt _ (by decide)⟩, ⟨((j 0).val / 32) / 2, by omega⟩), Finset.mem_univ _, ?_⟩
  refine Finset.mem_filter.mpr ⟨Finset.mem_univ _, ?_⟩
  show (j 0).val / 32 = 2 * (((j 0).val / 32) / 2) + ((j 0).val / 32) % 2
  omega

omit [FloatOps F] in
/-- The array whole is its thirty-two tiles' rows. -/
theorem cnt_tiles (d : Dev nD) (f : Buf (Elt F) (cntLoc d)) :
    (cntLoc d ↦{fullShare} f : sProp 𝕄) = bigSep Finset.univ fun t : Fin 2 × Fin 16 => cntLoc d ↦[cntRows (wid t.1 t.2)]{fullShare} f := by
  rw [← pointsTo_biUnion Finset.univ (ℓ := cntLoc d) (fun t : Fin 2 × Fin 16 => cntRows (wid t.1 t.2)) cntRows_disjoint, cntRows_cover]; try rfl

omit [FloatOps F] in
/-- Over the call's grid of SparseCores is over the two of them. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem go_of (d : Dev nD) (t : Fin 2 × Fin 16) (f₀ : Buf (Elt F) (cntLoc d)) :
    iprop((xpLoc d ↦[xpRows (wid t.1 t.2)]{fullShare} XP d) ∗ cntLoc d ↦[cntRows (wid t.1 t.2)]{fullShare} f₀)
      ⊢ (goP XP d t.1 t.2 : sProp 𝕄) := by
  unfold goP
  iintro ⟨Hx, Hc⟩
  isplitl [Hx]; · iexact Hx
  iexists f₀; iexact Hc

theorem td_to (d : Dev nD) (t : Fin 2 × Fin 16) :
    (tdP XP d t.1 t.2 : sProp 𝕄)
      ⊢ iprop((xpLoc d ↦[xpRows (wid t.1 t.2)]{fullShare} XP d) ∗ cntLoc d ↦[cntRows (wid t.1 t.2)]{fullShare} Cert.Proof.ScSpec.counts (F := F) (XP d)) := by
  unfold tdP
  exact BI.Entails.refl _

/-- Both arrays whole are what the call takes for its SparseCores. -/
theorem st_intro (d : Dev nD) (f₀ : Buf (Elt F) (cntLoc d)) :
    iprop((xpLoc d ↦{fullShare} XP d) ∗ (cntLoc d ↦{fullShare} f₀))
      ⊢ (bigSep Finset.univ fun c : Fin ((K (F := F)).nCore 0) => (P XP).st 0 d c : sProp 𝕄) := by
  simp only [P_st]
  rw [bigSep_cores (F := F) (fun c => bigSep Finset.univ fun i : Fin 16 => goP XP d c i),
    ← bigSep_univ_prod (fun t : Fin 2 × Fin 16 => goP XP d t.1 t.2), xp_tiles, cnt_tiles, ← bigSep_sep']
  exact bigSep_mono fun t _ => go_of XP d t f₀

/-- What the call hands back is both arrays whole, the counts at the histogram. -/
theorem dn_elim (d : Dev nD) :
    (bigSep Finset.univ fun c : Fin ((K (F := F)).nCore 0) => (P XP).dn 0 d c : sProp 𝕄)
      ⊢ iprop((xpLoc d ↦{fullShare} XP d) ∗ (cntLoc d ↦{fullShare} Cert.Proof.ScSpec.counts (F := F) (XP d))) := by
  simp only [P_dn]
  rw [bigSep_cores (F := F) (fun c => bigSep Finset.univ fun i : Fin 16 => tdP XP d c i),
    ← bigSep_univ_prod (fun t : Fin 2 × Fin 16 => tdP XP d t.1 t.2), xp_tiles, cnt_tiles, ← bigSep_sep']
  exact bigSep_mono fun t _ => td_to XP d t

end Cert.Proof.KI

end
-- ==== Proof.Launch.lean ====
/-
  The launch of the whole thread family: @main on the TensorCore — its host operations, the SparseCore call handing
  the packed array and the counts array over whole and getting them back, the dense head's call as a region —, the
  launch element of the ghost state, how the final memory is read, and the run with every array named.
-/
import proofs.«205260_g26156350832969_cont_9to1_3_23_alg».proof.Proof.RegionSeg
import proofs.«205260_g26156350832969_cont_9to1_3_23_alg».proof.Proof.ScCall

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held held_sub_split held_congr)

variable [FloatOps F]

/-! ## The launch theorem's facts about the handshake semaphores -/

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations keep to the TensorCore's unscoped buffers -/

omit [FloatOps F] in
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; exact Bool.false_ne_true

theorem opsA_sub : ∀ op ∈ opsA (F := F), op.bufs ⊆ ucRefs := fun op h =>
  sub_ucRefs op ((show ∀ op ∈ opsA (F := F), op.bufs ⊆ StableHlo.tcRefs τ sig from by unfold opsA; simp) op h)
theorem opsA_fresh : ∀ op ∈ opsA (F := F), op.fresh = ∅ :=
  List.forall_iff_forall_mem.mp (show (opsA (F := F)).Forall (fun op => op.fresh = ∅) from by unfold opsA; exact ⟨rfl, rfl⟩)
theorem padA_sub : ∀ op ∈ padA (F := F), op.bufs ⊆ ucRefs := fun op h =>
  sub_ucRefs op ((show ∀ op ∈ padA (F := F), op.bufs ⊆ StableHlo.tcRefs τ sig from by unfold padA; simp) op h)
theorem padA_fresh : ∀ op ∈ padA (F := F), op.fresh = ∅ :=
  List.forall_iff_forall_mem.mp (show (padA (F := F)).Forall (fun op => op.fresh = ∅) from by unfold padA; exact ⟨rfl, rfl⟩)
theorem opsB_sub : ∀ op ∈ opsB (F := F), op.bufs ⊆ ucRefs := fun op h =>
  sub_ucRefs op ((show ∀ op ∈ opsB (F := F), op.bufs ⊆ StableHlo.tcRefs τ sig from by unfold opsB; simp) op h)
theorem opsB_fresh : ∀ op ∈ opsB (F := F), op.fresh = ∅ :=
  List.forall_iff_forall_mem.mp (show (opsB (F := F)).Forall (fun op => op.fresh = ∅) from by unfold opsB; exact ⟨rfl, rfl, rfl, rfl, rfl, rfl, rfl, rfl, rfl, rfl, rfl, rfl, rfl, rfl, rfl, rfl, rfl, rfl, rfl⟩)
theorem padB_sub : ∀ op ∈ padB (F := F), op.bufs ⊆ ucRefs := fun op h =>
  sub_ucRefs op ((show ∀ op ∈ padB (F := F), op.bufs ⊆ StableHlo.tcRefs τ sig from by unfold padB; simp) op h)
theorem padB_fresh : ∀ op ∈ padB (F := F), op.fresh = ∅ :=
  List.forall_iff_forall_mem.mp (show (padB (F := F)).Forall (fun op => op.fresh = ∅) from by unfold padB; exact ⟨rfl, rfl⟩)
theorem opsC_sub : ∀ op ∈ opsC (F := F), op.bufs ⊆ ucRefs := fun op h =>
  sub_ucRefs op ((show ∀ op ∈ opsC (F := F), op.bufs ⊆ StableHlo.tcRefs τ sig from by unfold opsC; simp) op h)
theorem opsC_fresh : ∀ op ∈ opsC (F := F), op.fresh = ∅ :=
  List.forall_iff_forall_mem.mp (show (opsC (F := F)).Forall (fun op => op.fresh = ∅) from by unfold opsC; exact ⟨rfl, rfl⟩)

/-! ## The buffers' contents along @main -/

variable (m : (ℓ : Loc nD τ sig) → Buf (Elt F) ℓ) (ρ : Dev nD → PrngReg)

/-- At launch; -/
def V0 (d : Dev nD) : Valuation τ sig (Elt F) := fun b => m (d, b)
/-- after the host operations; -/
def Vh (d : Dev nD) : Valuation τ sig (Elt F) :=
  StableHlo.after opsC (StableHlo.after padB (StableHlo.after opsB (StableHlo.after padA (StableHlo.after opsA (V0 m d)))))

theorem Vh_def (d : Dev nD) :
    StableHlo.after opsC (StableHlo.after padB (StableHlo.after opsB (StableHlo.after padA (StableHlo.after opsA (V0 m d))))) = Vh m d := rfl

abbrev v8' : DevRef τ sig := Proc.devRef .tc (main_v8 : Ref sig .tc)
abbrev v20' : DevRef τ sig := Proc.devRef .tc (main_v20 : Ref sig .tc)

/-- The packed array the SparseCore call reads. -/
def XPof (d : Dev nD) : Buf (Elt F) (xpLoc d) := Vh m d v8'

/-- After the SparseCore call: the counts array at the histogram. -/
def V1 (d : Dev nD) : Valuation τ sig (Elt F) := Function.update (Vh m d) v20' (Cert.Proof.ScSpec.counts (F := F) (XPof m d))

omit [FloatOps F] in
theorem two_sub : ({v8', v20'} : Finset (DevRef τ sig)) ⊆ ucRefs := by
  intro b hb
  rcases Finset.mem_insert.mp hb with rfl | hb
  · exact Finset.mem_filter.mpr ⟨StableHlo.devRef_mem_tcRefs _, by decide⟩
  · rw [Finset.mem_singleton.mp hb]; exact Finset.mem_filter.mpr ⟨StableHlo.devRef_mem_tcRefs _, by decide⟩

omit [FloatOps F] in
theorem v8_ne_v20 : (v8' : DevRef τ sig) ≠ v20' := StableHlo.devRef_ne_of_ne (by decide)

omit [FloatOps F] in
/-- The held buffers with the call's two arrays apart. -/
theorem held_two (d : Dev nD) (W : Valuation τ sig (Elt F)) :
    (held (SparseCore.T d) ucRefs W : sProp 𝕄)
      = iprop(((xpLoc d ↦{fullShare} W v8') ∗ (cntLoc d ↦{fullShare} W v20')) ∗ held (SparseCore.T d) (ucRefs \ {v8', v20'}) W) := by
  rw [held_sub_split (SparseCore.T d) two_sub W]
  congr 1
  unfold held
  rw [SparseCore.bigSep_insert' (Finset.notMem_singleton.mpr v8_ne_v20), bigSep_singleton]

theorem held_rest_V1 (d : Dev nD) :
    (held (SparseCore.T d) (ucRefs \ {v8', v20'}) (V1 m d) : sProp 𝕄) = held (SparseCore.T d) (ucRefs \ {v8', v20'}) (Vh m d) :=
  held_congr (SparseCore.T d) fun b hb => Function.update_of_ne (fun e => (Finset.mem_sdiff.mp hb).2 (by rw [e]; simp)) _ _

theorem V1_v8 (d : Dev nD) : V1 m d v8' = XPof m d := Function.update_of_ne v8_ne_v20 _ _
theorem V1_v20 (d : Dev nD) : V1 m d v20' = Cert.Proof.ScSpec.counts (F := F) (XPof m d) := Function.update_self _ _ _

/-! ## The TensorCore's handshake state after the one call -/

/-- After the last call the TensorCore owes nothing. -/
theorem tcSt_one (d : Dev nD) : ∃ R : sProp 𝕄, ((K (F := F)).tcSt EH d 1 : sProp 𝕄) = iprop(owesNone d ∗ R) := by
  unfold SparseCore.Cfg.tcSt
  rw [(K (F := F)).Otc_end d (le_refl _)]
  exact ⟨_, rfl⟩

/-! ## @main on the TensorCore -/

/-- What @main leaves the claim: the dense head's arrays at their final contents, every other unscoped buffer as the
    region found it. -/
abbrev FIN (d : Dev nD) : sProp 𝕄 := afterRegion (V1 m) d

/-- The dense head's call in @main is the call of the certificate's own body table, lifted. -/
theorem region_prog :
    (Prog.lift (.customCall (SparseCore.inner (Pipeline.entry 0)) ()) >>= fun _ => pure ⟨⟩ : Prog (TpuEff nD τ sig (Elt F) (ΛS (F := F)) .tc) PUnit)
      = SparseCore.liftProg (Q := 1) (.op (.customCall (Pipeline.entry 0) ()) fun _ => .ret ⟨⟩) := by chain_rfl

set_option backward.isDefEq.respectTransparency.types false in
theorem hmain (κ : GSem nD τ sig → ℕ) (d : Dev nD) :
    iprop((K (F := F)).ctx EH (P (XPof m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have hR' : ((K (F := F)).tcSt EH d ((0 : Fin 1).val + 1) : sProp 𝕄) = iprop(owesNone d ∗ R) := hR
  unfold SparseCore.Cfg.tcRes
  rw [main_eq, fn_pad_eq, fn_pad_0_eq, hR]
  simp only [Pipeline.chain_cons, Pipeline.chain_nil]
  rw [region_prog]
  rw [show (unscopedBufs d (fun b => m ((SparseCore.T d).loc b)) : sProp 𝕄) = held (SparseCore.T d) ucRefs (V0 m d) from unscopedBufs_held d (V0 m d)]
  iintro ⟨#Hctx, Hst, ⟨Hb, Hh, -, -⟩, Hg⟩
  -- the host operations
  iapply (StableHlo.wp_seq (defs := (K (F := F)).defs (D (F := F))) 𝒱 none Set.univ d ucRefs _ opsA opsA_sub opsA_fresh (V0 m d)) $$ [Hb Hh]
  · isplitl [Hb] <;> iassumption
  iintro ⟨Hb, Hh⟩
  iapply (StableHlo.wp_seq (defs := (K (F := F)).defs (D (F := F))) 𝒱 none Set.univ d ucRefs _ padA padA_sub padA_fresh _) $$ [Hb Hh]
  · isplitl [Hb] <;> iassumption
  iintro ⟨Hb, Hh⟩
  iapply (StableHlo.wp_seq (defs := (K (F := F)).defs (D (F := F))) 𝒱 none Set.univ d ucRefs _ opsB opsB_sub opsB_fresh _) $$ [Hb Hh]
  · isplitl [Hb] <;> iassumption
  iintro ⟨Hb, Hh⟩
  iapply (StableHlo.wp_seq (defs := (K (F := F)).defs (D (F := F))) 𝒱 none Set.univ d ucRefs _ padB padB_sub padB_fresh _) $$ [Hb Hh]
  · isplitl [Hb] <;> iassumption
  iintro ⟨Hb, Hh⟩
  iapply (StableHlo.wp_seq (defs := (K (F := F)).defs (D (F := F))) 𝒱 none Set.univ d ucRefs _ opsC opsC_sub opsC_fresh _) $$ [Hb Hh]
  · isplitl [Hb] <;> iassumption
  iintro ⟨Hb, Hh⟩
  -- the SparseCore call: both arrays over whole, and back
  rw [Vh_def]
  ihave Hs := (Entails.of_eq (held_two (F := F) d (Vh m d))) $$ Hh
  icases Hs with ⟨⟨Hx, Hc⟩, Hrest⟩
  rw [wp_bind]
  iapply ((K (F := F)).wp_run (D (F := F)) 𝒱 (EH := EH) (P := P (XPof m)) κ d 0) $$ [Hst Hx Hc Hb Hrest Hg]
  isplitr; · iexact Hctx
  isplitl [Hst]; · iexact Hst
  isplitl [Hx Hc]
  · iapply (st_intro (XPof m) d (Vh m d v20'))
    isplitl [Hx]; · iexact Hx
    iexact Hc
  iintro ⟨Hst, Hdn⟩
  ihave Hdn' := (dn_elim (XPof m) d) $$ Hdn
  icases Hdn' with ⟨Hx, Hc⟩
  ihave Hst' := (Entails.of_eq hR') $$ Hst
  icases Hst' with ⟨HO, HR⟩
  ihave Hlv := (SparseCore.Cfg.ctx_levAts κ) $$ Hctx
  -- the dense head's call
  iapply ((K (F := F)).wp_liftProg (D (F := F)) 𝒱 (SparseCore.T d) Set.univ none
    (.op (.customCall (Pipeline.entry 0) ()) fun _ => .ret ⟨⟩) _)
  iapply (wp_region (V1 m) d _)
  isplitl [HR]
  · iintro ⟨Hb, Hfin, HO⟩
    isplitl [HO HR]
    · isplitl [HO]; · iexact HO
      iexact HR
    iexact Hfin
  isplitl [Hb]; · iexact Hb
  isplitl [Hx Hc Hrest HO]
  · isplitl [Hx Hc Hrest]
    · iapply (Entails.of_eq (held_two (F := F) d (V1 m d)).symm)
      rw [V1_v8, V1_v20, held_rest_V1]
      isplitl [Hx Hc]
      · isplitl [Hx]; · iexact Hx
        iexact Hc
      iexact Hrest
    iexact HO
  isplitl [Hlv]; · iexact Hlv
  iexact Hg

end Cert.Proof.KI

end
-- ==== Proof.Run.lean ====
/-
  The run of the whole thread family: the launch element of the ghost state, the final memory read off what @main
  leaves, and the launch theorem applied.
-/
import proofs.«205260_g26156350832969_cont_9to1_3_23_alg».proof.Proof.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held)

variable [FloatOps F]

/-! ## The launch element: the handshakes' rounds, the pipeline's rounds, no counter yet -/

def u₀ : UU := (initOf (K (F := F)).hsCells (K (F := F)).hsToks,
  (initOf (Pipeline.cells cfgs cellOf_inj) (Pipeline.launchToks cfgs cellOf_inj), 1))

/-- Each device is dealt its pipeline's staging cells' ghost state and duty tokens. -/
theorem ghost_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => pipeGhost (F := F) d := by
  rw [← bigSep_sep']
  refine bigSep_mono fun d _ => ?_
  rw [bigSep_univ_of_subsingleton (0 : Fin 1), bigSep_univ_of_subsingleton (0 : Fin 1)]
  exact BI.Entails.refl _

variable (XP : (d : Dev nD) → Buf (Elt F) (xpLoc d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P XP).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · iapply ghost_deal
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

variable (m : (ℓ : Loc nD τ sig) → Buf (Elt F) ℓ) (ρ : Dev nD → PrngReg)

/-- What the final memory holds on device `d`: each array of the dense head's pipeline at what the pipeline library
    computes, every other unscoped buffer of the TensorCore at what the call found. -/
def fq (d : Dev nD) (s' : Phys nD τ sig (Elt F)) : Prop :=
  (∀ w : Fin cfg1.W, s'.mem.mem ((cfg1.win w).arr.view.loc (d : Thread nD τ)) = (dats (V1 m) 0 d).arrAt w cfg1.N)
    ∧ ∀ b ∈ Pipeline.restRefs sig spec1, s'.mem.mem ((d : Thread nD τ).loc b) = Vb (V1 m) d b

set_option backward.isDefEq.respectTransparency.types false in
theorem hfin (d : Dev nD) (s' : Phys nD τ sig (Elt F)) : iprop(FIN m d ∗ SI s') ⊢ (⌜fq m d s'⌝ : sProp 𝕄) := by
  iintro ⟨⟨Ha, Hr⟩, HSI⟩
  ihave H1 := (Pipeline.arrays_read (pcfgs (F := F)) adm (dats (V1 m)) launch1.arr_whole d ((dats (V1 m) 0 d).share_full fun _ => rfl) _ s') $$ [Ha HSI]
  · isplitl [Ha] <;> iassumption
  icases H1 with ⟨%ha, HSI⟩
  ihave H2 := (pointsTo_read_all (Pipeline.restRefs sig spec1) (fun b => (d : Thread nD τ).loc b) (Vb (V1 m) d) s') $$ [Hr HSI]
  · isplitl [Hr]; · unfold Pipeline.unscopedRest; iexact Hr
    iexact HSI
  icases H2 with ⟨%hr, -⟩
  ipureintro; exact ⟨ha, hr⟩

/-! ## The run -/

def QC : PUnit × MemSt nD τ sig (Elt F) → Prop := fun r => ∀ d : Dev nD,
  (∀ w : Fin cfg1.W, r.2.mem ((cfg1.win w).arr.view.loc (d : Thread nD τ)) = (dats (V1 m) 0 d).arrAt w cfg1.N)
    ∧ ∀ b ∈ Pipeline.restRefs sig spec1, r.2.mem ((d : Thread nD τ).loc b) = Vb (V1 m) d b

/-- Every weakly fair execution of the thread family terminates, and every final memory has the dense head's arrays at
    what the pipeline library computes and every other unscoped buffer of the TensorCore at what the call found —
    given the statement of one vector subcore's task at the packed array the host operations build. -/
theorem run_raw [∀ e, Nonempty (Elt F e)] (htile : TileStmt (XPof m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (XPof m)) facts v₀
    (fun q hq => match q with | 0 => nomatch hq)
    (fun q _ => match q with | 0 => tileObl (XPof m) htile)
    (fun q _ => match q with | 0 => SparseCore.Cfg.VecSplit.of_plain (vecSplit (XPof m)))
    m ρ main (fun d => pipeGhost (F := F) d) (FIN m) (u₀ (F := F)) (sep_elim_left.trans (hu₀ (XPof m))) (hmain m ρ) (fq m) (hfin m) (QC m) (fun _ h => h)

end Cert.Proof.KI

end
-- ==== Proof.Blocks.lean ====
/-
  From blocks to the array: the dense head's result array after the call is, whole, `tcOut` of the counts, the
  table, the dense features, the dense weights and the bias as the call finds them.
-/
import proofs.«205260_g26156350832969_cont_9to1_3_23_alg».proof.Proof.Region
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe
open Idealize.ShloMosaic.Pipeline (Dat Cfg Window BodyObligation cellOf)
open Idealize.ShloMosaic.ValueIdx (ix2)

variable [FloatOps F]
variable (VR : Dev nD → Valuation τ sig (Elt F))

omit [FloatOps F] in
theorem tt_lt (t : Fin cfg1.N) : t.val < 4 := by
  have h : t.val < grid1.N := t.isLt
  rw [N_1] at h; exact h
/-- A grid point as a block number. -/
def tt (t : Fin cfg1.N) : Fin 4 := ⟨t.val, tt_lt t⟩

omit [FloatOps F] in
/-- The printed index maps, decided over the grid: the counts, the dense features and the result move by one block of
    256 rows per point; the table, the dense weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block at a point, off its array -/

theorem iblk_cnt (c : Dev nD) (t : Fin cfg1.N) : iblk VR c 0 t = cntBlock (F := F) (Vb VR c main_v20) (tt t) := by
  obtain ⟨_, _, _, _, _, _, _, _, _, _, _, _⟩ := idx_facts t
  funext j
  show Vb VR c main_v20 (((cfg1.win 0).blk t).view.emb j) = Vb VR c main_v20 (ix2 ⟨256 * t.val + (j 0).val, _⟩ ⟨(j 1).val, _⟩)
  congr 1
  funext a; apply Fin.ext
  match a with
  | ⟨0, _⟩ => show win1_0.index t (0 : Fin 2) * 256 + 1 * (j 0).val = 256 * t.val + (j 0).val; omega
  | ⟨1, _⟩ => show win1_0.index t (1 : Fin 2) * 2688 + 1 * (j 1).val = (j 1).val; omega
theorem iblk_tbl (c : Dev nD) (t : Fin cfg1.N) : iblk VR c 1 t = Vb VR c main_v17 := by
  obtain ⟨_, _, _, _, _, _, _, _, _, _, _, _⟩ := idx_facts t
  funext j
  show Vb VR c main_v17 (((cfg1.win 1).blk t).view.emb j) = Vb VR c main_v17 j
  congr 1
  funext a; apply Fin.ext
  match a with
  | ⟨0, _⟩ => show win1_1.index t (0 : Fin 2) * 2688 + 1 * (j 0).val = (j 0).val; omega
  | ⟨1, _⟩ => show win1_1.index t (1 : Fin 2) * 64 + 1 * (j 1).val = (j 1).val; omega
theorem iblk_dense (c : Dev nD) (t : Fin cfg1.N) : iblk VR c 2 t = denseBlock (F := F) (Vb VR c main_arg1) (tt t) := by
  obtain ⟨_, _, _, _, _, _, _, _, _, _, _, _⟩ := idx_facts t
  funext j
  show Vb VR c main_arg1 (((cfg1.win 2).blk t).view.emb j) = Vb VR c main_arg1 (ix2 ⟨256 * t.val + (j 0).val, _⟩ ⟨(j 1).val, _⟩)
  congr 1
  funext a; apply Fin.ext
  match a with
  | ⟨0, _⟩ => show win1_2.index t (0 : Fin 2) * 256 + 1 * (j 0).val = 256 * t.val + (j 0).val; omega
  | ⟨1, _⟩ => show win1_2.index t (1 : Fin 2) * 13 + 1 * (j 1).val = (j 1).val; omega
theorem iblk_wd (c : Dev nD) (t : Fin cfg1.N) : iblk VR c 3 t = Vb VR c main_v18 := by
  obtain ⟨_, _, _, _, _, _, _, _, _, _, _, _⟩ := idx_facts t
  funext j
  show Vb VR c main_v18 (((cfg1.win 3).blk t).view.emb j) = Vb VR c main_v18 j
  congr 1
  funext a; apply Fin.ext
  match a with
  | ⟨0, _⟩ => show win1_3.index t (0 : Fin 2) * 13 + 1 * (j 0).val = (j 0).val; omega
  | ⟨1, _⟩ => show win1_3.index t (1 : Fin 2) * 1 + 1 * (j 1).val = (j 1).val; omega
theorem iblk_bs (c : Dev nD) (t : Fin cfg1.N) : iblk VR c 4 t = Vb VR c main_v19 := by
  obtain ⟨_, _, _, _, _, _, _, _, _, _, _, _⟩ := idx_facts t
  funext j
  show Vb VR c main_v19 (((cfg1.win 4).blk t).view.emb j) = Vb VR c main_v19 j
  congr 1
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

/-! ## The result array -/

/-- The result array as one function of the arrays the call finds. -/
def Gout (c : Dev nD) : Buf (Elt F) ((cfg1.win 5).arr.view.loc (c : Thread nD τ)) :=
  tcOut (F := F) (Vb VR c main_v20) (Vb VR c main_v17) (Vb VR c main_arg1) (Vb VR c main_v18) (Vb VR c main_v19)

/-- What point `t` writes back is block `t` of it. -/
theorem flushed_out (c : Dev nD) (t : Fin cfg1.N) :
    (dats VR 0 c).flushed 5 t = ((cfg1.win 5).blk t).view.read (Elt F) (Gout VR c) := by
  show (cfg1.win 5).cut (grid1.coords t) ((dats VR 0 c).after 5 t) = _
  rw [after1_5, iblk_cnt, iblk_tbl, iblk_dense, iblk_wd, iblk_bs]
  obtain ⟨_, _, _, _, _, _, _, _, _, _, e50, e51⟩ := idx_facts t
  funext j
  show tcBlock (F := F) _ _ _ _ _ j = Gout VR c (((cfg1.win 5).blk t).view.emb j)
  unfold Gout tcOut
  have h0 : ((((cfg1.win 5).blk t).view.emb j) 0).val = 256 * t.val + (j 0).val := by
    show win1_5.index t (0 : Fin 2) * 256 + 1 * (j 0).val = _
    omega
  have hj0 : (j 0).val < 256 := (j 0).isLt
  have hj1 : (j 1).val < 1 := (j 1).isLt
  have hb : blockOfRow ⟨((((cfg1.win 5).blk t).view.emb j) 0).val, ((((cfg1.win 5).blk t).view.emb j) 0).isLt⟩ = tt t :=
    Fin.ext (by show ((((cfg1.win 5).blk t).view.emb j) 0).val / 256 = t.val; rw [h0]; omega)
  have hr : rowInBlock ⟨((((cfg1.win 5).blk t).view.emb j) 0).val, ((((cfg1.win 5).blk t).view.emb j) 0).isLt⟩ = ⟨(j 0).val, hj0⟩ :=
    Fin.ext (by show ((((cfg1.win 5).blk t).view.emb j) 0).val % 256 = (j 0).val; rw [h0]; omega)
  rw [hb, hr]
  congr 1
  funext a
  match a with
  | ⟨0, _⟩ => rfl
  | ⟨1, _⟩ => exact Fin.ext (by show (j 1).val = 0; omega)

omit [FloatOps F] in
/-- An index of the result array is in point `t`'s block iff each coordinate is in the block's range on its axis. -/
theorem mem_blk_out (t : Fin cfg1.N) (i : S1024x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v21).slice (win1_5.rect t)).set ↔ _
  rw [View.set_slice_whole, Rect.mem_set_unit]
  exact Iff.rfl

omit [FloatOps F] in
/-- Every block of rows is some point's. -/
theorem idx_onto_out : ∀ q0 : Fin 4, ∃ t : Fin cfg1.N, win1_5.index t = ![q0.val, 0] :=
  (by decide +kernel : ∀ q0 : Fin 4, ∃ t : Fin grid1.N, win1_5.index t = ![q0.val, 0])

omit [FloatOps F] in
/-- Every row of the result is in some point's block. -/
theorem out_cover (i : S1024x1.Idx) :
    ∃ t : Fin cfg1.N, (cfg1.win 5).flush t = true ∧ i ∈ ((cfg1.win 5).blk t).view.set := by
  have hi0 : (i 0).val < 1024 := (i 0).isLt
  have hi1 : (i 1).val < 1 := (i 1).isLt
  obtain ⟨t, ht⟩ := idx_onto_out ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk_out]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1 ≤ (i 1).val ∧ (i 1).val < win1_5.index t (1 : Fin 2) * 1 + 1; omega

/-- THE RESULT ARRAY after the call. -/
theorem final_out (c : Dev nD) : (dats VR 0 c).arrAt 5 cfg1.N = Gout VR c :=
  (dats VR 0 c).arrAt_eq_of_cover 5 (Gout VR c) (fun t _ => flushed_out VR c t) (fun i => out_cover i)

end Cert.Proof.KI

end
-- ==== Proof.KHost.lean ====
/-
  What the kernel program's host part computes before its two kernel calls, as pure functions of the
  inputs: the packed index array, the combined table, the dense weights and the bias. Each is the
  composition of the program's own operations, one `let` per operation, in the program's order.
-/
import proofs.«205260_g26156350832969_cont_9to1_3_23_alg».proof.KernelIdeal

noncomputable section

namespace Cert.KernelIdeal.KHost

open Idealize.ShloMosaic
open Cert.KernelIdeal Cert.KernelIdeal.Facts₀ Cert.KernelIdeal.Facts

variable {F : FTy → Type} [FloatOps F]
variable [Cert.KernelIdeal.Facts]

/-- The offsets row: the literal table read in row-major order. -/
def offsOf : IVec S2688 32 := fun i => lit0 (S2688.rowMajor i)

/-- The padded and shifted index array: the input padded with zeros to 2688 columns, plus the offsets row. -/
def xbOf (x : IVec S1024x2626 32) : IVec S1024x2688 32 :=
  let c : IVec S2688 32 := fun i => lit0 (S2688.rowMajor i)
  let c_0 : IVec S_ 32 := constantI S_ 32 0#32
  let p0 : IVec S_ 32 := id c_0
  let v0 : IVec S1024x2688 32 := pad S1024x2688 ![0, 0] ![0, 62] ![0, 0] x p0 pads_S1024x2626_S1024x2688_000_0620 h_S_
  let v1 : IVec S1x2688 32 := broadcastInDim S1x2688 ![1] bcast_S2688_S1x2688_1 c
  let v2 : IVec S1024x2688 32 := broadcastInDim S1024x2688 ![0, 1] bcast_S1x2688_S1024x2688_0_1 v1
  addi v0 v2

/-- The packed index array: the left half of the shifted array in the low sixteen bits of each word,
    the right half in the high sixteen bits. -/
def xpOf (x : IVec S1024x2626 32) : IVec S1024x1344 32 :=
  let c : IVec S2688 32 := fun i => lit0 (S2688.rowMajor i)
  let c_0 : IVec S_ 32 := constantI S_ 32 0#32
  let p0 : IVec S_ 32 := id c_0
  let v0 : IVec S1024x2688 32 := pad S1024x2688 ![0, 0] ![0, 62] ![0, 0] x p0 pads_S1024x2626_S1024x2688_000_0620 h_S_
  let v1 : IVec S1x2688 32 := broadcastInDim S1x2688 ![1] bcast_S2688_S1x2688_1 c
  let v2 : IVec S1024x2688 32 := broadcastInDim S1024x2688 ![0, 1] bcast_S1x2688_S1024x2688_0_1 v1
  let v3 : IVec S1024x2688 32 := addi v0 v2
  let v4 : IVec S1024x1344 32 := extractStridedSlice S1024x1344 ![0, 0] v3 slices_S1024x2688_S1024x1344_0_0
  let v5 : IVec S1024x1344 32 := extractStridedSlice S1024x1344 ![0, 1344] v3 slices_S1024x2688_S1024x1344_0_1344
  let c_1 : IVec S_ 32 := constantI S_ 32 16#32
  let v6 : IVec S1024x1344 32 := broadcastInDim S1024x1344 ![] bcast_S_S1024x1344 c_1
  let v7 : IVec S1024x1344 32 := Host.shli v5 v6
  let v8 : IVec S1024x1344 32 := ori v4 v7
  v8

/-- The packed array is the two column halves of the shifted array joined word by word. -/
theorem xpOf_eq (x : IVec S1024x2626 32) :
    xpOf x = ori (extractStridedSlice S1024x1344 ![0, 0] (xbOf x) slices_S1024x2688_S1024x1344_0_0)
      (Host.shli (extractStridedSlice S1024x1344 ![0, 1344] (xbOf x) slices_S1024x2688_S1024x1344_0_1344)
        (broadcastInDim S1024x1344 ![] bcast_S_S1024x1344 (constantI S_ 32 16#32))) := rfl

/-- The combined table: per bin the 32 embedding entries, then the linear entry times its field's
    weight, then zeros up to 64 columns; 88 zero rows below the 2600 bins. -/
def tableOf (emb : FVec F S26x100x32 .f32) (lin : FVec F S26x100x1 .f32) (W : FVec F S39x1 .f32) :
    FVec F S2688x64 .f32 :=
  let v9 : FVec F S2600x32 .f32 := shapeCast S2600x32 emb shapeCasts_S26x100x32_S2600x32
  let v10 : FVec F S26x100 .f32 := shapeCast S26x100 lin shapeCasts_S26x100x1_S26x100
  let v11 : FVec F S26x1 .f32 := extractStridedSlice S26x1 ![0, 0] W slices_S39x1_S26x1_0_0
  let v12 : FVec F S26x100 .f32 := broadcastInDim S26x100 ![0, 1] bcast_S26x1_S26x100_0_1 v11
  let v13 : FVec F S26x100 .f32 := mulf v10 v12
  let v14 : FVec F S2600x1 .f32 := shapeCast S2600x1 v13 shapeCasts_S26x100_S2600x1
  let cst : FVec F S_ .f32 := constant S_ .f32 0x00000000#32
  let v15 : FVec F S2600x31 .f32 := broadcastInDim S2600x31 ![] bcast_S_S2600x31 cst
  let v16 : FVec F S2600x64 .f32 :=
    concatenate S2600x64 1 [⟨S2600x32, v9⟩, ⟨S2600x1, v14⟩, ⟨S2600x31, v15⟩] concatenates_S2600x32_S2600x1_S2600x31_S2600x64_d1
  let c_2 : IVec S_ 32 := constantI S_ 32 0#32
  let q0 : FVec F S_ .f32 := sitofp .f32 c_2
  pad S2688x64 ![0, 0] ![88, 0] ![0, 0] v16 q0 pads_S2600x64_S2688x64_0880_000 h_S_

/-- The dense features' weights: rows 26 to 38 of the weight column. -/
def wdOf (W : FVec F S39x1 .f32) : FVec F S13x1 .f32 :=
  extractStridedSlice S13x1 ![26, 0] W slices_S39x1_S13x1_26_0

/-- The bias as a one-by-one array. -/
def biasOf (b : FVec F S1 .f32) : FVec F S1x1 .f32 :=
  shapeCast S1x1 b shapeCasts_S1_S1x1

end Cert.KernelIdeal.KHost

end
-- ==== Proof.Final.lean ====
/-
  The run with every array named: the dense head's result is `tcOut` of the histogram of the packed array, the
  combined table, the dense features, the dense weights and the bias, each the host operations' own function of
  the arguments; every argument array ends as it was launched.
-/
import proofs.«205260_g26156350832969_cont_9to1_3_23_alg».proof.Proof.Run
import proofs.«205260_g26156350832969_cont_9to1_3_23_alg».proof.Proof.Blocks
import proofs.«205260_g26156350832969_cont_9to1_3_23_alg».proof.Proof.KHost

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe
open Idealize.ShloMosaic.Pipeline (Dat Cfg Window BodyObligation cellOf)
open Idealize.ShloMosaic.StableHlo
open Cert.KernelIdeal.KHost

variable [FloatOps F]
variable (m : (ℓ : Loc nD τ sig) → Buf (Elt F) ℓ) (ρ : Dev nD → PrngReg)

/-! ## No host operation writes an argument -/

theorem Vh_main_arg0 (d : Dev nD) : Vh m d (Proc.devRef .tc main_arg0) = m ((d : Thread nD τ).loc main_arg0) := by
  unfold Vh opsA padA opsB padB opsC
  after_results
  rfl
theorem Vh_main_arg1 (d : Dev nD) : Vh m d (Proc.devRef .tc main_arg1) = m ((d : Thread nD τ).loc main_arg1) := by
  unfold Vh opsA padA opsB padB opsC
  after_results
  rfl
theorem Vh_main_arg2 (d : Dev nD) : Vh m d (Proc.devRef .tc main_arg2) = m ((d : Thread nD τ).loc main_arg2) := by
  unfold Vh opsA padA opsB padB opsC
  after_results
  rfl
theorem Vh_main_arg3 (d : Dev nD) : Vh m d (Proc.devRef .tc main_arg3) = m ((d : Thread nD τ).loc main_arg3) := by
  unfold Vh opsA padA opsB padB opsC
  after_results
  rfl
theorem Vh_main_arg4 (d : Dev nD) : Vh m d (Proc.devRef .tc main_arg4) = m ((d : Thread nD τ).loc main_arg4) := by
  unfold Vh opsA padA opsB padB opsC
  after_results
  rfl
theorem Vh_main_arg5 (d : Dev nD) : Vh m d (Proc.devRef .tc main_arg5) = m ((d : Thread nD τ).loc main_arg5) := by
  unfold Vh opsA padA opsB padB opsC
  after_results
  rfl

/-! ## What the host operations leave for the two calls -/

theorem XPof_eq (d : Dev nD) : XPof m d = xpOf (m ((d : Thread nD τ).loc main_arg0)) := by
  unfold XPof Vh opsA padA opsB padB opsC
  after_results
  rfl
theorem Vh_table (d : Dev nD) : Vh m d (Proc.devRef .tc main_v17)
    = tableOf (F := F) (m ((d : Thread nD τ).loc main_arg3)) (m ((d : Thread nD τ).loc main_arg2)) (m ((d : Thread nD τ).loc main_arg4)) := by
  unfold Vh opsA padA opsB padB opsC
  after_results
  rfl
theorem Vh_wd (d : Dev nD) : Vh m d (Proc.devRef .tc main_v18) = wdOf (F := F) (m ((d : Thread nD τ).loc main_arg4)) := by
  unfold Vh opsA padA opsB padB opsC
  after_results
  rfl
theorem Vh_bias (d : Dev nD) : Vh m d (Proc.devRef .tc main_v19) = biasOf (F := F) (m ((d : Thread nD τ).loc main_arg5)) := by
  unfold Vh opsA padA opsB padB opsC
  after_results
  rfl

/-! ## After the SparseCore call only the counts array has changed -/

theorem V1_of_ne (d : Dev nD) (x : Ref sig .tc) (hx : x ≠ main_v20) : V1 m d (Proc.devRef .tc x) = Vh m d (Proc.devRef .tc x) :=
  Function.update_of_ne (StableHlo.devRef_ne_of_ne hx) _ _

/-! ## The run, read -/

/-- Every weakly fair execution of the thread family terminates; every final memory has the result array at `tcOut`
    of the histogram, the table, the dense features, the dense weights and the bias, and each argument array as launched. -/
theorem run_main [∀ e, Nonempty (Elt F e)] (htile : TileStmt (XPof m)) :
    θ_run (Cert.KernelIdeal.defs (F := F)) (Cert.KernelIdeal.threads (F := F)) ⟨m, fun _ => 0, ρ⟩ (fun r => ∀ c : Dev nD,
      r.2.mem ((c : Thread nD τ).loc main_v21)
          = tcOut (F := F) (Cert.Proof.ScSpec.counts (F := F) (xpOf (m ((c : Thread nD τ).loc main_arg0))))
              (tableOf (F := F) (m ((c : Thread nD τ).loc main_arg3)) (m ((c : Thread nD τ).loc main_arg2)) (m ((c : Thread nD τ).loc main_arg4)))
              (m ((c : Thread nD τ).loc main_arg1)) (wdOf (F := F) (m ((c : Thread nD τ).loc main_arg4))) (biasOf (F := F) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run (Cert.KernelIdeal.defs (F := F)) _ _).mono (fun r h c => ?_) (run_raw m ρ htile)
  obtain ⟨ha, hr⟩ := h c
  have rest : ∀ x : Ref sig .tc, x ∈ Pipeline.restRefs sig spec1 → x ≠ main_v20 →
      r.2.mem ((c : Thread nD τ).loc x) = Vh m c (Proc.devRef .tc x) := fun x hx hne => (hr x hx).trans (V1_of_ne m c x hne)
  refine ⟨?_, ?_, ?_, ?_, ?_, ?_, ?_⟩
  · refine (ha 5).trans ((final_out (V1 m) c).trans ?_)
    unfold Gout Vb
    rw [V1_v20, V1_of_ne m c main_v17 (by decide), V1_of_ne m c main_arg1 (by decide), V1_of_ne m c main_v18 (by decide),
      V1_of_ne m c main_v19 (by decide), XPof_eq, Vh_table, Vh_main_arg1, Vh_wd, Vh_bias]
  · exact (rest main_arg0 (Pipeline.mem_restRefs_of main_arg0 (by decide) (by decide)) (by decide)).trans (Vh_main_arg0 m c)
  · refine (ha 2).trans (((dats (V1 m) 0 c).arrAt_in 2 rfl _).trans ((A_eq (V1 m) c 2).trans ?_))
    exact (V1_of_ne m c main_arg1 (by decide)).trans (Vh_main_arg1 m c)
  · exact (rest main_arg2 (Pipeline.mem_restRefs_of main_arg2 (by decide) (by decide)) (by decide)).trans (Vh_main_arg2 m c)
  · exact (rest main_arg3 (Pipeline.mem_restRefs_of main_arg3 (by decide) (by decide)) (by decide)).trans (Vh_main_arg3 m c)
  · exact (rest main_arg4 (Pipeline.mem_restRefs_of main_arg4 (by decide) (by decide)) (by decide)).trans (Vh_main_arg4 m c)
  · exact (rest main_arg5 (Pipeline.mem_restRefs_of main_arg5 (by decide) (by decide)) (by decide)).trans (Vh_main_arg5 m c)

end Cert.Proof.KI

end
-- ==== Proof.ScIfaceW.lean ====
/-
  What the SparseCore call carries between the threads, and the statement of one vector subcore's task.

  Tile (core c, subcore i) has the number w = 2 i + c and owns rows 32 w … 32 w + 31 of the packed array
  (read only, unchanged) and of the counts array (written whole: row b ends at the histogram of packed row b).
-/
import proofs.«205260_g26156350832969_cont_9to1_3_23_alg».proof.Defs
import proofs.«205260_g26156350832969_cont_9to1_3_23_alg».proof.Proof.ScSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«205260_g26156350832969_cont_9to1_3_23_alg».proof.Proof.Gen.Kernel
import proofs.«205260_g26156350832969_cont_9to1_3_23_alg».proof.Proof.Gen.Kernel.Skeleton

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra: the handshakes' rounds, the pipeline's rounds, the local transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The arrays -/

abbrev xpLoc (d : Dev nD) : Loc nD τ sig := (SparseCore.T d).loc main_v8
abbrev cntLoc (d : Dev nD) : Loc nD τ sig := (SparseCore.T d).loc main_v20

/-- The number of tile (c, i) and the rows it owns. -/
def wid (c : Fin 2) (i : Fin 16) : Fin 32 := ⟨2 * i.val + c.val, by omega⟩
def xpRows (w : Fin 32) : Finset S1024x1344.Idx := Finset.univ.filter fun j => (j 0).val / 32 = w.val
def cntRows (w : Fin 32) : Finset S1024x2688.Idx := Finset.univ.filter fun j => (j 0).val / 32 = w.val

variable [FloatOps F]

/-- What a tile is handed: its rows of the packed array at `XP d`, its rows of the counts array at anything. -/
def goP (XP : (d : Dev nD) → Buf (Elt F) (xpLoc d)) (d : Dev nD) (c : Fin 2) (i : Fin 16) : sProp (MT nD τ sig (HIx 1) (Elt F) ℕ UU ℕ) :=
  iprop((xpLoc d ↦[xpRows (wid c i)]{fullShare} XP d) ∗ ∃ f, cntLoc d ↦[cntRows (wid c i)]{fullShare} f)
/-- What it hands back: the packed rows unchanged, the counts rows at the histogram. -/
def tdP (XP : (d : Dev nD) → Buf (Elt F) (xpLoc d)) (d : Dev nD) (c : Fin 2) (i : Fin 16) : sProp (MT nD τ sig (HIx 1) (Elt F) ℕ UU ℕ) :=
  iprop((xpLoc d ↦[xpRows (wid c i)]{fullShare} XP d)
    ∗ cntLoc d ↦[cntRows (wid c i)]{fullShare} (Cert.Proof.ScSpec.counts (F := F) (XP d)))

/-- The call's payloads: a tile's are `goP` / `tdP`; a SparseCore's are its sixteen tiles'. -/
def P (XP : (d : Dev nD) → Buf (Elt F) (xpLoc d)) : (K (F := F)).Pay (nD := nD) (Val := Elt F) (Name := ℕ) (U := UU) where
  go := fun q d c i => match q with | 0 => goP XP d (Fin.cast nCore_zero c) (Fin.cast nSub_zero i)
  td := fun q d c i => match q with | 0 => tdP XP d (Fin.cast nCore_zero c) (Fin.cast nSub_zero i)
  st := fun q d c => match q with | 0 => bigSep Finset.univ fun i : Fin 16 => goP XP d (Fin.cast nCore_zero c) i
  dn := fun q d c => match q with | 0 => bigSep Finset.univ fun i : Fin 16 => tdP XP d (Fin.cast nCore_zero c) i
  x := fun _ _ => iprop(emp)

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The tile's number, from its grid coordinates. -/
abbrev widL (L : grid0.Coords) : Fin 32 := wid (Fin.cast bound_zero (L 0)) (Fin.cast bound_one (L 1))

/-- The kernel function as the body table calls it at grid coordinates `L`. -/
abbrev bodyAt (L : grid0.Coords) :=
  cc0_sc_body (F := F) L (Memref.whole main_v8_scv) (Memref.isWhole_whole _) (Memref.whole main_v20_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15

/-- The task of the vector subcore at grid coordinates `L` of device `d`: from its rows of the packed array (at `XP d`, every
    word two bin numbers below 2800) and of the counts array, its own scratch and semaphores, and what it owes the launch,
    the kernel function runs to the end, the packed rows unchanged and the counts rows at the histogram. -/
def TileStmt (XP : (d : Dev nD) → Buf (Elt F) (xpLoc d)) : Prop :=
  ∀ (d : Dev nD) (L : grid0.Coords) (O : CellTallies nD τ sig (HIx 1)) (W : Waits sig (HIx 1)), (∀ g, O g none = 0) →
    iprop(levAts (K (F := F)).L (K (F := F)).lev ∗ emp
        ∗ ((xpLoc d ↦[xpRows (widL L)]{fullShare} XP d) ∗ ∃ f, cntLoc d ↦[cntRows (widL L)]{fullShare} f)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ (bodyAt (F := F) L)
          fun _ => iprop(((xpLoc d ↦[xpRows (widL L)]{fullShare} XP d)
              ∗ cntLoc d ↦[cntRows (widL L)]{fullShare} (Cert.Proof.ScSpec.counts (F := F) (XP d)))
            ∗ scopedBufs (V d (cV L) (jV L)) ∗ scopedSems0 (V d (cV L) (jV L))
            ∗ ∃ W', ⌜∀ p ∈ W', p ∈ W ∨ p.2 = none⌝ ∗ owes (V d (cV L) (jV L)) O W') : sProp (MT nD τ sig (HIx 1) (Elt F) ℕ UU ℕ))

end Tile

end Cert.Proof.KW

end
-- ==== Proof.HostOpsW.lean ====
/-
  @main's host operations before the two calls, as lists, and @main as the chain of its parts.
-/
import proofs.«205260_g26156350832969_cont_9to1_3_23_alg».proof.Proof.ScIfaceW
import proofs.«205260_g26156350832969_cont_9to1_3_23_alg».proof.Proof.Gen.Kernel.Launch

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]

abbrev ΛS : Labels := SparseCore.Sig (ΛP (F := F)) 1

/-- The index-offset table and the padding value of the indices. -/
def opsA : List (HloOp τ sig (Elt F)) := [
    (StableHlo.nullary main_c (fun i => lit0 (S2688.rowMajor i))),
    (StableHlo.nullary main_c_0 (constantI S_ 32 0#32)) ]

/-- The indices padded to 2688 columns. -/
def padA : List (HloOp τ sig (Elt F)) := [
    (StableHlo.TRef.unary (.of main_c_0 : StableHlo.TRef sig ⟨S_, .i32⟩) main_call0.v0 id),
    (StableHlo.TRef.binary (.of main_arg0 : StableHlo.TRef sig ⟨S1024x2626, .i32⟩) main_call0.v0 main_call0.v1 (fun x v => pad S1024x2688 ![0, 0] ![0, 62] ![0, 0] x v pads_S1024x2626_S1024x2688_000_0620 h_S_)) ]

/-- The packed indices and the table before its padding. -/
def opsB : List (HloOp τ sig (Elt F)) := [
    (StableHlo.unary main_c main_v1 (broadcastInDim S1x2688 ![1] bcast_S2688_S1x2688_1 : (⟨S2688, .i32⟩ : BufTy).Contents (Elt F) → (⟨S1x2688, .i32⟩ : BufTy).Contents (Elt F))),
    (StableHlo.unary main_v1 main_v2 (broadcastInDim S1024x2688 ![0, 1] bcast_S1x2688_S1024x2688_0_1 : (⟨S1x2688, .i32⟩ : BufTy).Contents (Elt F) → (⟨S1024x2688, .i32⟩ : BufTy).Contents (Elt F))),
    (StableHlo.binary main_v0 main_v2 main_v3 (addi : (⟨S1024x2688, .i32⟩ : BufTy).Contents (Elt F) → (⟨S1024x2688, .i32⟩ : BufTy).Contents (Elt F) → (⟨S1024x2688, .i32⟩ : BufTy).Contents (Elt F))),
    (StableHlo.unary main_v3 main_v4 ((extractStridedSlice S1024x1344 ![0, 0] · slices_S1024x2688_S1024x1344_0_0) : (⟨S1024x2688, .i32⟩ : BufTy).Contents (Elt F) → (⟨S1024x1344, .i32⟩ : BufTy).Contents (Elt F))),
    (StableHlo.unary main_v3 main_v5 ((extractStridedSlice S1024x1344 ![0, 1344] · slices_S1024x2688_S1024x1344_0_1344) : (⟨S1024x2688, .i32⟩ : BufTy).Contents (Elt F) → (⟨S1024x1344, .i32⟩ : BufTy).Contents (Elt F))),
    (StableHlo.nullary main_c_1 (constantI S_ 32 16#32)),
    (StableHlo.unary main_c_1 main_v6 (broadcastInDim S1024x1344 ![] bcast_S_S1024x1344 : (⟨S_, .i32⟩ : BufTy).Contents (Elt F) → (⟨S1024x1344, .i32⟩ : BufTy).Contents (Elt F))),
    (StableHlo.binary main_v5 main_v6 main_v7 (Host.shli : (⟨S1024x1344, .i32⟩ : BufTy).Contents (Elt F) → (⟨S1024x1344, .i32⟩ : BufTy).Contents (Elt F) → (⟨S1024x1344, .i32⟩ : BufTy).Contents (Elt F))),
    (StableHlo.binary main_v4 main_v7 main_v8 (ori : (⟨S1024x1344, .i32⟩ : BufTy).Contents (Elt F) → (⟨S1024x1344, .i32⟩ : BufTy).Contents (Elt F) → (⟨S1024x1344, .i32⟩ : BufTy).Contents (Elt F))),
    (StableHlo.reshape main_arg3 main_v9 rfl shapeCasts_S26x100x32_S2600x32),
    (StableHlo.reshape main_arg2 main_v10 rfl shapeCasts_S26x100x1_S26x100),
    (StableHlo.unary main_arg4 main_v11 ((extractStridedSlice S26x1 ![0, 0] · slices_S39x1_S26x1_0_0) : (⟨S39x1, .f32⟩ : BufTy).Contents (Elt F) → (⟨S26x1, .f32⟩ : BufTy).Contents (Elt F))),
    (StableHlo.unary main_v11 main_v12 (broadcastInDim S26x100 ![0, 1] bcast_S26x1_S26x100_0_1 : (⟨S26x1, .f32⟩ : BufTy).Contents (Elt F) → (⟨S26x100, .f32⟩ : BufTy).Contents (Elt F))),
    (StableHlo.binary main_v10 main_v12 main_v13 (mulf : (⟨S26x100, .f32⟩ : BufTy).Contents (Elt F) → (⟨S26x100, .f32⟩ : BufTy).Contents (Elt F) → (⟨S26x100, .f32⟩ : BufTy).Contents (Elt F))),
    (StableHlo.reshape main_v13 main_v14 rfl shapeCasts_S26x100_S2600x1),
    (StableHlo.nullary main_cst (constant S_ .f32 0x00000000#32)),
    (StableHlo.unary main_cst main_v15 (broadcastInDim S2600x31 ![] bcast_S_S2600x31 : (⟨S_, .f32⟩ : BufTy).Contents (Elt F) → (⟨S2600x31, .f32⟩ : BufTy).Contents (Elt F))),
    (StableHlo.nary ![main_v9, main_v14, main_v15] main_v16 (fun u => concatenate S2600x64 1 [⟨S2600x32, u 0⟩, ⟨S2600x1, u 1⟩, ⟨S2600x31, u 2⟩] concatenates_S2600x32_S2600x1_S2600x31_S2600x64_d1)),
    (StableHlo.nullary main_c_2 (constantI S_ 32 0#32)) ]

/-- The table padded to 2688 rows. -/
def padB : List (HloOp τ sig (Elt F)) := [
    (StableHlo.TRef.unary (.of main_c_2 : StableHlo.TRef sig ⟨S_, .i32⟩) main_call1.v0 (sitofp .f32)),
    (StableHlo.TRef.binary (.of main_v16 : StableHlo.TRef sig ⟨S2600x64, .f32⟩) main_call1.v0 main_call1.v1 (fun x v => pad S2688x64 ![0, 0] ![88, 0] ![0, 0] x v pads_S2600x64_S2688x64_0880_000 h_S_)) ]

/-- The dense weights and the bias. -/
def opsC : List (HloOp τ sig (Elt F)) := [
    (StableHlo.unary main_arg4 main_v18 ((extractStridedSlice S13x1 ![26, 0] · slices_S39x1_S13x1_26_0) : (⟨S39x1, .f32⟩ : BufTy).Contents (Elt F) → (⟨S13x1, .f32⟩ : BufTy).Contents (Elt F))),
    (StableHlo.reshape main_arg5 main_v19 rfl shapeCasts_S1_S1x1) ]

theorem fn_pad_eq : fn_pad.body (F := F) (.of main_arg0) (.of main_c_0) main_call0
    = (StableHlo.seq (padA (F := F)) : Prog (TpuEff nD τ sig (Elt F) (ΛS (F := F)) .tc) PUnit) := by chain_rfl
theorem fn_pad_0_eq : fn_pad_0.body (F := F) (.of main_v16) (.of main_c_2) main_call1
    = (StableHlo.seq (padB (F := F)) : Prog (TpuEff nD τ sig (Elt F) (ΛS (F := F)) .tc) PUnit) := by chain_rfl

/-- @main: five stretches of host operations, the SparseCore call, the TensorCore call. -/
theorem main_eq (d : Dev nD) : main (F := F) d
    = Pipeline.chain [ (StableHlo.seq (opsA (F := F)) : Prog (TpuEff nD τ sig (Elt F) (ΛS (F := F)) .tc) PUnit),
        fn_pad.body (F := F) (.of main_arg0) (.of main_c_0) main_call0,
        StableHlo.seq (opsB (F := F)),
        fn_pad_0.body (F := F) (.of main_v16) (.of main_c_2) main_call1,
        StableHlo.seq (opsC (F := F)),
        sc.run d 0,
        Prog.lift (.customCall (SparseCore.inner (Pipeline.entry 0)) ()) ] := by chain_rfl

end Cert.Proof.KW

end
-- ==== Proof.TcOutW.lean ====
/-
  What the dense head computes, as pure functions of arrays (any float instance).

  One block: from 256 rows of the counts, the whole table, 256 rows of the dense features, the thirteen dense
  weights and the bias, the 256 outputs. The whole array: row b of the result is row b mod 256 of the block
  computed from rows 256 (b / 256) … 256 (b / 256) + 255 of the counts and of the dense features.
-/
import proofs.«205260_g26156350832969_cont_9to1_3_23_alg».proof.Proof.Gen.Kernel.Skeleton
import Idealize.ShloMosaic.Lib.ValueIdx

noncomputable section

namespace Cert.Proof.KW

open Cert.Kernel Cert.Kernel.Gen
open Idealize.ShloMosaic
open Idealize.ShloMosaic.ValueIdx (ix2)

variable {F : FTy → Type} [FloatOps F]

/-- The 256 outputs of one block. -/
def tcBlock (c : FVec F S256x2688 .f32) (t : FVec F S2688x64 .f32) (dn : FVec F S256x13 .f32) (wd : FVec F S13x1 .f32)
    (bs : FVec F S1x1 .f32) : FVec F S256x1 .f32 :=
  k1_pay1 (F := F) c t dn wd bs

/-- Rows 256 t … 256 t + 255 of the counts. -/
def cntBlock (cnt : FVec F S1024x2688 .f32) (t : Fin 4) : FVec F S256x2688 .f32 :=
  fun j => cnt (ix2 (⟨256 * t.val + (j 0).val, by have h : (j 0).val < 256 := (j 0).isLt; have := t.isLt; omega⟩ : Fin 1024)
    (⟨(j 1).val, (j 1).isLt⟩ : Fin 2688))

/-- Rows 256 t … 256 t + 255 of the dense features. -/
def denseBlock (dense : FVec F S1024x13 .f32) (t : Fin 4) : FVec F S256x13 .f32 :=
  fun j => dense (ix2 (⟨256 * t.val + (j 0).val, by have h : (j 0).val < 256 := (j 0).isLt; have := t.isLt; omega⟩ : Fin 1024)
    (⟨(j 1).val, (j 1).isLt⟩ : Fin 13))

/-- The block a row lies in, and its place there. -/
def blockOfRow (b : Fin 1024) : Fin 4 := ⟨b.val / 256, by have := b.isLt; omega⟩
def rowInBlock (b : Fin 1024) : Fin 256 := ⟨b.val % 256, Nat.mod_lt _ (by decide)⟩

/-- The whole result. -/
def tcOut (cnt : FVec F S1024x2688 .f32) (tbl : FVec F S2688x64 .f32) (dense : FVec F S1024x13 .f32) (wd : FVec F S13x1 .f32)
    (bs : FVec F S1x1 .f32) : FVec F S1024x1 .f32 :=
  fun i => tcBlock (cntBlock cnt (blockOfRow ⟨(i 0).val, (i 0).isLt⟩)) tbl (denseBlock dense (blockOfRow ⟨(i 0).val, (i 0).isLt⟩)) wd bs
    (ix2 (rowInBlock ⟨(i 0).val, (i 0).isLt⟩) (0 : Fin 1))

end Cert.Proof.KW

end
-- ==== Proof.TcBlockCW.lean ====
/-
  The block's outputs as the one whole-buffer store of the kernel function leaves them, and that this is `tcBlock`.
-/
import proofs.«205260_g26156350832969_cont_9to1_3_23_alg».proof.Proof.TcOutW
import proofs.«205260_g26156350832969_cont_9to1_3_23_alg».proof.Proof.Gen.Kernel
import Idealize.ShloMosaic.Lib.Pipeline.FrameBody
import Idealize.ShloMosaic.Lib.Pipeline.Value

noncomputable section

namespace Cert.Proof.KW

open Cert.Kernel Cert.Kernel.Gen
open Idealize.ShloMosaic

variable {F : FTy → Type} [FloatOps F]

theorem zeros2 : (![0, 0] : Fin 2 → Nat) = fun _ => 0 := by
  funext a; match a with | ⟨0, _⟩ => rfl | ⟨1, _⟩ => rfl

/-- The kernel function's accesses: each buffer whole. -/
abbrev rc : Rect S256x2688 := Rect.unit (s := S256x2688) ![0, 0] S256x2688.size inb_S256x2688_S256x2688_0_0
abbrev rt : Rect S2688x64 := Rect.unit (s := S2688x64) ![0, 0] S2688x64.size inb_S2688x64_S2688x64_0_0
abbrev rd : Rect S256x13 := Rect.unit (s := S256x13) ![0, 0] S256x13.size inb_S256x13_S256x13_0_0
abbrev rw' : Rect S13x1 := Rect.unit (s := S13x1) ![0, 0] S13x1.size inb_S13x1_S13x1_0_0
abbrev rb : Rect S1x1 := Rect.unit (s := S1x1) ![0, 0] S1x1.size inb_S1x1_S1x1_0_0
abbrev ro : Rect S256x1 := Rect.unit (s := S256x1) ![0, 0] S256x1.size inb_S256x1_S256x1_0_0

/-- The output buffer after the body: its one store, over the loaded inputs. -/
def tcBlockC (x1 : Vec F S256x2688 .f32) (x2 : Vec F S2688x64 .f32) (x3 : Vec F S256x13 .f32) (x4 : Vec F S13x1 .f32) (x5 : Vec F S1x1 .f32) :
    Vec F S256x1 .f32 :=
  View.canon [⟨ro, k1_pay1 (F := F) (View.ld x1 rc) (View.ld x2 rt) (View.ld x3 rd) (View.ld x4 rw') (View.ld x5 rb)⟩]

/-- The store covers the buffer. -/
theorem cover_out (p0 : Vec F S256x1 .f32) (y : S256x1.Idx) :
    ∃ pc ∈ ([⟨ro, p0⟩] : List (View.Piece (Elt F) S256x1 .f32)), y ∈ pc.1.set :=
  ⟨⟨ro, p0⟩, List.mem_singleton_self _, View.mem_set_unit_zero (S := S256x1) zeros2 inb_S256x1_S256x1_0_0 y⟩

theorem tcBlockC_eq (x1 : Vec F S256x2688 .f32) (x2 : Vec F S2688x64 .f32) (x3 : Vec F S256x13 .f32) (x4 : Vec F S13x1 .f32) (x5 : Vec F S1x1 .f32) :
    tcBlockC x1 x2 x3 x4 x5 = tcBlock (F := F) x1 x2 x3 x4 x5 := by
  unfold tcBlockC tcBlock
  rw [View.canon_unit_zero (S := S256x1) zeros2 inb_S256x1_S256x1_0_0,
    View.ld_unit_zero (S := S256x2688) zeros2 inb_S256x2688_S256x2688_0_0,
    View.ld_unit_zero (S := S2688x64) zeros2 inb_S2688x64_S2688x64_0_0,
    View.ld_unit_zero (S := S256x13) zeros2 inb_S256x13_S256x13_0_0,
    View.ld_unit_zero (S := S13x1) zeros2 inb_S13x1_S13x1_0_0,
    View.ld_unit_zero (S := S1x1) zeros2 inb_S1x1_S1x1_0_0]

end Cert.Proof.KW

end
-- ==== Proof.TcBodyW.lean ====
/-
  The dense head's kernel function, run once on whole staging buffers: the five inputs are read and left as they
  were, the output buffer is left at the block's 256 outputs.
-/
import proofs.«205260_g26156350832969_cont_9to1_3_23_alg».proof.Proof.ScIfaceW
import proofs.«205260_g26156350832969_cont_9to1_3_23_alg».proof.Proof.TcBlockCW
import Idealize.ShloMosaic.Lib.Pipeline.FrameBody
import Idealize.ShloMosaic.Lib.Pipeline.Value
import Idealize.ShloMosaic.Lib.Tactic

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic

variable [FloatOps F]

set_option maxHeartbeats 1000000 in
/-- The kernel function on whole staging memrefs: the inputs' at read contents and the output's at anything run to the
    continuation holding the inputs' as they were and the output's at its one store's payload over the inputs'. -/
theorem tc_kernel (c : Dev nD) (E : Set ℕ) (i : grid1.Coords)
    (arg1 : Memref sig .tc .vmem S256x2688 .f32) (harg1 : arg1.IsWhole) (arg2 : Memref sig .tc .vmem S2688x64 .f32) (harg2 : arg2.IsWhole)
    (arg3 : Memref sig .tc .vmem S256x13 .f32) (harg3 : arg3.IsWhole) (arg4 : Memref sig .tc .vmem S13x1 .f32) (harg4 : arg4.IsWhole)
    (arg5 : Memref sig .tc .vmem S1x1 .f32) (harg5 : arg5.IsWhole) (arg6 : Memref sig .tc .vmem S256x1 .f32) (harg6 : arg6.IsWhole)
    (x1 : Vec F S256x2688 .f32) (x2 : Vec F S2688x64 .f32) (x3 : Vec F S256x13 .f32) (x4 : Vec F S13x1 .f32) (x5 : Vec F S1x1 .f32)
    (Q : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (tcBlockC (F := F) x1 x2 x3 x4 x5)) -∗ Q ⟨⟩))
      ⊢ wp frame (wpE (defs₀ (F := F)) Variants.none c none) E
          (cc1__tc_fm_body i arg1 harg1 arg2 harg2 arg3 harg3 arg4 harg4 arg5 harg5 arg6 harg6) Q := by
  simp only [cc1__tc_fm_body_eq_skeleton]; unfold cc1__tc_fm_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

end Cert.Proof.KW

end
-- ==== Proof.RegionW.lean ====
/-
  The dense head's call as a region of @main: the proof data of its pipeline over the TensorCore's buffers as the
  region finds them, the body obligation at a symbolic grid point, and the region's record.
-/
import proofs.«205260_g26156350832969_cont_9to1_3_23_alg».proof.Proof.HostOpsW
import proofs.«205260_g26156350832969_cont_9to1_3_23_alg».proof.Proof.TcBodyW
import proofs.«205260_g26156350832969_cont_9to1_3_23_alg».proof.Proof.Gen.Kernel.Launch
import proofs.«205260_g26156350832969_cont_9to1_3_23_alg».proof.Proof.Gen.Kernel.Points
import Idealize.ShloMosaic.Lib.Pipeline.Regions
import Idealize.ShloMosaic.Lib.Pipeline.FrameBody

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)

variable [FloatOps F]

/-! ## The pipeline's place in the algebra -/

/-- The pipeline library's rounds are the middle component. -/
abbrev EP : Emb (UR sig nD τ) (MT nD τ sig (HIx 1) (Elt F) ℕ UU ℕ) := (Emb.inl : Emb UP (UP × Counters)).trans embR

instance EP_landsIn : (EP : Emb (UR sig nD τ) 𝕄).LandsIn (upEmb : UEmb _ 𝕄) := by unfold EP; infer_instance

/-- No prefetched table. -/
abbrev adm : (p : Fin 1) → (pcfgs (F := F) p).Adm := fun p => (cfgs p).toPCfg_adm

/-- The handshakes' levels: what the region's obligations are handed. -/
abbrev LL : GSem nD τ sig → Finset (HIx 1) := (K (F := F)).L
abbrev lvv : GSem nD τ sig → HIx 1 → ℕ := (K (F := F)).lev

/-! ## The buffers as the region finds them -/

variable (VR : Dev nD → Valuation τ sig (Elt F))

/-- The TensorCore's buffers on device `c`, by reference. -/
abbrev Vb (c : Dev nD) (b : Ref sig .tc) : Buf (Elt F) ((c : Thread nD τ).loc b) := VR c (Proc.devRef .tc b)

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (Vb VR c (Pipeline.arrRef spec1 w))

/-- The proof data on device `c`: the arrays as found; after the body each input's buffer at its block and the output's
    at the block's 256 outputs; between points the scoped buffers no window stages; nothing owed, and every wait the core has recorded or records below the launch's later levels; full shares. -/
def dats (_ : Fin 1) (c : Dev nD) : Dat τ (Elt F) (HIx 1) ℕ UU ℕ cfg1 c where
  A w := Vb VR c (Pipeline.arrRef spec1 w)
  after w t := match w with
    | ⟨0, _⟩ => iblk VR c 0 t
    | ⟨1, _⟩ => iblk VR c 1 t
    | ⟨2, _⟩ => iblk VR c 2 t
    | ⟨3, _⟩ => iblk VR c 3 t
    | ⟨4, _⟩ => iblk VR c 4 t
    | ⟨5, _⟩ => tcBlock (F := F) (iblk VR c 0 t) (iblk VR c 1 t) (iblk VR c 2 t) (iblk VR c 3 t) (iblk VR c 4 t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ 8}

theorem A_eq (c : Dev nD) (w : Fin cfg1.W) : (dats VR 0 c).A w = Vb VR c (Pipeline.arrRef spec1 w) := by
  dsimp only [dats]

theorem after1_0 (c : Dev nD) (t : Fin cfg1.N) : (dats VR 0 c).after 0 t = iblk VR c 0 t := by dsimp only [dats]
theorem after1_1 (c : Dev nD) (t : Fin cfg1.N) : (dats VR 0 c).after 1 t = iblk VR c 1 t := by dsimp only [dats]
theorem after1_2 (c : Dev nD) (t : Fin cfg1.N) : (dats VR 0 c).after 2 t = iblk VR c 2 t := by dsimp only [dats]
theorem after1_3 (c : Dev nD) (t : Fin cfg1.N) : (dats VR 0 c).after 3 t = iblk VR c 3 t := by dsimp only [dats]
theorem after1_4 (c : Dev nD) (t : Fin cfg1.N) : (dats VR 0 c).after 4 t = iblk VR c 4 t := by dsimp only [dats]
theorem after1_5 (c : Dev nD) (t : Fin cfg1.N) :
    (dats VR 0 c).after 5 t = tcBlock (F := F) (iblk VR c 0 t) (iblk VR c 1 t) (iblk VR c 2 t) (iblk VR c 3 t) (iblk VR c 4 t) := by
  dsimp only [dats]

/-! Each input's staging buffer holds its block when the body runs, fetched at that point or not. -/
theorem before1_0 (c : Dev nD) (t : Fin cfg1.N) (d) : (dats VR 0 c).before 0 t d = iblk VR c 0 t :=
  ((dats VR 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dats VR 0 c).before 1 t d = iblk VR c 1 t :=
  ((dats VR 0 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dats VR 0 c).before 2 t d = iblk VR c 2 t :=
  ((dats VR 0 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dats VR 0 c).before 3 t d = iblk VR c 3 t :=
  ((dats VR 0 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dats VR 0 c).before 4 t d = iblk VR c 4 t :=
  ((dats VR 0 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)

/-! ## The body at a symbolic point -/

theorem sound_body (c : Dev nD) (t : Fin cfg1.N) :
    iprop((dats VR 0 c).Φ t.castSucc ∗ (dats VR 0 c).owesAt (none : HIx 1) t.castSucc
      ∗ (∃ d, owns (c : Thread nD τ) (st1_0 t) fullShare ((dats VR 0 c).before 0 t d))
      ∗ (∃ d, owns (c : Thread nD τ) (st1_1 t) fullShare ((dats VR 0 c).before 1 t d))
      ∗ (∃ d, owns (c : Thread nD τ) (st1_2 t) fullShare ((dats VR 0 c).before 2 t d))
      ∗ (∃ d, owns (c : Thread nD τ) (st1_3 t) fullShare ((dats VR 0 c).before 3 t d))
      ∗ (∃ d, owns (c : Thread nD τ) (st1_4 t) fullShare ((dats VR 0 c).before 4 t d))
      ∗ (∃ d, owns (c : Thread nD τ) (st1_5 t) fullShare ((dats VR 0 c).before 5 t d)))
    ⊢ wp frame (wpE (defs₀ (F := F)) Variants.none c none) Set.univ (bodyAt1 t) (fun _ =>
        iprop((dats VR 0 c).Φ t.succ ∗ (dats VR 0 c).owesAt (none : HIx 1) t.succ
          ∗ owns (c : Thread nD τ) (st1_0 t) fullShare ((dats VR 0 c).after 0 t)
          ∗ owns (c : Thread nD τ) (st1_1 t) fullShare ((dats VR 0 c).after 1 t)
          ∗ owns (c : Thread nD τ) (st1_2 t) fullShare ((dats VR 0 c).after 2 t)
          ∗ owns (c : Thread nD τ) (st1_3 t) fullShare ((dats VR 0 c).after 3 t)
          ∗ owns (c : Thread nD τ) (st1_4 t) fullShare ((dats VR 0 c).after 4 t)
          ∗ owns (c : Thread nD τ) (st1_5 t) fullShare ((dats VR 0 c).after 5 t))) := by
  unfold bodyAt1
  simp only [before1_0, before1_1, before1_2, before1_3, before1_4]
  rw [show (dats VR 0 c).Φ t.succ = (dats VR 0 c).Φ t.castSucc from rfl,
    show (dats VR 0 c).owesAt (none : HIx 1) t.succ = (dats VR 0 c).owesAt (none : HIx 1) t.castSucc from rfl,
    after1_0, after1_1, after1_2, after1_3, after1_4, after1_5, ← tcBlockC_eq]
  iintro ⟨HΦ, Ho, ⟨%d0, H0⟩, ⟨%d1, H1⟩, ⟨%d2, H2⟩, ⟨%d3, H3⟩, ⟨%d4, H4⟩, ⟨%d5, H5⟩⟩
  iapply (tc_kernel c Set.univ _ _ _ _ _ _ _ _ _ _ _ _ _ (iblk VR c 0 t) (iblk VR c 1 t) (iblk VR c 2 t) (iblk VR c 3 t) (iblk VR c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats VR 0 c) (defs₀ (F := F)) Variants.none (none : HIx 1) Set.univ := fun t => by
  rw [bigSep_W1, bigSep_W1]
  exact sound_body VR c t

end Cert.Proof.KW

end
-- ==== Proof.RegionSegW.lean ====
/-
  The dense head's call entered from @main: the region's record over the thread state before and after it, and the
  call itself run through it.
-/
import proofs.«205260_g26156350832969_cont_9to1_3_23_alg».proof.Proof.RegionW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held)

variable [FloatOps F]

/-! ## The TensorCore's unscoped buffers as a held set -/

/-- The TensorCore's unscoped references, as device buffers. -/
def ucRefs : Finset (DevRef τ sig) := (StableHlo.tcRefs τ sig).filter fun b => ¬ b.isScoped

omit [FloatOps F] in
/-- The unscoped buffers at a valuation are that set held at it. -/
theorem unscopedBufs_held (c : Dev nD) (W : Valuation τ sig (Elt F)) :
    (unscopedBufs c (fun b => W (Proc.devRef .tc b)) : sProp 𝕄) = held (c : Thread nD τ) ucRefs W := by
  unfold unscopedBufs held ucRefs StableHlo.tcRefs
  rw [Finset.filter_map, bigSep_map]
  rfl

/-- The core owes nothing, and every wait it has recorded lies below the launch's later levels: what rides beside the buffers. -/
abbrev owesNone (c : Dev nD) : sProp 𝕄 :=
  iprop(∃ W, ⌜(K (F := F)).WBelow (c : Thread nD τ) W 8⌝ ∗ owes (c : Thread nD τ) (0 : CellTallies nD τ sig (HIx 1)) W)

variable (VR : Dev nD → Valuation τ sig (Elt F))

/-- What the region leaves: its arrays at their final contents, every other unscoped buffer as found. -/
abbrev afterRegion (c : Dev nD) : sProp 𝕄 :=
  iprop((dats VR 0 c).arrays ((dats VR 0 c).arrAt · cfg1.N)
    ∗ Pipeline.unscopedRest (Ix := HIx 1) (Name := ℕ) (U := UU) (Lvl := ℕ) spec1 c (Vb VR c))

omit [FloatOps F] in
theorem ownSems0_none (c : Dev nD) :
    (Pipeline.ownSems0 (Ix := HIx 1) (Name := ℕ) (U := UU) (Lvl := ℕ) (Val := Elt F) (τ := τ) (fun k : Fin 0 => k.elim0) c : sProp 𝕄) = iprop(emp) := by
  unfold Pipeline.ownSems0
  rw [show (Finset.univ : Finset (Fin 0)) = ∅ from rfl, BI.bigSep_empty]
  rfl

omit [FloatOps F] in
/-- The kernel has no semaphore of its own. -/
theorem ownSemFacts : Pipeline.OwnSemFacts spec1 (fun k : Fin 0 => k.elim0) := by decide

set_option backward.isDefEq.respectTransparency.types false in
/-- THE REGION: entered from the unscoped buffers held at `VR` and nothing owed; left with the pipeline's arrays at
    their final contents, the rest as found, nothing owed. -/
def reg : Pipeline.RegionSeg (pcfgs (F := F)) adm (dats VR) (none : HIx 1) defs₀ Variants.none (LL (F := F)) (lvv (F := F)) 0 where
  win := launch1.win.to₀
  block_pos := launch1.block_pos
  stage_whole := launch1.stage_whole
  K := Fin 0
  osem := fun k => k.elim0
  ho := ownSemFacts
  hbody c := (body_obligation VR c).loose
  hwaits := Pipeline.hwaits_of_owed_zero _ _ _ _ (LL (F := F)) (lvv (F := F)) 0 fun _ _ => rfl
  pre c := iprop(held (c : Thread nD τ) ucRefs (VR c) ∗ owesNone c)
  post c := iprop(afterRegion VR c ∗ owesNone c)
  X _ := iprop(emp)
  Y _ := iprop(emp)
  Z c := Pipeline.unscopedRest (Ix := HIx 1) (Name := ℕ) (U := UU) (Lvl := ℕ) spec1 c (Vb VR c)
  hentry c := by
    rw [← unscopedBufs_held c (VR c)]
    have hsplit := Pipeline.arrays_of_unscopedBufs (pcfgs (F := F)) adm (dats VR) launch1.win launch1.arr_whole c
      ((dats VR 0 c).share_full fun _ => rfl) (Vb VR c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p (Finset.mem_coe.mp hp))
      iexact HO
    isplitr; · iempintro
    iexact Hrest
  hin c := by
    rw [show (dats VR 0 c).Φ 0 = Pipeline.scopedRest (Ix := HIx 1) (Name := ℕ) (U := UU) (Lvl := ℕ) (Val := Elt F) spec1 c from rfl]
    iintro ⟨-, -, Hr⟩; iexact Hr
  hout c := by
    rw [ownSems0_none, show (dats VR 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    iintro ⟨Ha, HO, -, HZ⟩
    imodintro
    isplitr [HO]
    · isplitl [Ha]; · iexact Ha
      iexact HZ
    · unfold Pipeline.Dat.owesAt Pipeline.owesWithin
      icases HO with ⟨%W, %hW, HO⟩; iexists W; isplitr
      · ipureintro; intro p hp
        rcases hW (Finset.mem_coe.mpr hp) with h | ⟨w, s, rfl⟩
        · exact h
        · exact (by rw [SparseCore.Cfg.lev_none]; exact Nat.zero_le _)
      iexact HO

theorem reg_pre (c : Dev nD) : (reg VR).pre c = iprop(held (c : Thread nD τ) ucRefs (VR c) ∗ owesNone c) := rfl
theorem reg_post (c : Dev nD) : (reg VR).post c = iprop(afterRegion VR c ∗ owesNone c) := rfl

/-- What the launch funds the pipeline's staging cells from, on device `c`. -/
abbrev pipeGhost (c : Dev nD) : sProp 𝕄 :=
  iprop(Pipeline.cellsGhost (Pipeline.pin (pcfgs (F := F)) adm) (EP (F := F)) 0 c ∗ Pipeline.toksInit (Pipeline.pin (pcfgs (F := F)) adm) (EP (F := F)) 0 c)

set_option backward.isDefEq.respectTransparency.types false in
/-- The call, in the certificate's own body table: from the boundary, the buffers held at `VR`, nothing owed, the level
    facts and the staging cells' ghost state, to the boundary and what the region leaves. -/
theorem wp_region (c : Dev nD) (Q : PUnit → sProp 𝕄) :
    iprop((iprop(boundary (c : Thread nD τ) ∗ afterRegion VR c ∗ owesNone c) -∗ Q ⟨⟩)
        ∗ boundary (c : Thread nD τ) ∗ (held (c : Thread nD τ) ucRefs (VR c) ∗ owesNone c) ∗ levAts (LL (F := F)) (lvv (F := F)) ∗ pipeGhost c)
      ⊢ wp frame (wpE (D (F := F)) 𝒱 (c : Thread nD τ) none) Set.univ
          (.op (.customCall (Pipeline.entry 0) ()) fun _ => .ret ⟨⟩) Q := by
  have h := Pipeline.RegionSeg.wp (pcfgs (F := F)) adm (dats VR) (none : HIx 1) cellOf_inj (EP (F := F)) defs₀ Variants.none
    (LL (F := F)) (lvv (F := F)) (reg VR) c none (fun _ hu => nomatch hu) (fun _ => .ret ⟨⟩) Q
  rw [reg_pre, reg_post] at h
  iintro ⟨Hk, Hb, Hpre, Hlv, Hg1, Hg2⟩
  iapply h
  isplitl [Hk]
  · iintro Hpost
    rw [wp_ret]; imodintro
    iapply Hk; iexact Hpost
  isplitl [Hb]; · iexact Hb
  isplitl [Hpre]; · iexact Hpre
  isplitl [Hlv]; · iexact Hlv
  isplitl [Hg1]; · iexact Hg1
  iexact Hg2

end Cert.Proof.KW

end
-- ==== Proof.TileOblW.lean ====
/-
  The launch theorem's two obligations for the vector-subcore call: one tile's task, from the statement of the
  task at grid coordinates, and the split of a SparseCore's operands among its sixteen tiles (the identity: a
  SparseCore's share is spelt as its tiles' shares).
-/
import proofs.«205260_g26156350832969_cont_9to1_3_23_alg».proof.Proof.ScIfaceW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (XP : (d : Dev nD) → Buf (Elt F) (xpLoc d))

/-! ## The payloads, field by field -/

theorem P_go (d : Dev nD) (c : Fin ((K (F := F)).nCore 0)) (i : Fin ((K (F := F)).nSub 0)) :
    (P XP).go 0 d c i = goP XP d (Fin.cast nCore_zero c) (Fin.cast nSub_zero i) := rfl
theorem P_td (d : Dev nD) (c : Fin ((K (F := F)).nCore 0)) (i : Fin ((K (F := F)).nSub 0)) :
    (P XP).td 0 d c i = tdP XP d (Fin.cast nCore_zero c) (Fin.cast nSub_zero i) := rfl
theorem P_st (d : Dev nD) (c : Fin ((K (F := F)).nCore 0)) :
    (P XP).st 0 d c = bigSep Finset.univ fun i : Fin 16 => goP XP d (Fin.cast nCore_zero c) i := rfl
theorem P_dn (d : Dev nD) (c : Fin ((K (F := F)).nCore 0)) :
    (P XP).dn 0 d c = bigSep Finset.univ fun i : Fin 16 => tdP XP d (Fin.cast nCore_zero c) i := rfl
theorem P_x (thr : Thread nD τ) : (P XP).x 0 thr = iprop(emp) := rfl

instance P_storable : (P (F := F) XP).IsStorable where
  st q d c := match q with | 0 => by rw [P_st]; unfold goP; infer_instance
  dn q d c := match q with | 0 => by rw [P_dn]; unfold tdP; infer_instance
  go q d c i := match q with | 0 => by rw [P_go]; unfold goP; infer_instance
  td q d c i := match q with | 0 => by rw [P_td]; unfold tdP; infer_instance

/-! ## One tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => bodyAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation of call 0 from the statement of one tile's task. -/
theorem tileObl (htile : TileStmt XP) : (K (F := F)).TileObl (D (F := F)) 𝒱 (P XP) v₀ 0 := by
  intro d c i O W hO _ _
  -- the kernel owes nothing for a protocol of its own
  simp only [show (P XP).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x, P_go, P_td]
  unfold goP tdP
  exact (htile d (coordsV ⟨_, hc.1⟩ ⟨_, hc.2⟩) O W hO).trans (wp_mono frame _ _ fun _ => obl_post)

/-! ## A SparseCore's operands among its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P XP) 0 := by
  intro d c
  rw [P_st, P_dn]
  simp only [P_go, P_td]
  rw [bigSep_tasks (F := F) (fun i => goP XP d (Fin.cast nCore_zero c) i), bigSep_tasks (F := F) (fun i => tdP XP d (Fin.cast nCore_zero c) i)]
  iintro H; imodintro
  isplitl [H]; · iexact H
  iintro H; iexact H

end Cert.Proof.KW

end
-- ==== Proof.ScCallW.lean ====
/-
  The SparseCore call's operands: the packed array and the counts array, whole, are the thirty-two tiles' rows; so
  the TensorCore hands both arrays over whole and gets them back whole, the counts at the histogram.
-/
import proofs.«205260_g26156350832969_cont_9to1_3_23_alg».proof.Proof.TileOblW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F]
variable (XP : (d : Dev nD) → Buf (Elt F) (xpLoc d))

omit [FloatOps F] in
theorem wid_inj (t t' : Fin 2 × Fin 16) (h : wid t.1 t.2 = wid t'.1 t'.2) : t = t' := by
  have hv : 2 * t.2.val + t.1.val = 2 * t'.2.val + t'.1.val := congrArg Fin.val h
  have h1 := t.1.isLt; have h2 := t'.1.isLt
  exact Prod.ext (Fin.ext (by omega)) (Fin.ext (by omega))

omit [FloatOps F] in
theorem xpRows_disjoint : ∀ t ∈ (Finset.univ : Finset (Fin 2 × Fin 16)), ∀ t' ∈ (Finset.univ : Finset (Fin 2 × Fin 16)), t ≠ t' →
    Disjoint (xpRows (wid t.1 t.2)) (xpRows (wid t'.1 t'.2)) := by
  intro t _ t' _ hne
  refine Finset.disjoint_left.mpr fun j h1 h2 => hne (wid_inj t t' ?_)
  have e1 := (Finset.mem_filter.mp h1).2
  have e2 := (Finset.mem_filter.mp h2).2
  exact Fin.ext (e1.symm.trans e2)

omit [FloatOps F] in
theorem xpRows_cover : (Finset.univ : Finset (Fin 2 × Fin 16)).biUnion (fun t => xpRows (wid t.1 t.2)) = Finset.univ := by
  refine Finset.eq_univ_of_forall fun j => Finset.mem_biUnion.mpr ?_
  have hj : (j 0).val < 1024 := (j 0).isLt
  refine ⟨(⟨((j 0).val / 32) % 2, Nat.mod_lt _ (by decide)⟩, ⟨((j 0).val / 32) / 2, by omega⟩), Finset.mem_univ _, ?_⟩
  refine Finset.mem_filter.mpr ⟨Finset.mem_univ _, ?_⟩
  show (j 0).val / 32 = 2 * (((j 0).val / 32) / 2) + ((j 0).val / 32) % 2
  omega

omit [FloatOps F] in
/-- The array whole is its thirty-two tiles' rows. -/
theorem xp_tiles (d : Dev nD) (f : Buf (Elt F) (xpLoc d)) :
    (xpLoc d ↦{fullShare} f : sProp 𝕄) = bigSep Finset.univ fun t : Fin 2 × Fin 16 => xpLoc d ↦[xpRows (wid t.1 t.2)]{fullShare} f := by
  rw [← pointsTo_biUnion Finset.univ (ℓ := xpLoc d) (fun t : Fin 2 × Fin 16 => xpRows (wid t.1 t.2)) xpRows_disjoint, xpRows_cover]; try rfl

omit [FloatOps F] in
theorem cntRows_disjoint : ∀ t ∈ (Finset.univ : Finset (Fin 2 × Fin 16)), ∀ t' ∈ (Finset.univ : Finset (Fin 2 × Fin 16)), t ≠ t' →
    Disjoint (cntRows (wid t.1 t.2)) (cntRows (wid t'.1 t'.2)) := by
  intro t _ t' _ hne
  refine Finset.disjoint_left.mpr fun j h1 h2 => hne (wid_inj t t' ?_)
  have e1 := (Finset.mem_filter.mp h1).2
  have e2 := (Finset.mem_filter.mp h2).2
  exact Fin.ext (e1.symm.trans e2)

omit [FloatOps F] in
theorem cntRows_cover : (Finset.univ : Finset (Fin 2 × Fin 16)).biUnion (fun t => cntRows (wid t.1 t.2)) = Finset.univ := by
  refine Finset.eq_univ_of_forall fun j => Finset.mem_biUnion.mpr ?_
  have hj : (j 0).val < 1024 := (j 0).isLt
  refine ⟨(⟨((j 0).val / 32) % 2, Nat.mod_lt _ (by decide)⟩, ⟨((j 0).val / 32) / 2, by omega⟩), Finset.mem_univ _, ?_⟩
  refine Finset.mem_filter.mpr ⟨Finset.mem_univ _, ?_⟩
  show (j 0).val / 32 = 2 * (((j 0).val / 32) / 2) + ((j 0).val / 32) % 2
  omega

omit [FloatOps F] in
/-- The array whole is its thirty-two tiles' rows. -/
theorem cnt_tiles (d : Dev nD) (f : Buf (Elt F) (cntLoc d)) :
    (cntLoc d ↦{fullShare} f : sProp 𝕄) = bigSep Finset.univ fun t : Fin 2 × Fin 16 => cntLoc d ↦[cntRows (wid t.1 t.2)]{fullShare} f := by
  rw [← pointsTo_biUnion Finset.univ (ℓ := cntLoc d) (fun t : Fin 2 × Fin 16 => cntRows (wid t.1 t.2)) cntRows_disjoint, cntRows_cover]; try rfl

omit [FloatOps F] in
/-- Over the call's grid of SparseCores is over the two of them. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem go_of (d : Dev nD) (t : Fin 2 × Fin 16) (f₀ : Buf (Elt F) (cntLoc d)) :
    iprop((xpLoc d ↦[xpRows (wid t.1 t.2)]{fullShare} XP d) ∗ cntLoc d ↦[cntRows (wid t.1 t.2)]{fullShare} f₀)
      ⊢ (goP XP d t.1 t.2 : sProp 𝕄) := by
  unfold goP
  iintro ⟨Hx, Hc⟩
  isplitl [Hx]; · iexact Hx
  iexists f₀; iexact Hc

theorem td_to (d : Dev nD) (t : Fin 2 × Fin 16) :
    (tdP XP d t.1 t.2 : sProp 𝕄)
      ⊢ iprop((xpLoc d ↦[xpRows (wid t.1 t.2)]{fullShare} XP d) ∗ cntLoc d ↦[cntRows (wid t.1 t.2)]{fullShare} Cert.Proof.ScSpec.counts (F := F) (XP d)) := by
  unfold tdP
  exact BI.Entails.refl _

/-- Both arrays whole are what the call takes for its SparseCores. -/
theorem st_intro (d : Dev nD) (f₀ : Buf (Elt F) (cntLoc d)) :
    iprop((xpLoc d ↦{fullShare} XP d) ∗ (cntLoc d ↦{fullShare} f₀))
      ⊢ (bigSep Finset.univ fun c : Fin ((K (F := F)).nCore 0) => (P XP).st 0 d c : sProp 𝕄) := by
  simp only [P_st]
  rw [bigSep_cores (F := F) (fun c => bigSep Finset.univ fun i : Fin 16 => goP XP d c i),
    ← bigSep_univ_prod (fun t : Fin 2 × Fin 16 => goP XP d t.1 t.2), xp_tiles, cnt_tiles, ← bigSep_sep']
  exact bigSep_mono fun t _ => go_of XP d t f₀

/-- What the call hands back is both arrays whole, the counts at the histogram. -/
theorem dn_elim (d : Dev nD) :
    (bigSep Finset.univ fun c : Fin ((K (F := F)).nCore 0) => (P XP).dn 0 d c : sProp 𝕄)
      ⊢ iprop((xpLoc d ↦{fullShare} XP d) ∗ (cntLoc d ↦{fullShare} Cert.Proof.ScSpec.counts (F := F) (XP d))) := by
  simp only [P_dn]
  rw [bigSep_cores (F := F) (fun c => bigSep Finset.univ fun i : Fin 16 => tdP XP d c i),
    ← bigSep_univ_prod (fun t : Fin 2 × Fin 16 => tdP XP d t.1 t.2), xp_tiles, cnt_tiles, ← bigSep_sep']
  exact bigSep_mono fun t _ => td_to XP d t

end Cert.Proof.KW

end
-- ==== Proof.LaunchW.lean ====
/-
  The launch of the whole thread family: @main on the TensorCore — its host operations, the SparseCore call handing
  the packed array and the counts array over whole and getting them back, the dense head's call as a region —, the
  launch element of the ghost state, how the final memory is read, and the run with every array named.
-/
import proofs.«205260_g26156350832969_cont_9to1_3_23_alg».proof.Proof.RegionSegW
import proofs.«205260_g26156350832969_cont_9to1_3_23_alg».proof.Proof.ScCallW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held held_sub_split held_congr)

variable [FloatOps F]

/-! ## The launch theorem's facts about the handshake semaphores -/

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations keep to the TensorCore's unscoped buffers -/

omit [FloatOps F] in
theorem sub_ucRefs (op : HloOp τ sig (Elt F)) (h : op.bufs ⊆ StableHlo.tcRefs τ sig) : op.bufs ⊆ ucRefs := by
  intro b hb
  refine Finset.mem_filter.mpr ⟨h hb, ?_⟩
  rw [op.no_scoped b hb]; exact Bool.false_ne_true

theorem opsA_sub : ∀ op ∈ opsA (F := F), op.bufs ⊆ ucRefs := fun op h =>
  sub_ucRefs op ((show ∀ op ∈ opsA (F := F), op.bufs ⊆ StableHlo.tcRefs τ sig from by unfold opsA; simp) op h)
theorem opsA_fresh : ∀ op ∈ opsA (F := F), op.fresh = ∅ :=
  List.forall_iff_forall_mem.mp (show (opsA (F := F)).Forall (fun op => op.fresh = ∅) from by unfold opsA; exact ⟨rfl, rfl⟩)
theorem padA_sub : ∀ op ∈ padA (F := F), op.bufs ⊆ ucRefs := fun op h =>
  sub_ucRefs op ((show ∀ op ∈ padA (F := F), op.bufs ⊆ StableHlo.tcRefs τ sig from by unfold padA; simp) op h)
theorem padA_fresh : ∀ op ∈ padA (F := F), op.fresh = ∅ :=
  List.forall_iff_forall_mem.mp (show (padA (F := F)).Forall (fun op => op.fresh = ∅) from by unfold padA; exact ⟨rfl, rfl⟩)
theorem opsB_sub : ∀ op ∈ opsB (F := F), op.bufs ⊆ ucRefs := fun op h =>
  sub_ucRefs op ((show ∀ op ∈ opsB (F := F), op.bufs ⊆ StableHlo.tcRefs τ sig from by unfold opsB; simp) op h)
theorem opsB_fresh : ∀ op ∈ opsB (F := F), op.fresh = ∅ :=
  List.forall_iff_forall_mem.mp (show (opsB (F := F)).Forall (fun op => op.fresh = ∅) from by unfold opsB; exact ⟨rfl, rfl, rfl, rfl, rfl, rfl, rfl, rfl, rfl, rfl, rfl, rfl, rfl, rfl, rfl, rfl, rfl, rfl, rfl⟩)
theorem padB_sub : ∀ op ∈ padB (F := F), op.bufs ⊆ ucRefs := fun op h =>
  sub_ucRefs op ((show ∀ op ∈ padB (F := F), op.bufs ⊆ StableHlo.tcRefs τ sig from by unfold padB; simp) op h)
theorem padB_fresh : ∀ op ∈ padB (F := F), op.fresh = ∅ :=
  List.forall_iff_forall_mem.mp (show (padB (F := F)).Forall (fun op => op.fresh = ∅) from by unfold padB; exact ⟨rfl, rfl⟩)
theorem opsC_sub : ∀ op ∈ opsC (F := F), op.bufs ⊆ ucRefs := fun op h =>
  sub_ucRefs op ((show ∀ op ∈ opsC (F := F), op.bufs ⊆ StableHlo.tcRefs τ sig from by unfold opsC; simp) op h)
theorem opsC_fresh : ∀ op ∈ opsC (F := F), op.fresh = ∅ :=
  List.forall_iff_forall_mem.mp (show (opsC (F := F)).Forall (fun op => op.fresh = ∅) from by unfold opsC; exact ⟨rfl, rfl⟩)

/-! ## The buffers' contents along @main -/

variable (m : (ℓ : Loc nD τ sig) → Buf (Elt F) ℓ) (ρ : Dev nD → PrngReg)

/-- At launch; -/
def V0 (d : Dev nD) : Valuation τ sig (Elt F) := fun b => m (d, b)
/-- after the host operations; -/
def Vh (d : Dev nD) : Valuation τ sig (Elt F) :=
  StableHlo.after opsC (StableHlo.after padB (StableHlo.after opsB (StableHlo.after padA (StableHlo.after opsA (V0 m d)))))

theorem Vh_def (d : Dev nD) :
    StableHlo.after opsC (StableHlo.after padB (StableHlo.after opsB (StableHlo.after padA (StableHlo.after opsA (V0 m d))))) = Vh m d := rfl

abbrev v8' : DevRef τ sig := Proc.devRef .tc (main_v8 : Ref sig .tc)
abbrev v20' : DevRef τ sig := Proc.devRef .tc (main_v20 : Ref sig .tc)

/-- The packed array the SparseCore call reads. -/
def XPof (d : Dev nD) : Buf (Elt F) (xpLoc d) := Vh m d v8'

/-- After the SparseCore call: the counts array at the histogram. -/
def V1 (d : Dev nD) : Valuation τ sig (Elt F) := Function.update (Vh m d) v20' (Cert.Proof.ScSpec.counts (F := F) (XPof m d))

omit [FloatOps F] in
theorem two_sub : ({v8', v20'} : Finset (DevRef τ sig)) ⊆ ucRefs := by
  intro b hb
  rcases Finset.mem_insert.mp hb with rfl | hb
  · exact Finset.mem_filter.mpr ⟨StableHlo.devRef_mem_tcRefs _, by decide⟩
  · rw [Finset.mem_singleton.mp hb]; exact Finset.mem_filter.mpr ⟨StableHlo.devRef_mem_tcRefs _, by decide⟩

omit [FloatOps F] in
theorem v8_ne_v20 : (v8' : DevRef τ sig) ≠ v20' := StableHlo.devRef_ne_of_ne (by decide)

omit [FloatOps F] in
/-- The held buffers with the call's two arrays apart. -/
theorem held_two (d : Dev nD) (W : Valuation τ sig (Elt F)) :
    (held (SparseCore.T d) ucRefs W : sProp 𝕄)
      = iprop(((xpLoc d ↦{fullShare} W v8') ∗ (cntLoc d ↦{fullShare} W v20')) ∗ held (SparseCore.T d) (ucRefs \ {v8', v20'}) W) := by
  rw [held_sub_split (SparseCore.T d) two_sub W]
  congr 1
  unfold held
  rw [SparseCore.bigSep_insert' (Finset.notMem_singleton.mpr v8_ne_v20), bigSep_singleton]

theorem held_rest_V1 (d : Dev nD) :
    (held (SparseCore.T d) (ucRefs \ {v8', v20'}) (V1 m d) : sProp 𝕄) = held (SparseCore.T d) (ucRefs \ {v8', v20'}) (Vh m d) :=
  held_congr (SparseCore.T d) fun b hb => Function.update_of_ne (fun e => (Finset.mem_sdiff.mp hb).2 (by rw [e]; simp)) _ _

theorem V1_v8 (d : Dev nD) : V1 m d v8' = XPof m d := Function.update_of_ne v8_ne_v20 _ _
theorem V1_v20 (d : Dev nD) : V1 m d v20' = Cert.Proof.ScSpec.counts (F := F) (XPof m d) := Function.update_self _ _ _

/-! ## The TensorCore's handshake state after the one call -/

/-- After the last call the TensorCore owes nothing. -/
theorem tcSt_one (d : Dev nD) : ∃ R : sProp 𝕄, ((K (F := F)).tcSt EH d 1 : sProp 𝕄) = iprop(owesNone d ∗ R) := by
  unfold SparseCore.Cfg.tcSt
  rw [(K (F := F)).Otc_end d (le_refl _)]
  exact ⟨_, rfl⟩

/-! ## @main on the TensorCore -/

/-- What @main leaves the claim: the dense head's arrays at their final contents, every other unscoped buffer as the
    region found it. -/
abbrev FIN (d : Dev nD) : sProp 𝕄 := afterRegion (V1 m) d

/-- The dense head's call in @main is the call of the certificate's own body table, lifted. -/
theorem region_prog :
    (Prog.lift (.customCall (SparseCore.inner (Pipeline.entry 0)) ()) >>= fun _ => pure ⟨⟩ : Prog (TpuEff nD τ sig (Elt F) (ΛS (F := F)) .tc) PUnit)
      = SparseCore.liftProg (Q := 1) (.op (.customCall (Pipeline.entry 0) ()) fun _ => .ret ⟨⟩) := by chain_rfl

set_option backward.isDefEq.respectTransparency.types false in
theorem hmain (κ : GSem nD τ sig → ℕ) (d : Dev nD) :
    iprop((K (F := F)).ctx EH (P (XPof m)) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have hR' : ((K (F := F)).tcSt EH d ((0 : Fin 1).val + 1) : sProp 𝕄) = iprop(owesNone d ∗ R) := hR
  unfold SparseCore.Cfg.tcRes
  rw [main_eq, fn_pad_eq, fn_pad_0_eq, hR]
  simp only [Pipeline.chain_cons, Pipeline.chain_nil]
  rw [region_prog]
  rw [show (unscopedBufs d (fun b => m ((SparseCore.T d).loc b)) : sProp 𝕄) = held (SparseCore.T d) ucRefs (V0 m d) from unscopedBufs_held d (V0 m d)]
  iintro ⟨#Hctx, Hst, ⟨Hb, Hh, -, -⟩, Hg⟩
  -- the host operations
  iapply (StableHlo.wp_seq (defs := (K (F := F)).defs (D (F := F))) 𝒱 none Set.univ d ucRefs _ opsA opsA_sub opsA_fresh (V0 m d)) $$ [Hb Hh]
  · isplitl [Hb] <;> iassumption
  iintro ⟨Hb, Hh⟩
  iapply (StableHlo.wp_seq (defs := (K (F := F)).defs (D (F := F))) 𝒱 none Set.univ d ucRefs _ padA padA_sub padA_fresh _) $$ [Hb Hh]
  · isplitl [Hb] <;> iassumption
  iintro ⟨Hb, Hh⟩
  iapply (StableHlo.wp_seq (defs := (K (F := F)).defs (D (F := F))) 𝒱 none Set.univ d ucRefs _ opsB opsB_sub opsB_fresh _) $$ [Hb Hh]
  · isplitl [Hb] <;> iassumption
  iintro ⟨Hb, Hh⟩
  iapply (StableHlo.wp_seq (defs := (K (F := F)).defs (D (F := F))) 𝒱 none Set.univ d ucRefs _ padB padB_sub padB_fresh _) $$ [Hb Hh]
  · isplitl [Hb] <;> iassumption
  iintro ⟨Hb, Hh⟩
  iapply (StableHlo.wp_seq (defs := (K (F := F)).defs (D (F := F))) 𝒱 none Set.univ d ucRefs _ opsC opsC_sub opsC_fresh _) $$ [Hb Hh]
  · isplitl [Hb] <;> iassumption
  iintro ⟨Hb, Hh⟩
  -- the SparseCore call: both arrays over whole, and back
  rw [Vh_def]
  ihave Hs := (Entails.of_eq (held_two (F := F) d (Vh m d))) $$ Hh
  icases Hs with ⟨⟨Hx, Hc⟩, Hrest⟩
  rw [wp_bind]
  iapply ((K (F := F)).wp_run (D (F := F)) 𝒱 (EH := EH) (P := P (XPof m)) κ d 0) $$ [Hst Hx Hc Hb Hrest Hg]
  isplitr; · iexact Hctx
  isplitl [Hst]; · iexact Hst
  isplitl [Hx Hc]
  · iapply (st_intro (XPof m) d (Vh m d v20'))
    isplitl [Hx]; · iexact Hx
    iexact Hc
  iintro ⟨Hst, Hdn⟩
  ihave Hdn' := (dn_elim (XPof m) d) $$ Hdn
  icases Hdn' with ⟨Hx, Hc⟩
  ihave Hst' := (Entails.of_eq hR') $$ Hst
  icases Hst' with ⟨HO, HR⟩
  ihave Hlv := (SparseCore.Cfg.ctx_levAts κ) $$ Hctx
  -- the dense head's call
  iapply ((K (F := F)).wp_liftProg (D (F := F)) 𝒱 (SparseCore.T d) Set.univ none
    (.op (.customCall (Pipeline.entry 0) ()) fun _ => .ret ⟨⟩) _)
  iapply (wp_region (V1 m) d _)
  isplitl [HR]
  · iintro ⟨Hb, Hfin, HO⟩
    isplitl [HO HR]
    · isplitl [HO]; · iexact HO
      iexact HR
    iexact Hfin
  isplitl [Hb]; · iexact Hb
  isplitl [Hx Hc Hrest HO]
  · isplitl [Hx Hc Hrest]
    · iapply (Entails.of_eq (held_two (F := F) d (V1 m d)).symm)
      rw [V1_v8, V1_v20, held_rest_V1]
      isplitl [Hx Hc]
      · isplitl [Hx]; · iexact Hx
        iexact Hc
      iexact Hrest
    iexact HO
  isplitl [Hlv]; · iexact Hlv
  iexact Hg

end Cert.Proof.KW

end
-- ==== Proof.RunW.lean ====
/-
  The run of the whole thread family: the launch element of the ghost state, the final memory read off what @main
  leaves, and the launch theorem applied.
-/
import proofs.«205260_g26156350832969_cont_9to1_3_23_alg».proof.Proof.LaunchW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe Idealize.ShloMosaic.Tactic
open Idealize.ShloMosaic.Pipeline (Dat Cfg Window BodyObligation cellOf)
open Idealize.ShloMosaic.StableHlo (held)

variable [FloatOps F]

/-! ## The launch element: the handshakes' rounds, the pipeline's rounds, no counter yet -/

def u₀ : UU := (initOf (K (F := F)).hsCells (K (F := F)).hsToks,
  (initOf (Pipeline.cells cfgs cellOf_inj) (Pipeline.launchToks cfgs cellOf_inj), 1))

/-- Each device is dealt its pipeline's staging cells' ghost state and duty tokens. -/
theorem ghost_deal :
    iprop((bigSep Finset.univ fun c : Dev nD => bigSep Finset.univ fun p : Fin 1 => Pipeline.cellsGhost cfgs (EP (F := F)) p c)
        ∗ (bigSep Finset.univ fun c : Dev nD => bigSep Finset.univ fun p : Fin 1 => (Pipeline.toksInit cfgs (EP (F := F)) p c : sProp 𝕄)))
      ⊢ bigSep Finset.univ fun d : Dev nD => pipeGhost (F := F) d := by
  rw [← bigSep_sep']
  refine bigSep_mono fun d _ => ?_
  rw [bigSep_univ_of_subsingleton (0 : Fin 1), bigSep_univ_of_subsingleton (0 : Fin 1)]
  exact BI.Entails.refl _

variable (XP : (d : Dev nD) → Buf (Elt F) (xpLoc d))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P XP).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs (EP (F := F)) cellOf_inj) $$ HP with ⟨Hg, Ht⟩
  imodintro
  isplitl [HH]; · iexact HH
  isplitl [Hg Ht]
  · iapply ghost_deal
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

variable (m : (ℓ : Loc nD τ sig) → Buf (Elt F) ℓ) (ρ : Dev nD → PrngReg)

/-- What the final memory holds on device `d`: each array of the dense head's pipeline at what the pipeline library
    computes, every other unscoped buffer of the TensorCore at what the call found. -/
def fq (d : Dev nD) (s' : Phys nD τ sig (Elt F)) : Prop :=
  (∀ w : Fin cfg1.W, s'.mem.mem ((cfg1.win w).arr.view.loc (d : Thread nD τ)) = (dats (V1 m) 0 d).arrAt w cfg1.N)
    ∧ ∀ b ∈ Pipeline.restRefs sig spec1, s'.mem.mem ((d : Thread nD τ).loc b) = Vb (V1 m) d b

set_option backward.isDefEq.respectTransparency.types false in
theorem hfin (d : Dev nD) (s' : Phys nD τ sig (Elt F)) : iprop(FIN m d ∗ SI s') ⊢ (⌜fq m d s'⌝ : sProp 𝕄) := by
  iintro ⟨⟨Ha, Hr⟩, HSI⟩
  ihave H1 := (Pipeline.arrays_read (pcfgs (F := F)) adm (dats (V1 m)) launch1.arr_whole d ((dats (V1 m) 0 d).share_full fun _ => rfl) _ s') $$ [Ha HSI]
  · isplitl [Ha] <;> iassumption
  icases H1 with ⟨%ha, HSI⟩
  ihave H2 := (pointsTo_read_all (Pipeline.restRefs sig spec1) (fun b => (d : Thread nD τ).loc b) (Vb (V1 m) d) s') $$ [Hr HSI]
  · isplitl [Hr]; · unfold Pipeline.unscopedRest; iexact Hr
    iexact HSI
  icases H2 with ⟨%hr, -⟩
  ipureintro; exact ⟨ha, hr⟩

/-! ## The run -/

def QC : PUnit × MemSt nD τ sig (Elt F) → Prop := fun r => ∀ d : Dev nD,
  (∀ w : Fin cfg1.W, r.2.mem ((cfg1.win w).arr.view.loc (d : Thread nD τ)) = (dats (V1 m) 0 d).arrAt w cfg1.N)
    ∧ ∀ b ∈ Pipeline.restRefs sig spec1, r.2.mem ((d : Thread nD τ).loc b) = Vb (V1 m) d b

/-- Every weakly fair execution of the thread family terminates, and every final memory has the dense head's arrays at
    what the pipeline library computes and every other unscoped buffer of the TensorCore at what the call found —
    given the statement of one vector subcore's task at the packed array the host operations build. -/
theorem run_raw [∀ e, Nonempty (Elt F e)] (htile : TileStmt (XPof m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (XPof m)) facts v₀
    (fun q hq => match q with | 0 => nomatch hq)
    (fun q _ => match q with | 0 => tileObl (XPof m) htile)
    (fun q _ => match q with | 0 => SparseCore.Cfg.VecSplit.of_plain (vecSplit (XPof m)))
    m ρ main (fun d => pipeGhost (F := F) d) (FIN m) (u₀ (F := F)) (sep_elim_left.trans (hu₀ (XPof m))) (hmain m ρ) (fq m) (hfin m) (QC m) (fun _ h => h)

end Cert.Proof.KW

end
-- ==== Proof.BlocksW.lean ====
/-
  From blocks to the array: the dense head's result array after the call is, whole, `tcOut` of the counts, the
  table, the dense features, the dense weights and the bias as the call finds them.
-/
import proofs.«205260_g26156350832969_cont_9to1_3_23_alg».proof.Proof.RegionW
import Idealize.ShloMosaic.Lib.Pipeline.Value

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe
open Idealize.ShloMosaic.Pipeline (Dat Cfg Window BodyObligation cellOf)
open Idealize.ShloMosaic.ValueIdx (ix2)

variable [FloatOps F]
variable (VR : Dev nD → Valuation τ sig (Elt F))

omit [FloatOps F] in
theorem tt_lt (t : Fin cfg1.N) : t.val < 4 := by
  have h : t.val < grid1.N := t.isLt
  rw [N_1] at h; exact h
/-- A grid point as a block number. -/
def tt (t : Fin cfg1.N) : Fin 4 := ⟨t.val, tt_lt t⟩

omit [FloatOps F] in
/-- The printed index maps, decided over the grid: the counts, the dense features and the result move by one block of
    256 rows per point; the table, the dense weights and the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each window's block at a point, off its array -/

theorem iblk_cnt (c : Dev nD) (t : Fin cfg1.N) : iblk VR c 0 t = cntBlock (F := F) (Vb VR c main_v20) (tt t) := by
  obtain ⟨_, _, _, _, _, _, _, _, _, _, _, _⟩ := idx_facts t
  funext j
  show Vb VR c main_v20 (((cfg1.win 0).blk t).view.emb j) = Vb VR c main_v20 (ix2 ⟨256 * t.val + (j 0).val, _⟩ ⟨(j 1).val, _⟩)
  congr 1
  funext a; apply Fin.ext
  match a with
  | ⟨0, _⟩ => show win1_0.index t (0 : Fin 2) * 256 + 1 * (j 0).val = 256 * t.val + (j 0).val; omega
  | ⟨1, _⟩ => show win1_0.index t (1 : Fin 2) * 2688 + 1 * (j 1).val = (j 1).val; omega
theorem iblk_tbl (c : Dev nD) (t : Fin cfg1.N) : iblk VR c 1 t = Vb VR c main_v17 := by
  obtain ⟨_, _, _, _, _, _, _, _, _, _, _, _⟩ := idx_facts t
  funext j
  show Vb VR c main_v17 (((cfg1.win 1).blk t).view.emb j) = Vb VR c main_v17 j
  congr 1
  funext a; apply Fin.ext
  match a with
  | ⟨0, _⟩ => show win1_1.index t (0 : Fin 2) * 2688 + 1 * (j 0).val = (j 0).val; omega
  | ⟨1, _⟩ => show win1_1.index t (1 : Fin 2) * 64 + 1 * (j 1).val = (j 1).val; omega
theorem iblk_dense (c : Dev nD) (t : Fin cfg1.N) : iblk VR c 2 t = denseBlock (F := F) (Vb VR c main_arg1) (tt t) := by
  obtain ⟨_, _, _, _, _, _, _, _, _, _, _, _⟩ := idx_facts t
  funext j
  show Vb VR c main_arg1 (((cfg1.win 2).blk t).view.emb j) = Vb VR c main_arg1 (ix2 ⟨256 * t.val + (j 0).val, _⟩ ⟨(j 1).val, _⟩)
  congr 1
  funext a; apply Fin.ext
  match a with
  | ⟨0, _⟩ => show win1_2.index t (0 : Fin 2) * 256 + 1 * (j 0).val = 256 * t.val + (j 0).val; omega
  | ⟨1, _⟩ => show win1_2.index t (1 : Fin 2) * 13 + 1 * (j 1).val = (j 1).val; omega
theorem iblk_wd (c : Dev nD) (t : Fin cfg1.N) : iblk VR c 3 t = Vb VR c main_v18 := by
  obtain ⟨_, _, _, _, _, _, _, _, _, _, _, _⟩ := idx_facts t
  funext j
  show Vb VR c main_v18 (((cfg1.win 3).blk t).view.emb j) = Vb VR c main_v18 j
  congr 1
  funext a; apply Fin.ext
  match a with
  | ⟨0, _⟩ => show win1_3.index t (0 : Fin 2) * 13 + 1 * (j 0).val = (j 0).val; omega
  | ⟨1, _⟩ => show win1_3.index t (1 : Fin 2) * 1 + 1 * (j 1).val = (j 1).val; omega
theorem iblk_bs (c : Dev nD) (t : Fin cfg1.N) : iblk VR c 4 t = Vb VR c main_v19 := by
  obtain ⟨_, _, _, _, _, _, _, _, _, _, _, _⟩ := idx_facts t
  funext j
  show Vb VR c main_v19 (((cfg1.win 4).blk t).view.emb j) = Vb VR c main_v19 j
  congr 1
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

/-! ## The result array -/

/-- The result array as one function of the arrays the call finds. -/
def Gout (c : Dev nD) : Buf (Elt F) ((cfg1.win 5).arr.view.loc (c : Thread nD τ)) :=
  tcOut (F := F) (Vb VR c main_v20) (Vb VR c main_v17) (Vb VR c main_arg1) (Vb VR c main_v18) (Vb VR c main_v19)

/-- What point `t` writes back is block `t` of it. -/
theorem flushed_out (c : Dev nD) (t : Fin cfg1.N) :
    (dats VR 0 c).flushed 5 t = ((cfg1.win 5).blk t).view.read (Elt F) (Gout VR c) := by
  show (cfg1.win 5).cut (grid1.coords t) ((dats VR 0 c).after 5 t) = _
  rw [after1_5, iblk_cnt, iblk_tbl, iblk_dense, iblk_wd, iblk_bs]
  obtain ⟨_, _, _, _, _, _, _, _, _, _, e50, e51⟩ := idx_facts t
  funext j
  show tcBlock (F := F) _ _ _ _ _ j = Gout VR c (((cfg1.win 5).blk t).view.emb j)
  unfold Gout tcOut
  have h0 : ((((cfg1.win 5).blk t).view.emb j) 0).val = 256 * t.val + (j 0).val := by
    show win1_5.index t (0 : Fin 2) * 256 + 1 * (j 0).val = _
    omega
  have hj0 : (j 0).val < 256 := (j 0).isLt
  have hj1 : (j 1).val < 1 := (j 1).isLt
  have hb : blockOfRow ⟨((((cfg1.win 5).blk t).view.emb j) 0).val, ((((cfg1.win 5).blk t).view.emb j) 0).isLt⟩ = tt t :=
    Fin.ext (by show ((((cfg1.win 5).blk t).view.emb j) 0).val / 256 = t.val; rw [h0]; omega)
  have hr : rowInBlock ⟨((((cfg1.win 5).blk t).view.emb j) 0).val, ((((cfg1.win 5).blk t).view.emb j) 0).isLt⟩ = ⟨(j 0).val, hj0⟩ :=
    Fin.ext (by show ((((cfg1.win 5).blk t).view.emb j) 0).val % 256 = (j 0).val; rw [h0]; omega)
  rw [hb, hr]
  congr 1
  funext a
  match a with
  | ⟨0, _⟩ => rfl
  | ⟨1, _⟩ => exact Fin.ext (by show (j 1).val = 0; omega)

omit [FloatOps F] in
/-- An index of the result array is in point `t`'s block iff each coordinate is in the block's range on its axis. -/
theorem mem_blk_out (t : Fin cfg1.N) (i : S1024x1.Idx) :
    i ∈ ((cfg1.win 5).blk t).view.set ↔ ∀ a : Fin 2, win1_5.index t a * S256x1.size a ≤ (i a).val ∧ (i a).val < win1_5.index t a * S256x1.size a + S256x1.size a := by
  show i ∈ ((View.whole main_v21).slice (win1_5.rect t)).set ↔ _
  rw [View.set_slice_whole, Rect.mem_set_unit]
  exact Iff.rfl

omit [FloatOps F] in
/-- Every block of rows is some point's. -/
theorem idx_onto_out : ∀ q0 : Fin 4, ∃ t : Fin cfg1.N, win1_5.index t = ![q0.val, 0] :=
  (by decide +kernel : ∀ q0 : Fin 4, ∃ t : Fin grid1.N, win1_5.index t = ![q0.val, 0])

omit [FloatOps F] in
/-- Every row of the result is in some point's block. -/
theorem out_cover (i : S1024x1.Idx) :
    ∃ t : Fin cfg1.N, (cfg1.win 5).flush t = true ∧ i ∈ ((cfg1.win 5).blk t).view.set := by
  have hi0 : (i 0).val < 1024 := (i 0).isLt
  have hi1 : (i 1).val < 1 := (i 1).isLt
  obtain ⟨t, ht⟩ := idx_onto_out ⟨(i 0).val / 256, by omega⟩
  have q0 : win1_5.index t (0 : Fin 2) = (i 0).val / 256 := congrFun ht 0
  have q1 : win1_5.index t (1 : Fin 2) = 0 := congrFun ht 1
  refine ⟨t, flush1_5 t, ?_⟩
  rw [mem_blk_out]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 1 ≤ (i 1).val ∧ (i 1).val < win1_5.index t (1 : Fin 2) * 1 + 1; omega

/-- THE RESULT ARRAY after the call. -/
theorem final_out (c : Dev nD) : (dats VR 0 c).arrAt 5 cfg1.N = Gout VR c :=
  (dats VR 0 c).arrAt_eq_of_cover 5 (Gout VR c) (fun t _ => flushed_out VR c t) (fun i => out_cover i)

end Cert.Proof.KW

end
-- ==== Proof.KHostW.lean ====
/-
  What the kernel program's host part computes before its two kernel calls, as pure functions of the
  inputs: the packed index array, the combined table, the dense weights and the bias. Each is the
  composition of the program's own operations, one `let` per operation, in the program's order.
-/
import proofs.«205260_g26156350832969_cont_9to1_3_23_alg».proof.Kernel

noncomputable section

namespace Cert.Kernel.KHost

open Idealize.ShloMosaic
open Cert.Kernel Cert.Kernel.Facts₀ Cert.Kernel.Facts

variable {F : FTy → Type} [FloatOps F]
variable [Cert.Kernel.Facts]

/-- The offsets row: the literal table read in row-major order. -/
def offsOf : IVec S2688 32 := fun i => lit0 (S2688.rowMajor i)

/-- The padded and shifted index array: the input padded with zeros to 2688 columns, plus the offsets row. -/
def xbOf (x : IVec S1024x2626 32) : IVec S1024x2688 32 :=
  let c : IVec S2688 32 := fun i => lit0 (S2688.rowMajor i)
  let c_0 : IVec S_ 32 := constantI S_ 32 0#32
  let p0 : IVec S_ 32 := id c_0
  let v0 : IVec S1024x2688 32 := pad S1024x2688 ![0, 0] ![0, 62] ![0, 0] x p0 pads_S1024x2626_S1024x2688_000_0620 h_S_
  let v1 : IVec S1x2688 32 := broadcastInDim S1x2688 ![1] bcast_S2688_S1x2688_1 c
  let v2 : IVec S1024x2688 32 := broadcastInDim S1024x2688 ![0, 1] bcast_S1x2688_S1024x2688_0_1 v1
  addi v0 v2

/-- The packed index array: the left half of the shifted array in the low sixteen bits of each word,
    the right half in the high sixteen bits. -/
def xpOf (x : IVec S1024x2626 32) : IVec S1024x1344 32 :=
  let c : IVec S2688 32 := fun i => lit0 (S2688.rowMajor i)
  let c_0 : IVec S_ 32 := constantI S_ 32 0#32
  let p0 : IVec S_ 32 := id c_0
  let v0 : IVec S1024x2688 32 := pad S1024x2688 ![0, 0] ![0, 62] ![0, 0] x p0 pads_S1024x2626_S1024x2688_000_0620 h_S_
  let v1 : IVec S1x2688 32 := broadcastInDim S1x2688 ![1] bcast_S2688_S1x2688_1 c
  let v2 : IVec S1024x2688 32 := broadcastInDim S1024x2688 ![0, 1] bcast_S1x2688_S1024x2688_0_1 v1
  let v3 : IVec S1024x2688 32 := addi v0 v2
  let v4 : IVec S1024x1344 32 := extractStridedSlice S1024x1344 ![0, 0] v3 slices_S1024x2688_S1024x1344_0_0
  let v5 : IVec S1024x1344 32 := extractStridedSlice S1024x1344 ![0, 1344] v3 slices_S1024x2688_S1024x1344_0_1344
  let c_1 : IVec S_ 32 := constantI S_ 32 16#32
  let v6 : IVec S1024x1344 32 := broadcastInDim S1024x1344 ![] bcast_S_S1024x1344 c_1
  let v7 : IVec S1024x1344 32 := Host.shli v5 v6
  let v8 : IVec S1024x1344 32 := ori v4 v7
  v8

/-- The packed array is the two column halves of the shifted array joined word by word. -/
theorem xpOf_eq (x : IVec S1024x2626 32) :
    xpOf x = ori (extractStridedSlice S1024x1344 ![0, 0] (xbOf x) slices_S1024x2688_S1024x1344_0_0)
      (Host.shli (extractStridedSlice S1024x1344 ![0, 1344] (xbOf x) slices_S1024x2688_S1024x1344_0_1344)
        (broadcastInDim S1024x1344 ![] bcast_S_S1024x1344 (constantI S_ 32 16#32))) := rfl

/-- The combined table: per bin the 32 embedding entries, then the linear entry times its field's
    weight, then zeros up to 64 columns; 88 zero rows below the 2600 bins. -/
def tableOf (emb : FVec F S26x100x32 .f32) (lin : FVec F S26x100x1 .f32) (W : FVec F S39x1 .f32) :
    FVec F S2688x64 .f32 :=
  let v9 : FVec F S2600x32 .f32 := shapeCast S2600x32 emb shapeCasts_S26x100x32_S2600x32
  let v10 : FVec F S26x100 .f32 := shapeCast S26x100 lin shapeCasts_S26x100x1_S26x100
  let v11 : FVec F S26x1 .f32 := extractStridedSlice S26x1 ![0, 0] W slices_S39x1_S26x1_0_0
  let v12 : FVec F S26x100 .f32 := broadcastInDim S26x100 ![0, 1] bcast_S26x1_S26x100_0_1 v11
  let v13 : FVec F S26x100 .f32 := mulf v10 v12
  let v14 : FVec F S2600x1 .f32 := shapeCast S2600x1 v13 shapeCasts_S26x100_S2600x1
  let cst : FVec F S_ .f32 := constant S_ .f32 0x00000000#32
  let v15 : FVec F S2600x31 .f32 := broadcastInDim S2600x31 ![] bcast_S_S2600x31 cst
  let v16 : FVec F S2600x64 .f32 :=
    concatenate S2600x64 1 [⟨S2600x32, v9⟩, ⟨S2600x1, v14⟩, ⟨S2600x31, v15⟩] concatenates_S2600x32_S2600x1_S2600x31_S2600x64_d1
  let c_2 : IVec S_ 32 := constantI S_ 32 0#32
  let q0 : FVec F S_ .f32 := sitofp .f32 c_2
  pad S2688x64 ![0, 0] ![88, 0] ![0, 0] v16 q0 pads_S2600x64_S2688x64_0880_000 h_S_

/-- The dense features' weights: rows 26 to 38 of the weight column. -/
def wdOf (W : FVec F S39x1 .f32) : FVec F S13x1 .f32 :=
  extractStridedSlice S13x1 ![26, 0] W slices_S39x1_S13x1_26_0

/-- The bias as a one-by-one array. -/
def biasOf (b : FVec F S1 .f32) : FVec F S1x1 .f32 :=
  shapeCast S1x1 b shapeCasts_S1_S1x1

end Cert.Kernel.KHost

end
-- ==== Proof.FinalW.lean ====
/-
  The run with every array named: the dense head's result is `tcOut` of the histogram of the packed array, the
  combined table, the dense features, the dense weights and the bias, each the host operations' own function of
  the arguments; every argument array ends as it was launched.
-/
import proofs.«205260_g26156350832969_cont_9to1_3_23_alg».proof.Proof.RunW
import proofs.«205260_g26156350832969_cont_9to1_3_23_alg».proof.Proof.BlocksW
import proofs.«205260_g26156350832969_cont_9to1_3_23_alg».proof.Proof.KHostW

noncomputable section

namespace Cert.Proof.KW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

open Idealize.ShloMosaic.TcCoe
open Idealize.ShloMosaic.Pipeline (Dat Cfg Window BodyObligation cellOf)
open Idealize.ShloMosaic.StableHlo
open Cert.Kernel.KHost

variable [FloatOps F]
variable (m : (ℓ : Loc nD τ sig) → Buf (Elt F) ℓ) (ρ : Dev nD → PrngReg)

/-! ## No host operation writes an argument -/

theorem Vh_main_arg0 (d : Dev nD) : Vh m d (Proc.devRef .tc main_arg0) = m ((d : Thread nD τ).loc main_arg0) := by
  unfold Vh opsA padA opsB padB opsC
  after_results
  rfl
theorem Vh_main_arg1 (d : Dev nD) : Vh m d (Proc.devRef .tc main_arg1) = m ((d : Thread nD τ).loc main_arg1) := by
  unfold Vh opsA padA opsB padB opsC
  after_results
  rfl
theorem Vh_main_arg2 (d : Dev nD) : Vh m d (Proc.devRef .tc main_arg2) = m ((d : Thread nD τ).loc main_arg2) := by
  unfold Vh opsA padA opsB padB opsC
  after_results
  rfl
theorem Vh_main_arg3 (d : Dev nD) : Vh m d (Proc.devRef .tc main_arg3) = m ((d : Thread nD τ).loc main_arg3) := by
  unfold Vh opsA padA opsB padB opsC
  after_results
  rfl
theorem Vh_main_arg4 (d : Dev nD) : Vh m d (Proc.devRef .tc main_arg4) = m ((d : Thread nD τ).loc main_arg4) := by
  unfold Vh opsA padA opsB padB opsC
  after_results
  rfl
theorem Vh_main_arg5 (d : Dev nD) : Vh m d (Proc.devRef .tc main_arg5) = m ((d : Thread nD τ).loc main_arg5) := by
  unfold Vh opsA padA opsB padB opsC
  after_results
  rfl

/-! ## What the host operations leave for the two calls -/

theorem XPof_eq (d : Dev nD) : XPof m d = xpOf (m ((d : Thread nD τ).loc main_arg0)) := by
  unfold XPof Vh opsA padA opsB padB opsC
  after_results
  rfl
theorem Vh_table (d : Dev nD) : Vh m d (Proc.devRef .tc main_v17)
    = tableOf (F := F) (m ((d : Thread nD τ).loc main_arg3)) (m ((d : Thread nD τ).loc main_arg2)) (m ((d : Thread nD τ).loc main_arg4)) := by
  unfold Vh opsA padA opsB padB opsC
  after_results
  rfl
theorem Vh_wd (d : Dev nD) : Vh m d (Proc.devRef .tc main_v18) = wdOf (F := F) (m ((d : Thread nD τ).loc main_arg4)) := by
  unfold Vh opsA padA opsB padB opsC
  after_results
  rfl
theorem Vh_bias (d : Dev nD) : Vh m d (Proc.devRef .tc main_v19) = biasOf (F := F) (m ((d : Thread nD τ).loc main_arg5)) := by
  unfold Vh opsA padA opsB padB opsC
  after_results
  rfl

/-! ## After the SparseCore call only the counts array has changed -/

theorem V1_of_ne (d : Dev nD) (x : Ref sig .tc) (hx : x ≠ main_v20) : V1 m d (Proc.devRef .tc x) = Vh m d (Proc.devRef .tc x) :=
  Function.update_of_ne (StableHlo.devRef_ne_of_ne hx) _ _

/-! ## The run, read -/

/-- Every weakly fair execution of the thread family terminates; every final memory has the result array at `tcOut`
    of the histogram, the table, the dense features, the dense weights and the bias, and each argument array as launched. -/
theorem run_main [∀ e, Nonempty (Elt F e)] (htile : TileStmt (XPof m)) :
    θ_run (Cert.Kernel.defs (F := F)) (Cert.Kernel.threads (F := F)) ⟨m, fun _ => 0, ρ⟩ (fun r => ∀ c : Dev nD,
      r.2.mem ((c : Thread nD τ).loc main_v21)
          = tcOut (F := F) (Cert.Proof.ScSpec.counts (F := F) (xpOf (m ((c : Thread nD τ).loc main_arg0))))
              (tableOf (F := F) (m ((c : Thread nD τ).loc main_arg3)) (m ((c : Thread nD τ).loc main_arg2)) (m ((c : Thread nD τ).loc main_arg4)))
              (m ((c : Thread nD τ).loc main_arg1)) (wdOf (F := F) (m ((c : Thread nD τ).loc main_arg4))) (biasOf (F := F) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) := by
  refine (θ_run (Cert.Kernel.defs (F := F)) _ _).mono (fun r h c => ?_) (run_raw m ρ htile)
  obtain ⟨ha, hr⟩ := h c
  have rest : ∀ x : Ref sig .tc, x ∈ Pipeline.restRefs sig spec1 → x ≠ main_v20 →
      r.2.mem ((c : Thread nD τ).loc x) = Vh m c (Proc.devRef .tc x) := fun x hx hne => (hr x hx).trans (V1_of_ne m c x hne)
  refine ⟨?_, ?_, ?_, ?_, ?_, ?_, ?_⟩
  · refine (ha 5).trans ((final_out (V1 m) c).trans ?_)
    unfold Gout Vb
    rw [V1_v20, V1_of_ne m c main_v17 (by decide), V1_of_ne m c main_arg1 (by decide), V1_of_ne m c main_v18 (by decide),
      V1_of_ne m c main_v19 (by decide), XPof_eq, Vh_table, Vh_main_arg1, Vh_wd, Vh_bias]
  · exact (rest main_arg0 (Pipeline.mem_restRefs_of main_arg0 (by decide) (by decide)) (by decide)).trans (Vh_main_arg0 m c)
  · refine (ha 2).trans (((dats (V1 m) 0 c).arrAt_in 2 rfl _).trans ((A_eq (V1 m) c 2).trans ?_))
    exact (V1_of_ne m c main_arg1 (by decide)).trans (Vh_main_arg1 m c)
  · exact (rest main_arg2 (Pipeline.mem_restRefs_of main_arg2 (by decide) (by decide)) (by decide)).trans (Vh_main_arg2 m c)
  · exact (rest main_arg3 (Pipeline.mem_restRefs_of main_arg3 (by decide) (by decide)) (by decide)).trans (Vh_main_arg3 m c)
  · exact (rest main_arg4 (Pipeline.mem_restRefs_of main_arg4 (by decide) (by decide)) (by decide)).trans (Vh_main_arg4 m c)
  · exact (rest main_arg5 (Pipeline.mem_restRefs_of main_arg5 (by decide) (by decide)) (by decide)).trans (Vh_main_arg5 m c)

end Cert.Proof.KW

end
-- ==== Proof.LibPackHalves.lean ====
/-
  Two sixteen-bit numbers packed into one 32-bit word, and read back.

  If A and B are both below 2^16, the word A ||| (B <<< 16) is B * 2^16 + A: its low sixteen bits are A
  and its high sixteen bits are B.
-/
import Idealize.ShloMosaic.PureOps

namespace Cert.Proof.Math

/-- The packed word as a number. -/
theorem pack_toNat (A B : BitVec 32) (hA : A.toNat < 65536) (hB : B.toNat < 65536) :
    (A ||| B <<< 16).toNat = B.toNat * 65536 + A.toNat := by
  rw [BitVec.toNat_or, BitVec.toNat_shiftLeft]
  have h1 : B.toNat <<< 16 % 2 ^ 32 = B.toNat <<< 16 :=
    Nat.mod_eq_of_lt (by rw [Nat.shiftLeft_eq]; omega)
  rw [h1, Nat.or_comm, ← Nat.shiftLeft_add_eq_or_of_lt (show A.toNat < 2 ^ 16 by omega), Nat.shiftLeft_eq]

/-- The low half of the packed word. -/
theorem pack_lo (A B : BitVec 32) (hA : A.toNat < 65536) (hB : B.toNat < 65536) :
    ((A ||| B <<< 16) &&& 65535#32).toNat = A.toNat := by
  rw [BitVec.toNat_and, pack_toNat A B hA hB]
  show (B.toNat * 65536 + A.toNat) &&& (2 ^ 16 - 1) = A.toNat
  rw [Nat.and_two_pow_sub_one_eq_mod]
  omega

/-- The high half of the packed word. -/
theorem pack_hi (A B : BitVec 32) (hA : A.toNat < 65536) (hB : B.toNat < 65536) :
    ((A ||| B <<< 16) >>> 16).toNat = B.toNat := by
  rw [BitVec.toNat_ushiftRight, pack_toNat A B hA hB, Nat.shiftRight_eq_div_pow]
  omega

end Cert.Proof.Math
-- ==== Proof.Pack.lean ====
/-
  The packed index array read at an index.

  Column c of the shifted array holds the input's entry plus the offset of column c: 100 i for the j-th
  entry (j < 100) of field i, where c = 101 i + j; 2688, past every kept bin, for the unused column of
  each field and for the padding columns. The left and right halves of the shifted array are the low
  and the high sixteen bits of the packed words.
-/
import Idealize.ShloMosaic.Lib.Pipeline.Value
import Idealize.ShloMosaic.Lib.KernelVsHost
import proofs.«205260_g26156350832969_cont_9to1_3_23_alg».proof.Proof.KHost
import proofs.«205260_g26156350832969_cont_9to1_3_23_alg».proof.Proof.ScSpec
import proofs.«205260_g26156350832969_cont_9to1_3_23_alg».proof.Proof.LibPackHalves

noncomputable section

namespace Cert.Proof.Math

open Idealize.ShloMosaic Idealize.ShloMosaic.ValueIdx
open Cert.KernelIdeal Cert.KernelIdeal.Facts₀ Cert.KernelIdeal.Facts Cert.KernelIdeal.KHost

variable [Cert.KernelIdeal.Facts]

/-- The offset of column c: 100 i on the hundred used columns of field i, 2688 elsewhere. -/
def offsNat (c : Nat) : Nat := if c < 2626 ∧ c % 101 < 100 then 100 * (c / 101) else 2688

theorem offsNat_le (c : Nat) : offsNat c ≤ 2688 := by
  unfold offsNat; split <;> omega

/-- The literal table in closed form. -/
theorem lit0t_eq : ∀ i : Nat, i < 2688 → lit0t i = BitVec.ofNat 32 (offsNat i) := by decide +kernel

theorem lit0_eq (c : Fin 2688) : lit0 c = BitVec.ofNat 32 (offsNat c.val) := lit0t_eq c.val c.isLt

/-- Column c of row b of the shifted array, as a number. -/
def xbNat (x : IVec S1024x2626 32) (b : Fin 1024) (c : Nat) : Nat :=
  if h : c < 2626 then (x (ix2 b (⟨c, h⟩ : Fin 2626))).toNat + offsNat c else 2688

theorem xbNat_le (x : IVec S1024x2626 32) (hx : ∀ i, (x i).toNat ≤ 99) (b : Fin 1024) (c : Nat) :
    xbNat x b c ≤ 2787 := by
  unfold xbNat
  split
  · have := hx (ix2 b (⟨c, ‹c < 2626›⟩ : Fin 2626)); have := offsNat_le c; omega
  · omega

/-- The input padded with zeros to 2688 columns. -/
def padded (x : IVec S1024x2626 32) : IVec S1024x2688 32 :=
  pad S1024x2688 ![0, 0] ![0, 62] ![0, 0] x (id (constantI S_ 32 0#32 : IVec S_ 32))
    pads_S1024x2626_S1024x2688_000_0620 h_S_

theorem padded_apply_lt (x : IVec S1024x2626 32) (b : Fin 1024) (c : Fin 2688) (h : c.val < 2626) :
    padded x (ix2 b c) = x (ix2 b (⟨c.val, h⟩ : Fin 2626)) := by
  unfold padded
  exact pad_apply_of_inside _ _ _ _ _ _ _ (ix2 b c) (ix2 b (⟨c.val, h⟩ : Fin 2626)) (fun a =>
    match a with
    | ⟨0, _⟩ => by show b.val = 0 + b.val * (0 + 1); omega
    | ⟨1, _⟩ => by show c.val = 0 + c.val * (0 + 1); omega)

theorem padded_apply_ge (x : IVec S1024x2626 32) (b : Fin 1024) (c : Fin 2688) (h : 2626 ≤ c.val) :
    padded x (ix2 b c) = 0#32 := by
  unfold padded
  exact pad_apply_of_not_inside _ _ _ _ _ _ _ (ix2 b c) (⟨1, by decide⟩ : Fin 2) (by
    show ¬(0 ≤ c.val ∧ (c.val - 0) % (0 + 1) = 0 ∧ (c.val - 0) / (0 + 1) < 2626)
    omega)

/-- The offsets row broadcast over the rows, read at (b, c). -/
theorem offs_bcast_apply (b : Fin 1024) (c : Fin 2688) :
    broadcastInDim S1024x2688 ![0, 1] bcast_S1x2688_S1024x2688_0_1
      (broadcastInDim S1x2688 ![1] bcast_S2688_S1x2688_1 (fun i => lit0 (S2688.rowMajor i) : IVec S2688 32))
      (ix2 b c) = lit0 c := by
  refine (broadcastInDim_apply _ _ _ (ix2 b c) (ix2 (0 : Fin 1) c) (fun a =>
    match a with
    | ⟨0, _⟩ => rfl
    | ⟨1, _⟩ => rfl)).trans ?_
  refine (broadcastInDim_apply _ _ _ (ix2 (0 : Fin 1) c) (ix1 c) (fun a =>
    match a with
    | ⟨0, _⟩ => rfl)).trans ?_
  exact congrArg lit0 (Fin.ext (Shape.rowMajor_val_one _))

/-- The shifted array read at (b, c): the padded input plus the offset. -/
theorem xbOf_apply (x : IVec S1024x2626 32) (b : Fin 1024) (c : Fin 2688) :
    xbOf x (ix2 b c) = padded x (ix2 b c) + BitVec.ofNat 32 (offsNat c.val) := by
  have h0 : xbOf x (ix2 b c) = padded x (ix2 b c)
      + broadcastInDim S1024x2688 ![0, 1] bcast_S1x2688_S1024x2688_0_1
          (broadcastInDim S1x2688 ![1] bcast_S2688_S1x2688_1 (fun i => lit0 (S2688.rowMajor i) : IVec S2688 32))
          (ix2 b c) := rfl
  rw [h0, offs_bcast_apply, lit0_eq]

/-- The shifted array read at (b, c), as a number. -/
theorem xbOf_toNat (x : IVec S1024x2626 32) (hx : ∀ i, (x i).toNat ≤ 99) (b : Fin 1024) (c : Fin 2688) :
    (xbOf x (ix2 b c)).toNat = xbNat x b c.val := by
  rw [xbOf_apply]
  have ho := offsNat_le c.val
  by_cases h : c.val < 2626
  · rw [padded_apply_lt x b c h]
    unfold xbNat
    rw [dif_pos h, BitVec.toNat_add, BitVec.toNat_ofNat]
    have := hx (ix2 b (⟨c.val, h⟩ : Fin 2626))
    omega
  · rw [padded_apply_ge x b c (by omega)]
    unfold xbNat
    rw [dif_neg h, BitVec.toNat_add, BitVec.toNat_ofNat]
    have : offsNat c.val = 2688 := by unfold offsNat; rw [if_neg (by omega)]
    rw [this]
    rfl

/-- Column q of the left half and of the right half, as columns of the shifted array. -/
def qlo (q : Fin 1344) : Fin 2688 := ⟨q.val, by have := q.isLt; omega⟩
def qhi (q : Fin 1344) : Fin 2688 := ⟨1344 + q.val, by have := q.isLt; omega⟩

/-- The packed word at (b, q): column q of the shifted array in the low half, column 1344 + q in the
    high half. -/
theorem xpOf_apply (x : IVec S1024x2626 32) (b : Fin 1024) (q : Fin 1344) :
    xpOf x (ix2 b q) = xbOf x (ix2 b (qlo q)) ||| xbOf x (ix2 b (qhi q)) <<< 16 := by
  have h0 : xpOf x (ix2 b q)
      = IntOp.ori (extractStridedSlice S1024x1344 ![0, 0] (xbOf x) slices_S1024x2688_S1024x1344_0_0 (ix2 b q))
          (IntOp.shli .host
            (extractStridedSlice S1024x1344 ![0, 1344] (xbOf x) slices_S1024x2688_S1024x1344_0_1344 (ix2 b q))
            (16#32)) := rfl
  rw [h0,
    extractStridedSlice_apply (![0, 0] : Fin 2 → Nat) (xbOf x) slices_S1024x2688_S1024x1344_0_0 (ix2 b q) (ix2 b (qlo q))
      (fun a => match a with
        | ⟨0, _⟩ => by show b.val = 0 + b.val; omega
        | ⟨1, _⟩ => by show q.val = 0 + q.val; omega),
    extractStridedSlice_apply (![0, 1344] : Fin 2 → Nat) (xbOf x) slices_S1024x2688_S1024x1344_0_1344 (ix2 b q) (ix2 b (qhi q))
      (fun a => match a with
        | ⟨0, _⟩ => by show b.val = 0 + b.val; omega
        | ⟨1, _⟩ => by show 1344 + q.val = 1344 + q.val; rfl)]
  simp [IntOp.ori, IntOp.shli]

/-- The low half of the packed word at (b, q) is column q of the shifted array. -/
theorem xpOf_lo (x : IVec S1024x2626 32) (hx : ∀ i, (x i).toNat ≤ 99) (b : Fin 1024) (q : Fin 1344) :
    ((xpOf x (ix2 b q)) &&& 65535#32).toNat = xbNat x b q.val := by
  have hA := xbOf_toNat x hx b (qlo q)
  have hB := xbOf_toNat x hx b (qhi q)
  have hAl := xbNat_le x hx b (qlo q).val
  have hBl := xbNat_le x hx b (qhi q).val
  rw [xpOf_apply, pack_lo _ _ (by omega) (by omega), hA]
  rfl

/-- The high half of the packed word at (b, q) is column 1344 + q of the shifted array. -/
theorem xpOf_hi (x : IVec S1024x2626 32) (hx : ∀ i, (x i).toNat ≤ 99) (b : Fin 1024) (q : Fin 1344) :
    ((xpOf x (ix2 b q)) >>> 16).toNat = xbNat x b (1344 + q.val) := by
  have hA := xbOf_toNat x hx b (qlo q)
  have hB := xbOf_toNat x hx b (qhi q)
  have hAl := xbNat_le x hx b (qlo q).val
  have hBl := xbNat_le x hx b (qhi q).val
  rw [xpOf_apply, pack_hi _ _ (by omega) (by omega), hB]
  rfl

/-- Every half-word of the packed array names one of the 2800 bins. -/
theorem packed_xpOf (x : IVec S1024x2626 32) (hx : ∀ i, (x i).toNat ≤ 99) :
    Cert.Proof.ScSpec.Packed (xpOf x) := by
  intro i
  obtain ⟨b, q, rfl⟩ : ∃ (b : Fin 1024) (q : Fin 1344), i = ix2 b q := ⟨i 0, i 1, eq_ix2 i⟩
  rw [xpOf_lo x hx b q, xpOf_hi x hx b q]
  have h1 := xbNat_le x hx b q.val
  have h2 := xbNat_le x hx b (1344 + q.val)
  constructor <;> omega

end Cert.Proof.Math

end
-- ==== Proof.PackW.lean ====
/-
  The packed index array read at an index.

  Column c of the shifted array holds the input's entry plus the offset of column c: 100 i for the j-th
  entry (j < 100) of field i, where c = 101 i + j; 2688, past every kept bin, for the unused column of
  each field and for the padding columns. The left and right halves of the shifted array are the low
  and the high sixteen bits of the packed words.
-/
import Idealize.ShloMosaic.Lib.Pipeline.Value
import Idealize.ShloMosaic.Lib.KernelVsHost
import proofs.«205260_g26156350832969_cont_9to1_3_23_alg».proof.Proof.KHostW
import proofs.«205260_g26156350832969_cont_9to1_3_23_alg».proof.Proof.ScSpec
import proofs.«205260_g26156350832969_cont_9to1_3_23_alg».proof.Proof.LibPackHalves

noncomputable section

namespace Cert.Proof.MathW
open Cert.Proof.Math

open Idealize.ShloMosaic Idealize.ShloMosaic.ValueIdx
open Cert.Kernel Cert.Kernel.Facts₀ Cert.Kernel.Facts Cert.Kernel.KHost

variable [Cert.Kernel.Facts]

/-- The offset of column c: 100 i on the hundred used columns of field i, 2688 elsewhere. -/
def offsNat (c : Nat) : Nat := if c < 2626 ∧ c % 101 < 100 then 100 * (c / 101) else 2688

theorem offsNat_le (c : Nat) : offsNat c ≤ 2688 := by
  unfold offsNat; split <;> omega

/-- The literal table in closed form. -/
theorem lit0t_eq : ∀ i : Nat, i < 2688 → lit0t i = BitVec.ofNat 32 (offsNat i) := by decide +kernel

theorem lit0_eq (c : Fin 2688) : lit0 c = BitVec.ofNat 32 (offsNat c.val) := lit0t_eq c.val c.isLt

/-- Column c of row b of the shifted array, as a number. -/
def xbNat (x : IVec S1024x2626 32) (b : Fin 1024) (c : Nat) : Nat :=
  if h : c < 2626 then (x (ix2 b (⟨c, h⟩ : Fin 2626))).toNat + offsNat c else 2688

theorem xbNat_le (x : IVec S1024x2626 32) (hx : ∀ i, (x i).toNat ≤ 99) (b : Fin 1024) (c : Nat) :
    xbNat x b c ≤ 2787 := by
  unfold xbNat
  split
  · have := hx (ix2 b (⟨c, ‹c < 2626›⟩ : Fin 2626)); have := offsNat_le c; omega
  · omega

/-- The input padded with zeros to 2688 columns. -/
def padded (x : IVec S1024x2626 32) : IVec S1024x2688 32 :=
  pad S1024x2688 ![0, 0] ![0, 62] ![0, 0] x (id (constantI S_ 32 0#32 : IVec S_ 32))
    pads_S1024x2626_S1024x2688_000_0620 h_S_

theorem padded_apply_lt (x : IVec S1024x2626 32) (b : Fin 1024) (c : Fin 2688) (h : c.val < 2626) :
    padded x (ix2 b c) = x (ix2 b (⟨c.val, h⟩ : Fin 2626)) := by
  unfold padded
  exact pad_apply_of_inside _ _ _ _ _ _ _ (ix2 b c) (ix2 b (⟨c.val, h⟩ : Fin 2626)) (fun a =>
    match a with
    | ⟨0, _⟩ => by show b.val = 0 + b.val * (0 + 1); omega
    | ⟨1, _⟩ => by show c.val = 0 + c.val * (0 + 1); omega)

theorem padded_apply_ge (x : IVec S1024x2626 32) (b : Fin 1024) (c : Fin 2688) (h : 2626 ≤ c.val) :
    padded x (ix2 b c) = 0#32 := by
  unfold padded
  exact pad_apply_of_not_inside _ _ _ _ _ _ _ (ix2 b c) (⟨1, by decide⟩ : Fin 2) (by
    show ¬(0 ≤ c.val ∧ (c.val - 0) % (0 + 1) = 0 ∧ (c.val - 0) / (0 + 1) < 2626)
    omega)

/-- The offsets row broadcast over the rows, read at (b, c). -/
theorem offs_bcast_apply (b : Fin 1024) (c : Fin 2688) :
    broadcastInDim S1024x2688 ![0, 1] bcast_S1x2688_S1024x2688_0_1
      (broadcastInDim S1x2688 ![1] bcast_S2688_S1x2688_1 (fun i => lit0 (S2688.rowMajor i) : IVec S2688 32))
      (ix2 b c) = lit0 c := by
  refine (broadcastInDim_apply _ _ _ (ix2 b c) (ix2 (0 : Fin 1) c) (fun a =>
    match a with
    | ⟨0, _⟩ => rfl
    | ⟨1, _⟩ => rfl)).trans ?_
  refine (broadcastInDim_apply _ _ _ (ix2 (0 : Fin 1) c) (ix1 c) (fun a =>
    match a with
    | ⟨0, _⟩ => rfl)).trans ?_
  exact congrArg lit0 (Fin.ext (Shape.rowMajor_val_one _))

/-- The shifted array read at (b, c): the padded input plus the offset. -/
theorem xbOf_apply (x : IVec S1024x2626 32) (b : Fin 1024) (c : Fin 2688) :
    xbOf x (ix2 b c) = padded x (ix2 b c) + BitVec.ofNat 32 (offsNat c.val) := by
  have h0 : xbOf x (ix2 b c) = padded x (ix2 b c)
      + broadcastInDim S1024x2688 ![0, 1] bcast_S1x2688_S1024x2688_0_1
          (broadcastInDim S1x2688 ![1] bcast_S2688_S1x2688_1 (fun i => lit0 (S2688.rowMajor i) : IVec S2688 32))
          (ix2 b c) := rfl
  rw [h0, offs_bcast_apply, lit0_eq]

/-- The shifted array read at (b, c), as a number. -/
theorem xbOf_toNat (x : IVec S1024x2626 32) (hx : ∀ i, (x i).toNat ≤ 99) (b : Fin 1024) (c : Fin 2688) :
    (xbOf x (ix2 b c)).toNat = xbNat x b c.val := by
  rw [xbOf_apply]
  have ho := offsNat_le c.val
  by_cases h : c.val < 2626
  · rw [padded_apply_lt x b c h]
    unfold xbNat
    rw [dif_pos h, BitVec.toNat_add, BitVec.toNat_ofNat]
    have := hx (ix2 b (⟨c.val, h⟩ : Fin 2626))
    omega
  · rw [padded_apply_ge x b c (by omega)]
    unfold xbNat
    rw [dif_neg h, BitVec.toNat_add, BitVec.toNat_ofNat]
    have : offsNat c.val = 2688 := by unfold offsNat; rw [if_neg (by omega)]
    rw [this]
    rfl

/-- Column q of the left half and of the right half, as columns of the shifted array. -/
def qlo (q : Fin 1344) : Fin 2688 := ⟨q.val, by have := q.isLt; omega⟩
def qhi (q : Fin 1344) : Fin 2688 := ⟨1344 + q.val, by have := q.isLt; omega⟩

/-- The packed word at (b, q): column q of the shifted array in the low half, column 1344 + q in the
    high half. -/
theorem xpOf_apply (x : IVec S1024x2626 32) (b : Fin 1024) (q : Fin 1344) :
    xpOf x (ix2 b q) = xbOf x (ix2 b (qlo q)) ||| xbOf x (ix2 b (qhi q)) <<< 16 := by
  have h0 : xpOf x (ix2 b q)
      = IntOp.ori (extractStridedSlice S1024x1344 ![0, 0] (xbOf x) slices_S1024x2688_S1024x1344_0_0 (ix2 b q))
          (IntOp.shli .host
            (extractStridedSlice S1024x1344 ![0, 1344] (xbOf x) slices_S1024x2688_S1024x1344_0_1344 (ix2 b q))
            (16#32)) := rfl
  rw [h0,
    extractStridedSlice_apply (![0, 0] : Fin 2 → Nat) (xbOf x) slices_S1024x2688_S1024x1344_0_0 (ix2 b q) (ix2 b (qlo q))
      (fun a => match a with
        | ⟨0, _⟩ => by show b.val = 0 + b.val; omega
        | ⟨1, _⟩ => by show q.val = 0 + q.val; omega),
    extractStridedSlice_apply (![0, 1344] : Fin 2 → Nat) (xbOf x) slices_S1024x2688_S1024x1344_0_1344 (ix2 b q) (ix2 b (qhi q))
      (fun a => match a with
        | ⟨0, _⟩ => by show b.val = 0 + b.val; omega
        | ⟨1, _⟩ => by show 1344 + q.val = 1344 + q.val; rfl)]
  simp [IntOp.ori, IntOp.shli]

/-- The low half of the packed word at (b, q) is column q of the shifted array. -/
theorem xpOf_lo (x : IVec S1024x2626 32) (hx : ∀ i, (x i).toNat ≤ 99) (b : Fin 1024) (q : Fin 1344) :
    ((xpOf x (ix2 b q)) &&& 65535#32).toNat = xbNat x b q.val := by
  have hA := xbOf_toNat x hx b (qlo q)
  have hB := xbOf_toNat x hx b (qhi q)
  have hAl := xbNat_le x hx b (qlo q).val
  have hBl := xbNat_le x hx b (qhi q).val
  rw [xpOf_apply, pack_lo _ _ (by omega) (by omega), hA]
  rfl

/-- The high half of the packed word at (b, q) is column 1344 + q of the shifted array. -/
theorem xpOf_hi (x : IVec S1024x2626 32) (hx : ∀ i, (x i).toNat ≤ 99) (b : Fin 1024) (q : Fin 1344) :
    ((xpOf x (ix2 b q)) >>> 16).toNat = xbNat x b (1344 + q.val) := by
  have hA := xbOf_toNat x hx b (qlo q)
  have hB := xbOf_toNat x hx b (qhi q)
  have hAl := xbNat_le x hx b (qlo q).val
  have hBl := xbNat_le x hx b (qhi q).val
  rw [xpOf_apply, pack_hi _ _ (by omega) (by omega), hB]
  rfl

/-- Every half-word of the packed array names one of the 2800 bins. -/
theorem packed_xpOf (x : IVec S1024x2626 32) (hx : ∀ i, (x i).toNat ≤ 99) :
    Cert.Proof.ScSpec.Packed (xpOf x) := by
  intro i
  obtain ⟨b, q, rfl⟩ : ∃ (b : Fin 1024) (q : Fin 1344), i = ix2 b q := ⟨i 0, i 1, eq_ix2 i⟩
  rw [xpOf_lo x hx b q, xpOf_hi x hx b q]
  have h1 := xbNat_le x hx b q.val
  have h2 := xbNat_le x hx b (1344 + q.val)
  constructor <;> omega

end Cert.Proof.MathW

end
-- ==== Proof.LibMatmulNN.lean ====
/-
  A row-by-column matrix product read at an index, over the extended reals, for any record of dimension numbers.

  For dimension numbers that contract the left operand's second axis with the right operand's first (left
  operand M×K, right operand K×N, no batch axis) the sum over the record's contraction index is, at row r and
  column c, the sum over k < K of lhs(r, k) · rhs(k, c).  The record is a parameter and the operands are plain
  functions to the extended reals, so the lemma serves operands of any float formats; the record's coordinate
  facts are hypotheses, each closed by unfolding at a literal record.
-/
import Idealize.ShloMosaic.PureOps.Ideal.Laws
import Idealize.ShloMosaic.Lib.ValueIdx

noncomputable section

namespace LibMatmulNN

open Idealize.ShloMosaic Idealize.ShloMosaic.ValueIdx

/-- The sum a row-by-column product is, with the contraction index a plain number below K: for dimension numbers
    that contract the left operand's second axis with the right operand's first (no batch axis), the entry at
    (r, c) sums lhs(r, k) · rhs(k, c) over k < K. -/
theorem contr_sum {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    (lhs : (⟨2, ![M, K]⟩ : Shape).Idx → EReal) (rhs : (⟨2, ![K, N]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 k c) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 k c :=
    funext fun a => Fin.ext (by
      match a with
      | ⟨0, _⟩ => exact (D.rhsIdx_val_of_single hrc (ix2 r c) _).trans hk
      | ⟨1, _⟩ => exact hr1 _ _)
  rw [el, er]

end LibMatmulNN

end
-- ==== Proof.LibRowOps.lean ====
/-
  Row-wise operations on matrices of extended reals, read at an index.

  A matrix product accumulated into the zero matrix reads, at (r, c), the sum over k of lhs(r,k)·rhs(k,c) — and, when
  the right operand is given row by row (its second axis contracted), the sum over k of lhs(r,k)·rhs(c,k).  A sum
  along the rows of an a-by-b matrix reads, at row p, the sum of the row's b entries; a maximum along the rows reads
  the fold of max from the accumulator's value over the row's entries.  An a-by-1 column transposed to a 1-by-a row
  reads the column's entry.
-/
import Idealize.ShloMosaic.PureOps.Ideal.Laws
import Idealize.ShloMosaic.Lib.ValueIdx
import Idealize.ShloMosaic.Lib.Pipeline.Value
import proofs.«205260_g26156350832969_cont_9to1_3_23_alg».proof.Proof.LibMatmulNN

noncomputable section

namespace LibRowOps

open Idealize.ShloMosaic Idealize.ShloMosaic.ValueIdx

/-- A row-by-column product into the zero splat, read at (r, c): the sum over k of lhs(r,k)·rhs(k,c). -/
theorem matmulNN_apply {M K N : Nat} (D : DotDims ⟨2, ![M, K]⟩ ⟨2, ![K, N]⟩ ⟨2, ![M, N]⟩)
    (hr : D.contr.rank = 1) (hs : D.contr.size ⟨0, by omega⟩ = K)
    (hlc : D.lhsContracting = [1]) (hrc : D.rhsContracting = [0])
    (hl0 : ∀ (j : (⟨2, ![M, N]⟩ : Shape).Idx) (k : D.contr.Idx), (D.lhsIdx j k 0).val = (j 0).val)
    (hr1 : ∀ (j : (⟨2, ![M, N]⟩ : Shape).Idx) (k : D.contr.Idx), (D.rhsIdx j k 1).val = (j 1).val)
    {φ₁ φ₂ : FTy} (lhs : FVec Ideal ⟨2, ![M, K]⟩ φ₁) (rhs : FVec Ideal ⟨2, ![K, N]⟩ φ₂) (r : Fin M) (c : Fin N) :
    matmul D none lhs rhs (constant ⟨2, ![M, N]⟩ .f32 0x00000000#32) (ix2 r c) = ∑ k : Fin K, lhs (ix2 r k) * rhs (ix2 k c) :=
  (Ideal.matmul_constant_zero_apply D none lhs rhs (ix2 r c)).trans
    (LibMatmulNN.contr_sum D hr hs hlc hrc hl0 hr1 lhs rhs r c)

/-- The sum a row-by-row product is: for dimension numbers that contract the second axis of both operands (no
    batch axis), the entry at (r, c) sums lhs(r, k) · rhs(c, k) over k < K. -/
theorem contr_sum_nt {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    (lhs : (⟨2, ![M, K]⟩ : Shape).Idx → EReal) (rhs : (⟨2, ![N, K]⟩ : Shape).Idx → EReal) (r : Fin M) (c : Fin N) :
    (∑ k : D.contr.Idx, lhs (D.lhsIdx (ix2 r c) k) * rhs (D.rhsIdx (ix2 r c) k))
      = ∑ k : Fin K, lhs (ix2 r k) * rhs (ix2 c k) := by
  rw [← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k :=
    funext fun a => Fin.ext (by
      match a with
      | ⟨0, _⟩ => exact hl0 _ _
      | ⟨1, _⟩ => exact (D.lhsIdx_val_of_single hlc (ix2 r c) _).trans hk)
  have er : D.rhsIdx (ix2 r c) ((contrEquiv1 D K hr hs).symm k) = ix2 c k :=
    funext fun a => Fin.ext (by
      match a with
      | ⟨0, _⟩ => exact hr0 _ _
      | ⟨1, _⟩ => exact (D.rhsIdx_val_of_single hrc (ix2 r c) _).trans hk)
  rw [el, er]

/-- A row-by-row product into the zero splat, read at (r, c): the sum over k of lhs(r,k)·rhs(c,k). -/
theorem matmulNT_apply {M K N : Nat} (D : DotDims ⟨2, ![M, K]⟩ ⟨2, ![N, K]⟩ ⟨2, ![M, N]⟩)
    (hr : D.contr.rank = 1) (hs : D.contr.size ⟨0, by omega⟩ = K)
    (hlc : D.lhsContracting = [1]) (hrc : D.rhsContracting = [1])
    (hl0 : ∀ (j : (⟨2, ![M, N]⟩ : Shape).Idx) (k : D.contr.Idx), (D.lhsIdx j k 0).val = (j 0).val)
    (hr0 : ∀ (j : (⟨2, ![M, N]⟩ : Shape).Idx) (k : D.contr.Idx), (D.rhsIdx j k 0).val = (j 1).val)
    {φ₁ φ₂ : FTy} (lhs : FVec Ideal ⟨2, ![M, K]⟩ φ₁) (rhs : FVec Ideal ⟨2, ![N, K]⟩ φ₂) (r : Fin M) (c : Fin N) :
    matmul D none lhs rhs (constant ⟨2, ![M, N]⟩ .f32 0x00000000#32) (ix2 r c) = ∑ k : Fin K, lhs (ix2 r k) * rhs (ix2 c k) :=
  (Ideal.matmul_constant_zero_apply D none lhs rhs (ix2 r c)).trans
    (contr_sum_nt D hr hs hlc hrc hl0 hr0 lhs rhs r c)

/-- A sum along the rows of an a-by-b matrix, read at row p: the sum of the row's entries. -/
theorem sum_rows_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A maximum along the rows of an a-by-b matrix, read at row p: the fold of max, from the accumulator's value, over
    the row's entries. -/
theorem max_rows_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src 0xFF800000#32 h hφ hacc (ix1 p)).trans
    (congrArg (fun f => (Finset.univ : Finset (Fin b)).fold max (Ideal.ofBits .f32 0xFF800000#32) f)
      (funext fun k => congrArg src (funext fun c => Fin.ext (by
        match c with
        | ⟨0, _⟩ => rfl
        | ⟨1, _⟩ => rfl))))

variable {α : Type}

/-- An a-by-1 column transposed to a 1-by-a row reads, at (u, p), the column at (p, u). -/
theorem transpose_col_row_apply {a : ℕ} (v : (⟨2, ![a, 1]⟩ : Shape).Idx → α)
    (h : (⟨2, ![a, 1]⟩ : Shape).Transposes [1, 0] ⟨2, ![1, a]⟩) (u : Fin 1) (p : Fin a) :
    transpose ⟨2, ![1, a]⟩ [1, 0] v h (ix2 u p) = v (ix2 p u) :=
  transpose_apply [1, 0] v h (ix2 u p) (ix2 p u) (fun b => by
    match b with
    | ⟨0, _⟩ => rfl
    | ⟨1, _⟩ => rfl)

end LibRowOps

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.TcOutApply.lean ====
/-
  Row b of the dense head's result at the extended reals, as explicit sums: the logistic of the linear part
  (the counts against column 32 of the table, the dense features against their weights, the bias) plus half of
  the difference between the sum over the 32 embedding columns of the squared products and the sum of the
  products with the squared table.
-/
import proofs.«205260_g26156350832969_cont_9to1_3_23_alg».proof.Proof.TcOut
import proofs.«205260_g26156350832969_cont_9to1_3_23_alg».proof.Proof.LibRowOps
import proofs.«205260_g26156350832969_cont_9to1_3_23_alg».proof.Proof.LibColumn
import proofs.«205260_g26156350832969_cont_9to1_3_23_alg».proof.Proof.Gen.KernelIdeal
import Idealize.ShloMosaic.Lib.Pipeline.Value
import Idealize.ShloMosaic.PureOps.Ideal.Laws

noncomputable section

namespace Cert.Proof.KI

open Cert.KernelIdeal Cert.KernelIdeal.Gen
open Idealize.ShloMosaic
open Idealize.ShloMosaic.ValueIdx

/-- The 256-by-2688 times 2688-by-64 product into zero, at (r, c). -/
theorem mm_big (lhs : FVec Ideal S256x2688 .f32) (rhs : FVec Ideal S2688x64 .f32) (r : Fin 256) (c : Fin 64) :
    matmul dot_S256x2688_S2688x64_S256x64_1_0_0_1_n_n none lhs rhs (constant (F := Ideal) S256x64 .f32 0x00000000#32) (ix2 r c)
      = ∑ k : Fin 2688, lhs (ix2 r k) * rhs (ix2 k c) :=
  LibRowOps.matmulNN_apply dot_S256x2688_S2688x64_S256x64_1_0_0_1_n_n rfl rfl rfl rfl (fun _ _ => rfl) (fun _ _ => rfl) lhs rhs r c

/-- The 256-by-13 times 13-by-1 product into zero, at (r, 0). -/
theorem mm_dense (lhs : FVec Ideal S256x13 .f32) (rhs : FVec Ideal S13x1 .f32) (r : Fin 256) (c : Fin 1) :
    matmul dot_S256x13_S13x1_S256x1_1_0_0_1_n_n none lhs rhs (constant (F := Ideal) S256x1 .f32 0x00000000#32) (ix2 r c)
      = ∑ k : Fin 13, lhs (ix2 r k) * rhs (ix2 k c) :=
  LibRowOps.matmulNN_apply dot_S256x13_S13x1_S256x1_1_0_0_1_n_n rfl rfl rfl rfl (fun _ _ => rfl) (fun _ _ => rfl) lhs rhs r c

/-- Columns 0 to 31 of a 256-by-64 matrix, at (r, e). -/
theorem slice_left (x : FVec Ideal S256x64 .f32) (r : Fin 256) (e : Fin 32) :
    extractStridedSlice S256x32 ![0, 0] x slices_S256x64_o0_0_S256x32 (ix2 r e) = x (ix2 r (⟨e.val, by omega⟩ : Fin 64)) :=
  extractStridedSlice_apply _ x _ _ _ (fun a => by
    match a with
    | ⟨0, _⟩ => show r.val = 0 + r.val; omega
    | ⟨1, _⟩ => show e.val = 0 + e.val; omega)

/-- Column 32 of a 256-by-64 matrix, at (r, 0). -/
theorem slice_col32 (x : FVec Ideal S256x64 .f32) (r : Fin 256) (u : Fin 1) :
    extractStridedSlice S256x1 ![0, 32] x slices_S256x64_o0_32_S256x1 (ix2 r u) = x (ix2 r (32 : Fin 64)) :=
  extractStridedSlice_apply _ x _ _ _ (fun a => by
    match a with
    | ⟨0, _⟩ => show r.val = 0 + r.val; omega
    | ⟨1, _⟩ => show (32 : Fin 64).val = 32 + u.val; have := u.isLt; show 32 = 32 + u.val; omega)

/-- The bias read out of its one-by-one array. -/
theorem extract_bias (bs : FVec Ideal S1x1 .f32) : extractAt ![0, 0] bs inpos_S1x1_p0_0 = bs (ix2 (0 : Fin 1) (0 : Fin 1)) :=
  congrArg bs (funext fun a => by
    match a with
    | ⟨0, _⟩ => rfl
    | ⟨1, _⟩ => rfl)

/-- One block's output at row r. -/
theorem tcBlock_apply (c : FVec Ideal S256x2688 .f32) (t : FVec Ideal S2688x64 .f32) (dn : FVec Ideal S256x13 .f32)
    (wd : FVec Ideal S13x1 .f32) (bs : FVec Ideal S1x1 .f32) (r : Fin 256) :
    tcBlock (F := Ideal) c t dn wd bs (ix2 r (0 : Fin 1))
      = Ideal.logistic
          ((((∑ k : Fin 2688, c (ix2 r k) * t (ix2 k (32 : Fin 64))) + ∑ d : Fin 13, dn (ix2 r d) * wd (ix2 d (0 : Fin 1)))
              + bs (ix2 (0 : Fin 1) (0 : Fin 1)))
            + Ideal.ofBits .f32 0x3F000000#32
              * ((∑ e : Fin 32, (∑ k : Fin 2688, c (ix2 r k) * t (ix2 k (⟨e.val, by omega⟩ : Fin 64)))
                    * (∑ k : Fin 2688, c (ix2 r k) * t (ix2 k (⟨e.val, by omega⟩ : Fin 64))))
                - ∑ e : Fin 32, ∑ k : Fin 2688, c (ix2 r k) * (t (ix2 k (⟨e.val, by omega⟩ : Fin 64)) * t (ix2 k (⟨e.val, by omega⟩ : Fin 64))))) := by
  unfold tcBlock k1_pay1
  simp only [shapeCast_self]
  show Ideal.logistic _ = _
  congr 1
  simp only [addf_apply, mulf_apply, subf_apply, broadcast_apply]
  rw [Cert.Splat.Column.shapeCast_a_a1_apply, Cert.Splat.Column.shapeCast_a_a1_apply,
    LibRowOps.sum_rows_apply, LibRowOps.sum_rows_apply, slice_col32, mm_big, mm_dense]
  simp only [mulf_apply, slice_left, mm_big]
  rw [extract_bias]
  rfl

/-- Row b of the result at the extended reals, as explicit sums. -/
theorem tcOut_apply (cnt : FVec Ideal S1024x2688 .f32) (tbl : FVec Ideal S2688x64 .f32) (dense : FVec Ideal S1024x13 .f32)
    (wd : FVec Ideal S13x1 .f32) (bs : FVec Ideal S1x1 .f32) (b : Fin 1024) :
    tcOut (F := Ideal) cnt tbl dense wd bs (ix2 b (0 : Fin 1))
      = Ideal.logistic
          ((((∑ k : Fin 2688, cnt (ix2 b k) * tbl (ix2 k (32 : Fin 64))) + ∑ d : Fin 13, dense (ix2 b d) * wd (ix2 d (0 : Fin 1)))
              + bs (ix2 (0 : Fin 1) (0 : Fin 1)))
            + Ideal.ofBits .f32 0x3F000000#32
              * ((∑ e : Fin 32, (∑ k : Fin 2688, cnt (ix2 b k) * tbl (ix2 k (⟨e.val, by omega⟩ : Fin 64)))
                    * (∑ k : Fin 2688, cnt (ix2 b k) * tbl (ix2 k (⟨e.val, by omega⟩ : Fin 64))))
                - ∑ e : Fin 32, ∑ k : Fin 2688, cnt (ix2 b k) * (tbl (ix2 k (⟨e.val, by omega⟩ : Fin 64)) * tbl (ix2 k (⟨e.val, by omega⟩ : Fin 64))))) := by
  have hrow : ∀ (k : Fin 2688), cntBlock cnt (blockOfRow b) (ix2 (rowInBlock b) k) = cnt (ix2 b k) := fun k =>
    congrArg cnt (funext fun a => Fin.ext (by
      match a with
      | ⟨0, _⟩ => show 256 * (b.val / 256) + b.val % 256 = b.val; omega
      | ⟨1, _⟩ => rfl))
  have hden : ∀ (d : Fin 13), denseBlock dense (blockOfRow b) (ix2 (rowInBlock b) d) = dense (ix2 b d) := fun d =>
    congrArg dense (funext fun a => Fin.ext (by
      match a with
      | ⟨0, _⟩ => show 256 * (b.val / 256) + b.val % 256 = b.val; omega
      | ⟨1, _⟩ => rfl))
  show tcBlock (F := Ideal) (cntBlock cnt (blockOfRow b)) tbl (denseBlock dense (blockOfRow b)) wd bs (ix2 (rowInBlock b) (0 : Fin 1)) = _
  rw [tcBlock_apply]
  simp only [hrow, hden]

end Cert.Proof.KI

end
-- ==== Proof.TableRead.lean ====
/-
  The combined table read at an index.

  Row 100 i + v of the table (field i, value v) holds the 32 embedding entries of (i, v) in its first 32
  columns and, in column 32, the linear entry of (i, v) times the weight of field i.
-/
import Idealize.ShloMosaic.Lib.Pipeline.Value
import Idealize.ShloMosaic.Lib.KernelVsHost
import proofs.«205260_g26156350832969_cont_9to1_3_23_alg».proof.Proof.KHost

noncomputable section

namespace Cert.Proof.Math

open Idealize.ShloMosaic Idealize.ShloMosaic.ValueIdx
open Cert.KernelIdeal Cert.KernelIdeal.Facts₀ Cert.KernelIdeal.Facts Cert.KernelIdeal.KHost

variable {F : FTy → Type} [FloatOps F] [Cert.KernelIdeal.Facts]

/-- The bin of value v of field i, among the 2688 kept bins and among the 2600 used ones. -/
def binOf (i : Fin 26) (v : Fin 100) : Fin 2688 := ⟨100 * i.val + v.val, by have := i.isLt; have := v.isLt; omega⟩
def binOf' (i : Fin 26) (v : Fin 100) : Fin 2600 := ⟨100 * i.val + v.val, by have := i.isLt; have := v.isLt; omega⟩

/-- The embedding tables laid out as 2600 rows. -/
def embFlat (emb : FVec F S26x100x32 .f32) : FVec F S2600x32 .f32 :=
  shapeCast S2600x32 emb shapeCasts_S26x100x32_S2600x32

/-- The linear entries times their field's weight. -/
def lprod (lin : FVec F S26x100x1 .f32) (W : FVec F S39x1 .f32) : FVec F S26x100 .f32 :=
  mulf (shapeCast S26x100 lin shapeCasts_S26x100x1_S26x100)
    (broadcastInDim S26x100 ![0, 1] bcast_S26x1_S26x100_0_1 (extractStridedSlice S26x1 ![0, 0] W slices_S39x1_S26x1_0_0))

/-- The same as one column of 2600 rows. -/
def lvec (lin : FVec F S26x100x1 .f32) (W : FVec F S39x1 .f32) : FVec F S2600x1 .f32 :=
  shapeCast S2600x1 (lprod lin W) shapeCasts_S26x100_S2600x1

/-- The table before its 88 zero rows. -/
def tbl0 (emb : FVec F S26x100x32 .f32) (lin : FVec F S26x100x1 .f32) (W : FVec F S39x1 .f32) : FVec F S2600x64 .f32 :=
  concatenate S2600x64 1
    [⟨S2600x32, embFlat emb⟩, ⟨S2600x1, lvec lin W⟩,
      ⟨S2600x31, (broadcastInDim S2600x31 ![] bcast_S_S2600x31 (constant S_ .f32 0x00000000#32 : FVec F S_ .f32) : FVec F S2600x31 .f32)⟩]
    concatenates_S2600x32_S2600x1_S2600x31_S2600x64_d1

theorem tableOf_eq (emb : FVec F S26x100x32 .f32) (lin : FVec F S26x100x1 .f32) (W : FVec F S39x1 .f32) :
    tableOf emb lin W
      = pad S2688x64 ![0, 0] ![88, 0] ![0, 0] (tbl0 emb lin W) (sitofp .f32 (constantI S_ 32 0#32 : IVec S_ 32) : FVec F S_ .f32)
          pads_S2600x64_S2688x64_0880_000 h_S_ := rfl

/-- A used row of the table is the same row before the zero rows were added. -/
theorem tableOf_apply_used (emb : FVec F S26x100x32 .f32) (lin : FVec F S26x100x1 .f32) (W : FVec F S39x1 .f32)
    (i : Fin 26) (v : Fin 100) (n : Fin 64) :
    tableOf emb lin W (ix2 (binOf i v) n) = tbl0 emb lin W (ix2 (binOf' i v) n) := by
  rw [tableOf_eq]
  exact pad_apply_of_inside _ _ _ _ _ _ _ (ix2 (binOf i v) n) (ix2 (binOf' i v) n) (fun a =>
    match a with
    | ⟨0, _⟩ => by show 100 * i.val + v.val = 0 + (100 * i.val + v.val) * (0 + 1); omega
    | ⟨1, _⟩ => by show n.val = 0 + n.val * (0 + 1); omega)

/-- A row below the used ones holds the padding value, the conversion of the integer zero. -/
theorem tableOf_apply_pad (emb : FVec F S26x100x32 .f32) (lin : FVec F S26x100x1 .f32) (W : FVec F S39x1 .f32)
    (k : Fin 2688) (hk : 2600 ≤ k.val) (n : Fin 64) :
    tableOf emb lin W (ix2 k n) = FloatOps.sitofp .f32 (0#32 : BitVec 32) := by
  rw [tableOf_eq]
  exact pad_apply_of_not_inside _ _ _ _ _ _ _ (ix2 k n) (⟨0, by decide⟩ : Fin 2) (by
    show ¬(0 ≤ k.val ∧ (k.val - 0) % (0 + 1) = 0 ∧ (k.val - 0) / (0 + 1) < 2600)
    omega)

theorem embFlat_apply (emb : FVec F S26x100x32 .f32) (i : Fin 26) (v : Fin 100) (e : Fin 32) :
    embFlat emb (ix2 (binOf' i v) e) = emb (ix3 i v e) := by
  unfold embFlat
  refine shapeCast_apply _ _ (ix2 (binOf' i v) e) (ix3 i v e) ?_
  rw [Shape.rowMajor_val_three, Shape.rowMajor_val_two]
  show (i.val * 100 + v.val) * 32 + e.val = (100 * i.val + v.val) * 32 + e.val
  omega

theorem lprod_apply (lin : FVec F S26x100x1 .f32) (W : FVec F S39x1 .f32) (i : Fin 26) (v : Fin 100) :
    lprod lin W (ix2 i v)
      = FloatOps.mulf (lin (ix3 i v (0 : Fin 1))) (W (ix2 (⟨i.val, by have := i.isLt; omega⟩ : Fin 39) (0 : Fin 1))) := by
  have h0 : lprod lin W (ix2 i v)
      = FloatOps.mulf (shapeCast S26x100 lin shapeCasts_S26x100x1_S26x100 (ix2 i v))
          (broadcastInDim S26x100 ![0, 1] bcast_S26x1_S26x100_0_1
            (extractStridedSlice S26x1 ![0, 0] W slices_S39x1_S26x1_0_0) (ix2 i v)) := rfl
  rw [h0]
  congr 1
  · refine shapeCast_apply _ _ (ix2 i v) (ix3 i v (0 : Fin 1)) ?_
    rw [Shape.rowMajor_val_three, Shape.rowMajor_val_two]
    show (i.val * 100 + v.val) * 1 + 0 = i.val * 100 + v.val
    omega
  · refine (broadcastInDim_apply _ _ _ (ix2 i v) (ix2 i (0 : Fin 1)) (fun a =>
      match a with
      | ⟨0, _⟩ => rfl
      | ⟨1, _⟩ => rfl)).trans ?_
    exact extractStridedSlice_apply _ _ _ (ix2 i (0 : Fin 1)) (ix2 (⟨i.val, by have := i.isLt; omega⟩ : Fin 39) (0 : Fin 1))
      (fun a => match a with
        | ⟨0, _⟩ => by show i.val = 0 + i.val; omega
        | ⟨1, _⟩ => rfl)

theorem lvec_apply (lin : FVec F S26x100x1 .f32) (W : FVec F S39x1 .f32) (i : Fin 26) (v : Fin 100) :
    lvec lin W (ix2 (binOf' i v) (0 : Fin 1)) = lprod lin W (ix2 i v) := by
  unfold lvec
  refine shapeCast_apply _ _ (ix2 (binOf' i v) (0 : Fin 1)) (ix2 i v) ?_
  rw [Shape.rowMajor_val_two, Shape.rowMajor_val_two]
  show i.val * 100 + v.val = (100 * i.val + v.val) * 1 + 0
  omega

/-- The first 32 columns of a used row: the embedding entries. -/
theorem tableOf_apply_emb (emb : FVec F S26x100x32 .f32) (lin : FVec F S26x100x1 .f32) (W : FVec F S39x1 .f32)
    (i : Fin 26) (v : Fin 100) (e : Fin 32) :
    tableOf emb lin W (ix2 (binOf i v) (⟨e.val, by have := e.isLt; omega⟩ : Fin 64)) = emb (ix3 i v e) := by
  rw [tableOf_apply_used]
  refine Eq.trans ?_ (embFlat_apply emb i v e)
  unfold tbl0
  exact concatenate_apply_piece (1 : Fin S2600x64.rank) _ _ (ix2 (binOf' i v) (⟨e.val, by have := e.isLt; omega⟩ : Fin 64))
    0 (by simp) S2600x32 (embFlat emb) rfl rfl 0 rfl (ix2 (binOf' i v) e)
    (fun b hb => match b with
      | ⟨0, _⟩ => rfl
      | ⟨1, _⟩ => absurd rfl hb)
    (by show 0 + e.val = e.val; omega)

/-- Column 32 of a used row: the linear entry times the weight of its field. -/
theorem tableOf_apply_lin (emb : FVec F S26x100x32 .f32) (lin : FVec F S26x100x1 .f32) (W : FVec F S39x1 .f32)
    (i : Fin 26) (v : Fin 100) :
    tableOf emb lin W (ix2 (binOf i v) (32 : Fin 64))
      = FloatOps.mulf (lin (ix3 i v (0 : Fin 1))) (W (ix2 (⟨i.val, by have := i.isLt; omega⟩ : Fin 39) (0 : Fin 1))) := by
  rw [tableOf_apply_used]
  refine Eq.trans ?_ ((lvec_apply lin W i v).trans (lprod_apply lin W i v))
  unfold tbl0
  exact concatenate_apply_piece (1 : Fin S2600x64.rank) _ _ (ix2 (binOf' i v) (32 : Fin 64))
    1 (by simp) S2600x1 (lvec lin W) rfl rfl 32 rfl (ix2 (binOf' i v) (0 : Fin 1))
    (fun b hb => match b with
      | ⟨0, _⟩ => rfl
      | ⟨1, _⟩ => absurd rfl hb)
    (by show 32 + 0 = 32; rfl)

end Cert.Proof.Math

end
-- ==== Proof.LibStoreIdxAdd.lean ====
/-
  An indexed store with add, read at an element, over the extended reals.

  The lanes of the stored vector are taken in ascending order and each adds its value onto the element
  its indices name. Over the extended reals the add is the exact sum, which is associative and
  commutative, so the element at `j` after the store is the element before it plus the sum of the values
  of the lanes that name `j`.
-/
import Idealize.ShloMosaic.PureOps
import Idealize.ShloMosaic.Lib.ValueIdx

noncomputable section

namespace Cert.Proof.Math

open Idealize.ShloMosaic

/-- A left fold whose step adds a term depending on the item only: the result is the start plus the
    sum of the terms. -/
theorem foldl_add_eq {α β ι : Type} [AddCommMonoid β] (step : α → ι → α) (ev : α → β) (c : ι → β)
    (hstep : ∀ g k, ev (step g k) = ev g + c k) (L : List ι) (g : α) :
    ev (L.foldl step g) = ev g + (L.map c).sum := by
  induction L generalizing g with
  | nil => simp
  | cons k L ih =>
    rw [List.foldl_cons, ih, hstep, List.map_cons, List.sum_cons, add_assoc]

/-- An unmasked indexed store with add of f32 lanes, read at `j`, over the extended reals: what was
    there plus the values of the lanes whose indices name `j`. -/
theorem storeIdx_add_apply {s : Shape} {d : Fin 1 → Nat} (f : Vec Ideal s .f32)
    (idxs : Fin s.rank → IVec ⟨1, d⟩ 32) (v : Vec Ideal ⟨1, d⟩ .f32)
    (h : ∀ a x, (idxs a x).toNat < s.size a) (j : s.Idx) :
    storeIdx (F := Ideal) f idxs v (fun _ => 1#1) true h j
      = f j + ∑ k : Fin (d 0),
          if (∀ a, (j a).val = (idxs a (Shape.ofLane k)).toNat) then v (Shape.ofLane k) else 0 := by
  classical
  unfold storeIdx
  rw [foldl_add_eq (β := EReal) _ (fun g : Vec Ideal s .f32 => (g j : EReal))
    (fun k => if (∀ a, (j a).val = (idxs a (Shape.ofLane k)).toNat) then (v (Shape.ofLane k) : EReal) else 0)]
  · rw [Fin.sum_univ_def]
  · intro g k
    have h1 : ((1#1 : BitVec 1) = 1) := rfl
    rw [if_pos h1]
    beta_reduce
    by_cases hc : ∀ a, (j a).val = (idxs a (Shape.ofLane k)).toNat
    · have hj : j = idxAt idxs h (Shape.ofLane k) := by
        funext a; exact Fin.ext (hc a)
      have hc' : ∀ a, (j a).val = ((idxAt idxs h (Shape.ofLane k)) a).val := hc
      rw [if_pos hc', if_pos hc, ← hj]
      rfl
    · have hc' : ¬ ∀ a, (j a).val = ((idxAt idxs h (Shape.ofLane k)) a).val := hc
      rw [if_neg hc', if_neg hc, add_zero]

end Cert.Proof.Math

end
-- ==== Proof.HistCount.lean ====
/-
  The histogram of a packed row is a count, over the extended reals.

  A packed row holds 1344 words; word q carries two bin numbers, its low sixteen bits and its high
  sixteen bits. Each of the 2688 half-words adds one to the bin it names. Since the exact sum is
  associative and commutative, the order in which the half-words are consumed does not matter: bin k
  ends at the number of half-words that name k.
-/
import Idealize.ShloMosaic.PureOps
import Idealize.ShloMosaic.Lib.ValueIdx
import Idealize.ShloMosaic.Lib.IdealHost
import proofs.«205260_g26156350832969_cont_9to1_3_23_alg».proof.Proof.ScSpec
import proofs.«205260_g26156350832969_cont_9to1_3_23_alg».proof.Proof.LibStoreIdxAdd

noncomputable section

namespace Cert.Proof.Math

open Idealize.ShloMosaic Cert.Proof.ScSpec

/-- Lane l of a sixteen-lane vector, as the rank-one index with coordinate l. -/
theorem ofLane_eq_ix1 (l : Fin 16) :
    (Shape.ofLane (d := ![16]) l : S16.Idx) = ValueIdx.ix1 l := by
  funext a; match a with | ⟨0, _⟩ => rfl

/-- The low half of a lane. -/
theorem lo_apply (v : IVec S16 32) (x : S16.Idx) : lo v x = v x &&& 65535#32 := rfl

/-- The high half of a lane. -/
theorem hi_apply (v : IVec S16 32) (x : S16.Idx) : hi v x = v x >>> 16 := by
  simp [hi, shrui, IntOp.shrui, broadcast]

/-- Each lane adds the extended real one. -/
theorem ones_apply (x : S16.Idx) : (ones (F := Ideal)) x = (1 : EReal) := Ideal.ofBits_one_f32

/-- The bins start at the extended real zero. -/
theorem bins0_apply (x : S2800.Idx) : (bins0 (F := Ideal)) x = (0 : EReal) := Ideal.ofBits_zero_f32

/-- Sixteen lanes each add one to the bin they name: bin j grows by the number of lanes naming j. -/
theorem bump_apply (h : FVec Ideal S2800 .f32) (v : IVec S16 32) (hv : InBins v) (j : Fin 2800) :
    bump h v (ValueIdx.ix1 j)
      = h (ValueIdx.ix1 j) + ∑ l : Fin 16, if (v (ValueIdx.ix1 l)).toNat = j.val then (1 : EReal) else 0 := by
  unfold bump
  rw [dif_pos hv]
  rw [storeIdx_add_apply]
  congr 1
  apply Finset.sum_congr rfl
  intro l _
  have e : (v (Shape.ofLane (d := ![16]) l)).toNat = (v (ValueIdx.ix1 l)).toNat :=
    congrArg (fun x => (v x).toNat) (ofLane_eq_ix1 l)
  apply if_congr
  · constructor
    · intro hh
      have h0 : j.val = (v (Shape.ofLane (d := ![16]) l)).toNat := hh 0
      omega
    · intro hh a
      match a with
      | ⟨0, _⟩ =>
        show j.val = (v (Shape.ofLane (d := ![16]) l)).toNat
        omega
  · exact ones_apply _
  · rfl

/-- Word l of group g of a row is word 16 g + l of the row. -/
def gidx (g : Fin 84) (l : Fin 16) : Fin 1344 := ⟨16 * g.val + l.val, by have := g.isLt; have := l.isLt; omega⟩

theorem group_apply (xrow : IVec S1344 32) (g : Fin 84) (l : Fin 16) :
    group xrow g (ValueIdx.ix1 l) = xrow (ValueIdx.ix1 (gidx g l)) := rfl

/-- Both halves of every word of a row name a bin. -/
def PackedRowC (xrow : IVec S1344 32) : Prop :=
  ∀ q : Fin 1344, ((xrow (ValueIdx.ix1 q)) &&& 65535#32).toNat < 2800 ∧ ((xrow (ValueIdx.ix1 q)) >>> 16).toNat < 2800

theorem inBins_lo (xrow : IVec S1344 32) (hp : PackedRowC xrow) (g : Fin 84) : InBins (lo (group xrow g)) := by
  intro a x
  match a with
  | ⟨0, _⟩ =>
    obtain ⟨l, rfl⟩ : ∃ l : Fin 16, x = ValueIdx.ix1 l := ⟨x 0, ValueIdx.eq_ix1 x⟩
    show (lo (group xrow g) (ValueIdx.ix1 l)).toNat < 2800
    rw [lo_apply, group_apply]
    exact (hp _).1

theorem inBins_hi (xrow : IVec S1344 32) (hp : PackedRowC xrow) (g : Fin 84) : InBins (hi (group xrow g)) := by
  intro a x
  match a with
  | ⟨0, _⟩ =>
    obtain ⟨l, rfl⟩ : ∃ l : Fin 16, x = ValueIdx.ix1 l := ⟨x 0, ValueIdx.eq_ix1 x⟩
    show (hi (group xrow g) (ValueIdx.ix1 l)).toNat < 2800
    rw [hi_apply, group_apply]
    exact (hp _).2

/-- The two indicators of one word against bin j: its low half names j, its high half names j. -/
def wordInd (w : BitVec 32) (j : Nat) : EReal :=
  (if (w &&& 65535#32).toNat = j then (1 : EReal) else 0) + (if (w >>> 16).toNat = j then (1 : EReal) else 0)

/-- One group consumed: bin j grows by the number of half-words of the group that name j. -/
theorem histStep_apply (xrow : IVec S1344 32) (hp : PackedRowC xrow) (h : FVec Ideal S2800 .f32)
    (g : Fin 84) (j : Fin 2800) :
    histStep xrow h g (ValueIdx.ix1 j)
      = h (ValueIdx.ix1 j) + ∑ l : Fin 16, wordInd (xrow (ValueIdx.ix1 (gidx g l))) j.val := by
  unfold histStep
  rw [bump_apply _ _ (inBins_hi xrow hp g), bump_apply _ _ (inBins_lo xrow hp g), add_assoc,
    ← Finset.sum_add_distrib]
  congr 1

/-- All 84 groups consumed: bin j holds the number of half-words of the row that name j, summed by
    group and lane. -/
theorem histRow_apply_groups (xrow : IVec S1344 32) (hp : PackedRowC xrow) (j : Fin 2800) :
    histRow (F := Ideal) xrow (ValueIdx.ix1 j)
      = ∑ g : Fin 84, ∑ l : Fin 16, wordInd (xrow (ValueIdx.ix1 (gidx g l))) j.val := by
  unfold histRow histUpTo
  rw [List.take_of_length_le (by simp)]
  rw [foldl_add_eq (β := EReal) (histStep (F := Ideal) xrow) (fun h : FVec Ideal S2800 .f32 => (h (ValueIdx.ix1 j) : EReal))
    (fun g => ∑ l : Fin 16, wordInd (xrow (ValueIdx.ix1 (gidx g l))) j.val)
    (fun h g => histStep_apply xrow hp h g j)]
  rw [bins0_apply, zero_add, Fin.sum_univ_def]

/-- A sum over 84 groups of 16 lanes is the sum over the 1344 words. -/
theorem sum_groups {M : Type} [AddCommMonoid M] (f : Fin 1344 → M) :
    ∑ g : Fin 84, ∑ l : Fin 16, f (gidx g l) = ∑ q : Fin 1344, f q := by
  rw [← Fintype.sum_prod_type' (f := fun g l => f (gidx g l))]
  exact Fintype.sum_equiv (finProdFinEquiv (m := 84) (n := 16)) _ _ (fun p => by
    congr 1; apply Fin.ext; simp [gidx, finProdFinEquiv]; omega)

/-- All 84 groups consumed: bin j holds the number of half-words of the row that name j. -/
theorem histRow_apply (xrow : IVec S1344 32) (hp : PackedRowC xrow) (j : Fin 2800) :
    histRow (F := Ideal) xrow (ValueIdx.ix1 j)
      = ∑ q : Fin 1344, wordInd (xrow (ValueIdx.ix1 q)) j.val := by
  rw [histRow_apply_groups xrow hp j]
  exact sum_groups (fun q => wordInd (xrow (ValueIdx.ix1 q)) j.val)

/-- A row of a packed array is a packed row. -/
theorem packedRowC_rowOf (xp : IVec S1024x1344 32) (hp : Packed xp) (b : Fin 1024) : PackedRowC (rowOf xp b) :=
  fun q => hp (ValueIdx.ix2 b q)

/-- The histogram as a count: entry (b, k) of the result is the number of half-words of row b of the
    packed array that name k. -/
theorem counts_apply (xp : IVec S1024x1344 32) (hp : Packed xp) (b : Fin 1024) (k : Fin 2688) :
    counts (F := Ideal) xp (ValueIdx.ix2 b k)
      = ∑ q : Fin 1344,
          ((if ((xp (ValueIdx.ix2 b q)) &&& 65535#32).toNat = k.val then (1 : EReal) else 0)
            + (if ((xp (ValueIdx.ix2 b q)) >>> 16).toNat = k.val then (1 : EReal) else 0)) := by
  show histRow (F := Ideal) (rowOf xp b) (ValueIdx.ix1 (⟨k.val, Nat.lt_trans k.isLt (by decide)⟩ : Fin 2800)) = _
  rw [histRow_apply _ (packedRowC_rowOf xp hp b)]
  rfl

end Cert.Proof.Math

end
-- ==== Proof.RefSpec.lean ====
/-
  The value the reference computes at one batch row, as an explicit extended-real term.

  For batch row b, field i (of 26) and position j (of 100) the index array names row x[b, 101 i + j] of field i's
  tables.  The pre-activation is the linear part — per field the sum of the looked-up scalar weights times the
  field's coefficient, plus the dense features against their coefficients, plus the bias — and half of the sum
  over the 32 embedding coordinates of (square of the sum of the looked-up rows minus the sum of their squares).
-/
import proofs.«205260_g26156350832969_cont_9to1_3_23_alg».proof.ReferenceIdeal
import Idealize.ShloMosaic.Lib.ValueIdx

noncomputable section

open scoped BigOperators

namespace Cert.ReferenceIdeal.RefValue

open Cert.ReferenceIdeal Idealize.ShloMosaic Idealize.ShloMosaic.ValueIdx

/-- The table row named by the index at batch row b, field i, position j (every index read unsigned is at most 99). -/
def rowOf (x : IVec S1024x2626 32) (hx : ∀ i, (x i).toNat ≤ 99) (b : Fin 1024) (i : Fin 26) (j : Fin 100) : Fin 100 :=
  ⟨(x (ix2 b ⟨101 * i.val + j.val, by omega⟩)).toNat, by
    have := hx (ix2 b ⟨101 * i.val + j.val, by omega⟩); omega⟩

/-- The pre-activation at batch row b. -/
def refZ (x : IVec S1024x2626 32) (dense : FVec Ideal S1024x13 .f32) (lin : FVec Ideal S26x100x1 .f32)
    (emb : FVec Ideal S26x100x32 .f32) (W : FVec Ideal S39x1 .f32) (bias : FVec Ideal S1 .f32)
    (hx : ∀ i, (x i).toNat ≤ 99) (b : Fin 1024) : EReal :=
  ((∑ i : Fin 26, (∑ j : Fin 100, lin (ix3 i (rowOf x hx b i j) (0 : Fin 1))) * W (ix2 (⟨i.val, by omega⟩ : Fin 39) (0 : Fin 1)))
      + ∑ d : Fin 13, dense (ix2 b d) * W (ix2 (⟨26 + d.val, by omega⟩ : Fin 39) (0 : Fin 1)))
    + bias (ix1 (0 : Fin 1))
    + Ideal.ofBits .f32 0x3F000000#32 * ∑ e : Fin 32,
        ((∑ i : Fin 26, ∑ j : Fin 100, emb (ix3 i (rowOf x hx b i j) e))
            * (∑ i : Fin 26, ∑ j : Fin 100, emb (ix3 i (rowOf x hx b i j) e))
          - ∑ i : Fin 26, ∑ j : Fin 100, emb (ix3 i (rowOf x hx b i j) e) * emb (ix3 i (rowOf x hx b i j) e))

end Cert.ReferenceIdeal.RefValue

end
-- ==== Proof.LibIndicatorSum.lean ====
/-
  A sum weighted by hit counts.

  Let m send each item c to a natural number. Weighting f k by the number of items with m c = k and
  summing over k < n is the same as summing f (m c) over the items whose value is below n: each item
  contributes to exactly one k, or to none.
-/
import Mathlib.Algebra.BigOperators.Fin
import Mathlib.Algebra.BigOperators.Ring.Finset
import Mathlib.Data.Fintype.BigOperators

namespace Cert.Proof.Math

/-- A sum weighted by hit counts is the sum over the items. -/
theorem sum_hits_mul {γ : Type} [Fintype γ] {M : Type} [Semiring M] {n : ℕ} (m : γ → ℕ) (f : Fin n → M) :
    ∑ k : Fin n, (∑ c : γ, if m c = k.val then (1 : M) else 0) * f k
      = ∑ c : γ, if h : m c < n then f ⟨m c, h⟩ else 0 := by
  classical
  simp_rw [Finset.sum_mul]
  rw [Finset.sum_comm]
  apply Finset.sum_congr rfl
  intro c _
  by_cases h : m c < n
  · rw [dif_pos h, Finset.sum_eq_single (⟨m c, h⟩ : Fin n)]
    · simp
    · intro k _ hk
      rw [if_neg (fun e => hk (Fin.ext e.symm)), zero_mul]
    · intro hh
      exact absurd (Finset.mem_univ _) hh
  · rw [dif_neg h]
    apply Finset.sum_eq_zero
    intro k _
    rw [if_neg (show ¬ m c = k.val from fun e => h (by rw [e]; exact k.isLt)), zero_mul]

/-- A sum over m + n items splits into the first m and the last n, item by item, when m = n. -/
theorem sum_halves {M : Type} [AddCommMonoid M] {n : ℕ} (g : Fin (n + n) → M) :
    ∑ q : Fin n, (g (Fin.castAdd n q) + g (Fin.natAdd n q)) = ∑ c : Fin (n + n), g c := by
  rw [Fin.sum_univ_add, Finset.sum_add_distrib]

end Cert.Proof.Math
-- ==== Proof.LibERealSum.lean ====
/-
  Finite sums of real numbers inside the extended reals.

  The coercion of the reals into the extended reals commutes with finite sums; an extended real that
  is neither infinity is the coercion of a real number.
-/
import Mathlib.Data.EReal.Basic
import Mathlib.Data.EReal.Operations
import Mathlib.Algebra.BigOperators.Group.Finset.Basic

namespace Cert.Proof.Math

/-- The coercion commutes with finite sums. -/
@[norm_cast]
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of finite extended reals is the coercion of a family of reals. -/
theorem exists_real_of_finite {ι : Type} (f : ι → EReal) (h : ∀ i, f i ≠ ⊥ ∧ f i ≠ ⊤) :
    ∃ r : ι → ℝ, ∀ i, f i = (r i : EReal) :=
  ⟨fun i => (f i).toReal, fun i => (EReal.coe_toReal (h i).2 (h i).1).symm⟩

end Cert.Proof.Math
-- ==== Proof.CoreSum.lean ====
/-
  The counts against the table: the core identity, over the reals.

  Row b of the shifted index array has 2688 columns. Column 101 i + j (j < 100) of it names bin
  100 i + x[b, 101 i + j]; every other column names a bin past the 2688 kept ones. So weighting a
  function of the bins by the counts and summing over the kept bins is summing the function over the
  bins named by the 26 × 100 used columns.
-/
import proofs.«205260_g26156350832969_cont_9to1_3_23_alg».proof.Proof.Pack
import proofs.«205260_g26156350832969_cont_9to1_3_23_alg».proof.Proof.TableRead
import proofs.«205260_g26156350832969_cont_9to1_3_23_alg».proof.Proof.HistCount
import proofs.«205260_g26156350832969_cont_9to1_3_23_alg».proof.Proof.RefSpec
import proofs.«205260_g26156350832969_cont_9to1_3_23_alg».proof.Proof.LibIndicatorSum
import proofs.«205260_g26156350832969_cont_9to1_3_23_alg».proof.Proof.LibERealSum

noncomputable section

namespace Cert.Proof.Math

open Idealize.ShloMosaic Idealize.ShloMosaic.ValueIdx
open Cert.KernelIdeal Cert.KernelIdeal.KHost
open Cert.ReferenceIdeal.RefValue (rowOf)

variable [Cert.KernelIdeal.Facts]

/-- The column of position j of field i. -/
def fcol (i : Fin 26) (j : Fin 100) : Fin 2688 := ⟨101 * i.val + j.val, by have := i.isLt; have := j.isLt; omega⟩

/-- A sum over the 2688 columns of a function that vanishes off the used columns is the sum over the
    26 × 100 used ones. -/
theorem sum_fields {M : Type} [AddCommMonoid M] (g : Fin 2688 → M)
    (hg : ∀ c : Fin 2688, ¬(c.val < 2626 ∧ c.val % 101 < 100) → g c = 0) :
    ∑ c, g c = ∑ i : Fin 26, ∑ j : Fin 100, g (fcol i j) := by
  classical
  rw [← Fintype.sum_prod_type' (f := fun i j => g (fcol i j))]
  have hinj : Function.Injective (fun p : Fin 26 × Fin 100 => fcol p.1 p.2) := by
    rintro ⟨i, j⟩ ⟨i', j'⟩ h
    have hv : 101 * i.val + j.val = 101 * i'.val + j'.val := congrArg Fin.val h
    have := j.isLt; have := j'.isLt
    have hi : i.val = i'.val := by omega
    have hj : j.val = j'.val := by omega
    exact Prod.ext (Fin.ext hi) (Fin.ext hj)
  rw [← Finset.sum_image (s := Finset.univ) (g := fun p : Fin 26 × Fin 100 => fcol p.1 p.2) (f := g)
    (fun a _ b _ h => hinj h)]
  symm
  apply Finset.sum_subset (Finset.subset_univ _)
  intro c _ hc
  apply hg
  rintro ⟨h1, h2⟩
  apply hc
  rw [Finset.mem_image]
  exact ⟨(⟨c.val / 101, by omega⟩, ⟨c.val % 101, h2⟩), Finset.mem_univ _, Fin.ext (by
    show 101 * (c.val / 101) + c.val % 101 = c.val
    omega)⟩

/-- A used column names the bin of its field and value. -/
theorem xbNat_fcol (x : IVec S1024x2626 32) (hx : ∀ i, (x i).toNat ≤ 99) (b : Fin 1024) (i : Fin 26) (j : Fin 100) :
    xbNat x b (fcol i j).val = 100 * i.val + (rowOf x hx b i j).val := by
  have hi := i.isLt; have hj := j.isLt
  have hlt : 101 * i.val + j.val < 2626 := by omega
  have hdiv : (101 * i.val + j.val) / 101 = i.val := by omega
  have hmod : (101 * i.val + j.val) % 101 < 100 := by omega
  show xbNat x b (101 * i.val + j.val) = 100 * i.val + (x (ix2 b ⟨101 * i.val + j.val, _⟩)).toNat
  unfold xbNat
  rw [dif_pos hlt]
  unfold offsNat
  rw [if_pos ⟨hlt, hmod⟩, hdiv]
  omega

/-- Every other column names a bin past the kept ones. -/
theorem xbNat_other (x : IVec S1024x2626 32) (b : Fin 1024) (c : Nat) (hc : ¬(c < 2626 ∧ c % 101 < 100)) :
    2688 ≤ xbNat x b c := by
  unfold xbNat
  split
  · unfold offsNat
    rw [if_neg hc]
    omega
  · omega

/-- The number of columns of row b that name bin k, as a real number. -/
def cntR (x : IVec S1024x2626 32) (b : Fin 1024) (k : Fin 2688) : ℝ :=
  ∑ c : Fin 2688, if xbNat x b c.val = k.val then (1 : ℝ) else 0

/-- The core identity: the counts against any function of the bins. -/
theorem core (x : IVec S1024x2626 32) (hx : ∀ i, (x i).toNat ≤ 99) (b : Fin 1024) (f : Fin 2688 → ℝ) :
    ∑ k : Fin 2688, cntR x b k * f k = ∑ i : Fin 26, ∑ j : Fin 100, f (binOf i (rowOf x hx b i j)) := by
  unfold cntR
  rw [sum_hits_mul (fun c : Fin 2688 => xbNat x b c.val) f,
    sum_fields _ (fun c hc => dif_neg (by have := xbNat_other x b c.val hc; omega))]
  apply Finset.sum_congr rfl
  intro i _
  apply Finset.sum_congr rfl
  intro j _
  have h := xbNat_fcol x hx b i j
  have hr := (rowOf x hx b i j).isLt
  have hi := i.isLt
  rw [dif_pos (by omega)]
  exact congrArg f (Fin.ext h)

/-- The coercion of a 0/1 indicator. -/
theorem coe_ind (p : Prop) [Decidable p] : ((if p then (1 : ℝ) else 0 : ℝ) : EReal) = if p then (1 : EReal) else 0 := by
  split <;> simp

/-- The histogram of the packed array is that count. -/
theorem counts_eq_cntR (x : IVec S1024x2626 32) (hx : ∀ i, (x i).toNat ≤ 99) (b : Fin 1024) (k : Fin 2688) :
    Cert.Proof.ScSpec.counts (F := Ideal) (xpOf x) (ix2 b k) = ((cntR x b k : ℝ) : EReal) := by
  rw [counts_apply _ (packed_xpOf x hx)]
  unfold cntR
  rw [coe_sum]
  refine Eq.trans ?_ (sum_halves (n := 1344)
    (fun c : Fin (1344 + 1344) => (((if xbNat x b c.val = k.val then (1 : ℝ) else 0 : ℝ)) : EReal)))
  apply Finset.sum_congr rfl
  intro q _
  rw [xpOf_lo x hx b q, xpOf_hi x hx b q, coe_ind, coe_ind]
  rfl

end Cert.Proof.Math

end
-- ==== Proof.Bridge.lean ====
/-
  The bridge between the two formulas, over the extended reals, for finite inputs.

  The kernel side weights the rows of the combined table by the histogram of the packed indices; the
  reference side sums the looked-up rows directly. Every quantity is a real number, so both sides are
  coercions of real expressions, and those are equal by the core identity: the linear term with the
  field's weight inside, the first moment and the second moment per embedding coordinate.
-/
import Idealize.ShloMosaic.Lib.IdealHost
import proofs.«205260_g26156350832969_cont_9to1_3_23_alg».proof.Proof.CoreSum

noncomputable section

namespace Cert.Proof.Math

open Idealize.ShloMosaic Idealize.ShloMosaic.ValueIdx
open Cert.KernelIdeal Cert.KernelIdeal.Facts₀ Cert.KernelIdeal.Facts Cert.KernelIdeal.KHost
open Cert.ReferenceIdeal.RefValue (rowOf refZ)

variable [Cert.KernelIdeal.Facts]

section Generic
variable {F : FTy → Type} [FloatOps F]

/-- The dense weights read at an index. -/
theorem wdOf_apply (W : FVec F S39x1 .f32) (d : Fin 13) :
    wdOf W (ix2 d (0 : Fin 1)) = W (ix2 (⟨26 + d.val, by have := d.isLt; omega⟩ : Fin 39) (0 : Fin 1)) := by
  unfold wdOf
  exact extractStridedSlice_apply _ _ _ (ix2 d (0 : Fin 1)) (ix2 (⟨26 + d.val, by have := d.isLt; omega⟩ : Fin 39) (0 : Fin 1))
    (fun a => match a with
      | ⟨0, _⟩ => rfl
      | ⟨1, _⟩ => rfl)

/-- The bias read at its one index. -/
theorem biasOf_apply (bias : FVec F S1 .f32) :
    biasOf bias (ix2 (0 : Fin 1) (0 : Fin 1)) = bias (ix1 (0 : Fin 1)) := by
  unfold biasOf
  refine shapeCast_apply _ _ (ix2 (0 : Fin 1) (0 : Fin 1)) (ix1 (0 : Fin 1)) ?_
  rw [Shape.rowMajor_val_one, Shape.rowMajor_val_two]
  rfl

end Generic

/-- The float word of one half is a real number. -/
theorem half_real : ∃ h : ℝ, Ideal.ofBits .f32 0x3F000000#32 = (h : EReal) := by
  refine ⟨(1 : ℝ) / 2, ?_⟩
  simp [Ideal.ofBits, Ideal.ieee, -EReal.coe_mul]
  norm_num

/-- Every entry of the first 33 columns of the table is a real number when the inputs are. -/
theorem tableOf_real (emb : FVec Ideal S26x100x32 .f32) (lin : FVec Ideal S26x100x1 .f32) (W : FVec Ideal S39x1 .f32)
    (eR : S26x100x32.Idx → ℝ) (lR : S26x100x1.Idx → ℝ) (wR : S39x1.Idx → ℝ)
    (heR : ∀ i, emb i = (eR i : EReal)) (hlR : ∀ i, lin i = (lR i : EReal)) (hwR : ∀ i, W i = (wR i : EReal))
    (k : Fin 2688) (n : Fin 64) (hn : n.val ≤ 32) :
    ∃ r : ℝ, tableOf (F := Ideal) emb lin W (ix2 k n) = (r : EReal) := by
  by_cases hk : k.val < 2600
  · have hkb : k = binOf (⟨k.val / 100, by omega⟩ : Fin 26) (⟨k.val % 100, Nat.mod_lt _ (by norm_num)⟩ : Fin 100) :=
      Fin.ext (by show k.val = 100 * (k.val / 100) + k.val % 100; omega)
    rw [hkb]
    by_cases hn' : n.val < 32
    · have hne : n = (⟨(⟨n.val, hn'⟩ : Fin 32).val, by omega⟩ : Fin 64) := rfl
      rw [hne, tableOf_apply_emb]
      exact ⟨_, heR _⟩
    · have hne : n = (32 : Fin 64) := Fin.ext (by show n.val = 32; omega)
      rw [hne, tableOf_apply_lin, Ideal.mulf_def, hlR, hwR]
      exact ⟨_, (EReal.coe_mul _ _).symm⟩
  · rw [tableOf_apply_pad _ _ _ k (by omega)]
    exact ⟨0, by show ((((0#32 : BitVec 32).toInt : ℝ)) : EReal) = _; simp⟩

/-- The two pre-activations are equal. -/
theorem bridgeZ (x : IVec S1024x2626 32) (hx : ∀ i, (x i).toNat ≤ 99)
    (dense : FVec Ideal S1024x13 .f32) (lin : FVec Ideal S26x100x1 .f32) (emb : FVec Ideal S26x100x32 .f32)
    (W : FVec Ideal S39x1 .f32) (bias : FVec Ideal S1 .f32)
    (hdense : ∀ i, dense i ≠ ⊥ ∧ dense i ≠ ⊤) (hlin : ∀ i, lin i ≠ ⊥ ∧ lin i ≠ ⊤) (hemb : ∀ i, emb i ≠ ⊥ ∧ emb i ≠ ⊤)
    (hW : ∀ i, W i ≠ ⊥ ∧ W i ≠ ⊤) (hbias : ∀ i, bias i ≠ ⊥ ∧ bias i ≠ ⊤) (b : Fin 1024) :
    ((((∑ k : Fin 2688, Cert.Proof.ScSpec.counts (F := Ideal) (xpOf x) (ix2 b k) * tableOf emb lin W (ix2 k (32 : Fin 64)))
          + ∑ d : Fin 13, dense (ix2 b d) * wdOf W (ix2 d (0 : Fin 1)))
        + biasOf bias (ix2 (0 : Fin 1) (0 : Fin 1)))
      + Ideal.ofBits .f32 0x3F000000#32
        * ((∑ e : Fin 32, (∑ k : Fin 2688, Cert.Proof.ScSpec.counts (F := Ideal) (xpOf x) (ix2 b k) * tableOf emb lin W (ix2 k (⟨e.val, by omega⟩ : Fin 64)))
              * (∑ k : Fin 2688, Cert.Proof.ScSpec.counts (F := Ideal) (xpOf x) (ix2 b k) * tableOf emb lin W (ix2 k (⟨e.val, by omega⟩ : Fin 64))))
          - ∑ e : Fin 32, ∑ k : Fin 2688, Cert.Proof.ScSpec.counts (F := Ideal) (xpOf x) (ix2 b k)
              * (tableOf emb lin W (ix2 k (⟨e.val, by omega⟩ : Fin 64)) * tableOf emb lin W (ix2 k (⟨e.val, by omega⟩ : Fin 64)))))
      = refZ x dense lin emb W bias hx b := by
  obtain ⟨dR, hdR⟩ := exists_real_of_finite dense hdense
  obtain ⟨lR, hlR⟩ := exists_real_of_finite lin hlin
  obtain ⟨eR, heR⟩ := exists_real_of_finite emb hemb
  obtain ⟨wR, hwR⟩ := exists_real_of_finite W hW
  obtain ⟨bR, hbR⟩ := exists_real_of_finite bias hbias
  obtain ⟨h, hh⟩ := half_real
  -- the table's entries as real numbers
  let TR : Fin 2688 → Fin 64 → ℝ := fun k n => (tableOf (F := Ideal) emb lin W (ix2 k n)).toReal
  have hTR : ∀ (k : Fin 2688) (n : Fin 64), n.val ≤ 32 → tableOf (F := Ideal) emb lin W (ix2 k n) = ((TR k n : ℝ) : EReal) := by
    intro k n hn
    obtain ⟨r, hr⟩ := tableOf_real emb lin W eR lR wR heR hlR hwR k n hn
    show _ = (((tableOf (F := Ideal) emb lin W (ix2 k n)).toReal : ℝ) : EReal)
    rw [hr, EReal.toReal_coe]
  have hT32 : ∀ k : Fin 2688, tableOf (F := Ideal) emb lin W (ix2 k (32 : Fin 64)) = ((TR k (32 : Fin 64) : ℝ) : EReal) :=
    fun k => hTR k _ (by decide)
  have hTe : ∀ (k : Fin 2688) (e : Fin 32),
      tableOf (F := Ideal) emb lin W (ix2 k (⟨e.val, by omega⟩ : Fin 64)) = ((TR k (⟨e.val, by omega⟩ : Fin 64) : ℝ) : EReal) :=
    fun k e => hTR k _ (by show e.val ≤ 32; omega)
  have hcnt : ∀ k : Fin 2688, Cert.Proof.ScSpec.counts (F := Ideal) (xpOf x) (ix2 b k) = ((cntR x b k : ℝ) : EReal) :=
    counts_eq_cntR x hx b
  have TR_lin : ∀ (i : Fin 26) (v : Fin 100),
      TR (binOf i v) (32 : Fin 64) = lR (ix3 i v (0 : Fin 1)) * wR (ix2 (⟨i.val, by omega⟩ : Fin 39) (0 : Fin 1)) := by
    intro i v
    show (tableOf (F := Ideal) emb lin W (ix2 (binOf i v) (32 : Fin 64))).toReal = _
    rw [tableOf_apply_lin, Ideal.mulf_def, hlR, hwR, ← EReal.coe_mul, EReal.toReal_coe]
  have TR_emb : ∀ (i : Fin 26) (v : Fin 100) (e : Fin 32),
      TR (binOf i v) (⟨e.val, by omega⟩ : Fin 64) = eR (ix3 i v e) := by
    intro i v e
    show (tableOf (F := Ideal) emb lin W (ix2 (binOf i v) (⟨e.val, by omega⟩ : Fin 64))).toReal = _
    rw [tableOf_apply_emb, heR, EReal.toReal_coe]
  -- the three uses of the core identity
  have k32 : ∑ k : Fin 2688, cntR x b k * TR k (32 : Fin 64)
      = ∑ i : Fin 26, (∑ j : Fin 100, lR (ix3 i (rowOf x hx b i j) (0 : Fin 1))) * wR (ix2 (⟨i.val, by omega⟩ : Fin 39) (0 : Fin 1)) := by
    refine (core x hx b (fun k => TR k (32 : Fin 64))).trans ?_
    apply Finset.sum_congr rfl
    intro i _
    rw [Finset.sum_mul]
    apply Finset.sum_congr rfl
    intro j _
    exact TR_lin i _
  have ke1 : ∀ e : Fin 32, ∑ k : Fin 2688, cntR x b k * TR k (⟨e.val, by omega⟩ : Fin 64)
      = ∑ i : Fin 26, ∑ j : Fin 100, eR (ix3 i (rowOf x hx b i j) e) := by
    intro e
    refine (core x hx b (fun k => TR k (⟨e.val, by omega⟩ : Fin 64))).trans ?_
    simp only [TR_emb]
  have ke2 : ∀ e : Fin 32, ∑ k : Fin 2688, cntR x b k * (TR k (⟨e.val, by omega⟩ : Fin 64) * TR k (⟨e.val, by omega⟩ : Fin 64))
      = ∑ i : Fin 26, ∑ j : Fin 100, eR (ix3 i (rowOf x hx b i j) e) * eR (ix3 i (rowOf x hx b i j) e) := by
    intro e
    refine (core x hx b (fun k => TR k (⟨e.val, by omega⟩ : Fin 64) * TR k (⟨e.val, by omega⟩ : Fin 64))).trans ?_
    simp only [TR_emb]
  -- both sides as coercions of real expressions
  unfold refZ
  simp only [hcnt, hT32, hTe, wdOf_apply, biasOf_apply, hdR, hwR, hbR, hlR, heR, hh]
  simp only [← EReal.coe_mul, ← coe_sum, ← EReal.coe_add, ← EReal.coe_sub]
  rw [EReal.coe_eq_coe_iff, k32]
  simp only [ke1, ke2]
  rw [Finset.sum_sub_distrib]

/-- The bridge: the kernel side's value at row b is the reference side's. -/
theorem bridge (x : IVec S1024x2626 32) (hx : ∀ i, (x i).toNat ≤ 99)
    (dense : FVec Ideal S1024x13 .f32) (lin : FVec Ideal S26x100x1 .f32) (emb : FVec Ideal S26x100x32 .f32)
    (W : FVec Ideal S39x1 .f32) (bias : FVec Ideal S1 .f32)
    (hdense : ∀ i, dense i ≠ ⊥ ∧ dense i ≠ ⊤) (hlin : ∀ i, lin i ≠ ⊥ ∧ lin i ≠ ⊤) (hemb : ∀ i, emb i ≠ ⊥ ∧ emb i ≠ ⊤)
    (hW : ∀ i, W i ≠ ⊥ ∧ W i ≠ ⊤) (hbias : ∀ i, bias i ≠ ⊥ ∧ bias i ≠ ⊤) (b : Fin 1024) :
    Ideal.logistic
        ((((∑ k : Fin 2688, Cert.Proof.ScSpec.counts (F := Ideal) (xpOf x) (ix2 b k) * tableOf emb lin W (ix2 k (32 : Fin 64)))
              + ∑ d : Fin 13, dense (ix2 b d) * wdOf W (ix2 d (0 : Fin 1)))
            + biasOf bias (ix2 (0 : Fin 1) (0 : Fin 1)))
          + Ideal.ofBits .f32 0x3F000000#32
            * ((∑ e : Fin 32, (∑ k : Fin 2688, Cert.Proof.ScSpec.counts (F := Ideal) (xpOf x) (ix2 b k) * tableOf emb lin W (ix2 k (⟨e.val, by omega⟩ : Fin 64)))
                  * (∑ k : Fin 2688, Cert.Proof.ScSpec.counts (F := Ideal) (xpOf x) (ix2 b k) * tableOf emb lin W (ix2 k (⟨e.val, by omega⟩ : Fin 64))))
              - ∑ e : Fin 32, ∑ k : Fin 2688, Cert.Proof.ScSpec.counts (F := Ideal) (xpOf x) (ix2 b k)
                  * (tableOf emb lin W (ix2 k (⟨e.val, by omega⟩ : Fin 64)) * tableOf emb lin W (ix2 k (⟨e.val, by omega⟩ : Fin 64)))))
      = Ideal.div (Ideal.ofBits .f32 0x3F800000#32)
          (Ideal.ofBits .f32 0x3F800000#32 + Ideal.exp (-(refZ x dense lin emb W bias hx b))) := by
  rw [bridgeZ x hx dense lin emb W bias hdense hlin hemb hW hbias b]
  unfold Ideal.logistic
  rw [Ideal.ofBits_one_f32]

end Cert.Proof.Math

end
-- ==== Proof.RefDefs.lean ====
/-
  The reference's result as a pure function of its arguments: the per-field lookups (with the wrap of negative
  indices and the fill value for invalid ones, as the lookup is printed), their sums and concatenations, the linear
  layer, the pairwise-interaction term and the logistic function.
-/
import proofs.«205260_g26156350832969_cont_9to1_3_23_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The index array as the gather reads it: a negative index is wrapped by the table's length (100), and the
    result is given a trailing unit axis. -/
def wrapIdx (idx : IVec S1024x100 32) : IVec S1024x100x1 32 :=
  broadcastInDim S1024x100x1 ![0, 1] bcast_S1024x100_S1024x100x1_0_1
    (select (cmpi .slt idx (broadcastInDim S1024x100 ![] bcast_S_S1024x100 (constantI S_ 32 0#32)))
      (addi idx (broadcastInDim S1024x100 ![] bcast_S_S1024x100 (constantI S_ 32 100#32))) idx)

/-- The validity mask of a wrapped index array: one where the index lies in [0, 99]. -/
def inRange (w : IVec S1024x100x1 32) : IVec S1024x100 1 :=
  Host.reduce IntOp.andi
    (andi (cmpi .sge w (broadcastInDim S1024x100x1 ![] bcast_S_S1024x100x1 (constantI S_ 32 0#32)))
      (cmpi .sle w (broadcastInDim S1024x100x1 ![0, 1, 2] bcast_S1x1x1_S1024x100x1_0_1_2
        (broadcastInDim S1x1x1 ![2] bcast_S1_S1x1x1_2 (constantI S1 32 99#32)))))
    (constantI S_ 1 1#1) reducesTo_S1024x100x1_S1024x100_d2 h_S_

/-- Lookup of single entries of a 100-entry table with a fill value for invalid indices. -/
def takeLin (tbl : FVec F S100x1 .f32) (idx : IVec S1024x100 32) : FVec F S1024x100x1 .f32 :=
  select (broadcastInDim S1024x100x1 ![0, 1] bcast_S1024x100_S1024x100x1_0_1 (inRange (wrapIdx idx)))
    (Host.gather gather_S100x1_S1024x100x1_S1024x100x1_2_0_n_n_0_2_11 tbl (wrapIdx idx))
    (broadcastInDim S1024x100x1 ![] bcast_S_S1024x100x1 (constant S_ .f32 0x7FC00000#32))

/-- Lookup of whole 32-entry rows of a 100-row table with a fill value for invalid indices. -/
def takeEmb (tbl : FVec F S100x32 .f32) (idx : IVec S1024x100 32) : FVec F S1024x100x32 .f32 :=
  select (broadcastInDim S1024x100x32 ![0, 1] bcast_S1024x100_S1024x100x32_0_1 (inRange (wrapIdx idx)))
    (Host.gather gather_S100x32_S1024x100x1_S1024x100x32_2_0_n_n_0_2_132 tbl (wrapIdx idx))
    (broadcastInDim S1024x100x32 ![] bcast_S_S1024x100x32 (constant S_ .f32 0x7FC00000#32))

/-- One field's linear term: the sum over the field's 100 positions of the looked-up weights. -/
def linField (off : ℕ) (hs : S1024x2626.Slices ![0, off] S1024x100) (k : ℕ) (hk : S26x100x1.Slices ![k, 0, 0] S1x100x1)
    (x : IVec S1024x2626 32) (lin : FVec F S26x100x1 .f32) : FVec F S1024x1 .f32 :=
  Host.reduceAdd
    (takeLin (shapeCast S100x1 (extractStridedSlice S1x100x1 ![k, 0, 0] lin hk) shapeCasts_S1x100x1_S100x1)
      (extractStridedSlice S1024x100 ![0, off] x hs))
    (constant S_ .f32 0x00000000#32) reducesTo_S1024x100x1_S1024x1_d1 h_S_

/-- One field's looked-up embedding rows. -/
def embField (off : ℕ) (hs : S1024x2626.Slices ![0, off] S1024x100) (k : ℕ) (hk : S26x100x32.Slices ![k, 0, 0] S1x100x32)
    (x : IVec S1024x2626 32) (emb : FVec F S26x100x32 .f32) : FVec F S1024x100x32 .f32 :=
  takeEmb (shapeCast S100x32 (extractStridedSlice S1x100x32 ![k, 0, 0] emb hk) shapeCasts_S1x100x32_S100x32)
    (extractStridedSlice S1024x100 ![0, off] x hs)

/-- Every field's slice of the index array lies inside it. -/
theorem slicesX (i : Fin 26) : S1024x2626.Slices ![0, 101 * i.val] S1024x100 := by revert i; decide
/-- Every field's table of scalar weights is a slice of the stacked tables. -/
theorem slicesL (i : Fin 26) : S26x100x1.Slices ![i.val, 0, 0] S1x100x1 := by revert i; decide
/-- Every field's embedding table is a slice of the stacked tables. -/
theorem slicesE (i : Fin 26) : S26x100x32.Slices ![i.val, 0, 0] S1x100x32 := by revert i; decide

/-- Field i's linear term. -/
def linOf (x : IVec S1024x2626 32) (lin : FVec F S26x100x1 .f32) (i : Fin 26) : FVec F S1024x1 .f32 :=
  linField (101 * i.val) (slicesX i) i.val (slicesL i) x lin
/-- Field i's looked-up embedding rows. -/
def embOf (x : IVec S1024x2626 32) (emb : FVec F S26x100x32 .f32) (i : Fin 26) : FVec F S1024x100x32 .f32 :=
  embField (101 * i.val) (slicesX i) i.val (slicesE i) x emb

/-- The 26 linear terms side by side: the first sixteen, the last ten, then the two blocks. -/
def linCat (l : Fin 26 → FVec F S1024x1 .f32) : FVec F S1024x26 .f32 :=
  concatenate S1024x26 1
    [⟨S1024x16, concatenate S1024x16 1 [⟨S1024x1, l 0⟩, ⟨S1024x1, l 1⟩, ⟨S1024x1, l 2⟩, ⟨S1024x1, l 3⟩, ⟨S1024x1, l 4⟩, ⟨S1024x1, l 5⟩, ⟨S1024x1, l 6⟩, ⟨S1024x1, l 7⟩, ⟨S1024x1, l 8⟩, ⟨S1024x1, l 9⟩, ⟨S1024x1, l 10⟩, ⟨S1024x1, l 11⟩, ⟨S1024x1, l 12⟩, ⟨S1024x1, l 13⟩, ⟨S1024x1, l 14⟩, ⟨S1024x1, l 15⟩] concatenates_S1024x1_S1024x1_S1024x1_S1024x1_S1024x1_S1024x1_S1024x1_S1024x1_S1024x1_S1024x1_S1024x1_S1024x1_S1024x1_S1024x1_S1024x1_S1024x1_S1024x16_d1⟩,
     ⟨S1024x10, concatenate S1024x10 1 [⟨S1024x1, l 16⟩, ⟨S1024x1, l 17⟩, ⟨S1024x1, l 18⟩, ⟨S1024x1, l 19⟩, ⟨S1024x1, l 20⟩, ⟨S1024x1, l 21⟩, ⟨S1024x1, l 22⟩, ⟨S1024x1, l 23⟩, ⟨S1024x1, l 24⟩, ⟨S1024x1, l 25⟩] concatenates_S1024x1_S1024x1_S1024x1_S1024x1_S1024x1_S1024x1_S1024x1_S1024x1_S1024x1_S1024x1_S1024x10_d1⟩]
    concatenates_S1024x16_S1024x10_S1024x26_d1

/-- The 26 blocks of looked-up rows one after the other along the position axis. -/
def embCat (e : Fin 26 → FVec F S1024x100x32 .f32) : FVec F S1024x2600x32 .f32 :=
  concatenate S1024x2600x32 1
    [⟨S1024x1600x32, concatenate S1024x1600x32 1 [⟨S1024x100x32, e 0⟩, ⟨S1024x100x32, e 1⟩, ⟨S1024x100x32, e 2⟩, ⟨S1024x100x32, e 3⟩, ⟨S1024x100x32, e 4⟩, ⟨S1024x100x32, e 5⟩, ⟨S1024x100x32, e 6⟩, ⟨S1024x100x32, e 7⟩, ⟨S1024x100x32, e 8⟩, ⟨S1024x100x32, e 9⟩, ⟨S1024x100x32, e 10⟩, ⟨S1024x100x32, e 11⟩, ⟨S1024x100x32, e 12⟩, ⟨S1024x100x32, e 13⟩, ⟨S1024x100x32, e 14⟩, ⟨S1024x100x32, e 15⟩] concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1⟩,
     ⟨S1024x1000x32, concatenate S1024x1000x32 1 [⟨S1024x100x32, e 16⟩, ⟨S1024x100x32, e 17⟩, ⟨S1024x100x32, e 18⟩, ⟨S1024x100x32, e 19⟩, ⟨S1024x100x32, e 20⟩, ⟨S1024x100x32, e 21⟩, ⟨S1024x100x32, e 22⟩, ⟨S1024x100x32, e 23⟩, ⟨S1024x100x32, e 24⟩, ⟨S1024x100x32, e 25⟩] concatenates_S1024x100x32_S1024x100x32_S1024x100x32_S1024x100x32_S1024x100x32_S1024x100x32_S1024x100x32_S1024x100x32_S1024x100x32_S1024x100x32_S1024x1000x32_d1⟩]
    concatenates_S1024x1600x32_S1024x1000x32_S1024x2600x32_d1

/-- The sum over the 2600 positions of the looked-up rows, kept with a unit axis. -/
def sumRows (ec : FVec F S1024x2600x32 .f32) : FVec F S1024x1x32 .f32 :=
  broadcastInDim S1024x1x32 ![0, 2] bcast_S1024x32_S1024x1x32_0_2
    (Host.reduceAdd ec (constant S_ .f32 0x00000000#32) reducesTo_S1024x2600x32_S1024x32_d1 h_S_)

/-- The pre-activation: linear part plus bias plus half the pairwise-interaction term. -/
def preAct (lc : FVec F S1024x26 .f32) (ec : FVec F S1024x2600x32 .f32) (dense : FVec F S1024x13 .f32)
    (W : FVec F S39x1 .f32) (bias : FVec F S1 .f32) : FVec F S1024x1 .f32 :=
  addf
    (addf
      (Host.dotGeneral dot_S1024x39_S39x1_S1024x1_1_0_0_1_n_n none
        (concatenate S1024x39 1 [⟨S1024x26, lc⟩, ⟨S1024x13, dense⟩] concatenates_S1024x26_S1024x13_S1024x39_d1) W)
      (broadcastInDim S1024x1 ![0, 1] bcast_S1x1_S1024x1_0_1 (broadcastInDim S1x1 ![1] bcast_S1_S1x1_1 bias)))
    (mulf (broadcastInDim S1024x1 ![] bcast_S_S1024x1 (constant S_ .f32 0x3F000000#32))
      (Host.reduceAdd
        (subf (mulf (sumRows ec) (sumRows ec)) (sumRows (mulf ec ec)))
        (constant S_ .f32 0x00000000#32) reducesTo_S1024x1x32_S1024x1_d2 h_S_))

/-- The logistic function of the pre-activation, as one over one plus the exponential of its negation. -/
def headFn (lc : FVec F S1024x26 .f32) (ec : FVec F S1024x2600x32 .f32) (dense : FVec F S1024x13 .f32)
    (W : FVec F S39x1 .f32) (bias : FVec F S1 .f32) : FVec F S1024x1 .f32 :=
  Host.divf (broadcastInDim S1024x1 ![] bcast_S_S1024x1 (constant S_ .f32 0x3F800000#32))
    (addf (broadcastInDim S1024x1 ![] bcast_S_S1024x1 (constant S_ .f32 0x3F800000#32))
      (Host.exp (Host.negf (preAct lc ec dense W bias))))

/-- The reference's result as a function of its six arguments. -/
def refOut (x : IVec S1024x2626 32) (dense : FVec F S1024x13 .f32) (lin : FVec F S26x100x1 .f32)
    (emb : FVec F S26x100x32 .f32) (W : FVec F S39x1 .f32) (bias : FVec F S1 .f32) : FVec F S1024x1 .f32 :=
  headFn (linCat (linOf x lin)) (embCat (embOf x emb)) dense W bias

end Cert.ReferenceIdeal.RefValue

end
-- ==== Proof.LibTakeFill.lean ====
/-
  Small facts about an embedding lookup with a fill value ("take" with out-of-range indices replaced): when every index,
  after the usual wrap of negative indices, lies inside the table, the validity mask is all ones and the fill is never used.

  * a left fold by `and` from 1 over words that are all 1 is 1, hence a `reduce` by `and` of an all-ones array is 1 everywhere;
  * a `broadcast_in_dim` of an array that is constantly `v` is constantly `v`;
  * for a 32-bit signed index `z` with `-n ≤ z < n` (here n = 100), the wrapped index `if z < 0 then z + n else z` satisfies
    `0 ≤ w` and `w ≤ n - 1` as signed comparisons;
  * a `select` under an all-ones mask is its first branch.
-/
import Idealize.ShloMosaic.PureOps.Reduce
import Idealize.ShloMosaic.Lib.Affine
import Idealize.ShloMosaic.Lib.ValueIdx

namespace Idealize.ShloMosaic.LibTakeFill

open Idealize.ShloMosaic

/-- A left fold by `and` that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hf =>
    foldl_andi_one f l _ (IntOp.andi_eq_one.2 ⟨h, hf a List.mem_cons_self⟩) (fun n hn => hf n (List.mem_cons_of_mem _ hn))

/-- A `reduce` by `and` of an array of ones, from an initial value of ones, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl]
  exact foldl_andi_one x _ _ (hi _) (fun n _ => hx n)

/-- A `broadcast_in_dim` of a constant array is that constant. -/
theorem broadcastInDim_const {s t : Shape} {α : Type} (dims : Fin s.rank → Fin t.rank) (h : s.BroadcastsInDim t dims)
    (x : s.Idx → α) (v : α) (hx : ∀ k, x k = v) (j : t.Idx) : broadcastInDim t dims h x j = v := hx _

/-- A signed 32-bit index in `[-100, 100)`, wrapped the way negative indices are (`z + 100` when `z < 0`), lies in `[0, 99]`. -/
theorem wrap_in_range (z : BitVec 32) (hlo : (-100 : Int) ≤ z.toInt) (hhi : z.toInt < 100) :
    IntOp.cmpi .sge (Scalar.select (IntOp.cmpi .slt z 0#32) (IntOp.addi z 100#32) z) 0#32 = 1#1
    ∧ IntOp.cmpi .sle (Scalar.select (IntOp.cmpi .slt z 0#32) (IntOp.addi z 100#32) z) 99#32 = 1#1 := by
  by_cases hneg : z.toInt < 0
  · have hc : IntOp.cmpi .slt z 0#32 = 1#1 := IntOp.cmpi_slt.2 (by simpa using hneg)
    rw [hc, ValueIdx.select_one]
    have hadd : (IntOp.addi z 100#32).toInt = z.toInt + 100 := by
      unfold IntOp.addi
      rw [BitVec.toInt_add]
      have : (100#32 : BitVec 32).toInt = 100 := by decide
      rw [this]
      apply Int.bmod_eq_of_le <;> omega
    refine ⟨IntOp.cmpi_sge.2 ?_, IntOp.cmpi_sle.2 ?_⟩
    · rw [hadd]; have : (0#32 : BitVec 32).toInt = 0 := by decide
      omega
    · rw [hadd]; have : (99#32 : BitVec 32).toInt = 99 := by decide
      omega
  · have hc : IntOp.cmpi .slt z 0#32 = 0#1 := by
      rcases BitVec.eq_zero_or_eq_one (IntOp.cmpi .slt z 0#32) with h | h
      · exact h
      · exact absurd (by simpa using IntOp.cmpi_slt.1 h) hneg
    rw [hc, ValueIdx.select_zero]
    refine ⟨IntOp.cmpi_sge.2 ?_, IntOp.cmpi_sle.2 ?_⟩
    · have : (0#32 : BitVec 32).toInt = 0 := by decide
      omega
    · have : (99#32 : BitVec 32).toInt = 99 := by decide
      omega

/-- Under a mask of ones a `select` is its first branch. -/
theorem select_ones {s : Shape} {α : Type} (c : IVec s 1) (a b : s.Idx → α) (hc : ∀ i, c i = 1#1) : select c a b = a :=
  funext fun i => by rw [ValueIdx.select_apply, hc i, ValueIdx.select_one]

end Idealize.ShloMosaic.LibTakeFill
-- ==== Proof.RefRead1.lean ====
/-
  The lookups read at an index.  A gather of rows of a table at a three-axis index array with a trailing unit axis
  reads the table's row at the index, taken as a signed number and clamped into the table.  When every index of the
  array is between 0 and 99 the wrap of negative indices does nothing, the validity mask is all ones, and the lookup
  reads the table's row at the index itself.
-/
import proofs.«205260_g26156350832969_cont_9to1_3_23_alg».proof.Proof.RefDefs
import proofs.«205260_g26156350832969_cont_9to1_3_23_alg».proof.Proof.RefSpec
import proofs.«205260_g26156350832969_cont_9to1_3_23_alg».proof.Proof.LibTakeFill

import Idealize.ShloMosaic.Lib.ValueLayout
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

variable {α : Type}

/-- The dimension numbers of a gather of whole rows of an N-by-Fd table at an R-by-C-by-1 index array. -/
abbrev rowsDims (N R C Fd : ℕ)
    (wf : GatherDims.WF ⟨2, ![N, Fd]⟩ ⟨3, ![R, C, 1]⟩ ⟨3, ![R, C, Fd]⟩ [2] [0] [] [0] [] 2 ![1, Fd]) :
    GatherDims ⟨2, ![N, Fd]⟩ ⟨3, ![R, C, 1]⟩ ⟨3, ![R, C, Fd]⟩ where
  offsetDims := [2]
  collapsedSliceDims := [0]
  operandBatchingDims := []
  startIndicesBatchingDims := []
  startIndexMap := [0]
  indexVectorDim := 2
  sliceSizes := ![1, Fd]
  wf := wf

/-- The row gather read at (r, c, q): the table at the clamped signed index of (r, c), column q. -/
theorem gather_rows3_apply {N R C Fd w : ℕ} (hN : 0 < N)
    (wf : GatherDims.WF ⟨2, ![N, Fd]⟩ ⟨3, ![R, C, 1]⟩ ⟨3, ![R, C, Fd]⟩ [2] [0] [] [0] [] 2 ![1, Fd])
    (x : (⟨2, ![N, Fd]⟩ : Shape).Idx → α) (idx : IVec ⟨3, ![R, C, 1]⟩ w) (r : Fin R) (c : Fin C) (q : Fin Fd) :
    Host.gather (rowsDims N R C Fd wf) x idx (ix3 r c q)
      = x (ix2 ⟨min (idx (ix3 r c (0 : Fin 1))).toInt.toNat (N - 1), by omega⟩ q) := by
  unfold Host.gather
  congr 1
  funext a
  refine Fin.ext ?_
  match a with
  | ⟨0, _⟩ =>
    show (rowsDims N R C Fd wf).start (ix3 r c q) idx 0 + (rowsDims N R C Fd wf).batchCoord (ix3 r c q) 0
        + (rowsDims N R C Fd wf).offCoord (ix3 r c q) 0 = _
    have hk : (0 : Fin (⟨2, ![N, Fd]⟩ : Shape).rank) ∉ (rowsDims N R C Fd wf).sKept := by
      show (0 : Fin 2) ∉ ((List.finRange 2).filter (· ∉ ([0] : List (Fin 2))))
      decide
    rw [GatherDims.batchCoord_eq_zero _ _ _ List.not_mem_nil, GatherDims.offCoord_eq_zero _ _ _ hk]
    simp only [Nat.add_zero]
    have h0 : (0 : Fin (⟨2, ![N, Fd]⟩ : Shape).rank) ∈ (rowsDims N R C Fd wf).startIndexMap := by
      show (0 : Fin 2) ∈ ([0] : List (Fin 2))
      decide
    unfold GatherDims.start
    rw [dif_pos h0]
    have hsi : (rowsDims N R C Fd wf).siIdx (ix3 r c q) ⟨List.idxOf (0 : Fin 2) (rowsDims N R C Fd wf).startIndexMap,
        List.idxOf_lt_length_iff.2 h0⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N R C Fd wf).start (ix3 r c q) idx 1 + (rowsDims N R C Fd wf).batchCoord (ix3 r c q) 1
        + (rowsDims N R C Fd wf).offCoord (ix3 r c q) 1 = q.val
    have hk : (1 : Fin (⟨2, ![N, Fd]⟩ : Shape).rank) ∈ (rowsDims N R C Fd wf).sKept := by
      show (1 : Fin 2) ∈ ((List.finRange 2).filter (· ∉ ([0] : List (Fin 2))))
      decide
    have h1 : (1 : Fin (⟨2, ![N, Fd]⟩ : Shape).rank) ∉ (rowsDims N R C Fd wf).startIndexMap := by
      show (1 : Fin 2) ∉ ([0] : List (Fin 2))
      decide
    rw [GatherDims.batchCoord_eq_zero _ _ _ List.not_mem_nil]
    unfold GatherDims.start GatherDims.offCoord
    rw [dif_neg h1, dif_pos hk]
    simp only [Nat.zero_add, Nat.add_zero]
    rfl

/-- A 32-bit word whose unsigned value is at most 99 is that number as a signed integer. -/
theorem toInt_of_le (z : BitVec 32) (hz : z.toNat ≤ 99) : z.toInt = (z.toNat : Int) := by
  rw [BitVec.toInt_eq_toNat_cond, if_pos (by omega)]

/-- The wrapped index array at an index is the wrap of the index it reads. -/
theorem wrapIdx_eq (idx : IVec S1024x100 32) (b : Fin 1024) (j : Fin 100) (e : Fin 1) :
    wrapIdx idx (ix3 b j e) = Scalar.select (IntOp.cmpi .slt (idx (ix2 b j)) 0#32)
      (IntOp.addi (idx (ix2 b j)) 100#32) (idx (ix2 b j)) := by
  unfold wrapIdx
  rw [broadcastInDim_apply ![0, 1] bcast_S1024x100_S1024x100x1_0_1 _ (ix3 b j e) (ix2 b j) (fun a => by
    match a with
    | ⟨0, _⟩ => rfl
    | ⟨1, _⟩ => rfl)]
  rfl

/-- The wrapped index array at (b, j, 0), for an index at most 99: the index itself. -/
theorem wrapIdx_apply (idx : IVec S1024x100 32) (b : Fin 1024) (j : Fin 100) (hz : (idx (ix2 b j)).toNat ≤ 99) :
    wrapIdx idx (ix3 b j (0 : Fin 1)) = idx (ix2 b j) := by
  have hc : IntOp.cmpi .slt (idx (ix2 b j)) 0#32 = 0#1 := by
    rcases BitVec.eq_zero_or_eq_one (IntOp.cmpi .slt (idx (ix2 b j)) 0#32) with h | h
    · exact h
    · have := IntOp.cmpi_slt.1 h
      rw [toInt_of_le _ hz] at this
      have h0 : (0#32 : BitVec 32).toInt = 0 := by decide
      omega
  rw [wrapIdx_eq, hc, select_zero]

/-- With every index at most 99 the validity mask is one everywhere. -/
theorem inRange_one (idx : IVec S1024x100 32) (hidx : ∀ i, (idx i).toNat ≤ 99) (k : S1024x100.Idx) :
    inRange (wrapIdx idx) k = 1#1 := by
  unfold inRange
  refine LibTakeFill.reduce_andi_ones _ _ _ _ (fun i => ?_) (fun _ => rfl) k
  obtain ⟨a, c, e, rfl⟩ : ∃ a c e, i = ix3 a c e := ⟨_, _, _, eq_ix3 i⟩
  have hz := hidx (ix2 a c)
  have hw := LibTakeFill.wrap_in_range (idx (ix2 a c)) (by rw [toInt_of_le _ hz]; omega) (by rw [toInt_of_le _ hz]; omega)
  show IntOp.andi (IntOp.cmpi .sge (wrapIdx idx (ix3 a c e)) 0#32) (IntOp.cmpi .sle (wrapIdx idx (ix3 a c e)) 99#32) = 1#1
  rw [wrapIdx_eq]
  exact IntOp.andi_eq_one.2 hw

/-- The lookup of single entries, every index at most 99, at (b, j, 0): the table's entry at the index. -/
theorem takeLin_apply (tbl : FVec Ideal S100x1 .f32) (idx : IVec S1024x100 32) (hidx : ∀ i, (idx i).toNat ≤ 99)
    (b : Fin 1024) (j : Fin 100) :
    takeLin tbl idx (ix3 b j (0 : Fin 1)) = tbl (ix2 ⟨(idx (ix2 b j)).toNat, by have := hidx (ix2 b j); omega⟩ (0 : Fin 1)) := by
  unfold takeLin
  rw [select_apply, broadcastInDim_apply ![0, 1] bcast_S1024x100_S1024x100x1_0_1 _ (ix3 b j (0 : Fin 1)) (ix2 b j) (fun a => by
    match a with
    | ⟨0, _⟩ => rfl
    | ⟨1, _⟩ => rfl), inRange_one idx hidx, select_one]
  have hg := gather_rows3_apply (N := 100) (R := 1024) (C := 100) (Fd := 1) (by decide)
    gather_S100x1_S1024x100x1_S1024x100x1_2_0_n_n_0_2_11_wf tbl (wrapIdx idx) b j (0 : Fin 1)
  refine hg.trans ?_
  have := hidx (ix2 b j)
  refine congrArg (fun n => tbl (ix2 n (0 : Fin 1))) (Fin.ext ?_)
  show min ((wrapIdx idx (ix3 b j (0 : Fin 1))).toInt).toNat (100 - 1) = (idx (ix2 b j)).toNat
  rw [wrapIdx_apply idx b j (hidx _), toInt_of_le _ (hidx _), Int.toNat_natCast]; omega

/-- The lookup of whole rows, every index at most 99, at (b, j, e): the table's row at the index, column e. -/
theorem takeEmb_apply (tbl : FVec Ideal S100x32 .f32) (idx : IVec S1024x100 32) (hidx : ∀ i, (idx i).toNat ≤ 99)
    (b : Fin 1024) (j : Fin 100) (e : Fin 32) :
    takeEmb tbl idx (ix3 b j e) = tbl (ix2 ⟨(idx (ix2 b j)).toNat, by have := hidx (ix2 b j); omega⟩ e) := by
  unfold takeEmb
  rw [select_apply, broadcastInDim_apply ![0, 1] bcast_S1024x100_S1024x100x32_0_1 _ (ix3 b j e) (ix2 b j) (fun a => by
    match a with
    | ⟨0, _⟩ => rfl
    | ⟨1, _⟩ => rfl), inRange_one idx hidx, select_one]
  have hg := gather_rows3_apply (N := 100) (R := 1024) (C := 100) (Fd := 32) (by decide)
    gather_S100x32_S1024x100x1_S1024x100x32_2_0_n_n_0_2_132_wf tbl (wrapIdx idx) b j e
  refine hg.trans ?_
  have := hidx (ix2 b j)
  refine congrArg (fun n => tbl (ix2 n e)) (Fin.ext ?_)
  show min ((wrapIdx idx (ix3 b j (0 : Fin 1))).toInt).toNat (100 - 1) = (idx (ix2 b j)).toNat
  rw [wrapIdx_apply idx b j (hidx _), toInt_of_le _ (hidx _), Int.toNat_natCast]; omega

end Cert.ReferenceIdeal.RefValue

end
-- ==== Proof.RefRead2.lean ====
/-
  The fields' results and their concatenations read at an index: field i's linear term at row b is the sum over the
  field's 100 positions of the scalar weights its indices name; field i's looked-up rows at (b, j, e) are the embedding
  table's row the index names; the 26 linear terms side by side read, at column i, field i's; the 26 blocks of rows one
  after the other read, at position 100 i + j, field i's at j.
-/
import proofs.«205260_g26156350832969_cont_9to1_3_23_alg».proof.Proof.RefDefs
import proofs.«205260_g26156350832969_cont_9to1_3_23_alg».proof.Proof.RefSpec
import proofs.«205260_g26156350832969_cont_9to1_3_23_alg».proof.Proof.LibTakeFill
import proofs.«205260_g26156350832969_cont_9to1_3_23_alg».proof.Proof.RefRead1
import Idealize.ShloMosaic.Lib.ValueLayout
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- Field i's table of scalar weights at entry r. -/
theorem linTbl_apply (i : Fin 26) (lin : FVec Ideal S26x100x1 .f32) (r : Fin 100) :
    shapeCast S100x1 (extractStridedSlice S1x100x1 ![i.val, 0, 0] lin (slicesL i)) shapeCasts_S1x100x1_S100x1 (ix2 r (0 : Fin 1))
      = lin (ix3 i r (0 : Fin 1)) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => rfl)

/-- Field i's embedding table at (r, e). -/
theorem embTbl_apply (i : Fin 26) (emb : FVec Ideal S26x100x32 .f32) (r : Fin 100) (e : Fin 32) :
    shapeCast S100x32 (extractStridedSlice S1x100x32 ![i.val, 0, 0] emb (slicesE i)) shapeCasts_S1x100x32_S100x32 (ix2 r e)
      = emb (ix3 i r e) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- Field i's slice of the index array at (b, j). -/
theorem idxSlice_apply (i : Fin 26) (x : IVec S1024x2626 32) (b : Fin 1024) (j : Fin 100) :
    extractStridedSlice S1024x100 ![0, 101 * i.val] x (slicesX i) (ix2 b j)
      = x (ix2 b ⟨101 * i.val + j.val, by omega⟩) :=
  slice2_axis1_apply (101 * i.val) x (slicesX i) b j _ rfl

/-- Every entry of a field's slice of the index array is an entry of the array. -/
theorem idxSlice_le (i : Fin 26) (x : IVec S1024x2626 32) (hx : ∀ k, (x k).toNat ≤ 99) (k : S1024x100.Idx) :
    (extractStridedSlice S1024x100 ![0, 101 * i.val] x (slicesX i) k).toNat ≤ 99 := by
  unfold extractStridedSlice
  exact hx _

/-- Field i's looked-up rows at (b, j, e). -/
theorem embOf_apply (x : IVec S1024x2626 32) (emb : FVec Ideal S26x100x32 .f32) (hx : ∀ k, (x k).toNat ≤ 99)
    (i : Fin 26) (b : Fin 1024) (j : Fin 100) (e : Fin 32) :
    embOf x emb i (ix3 b j e) = emb (ix3 i (rowOf x hx b i j) e) := by
  unfold embOf embField
  rw [takeEmb_apply _ _ (idxSlice_le i x hx) b j e, embTbl_apply]
  congr 2
  refine Fin.ext ?_
  show (extractStridedSlice S1024x100 ![0, 101 * i.val] x (slicesX i) (ix2 b j)).toNat = _
  rw [idxSlice_apply]
  rfl

/-- Field i's linear term at row b. -/
theorem linOf_apply (x : IVec S1024x2626 32) (lin : FVec Ideal S26x100x1 .f32) (hx : ∀ k, (x k).toNat ≤ 99)
    (i : Fin 26) (b : Fin 1024) :
    linOf x lin i (ix2 b (0 : Fin 1)) = ∑ j : Fin 100, lin (ix3 i (rowOf x hx b i j) (0 : Fin 1)) := by
  unfold linOf linField
  have hR : S1024x100x1.Reduces [1] S1024x1 := by decide
  show Ideal.hostReduceAdd reducesTo_S1024x100x1_S1024x1_d1 _ (Ideal.ofBits .f32 0x00000000#32) (ix2 b (0 : Fin 1)) = _
  rw [Ideal.hostReduceAdd_single reducesTo_S1024x100x1_S1024x1_d1 hR, Ideal.ofBits_zero_f32, zero_add]
  refine Finset.sum_congr rfl (fun (j : Fin 100) _ => ?_)
  have hj : hR.lift (ix2 b (0 : Fin 1)) j = ix3 b j (0 : Fin 1) := by
    funext a; refine Fin.ext ?_
    match a with
    | ⟨0, _⟩ => rfl
    | ⟨1, _⟩ => rfl
    | ⟨2, _⟩ => rfl
  rw [hj, takeLin_apply _ _ (idxSlice_le i x hx) b j, linTbl_apply]
  congr 2
  refine Fin.ext ?_
  show (extractStridedSlice S1024x100 ![0, 101 * i.val] x (slicesX i) (ix2 b j)).toNat = _
  rw [idxSlice_apply]
  rfl

end Cert.ReferenceIdeal.RefValue

end
-- ==== Proof.RefRead3.lean ====
/-
  The concatenations read at an index: the 26 linear terms side by side read, at column k, the k-th; the 26 blocks of
  looked-up rows laid one after the other along the position axis read, at position j + 100 i, block i at position j.
-/
import proofs.«205260_g26156350832969_cont_9to1_3_23_alg».proof.Proof.RefDefs
import proofs.«205260_g26156350832969_cont_9to1_3_23_alg».proof.Proof.RefSpec
import proofs.«205260_g26156350832969_cont_9to1_3_23_alg».proof.Proof.LibTakeFill

import Idealize.ShloMosaic.Lib.ValueLayout
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

variable {α : Type}

/-- The 26 one-column arrays side by side, read at column k. -/
theorem linCat_apply (l : Fin 26 → FVec Ideal S1024x1 .f32) (b : Fin 1024) (k : Fin 26) :
    linCat l (ix2 b k) = l k (ix2 b (0 : Fin 1)) := by
  unfold linCat
  by_cases hk : k.val < 16
  · rw [concatenate_pair_apply_left (t := S1024x26) (s₁ := S1024x16) (s₂ := S1024x10) (1 : Fin 2) _ _ _ (ix2 b k) rfl (ix2 b (⟨k.val, hk⟩ : Fin 16)) (fun a => by
      match a with
      | ⟨0, _⟩ => rfl
      | ⟨1, _⟩ => rfl)]
    have h := concatenate_ofFn_unit_apply (t := S1024x16) (s₁ := S1024x1) (1 : Fin 2)
      (fun n : Fin 16 => l (Fin.castLE (by decide) n)) concatenates_S1024x1_S1024x1_S1024x1_S1024x1_S1024x1_S1024x1_S1024x1_S1024x1_S1024x1_S1024x1_S1024x1_S1024x1_S1024x1_S1024x1_S1024x1_S1024x1_S1024x16_d1 rfl rfl (ix2 b (⟨k.val, hk⟩ : Fin 16)) ⟨k.val, hk⟩ rfl
      (ix2 b (0 : Fin 1)) (fun a ha => by
        match a with
        | ⟨0, _⟩ => rfl
        | ⟨1, _⟩ => exact absurd rfl ha)
    exact h
  · have hk' : k.val - 16 < 10 := by have := k.isLt; omega
    rw [concatenate_pair_apply_right (t := S1024x26) (s₁ := S1024x16) (s₂ := S1024x10) (1 : Fin 2) _ _ _ (ix2 b k) rfl rfl (ix2 b (⟨k.val - 16, hk'⟩ : Fin 10)) (fun a ha => by
      match a with
      | ⟨0, _⟩ => rfl
      | ⟨1, _⟩ => exact absurd rfl ha) (by show k.val - 16 + 16 = k.val; omega)]
    have h := concatenate_ofFn_unit_apply (t := S1024x10) (s₁ := S1024x1) (1 : Fin 2)
      (fun n : Fin 10 => l ⟨16 + n.val, by have := n.isLt; omega⟩) concatenates_S1024x1_S1024x1_S1024x1_S1024x1_S1024x1_S1024x1_S1024x1_S1024x1_S1024x1_S1024x1_S1024x10_d1 rfl rfl (ix2 b (⟨k.val - 16, hk'⟩ : Fin 10)) ⟨k.val - 16, hk'⟩ rfl
      (ix2 b (0 : Fin 1)) (fun a ha => by
        match a with
        | ⟨0, _⟩ => rfl
        | ⟨1, _⟩ => exact absurd rfl ha)
    have hkk : (⟨16 + (k.val - 16), by have := k.isLt; omega⟩ : Fin 26) = k :=
      Fin.ext (by show 16 + (k.val - 16) = k.val; omega)
    exact h.trans (congrArg (fun n => l n (ix2 b (0 : Fin 1))) hkk)

/-- The 26 blocks of 100 rows one after the other, read at position j + 100 i. -/
theorem embCat_apply (e : Fin 26 → FVec Ideal S1024x100x32 .f32) (b : Fin 1024) (i : Fin 26) (j : Fin 100) (c : Fin 32) :
    embCat e (ix3 b (⟨j.val + 100 * i.val, by omega⟩ : Fin 2600) c) = e i (ix3 b j c) := by
  unfold embCat
  by_cases hi : i.val < 16
  · have hq : j.val + 100 * i.val < 1600 := by omega
    rw [concatenate_pair_apply_left (t := S1024x2600x32) (s₁ := S1024x1600x32) (s₂ := S1024x1000x32) (1 : Fin 3) _ _ _ (ix3 b (⟨j.val + 100 * i.val, by omega⟩ : Fin 2600) c) rfl
      (ix3 b (⟨j.val + 100 * i.val, hq⟩ : Fin 1600) c) (fun a => by
      match a with
      | ⟨0, _⟩ => rfl
      | ⟨1, _⟩ => rfl
      | ⟨2, _⟩ => rfl)]
    have h := concatenate_ofFn_apply (t := S1024x1600x32) (s₁ := S1024x100x32) (1 : Fin 3)
      (fun n : Fin 16 => e (Fin.castLE (by decide) n)) concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1 rfl 100 rfl (ix3 b (⟨j.val + 100 * i.val, hq⟩ : Fin 1600) c)
      ⟨i.val, hi⟩ (by show (j.val + 100 * i.val) / 100 = i.val; omega)
      (ix3 b j c) (by show j.val = (j.val + 100 * i.val) % 100; omega) (fun a ha => by
        match a with
        | ⟨0, _⟩ => rfl
        | ⟨1, _⟩ => exact absurd rfl ha
        | ⟨2, _⟩ => rfl)
    exact h
  · have hi' : i.val - 16 < 10 := by have := i.isLt; omega
    have hq : j.val + 100 * i.val - 1600 < 1000 := by have := i.isLt; omega
    rw [concatenate_pair_apply_right (t := S1024x2600x32) (s₁ := S1024x1600x32) (s₂ := S1024x1000x32) (1 : Fin 3) _ _ _ (ix3 b (⟨j.val + 100 * i.val, by omega⟩ : Fin 2600) c) rfl rfl
      (ix3 b (⟨j.val + 100 * i.val - 1600, hq⟩ : Fin 1000) c) (fun a ha => by
      match a with
      | ⟨0, _⟩ => rfl
      | ⟨1, _⟩ => exact absurd rfl ha
      | ⟨2, _⟩ => rfl) (by show j.val + 100 * i.val - 1600 + 1600 = j.val + 100 * i.val; omega)]
    have h := concatenate_ofFn_apply (t := S1024x1000x32) (s₁ := S1024x100x32) (1 : Fin 3)
      (fun n : Fin 10 => e ⟨16 + n.val, by have := n.isLt; omega⟩) concatenates_S1024x100x32_S1024x100x32_S1024x100x32_S1024x100x32_S1024x100x32_S1024x100x32_S1024x100x32_S1024x100x32_S1024x100x32_S1024x100x32_S1024x1000x32_d1 rfl 100 rfl (ix3 b (⟨j.val + 100 * i.val - 1600, hq⟩ : Fin 1000) c)
      ⟨i.val - 16, hi'⟩ (by show (j.val + 100 * i.val - 1600) / 100 = i.val - 16; omega)
      (ix3 b j c) (by show j.val = (j.val + 100 * i.val - 1600) % 100; omega) (fun a ha => by
        match a with
        | ⟨0, _⟩ => rfl
        | ⟨1, _⟩ => exact absurd rfl ha
        | ⟨2, _⟩ => rfl)
    have hii : (⟨16 + (i.val - 16), by have := i.isLt; omega⟩ : Fin 26) = i :=
      Fin.ext (by show 16 + (i.val - 16) = i.val; omega)
    exact h.trans (congrArg (fun n => e n (ix3 b j c)) hii)

end Cert.ReferenceIdeal.RefValue

end
-- ==== Proof.RefRead.lean ====
/-
  The reference's result read at a batch row: under the hypothesis that every index of the index array, read
  unsigned, is at most 99, the result at row b is one over one plus the exponential of minus the pre-activation
  `refZ` at b.
-/
import proofs.«205260_g26156350832969_cont_9to1_3_23_alg».proof.Proof.RefDefs
import proofs.«205260_g26156350832969_cont_9to1_3_23_alg».proof.Proof.RefSpec
import proofs.«205260_g26156350832969_cont_9to1_3_23_alg».proof.Proof.LibTakeFill
import proofs.«205260_g26156350832969_cont_9to1_3_23_alg».proof.Proof.RefRead2
import proofs.«205260_g26156350832969_cont_9to1_3_23_alg».proof.Proof.RefRead3
import Idealize.ShloMosaic.Lib.ValueLayout
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- A sum over 2600 positions as the double sum over 26 blocks of 100. -/
theorem sum_fin2600 (g : Fin 2600 → EReal) :
    ∑ q, g q = ∑ i : Fin 26, ∑ j : Fin 100, g ⟨j.val + 100 * i.val, by omega⟩ := by
  have h := Equiv.sum_comp (finProdFinEquiv (m := 26) (n := 100)) g
  rw [← h, Fintype.sum_prod_type]
  rfl

/-- A sum over 39 columns as the sum over the first 26 plus the sum over the last 13. -/
theorem sum_fin39 (g : Fin 39 → EReal) :
    ∑ k, g k = (∑ i : Fin 26, g ⟨i.val, by omega⟩) + ∑ d : Fin 13, g ⟨26 + d.val, by omega⟩ := by
  have h := Fin.sum_univ_add (a := 26) (b := 13) g
  rw [h]
  rfl

/-- The sum over the 2600 positions of an array of rows, at (b, 0, e). -/
theorem sumRows_apply (ec : FVec Ideal S1024x2600x32 .f32) (b : Fin 1024) (e : Fin 32) :
    sumRows ec (ix3 b (0 : Fin 1) e) = ∑ q : Fin 2600, ec (ix3 b q e) := by
  unfold sumRows
  rw [broadcastInDim_apply ![0, 2] bcast_S1024x32_S1024x1x32_0_2 _ (ix3 b (0 : Fin 1) e) (ix2 b e) (fun a => by
    match a with
    | ⟨0, _⟩ => rfl
    | ⟨1, _⟩ => rfl)]
  have hR : S1024x2600x32.Reduces [1] S1024x32 := by decide
  show Ideal.hostReduceAdd reducesTo_S1024x2600x32_S1024x32_d1 _ (Ideal.ofBits .f32 0x00000000#32) (ix2 b e) = _
  rw [Ideal.hostReduceAdd_single reducesTo_S1024x2600x32_S1024x32_d1 hR, Ideal.ofBits_zero_f32, zero_add]
  refine Finset.sum_congr rfl (fun (q : Fin 2600) _ => ?_)
  congr 1
  funext a; refine Fin.ext ?_
  match a with
  | ⟨0, _⟩ => rfl
  | ⟨1, _⟩ => rfl
  | ⟨2, _⟩ => rfl

/-- The linear layer at row b: the sum over the 39 columns of the input times the coefficient. -/
theorem dot_apply (cat : FVec Ideal S1024x39 .f32) (W : FVec Ideal S39x1 .f32) (b : Fin 1024) :
    Host.dotGeneral dot_S1024x39_S39x1_S1024x1_1_0_0_1_n_n none cat W (ix2 b (0 : Fin 1))
      = ∑ k : Fin 39, cat (ix2 b k) * W (ix2 k (0 : Fin 1)) := by
  show FloatOps.dotGeneral dot_S1024x39_S39x1_S1024x1_1_0_0_1_n_n none .single cat W (ix2 b (0 : Fin 1)) = _
  rw [Ideal.dotGeneral_apply]
  have hr : (dot_S1024x39_S39x1_S1024x1_1_0_0_1_n_n).contr.rank = 1 := rfl
  have hs : (dot_S1024x39_S39x1_S1024x1_1_0_0_1_n_n).contr.size ⟨0, by omega⟩ = 39 := rfl
  rw [← Equiv.sum_comp (contrEquiv1 dot_S1024x39_S39x1_S1024x1_1_0_0_1_n_n 39 hr hs).symm]
  refine Finset.sum_congr rfl (fun k _ => ?_)
  have hv := contrEquiv1_symm_val dot_S1024x39_S39x1_S1024x1_1_0_0_1_n_n 39 hr hs k
  have hl : (dot_S1024x39_S39x1_S1024x1_1_0_0_1_n_n).lhsIdx (ix2 b (0 : Fin 1))
      ((contrEquiv1 dot_S1024x39_S39x1_S1024x1_1_0_0_1_n_n 39 hr hs).symm k) = ix2 b k := by
    funext a; refine Fin.ext ?_
    match a with
    | ⟨0, _⟩ => rfl
    | ⟨1, _⟩ => exact hv
  have hrr : (dot_S1024x39_S39x1_S1024x1_1_0_0_1_n_n).rhsIdx (ix2 b (0 : Fin 1))
      ((contrEquiv1 dot_S1024x39_S39x1_S1024x1_1_0_0_1_n_n 39 hr hs).symm k) = ix2 k (0 : Fin 1) := by
    funext a; refine Fin.ext ?_
    match a with
    | ⟨0, _⟩ => exact hv
    | ⟨1, _⟩ => rfl
  rw [hl, hrr]

/-- The input of the linear layer: the 26 linear terms, then the 13 dense features. -/
theorem cat39_left (lc : FVec Ideal S1024x26 .f32) (dense : FVec Ideal S1024x13 .f32) (b : Fin 1024) (i : Fin 26) :
    concatenate S1024x39 1 [⟨S1024x26, lc⟩, ⟨S1024x13, dense⟩] concatenates_S1024x26_S1024x13_S1024x39_d1
      (ix2 b (⟨i.val, by omega⟩ : Fin 39)) = lc (ix2 b i) :=
  concatenate_pair_apply_left (t := S1024x39) (s₁ := S1024x26) (s₂ := S1024x13) (1 : Fin 2) _ _ _ _ rfl (ix2 b i) (fun a => by
    match a with
    | ⟨0, _⟩ => rfl
    | ⟨1, _⟩ => rfl)

theorem cat39_right (lc : FVec Ideal S1024x26 .f32) (dense : FVec Ideal S1024x13 .f32) (b : Fin 1024) (d : Fin 13) :
    concatenate S1024x39 1 [⟨S1024x26, lc⟩, ⟨S1024x13, dense⟩] concatenates_S1024x26_S1024x13_S1024x39_d1
      (ix2 b (⟨26 + d.val, by omega⟩ : Fin 39)) = dense (ix2 b d) :=
  concatenate_pair_apply_right (t := S1024x39) (s₁ := S1024x26) (s₂ := S1024x13) (1 : Fin 2) _ _ _ _ rfl rfl (ix2 b d) (fun a ha => by
    match a with
    | ⟨0, _⟩ => rfl
    | ⟨1, _⟩ => exact absurd rfl ha) (by show d.val + 26 = 26 + d.val; omega)

/-- The pre-activation at row b. -/
theorem preAct_apply (x : IVec S1024x2626 32) (dense : FVec Ideal S1024x13 .f32) (lin : FVec Ideal S26x100x1 .f32)
    (emb : FVec Ideal S26x100x32 .f32) (W : FVec Ideal S39x1 .f32) (bias : FVec Ideal S1 .f32)
    (hx : ∀ i, (x i).toNat ≤ 99) (b : Fin 1024) :
    preAct (linCat (linOf x lin)) (embCat (embOf x emb)) dense W bias (ix2 b (0 : Fin 1))
      = refZ x dense lin emb W bias hx b := by
  unfold preAct refZ
  have hR : S1024x1x32.Reduces [2] S1024x1 := by decide
  -- the three summands, read at row b
  show (Host.dotGeneral dot_S1024x39_S39x1_S1024x1_1_0_0_1_n_n none _ W (ix2 b (0 : Fin 1))
        + broadcastInDim S1024x1 ![0, 1] bcast_S1x1_S1024x1_0_1 (broadcastInDim S1x1 ![1] bcast_S1_S1x1_1 bias) (ix2 b (0 : Fin 1)))
      + Ideal.ofBits .f32 0x3F000000#32
        * Ideal.hostReduceAdd reducesTo_S1024x1x32_S1024x1_d2 _ (Ideal.ofBits .f32 0x00000000#32) (ix2 b (0 : Fin 1)) = _
  rw [Ideal.hostReduceAdd_single reducesTo_S1024x1x32_S1024x1_d2 hR, Ideal.ofBits_zero_f32, zero_add, dot_apply, sum_fin39]
  congr 1
  · congr 1
    · congr 1
      · refine Finset.sum_congr rfl (fun i _ => ?_)
        rw [cat39_left, linCat_apply, linOf_apply x lin hx]
      · refine Finset.sum_congr rfl (fun d _ => ?_)
        rw [cat39_right]
    · rw [broadcastInDim_apply ![0, 1] bcast_S1x1_S1024x1_0_1 _ (ix2 b (0 : Fin 1)) (ix2 (0 : Fin 1) (0 : Fin 1)) (fun a => by
        match a with
        | ⟨0, _⟩ => rfl
        | ⟨1, _⟩ => rfl),
        broadcastInDim_apply ![1] bcast_S1_S1x1_1 _ (ix2 (0 : Fin 1) (0 : Fin 1)) (ix1 (0 : Fin 1)) (fun a => by
        match a with
        | ⟨0, _⟩ => rfl)]
  · congr 1
    refine Finset.sum_congr rfl (fun (e : Fin 32) _ => ?_)
    have hj : hR.lift (ix2 b (0 : Fin 1)) e = ix3 b (0 : Fin 1) e := by
      funext a; refine Fin.ext ?_
      match a with
      | ⟨0, _⟩ => rfl
      | ⟨1, _⟩ => rfl
      | ⟨2, _⟩ => rfl
    rw [hj]
    show sumRows _ (ix3 b (0 : Fin 1) e) * sumRows _ (ix3 b (0 : Fin 1) e) - sumRows _ (ix3 b (0 : Fin 1) e) = _
    rw [sumRows_apply, sumRows_apply, sum_fin2600, sum_fin2600]
    have h1 : ∀ (i : Fin 26) (j : Fin 100),
        embCat (embOf x emb) (ix3 b (⟨j.val + 100 * i.val, by omega⟩ : Fin 2600) e) = emb (ix3 i (rowOf x hx b i j) e) :=
      fun i j => by rw [embCat_apply, embOf_apply x emb hx]
    have hA : (∑ i : Fin 26, ∑ j : Fin 100, embCat (embOf x emb) (ix3 b (⟨j.val + 100 * i.val, by omega⟩ : Fin 2600) e))
        = ∑ i : Fin 26, ∑ j : Fin 100, emb (ix3 i (rowOf x hx b i j) e) :=
      Finset.sum_congr rfl (fun i _ => Finset.sum_congr rfl (fun j _ => h1 i j))
    have hB : (∑ i : Fin 26, ∑ j : Fin 100,
          mulf (embCat (embOf x emb)) (embCat (embOf x emb)) (ix3 b (⟨j.val + 100 * i.val, by omega⟩ : Fin 2600) e))
        = ∑ i : Fin 26, ∑ j : Fin 100, emb (ix3 i (rowOf x hx b i j) e) * emb (ix3 i (rowOf x hx b i j) e) :=
      Finset.sum_congr rfl (fun i _ => Finset.sum_congr rfl (fun j _ => by
        show embCat (embOf x emb) _ * embCat (embOf x emb) _ = _
        rw [h1 i j]))
    rw [hA, hB]

/-- THE RESULT AT ROW b. -/
theorem refOut_apply (x : IVec S1024x2626 32) (dense : FVec Ideal S1024x13 .f32) (lin : FVec Ideal S26x100x1 .f32)
    (emb : FVec Ideal S26x100x32 .f32) (W : FVec Ideal S39x1 .f32) (bias : FVec Ideal S1 .f32)
    (hx : ∀ i, (x i).toNat ≤ 99) (b : Fin 1024) :
    refOut x dense lin emb W bias (ValueIdx.ix2 b (0 : Fin 1))
      = Ideal.div (Ideal.ofBits .f32 0x3F800000#32)
          (Ideal.ofBits .f32 0x3F800000#32 + Ideal.exp (-(refZ x dense lin emb W bias hx b))) := by
  have hdiv : ∀ (u v : FVec Ideal S1024x1 .f32) (i : S1024x1.Idx), Host.divf u v i = Ideal.div (u i) (v i) := fun _ _ _ => rfl
  have hexp : ∀ (u : FVec Ideal S1024x1 .f32) (i : S1024x1.Idx), Host.exp u i = Ideal.exp (u i) := fun _ _ => rfl
  have hneg : ∀ (u : FVec Ideal S1024x1 .f32) (i : S1024x1.Idx), Host.negf u i = -(u i) := fun _ _ => rfl
  have hone : ∀ (i : S1024x1.Idx),
      (broadcastInDim S1024x1 ![] bcast_S_S1024x1 (constant S_ .f32 0x3F800000#32) : FVec Ideal S1024x1 .f32) i
        = Ideal.ofBits .f32 0x3F800000#32 := fun _ => rfl
  unfold refOut headFn
  rw [hdiv, addf_apply, hexp, hneg, hone, preAct_apply x dense lin emb W bias hx b]

/-- The whole result: at every index (b, 0) the logistic function of the pre-activation at b. -/
theorem refOut_eq (x : IVec S1024x2626 32) (dense : FVec Ideal S1024x13 .f32) (lin : FVec Ideal S26x100x1 .f32)
    (emb : FVec Ideal S26x100x32 .f32) (W : FVec Ideal S39x1 .f32) (bias : FVec Ideal S1 .f32)
    (hx : ∀ i, (x i).toNat ≤ 99) :
    refOut x dense lin emb W bias
      = fun j => Ideal.div (Ideal.ofBits .f32 0x3F800000#32)
          (Ideal.ofBits .f32 0x3F800000#32 + Ideal.exp (-(refZ x dense lin emb W bias hx (j 0)))) := by
  funext j
  obtain ⟨b, c, rfl⟩ : ∃ b c, j = ix2 b c := ⟨_, _, eq_ix2 j⟩
  obtain rfl : c = 0 := Subsingleton.elim _ _
  exact refOut_apply x dense lin emb W bias hx b

end Cert.ReferenceIdeal.RefValue

end
-- ==== Proof.PreRange.lean ====
/-
  The precondition's range conjunct, read at an index: every sparse feature, as an unsigned word, is at most 99.
-/
import proofs.«205260_g26156350832969_cont_9to1_3_23_alg».proof.Defs
import Idealize.ShloMosaic.Lib.ReduceAll
import Idealize.ShloMosaic.Lib.Affine
import Idealize.ShloMosaic.Lib.ValueIdx

noncomputable section

namespace Cert.Proof.KI

open Idealize.ShloMosaic

/-- A signed word that is at least 0 and at most 99 is, unsigned, at most 99. -/
theorem word_range (v : BitVec 32) (h1 : IntOp.cmpi .sge v 0#32 = 1#1) (h2 : IntOp.cmpi .sle v 99#32 = 1#1) : v.toNat ≤ 99 := by
  have h1' : (0#32).sle v = true := by
    cases hb : (0#32).sle v with
    | true => rfl
    | false => simp [IntOp.cmpi, hb] at h1
  have h2' : v.sle 99#32 = true := by
    cases hb : v.sle 99#32 with
    | true => rfl
    | false => simp [IntOp.cmpi, hb] at h2
  have hv := BitVec.toInt_eq_toNat_cond v
  have h0 : (0#32 : BitVec 32).toInt = 0 := by decide
  have h99 : (99#32 : BitVec 32).toInt = 99 := by decide
  rw [BitVec.sle_eq_decide, decide_eq_true_eq, h0] at h1'
  rw [BitVec.sle_eq_decide, decide_eq_true_eq, h99] at h2'
  have := v.isLt
  split at hv <;> omega

instance : Subsingleton Cert.Pre_input_domain.S_.Idx := ⟨fun a b => funext fun d => d.elim0⟩

/-- The input-domain predicate all ones gives the range of the sparse features. -/
theorem range_of_fn {F : FTy → Type} [FloatOps F] [Cert.Pre_input_domain.Facts] (x : IVec Cert.Pre_input_domain.S1024x2626 32)
    (a1 : FVec F Cert.Pre_input_domain.S1024x13 .f32) (a2 : FVec F Cert.Pre_input_domain.S26x100x1 .f32)
    (a3 : FVec F Cert.Pre_input_domain.S26x100x32 .f32) (a4 : FVec F Cert.Pre_input_domain.S39x1 .f32) (a5 : FVec F Cert.Pre_input_domain.S1 .f32)
    (h : Cert.Pre_input_domain.fn (F := F) x a1 a2 a3 a4 a5 = fun _ => 1#1) (i : Cert.Pre_input_domain.S1024x2626.Idx) : (x i).toNat ≤ 99 := by
  have e := congrFun h ValueIdx.ix0
  dsimp only [Cert.Pre_input_domain.fn, Cert.Pre_input_domain.fn_part1] at e
  have e29 := (IntOp.andi_eq_one.mp e).2
  have ei := Host.reduce_andi_all _ _ _ _ _ e29 i
  have hh := IntOp.andi_eq_one.mp ei
  exact word_range (x i) hh.1 hh.2

end Cert.Proof.KI

end
-- ==== Proof.PreFinite.lean ====
/-
  The precondition's finiteness conjuncts, read at an index over the extended reals: every entry of each float
  input is a real number.
-/
import proofs.«205260_g26156350832969_cont_9to1_3_23_alg».proof.Proof.PreRange
import Idealize.ShloMosaic.PureOps.Ideal.Laws

noncomputable section

namespace Cert.Proof.KI

open Idealize.ShloMosaic

/-- An extended real whose absolute value is below the word of plus infinity is neither infinity. -/
theorem finite_elt (x : EReal) (h : Ideal.cmp .olt (max x (-x)) (Ideal.ofBits .f32 0x7F800000#32) = 1#1) : x ≠ ⊥ ∧ x ≠ ⊤ := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  constructor
  · rintro rfl; simp at hlt
  · rintro rfl; simp at hlt

variable [Cert.Pre_input_domain.Facts]

theorem finite1_of_fn (x : IVec Cert.Pre_input_domain.S1024x2626 32)
    (a1 : FVec Ideal Cert.Pre_input_domain.S1024x13 .f32) (a2 : FVec Ideal Cert.Pre_input_domain.S26x100x1 .f32)
    (a3 : FVec Ideal Cert.Pre_input_domain.S26x100x32 .f32) (a4 : FVec Ideal Cert.Pre_input_domain.S39x1 .f32) (a5 : FVec Ideal Cert.Pre_input_domain.S1 .f32)
    (h : Cert.Pre_input_domain.fn (F := Ideal) x a1 a2 a3 a4 a5 = fun _ => 1#1) (i : Cert.Pre_input_domain.S1024x13.Idx) : a1 i ≠ ⊥ ∧ a1 i ≠ ⊤ := by
  have e := congrFun h ValueIdx.ix0
  dsimp only [Cert.Pre_input_domain.fn, Cert.Pre_input_domain.fn_part1] at e
  have e23 := (IntOp.andi_eq_one.mp e).1
  have e18 := (IntOp.andi_eq_one.mp e23).1
  have e13 := (IntOp.andi_eq_one.mp e18).1
  have e8 := (IntOp.andi_eq_one.mp e13).1
  exact finite_elt _ (Host.reduce_andi_all _ _ _ _ _ (IntOp.andi_eq_one.mp e8).1 i)

theorem finite2_of_fn (x : IVec Cert.Pre_input_domain.S1024x2626 32)
    (a1 : FVec Ideal Cert.Pre_input_domain.S1024x13 .f32) (a2 : FVec Ideal Cert.Pre_input_domain.S26x100x1 .f32)
    (a3 : FVec Ideal Cert.Pre_input_domain.S26x100x32 .f32) (a4 : FVec Ideal Cert.Pre_input_domain.S39x1 .f32) (a5 : FVec Ideal Cert.Pre_input_domain.S1 .f32)
    (h : Cert.Pre_input_domain.fn (F := Ideal) x a1 a2 a3 a4 a5 = fun _ => 1#1) (i : Cert.Pre_input_domain.S26x100x1.Idx) : a2 i ≠ ⊥ ∧ a2 i ≠ ⊤ := by
  have e := congrFun h ValueIdx.ix0
  dsimp only [Cert.Pre_input_domain.fn, Cert.Pre_input_domain.fn_part1] at e
  have e23 := (IntOp.andi_eq_one.mp e).1
  have e18 := (IntOp.andi_eq_one.mp e23).1
  have e13 := (IntOp.andi_eq_one.mp e18).1
  have e8 := (IntOp.andi_eq_one.mp e13).1
  exact finite_elt _ (Host.reduce_andi_all _ _ _ _ _ (IntOp.andi_eq_one.mp e8).2 i)

theorem finite3_of_fn (x : IVec Cert.Pre_input_domain.S1024x2626 32)
    (a1 : FVec Ideal Cert.Pre_input_domain.S1024x13 .f32) (a2 : FVec Ideal Cert.Pre_input_domain.S26x100x1 .f32)
    (a3 : FVec Ideal Cert.Pre_input_domain.S26x100x32 .f32) (a4 : FVec Ideal Cert.Pre_input_domain.S39x1 .f32) (a5 : FVec Ideal Cert.Pre_input_domain.S1 .f32)
    (h : Cert.Pre_input_domain.fn (F := Ideal) x a1 a2 a3 a4 a5 = fun _ => 1#1) (i : Cert.Pre_input_domain.S26x100x32.Idx) : a3 i ≠ ⊥ ∧ a3 i ≠ ⊤ := by
  have e := congrFun h ValueIdx.ix0
  dsimp only [Cert.Pre_input_domain.fn, Cert.Pre_input_domain.fn_part1] at e
  have e23 := (IntOp.andi_eq_one.mp e).1
  have e18 := (IntOp.andi_eq_one.mp e23).1
  have e13 := (IntOp.andi_eq_one.mp e18).1
  have e8 := (IntOp.andi_eq_one.mp e13).1
  exact finite_elt _ (Host.reduce_andi_all _ _ _ _ _ (IntOp.andi_eq_one.mp e13).2 i)

theorem finite4_of_fn (x : IVec Cert.Pre_input_domain.S1024x2626 32)
    (a1 : FVec Ideal Cert.Pre_input_domain.S1024x13 .f32) (a2 : FVec Ideal Cert.Pre_input_domain.S26x100x1 .f32)
    (a3 : FVec Ideal Cert.Pre_input_domain.S26x100x32 .f32) (a4 : FVec Ideal Cert.Pre_input_domain.S39x1 .f32) (a5 : FVec Ideal Cert.Pre_input_domain.S1 .f32)
    (h : Cert.Pre_input_domain.fn (F := Ideal) x a1 a2 a3 a4 a5 = fun _ => 1#1) (i : Cert.Pre_input_domain.S39x1.Idx) : a4 i ≠ ⊥ ∧ a4 i ≠ ⊤ := by
  have e := congrFun h ValueIdx.ix0
  dsimp only [Cert.Pre_input_domain.fn, Cert.Pre_input_domain.fn_part1] at e
  have e23 := (IntOp.andi_eq_one.mp e).1
  have e18 := (IntOp.andi_eq_one.mp e23).1
  have e13 := (IntOp.andi_eq_one.mp e18).1
  have e8 := (IntOp.andi_eq_one.mp e13).1
  exact finite_elt _ (Host.reduce_andi_all _ _ _ _ _ (IntOp.andi_eq_one.mp e18).2 i)

theorem finite5_of_fn (x : IVec Cert.Pre_input_domain.S1024x2626 32)
    (a1 : FVec Ideal Cert.Pre_input_domain.S1024x13 .f32) (a2 : FVec Ideal Cert.Pre_input_domain.S26x100x1 .f32)
    (a3 : FVec Ideal Cert.Pre_input_domain.S26x100x32 .f32) (a4 : FVec Ideal Cert.Pre_input_domain.S39x1 .f32) (a5 : FVec Ideal Cert.Pre_input_domain.S1 .f32)
    (h : Cert.Pre_input_domain.fn (F := Ideal) x a1 a2 a3 a4 a5 = fun _ => 1#1) (i : Cert.Pre_input_domain.S1.Idx) : a5 i ≠ ⊥ ∧ a5 i ≠ ⊤ := by
  have e := congrFun h ValueIdx.ix0
  dsimp only [Cert.Pre_input_domain.fn, Cert.Pre_input_domain.fn_part1] at e
  have e23 := (IntOp.andi_eq_one.mp e).1
  have e18 := (IntOp.andi_eq_one.mp e23).1
  have e13 := (IntOp.andi_eq_one.mp e18).1
  have e8 := (IntOp.andi_eq_one.mp e13).1
  exact finite_elt _ (Host.reduce_andi_all _ _ _ _ _ (IntOp.andi_eq_one.mp e23).2 i)

end Cert.Proof.KI

end
-- ==== Proof.ClaimOf.lean ====
/-
  The certificate: the kernel program (a SparseCore histogram kernel followed by a TensorCore dense head) against its
  reference, at the ideal instance, and the frames of the three programs.

  The kernel's host operations pack each row of indices, shifted field by field into one table's row numbers, two
  sixteen-bit numbers to a word. Each of the 32 vector subcores builds, for its 32 rows, the histogram of the row's 2688
  numbers over 2800 bins and keeps the first 2688: entry (b, k) counts the columns whose shifted index is k. The dense head
  multiplies the counts by the stacked table (the embeddings, the linear weights times their field's coefficient, zeros)
  and by its square: a count-weighted sum over table rows is the sum over the row's columns of the rows they index, which
  is what the reference gathers and adds. With every float input finite both sides are real numbers, the linear part, the
  first and the second moments agree term by term, and both end in the logistic function of the same number.
-/
import proofs.«205260_g26156350832969_cont_9to1_3_23_alg».proof.Defs
import proofs.«205260_g26156350832969_cont_9to1_3_23_alg».proof.Proof.Gen.Kernel
import proofs.«205260_g26156350832969_cont_9to1_3_23_alg».proof.Proof.Gen.KernelIdeal
import proofs.«205260_g26156350832969_cont_9to1_3_23_alg».proof.Proof.Gen.ReferenceIdeal
import proofs.«205260_g26156350832969_cont_9to1_3_23_alg».proof.Proof.Gen.Pre_input_domain
import proofs.«205260_g26156350832969_cont_9to1_3_23_alg».proof.Proof.Final
import proofs.«205260_g26156350832969_cont_9to1_3_23_alg».proof.Proof.FinalW
import proofs.«205260_g26156350832969_cont_9to1_3_23_alg».proof.Proof.Pack
import proofs.«205260_g26156350832969_cont_9to1_3_23_alg».proof.Proof.PackW
import proofs.«205260_g26156350832969_cont_9to1_3_23_alg».proof.Proof.TcOutApply
import proofs.«205260_g26156350832969_cont_9to1_3_23_alg».proof.Proof.Bridge
import proofs.«205260_g26156350832969_cont_9to1_3_23_alg».proof.Proof.RefRead
import proofs.«205260_g26156350832969_cont_9to1_3_23_alg».proof.Proof.PreRange
import proofs.«205260_g26156350832969_cont_9to1_3_23_alg».proof.Proof.PreFinite

noncomputable section

namespace Cert.Proof

open Idealize.ShloMosaic Idealize.SL.Sem
open Idealize.ShloMosaic.ValueIdx (ix2)

theorem claim_of
    (tileI : ∀ XP : (d : Dev Cert.KernelIdeal.nD) → Buf (Elt Ideal) (KI.xpLoc d), (∀ d, Cert.Proof.ScSpec.Packed (XP d)) → KI.TileStmt (F := Ideal) XP)
    (tileW : ∀ XP : (d : Dev Cert.Kernel.nD) → Buf (Elt Bits) (KW.xpLoc d), (∀ d, Cert.Proof.ScSpec.Packed (XP d)) → KW.TileStmt (F := Bits) XP)
    (refRun : ∀ (m : (ℓ : Loc Cert.ReferenceIdeal.nD Cert.ReferenceIdeal.τ Cert.ReferenceIdeal.sig) → Buf (Elt Ideal) ℓ) (g : Dev Cert.ReferenceIdeal.nD → PrngReg),
      Cert.Pre_ReferenceIdeal (hPre_input_domain := Cert.Pre_input_domain.Gen.facts) m →
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v235)
            = Cert.ReferenceIdeal.RefValue.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))) :
    Cert.Claim := by
  refine ⟨Cert.Kernel.Gen.facts, Cert.KernelIdeal.Gen.facts, Cert.ReferenceIdeal.Gen.facts, Cert.Pre_input_domain.Gen.facts, ?_, ?_, ?_, trivial, ?_⟩
  · -- the word-level kernel's frame
    intro m g hpre
    refine (θ_run (Cert.Kernel.defs (F := Bits)) _ _).mono (fun r h c => (h c).2) (KW.run_main (F := Bits) m g (tileW (KW.XPof m) fun d => ?_))
    rw [KW.XPof_eq]
    exact Cert.Proof.MathW.packed_xpOf _ (KI.range_of_fn _ _ _ _ _ _ (hpre d))
  · -- the idealized kernel's frame
    intro m g hpre
    refine (θ_run (Cert.KernelIdeal.defs (F := Ideal)) _ _).mono (fun r h c => (h c).2) (KI.run_main (F := Ideal) m g (tileI (KI.XPof m) fun d => ?_))
    rw [KI.XPof_eq]
    exact Cert.Proof.Math.packed_xpOf _ (KI.range_of_fn _ _ _ _ _ _ (hpre d))
  · -- the reference's frame
    intro m g hpre
    exact (θ_run (Cert.ReferenceIdeal.defs (F := Ideal)) _ _).mono (fun r h c => (h c).2) (refRun m g hpre)
  · -- equal results at the extended reals
    intro m g m' g' hpre hagree
    have hx : ∀ c : Dev Cert.KernelIdeal.nD, ∀ i, ((m ((c.tc : Thread Cert.KernelIdeal.nD Cert.KernelIdeal.τ).loc Cert.KernelIdeal.main_arg0)) i).toNat ≤ 99 := fun c => KI.range_of_fn _ _ _ _ _ _ (hpre c)
    have hpre' : Cert.Pre_ReferenceIdeal (hPre_input_domain := Cert.Pre_input_domain.Gen.facts) m' := fun c => by
      obtain ⟨e0, e1, e2, e3, e4, e5⟩ := hagree c
      rw [e0, e1, e2, e3, e4, e5]; exact hpre c
    refine ⟨fun c => KI.tcOut (F := Ideal) (Cert.Proof.ScSpec.counts (F := Ideal) (Cert.KernelIdeal.KHost.xpOf (m ((c.tc : Thread Cert.KernelIdeal.nD Cert.KernelIdeal.τ).loc Cert.KernelIdeal.main_arg0))))
        (Cert.KernelIdeal.KHost.tableOf (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)))
        (m ((c.tc : Thread Cert.KernelIdeal.nD Cert.KernelIdeal.τ).loc Cert.KernelIdeal.main_arg1)) (Cert.KernelIdeal.KHost.wdOf (F := Ideal) (m ((c.tc : Thread Cert.KernelIdeal.nD Cert.KernelIdeal.τ).loc Cert.KernelIdeal.main_arg4))) (Cert.KernelIdeal.KHost.biasOf (F := Ideal) (m ((c.tc : Thread Cert.KernelIdeal.nD Cert.KernelIdeal.τ).loc Cert.KernelIdeal.main_arg5))), ?_, ?_⟩
    · refine KI.run_main (F := Ideal) m g (tileI (KI.XPof m) fun d => ?_)
      rw [KI.XPof_eq]
      exact Cert.Proof.Math.packed_xpOf _ (hx d)
    · refine (θ_run (Cert.ReferenceIdeal.defs (F := Ideal)) _ _).mono (fun r h c => ⟨?_, (h c).2⟩) (refRun m' g' hpre')
      obtain ⟨e0, e1, e2, e3, e4, e5⟩ := hagree c
      rw [(h c).1, e0, e1, e2, e3, e4, e5]
      funext i
      obtain ⟨b, rfl⟩ : ∃ b : Fin 1024, i = ix2 b (0 : Fin 1) :=
        ⟨⟨(i 0).val, (i 0).isLt⟩, funext fun a => by
          match a with
          | ⟨0, _⟩ => rfl
          | ⟨1, _⟩ => exact Fin.ext (by have h1 : (i 1).val < 1 := (i 1).isLt; show (i 1).val = 0; omega)⟩
      rw [Cert.ReferenceIdeal.RefValue.refOut_apply _ _ _ _ _ _ (hx c) b]
      show _ = KI.tcOut (F := Ideal) _ _ _ _ _ (ix2 b (0 : Fin 1))
      rw [KI.tcOut_apply]
      exact (Cert.Proof.Math.bridge _ (hx c) _ _ _ _ _ (fun i => KI.finite1_of_fn _ _ _ _ _ _ (hpre c) i) (fun i => KI.finite2_of_fn _ _ _ _ _ _ (hpre c) i)
        (fun i => KI.finite3_of_fn _ _ _ _ _ _ (hpre c) i) (fun i => KI.finite4_of_fn _ _ _ _ _ _ (hpre c) i) (fun i => KI.finite5_of_fn _ _ _ _ _ _ (hpre c) i) b).symm

end Cert.Proof

end
-- ==== Proof.Respell.lean ====
/-
  The indexed store with accumulation, under a name of this development, and each printed part of the SparseCore
  kernel restated with it.

  The library's program for the indexed store is a load of the whole scratch followed by a store of the whole scratch
  at the scatter of what was read. The copy below is that program under a name the symbolic run enters as it enters
  any named program; a part's restatement differs from its skeleton only in that name, and the equation between the
  printed part and the restatement is the skeleton's equation (both sides unfold to one term).
-/
import Lean
import Idealize.ShloMosaic.Lib.SparseCore
import proofs.«205260_g26156350832969_cont_9to1_3_23_alg».proof.Proof.Gen.KernelIdeal.Skeleton

open Lean Elab Command Meta

namespace Cert.Proof.KI

/-- `copy_program c as n`: the definition `c` again, under the name `n` (same type, same body). -/
elab "copy_program " c:ident " as " n:ident : command => do
  let cN ← liftCoreM <| realizeGlobalConstNoOverloadWithInfo c
  let env ← getEnv
  let some (.defnInfo dv) := env.find? cN | throwError "not a definition: {cN}"
  liftCoreM <| addDecl (.defnDecl { dv with name := n.getId })

/-- `respell_part ns p`: from the skeleton `ns.Gen.p_skel` of the printed part `ns.p` and the equation
    `ns.Gen.p_eq_skeleton : p = p_skel`, the definition `ns.p_ops` — the skeleton with every indexed store spelt by the
    copy — and the equation `ns.p_eq_skeleton : p = p_ops` beside the part. Nothing is done for a part without an
    indexed store. -/
elab "respell_part " ns:ident p:ident " from " old:ident " to " new:ident : command => do
  let nsN := ns.getId
  let .str .anonymous last := p.getId | throwError "a simple name is expected"
  let oldN ← liftCoreM <| realizeGlobalConstNoOverloadWithInfo old
  let newN ← liftCoreM <| realizeGlobalConstNoOverloadWithInfo new
  let skel := nsN ++ `Gen ++ Name.mkSimple (last ++ "_skel")
  let eqGen := nsN ++ `Gen ++ Name.mkSimple (last ++ "_eq_skeleton")
  let ops := nsN ++ Name.mkSimple (last ++ "_ops")
  let eqNew := nsN ++ Name.mkSimple (last ++ "_eq_skeleton")
  let env ← getEnv
  let some (.defnInfo sdv) := env.find? skel | throwError "no definition {skel}"
  let some (.thmInfo etv) := env.find? eqGen | throwError "no theorem {eqGen}"
  unless (sdv.value.find? fun e => e.isConstOf oldN).isSome do return
  let swap (e : Expr) : Expr := e.replace fun
    | .const n us => if n == oldN then some (.const newN us) else none
    | _ => none
  let swapSkel (e : Expr) : Expr := e.replace fun
    | .const n us => if n == skel then some (.const ops us) else none
    | _ => none
  liftCoreM <| addDecl (.defnDecl { sdv with name := ops, value := swap sdv.value })
  liftCoreM <| addDecl (.thmDecl { etv with name := eqNew, type := swapSkel etv.type, value := swapSkel etv.value })

/-- `respell_parts ns "k0_part" lo hi from old to new`: `respell_part` for the parts numbered `lo` … `hi`. -/
elab "respell_parts " ns:ident pre:str lo:num hi:num " from " old:ident " to " new:ident : command => do
  for k in [lo.getNat : hi.getNat + 1] do
    let p := mkIdent (Name.mkSimple (pre.getString ++ toString k))
    elabCommand (← `(command| respell_part $ns $p from $old to $new))

end Cert.Proof.KI

namespace Cert.Proof.KI.sl.prog
copy_program Idealize.ShloMosaic.SparseCore.vectorStoreIdx as Cert.Proof.KI.sl.prog.vsi
end Cert.Proof.KI.sl.prog
-- ==== Proof.ScParts.lean ====
/-
  Every printed part of the SparseCore kernel that holds an indexed store, restated with the indexed store under this
  development's name (see Respell.lean): parts 1 … 108 of the idealized kernel's function.
-/
import proofs.«205260_g26156350832969_cont_9to1_3_23_alg».proof.Proof.Respell

set_option maxRecDepth 65536

namespace Cert.Proof.KI

respell_parts Cert.KernelIdeal "k0_part" 1 108 from Idealize.ShloMosaic.SparseCore.vectorStoreIdx to Cert.Proof.KI.sl.prog.vsi

end Cert.Proof.KI
-- ==== Proof.LibWholeWrites.lean ====
/-
  A buffer written piece by piece, read back whole.

  The contents of a buffer after a list of writes (last write first) are read through the whole shape.
  If the last write covered the whole shape, the reading is its payload. If every piece carries one
  constant and the pieces cover the shape, the reading is that constant everywhere. A load of a
  unit-stride run of a rank-one buffer reads consecutive entries.
-/
import Idealize.ShloMosaic.Lib.Exec.Context
import Idealize.ShloMosaic.Lib.ValueIdx

noncomputable section

namespace Cert.Proof.Math

open Idealize.ShloMosaic

variable {sig : RefSig} {κ : Kind} {sp : Space} {s : Shape} {e : EltTy} {Val : EltTy → Type}

/-- After a write through the whole shape, any view of the shape reads the payload, whatever was
    written before. -/
theorem read_writes_whole_cons (v : View sig κ sp s e) (f : v.ty.Contents Val) (p : s.Idx → Val e)
    (L : List (View.Piece Val s e)) :
    v.read Val (v.writes Val f (⟨Rect.whole s, p⟩ :: L)) = p := by
  funext y
  have h := View.read_writes_cons_emb v f (Rect.whole s) p L y
  rwa [Rect.emb_whole_apply] at h

/-- A covered load of the whole shape after a whole-shape write reads the payload. -/
theorem readCov_whole_cons [∀ e, Nonempty (Val e)] (v : View sig κ sp s e) (p : s.Idx → Val e)
    (L : List (View.Piece Val s e)) :
    v.readCov (⟨Rect.whole s, p⟩ :: L) (LoadRect.whole s) = p := by
  funext y
  unfold View.readCov
  rw [View.readAt_apply, LoadRect.idx_whole]
  exact congrFun (read_writes_whole_cons v v.junk p L) y

/-- The contents of a whole buffer after a whole-shape write are the payload. -/
theorem writes_whole_cons (b : Ref sig κ) (g : b.ty.Contents Val) (p : b.ty.shape.Idx → Val b.ty.elt)
    (L : List (View.Piece Val b.ty.shape b.ty.elt)) :
    (Memref.whole b).view.writes Val g (⟨Rect.whole b.ty.shape, p⟩ :: L) = p := by
  rw [View.writes_cons]
  exact Memref.write_access_whole_univ Val b _ p

/-- An element some piece covers reads the constant all pieces carry. -/
theorem read_writes_const (v : View sig κ sp s e) (z : Val e) (y : s.Idx) :
    ∀ (L : List (View.Piece Val s e)) (f : v.ty.Contents Val), (∀ p ∈ L, ∀ x, p.2 x = z) →
      (∃ p ∈ L, y ∈ p.1.set) → v.read Val (v.writes Val f L) y = z
  | [], _, _, h => by obtain ⟨_, hm, _⟩ := h; exact absurd hm List.not_mem_nil
  | p :: L, f, hz, h => by
    by_cases hy : y ∈ p.1.set
    · obtain ⟨x, rfl⟩ : ∃ x, p.1.emb x = y := p.1.exists_idx_of_mem hy
      have hp : v.read Val (v.writes Val f (⟨p.1, p.2⟩ :: L)) (p.1.emb x) = p.2 x :=
        View.read_writes_cons_emb v f p.1 p.2 L x
      exact hp.trans (hz p List.mem_cons_self x)
    · have hy' : y ∉ Finset.univ.map p.1.emb := by rwa [Rect.map_emb_univ]
      rw [View.writes_cons, View.read_slice_write_of_not_mem p.1 _ _ _ hy']
      obtain ⟨p', hp', hyp'⟩ := h
      rcases List.mem_cons.mp hp' with rfl | hp'
      · exact absurd hyp' hy
      · exact read_writes_const v z y L f (fun q hq => hz q (List.mem_cons_of_mem _ hq)) ⟨p', hp', hyp'⟩

/-- The same when only the later writes `L₁` are known: an element some piece of `L₁` covers reads the
    constant the pieces of `L₁` carry, whatever was written before them. -/
theorem read_writes_append_const (v : View sig κ sp s e) (z : Val e) (y : s.Idx) (L₂ : List (View.Piece Val s e)) :
    ∀ (L₁ : List (View.Piece Val s e)) (f : v.ty.Contents Val), (∀ p ∈ L₁, ∀ x, p.2 x = z) →
      (∃ p ∈ L₁, y ∈ p.1.set) → v.read Val (v.writes Val f (L₁ ++ L₂)) y = z := by
  intro L₁ f hz h
  rw [View.writes_append]
  exact read_writes_const v z y L₁ _ hz h

/-- Later writes that cover the shape and all carry the constant z: a covered load of the whole shape
    reads z everywhere, whatever was written before them. -/
theorem readCov_whole_append_const [∀ e, Nonempty (Val e)] (v : View sig κ sp s e) (L₁ L₂ : List (View.Piece Val s e)) (z : Val e)
    (hz : ∀ p ∈ L₁, ∀ x, p.2 x = z) (hcov : ∀ y : s.Idx, ∃ p ∈ L₁, y ∈ p.1.set) :
    v.readCov (L₁ ++ L₂) (LoadRect.whole s) = fun _ => z := by
  funext y
  unfold View.readCov
  rw [View.readAt_apply, LoadRect.idx_whole]
  exact read_writes_append_const v z y L₂ L₁ v.junk hz (hcov y)

/-- If the pieces cover the shape and all carry the constant z, a covered load of the
    whole shape reads z everywhere. -/
theorem readCov_whole_const [∀ e, Nonempty (Val e)] (v : View sig κ sp s e) (L : List (View.Piece Val s e)) (z : Val e)
    (hz : ∀ p ∈ L, ∀ x, p.2 x = z) (hcov : ∀ y : s.Idx, ∃ p ∈ L, y ∈ p.1.set) :
    v.readCov L (LoadRect.whole s) = fun _ => z := by
  funext y
  unfold View.readCov
  rw [View.readAt_apply, LoadRect.idx_whole]
  exact read_writes_const v z y L v.junk hz (hcov y)

/-- A load of `n` consecutive entries from entry `o` of a rank-one buffer reads entry
    `o + x` at lane `x`. -/
theorem readAt_unit_rank1 {N n : Nat} (v : View sig κ sp ⟨1, ![N]⟩ e) (X : v.ty.Contents Val) (o : Nat)
    (inb : ∀ a, (![o] : Fin 1 → Nat) a + (![n] : Fin 1 → Nat) a ≤ (⟨1, ![N]⟩ : Shape).size a)
    (x : (Rect.unit (s := ⟨1, ![N]⟩) ![o] ![n] inb).toLoadRect.shape.Idx) :
    v.readAt Val (Rect.unit (s := ⟨1, ![N]⟩) ![o] ![n] inb).toLoadRect X x
      = v.read Val X (ValueIdx.ix1 (⟨o + (x 0).val, by
          have h := inb 0; have hx := (x 0).isLt
          simp only [Matrix.cons_val_zero] at h
          exact Nat.lt_of_lt_of_le (Nat.add_lt_add_left hx o) h⟩ : Fin N)) := by
  rw [View.readAt_apply]
  congr 1
  funext a
  match a with
  | ⟨0, _⟩ =>
    apply Fin.ext
    show o + 1 * (x 0).val = o + (x 0).val
    omega

end Cert.Proof.Math

end
-- ==== Proof.ChkBins.lean ====
/-
  The range checks of the indexed stores: a group of sixteen words read from a packed row carries, in its low halves
  and in its high halves, bin numbers below 2800 when every word of the row does.
-/
import Lean
import proofs.«205260_g26156350832969_cont_9to1_3_23_alg».proof.Proof.ScSpec
import proofs.«205260_g26156350832969_cont_9to1_3_23_alg».proof.Proof.LibWholeWrites

noncomputable section

namespace Cert.Proof.Math

open Idealize.ShloMosaic Cert.Proof.ScSpec

variable {F : FTy → Type} [FloatOps F]
variable {sig : RefSig} {κ : Kind} {sp : Space}

/-- Every word of a packed row carries two bin numbers below 2800. -/
def RowPacked (X : IVec S1344 32) : Prop := ∀ q, ((X q) &&& 65535#32).toNat < 2800 ∧ ((X q) >>> 16).toNat < 2800

theorem chk_lo (v : View sig κ sp S1344 .i32) (X : v.ty.Contents (Elt F)) (hX : RowPacked (v.read (Elt F) X)) (o : Nat)
    (inb : ∀ a, (![o] : Fin 1 → Nat) a + S16.size a ≤ S1344.size a) :
    InBins (andi (v.readAt (Elt F) (Rect.unit (s := S1344) ![o] S16.size inb).toLoadRect X) (broadcast S16 65535#32)) := by
  intro a x
  obtain rfl : a = 0 := Subsingleton.elim _ _
  show ((v.readAt (Elt F) (Rect.unit (s := S1344) ![o] S16.size inb).toLoadRect X x) &&& 65535#32).toNat < 2800
  rw [readAt_unit_rank1]
  exact (hX _).1

theorem chk_hi (v : View sig κ sp S1344 .i32) (X : v.ty.Contents (Elt F)) (hX : RowPacked (v.read (Elt F) X)) (o : Nat)
    (inb : ∀ a, (![o] : Fin 1 → Nat) a + S16.size a ≤ S1344.size a) :
    InBins (shrui (v.readAt (Elt F) (Rect.unit (s := S1344) ![o] S16.size inb).toLoadRect X) (broadcast S16 16#32)) := by
  intro a x
  obtain rfl : a = 0 := Subsingleton.elim _ _
  show ((v.readAt (Elt F) (Rect.unit (s := S1344) ![o] S16.size inb).toLoadRect X x) >>> (16#32)).toNat < 2800
  rw [readAt_unit_rank1]
  exact (hX _).2

end Cert.Proof.Math

end

namespace Cert.Proof.Math

open Lean Elab Tactic Meta

/-- `bins_disch`: closes a range check on an index vector that is the low halves (a bitwise and with 65535) or the high
    halves (a logical shift right by 16) of a group of words read from a packed row, by `chk_lo` or `chk_hi` — chosen by
    unfolding the vector's names until the operation shows, so that the wrong lemma is never tried. -/
elab "bins_disch" : tactic => withMainContext do
  let g ← getMainGoal
  let ty ← instantiateMVars (← g.getType)
  let arg := ty.consumeMData.appArg!
  let rec go (e : Expr) (fuel : Nat) : MetaM Expr := do
    match fuel with
    | 0 => return e
    | fuel + 1 =>
      let e := e.consumeMData
      let fn := e.getAppFn
      if fn.isConstOf ``Idealize.ShloMosaic.andi || fn.isConstOf ``Idealize.ShloMosaic.shrui then return e
      match ← unfoldDefinition? e with
      | some e' => go (← zetaReduce e'.headBeta).headBeta fuel
      | none => return e
  let e ← go arg 8
  if e.getAppFn.isConstOf ``Idealize.ShloMosaic.andi then
    evalTactic (← `(tactic| exact Cert.Proof.Math.chk_lo _ _ (by assumption) _ _))
  else if e.getAppFn.isConstOf ``Idealize.ShloMosaic.shrui then
    evalTactic (← `(tactic| exact Cert.Proof.Math.chk_hi _ _ (by assumption) _ _))
  else throwError "bins_disch: neither the low nor the high halves:{indentExpr e}"

end Cert.Proof.Math
-- ==== Proof.ScTripStmt.lean ====
/-
  The statements of one trip of the SparseCore kernel's counted loop, in its three regimes, and the resources they speak
  of: a packed row in flight into an index scratch, the first 2688 bins of a histogram scratch in flight out to a counts
  row, a row of either array held by exactly its own elements.
-/
import proofs.«205260_g26156350832969_cont_9to1_3_23_alg».proof.Proof.ScIface
import proofs.«205260_g26156350832969_cont_9to1_3_23_alg».proof.Proof.ScParts
import proofs.«205260_g26156350832969_cont_9to1_3_23_alg».proof.Proof.ChkBins

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

open Cert.Proof.Math (RowPacked chk_lo chk_hi)

abbrev thr (d : Dev nD) (L : grid0.Coords) : Thread nD τ := V d (cV L) (jV L)

/-- Row `off 0` of the packed array, and of the counts array, as the kernel slices and squeezes them. -/
abbrev xRowAt (off : Fin 2 → Nat) (h : ∀ a, off a + S1x1344.size a ≤ S1024x1344.size a) : Memref sig .scVector .hbm S1344 .i32 :=
  ((a2).slice (Rect.unit (s := S1024x1344) off S1x1344.size h) (fun _ => rfl)).squeeze S1344 squeezes_S1x1344_S1344
abbrev oRowAt (off : Fin 2 → Nat) (h : ∀ a, off a + S1x2688.size a ≤ S1024x2688.size a) : Memref sig .scVector .hbm S2688 .f32 :=
  ((a3).slice (Rect.unit (s := S1024x2688) off S1x2688.size h) (fun _ => rfl)).squeeze S2688 squeezes_S1x2688_S2688

/-- The first 2688 bins of a histogram scratch: what is copied out. -/
abbrev hsOf (hm : Memref sig .scVector .vmem S2800 .f32) : Memref sig .scVector .vmem S2688 .f32 :=
  hm.slice (Rect.unit (s := S2800) ![0] S2688.size inb_S2800_S2688_0) (fun _ => rfl)

/-- A view held by exactly its own elements. -/
abbrev own {S : Shape} {e : EltTy} {sp : Space} (d : Dev nD) (L : grid0.Coords) (M : Memref sig .scVector sp S e) (f : Buf (Elt F) (M.view.loc (thr d L))) : sProp 𝕄 :=
  M.view.loc (thr d L) ↦[M.view.set]{fullShare} f

/-- A packed row on its way into an index scratch: the scratch whole at what lands, and the row's elements. -/
abbrev inFlight (d : Dev nD) (L : grid0.Coords) (sem : DmaSems sig S_) (xm : Memref sig .scVector .vmem S1344 .i32)
    (X : Buf (Elt F) (xm.view.loc (thr d L))) (r : Memref sig .scVector .hbm S1344 .i32) (RX : Buf (Elt F) (r.view.loc (thr d L))) : sProp 𝕄 :=
  Transfers.Flight countersEmb (thr d L) (SemLoc.dma sem.sem) default 43008
    iprop((xm.view.loc (thr d L) ↦{fullShare} X) ∗ own d L r RX)

/-- The first 2688 bins of a histogram scratch on their way out to a counts row. -/
abbrev outFlight (d : Dev nD) (L : grid0.Coords) (sem : DmaSems sig S_) (hm : Memref sig .scVector .vmem S2800 .f32)
    (ro : Memref sig .scVector .hbm S2688 .f32) (CO : Buf (Elt F) (ro.view.loc (thr d L))) (HC : Buf (Elt F) (hm.view.loc (thr d L))) : sProp 𝕄 :=
  Transfers.Flight countersEmb (thr d L) (SemLoc.dma sem.sem) default 86016
    iprop((own d L ro CO) ∗ (hm.view.loc (thr d L) ↦[(hsOf hm).view.set]{fullShare} HC))

/-- The histogram of the packed row an index scratch holds, as the contents of the matching histogram scratch. -/
abbrev histOf0 (d : Dev nD) (L : grid0.Coords) (X : Buf (Elt F) ((x0).view.loc (thr d L))) : Buf (Elt F) ((h0).view.loc (thr d L)) :=
  Cert.Proof.ScSpec.histRow (F := F) ((x0).view.read (Elt F) X)
abbrev histOf1 (d : Dev nD) (L : grid0.Coords) (X : Buf (Elt F) ((x1).view.loc (thr d L))) : Buf (Elt F) ((h1).view.loc (thr d L)) :=
  Cert.Proof.ScSpec.histRow (F := F) ((x1).view.read (Elt F) X)
abbrev histOf2 (d : Dev nD) (L : grid0.Coords) (X : Buf (Elt F) ((x2).view.loc (thr d L))) : Buf (Elt F) ((h2).view.loc (thr d L)) :=
  Cert.Proof.ScSpec.histRow (F := F) ((x2).view.read (Elt F) X)
abbrev histOf3 (d : Dev nD) (L : grid0.Coords) (X : Buf (Elt F) ((x3).view.loc (thr d L))) : Buf (Elt F) ((h3).view.loc (thr d L)) :=
  Cert.Proof.ScSpec.histRow (F := F) ((x3).view.read (Elt F) X)

/-- One trip of the loop, the first (no copy-out is pending yet): from the four incoming rows in flight, the four histogram scratches and their semaphores free, the four rows to fetch next and the four counts rows to fill, to the rows that came back, the next four in flight and the four new copy-outs in flight, each carrying the histogram of the row it counted. -/
def TripFirstStmt : Prop :=
  ∀ (d : Dev nD) (L : grid0.Coords) (O : CellTallies nD τ sig (HIx 1)) (W : Waits sig (HIx 1))
    (k : Fin k0_t1_loop.trips)
    (hc1 : ¬ k0_cond1 k = 1#1) (hc2 : k0_cond2 k = 1#1) (hc3 : ¬ k0_cond3 k = 1#1) (hc4 : k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ ((h0).view.loc (thr d L) ↦{fullShare} HC0) ∗ ((h1).view.loc (thr d L) ↦{fullShare} HC1)
        ∗ ((h2).view.loc (thr d L) ↦{fullShare} HC2) ∗ ((h3).view.loc (thr d L) ↦{fullShare} HC3)
        ∗ semVal (thr d L, SemLoc.dma cc0_scratch12.sem) 0 ∗ semVal (thr d L, SemLoc.dma cc0_scratch13.sem) 0
        ∗ semVal (thr d L, SemLoc.dma cc0_scratch14.sem) 0 ∗ semVal (thr d L, SemLoc.dma cc0_scratch15.sem) 0
        ∗ own d L (xRowAt (k0_off4 L k 0#32) (k0_off4_inb L k hc2 0)) XP
        ∗ own d L (xRowAt (k0_off4 L k 1#32) (k0_off4_inb L k hc2 1)) XP
        ∗ own d L (xRowAt (k0_off8 L k 0#32) (k0_off8_inb L k hc4 0)) XP
        ∗ own d L (xRowAt (k0_off8 L k 1#32) (k0_off8_inb L k hc4 1)) XP
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ inFlight d L cc0_scratch8 x0 (View.write (Elt F) (x0).view X0 (ReadAs.same.apply ((xRowAt (k0_off4 L k 0#32) (k0_off4_inb L k hc2 0)).view.read (Elt F) XP)) Finset.univ) (xRowAt (k0_off4 L k 0#32) (k0_off4_inb L k hc2 0)) XP
          ∗ inFlight d L cc0_scratch9 x1 (View.write (Elt F) (x1).view X1 (ReadAs.same.apply ((xRowAt (k0_off4 L k 1#32) (k0_off4_inb L k hc2 1)).view.read (Elt F) XP)) Finset.univ) (xRowAt (k0_off4 L k 1#32) (k0_off4_inb L k hc2 1)) XP
          ∗ inFlight d L cc0_scratch10 x2 (View.write (Elt F) (x2).view X2 (ReadAs.same.apply ((xRowAt (k0_off8 L k 0#32) (k0_off8_inb L k hc4 0)).view.read (Elt F) XP)) Finset.univ) (xRowAt (k0_off8 L k 0#32) (k0_off8_inb L k hc4 0)) XP
          ∗ inFlight d L cc0_scratch11 x3 (View.write (Elt F) (x3).view X3 (ReadAs.same.apply ((xRowAt (k0_off8 L k 1#32) (k0_off8_inb L k hc4 1)).view.read (Elt F) XP)) Finset.univ) (xRowAt (k0_off8 L k 1#32) (k0_off8_inb L k hc4 1)) XP
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

/-- One trip of the loop, in the middle of the run (every guard taken): from the four incoming rows in flight, the four copy-outs of the trip before in flight, the four rows to fetch next and the four counts rows to fill, to the rows that came back, the next four in flight and the four new copy-outs in flight, each carrying the histogram of the row it counted. -/
def TripMidStmt : Prop :=
  ∀ (d : Dev nD) (L : grid0.Coords) (O : CellTallies nD τ sig (HIx 1)) (W : Waits sig (HIx 1))
    (k : Fin k0_t1_loop.trips)
    (hc1 : k0_cond1 k = 1#1) (hc2 : k0_cond2 k = 1#1) (hc3 : k0_cond3 k = 1#1) (hc4 : k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ outFlight d L cc0_scratch12 h0 ro0 CO0 HC0 ∗ outFlight d L cc0_scratch13 h1 ro1 CO1 HC1
        ∗ outFlight d L cc0_scratch14 h2 ro2 CO2 HC2 ∗ outFlight d L cc0_scratch15 h3 ro3 CO3 HC3
        ∗ ((h0).view.loc (thr d L) ↦[Finset.univ \ (hsOf h0).view.set]{fullShare} HC0)
        ∗ ((h1).view.loc (thr d L) ↦[Finset.univ \ (hsOf h1).view.set]{fullShare} HC1)
        ∗ ((h2).view.loc (thr d L) ↦[Finset.univ \ (hsOf h2).view.set]{fullShare} HC2)
        ∗ ((h3).view.loc (thr d L) ↦[Finset.univ \ (hsOf h3).view.set]{fullShare} HC3)
        ∗ own d L (xRowAt (k0_off4 L k 0#32) (k0_off4_inb L k hc2 0)) XP
        ∗ own d L (xRowAt (k0_off4 L k 1#32) (k0_off4_inb L k hc2 1)) XP
        ∗ own d L (xRowAt (k0_off8 L k 0#32) (k0_off8_inb L k hc4 0)) XP
        ∗ own d L (xRowAt (k0_off8 L k 1#32) (k0_off8_inb L k hc4 1)) XP
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ own d L ro0 CO0 ∗ own d L ro1 CO1 ∗ own d L ro2 CO2 ∗ own d L ro3 CO3
          ∗ inFlight d L cc0_scratch8 x0 (View.write (Elt F) (x0).view X0 (ReadAs.same.apply ((xRowAt (k0_off4 L k 0#32) (k0_off4_inb L k hc2 0)).view.read (Elt F) XP)) Finset.univ) (xRowAt (k0_off4 L k 0#32) (k0_off4_inb L k hc2 0)) XP
          ∗ inFlight d L cc0_scratch9 x1 (View.write (Elt F) (x1).view X1 (ReadAs.same.apply ((xRowAt (k0_off4 L k 1#32) (k0_off4_inb L k hc2 1)).view.read (Elt F) XP)) Finset.univ) (xRowAt (k0_off4 L k 1#32) (k0_off4_inb L k hc2 1)) XP
          ∗ inFlight d L cc0_scratch10 x2 (View.write (Elt F) (x2).view X2 (ReadAs.same.apply ((xRowAt (k0_off8 L k 0#32) (k0_off8_inb L k hc4 0)).view.read (Elt F) XP)) Finset.univ) (xRowAt (k0_off8 L k 0#32) (k0_off8_inb L k hc4 0)) XP
          ∗ inFlight d L cc0_scratch11 x3 (View.write (Elt F) (x3).view X3 (ReadAs.same.apply ((xRowAt (k0_off8 L k 1#32) (k0_off8_inb L k hc4 1)).view.read (Elt F) XP)) Finset.univ) (xRowAt (k0_off8 L k 1#32) (k0_off8_inb L k hc4 1)) XP
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

/-- One trip of the loop, the last (nothing more is fetched): from the four incoming rows in flight, the four copy-outs of the trip before in flight and the four counts rows to fill, to the rows that came back and the four new copy-outs in flight, each carrying the histogram of the row it counted. -/
def TripLastStmt : Prop :=
  ∀ (d : Dev nD) (L : grid0.Coords) (O : CellTallies nD τ sig (HIx 1)) (W : Waits sig (HIx 1))
    (k : Fin k0_t1_loop.trips)
    (hc1 : k0_cond1 k = 1#1) (hc2 : ¬ k0_cond2 k = 1#1) (hc3 : k0_cond3 k = 1#1) (hc4 : ¬ k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ outFlight d L cc0_scratch12 h0 ro0 CO0 HC0 ∗ outFlight d L cc0_scratch13 h1 ro1 CO1 HC1
        ∗ outFlight d L cc0_scratch14 h2 ro2 CO2 HC2 ∗ outFlight d L cc0_scratch15 h3 ro3 CO3 HC3
        ∗ ((h0).view.loc (thr d L) ↦[Finset.univ \ (hsOf h0).view.set]{fullShare} HC0)
        ∗ ((h1).view.loc (thr d L) ↦[Finset.univ \ (hsOf h1).view.set]{fullShare} HC1)
        ∗ ((h2).view.loc (thr d L) ↦[Finset.univ \ (hsOf h2).view.set]{fullShare} HC2)
        ∗ ((h3).view.loc (thr d L) ↦[Finset.univ \ (hsOf h3).view.set]{fullShare} HC3)
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ own d L ro0 CO0 ∗ own d L ro1 CO1 ∗ own d L ro2 CO2 ∗ own d L ro3 CO3
          ∗ ((x0).view.loc (thr d L) ↦{fullShare} X0) ∗ semVal (thr d L, SemLoc.dma cc0_scratch8.sem) 0
          ∗ ((x1).view.loc (thr d L) ↦{fullShare} X1) ∗ semVal (thr d L, SemLoc.dma cc0_scratch9.sem) 0
          ∗ ((x2).view.loc (thr d L) ↦{fullShare} X2) ∗ semVal (thr d L, SemLoc.dma cc0_scratch10.sem) 0
          ∗ ((x3).view.loc (thr d L) ↦{fullShare} X3) ∗ semVal (thr d L, SemLoc.dma cc0_scratch11.sem) 0
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

end Cert.Proof.KI
end
-- ==== Proof.ScEnds.lean ====
/-
  The two ends of the SparseCore kernel function around its counted loop. The prologue starts the copies of the
  tile's first four packed rows into the four index scratches; what follows the loop waits for the last four
  copy-outs, each handing back its counts row, its histogram scratch whole again and its semaphore at zero.
-/
import proofs.«205260_g26156350832969_cont_9to1_3_23_alg».proof.Proof.ScTripStmt

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-! ## The prologue -/

/-- The first window of the kernel function: from the four packed rows it reads, the four index scratches whole and
    their semaphores at zero, it leaves the four rows in flight into the scratches and returns the loop's constants. -/
theorem prologue (d : Dev nD) (L : grid0.Coords) (O : CellTallies nD τ sig (HIx 1)) (W : Waits sig (HIx 1))
    (XP : Buf (Elt F) ((a2).view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (Q : (Σ' (v2 : BitVec 32) (v3 : FVec F S16 .f32) (v4 : FVec F S16 .f32) (c0_i32_16 : BitVec 32), BitVec 32) → sProp 𝕄) :
    iprop(Transfers.MayWaits (thr d L) (none : HIx 1) O
        ∗ own d L (xRowAt (k0_off1 L 0#32 0#32) (k0_off1_inb L 0 0)) XP ∗ own d L (xRowAt (k0_off1 L 0#32 1#32) (k0_off1_inb L 0 1)) XP
        ∗ own d L (xRowAt (k0_off1 L 2#32 0#32) (k0_off1_inb L 1 0)) XP ∗ own d L (xRowAt (k0_off1 L 2#32 1#32) (k0_off1_inb L 1 1)) XP
        ∗ ((x0).view.loc (thr d L) ↦{fullShare} X0) ∗ ((x1).view.loc (thr d L) ↦{fullShare} X1)
        ∗ ((x2).view.loc (thr d L) ↦{fullShare} X2) ∗ ((x3).view.loc (thr d L) ↦{fullShare} X3)
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ owes (thr d L) O W
        ∗ (∀ v2 : BitVec 32, iprop(Transfers.MayWaits (thr d L) (none : HIx 1) O
          ∗ inFlight d L cc0_scratch8 x0 (View.write (Elt F) (x0).view X0 (ReadAs.same.apply ((xRowAt (k0_off1 L 0#32 0#32) (k0_off1_inb L 0 0)).view.read (Elt F) XP)) Finset.univ) (xRowAt (k0_off1 L 0#32 0#32) (k0_off1_inb L 0 0)) XP
          ∗ inFlight d L cc0_scratch9 x1 (View.write (Elt F) (x1).view X1 (ReadAs.same.apply ((xRowAt (k0_off1 L 0#32 1#32) (k0_off1_inb L 0 1)).view.read (Elt F) XP)) Finset.univ) (xRowAt (k0_off1 L 0#32 1#32) (k0_off1_inb L 0 1)) XP
          ∗ inFlight d L cc0_scratch10 x2 (View.write (Elt F) (x2).view X2 (ReadAs.same.apply ((xRowAt (k0_off1 L 2#32 0#32) (k0_off1_inb L 1 0)).view.read (Elt F) XP)) Finset.univ) (xRowAt (k0_off1 L 2#32 0#32) (k0_off1_inb L 1 0)) XP
          ∗ inFlight d L cc0_scratch11 x3 (View.write (Elt F) (x3).view X3 (ReadAs.same.apply ((xRowAt (k0_off1 L 2#32 1#32) (k0_off1_inb L 1 1)).view.read (Elt F) XP)) Finset.univ) (xRowAt (k0_off1 L 2#32 1#32) (k0_off1_inb L 1 1)) XP
          ∗ owes (thr d L) O W) -∗ Q ⟨v2, k0_pay673 (F := F), k0_pay674 (F := F), 0#32, 1#32⟩))
      ⊢ wp frame (wpE (defs₀ (F := F)) 𝒱₀ (thr d L) none) Set.univ
          (k0_part107 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15) Q := by
  iintro ⟨Hmw, Hr0, Hr1, Hr2, Hr3, Hx0, Hx1, Hx2, Hx3, Hs0, Hs1, Hs2, Hs3, HO, Hk⟩
  sl_exec
  sl_step
  iapply Hk
  isplitl [Hmw]; · iexact Hmw
  isplitl [Hs0]; · iexact Hs0
  isplitl [Hs1]; · iexact Hs1
  isplitl [Hs2]; · iexact Hs2
  isplitl [Hs3]; · iexact Hs3
  iexact HO

/-! ## After the loop -/

/-- What follows the loop in the second window of the kernel function: the waits for three of the last copy-outs. -/
abbrev tail108 (L : grid0.Coords) : Prog (TpuEff nD τ sig (Elt F) Λ₀ (.scVector ((L 0).castLE hcore0) ((L 1).castLE hsub0))) PUnit := do
  Prog.lift (.waitDma2 cc0_scratch12.sem (hsOf h0) (oRowAt (k0_off10 L 0#32 0#32) (k0_off10_inb L 0 0)) (View.wordExact_bits rfl) ((View.wordExact_bits rfl).reshape _ _))
  Prog.lift (.waitDma2 cc0_scratch13.sem (hsOf h1) (oRowAt (k0_off10 L 0#32 1#32) (k0_off10_inb L 0 1)) (View.wordExact_bits rfl) ((View.wordExact_bits rfl).reshape _ _))
  Prog.lift (.waitDma2 cc0_scratch14.sem (hsOf h2) (oRowAt (k0_off10 L 2#32 0#32) (k0_off10_inb L 1 0)) (View.wordExact_bits rfl) ((View.wordExact_bits rfl).reshape _ _))
  pure ⟨⟩

/-- What follows the second window in the kernel function: the wait for the fourth. -/
abbrev tailBody (L : grid0.Coords) : Prog (TpuEff nD τ sig (Elt F) Λ₀ (.scVector ((L 0).castLE hcore0) ((L 1).castLE hsub0))) PUnit := do
  Prog.lift (.waitDma2 cc0_scratch15.sem (hsOf h3) (oRowAt (k0_off10 L 2#32 1#32) (k0_off10_inb L 1 1)) (View.wordExact_bits rfl) ((View.wordExact_bits rfl).reshape _ _))
  pure ⟨⟩

/-- The second window is the loop, then the three waits. -/
theorem part108_eq (L : grid0.Coords) (v2 : BitVec 32) (v3 v4 : FVec F S16 .f32) (c0 c1 : BitVec 32) :
    k0_part108 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 v2 v3 v4 c0 c1
      = (Scf.Loop.for k0_t1_loop k0_t1_ok ⟨⟩ (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 v2 v3 v4 c0 c1) >>= fun _ => tail108 (F := F) L) := by
  rw [k0_part108_eq_skeleton]; rfl

/-- The kernel function is its first window, its second, then the fourth wait. -/
theorem body_eq (L : grid0.Coords) :
    bodyAt (F := F) L
      = (k0_part107 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 >>= fun r =>
          k0_part108 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 r.1 r.2.1 r.2.2.1 r.2.2.2.1 r.2.2.2.2 >>= fun _ => tailBody (F := F) L) := by
  unfold bodyAt; rw [cc0_sc_body_eq_skeleton]; rfl

/-- The three waits: each copy-out in flight hands back its counts row, its histogram scratch whole and its semaphore at zero. -/
theorem epilogue3 (d : Dev nD) (L : grid0.Coords) (O : CellTallies nD τ sig (HIx 1)) (W : Waits sig (HIx 1))
    (CO0 : Buf (Elt F) ((oRowAt (k0_off10 L 0#32 0#32) (k0_off10_inb L 0 0)).view.loc (thr d L))) (HC0 : Buf (Elt F) ((h0).view.loc (thr d L)))
    (CO1 : Buf (Elt F) ((oRowAt (k0_off10 L 0#32 1#32) (k0_off10_inb L 0 1)).view.loc (thr d L))) (HC1 : Buf (Elt F) ((h1).view.loc (thr d L)))
    (CO2 : Buf (Elt F) ((oRowAt (k0_off10 L 2#32 0#32) (k0_off10_inb L 1 0)).view.loc (thr d L))) (HC2 : Buf (Elt F) ((h2).view.loc (thr d L)))
    (Q : PUnit → sProp 𝕄) :
    iprop(Transfers.MayWaits (thr d L) (none : HIx 1) O
        ∗ outFlight d L cc0_scratch12 h0 (oRowAt (k0_off10 L 0#32 0#32) (k0_off10_inb L 0 0)) CO0 HC0
        ∗ ((h0).view.loc (thr d L) ↦[Finset.univ \ (hsOf h0).view.set]{fullShare} HC0)
        ∗ outFlight d L cc0_scratch13 h1 (oRowAt (k0_off10 L 0#32 1#32) (k0_off10_inb L 0 1)) CO1 HC1
        ∗ ((h1).view.loc (thr d L) ↦[Finset.univ \ (hsOf h1).view.set]{fullShare} HC1)
        ∗ outFlight d L cc0_scratch14 h2 (oRowAt (k0_off10 L 2#32 0#32) (k0_off10_inb L 1 0)) CO2 HC2
        ∗ ((h2).view.loc (thr d L) ↦[Finset.univ \ (hsOf h2).view.set]{fullShare} HC2)
        ∗ owes (thr d L) O W
        ∗ (iprop(Transfers.MayWaits (thr d L) (none : HIx 1) O
          ∗ own d L (oRowAt (k0_off10 L 0#32 0#32) (k0_off10_inb L 0 0)) CO0 ∗ ((h0).view.loc (thr d L) ↦{fullShare} HC0) ∗ semVal (thr d L, SemLoc.dma cc0_scratch12.sem) 0
          ∗ own d L (oRowAt (k0_off10 L 0#32 1#32) (k0_off10_inb L 0 1)) CO1 ∗ ((h1).view.loc (thr d L) ↦{fullShare} HC1) ∗ semVal (thr d L, SemLoc.dma cc0_scratch13.sem) 0
          ∗ own d L (oRowAt (k0_off10 L 2#32 0#32) (k0_off10_inb L 1 0)) CO2 ∗ ((h2).view.loc (thr d L) ↦{fullShare} HC2) ∗ semVal (thr d L, SemLoc.dma cc0_scratch14.sem) 0
          ∗ ∃ W', ⌜∀ p ∈ W', p ∈ W ∨ p.2 = none⌝ ∗ owes (thr d L) O W') -∗ Q ⟨⟩))
      ⊢ wp frame (wpE (defs₀ (F := F)) 𝒱₀ (thr d L) none) Set.univ (tail108 (F := F) L) Q := by
  iintro ⟨Hmw, Hf0, Hrest0, Hf1, Hrest1, Hf2, Hrest2, HO, Hk⟩
  sl_exec
  sl_step
  iapply Hk
  isplitl [Hmw]; · iexact Hmw
  isplitl [Hf0_dst]; · iexact Hf0_dst
  isplitl [Hrest0]; · iexact Hrest0
  isplitl [Hf0]; · iexact Hf0
  isplitl [Hf1_dst]; · iexact Hf1_dst
  isplitl [Hrest1]; · iexact Hrest1
  isplitl [Hf1]; · iexact Hf1
  isplitl [Hf2_dst]; · iexact Hf2_dst
  isplitl [Hrest2]; · iexact Hrest2
  isplitl [Hf2]; · iexact Hf2
  iexists _; isplitr
  swap; · iexact HO
  ipureintro
  intro p hp
  simp only [Finset.mem_insert] at hp
  rcases hp with rfl | rfl | rfl | hp
  · exact Or.inr rfl
  · exact Or.inr rfl
  · exact Or.inr rfl
  · exact Or.inl hp

/-- The fourth wait: each copy-out in flight hands back its counts row, its histogram scratch whole and its semaphore at zero. -/
theorem epilogue1 (d : Dev nD) (L : grid0.Coords) (O : CellTallies nD τ sig (HIx 1)) (W : Waits sig (HIx 1))
    (CO3 : Buf (Elt F) ((oRowAt (k0_off10 L 2#32 1#32) (k0_off10_inb L 1 1)).view.loc (thr d L))) (HC3 : Buf (Elt F) ((h3).view.loc (thr d L)))
    (Q : PUnit → sProp 𝕄) :
    iprop(Transfers.MayWaits (thr d L) (none : HIx 1) O
        ∗ outFlight d L cc0_scratch15 h3 (oRowAt (k0_off10 L 2#32 1#32) (k0_off10_inb L 1 1)) CO3 HC3
        ∗ ((h3).view.loc (thr d L) ↦[Finset.univ \ (hsOf h3).view.set]{fullShare} HC3)
        ∗ owes (thr d L) O W
        ∗ (iprop(Transfers.MayWaits (thr d L) (none : HIx 1) O
          ∗ own d L (oRowAt (k0_off10 L 2#32 1#32) (k0_off10_inb L 1 1)) CO3 ∗ ((h3).view.loc (thr d L) ↦{fullShare} HC3) ∗ semVal (thr d L, SemLoc.dma cc0_scratch15.sem) 0
          ∗ ∃ W', ⌜∀ p ∈ W', p ∈ W ∨ p.2 = none⌝ ∗ owes (thr d L) O W') -∗ Q ⟨⟩))
      ⊢ wp frame (wpE (defs₀ (F := F)) 𝒱₀ (thr d L) none) Set.univ (tailBody (F := F) L) Q := by
  iintro ⟨Hmw, Hf3, Hrest3, HO, Hk⟩
  sl_exec
  sl_step
  iapply Hk
  isplitl [Hmw]; · iexact Hmw
  isplitl [Hf3_dst]; · iexact Hf3_dst
  isplitl [Hrest3]; · iexact Hrest3
  isplitl [Hf3]; · iexact Hf3
  iexists _; isplitr
  swap; · iexact HO
  ipureintro
  intro p hp
  simp only [Finset.mem_insert] at hp
  rcases hp with rfl | hp
  · exact Or.inr rfl
  · exact Or.inl hp

end Cert.Proof.KI
end
-- ==== Proof.ScRows.lean ====
/-
  The rows a vector subcore owns, one by one.

  The subcore at grid coordinates L has base row B = 64 (L 1) + 32 (L 0) and owns rows B … B + 31 of the packed
  array and of the counts array. Every row the kernel function slices — in its prologue, in each trip of its
  loop, in its epilogue — is one of these 32, by the closed forms of the slices' offsets. The subcore's rows of an
  array, held together, are the 32 rows held one by one. A counts row written whole holds the written vector.
-/
import proofs.«205260_g26156350832969_cont_9to1_3_23_alg».proof.Proof.ScTripStmt

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
local notation "𝕄" => MT nD τ sig (HIx 1) (Elt F) ℕ UU ℕ
local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-! ## The rows -/

/-- The subcore's first row. -/
abbrev baseRow (L : grid0.Coords) : Nat := 64 * (L 1).val + 32 * (L 0).val

omit [FloatOps F] in
theorem baseRow_add_lt (L : grid0.Coords) (ρ : Fin 32) : baseRow L + ρ.val < 1024 := by
  have hL0 : (L 0).val < 2 := (L 0).isLt
  have hL1 : (L 1).val < 16 := (L 1).isLt
  have := ρ.isLt
  show 64 * (L 1).val + 32 * (L 0).val + ρ.val < 1024
  omega

omit [FloatOps F] in
theorem baseRow_eq_wid (L : grid0.Coords) : baseRow L = 32 * (widL L).val := by
  show 64 * (L 1).val + 32 * (L 0).val = 32 * (2 * (L 1).val + (L 0).val)
  omega

theorem xRow_inb (r : Nat) (hr : r < 1024) : ∀ a, (![r, 0] : Fin 2 → Nat) a + S1x1344.size a ≤ S1024x1344.size a :=
  Rect.inb₂ (by show r + 1 ≤ 1024; omega) (by show 0 + 1344 ≤ 1344; omega)
theorem oRow_inb (r : Nat) (hr : r < 1024) : ∀ a, (![r, 0] : Fin 2 → Nat) a + S1x2688.size a ≤ S1024x2688.size a :=
  Rect.inb₂ (by show r + 1 ≤ 1024; omega) (by show 0 + 2688 ≤ 2688; omega)

/-- Local row ρ of the subcore's share of the packed array, and of the counts array. -/
abbrev xRowN (L : grid0.Coords) (ρ : Fin 32) : Memref sig .scVector .hbm S1344 .i32 :=
  xRowAt ![baseRow L + ρ.val, 0] (xRow_inb _ (baseRow_add_lt L ρ))
abbrev oRowN (L : grid0.Coords) (ρ : Fin 32) : Memref sig .scVector .hbm S2688 .f32 :=
  oRowAt ![baseRow L + ρ.val, 0] (oRow_inb _ (baseRow_add_lt L ρ))

/-- Rows at equal offsets are the same memref. -/
theorem xRowAt_congr {off off' : Fin 2 → Nat} (e : off = off') (h : ∀ a, off a + S1x1344.size a ≤ S1024x1344.size a)
    (h' : ∀ a, off' a + S1x1344.size a ≤ S1024x1344.size a) : xRowAt off h = xRowAt off' h' := by
  subst e; rfl
theorem oRowAt_congr {off off' : Fin 2 → Nat} (e : off = off') (h : ∀ a, off a + S1x2688.size a ≤ S1024x2688.size a)
    (h' : ∀ a, off' a + S1x2688.size a ≤ S1024x2688.size a) : oRowAt off h = oRowAt off' h' := by
  subst e; rfl

/-- A row at offset `![baseRow L + n, 0]` written in any way is the canonical row n. -/
theorem xRowAt_eq_rowN (L : grid0.Coords) {off : Fin 2 → Nat} (h : ∀ a, off a + S1x1344.size a ≤ S1024x1344.size a)
    (ρ : Fin 32) (e : off = ![baseRow L + ρ.val, 0]) : xRowAt off h = xRowN L ρ := xRowAt_congr e _ _
theorem oRowAt_eq_rowN (L : grid0.Coords) {off : Fin 2 → Nat} (h : ∀ a, off a + S1x2688.size a ≤ S1024x2688.size a)
    (ρ : Fin 32) (e : off = ![baseRow L + ρ.val, 0]) : oRowAt off h = oRowN L ρ := oRowAt_congr e _ _

/-! ## The loop's guards and the offsets under them, in closed form -/

theorem trips_eq : k0_t1_loop.trips = 8 := by decide

theorem trip_lt (k : Fin k0_t1_loop.trips) : k.val < 8 := Nat.lt_of_lt_of_eq k.isLt trips_eq

theorem cond1_iff : ∀ k : Fin k0_t1_loop.trips, k0_cond1 k = 1#1 ↔ 1 ≤ k.val := by decide +kernel
theorem cond2_iff : ∀ k : Fin k0_t1_loop.trips, k0_cond2 k = 1#1 ↔ k.val ≤ 6 := by decide +kernel
theorem cond3_iff : ∀ k : Fin k0_t1_loop.trips, k0_cond3 k = 1#1 ↔ 1 ≤ k.val := by decide +kernel
theorem cond4_iff : ∀ k : Fin k0_t1_loop.trips, k0_cond4 k = 1#1 ↔ k.val ≤ 6 := by decide +kernel

/-- The counts rows waited for at the head of a phase: those of two chunks before. -/
theorem k0_off2_eq : ∀ (i : grid0.Coords) (k : Fin k0_t1_loop.trips), k0_cond1 k = 1#1 → ∀ r : Fin 2,
    k0_off2 i k (BitVec.ofNat 32 r.val) = ![64 * (i 1).val + 32 * (i 0).val + 4 * k.val + r.val - 4, 0] := by decide +kernel
theorem k0_off6_eq : ∀ (i : grid0.Coords) (k : Fin k0_t1_loop.trips), k0_cond3 k = 1#1 → ∀ r : Fin 2,
    k0_off6 i k (BitVec.ofNat 32 r.val) = ![64 * (i 1).val + 32 * (i 0).val + 4 * k.val + r.val - 2, 0] := by decide +kernel

/-! ## Every row the kernel function slices is one of the 32 -/

omit [FloatOps F] in
theorem vec2_congr {a b : Nat} (e : a = b) : (![a, 0] : Fin 2 → Nat) = ![b, 0] := by rw [e]

/-- Prologue: the four packed rows fetched first are rows 0 … 3. -/
theorem xRow_off1 (L : grid0.Coords) (r₁ r₂ : Fin 2) :
    xRowAt (k0_off1 L (BitVec.ofNat 32 (2 * r₁.val)) (BitVec.ofNat 32 r₂.val)) (k0_off1_inb L r₁ r₂)
      = xRowN L ⟨2 * r₁.val + r₂.val, by omega⟩ :=
  xRowAt_eq_rowN L _ _ ((k0_off1_eq L r₁ r₂).trans (vec2_congr (by show _ = 64 * (L 1).val + 32 * (L 0).val + (2 * r₁.val + r₂.val); omega)))

/-- Phase 0 of trip k counts packed rows 4 k, 4 k + 1; phase 1 rows 4 k + 2, 4 k + 3. -/
theorem xRow_off3 (L : grid0.Coords) (k : Fin k0_t1_loop.trips) (r : Fin 2) :
    xRowAt (k0_off3 L k (BitVec.ofNat 32 r.val)) (k0_off3_inb L k r)
      = xRowN L ⟨4 * k.val + r.val, by have := trip_lt k; omega⟩ :=
  xRowAt_eq_rowN L _ _ ((k0_off3_eq L k r).trans (vec2_congr (by show _ = 64 * (L 1).val + 32 * (L 0).val + (4 * k.val + r.val); omega)))
theorem xRow_off7 (L : grid0.Coords) (k : Fin k0_t1_loop.trips) (r : Fin 2) :
    xRowAt (k0_off7 L k (BitVec.ofNat 32 r.val)) (k0_off7_inb L k r)
      = xRowN L ⟨4 * k.val + r.val + 2, by have := trip_lt k; omega⟩ :=
  xRowAt_eq_rowN L _ _ ((k0_off7_eq L k r).trans (vec2_congr (by show _ = 64 * (L 1).val + 32 * (L 0).val + (4 * k.val + r.val + 2); omega)))

/-- The rows fetched ahead: phase 0 of trip k fetches rows 4 k + 4, 4 k + 5; phase 1 rows 4 k + 6, 4 k + 7 (k ≤ 6). -/
theorem xRow_off4 (L : grid0.Coords) (k : Fin k0_t1_loop.trips) (hc : k0_cond2 k = 1#1) (r : Fin 2) :
    xRowAt (k0_off4 L k (BitVec.ofNat 32 r.val)) (k0_off4_inb L k hc r)
      = xRowN L ⟨4 * k.val + r.val + 4, by have := (cond2_iff k).mp hc; omega⟩ :=
  xRowAt_eq_rowN L _ _ ((k0_off4_eq L k r).trans (vec2_congr (by show _ = 64 * (L 1).val + 32 * (L 0).val + (4 * k.val + r.val + 4); omega)))
theorem xRow_off8 (L : grid0.Coords) (k : Fin k0_t1_loop.trips) (hc : k0_cond4 k = 1#1) (r : Fin 2) :
    xRowAt (k0_off8 L k (BitVec.ofNat 32 r.val)) (k0_off8_inb L k hc r)
      = xRowN L ⟨4 * k.val + r.val + 6, by have := (cond4_iff k).mp hc; omega⟩ :=
  xRowAt_eq_rowN L _ _ ((k0_off8_eq L k r).trans (vec2_congr (by show _ = 64 * (L 1).val + 32 * (L 0).val + (4 * k.val + r.val + 6); omega)))

/-- The counts rows filled: phase 0 of trip k fills rows 4 k, 4 k + 1; phase 1 rows 4 k + 2, 4 k + 3. -/
theorem oRow_off5 (L : grid0.Coords) (k : Fin k0_t1_loop.trips) (r : Fin 2) :
    oRowAt (k0_off5 L k (BitVec.ofNat 32 r.val)) (k0_off5_inb L k r)
      = oRowN L ⟨4 * k.val + r.val, by have := trip_lt k; omega⟩ :=
  oRowAt_eq_rowN L _ _ ((k0_off5_eq L k r).trans (vec2_congr (by show _ = 64 * (L 1).val + 32 * (L 0).val + (4 * k.val + r.val); omega)))
theorem oRow_off9 (L : grid0.Coords) (k : Fin k0_t1_loop.trips) (r : Fin 2) :
    oRowAt (k0_off9 L k (BitVec.ofNat 32 r.val)) (k0_off9_inb L k r)
      = oRowN L ⟨4 * k.val + r.val + 2, by have := trip_lt k; omega⟩ :=
  oRowAt_eq_rowN L _ _ ((k0_off9_eq L k r).trans (vec2_congr (by show _ = 64 * (L 1).val + 32 * (L 0).val + (4 * k.val + r.val + 2); omega)))

/-- The counts rows waited for at the head of a phase (k ≥ 1): those the same phase filled in the trip before. -/
theorem oRow_off2 (L : grid0.Coords) (k : Fin k0_t1_loop.trips) (hc : k0_cond1 k = 1#1) (r : Fin 2) :
    oRowAt (k0_off2 L k (BitVec.ofNat 32 r.val)) (k0_off2_inb L k hc r)
      = oRowN L ⟨4 * k.val + r.val - 4, by have := trip_lt k; omega⟩ :=
  oRowAt_eq_rowN L _ _ ((k0_off2_eq L k hc r).trans (vec2_congr (by
    have := (cond1_iff k).mp hc
    show _ = 64 * (L 1).val + 32 * (L 0).val + (4 * k.val + r.val - 4); omega)))
theorem oRow_off6 (L : grid0.Coords) (k : Fin k0_t1_loop.trips) (hc : k0_cond3 k = 1#1) (r : Fin 2) :
    oRowAt (k0_off6 L k (BitVec.ofNat 32 r.val)) (k0_off6_inb L k hc r)
      = oRowN L ⟨4 * k.val + r.val - 2, by have := trip_lt k; omega⟩ :=
  oRowAt_eq_rowN L _ _ ((k0_off6_eq L k hc r).trans (vec2_congr (by
    have := (cond3_iff k).mp hc
    show _ = 64 * (L 1).val + 32 * (L 0).val + (4 * k.val + r.val - 2); omega)))

/-- Epilogue: the four counts rows waited for last are rows 28 … 31. -/
theorem oRow_off10 (L : grid0.Coords) (r₁ r₂ : Fin 2) :
    oRowAt (k0_off10 L (BitVec.ofNat 32 (2 * r₁.val)) (BitVec.ofNat 32 r₂.val)) (k0_off10_inb L r₁ r₂)
      = oRowN L ⟨2 * r₁.val + r₂.val + 28, by omega⟩ :=
  oRowAt_eq_rowN L _ _ ((k0_off10_eq L r₁ r₂).trans (vec2_congr (by show _ = 64 * (L 1).val + 32 * (L 0).val + (2 * r₁.val + r₂.val + 28); omega)))

/-! ## The subcore's rows, held together, are the 32 rows held one by one -/

omit [FloatOps F] in
theorem set_xRowAt (off : Fin 2 → Nat) (h : ∀ a, off a + S1x1344.size a ≤ S1024x1344.size a) :
    (xRowAt off h).view.set = (Rect.unit (s := S1024x1344) off S1x1344.size h).set := by
  show (((View.whole (main_v8_scv : Ref sig .scVector)).slice (Rect.unit (s := S1024x1344) off S1x1344.size h)).reshape S1344
    squeezes_S1x1344_S1344.numel_eq).set = _
  rw [View.set_reshape, View.set_slice_whole]
omit [FloatOps F] in
theorem set_oRowAt (off : Fin 2 → Nat) (h : ∀ a, off a + S1x2688.size a ≤ S1024x2688.size a) :
    (oRowAt off h).view.set = (Rect.unit (s := S1024x2688) off S1x2688.size h).set := by
  show (((View.whole (main_v20_scv : Ref sig .scVector)).slice (Rect.unit (s := S1024x2688) off S1x2688.size h)).reshape S2688
    squeezes_S1x2688_S2688.numel_eq).set = _
  rw [View.set_reshape, View.set_slice_whole]

omit [FloatOps F] in
/-- An element is in local row ρ exactly when its row coordinate is B + ρ. -/
theorem mem_set_xRowN (L : grid0.Coords) (ρ : Fin 32) (j : S1024x1344.Idx) :
    j ∈ (xRowN L ρ).view.set ↔ (j 0).val = baseRow L + ρ.val := by
  rw [set_xRowAt, Rect.mem_set_unit]
  constructor
  · intro h
    have hh0 := h 0
    have e0 : (![baseRow L + ρ.val, 0] : Fin 2 → Nat) 0 = baseRow L + ρ.val := rfl
    have e1 : S1x1344.size 0 = 1 := rfl
    rw [e0, e1] at hh0
    omega
  · intro h a
    match a with
    | ⟨0, _⟩ =>
      show baseRow L + ρ.val ≤ (j 0).val ∧ (j 0).val < baseRow L + ρ.val + 1
      omega
    | ⟨1, _⟩ =>
      have hj1 : (j 1).val < 1344 := (j 1).isLt
      show 0 ≤ (j 1).val ∧ (j 1).val < 0 + 1344
      omega
omit [FloatOps F] in
theorem mem_set_oRowN (L : grid0.Coords) (ρ : Fin 32) (j : S1024x2688.Idx) :
    j ∈ (oRowN L ρ).view.set ↔ (j 0).val = baseRow L + ρ.val := by
  rw [set_oRowAt, Rect.mem_set_unit]
  constructor
  · intro h
    have hh0 := h 0
    have e0 : (![baseRow L + ρ.val, 0] : Fin 2 → Nat) 0 = baseRow L + ρ.val := rfl
    have e1 : S1x2688.size 0 = 1 := rfl
    rw [e0, e1] at hh0
    omega
  · intro h a
    match a with
    | ⟨0, _⟩ =>
      show baseRow L + ρ.val ≤ (j 0).val ∧ (j 0).val < baseRow L + ρ.val + 1
      omega
    | ⟨1, _⟩ =>
      have hj1 : (j 1).val < 2688 := (j 1).isLt
      show 0 ≤ (j 1).val ∧ (j 1).val < 0 + 2688
      omega

omit [FloatOps F] in
theorem xRows_disjoint (L : grid0.Coords) : ∀ ρ ∈ (Finset.univ : Finset (Fin 32)), ∀ ρ' ∈ (Finset.univ : Finset (Fin 32)),
    ρ ≠ ρ' → Disjoint (xRowN L ρ).view.set (xRowN L ρ').view.set := by
  intro ρ _ ρ' _ hne
  rw [Finset.disjoint_left]
  intro j hj hj'
  rw [mem_set_xRowN] at hj hj'
  exact hne (Fin.ext (by omega))
omit [FloatOps F] in
theorem oRows_disjoint (L : grid0.Coords) : ∀ ρ ∈ (Finset.univ : Finset (Fin 32)), ∀ ρ' ∈ (Finset.univ : Finset (Fin 32)),
    ρ ≠ ρ' → Disjoint (oRowN L ρ).view.set (oRowN L ρ').view.set := by
  intro ρ _ ρ' _ hne
  rw [Finset.disjoint_left]
  intro j hj hj'
  rw [mem_set_oRowN] at hj hj'
  exact hne (Fin.ext (by omega))

omit [FloatOps F] in
theorem xpRows_eq (L : grid0.Coords) :
    xpRows (widL L) = (Finset.univ : Finset (Fin 32)).biUnion fun ρ => (xRowN L ρ).view.set := by
  ext j
  have hb := baseRow_eq_wid L
  have hx : j ∈ xpRows (widL L) ↔ (j 0).val / 32 = (widL L).val := by
    unfold xpRows
    simp only [Finset.mem_filter, Finset.mem_univ, true_and]
  rw [hx, Finset.mem_biUnion]
  constructor
  · intro h
    refine ⟨⟨(j 0).val % 32, Nat.mod_lt _ (by norm_num)⟩, Finset.mem_univ _, (mem_set_xRowN L _ j).mpr ?_⟩
    show (j 0).val = baseRow L + (j 0).val % 32
    omega
  · rintro ⟨ρ, -, hρ⟩
    rw [mem_set_xRowN] at hρ
    have := ρ.isLt
    omega
omit [FloatOps F] in
theorem cntRows_eq (L : grid0.Coords) :
    cntRows (widL L) = (Finset.univ : Finset (Fin 32)).biUnion fun ρ => (oRowN L ρ).view.set := by
  ext j
  have hb := baseRow_eq_wid L
  have hx : j ∈ cntRows (widL L) ↔ (j 0).val / 32 = (widL L).val := by
    unfold cntRows
    simp only [Finset.mem_filter, Finset.mem_univ, true_and]
  rw [hx, Finset.mem_biUnion]
  constructor
  · intro h
    refine ⟨⟨(j 0).val % 32, Nat.mod_lt _ (by norm_num)⟩, Finset.mem_univ _, (mem_set_oRowN L _ j).mpr ?_⟩
    show (j 0).val = baseRow L + (j 0).val % 32
    omega
  · rintro ⟨ρ, -, hρ⟩
    rw [mem_set_oRowN] at hρ
    have := ρ.isLt
    omega

/-- The subcore's rows of the packed array are its 32 rows, each held by its own elements. -/
theorem xp_rows (d : Dev nD) (L : grid0.Coords) (f : Buf (Elt F) (xpLoc d)) :
    (xpLoc d ↦[xpRows (widL L)]{fullShare} f : sProp 𝕄) = bigSep Finset.univ fun ρ : Fin 32 => own d L (xRowN L ρ) f := by
  rw [xpRows_eq L, pointsTo_biUnion Finset.univ (ℓ := xpLoc d) (fun ρ => (xRowN L ρ).view.set) (xRows_disjoint L)]
/-- The subcore's rows of the counts array are its 32 rows, each held by its own elements. -/
theorem cnt_rows (d : Dev nD) (L : grid0.Coords) (f : Buf (Elt F) (cntLoc d)) :
    (cntLoc d ↦[cntRows (widL L)]{fullShare} f : sProp 𝕄) = bigSep Finset.univ fun ρ : Fin 32 => own d L (oRowN L ρ) f := by
  rw [cntRows_eq L, pointsTo_biUnion Finset.univ (ℓ := cntLoc d) (fun ρ => (oRowN L ρ).view.set) (oRows_disjoint L)]

/-! ## The contents of a row -/

omit [FloatOps F] in
/-- A view held by its own elements does not see the contents off them. -/
theorem own_congr {S : Shape} {e : EltTy} {sp : Space} (d : Dev nD) (L : grid0.Coords) (M : Memref sig .scVector sp S e)
    (f g : Buf (Elt F) (M.view.loc (thr d L))) (h : ∀ j ∈ M.view.set, f j = g j) :
    (own d L M f : sProp 𝕄) = own d L M g := pointsTo_congr h

omit [FloatOps F] in
/-- Entry q of local row ρ of the counts array is the array's entry (B + ρ, q). -/
theorem emb_oRowN (L : grid0.Coords) (ρ : Fin 32) (q : Fin 2688) :
    (oRowN L ρ).view.emb (ix1 q) = ix2 (⟨baseRow L + ρ.val, baseRow_add_lt L ρ⟩ : Fin 1024) q := by
  show (((View.whole (main_v20_scv : Ref sig .scVector)).slice
      (Rect.unit (s := S1024x2688) ![baseRow L + ρ.val, 0] S1x2688.size (oRow_inb _ (baseRow_add_lt L ρ)))).reshape S2688
        squeezes_S1x2688_S2688.numel_eq).emb (ix1 q) = _
  rw [View.emb_reshape, View.emb_slice, View.emb_whole]
  have hre : Shape.reshapeEquiv squeezes_S1x2688_S2688.numel_eq (ix1 q) = (ix2 (0 : Fin 1) q : S1x2688.Idx) :=
    Shape.reshapeEquiv_eq_of_rowMajor _ (by
      rw [Shape.rowMajor_val_two, Shape.rowMajor_val_one]
      show 0 * 2688 + q.val = q.val
      omega)
  show (Rect.unit (s := S1024x2688) ![baseRow L + ρ.val, 0] S1x2688.size _).emb
      (Shape.reshapeEquiv squeezes_S1x2688_S2688.numel_eq (ix1 q)) = _
  rw [hre]
  funext a
  match a with
  | ⟨0, _⟩ => exact Fin.ext (by show baseRow L + ρ.val + 1 * 0 = baseRow L + ρ.val; omega)
  | ⟨1, _⟩ => exact Fin.ext (by show 0 + 1 * q.val = q.val; omega)

/-- A counts row written whole holds the written vector: entry (B + ρ, q) of the array is entry q of the vector. -/
theorem oRowN_writes_apply (d : Dev nD) (L : grid0.Coords) (ρ : Fin 32) (C : Buf (Elt F) ((oRowN L ρ).view.loc (thr d L)))
    (p : S2688.Idx → Elt F .f32) (q : Fin 2688) :
    ((oRowN L ρ).view.writes (Elt F) C [⟨Rect.whole S2688, p⟩]) (ix2 (⟨baseRow L + ρ.val, baseRow_add_lt L ρ⟩ : Fin 1024) q)
      = p (ix1 q) := by
  have h := congrFun (View.read_writes_whole (oRowN L ρ).view C p) (ix1 q)
  rw [View.read_apply, emb_oRowN] at h
  rw [cast_eq] at h
  exact h

/-- The first 2688 bins of a histogram scratch read as the first 2688 entries of what the scratch reads. -/
theorem hsOf_read (hm : Memref sig .scVector .vmem S2800 .f32) (H : hm.view.ty.Contents (Elt F)) (q : Fin 2688) :
    (hsOf hm).view.read (Elt F) H (ix1 q)
      = hm.view.read (Elt F) H (ix1 (⟨q.val, Nat.lt_trans q.isLt (by decide)⟩ : Fin 2800)) := by
  show (hm.view.slice (Rect.unit (s := S2800) ![0] S2688.size inb_S2800_S2688_0)).read (Elt F) H (ix1 q) = _
  rw [View.read_apply, View.read_apply, View.emb_slice]
  have hidx : (Rect.unit (s := S2800) ![0] S2688.size inb_S2800_S2688_0).emb (ix1 q)
      = (ix1 (⟨q.val, Nat.lt_trans q.isLt (by decide)⟩ : Fin 2800) : S2800.Idx) := by
    funext a
    match a with
    | ⟨0, _⟩ => exact Fin.ext (by show 0 + 1 * q.val = q.val; omega)
  show _root_.cast _ (H (hm.view.emb ((Rect.unit (s := S2800) ![0] S2688.size inb_S2800_S2688_0).emb (ix1 q)))) = _
  rw [hidx]

/-- Local row ρ of the counts array, written whole with the first 2688 bins of a scratch that reads as the histogram
    of packed row B + ρ, agrees on its elements with the counts of the packed array. -/
theorem oRowN_written_counts (d : Dev nD) (L : grid0.Coords) (ρ : Fin 32) (XP : IVec S1024x1344 32)
    (C : Buf (Elt F) ((oRowN L ρ).view.loc (thr d L)))
    (hm : Memref sig .scVector .vmem S2800 .f32) (H : hm.view.ty.Contents (Elt F))
    (hH : hm.view.read (Elt F) H
      = Cert.Proof.ScSpec.histRow (F := F) (Cert.Proof.ScSpec.rowOf XP (⟨baseRow L + ρ.val, baseRow_add_lt L ρ⟩ : Fin 1024))) :
    ∀ (j : S1024x2688.Idx), j ∈ (oRowN L ρ).view.set →
      ((oRowN L ρ).view.writes (Elt F) C [⟨Rect.whole S2688, ReadAs.same.apply ((hsOf hm).view.read (Elt F) H)⟩]) j
        = Cert.Proof.ScSpec.counts (F := F) XP j := by
  intro j hj
  rw [mem_set_oRowN] at hj
  obtain ⟨a, q, rfl⟩ : ∃ (a : Fin 1024) (q : Fin 2688), j = ix2 a q := ⟨j 0, j 1, ValueIdx.eq_ix2 j⟩
  have ha : a = (⟨baseRow L + ρ.val, baseRow_add_lt L ρ⟩ : Fin 1024) := Fin.ext hj
  subst ha
  rw [oRowN_writes_apply]
  show (hsOf hm).view.read (Elt F) H (ix1 q) = _
  rw [hsOf_read, hH]
  rfl

end Cert.Proof.KI
end
-- ==== Proof.ScInv.lean ====
/-
  The state of one vector subcore's task between the trips of the kernel function's counted loop, and one trip.

  The subcore owns rows 0 … 31 (local numbers) of the packed array and of the counts array. Before trip k the
  packed rows 4k … 4k+3 are on their way into the four index scratches and every other packed row is held; the
  counts rows 4(k-1) … 4k-1 are on their way out of the four histogram scratches, the rows below them hold the
  histograms of their packed rows, the rows from 4k on are untouched. One trip of the loop, in each of its three
  regimes (the first, a middle one, the last), takes this state at k to the state at k+1: the rows that come back
  are put back, the four rows fetched next and the four counts rows filled are taken out, and what each copy-out
  delivers is the histogram of the packed row its index scratch held.
-/
import proofs.«205260_g26156350832969_cont_9to1_3_23_alg».proof.Proof.ScTripStmt
import proofs.«205260_g26156350832969_cont_9to1_3_23_alg».proof.Proof.ScEnds
import proofs.«205260_g26156350832969_cont_9to1_3_23_alg».proof.Proof.ScRows

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked)
open Idealize.ShloMosaic.ValueIdx (ix1 ix2)

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-! ## The rows of a tile, by number -/
def bRow (L : grid0.Coords) : Nat := 64 * (L 1).val + 32 * (L 0).val
omit [FloatOps F] in
theorem xrow_inb (L : grid0.Coords) (ρ : Fin 32) : ∀ a, (![bRow L + ρ.val, 0] : Fin 2 → Nat) a + S1x1344.size a ≤ S1024x1344.size a := by
  have hL0 : (L 0).val < 2 := (L 0).isLt
  have hL1 : (L 1).val < 16 := (L 1).isLt
  have := ρ.isLt
  intro a; fin_cases a
  · show bRow L + ρ.val + 1 ≤ 1024; unfold bRow; omega
  · show 0 + 1344 ≤ 1344; omega
omit [FloatOps F] in
theorem orow_inb (L : grid0.Coords) (ρ : Fin 32) : ∀ a, (![bRow L + ρ.val, 0] : Fin 2 → Nat) a + S1x2688.size a ≤ S1024x2688.size a := by
  have hL0 : (L 0).val < 2 := (L 0).isLt
  have hL1 : (L 1).val < 16 := (L 1).isLt
  have := ρ.isLt
  intro a; fin_cases a
  · show bRow L + ρ.val + 1 ≤ 1024; unfold bRow; omega
  · show 0 + 2688 ≤ 2688; omega
abbrev xRowM (L : grid0.Coords) (ρ : Fin 32) : Memref sig .scVector .hbm S1344 .i32 := xRowAt ![bRow L + ρ.val, 0] (xrow_inb L ρ)
abbrev oRowM (L : grid0.Coords) (ρ : Fin 32) : Memref sig .scVector .hbm S2688 .f32 := oRowAt ![bRow L + ρ.val, 0] (orow_inb L ρ)

omit [FloatOps F] in
theorem vec2c {a b : Nat} (h : a = b) : (![a, 0] : Fin 2 → Nat) = ![b, 0] := by rw [h]

/-- Row number n + i (below 32) as an index of the tile's rows. -/
def rfa (n i : Nat) : Fin 32 := if h : n + i < 32 then ⟨n + i, h⟩ else ⟨0, by decide⟩
omit [FloatOps F] in
theorem rfa_val {n i : Nat} (h : n + i < 32) : (rfa n i).val = n + i := by simp [rfa, h]
attribute [irreducible] rfa

omit [FloatOps F] in
theorem k_lt (k : Fin k0_t1_loop.trips) : k.val < 8 := Nat.lt_of_lt_of_le k.isLt k0_t1_abs.2.1

omit [FloatOps F] in
theorem conds_all : ∀ k : Fin k0_t1_loop.trips, (k0_cond1 k = 1#1 ↔ 1 ≤ k.val) ∧ (k0_cond2 k = 1#1 ↔ k.val ≤ 6) ∧ (k0_cond3 k = 1#1 ↔ 1 ≤ k.val) ∧ (k0_cond4 k = 1#1 ↔ k.val ≤ 6) := by decide +kernel

/-! ### The offsets of the kernel's slices, as rows of the tile -/
section Offs
variable (L : grid0.Coords)
omit [FloatOps F] in
theorem off1_0 (n : Nat) (hn : n = 0) : k0_off1 L 0#32 0#32 = ![bRow L + (rfa n 0).val, 0] := by
  have e := k0_off1_eq L ⟨0, by decide⟩ ⟨0, by decide⟩
  have hr := rfa_val (n := n) (i := 0) (by omega)
  refine e.trans (vec2c ?_)
  unfold bRow; dsimp only; omega
omit [FloatOps F] in
theorem off10_0 (n : Nat) (hn : n = 28) : k0_off10 L 0#32 0#32 = ![bRow L + (rfa n 0).val, 0] := by
  have e := k0_off10_eq L ⟨0, by decide⟩ ⟨0, by decide⟩
  have hr := rfa_val (n := n) (i := 0) (by omega)
  refine e.trans (vec2c ?_)
  unfold bRow; dsimp only; omega
omit [FloatOps F] in
theorem off1_1 (n : Nat) (hn : n = 0) : k0_off1 L 0#32 1#32 = ![bRow L + (rfa n 1).val, 0] := by
  have e := k0_off1_eq L ⟨0, by decide⟩ ⟨1, by decide⟩
  have hr := rfa_val (n := n) (i := 1) (by omega)
  refine e.trans (vec2c ?_)
  unfold bRow; dsimp only; omega
omit [FloatOps F] in
theorem off10_1 (n : Nat) (hn : n = 28) : k0_off10 L 0#32 1#32 = ![bRow L + (rfa n 1).val, 0] := by
  have e := k0_off10_eq L ⟨0, by decide⟩ ⟨1, by decide⟩
  have hr := rfa_val (n := n) (i := 1) (by omega)
  refine e.trans (vec2c ?_)
  unfold bRow; dsimp only; omega
omit [FloatOps F] in
theorem off1_2 (n : Nat) (hn : n = 0) : k0_off1 L 2#32 0#32 = ![bRow L + (rfa n 2).val, 0] := by
  have e := k0_off1_eq L ⟨1, by decide⟩ ⟨0, by decide⟩
  have hr := rfa_val (n := n) (i := 2) (by omega)
  refine e.trans (vec2c ?_)
  unfold bRow; dsimp only; omega
omit [FloatOps F] in
theorem off10_2 (n : Nat) (hn : n = 28) : k0_off10 L 2#32 0#32 = ![bRow L + (rfa n 2).val, 0] := by
  have e := k0_off10_eq L ⟨1, by decide⟩ ⟨0, by decide⟩
  have hr := rfa_val (n := n) (i := 2) (by omega)
  refine e.trans (vec2c ?_)
  unfold bRow; dsimp only; omega
omit [FloatOps F] in
theorem off1_3 (n : Nat) (hn : n = 0) : k0_off1 L 2#32 1#32 = ![bRow L + (rfa n 3).val, 0] := by
  have e := k0_off1_eq L ⟨1, by decide⟩ ⟨1, by decide⟩
  have hr := rfa_val (n := n) (i := 3) (by omega)
  refine e.trans (vec2c ?_)
  unfold bRow; dsimp only; omega
omit [FloatOps F] in
theorem off10_3 (n : Nat) (hn : n = 28) : k0_off10 L 2#32 1#32 = ![bRow L + (rfa n 3).val, 0] := by
  have e := k0_off10_eq L ⟨1, by decide⟩ ⟨1, by decide⟩
  have hr := rfa_val (n := n) (i := 3) (by omega)
  refine e.trans (vec2c ?_)
  unfold bRow; dsimp only; omega
omit [FloatOps F] in
theorem offP_0 (k : Fin k0_t1_loop.trips) (n' : Nat) (hn' : n' = 4 * k.val + 4) (h6 : k.val ≤ 6) : k0_off4 L k 0#32 = ![bRow L + (rfa n' 0).val, 0] := by
  have e := k0_off4_eq L k ⟨0, by decide⟩
  have hr := rfa_val (n := n') (i := 0) (by omega)
  refine e.trans (vec2c ?_)
  unfold bRow; dsimp only; omega
omit [FloatOps F] in
theorem offO_0 (k : Fin k0_t1_loop.trips) (n : Nat) (hn : n = 4 * k.val) : k0_off5 L k 0#32 = ![bRow L + (rfa n 0).val, 0] := by
  have e := k0_off5_eq L k ⟨0, by decide⟩
  have hk := k_lt k
  have hr := rfa_val (n := n) (i := 0) (by omega)
  refine e.trans (vec2c ?_)
  unfold bRow; dsimp only; omega
omit [FloatOps F] in
theorem offP_1 (k : Fin k0_t1_loop.trips) (n' : Nat) (hn' : n' = 4 * k.val + 4) (h6 : k.val ≤ 6) : k0_off4 L k 1#32 = ![bRow L + (rfa n' 1).val, 0] := by
  have e := k0_off4_eq L k ⟨1, by decide⟩
  have hr := rfa_val (n := n') (i := 1) (by omega)
  refine e.trans (vec2c ?_)
  unfold bRow; dsimp only; omega
omit [FloatOps F] in
theorem offO_1 (k : Fin k0_t1_loop.trips) (n : Nat) (hn : n = 4 * k.val) : k0_off5 L k 1#32 = ![bRow L + (rfa n 1).val, 0] := by
  have e := k0_off5_eq L k ⟨1, by decide⟩
  have hk := k_lt k
  have hr := rfa_val (n := n) (i := 1) (by omega)
  refine e.trans (vec2c ?_)
  unfold bRow; dsimp only; omega
omit [FloatOps F] in
theorem offP_2 (k : Fin k0_t1_loop.trips) (n' : Nat) (hn' : n' = 4 * k.val + 4) (h6 : k.val ≤ 6) : k0_off8 L k 0#32 = ![bRow L + (rfa n' 2).val, 0] := by
  have e := k0_off8_eq L k ⟨0, by decide⟩
  have hr := rfa_val (n := n') (i := 2) (by omega)
  refine e.trans (vec2c ?_)
  unfold bRow; dsimp only; omega
omit [FloatOps F] in
theorem offO_2 (k : Fin k0_t1_loop.trips) (n : Nat) (hn : n = 4 * k.val) : k0_off9 L k 0#32 = ![bRow L + (rfa n 2).val, 0] := by
  have e := k0_off9_eq L k ⟨0, by decide⟩
  have hk := k_lt k
  have hr := rfa_val (n := n) (i := 2) (by omega)
  refine e.trans (vec2c ?_)
  unfold bRow; dsimp only; omega
omit [FloatOps F] in
theorem offP_3 (k : Fin k0_t1_loop.trips) (n' : Nat) (hn' : n' = 4 * k.val + 4) (h6 : k.val ≤ 6) : k0_off8 L k 1#32 = ![bRow L + (rfa n' 3).val, 0] := by
  have e := k0_off8_eq L k ⟨1, by decide⟩
  have hr := rfa_val (n := n') (i := 3) (by omega)
  refine e.trans (vec2c ?_)
  unfold bRow; dsimp only; omega
omit [FloatOps F] in
theorem offO_3 (k : Fin k0_t1_loop.trips) (n : Nat) (hn : n = 4 * k.val) : k0_off9 L k 1#32 = ![bRow L + (rfa n 3).val, 0] := by
  have e := k0_off9_eq L k ⟨1, by decide⟩
  have hk := k_lt k
  have hr := rfa_val (n := n) (i := 3) (by omega)
  refine e.trans (vec2c ?_)
  unfold bRow; dsimp only; omega
end Offs
section Congr
variable (d : Dev nD) (L : grid0.Coords)

theorem own_x_congr {off off' : Fin 2 → Nat} (e : off = off') (h : ∀ a, off a + S1x1344.size a ≤ S1024x1344.size a) (h' : ∀ a, off' a + S1x1344.size a ≤ S1024x1344.size a)
    (f : Buf (Elt F) ((a2).view.loc (thr d L))) :
    (own d L (xRowAt off h) f : sProp 𝕄) = own d L (xRowAt off' h') f := by subst e; rfl
theorem own_o_congr {off off' : Fin 2 → Nat} (e : off = off') (h : ∀ a, off a + S1x2688.size a ≤ S1024x2688.size a) (h' : ∀ a, off' a + S1x2688.size a ≤ S1024x2688.size a)
    (f : Buf (Elt F) ((a3).view.loc (thr d L))) :
    (own d L (oRowAt off h) f : sProp 𝕄) = own d L (oRowAt off' h') f := by subst e; rfl
theorem inFlight_congr {off off' : Fin 2 → Nat} (e : off = off') (h : ∀ a, off a + S1x1344.size a ≤ S1024x1344.size a) (h' : ∀ a, off' a + S1x1344.size a ≤ S1024x1344.size a)
    (sem : DmaSems sig S_) (xm : Memref sig .scVector .vmem S1344 .i32) (X : Buf (Elt F) (xm.view.loc (thr d L)))
    (f : Buf (Elt F) ((a2).view.loc (thr d L))) :
    (inFlight d L sem xm X (xRowAt off h) f : sProp 𝕄) = inFlight d L sem xm X (xRowAt off' h') f := by subst e; rfl
theorem outFlight_congr {off off' : Fin 2 → Nat} (e : off = off') (h : ∀ a, off a + S1x2688.size a ≤ S1024x2688.size a) (h' : ∀ a, off' a + S1x2688.size a ≤ S1024x2688.size a)
    (sem : DmaSems sig S_) (hm : Memref sig .scVector .vmem S2800 .f32) (CO : Buf (Elt F) ((a3).view.loc (thr d L))) (HC : Buf (Elt F) (hm.view.loc (thr d L))) :
    (outFlight d L sem hm (oRowAt off h) CO HC : sProp 𝕄) = outFlight d L sem hm (oRowAt off' h') CO HC := by subst e; rfl
omit [FloatOps F] in
theorem xread_congr {off off' : Fin 2 → Nat} (e : off = off') (h : ∀ a, off a + S1x1344.size a ≤ S1024x1344.size a) (h' : ∀ a, off' a + S1x1344.size a ≤ S1024x1344.size a)
    (f : Buf (Elt F) ((a2).view.loc (thr d L))) :
    (xRowAt off h).view.read (Elt F) f = (xRowAt off' h').view.read (Elt F) f := by subst e; rfl
end Congr

/-! ### Sets of rows, four at a time -/
section Sets
omit [FloatOps F] in
theorem bigSep_four (Φ : Fin 32 → sProp 𝕄) (S S' : Finset (Fin 32)) (n : Nat) (hn : n + 3 < 32)
    (hS : ∀ ρ : Fin 32, ρ ∈ S ↔ (ρ ∈ S' ∨ (n ≤ ρ.val ∧ ρ.val ≤ n + 3)))
    (hS' : ∀ ρ ∈ S', ρ.val < n ∨ n + 3 < ρ.val) :
    bigSep S Φ = iprop(Φ (rfa n 0) ∗ Φ (rfa n 1) ∗ Φ (rfa n 2) ∗ Φ (rfa n 3) ∗ bigSep S' Φ) := by
  have v0 := rfa_val (n := n) (i := 0) (by omega)
  have v1 := rfa_val (n := n) (i := 1) (by omega)
  have v2 := rfa_val (n := n) (i := 2) (by omega)
  have v3 := rfa_val (n := n) (i := 3) (by omega)
  have hSeq : S = insert (rfa n 0) (insert (rfa n 1) (insert (rfa n 2) (insert (rfa n 3) S'))) := by
    ext ρ
    have key : (n ≤ ρ.val ∧ ρ.val ≤ n + 3) ↔ (ρ.val = n + 0 ∨ ρ.val = n + 1 ∨ ρ.val = n + 2 ∨ ρ.val = n + 3) := by omega
    simp only [Finset.mem_insert, hS, Fin.ext_iff, v0, v1, v2, v3, key]
    tauto
  have m3 : rfa n 3 ∉ S' := fun h => by have := hS' _ h; omega
  have m2 : rfa n 2 ∉ insert (rfa n 3) S' := by
    simp only [Finset.mem_insert, Fin.ext_iff, v2, v3, not_or]
    exact ⟨by omega, fun h => by have := hS' _ h; omega⟩
  have m1 : rfa n 1 ∉ insert (rfa n 2) (insert (rfa n 3) S') := by
    simp only [Finset.mem_insert, Fin.ext_iff, v1, v2, v3, not_or]
    exact ⟨by omega, by omega, fun h => by have := hS' _ h; omega⟩
  have m0 : rfa n 0 ∉ insert (rfa n 1) (insert (rfa n 2) (insert (rfa n 3) S')) := by
    simp only [Finset.mem_insert, Fin.ext_iff, v0, v1, v2, v3, not_or]
    exact ⟨by omega, by omega, by omega, fun h => by have := hS' _ h; omega⟩
  rw [hSeq, SparseCore.bigSep_insert' m0, SparseCore.bigSep_insert' m1, SparseCore.bigSep_insert' m2, SparseCore.bigSep_insert' m3]

/-- Before the trip that reads rows n..n+3: the packed rows not in flight; without the four fetched next;
    the counts rows below m, already final; the counts rows from n on, not yet touched. -/
def XS (n : Nat) : Finset (Fin 32) := Finset.univ.filter fun ρ => ρ.val < n ∨ n + 4 ≤ ρ.val
def XR (n : Nat) : Finset (Fin 32) := Finset.univ.filter fun ρ => ρ.val < n ∨ n + 8 ≤ ρ.val
def OD (m : Nat) : Finset (Fin 32) := Finset.univ.filter fun ρ => ρ.val < m
def OH (n : Nat) : Finset (Fin 32) := Finset.univ.filter fun ρ => n ≤ ρ.val

omit [FloatOps F] in
theorem XS_take (Φ : Fin 32 → sProp 𝕄) (n n' : Nat) (hn' : n' = n + 4) (h : n + 7 < 32) :
    bigSep (XS n) Φ = iprop(Φ (rfa n' 0) ∗ Φ (rfa n' 1) ∗ Φ (rfa n' 2) ∗ Φ (rfa n' 3) ∗ bigSep (XR n) Φ) :=
  bigSep_four Φ (XS n) (XR n) n' (by omega)
    (fun ρ => by simp only [XS, XR, Finset.mem_filter, Finset.mem_univ, true_and]; omega)
    (fun ρ hρ => by simp only [XR, Finset.mem_filter, Finset.mem_univ, true_and] at hρ; omega)
omit [FloatOps F] in
theorem XS_give (Φ : Fin 32 → sProp 𝕄) (n n' : Nat) (hn' : n' = n + 4) (h : n + 3 < 32) :
    bigSep (XS n') Φ = iprop(Φ (rfa n 0) ∗ Φ (rfa n 1) ∗ Φ (rfa n 2) ∗ Φ (rfa n 3) ∗ bigSep (XR n) Φ) :=
  bigSep_four Φ (XS n') (XR n) n (by omega)
    (fun ρ => by simp only [XS, XR, Finset.mem_filter, Finset.mem_univ, true_and]; omega)
    (fun ρ hρ => by simp only [XR, Finset.mem_filter, Finset.mem_univ, true_and] at hρ; omega)
omit [FloatOps F] in
theorem XS_all (Φ : Fin 32 → sProp 𝕄) (n : Nat) (h : n + 4 = 32) :
    bigSep Finset.univ Φ = iprop(Φ (rfa n 0) ∗ Φ (rfa n 1) ∗ Φ (rfa n 2) ∗ Φ (rfa n 3) ∗ bigSep (XS n) Φ) :=
  bigSep_four Φ Finset.univ (XS n) n (by omega)
    (fun ρ => by have := ρ.isLt; simp only [XS, Finset.mem_filter, Finset.mem_univ, true_and, true_iff]; omega)
    (fun ρ hρ => by have := ρ.isLt; simp only [XS, Finset.mem_filter, Finset.mem_univ, true_and] at hρ; omega)
omit [FloatOps F] in
theorem XS_init (Φ : Fin 32 → sProp 𝕄) (n : Nat) (h : n = 0) :
    bigSep Finset.univ Φ = iprop(Φ (rfa n 0) ∗ Φ (rfa n 1) ∗ Φ (rfa n 2) ∗ Φ (rfa n 3) ∗ bigSep (XS n) Φ) :=
  bigSep_four Φ Finset.univ (XS n) n (by omega)
    (fun ρ => by have := ρ.isLt; simp only [XS, Finset.mem_filter, Finset.mem_univ, true_and, true_iff]; omega)
    (fun ρ hρ => by have := ρ.isLt; simp only [XS, Finset.mem_filter, Finset.mem_univ, true_and] at hρ; omega)
omit [FloatOps F] in
theorem OH_take (Φ : Fin 32 → sProp 𝕄) (n n' : Nat) (hn' : n' = n + 4) (h : n + 3 < 32) :
    bigSep (OH n) Φ = iprop(Φ (rfa n 0) ∗ Φ (rfa n 1) ∗ Φ (rfa n 2) ∗ Φ (rfa n 3) ∗ bigSep (OH n') Φ) :=
  bigSep_four Φ (OH n) (OH n') n (by omega)
    (fun ρ => by simp only [OH, Finset.mem_filter, Finset.mem_univ, true_and]; omega)
    (fun ρ hρ => by simp only [OH, Finset.mem_filter, Finset.mem_univ, true_and] at hρ; omega)
omit [FloatOps F] in
theorem OD_give (Φ : Fin 32 → sProp 𝕄) (m n : Nat) (hm : n = m + 4) (h : m + 3 < 32) :
    bigSep (OD n) Φ = iprop(Φ (rfa m 0) ∗ Φ (rfa m 1) ∗ Φ (rfa m 2) ∗ Φ (rfa m 3) ∗ bigSep (OD m) Φ) :=
  bigSep_four Φ (OD n) (OD m) m (by omega)
    (fun ρ => by simp only [OD, Finset.mem_filter, Finset.mem_univ, true_and]; omega)
    (fun ρ hρ => by simp only [OD, Finset.mem_filter, Finset.mem_univ, true_and] at hρ; omega)
omit [FloatOps F] in
theorem OH_zero : OH 0 = Finset.univ := by ext ρ; simp [OH]
omit [FloatOps F] in
theorem OD_zero : OD 0 = ∅ := by ext ρ; simp [OD]
omit [FloatOps F] in
theorem OD_all : OD 32 = Finset.univ := by ext ρ; simp [OD]
omit [FloatOps F] in
theorem OD_univ (Φ : Fin 32 → sProp 𝕄) : bigSep (OD 32) Φ = bigSep Finset.univ Φ := by rw [OD_all]
omit [FloatOps F] in
theorem OH_univ (Φ : Fin 32 → sProp 𝕄) : bigSep (OH 0) Φ = bigSep Finset.univ Φ := by rw [OH_zero]
omit [FloatOps F] in
theorem OD_emp (Φ : Fin 32 → sProp 𝕄) (n : Nat) (h : n = 0) : bigSep (OD n) Φ = (iprop(emp) : sProp 𝕄) := by
  subst h; rw [OD_zero]; exact bigSep_empty
omit [FloatOps F] in
theorem OH_emp (Φ : Fin 32 → sProp 𝕄) (n : Nat) (h : 32 ≤ n) : bigSep (OH n) Φ = (iprop(emp) : sProp 𝕄) := by
  have e : OH n = ∅ := by
    ext ρ; have := ρ.isLt
    simp only [OH, Finset.mem_filter, Finset.mem_univ, true_and, Finset.notMem_empty, iff_false]; omega
  rw [e]; exact bigSep_empty
end Sets

/-! ## The state of the tile before each trip -/
section Inv
variable (d : Dev nD) (L : grid0.Coords) (XPd : Buf (Elt F) ((a2).view.loc (thr d L))) (C0 : Buf (Elt F) ((a3).view.loc (thr d L)))
  (O : CellTallies nD τ sig (HIx 1)) (W : Waits sig (HIx 1))

/-- The counts array at the histograms of the packed rows. -/
abbrev CNT : Buf (Elt F) ((a3).view.loc (thr d L)) := Cert.Proof.ScSpec.counts (F := F) XPd

/-- A packed row of the tile held by its own elements; a counts row of the tile held at given contents;
    a packed row on its way into an index scratch; a counts row on its way out of a histogram scratch. -/
abbrev xOwn (ρ : Fin 32) : sProp 𝕄 := own d L (xRowM L ρ) XPd
abbrev oOwn (C : Buf (Elt F) ((a3).view.loc (thr d L))) (ρ : Fin 32) : sProp 𝕄 := own d L (oRowM L ρ) C
abbrev xIn (sem : DmaSems sig S_) (xm : Memref sig .scVector .vmem S1344 .i32) (X : Buf (Elt F) (xm.view.loc (thr d L))) (ρ : Fin 32) : sProp 𝕄 :=
  inFlight d L sem xm X (xRowM L ρ) XPd
abbrev oOut (sem : DmaSems sig S_) (hm : Memref sig .scVector .vmem S2800 .f32) (CO : Buf (Elt F) ((a3).view.loc (thr d L)))
    (HC : Buf (Elt F) (hm.view.loc (thr d L))) (ρ : Fin 32) : sProp 𝕄 :=
  outFlight d L sem hm (oRowM L ρ) CO HC

/-- What an index scratch reads is packed, and is packed row ρ of the tile. -/
def XOk (Xr : IVec S1344 32) (ρ : Fin 32) : Prop :=
  RowPacked Xr ∧ Xr = (xRowM L ρ).view.read (Elt F) XPd
/-- Contents of the counts array that are final on row ρ of the tile. -/
def COk (CO : Buf (Elt F) ((a3).view.loc (thr d L))) (ρ : Fin 32) : Prop :=
  ∀ j ∈ (oRowM L ρ).view.set, CO j = CNT d L XPd j

abbrev xHeld (S : Finset (Fin 32)) : sProp 𝕄 := bigSep S fun ρ => xOwn d L XPd ρ
abbrev oDone (S : Finset (Fin 32)) : sProp 𝕄 := bigSep S fun ρ => oOwn d L (CNT d L XPd) ρ
abbrev oHeld (S : Finset (Fin 32)) : sProp 𝕄 := bigSep S fun ρ => oOwn d L C0 ρ
abbrev owesW : sProp 𝕄 := iprop(∃ W', ⌜∀ p ∈ W', p ∈ W ∨ p.2 = none⌝ ∗ owes (thr d L) O W')

/-- Before the first trip: rows n..n+3 (n = 0) on their way in, the histogram scratches and their semaphores free. -/
def InvFirst (n : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd (XS n) ∗ oHeld d L C0 (OH n)
    ∗ xIn d L XPd cc0_scratch8 x0 X0 (rfa n 0) ∗ xIn d L XPd cc0_scratch9 x1 X1 (rfa n 1) ∗ xIn d L XPd cc0_scratch10 x2 X2 (rfa n 2) ∗ xIn d L XPd cc0_scratch11 x3 X3 (rfa n 3)
    ∗ ((h0).view.loc (thr d L) ↦{fullShare} HC0) ∗ ((h1).view.loc (thr d L) ↦{fullShare} HC1) ∗ ((h2).view.loc (thr d L) ↦{fullShare} HC2) ∗ ((h3).view.loc (thr d L) ↦{fullShare} HC3)
    ∗ semVal ((thr d L), SemLoc.dma cc0_scratch12.sem) 0 ∗ semVal ((thr d L), SemLoc.dma cc0_scratch13.sem) 0 ∗ semVal ((thr d L), SemLoc.dma cc0_scratch14.sem) 0 ∗ semVal ((thr d L), SemLoc.dma cc0_scratch15.sem) 0
    ∗ owesW d L O W
    ∗ ⌜XOk d L XPd ((x0).view.read (Elt F) X0) (rfa n 0) ∧ XOk d L XPd ((x1).view.read (Elt F) X1) (rfa n 1) ∧ XOk d L XPd ((x2).view.read (Elt F) X2) (rfa n 2) ∧ XOk d L XPd ((x3).view.read (Elt F) X3) (rfa n 3)⌝)

/-- Before a later trip: rows n..n+3 on their way in, the counts rows m..m+3 (m = n - 4) on their way out. -/
def InvMid (n m : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (CO0 CO1 CO2 CO3 : Buf (Elt F) ((a3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd (XS n) ∗ oDone d L XPd (OD m) ∗ oHeld d L C0 (OH n)
    ∗ xIn d L XPd cc0_scratch8 x0 X0 (rfa n 0) ∗ xIn d L XPd cc0_scratch9 x1 X1 (rfa n 1) ∗ xIn d L XPd cc0_scratch10 x2 X2 (rfa n 2) ∗ xIn d L XPd cc0_scratch11 x3 X3 (rfa n 3)
    ∗ oOut d L cc0_scratch12 h0 CO0 HC0 (rfa m 0) ∗ oOut d L cc0_scratch13 h1 CO1 HC1 (rfa m 1) ∗ oOut d L cc0_scratch14 h2 CO2 HC2 (rfa m 2) ∗ oOut d L cc0_scratch15 h3 CO3 HC3 (rfa m 3)
    ∗ ((h0).view.loc (thr d L) ↦[Finset.univ \ (hsOf h0).view.set]{fullShare} HC0) ∗ ((h1).view.loc (thr d L) ↦[Finset.univ \ (hsOf h1).view.set]{fullShare} HC1) ∗ ((h2).view.loc (thr d L) ↦[Finset.univ \ (hsOf h2).view.set]{fullShare} HC2) ∗ ((h3).view.loc (thr d L) ↦[Finset.univ \ (hsOf h3).view.set]{fullShare} HC3)
    ∗ owesW d L O W
    ∗ ⌜XOk d L XPd ((x0).view.read (Elt F) X0) (rfa n 0) ∧ XOk d L XPd ((x1).view.read (Elt F) X1) (rfa n 1) ∧ XOk d L XPd ((x2).view.read (Elt F) X2) (rfa n 2) ∧ XOk d L XPd ((x3).view.read (Elt F) X3) (rfa n 3) ∧ COk d L XPd CO0 (rfa m 0) ∧ COk d L XPd CO1 (rfa m 1) ∧ COk d L XPd CO2 (rfa m 2) ∧ COk d L XPd CO3 (rfa m 3)⌝)

/-- After the last trip: every packed row back, the index scratches and their semaphores free, rows m..m+3 (m = 28) on their way out. -/
def InvLast (m : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (CO0 CO1 CO2 CO3 : Buf (Elt F) ((a3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd Finset.univ ∗ oDone d L XPd (OD m)
    ∗ ((x0).view.loc (thr d L) ↦{fullShare} X0) ∗ semVal ((thr d L), SemLoc.dma cc0_scratch8.sem) 0 ∗ ((x1).view.loc (thr d L) ↦{fullShare} X1) ∗ semVal ((thr d L), SemLoc.dma cc0_scratch9.sem) 0 ∗ ((x2).view.loc (thr d L) ↦{fullShare} X2) ∗ semVal ((thr d L), SemLoc.dma cc0_scratch10.sem) 0 ∗ ((x3).view.loc (thr d L) ↦{fullShare} X3) ∗ semVal ((thr d L), SemLoc.dma cc0_scratch11.sem) 0
    ∗ oOut d L cc0_scratch12 h0 CO0 HC0 (rfa m 0) ∗ oOut d L cc0_scratch13 h1 CO1 HC1 (rfa m 1) ∗ oOut d L cc0_scratch14 h2 CO2 HC2 (rfa m 2) ∗ oOut d L cc0_scratch15 h3 CO3 HC3 (rfa m 3)
    ∗ ((h0).view.loc (thr d L) ↦[Finset.univ \ (hsOf h0).view.set]{fullShare} HC0) ∗ ((h1).view.loc (thr d L) ↦[Finset.univ \ (hsOf h1).view.set]{fullShare} HC1) ∗ ((h2).view.loc (thr d L) ↦[Finset.univ \ (hsOf h2).view.set]{fullShare} HC2) ∗ ((h3).view.loc (thr d L) ↦[Finset.univ \ (hsOf h3).view.set]{fullShare} HC3)
    ∗ owesW d L O W
    ∗ ⌜COk d L XPd CO0 (rfa m 0) ∧ COk d L XPd CO1 (rfa m 1) ∧ COk d L XPd CO2 (rfa m 2) ∧ COk d L XPd CO3 (rfa m 3)⌝)

/-- The loop's invariant. -/
def Inv (k : Nat) (_ : Unit) : sProp 𝕄 :=
  if k = 0 then InvFirst d L XPd C0 O W 0 else if k ≤ 7 then InvMid d L XPd C0 O W (4 * k) (4 * (k - 1)) else InvLast d L XPd O W 28

theorem Inv_zero (u : Unit) : Inv d L XPd C0 O W 0 u = InvFirst d L XPd C0 O W 0 := if_pos rfl
theorem Inv_mid (k n m : Nat) (u : Unit) (hk1 : 1 ≤ k) (h7 : k ≤ 7) (hn : n = 4 * k) (hm : n = m + 4) :
    Inv d L XPd C0 O W k u = InvMid d L XPd C0 O W n m := by
  unfold Inv; rw [if_neg (by omega), if_pos h7]
  have e1 : 4 * k = n := hn.symm
  have e2 : 4 * (k - 1) = m := by omega
  rw [e1, e2]
theorem Inv_last (k : Nat) (u : Unit) (h : 8 ≤ k) : Inv d L XPd C0 O W k u = InvLast d L XPd O W 28 := by
  unfold Inv; rw [if_neg (by omega), if_neg (by omega)]
end Inv

/-! ## A packed row as the kernel's slice reads it; the bridge to the rows' other spelling -/
section XRead
omit [FloatOps F] in
theorem xRowM_eq (L : grid0.Coords) (ρ : Fin 32) : xRowM L ρ = xRowN L ρ := rfl
omit [FloatOps F] in
theorem oRowM_eq (L : grid0.Coords) (ρ : Fin 32) : oRowM L ρ = oRowN L ρ := rfl
omit [FloatOps F] in
theorem bRow_eq (L : grid0.Coords) : bRow L = baseRow L := rfl

omit [FloatOps F] in
/-- Entry q of local row ρ of the packed array is the array's entry (B + ρ, q). -/
theorem emb_xRowN (L : grid0.Coords) (ρ : Fin 32) (q : Fin 1344) :
    (xRowN L ρ).view.emb (ix1 q) = ix2 (⟨baseRow L + ρ.val, baseRow_add_lt L ρ⟩ : Fin 1024) q := by
  show (((View.whole (main_v8_scv : Ref sig .scVector)).slice
      (Rect.unit (s := S1024x1344) ![baseRow L + ρ.val, 0] S1x1344.size (xRow_inb _ (baseRow_add_lt L ρ)))).reshape S1344
        squeezes_S1x1344_S1344.numel_eq).emb (ix1 q) = _
  rw [View.emb_reshape, View.emb_slice, View.emb_whole]
  have hre : Shape.reshapeEquiv squeezes_S1x1344_S1344.numel_eq (ix1 q) = (ix2 (0 : Fin 1) q : S1x1344.Idx) :=
    Shape.reshapeEquiv_eq_of_rowMajor _ (by
      rw [Shape.rowMajor_val_two, Shape.rowMajor_val_one]
      show 0 * 1344 + q.val = q.val
      omega)
  show (Rect.unit (s := S1024x1344) ![baseRow L + ρ.val, 0] S1x1344.size _).emb
      (Shape.reshapeEquiv squeezes_S1x1344_S1344.numel_eq (ix1 q)) = _
  rw [hre]
  funext a
  match a with
  | ⟨0, _⟩ => exact Fin.ext (by show baseRow L + ρ.val + 1 * 0 = baseRow L + ρ.val; omega)
  | ⟨1, _⟩ => exact Fin.ext (by show 0 + 1 * q.val = q.val; omega)

omit [FloatOps F] in
/-- Local row ρ of the packed array, read through the kernel's slice, is row B + ρ of the array. -/
theorem xRowN_read (d : Dev nD) (L : grid0.Coords) (ρ : Fin 32) (XPd : Buf (Elt F) ((a2).view.loc (thr d L))) :
    (xRowN L ρ).view.read (Elt F) XPd = Cert.Proof.ScSpec.rowOf XPd (⟨baseRow L + ρ.val, baseRow_add_lt L ρ⟩ : Fin 1024) := by
  funext q
  obtain ⟨q0, rfl⟩ : ∃ q0 : Fin 1344, q = ix1 q0 := ⟨q 0, ValueIdx.eq_ix1 q⟩
  rw [View.read_apply, emb_xRowN, cast_eq]
  rfl
end XRead

/-! ## What lands in an index scratch, and what a copy-out leaves in a counts row -/
section Facts
variable (d : Dev nD) (L : grid0.Coords) (XPd : Buf (Elt F) ((a2).view.loc (thr d L)))

omit [FloatOps F] in
/-- A row of a packed array is packed. -/
theorem rowPacked_of (hpk : Cert.Proof.ScSpec.Packed XPd) (off : Fin 2 → Nat) (h : ∀ a, off a + S1x1344.size a ≤ S1024x1344.size a) :
    RowPacked ((xRowAt off h).view.read (Elt F) XPd) := fun q => by
  rw [View.read_apply, cast_eq]
  exact hpk _

omit [FloatOps F] in
/-- A packed row landed in index scratch 0: the scratch reads that row. -/
theorem xok_new0 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x0).view.loc (thr d L))) :
    XOk d L XPd ((x0).view.read (Elt F) (View.write (Elt F) (x0).view X (ReadAs.same.apply ((xRowAt off h).view.read (Elt F) XPd)) Finset.univ)) ρ := by
  subst e
  have hw : (x0).view.read (Elt F) (View.write (Elt F) (x0).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 0, at the histogram of packed row ρ, copied out to counts row ρ:
    the counts array is final on that row. -/
theorem written_ok0 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x0).view.loc (thr d L)))
    (hX : XOk d L XPd ((x0).view.read (Elt F) X) ρ) :
    COk d L XPd ((oRowAt off h).view.writes (Elt F) C [⟨Rect.whole S2688, ReadAs.same.apply ((hsOf h0).view.read (Elt F) (histOf0 d L X))⟩]) ρ := by
  subst e
  have hH : (h0).view.read (Elt F) (histOf0 d L X)
      = Cert.Proof.ScSpec.histRow (F := F) (Cert.Proof.ScSpec.rowOf XPd (⟨baseRow L + ρ.val, baseRow_add_lt L ρ⟩ : Fin 1024)) := by
    show Cert.Proof.ScSpec.histRow (F := F) ((x0).view.read (Elt F) X) = _
    rw [hX.2]
    exact congrArg (Cert.Proof.ScSpec.histRow (F := F)) (xRowN_read d L ρ XPd)
  exact oRowN_written_counts d L ρ XPd C h0 (histOf0 d L X) hH
omit [FloatOps F] in
/-- A packed row landed in index scratch 1: the scratch reads that row. -/
theorem xok_new1 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x1).view.loc (thr d L))) :
    XOk d L XPd ((x1).view.read (Elt F) (View.write (Elt F) (x1).view X (ReadAs.same.apply ((xRowAt off h).view.read (Elt F) XPd)) Finset.univ)) ρ := by
  subst e
  have hw : (x1).view.read (Elt F) (View.write (Elt F) (x1).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 1, at the histogram of packed row ρ, copied out to counts row ρ:
    the counts array is final on that row. -/
theorem written_ok1 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x1).view.loc (thr d L)))
    (hX : XOk d L XPd ((x1).view.read (Elt F) X) ρ) :
    COk d L XPd ((oRowAt off h).view.writes (Elt F) C [⟨Rect.whole S2688, ReadAs.same.apply ((hsOf h1).view.read (Elt F) (histOf1 d L X))⟩]) ρ := by
  subst e
  have hH : (h1).view.read (Elt F) (histOf1 d L X)
      = Cert.Proof.ScSpec.histRow (F := F) (Cert.Proof.ScSpec.rowOf XPd (⟨baseRow L + ρ.val, baseRow_add_lt L ρ⟩ : Fin 1024)) := by
    show Cert.Proof.ScSpec.histRow (F := F) ((x1).view.read (Elt F) X) = _
    rw [hX.2]
    exact congrArg (Cert.Proof.ScSpec.histRow (F := F)) (xRowN_read d L ρ XPd)
  exact oRowN_written_counts d L ρ XPd C h1 (histOf1 d L X) hH
omit [FloatOps F] in
/-- A packed row landed in index scratch 2: the scratch reads that row. -/
theorem xok_new2 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x2).view.loc (thr d L))) :
    XOk d L XPd ((x2).view.read (Elt F) (View.write (Elt F) (x2).view X (ReadAs.same.apply ((xRowAt off h).view.read (Elt F) XPd)) Finset.univ)) ρ := by
  subst e
  have hw : (x2).view.read (Elt F) (View.write (Elt F) (x2).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 2, at the histogram of packed row ρ, copied out to counts row ρ:
    the counts array is final on that row. -/
theorem written_ok2 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x2).view.loc (thr d L)))
    (hX : XOk d L XPd ((x2).view.read (Elt F) X) ρ) :
    COk d L XPd ((oRowAt off h).view.writes (Elt F) C [⟨Rect.whole S2688, ReadAs.same.apply ((hsOf h2).view.read (Elt F) (histOf2 d L X))⟩]) ρ := by
  subst e
  have hH : (h2).view.read (Elt F) (histOf2 d L X)
      = Cert.Proof.ScSpec.histRow (F := F) (Cert.Proof.ScSpec.rowOf XPd (⟨baseRow L + ρ.val, baseRow_add_lt L ρ⟩ : Fin 1024)) := by
    show Cert.Proof.ScSpec.histRow (F := F) ((x2).view.read (Elt F) X) = _
    rw [hX.2]
    exact congrArg (Cert.Proof.ScSpec.histRow (F := F)) (xRowN_read d L ρ XPd)
  exact oRowN_written_counts d L ρ XPd C h2 (histOf2 d L X) hH
omit [FloatOps F] in
/-- A packed row landed in index scratch 3: the scratch reads that row. -/
theorem xok_new3 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x3).view.loc (thr d L))) :
    XOk d L XPd ((x3).view.read (Elt F) (View.write (Elt F) (x3).view X (ReadAs.same.apply ((xRowAt off h).view.read (Elt F) XPd)) Finset.univ)) ρ := by
  subst e
  have hw : (x3).view.read (Elt F) (View.write (Elt F) (x3).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 3, at the histogram of packed row ρ, copied out to counts row ρ:
    the counts array is final on that row. -/
theorem written_ok3 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x3).view.loc (thr d L)))
    (hX : XOk d L XPd ((x3).view.read (Elt F) X) ρ) :
    COk d L XPd ((oRowAt off h).view.writes (Elt F) C [⟨Rect.whole S2688, ReadAs.same.apply ((hsOf h3).view.read (Elt F) (histOf3 d L X))⟩]) ρ := by
  subst e
  have hH : (h3).view.read (Elt F) (histOf3 d L X)
      = Cert.Proof.ScSpec.histRow (F := F) (Cert.Proof.ScSpec.rowOf XPd (⟨baseRow L + ρ.val, baseRow_add_lt L ρ⟩ : Fin 1024)) := by
    show Cert.Proof.ScSpec.histRow (F := F) ((x3).view.read (Elt F) X) = _
    rw [hX.2]
    exact congrArg (Cert.Proof.ScSpec.histRow (F := F)) (xRowN_read d L ρ XPd)
  exact oRowN_written_counts d L ρ XPd C h3 (histOf3 d L X) hH
end Facts

/-! ## One trip re-establishes the state -/
section Steps
variable (d : Dev nD) (L : grid0.Coords) (XPd : Buf (Elt F) ((a2).view.loc (thr d L))) (C0 : Buf (Elt F) ((a3).view.loc (thr d L)))
  (O : CellTallies nD τ sig (HIx 1)) (W : Waits sig (HIx 1))

omit [FloatOps F] in
theorem owes_trans {W' : Waits sig (HIx 1)} (hW' : ∀ p ∈ W', p ∈ W ∨ p.2 = none) :
    (owesW d L O W' : sProp 𝕄) ⊢ owesW d L O W := by
  iintro ⟨%W'', %hW'', HO⟩
  iexists W''; isplitr
  · ipureintro; intro p hp
    rcases hW'' p hp with h | h
    · exact hW' p h
    · exact .inr h
  · iexact HO

/-- A trip in the middle of the run. -/
theorem step_mid (hpk : Cert.Proof.ScSpec.Packed XPd) (hmid : TripMidStmt (F := F)) (k : Fin k0_t1_loop.trips) (n n' m : Nat)
    (hn : n = 4 * k.val) (hn' : n' = n + 4) (hm : n = m + 4) (h6 : k.val ≤ 6) (v2 : BitVec 32) :
    InvMid d L XPd C0 O W n m ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvMid d L XPd C0 O W n' n) := by
  have hk1 : 1 ≤ k.val := by omega
  obtain ⟨hc1, hc2, hc3, hc4⟩ := conds_all k
  replace hc1 := hc1.mpr hk1; replace hc2 := hc2.mpr h6; replace hc3 := hc3.mpr hk1; replace hc4 := hc4.mpr h6
  unfold InvMid
  iintro ⟨%X0, %X1, %X2, %X3, %CO0, %CO1, %CO2, %CO3, %HC0, %HC1, %HC2, %HC3, Hmw, HXS, HOD, HOH, Hi0, Hi1, Hi2, Hi3, Ho0, Ho1, Ho2, Ho3, Hh0, Hh1, Hh2, Hh3, ⟨%W', %hW', HO⟩, %hok⟩
  obtain ⟨hx0, hx1, hx2, hx3, ho0, ho1, ho2, ho3⟩ := hok
  ihave HXS := (Entails.of_eq (XS_take (fun ρ => xOwn d L XPd ρ) n n' hn' (by omega))) $$ HXS
  icases HXS with ⟨Hp0, Hp1, Hp2, Hp3, HXR⟩
  ihave HOH := (Entails.of_eq (OH_take (fun ρ => oOwn d L C0 ρ) n n' hn' (by omega))) $$ HOH
  icases HOH with ⟨Hq0, Hq1, Hq2, Hq3, HOH⟩
  ihave Hp0 := (Entails.of_eq (own_x_congr d L (offP_0 L k n' (by omega) h6).symm (xrow_inb L _) (k0_off4_inb L k hc2 0) XPd)) $$ Hp0
  ihave Hp1 := (Entails.of_eq (own_x_congr d L (offP_1 L k n' (by omega) h6).symm (xrow_inb L _) (k0_off4_inb L k hc2 1) XPd)) $$ Hp1
  ihave Hp2 := (Entails.of_eq (own_x_congr d L (offP_2 L k n' (by omega) h6).symm (xrow_inb L _) (k0_off8_inb L k hc4 0) XPd)) $$ Hp2
  ihave Hp3 := (Entails.of_eq (own_x_congr d L (offP_3 L k n' (by omega) h6).symm (xrow_inb L _) (k0_off8_inb L k hc4 1) XPd)) $$ Hp3
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hmid d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa m 0)) (oRowM L (rfa m 1)) (oRowM L (rfa m 2)) (oRowM L (rfa m 3)) CO0 CO1 CO2 CO3 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [Hp0]; · iexact Hp0
  isplitl [Hp1]; · iexact Hp1
  isplitl [Hp2]; · iexact Hp2
  isplitl [Hp3]; · iexact Hp3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hd0, Hd1, Hd2, Hd3, Hi0, Hi1, Hi2, Hi3, Ho0, Hh0, Ho1, Hh1, Ho2, Hh2, Ho3, Hh3, HOw⟩
  ihave Hd0 := (Entails.of_eq (pointsTo_congr fun j hj => ho0 j hj)) $$ Hd0
  ihave Hd1 := (Entails.of_eq (pointsTo_congr fun j hj => ho1 j hj)) $$ Hd1
  ihave Hd2 := (Entails.of_eq (pointsTo_congr fun j hj => ho2 j hj)) $$ Hd2
  ihave Hd3 := (Entails.of_eq (pointsTo_congr fun j hj => ho3 j hj)) $$ Hd3
  ihave Hi0 := (Entails.of_eq (inFlight_congr d L (offP_0 L k n' (by omega) h6) (k0_off4_inb L k hc2 0) (xrow_inb L _) cc0_scratch8 x0 _ XPd)) $$ Hi0
  ihave Hi1 := (Entails.of_eq (inFlight_congr d L (offP_1 L k n' (by omega) h6) (k0_off4_inb L k hc2 1) (xrow_inb L _) cc0_scratch9 x1 _ XPd)) $$ Hi1
  ihave Hi2 := (Entails.of_eq (inFlight_congr d L (offP_2 L k n' (by omega) h6) (k0_off8_inb L k hc4 0) (xrow_inb L _) cc0_scratch10 x2 _ XPd)) $$ Hi2
  ihave Hi3 := (Entails.of_eq (inFlight_congr d L (offP_3 L k n' (by omega) h6) (k0_off8_inb L k hc4 1) (xrow_inb L _) cc0_scratch11 x3 _ XPd)) $$ Hi3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  iexists _
  iexists _
  iexists _
  iexists _
  iexists _
  iexists _
  iexists _
  iexists _
  iexists _
  iexists _
  iexists _
  iexists _
  isplitl [Hmw]; · iexact Hmw
  isplitl [Hr0 Hr1 Hr2 Hr3 HXR]
  · iapply (Entails.of_eq (XS_give (fun ρ => xOwn d L XPd ρ) n n' hn' (by omega)).symm)
    isplitl [Hr0]; · iexact Hr0
    isplitl [Hr1]; · iexact Hr1
    isplitl [Hr2]; · iexact Hr2
    isplitl [Hr3]; · iexact Hr3
    iexact HXR
  isplitl [Hd0 Hd1 Hd2 Hd3 HOD]
  · iapply (Entails.of_eq (OD_give (fun ρ => oOwn d L (CNT d L XPd) ρ) m n hm (by omega)).symm)
    isplitl [Hd0]; · iexact Hd0
    isplitl [Hd1]; · iexact Hd1
    isplitl [Hd2]; · iexact Hd2
    isplitl [Hd3]; · iexact Hd3
    iexact HOD
  isplitl [HOH]; · iexact HOH
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨xok_new0 d L XPd hpk _ (k0_off4_inb L k hc2 0) _ (offP_0 L k n' (by omega) h6) X0,
    xok_new1 d L XPd hpk _ (k0_off4_inb L k hc2 1) _ (offP_1 L k n' (by omega) h6) X1,
    xok_new2 d L XPd hpk _ (k0_off8_inb L k hc4 0) _ (offP_2 L k n' (by omega) h6) X2,
    xok_new3 d L XPd hpk _ (k0_off8_inb L k hc4 1) _ (offP_3 L k n' (by omega) h6) X3,
    written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩

/-- The first trip. -/
theorem step_first (hpk : Cert.Proof.ScSpec.Packed XPd) (hfirst : TripFirstStmt (F := F)) (k : Fin k0_t1_loop.trips) (n n' : Nat)
    (hn : n = 4 * k.val) (hn' : n' = n + 4) (hk0 : k.val = 0) (v2 : BitVec 32) :
    InvFirst d L XPd C0 O W n ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvMid d L XPd C0 O W n' n) := by
  have h6 : k.val ≤ 6 := by omega
  obtain ⟨hc1, hc2, hc3, hc4⟩ := conds_all k
  replace hc1 : ¬ k0_cond1 k = 1#1 := fun h => by have := hc1.mp h; omega
  replace hc3 : ¬ k0_cond3 k = 1#1 := fun h => by have := hc3.mp h; omega
  replace hc2 := hc2.mpr h6; replace hc4 := hc4.mpr h6
  unfold InvFirst
  iintro ⟨%X0, %X1, %X2, %X3, %HC0, %HC1, %HC2, %HC3, Hmw, HXS, HOH, Hi0, Hi1, Hi2, Hi3, Hh0, Hh1, Hh2, Hh3, Hs0, Hs1, Hs2, Hs3, ⟨%W', %hW', HO⟩, %hok⟩
  obtain ⟨hx0, hx1, hx2, hx3⟩ := hok
  ihave HXS := (Entails.of_eq (XS_take (fun ρ => xOwn d L XPd ρ) n n' hn' (by omega))) $$ HXS
  icases HXS with ⟨Hp0, Hp1, Hp2, Hp3, HXR⟩
  ihave HOH := (Entails.of_eq (OH_take (fun ρ => oOwn d L C0 ρ) n n' hn' (by omega))) $$ HOH
  icases HOH with ⟨Hq0, Hq1, Hq2, Hq3, HOH⟩
  ihave Hp0 := (Entails.of_eq (own_x_congr d L (offP_0 L k n' (by omega) h6).symm (xrow_inb L _) (k0_off4_inb L k hc2 0) XPd)) $$ Hp0
  ihave Hp1 := (Entails.of_eq (own_x_congr d L (offP_1 L k n' (by omega) h6).symm (xrow_inb L _) (k0_off4_inb L k hc2 1) XPd)) $$ Hp1
  ihave Hp2 := (Entails.of_eq (own_x_congr d L (offP_2 L k n' (by omega) h6).symm (xrow_inb L _) (k0_off8_inb L k hc4 0) XPd)) $$ Hp2
  ihave Hp3 := (Entails.of_eq (own_x_congr d L (offP_3 L k n' (by omega) h6).symm (xrow_inb L _) (k0_off8_inb L k hc4 1) XPd)) $$ Hp3
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hfirst d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa n 0)) (oRowM L (rfa n 1)) (oRowM L (rfa n 2)) (oRowM L (rfa n 3)) C0 C0 C0 C0 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Hh0]; · iexact Hh0
  isplitl [Hh1]; · iexact Hh1
  isplitl [Hh2]; · iexact Hh2
  isplitl [Hh3]; · iexact Hh3
  isplitl [Hs0]; · iexact Hs0
  isplitl [Hs1]; · iexact Hs1
  isplitl [Hs2]; · iexact Hs2
  isplitl [Hs3]; · iexact Hs3
  isplitl [Hp0]; · iexact Hp0
  isplitl [Hp1]; · iexact Hp1
  isplitl [Hp2]; · iexact Hp2
  isplitl [Hp3]; · iexact Hp3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hi0, Hi1, Hi2, Hi3, Ho0, Hh0, Ho1, Hh1, Ho2, Hh2, Ho3, Hh3, HOw⟩
  ihave Hi0 := (Entails.of_eq (inFlight_congr d L (offP_0 L k n' (by omega) h6) (k0_off4_inb L k hc2 0) (xrow_inb L _) cc0_scratch8 x0 _ XPd)) $$ Hi0
  ihave Hi1 := (Entails.of_eq (inFlight_congr d L (offP_1 L k n' (by omega) h6) (k0_off4_inb L k hc2 1) (xrow_inb L _) cc0_scratch9 x1 _ XPd)) $$ Hi1
  ihave Hi2 := (Entails.of_eq (inFlight_congr d L (offP_2 L k n' (by omega) h6) (k0_off8_inb L k hc4 0) (xrow_inb L _) cc0_scratch10 x2 _ XPd)) $$ Hi2
  ihave Hi3 := (Entails.of_eq (inFlight_congr d L (offP_3 L k n' (by omega) h6) (k0_off8_inb L k hc4 1) (xrow_inb L _) cc0_scratch11 x3 _ XPd)) $$ Hi3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  unfold InvMid
  iexists _
  iexists _
  iexists _
  iexists _
  iexists _
  iexists _
  iexists _
  iexists _
  iexists _
  iexists _
  iexists _
  iexists _
  isplitl [Hmw]; · iexact Hmw
  isplitl [Hr0 Hr1 Hr2 Hr3 HXR]
  · iapply (Entails.of_eq (XS_give (fun ρ => xOwn d L XPd ρ) n n' hn' (by omega)).symm)
    isplitl [Hr0]; · iexact Hr0
    isplitl [Hr1]; · iexact Hr1
    isplitl [Hr2]; · iexact Hr2
    isplitl [Hr3]; · iexact Hr3
    iexact HXR
  isplitl []
  · iapply (Entails.of_eq (OD_emp (fun ρ => oOwn d L (CNT d L XPd) ρ) n (by omega)).symm); iempintro
  isplitl [HOH]; · iexact HOH
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨xok_new0 d L XPd hpk _ (k0_off4_inb L k hc2 0) _ (offP_0 L k n' (by omega) h6) X0,
    xok_new1 d L XPd hpk _ (k0_off4_inb L k hc2 1) _ (offP_1 L k n' (by omega) h6) X1,
    xok_new2 d L XPd hpk _ (k0_off8_inb L k hc4 0) _ (offP_2 L k n' (by omega) h6) X2,
    xok_new3 d L XPd hpk _ (k0_off8_inb L k hc4 1) _ (offP_3 L k n' (by omega) h6) X3,
    written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩

/-- The last trip. -/
theorem step_last (hlast : TripLastStmt (F := F)) (k : Fin k0_t1_loop.trips) (n m : Nat)
    (hn : n = 4 * k.val) (hm : n = m + 4) (hk7 : k.val = 7) (v2 : BitVec 32) :
    InvMid d L XPd C0 O W n m ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvLast d L XPd O W n) := by
  have hk1 : 1 ≤ k.val := by omega
  obtain ⟨hc1, hc2, hc3, hc4⟩ := conds_all k
  replace hc2 : ¬ k0_cond2 k = 1#1 := fun h => by have := hc2.mp h; omega
  replace hc4 : ¬ k0_cond4 k = 1#1 := fun h => by have := hc4.mp h; omega
  replace hc1 := hc1.mpr hk1; replace hc3 := hc3.mpr hk1
  unfold InvMid
  iintro ⟨%X0, %X1, %X2, %X3, %CO0, %CO1, %CO2, %CO3, %HC0, %HC1, %HC2, %HC3, Hmw, HXS, HOD, HOH, Hi0, Hi1, Hi2, Hi3, Ho0, Ho1, Ho2, Ho3, Hh0, Hh1, Hh2, Hh3, ⟨%W', %hW', HO⟩, %hok⟩
  obtain ⟨hx0, hx1, hx2, hx3, ho0, ho1, ho2, ho3⟩ := hok
  ihave HOH := (Entails.of_eq (OH_take (fun ρ => oOwn d L C0 ρ) n (n + 4) rfl (by omega))) $$ HOH
  icases HOH with ⟨Hq0, Hq1, Hq2, Hq3, HOH⟩
  ihave HOH := (Entails.of_eq (OH_emp (fun ρ => oOwn d L C0 ρ) (n + 4) (by omega))) $$ HOH
  icases HOH with -
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hlast d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa m 0)) (oRowM L (rfa m 1)) (oRowM L (rfa m 2)) (oRowM L (rfa m 3)) CO0 CO1 CO2 CO3 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hd0, Hd1, Hd2, Hd3, Hx0, Hs0, Hx1, Hs1, Hx2, Hs2, Hx3, Hs3, Ho0, Hh0, Ho1, Hh1, Ho2, Hh2, Ho3, Hh3, HOw⟩
  ihave Hd0 := (Entails.of_eq (pointsTo_congr fun j hj => ho0 j hj)) $$ Hd0
  ihave Hd1 := (Entails.of_eq (pointsTo_congr fun j hj => ho1 j hj)) $$ Hd1
  ihave Hd2 := (Entails.of_eq (pointsTo_congr fun j hj => ho2 j hj)) $$ Hd2
  ihave Hd3 := (Entails.of_eq (pointsTo_congr fun j hj => ho3 j hj)) $$ Hd3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  unfold InvLast
  iexists _
  iexists _
  iexists _
  iexists _
  iexists _
  iexists _
  iexists _
  iexists _
  iexists _
  iexists _
  iexists _
  iexists _
  isplitl [Hmw]; · iexact Hmw
  isplitl [Hr0 Hr1 Hr2 Hr3 HXS]
  · iapply (Entails.of_eq (XS_all (fun ρ => xOwn d L XPd ρ) n (by omega)).symm)
    isplitl [Hr0]; · iexact Hr0
    isplitl [Hr1]; · iexact Hr1
    isplitl [Hr2]; · iexact Hr2
    isplitl [Hr3]; · iexact Hr3
    iexact HXS
  isplitl [Hd0 Hd1 Hd2 Hd3 HOD]
  · iapply (Entails.of_eq (OD_give (fun ρ => oOwn d L (CNT d L XPd) ρ) m n hm (by omega)).symm)
    isplitl [Hd0]; · iexact Hd0
    isplitl [Hd1]; · iexact Hd1
    isplitl [Hd2]; · iexact Hd2
    isplitl [Hd3]; · iexact Hd3
    iexact HOD
  isplitl [Hx0]; · iexact Hx0
  isplitl [Hs0]; · iexact Hs0
  isplitl [Hx1]; · iexact Hx1
  isplitl [Hs1]; · iexact Hs1
  isplitl [Hx2]; · iexact Hx2
  isplitl [Hs2]; · iexact Hs2
  isplitl [Hx3]; · iexact Hx3
  isplitl [Hs3]; · iexact Hs3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩
end Steps

end Cert.Proof.KI
end
-- ==== Proof.ScBody.lean ====
/-
  One vector subcore's task, assembled: from the subcore's rows of the packed array and of the counts array, its
  own scratch buffers and semaphores and what it owes the launch, the kernel function runs to the end with the
  packed rows unchanged and each counts row at the histogram of its packed row.

  The subcore's own storage is opened into its eight scratch buffers and eight semaphores. Its block of each
  array is held row by row. The prologue puts the first four packed rows in flight; the counted loop runs by the
  invariant of the state between trips, each trip in its own regime; after the loop the four last copy-outs are
  waited for, every counts row is at its histogram, the rows are joined back into the subcore's blocks and the
  scratch buffers and semaphores are put back.
-/
import proofs.«205260_g26156350832969_cont_9to1_3_23_alg».proof.Proof.ScTripStmt
import proofs.«205260_g26156350832969_cont_9to1_3_23_alg».proof.Proof.ScEnds
import proofs.«205260_g26156350832969_cont_9to1_3_23_alg».proof.Proof.ScRows
import proofs.«205260_g26156350832969_cont_9to1_3_23_alg».proof.Proof.ScInv

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked)
open Idealize.ShloMosaic.ValueIdx (ix1 ix2)

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-! ## The subcore's own scratch buffers and semaphores -/
omit [FloatOps F] in
theorem tile_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Own
variable (d : Dev nD) (L : grid0.Coords)

omit [FloatOps F] in
theorem ownSems0_V :
    (ownSems0 (thr d L) : sProp 𝕄)
      = iprop(semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ bigSep (((((((((ownCells (thr d L)).erase ((thr d L, SemLoc.dma cc0_scratch8.sem))).erase ((thr d L, SemLoc.dma cc0_scratch9.sem))).erase ((thr d L, SemLoc.dma cc0_scratch10.sem))).erase ((thr d L, SemLoc.dma cc0_scratch11.sem))).erase ((thr d L, SemLoc.dma cc0_scratch12.sem))).erase ((thr d L, SemLoc.dma cc0_scratch13.sem))).erase ((thr d L, SemLoc.dma cc0_scratch14.sem))).erase ((thr d L, SemLoc.dma cc0_scratch15.sem))) fun g => semVal g 0) := by
  unfold SparseCore.Cfg.ownSems0
  rw [SparseCore.bigSep_erase' ((mem_ownCells (g := (thr d L, SemLoc.dma cc0_scratch8.sem))).mpr ⟨rfl, by show (SemLoc.dma cc0_scratch8.sem : SemLoc sig).isScoped .scVector = true; decide⟩),
    SparseCore.bigSep_erase' (Finset.mem_erase.mpr ⟨fun e => absurd (congrArg Prod.snd e) (show (SemLoc.dma cc0_scratch9.sem : SemLoc sig) ≠ SemLoc.dma cc0_scratch8.sem by decide), (mem_ownCells (g := (thr d L, SemLoc.dma cc0_scratch9.sem))).mpr ⟨rfl, by show (SemLoc.dma cc0_scratch9.sem : SemLoc sig).isScoped .scVector = true; decide⟩⟩),
    SparseCore.bigSep_erase' (Finset.mem_erase.mpr ⟨fun e => absurd (congrArg Prod.snd e) (show (SemLoc.dma cc0_scratch10.sem : SemLoc sig) ≠ SemLoc.dma cc0_scratch9.sem by decide), Finset.mem_erase.mpr ⟨fun e => absurd (congrArg Prod.snd e) (show (SemLoc.dma cc0_scratch10.sem : SemLoc sig) ≠ SemLoc.dma cc0_scratch8.sem by decide), (mem_ownCells (g := (thr d L, SemLoc.dma cc0_scratch10.sem))).mpr ⟨rfl, by show (SemLoc.dma cc0_scratch10.sem : SemLoc sig).isScoped .scVector = true; decide⟩⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), Finset.mem_erase.mpr ⟨fun e => absurd (congrArg Prod.snd e) (show (SemLoc.dma cc0_scratch11.sem : SemLoc sig) ≠ SemLoc.dma cc0_scratch8.sem by decide), (mem_ownCells (g := (thr d L, SemLoc.dma cc0_scratch11.sem))).mpr ⟨rfl, by show (SemLoc.dma cc0_scratch11.sem : SemLoc sig).isScoped .scVector = true; decide⟩⟩⟩⟩),
    SparseCore.bigSep_erase' (Finset.mem_erase.mpr ⟨fun e => absurd (congrArg Prod.snd e) (show (SemLoc.dma cc0_scratch12.sem : SemLoc sig) ≠ SemLoc.dma cc0_scratch11.sem by decide), Finset.mem_erase.mpr ⟨fun e => absurd (congrArg Prod.snd e) (show (SemLoc.dma cc0_scratch12.sem : SemLoc sig) ≠ SemLoc.dma cc0_scratch10.sem by decide), Finset.mem_erase.mpr ⟨fun e => absurd (congrArg Prod.snd e) (show (SemLoc.dma cc0_scratch12.sem : SemLoc sig) ≠ SemLoc.dma cc0_scratch9.sem by decide), Finset.mem_erase.mpr ⟨fun e => absurd (congrArg Prod.snd e) (show (SemLoc.dma cc0_scratch12.sem : SemLoc sig) ≠ SemLoc.dma cc0_scratch8.sem by decide), (mem_ownCells (g := (thr d L, SemLoc.dma cc0_scratch12.sem))).mpr ⟨rfl, by show (SemLoc.dma cc0_scratch12.sem : SemLoc sig).isScoped .scVector = true; decide⟩⟩⟩⟩⟩),
    SparseCore.bigSep_erase' (Finset.mem_erase.mpr ⟨fun e => absurd (congrArg Prod.snd e) (show (SemLoc.dma cc0_scratch13.sem : SemLoc sig) ≠ SemLoc.dma cc0_scratch12.sem by decide), Finset.mem_erase.mpr ⟨fun e => absurd (congrArg Prod.snd e) (show (SemLoc.dma cc0_scratch13.sem : SemLoc sig) ≠ SemLoc.dma cc0_scratch11.sem by decide), Finset.mem_erase.mpr ⟨fun e => absurd (congrArg Prod.snd e) (show (SemLoc.dma cc0_scratch13.sem : SemLoc sig) ≠ SemLoc.dma cc0_scratch10.sem by decide), Finset.mem_erase.mpr ⟨fun e => absurd (congrArg Prod.snd e) (show (SemLoc.dma cc0_scratch13.sem : SemLoc sig) ≠ SemLoc.dma cc0_scratch9.sem by decide), Finset.mem_erase.mpr ⟨fun e => absurd (congrArg Prod.snd e) (show (SemLoc.dma cc0_scratch13.sem : SemLoc sig) ≠ SemLoc.dma cc0_scratch8.sem by decide), (mem_ownCells (g := (thr d L, SemLoc.dma cc0_scratch13.sem))).mpr ⟨rfl, by show (SemLoc.dma cc0_scratch13.sem : SemLoc sig).isScoped .scVector = true; decide⟩⟩⟩⟩⟩⟩),
    SparseCore.bigSep_erase' (Finset.mem_erase.mpr ⟨fun e => absurd (congrArg Prod.snd e) (show (SemLoc.dma cc0_scratch14.sem : SemLoc sig) ≠ SemLoc.dma cc0_scratch13.sem by decide), Finset.mem_erase.mpr ⟨fun e => absurd (congrArg Prod.snd e) (show (SemLoc.dma cc0_scratch14.sem : SemLoc sig) ≠ SemLoc.dma cc0_scratch12.sem by decide), Finset.mem_erase.mpr ⟨fun e => absurd (congrArg Prod.snd e) (show (SemLoc.dma cc0_scratch14.sem : SemLoc sig) ≠ SemLoc.dma cc0_scratch11.sem by decide), Finset.mem_erase.mpr ⟨fun e => absurd (congrArg Prod.snd e) (show (SemLoc.dma cc0_scratch14.sem : SemLoc sig) ≠ SemLoc.dma cc0_scratch10.sem by decide), Finset.mem_erase.mpr ⟨fun e => absurd (congrArg Prod.snd e) (show (SemLoc.dma cc0_scratch14.sem : SemLoc sig) ≠ SemLoc.dma cc0_scratch9.sem by decide), Finset.mem_erase.mpr ⟨fun e => absurd (congrArg Prod.snd e) (show (SemLoc.dma cc0_scratch14.sem : SemLoc sig) ≠ SemLoc.dma cc0_scratch8.sem by decide), (mem_ownCells (g := (thr d L, SemLoc.dma cc0_scratch14.sem))).mpr ⟨rfl, by show (SemLoc.dma cc0_scratch14.sem : SemLoc sig).isScoped .scVector = true; decide⟩⟩⟩⟩⟩⟩⟩),
    SparseCore.bigSep_erase' (Finset.mem_erase.mpr ⟨fun e => absurd (congrArg Prod.snd e) (show (SemLoc.dma cc0_scratch15.sem : SemLoc sig) ≠ SemLoc.dma cc0_scratch14.sem by decide), Finset.mem_erase.mpr ⟨fun e => absurd (congrArg Prod.snd e) (show (SemLoc.dma cc0_scratch15.sem : SemLoc sig) ≠ SemLoc.dma cc0_scratch13.sem by decide), Finset.mem_erase.mpr ⟨fun e => absurd (congrArg Prod.snd e) (show (SemLoc.dma cc0_scratch15.sem : SemLoc sig) ≠ SemLoc.dma cc0_scratch12.sem by decide), Finset.mem_erase.mpr ⟨fun e => absurd (congrArg Prod.snd e) (show (SemLoc.dma cc0_scratch15.sem : SemLoc sig) ≠ SemLoc.dma cc0_scratch11.sem by decide), Finset.mem_erase.mpr ⟨fun e => absurd (congrArg Prod.snd e) (show (SemLoc.dma cc0_scratch15.sem : SemLoc sig) ≠ SemLoc.dma cc0_scratch10.sem by decide), Finset.mem_erase.mpr ⟨fun e => absurd (congrArg Prod.snd e) (show (SemLoc.dma cc0_scratch15.sem : SemLoc sig) ≠ SemLoc.dma cc0_scratch9.sem by decide), Finset.mem_erase.mpr ⟨fun e => absurd (congrArg Prod.snd e) (show (SemLoc.dma cc0_scratch15.sem : SemLoc sig) ≠ SemLoc.dma cc0_scratch8.sem by decide), (mem_ownCells (g := (thr d L, SemLoc.dma cc0_scratch15.sem))).mpr ⟨rfl, by show (SemLoc.dma cc0_scratch15.sem : SemLoc sig).isScoped .scVector = true; decide⟩⟩⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩)]
end Own

/-! ## The tile's block of each array, row by row -/
section Split
variable (d : Dev nD) (L : grid0.Coords)
theorem xp_split (f : Buf (Elt F) ((a2).view.loc (thr d L))) :
    (xpLoc d ↦[xpRows (widL L)]{fullShare} f : sProp 𝕄) = bigSep Finset.univ fun ρ : Fin 32 => xOwn d L f ρ := by
  exact xp_rows d L f
theorem cnt_split (f : Buf (Elt F) ((a3).view.loc (thr d L))) :
    (cntLoc d ↦[cntRows (widL L)]{fullShare} f : sProp 𝕄) = bigSep Finset.univ fun ρ : Fin 32 => oOwn d L f ρ := by
  exact cnt_rows d L f
end Split

/-! ## The task -/
section Main

theorem tile_body (XP : (d : Dev nD) → Buf (Elt F) (xpLoc d)) (hpk : ∀ d, Cert.Proof.ScSpec.Packed (XP d))
    (hfirst : TripFirstStmt (F := F)) (hmid : TripMidStmt (F := F)) (hlast : TripLastStmt (F := F)) : TileStmt XP := by
  unfold TileStmt
  intro d L O W hO
  simp only [body_eq, part108_eq]
  rw [wp_bind]
  rw [(K (F := F)).scopedBufs_V tile_facts d (cV L) (jV L), SparseCore.Cfg.scopedSems0_V (Val := Elt F) d (cV L) (jV L), ownSems0_V, ownBufs_V]
  iintro ⟨#Hlv, -, ⟨Hxp, %C0, Hcnt⟩, ⟨⟨%f0, Hx0⟩, ⟨%f1, Hx1⟩, ⟨%f2, Hx2⟩, ⟨%f3, Hx3⟩, ⟨%g0, Hh0⟩, ⟨%g1, Hh1⟩, ⟨%g2, Hh2⟩, ⟨%g3, Hh3⟩, Hbufs⟩, ⟨Hs8, Hs9, Hs10, Hs11, Hs12, Hs13, Hs14, Hs15, Hsems⟩, HO⟩
  ihave Hmw := ((K (F := F)).mayWaits_none (thr := thr d L) hO) $$ Hlv
  ihave Hxr := (Entails.of_eq (xp_split d L (XP d))) $$ Hxp
  ihave Hor := (Entails.of_eq (cnt_split d L C0)) $$ Hcnt
  ihave Hxr := (Entails.of_eq (XS_init (fun ρ => xOwn d L (XP d) ρ) 0 rfl)) $$ Hxr
  icases Hxr with ⟨Hp0, Hp1, Hp2, Hp3, HXS⟩
  ihave Hp0 := (Entails.of_eq (own_x_congr d L (off1_0 L 0 rfl).symm (xrow_inb L _) (k0_off1_inb L 0 0) (XP d))) $$ Hp0
  ihave Hp1 := (Entails.of_eq (own_x_congr d L (off1_1 L 0 rfl).symm (xrow_inb L _) (k0_off1_inb L 0 1) (XP d))) $$ Hp1
  ihave Hp2 := (Entails.of_eq (own_x_congr d L (off1_2 L 0 rfl).symm (xrow_inb L _) (k0_off1_inb L 1 0) (XP d))) $$ Hp2
  ihave Hp3 := (Entails.of_eq (own_x_congr d L (off1_3 L 0 rfl).symm (xrow_inb L _) (k0_off1_inb L 1 1) (XP d))) $$ Hp3
  iapply (prologue d L O W (XP d) f0 f1 f2 f3 _)
  isplitl [Hmw]; · iexact Hmw
  isplitl [Hp0]; · iexact Hp0
  isplitl [Hp1]; · iexact Hp1
  isplitl [Hp2]; · iexact Hp2
  isplitl [Hp3]; · iexact Hp3
  isplitl [Hx0]; · iexact Hx0
  isplitl [Hx1]; · iexact Hx1
  isplitl [Hx2]; · iexact Hx2
  isplitl [Hx3]; · iexact Hx3
  isplitl [Hs8]; · iexact Hs8
  isplitl [Hs9]; · iexact Hs9
  isplitl [Hs10]; · iexact Hs10
  isplitl [Hs11]; · iexact Hs11
  isplitl [HO]; · iexact HO
  iintro %v2 ⟨Hmw, Hi0, Hi1, Hi2, Hi3, HO⟩
  irw [wp_bind, wp_bind]
  ihave Hi0 := (Entails.of_eq (inFlight_congr d L (off1_0 L 0 rfl) (k0_off1_inb L 0 0) (xrow_inb L _) cc0_scratch8 x0 _ (XP d))) $$ Hi0
  ihave Hi1 := (Entails.of_eq (inFlight_congr d L (off1_1 L 0 rfl) (k0_off1_inb L 0 1) (xrow_inb L _) cc0_scratch9 x1 _ (XP d))) $$ Hi1
  ihave Hi2 := (Entails.of_eq (inFlight_congr d L (off1_2 L 0 rfl) (k0_off1_inb L 1 0) (xrow_inb L _) cc0_scratch10 x2 _ (XP d))) $$ Hi2
  ihave Hi3 := (Entails.of_eq (inFlight_congr d L (off1_3 L 0 rfl) (k0_off1_inb L 1 1) (xrow_inb L _) cc0_scratch11 x3 _ (XP d))) $$ Hi3
  sl_for (Inv d L (XP d) C0 O W) $$ [Hmw Hi0 Hi1 Hi2 Hi3 HO HXS Hor Hh0 Hh1 Hh2 Hh3 Hs12 Hs13 Hs14 Hs15 Hbufs Hsems]
  case region =>
    intro k u
    have hk := k_lt k
    by_cases hk0 : k.val = 0
    · have e1 : Inv d L (XP d) C0 O W k.val u = InvFirst d L (XP d) C0 O W (4 * k.val) := by rw [hk0]; exact Inv_zero d L (XP d) C0 O W u
      have e2 : Inv d L (XP d) C0 O W (k.val + 1) = fun _ => InvMid d L (XP d) C0 O W (4 * k.val + 4) (4 * k.val) :=
        funext fun u' => Inv_mid d L (XP d) C0 O W (k.val + 1) (4 * k.val + 4) (4 * k.val) u' (by omega) (by omega) (by omega) rfl
      rw [e1, e2]
      exact step_first d L (XP d) C0 O W (hpk d) hfirst k (4 * k.val) (4 * k.val + 4) rfl rfl hk0 v2
    · by_cases hk7 : k.val = 7
      · have e1 : Inv d L (XP d) C0 O W k.val u = InvMid d L (XP d) C0 O W (4 * k.val) (4 * k.val - 4) :=
          Inv_mid d L (XP d) C0 O W k.val (4 * k.val) (4 * k.val - 4) u (by omega) (by omega) rfl (by omega)
        have e2 : Inv d L (XP d) C0 O W (k.val + 1) = fun _ => InvLast d L (XP d) O W (4 * k.val) :=
          funext fun u' => by rw [Inv_last d L (XP d) C0 O W (k.val + 1) u' (by omega), hk7]
        rw [e1, e2]
        exact step_last d L (XP d) C0 O W hlast k (4 * k.val) (4 * k.val - 4) rfl (by omega) hk7 v2
      · have e1 : Inv d L (XP d) C0 O W k.val u = InvMid d L (XP d) C0 O W (4 * k.val) (4 * k.val - 4) :=
          Inv_mid d L (XP d) C0 O W k.val (4 * k.val) (4 * k.val - 4) u (by omega) (by omega) rfl (by omega)
        have e2 : Inv d L (XP d) C0 O W (k.val + 1) = fun _ => InvMid d L (XP d) C0 O W (4 * k.val + 4) (4 * k.val) :=
          funext fun u' => Inv_mid d L (XP d) C0 O W (k.val + 1) (4 * k.val + 4) (4 * k.val) u' (by omega) (by omega) (by omega) rfl
        rw [e1, e2]
        exact step_mid d L (XP d) C0 O W (hpk d) hmid k (4 * k.val) (4 * k.val + 4) (4 * k.val - 4) rfl rfl (by omega) (by omega) v2
  isplitl [Hmw Hi0 Hi1 Hi2 Hi3 HO HXS Hor Hh0 Hh1 Hh2 Hh3 Hs12 Hs13 Hs14 Hs15]
  · rw [Inv_zero]
    unfold InvFirst
    iexists _
    iexists _
    iexists _
    iexists _
    iexists _
    iexists _
    iexists _
    iexists _
    isplitl [Hmw]; · iexact Hmw
    isplitl [HXS]; · iexact HXS
    isplitl [Hor]; · iapply (Entails.of_eq (OH_univ (fun ρ => oOwn d L C0 ρ))); iexact Hor
    isplitl [Hi0]; · iexact Hi0
    isplitl [Hi1]; · iexact Hi1
    isplitl [Hi2]; · iexact Hi2
    isplitl [Hi3]; · iexact Hi3
    isplitl [Hh0]; · iexact Hh0
    isplitl [Hh1]; · iexact Hh1
    isplitl [Hh2]; · iexact Hh2
    isplitl [Hh3]; · iexact Hh3
    isplitl [Hs12]; · iexact Hs12
    isplitl [Hs13]; · iexact Hs13
    isplitl [Hs14]; · iexact Hs14
    isplitl [Hs15]; · iexact Hs15
    isplitl [HO]
    · iexists W; isplitr
      · ipureintro; exact fun p hp => .inl hp
      · iexact HO
    ipureintro
    exact ⟨xok_new0 d L (XP d) (hpk d) _ (k0_off1_inb L 0 0) _ (off1_0 L 0 rfl) f0,
      xok_new1 d L (XP d) (hpk d) _ (k0_off1_inb L 0 1) _ (off1_1 L 0 rfl) f1,
      xok_new2 d L (XP d) (hpk d) _ (k0_off1_inb L 1 0) _ (off1_2 L 0 rfl) f2,
      xok_new3 d L (XP d) (hpk d) _ (k0_off1_inb L 1 1) _ (off1_3 L 0 rfl) f3⟩
  iintro %u HI
  ihave HI := (Entails.of_eq (Inv_last d L (XP d) C0 O W _ u (le_of_eq trips_eq.symm))) $$ HI
  unfold InvLast
  icases HI with ⟨%X0, %X1, %X2, %X3, %CO0, %CO1, %CO2, %CO3, %HC0, %HC1, %HC2, %HC3, Hmw, HXS, HOD, Hx0, Hs8, Hx1, Hs9, Hx2, Hs10, Hx3, Hs11, Ho0, Ho1, Ho2, Ho3, Hh0, Hh1, Hh2, Hh3, ⟨%W', %hW', HO⟩, %hok⟩
  obtain ⟨ho0, ho1, ho2, ho3⟩ := hok
  ihave Ho0 := (Entails.of_eq (outFlight_congr d L (off10_0 L 28 rfl).symm (orow_inb L _) (k0_off10_inb L 0 0) cc0_scratch12 h0 CO0 HC0)) $$ Ho0
  ihave Ho1 := (Entails.of_eq (outFlight_congr d L (off10_1 L 28 rfl).symm (orow_inb L _) (k0_off10_inb L 0 1) cc0_scratch13 h1 CO1 HC1)) $$ Ho1
  ihave Ho2 := (Entails.of_eq (outFlight_congr d L (off10_2 L 28 rfl).symm (orow_inb L _) (k0_off10_inb L 1 0) cc0_scratch14 h2 CO2 HC2)) $$ Ho2
  ihave Ho3 := (Entails.of_eq (outFlight_congr d L (off10_3 L 28 rfl).symm (orow_inb L _) (k0_off10_inb L 1 1) cc0_scratch15 h3 CO3 HC3)) $$ Ho3
  iapply (epilogue3 d L O W' CO0 HC0 CO1 HC1 CO2 HC2 _)
  isplitl [Hmw]; · iexact Hmw
  isplitl [Ho0]; · iexact Ho0
  isplitl [Hh0]; · iexact Hh0
  isplitl [Ho1]; · iexact Ho1
  isplitl [Hh1]; · iexact Hh1
  isplitl [Ho2]; · iexact Ho2
  isplitl [Hh2]; · iexact Hh2
  isplitl [HO]; · iexact HO
  iintro ⟨Hmw, Hd0, Hh0, Hs12, Hd1, Hh1, Hs13, Hd2, Hh2, Hs14, ⟨%W2, %hW2, HO⟩⟩
  iapply (epilogue1 d L O W2 CO3 HC3 _)
  isplitl [Hmw]; · iexact Hmw
  isplitl [Ho3]; · iexact Ho3
  isplitl [Hh3]; · iexact Hh3
  isplitl [HO]; · iexact HO
  iintro ⟨-, Hd3, Hh3, Hs15, ⟨%W3, %hW3, HO⟩⟩
  ihave Hd0 := (Entails.of_eq (own_o_congr d L (off10_0 L 28 rfl) (k0_off10_inb L 0 0) (orow_inb L _) CO0)) $$ Hd0
  ihave Hd0 := (Entails.of_eq (pointsTo_congr fun j hj => ho0 j hj)) $$ Hd0
  ihave Hd1 := (Entails.of_eq (own_o_congr d L (off10_1 L 28 rfl) (k0_off10_inb L 0 1) (orow_inb L _) CO1)) $$ Hd1
  ihave Hd1 := (Entails.of_eq (pointsTo_congr fun j hj => ho1 j hj)) $$ Hd1
  ihave Hd2 := (Entails.of_eq (own_o_congr d L (off10_2 L 28 rfl) (k0_off10_inb L 1 0) (orow_inb L _) CO2)) $$ Hd2
  ihave Hd2 := (Entails.of_eq (pointsTo_congr fun j hj => ho2 j hj)) $$ Hd2
  ihave Hd3 := (Entails.of_eq (own_o_congr d L (off10_3 L 28 rfl) (k0_off10_inb L 1 1) (orow_inb L _) CO3)) $$ Hd3
  ihave Hd3 := (Entails.of_eq (pointsTo_congr fun j hj => ho3 j hj)) $$ Hd3
  isplitl [HXS Hd0 Hd1 Hd2 Hd3 HOD]
  · isplitl [HXS]
    · iapply (Entails.of_eq (xp_split d L (XP d)).symm); iexact HXS
    · iapply (Entails.of_eq (cnt_split d L (CNT d L (XP d))).symm)
      iapply (Entails.of_eq (OD_univ (fun ρ => oOwn d L (CNT d L (XP d)) ρ)))
      iapply (Entails.of_eq (OD_give (fun ρ => oOwn d L (CNT d L (XP d)) ρ) 28 32 rfl (by omega)).symm)
      isplitl [Hd0]; · iexact Hd0
      isplitl [Hd1]; · iexact Hd1
      isplitl [Hd2]; · iexact Hd2
      isplitl [Hd3]; · iexact Hd3
      iexact HOD
  isplitl [Hx0 Hx1 Hx2 Hx3 Hh0 Hh1 Hh2 Hh3 Hbufs]
  · isplitl [Hx0]; · iexists _; iexact Hx0
    isplitl [Hx1]; · iexists _; iexact Hx1
    isplitl [Hx2]; · iexists _; iexact Hx2
    isplitl [Hx3]; · iexists _; iexact Hx3
    isplitl [Hh0]; · iexists _; iexact Hh0
    isplitl [Hh1]; · iexists _; iexact Hh1
    isplitl [Hh2]; · iexists _; iexact Hh2
    isplitl [Hh3]; · iexists _; iexact Hh3
    iexact Hbufs
  isplitl [Hs8 Hs9 Hs10 Hs11 Hs12 Hs13 Hs14 Hs15 Hsems]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists W3; isplitr
  · ipureintro; intro p hp
    rcases hW3 p hp with h | h
    · rcases hW2 p h with h | h
      · exact hW' p h
      · exact .inr h
    · exact .inr h
  · iexact HO

end Main

end Cert.Proof.KI
end
-- ==== Proof.ScPartsW.lean ====
/-
  Every printed part of the SparseCore kernel that holds an indexed store, restated with the indexed store under this
  development's name (see Respell.lean): parts 1 … 108 of the word-level kernel's function.
-/
import proofs.«205260_g26156350832969_cont_9to1_3_23_alg».proof.Proof.Respell
import proofs.«205260_g26156350832969_cont_9to1_3_23_alg».proof.Proof.Gen.Kernel.Skeleton

set_option maxRecDepth 65536

namespace Cert.Proof.KW

respell_parts Cert.Kernel "k0_part" 1 108 from Idealize.ShloMosaic.SparseCore.vectorStoreIdx to Cert.Proof.KI.sl.prog.vsi

end Cert.Proof.KW
-- ==== Proof.ScTripStmtW.lean ====
/-
  The statements of one trip of the SparseCore kernel's counted loop, in its three regimes, and the resources they speak
  of: a packed row in flight into an index scratch, the first 2688 bins of a histogram scratch in flight out to a counts
  row, a row of either array held by exactly its own elements.
-/
import proofs.«205260_g26156350832969_cont_9to1_3_23_alg».proof.Proof.ScIfaceW
import proofs.«205260_g26156350832969_cont_9to1_3_23_alg».proof.Proof.ScPartsW
import proofs.«205260_g26156350832969_cont_9to1_3_23_alg».proof.Proof.ChkBins

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

open Cert.Proof.Math (RowPacked chk_lo chk_hi)

abbrev thr (d : Dev nD) (L : grid0.Coords) : Thread nD τ := V d (cV L) (jV L)

/-- Row `off 0` of the packed array, and of the counts array, as the kernel slices and squeezes them. -/
abbrev xRowAt (off : Fin 2 → Nat) (h : ∀ a, off a + S1x1344.size a ≤ S1024x1344.size a) : Memref sig .scVector .hbm S1344 .i32 :=
  ((a2).slice (Rect.unit (s := S1024x1344) off S1x1344.size h) (fun _ => rfl)).squeeze S1344 squeezes_S1x1344_S1344
abbrev oRowAt (off : Fin 2 → Nat) (h : ∀ a, off a + S1x2688.size a ≤ S1024x2688.size a) : Memref sig .scVector .hbm S2688 .f32 :=
  ((a3).slice (Rect.unit (s := S1024x2688) off S1x2688.size h) (fun _ => rfl)).squeeze S2688 squeezes_S1x2688_S2688

/-- The first 2688 bins of a histogram scratch: what is copied out. -/
abbrev hsOf (hm : Memref sig .scVector .vmem S2800 .f32) : Memref sig .scVector .vmem S2688 .f32 :=
  hm.slice (Rect.unit (s := S2800) ![0] S2688.size inb_S2800_S2688_0) (fun _ => rfl)

/-- A view held by exactly its own elements. -/
abbrev own {S : Shape} {e : EltTy} {sp : Space} (d : Dev nD) (L : grid0.Coords) (M : Memref sig .scVector sp S e) (f : Buf (Elt F) (M.view.loc (thr d L))) : sProp 𝕄 :=
  M.view.loc (thr d L) ↦[M.view.set]{fullShare} f

/-- A packed row on its way into an index scratch: the scratch whole at what lands, and the row's elements. -/
abbrev inFlight (d : Dev nD) (L : grid0.Coords) (sem : DmaSems sig S_) (xm : Memref sig .scVector .vmem S1344 .i32)
    (X : Buf (Elt F) (xm.view.loc (thr d L))) (r : Memref sig .scVector .hbm S1344 .i32) (RX : Buf (Elt F) (r.view.loc (thr d L))) : sProp 𝕄 :=
  Transfers.Flight countersEmb (thr d L) (SemLoc.dma sem.sem) default 43008
    iprop((xm.view.loc (thr d L) ↦{fullShare} X) ∗ own d L r RX)

/-- The first 2688 bins of a histogram scratch on their way out to a counts row. -/
abbrev outFlight (d : Dev nD) (L : grid0.Coords) (sem : DmaSems sig S_) (hm : Memref sig .scVector .vmem S2800 .f32)
    (ro : Memref sig .scVector .hbm S2688 .f32) (CO : Buf (Elt F) (ro.view.loc (thr d L))) (HC : Buf (Elt F) (hm.view.loc (thr d L))) : sProp 𝕄 :=
  Transfers.Flight countersEmb (thr d L) (SemLoc.dma sem.sem) default 86016
    iprop((own d L ro CO) ∗ (hm.view.loc (thr d L) ↦[(hsOf hm).view.set]{fullShare} HC))

/-- The histogram of the packed row an index scratch holds, as the contents of the matching histogram scratch. -/
abbrev histOf0 (d : Dev nD) (L : grid0.Coords) (X : Buf (Elt F) ((x0).view.loc (thr d L))) : Buf (Elt F) ((h0).view.loc (thr d L)) :=
  Cert.Proof.ScSpec.histRow (F := F) ((x0).view.read (Elt F) X)
abbrev histOf1 (d : Dev nD) (L : grid0.Coords) (X : Buf (Elt F) ((x1).view.loc (thr d L))) : Buf (Elt F) ((h1).view.loc (thr d L)) :=
  Cert.Proof.ScSpec.histRow (F := F) ((x1).view.read (Elt F) X)
abbrev histOf2 (d : Dev nD) (L : grid0.Coords) (X : Buf (Elt F) ((x2).view.loc (thr d L))) : Buf (Elt F) ((h2).view.loc (thr d L)) :=
  Cert.Proof.ScSpec.histRow (F := F) ((x2).view.read (Elt F) X)
abbrev histOf3 (d : Dev nD) (L : grid0.Coords) (X : Buf (Elt F) ((x3).view.loc (thr d L))) : Buf (Elt F) ((h3).view.loc (thr d L)) :=
  Cert.Proof.ScSpec.histRow (F := F) ((x3).view.read (Elt F) X)

/-- One trip of the loop, the first (no copy-out is pending yet): from the four incoming rows in flight, the four histogram scratches and their semaphores free, the four rows to fetch next and the four counts rows to fill, to the rows that came back, the next four in flight and the four new copy-outs in flight, each carrying the histogram of the row it counted. -/
def TripFirstStmt : Prop :=
  ∀ (d : Dev nD) (L : grid0.Coords) (O : CellTallies nD τ sig (HIx 1)) (W : Waits sig (HIx 1))
    (k : Fin k0_t1_loop.trips)
    (hc1 : ¬ k0_cond1 k = 1#1) (hc2 : k0_cond2 k = 1#1) (hc3 : ¬ k0_cond3 k = 1#1) (hc4 : k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ ((h0).view.loc (thr d L) ↦{fullShare} HC0) ∗ ((h1).view.loc (thr d L) ↦{fullShare} HC1)
        ∗ ((h2).view.loc (thr d L) ↦{fullShare} HC2) ∗ ((h3).view.loc (thr d L) ↦{fullShare} HC3)
        ∗ semVal (thr d L, SemLoc.dma cc0_scratch12.sem) 0 ∗ semVal (thr d L, SemLoc.dma cc0_scratch13.sem) 0
        ∗ semVal (thr d L, SemLoc.dma cc0_scratch14.sem) 0 ∗ semVal (thr d L, SemLoc.dma cc0_scratch15.sem) 0
        ∗ own d L (xRowAt (k0_off4 L k 0#32) (k0_off4_inb L k hc2 0)) XP
        ∗ own d L (xRowAt (k0_off4 L k 1#32) (k0_off4_inb L k hc2 1)) XP
        ∗ own d L (xRowAt (k0_off8 L k 0#32) (k0_off8_inb L k hc4 0)) XP
        ∗ own d L (xRowAt (k0_off8 L k 1#32) (k0_off8_inb L k hc4 1)) XP
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ inFlight d L cc0_scratch8 x0 (View.write (Elt F) (x0).view X0 (ReadAs.same.apply ((xRowAt (k0_off4 L k 0#32) (k0_off4_inb L k hc2 0)).view.read (Elt F) XP)) Finset.univ) (xRowAt (k0_off4 L k 0#32) (k0_off4_inb L k hc2 0)) XP
          ∗ inFlight d L cc0_scratch9 x1 (View.write (Elt F) (x1).view X1 (ReadAs.same.apply ((xRowAt (k0_off4 L k 1#32) (k0_off4_inb L k hc2 1)).view.read (Elt F) XP)) Finset.univ) (xRowAt (k0_off4 L k 1#32) (k0_off4_inb L k hc2 1)) XP
          ∗ inFlight d L cc0_scratch10 x2 (View.write (Elt F) (x2).view X2 (ReadAs.same.apply ((xRowAt (k0_off8 L k 0#32) (k0_off8_inb L k hc4 0)).view.read (Elt F) XP)) Finset.univ) (xRowAt (k0_off8 L k 0#32) (k0_off8_inb L k hc4 0)) XP
          ∗ inFlight d L cc0_scratch11 x3 (View.write (Elt F) (x3).view X3 (ReadAs.same.apply ((xRowAt (k0_off8 L k 1#32) (k0_off8_inb L k hc4 1)).view.read (Elt F) XP)) Finset.univ) (xRowAt (k0_off8 L k 1#32) (k0_off8_inb L k hc4 1)) XP
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

/-- One trip of the loop, in the middle of the run (every guard taken): from the four incoming rows in flight, the four copy-outs of the trip before in flight, the four rows to fetch next and the four counts rows to fill, to the rows that came back, the next four in flight and the four new copy-outs in flight, each carrying the histogram of the row it counted. -/
def TripMidStmt : Prop :=
  ∀ (d : Dev nD) (L : grid0.Coords) (O : CellTallies nD τ sig (HIx 1)) (W : Waits sig (HIx 1))
    (k : Fin k0_t1_loop.trips)
    (hc1 : k0_cond1 k = 1#1) (hc2 : k0_cond2 k = 1#1) (hc3 : k0_cond3 k = 1#1) (hc4 : k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ outFlight d L cc0_scratch12 h0 ro0 CO0 HC0 ∗ outFlight d L cc0_scratch13 h1 ro1 CO1 HC1
        ∗ outFlight d L cc0_scratch14 h2 ro2 CO2 HC2 ∗ outFlight d L cc0_scratch15 h3 ro3 CO3 HC3
        ∗ ((h0).view.loc (thr d L) ↦[Finset.univ \ (hsOf h0).view.set]{fullShare} HC0)
        ∗ ((h1).view.loc (thr d L) ↦[Finset.univ \ (hsOf h1).view.set]{fullShare} HC1)
        ∗ ((h2).view.loc (thr d L) ↦[Finset.univ \ (hsOf h2).view.set]{fullShare} HC2)
        ∗ ((h3).view.loc (thr d L) ↦[Finset.univ \ (hsOf h3).view.set]{fullShare} HC3)
        ∗ own d L (xRowAt (k0_off4 L k 0#32) (k0_off4_inb L k hc2 0)) XP
        ∗ own d L (xRowAt (k0_off4 L k 1#32) (k0_off4_inb L k hc2 1)) XP
        ∗ own d L (xRowAt (k0_off8 L k 0#32) (k0_off8_inb L k hc4 0)) XP
        ∗ own d L (xRowAt (k0_off8 L k 1#32) (k0_off8_inb L k hc4 1)) XP
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ own d L ro0 CO0 ∗ own d L ro1 CO1 ∗ own d L ro2 CO2 ∗ own d L ro3 CO3
          ∗ inFlight d L cc0_scratch8 x0 (View.write (Elt F) (x0).view X0 (ReadAs.same.apply ((xRowAt (k0_off4 L k 0#32) (k0_off4_inb L k hc2 0)).view.read (Elt F) XP)) Finset.univ) (xRowAt (k0_off4 L k 0#32) (k0_off4_inb L k hc2 0)) XP
          ∗ inFlight d L cc0_scratch9 x1 (View.write (Elt F) (x1).view X1 (ReadAs.same.apply ((xRowAt (k0_off4 L k 1#32) (k0_off4_inb L k hc2 1)).view.read (Elt F) XP)) Finset.univ) (xRowAt (k0_off4 L k 1#32) (k0_off4_inb L k hc2 1)) XP
          ∗ inFlight d L cc0_scratch10 x2 (View.write (Elt F) (x2).view X2 (ReadAs.same.apply ((xRowAt (k0_off8 L k 0#32) (k0_off8_inb L k hc4 0)).view.read (Elt F) XP)) Finset.univ) (xRowAt (k0_off8 L k 0#32) (k0_off8_inb L k hc4 0)) XP
          ∗ inFlight d L cc0_scratch11 x3 (View.write (Elt F) (x3).view X3 (ReadAs.same.apply ((xRowAt (k0_off8 L k 1#32) (k0_off8_inb L k hc4 1)).view.read (Elt F) XP)) Finset.univ) (xRowAt (k0_off8 L k 1#32) (k0_off8_inb L k hc4 1)) XP
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

/-- One trip of the loop, the last (nothing more is fetched): from the four incoming rows in flight, the four copy-outs of the trip before in flight and the four counts rows to fill, to the rows that came back and the four new copy-outs in flight, each carrying the histogram of the row it counted. -/
def TripLastStmt : Prop :=
  ∀ (d : Dev nD) (L : grid0.Coords) (O : CellTallies nD τ sig (HIx 1)) (W : Waits sig (HIx 1))
    (k : Fin k0_t1_loop.trips)
    (hc1 : k0_cond1 k = 1#1) (hc2 : ¬ k0_cond2 k = 1#1) (hc3 : k0_cond3 k = 1#1) (hc4 : ¬ k0_cond4 k = 1#1)
    (XP : Buf (Elt F) ((a2).view.loc (thr d L)))
    (C50 C51 C90 C91 : Buf (Elt F) ((a3).view.loc (thr d L)))
    (r0 r1 r2 r3 : Memref sig .scVector .hbm S1344 .i32)
    (RX0 : Buf (Elt F) (r0.view.loc (thr d L))) (RX1 : Buf (Elt F) (r1.view.loc (thr d L))) (RX2 : Buf (Elt F) (r2.view.loc (thr d L))) (RX3 : Buf (Elt F) (r3.view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (hX0 : RowPacked ((x0).view.read (Elt F) X0)) (hX1 : RowPacked ((x1).view.read (Elt F) X1)) (hX2 : RowPacked ((x2).view.read (Elt F) X2)) (hX3 : RowPacked ((x3).view.read (Elt F) X3))
    (ro0 ro1 ro2 ro3 : Memref sig .scVector .hbm S2688 .f32)
    (CO0 : Buf (Elt F) (ro0.view.loc (thr d L))) (CO1 : Buf (Elt F) (ro1.view.loc (thr d L))) (CO2 : Buf (Elt F) (ro2.view.loc (thr d L))) (CO3 : Buf (Elt F) (ro3.view.loc (thr d L)))
    (HC0 : Buf (Elt F) ((h0).view.loc (thr d L))) (HC1 : Buf (Elt F) ((h1).view.loc (thr d L))) (HC2 : Buf (Elt F) ((h2).view.loc (thr d L))) (HC3 : Buf (Elt F) ((h3).view.loc (thr d L)))
    (v2 : BitVec 32)
    (Q : Unit → sProp 𝕄),
    iprop(Transfers.MayWaits (thr d L) (none : HIx 1) O
        ∗ inFlight d L cc0_scratch8 x0 X0 r0 RX0 ∗ inFlight d L cc0_scratch9 x1 X1 r1 RX1
        ∗ inFlight d L cc0_scratch10 x2 X2 r2 RX2 ∗ inFlight d L cc0_scratch11 x3 X3 r3 RX3
        ∗ outFlight d L cc0_scratch12 h0 ro0 CO0 HC0 ∗ outFlight d L cc0_scratch13 h1 ro1 CO1 HC1
        ∗ outFlight d L cc0_scratch14 h2 ro2 CO2 HC2 ∗ outFlight d L cc0_scratch15 h3 ro3 CO3 HC3
        ∗ ((h0).view.loc (thr d L) ↦[Finset.univ \ (hsOf h0).view.set]{fullShare} HC0)
        ∗ ((h1).view.loc (thr d L) ↦[Finset.univ \ (hsOf h1).view.set]{fullShare} HC1)
        ∗ ((h2).view.loc (thr d L) ↦[Finset.univ \ (hsOf h2).view.set]{fullShare} HC2)
        ∗ ((h3).view.loc (thr d L) ↦[Finset.univ \ (hsOf h3).view.set]{fullShare} HC3)
        ∗ own d L (oRowAt (k0_off5 L k 0#32) (k0_off5_inb L k 0)) C50
        ∗ own d L (oRowAt (k0_off5 L k 1#32) (k0_off5_inb L k 1)) C51
        ∗ own d L (oRowAt (k0_off9 L k 0#32) (k0_off9_inb L k 0)) C90
        ∗ own d L (oRowAt (k0_off9 L k 1#32) (k0_off9_inb L k 1)) C91
        ∗ owes (thr d L) O W
        ∗ (iprop(Transfers.MayWaits (thr d L) (none : HIx 1) O
          ∗ own d L r0 RX0 ∗ own d L r1 RX1 ∗ own d L r2 RX2 ∗ own d L r3 RX3
          ∗ own d L ro0 CO0 ∗ own d L ro1 CO1 ∗ own d L ro2 CO2 ∗ own d L ro3 CO3
          ∗ ((x0).view.loc (thr d L) ↦{fullShare} X0) ∗ semVal (thr d L, SemLoc.dma cc0_scratch8.sem) 0
          ∗ ((x1).view.loc (thr d L) ↦{fullShare} X1) ∗ semVal (thr d L, SemLoc.dma cc0_scratch9.sem) 0
          ∗ ((x2).view.loc (thr d L) ↦{fullShare} X2) ∗ semVal (thr d L, SemLoc.dma cc0_scratch10.sem) 0
          ∗ ((x3).view.loc (thr d L) ↦{fullShare} X3) ∗ semVal (thr d L, SemLoc.dma cc0_scratch11.sem) 0
          ∗ outFlight d L cc0_scratch12 h0 (oRowAt (k0_off5 L k 0#32) (k0_off5_inb L k 0)) ((oRowAt (k0_off5 L k 0#32) (k0_off5_inb L k 0)).view.writes (Elt F) C50 [⟨Rect.whole S2688, ReadAs.same.apply ((hsOf h0).view.read (Elt F) (histOf0 d L X0))⟩]) (histOf0 d L X0)
          ∗ ((h0).view.loc (thr d L) ↦[Finset.univ \ (hsOf h0).view.set]{fullShare} histOf0 d L X0)
          ∗ outFlight d L cc0_scratch13 h1 (oRowAt (k0_off5 L k 1#32) (k0_off5_inb L k 1)) ((oRowAt (k0_off5 L k 1#32) (k0_off5_inb L k 1)).view.writes (Elt F) C51 [⟨Rect.whole S2688, ReadAs.same.apply ((hsOf h1).view.read (Elt F) (histOf1 d L X1))⟩]) (histOf1 d L X1)
          ∗ ((h1).view.loc (thr d L) ↦[Finset.univ \ (hsOf h1).view.set]{fullShare} histOf1 d L X1)
          ∗ outFlight d L cc0_scratch14 h2 (oRowAt (k0_off9 L k 0#32) (k0_off9_inb L k 0)) ((oRowAt (k0_off9 L k 0#32) (k0_off9_inb L k 0)).view.writes (Elt F) C90 [⟨Rect.whole S2688, ReadAs.same.apply ((hsOf h2).view.read (Elt F) (histOf2 d L X2))⟩]) (histOf2 d L X2)
          ∗ ((h2).view.loc (thr d L) ↦[Finset.univ \ (hsOf h2).view.set]{fullShare} histOf2 d L X2)
          ∗ outFlight d L cc0_scratch15 h3 (oRowAt (k0_off9 L k 1#32) (k0_off9_inb L k 1)) ((oRowAt (k0_off9 L k 1#32) (k0_off9_inb L k 1)).view.writes (Elt F) C91 [⟨Rect.whole S2688, ReadAs.same.apply ((hsOf h3).view.read (Elt F) (histOf3 d L X3))⟩]) (histOf3 d L X3)
          ∗ ((h3).view.loc (thr d L) ↦[Finset.univ \ (hsOf h3).view.set]{fullShare} histOf3 d L X3)
          ∗ ∃ W', ⌜∀ p ∈ W', p ∈ W ∨ p.2 = none⌝ ∗ owes (thr d L) O W') -∗ Q ()))
      ⊢ wp frame (wpE (defs₀ (F := F)) 𝒱₀ (thr d L) none) Set.univ
          (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15
            v2 k0_pay673 k0_pay674 0#32 1#32 k ()) Q

end Cert.Proof.KW
end
-- ==== Proof.ScEndsW.lean ====
/-
  The two ends of the SparseCore kernel function around its counted loop. The prologue starts the copies of the
  tile's first four packed rows into the four index scratches; what follows the loop waits for the last four
  copy-outs, each handing back its counts row, its histogram scratch whole again and its semaphore at zero.
-/
import proofs.«205260_g26156350832969_cont_9to1_3_23_alg».proof.Proof.ScTripStmtW

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-! ## The prologue -/

/-- The first window of the kernel function: from the four packed rows it reads, the four index scratches whole and
    their semaphores at zero, it leaves the four rows in flight into the scratches and returns the loop's constants. -/
theorem prologue (d : Dev nD) (L : grid0.Coords) (O : CellTallies nD τ sig (HIx 1)) (W : Waits sig (HIx 1))
    (XP : Buf (Elt F) ((a2).view.loc (thr d L)))
    (X0 : Buf (Elt F) ((x0).view.loc (thr d L))) (X1 : Buf (Elt F) ((x1).view.loc (thr d L))) (X2 : Buf (Elt F) ((x2).view.loc (thr d L))) (X3 : Buf (Elt F) ((x3).view.loc (thr d L)))
    (Q : (Σ' (v2 : BitVec 32) (v3 : FVec F S16 .f32) (v4 : FVec F S16 .f32) (c0_i32_16 : BitVec 32), BitVec 32) → sProp 𝕄) :
    iprop(Transfers.MayWaits (thr d L) (none : HIx 1) O
        ∗ own d L (xRowAt (k0_off1 L 0#32 0#32) (k0_off1_inb L 0 0)) XP ∗ own d L (xRowAt (k0_off1 L 0#32 1#32) (k0_off1_inb L 0 1)) XP
        ∗ own d L (xRowAt (k0_off1 L 2#32 0#32) (k0_off1_inb L 1 0)) XP ∗ own d L (xRowAt (k0_off1 L 2#32 1#32) (k0_off1_inb L 1 1)) XP
        ∗ ((x0).view.loc (thr d L) ↦{fullShare} X0) ∗ ((x1).view.loc (thr d L) ↦{fullShare} X1)
        ∗ ((x2).view.loc (thr d L) ↦{fullShare} X2) ∗ ((x3).view.loc (thr d L) ↦{fullShare} X3)
        ∗ semVal (thr d L, SemLoc.dma cc0_scratch8.sem) 0 ∗ semVal (thr d L, SemLoc.dma cc0_scratch9.sem) 0
        ∗ semVal (thr d L, SemLoc.dma cc0_scratch10.sem) 0 ∗ semVal (thr d L, SemLoc.dma cc0_scratch11.sem) 0
        ∗ owes (thr d L) O W
        ∗ (∀ v2 : BitVec 32, iprop(Transfers.MayWaits (thr d L) (none : HIx 1) O
          ∗ inFlight d L cc0_scratch8 x0 (View.write (Elt F) (x0).view X0 (ReadAs.same.apply ((xRowAt (k0_off1 L 0#32 0#32) (k0_off1_inb L 0 0)).view.read (Elt F) XP)) Finset.univ) (xRowAt (k0_off1 L 0#32 0#32) (k0_off1_inb L 0 0)) XP
          ∗ inFlight d L cc0_scratch9 x1 (View.write (Elt F) (x1).view X1 (ReadAs.same.apply ((xRowAt (k0_off1 L 0#32 1#32) (k0_off1_inb L 0 1)).view.read (Elt F) XP)) Finset.univ) (xRowAt (k0_off1 L 0#32 1#32) (k0_off1_inb L 0 1)) XP
          ∗ inFlight d L cc0_scratch10 x2 (View.write (Elt F) (x2).view X2 (ReadAs.same.apply ((xRowAt (k0_off1 L 2#32 0#32) (k0_off1_inb L 1 0)).view.read (Elt F) XP)) Finset.univ) (xRowAt (k0_off1 L 2#32 0#32) (k0_off1_inb L 1 0)) XP
          ∗ inFlight d L cc0_scratch11 x3 (View.write (Elt F) (x3).view X3 (ReadAs.same.apply ((xRowAt (k0_off1 L 2#32 1#32) (k0_off1_inb L 1 1)).view.read (Elt F) XP)) Finset.univ) (xRowAt (k0_off1 L 2#32 1#32) (k0_off1_inb L 1 1)) XP
          ∗ owes (thr d L) O W) -∗ Q ⟨v2, k0_pay673 (F := F), k0_pay674 (F := F), 0#32, 1#32⟩))
      ⊢ wp frame (wpE (defs₀ (F := F)) 𝒱₀ (thr d L) none) Set.univ
          (k0_part107 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15) Q := by
  iintro ⟨Hmw, Hr0, Hr1, Hr2, Hr3, Hx0, Hx1, Hx2, Hx3, Hs0, Hs1, Hs2, Hs3, HO, Hk⟩
  sl_exec
  sl_step
  iapply Hk
  isplitl [Hmw]; · iexact Hmw
  isplitl [Hs0]; · iexact Hs0
  isplitl [Hs1]; · iexact Hs1
  isplitl [Hs2]; · iexact Hs2
  isplitl [Hs3]; · iexact Hs3
  iexact HO

/-! ## After the loop -/

/-- What follows the loop in the second window of the kernel function: the waits for three of the last copy-outs. -/
abbrev tail108 (L : grid0.Coords) : Prog (TpuEff nD τ sig (Elt F) Λ₀ (.scVector ((L 0).castLE hcore0) ((L 1).castLE hsub0))) PUnit := do
  Prog.lift (.waitDma2 cc0_scratch12.sem (hsOf h0) (oRowAt (k0_off10 L 0#32 0#32) (k0_off10_inb L 0 0)) (View.wordExact_bits rfl) ((View.wordExact_bits rfl).reshape _ _))
  Prog.lift (.waitDma2 cc0_scratch13.sem (hsOf h1) (oRowAt (k0_off10 L 0#32 1#32) (k0_off10_inb L 0 1)) (View.wordExact_bits rfl) ((View.wordExact_bits rfl).reshape _ _))
  Prog.lift (.waitDma2 cc0_scratch14.sem (hsOf h2) (oRowAt (k0_off10 L 2#32 0#32) (k0_off10_inb L 1 0)) (View.wordExact_bits rfl) ((View.wordExact_bits rfl).reshape _ _))
  pure ⟨⟩

/-- What follows the second window in the kernel function: the wait for the fourth. -/
abbrev tailBody (L : grid0.Coords) : Prog (TpuEff nD τ sig (Elt F) Λ₀ (.scVector ((L 0).castLE hcore0) ((L 1).castLE hsub0))) PUnit := do
  Prog.lift (.waitDma2 cc0_scratch15.sem (hsOf h3) (oRowAt (k0_off10 L 2#32 1#32) (k0_off10_inb L 1 1)) (View.wordExact_bits rfl) ((View.wordExact_bits rfl).reshape _ _))
  pure ⟨⟩

/-- The second window is the loop, then the three waits. -/
theorem part108_eq (L : grid0.Coords) (v2 : BitVec 32) (v3 v4 : FVec F S16 .f32) (c0 c1 : BitVec 32) :
    k0_part108 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 v2 v3 v4 c0 c1
      = (Scf.Loop.for k0_t1_loop k0_t1_ok ⟨⟩ (k0_t1_body (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 v2 v3 v4 c0 c1) >>= fun _ => tail108 (F := F) L) := by
  rw [k0_part108_eq_skeleton]; rfl

/-- The kernel function is its first window, its second, then the fourth wait. -/
theorem body_eq (L : grid0.Coords) :
    bodyAt (F := F) L
      = (k0_part107 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 >>= fun r =>
          k0_part108 (F := F) L a2 (Memref.isWhole_whole _) a3 (Memref.isWhole_whole _) x0 (Memref.isWhole_whole _) x1 (Memref.isWhole_whole _)
            x2 (Memref.isWhole_whole _) x3 (Memref.isWhole_whole _) h0 (Memref.isWhole_whole _) h1 (Memref.isWhole_whole _)
            h2 (Memref.isWhole_whole _) h3 (Memref.isWhole_whole _)
            cc0_scratch8 cc0_scratch9 cc0_scratch10 cc0_scratch11 cc0_scratch12 cc0_scratch13 cc0_scratch14 cc0_scratch15 r.1 r.2.1 r.2.2.1 r.2.2.2.1 r.2.2.2.2 >>= fun _ => tailBody (F := F) L) := by
  unfold bodyAt; rw [cc0_sc_body_eq_skeleton]; rfl

/-- The three waits: each copy-out in flight hands back its counts row, its histogram scratch whole and its semaphore at zero. -/
theorem epilogue3 (d : Dev nD) (L : grid0.Coords) (O : CellTallies nD τ sig (HIx 1)) (W : Waits sig (HIx 1))
    (CO0 : Buf (Elt F) ((oRowAt (k0_off10 L 0#32 0#32) (k0_off10_inb L 0 0)).view.loc (thr d L))) (HC0 : Buf (Elt F) ((h0).view.loc (thr d L)))
    (CO1 : Buf (Elt F) ((oRowAt (k0_off10 L 0#32 1#32) (k0_off10_inb L 0 1)).view.loc (thr d L))) (HC1 : Buf (Elt F) ((h1).view.loc (thr d L)))
    (CO2 : Buf (Elt F) ((oRowAt (k0_off10 L 2#32 0#32) (k0_off10_inb L 1 0)).view.loc (thr d L))) (HC2 : Buf (Elt F) ((h2).view.loc (thr d L)))
    (Q : PUnit → sProp 𝕄) :
    iprop(Transfers.MayWaits (thr d L) (none : HIx 1) O
        ∗ outFlight d L cc0_scratch12 h0 (oRowAt (k0_off10 L 0#32 0#32) (k0_off10_inb L 0 0)) CO0 HC0
        ∗ ((h0).view.loc (thr d L) ↦[Finset.univ \ (hsOf h0).view.set]{fullShare} HC0)
        ∗ outFlight d L cc0_scratch13 h1 (oRowAt (k0_off10 L 0#32 1#32) (k0_off10_inb L 0 1)) CO1 HC1
        ∗ ((h1).view.loc (thr d L) ↦[Finset.univ \ (hsOf h1).view.set]{fullShare} HC1)
        ∗ outFlight d L cc0_scratch14 h2 (oRowAt (k0_off10 L 2#32 0#32) (k0_off10_inb L 1 0)) CO2 HC2
        ∗ ((h2).view.loc (thr d L) ↦[Finset.univ \ (hsOf h2).view.set]{fullShare} HC2)
        ∗ owes (thr d L) O W
        ∗ (iprop(Transfers.MayWaits (thr d L) (none : HIx 1) O
          ∗ own d L (oRowAt (k0_off10 L 0#32 0#32) (k0_off10_inb L 0 0)) CO0 ∗ ((h0).view.loc (thr d L) ↦{fullShare} HC0) ∗ semVal (thr d L, SemLoc.dma cc0_scratch12.sem) 0
          ∗ own d L (oRowAt (k0_off10 L 0#32 1#32) (k0_off10_inb L 0 1)) CO1 ∗ ((h1).view.loc (thr d L) ↦{fullShare} HC1) ∗ semVal (thr d L, SemLoc.dma cc0_scratch13.sem) 0
          ∗ own d L (oRowAt (k0_off10 L 2#32 0#32) (k0_off10_inb L 1 0)) CO2 ∗ ((h2).view.loc (thr d L) ↦{fullShare} HC2) ∗ semVal (thr d L, SemLoc.dma cc0_scratch14.sem) 0
          ∗ ∃ W', ⌜∀ p ∈ W', p ∈ W ∨ p.2 = none⌝ ∗ owes (thr d L) O W') -∗ Q ⟨⟩))
      ⊢ wp frame (wpE (defs₀ (F := F)) 𝒱₀ (thr d L) none) Set.univ (tail108 (F := F) L) Q := by
  iintro ⟨Hmw, Hf0, Hrest0, Hf1, Hrest1, Hf2, Hrest2, HO, Hk⟩
  sl_exec
  sl_step
  iapply Hk
  isplitl [Hmw]; · iexact Hmw
  isplitl [Hf0_dst]; · iexact Hf0_dst
  isplitl [Hrest0]; · iexact Hrest0
  isplitl [Hf0]; · iexact Hf0
  isplitl [Hf1_dst]; · iexact Hf1_dst
  isplitl [Hrest1]; · iexact Hrest1
  isplitl [Hf1]; · iexact Hf1
  isplitl [Hf2_dst]; · iexact Hf2_dst
  isplitl [Hrest2]; · iexact Hrest2
  isplitl [Hf2]; · iexact Hf2
  iexists _; isplitr
  swap; · iexact HO
  ipureintro
  intro p hp
  simp only [Finset.mem_insert] at hp
  rcases hp with rfl | rfl | rfl | hp
  · exact Or.inr rfl
  · exact Or.inr rfl
  · exact Or.inr rfl
  · exact Or.inl hp

/-- The fourth wait: each copy-out in flight hands back its counts row, its histogram scratch whole and its semaphore at zero. -/
theorem epilogue1 (d : Dev nD) (L : grid0.Coords) (O : CellTallies nD τ sig (HIx 1)) (W : Waits sig (HIx 1))
    (CO3 : Buf (Elt F) ((oRowAt (k0_off10 L 2#32 1#32) (k0_off10_inb L 1 1)).view.loc (thr d L))) (HC3 : Buf (Elt F) ((h3).view.loc (thr d L)))
    (Q : PUnit → sProp 𝕄) :
    iprop(Transfers.MayWaits (thr d L) (none : HIx 1) O
        ∗ outFlight d L cc0_scratch15 h3 (oRowAt (k0_off10 L 2#32 1#32) (k0_off10_inb L 1 1)) CO3 HC3
        ∗ ((h3).view.loc (thr d L) ↦[Finset.univ \ (hsOf h3).view.set]{fullShare} HC3)
        ∗ owes (thr d L) O W
        ∗ (iprop(Transfers.MayWaits (thr d L) (none : HIx 1) O
          ∗ own d L (oRowAt (k0_off10 L 2#32 1#32) (k0_off10_inb L 1 1)) CO3 ∗ ((h3).view.loc (thr d L) ↦{fullShare} HC3) ∗ semVal (thr d L, SemLoc.dma cc0_scratch15.sem) 0
          ∗ ∃ W', ⌜∀ p ∈ W', p ∈ W ∨ p.2 = none⌝ ∗ owes (thr d L) O W') -∗ Q ⟨⟩))
      ⊢ wp frame (wpE (defs₀ (F := F)) 𝒱₀ (thr d L) none) Set.univ (tailBody (F := F) L) Q := by
  iintro ⟨Hmw, Hf3, Hrest3, HO, Hk⟩
  sl_exec
  sl_step
  iapply Hk
  isplitl [Hmw]; · iexact Hmw
  isplitl [Hf3_dst]; · iexact Hf3_dst
  isplitl [Hrest3]; · iexact Hrest3
  isplitl [Hf3]; · iexact Hf3
  iexists _; isplitr
  swap; · iexact HO
  ipureintro
  intro p hp
  simp only [Finset.mem_insert] at hp
  rcases hp with rfl | hp
  · exact Or.inr rfl
  · exact Or.inl hp

end Cert.Proof.KW
end
-- ==== Proof.ScRowsW.lean ====
/-
  The rows a vector subcore owns, one by one.

  The subcore at grid coordinates L has base row B = 64 (L 1) + 32 (L 0) and owns rows B … B + 31 of the packed
  array and of the counts array. Every row the kernel function slices — in its prologue, in each trip of its
  loop, in its epilogue — is one of these 32, by the closed forms of the slices' offsets. The subcore's rows of an
  array, held together, are the 32 rows held one by one. A counts row written whole holds the written vector.
-/
import proofs.«205260_g26156350832969_cont_9to1_3_23_alg».proof.Proof.ScTripStmtW

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]
local notation "𝕄" => MT nD τ sig (HIx 1) (Elt F) ℕ UU ℕ
local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-! ## The rows -/

/-- The subcore's first row. -/
abbrev baseRow (L : grid0.Coords) : Nat := 64 * (L 1).val + 32 * (L 0).val

omit [FloatOps F] in
theorem baseRow_add_lt (L : grid0.Coords) (ρ : Fin 32) : baseRow L + ρ.val < 1024 := by
  have hL0 : (L 0).val < 2 := (L 0).isLt
  have hL1 : (L 1).val < 16 := (L 1).isLt
  have := ρ.isLt
  show 64 * (L 1).val + 32 * (L 0).val + ρ.val < 1024
  omega

omit [FloatOps F] in
theorem baseRow_eq_wid (L : grid0.Coords) : baseRow L = 32 * (widL L).val := by
  show 64 * (L 1).val + 32 * (L 0).val = 32 * (2 * (L 1).val + (L 0).val)
  omega

theorem xRow_inb (r : Nat) (hr : r < 1024) : ∀ a, (![r, 0] : Fin 2 → Nat) a + S1x1344.size a ≤ S1024x1344.size a :=
  Rect.inb₂ (by show r + 1 ≤ 1024; omega) (by show 0 + 1344 ≤ 1344; omega)
theorem oRow_inb (r : Nat) (hr : r < 1024) : ∀ a, (![r, 0] : Fin 2 → Nat) a + S1x2688.size a ≤ S1024x2688.size a :=
  Rect.inb₂ (by show r + 1 ≤ 1024; omega) (by show 0 + 2688 ≤ 2688; omega)

/-- Local row ρ of the subcore's share of the packed array, and of the counts array. -/
abbrev xRowN (L : grid0.Coords) (ρ : Fin 32) : Memref sig .scVector .hbm S1344 .i32 :=
  xRowAt ![baseRow L + ρ.val, 0] (xRow_inb _ (baseRow_add_lt L ρ))
abbrev oRowN (L : grid0.Coords) (ρ : Fin 32) : Memref sig .scVector .hbm S2688 .f32 :=
  oRowAt ![baseRow L + ρ.val, 0] (oRow_inb _ (baseRow_add_lt L ρ))

/-- Rows at equal offsets are the same memref. -/
theorem xRowAt_congr {off off' : Fin 2 → Nat} (e : off = off') (h : ∀ a, off a + S1x1344.size a ≤ S1024x1344.size a)
    (h' : ∀ a, off' a + S1x1344.size a ≤ S1024x1344.size a) : xRowAt off h = xRowAt off' h' := by
  subst e; rfl
theorem oRowAt_congr {off off' : Fin 2 → Nat} (e : off = off') (h : ∀ a, off a + S1x2688.size a ≤ S1024x2688.size a)
    (h' : ∀ a, off' a + S1x2688.size a ≤ S1024x2688.size a) : oRowAt off h = oRowAt off' h' := by
  subst e; rfl

/-- A row at offset `![baseRow L + n, 0]` written in any way is the canonical row n. -/
theorem xRowAt_eq_rowN (L : grid0.Coords) {off : Fin 2 → Nat} (h : ∀ a, off a + S1x1344.size a ≤ S1024x1344.size a)
    (ρ : Fin 32) (e : off = ![baseRow L + ρ.val, 0]) : xRowAt off h = xRowN L ρ := xRowAt_congr e _ _
theorem oRowAt_eq_rowN (L : grid0.Coords) {off : Fin 2 → Nat} (h : ∀ a, off a + S1x2688.size a ≤ S1024x2688.size a)
    (ρ : Fin 32) (e : off = ![baseRow L + ρ.val, 0]) : oRowAt off h = oRowN L ρ := oRowAt_congr e _ _

/-! ## The loop's guards and the offsets under them, in closed form -/

theorem trips_eq : k0_t1_loop.trips = 8 := by decide

theorem trip_lt (k : Fin k0_t1_loop.trips) : k.val < 8 := Nat.lt_of_lt_of_eq k.isLt trips_eq

theorem cond1_iff : ∀ k : Fin k0_t1_loop.trips, k0_cond1 k = 1#1 ↔ 1 ≤ k.val := by decide +kernel
theorem cond2_iff : ∀ k : Fin k0_t1_loop.trips, k0_cond2 k = 1#1 ↔ k.val ≤ 6 := by decide +kernel
theorem cond3_iff : ∀ k : Fin k0_t1_loop.trips, k0_cond3 k = 1#1 ↔ 1 ≤ k.val := by decide +kernel
theorem cond4_iff : ∀ k : Fin k0_t1_loop.trips, k0_cond4 k = 1#1 ↔ k.val ≤ 6 := by decide +kernel

/-- The counts rows waited for at the head of a phase: those of two chunks before. -/
theorem k0_off2_eq : ∀ (i : grid0.Coords) (k : Fin k0_t1_loop.trips), k0_cond1 k = 1#1 → ∀ r : Fin 2,
    k0_off2 i k (BitVec.ofNat 32 r.val) = ![64 * (i 1).val + 32 * (i 0).val + 4 * k.val + r.val - 4, 0] := by decide +kernel
theorem k0_off6_eq : ∀ (i : grid0.Coords) (k : Fin k0_t1_loop.trips), k0_cond3 k = 1#1 → ∀ r : Fin 2,
    k0_off6 i k (BitVec.ofNat 32 r.val) = ![64 * (i 1).val + 32 * (i 0).val + 4 * k.val + r.val - 2, 0] := by decide +kernel

/-! ## Every row the kernel function slices is one of the 32 -/

omit [FloatOps F] in
theorem vec2_congr {a b : Nat} (e : a = b) : (![a, 0] : Fin 2 → Nat) = ![b, 0] := by rw [e]

/-- Prologue: the four packed rows fetched first are rows 0 … 3. -/
theorem xRow_off1 (L : grid0.Coords) (r₁ r₂ : Fin 2) :
    xRowAt (k0_off1 L (BitVec.ofNat 32 (2 * r₁.val)) (BitVec.ofNat 32 r₂.val)) (k0_off1_inb L r₁ r₂)
      = xRowN L ⟨2 * r₁.val + r₂.val, by omega⟩ :=
  xRowAt_eq_rowN L _ _ ((k0_off1_eq L r₁ r₂).trans (vec2_congr (by show _ = 64 * (L 1).val + 32 * (L 0).val + (2 * r₁.val + r₂.val); omega)))

/-- Phase 0 of trip k counts packed rows 4 k, 4 k + 1; phase 1 rows 4 k + 2, 4 k + 3. -/
theorem xRow_off3 (L : grid0.Coords) (k : Fin k0_t1_loop.trips) (r : Fin 2) :
    xRowAt (k0_off3 L k (BitVec.ofNat 32 r.val)) (k0_off3_inb L k r)
      = xRowN L ⟨4 * k.val + r.val, by have := trip_lt k; omega⟩ :=
  xRowAt_eq_rowN L _ _ ((k0_off3_eq L k r).trans (vec2_congr (by show _ = 64 * (L 1).val + 32 * (L 0).val + (4 * k.val + r.val); omega)))
theorem xRow_off7 (L : grid0.Coords) (k : Fin k0_t1_loop.trips) (r : Fin 2) :
    xRowAt (k0_off7 L k (BitVec.ofNat 32 r.val)) (k0_off7_inb L k r)
      = xRowN L ⟨4 * k.val + r.val + 2, by have := trip_lt k; omega⟩ :=
  xRowAt_eq_rowN L _ _ ((k0_off7_eq L k r).trans (vec2_congr (by show _ = 64 * (L 1).val + 32 * (L 0).val + (4 * k.val + r.val + 2); omega)))

/-- The rows fetched ahead: phase 0 of trip k fetches rows 4 k + 4, 4 k + 5; phase 1 rows 4 k + 6, 4 k + 7 (k ≤ 6). -/
theorem xRow_off4 (L : grid0.Coords) (k : Fin k0_t1_loop.trips) (hc : k0_cond2 k = 1#1) (r : Fin 2) :
    xRowAt (k0_off4 L k (BitVec.ofNat 32 r.val)) (k0_off4_inb L k hc r)
      = xRowN L ⟨4 * k.val + r.val + 4, by have := (cond2_iff k).mp hc; omega⟩ :=
  xRowAt_eq_rowN L _ _ ((k0_off4_eq L k r).trans (vec2_congr (by show _ = 64 * (L 1).val + 32 * (L 0).val + (4 * k.val + r.val + 4); omega)))
theorem xRow_off8 (L : grid0.Coords) (k : Fin k0_t1_loop.trips) (hc : k0_cond4 k = 1#1) (r : Fin 2) :
    xRowAt (k0_off8 L k (BitVec.ofNat 32 r.val)) (k0_off8_inb L k hc r)
      = xRowN L ⟨4 * k.val + r.val + 6, by have := (cond4_iff k).mp hc; omega⟩ :=
  xRowAt_eq_rowN L _ _ ((k0_off8_eq L k r).trans (vec2_congr (by show _ = 64 * (L 1).val + 32 * (L 0).val + (4 * k.val + r.val + 6); omega)))

/-- The counts rows filled: phase 0 of trip k fills rows 4 k, 4 k + 1; phase 1 rows 4 k + 2, 4 k + 3. -/
theorem oRow_off5 (L : grid0.Coords) (k : Fin k0_t1_loop.trips) (r : Fin 2) :
    oRowAt (k0_off5 L k (BitVec.ofNat 32 r.val)) (k0_off5_inb L k r)
      = oRowN L ⟨4 * k.val + r.val, by have := trip_lt k; omega⟩ :=
  oRowAt_eq_rowN L _ _ ((k0_off5_eq L k r).trans (vec2_congr (by show _ = 64 * (L 1).val + 32 * (L 0).val + (4 * k.val + r.val); omega)))
theorem oRow_off9 (L : grid0.Coords) (k : Fin k0_t1_loop.trips) (r : Fin 2) :
    oRowAt (k0_off9 L k (BitVec.ofNat 32 r.val)) (k0_off9_inb L k r)
      = oRowN L ⟨4 * k.val + r.val + 2, by have := trip_lt k; omega⟩ :=
  oRowAt_eq_rowN L _ _ ((k0_off9_eq L k r).trans (vec2_congr (by show _ = 64 * (L 1).val + 32 * (L 0).val + (4 * k.val + r.val + 2); omega)))

/-- The counts rows waited for at the head of a phase (k ≥ 1): those the same phase filled in the trip before. -/
theorem oRow_off2 (L : grid0.Coords) (k : Fin k0_t1_loop.trips) (hc : k0_cond1 k = 1#1) (r : Fin 2) :
    oRowAt (k0_off2 L k (BitVec.ofNat 32 r.val)) (k0_off2_inb L k hc r)
      = oRowN L ⟨4 * k.val + r.val - 4, by have := trip_lt k; omega⟩ :=
  oRowAt_eq_rowN L _ _ ((k0_off2_eq L k hc r).trans (vec2_congr (by
    have := (cond1_iff k).mp hc
    show _ = 64 * (L 1).val + 32 * (L 0).val + (4 * k.val + r.val - 4); omega)))
theorem oRow_off6 (L : grid0.Coords) (k : Fin k0_t1_loop.trips) (hc : k0_cond3 k = 1#1) (r : Fin 2) :
    oRowAt (k0_off6 L k (BitVec.ofNat 32 r.val)) (k0_off6_inb L k hc r)
      = oRowN L ⟨4 * k.val + r.val - 2, by have := trip_lt k; omega⟩ :=
  oRowAt_eq_rowN L _ _ ((k0_off6_eq L k hc r).trans (vec2_congr (by
    have := (cond3_iff k).mp hc
    show _ = 64 * (L 1).val + 32 * (L 0).val + (4 * k.val + r.val - 2); omega)))

/-- Epilogue: the four counts rows waited for last are rows 28 … 31. -/
theorem oRow_off10 (L : grid0.Coords) (r₁ r₂ : Fin 2) :
    oRowAt (k0_off10 L (BitVec.ofNat 32 (2 * r₁.val)) (BitVec.ofNat 32 r₂.val)) (k0_off10_inb L r₁ r₂)
      = oRowN L ⟨2 * r₁.val + r₂.val + 28, by omega⟩ :=
  oRowAt_eq_rowN L _ _ ((k0_off10_eq L r₁ r₂).trans (vec2_congr (by show _ = 64 * (L 1).val + 32 * (L 0).val + (2 * r₁.val + r₂.val + 28); omega)))

/-! ## The subcore's rows, held together, are the 32 rows held one by one -/

omit [FloatOps F] in
theorem set_xRowAt (off : Fin 2 → Nat) (h : ∀ a, off a + S1x1344.size a ≤ S1024x1344.size a) :
    (xRowAt off h).view.set = (Rect.unit (s := S1024x1344) off S1x1344.size h).set := by
  show (((View.whole (main_v8_scv : Ref sig .scVector)).slice (Rect.unit (s := S1024x1344) off S1x1344.size h)).reshape S1344
    squeezes_S1x1344_S1344.numel_eq).set = _
  rw [View.set_reshape, View.set_slice_whole]
omit [FloatOps F] in
theorem set_oRowAt (off : Fin 2 → Nat) (h : ∀ a, off a + S1x2688.size a ≤ S1024x2688.size a) :
    (oRowAt off h).view.set = (Rect.unit (s := S1024x2688) off S1x2688.size h).set := by
  show (((View.whole (main_v20_scv : Ref sig .scVector)).slice (Rect.unit (s := S1024x2688) off S1x2688.size h)).reshape S2688
    squeezes_S1x2688_S2688.numel_eq).set = _
  rw [View.set_reshape, View.set_slice_whole]

omit [FloatOps F] in
/-- An element is in local row ρ exactly when its row coordinate is B + ρ. -/
theorem mem_set_xRowN (L : grid0.Coords) (ρ : Fin 32) (j : S1024x1344.Idx) :
    j ∈ (xRowN L ρ).view.set ↔ (j 0).val = baseRow L + ρ.val := by
  rw [set_xRowAt, Rect.mem_set_unit]
  constructor
  · intro h
    have hh0 := h 0
    have e0 : (![baseRow L + ρ.val, 0] : Fin 2 → Nat) 0 = baseRow L + ρ.val := rfl
    have e1 : S1x1344.size 0 = 1 := rfl
    rw [e0, e1] at hh0
    omega
  · intro h a
    match a with
    | ⟨0, _⟩ =>
      show baseRow L + ρ.val ≤ (j 0).val ∧ (j 0).val < baseRow L + ρ.val + 1
      omega
    | ⟨1, _⟩ =>
      have hj1 : (j 1).val < 1344 := (j 1).isLt
      show 0 ≤ (j 1).val ∧ (j 1).val < 0 + 1344
      omega
omit [FloatOps F] in
theorem mem_set_oRowN (L : grid0.Coords) (ρ : Fin 32) (j : S1024x2688.Idx) :
    j ∈ (oRowN L ρ).view.set ↔ (j 0).val = baseRow L + ρ.val := by
  rw [set_oRowAt, Rect.mem_set_unit]
  constructor
  · intro h
    have hh0 := h 0
    have e0 : (![baseRow L + ρ.val, 0] : Fin 2 → Nat) 0 = baseRow L + ρ.val := rfl
    have e1 : S1x2688.size 0 = 1 := rfl
    rw [e0, e1] at hh0
    omega
  · intro h a
    match a with
    | ⟨0, _⟩ =>
      show baseRow L + ρ.val ≤ (j 0).val ∧ (j 0).val < baseRow L + ρ.val + 1
      omega
    | ⟨1, _⟩ =>
      have hj1 : (j 1).val < 2688 := (j 1).isLt
      show 0 ≤ (j 1).val ∧ (j 1).val < 0 + 2688
      omega

omit [FloatOps F] in
theorem xRows_disjoint (L : grid0.Coords) : ∀ ρ ∈ (Finset.univ : Finset (Fin 32)), ∀ ρ' ∈ (Finset.univ : Finset (Fin 32)),
    ρ ≠ ρ' → Disjoint (xRowN L ρ).view.set (xRowN L ρ').view.set := by
  intro ρ _ ρ' _ hne
  rw [Finset.disjoint_left]
  intro j hj hj'
  rw [mem_set_xRowN] at hj hj'
  exact hne (Fin.ext (by omega))
omit [FloatOps F] in
theorem oRows_disjoint (L : grid0.Coords) : ∀ ρ ∈ (Finset.univ : Finset (Fin 32)), ∀ ρ' ∈ (Finset.univ : Finset (Fin 32)),
    ρ ≠ ρ' → Disjoint (oRowN L ρ).view.set (oRowN L ρ').view.set := by
  intro ρ _ ρ' _ hne
  rw [Finset.disjoint_left]
  intro j hj hj'
  rw [mem_set_oRowN] at hj hj'
  exact hne (Fin.ext (by omega))

omit [FloatOps F] in
theorem xpRows_eq (L : grid0.Coords) :
    xpRows (widL L) = (Finset.univ : Finset (Fin 32)).biUnion fun ρ => (xRowN L ρ).view.set := by
  ext j
  have hb := baseRow_eq_wid L
  have hx : j ∈ xpRows (widL L) ↔ (j 0).val / 32 = (widL L).val := by
    unfold xpRows
    simp only [Finset.mem_filter, Finset.mem_univ, true_and]
  rw [hx, Finset.mem_biUnion]
  constructor
  · intro h
    refine ⟨⟨(j 0).val % 32, Nat.mod_lt _ (by norm_num)⟩, Finset.mem_univ _, (mem_set_xRowN L _ j).mpr ?_⟩
    show (j 0).val = baseRow L + (j 0).val % 32
    omega
  · rintro ⟨ρ, -, hρ⟩
    rw [mem_set_xRowN] at hρ
    have := ρ.isLt
    omega
omit [FloatOps F] in
theorem cntRows_eq (L : grid0.Coords) :
    cntRows (widL L) = (Finset.univ : Finset (Fin 32)).biUnion fun ρ => (oRowN L ρ).view.set := by
  ext j
  have hb := baseRow_eq_wid L
  have hx : j ∈ cntRows (widL L) ↔ (j 0).val / 32 = (widL L).val := by
    unfold cntRows
    simp only [Finset.mem_filter, Finset.mem_univ, true_and]
  rw [hx, Finset.mem_biUnion]
  constructor
  · intro h
    refine ⟨⟨(j 0).val % 32, Nat.mod_lt _ (by norm_num)⟩, Finset.mem_univ _, (mem_set_oRowN L _ j).mpr ?_⟩
    show (j 0).val = baseRow L + (j 0).val % 32
    omega
  · rintro ⟨ρ, -, hρ⟩
    rw [mem_set_oRowN] at hρ
    have := ρ.isLt
    omega

/-- The subcore's rows of the packed array are its 32 rows, each held by its own elements. -/
theorem xp_rows (d : Dev nD) (L : grid0.Coords) (f : Buf (Elt F) (xpLoc d)) :
    (xpLoc d ↦[xpRows (widL L)]{fullShare} f : sProp 𝕄) = bigSep Finset.univ fun ρ : Fin 32 => own d L (xRowN L ρ) f := by
  rw [xpRows_eq L, pointsTo_biUnion Finset.univ (ℓ := xpLoc d) (fun ρ => (xRowN L ρ).view.set) (xRows_disjoint L)]
/-- The subcore's rows of the counts array are its 32 rows, each held by its own elements. -/
theorem cnt_rows (d : Dev nD) (L : grid0.Coords) (f : Buf (Elt F) (cntLoc d)) :
    (cntLoc d ↦[cntRows (widL L)]{fullShare} f : sProp 𝕄) = bigSep Finset.univ fun ρ : Fin 32 => own d L (oRowN L ρ) f := by
  rw [cntRows_eq L, pointsTo_biUnion Finset.univ (ℓ := cntLoc d) (fun ρ => (oRowN L ρ).view.set) (oRows_disjoint L)]

/-! ## The contents of a row -/

omit [FloatOps F] in
/-- A view held by its own elements does not see the contents off them. -/
theorem own_congr {S : Shape} {e : EltTy} {sp : Space} (d : Dev nD) (L : grid0.Coords) (M : Memref sig .scVector sp S e)
    (f g : Buf (Elt F) (M.view.loc (thr d L))) (h : ∀ j ∈ M.view.set, f j = g j) :
    (own d L M f : sProp 𝕄) = own d L M g := pointsTo_congr h

omit [FloatOps F] in
/-- Entry q of local row ρ of the counts array is the array's entry (B + ρ, q). -/
theorem emb_oRowN (L : grid0.Coords) (ρ : Fin 32) (q : Fin 2688) :
    (oRowN L ρ).view.emb (ix1 q) = ix2 (⟨baseRow L + ρ.val, baseRow_add_lt L ρ⟩ : Fin 1024) q := by
  show (((View.whole (main_v20_scv : Ref sig .scVector)).slice
      (Rect.unit (s := S1024x2688) ![baseRow L + ρ.val, 0] S1x2688.size (oRow_inb _ (baseRow_add_lt L ρ)))).reshape S2688
        squeezes_S1x2688_S2688.numel_eq).emb (ix1 q) = _
  rw [View.emb_reshape, View.emb_slice, View.emb_whole]
  have hre : Shape.reshapeEquiv squeezes_S1x2688_S2688.numel_eq (ix1 q) = (ix2 (0 : Fin 1) q : S1x2688.Idx) :=
    Shape.reshapeEquiv_eq_of_rowMajor _ (by
      rw [Shape.rowMajor_val_two, Shape.rowMajor_val_one]
      show 0 * 2688 + q.val = q.val
      omega)
  show (Rect.unit (s := S1024x2688) ![baseRow L + ρ.val, 0] S1x2688.size _).emb
      (Shape.reshapeEquiv squeezes_S1x2688_S2688.numel_eq (ix1 q)) = _
  rw [hre]
  funext a
  match a with
  | ⟨0, _⟩ => exact Fin.ext (by show baseRow L + ρ.val + 1 * 0 = baseRow L + ρ.val; omega)
  | ⟨1, _⟩ => exact Fin.ext (by show 0 + 1 * q.val = q.val; omega)

/-- A counts row written whole holds the written vector: entry (B + ρ, q) of the array is entry q of the vector. -/
theorem oRowN_writes_apply (d : Dev nD) (L : grid0.Coords) (ρ : Fin 32) (C : Buf (Elt F) ((oRowN L ρ).view.loc (thr d L)))
    (p : S2688.Idx → Elt F .f32) (q : Fin 2688) :
    ((oRowN L ρ).view.writes (Elt F) C [⟨Rect.whole S2688, p⟩]) (ix2 (⟨baseRow L + ρ.val, baseRow_add_lt L ρ⟩ : Fin 1024) q)
      = p (ix1 q) := by
  have h := congrFun (View.read_writes_whole (oRowN L ρ).view C p) (ix1 q)
  rw [View.read_apply, emb_oRowN] at h
  rw [cast_eq] at h
  exact h

/-- The first 2688 bins of a histogram scratch read as the first 2688 entries of what the scratch reads. -/
theorem hsOf_read (hm : Memref sig .scVector .vmem S2800 .f32) (H : hm.view.ty.Contents (Elt F)) (q : Fin 2688) :
    (hsOf hm).view.read (Elt F) H (ix1 q)
      = hm.view.read (Elt F) H (ix1 (⟨q.val, Nat.lt_trans q.isLt (by decide)⟩ : Fin 2800)) := by
  show (hm.view.slice (Rect.unit (s := S2800) ![0] S2688.size inb_S2800_S2688_0)).read (Elt F) H (ix1 q) = _
  rw [View.read_apply, View.read_apply, View.emb_slice]
  have hidx : (Rect.unit (s := S2800) ![0] S2688.size inb_S2800_S2688_0).emb (ix1 q)
      = (ix1 (⟨q.val, Nat.lt_trans q.isLt (by decide)⟩ : Fin 2800) : S2800.Idx) := by
    funext a
    match a with
    | ⟨0, _⟩ => exact Fin.ext (by show 0 + 1 * q.val = q.val; omega)
  show _root_.cast _ (H (hm.view.emb ((Rect.unit (s := S2800) ![0] S2688.size inb_S2800_S2688_0).emb (ix1 q)))) = _
  rw [hidx]

/-- Local row ρ of the counts array, written whole with the first 2688 bins of a scratch that reads as the histogram
    of packed row B + ρ, agrees on its elements with the counts of the packed array. -/
theorem oRowN_written_counts (d : Dev nD) (L : grid0.Coords) (ρ : Fin 32) (XP : IVec S1024x1344 32)
    (C : Buf (Elt F) ((oRowN L ρ).view.loc (thr d L)))
    (hm : Memref sig .scVector .vmem S2800 .f32) (H : hm.view.ty.Contents (Elt F))
    (hH : hm.view.read (Elt F) H
      = Cert.Proof.ScSpec.histRow (F := F) (Cert.Proof.ScSpec.rowOf XP (⟨baseRow L + ρ.val, baseRow_add_lt L ρ⟩ : Fin 1024))) :
    ∀ (j : S1024x2688.Idx), j ∈ (oRowN L ρ).view.set →
      ((oRowN L ρ).view.writes (Elt F) C [⟨Rect.whole S2688, ReadAs.same.apply ((hsOf hm).view.read (Elt F) H)⟩]) j
        = Cert.Proof.ScSpec.counts (F := F) XP j := by
  intro j hj
  rw [mem_set_oRowN] at hj
  obtain ⟨a, q, rfl⟩ : ∃ (a : Fin 1024) (q : Fin 2688), j = ix2 a q := ⟨j 0, j 1, ValueIdx.eq_ix2 j⟩
  have ha : a = (⟨baseRow L + ρ.val, baseRow_add_lt L ρ⟩ : Fin 1024) := Fin.ext hj
  subst ha
  rw [oRowN_writes_apply]
  show (hsOf hm).view.read (Elt F) H (ix1 q) = _
  rw [hsOf_read, hH]
  rfl

end Cert.Proof.KW
end
-- ==== Proof.ScInvW.lean ====
/-
  The state of one vector subcore's task between the trips of the kernel function's counted loop, and one trip.

  The subcore owns rows 0 … 31 (local numbers) of the packed array and of the counts array. Before trip k the
  packed rows 4k … 4k+3 are on their way into the four index scratches and every other packed row is held; the
  counts rows 4(k-1) … 4k-1 are on their way out of the four histogram scratches, the rows below them hold the
  histograms of their packed rows, the rows from 4k on are untouched. One trip of the loop, in each of its three
  regimes (the first, a middle one, the last), takes this state at k to the state at k+1: the rows that come back
  are put back, the four rows fetched next and the four counts rows filled are taken out, and what each copy-out
  delivers is the histogram of the packed row its index scratch held.
-/
import proofs.«205260_g26156350832969_cont_9to1_3_23_alg».proof.Proof.ScTripStmtW
import proofs.«205260_g26156350832969_cont_9to1_3_23_alg».proof.Proof.ScEndsW
import proofs.«205260_g26156350832969_cont_9to1_3_23_alg».proof.Proof.ScRowsW

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked)
open Idealize.ShloMosaic.ValueIdx (ix1 ix2)

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-! ## The rows of a tile, by number -/
def bRow (L : grid0.Coords) : Nat := 64 * (L 1).val + 32 * (L 0).val
omit [FloatOps F] in
theorem xrow_inb (L : grid0.Coords) (ρ : Fin 32) : ∀ a, (![bRow L + ρ.val, 0] : Fin 2 → Nat) a + S1x1344.size a ≤ S1024x1344.size a := by
  have hL0 : (L 0).val < 2 := (L 0).isLt
  have hL1 : (L 1).val < 16 := (L 1).isLt
  have := ρ.isLt
  intro a; fin_cases a
  · show bRow L + ρ.val + 1 ≤ 1024; unfold bRow; omega
  · show 0 + 1344 ≤ 1344; omega
omit [FloatOps F] in
theorem orow_inb (L : grid0.Coords) (ρ : Fin 32) : ∀ a, (![bRow L + ρ.val, 0] : Fin 2 → Nat) a + S1x2688.size a ≤ S1024x2688.size a := by
  have hL0 : (L 0).val < 2 := (L 0).isLt
  have hL1 : (L 1).val < 16 := (L 1).isLt
  have := ρ.isLt
  intro a; fin_cases a
  · show bRow L + ρ.val + 1 ≤ 1024; unfold bRow; omega
  · show 0 + 2688 ≤ 2688; omega
abbrev xRowM (L : grid0.Coords) (ρ : Fin 32) : Memref sig .scVector .hbm S1344 .i32 := xRowAt ![bRow L + ρ.val, 0] (xrow_inb L ρ)
abbrev oRowM (L : grid0.Coords) (ρ : Fin 32) : Memref sig .scVector .hbm S2688 .f32 := oRowAt ![bRow L + ρ.val, 0] (orow_inb L ρ)

omit [FloatOps F] in
theorem vec2c {a b : Nat} (h : a = b) : (![a, 0] : Fin 2 → Nat) = ![b, 0] := by rw [h]

/-- Row number n + i (below 32) as an index of the tile's rows. -/
def rfa (n i : Nat) : Fin 32 := if h : n + i < 32 then ⟨n + i, h⟩ else ⟨0, by decide⟩
omit [FloatOps F] in
theorem rfa_val {n i : Nat} (h : n + i < 32) : (rfa n i).val = n + i := by simp [rfa, h]
attribute [irreducible] rfa

omit [FloatOps F] in
theorem k_lt (k : Fin k0_t1_loop.trips) : k.val < 8 := Nat.lt_of_lt_of_le k.isLt k0_t1_abs.2.1

omit [FloatOps F] in
theorem conds_all : ∀ k : Fin k0_t1_loop.trips, (k0_cond1 k = 1#1 ↔ 1 ≤ k.val) ∧ (k0_cond2 k = 1#1 ↔ k.val ≤ 6) ∧ (k0_cond3 k = 1#1 ↔ 1 ≤ k.val) ∧ (k0_cond4 k = 1#1 ↔ k.val ≤ 6) := by decide +kernel

/-! ### The offsets of the kernel's slices, as rows of the tile -/
section Offs
variable (L : grid0.Coords)
omit [FloatOps F] in
theorem off1_0 (n : Nat) (hn : n = 0) : k0_off1 L 0#32 0#32 = ![bRow L + (rfa n 0).val, 0] := by
  have e := k0_off1_eq L ⟨0, by decide⟩ ⟨0, by decide⟩
  have hr := rfa_val (n := n) (i := 0) (by omega)
  refine e.trans (vec2c ?_)
  unfold bRow; dsimp only; omega
omit [FloatOps F] in
theorem off10_0 (n : Nat) (hn : n = 28) : k0_off10 L 0#32 0#32 = ![bRow L + (rfa n 0).val, 0] := by
  have e := k0_off10_eq L ⟨0, by decide⟩ ⟨0, by decide⟩
  have hr := rfa_val (n := n) (i := 0) (by omega)
  refine e.trans (vec2c ?_)
  unfold bRow; dsimp only; omega
omit [FloatOps F] in
theorem off1_1 (n : Nat) (hn : n = 0) : k0_off1 L 0#32 1#32 = ![bRow L + (rfa n 1).val, 0] := by
  have e := k0_off1_eq L ⟨0, by decide⟩ ⟨1, by decide⟩
  have hr := rfa_val (n := n) (i := 1) (by omega)
  refine e.trans (vec2c ?_)
  unfold bRow; dsimp only; omega
omit [FloatOps F] in
theorem off10_1 (n : Nat) (hn : n = 28) : k0_off10 L 0#32 1#32 = ![bRow L + (rfa n 1).val, 0] := by
  have e := k0_off10_eq L ⟨0, by decide⟩ ⟨1, by decide⟩
  have hr := rfa_val (n := n) (i := 1) (by omega)
  refine e.trans (vec2c ?_)
  unfold bRow; dsimp only; omega
omit [FloatOps F] in
theorem off1_2 (n : Nat) (hn : n = 0) : k0_off1 L 2#32 0#32 = ![bRow L + (rfa n 2).val, 0] := by
  have e := k0_off1_eq L ⟨1, by decide⟩ ⟨0, by decide⟩
  have hr := rfa_val (n := n) (i := 2) (by omega)
  refine e.trans (vec2c ?_)
  unfold bRow; dsimp only; omega
omit [FloatOps F] in
theorem off10_2 (n : Nat) (hn : n = 28) : k0_off10 L 2#32 0#32 = ![bRow L + (rfa n 2).val, 0] := by
  have e := k0_off10_eq L ⟨1, by decide⟩ ⟨0, by decide⟩
  have hr := rfa_val (n := n) (i := 2) (by omega)
  refine e.trans (vec2c ?_)
  unfold bRow; dsimp only; omega
omit [FloatOps F] in
theorem off1_3 (n : Nat) (hn : n = 0) : k0_off1 L 2#32 1#32 = ![bRow L + (rfa n 3).val, 0] := by
  have e := k0_off1_eq L ⟨1, by decide⟩ ⟨1, by decide⟩
  have hr := rfa_val (n := n) (i := 3) (by omega)
  refine e.trans (vec2c ?_)
  unfold bRow; dsimp only; omega
omit [FloatOps F] in
theorem off10_3 (n : Nat) (hn : n = 28) : k0_off10 L 2#32 1#32 = ![bRow L + (rfa n 3).val, 0] := by
  have e := k0_off10_eq L ⟨1, by decide⟩ ⟨1, by decide⟩
  have hr := rfa_val (n := n) (i := 3) (by omega)
  refine e.trans (vec2c ?_)
  unfold bRow; dsimp only; omega
omit [FloatOps F] in
theorem offP_0 (k : Fin k0_t1_loop.trips) (n' : Nat) (hn' : n' = 4 * k.val + 4) (h6 : k.val ≤ 6) : k0_off4 L k 0#32 = ![bRow L + (rfa n' 0).val, 0] := by
  have e := k0_off4_eq L k ⟨0, by decide⟩
  have hr := rfa_val (n := n') (i := 0) (by omega)
  refine e.trans (vec2c ?_)
  unfold bRow; dsimp only; omega
omit [FloatOps F] in
theorem offO_0 (k : Fin k0_t1_loop.trips) (n : Nat) (hn : n = 4 * k.val) : k0_off5 L k 0#32 = ![bRow L + (rfa n 0).val, 0] := by
  have e := k0_off5_eq L k ⟨0, by decide⟩
  have hk := k_lt k
  have hr := rfa_val (n := n) (i := 0) (by omega)
  refine e.trans (vec2c ?_)
  unfold bRow; dsimp only; omega
omit [FloatOps F] in
theorem offP_1 (k : Fin k0_t1_loop.trips) (n' : Nat) (hn' : n' = 4 * k.val + 4) (h6 : k.val ≤ 6) : k0_off4 L k 1#32 = ![bRow L + (rfa n' 1).val, 0] := by
  have e := k0_off4_eq L k ⟨1, by decide⟩
  have hr := rfa_val (n := n') (i := 1) (by omega)
  refine e.trans (vec2c ?_)
  unfold bRow; dsimp only; omega
omit [FloatOps F] in
theorem offO_1 (k : Fin k0_t1_loop.trips) (n : Nat) (hn : n = 4 * k.val) : k0_off5 L k 1#32 = ![bRow L + (rfa n 1).val, 0] := by
  have e := k0_off5_eq L k ⟨1, by decide⟩
  have hk := k_lt k
  have hr := rfa_val (n := n) (i := 1) (by omega)
  refine e.trans (vec2c ?_)
  unfold bRow; dsimp only; omega
omit [FloatOps F] in
theorem offP_2 (k : Fin k0_t1_loop.trips) (n' : Nat) (hn' : n' = 4 * k.val + 4) (h6 : k.val ≤ 6) : k0_off8 L k 0#32 = ![bRow L + (rfa n' 2).val, 0] := by
  have e := k0_off8_eq L k ⟨0, by decide⟩
  have hr := rfa_val (n := n') (i := 2) (by omega)
  refine e.trans (vec2c ?_)
  unfold bRow; dsimp only; omega
omit [FloatOps F] in
theorem offO_2 (k : Fin k0_t1_loop.trips) (n : Nat) (hn : n = 4 * k.val) : k0_off9 L k 0#32 = ![bRow L + (rfa n 2).val, 0] := by
  have e := k0_off9_eq L k ⟨0, by decide⟩
  have hk := k_lt k
  have hr := rfa_val (n := n) (i := 2) (by omega)
  refine e.trans (vec2c ?_)
  unfold bRow; dsimp only; omega
omit [FloatOps F] in
theorem offP_3 (k : Fin k0_t1_loop.trips) (n' : Nat) (hn' : n' = 4 * k.val + 4) (h6 : k.val ≤ 6) : k0_off8 L k 1#32 = ![bRow L + (rfa n' 3).val, 0] := by
  have e := k0_off8_eq L k ⟨1, by decide⟩
  have hr := rfa_val (n := n') (i := 3) (by omega)
  refine e.trans (vec2c ?_)
  unfold bRow; dsimp only; omega
omit [FloatOps F] in
theorem offO_3 (k : Fin k0_t1_loop.trips) (n : Nat) (hn : n = 4 * k.val) : k0_off9 L k 1#32 = ![bRow L + (rfa n 3).val, 0] := by
  have e := k0_off9_eq L k ⟨1, by decide⟩
  have hk := k_lt k
  have hr := rfa_val (n := n) (i := 3) (by omega)
  refine e.trans (vec2c ?_)
  unfold bRow; dsimp only; omega
end Offs
section Congr
variable (d : Dev nD) (L : grid0.Coords)

theorem own_x_congr {off off' : Fin 2 → Nat} (e : off = off') (h : ∀ a, off a + S1x1344.size a ≤ S1024x1344.size a) (h' : ∀ a, off' a + S1x1344.size a ≤ S1024x1344.size a)
    (f : Buf (Elt F) ((a2).view.loc (thr d L))) :
    (own d L (xRowAt off h) f : sProp 𝕄) = own d L (xRowAt off' h') f := by subst e; rfl
theorem own_o_congr {off off' : Fin 2 → Nat} (e : off = off') (h : ∀ a, off a + S1x2688.size a ≤ S1024x2688.size a) (h' : ∀ a, off' a + S1x2688.size a ≤ S1024x2688.size a)
    (f : Buf (Elt F) ((a3).view.loc (thr d L))) :
    (own d L (oRowAt off h) f : sProp 𝕄) = own d L (oRowAt off' h') f := by subst e; rfl
theorem inFlight_congr {off off' : Fin 2 → Nat} (e : off = off') (h : ∀ a, off a + S1x1344.size a ≤ S1024x1344.size a) (h' : ∀ a, off' a + S1x1344.size a ≤ S1024x1344.size a)
    (sem : DmaSems sig S_) (xm : Memref sig .scVector .vmem S1344 .i32) (X : Buf (Elt F) (xm.view.loc (thr d L)))
    (f : Buf (Elt F) ((a2).view.loc (thr d L))) :
    (inFlight d L sem xm X (xRowAt off h) f : sProp 𝕄) = inFlight d L sem xm X (xRowAt off' h') f := by subst e; rfl
theorem outFlight_congr {off off' : Fin 2 → Nat} (e : off = off') (h : ∀ a, off a + S1x2688.size a ≤ S1024x2688.size a) (h' : ∀ a, off' a + S1x2688.size a ≤ S1024x2688.size a)
    (sem : DmaSems sig S_) (hm : Memref sig .scVector .vmem S2800 .f32) (CO : Buf (Elt F) ((a3).view.loc (thr d L))) (HC : Buf (Elt F) (hm.view.loc (thr d L))) :
    (outFlight d L sem hm (oRowAt off h) CO HC : sProp 𝕄) = outFlight d L sem hm (oRowAt off' h') CO HC := by subst e; rfl
omit [FloatOps F] in
theorem xread_congr {off off' : Fin 2 → Nat} (e : off = off') (h : ∀ a, off a + S1x1344.size a ≤ S1024x1344.size a) (h' : ∀ a, off' a + S1x1344.size a ≤ S1024x1344.size a)
    (f : Buf (Elt F) ((a2).view.loc (thr d L))) :
    (xRowAt off h).view.read (Elt F) f = (xRowAt off' h').view.read (Elt F) f := by subst e; rfl
end Congr

/-! ### Sets of rows, four at a time -/
section Sets
omit [FloatOps F] in
theorem bigSep_four (Φ : Fin 32 → sProp 𝕄) (S S' : Finset (Fin 32)) (n : Nat) (hn : n + 3 < 32)
    (hS : ∀ ρ : Fin 32, ρ ∈ S ↔ (ρ ∈ S' ∨ (n ≤ ρ.val ∧ ρ.val ≤ n + 3)))
    (hS' : ∀ ρ ∈ S', ρ.val < n ∨ n + 3 < ρ.val) :
    bigSep S Φ = iprop(Φ (rfa n 0) ∗ Φ (rfa n 1) ∗ Φ (rfa n 2) ∗ Φ (rfa n 3) ∗ bigSep S' Φ) := by
  have v0 := rfa_val (n := n) (i := 0) (by omega)
  have v1 := rfa_val (n := n) (i := 1) (by omega)
  have v2 := rfa_val (n := n) (i := 2) (by omega)
  have v3 := rfa_val (n := n) (i := 3) (by omega)
  have hSeq : S = insert (rfa n 0) (insert (rfa n 1) (insert (rfa n 2) (insert (rfa n 3) S'))) := by
    ext ρ
    have key : (n ≤ ρ.val ∧ ρ.val ≤ n + 3) ↔ (ρ.val = n + 0 ∨ ρ.val = n + 1 ∨ ρ.val = n + 2 ∨ ρ.val = n + 3) := by omega
    simp only [Finset.mem_insert, hS, Fin.ext_iff, v0, v1, v2, v3, key]
    tauto
  have m3 : rfa n 3 ∉ S' := fun h => by have := hS' _ h; omega
  have m2 : rfa n 2 ∉ insert (rfa n 3) S' := by
    simp only [Finset.mem_insert, Fin.ext_iff, v2, v3, not_or]
    exact ⟨by omega, fun h => by have := hS' _ h; omega⟩
  have m1 : rfa n 1 ∉ insert (rfa n 2) (insert (rfa n 3) S') := by
    simp only [Finset.mem_insert, Fin.ext_iff, v1, v2, v3, not_or]
    exact ⟨by omega, by omega, fun h => by have := hS' _ h; omega⟩
  have m0 : rfa n 0 ∉ insert (rfa n 1) (insert (rfa n 2) (insert (rfa n 3) S')) := by
    simp only [Finset.mem_insert, Fin.ext_iff, v0, v1, v2, v3, not_or]
    exact ⟨by omega, by omega, by omega, fun h => by have := hS' _ h; omega⟩
  rw [hSeq, SparseCore.bigSep_insert' m0, SparseCore.bigSep_insert' m1, SparseCore.bigSep_insert' m2, SparseCore.bigSep_insert' m3]

/-- Before the trip that reads rows n..n+3: the packed rows not in flight; without the four fetched next;
    the counts rows below m, already final; the counts rows from n on, not yet touched. -/
def XS (n : Nat) : Finset (Fin 32) := Finset.univ.filter fun ρ => ρ.val < n ∨ n + 4 ≤ ρ.val
def XR (n : Nat) : Finset (Fin 32) := Finset.univ.filter fun ρ => ρ.val < n ∨ n + 8 ≤ ρ.val
def OD (m : Nat) : Finset (Fin 32) := Finset.univ.filter fun ρ => ρ.val < m
def OH (n : Nat) : Finset (Fin 32) := Finset.univ.filter fun ρ => n ≤ ρ.val

omit [FloatOps F] in
theorem XS_take (Φ : Fin 32 → sProp 𝕄) (n n' : Nat) (hn' : n' = n + 4) (h : n + 7 < 32) :
    bigSep (XS n) Φ = iprop(Φ (rfa n' 0) ∗ Φ (rfa n' 1) ∗ Φ (rfa n' 2) ∗ Φ (rfa n' 3) ∗ bigSep (XR n) Φ) :=
  bigSep_four Φ (XS n) (XR n) n' (by omega)
    (fun ρ => by simp only [XS, XR, Finset.mem_filter, Finset.mem_univ, true_and]; omega)
    (fun ρ hρ => by simp only [XR, Finset.mem_filter, Finset.mem_univ, true_and] at hρ; omega)
omit [FloatOps F] in
theorem XS_give (Φ : Fin 32 → sProp 𝕄) (n n' : Nat) (hn' : n' = n + 4) (h : n + 3 < 32) :
    bigSep (XS n') Φ = iprop(Φ (rfa n 0) ∗ Φ (rfa n 1) ∗ Φ (rfa n 2) ∗ Φ (rfa n 3) ∗ bigSep (XR n) Φ) :=
  bigSep_four Φ (XS n') (XR n) n (by omega)
    (fun ρ => by simp only [XS, XR, Finset.mem_filter, Finset.mem_univ, true_and]; omega)
    (fun ρ hρ => by simp only [XR, Finset.mem_filter, Finset.mem_univ, true_and] at hρ; omega)
omit [FloatOps F] in
theorem XS_all (Φ : Fin 32 → sProp 𝕄) (n : Nat) (h : n + 4 = 32) :
    bigSep Finset.univ Φ = iprop(Φ (rfa n 0) ∗ Φ (rfa n 1) ∗ Φ (rfa n 2) ∗ Φ (rfa n 3) ∗ bigSep (XS n) Φ) :=
  bigSep_four Φ Finset.univ (XS n) n (by omega)
    (fun ρ => by have := ρ.isLt; simp only [XS, Finset.mem_filter, Finset.mem_univ, true_and, true_iff]; omega)
    (fun ρ hρ => by have := ρ.isLt; simp only [XS, Finset.mem_filter, Finset.mem_univ, true_and] at hρ; omega)
omit [FloatOps F] in
theorem XS_init (Φ : Fin 32 → sProp 𝕄) (n : Nat) (h : n = 0) :
    bigSep Finset.univ Φ = iprop(Φ (rfa n 0) ∗ Φ (rfa n 1) ∗ Φ (rfa n 2) ∗ Φ (rfa n 3) ∗ bigSep (XS n) Φ) :=
  bigSep_four Φ Finset.univ (XS n) n (by omega)
    (fun ρ => by have := ρ.isLt; simp only [XS, Finset.mem_filter, Finset.mem_univ, true_and, true_iff]; omega)
    (fun ρ hρ => by have := ρ.isLt; simp only [XS, Finset.mem_filter, Finset.mem_univ, true_and] at hρ; omega)
omit [FloatOps F] in
theorem OH_take (Φ : Fin 32 → sProp 𝕄) (n n' : Nat) (hn' : n' = n + 4) (h : n + 3 < 32) :
    bigSep (OH n) Φ = iprop(Φ (rfa n 0) ∗ Φ (rfa n 1) ∗ Φ (rfa n 2) ∗ Φ (rfa n 3) ∗ bigSep (OH n') Φ) :=
  bigSep_four Φ (OH n) (OH n') n (by omega)
    (fun ρ => by simp only [OH, Finset.mem_filter, Finset.mem_univ, true_and]; omega)
    (fun ρ hρ => by simp only [OH, Finset.mem_filter, Finset.mem_univ, true_and] at hρ; omega)
omit [FloatOps F] in
theorem OD_give (Φ : Fin 32 → sProp 𝕄) (m n : Nat) (hm : n = m + 4) (h : m + 3 < 32) :
    bigSep (OD n) Φ = iprop(Φ (rfa m 0) ∗ Φ (rfa m 1) ∗ Φ (rfa m 2) ∗ Φ (rfa m 3) ∗ bigSep (OD m) Φ) :=
  bigSep_four Φ (OD n) (OD m) m (by omega)
    (fun ρ => by simp only [OD, Finset.mem_filter, Finset.mem_univ, true_and]; omega)
    (fun ρ hρ => by simp only [OD, Finset.mem_filter, Finset.mem_univ, true_and] at hρ; omega)
omit [FloatOps F] in
theorem OH_zero : OH 0 = Finset.univ := by ext ρ; simp [OH]
omit [FloatOps F] in
theorem OD_zero : OD 0 = ∅ := by ext ρ; simp [OD]
omit [FloatOps F] in
theorem OD_all : OD 32 = Finset.univ := by ext ρ; simp [OD]
omit [FloatOps F] in
theorem OD_univ (Φ : Fin 32 → sProp 𝕄) : bigSep (OD 32) Φ = bigSep Finset.univ Φ := by rw [OD_all]
omit [FloatOps F] in
theorem OH_univ (Φ : Fin 32 → sProp 𝕄) : bigSep (OH 0) Φ = bigSep Finset.univ Φ := by rw [OH_zero]
omit [FloatOps F] in
theorem OD_emp (Φ : Fin 32 → sProp 𝕄) (n : Nat) (h : n = 0) : bigSep (OD n) Φ = (iprop(emp) : sProp 𝕄) := by
  subst h; rw [OD_zero]; exact bigSep_empty
omit [FloatOps F] in
theorem OH_emp (Φ : Fin 32 → sProp 𝕄) (n : Nat) (h : 32 ≤ n) : bigSep (OH n) Φ = (iprop(emp) : sProp 𝕄) := by
  have e : OH n = ∅ := by
    ext ρ; have := ρ.isLt
    simp only [OH, Finset.mem_filter, Finset.mem_univ, true_and, Finset.notMem_empty, iff_false]; omega
  rw [e]; exact bigSep_empty
end Sets

/-! ## The state of the tile before each trip -/
section Inv
variable (d : Dev nD) (L : grid0.Coords) (XPd : Buf (Elt F) ((a2).view.loc (thr d L))) (C0 : Buf (Elt F) ((a3).view.loc (thr d L)))
  (O : CellTallies nD τ sig (HIx 1)) (W : Waits sig (HIx 1))

/-- The counts array at the histograms of the packed rows. -/
abbrev CNT : Buf (Elt F) ((a3).view.loc (thr d L)) := Cert.Proof.ScSpec.counts (F := F) XPd

/-- A packed row of the tile held by its own elements; a counts row of the tile held at given contents;
    a packed row on its way into an index scratch; a counts row on its way out of a histogram scratch. -/
abbrev xOwn (ρ : Fin 32) : sProp 𝕄 := own d L (xRowM L ρ) XPd
abbrev oOwn (C : Buf (Elt F) ((a3).view.loc (thr d L))) (ρ : Fin 32) : sProp 𝕄 := own d L (oRowM L ρ) C
abbrev xIn (sem : DmaSems sig S_) (xm : Memref sig .scVector .vmem S1344 .i32) (X : Buf (Elt F) (xm.view.loc (thr d L))) (ρ : Fin 32) : sProp 𝕄 :=
  inFlight d L sem xm X (xRowM L ρ) XPd
abbrev oOut (sem : DmaSems sig S_) (hm : Memref sig .scVector .vmem S2800 .f32) (CO : Buf (Elt F) ((a3).view.loc (thr d L)))
    (HC : Buf (Elt F) (hm.view.loc (thr d L))) (ρ : Fin 32) : sProp 𝕄 :=
  outFlight d L sem hm (oRowM L ρ) CO HC

/-- What an index scratch reads is packed, and is packed row ρ of the tile. -/
def XOk (Xr : IVec S1344 32) (ρ : Fin 32) : Prop :=
  RowPacked Xr ∧ Xr = (xRowM L ρ).view.read (Elt F) XPd
/-- Contents of the counts array that are final on row ρ of the tile. -/
def COk (CO : Buf (Elt F) ((a3).view.loc (thr d L))) (ρ : Fin 32) : Prop :=
  ∀ j ∈ (oRowM L ρ).view.set, CO j = CNT d L XPd j

abbrev xHeld (S : Finset (Fin 32)) : sProp 𝕄 := bigSep S fun ρ => xOwn d L XPd ρ
abbrev oDone (S : Finset (Fin 32)) : sProp 𝕄 := bigSep S fun ρ => oOwn d L (CNT d L XPd) ρ
abbrev oHeld (S : Finset (Fin 32)) : sProp 𝕄 := bigSep S fun ρ => oOwn d L C0 ρ
abbrev owesW : sProp 𝕄 := iprop(∃ W', ⌜∀ p ∈ W', p ∈ W ∨ p.2 = none⌝ ∗ owes (thr d L) O W')

/-- Before the first trip: rows n..n+3 (n = 0) on their way in, the histogram scratches and their semaphores free. -/
def InvFirst (n : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd (XS n) ∗ oHeld d L C0 (OH n)
    ∗ xIn d L XPd cc0_scratch8 x0 X0 (rfa n 0) ∗ xIn d L XPd cc0_scratch9 x1 X1 (rfa n 1) ∗ xIn d L XPd cc0_scratch10 x2 X2 (rfa n 2) ∗ xIn d L XPd cc0_scratch11 x3 X3 (rfa n 3)
    ∗ ((h0).view.loc (thr d L) ↦{fullShare} HC0) ∗ ((h1).view.loc (thr d L) ↦{fullShare} HC1) ∗ ((h2).view.loc (thr d L) ↦{fullShare} HC2) ∗ ((h3).view.loc (thr d L) ↦{fullShare} HC3)
    ∗ semVal ((thr d L), SemLoc.dma cc0_scratch12.sem) 0 ∗ semVal ((thr d L), SemLoc.dma cc0_scratch13.sem) 0 ∗ semVal ((thr d L), SemLoc.dma cc0_scratch14.sem) 0 ∗ semVal ((thr d L), SemLoc.dma cc0_scratch15.sem) 0
    ∗ owesW d L O W
    ∗ ⌜XOk d L XPd ((x0).view.read (Elt F) X0) (rfa n 0) ∧ XOk d L XPd ((x1).view.read (Elt F) X1) (rfa n 1) ∧ XOk d L XPd ((x2).view.read (Elt F) X2) (rfa n 2) ∧ XOk d L XPd ((x3).view.read (Elt F) X3) (rfa n 3)⌝)

/-- Before a later trip: rows n..n+3 on their way in, the counts rows m..m+3 (m = n - 4) on their way out. -/
def InvMid (n m : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (CO0 CO1 CO2 CO3 : Buf (Elt F) ((a3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd (XS n) ∗ oDone d L XPd (OD m) ∗ oHeld d L C0 (OH n)
    ∗ xIn d L XPd cc0_scratch8 x0 X0 (rfa n 0) ∗ xIn d L XPd cc0_scratch9 x1 X1 (rfa n 1) ∗ xIn d L XPd cc0_scratch10 x2 X2 (rfa n 2) ∗ xIn d L XPd cc0_scratch11 x3 X3 (rfa n 3)
    ∗ oOut d L cc0_scratch12 h0 CO0 HC0 (rfa m 0) ∗ oOut d L cc0_scratch13 h1 CO1 HC1 (rfa m 1) ∗ oOut d L cc0_scratch14 h2 CO2 HC2 (rfa m 2) ∗ oOut d L cc0_scratch15 h3 CO3 HC3 (rfa m 3)
    ∗ ((h0).view.loc (thr d L) ↦[Finset.univ \ (hsOf h0).view.set]{fullShare} HC0) ∗ ((h1).view.loc (thr d L) ↦[Finset.univ \ (hsOf h1).view.set]{fullShare} HC1) ∗ ((h2).view.loc (thr d L) ↦[Finset.univ \ (hsOf h2).view.set]{fullShare} HC2) ∗ ((h3).view.loc (thr d L) ↦[Finset.univ \ (hsOf h3).view.set]{fullShare} HC3)
    ∗ owesW d L O W
    ∗ ⌜XOk d L XPd ((x0).view.read (Elt F) X0) (rfa n 0) ∧ XOk d L XPd ((x1).view.read (Elt F) X1) (rfa n 1) ∧ XOk d L XPd ((x2).view.read (Elt F) X2) (rfa n 2) ∧ XOk d L XPd ((x3).view.read (Elt F) X3) (rfa n 3) ∧ COk d L XPd CO0 (rfa m 0) ∧ COk d L XPd CO1 (rfa m 1) ∧ COk d L XPd CO2 (rfa m 2) ∧ COk d L XPd CO3 (rfa m 3)⌝)

/-- After the last trip: every packed row back, the index scratches and their semaphores free, rows m..m+3 (m = 28) on their way out. -/
def InvLast (m : Nat) : sProp 𝕄 :=
  iprop(∃ (X0 : Buf (Elt F) ((x0).view.loc (thr d L))) (X1 : Buf (Elt F) ((x1).view.loc (thr d L))) (X2 : Buf (Elt F) ((x2).view.loc (thr d L))) (X3 : Buf (Elt F) ((x3).view.loc (thr d L))) (CO0 CO1 CO2 CO3 : Buf (Elt F) ((a3).view.loc (thr d L))) (HC0 : Buf (Elt F) ((h0).view.loc (thr d L))) (HC1 : Buf (Elt F) ((h1).view.loc (thr d L))) (HC2 : Buf (Elt F) ((h2).view.loc (thr d L))) (HC3 : Buf (Elt F) ((h3).view.loc (thr d L))),
    Transfers.MayWaits (thr d L) (none : HIx 1) O
    ∗ xHeld d L XPd Finset.univ ∗ oDone d L XPd (OD m)
    ∗ ((x0).view.loc (thr d L) ↦{fullShare} X0) ∗ semVal ((thr d L), SemLoc.dma cc0_scratch8.sem) 0 ∗ ((x1).view.loc (thr d L) ↦{fullShare} X1) ∗ semVal ((thr d L), SemLoc.dma cc0_scratch9.sem) 0 ∗ ((x2).view.loc (thr d L) ↦{fullShare} X2) ∗ semVal ((thr d L), SemLoc.dma cc0_scratch10.sem) 0 ∗ ((x3).view.loc (thr d L) ↦{fullShare} X3) ∗ semVal ((thr d L), SemLoc.dma cc0_scratch11.sem) 0
    ∗ oOut d L cc0_scratch12 h0 CO0 HC0 (rfa m 0) ∗ oOut d L cc0_scratch13 h1 CO1 HC1 (rfa m 1) ∗ oOut d L cc0_scratch14 h2 CO2 HC2 (rfa m 2) ∗ oOut d L cc0_scratch15 h3 CO3 HC3 (rfa m 3)
    ∗ ((h0).view.loc (thr d L) ↦[Finset.univ \ (hsOf h0).view.set]{fullShare} HC0) ∗ ((h1).view.loc (thr d L) ↦[Finset.univ \ (hsOf h1).view.set]{fullShare} HC1) ∗ ((h2).view.loc (thr d L) ↦[Finset.univ \ (hsOf h2).view.set]{fullShare} HC2) ∗ ((h3).view.loc (thr d L) ↦[Finset.univ \ (hsOf h3).view.set]{fullShare} HC3)
    ∗ owesW d L O W
    ∗ ⌜COk d L XPd CO0 (rfa m 0) ∧ COk d L XPd CO1 (rfa m 1) ∧ COk d L XPd CO2 (rfa m 2) ∧ COk d L XPd CO3 (rfa m 3)⌝)

/-- The loop's invariant. -/
def Inv (k : Nat) (_ : Unit) : sProp 𝕄 :=
  if k = 0 then InvFirst d L XPd C0 O W 0 else if k ≤ 7 then InvMid d L XPd C0 O W (4 * k) (4 * (k - 1)) else InvLast d L XPd O W 28

theorem Inv_zero (u : Unit) : Inv d L XPd C0 O W 0 u = InvFirst d L XPd C0 O W 0 := if_pos rfl
theorem Inv_mid (k n m : Nat) (u : Unit) (hk1 : 1 ≤ k) (h7 : k ≤ 7) (hn : n = 4 * k) (hm : n = m + 4) :
    Inv d L XPd C0 O W k u = InvMid d L XPd C0 O W n m := by
  unfold Inv; rw [if_neg (by omega), if_pos h7]
  have e1 : 4 * k = n := hn.symm
  have e2 : 4 * (k - 1) = m := by omega
  rw [e1, e2]
theorem Inv_last (k : Nat) (u : Unit) (h : 8 ≤ k) : Inv d L XPd C0 O W k u = InvLast d L XPd O W 28 := by
  unfold Inv; rw [if_neg (by omega), if_neg (by omega)]
end Inv

/-! ## A packed row as the kernel's slice reads it; the bridge to the rows' other spelling -/
section XRead
omit [FloatOps F] in
theorem xRowM_eq (L : grid0.Coords) (ρ : Fin 32) : xRowM L ρ = xRowN L ρ := rfl
omit [FloatOps F] in
theorem oRowM_eq (L : grid0.Coords) (ρ : Fin 32) : oRowM L ρ = oRowN L ρ := rfl
omit [FloatOps F] in
theorem bRow_eq (L : grid0.Coords) : bRow L = baseRow L := rfl

omit [FloatOps F] in
/-- Entry q of local row ρ of the packed array is the array's entry (B + ρ, q). -/
theorem emb_xRowN (L : grid0.Coords) (ρ : Fin 32) (q : Fin 1344) :
    (xRowN L ρ).view.emb (ix1 q) = ix2 (⟨baseRow L + ρ.val, baseRow_add_lt L ρ⟩ : Fin 1024) q := by
  show (((View.whole (main_v8_scv : Ref sig .scVector)).slice
      (Rect.unit (s := S1024x1344) ![baseRow L + ρ.val, 0] S1x1344.size (xRow_inb _ (baseRow_add_lt L ρ)))).reshape S1344
        squeezes_S1x1344_S1344.numel_eq).emb (ix1 q) = _
  rw [View.emb_reshape, View.emb_slice, View.emb_whole]
  have hre : Shape.reshapeEquiv squeezes_S1x1344_S1344.numel_eq (ix1 q) = (ix2 (0 : Fin 1) q : S1x1344.Idx) :=
    Shape.reshapeEquiv_eq_of_rowMajor _ (by
      rw [Shape.rowMajor_val_two, Shape.rowMajor_val_one]
      show 0 * 1344 + q.val = q.val
      omega)
  show (Rect.unit (s := S1024x1344) ![baseRow L + ρ.val, 0] S1x1344.size _).emb
      (Shape.reshapeEquiv squeezes_S1x1344_S1344.numel_eq (ix1 q)) = _
  rw [hre]
  funext a
  match a with
  | ⟨0, _⟩ => exact Fin.ext (by show baseRow L + ρ.val + 1 * 0 = baseRow L + ρ.val; omega)
  | ⟨1, _⟩ => exact Fin.ext (by show 0 + 1 * q.val = q.val; omega)

omit [FloatOps F] in
/-- Local row ρ of the packed array, read through the kernel's slice, is row B + ρ of the array. -/
theorem xRowN_read (d : Dev nD) (L : grid0.Coords) (ρ : Fin 32) (XPd : Buf (Elt F) ((a2).view.loc (thr d L))) :
    (xRowN L ρ).view.read (Elt F) XPd = Cert.Proof.ScSpec.rowOf XPd (⟨baseRow L + ρ.val, baseRow_add_lt L ρ⟩ : Fin 1024) := by
  funext q
  obtain ⟨q0, rfl⟩ : ∃ q0 : Fin 1344, q = ix1 q0 := ⟨q 0, ValueIdx.eq_ix1 q⟩
  rw [View.read_apply, emb_xRowN, cast_eq]
  rfl
end XRead

/-! ## What lands in an index scratch, and what a copy-out leaves in a counts row -/
section Facts
variable (d : Dev nD) (L : grid0.Coords) (XPd : Buf (Elt F) ((a2).view.loc (thr d L)))

omit [FloatOps F] in
/-- A row of a packed array is packed. -/
theorem rowPacked_of (hpk : Cert.Proof.ScSpec.Packed XPd) (off : Fin 2 → Nat) (h : ∀ a, off a + S1x1344.size a ≤ S1024x1344.size a) :
    RowPacked ((xRowAt off h).view.read (Elt F) XPd) := fun q => by
  rw [View.read_apply, cast_eq]
  exact hpk _

omit [FloatOps F] in
/-- A packed row landed in index scratch 0: the scratch reads that row. -/
theorem xok_new0 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x0).view.loc (thr d L))) :
    XOk d L XPd ((x0).view.read (Elt F) (View.write (Elt F) (x0).view X (ReadAs.same.apply ((xRowAt off h).view.read (Elt F) XPd)) Finset.univ)) ρ := by
  subst e
  have hw : (x0).view.read (Elt F) (View.write (Elt F) (x0).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 0, at the histogram of packed row ρ, copied out to counts row ρ:
    the counts array is final on that row. -/
theorem written_ok0 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x0).view.loc (thr d L)))
    (hX : XOk d L XPd ((x0).view.read (Elt F) X) ρ) :
    COk d L XPd ((oRowAt off h).view.writes (Elt F) C [⟨Rect.whole S2688, ReadAs.same.apply ((hsOf h0).view.read (Elt F) (histOf0 d L X))⟩]) ρ := by
  subst e
  have hH : (h0).view.read (Elt F) (histOf0 d L X)
      = Cert.Proof.ScSpec.histRow (F := F) (Cert.Proof.ScSpec.rowOf XPd (⟨baseRow L + ρ.val, baseRow_add_lt L ρ⟩ : Fin 1024)) := by
    show Cert.Proof.ScSpec.histRow (F := F) ((x0).view.read (Elt F) X) = _
    rw [hX.2]
    exact congrArg (Cert.Proof.ScSpec.histRow (F := F)) (xRowN_read d L ρ XPd)
  exact oRowN_written_counts d L ρ XPd C h0 (histOf0 d L X) hH
omit [FloatOps F] in
/-- A packed row landed in index scratch 1: the scratch reads that row. -/
theorem xok_new1 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x1).view.loc (thr d L))) :
    XOk d L XPd ((x1).view.read (Elt F) (View.write (Elt F) (x1).view X (ReadAs.same.apply ((xRowAt off h).view.read (Elt F) XPd)) Finset.univ)) ρ := by
  subst e
  have hw : (x1).view.read (Elt F) (View.write (Elt F) (x1).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 1, at the histogram of packed row ρ, copied out to counts row ρ:
    the counts array is final on that row. -/
theorem written_ok1 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x1).view.loc (thr d L)))
    (hX : XOk d L XPd ((x1).view.read (Elt F) X) ρ) :
    COk d L XPd ((oRowAt off h).view.writes (Elt F) C [⟨Rect.whole S2688, ReadAs.same.apply ((hsOf h1).view.read (Elt F) (histOf1 d L X))⟩]) ρ := by
  subst e
  have hH : (h1).view.read (Elt F) (histOf1 d L X)
      = Cert.Proof.ScSpec.histRow (F := F) (Cert.Proof.ScSpec.rowOf XPd (⟨baseRow L + ρ.val, baseRow_add_lt L ρ⟩ : Fin 1024)) := by
    show Cert.Proof.ScSpec.histRow (F := F) ((x1).view.read (Elt F) X) = _
    rw [hX.2]
    exact congrArg (Cert.Proof.ScSpec.histRow (F := F)) (xRowN_read d L ρ XPd)
  exact oRowN_written_counts d L ρ XPd C h1 (histOf1 d L X) hH
omit [FloatOps F] in
/-- A packed row landed in index scratch 2: the scratch reads that row. -/
theorem xok_new2 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x2).view.loc (thr d L))) :
    XOk d L XPd ((x2).view.read (Elt F) (View.write (Elt F) (x2).view X (ReadAs.same.apply ((xRowAt off h).view.read (Elt F) XPd)) Finset.univ)) ρ := by
  subst e
  have hw : (x2).view.read (Elt F) (View.write (Elt F) (x2).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 2, at the histogram of packed row ρ, copied out to counts row ρ:
    the counts array is final on that row. -/
theorem written_ok2 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x2).view.loc (thr d L)))
    (hX : XOk d L XPd ((x2).view.read (Elt F) X) ρ) :
    COk d L XPd ((oRowAt off h).view.writes (Elt F) C [⟨Rect.whole S2688, ReadAs.same.apply ((hsOf h2).view.read (Elt F) (histOf2 d L X))⟩]) ρ := by
  subst e
  have hH : (h2).view.read (Elt F) (histOf2 d L X)
      = Cert.Proof.ScSpec.histRow (F := F) (Cert.Proof.ScSpec.rowOf XPd (⟨baseRow L + ρ.val, baseRow_add_lt L ρ⟩ : Fin 1024)) := by
    show Cert.Proof.ScSpec.histRow (F := F) ((x2).view.read (Elt F) X) = _
    rw [hX.2]
    exact congrArg (Cert.Proof.ScSpec.histRow (F := F)) (xRowN_read d L ρ XPd)
  exact oRowN_written_counts d L ρ XPd C h2 (histOf2 d L X) hH
omit [FloatOps F] in
/-- A packed row landed in index scratch 3: the scratch reads that row. -/
theorem xok_new3 (hpk : Cert.Proof.ScSpec.Packed XPd) (off : Fin 2 → Nat) (h : ∀ a, off a + S1x1344.size a ≤ S1024x1344.size a) (ρ : Fin 32)
    (e : off = ![bRow L + ρ.val, 0]) (X : Buf (Elt F) ((x3).view.loc (thr d L))) :
    XOk d L XPd ((x3).view.read (Elt F) (View.write (Elt F) (x3).view X (ReadAs.same.apply ((xRowAt off h).view.read (Elt F) XPd)) Finset.univ)) ρ := by
  subst e
  have hw : (x3).view.read (Elt F) (View.write (Elt F) (x3).view X (ReadAs.same.apply ((xRowAt ![bRow L + ρ.val, 0] h).view.read (Elt F) XPd)) Finset.univ)
      = (xRowAt ![bRow L + ρ.val, 0] h).view.read (Elt F) XPd := View.write_whole_univ _ _ _
  rw [hw]
  exact ⟨rowPacked_of d L XPd hpk _ _, rfl⟩

/-- The first 2688 bins of histogram scratch 3, at the histogram of packed row ρ, copied out to counts row ρ:
    the counts array is final on that row. -/
theorem written_ok3 (off : Fin 2 → Nat) (h : ∀ a, off a + S1x2688.size a ≤ S1024x2688.size a) (ρ : Fin 32)
    (e : off = ![bRow L + ρ.val, 0]) (C : Buf (Elt F) ((a3).view.loc (thr d L))) (X : Buf (Elt F) ((x3).view.loc (thr d L)))
    (hX : XOk d L XPd ((x3).view.read (Elt F) X) ρ) :
    COk d L XPd ((oRowAt off h).view.writes (Elt F) C [⟨Rect.whole S2688, ReadAs.same.apply ((hsOf h3).view.read (Elt F) (histOf3 d L X))⟩]) ρ := by
  subst e
  have hH : (h3).view.read (Elt F) (histOf3 d L X)
      = Cert.Proof.ScSpec.histRow (F := F) (Cert.Proof.ScSpec.rowOf XPd (⟨baseRow L + ρ.val, baseRow_add_lt L ρ⟩ : Fin 1024)) := by
    show Cert.Proof.ScSpec.histRow (F := F) ((x3).view.read (Elt F) X) = _
    rw [hX.2]
    exact congrArg (Cert.Proof.ScSpec.histRow (F := F)) (xRowN_read d L ρ XPd)
  exact oRowN_written_counts d L ρ XPd C h3 (histOf3 d L X) hH
end Facts

/-! ## One trip re-establishes the state -/
section Steps
variable (d : Dev nD) (L : grid0.Coords) (XPd : Buf (Elt F) ((a2).view.loc (thr d L))) (C0 : Buf (Elt F) ((a3).view.loc (thr d L)))
  (O : CellTallies nD τ sig (HIx 1)) (W : Waits sig (HIx 1))

omit [FloatOps F] in
theorem owes_trans {W' : Waits sig (HIx 1)} (hW' : ∀ p ∈ W', p ∈ W ∨ p.2 = none) :
    (owesW d L O W' : sProp 𝕄) ⊢ owesW d L O W := by
  iintro ⟨%W'', %hW'', HO⟩
  iexists W''; isplitr
  · ipureintro; intro p hp
    rcases hW'' p hp with h | h
    · exact hW' p h
    · exact .inr h
  · iexact HO

/-- A trip in the middle of the run. -/
theorem step_mid (hpk : Cert.Proof.ScSpec.Packed XPd) (hmid : TripMidStmt (F := F)) (k : Fin k0_t1_loop.trips) (n n' m : Nat)
    (hn : n = 4 * k.val) (hn' : n' = n + 4) (hm : n = m + 4) (h6 : k.val ≤ 6) (v2 : BitVec 32) :
    InvMid d L XPd C0 O W n m ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvMid d L XPd C0 O W n' n) := by
  have hk1 : 1 ≤ k.val := by omega
  obtain ⟨hc1, hc2, hc3, hc4⟩ := conds_all k
  replace hc1 := hc1.mpr hk1; replace hc2 := hc2.mpr h6; replace hc3 := hc3.mpr hk1; replace hc4 := hc4.mpr h6
  unfold InvMid
  iintro ⟨%X0, %X1, %X2, %X3, %CO0, %CO1, %CO2, %CO3, %HC0, %HC1, %HC2, %HC3, Hmw, HXS, HOD, HOH, Hi0, Hi1, Hi2, Hi3, Ho0, Ho1, Ho2, Ho3, Hh0, Hh1, Hh2, Hh3, ⟨%W', %hW', HO⟩, %hok⟩
  obtain ⟨hx0, hx1, hx2, hx3, ho0, ho1, ho2, ho3⟩ := hok
  ihave HXS := (Entails.of_eq (XS_take (fun ρ => xOwn d L XPd ρ) n n' hn' (by omega))) $$ HXS
  icases HXS with ⟨Hp0, Hp1, Hp2, Hp3, HXR⟩
  ihave HOH := (Entails.of_eq (OH_take (fun ρ => oOwn d L C0 ρ) n n' hn' (by omega))) $$ HOH
  icases HOH with ⟨Hq0, Hq1, Hq2, Hq3, HOH⟩
  ihave Hp0 := (Entails.of_eq (own_x_congr d L (offP_0 L k n' (by omega) h6).symm (xrow_inb L _) (k0_off4_inb L k hc2 0) XPd)) $$ Hp0
  ihave Hp1 := (Entails.of_eq (own_x_congr d L (offP_1 L k n' (by omega) h6).symm (xrow_inb L _) (k0_off4_inb L k hc2 1) XPd)) $$ Hp1
  ihave Hp2 := (Entails.of_eq (own_x_congr d L (offP_2 L k n' (by omega) h6).symm (xrow_inb L _) (k0_off8_inb L k hc4 0) XPd)) $$ Hp2
  ihave Hp3 := (Entails.of_eq (own_x_congr d L (offP_3 L k n' (by omega) h6).symm (xrow_inb L _) (k0_off8_inb L k hc4 1) XPd)) $$ Hp3
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hmid d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa m 0)) (oRowM L (rfa m 1)) (oRowM L (rfa m 2)) (oRowM L (rfa m 3)) CO0 CO1 CO2 CO3 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [Hp0]; · iexact Hp0
  isplitl [Hp1]; · iexact Hp1
  isplitl [Hp2]; · iexact Hp2
  isplitl [Hp3]; · iexact Hp3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hd0, Hd1, Hd2, Hd3, Hi0, Hi1, Hi2, Hi3, Ho0, Hh0, Ho1, Hh1, Ho2, Hh2, Ho3, Hh3, HOw⟩
  ihave Hd0 := (Entails.of_eq (pointsTo_congr fun j hj => ho0 j hj)) $$ Hd0
  ihave Hd1 := (Entails.of_eq (pointsTo_congr fun j hj => ho1 j hj)) $$ Hd1
  ihave Hd2 := (Entails.of_eq (pointsTo_congr fun j hj => ho2 j hj)) $$ Hd2
  ihave Hd3 := (Entails.of_eq (pointsTo_congr fun j hj => ho3 j hj)) $$ Hd3
  ihave Hi0 := (Entails.of_eq (inFlight_congr d L (offP_0 L k n' (by omega) h6) (k0_off4_inb L k hc2 0) (xrow_inb L _) cc0_scratch8 x0 _ XPd)) $$ Hi0
  ihave Hi1 := (Entails.of_eq (inFlight_congr d L (offP_1 L k n' (by omega) h6) (k0_off4_inb L k hc2 1) (xrow_inb L _) cc0_scratch9 x1 _ XPd)) $$ Hi1
  ihave Hi2 := (Entails.of_eq (inFlight_congr d L (offP_2 L k n' (by omega) h6) (k0_off8_inb L k hc4 0) (xrow_inb L _) cc0_scratch10 x2 _ XPd)) $$ Hi2
  ihave Hi3 := (Entails.of_eq (inFlight_congr d L (offP_3 L k n' (by omega) h6) (k0_off8_inb L k hc4 1) (xrow_inb L _) cc0_scratch11 x3 _ XPd)) $$ Hi3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  iexists _
  iexists _
  iexists _
  iexists _
  iexists _
  iexists _
  iexists _
  iexists _
  iexists _
  iexists _
  iexists _
  iexists _
  isplitl [Hmw]; · iexact Hmw
  isplitl [Hr0 Hr1 Hr2 Hr3 HXR]
  · iapply (Entails.of_eq (XS_give (fun ρ => xOwn d L XPd ρ) n n' hn' (by omega)).symm)
    isplitl [Hr0]; · iexact Hr0
    isplitl [Hr1]; · iexact Hr1
    isplitl [Hr2]; · iexact Hr2
    isplitl [Hr3]; · iexact Hr3
    iexact HXR
  isplitl [Hd0 Hd1 Hd2 Hd3 HOD]
  · iapply (Entails.of_eq (OD_give (fun ρ => oOwn d L (CNT d L XPd) ρ) m n hm (by omega)).symm)
    isplitl [Hd0]; · iexact Hd0
    isplitl [Hd1]; · iexact Hd1
    isplitl [Hd2]; · iexact Hd2
    isplitl [Hd3]; · iexact Hd3
    iexact HOD
  isplitl [HOH]; · iexact HOH
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨xok_new0 d L XPd hpk _ (k0_off4_inb L k hc2 0) _ (offP_0 L k n' (by omega) h6) X0,
    xok_new1 d L XPd hpk _ (k0_off4_inb L k hc2 1) _ (offP_1 L k n' (by omega) h6) X1,
    xok_new2 d L XPd hpk _ (k0_off8_inb L k hc4 0) _ (offP_2 L k n' (by omega) h6) X2,
    xok_new3 d L XPd hpk _ (k0_off8_inb L k hc4 1) _ (offP_3 L k n' (by omega) h6) X3,
    written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩

/-- The first trip. -/
theorem step_first (hpk : Cert.Proof.ScSpec.Packed XPd) (hfirst : TripFirstStmt (F := F)) (k : Fin k0_t1_loop.trips) (n n' : Nat)
    (hn : n = 4 * k.val) (hn' : n' = n + 4) (hk0 : k.val = 0) (v2 : BitVec 32) :
    InvFirst d L XPd C0 O W n ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvMid d L XPd C0 O W n' n) := by
  have h6 : k.val ≤ 6 := by omega
  obtain ⟨hc1, hc2, hc3, hc4⟩ := conds_all k
  replace hc1 : ¬ k0_cond1 k = 1#1 := fun h => by have := hc1.mp h; omega
  replace hc3 : ¬ k0_cond3 k = 1#1 := fun h => by have := hc3.mp h; omega
  replace hc2 := hc2.mpr h6; replace hc4 := hc4.mpr h6
  unfold InvFirst
  iintro ⟨%X0, %X1, %X2, %X3, %HC0, %HC1, %HC2, %HC3, Hmw, HXS, HOH, Hi0, Hi1, Hi2, Hi3, Hh0, Hh1, Hh2, Hh3, Hs0, Hs1, Hs2, Hs3, ⟨%W', %hW', HO⟩, %hok⟩
  obtain ⟨hx0, hx1, hx2, hx3⟩ := hok
  ihave HXS := (Entails.of_eq (XS_take (fun ρ => xOwn d L XPd ρ) n n' hn' (by omega))) $$ HXS
  icases HXS with ⟨Hp0, Hp1, Hp2, Hp3, HXR⟩
  ihave HOH := (Entails.of_eq (OH_take (fun ρ => oOwn d L C0 ρ) n n' hn' (by omega))) $$ HOH
  icases HOH with ⟨Hq0, Hq1, Hq2, Hq3, HOH⟩
  ihave Hp0 := (Entails.of_eq (own_x_congr d L (offP_0 L k n' (by omega) h6).symm (xrow_inb L _) (k0_off4_inb L k hc2 0) XPd)) $$ Hp0
  ihave Hp1 := (Entails.of_eq (own_x_congr d L (offP_1 L k n' (by omega) h6).symm (xrow_inb L _) (k0_off4_inb L k hc2 1) XPd)) $$ Hp1
  ihave Hp2 := (Entails.of_eq (own_x_congr d L (offP_2 L k n' (by omega) h6).symm (xrow_inb L _) (k0_off8_inb L k hc4 0) XPd)) $$ Hp2
  ihave Hp3 := (Entails.of_eq (own_x_congr d L (offP_3 L k n' (by omega) h6).symm (xrow_inb L _) (k0_off8_inb L k hc4 1) XPd)) $$ Hp3
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hfirst d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa n 0)) (oRowM L (rfa n 1)) (oRowM L (rfa n 2)) (oRowM L (rfa n 3)) C0 C0 C0 C0 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Hh0]; · iexact Hh0
  isplitl [Hh1]; · iexact Hh1
  isplitl [Hh2]; · iexact Hh2
  isplitl [Hh3]; · iexact Hh3
  isplitl [Hs0]; · iexact Hs0
  isplitl [Hs1]; · iexact Hs1
  isplitl [Hs2]; · iexact Hs2
  isplitl [Hs3]; · iexact Hs3
  isplitl [Hp0]; · iexact Hp0
  isplitl [Hp1]; · iexact Hp1
  isplitl [Hp2]; · iexact Hp2
  isplitl [Hp3]; · iexact Hp3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hi0, Hi1, Hi2, Hi3, Ho0, Hh0, Ho1, Hh1, Ho2, Hh2, Ho3, Hh3, HOw⟩
  ihave Hi0 := (Entails.of_eq (inFlight_congr d L (offP_0 L k n' (by omega) h6) (k0_off4_inb L k hc2 0) (xrow_inb L _) cc0_scratch8 x0 _ XPd)) $$ Hi0
  ihave Hi1 := (Entails.of_eq (inFlight_congr d L (offP_1 L k n' (by omega) h6) (k0_off4_inb L k hc2 1) (xrow_inb L _) cc0_scratch9 x1 _ XPd)) $$ Hi1
  ihave Hi2 := (Entails.of_eq (inFlight_congr d L (offP_2 L k n' (by omega) h6) (k0_off8_inb L k hc4 0) (xrow_inb L _) cc0_scratch10 x2 _ XPd)) $$ Hi2
  ihave Hi3 := (Entails.of_eq (inFlight_congr d L (offP_3 L k n' (by omega) h6) (k0_off8_inb L k hc4 1) (xrow_inb L _) cc0_scratch11 x3 _ XPd)) $$ Hi3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  unfold InvMid
  iexists _
  iexists _
  iexists _
  iexists _
  iexists _
  iexists _
  iexists _
  iexists _
  iexists _
  iexists _
  iexists _
  iexists _
  isplitl [Hmw]; · iexact Hmw
  isplitl [Hr0 Hr1 Hr2 Hr3 HXR]
  · iapply (Entails.of_eq (XS_give (fun ρ => xOwn d L XPd ρ) n n' hn' (by omega)).symm)
    isplitl [Hr0]; · iexact Hr0
    isplitl [Hr1]; · iexact Hr1
    isplitl [Hr2]; · iexact Hr2
    isplitl [Hr3]; · iexact Hr3
    iexact HXR
  isplitl []
  · iapply (Entails.of_eq (OD_emp (fun ρ => oOwn d L (CNT d L XPd) ρ) n (by omega)).symm); iempintro
  isplitl [HOH]; · iexact HOH
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨xok_new0 d L XPd hpk _ (k0_off4_inb L k hc2 0) _ (offP_0 L k n' (by omega) h6) X0,
    xok_new1 d L XPd hpk _ (k0_off4_inb L k hc2 1) _ (offP_1 L k n' (by omega) h6) X1,
    xok_new2 d L XPd hpk _ (k0_off8_inb L k hc4 0) _ (offP_2 L k n' (by omega) h6) X2,
    xok_new3 d L XPd hpk _ (k0_off8_inb L k hc4 1) _ (offP_3 L k n' (by omega) h6) X3,
    written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩

/-- The last trip. -/
theorem step_last (hlast : TripLastStmt (F := F)) (k : Fin k0_t1_loop.trips) (n m : Nat)
    (hn : n = 4 * k.val) (hm : n = m + 4) (hk7 : k.val = 7) (v2 : BitVec 32) :
    InvMid d L XPd C0 O W n m ⊢ wp frame (wpE (defs₀ (F := F)) 𝒱₀ (thr d L) none) Set.univ (k0_t1_body (F := F) L a2 (Memref.isWhole_whole _) a3 (Memref.isWhole_whole _) x0 (Memref.isWhole_whole _) x1 (Memref.isWhole_whole _) x2 (Memref.isWhole_whole _) x3 (Memref.isWhole_whole _) h0 (Memref.isWhole_whole _) h1 (Memref.isWhole_whole _) h2 (Memref.isWhole_whole _) h3 (Memref.isWhole_whole _) cc0_scratch8 cc0_scratch9 cc0_scratch10 cc0_scratch11 cc0_scratch12 cc0_scratch13 cc0_scratch14 cc0_scratch15 v2 k0_pay673 k0_pay674 0#32 1#32 k ()) (fun _ => InvLast d L XPd O W n) := by
  have hk1 : 1 ≤ k.val := by omega
  obtain ⟨hc1, hc2, hc3, hc4⟩ := conds_all k
  replace hc2 : ¬ k0_cond2 k = 1#1 := fun h => by have := hc2.mp h; omega
  replace hc4 : ¬ k0_cond4 k = 1#1 := fun h => by have := hc4.mp h; omega
  replace hc1 := hc1.mpr hk1; replace hc3 := hc3.mpr hk1
  unfold InvMid
  iintro ⟨%X0, %X1, %X2, %X3, %CO0, %CO1, %CO2, %CO3, %HC0, %HC1, %HC2, %HC3, Hmw, HXS, HOD, HOH, Hi0, Hi1, Hi2, Hi3, Ho0, Ho1, Ho2, Ho3, Hh0, Hh1, Hh2, Hh3, ⟨%W', %hW', HO⟩, %hok⟩
  obtain ⟨hx0, hx1, hx2, hx3, ho0, ho1, ho2, ho3⟩ := hok
  ihave HOH := (Entails.of_eq (OH_take (fun ρ => oOwn d L C0 ρ) n (n + 4) rfl (by omega))) $$ HOH
  icases HOH with ⟨Hq0, Hq1, Hq2, Hq3, HOH⟩
  ihave HOH := (Entails.of_eq (OH_emp (fun ρ => oOwn d L C0 ρ) (n + 4) (by omega))) $$ HOH
  icases HOH with -
  ihave Hq0 := (Entails.of_eq (own_o_congr d L (offO_0 L k n (by omega)).symm (orow_inb L _) (k0_off5_inb L k 0) C0)) $$ Hq0
  ihave Hq1 := (Entails.of_eq (own_o_congr d L (offO_1 L k n (by omega)).symm (orow_inb L _) (k0_off5_inb L k 1) C0)) $$ Hq1
  ihave Hq2 := (Entails.of_eq (own_o_congr d L (offO_2 L k n (by omega)).symm (orow_inb L _) (k0_off9_inb L k 0) C0)) $$ Hq2
  ihave Hq3 := (Entails.of_eq (own_o_congr d L (offO_3 L k n (by omega)).symm (orow_inb L _) (k0_off9_inb L k 1) C0)) $$ Hq3
  iapply (hlast d L O W' k hc1 hc2 hc3 hc4 XPd C0 C0 C0 C0 (xRowM L (rfa n 0)) (xRowM L (rfa n 1)) (xRowM L (rfa n 2)) (xRowM L (rfa n 3)) XPd XPd XPd XPd
    X0 X1 X2 X3 hx0.1 hx1.1 hx2.1 hx3.1 (oRowM L (rfa m 0)) (oRowM L (rfa m 1)) (oRowM L (rfa m 2)) (oRowM L (rfa m 3)) CO0 CO1 CO2 CO3 HC0 HC1 HC2 HC3 v2 _)
  isplitl [Hmw]; · iexact Hmw
  isplitl [Hi0]; · iexact Hi0
  isplitl [Hi1]; · iexact Hi1
  isplitl [Hi2]; · iexact Hi2
  isplitl [Hi3]; · iexact Hi3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [Hq0]; · iexact Hq0
  isplitl [Hq1]; · iexact Hq1
  isplitl [Hq2]; · iexact Hq2
  isplitl [Hq3]; · iexact Hq3
  isplitl [HO]; · iexact HO
  iintro ⟨Hmw, Hr0, Hr1, Hr2, Hr3, Hd0, Hd1, Hd2, Hd3, Hx0, Hs0, Hx1, Hs1, Hx2, Hs2, Hx3, Hs3, Ho0, Hh0, Ho1, Hh1, Ho2, Hh2, Ho3, Hh3, HOw⟩
  ihave Hd0 := (Entails.of_eq (pointsTo_congr fun j hj => ho0 j hj)) $$ Hd0
  ihave Hd1 := (Entails.of_eq (pointsTo_congr fun j hj => ho1 j hj)) $$ Hd1
  ihave Hd2 := (Entails.of_eq (pointsTo_congr fun j hj => ho2 j hj)) $$ Hd2
  ihave Hd3 := (Entails.of_eq (pointsTo_congr fun j hj => ho3 j hj)) $$ Hd3
  ihave Ho0 := (Entails.of_eq (outFlight_congr d L (offO_0 L k n (by omega)) (k0_off5_inb L k 0) (orow_inb L _) cc0_scratch12 h0 _ _)) $$ Ho0
  ihave Ho1 := (Entails.of_eq (outFlight_congr d L (offO_1 L k n (by omega)) (k0_off5_inb L k 1) (orow_inb L _) cc0_scratch13 h1 _ _)) $$ Ho1
  ihave Ho2 := (Entails.of_eq (outFlight_congr d L (offO_2 L k n (by omega)) (k0_off9_inb L k 0) (orow_inb L _) cc0_scratch14 h2 _ _)) $$ Ho2
  ihave Ho3 := (Entails.of_eq (outFlight_congr d L (offO_3 L k n (by omega)) (k0_off9_inb L k 1) (orow_inb L _) cc0_scratch15 h3 _ _)) $$ Ho3
  unfold InvLast
  iexists _
  iexists _
  iexists _
  iexists _
  iexists _
  iexists _
  iexists _
  iexists _
  iexists _
  iexists _
  iexists _
  iexists _
  isplitl [Hmw]; · iexact Hmw
  isplitl [Hr0 Hr1 Hr2 Hr3 HXS]
  · iapply (Entails.of_eq (XS_all (fun ρ => xOwn d L XPd ρ) n (by omega)).symm)
    isplitl [Hr0]; · iexact Hr0
    isplitl [Hr1]; · iexact Hr1
    isplitl [Hr2]; · iexact Hr2
    isplitl [Hr3]; · iexact Hr3
    iexact HXS
  isplitl [Hd0 Hd1 Hd2 Hd3 HOD]
  · iapply (Entails.of_eq (OD_give (fun ρ => oOwn d L (CNT d L XPd) ρ) m n hm (by omega)).symm)
    isplitl [Hd0]; · iexact Hd0
    isplitl [Hd1]; · iexact Hd1
    isplitl [Hd2]; · iexact Hd2
    isplitl [Hd3]; · iexact Hd3
    iexact HOD
  isplitl [Hx0]; · iexact Hx0
  isplitl [Hs0]; · iexact Hs0
  isplitl [Hx1]; · iexact Hx1
  isplitl [Hs1]; · iexact Hs1
  isplitl [Hx2]; · iexact Hx2
  isplitl [Hs2]; · iexact Hs2
  isplitl [Hx3]; · iexact Hx3
  isplitl [Hs3]; · iexact Hs3
  isplitl [Ho0]; · iexact Ho0
  isplitl [Ho1]; · iexact Ho1
  isplitl [Ho2]; · iexact Ho2
  isplitl [Ho3]; · iexact Ho3
  isplitl [Hh0]; · iexact Hh0
  isplitl [Hh1]; · iexact Hh1
  isplitl [Hh2]; · iexact Hh2
  isplitl [Hh3]; · iexact Hh3
  isplitl [HOw]; · iapply (owes_trans d L O W hW'); iexact HOw
  ipureintro
  exact ⟨written_ok0 d L XPd _ (k0_off5_inb L k 0) _ (offO_0 L k n (by omega)) C0 X0 hx0,
    written_ok1 d L XPd _ (k0_off5_inb L k 1) _ (offO_1 L k n (by omega)) C0 X1 hx1,
    written_ok2 d L XPd _ (k0_off9_inb L k 0) _ (offO_2 L k n (by omega)) C0 X2 hx2,
    written_ok3 d L XPd _ (k0_off9_inb L k 1) _ (offO_3 L k n (by omega)) C0 X3 hx3⟩
end Steps

end Cert.Proof.KW
end
-- ==== Proof.ScBodyW.lean ====
/-
  One vector subcore's task, assembled: from the subcore's rows of the packed array and of the counts array, its
  own scratch buffers and semaphores and what it owes the launch, the kernel function runs to the end with the
  packed rows unchanged and each counts row at the histogram of its packed row.

  The subcore's own storage is opened into its eight scratch buffers and eight semaphores. Its block of each
  array is held row by row. The prologue puts the first four packed rows in flight; the counted loop runs by the
  invariant of the state between trips, each trip in its own regime; after the loop the four last copy-outs are
  waited for, every counts row is at its histogram, the rows are joined back into the subcore's blocks and the
  scratch buffers and semaphores are put back.
-/
import proofs.«205260_g26156350832969_cont_9to1_3_23_alg».proof.Proof.ScTripStmtW
import proofs.«205260_g26156350832969_cont_9to1_3_23_alg».proof.Proof.ScEndsW
import proofs.«205260_g26156350832969_cont_9to1_3_23_alg».proof.Proof.ScRowsW
import proofs.«205260_g26156350832969_cont_9to1_3_23_alg».proof.Proof.ScInvW

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked)
open Idealize.ShloMosaic.ValueIdx (ix1 ix2)

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-! ## The subcore's own scratch buffers and semaphores -/
omit [FloatOps F] in
theorem tile_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Own
variable (d : Dev nD) (L : grid0.Coords)

omit [FloatOps F] in
theorem ownSems0_V :
    (ownSems0 (thr d L) : sProp 𝕄)
      = iprop(semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ bigSep (((((((((ownCells (thr d L)).erase ((thr d L, SemLoc.dma cc0_scratch8.sem))).erase ((thr d L, SemLoc.dma cc0_scratch9.sem))).erase ((thr d L, SemLoc.dma cc0_scratch10.sem))).erase ((thr d L, SemLoc.dma cc0_scratch11.sem))).erase ((thr d L, SemLoc.dma cc0_scratch12.sem))).erase ((thr d L, SemLoc.dma cc0_scratch13.sem))).erase ((thr d L, SemLoc.dma cc0_scratch14.sem))).erase ((thr d L, SemLoc.dma cc0_scratch15.sem))) fun g => semVal g 0) := by
  unfold SparseCore.Cfg.ownSems0
  rw [SparseCore.bigSep_erase' ((mem_ownCells (g := (thr d L, SemLoc.dma cc0_scratch8.sem))).mpr ⟨rfl, by show (SemLoc.dma cc0_scratch8.sem : SemLoc sig).isScoped .scVector = true; decide⟩),
    SparseCore.bigSep_erase' (Finset.mem_erase.mpr ⟨fun e => absurd (congrArg Prod.snd e) (show (SemLoc.dma cc0_scratch9.sem : SemLoc sig) ≠ SemLoc.dma cc0_scratch8.sem by decide), (mem_ownCells (g := (thr d L, SemLoc.dma cc0_scratch9.sem))).mpr ⟨rfl, by show (SemLoc.dma cc0_scratch9.sem : SemLoc sig).isScoped .scVector = true; decide⟩⟩),
    SparseCore.bigSep_erase' (Finset.mem_erase.mpr ⟨fun e => absurd (congrArg Prod.snd e) (show (SemLoc.dma cc0_scratch10.sem : SemLoc sig) ≠ SemLoc.dma cc0_scratch9.sem by decide), Finset.mem_erase.mpr ⟨fun e => absurd (congrArg Prod.snd e) (show (SemLoc.dma cc0_scratch10.sem : SemLoc sig) ≠ SemLoc.dma cc0_scratch8.sem by decide), (mem_ownCells (g := (thr d L, SemLoc.dma cc0_scratch10.sem))).mpr ⟨rfl, by show (SemLoc.dma cc0_scratch10.sem : SemLoc sig).isScoped .scVector = true; decide⟩⟩⟩),
    SparseCore.bigSep_erase' (Finset.mem_erase.mpr ⟨fun e => absurd (congrArg Prod.snd e) (show (SemLoc.dma cc0_scratch11.sem : SemLoc sig) ≠ SemLoc.dma cc0_scratch10.sem by decide), Finset.mem_erase.mpr ⟨fun e => absurd (congrArg Prod.snd e) (show (SemLoc.dma cc0_scratch11.sem : SemLoc sig) ≠ SemLoc.dma cc0_scratch9.sem by decide), Finset.mem_erase.mpr ⟨fun e => absurd (congrArg Prod.snd e) (show (SemLoc.dma cc0_scratch11.sem : SemLoc sig) ≠ SemLoc.dma cc0_scratch8.sem by decide), (mem_ownCells (g := (thr d L, SemLoc.dma cc0_scratch11.sem))).mpr ⟨rfl, by show (SemLoc.dma cc0_scratch11.sem : SemLoc sig).isScoped .scVector = true; decide⟩⟩⟩⟩),
    SparseCore.bigSep_erase' (Finset.mem_erase.mpr ⟨fun e => absurd (congrArg Prod.snd e) (show (SemLoc.dma cc0_scratch12.sem : SemLoc sig) ≠ SemLoc.dma cc0_scratch11.sem by decide), Finset.mem_erase.mpr ⟨fun e => absurd (congrArg Prod.snd e) (show (SemLoc.dma cc0_scratch12.sem : SemLoc sig) ≠ SemLoc.dma cc0_scratch10.sem by decide), Finset.mem_erase.mpr ⟨fun e => absurd (congrArg Prod.snd e) (show (SemLoc.dma cc0_scratch12.sem : SemLoc sig) ≠ SemLoc.dma cc0_scratch9.sem by decide), Finset.mem_erase.mpr ⟨fun e => absurd (congrArg Prod.snd e) (show (SemLoc.dma cc0_scratch12.sem : SemLoc sig) ≠ SemLoc.dma cc0_scratch8.sem by decide), (mem_ownCells (g := (thr d L, SemLoc.dma cc0_scratch12.sem))).mpr ⟨rfl, by show (SemLoc.dma cc0_scratch12.sem : SemLoc sig).isScoped .scVector = true; decide⟩⟩⟩⟩⟩),
    SparseCore.bigSep_erase' (Finset.mem_erase.mpr ⟨fun e => absurd (congrArg Prod.snd e) (show (SemLoc.dma cc0_scratch13.sem : SemLoc sig) ≠ SemLoc.dma cc0_scratch12.sem by decide), Finset.mem_erase.mpr ⟨fun e => absurd (congrArg Prod.snd e) (show (SemLoc.dma cc0_scratch13.sem : SemLoc sig) ≠ SemLoc.dma cc0_scratch11.sem by decide), Finset.mem_erase.mpr ⟨fun e => absurd (congrArg Prod.snd e) (show (SemLoc.dma cc0_scratch13.sem : SemLoc sig) ≠ SemLoc.dma cc0_scratch10.sem by decide), Finset.mem_erase.mpr ⟨fun e => absurd (congrArg Prod.snd e) (show (SemLoc.dma cc0_scratch13.sem : SemLoc sig) ≠ SemLoc.dma cc0_scratch9.sem by decide), Finset.mem_erase.mpr ⟨fun e => absurd (congrArg Prod.snd e) (show (SemLoc.dma cc0_scratch13.sem : SemLoc sig) ≠ SemLoc.dma cc0_scratch8.sem by decide), (mem_ownCells (g := (thr d L, SemLoc.dma cc0_scratch13.sem))).mpr ⟨rfl, by show (SemLoc.dma cc0_scratch13.sem : SemLoc sig).isScoped .scVector = true; decide⟩⟩⟩⟩⟩⟩),
    SparseCore.bigSep_erase' (Finset.mem_erase.mpr ⟨fun e => absurd (congrArg Prod.snd e) (show (SemLoc.dma cc0_scratch14.sem : SemLoc sig) ≠ SemLoc.dma cc0_scratch13.sem by decide), Finset.mem_erase.mpr ⟨fun e => absurd (congrArg Prod.snd e) (show (SemLoc.dma cc0_scratch14.sem : SemLoc sig) ≠ SemLoc.dma cc0_scratch12.sem by decide), Finset.mem_erase.mpr ⟨fun e => absurd (congrArg Prod.snd e) (show (SemLoc.dma cc0_scratch14.sem : SemLoc sig) ≠ SemLoc.dma cc0_scratch11.sem by decide), Finset.mem_erase.mpr ⟨fun e => absurd (congrArg Prod.snd e) (show (SemLoc.dma cc0_scratch14.sem : SemLoc sig) ≠ SemLoc.dma cc0_scratch10.sem by decide), Finset.mem_erase.mpr ⟨fun e => absurd (congrArg Prod.snd e) (show (SemLoc.dma cc0_scratch14.sem : SemLoc sig) ≠ SemLoc.dma cc0_scratch9.sem by decide), Finset.mem_erase.mpr ⟨fun e => absurd (congrArg Prod.snd e) (show (SemLoc.dma cc0_scratch14.sem : SemLoc sig) ≠ SemLoc.dma cc0_scratch8.sem by decide), (mem_ownCells (g := (thr d L, SemLoc.dma cc0_scratch14.sem))).mpr ⟨rfl, by show (SemLoc.dma cc0_scratch14.sem : SemLoc sig).isScoped .scVector = true; decide⟩⟩⟩⟩⟩⟩⟩),
    SparseCore.bigSep_erase' (Finset.mem_erase.mpr ⟨fun e => absurd (congrArg Prod.snd e) (show (SemLoc.dma cc0_scratch15.sem : SemLoc sig) ≠ SemLoc.dma cc0_scratch14.sem by decide), Finset.mem_erase.mpr ⟨fun e => absurd (congrArg Prod.snd e) (show (SemLoc.dma cc0_scratch15.sem : SemLoc sig) ≠ SemLoc.dma cc0_scratch13.sem by decide), Finset.mem_erase.mpr ⟨fun e => absurd (congrArg Prod.snd e) (show (SemLoc.dma cc0_scratch15.sem : SemLoc sig) ≠ SemLoc.dma cc0_scratch12.sem by decide), Finset.mem_erase.mpr ⟨fun e => absurd (congrArg Prod.snd e) (show (SemLoc.dma cc0_scratch15.sem : SemLoc sig) ≠ SemLoc.dma cc0_scratch11.sem by decide), Finset.mem_erase.mpr ⟨fun e => absurd (congrArg Prod.snd e) (show (SemLoc.dma cc0_scratch15.sem : SemLoc sig) ≠ SemLoc.dma cc0_scratch10.sem by decide), Finset.mem_erase.mpr ⟨fun e => absurd (congrArg Prod.snd e) (show (SemLoc.dma cc0_scratch15.sem : SemLoc sig) ≠ SemLoc.dma cc0_scratch9.sem by decide), Finset.mem_erase.mpr ⟨fun e => absurd (congrArg Prod.snd e) (show (SemLoc.dma cc0_scratch15.sem : SemLoc sig) ≠ SemLoc.dma cc0_scratch8.sem by decide), (mem_ownCells (g := (thr d L, SemLoc.dma cc0_scratch15.sem))).mpr ⟨rfl, by show (SemLoc.dma cc0_scratch15.sem : SemLoc sig).isScoped .scVector = true; decide⟩⟩⟩⟩⟩⟩⟩⟩)]

omit [FloatOps F] in
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f) ∗ (∃ f, (thr d L).loc cc0_scratch4 ↦{fullShare} f) ∗ (∃ f, (thr d L).loc cc0_scratch5 ↦{fullShare} f) ∗ (∃ f, (thr d L).loc cc0_scratch6 ↦{fullShare} f) ∗ (∃ f, (thr d L).loc cc0_scratch7 ↦{fullShare} f) ∗ bigSep (((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩)]
end Own

/-! ## The tile's block of each array, row by row -/
section Split
variable (d : Dev nD) (L : grid0.Coords)
theorem xp_split (f : Buf (Elt F) ((a2).view.loc (thr d L))) :
    (xpLoc d ↦[xpRows (widL L)]{fullShare} f : sProp 𝕄) = bigSep Finset.univ fun ρ : Fin 32 => xOwn d L f ρ := by
  exact xp_rows d L f
theorem cnt_split (f : Buf (Elt F) ((a3).view.loc (thr d L))) :
    (cntLoc d ↦[cntRows (widL L)]{fullShare} f : sProp 𝕄) = bigSep Finset.univ fun ρ : Fin 32 => oOwn d L f ρ := by
  exact cnt_rows d L f
end Split

/-! ## The task -/
section Main

theorem tile_body (XP : (d : Dev nD) → Buf (Elt F) (xpLoc d)) (hpk : ∀ d, Cert.Proof.ScSpec.Packed (XP d))
    (hfirst : TripFirstStmt (F := F)) (hmid : TripMidStmt (F := F)) (hlast : TripLastStmt (F := F)) : TileStmt XP := by
  unfold TileStmt
  intro d L O W hO
  simp only [body_eq, part108_eq]
  rw [wp_bind]
  rw [(K (F := F)).scopedBufs_V tile_facts d (cV L) (jV L), SparseCore.Cfg.scopedSems0_V (Val := Elt F) d (cV L) (jV L), ownSems0_V, ownBufs_V]
  iintro ⟨#Hlv, -, ⟨Hxp, %C0, Hcnt⟩, ⟨⟨%f0, Hx0⟩, ⟨%f1, Hx1⟩, ⟨%f2, Hx2⟩, ⟨%f3, Hx3⟩, ⟨%g0, Hh0⟩, ⟨%g1, Hh1⟩, ⟨%g2, Hh2⟩, ⟨%g3, Hh3⟩, Hbufs⟩, ⟨Hs8, Hs9, Hs10, Hs11, Hs12, Hs13, Hs14, Hs15, Hsems⟩, HO⟩
  ihave Hmw := ((K (F := F)).mayWaits_none (thr := thr d L) hO) $$ Hlv
  ihave Hxr := (Entails.of_eq (xp_split d L (XP d))) $$ Hxp
  ihave Hor := (Entails.of_eq (cnt_split d L C0)) $$ Hcnt
  ihave Hxr := (Entails.of_eq (XS_init (fun ρ => xOwn d L (XP d) ρ) 0 rfl)) $$ Hxr
  icases Hxr with ⟨Hp0, Hp1, Hp2, Hp3, HXS⟩
  ihave Hp0 := (Entails.of_eq (own_x_congr d L (off1_0 L 0 rfl).symm (xrow_inb L _) (k0_off1_inb L 0 0) (XP d))) $$ Hp0
  ihave Hp1 := (Entails.of_eq (own_x_congr d L (off1_1 L 0 rfl).symm (xrow_inb L _) (k0_off1_inb L 0 1) (XP d))) $$ Hp1
  ihave Hp2 := (Entails.of_eq (own_x_congr d L (off1_2 L 0 rfl).symm (xrow_inb L _) (k0_off1_inb L 1 0) (XP d))) $$ Hp2
  ihave Hp3 := (Entails.of_eq (own_x_congr d L (off1_3 L 0 rfl).symm (xrow_inb L _) (k0_off1_inb L 1 1) (XP d))) $$ Hp3
  iapply (prologue d L O W (XP d) f0 f1 f2 f3 _)
  isplitl [Hmw]; · iexact Hmw
  isplitl [Hp0]; · iexact Hp0
  isplitl [Hp1]; · iexact Hp1
  isplitl [Hp2]; · iexact Hp2
  isplitl [Hp3]; · iexact Hp3
  isplitl [Hx0]; · iexact Hx0
  isplitl [Hx1]; · iexact Hx1
  isplitl [Hx2]; · iexact Hx2
  isplitl [Hx3]; · iexact Hx3
  isplitl [Hs8]; · iexact Hs8
  isplitl [Hs9]; · iexact Hs9
  isplitl [Hs10]; · iexact Hs10
  isplitl [Hs11]; · iexact Hs11
  isplitl [HO]; · iexact HO
  iintro %v2 ⟨Hmw, Hi0, Hi1, Hi2, Hi3, HO⟩
  irw [wp_bind, wp_bind]
  ihave Hi0 := (Entails.of_eq (inFlight_congr d L (off1_0 L 0 rfl) (k0_off1_inb L 0 0) (xrow_inb L _) cc0_scratch8 x0 _ (XP d))) $$ Hi0
  ihave Hi1 := (Entails.of_eq (inFlight_congr d L (off1_1 L 0 rfl) (k0_off1_inb L 0 1) (xrow_inb L _) cc0_scratch9 x1 _ (XP d))) $$ Hi1
  ihave Hi2 := (Entails.of_eq (inFlight_congr d L (off1_2 L 0 rfl) (k0_off1_inb L 1 0) (xrow_inb L _) cc0_scratch10 x2 _ (XP d))) $$ Hi2
  ihave Hi3 := (Entails.of_eq (inFlight_congr d L (off1_3 L 0 rfl) (k0_off1_inb L 1 1) (xrow_inb L _) cc0_scratch11 x3 _ (XP d))) $$ Hi3
  sl_for (Inv d L (XP d) C0 O W) $$ [Hmw Hi0 Hi1 Hi2 Hi3 HO HXS Hor Hh0 Hh1 Hh2 Hh3 Hs12 Hs13 Hs14 Hs15 Hbufs Hsems]
  case region =>
    intro k u
    have hk := k_lt k
    by_cases hk0 : k.val = 0
    · have e1 : Inv d L (XP d) C0 O W k.val u = InvFirst d L (XP d) C0 O W (4 * k.val) := by rw [hk0]; exact Inv_zero d L (XP d) C0 O W u
      have e2 : Inv d L (XP d) C0 O W (k.val + 1) = fun _ => InvMid d L (XP d) C0 O W (4 * k.val + 4) (4 * k.val) :=
        funext fun u' => Inv_mid d L (XP d) C0 O W (k.val + 1) (4 * k.val + 4) (4 * k.val) u' (by omega) (by omega) (by omega) rfl
      rw [e1, e2]
      exact step_first d L (XP d) C0 O W (hpk d) hfirst k (4 * k.val) (4 * k.val + 4) rfl rfl hk0 v2
    · by_cases hk7 : k.val = 7
      · have e1 : Inv d L (XP d) C0 O W k.val u = InvMid d L (XP d) C0 O W (4 * k.val) (4 * k.val - 4) :=
          Inv_mid d L (XP d) C0 O W k.val (4 * k.val) (4 * k.val - 4) u (by omega) (by omega) rfl (by omega)
        have e2 : Inv d L (XP d) C0 O W (k.val + 1) = fun _ => InvLast d L (XP d) O W (4 * k.val) :=
          funext fun u' => by rw [Inv_last d L (XP d) C0 O W (k.val + 1) u' (by omega), hk7]
        rw [e1, e2]
        exact step_last d L (XP d) C0 O W hlast k (4 * k.val) (4 * k.val - 4) rfl (by omega) hk7 v2
      · have e1 : Inv d L (XP d) C0 O W k.val u = InvMid d L (XP d) C0 O W (4 * k.val) (4 * k.val - 4) :=
          Inv_mid d L (XP d) C0 O W k.val (4 * k.val) (4 * k.val - 4) u (by omega) (by omega) rfl (by omega)
        have e2 : Inv d L (XP d) C0 O W (k.val + 1) = fun _ => InvMid d L (XP d) C0 O W (4 * k.val + 4) (4 * k.val) :=
          funext fun u' => Inv_mid d L (XP d) C0 O W (k.val + 1) (4 * k.val + 4) (4 * k.val) u' (by omega) (by omega) (by omega) rfl
        rw [e1, e2]
        exact step_mid d L (XP d) C0 O W (hpk d) hmid k (4 * k.val) (4 * k.val + 4) (4 * k.val - 4) rfl rfl (by omega) (by omega) v2
  isplitl [Hmw Hi0 Hi1 Hi2 Hi3 HO HXS Hor Hh0 Hh1 Hh2 Hh3 Hs12 Hs13 Hs14 Hs15]
  · rw [Inv_zero]
    unfold InvFirst
    iexists _
    iexists _
    iexists _
    iexists _
    iexists _
    iexists _
    iexists _
    iexists _
    isplitl [Hmw]; · iexact Hmw
    isplitl [HXS]; · iexact HXS
    isplitl [Hor]; · iapply (Entails.of_eq (OH_univ (fun ρ => oOwn d L C0 ρ))); iexact Hor
    isplitl [Hi0]; · iexact Hi0
    isplitl [Hi1]; · iexact Hi1
    isplitl [Hi2]; · iexact Hi2
    isplitl [Hi3]; · iexact Hi3
    isplitl [Hh0]; · iexact Hh0
    isplitl [Hh1]; · iexact Hh1
    isplitl [Hh2]; · iexact Hh2
    isplitl [Hh3]; · iexact Hh3
    isplitl [Hs12]; · iexact Hs12
    isplitl [Hs13]; · iexact Hs13
    isplitl [Hs14]; · iexact Hs14
    isplitl [Hs15]; · iexact Hs15
    isplitl [HO]
    · iexists W; isplitr
      · ipureintro; exact fun p hp => .inl hp
      · iexact HO
    ipureintro
    exact ⟨xok_new0 d L (XP d) (hpk d) _ (k0_off1_inb L 0 0) _ (off1_0 L 0 rfl) f0,
      xok_new1 d L (XP d) (hpk d) _ (k0_off1_inb L 0 1) _ (off1_1 L 0 rfl) f1,
      xok_new2 d L (XP d) (hpk d) _ (k0_off1_inb L 1 0) _ (off1_2 L 0 rfl) f2,
      xok_new3 d L (XP d) (hpk d) _ (k0_off1_inb L 1 1) _ (off1_3 L 0 rfl) f3⟩
  iintro %u HI
  ihave HI := (Entails.of_eq (Inv_last d L (XP d) C0 O W _ u (le_of_eq trips_eq.symm))) $$ HI
  unfold InvLast
  icases HI with ⟨%X0, %X1, %X2, %X3, %CO0, %CO1, %CO2, %CO3, %HC0, %HC1, %HC2, %HC3, Hmw, HXS, HOD, Hx0, Hs8, Hx1, Hs9, Hx2, Hs10, Hx3, Hs11, Ho0, Ho1, Ho2, Ho3, Hh0, Hh1, Hh2, Hh3, ⟨%W', %hW', HO⟩, %hok⟩
  obtain ⟨ho0, ho1, ho2, ho3⟩ := hok
  ihave Ho0 := (Entails.of_eq (outFlight_congr d L (off10_0 L 28 rfl).symm (orow_inb L _) (k0_off10_inb L 0 0) cc0_scratch12 h0 CO0 HC0)) $$ Ho0
  ihave Ho1 := (Entails.of_eq (outFlight_congr d L (off10_1 L 28 rfl).symm (orow_inb L _) (k0_off10_inb L 0 1) cc0_scratch13 h1 CO1 HC1)) $$ Ho1
  ihave Ho2 := (Entails.of_eq (outFlight_congr d L (off10_2 L 28 rfl).symm (orow_inb L _) (k0_off10_inb L 1 0) cc0_scratch14 h2 CO2 HC2)) $$ Ho2
  ihave Ho3 := (Entails.of_eq (outFlight_congr d L (off10_3 L 28 rfl).symm (orow_inb L _) (k0_off10_inb L 1 1) cc0_scratch15 h3 CO3 HC3)) $$ Ho3
  iapply (epilogue3 d L O W' CO0 HC0 CO1 HC1 CO2 HC2 _)
  isplitl [Hmw]; · iexact Hmw
  isplitl [Ho0]; · iexact Ho0
  isplitl [Hh0]; · iexact Hh0
  isplitl [Ho1]; · iexact Ho1
  isplitl [Hh1]; · iexact Hh1
  isplitl [Ho2]; · iexact Ho2
  isplitl [Hh2]; · iexact Hh2
  isplitl [HO]; · iexact HO
  iintro ⟨Hmw, Hd0, Hh0, Hs12, Hd1, Hh1, Hs13, Hd2, Hh2, Hs14, ⟨%W2, %hW2, HO⟩⟩
  iapply (epilogue1 d L O W2 CO3 HC3 _)
  isplitl [Hmw]; · iexact Hmw
  isplitl [Ho3]; · iexact Ho3
  isplitl [Hh3]; · iexact Hh3
  isplitl [HO]; · iexact HO
  iintro ⟨-, Hd3, Hh3, Hs15, ⟨%W3, %hW3, HO⟩⟩
  ihave Hd0 := (Entails.of_eq (own_o_congr d L (off10_0 L 28 rfl) (k0_off10_inb L 0 0) (orow_inb L _) CO0)) $$ Hd0
  ihave Hd0 := (Entails.of_eq (pointsTo_congr fun j hj => ho0 j hj)) $$ Hd0
  ihave Hd1 := (Entails.of_eq (own_o_congr d L (off10_1 L 28 rfl) (k0_off10_inb L 0 1) (orow_inb L _) CO1)) $$ Hd1
  ihave Hd1 := (Entails.of_eq (pointsTo_congr fun j hj => ho1 j hj)) $$ Hd1
  ihave Hd2 := (Entails.of_eq (own_o_congr d L (off10_2 L 28 rfl) (k0_off10_inb L 1 0) (orow_inb L _) CO2)) $$ Hd2
  ihave Hd2 := (Entails.of_eq (pointsTo_congr fun j hj => ho2 j hj)) $$ Hd2
  ihave Hd3 := (Entails.of_eq (own_o_congr d L (off10_3 L 28 rfl) (k0_off10_inb L 1 1) (orow_inb L _) CO3)) $$ Hd3
  ihave Hd3 := (Entails.of_eq (pointsTo_congr fun j hj => ho3 j hj)) $$ Hd3
  isplitl [HXS Hd0 Hd1 Hd2 Hd3 HOD]
  · isplitl [HXS]
    · iapply (Entails.of_eq (xp_split d L (XP d)).symm); iexact HXS
    · iapply (Entails.of_eq (cnt_split d L (CNT d L (XP d))).symm)
      iapply (Entails.of_eq (OD_univ (fun ρ => oOwn d L (CNT d L (XP d)) ρ)))
      iapply (Entails.of_eq (OD_give (fun ρ => oOwn d L (CNT d L (XP d)) ρ) 28 32 rfl (by omega)).symm)
      isplitl [Hd0]; · iexact Hd0
      isplitl [Hd1]; · iexact Hd1
      isplitl [Hd2]; · iexact Hd2
      isplitl [Hd3]; · iexact Hd3
      iexact HOD
  isplitl [Hx0 Hx1 Hx2 Hx3 Hh0 Hh1 Hh2 Hh3 Hbufs]
  · isplitl [Hx0]; · iexists _; iexact Hx0
    isplitl [Hx1]; · iexists _; iexact Hx1
    isplitl [Hx2]; · iexists _; iexact Hx2
    isplitl [Hx3]; · iexists _; iexact Hx3
    isplitl [Hh0]; · iexists _; iexact Hh0
    isplitl [Hh1]; · iexists _; iexact Hh1
    isplitl [Hh2]; · iexists _; iexact Hh2
    isplitl [Hh3]; · iexists _; iexact Hh3
    iexact Hbufs
  isplitl [Hs8 Hs9 Hs10 Hs11 Hs12 Hs13 Hs14 Hs15 Hsems]
  · isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    iexact Hsems
  iexists W3; isplitr
  · ipureintro; intro p hp
    rcases hW3 p hp with h | h
    · rcases hW2 p h with h | h
      · exact hW' p h
      · exact .inr h
    · exact .inr h
  · iexact HO

end Main

end Cert.Proof.KW
end
-- ==== Proof.HistRun.lean ====
/-
  The histogram's pure specification met from the side of a run: the indexed store with add as one
  `bump`, the fold over the groups one step at a time, the zero-filled bins read back whole, and a
  loaded group of sixteen words.
-/
import proofs.«205260_g26156350832969_cont_9to1_3_23_alg».proof.Proof.ScSpec
import proofs.«205260_g26156350832969_cont_9to1_3_23_alg».proof.Proof.LibWholeWrites

noncomputable section

namespace Cert.Proof.Math

open Idealize.ShloMosaic Cert.Proof.ScSpec

variable {F : FTy → Type} [FloatOps F]

/-! ### The indexed store is a bump; the fold one step at a time -/

/-- The indexed store with add of sixteen ones at in-range lanes is `bump`, whichever proof of the
    range it carries. -/
theorem bump_eq (h : FVec F S2800 .f32) (v : IVec S16 32) (hv : InBins v)
    (h' : ∀ (a : Fin S2800.rank) (x : S16.Idx), ((![v] : Fin 1 → IVec S16 32) a x).toNat < S2800.size a) :
    (storeIdx (F := F) (s := S2800) (e := EltTy.f32) (h : Vec F S2800 EltTy.f32) (![v] : Fin 1 → IVec S16 32)
      ((ones (F := F)) : Vec F S16 EltTy.f32) (fun _ => 1#1) true h' : Vec F S2800 EltTy.f32) = bump h v := by
  unfold bump
  rw [dif_pos hv]

/-- Two bumps, the low halves then the high halves of group g, are one step. -/
theorem histStep_eq (xrow : IVec S1344 32) (h : FVec F S2800 .f32) (g : Fin 84) :
    bump (bump h (lo (group xrow g))) (hi (group xrow g)) = histStep xrow h g := rfl

/-- No group consumed: the bins at zero. -/
theorem histUpTo_zero (xrow : IVec S1344 32) : histUpTo (F := F) xrow 0 = bins0 := rfl

/-- One more group consumed. -/
theorem histUpTo_succ (xrow : IVec S1344 32) (n : Nat) (hn : n < 84) :
    histUpTo (F := F) xrow (n + 1) = histStep xrow (histUpTo xrow n) ⟨n, hn⟩ := by
  unfold histUpTo
  have hget : (List.finRange 84)[n]? = some (⟨n, hn⟩ : Fin 84) := by
    rw [List.getElem?_eq_getElem (by simpa using hn)]
    simp
  rw [List.take_succ, hget, Option.toList_some, List.foldl_append, List.foldl_cons, List.foldl_nil]

/-- All 84 groups consumed. -/
theorem histRow_eq (xrow : IVec S1344 32) : histRow (F := F) xrow = histUpTo xrow 84 := rfl

/-! ### The zero-filled bins -/

/-- Pieces that cover the 2800 bins and all carry the float zero read back, whole, as the bins at
    zero. -/
theorem readCov_zeros {sig : RefSig} {κ : Kind} {sp : Space} (v : View sig κ sp S2800 .f32)
    (L : List (View.Piece (Elt F) S2800 .f32))
    (hz : ∀ p ∈ L, ∀ x, p.2 x = (Scalar.ofBits .f32 0x00000000#32 : F .f32))
    (hcov : ∀ y : S2800.Idx, ∃ p ∈ L, y ∈ p.1.set) :
    v.readCov L (LoadRect.whole S2800) = bins0 (F := F) :=
  readCov_whole_const v L _ hz hcov

/-- The j-th zero-fill piece: sixteen zeros at bins 16 j … 16 j + 15. -/
def zeroPiece (j : Fin 175) : View.Piece (Elt F) S2800 .f32 :=
  ⟨Rect.unit (s := S2800) ![16 * j.val] S16.size
      (Rect.inb₁ (by show 16 * j.val + 16 ≤ 2800; have := j.isLt; omega)),
    (zeros (F := F) : S16.Idx → Elt F .f32)⟩

/-- The 175 zero-fill pieces, the last written (j = 174) first. -/
def zeroPieces : List (View.Piece (Elt F) S2800 .f32) := (List.ofFn (zeroPiece (F := F))).reverse

theorem zeroPieces_zero : ∀ p ∈ zeroPieces (F := F), ∀ x, p.2 x = (Scalar.ofBits .f32 0x00000000#32 : F .f32) := by
  intro p hp x
  obtain ⟨j, rfl⟩ := (List.mem_ofFn).mp (List.mem_reverse.mp hp)
  rfl

theorem zeroPieces_cover : ∀ y : S2800.Idx, ∃ p ∈ zeroPieces (F := F), y ∈ p.1.set := by
  intro y
  have hy : (y 0).val < 2800 := (y 0).isLt
  refine ⟨zeroPiece ⟨(y 0).val / 16, by omega⟩, List.mem_reverse.mpr ((List.mem_ofFn).mpr ⟨_, rfl⟩), ?_⟩
  unfold zeroPiece
  dsimp only
  rw [Rect.mem_set_unit]
  intro a
  match a with
  | ⟨0, _⟩ =>
    show 16 * ((y 0).val / 16) ≤ (y 0).val ∧ (y 0).val < 16 * ((y 0).val / 16) + 16
    omega

/-- The zero-fill pieces read back, whole, as the bins at zero. -/
theorem readCov_zeroPieces {sig : RefSig} {κ : Kind} {sp : Space} (v : View sig κ sp S2800 .f32) :
    v.readCov (zeroPieces (F := F)) (LoadRect.whole S2800) = bins0 (F := F) :=
  readCov_zeros v _ zeroPieces_zero zeroPieces_cover

/-! ### A loaded group -/

/-- Sixteen words loaded from word 16 g of a packed row are group g of what the row reads. -/
theorem readAt_group {sig : RefSig} {κ : Kind} {sp : Space} (v : View sig κ sp S1344 .i32)
    (X : v.ty.Contents (Elt F)) (g : Fin 84)
    (inb : ∀ a, (![16 * g.val] : Fin 1 → Nat) a + S16.size a ≤ S1344.size a) :
    v.readAt (Elt F) (Rect.unit (s := S1344) ![16 * g.val] S16.size inb).toLoadRect X
      = group (v.read (Elt F) X) g := by
  funext x
  exact readAt_unit_rank1 v X (16 * g.val) inb x

end Cert.Proof.Math

end
-- ==== Proof.HistCollapse.lean ====
/-
  The bins a run of single indexed stores leaves, collapsed to the histogram of the row.

  A row is consumed by 168 indexed stores: store n (counting from 0) adds the low halves (n even) or the
  high halves (n odd) of group n / 2. Each store is a write of the whole bins whose payload is the
  indexed store over what the writes before it leave, read whole. Going down the list of writes, the
  bins after n stores are `binsAfter X n`; at the bottom are the zero-fill pieces, which read as the
  bins at zero; after all 168 the bins are the histogram of the row.
-/
import proofs.«205260_g26156350832969_cont_9to1_3_23_alg».proof.Proof.HistRun

noncomputable section

namespace Cert.Proof.Math

open Idealize.ShloMosaic Cert.Proof.ScSpec

variable {F : FTy → Type} [FloatOps F]

/-! ### The n-th index vector of a row and the bins after n stores -/

/-- Store n takes the low halves when n is even, the high halves when n is odd, -/
def payOf (n : Nat) : IVec S16 32 → IVec S16 32 := if n % 2 = 0 then lo else hi
/-- of group n / 2. -/
def grpOf (n : Nat) : Fin 84 := ⟨n / 2 % 84, Nat.mod_lt _ (by norm_num)⟩
/-- The index vector of store n. -/
def vecAt (X : IVec S1344 32) (n : Nat) : IVec S16 32 := payOf n (group X (grpOf n))

/-- The bins after the first n stores. -/
def binsAfter (X : IVec S1344 32) : Nat → FVec F S2800 .f32
  | 0 => bins0
  | n + 1 => bump (binsAfter X n) (vecAt X n)

theorem vecAt_even (X : IVec S1344 32) (g : Nat) (hg : g < 84) : vecAt X (2 * g) = lo (group X ⟨g, hg⟩) := by
  have h1 : payOf (2 * g) = lo := by unfold payOf; rw [if_pos (by omega)]
  have h2 : grpOf (2 * g) = ⟨g, hg⟩ := Fin.ext (by show 2 * g / 2 % 84 = g; omega)
  unfold vecAt
  rw [h1, h2]

theorem vecAt_odd (X : IVec S1344 32) (g : Nat) (hg : g < 84) : vecAt X (2 * g + 1) = hi (group X ⟨g, hg⟩) := by
  have h1 : payOf (2 * g + 1) = hi := by unfold payOf; rw [if_neg (by omega)]
  have h2 : grpOf (2 * g + 1) = ⟨g, hg⟩ := Fin.ext (by show (2 * g + 1) / 2 % 84 = g; omega)
  unfold vecAt
  rw [h1, h2]

/-- Two stores per group: after 2 g stores, g groups are consumed. -/
theorem binsAfter_even (X : IVec S1344 32) (g : Nat) (hg : g ≤ 84) :
    binsAfter (F := F) X (2 * g) = histUpTo X g := by
  induction g with
  | zero => rfl
  | succ g ih =>
    have hg' : g < 84 := hg
    have e : 2 * (g + 1) = (2 * g + 1) + 1 := by ring
    rw [e]
    show bump (bump (binsAfter X (2 * g)) (vecAt X (2 * g))) (vecAt X (2 * g + 1)) = _
    rw [ih (by omega), histUpTo_succ X g hg', vecAt_even X g hg', vecAt_odd X g hg']
    rfl

/-- After all 168 stores the bins are the histogram of the row. -/
theorem binsAfter_168 (X : IVec S1344 32) : binsAfter (F := F) X 168 = histRow X :=
  binsAfter_even X 84 (Nat.le_refl _)

/-- Both halves of every word below 2800: every index vector names bins. -/
theorem inBins_vecAt (X : IVec S1344 32)
    (hp : ∀ q : Fin 1344, ((X (ValueIdx.ix1 q)) &&& 65535#32).toNat < 2800 ∧ ((X (ValueIdx.ix1 q)) >>> 16).toNat < 2800)
    (n : Nat) : InBins (vecAt X n) := by
  intro a x
  match a with
  | ⟨0, _⟩ =>
    obtain ⟨l, rfl⟩ : ∃ l : Fin 16, x = ValueIdx.ix1 l := ⟨x 0, ValueIdx.eq_ix1 x⟩
    show (vecAt X n (ValueIdx.ix1 l)).toNat < 2800
    unfold vecAt payOf
    split
    · exact (hp _).1
    · have h : hi (group X (grpOf n)) (ValueIdx.ix1 l) = group X (grpOf n) (ValueIdx.ix1 l) >>> 16 := by
        simp [hi, shrui, IntOp.shrui, broadcast]
      rw [h]
      exact (hp _).2

/-! ### The invariant down the list of writes -/

/-- What the writes `L` leave, read whole, is the bins after n stores of row X. -/
def Good {sig : RefSig} {κ : Kind} {sp : Space} (v : View sig κ sp S2800 .f32) (X : IVec S1344 32) (n : Nat)
    (L : List (View.Piece (Elt F) S2800 .f32)) : Prop :=
  v.readCov L (LoadRect.whole S2800) = binsAfter (F := F) X n

/-- One store over good writes: the indexed store of the next index vector, loaded from the row's
    buffer, over what the writes leave is the bins after one more store. -/
theorem Good.store {sig : RefSig} {κ : Kind} {sp spx : Space} {v : View sig κ sp S2800 .f32}
    {vx : View sig κ spx S1344 .i32} {Xb : vx.ty.Contents (Elt F)} {X : IVec S1344 32}
    (hX : vx.read (Elt F) Xb = X) (hr : ∀ n, InBins (vecAt X n))
    {n : Nat} {L : List (View.Piece (Elt F) S2800 .f32)} {off : Nat} {pay : IVec S16 32 → IVec S16 32}
    {inb : ∀ a, (![off] : Fin 1 → Nat) a + S16.size a ≤ S1344.size a} {onesV : FVec F S16 .f32}
    {h' : ∀ (a : Fin S2800.rank) (x : S16.Idx),
      ((![pay (vx.readAt (Elt F) (Rect.unit (s := S1344) ![off] S16.size inb).toLoadRect Xb)] : Fin 1 → IVec S16 32) a x).toNat
        < S2800.size a}
    (hoff : off = 16 * (grpOf n).val) (hpay : pay = payOf n) (hones : onesV = ones (F := F))
    (hG : Good v X n L) :
    (storeIdx (F := F) (s := S2800) (e := EltTy.f32) (v.readCov L (LoadRect.whole S2800) : Vec F S2800 EltTy.f32)
      (![pay (vx.readAt (Elt F) (Rect.unit (s := S1344) ![off] S16.size inb).toLoadRect Xb)] : Fin 1 → IVec S16 32)
      (onesV : Vec F S16 EltTy.f32) (fun _ => 1#1) true h' : Vec F S2800 EltTy.f32) = binsAfter (F := F) X (n + 1) := by
  subst hoff hpay hones hX
  unfold Good at hG
  have hv : payOf n (vx.readAt (Elt F) (Rect.unit (s := S1344) ![16 * (grpOf n).val] S16.size inb).toLoadRect Xb)
      = vecAt (vx.read (Elt F) Xb) n := by
    rw [readAt_group vx Xb (grpOf n) inb]
    rfl
  revert h'
  rw [hv, hG]
  intro h'
  exact bump_eq _ _ (hr n) h'

/-- One more write on top of good writes is good. -/
theorem Good.step {sig : RefSig} {κ : Kind} {sp spx : Space} {v : View sig κ sp S2800 .f32}
    {vx : View sig κ spx S1344 .i32} {Xb : vx.ty.Contents (Elt F)} {X : IVec S1344 32}
    (hX : vx.read (Elt F) Xb = X) (hr : ∀ n, InBins (vecAt X n))
    {n : Nat} {L : List (View.Piece (Elt F) S2800 .f32)} {off : Nat} {pay : IVec S16 32 → IVec S16 32}
    {inb : ∀ a, (![off] : Fin 1 → Nat) a + S16.size a ≤ S1344.size a} {onesV : FVec F S16 .f32}
    {h' : ∀ (a : Fin S2800.rank) (x : S16.Idx),
      ((![pay (vx.readAt (Elt F) (Rect.unit (s := S1344) ![off] S16.size inb).toLoadRect Xb)] : Fin 1 → IVec S16 32) a x).toNat
        < S2800.size a}
    (hoff : off = 16 * (grpOf n).val) (hpay : pay = payOf n) (hones : onesV = ones (F := F))
    (hG : Good v X n L) :
    Good v X (n + 1)
      (⟨Rect.whole S2800,
        (storeIdx (F := F) (s := S2800) (e := EltTy.f32) (v.readCov L (LoadRect.whole S2800) : Vec F S2800 EltTy.f32)
          (![pay (vx.readAt (Elt F) (Rect.unit (s := S1344) ![off] S16.size inb).toLoadRect Xb)] : Fin 1 → IVec S16 32)
          (onesV : Vec F S16 EltTy.f32) (fun _ => 1#1) true h' : Vec F S2800 EltTy.f32)⟩ :: L) := by
  unfold Good
  rw [readCov_whole_cons]
  exact Good.store hX hr hoff hpay hones hG

/-! ### The bottom of the list: the zero fill -/

/-- The zero-fill pieces for bins 0 … 16 n − 1, the last written (the highest) first. -/
def zeroDesc : (n : Nat) → n ≤ 175 → List (View.Piece (Elt F) S2800 .f32)
  | 0, _ => []
  | n + 1, h =>
    (⟨Rect.unit (s := S2800) ![16 * n] S16.size (Rect.inb₁ (by show 16 * n + 16 ≤ 2800; omega)),
      (zeros (F := F) : S16.Idx → Elt F .f32)⟩ : View.Piece (Elt F) S2800 .f32) :: zeroDesc n (by omega)

theorem zeroDesc_zero : ∀ (n : Nat) (h : n ≤ 175), ∀ p ∈ zeroDesc (F := F) n h, ∀ x,
    p.2 x = (Scalar.ofBits .f32 0x00000000#32 : F .f32)
  | 0, _, p, hp, _ => absurd hp List.not_mem_nil
  | n + 1, h, p, hp, x => by
    rcases List.mem_cons.mp hp with rfl | hp'
    · rfl
    · exact zeroDesc_zero n (by omega) p hp' x

theorem zeroDesc_cover : ∀ (n : Nat) (h : n ≤ 175) (y : S2800.Idx), (y 0).val < 16 * n →
    ∃ p ∈ zeroDesc (F := F) n h, y ∈ p.1.set
  | 0, _, y, hy => by omega
  | n + 1, h, y, hy => by
    by_cases hlt : (y 0).val < 16 * n
    · obtain ⟨p, hp, hyp⟩ := zeroDesc_cover n (by omega) y hlt
      exact ⟨p, List.mem_cons_of_mem _ hp, hyp⟩
    · refine ⟨_, List.mem_cons_self, ?_⟩
      rw [Rect.mem_set_unit]
      intro a
      match a with
      | ⟨0, _⟩ =>
        show 16 * n ≤ (y 0).val ∧ (y 0).val < 16 * n + 16
        omega

/-- The zero fill is good for no store. -/
theorem Good.base {sig : RefSig} {κ : Kind} {sp : Space} {v : View sig κ sp S2800 .f32} {X : IVec S1344 32}
    {L : List (View.Piece (Elt F) S2800 .f32)} (hL : L = zeroDesc (F := F) 175 (Nat.le_refl _)) :
    Good v X 0 L := by
  subst hL
  unfold Good
  exact readCov_zeros v _ (zeroDesc_zero 175 _) (fun y => zeroDesc_cover 175 _ y (by have h : (y 0).val < 2800 := (y 0).isLt; omega))

/-- The zero fill over any earlier writes is good for no store. -/
theorem Good.base' {sig : RefSig} {κ : Kind} {sp : Space} {v : View sig κ sp S2800 .f32} {X : IVec S1344 32}
    {L L' : List (View.Piece (Elt F) S2800 .f32)} (hL : L = zeroDesc (F := F) 175 (Nat.le_refl _) ++ L') :
    Good v X 0 L := by
  subst hL
  unfold Good
  exact readCov_whole_append_const v _ L' _ (zeroDesc_zero 175 _)
    (fun y => zeroDesc_cover 175 _ y (by have h : (y 0).val < 2800 := (y 0).isLt; omega))

/-- The collapse: the contents a whole bins buffer is left at after the zero fill and the 168 stores of a
    row are the histogram of the row. Stated on the contents' list of writes, whose head is the last
    store; intermediate lists and readings may be named definitions, which unification opens. -/
macro "hist_collapse " hr:term : tactic => `(tactic| (
  refine (Cert.Proof.Math.writes_whole_cons _ _ _ _).trans ?_
  refine (Cert.Proof.Math.Good.store (by rfl) $hr (by rfl) (by rfl) (by rfl) ?_).trans (Cert.Proof.Math.binsAfter_168 _)
  iterate 167 (refine Cert.Proof.Math.Good.step (by rfl) $hr (by rfl) (by rfl) (by rfl) ?_)
  first | exact Cert.Proof.Math.Good.base (by rfl) | exact Cert.Proof.Math.Good.base' (by rfl)))

end Cert.Proof.Math

end
-- ==== Proof.ScTac.lean ====
/-
  A small tactic for the trip proofs: the names a symbolic run gives the payloads of the copies it issues are opened one
  level, so that what a copy carries is visible as a reading of its source's contents.
-/
import Lean

open Lean Elab Tactic Meta

namespace Cert.Proof.KI

/-- Unfold, in the goal, every constant a run named `<decl>.sl.dma…` (the payload of a copy) to its body, once. -/
elab "unfold_run_dma" : tactic => do
  let g ← getMainGoal
  let isDma (n : Name) : Bool :=
    n.components.dropLast.any (· == `sl) && (match n with | .str _ last => last.startsWith "dma" | _ => false)
  let t ← instantiateMVars (← g.getType)
  let t' ← Meta.deltaExpand t isDma
  replaceMainGoal [← g.replaceTargetDefEq t']

end Cert.Proof.KI
-- ==== Proof.ScTripFirst.lean ====
/-
  One trip of the SparseCore kernel's counted loop, the first: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmt
import proofs.«205260_g26156350832969_cont_9to1_3_23_alg».proof.Proof.HistCollapse
import proofs.«205260_g26156350832969_cont_9to1_3_23_alg».proof.Proof.ScTac

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_first : TripFirstStmt (F := F) := by
  unfold TripFirstStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, Hh0, Hh1, Hh2, Hh3, G0, G1, G2, G3, R40, R41, R80, R81, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_first.sl.Hh0_343 d L X0 hX0) = histOf0 d L X0 := by hist_collapse hr0
  have e1 : (h1).view.writes (Elt F) HC1 (trip_first.sl.Hh1_343 d L X1 hX1) = histOf1 d L X1 := by hist_collapse hr1
  have e2 : (h2).view.writes (Elt F) HC2 (trip_first.sl.Hh2_343 d L X2 hX2) = histOf2 d L X2 := by hist_collapse hr2
  have e3 : (h3).view.writes (Elt F) HC3 (trip_first.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [F0]; · iexact F0
  isplitl [F1]; · iexact F1
  isplitl [F2]; · iexact F2
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (fun p hp => .inl hp))))

end Cert.Proof.KI
end
-- ==== Proof.ScTripMid.lean ====
/-
  One trip of the SparseCore kernel's counted loop, in the middle of the run: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmt
import proofs.«205260_g26156350832969_cont_9to1_3_23_alg».proof.Proof.HistCollapse
import proofs.«205260_g26156350832969_cont_9to1_3_23_alg».proof.Proof.ScTac

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_mid : TripMidStmt (F := F) := by
  unfold TripMidStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, G0, G1, G2, G3, Hh0, Hh1, Hh2, Hh3, R40, R41, R80, R81, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_mid.sl.Hh0_343 d L X0 hX0) = histOf0 d L X0 := by hist_collapse hr0
  have e1 : (h1).view.writes (Elt F) HC1 (trip_mid.sl.Hh1_343 d L X1 hX1) = histOf1 d L X1 := by hist_collapse hr1
  have e2 : (h2).view.writes (Elt F) HC2 (trip_mid.sl.Hh2_343 d L X2 hX2) = histOf2 d L X2 := by hist_collapse hr2
  have e3 : (h3).view.writes (Elt F) HC3 (trip_mid.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [G0_dst]; · iexact G0_dst
  isplitl [G1_dst]; · iexact G1_dst
  isplitl [G2_dst]; · iexact G2_dst
  isplitl [G3_dst]; · iexact G3_dst
  isplitl [F0]; · iexact F0
  isplitl [F1]; · iexact F1
  isplitl [F2]; · iexact F2
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (ins_none (ins_none (ins_none (ins_none (fun p hp => .inl hp))))))))

end Cert.Proof.KI
end
-- ==== Proof.ScTripLast.lean ====
/-
  One trip of the SparseCore kernel's counted loop, the last: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmt
import proofs.«205260_g26156350832969_cont_9to1_3_23_alg».proof.Proof.HistCollapse
import proofs.«205260_g26156350832969_cont_9to1_3_23_alg».proof.Proof.ScTac

set_option maxHeartbeats 4000000

noncomputable section
namespace Cert.Proof.KI
open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.KernelIdeal.main_v8_scv : Memref Cert.KernelIdeal.sig Kind.scVector Space.hbm Cert.KernelIdeal.S1024x1344 EltTy.i32)
local notation "a3" => (Memref.whole Cert.KernelIdeal.main_v20_scv : Memref Cert.KernelIdeal.sig Kind.scVector Space.hbm Cert.KernelIdeal.S1024x2688 EltTy.f32)
local notation "x0" => (Memref.whole Cert.KernelIdeal.cc0_scratch0 : Memref Cert.KernelIdeal.sig Kind.scVector Space.vmem Cert.KernelIdeal.S1344 EltTy.i32)
local notation "x1" => (Memref.whole Cert.KernelIdeal.cc0_scratch1 : Memref Cert.KernelIdeal.sig Kind.scVector Space.vmem Cert.KernelIdeal.S1344 EltTy.i32)
local notation "x2" => (Memref.whole Cert.KernelIdeal.cc0_scratch2 : Memref Cert.KernelIdeal.sig Kind.scVector Space.vmem Cert.KernelIdeal.S1344 EltTy.i32)
local notation "x3" => (Memref.whole Cert.KernelIdeal.cc0_scratch3 : Memref Cert.KernelIdeal.sig Kind.scVector Space.vmem Cert.KernelIdeal.S1344 EltTy.i32)
local notation "h0" => (Memref.whole Cert.KernelIdeal.cc0_scratch4 : Memref Cert.KernelIdeal.sig Kind.scVector Space.vmem Cert.KernelIdeal.S2800 EltTy.f32)
local notation "h1" => (Memref.whole Cert.KernelIdeal.cc0_scratch5 : Memref Cert.KernelIdeal.sig Kind.scVector Space.vmem Cert.KernelIdeal.S2800 EltTy.f32)
local notation "h2" => (Memref.whole Cert.KernelIdeal.cc0_scratch6 : Memref Cert.KernelIdeal.sig Kind.scVector Space.vmem Cert.KernelIdeal.S2800 EltTy.f32)
local notation "h3" => (Memref.whole Cert.KernelIdeal.cc0_scratch7 : Memref Cert.KernelIdeal.sig Kind.scVector Space.vmem Cert.KernelIdeal.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_last : TripLastStmt (F := F) := by
  unfold TripLastStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, G0, G1, G2, G3, Hh0, Hh1, Hh2, Hh3, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_last.sl.Hh0_343 d L X0 hX0) = histOf0 d L X0 := by hist_collapse hr0
  have e1 : (h1).view.writes (Elt F) HC1 (trip_last.sl.Hh1_343 d L X1 hX1) = histOf1 d L X1 := by hist_collapse hr1
  have e2 : (h2).view.writes (Elt F) HC2 (trip_last.sl.Hh2_343 d L X2 hX2) = histOf2 d L X2 := by hist_collapse hr2
  have e3 : (h3).view.writes (Elt F) HC3 (trip_last.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [G0_dst]; · iexact G0_dst
  isplitl [G1_dst]; · iexact G1_dst
  isplitl [G2_dst]; · iexact G2_dst
  isplitl [G3_dst]; · iexact G3_dst
  isplitl [F0_dst]; · iexact F0_dst
  isplitl [F0]; · iexact F0
  isplitl [F1_dst]; · iexact F1_dst
  isplitl [F1]; · iexact F1
  isplitl [F2_dst]; · iexact F2_dst
  isplitl [F2]; · iexact F2
  isplitl [F3_dst]; · iexact F3_dst
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (ins_none (ins_none (ins_none (ins_none (fun p hp => .inl hp))))))))

end Cert.Proof.KI
end
-- ==== Proof.ScTripFirstW.lean ====
/-
  One trip of the SparseCore kernel's counted loop, the first: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmtW
import proofs.«205260_g26156350832969_cont_9to1_3_23_alg».proof.Proof.HistCollapse
import proofs.«205260_g26156350832969_cont_9to1_3_23_alg».proof.Proof.ScTac

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_first : TripFirstStmt (F := F) := by
  unfold TripFirstStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, Hh0, Hh1, Hh2, Hh3, G0, G1, G2, G3, R40, R41, R80, R81, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_first.sl.Hh0_343 d L X0 hX0) = histOf0 d L X0 := by hist_collapse hr0
  have e1 : (h1).view.writes (Elt F) HC1 (trip_first.sl.Hh1_343 d L X1 hX1) = histOf1 d L X1 := by hist_collapse hr1
  have e2 : (h2).view.writes (Elt F) HC2 (trip_first.sl.Hh2_343 d L X2 hX2) = histOf2 d L X2 := by hist_collapse hr2
  have e3 : (h3).view.writes (Elt F) HC3 (trip_first.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [F0]; · iexact F0
  isplitl [F1]; · iexact F1
  isplitl [F2]; · iexact F2
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (fun p hp => .inl hp))))

end Cert.Proof.KW
end
-- ==== Proof.ScTripMidW.lean ====
/-
  One trip of the SparseCore kernel's counted loop, in the middle of the run: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmtW
import proofs.«205260_g26156350832969_cont_9to1_3_23_alg».proof.Proof.HistCollapse
import proofs.«205260_g26156350832969_cont_9to1_3_23_alg».proof.Proof.ScTac

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_mid : TripMidStmt (F := F) := by
  unfold TripMidStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, G0, G1, G2, G3, Hh0, Hh1, Hh2, Hh3, R40, R41, R80, R81, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_mid.sl.Hh0_343 d L X0 hX0) = histOf0 d L X0 := by hist_collapse hr0
  have e1 : (h1).view.writes (Elt F) HC1 (trip_mid.sl.Hh1_343 d L X1 hX1) = histOf1 d L X1 := by hist_collapse hr1
  have e2 : (h2).view.writes (Elt F) HC2 (trip_mid.sl.Hh2_343 d L X2 hX2) = histOf2 d L X2 := by hist_collapse hr2
  have e3 : (h3).view.writes (Elt F) HC3 (trip_mid.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [G0_dst]; · iexact G0_dst
  isplitl [G1_dst]; · iexact G1_dst
  isplitl [G2_dst]; · iexact G2_dst
  isplitl [G3_dst]; · iexact G3_dst
  isplitl [F0]; · iexact F0
  isplitl [F1]; · iexact F1
  isplitl [F2]; · iexact F2
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (ins_none (ins_none (ins_none (ins_none (fun p hp => .inl hp))))))))

end Cert.Proof.KW
end
-- ==== Proof.ScTripLastW.lean ====
/-
  One trip of the SparseCore kernel's counted loop, the last: the whole trip is run symbolically; each range check
  of an indexed store holds because the words it reads are a packed row's; each histogram scratch ends at the histogram of
  the row its index scratch held (the 175 zero stores, then the 168 indexed stores, collapse to the fold of the
  specification); the copies issued and waited for are the statement's flights.
-/
import proofs.«205260_g26156350832969_cont_9to1_3_23_alg».proof.Proof.ScTripStmtW
import proofs.«205260_g26156350832969_cont_9to1_3_23_alg».proof.Proof.HistCollapse
import proofs.«205260_g26156350832969_cont_9to1_3_23_alg».proof.Proof.ScTac

set_option maxHeartbeats 4000000

noncomputable section
namespace Cert.Proof.KW
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Math (RowPacked chk_lo chk_hi)

variable {F : FTy → Type} [FloatOps F]
local notation "𝕄" => MT nD τ sig (HIx 1) (Elt F) ℕ UU ℕ

local notation "a2" => (Memref.whole Cert.Kernel.main_v8_scv : Memref Cert.Kernel.sig Kind.scVector Space.hbm Cert.Kernel.S1024x1344 EltTy.i32)
local notation "a3" => (Memref.whole Cert.Kernel.main_v20_scv : Memref Cert.Kernel.sig Kind.scVector Space.hbm Cert.Kernel.S1024x2688 EltTy.f32)
local notation "x0" => (Memref.whole Cert.Kernel.cc0_scratch0 : Memref Cert.Kernel.sig Kind.scVector Space.vmem Cert.Kernel.S1344 EltTy.i32)
local notation "x1" => (Memref.whole Cert.Kernel.cc0_scratch1 : Memref Cert.Kernel.sig Kind.scVector Space.vmem Cert.Kernel.S1344 EltTy.i32)
local notation "x2" => (Memref.whole Cert.Kernel.cc0_scratch2 : Memref Cert.Kernel.sig Kind.scVector Space.vmem Cert.Kernel.S1344 EltTy.i32)
local notation "x3" => (Memref.whole Cert.Kernel.cc0_scratch3 : Memref Cert.Kernel.sig Kind.scVector Space.vmem Cert.Kernel.S1344 EltTy.i32)
local notation "h0" => (Memref.whole Cert.Kernel.cc0_scratch4 : Memref Cert.Kernel.sig Kind.scVector Space.vmem Cert.Kernel.S2800 EltTy.f32)
local notation "h1" => (Memref.whole Cert.Kernel.cc0_scratch5 : Memref Cert.Kernel.sig Kind.scVector Space.vmem Cert.Kernel.S2800 EltTy.f32)
local notation "h2" => (Memref.whole Cert.Kernel.cc0_scratch6 : Memref Cert.Kernel.sig Kind.scVector Space.vmem Cert.Kernel.S2800 EltTy.f32)
local notation "h3" => (Memref.whole Cert.Kernel.cc0_scratch7 : Memref Cert.Kernel.sig Kind.scVector Space.vmem Cert.Kernel.S2800 EltTy.f32)

/-- A wait recorded at the kernel's own index keeps the record of waits within what the launch allows. -/
private theorem ins_none {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem trip_last : TripLastStmt (F := F) := by
  unfold TripLastStmt
  intro d L O W k hc1 hc2 hc3 hc4 XP C50 C51 C90 C91 r0 r1 r2 r3 RX0 RX1 RX2 RX3 X0 X1 X2 X3 hX0 hX1 hX2 hX3 ro0 ro1 ro2 ro3 CO0 CO1 CO2 CO3 HC0 HC1 HC2 HC3 v2 Q
  iintro ⟨Hmw, F0, F1, F2, F3, G0, G1, G2, G3, Hh0, Hh1, Hh2, Hh3, O50, O51, O90, O91, HO, Hk⟩
  sl_unfold [k0_t1_body]
  sl_exec_parts (disch := bins_disch)
  sl_step
  have hr0 : ∀ n, Cert.Proof.ScSpec.InBins (Cert.Proof.Math.vecAt ((x0).view.read (Elt F) X0) n) :=
    Cert.Proof.Math.inBins_vecAt ((x0).view.read (Elt F) X0) (fun q => hX0 (ValueIdx.ix1 q))
  have hr1 : ∀ n, Cert.Proof.ScSpec.InBins (Cert.Proof.Math.vecAt ((x1).view.read (Elt F) X1) n) :=
    Cert.Proof.Math.inBins_vecAt ((x1).view.read (Elt F) X1) (fun q => hX1 (ValueIdx.ix1 q))
  have hr2 : ∀ n, Cert.Proof.ScSpec.InBins (Cert.Proof.Math.vecAt ((x2).view.read (Elt F) X2) n) :=
    Cert.Proof.Math.inBins_vecAt ((x2).view.read (Elt F) X2) (fun q => hX2 (ValueIdx.ix1 q))
  have hr3 : ∀ n, Cert.Proof.ScSpec.InBins (Cert.Proof.Math.vecAt ((x3).view.read (Elt F) X3) n) :=
    Cert.Proof.Math.inBins_vecAt ((x3).view.read (Elt F) X3) (fun q => hX3 (ValueIdx.ix1 q))
  have e0 : (h0).view.writes (Elt F) HC0 (trip_last.sl.Hh0_343 d L X0 hX0) = histOf0 d L X0 := by hist_collapse hr0
  have e1 : (h1).view.writes (Elt F) HC1 (trip_last.sl.Hh1_343 d L X1 hX1) = histOf1 d L X1 := by hist_collapse hr1
  have e2 : (h2).view.writes (Elt F) HC2 (trip_last.sl.Hh2_343 d L X2 hX2) = histOf2 d L X2 := by hist_collapse hr2
  have e3 : (h3).view.writes (Elt F) HC3 (trip_last.sl.Hh3_343 d L X3 hX3) = histOf3 d L X3 := by hist_collapse hr3
  unfold_run_dma
  rw [e0, e1, e2, e3]
  iapply Hk
  isplitl [Hmw]; · iexact Hmw
  isplitl [F0_src]; · iexact F0_src
  isplitl [F1_src]; · iexact F1_src
  isplitl [F2_src]; · iexact F2_src
  isplitl [F3_src]; · iexact F3_src
  isplitl [G0_dst]; · iexact G0_dst
  isplitl [G1_dst]; · iexact G1_dst
  isplitl [G2_dst]; · iexact G2_dst
  isplitl [G3_dst]; · iexact G3_dst
  isplitl [F0_dst]; · iexact F0_dst
  isplitl [F0]; · iexact F0
  isplitl [F1_dst]; · iexact F1_dst
  isplitl [F1]; · iexact F1
  isplitl [F2_dst]; · iexact F2_dst
  isplitl [F2]; · iexact F2
  isplitl [F3_dst]; · iexact F3_dst
  isplitl [F3]; · iexact F3
  isplitl [G0]; · iexact G0
  isplitl [Hh0]; · iexact Hh0
  isplitl [G1]; · iexact G1
  isplitl [Hh1]; · iexact Hh1
  isplitl [G2]; · iexact G2
  isplitl [Hh2]; · iexact Hh2
  isplitl [G3]; · iexact G3
  isplitl [Hh3]; · iexact Hh3
  iexists _; isplitr
  rotate_left
  · iexact HO
  · ipureintro; exact ins_none (ins_none (ins_none (ins_none (ins_none (ins_none (ins_none (ins_none (fun p hp => .inl hp))))))))

end Cert.Proof.KW
end
-- ==== Proof.RefOps.lean ====
/-
  The reference's operations in order, the lookups' bodies written out at each call over that call's buffers:
  once field by field (F0 … F25, then the closing operations Tl) and once in the five windows the program is printed in
  (W0 … W4).  The two groupings list the same operations.
-/
import proofs.«205260_g26156350832969_cont_9to1_3_23_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
abbrev F0 : List (HloOp τ sig (Elt F)) :=
  [ StableHlo.unary main_arg0 main_v0 ((extractStridedSlice S1024x100 ![0, 0] · slices_S1024x2626_S1024x100_0_0) : (⟨S1024x2626, .i32⟩ : BufTy).Contents (Elt F) → (⟨S1024x100, .i32⟩ : BufTy).Contents (Elt F)),
    StableHlo.unary main_arg2 main_v1 ((extractStridedSlice S1x100x1 ![0, 0, 0] · slices_S26x100x1_S1x100x1_0_0_0) : (⟨S26x100x1, .f32⟩ : BufTy).Contents (Elt F) → (⟨S1x100x1, .f32⟩ : BufTy).Contents (Elt F)),
    StableHlo.reshape main_v1 main_v2 rfl shapeCasts_S1x100x1_S100x1,
    StableHlo.TRef.nullary main_call0.c (constantI S_ 32 0#32),
    StableHlo.TRef.unary main_call0.c main_call0.v0 (broadcastInDim S1024x100 ![] bcast_S_S1024x100),
    StableHlo.TRef.binary (.of main_v0 : StableHlo.TRef sig ⟨S1024x100, .i32⟩) main_call0.v0 main_call0.v1 (cmpi .slt),
    StableHlo.TRef.nullary main_call0.c_0 (constantI S_ 32 100#32),
    StableHlo.TRef.unary main_call0.c_0 main_call0.v2 (broadcastInDim S1024x100 ![] bcast_S_S1024x100),
    StableHlo.TRef.binary (.of main_v0 : StableHlo.TRef sig ⟨S1024x100, .i32⟩) main_call0.v2 main_call0.v3 addi,
    StableHlo.TRef.ternary main_call0.v1 main_call0.v3 (.of main_v0 : StableHlo.TRef sig ⟨S1024x100, .i32⟩) main_call0.call0.v0 select,
    StableHlo.TRef.unary main_call0.call0.v0 main_call0.v5 (broadcastInDim S1024x100x1 ![0, 1] bcast_S1024x100_S1024x100x1_0_1),
    StableHlo.TRef.nullary main_call0.c_1 (constantI S1 32 99#32),
    StableHlo.TRef.nullary main_call0.c_2 (constantI S_ 32 0#32),
    StableHlo.TRef.unary main_call0.c_2 main_call0.v6 (broadcastInDim S1024x100x1 ![] bcast_S_S1024x100x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x100x1 ![0, 1, 2] bcast_S1x1x1_S1024x100x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x100x1_S1024x100_d2 h_S_),
    StableHlo.TRef.binary (.of main_v2 : StableHlo.TRef sig ⟨S100x1, .f32⟩) main_call0.v5 main_call0.v13 (fun x i => Host.gather gather_S100x1_S1024x100x1_S1024x100x1_2_0_n_n_0_2_11 x i),
    StableHlo.TRef.unary main_call0.v12 main_call0.v14 (broadcastInDim S1024x100x1 ![0, 1] bcast_S1024x100_S1024x100x1_0_1),
    StableHlo.TRef.nullary main_call0.cst (constant S_ .f32 0x7FC00000#32),
    StableHlo.TRef.unary main_call0.cst main_call0.v15 (broadcastInDim S1024x100x1 ![] bcast_S_S1024x100x1),
    StableHlo.TRef.ternary main_call0.v14 main_call0.v13 main_call0.v15 main_call0.v16 select,
    StableHlo.nullary main_cst (constant S_ .f32 0x00000000#32),
    StableHlo.binary main_v3 main_cst main_v4 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v5 ((extractStridedSlice S1x100x32 ![0, 0, 0] · slices_S26x100x32_S1x100x32_0_0_0) : (⟨S26x100x32, .f32⟩ : BufTy).Contents (Elt F) → (⟨S1x100x32, .f32⟩ : BufTy).Contents (Elt F)),
    StableHlo.reshape main_v5 main_v6 rfl shapeCasts_S1x100x32_S100x32,
    StableHlo.TRef.nullary main_call1.c (constantI S_ 32 0#32),
    StableHlo.TRef.unary main_call1.c main_call1.v0 (broadcastInDim S1024x100 ![] bcast_S_S1024x100),
    StableHlo.TRef.binary (.of main_v0 : StableHlo.TRef sig ⟨S1024x100, .i32⟩) main_call1.v0 main_call1.v1 (cmpi .slt),
    StableHlo.TRef.nullary main_call1.c_0 (constantI S_ 32 100#32),
    StableHlo.TRef.unary main_call1.c_0 main_call1.v2 (broadcastInDim S1024x100 ![] bcast_S_S1024x100),
    StableHlo.TRef.binary (.of main_v0 : StableHlo.TRef sig ⟨S1024x100, .i32⟩) main_call1.v2 main_call1.v3 addi,
    StableHlo.TRef.ternary main_call1.v1 main_call1.v3 (.of main_v0 : StableHlo.TRef sig ⟨S1024x100, .i32⟩) main_call1.call0.v0 select,
    StableHlo.TRef.unary main_call1.call0.v0 main_call1.v5 (broadcastInDim S1024x100x1 ![0, 1] bcast_S1024x100_S1024x100x1_0_1),
    StableHlo.TRef.nullary main_call1.c_1 (constantI S1 32 99#32),
    StableHlo.TRef.nullary main_call1.c_2 (constantI S_ 32 0#32),
    StableHlo.TRef.unary main_call1.c_2 main_call1.v6 (broadcastInDim S1024x100x1 ![] bcast_S_S1024x100x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x100x1 ![0, 1, 2] bcast_S1x1x1_S1024x100x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x100x1_S1024x100_d2 h_S_),
    StableHlo.TRef.binary (.of main_v6 : StableHlo.TRef sig ⟨S100x32, .f32⟩) main_call1.v5 main_call1.v13 (fun x i => Host.gather gather_S100x32_S1024x100x1_S1024x100x32_2_0_n_n_0_2_132 x i),
    StableHlo.TRef.unary main_call1.v12 main_call1.v14 (broadcastInDim S1024x100x32 ![0, 1] bcast_S1024x100_S1024x100x32_0_1),
    StableHlo.TRef.nullary main_call1.cst (constant S_ .f32 0x7FC00000#32),
    StableHlo.TRef.unary main_call1.cst main_call1.v15 (broadcastInDim S1024x100x32 ![] bcast_S_S1024x100x32),
    StableHlo.TRef.ternary main_call1.v14 main_call1.v13 main_call1.v15 main_call1.v16 select ]

abbrev F1 : List (HloOp τ sig (Elt F)) :=
  [ StableHlo.unary main_arg0 main_v8 ((extractStridedSlice S1024x100 ![0, 101] · slices_S1024x2626_S1024x100_0_101) : (⟨S1024x2626, .i32⟩ : BufTy).Contents (Elt F) → (⟨S1024x100, .i32⟩ : BufTy).Contents (Elt F)),
    StableHlo.unary main_arg2 main_v9 ((extractStridedSlice S1x100x1 ![1, 0, 0] · slices_S26x100x1_S1x100x1_1_0_0) : (⟨S26x100x1, .f32⟩ : BufTy).Contents (Elt F) → (⟨S1x100x1, .f32⟩ : BufTy).Contents (Elt F)),
    StableHlo.reshape main_v9 main_v10 rfl shapeCasts_S1x100x1_S100x1,
    StableHlo.TRef.nullary main_call2.c (constantI S_ 32 0#32),
    StableHlo.TRef.unary main_call2.c main_call2.v0 (broadcastInDim S1024x100 ![] bcast_S_S1024x100),
    StableHlo.TRef.binary (.of main_v8 : StableHlo.TRef sig ⟨S1024x100, .i32⟩) main_call2.v0 main_call2.v1 (cmpi .slt),
    StableHlo.TRef.nullary main_call2.c_0 (constantI S_ 32 100#32),
    StableHlo.TRef.unary main_call2.c_0 main_call2.v2 (broadcastInDim S1024x100 ![] bcast_S_S1024x100),
    StableHlo.TRef.binary (.of main_v8 : StableHlo.TRef sig ⟨S1024x100, .i32⟩) main_call2.v2 main_call2.v3 addi,
    StableHlo.TRef.ternary main_call2.v1 main_call2.v3 (.of main_v8 : StableHlo.TRef sig ⟨S1024x100, .i32⟩) main_call2.call0.v0 select,
    StableHlo.TRef.unary main_call2.call0.v0 main_call2.v5 (broadcastInDim S1024x100x1 ![0, 1] bcast_S1024x100_S1024x100x1_0_1),
    StableHlo.TRef.nullary main_call2.c_1 (constantI S1 32 99#32),
    StableHlo.TRef.nullary main_call2.c_2 (constantI S_ 32 0#32),
    StableHlo.TRef.unary main_call2.c_2 main_call2.v6 (broadcastInDim S1024x100x1 ![] bcast_S_S1024x100x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x100x1 ![0, 1, 2] bcast_S1x1x1_S1024x100x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x100x1_S1024x100_d2 h_S_),
    StableHlo.TRef.binary (.of main_v10 : StableHlo.TRef sig ⟨S100x1, .f32⟩) main_call2.v5 main_call2.v13 (fun x i => Host.gather gather_S100x1_S1024x100x1_S1024x100x1_2_0_n_n_0_2_11 x i),
    StableHlo.TRef.unary main_call2.v12 main_call2.v14 (broadcastInDim S1024x100x1 ![0, 1] bcast_S1024x100_S1024x100x1_0_1),
    StableHlo.TRef.nullary main_call2.cst (constant S_ .f32 0x7FC00000#32),
    StableHlo.TRef.unary main_call2.cst main_call2.v15 (broadcastInDim S1024x100x1 ![] bcast_S_S1024x100x1),
    StableHlo.TRef.ternary main_call2.v14 main_call2.v13 main_call2.v15 main_call2.v16 select,
    StableHlo.nullary main_cst_0 (constant S_ .f32 0x00000000#32),
    StableHlo.binary main_v11 main_cst_0 main_v12 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v13 ((extractStridedSlice S1x100x32 ![1, 0, 0] · slices_S26x100x32_S1x100x32_1_0_0) : (⟨S26x100x32, .f32⟩ : BufTy).Contents (Elt F) → (⟨S1x100x32, .f32⟩ : BufTy).Contents (Elt F)),
    StableHlo.reshape main_v13 main_v14 rfl shapeCasts_S1x100x32_S100x32,
    StableHlo.TRef.nullary main_call3.c (constantI S_ 32 0#32),
    StableHlo.TRef.unary main_call3.c main_call3.v0 (broadcastInDim S1024x100 ![] bcast_S_S1024x100),
    StableHlo.TRef.binary (.of main_v8 : StableHlo.TRef sig ⟨S1024x100, .i32⟩) main_call3.v0 main_call3.v1 (cmpi .slt),
    StableHlo.TRef.nullary main_call3.c_0 (constantI S_ 32 100#32),
    StableHlo.TRef.unary main_call3.c_0 main_call3.v2 (broadcastInDim S1024x100 ![] bcast_S_S1024x100),
    StableHlo.TRef.binary (.of main_v8 : StableHlo.TRef sig ⟨S1024x100, .i32⟩) main_call3.v2 main_call3.v3 addi,
    StableHlo.TRef.ternary main_call3.v1 main_call3.v3 (.of main_v8 : StableHlo.TRef sig ⟨S1024x100, .i32⟩) main_call3.call0.v0 select,
    StableHlo.TRef.unary main_call3.call0.v0 main_call3.v5 (broadcastInDim S1024x100x1 ![0, 1] bcast_S1024x100_S1024x100x1_0_1),
    StableHlo.TRef.nullary main_call3.c_1 (constantI S1 32 99#32),
    StableHlo.TRef.nullary main_call3.c_2 (constantI S_ 32 0#32),
    StableHlo.TRef.unary main_call3.c_2 main_call3.v6 (broadcastInDim S1024x100x1 ![] bcast_S_S1024x100x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S1024x100x1 ![0, 1, 2] bcast_S1x1x1_S1024x100x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1024x100x1_S1024x100_d2 h_S_),
    StableHlo.TRef.binary (.of main_v14 : StableHlo.TRef sig ⟨S100x32, .f32⟩) main_call3.v5 main_call3.v13 (fun x i => Host.gather gather_S100x32_S1024x100x1_S1024x100x32_2_0_n_n_0_2_132 x i),
    StableHlo.TRef.unary main_call3.v12 main_call3.v14 (broadcastInDim S1024x100x32 ![0, 1] bcast_S1024x100_S1024x100x32_0_1),
    StableHlo.TRef.nullary main_call3.cst (constant S_ .f32 0x7FC00000#32),
    StableHlo.TRef.unary main_call3.cst main_call3.v15 (broadcastInDim S1024x100x32 ![] bcast_S_S1024x100x32),
    StableHlo.TRef.ternary main_call3.v14 main_call3.v13 main_call3.v15 main_call3.v16 select ]

abbrev F2 : List (HloOp τ sig (Elt F)) :=
  [ StableHlo.unary main_arg0 main_v16 ((extractStridedSlice S1024x100 ![0, 202] · slices_S1024x2626_S1024x100_0_202) : (⟨S1024x2626, .i32⟩ : BufTy).Contents (Elt F) → (⟨S1024x100, .i32⟩ : BufTy).Contents (Elt F)),
    StableHlo.unary main_arg2 main_v17 ((extractStridedSlice S1x100x1 ![2, 0, 0] · slices_S26x100x1_S1x100x1_2_0_0) : (⟨S26x100x1, .f32⟩ : BufTy).Contents (Elt F) → (⟨S1x100x1, .f32⟩ : BufTy).Contents (Elt F)),
    StableHlo.reshape main_v17 main_v18 rfl shapeCasts_S1x100x1_S100x1,
    StableHlo.TRef.nullary main_call4.c (constantI S_ 32 0#32),
    StableHlo.TRef.unary main_call4.c main_call4.v0 (broadcastInDim S1024x100 ![] bcast_S_S1024x100),
    StableHlo.TRef.binary (.of main_v16 : StableHlo.TRef sig ⟨S1024x100, .i32⟩) main_call4.v0 main_call4.v1 (cmpi .slt),
    StableHlo.TRef.nullary main_call4.c_0 (constantI S_ 32 100#32),
    StableHlo.TRef.unary main_call4.c_0 main_call4.v2 (broadcastInDim S1024x100 ![] bcast_S_S1024x100),
    StableHlo.TRef.binary (.of main_v16 : StableHlo.TRef sig ⟨S1024x100, .i32⟩) main_call4.v2 main_call4.v3 addi,
    StableHlo.TRef.ternary main_call4.v1 main_call4.v3 (.of main_v16 : StableHlo.TRef sig ⟨S1024x100, .i32⟩) main_call4.call0.v0 select,
    StableHlo.TRef.unary main_call4.call0.v0 main_call4.v5 (broadcastInDim S1024x100x1 ![0, 1] bcast_S1024x100_S1024x100x1_0_1),
    StableHlo.TRef.nullary main_call4.c_1 (constantI S1 32 99#32),
    StableHlo.TRef.nullary main_call4.c_2 (constantI S_ 32 0#32),
    StableHlo.TRef.unary main_call4.c_2 main_call4.v6 (broadcastInDim S1024x100x1 ![] bcast_S_S1024x100x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S1024x100x1 ![0, 1, 2] bcast_S1x1x1_S1024x100x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1024x100x1_S1024x100_d2 h_S_),
    StableHlo.TRef.binary (.of main_v18 : StableHlo.TRef sig ⟨S100x1, .f32⟩) main_call4.v5 main_call4.v13 (fun x i => Host.gather gather_S100x1_S1024x100x1_S1024x100x1_2_0_n_n_0_2_11 x i),
    StableHlo.TRef.unary main_call4.v12 main_call4.v14 (broadcastInDim S1024x100x1 ![0, 1] bcast_S1024x100_S1024x100x1_0_1),
    StableHlo.TRef.nullary main_call4.cst (constant S_ .f32 0x7FC00000#32),
    StableHlo.TRef.unary main_call4.cst main_call4.v15 (broadcastInDim S1024x100x1 ![] bcast_S_S1024x100x1),
    StableHlo.TRef.ternary main_call4.v14 main_call4.v13 main_call4.v15 main_call4.v16 select,
    StableHlo.nullary main_cst_1 (constant S_ .f32 0x00000000#32),
    StableHlo.binary main_v19 main_cst_1 main_v20 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v21 ((extractStridedSlice S1x100x32 ![2, 0, 0] · slices_S26x100x32_S1x100x32_2_0_0) : (⟨S26x100x32, .f32⟩ : BufTy).Contents (Elt F) → (⟨S1x100x32, .f32⟩ : BufTy).Contents (Elt F)),
    StableHlo.reshape main_v21 main_v22 rfl shapeCasts_S1x100x32_S100x32,
    StableHlo.TRef.nullary main_call5.c (constantI S_ 32 0#32),
    StableHlo.TRef.unary main_call5.c main_call5.v0 (broadcastInDim S1024x100 ![] bcast_S_S1024x100),
    StableHlo.TRef.binary (.of main_v16 : StableHlo.TRef sig ⟨S1024x100, .i32⟩) main_call5.v0 main_call5.v1 (cmpi .slt),
    StableHlo.TRef.nullary main_call5.c_0 (constantI S_ 32 100#32),
    StableHlo.TRef.unary main_call5.c_0 main_call5.v2 (broadcastInDim S1024x100 ![] bcast_S_S1024x100),
    StableHlo.TRef.binary (.of main_v16 : StableHlo.TRef sig ⟨S1024x100, .i32⟩) main_call5.v2 main_call5.v3 addi,
    StableHlo.TRef.ternary main_call5.v1 main_call5.v3 (.of main_v16 : StableHlo.TRef sig ⟨S1024x100, .i32⟩) main_call5.call0.v0 select,
    StableHlo.TRef.unary main_call5.call0.v0 main_call5.v5 (broadcastInDim S1024x100x1 ![0, 1] bcast_S1024x100_S1024x100x1_0_1),
    StableHlo.TRef.nullary main_call5.c_1 (constantI S1 32 99#32),
    StableHlo.TRef.nullary main_call5.c_2 (constantI S_ 32 0#32),
    StableHlo.TRef.unary main_call5.c_2 main_call5.v6 (broadcastInDim S1024x100x1 ![] bcast_S_S1024x100x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x100x1 ![0, 1, 2] bcast_S1x1x1_S1024x100x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x100x1_S1024x100_d2 h_S_),
    StableHlo.TRef.binary (.of main_v22 : StableHlo.TRef sig ⟨S100x32, .f32⟩) main_call5.v5 main_call5.v13 (fun x i => Host.gather gather_S100x32_S1024x100x1_S1024x100x32_2_0_n_n_0_2_132 x i),
    StableHlo.TRef.unary main_call5.v12 main_call5.v14 (broadcastInDim S1024x100x32 ![0, 1] bcast_S1024x100_S1024x100x32_0_1),
    StableHlo.TRef.nullary main_call5.cst (constant S_ .f32 0x7FC00000#32),
    StableHlo.TRef.unary main_call5.cst main_call5.v15 (broadcastInDim S1024x100x32 ![] bcast_S_S1024x100x32),
    StableHlo.TRef.ternary main_call5.v14 main_call5.v13 main_call5.v15 main_call5.v16 select ]

abbrev F3 : List (HloOp τ sig (Elt F)) :=
  [ StableHlo.unary main_arg0 main_v24 ((extractStridedSlice S1024x100 ![0, 303] · slices_S1024x2626_S1024x100_0_303) : (⟨S1024x2626, .i32⟩ : BufTy).Contents (Elt F) → (⟨S1024x100, .i32⟩ : BufTy).Contents (Elt F)),
    StableHlo.unary main_arg2 main_v25 ((extractStridedSlice S1x100x1 ![3, 0, 0] · slices_S26x100x1_S1x100x1_3_0_0) : (⟨S26x100x1, .f32⟩ : BufTy).Contents (Elt F) → (⟨S1x100x1, .f32⟩ : BufTy).Contents (Elt F)),
    StableHlo.reshape main_v25 main_v26 rfl shapeCasts_S1x100x1_S100x1,
    StableHlo.TRef.nullary main_call6.c (constantI S_ 32 0#32),
    StableHlo.TRef.unary main_call6.c main_call6.v0 (broadcastInDim S1024x100 ![] bcast_S_S1024x100),
    StableHlo.TRef.binary (.of main_v24 : StableHlo.TRef sig ⟨S1024x100, .i32⟩) main_call6.v0 main_call6.v1 (cmpi .slt),
    StableHlo.TRef.nullary main_call6.c_0 (constantI S_ 32 100#32),
    StableHlo.TRef.unary main_call6.c_0 main_call6.v2 (broadcastInDim S1024x100 ![] bcast_S_S1024x100),
    StableHlo.TRef.binary (.of main_v24 : StableHlo.TRef sig ⟨S1024x100, .i32⟩) main_call6.v2 main_call6.v3 addi,
    StableHlo.TRef.ternary main_call6.v1 main_call6.v3 (.of main_v24 : StableHlo.TRef sig ⟨S1024x100, .i32⟩) main_call6.call0.v0 select,
    StableHlo.TRef.unary main_call6.call0.v0 main_call6.v5 (broadcastInDim S1024x100x1 ![0, 1] bcast_S1024x100_S1024x100x1_0_1),
    StableHlo.TRef.nullary main_call6.c_1 (constantI S1 32 99#32),
    StableHlo.TRef.nullary main_call6.c_2 (constantI S_ 32 0#32),
    StableHlo.TRef.unary main_call6.c_2 main_call6.v6 (broadcastInDim S1024x100x1 ![] bcast_S_S1024x100x1),
    StableHlo.TRef.binary main_call6.v5 main_call6.v6 main_call6.v7 (cmpi .sge),
    StableHlo.TRef.unary main_call6.c_1 main_call6.v8 (broadcastInDim S1x1x1 ![2] bcast_S1_S1x1x1_2),
    StableHlo.TRef.unary main_call6.v8 main_call6.v9 (broadcastInDim S1024x100x1 ![0, 1, 2] bcast_S1x1x1_S1024x100x1_0_1_2),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1024x100x1_S1024x100_d2 h_S_),
    StableHlo.TRef.binary (.of main_v26 : StableHlo.TRef sig ⟨S100x1, .f32⟩) main_call6.v5 main_call6.v13 (fun x i => Host.gather gather_S100x1_S1024x100x1_S1024x100x1_2_0_n_n_0_2_11 x i),
    StableHlo.TRef.unary main_call6.v12 main_call6.v14 (broadcastInDim S1024x100x1 ![0, 1] bcast_S1024x100_S1024x100x1_0_1),
    StableHlo.TRef.nullary main_call6.cst (constant S_ .f32 0x7FC00000#32),
    StableHlo.TRef.unary main_call6.cst main_call6.v15 (broadcastInDim S1024x100x1 ![] bcast_S_S1024x100x1),
    StableHlo.TRef.ternary main_call6.v14 main_call6.v13 main_call6.v15 main_call6.v16 select,
    StableHlo.nullary main_cst_2 (constant S_ .f32 0x00000000#32),
    StableHlo.binary main_v27 main_cst_2 main_v28 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v29 ((extractStridedSlice S1x100x32 ![3, 0, 0] · slices_S26x100x32_S1x100x32_3_0_0) : (⟨S26x100x32, .f32⟩ : BufTy).Contents (Elt F) → (⟨S1x100x32, .f32⟩ : BufTy).Contents (Elt F)),
    StableHlo.reshape main_v29 main_v30 rfl shapeCasts_S1x100x32_S100x32,
    StableHlo.TRef.nullary main_call7.c (constantI S_ 32 0#32),
    StableHlo.TRef.unary main_call7.c main_call7.v0 (broadcastInDim S1024x100 ![] bcast_S_S1024x100),
    StableHlo.TRef.binary (.of main_v24 : StableHlo.TRef sig ⟨S1024x100, .i32⟩) main_call7.v0 main_call7.v1 (cmpi .slt),
    StableHlo.TRef.nullary main_call7.c_0 (constantI S_ 32 100#32),
    StableHlo.TRef.unary main_call7.c_0 main_call7.v2 (broadcastInDim S1024x100 ![] bcast_S_S1024x100),
    StableHlo.TRef.binary (.of main_v24 : StableHlo.TRef sig ⟨S1024x100, .i32⟩) main_call7.v2 main_call7.v3 addi,
    StableHlo.TRef.ternary main_call7.v1 main_call7.v3 (.of main_v24 : StableHlo.TRef sig ⟨S1024x100, .i32⟩) main_call7.call0.v0 select,
    StableHlo.TRef.unary main_call7.call0.v0 main_call7.v5 (broadcastInDim S1024x100x1 ![0, 1] bcast_S1024x100_S1024x100x1_0_1),
    StableHlo.TRef.nullary main_call7.c_1 (constantI S1 32 99#32),
    StableHlo.TRef.nullary main_call7.c_2 (constantI S_ 32 0#32),
    StableHlo.TRef.unary main_call7.c_2 main_call7.v6 (broadcastInDim S1024x100x1 ![] bcast_S_S1024x100x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S1024x100x1 ![0, 1, 2] bcast_S1x1x1_S1024x100x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S1024x100x1_S1024x100_d2 h_S_),
    StableHlo.TRef.binary (.of main_v30 : StableHlo.TRef sig ⟨S100x32, .f32⟩) main_call7.v5 main_call7.v13 (fun x i => Host.gather gather_S100x32_S1024x100x1_S1024x100x32_2_0_n_n_0_2_132 x i),
    StableHlo.TRef.unary main_call7.v12 main_call7.v14 (broadcastInDim S1024x100x32 ![0, 1] bcast_S1024x100_S1024x100x32_0_1),
    StableHlo.TRef.nullary main_call7.cst (constant S_ .f32 0x7FC00000#32),
    StableHlo.TRef.unary main_call7.cst main_call7.v15 (broadcastInDim S1024x100x32 ![] bcast_S_S1024x100x32),
    StableHlo.TRef.ternary main_call7.v14 main_call7.v13 main_call7.v15 main_call7.v16 select ]

abbrev F4 : List (HloOp τ sig (Elt F)) :=
  [ StableHlo.unary main_arg0 main_v32 ((extractStridedSlice S1024x100 ![0, 404] · slices_S1024x2626_S1024x100_0_404) : (⟨S1024x2626, .i32⟩ : BufTy).Contents (Elt F) → (⟨S1024x100, .i32⟩ : BufTy).Contents (Elt F)),
    StableHlo.unary main_arg2 main_v33 ((extractStridedSlice S1x100x1 ![4, 0, 0] · slices_S26x100x1_S1x100x1_4_0_0) : (⟨S26x100x1, .f32⟩ : BufTy).Contents (Elt F) → (⟨S1x100x1, .f32⟩ : BufTy).Contents (Elt F)),
    StableHlo.reshape main_v33 main_v34 rfl shapeCasts_S1x100x1_S100x1,
    StableHlo.TRef.nullary main_call8.c (constantI S_ 32 0#32),
    StableHlo.TRef.unary main_call8.c main_call8.v0 (broadcastInDim S1024x100 ![] bcast_S_S1024x100),
    StableHlo.TRef.binary (.of main_v32 : StableHlo.TRef sig ⟨S1024x100, .i32⟩) main_call8.v0 main_call8.v1 (cmpi .slt),
    StableHlo.TRef.nullary main_call8.c_0 (constantI S_ 32 100#32),
    StableHlo.TRef.unary main_call8.c_0 main_call8.v2 (broadcastInDim S1024x100 ![] bcast_S_S1024x100),
    StableHlo.TRef.binary (.of main_v32 : StableHlo.TRef sig ⟨S1024x100, .i32⟩) main_call8.v2 main_call8.v3 addi,
    StableHlo.TRef.ternary main_call8.v1 main_call8.v3 (.of main_v32 : StableHlo.TRef sig ⟨S1024x100, .i32⟩) main_call8.call0.v0 select,
    StableHlo.TRef.unary main_call8.call0.v0 main_call8.v5 (broadcastInDim S1024x100x1 ![0, 1] bcast_S1024x100_S1024x100x1_0_1),
    StableHlo.TRef.nullary main_call8.c_1 (constantI S1 32 99#32),
    StableHlo.TRef.nullary main_call8.c_2 (constantI S_ 32 0#32),
    StableHlo.TRef.unary main_call8.c_2 main_call8.v6 (broadcastInDim S1024x100x1 ![] bcast_S_S1024x100x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S1024x100x1 ![0, 1, 2] bcast_S1x1x1_S1024x100x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1024x100x1_S1024x100_d2 h_S_),
    StableHlo.TRef.binary (.of main_v34 : StableHlo.TRef sig ⟨S100x1, .f32⟩) main_call8.v5 main_call8.v13 (fun x i => Host.gather gather_S100x1_S1024x100x1_S1024x100x1_2_0_n_n_0_2_11 x i),
    StableHlo.TRef.unary main_call8.v12 main_call8.v14 (broadcastInDim S1024x100x1 ![0, 1] bcast_S1024x100_S1024x100x1_0_1),
    StableHlo.TRef.nullary main_call8.cst (constant S_ .f32 0x7FC00000#32),
    StableHlo.TRef.unary main_call8.cst main_call8.v15 (broadcastInDim S1024x100x1 ![] bcast_S_S1024x100x1),
    StableHlo.TRef.ternary main_call8.v14 main_call8.v13 main_call8.v15 main_call8.v16 select,
    StableHlo.nullary main_cst_3 (constant S_ .f32 0x00000000#32),
    StableHlo.binary main_v35 main_cst_3 main_v36 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v37 ((extractStridedSlice S1x100x32 ![4, 0, 0] · slices_S26x100x32_S1x100x32_4_0_0) : (⟨S26x100x32, .f32⟩ : BufTy).Contents (Elt F) → (⟨S1x100x32, .f32⟩ : BufTy).Contents (Elt F)),
    StableHlo.reshape main_v37 main_v38 rfl shapeCasts_S1x100x32_S100x32,
    StableHlo.TRef.nullary main_call9.c (constantI S_ 32 0#32),
    StableHlo.TRef.unary main_call9.c main_call9.v0 (broadcastInDim S1024x100 ![] bcast_S_S1024x100),
    StableHlo.TRef.binary (.of main_v32 : StableHlo.TRef sig ⟨S1024x100, .i32⟩) main_call9.v0 main_call9.v1 (cmpi .slt),
    StableHlo.TRef.nullary main_call9.c_0 (constantI S_ 32 100#32),
    StableHlo.TRef.unary main_call9.c_0 main_call9.v2 (broadcastInDim S1024x100 ![] bcast_S_S1024x100),
    StableHlo.TRef.binary (.of main_v32 : StableHlo.TRef sig ⟨S1024x100, .i32⟩) main_call9.v2 main_call9.v3 addi,
    StableHlo.TRef.ternary main_call9.v1 main_call9.v3 (.of main_v32 : StableHlo.TRef sig ⟨S1024x100, .i32⟩) main_call9.call0.v0 select,
    StableHlo.TRef.unary main_call9.call0.v0 main_call9.v5 (broadcastInDim S1024x100x1 ![0, 1] bcast_S1024x100_S1024x100x1_0_1),
    StableHlo.TRef.nullary main_call9.c_1 (constantI S1 32 99#32),
    StableHlo.TRef.nullary main_call9.c_2 (constantI S_ 32 0#32),
    StableHlo.TRef.unary main_call9.c_2 main_call9.v6 (broadcastInDim S1024x100x1 ![] bcast_S_S1024x100x1),
    StableHlo.TRef.binary main_call9.v5 main_call9.v6 main_call9.v7 (cmpi .sge),
    StableHlo.TRef.unary main_call9.c_1 main_call9.v8 (broadcastInDim S1x1x1 ![2] bcast_S1_S1x1x1_2),
    StableHlo.TRef.unary main_call9.v8 main_call9.v9 (broadcastInDim S1024x100x1 ![0, 1, 2] bcast_S1x1x1_S1024x100x1_0_1_2),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S1024x100x1_S1024x100_d2 h_S_),
    StableHlo.TRef.binary (.of main_v38 : StableHlo.TRef sig ⟨S100x32, .f32⟩) main_call9.v5 main_call9.v13 (fun x i => Host.gather gather_S100x32_S1024x100x1_S1024x100x32_2_0_n_n_0_2_132 x i),
    StableHlo.TRef.unary main_call9.v12 main_call9.v14 (broadcastInDim S1024x100x32 ![0, 1] bcast_S1024x100_S1024x100x32_0_1),
    StableHlo.TRef.nullary main_call9.cst (constant S_ .f32 0x7FC00000#32),
    StableHlo.TRef.unary main_call9.cst main_call9.v15 (broadcastInDim S1024x100x32 ![] bcast_S_S1024x100x32),
    StableHlo.TRef.ternary main_call9.v14 main_call9.v13 main_call9.v15 main_call9.v16 select ]

abbrev F5 : List (HloOp τ sig (Elt F)) :=
  [ StableHlo.unary main_arg0 main_v40 ((extractStridedSlice S1024x100 ![0, 505] · slices_S1024x2626_S1024x100_0_505) : (⟨S1024x2626, .i32⟩ : BufTy).Contents (Elt F) → (⟨S1024x100, .i32⟩ : BufTy).Contents (Elt F)),
    StableHlo.unary main_arg2 main_v41 ((extractStridedSlice S1x100x1 ![5, 0, 0] · slices_S26x100x1_S1x100x1_5_0_0) : (⟨S26x100x1, .f32⟩ : BufTy).Contents (Elt F) → (⟨S1x100x1, .f32⟩ : BufTy).Contents (Elt F)),
    StableHlo.reshape main_v41 main_v42 rfl shapeCasts_S1x100x1_S100x1,
    StableHlo.TRef.nullary main_call10.c (constantI S_ 32 0#32),
    StableHlo.TRef.unary main_call10.c main_call10.v0 (broadcastInDim S1024x100 ![] bcast_S_S1024x100),
    StableHlo.TRef.binary (.of main_v40 : StableHlo.TRef sig ⟨S1024x100, .i32⟩) main_call10.v0 main_call10.v1 (cmpi .slt),
    StableHlo.TRef.nullary main_call10.c_0 (constantI S_ 32 100#32),
    StableHlo.TRef.unary main_call10.c_0 main_call10.v2 (broadcastInDim S1024x100 ![] bcast_S_S1024x100),
    StableHlo.TRef.binary (.of main_v40 : StableHlo.TRef sig ⟨S1024x100, .i32⟩) main_call10.v2 main_call10.v3 addi,
    StableHlo.TRef.ternary main_call10.v1 main_call10.v3 (.of main_v40 : StableHlo.TRef sig ⟨S1024x100, .i32⟩) main_call10.call0.v0 select,
    StableHlo.TRef.unary main_call10.call0.v0 main_call10.v5 (broadcastInDim S1024x100x1 ![0, 1] bcast_S1024x100_S1024x100x1_0_1),
    StableHlo.TRef.nullary main_call10.c_1 (constantI S1 32 99#32),
    StableHlo.TRef.nullary main_call10.c_2 (constantI S_ 32 0#32),
    StableHlo.TRef.unary main_call10.c_2 main_call10.v6 (broadcastInDim S1024x100x1 ![] bcast_S_S1024x100x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S1024x100x1 ![0, 1, 2] bcast_S1x1x1_S1024x100x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S1024x100x1_S1024x100_d2 h_S_),
    StableHlo.TRef.binary (.of main_v42 : StableHlo.TRef sig ⟨S100x1, .f32⟩) main_call10.v5 main_call10.v13 (fun x i => Host.gather gather_S100x1_S1024x100x1_S1024x100x1_2_0_n_n_0_2_11 x i),
    StableHlo.TRef.unary main_call10.v12 main_call10.v14 (broadcastInDim S1024x100x1 ![0, 1] bcast_S1024x100_S1024x100x1_0_1),
    StableHlo.TRef.nullary main_call10.cst (constant S_ .f32 0x7FC00000#32),
    StableHlo.TRef.unary main_call10.cst main_call10.v15 (broadcastInDim S1024x100x1 ![] bcast_S_S1024x100x1),
    StableHlo.TRef.ternary main_call10.v14 main_call10.v13 main_call10.v15 main_call10.v16 select,
    StableHlo.nullary main_cst_4 (constant S_ .f32 0x00000000#32),
    StableHlo.binary main_v43 main_cst_4 main_v44 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v45 ((extractStridedSlice S1x100x32 ![5, 0, 0] · slices_S26x100x32_S1x100x32_5_0_0) : (⟨S26x100x32, .f32⟩ : BufTy).Contents (Elt F) → (⟨S1x100x32, .f32⟩ : BufTy).Contents (Elt F)),
    StableHlo.reshape main_v45 main_v46 rfl shapeCasts_S1x100x32_S100x32,
    StableHlo.TRef.nullary main_call11.c (constantI S_ 32 0#32),
    StableHlo.TRef.unary main_call11.c main_call11.v0 (broadcastInDim S1024x100 ![] bcast_S_S1024x100),
    StableHlo.TRef.binary (.of main_v40 : StableHlo.TRef sig ⟨S1024x100, .i32⟩) main_call11.v0 main_call11.v1 (cmpi .slt),
    StableHlo.TRef.nullary main_call11.c_0 (constantI S_ 32 100#32),
    StableHlo.TRef.unary main_call11.c_0 main_call11.v2 (broadcastInDim S1024x100 ![] bcast_S_S1024x100),
    StableHlo.TRef.binary (.of main_v40 : StableHlo.TRef sig ⟨S1024x100, .i32⟩) main_call11.v2 main_call11.v3 addi,
    StableHlo.TRef.ternary main_call11.v1 main_call11.v3 (.of main_v40 : StableHlo.TRef sig ⟨S1024x100, .i32⟩) main_call11.call0.v0 select,
    StableHlo.TRef.unary main_call11.call0.v0 main_call11.v5 (broadcastInDim S1024x100x1 ![0, 1] bcast_S1024x100_S1024x100x1_0_1),
    StableHlo.TRef.nullary main_call11.c_1 (constantI S1 32 99#32),
    StableHlo.TRef.nullary main_call11.c_2 (constantI S_ 32 0#32),
    StableHlo.TRef.unary main_call11.c_2 main_call11.v6 (broadcastInDim S1024x100x1 ![] bcast_S_S1024x100x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S1024x100x1 ![0, 1, 2] bcast_S1x1x1_S1024x100x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1024x100x1_S1024x100_d2 h_S_),
    StableHlo.TRef.binary (.of main_v46 : StableHlo.TRef sig ⟨S100x32, .f32⟩) main_call11.v5 main_call11.v13 (fun x i => Host.gather gather_S100x32_S1024x100x1_S1024x100x32_2_0_n_n_0_2_132 x i),
    StableHlo.TRef.unary main_call11.v12 main_call11.v14 (broadcastInDim S1024x100x32 ![0, 1] bcast_S1024x100_S1024x100x32_0_1),
    StableHlo.TRef.nullary main_call11.cst (constant S_ .f32 0x7FC00000#32),
    StableHlo.TRef.unary main_call11.cst main_call11.v15 (broadcastInDim S1024x100x32 ![] bcast_S_S1024x100x32),
    StableHlo.TRef.ternary main_call11.v14 main_call11.v13 main_call11.v15 main_call11.v16 select ]

abbrev F6 : List (HloOp τ sig (Elt F)) :=
  [ StableHlo.unary main_arg0 main_v48 ((extractStridedSlice S1024x100 ![0, 606] · slices_S1024x2626_S1024x100_0_606) : (⟨S1024x2626, .i32⟩ : BufTy).Contents (Elt F) → (⟨S1024x100, .i32⟩ : BufTy).Contents (Elt F)),
    StableHlo.unary main_arg2 main_v49 ((extractStridedSlice S1x100x1 ![6, 0, 0] · slices_S26x100x1_S1x100x1_6_0_0) : (⟨S26x100x1, .f32⟩ : BufTy).Contents (Elt F) → (⟨S1x100x1, .f32⟩ : BufTy).Contents (Elt F)),
    StableHlo.reshape main_v49 main_v50 rfl shapeCasts_S1x100x1_S100x1,
    StableHlo.TRef.nullary main_call12.c (constantI S_ 32 0#32),
    StableHlo.TRef.unary main_call12.c main_call12.v0 (broadcastInDim S1024x100 ![] bcast_S_S1024x100),
    StableHlo.TRef.binary (.of main_v48 : StableHlo.TRef sig ⟨S1024x100, .i32⟩) main_call12.v0 main_call12.v1 (cmpi .slt),
    StableHlo.TRef.nullary main_call12.c_0 (constantI S_ 32 100#32),
    StableHlo.TRef.unary main_call12.c_0 main_call12.v2 (broadcastInDim S1024x100 ![] bcast_S_S1024x100),
    StableHlo.TRef.binary (.of main_v48 : StableHlo.TRef sig ⟨S1024x100, .i32⟩) main_call12.v2 main_call12.v3 addi,
    StableHlo.TRef.ternary main_call12.v1 main_call12.v3 (.of main_v48 : StableHlo.TRef sig ⟨S1024x100, .i32⟩) main_call12.call0.v0 select,
    StableHlo.TRef.unary main_call12.call0.v0 main_call12.v5 (broadcastInDim S1024x100x1 ![0, 1] bcast_S1024x100_S1024x100x1_0_1),
    StableHlo.TRef.nullary main_call12.c_1 (constantI S1 32 99#32),
    StableHlo.TRef.nullary main_call12.c_2 (constantI S_ 32 0#32),
    StableHlo.TRef.unary main_call12.c_2 main_call12.v6 (broadcastInDim S1024x100x1 ![] bcast_S_S1024x100x1),
    StableHlo.TRef.binary main_call12.v5 main_call12.v6 main_call12.v7 (cmpi .sge),
    StableHlo.TRef.unary main_call12.c_1 main_call12.v8 (broadcastInDim S1x1x1 ![2] bcast_S1_S1x1x1_2),
    StableHlo.TRef.unary main_call12.v8 main_call12.v9 (broadcastInDim S1024x100x1 ![0, 1, 2] bcast_S1x1x1_S1024x100x1_0_1_2),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S1024x100x1_S1024x100_d2 h_S_),
    StableHlo.TRef.binary (.of main_v50 : StableHlo.TRef sig ⟨S100x1, .f32⟩) main_call12.v5 main_call12.v13 (fun x i => Host.gather gather_S100x1_S1024x100x1_S1024x100x1_2_0_n_n_0_2_11 x i),
    StableHlo.TRef.unary main_call12.v12 main_call12.v14 (broadcastInDim S1024x100x1 ![0, 1] bcast_S1024x100_S1024x100x1_0_1),
    StableHlo.TRef.nullary main_call12.cst (constant S_ .f32 0x7FC00000#32),
    StableHlo.TRef.unary main_call12.cst main_call12.v15 (broadcastInDim S1024x100x1 ![] bcast_S_S1024x100x1),
    StableHlo.TRef.ternary main_call12.v14 main_call12.v13 main_call12.v15 main_call12.v16 select,
    StableHlo.nullary main_cst_5 (constant S_ .f32 0x00000000#32),
    StableHlo.binary main_v51 main_cst_5 main_v52 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v53 ((extractStridedSlice S1x100x32 ![6, 0, 0] · slices_S26x100x32_S1x100x32_6_0_0) : (⟨S26x100x32, .f32⟩ : BufTy).Contents (Elt F) → (⟨S1x100x32, .f32⟩ : BufTy).Contents (Elt F)),
    StableHlo.reshape main_v53 main_v54 rfl shapeCasts_S1x100x32_S100x32,
    StableHlo.TRef.nullary main_call13.c (constantI S_ 32 0#32),
    StableHlo.TRef.unary main_call13.c main_call13.v0 (broadcastInDim S1024x100 ![] bcast_S_S1024x100),
    StableHlo.TRef.binary (.of main_v48 : StableHlo.TRef sig ⟨S1024x100, .i32⟩) main_call13.v0 main_call13.v1 (cmpi .slt),
    StableHlo.TRef.nullary main_call13.c_0 (constantI S_ 32 100#32),
    StableHlo.TRef.unary main_call13.c_0 main_call13.v2 (broadcastInDim S1024x100 ![] bcast_S_S1024x100),
    StableHlo.TRef.binary (.of main_v48 : StableHlo.TRef sig ⟨S1024x100, .i32⟩) main_call13.v2 main_call13.v3 addi,
    StableHlo.TRef.ternary main_call13.v1 main_call13.v3 (.of main_v48 : StableHlo.TRef sig ⟨S1024x100, .i32⟩) main_call13.call0.v0 select,
    StableHlo.TRef.unary main_call13.call0.v0 main_call13.v5 (broadcastInDim S1024x100x1 ![0, 1] bcast_S1024x100_S1024x100x1_0_1),
    StableHlo.TRef.nullary main_call13.c_1 (constantI S1 32 99#32),
    StableHlo.TRef.nullary main_call13.c_2 (constantI S_ 32 0#32),
    StableHlo.TRef.unary main_call13.c_2 main_call13.v6 (broadcastInDim S1024x100x1 ![] bcast_S_S1024x100x1),
    StableHlo.TRef.binary main_call13.v5 main_call13.v6 main_call13.v7 (cmpi .sge),
    StableHlo.TRef.unary main_call13.c_1 main_call13.v8 (broadcastInDim S1x1x1 ![2] bcast_S1_S1x1x1_2),
    StableHlo.TRef.unary main_call13.v8 main_call13.v9 (broadcastInDim S1024x100x1 ![0, 1, 2] bcast_S1x1x1_S1024x100x1_0_1_2),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S1024x100x1_S1024x100_d2 h_S_),
    StableHlo.TRef.binary (.of main_v54 : StableHlo.TRef sig ⟨S100x32, .f32⟩) main_call13.v5 main_call13.v13 (fun x i => Host.gather gather_S100x32_S1024x100x1_S1024x100x32_2_0_n_n_0_2_132 x i),
    StableHlo.TRef.unary main_call13.v12 main_call13.v14 (broadcastInDim S1024x100x32 ![0, 1] bcast_S1024x100_S1024x100x32_0_1),
    StableHlo.TRef.nullary main_call13.cst (constant S_ .f32 0x7FC00000#32),
    StableHlo.TRef.unary main_call13.cst main_call13.v15 (broadcastInDim S1024x100x32 ![] bcast_S_S1024x100x32),
    StableHlo.TRef.ternary main_call13.v14 main_call13.v13 main_call13.v15 main_call13.v16 select ]

abbrev F7 : List (HloOp τ sig (Elt F)) :=
  [ StableHlo.unary main_arg0 main_v56 ((extractStridedSlice S1024x100 ![0, 707] · slices_S1024x2626_S1024x100_0_707) : (⟨S1024x2626, .i32⟩ : BufTy).Contents (Elt F) → (⟨S1024x100, .i32⟩ : BufTy).Contents (Elt F)),
    StableHlo.unary main_arg2 main_v57 ((extractStridedSlice S1x100x1 ![7, 0, 0] · slices_S26x100x1_S1x100x1_7_0_0) : (⟨S26x100x1, .f32⟩ : BufTy).Contents (Elt F) → (⟨S1x100x1, .f32⟩ : BufTy).Contents (Elt F)),
    StableHlo.reshape main_v57 main_v58 rfl shapeCasts_S1x100x1_S100x1,
    StableHlo.TRef.nullary main_call14.c (constantI S_ 32 0#32),
    StableHlo.TRef.unary main_call14.c main_call14.v0 (broadcastInDim S1024x100 ![] bcast_S_S1024x100),
    StableHlo.TRef.binary (.of main_v56 : StableHlo.TRef sig ⟨S1024x100, .i32⟩) main_call14.v0 main_call14.v1 (cmpi .slt),
    StableHlo.TRef.nullary main_call14.c_0 (constantI S_ 32 100#32),
    StableHlo.TRef.unary main_call14.c_0 main_call14.v2 (broadcastInDim S1024x100 ![] bcast_S_S1024x100),
    StableHlo.TRef.binary (.of main_v56 : StableHlo.TRef sig ⟨S1024x100, .i32⟩) main_call14.v2 main_call14.v3 addi,
    StableHlo.TRef.ternary main_call14.v1 main_call14.v3 (.of main_v56 : StableHlo.TRef sig ⟨S1024x100, .i32⟩) main_call14.call0.v0 select,
    StableHlo.TRef.unary main_call14.call0.v0 main_call14.v5 (broadcastInDim S1024x100x1 ![0, 1] bcast_S1024x100_S1024x100x1_0_1),
    StableHlo.TRef.nullary main_call14.c_1 (constantI S1 32 99#32),
    StableHlo.TRef.nullary main_call14.c_2 (constantI S_ 32 0#32),
    StableHlo.TRef.unary main_call14.c_2 main_call14.v6 (broadcastInDim S1024x100x1 ![] bcast_S_S1024x100x1),
    StableHlo.TRef.binary main_call14.v5 main_call14.v6 main_call14.v7 (cmpi .sge),
    StableHlo.TRef.unary main_call14.c_1 main_call14.v8 (broadcastInDim S1x1x1 ![2] bcast_S1_S1x1x1_2),
    StableHlo.TRef.unary main_call14.v8 main_call14.v9 (broadcastInDim S1024x100x1 ![0, 1, 2] bcast_S1x1x1_S1024x100x1_0_1_2),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S1024x100x1_S1024x100_d2 h_S_),
    StableHlo.TRef.binary (.of main_v58 : StableHlo.TRef sig ⟨S100x1, .f32⟩) main_call14.v5 main_call14.v13 (fun x i => Host.gather gather_S100x1_S1024x100x1_S1024x100x1_2_0_n_n_0_2_11 x i),
    StableHlo.TRef.unary main_call14.v12 main_call14.v14 (broadcastInDim S1024x100x1 ![0, 1] bcast_S1024x100_S1024x100x1_0_1),
    StableHlo.TRef.nullary main_call14.cst (constant S_ .f32 0x7FC00000#32),
    StableHlo.TRef.unary main_call14.cst main_call14.v15 (broadcastInDim S1024x100x1 ![] bcast_S_S1024x100x1),
    StableHlo.TRef.ternary main_call14.v14 main_call14.v13 main_call14.v15 main_call14.v16 select,
    StableHlo.nullary main_cst_6 (constant S_ .f32 0x00000000#32),
    StableHlo.binary main_v59 main_cst_6 main_v60 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v61 ((extractStridedSlice S1x100x32 ![7, 0, 0] · slices_S26x100x32_S1x100x32_7_0_0) : (⟨S26x100x32, .f32⟩ : BufTy).Contents (Elt F) → (⟨S1x100x32, .f32⟩ : BufTy).Contents (Elt F)),
    StableHlo.reshape main_v61 main_v62 rfl shapeCasts_S1x100x32_S100x32,
    StableHlo.TRef.nullary main_call15.c (constantI S_ 32 0#32),
    StableHlo.TRef.unary main_call15.c main_call15.v0 (broadcastInDim S1024x100 ![] bcast_S_S1024x100),
    StableHlo.TRef.binary (.of main_v56 : StableHlo.TRef sig ⟨S1024x100, .i32⟩) main_call15.v0 main_call15.v1 (cmpi .slt),
    StableHlo.TRef.nullary main_call15.c_0 (constantI S_ 32 100#32),
    StableHlo.TRef.unary main_call15.c_0 main_call15.v2 (broadcastInDim S1024x100 ![] bcast_S_S1024x100),
    StableHlo.TRef.binary (.of main_v56 : StableHlo.TRef sig ⟨S1024x100, .i32⟩) main_call15.v2 main_call15.v3 addi,
    StableHlo.TRef.ternary main_call15.v1 main_call15.v3 (.of main_v56 : StableHlo.TRef sig ⟨S1024x100, .i32⟩) main_call15.call0.v0 select,
    StableHlo.TRef.unary main_call15.call0.v0 main_call15.v5 (broadcastInDim S1024x100x1 ![0, 1] bcast_S1024x100_S1024x100x1_0_1),
    StableHlo.TRef.nullary main_call15.c_1 (constantI S1 32 99#32),
    StableHlo.TRef.nullary main_call15.c_2 (constantI S_ 32 0#32),
    StableHlo.TRef.unary main_call15.c_2 main_call15.v6 (broadcastInDim S1024x100x1 ![] bcast_S_S1024x100x1),
    StableHlo.TRef.binary main_call15.v5 main_call15.v6 main_call15.v7 (cmpi .sge),
    StableHlo.TRef.unary main_call15.c_1 main_call15.v8 (broadcastInDim S1x1x1 ![2] bcast_S1_S1x1x1_2),
    StableHlo.TRef.unary main_call15.v8 main_call15.v9 (broadcastInDim S1024x100x1 ![0, 1, 2] bcast_S1x1x1_S1024x100x1_0_1_2),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S1024x100x1_S1024x100_d2 h_S_),
    StableHlo.TRef.binary (.of main_v62 : StableHlo.TRef sig ⟨S100x32, .f32⟩) main_call15.v5 main_call15.v13 (fun x i => Host.gather gather_S100x32_S1024x100x1_S1024x100x32_2_0_n_n_0_2_132 x i),
    StableHlo.TRef.unary main_call15.v12 main_call15.v14 (broadcastInDim S1024x100x32 ![0, 1] bcast_S1024x100_S1024x100x32_0_1),
    StableHlo.TRef.nullary main_call15.cst (constant S_ .f32 0x7FC00000#32),
    StableHlo.TRef.unary main_call15.cst main_call15.v15 (broadcastInDim S1024x100x32 ![] bcast_S_S1024x100x32),
    StableHlo.TRef.ternary main_call15.v14 main_call15.v13 main_call15.v15 main_call15.v16 select ]

abbrev F8 : List (HloOp τ sig (Elt F)) :=
  [ StableHlo.unary main_arg0 main_v64 ((extractStridedSlice S1024x100 ![0, 808] · slices_S1024x2626_S1024x100_0_808) : (⟨S1024x2626, .i32⟩ : BufTy).Contents (Elt F) → (⟨S1024x100, .i32⟩ : BufTy).Contents (Elt F)),
    StableHlo.unary main_arg2 main_v65 ((extractStridedSlice S1x100x1 ![8, 0, 0] · slices_S26x100x1_S1x100x1_8_0_0) : (⟨S26x100x1, .f32⟩ : BufTy).Contents (Elt F) → (⟨S1x100x1, .f32⟩ : BufTy).Contents (Elt F)),
    StableHlo.reshape main_v65 main_v66 rfl shapeCasts_S1x100x1_S100x1,
    StableHlo.TRef.nullary main_call16.c (constantI S_ 32 0#32),
    StableHlo.TRef.unary main_call16.c main_call16.v0 (broadcastInDim S1024x100 ![] bcast_S_S1024x100),
    StableHlo.TRef.binary (.of main_v64 : StableHlo.TRef sig ⟨S1024x100, .i32⟩) main_call16.v0 main_call16.v1 (cmpi .slt),
    StableHlo.TRef.nullary main_call16.c_0 (constantI S_ 32 100#32),
    StableHlo.TRef.unary main_call16.c_0 main_call16.v2 (broadcastInDim S1024x100 ![] bcast_S_S1024x100),
    StableHlo.TRef.binary (.of main_v64 : StableHlo.TRef sig ⟨S1024x100, .i32⟩) main_call16.v2 main_call16.v3 addi,
    StableHlo.TRef.ternary main_call16.v1 main_call16.v3 (.of main_v64 : StableHlo.TRef sig ⟨S1024x100, .i32⟩) main_call16.call0.v0 select,
    StableHlo.TRef.unary main_call16.call0.v0 main_call16.v5 (broadcastInDim S1024x100x1 ![0, 1] bcast_S1024x100_S1024x100x1_0_1),
    StableHlo.TRef.nullary main_call16.c_1 (constantI S1 32 99#32),
    StableHlo.TRef.nullary main_call16.c_2 (constantI S_ 32 0#32),
    StableHlo.TRef.unary main_call16.c_2 main_call16.v6 (broadcastInDim S1024x100x1 ![] bcast_S_S1024x100x1),
    StableHlo.TRef.binary main_call16.v5 main_call16.v6 main_call16.v7 (cmpi .sge),
    StableHlo.TRef.unary main_call16.c_1 main_call16.v8 (broadcastInDim S1x1x1 ![2] bcast_S1_S1x1x1_2),
    StableHlo.TRef.unary main_call16.v8 main_call16.v9 (broadcastInDim S1024x100x1 ![0, 1, 2] bcast_S1x1x1_S1024x100x1_0_1_2),
    StableHlo.TRef.binary main_call16.v5 main_call16.v9 main_call16.v10 (cmpi .sle),
    StableHlo.TRef.binary main_call16.v7 main_call16.v10 main_call16.v11 andi,
    StableHlo.TRef.nullary main_call16.c_3 (constantI S_ 1 1#1),
    StableHlo.TRef.binary main_call16.v11 main_call16.c_3 main_call16.v12 (fun x v => Host.reduce IntOp.andi x v reducesTo_S1024x100x1_S1024x100_d2 h_S_),
    StableHlo.TRef.binary (.of main_v66 : StableHlo.TRef sig ⟨S100x1, .f32⟩) main_call16.v5 main_call16.v13 (fun x i => Host.gather gather_S100x1_S1024x100x1_S1024x100x1_2_0_n_n_0_2_11 x i),
    StableHlo.TRef.unary main_call16.v12 main_call16.v14 (broadcastInDim S1024x100x1 ![0, 1] bcast_S1024x100_S1024x100x1_0_1),
    StableHlo.TRef.nullary main_call16.cst (constant S_ .f32 0x7FC00000#32),
    StableHlo.TRef.unary main_call16.cst main_call16.v15 (broadcastInDim S1024x100x1 ![] bcast_S_S1024x100x1),
    StableHlo.TRef.ternary main_call16.v14 main_call16.v13 main_call16.v15 main_call16.v16 select,
    StableHlo.nullary main_cst_7 (constant S_ .f32 0x00000000#32),
    StableHlo.binary main_v67 main_cst_7 main_v68 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v69 ((extractStridedSlice S1x100x32 ![8, 0, 0] · slices_S26x100x32_S1x100x32_8_0_0) : (⟨S26x100x32, .f32⟩ : BufTy).Contents (Elt F) → (⟨S1x100x32, .f32⟩ : BufTy).Contents (Elt F)),
    StableHlo.reshape main_v69 main_v70 rfl shapeCasts_S1x100x32_S100x32,
    StableHlo.TRef.nullary main_call17.c (constantI S_ 32 0#32),
    StableHlo.TRef.unary main_call17.c main_call17.v0 (broadcastInDim S1024x100 ![] bcast_S_S1024x100),
    StableHlo.TRef.binary (.of main_v64 : StableHlo.TRef sig ⟨S1024x100, .i32⟩) main_call17.v0 main_call17.v1 (cmpi .slt),
    StableHlo.TRef.nullary main_call17.c_0 (constantI S_ 32 100#32),
    StableHlo.TRef.unary main_call17.c_0 main_call17.v2 (broadcastInDim S1024x100 ![] bcast_S_S1024x100),
    StableHlo.TRef.binary (.of main_v64 : StableHlo.TRef sig ⟨S1024x100, .i32⟩) main_call17.v2 main_call17.v3 addi,
    StableHlo.TRef.ternary main_call17.v1 main_call17.v3 (.of main_v64 : StableHlo.TRef sig ⟨S1024x100, .i32⟩) main_call17.call0.v0 select,
    StableHlo.TRef.unary main_call17.call0.v0 main_call17.v5 (broadcastInDim S1024x100x1 ![0, 1] bcast_S1024x100_S1024x100x1_0_1),
    StableHlo.TRef.nullary main_call17.c_1 (constantI S1 32 99#32),
    StableHlo.TRef.nullary main_call17.c_2 (constantI S_ 32 0#32),
    StableHlo.TRef.unary main_call17.c_2 main_call17.v6 (broadcastInDim S1024x100x1 ![] bcast_S_S1024x100x1),
    StableHlo.TRef.binary main_call17.v5 main_call17.v6 main_call17.v7 (cmpi .sge),
    StableHlo.TRef.unary main_call17.c_1 main_call17.v8 (broadcastInDim S1x1x1 ![2] bcast_S1_S1x1x1_2),
    StableHlo.TRef.unary main_call17.v8 main_call17.v9 (broadcastInDim S1024x100x1 ![0, 1, 2] bcast_S1x1x1_S1024x100x1_0_1_2),
    StableHlo.TRef.binary main_call17.v5 main_call17.v9 main_call17.v10 (cmpi .sle),
    StableHlo.TRef.binary main_call17.v7 main_call17.v10 main_call17.v11 andi,
    StableHlo.TRef.nullary main_call17.c_3 (constantI S_ 1 1#1),
    StableHlo.TRef.binary main_call17.v11 main_call17.c_3 main_call17.v12 (fun x v => Host.reduce IntOp.andi x v reducesTo_S1024x100x1_S1024x100_d2 h_S_),
    StableHlo.TRef.binary (.of main_v70 : StableHlo.TRef sig ⟨S100x32, .f32⟩) main_call17.v5 main_call17.v13 (fun x i => Host.gather gather_S100x32_S1024x100x1_S1024x100x32_2_0_n_n_0_2_132 x i),
    StableHlo.TRef.unary main_call17.v12 main_call17.v14 (broadcastInDim S1024x100x32 ![0, 1] bcast_S1024x100_S1024x100x32_0_1),
    StableHlo.TRef.nullary main_call17.cst (constant S_ .f32 0x7FC00000#32),
    StableHlo.TRef.unary main_call17.cst main_call17.v15 (broadcastInDim S1024x100x32 ![] bcast_S_S1024x100x32),
    StableHlo.TRef.ternary main_call17.v14 main_call17.v13 main_call17.v15 main_call17.v16 select ]

abbrev F9 : List (HloOp τ sig (Elt F)) :=
  [ StableHlo.unary main_arg0 main_v72 ((extractStridedSlice S1024x100 ![0, 909] · slices_S1024x2626_S1024x100_0_909) : (⟨S1024x2626, .i32⟩ : BufTy).Contents (Elt F) → (⟨S1024x100, .i32⟩ : BufTy).Contents (Elt F)),
    StableHlo.unary main_arg2 main_v73 ((extractStridedSlice S1x100x1 ![9, 0, 0] · slices_S26x100x1_S1x100x1_9_0_0) : (⟨S26x100x1, .f32⟩ : BufTy).Contents (Elt F) → (⟨S1x100x1, .f32⟩ : BufTy).Contents (Elt F)),
    StableHlo.reshape main_v73 main_v74 rfl shapeCasts_S1x100x1_S100x1,
    StableHlo.TRef.nullary main_call18.c (constantI S_ 32 0#32),
    StableHlo.TRef.unary main_call18.c main_call18.v0 (broadcastInDim S1024x100 ![] bcast_S_S1024x100),
    StableHlo.TRef.binary (.of main_v72 : StableHlo.TRef sig ⟨S1024x100, .i32⟩) main_call18.v0 main_call18.v1 (cmpi .slt),
    StableHlo.TRef.nullary main_call18.c_0 (constantI S_ 32 100#32),
    StableHlo.TRef.unary main_call18.c_0 main_call18.v2 (broadcastInDim S1024x100 ![] bcast_S_S1024x100),
    StableHlo.TRef.binary (.of main_v72 : StableHlo.TRef sig ⟨S1024x100, .i32⟩) main_call18.v2 main_call18.v3 addi,
    StableHlo.TRef.ternary main_call18.v1 main_call18.v3 (.of main_v72 : StableHlo.TRef sig ⟨S1024x100, .i32⟩) main_call18.call0.v0 select,
    StableHlo.TRef.unary main_call18.call0.v0 main_call18.v5 (broadcastInDim S1024x100x1 ![0, 1] bcast_S1024x100_S1024x100x1_0_1),
    StableHlo.TRef.nullary main_call18.c_1 (constantI S1 32 99#32),
    StableHlo.TRef.nullary main_call18.c_2 (constantI S_ 32 0#32),
    StableHlo.TRef.unary main_call18.c_2 main_call18.v6 (broadcastInDim S1024x100x1 ![] bcast_S_S1024x100x1),
    StableHlo.TRef.binary main_call18.v5 main_call18.v6 main_call18.v7 (cmpi .sge),
    StableHlo.TRef.unary main_call18.c_1 main_call18.v8 (broadcastInDim S1x1x1 ![2] bcast_S1_S1x1x1_2),
    StableHlo.TRef.unary main_call18.v8 main_call18.v9 (broadcastInDim S1024x100x1 ![0, 1, 2] bcast_S1x1x1_S1024x100x1_0_1_2),
    StableHlo.TRef.binary main_call18.v5 main_call18.v9 main_call18.v10 (cmpi .sle),
    StableHlo.TRef.binary main_call18.v7 main_call18.v10 main_call18.v11 andi,
    StableHlo.TRef.nullary main_call18.c_3 (constantI S_ 1 1#1),
    StableHlo.TRef.binary main_call18.v11 main_call18.c_3 main_call18.v12 (fun x v => Host.reduce IntOp.andi x v reducesTo_S1024x100x1_S1024x100_d2 h_S_),
    StableHlo.TRef.binary (.of main_v74 : StableHlo.TRef sig ⟨S100x1, .f32⟩) main_call18.v5 main_call18.v13 (fun x i => Host.gather gather_S100x1_S1024x100x1_S1024x100x1_2_0_n_n_0_2_11 x i),
    StableHlo.TRef.unary main_call18.v12 main_call18.v14 (broadcastInDim S1024x100x1 ![0, 1] bcast_S1024x100_S1024x100x1_0_1),
    StableHlo.TRef.nullary main_call18.cst (constant S_ .f32 0x7FC00000#32),
    StableHlo.TRef.unary main_call18.cst main_call18.v15 (broadcastInDim S1024x100x1 ![] bcast_S_S1024x100x1),
    StableHlo.TRef.ternary main_call18.v14 main_call18.v13 main_call18.v15 main_call18.v16 select,
    StableHlo.nullary main_cst_8 (constant S_ .f32 0x00000000#32),
    StableHlo.binary main_v75 main_cst_8 main_v76 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v77 ((extractStridedSlice S1x100x32 ![9, 0, 0] · slices_S26x100x32_S1x100x32_9_0_0) : (⟨S26x100x32, .f32⟩ : BufTy).Contents (Elt F) → (⟨S1x100x32, .f32⟩ : BufTy).Contents (Elt F)),
    StableHlo.reshape main_v77 main_v78 rfl shapeCasts_S1x100x32_S100x32,
    StableHlo.TRef.nullary main_call19.c (constantI S_ 32 0#32),
    StableHlo.TRef.unary main_call19.c main_call19.v0 (broadcastInDim S1024x100 ![] bcast_S_S1024x100),
    StableHlo.TRef.binary (.of main_v72 : StableHlo.TRef sig ⟨S1024x100, .i32⟩) main_call19.v0 main_call19.v1 (cmpi .slt),
    StableHlo.TRef.nullary main_call19.c_0 (constantI S_ 32 100#32),
    StableHlo.TRef.unary main_call19.c_0 main_call19.v2 (broadcastInDim S1024x100 ![] bcast_S_S1024x100),
    StableHlo.TRef.binary (.of main_v72 : StableHlo.TRef sig ⟨S1024x100, .i32⟩) main_call19.v2 main_call19.v3 addi,
    StableHlo.TRef.ternary main_call19.v1 main_call19.v3 (.of main_v72 : StableHlo.TRef sig ⟨S1024x100, .i32⟩) main_call19.call0.v0 select,
    StableHlo.TRef.unary main_call19.call0.v0 main_call19.v5 (broadcastInDim S1024x100x1 ![0, 1] bcast_S1024x100_S1024x100x1_0_1),
    StableHlo.TRef.nullary main_call19.c_1 (constantI S1 32 99#32),
    StableHlo.TRef.nullary main_call19.c_2 (constantI S_ 32 0#32),
    StableHlo.TRef.unary main_call19.c_2 main_call19.v6 (broadcastInDim S1024x100x1 ![] bcast_S_S1024x100x1),
    StableHlo.TRef.binary main_call19.v5 main_call19.v6 main_call19.v7 (cmpi .sge),
    StableHlo.TRef.unary main_call19.c_1 main_call19.v8 (broadcastInDim S1x1x1 ![2] bcast_S1_S1x1x1_2),
    StableHlo.TRef.unary main_call19.v8 main_call19.v9 (broadcastInDim S1024x100x1 ![0, 1, 2] bcast_S1x1x1_S1024x100x1_0_1_2),
    StableHlo.TRef.binary main_call19.v5 main_call19.v9 main_call19.v10 (cmpi .sle),
    StableHlo.TRef.binary main_call19.v7 main_call19.v10 main_call19.v11 andi,
    StableHlo.TRef.nullary main_call19.c_3 (constantI S_ 1 1#1),
    StableHlo.TRef.binary main_call19.v11 main_call19.c_3 main_call19.v12 (fun x v => Host.reduce IntOp.andi x v reducesTo_S1024x100x1_S1024x100_d2 h_S_),
    StableHlo.TRef.binary (.of main_v78 : StableHlo.TRef sig ⟨S100x32, .f32⟩) main_call19.v5 main_call19.v13 (fun x i => Host.gather gather_S100x32_S1024x100x1_S1024x100x32_2_0_n_n_0_2_132 x i),
    StableHlo.TRef.unary main_call19.v12 main_call19.v14 (broadcastInDim S1024x100x32 ![0, 1] bcast_S1024x100_S1024x100x32_0_1),
    StableHlo.TRef.nullary main_call19.cst (constant S_ .f32 0x7FC00000#32),
    StableHlo.TRef.unary main_call19.cst main_call19.v15 (broadcastInDim S1024x100x32 ![] bcast_S_S1024x100x32),
    StableHlo.TRef.ternary main_call19.v14 main_call19.v13 main_call19.v15 main_call19.v16 select ]

abbrev F10 : List (HloOp τ sig (Elt F)) :=
  [ StableHlo.unary main_arg0 main_v80 ((extractStridedSlice S1024x100 ![0, 1010] · slices_S1024x2626_S1024x100_0_1010) : (⟨S1024x2626, .i32⟩ : BufTy).Contents (Elt F) → (⟨S1024x100, .i32⟩ : BufTy).Contents (Elt F)),
    StableHlo.unary main_arg2 main_v81 ((extractStridedSlice S1x100x1 ![10, 0, 0] · slices_S26x100x1_S1x100x1_10_0_0) : (⟨S26x100x1, .f32⟩ : BufTy).Contents (Elt F) → (⟨S1x100x1, .f32⟩ : BufTy).Contents (Elt F)),
    StableHlo.reshape main_v81 main_v82 rfl shapeCasts_S1x100x1_S100x1,
    StableHlo.TRef.nullary main_call20.c (constantI S_ 32 0#32),
    StableHlo.TRef.unary main_call20.c main_call20.v0 (broadcastInDim S1024x100 ![] bcast_S_S1024x100),
    StableHlo.TRef.binary (.of main_v80 : StableHlo.TRef sig ⟨S1024x100, .i32⟩) main_call20.v0 main_call20.v1 (cmpi .slt),
    StableHlo.TRef.nullary main_call20.c_0 (constantI S_ 32 100#32),
    StableHlo.TRef.unary main_call20.c_0 main_call20.v2 (broadcastInDim S1024x100 ![] bcast_S_S1024x100),
    StableHlo.TRef.binary (.of main_v80 : StableHlo.TRef sig ⟨S1024x100, .i32⟩) main_call20.v2 main_call20.v3 addi,
    StableHlo.TRef.ternary main_call20.v1 main_call20.v3 (.of main_v80 : StableHlo.TRef sig ⟨S1024x100, .i32⟩) main_call20.call0.v0 select,
    StableHlo.TRef.unary main_call20.call0.v0 main_call20.v5 (broadcastInDim S1024x100x1 ![0, 1] bcast_S1024x100_S1024x100x1_0_1),
    StableHlo.TRef.nullary main_call20.c_1 (constantI S1 32 99#32),
    StableHlo.TRef.nullary main_call20.c_2 (constantI S_ 32 0#32),
    StableHlo.TRef.unary main_call20.c_2 main_call20.v6 (broadcastInDim S1024x100x1 ![] bcast_S_S1024x100x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S1024x100x1 ![0, 1, 2] bcast_S1x1x1_S1024x100x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S1024x100x1_S1024x100_d2 h_S_),
    StableHlo.TRef.binary (.of main_v82 : StableHlo.TRef sig ⟨S100x1, .f32⟩) main_call20.v5 main_call20.v13 (fun x i => Host.gather gather_S100x1_S1024x100x1_S1024x100x1_2_0_n_n_0_2_11 x i),
    StableHlo.TRef.unary main_call20.v12 main_call20.v14 (broadcastInDim S1024x100x1 ![0, 1] bcast_S1024x100_S1024x100x1_0_1),
    StableHlo.TRef.nullary main_call20.cst (constant S_ .f32 0x7FC00000#32),
    StableHlo.TRef.unary main_call20.cst main_call20.v15 (broadcastInDim S1024x100x1 ![] bcast_S_S1024x100x1),
    StableHlo.TRef.ternary main_call20.v14 main_call20.v13 main_call20.v15 main_call20.v16 select,
    StableHlo.nullary main_cst_9 (constant S_ .f32 0x00000000#32),
    StableHlo.binary main_v83 main_cst_9 main_v84 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v85 ((extractStridedSlice S1x100x32 ![10, 0, 0] · slices_S26x100x32_S1x100x32_10_0_0) : (⟨S26x100x32, .f32⟩ : BufTy).Contents (Elt F) → (⟨S1x100x32, .f32⟩ : BufTy).Contents (Elt F)),
    StableHlo.reshape main_v85 main_v86 rfl shapeCasts_S1x100x32_S100x32,
    StableHlo.TRef.nullary main_call21.c (constantI S_ 32 0#32),
    StableHlo.TRef.unary main_call21.c main_call21.v0 (broadcastInDim S1024x100 ![] bcast_S_S1024x100),
    StableHlo.TRef.binary (.of main_v80 : StableHlo.TRef sig ⟨S1024x100, .i32⟩) main_call21.v0 main_call21.v1 (cmpi .slt),
    StableHlo.TRef.nullary main_call21.c_0 (constantI S_ 32 100#32),
    StableHlo.TRef.unary main_call21.c_0 main_call21.v2 (broadcastInDim S1024x100 ![] bcast_S_S1024x100),
    StableHlo.TRef.binary (.of main_v80 : StableHlo.TRef sig ⟨S1024x100, .i32⟩) main_call21.v2 main_call21.v3 addi,
    StableHlo.TRef.ternary main_call21.v1 main_call21.v3 (.of main_v80 : StableHlo.TRef sig ⟨S1024x100, .i32⟩) main_call21.call0.v0 select,
    StableHlo.TRef.unary main_call21.call0.v0 main_call21.v5 (broadcastInDim S1024x100x1 ![0, 1] bcast_S1024x100_S1024x100x1_0_1),
    StableHlo.TRef.nullary main_call21.c_1 (constantI S1 32 99#32),
    StableHlo.TRef.nullary main_call21.c_2 (constantI S_ 32 0#32),
    StableHlo.TRef.unary main_call21.c_2 main_call21.v6 (broadcastInDim S1024x100x1 ![] bcast_S_S1024x100x1),
    StableHlo.TRef.binary main_call21.v5 main_call21.v6 main_call21.v7 (cmpi .sge),
    StableHlo.TRef.unary main_call21.c_1 main_call21.v8 (broadcastInDim S1x1x1 ![2] bcast_S1_S1x1x1_2),
    StableHlo.TRef.unary main_call21.v8 main_call21.v9 (broadcastInDim S1024x100x1 ![0, 1, 2] bcast_S1x1x1_S1024x100x1_0_1_2),
    StableHlo.TRef.binary main_call21.v5 main_call21.v9 main_call21.v10 (cmpi .sle),
    StableHlo.TRef.binary main_call21.v7 main_call21.v10 main_call21.v11 andi,
    StableHlo.TRef.nullary main_call21.c_3 (constantI S_ 1 1#1),
    StableHlo.TRef.binary main_call21.v11 main_call21.c_3 main_call21.v12 (fun x v => Host.reduce IntOp.andi x v reducesTo_S1024x100x1_S1024x100_d2 h_S_),
    StableHlo.TRef.binary (.of main_v86 : StableHlo.TRef sig ⟨S100x32, .f32⟩) main_call21.v5 main_call21.v13 (fun x i => Host.gather gather_S100x32_S1024x100x1_S1024x100x32_2_0_n_n_0_2_132 x i),
    StableHlo.TRef.unary main_call21.v12 main_call21.v14 (broadcastInDim S1024x100x32 ![0, 1] bcast_S1024x100_S1024x100x32_0_1),
    StableHlo.TRef.nullary main_call21.cst (constant S_ .f32 0x7FC00000#32),
    StableHlo.TRef.unary main_call21.cst main_call21.v15 (broadcastInDim S1024x100x32 ![] bcast_S_S1024x100x32),
    StableHlo.TRef.ternary main_call21.v14 main_call21.v13 main_call21.v15 main_call21.v16 select ]

abbrev F11 : List (HloOp τ sig (Elt F)) :=
  [ StableHlo.unary main_arg0 main_v88 ((extractStridedSlice S1024x100 ![0, 1111] · slices_S1024x2626_S1024x100_0_1111) : (⟨S1024x2626, .i32⟩ : BufTy).Contents (Elt F) → (⟨S1024x100, .i32⟩ : BufTy).Contents (Elt F)),
    StableHlo.unary main_arg2 main_v89 ((extractStridedSlice S1x100x1 ![11, 0, 0] · slices_S26x100x1_S1x100x1_11_0_0) : (⟨S26x100x1, .f32⟩ : BufTy).Contents (Elt F) → (⟨S1x100x1, .f32⟩ : BufTy).Contents (Elt F)),
    StableHlo.reshape main_v89 main_v90 rfl shapeCasts_S1x100x1_S100x1,
    StableHlo.TRef.nullary main_call22.c (constantI S_ 32 0#32),
    StableHlo.TRef.unary main_call22.c main_call22.v0 (broadcastInDim S1024x100 ![] bcast_S_S1024x100),
    StableHlo.TRef.binary (.of main_v88 : StableHlo.TRef sig ⟨S1024x100, .i32⟩) main_call22.v0 main_call22.v1 (cmpi .slt),
    StableHlo.TRef.nullary main_call22.c_0 (constantI S_ 32 100#32),
    StableHlo.TRef.unary main_call22.c_0 main_call22.v2 (broadcastInDim S1024x100 ![] bcast_S_S1024x100),
    StableHlo.TRef.binary (.of main_v88 : StableHlo.TRef sig ⟨S1024x100, .i32⟩) main_call22.v2 main_call22.v3 addi,
    StableHlo.TRef.ternary main_call22.v1 main_call22.v3 (.of main_v88 : StableHlo.TRef sig ⟨S1024x100, .i32⟩) main_call22.call0.v0 select,
    StableHlo.TRef.unary main_call22.call0.v0 main_call22.v5 (broadcastInDim S1024x100x1 ![0, 1] bcast_S1024x100_S1024x100x1_0_1),
    StableHlo.TRef.nullary main_call22.c_1 (constantI S1 32 99#32),
    StableHlo.TRef.nullary main_call22.c_2 (constantI S_ 32 0#32),
    StableHlo.TRef.unary main_call22.c_2 main_call22.v6 (broadcastInDim S1024x100x1 ![] bcast_S_S1024x100x1),
    StableHlo.TRef.binary main_call22.v5 main_call22.v6 main_call22.v7 (cmpi .sge),
    StableHlo.TRef.unary main_call22.c_1 main_call22.v8 (broadcastInDim S1x1x1 ![2] bcast_S1_S1x1x1_2),
    StableHlo.TRef.unary main_call22.v8 main_call22.v9 (broadcastInDim S1024x100x1 ![0, 1, 2] bcast_S1x1x1_S1024x100x1_0_1_2),
    StableHlo.TRef.binary main_call22.v5 main_call22.v9 main_call22.v10 (cmpi .sle),
    StableHlo.TRef.binary main_call22.v7 main_call22.v10 main_call22.v11 andi,
    StableHlo.TRef.nullary main_call22.c_3 (constantI S_ 1 1#1),
    StableHlo.TRef.binary main_call22.v11 main_call22.c_3 main_call22.v12 (fun x v => Host.reduce IntOp.andi x v reducesTo_S1024x100x1_S1024x100_d2 h_S_),
    StableHlo.TRef.binary (.of main_v90 : StableHlo.TRef sig ⟨S100x1, .f32⟩) main_call22.v5 main_call22.v13 (fun x i => Host.gather gather_S100x1_S1024x100x1_S1024x100x1_2_0_n_n_0_2_11 x i),
    StableHlo.TRef.unary main_call22.v12 main_call22.v14 (broadcastInDim S1024x100x1 ![0, 1] bcast_S1024x100_S1024x100x1_0_1),
    StableHlo.TRef.nullary main_call22.cst (constant S_ .f32 0x7FC00000#32),
    StableHlo.TRef.unary main_call22.cst main_call22.v15 (broadcastInDim S1024x100x1 ![] bcast_S_S1024x100x1),
    StableHlo.TRef.ternary main_call22.v14 main_call22.v13 main_call22.v15 main_call22.v16 select,
    StableHlo.nullary main_cst_10 (constant S_ .f32 0x00000000#32),
    StableHlo.binary main_v91 main_cst_10 main_v92 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v93 ((extractStridedSlice S1x100x32 ![11, 0, 0] · slices_S26x100x32_S1x100x32_11_0_0) : (⟨S26x100x32, .f32⟩ : BufTy).Contents (Elt F) → (⟨S1x100x32, .f32⟩ : BufTy).Contents (Elt F)),
    StableHlo.reshape main_v93 main_v94 rfl shapeCasts_S1x100x32_S100x32,
    StableHlo.TRef.nullary main_call23.c (constantI S_ 32 0#32),
    StableHlo.TRef.unary main_call23.c main_call23.v0 (broadcastInDim S1024x100 ![] bcast_S_S1024x100),
    StableHlo.TRef.binary (.of main_v88 : StableHlo.TRef sig ⟨S1024x100, .i32⟩) main_call23.v0 main_call23.v1 (cmpi .slt),
    StableHlo.TRef.nullary main_call23.c_0 (constantI S_ 32 100#32),
    StableHlo.TRef.unary main_call23.c_0 main_call23.v2 (broadcastInDim S1024x100 ![] bcast_S_S1024x100),
    StableHlo.TRef.binary (.of main_v88 : StableHlo.TRef sig ⟨S1024x100, .i32⟩) main_call23.v2 main_call23.v3 addi,
    StableHlo.TRef.ternary main_call23.v1 main_call23.v3 (.of main_v88 : StableHlo.TRef sig ⟨S1024x100, .i32⟩) main_call23.call0.v0 select,
    StableHlo.TRef.unary main_call23.call0.v0 main_call23.v5 (broadcastInDim S1024x100x1 ![0, 1] bcast_S1024x100_S1024x100x1_0_1),
    StableHlo.TRef.nullary main_call23.c_1 (constantI S1 32 99#32),
    StableHlo.TRef.nullary main_call23.c_2 (constantI S_ 32 0#32),
    StableHlo.TRef.unary main_call23.c_2 main_call23.v6 (broadcastInDim S1024x100x1 ![] bcast_S_S1024x100x1),
    StableHlo.TRef.binary main_call23.v5 main_call23.v6 main_call23.v7 (cmpi .sge),
    StableHlo.TRef.unary main_call23.c_1 main_call23.v8 (broadcastInDim S1x1x1 ![2] bcast_S1_S1x1x1_2),
    StableHlo.TRef.unary main_call23.v8 main_call23.v9 (broadcastInDim S1024x100x1 ![0, 1, 2] bcast_S1x1x1_S1024x100x1_0_1_2),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S1024x100x1_S1024x100_d2 h_S_),
    StableHlo.TRef.binary (.of main_v94 : StableHlo.TRef sig ⟨S100x32, .f32⟩) main_call23.v5 main_call23.v13 (fun x i => Host.gather gather_S100x32_S1024x100x1_S1024x100x32_2_0_n_n_0_2_132 x i),
    StableHlo.TRef.unary main_call23.v12 main_call23.v14 (broadcastInDim S1024x100x32 ![0, 1] bcast_S1024x100_S1024x100x32_0_1),
    StableHlo.TRef.nullary main_call23.cst (constant S_ .f32 0x7FC00000#32),
    StableHlo.TRef.unary main_call23.cst main_call23.v15 (broadcastInDim S1024x100x32 ![] bcast_S_S1024x100x32),
    StableHlo.TRef.ternary main_call23.v14 main_call23.v13 main_call23.v15 main_call23.v16 select ]

abbrev F12 : List (HloOp τ sig (Elt F)) :=
  [ StableHlo.unary main_arg0 main_v96 ((extractStridedSlice S1024x100 ![0, 1212] · slices_S1024x2626_S1024x100_0_1212) : (⟨S1024x2626, .i32⟩ : BufTy).Contents (Elt F) → (⟨S1024x100, .i32⟩ : BufTy).Contents (Elt F)),
    StableHlo.unary main_arg2 main_v97 ((extractStridedSlice S1x100x1 ![12, 0, 0] · slices_S26x100x1_S1x100x1_12_0_0) : (⟨S26x100x1, .f32⟩ : BufTy).Contents (Elt F) → (⟨S1x100x1, .f32⟩ : BufTy).Contents (Elt F)),
    StableHlo.reshape main_v97 main_v98 rfl shapeCasts_S1x100x1_S100x1,
    StableHlo.TRef.nullary main_call24.c (constantI S_ 32 0#32),
    StableHlo.TRef.unary main_call24.c main_call24.v0 (broadcastInDim S1024x100 ![] bcast_S_S1024x100),
    StableHlo.TRef.binary (.of main_v96 : StableHlo.TRef sig ⟨S1024x100, .i32⟩) main_call24.v0 main_call24.v1 (cmpi .slt),
    StableHlo.TRef.nullary main_call24.c_0 (constantI S_ 32 100#32),
    StableHlo.TRef.unary main_call24.c_0 main_call24.v2 (broadcastInDim S1024x100 ![] bcast_S_S1024x100),
    StableHlo.TRef.binary (.of main_v96 : StableHlo.TRef sig ⟨S1024x100, .i32⟩) main_call24.v2 main_call24.v3 addi,
    StableHlo.TRef.ternary main_call24.v1 main_call24.v3 (.of main_v96 : StableHlo.TRef sig ⟨S1024x100, .i32⟩) main_call24.call0.v0 select,
    StableHlo.TRef.unary main_call24.call0.v0 main_call24.v5 (broadcastInDim S1024x100x1 ![0, 1] bcast_S1024x100_S1024x100x1_0_1),
    StableHlo.TRef.nullary main_call24.c_1 (constantI S1 32 99#32),
    StableHlo.TRef.nullary main_call24.c_2 (constantI S_ 32 0#32),
    StableHlo.TRef.unary main_call24.c_2 main_call24.v6 (broadcastInDim S1024x100x1 ![] bcast_S_S1024x100x1),
    StableHlo.TRef.binary main_call24.v5 main_call24.v6 main_call24.v7 (cmpi .sge),
    StableHlo.TRef.unary main_call24.c_1 main_call24.v8 (broadcastInDim S1x1x1 ![2] bcast_S1_S1x1x1_2),
    StableHlo.TRef.unary main_call24.v8 main_call24.v9 (broadcastInDim S1024x100x1 ![0, 1, 2] bcast_S1x1x1_S1024x100x1_0_1_2),
    StableHlo.TRef.binary main_call24.v5 main_call24.v9 main_call24.v10 (cmpi .sle),
    StableHlo.TRef.binary main_call24.v7 main_call24.v10 main_call24.v11 andi,
    StableHlo.TRef.nullary main_call24.c_3 (constantI S_ 1 1#1),
    StableHlo.TRef.binary main_call24.v11 main_call24.c_3 main_call24.v12 (fun x v => Host.reduce IntOp.andi x v reducesTo_S1024x100x1_S1024x100_d2 h_S_),
    StableHlo.TRef.binary (.of main_v98 : StableHlo.TRef sig ⟨S100x1, .f32⟩) main_call24.v5 main_call24.v13 (fun x i => Host.gather gather_S100x1_S1024x100x1_S1024x100x1_2_0_n_n_0_2_11 x i),
    StableHlo.TRef.unary main_call24.v12 main_call24.v14 (broadcastInDim S1024x100x1 ![0, 1] bcast_S1024x100_S1024x100x1_0_1),
    StableHlo.TRef.nullary main_call24.cst (constant S_ .f32 0x7FC00000#32),
    StableHlo.TRef.unary main_call24.cst main_call24.v15 (broadcastInDim S1024x100x1 ![] bcast_S_S1024x100x1),
    StableHlo.TRef.ternary main_call24.v14 main_call24.v13 main_call24.v15 main_call24.v16 select,
    StableHlo.nullary main_cst_11 (constant S_ .f32 0x00000000#32),
    StableHlo.binary main_v99 main_cst_11 main_v100 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v101 ((extractStridedSlice S1x100x32 ![12, 0, 0] · slices_S26x100x32_S1x100x32_12_0_0) : (⟨S26x100x32, .f32⟩ : BufTy).Contents (Elt F) → (⟨S1x100x32, .f32⟩ : BufTy).Contents (Elt F)),
    StableHlo.reshape main_v101 main_v102 rfl shapeCasts_S1x100x32_S100x32,
    StableHlo.TRef.nullary main_call25.c (constantI S_ 32 0#32),
    StableHlo.TRef.unary main_call25.c main_call25.v0 (broadcastInDim S1024x100 ![] bcast_S_S1024x100),
    StableHlo.TRef.binary (.of main_v96 : StableHlo.TRef sig ⟨S1024x100, .i32⟩) main_call25.v0 main_call25.v1 (cmpi .slt),
    StableHlo.TRef.nullary main_call25.c_0 (constantI S_ 32 100#32),
    StableHlo.TRef.unary main_call25.c_0 main_call25.v2 (broadcastInDim S1024x100 ![] bcast_S_S1024x100),
    StableHlo.TRef.binary (.of main_v96 : StableHlo.TRef sig ⟨S1024x100, .i32⟩) main_call25.v2 main_call25.v3 addi,
    StableHlo.TRef.ternary main_call25.v1 main_call25.v3 (.of main_v96 : StableHlo.TRef sig ⟨S1024x100, .i32⟩) main_call25.call0.v0 select,
    StableHlo.TRef.unary main_call25.call0.v0 main_call25.v5 (broadcastInDim S1024x100x1 ![0, 1] bcast_S1024x100_S1024x100x1_0_1),
    StableHlo.TRef.nullary main_call25.c_1 (constantI S1 32 99#32),
    StableHlo.TRef.nullary main_call25.c_2 (constantI S_ 32 0#32),
    StableHlo.TRef.unary main_call25.c_2 main_call25.v6 (broadcastInDim S1024x100x1 ![] bcast_S_S1024x100x1),
    StableHlo.TRef.binary main_call25.v5 main_call25.v6 main_call25.v7 (cmpi .sge),
    StableHlo.TRef.unary main_call25.c_1 main_call25.v8 (broadcastInDim S1x1x1 ![2] bcast_S1_S1x1x1_2),
    StableHlo.TRef.unary main_call25.v8 main_call25.v9 (broadcastInDim S1024x100x1 ![0, 1, 2] bcast_S1x1x1_S1024x100x1_0_1_2),
    StableHlo.TRef.binary main_call25.v5 main_call25.v9 main_call25.v10 (cmpi .sle),
    StableHlo.TRef.binary main_call25.v7 main_call25.v10 main_call25.v11 andi,
    StableHlo.TRef.nullary main_call25.c_3 (constantI S_ 1 1#1),
    StableHlo.TRef.binary main_call25.v11 main_call25.c_3 main_call25.v12 (fun x v => Host.reduce IntOp.andi x v reducesTo_S1024x100x1_S1024x100_d2 h_S_),
    StableHlo.TRef.binary (.of main_v102 : StableHlo.TRef sig ⟨S100x32, .f32⟩) main_call25.v5 main_call25.v13 (fun x i => Host.gather gather_S100x32_S1024x100x1_S1024x100x32_2_0_n_n_0_2_132 x i),
    StableHlo.TRef.unary main_call25.v12 main_call25.v14 (broadcastInDim S1024x100x32 ![0, 1] bcast_S1024x100_S1024x100x32_0_1),
    StableHlo.TRef.nullary main_call25.cst (constant S_ .f32 0x7FC00000#32),
    StableHlo.TRef.unary main_call25.cst main_call25.v15 (broadcastInDim S1024x100x32 ![] bcast_S_S1024x100x32),
    StableHlo.TRef.ternary main_call25.v14 main_call25.v13 main_call25.v15 main_call25.v16 select ]

abbrev F13 : List (HloOp τ sig (Elt F)) :=
  [ StableHlo.unary main_arg0 main_v104 ((extractStridedSlice S1024x100 ![0, 1313] · slices_S1024x2626_S1024x100_0_1313) : (⟨S1024x2626, .i32⟩ : BufTy).Contents (Elt F) → (⟨S1024x100, .i32⟩ : BufTy).Contents (Elt F)),
    StableHlo.unary main_arg2 main_v105 ((extractStridedSlice S1x100x1 ![13, 0, 0] · slices_S26x100x1_S1x100x1_13_0_0) : (⟨S26x100x1, .f32⟩ : BufTy).Contents (Elt F) → (⟨S1x100x1, .f32⟩ : BufTy).Contents (Elt F)),
    StableHlo.reshape main_v105 main_v106 rfl shapeCasts_S1x100x1_S100x1,
    StableHlo.TRef.nullary main_call26.c (constantI S_ 32 0#32),
    StableHlo.TRef.unary main_call26.c main_call26.v0 (broadcastInDim S1024x100 ![] bcast_S_S1024x100),
    StableHlo.TRef.binary (.of main_v104 : StableHlo.TRef sig ⟨S1024x100, .i32⟩) main_call26.v0 main_call26.v1 (cmpi .slt),
    StableHlo.TRef.nullary main_call26.c_0 (constantI S_ 32 100#32),
    StableHlo.TRef.unary main_call26.c_0 main_call26.v2 (broadcastInDim S1024x100 ![] bcast_S_S1024x100),
    StableHlo.TRef.binary (.of main_v104 : StableHlo.TRef sig ⟨S1024x100, .i32⟩) main_call26.v2 main_call26.v3 addi,
    StableHlo.TRef.ternary main_call26.v1 main_call26.v3 (.of main_v104 : StableHlo.TRef sig ⟨S1024x100, .i32⟩) main_call26.call0.v0 select,
    StableHlo.TRef.unary main_call26.call0.v0 main_call26.v5 (broadcastInDim S1024x100x1 ![0, 1] bcast_S1024x100_S1024x100x1_0_1),
    StableHlo.TRef.nullary main_call26.c_1 (constantI S1 32 99#32),
    StableHlo.TRef.nullary main_call26.c_2 (constantI S_ 32 0#32),
    StableHlo.TRef.unary main_call26.c_2 main_call26.v6 (broadcastInDim S1024x100x1 ![] bcast_S_S1024x100x1),
    StableHlo.TRef.binary main_call26.v5 main_call26.v6 main_call26.v7 (cmpi .sge),
    StableHlo.TRef.unary main_call26.c_1 main_call26.v8 (broadcastInDim S1x1x1 ![2] bcast_S1_S1x1x1_2),
    StableHlo.TRef.unary main_call26.v8 main_call26.v9 (broadcastInDim S1024x100x1 ![0, 1, 2] bcast_S1x1x1_S1024x100x1_0_1_2),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S1024x100x1_S1024x100_d2 h_S_),
    StableHlo.TRef.binary (.of main_v106 : StableHlo.TRef sig ⟨S100x1, .f32⟩) main_call26.v5 main_call26.v13 (fun x i => Host.gather gather_S100x1_S1024x100x1_S1024x100x1_2_0_n_n_0_2_11 x i),
    StableHlo.TRef.unary main_call26.v12 main_call26.v14 (broadcastInDim S1024x100x1 ![0, 1] bcast_S1024x100_S1024x100x1_0_1),
    StableHlo.TRef.nullary main_call26.cst (constant S_ .f32 0x7FC00000#32),
    StableHlo.TRef.unary main_call26.cst main_call26.v15 (broadcastInDim S1024x100x1 ![] bcast_S_S1024x100x1),
    StableHlo.TRef.ternary main_call26.v14 main_call26.v13 main_call26.v15 main_call26.v16 select,
    StableHlo.nullary main_cst_12 (constant S_ .f32 0x00000000#32),
    StableHlo.binary main_v107 main_cst_12 main_v108 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v109 ((extractStridedSlice S1x100x32 ![13, 0, 0] · slices_S26x100x32_S1x100x32_13_0_0) : (⟨S26x100x32, .f32⟩ : BufTy).Contents (Elt F) → (⟨S1x100x32, .f32⟩ : BufTy).Contents (Elt F)),
    StableHlo.reshape main_v109 main_v110 rfl shapeCasts_S1x100x32_S100x32,
    StableHlo.TRef.nullary main_call27.c (constantI S_ 32 0#32),
    StableHlo.TRef.unary main_call27.c main_call27.v0 (broadcastInDim S1024x100 ![] bcast_S_S1024x100),
    StableHlo.TRef.binary (.of main_v104 : StableHlo.TRef sig ⟨S1024x100, .i32⟩) main_call27.v0 main_call27.v1 (cmpi .slt),
    StableHlo.TRef.nullary main_call27.c_0 (constantI S_ 32 100#32),
    StableHlo.TRef.unary main_call27.c_0 main_call27.v2 (broadcastInDim S1024x100 ![] bcast_S_S1024x100),
    StableHlo.TRef.binary (.of main_v104 : StableHlo.TRef sig ⟨S1024x100, .i32⟩) main_call27.v2 main_call27.v3 addi,
    StableHlo.TRef.ternary main_call27.v1 main_call27.v3 (.of main_v104 : StableHlo.TRef sig ⟨S1024x100, .i32⟩) main_call27.call0.v0 select,
    StableHlo.TRef.unary main_call27.call0.v0 main_call27.v5 (broadcastInDim S1024x100x1 ![0, 1] bcast_S1024x100_S1024x100x1_0_1),
    StableHlo.TRef.nullary main_call27.c_1 (constantI S1 32 99#32),
    StableHlo.TRef.nullary main_call27.c_2 (constantI S_ 32 0#32),
    StableHlo.TRef.unary main_call27.c_2 main_call27.v6 (broadcastInDim S1024x100x1 ![] bcast_S_S1024x100x1),
    StableHlo.TRef.binary main_call27.v5 main_call27.v6 main_call27.v7 (cmpi .sge),
    StableHlo.TRef.unary main_call27.c_1 main_call27.v8 (broadcastInDim S1x1x1 ![2] bcast_S1_S1x1x1_2),
    StableHlo.TRef.unary main_call27.v8 main_call27.v9 (broadcastInDim S1024x100x1 ![0, 1, 2] bcast_S1x1x1_S1024x100x1_0_1_2),
    StableHlo.TRef.binary main_call27.v5 main_call27.v9 main_call27.v10 (cmpi .sle),
    StableHlo.TRef.binary main_call27.v7 main_call27.v10 main_call27.v11 andi,
    StableHlo.TRef.nullary main_call27.c_3 (constantI S_ 1 1#1),
    StableHlo.TRef.binary main_call27.v11 main_call27.c_3 main_call27.v12 (fun x v => Host.reduce IntOp.andi x v reducesTo_S1024x100x1_S1024x100_d2 h_S_),
    StableHlo.TRef.binary (.of main_v110 : StableHlo.TRef sig ⟨S100x32, .f32⟩) main_call27.v5 main_call27.v13 (fun x i => Host.gather gather_S100x32_S1024x100x1_S1024x100x32_2_0_n_n_0_2_132 x i),
    StableHlo.TRef.unary main_call27.v12 main_call27.v14 (broadcastInDim S1024x100x32 ![0, 1] bcast_S1024x100_S1024x100x32_0_1),
    StableHlo.TRef.nullary main_call27.cst (constant S_ .f32 0x7FC00000#32),
    StableHlo.TRef.unary main_call27.cst main_call27.v15 (broadcastInDim S1024x100x32 ![] bcast_S_S1024x100x32),
    StableHlo.TRef.ternary main_call27.v14 main_call27.v13 main_call27.v15 main_call27.v16 select ]

abbrev F14 : List (HloOp τ sig (Elt F)) :=
  [ StableHlo.unary main_arg0 main_v112 ((extractStridedSlice S1024x100 ![0, 1414] · slices_S1024x2626_S1024x100_0_1414) : (⟨S1024x2626, .i32⟩ : BufTy).Contents (Elt F) → (⟨S1024x100, .i32⟩ : BufTy).Contents (Elt F)),
    StableHlo.unary main_arg2 main_v113 ((extractStridedSlice S1x100x1 ![14, 0, 0] · slices_S26x100x1_S1x100x1_14_0_0) : (⟨S26x100x1, .f32⟩ : BufTy).Contents (Elt F) → (⟨S1x100x1, .f32⟩ : BufTy).Contents (Elt F)),
    StableHlo.reshape main_v113 main_v114 rfl shapeCasts_S1x100x1_S100x1,
    StableHlo.TRef.nullary main_call28.c (constantI S_ 32 0#32),
    StableHlo.TRef.unary main_call28.c main_call28.v0 (broadcastInDim S1024x100 ![] bcast_S_S1024x100),
    StableHlo.TRef.binary (.of main_v112 : StableHlo.TRef sig ⟨S1024x100, .i32⟩) main_call28.v0 main_call28.v1 (cmpi .slt),
    StableHlo.TRef.nullary main_call28.c_0 (constantI S_ 32 100#32),
    StableHlo.TRef.unary main_call28.c_0 main_call28.v2 (broadcastInDim S1024x100 ![] bcast_S_S1024x100),
    StableHlo.TRef.binary (.of main_v112 : StableHlo.TRef sig ⟨S1024x100, .i32⟩) main_call28.v2 main_call28.v3 addi,
    StableHlo.TRef.ternary main_call28.v1 main_call28.v3 (.of main_v112 : StableHlo.TRef sig ⟨S1024x100, .i32⟩) main_call28.call0.v0 select,
    StableHlo.TRef.unary main_call28.call0.v0 main_call28.v5 (broadcastInDim S1024x100x1 ![0, 1] bcast_S1024x100_S1024x100x1_0_1),
    StableHlo.TRef.nullary main_call28.c_1 (constantI S1 32 99#32),
    StableHlo.TRef.nullary main_call28.c_2 (constantI S_ 32 0#32),
    StableHlo.TRef.unary main_call28.c_2 main_call28.v6 (broadcastInDim S1024x100x1 ![] bcast_S_S1024x100x1),
    StableHlo.TRef.binary main_call28.v5 main_call28.v6 main_call28.v7 (cmpi .sge),
    StableHlo.TRef.unary main_call28.c_1 main_call28.v8 (broadcastInDim S1x1x1 ![2] bcast_S1_S1x1x1_2),
    StableHlo.TRef.unary main_call28.v8 main_call28.v9 (broadcastInDim S1024x100x1 ![0, 1, 2] bcast_S1x1x1_S1024x100x1_0_1_2),
    StableHlo.TRef.binary main_call28.v5 main_call28.v9 main_call28.v10 (cmpi .sle),
    StableHlo.TRef.binary main_call28.v7 main_call28.v10 main_call28.v11 andi,
    StableHlo.TRef.nullary main_call28.c_3 (constantI S_ 1 1#1),
    StableHlo.TRef.binary main_call28.v11 main_call28.c_3 main_call28.v12 (fun x v => Host.reduce IntOp.andi x v reducesTo_S1024x100x1_S1024x100_d2 h_S_),
    StableHlo.TRef.binary (.of main_v114 : StableHlo.TRef sig ⟨S100x1, .f32⟩) main_call28.v5 main_call28.v13 (fun x i => Host.gather gather_S100x1_S1024x100x1_S1024x100x1_2_0_n_n_0_2_11 x i),
    StableHlo.TRef.unary main_call28.v12 main_call28.v14 (broadcastInDim S1024x100x1 ![0, 1] bcast_S1024x100_S1024x100x1_0_1),
    StableHlo.TRef.nullary main_call28.cst (constant S_ .f32 0x7FC00000#32),
    StableHlo.TRef.unary main_call28.cst main_call28.v15 (broadcastInDim S1024x100x1 ![] bcast_S_S1024x100x1),
    StableHlo.TRef.ternary main_call28.v14 main_call28.v13 main_call28.v15 main_call28.v16 select,
    StableHlo.nullary main_cst_13 (constant S_ .f32 0x00000000#32),
    StableHlo.binary main_v115 main_cst_13 main_v116 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v117 ((extractStridedSlice S1x100x32 ![14, 0, 0] · slices_S26x100x32_S1x100x32_14_0_0) : (⟨S26x100x32, .f32⟩ : BufTy).Contents (Elt F) → (⟨S1x100x32, .f32⟩ : BufTy).Contents (Elt F)),
    StableHlo.reshape main_v117 main_v118 rfl shapeCasts_S1x100x32_S100x32,
    StableHlo.TRef.nullary main_call29.c (constantI S_ 32 0#32),
    StableHlo.TRef.unary main_call29.c main_call29.v0 (broadcastInDim S1024x100 ![] bcast_S_S1024x100),
    StableHlo.TRef.binary (.of main_v112 : StableHlo.TRef sig ⟨S1024x100, .i32⟩) main_call29.v0 main_call29.v1 (cmpi .slt),
    StableHlo.TRef.nullary main_call29.c_0 (constantI S_ 32 100#32),
    StableHlo.TRef.unary main_call29.c_0 main_call29.v2 (broadcastInDim S1024x100 ![] bcast_S_S1024x100),
    StableHlo.TRef.binary (.of main_v112 : StableHlo.TRef sig ⟨S1024x100, .i32⟩) main_call29.v2 main_call29.v3 addi,
    StableHlo.TRef.ternary main_call29.v1 main_call29.v3 (.of main_v112 : StableHlo.TRef sig ⟨S1024x100, .i32⟩) main_call29.call0.v0 select,
    StableHlo.TRef.unary main_call29.call0.v0 main_call29.v5 (broadcastInDim S1024x100x1 ![0, 1] bcast_S1024x100_S1024x100x1_0_1),
    StableHlo.TRef.nullary main_call29.c_1 (constantI S1 32 99#32),
    StableHlo.TRef.nullary main_call29.c_2 (constantI S_ 32 0#32),
    StableHlo.TRef.unary main_call29.c_2 main_call29.v6 (broadcastInDim S1024x100x1 ![] bcast_S_S1024x100x1),
    StableHlo.TRef.binary main_call29.v5 main_call29.v6 main_call29.v7 (cmpi .sge),
    StableHlo.TRef.unary main_call29.c_1 main_call29.v8 (broadcastInDim S1x1x1 ![2] bcast_S1_S1x1x1_2),
    StableHlo.TRef.unary main_call29.v8 main_call29.v9 (broadcastInDim S1024x100x1 ![0, 1, 2] bcast_S1x1x1_S1024x100x1_0_1_2),
    StableHlo.TRef.binary main_call29.v5 main_call29.v9 main_call29.v10 (cmpi .sle),
    StableHlo.TRef.binary main_call29.v7 main_call29.v10 main_call29.v11 andi,
    StableHlo.TRef.nullary main_call29.c_3 (constantI S_ 1 1#1),
    StableHlo.TRef.binary main_call29.v11 main_call29.c_3 main_call29.v12 (fun x v => Host.reduce IntOp.andi x v reducesTo_S1024x100x1_S1024x100_d2 h_S_),
    StableHlo.TRef.binary (.of main_v118 : StableHlo.TRef sig ⟨S100x32, .f32⟩) main_call29.v5 main_call29.v13 (fun x i => Host.gather gather_S100x32_S1024x100x1_S1024x100x32_2_0_n_n_0_2_132 x i),
    StableHlo.TRef.unary main_call29.v12 main_call29.v14 (broadcastInDim S1024x100x32 ![0, 1] bcast_S1024x100_S1024x100x32_0_1),
    StableHlo.TRef.nullary main_call29.cst (constant S_ .f32 0x7FC00000#32),
    StableHlo.TRef.unary main_call29.cst main_call29.v15 (broadcastInDim S1024x100x32 ![] bcast_S_S1024x100x32),
    StableHlo.TRef.ternary main_call29.v14 main_call29.v13 main_call29.v15 main_call29.v16 select ]

abbrev F15 : List (HloOp τ sig (Elt F)) :=
  [ StableHlo.unary main_arg0 main_v120 ((extractStridedSlice S1024x100 ![0, 1515] · slices_S1024x2626_S1024x100_0_1515) : (⟨S1024x2626, .i32⟩ : BufTy).Contents (Elt F) → (⟨S1024x100, .i32⟩ : BufTy).Contents (Elt F)),
    StableHlo.unary main_arg2 main_v121 ((extractStridedSlice S1x100x1 ![15, 0, 0] · slices_S26x100x1_S1x100x1_15_0_0) : (⟨S26x100x1, .f32⟩ : BufTy).Contents (Elt F) → (⟨S1x100x1, .f32⟩ : BufTy).Contents (Elt F)),
    StableHlo.reshape main_v121 main_v122 rfl shapeCasts_S1x100x1_S100x1,
    StableHlo.TRef.nullary main_call30.c (constantI S_ 32 0#32),
    StableHlo.TRef.unary main_call30.c main_call30.v0 (broadcastInDim S1024x100 ![] bcast_S_S1024x100),
    StableHlo.TRef.binary (.of main_v120 : StableHlo.TRef sig ⟨S1024x100, .i32⟩) main_call30.v0 main_call30.v1 (cmpi .slt),
    StableHlo.TRef.nullary main_call30.c_0 (constantI S_ 32 100#32),
    StableHlo.TRef.unary main_call30.c_0 main_call30.v2 (broadcastInDim S1024x100 ![] bcast_S_S1024x100),
    StableHlo.TRef.binary (.of main_v120 : StableHlo.TRef sig ⟨S1024x100, .i32⟩) main_call30.v2 main_call30.v3 addi,
    StableHlo.TRef.ternary main_call30.v1 main_call30.v3 (.of main_v120 : StableHlo.TRef sig ⟨S1024x100, .i32⟩) main_call30.call0.v0 select,
    StableHlo.TRef.unary main_call30.call0.v0 main_call30.v5 (broadcastInDim S1024x100x1 ![0, 1] bcast_S1024x100_S1024x100x1_0_1),
    StableHlo.TRef.nullary main_call30.c_1 (constantI S1 32 99#32),
    StableHlo.TRef.nullary main_call30.c_2 (constantI S_ 32 0#32),
    StableHlo.TRef.unary main_call30.c_2 main_call30.v6 (broadcastInDim S1024x100x1 ![] bcast_S_S1024x100x1),
    StableHlo.TRef.binary main_call30.v5 main_call30.v6 main_call30.v7 (cmpi .sge),
    StableHlo.TRef.unary main_call30.c_1 main_call30.v8 (broadcastInDim S1x1x1 ![2] bcast_S1_S1x1x1_2),
    StableHlo.TRef.unary main_call30.v8 main_call30.v9 (broadcastInDim S1024x100x1 ![0, 1, 2] bcast_S1x1x1_S1024x100x1_0_1_2),
    StableHlo.TRef.binary main_call30.v5 main_call30.v9 main_call30.v10 (cmpi .sle),
    StableHlo.TRef.binary main_call30.v7 main_call30.v10 main_call30.v11 andi,
    StableHlo.TRef.nullary main_call30.c_3 (constantI S_ 1 1#1),
    StableHlo.TRef.binary main_call30.v11 main_call30.c_3 main_call30.v12 (fun x v => Host.reduce IntOp.andi x v reducesTo_S1024x100x1_S1024x100_d2 h_S_),
    StableHlo.TRef.binary (.of main_v122 : StableHlo.TRef sig ⟨S100x1, .f32⟩) main_call30.v5 main_call30.v13 (fun x i => Host.gather gather_S100x1_S1024x100x1_S1024x100x1_2_0_n_n_0_2_11 x i),
    StableHlo.TRef.unary main_call30.v12 main_call30.v14 (broadcastInDim S1024x100x1 ![0, 1] bcast_S1024x100_S1024x100x1_0_1),
    StableHlo.TRef.nullary main_call30.cst (constant S_ .f32 0x7FC00000#32),
    StableHlo.TRef.unary main_call30.cst main_call30.v15 (broadcastInDim S1024x100x1 ![] bcast_S_S1024x100x1),
    StableHlo.TRef.ternary main_call30.v14 main_call30.v13 main_call30.v15 main_call30.v16 select,
    StableHlo.nullary main_cst_14 (constant S_ .f32 0x00000000#32),
    StableHlo.binary main_v123 main_cst_14 main_v124 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v125 ((extractStridedSlice S1x100x32 ![15, 0, 0] · slices_S26x100x32_S1x100x32_15_0_0) : (⟨S26x100x32, .f32⟩ : BufTy).Contents (Elt F) → (⟨S1x100x32, .f32⟩ : BufTy).Contents (Elt F)),
    StableHlo.reshape main_v125 main_v126 rfl shapeCasts_S1x100x32_S100x32,
    StableHlo.TRef.nullary main_call31.c (constantI S_ 32 0#32),
    StableHlo.TRef.unary main_call31.c main_call31.v0 (broadcastInDim S1024x100 ![] bcast_S_S1024x100),
    StableHlo.TRef.binary (.of main_v120 : StableHlo.TRef sig ⟨S1024x100, .i32⟩) main_call31.v0 main_call31.v1 (cmpi .slt),
    StableHlo.TRef.nullary main_call31.c_0 (constantI S_ 32 100#32),
    StableHlo.TRef.unary main_call31.c_0 main_call31.v2 (broadcastInDim S1024x100 ![] bcast_S_S1024x100),
    StableHlo.TRef.binary (.of main_v120 : StableHlo.TRef sig ⟨S1024x100, .i32⟩) main_call31.v2 main_call31.v3 addi,
    StableHlo.TRef.ternary main_call31.v1 main_call31.v3 (.of main_v120 : StableHlo.TRef sig ⟨S1024x100, .i32⟩) main_call31.call0.v0 select,
    StableHlo.TRef.unary main_call31.call0.v0 main_call31.v5 (broadcastInDim S1024x100x1 ![0, 1] bcast_S1024x100_S1024x100x1_0_1),
    StableHlo.TRef.nullary main_call31.c_1 (constantI S1 32 99#32),
    StableHlo.TRef.nullary main_call31.c_2 (constantI S_ 32 0#32),
    StableHlo.TRef.unary main_call31.c_2 main_call31.v6 (broadcastInDim S1024x100x1 ![] bcast_S_S1024x100x1),
    StableHlo.TRef.binary main_call31.v5 main_call31.v6 main_call31.v7 (cmpi .sge),
    StableHlo.TRef.unary main_call31.c_1 main_call31.v8 (broadcastInDim S1x1x1 ![2] bcast_S1_S1x1x1_2),
    StableHlo.TRef.unary main_call31.v8 main_call31.v9 (broadcastInDim S1024x100x1 ![0, 1, 2] bcast_S1x1x1_S1024x100x1_0_1_2),
    StableHlo.TRef.binary main_call31.v5 main_call31.v9 main_call31.v10 (cmpi .sle),
    StableHlo.TRef.binary main_call31.v7 main_call31.v10 main_call31.v11 andi,
    StableHlo.TRef.nullary main_call31.c_3 (constantI S_ 1 1#1),
    StableHlo.TRef.binary main_call31.v11 main_call31.c_3 main_call31.v12 (fun x v => Host.reduce IntOp.andi x v reducesTo_S1024x100x1_S1024x100_d2 h_S_),
    StableHlo.TRef.binary (.of main_v126 : StableHlo.TRef sig ⟨S100x32, .f32⟩) main_call31.v5 main_call31.v13 (fun x i => Host.gather gather_S100x32_S1024x100x1_S1024x100x32_2_0_n_n_0_2_132 x i),
    StableHlo.TRef.unary main_call31.v12 main_call31.v14 (broadcastInDim S1024x100x32 ![0, 1] bcast_S1024x100_S1024x100x32_0_1),
    StableHlo.TRef.nullary main_call31.cst (constant S_ .f32 0x7FC00000#32),
    StableHlo.TRef.unary main_call31.cst main_call31.v15 (broadcastInDim S1024x100x32 ![] bcast_S_S1024x100x32),
    StableHlo.TRef.ternary main_call31.v14 main_call31.v13 main_call31.v15 main_call31.v16 select ]

abbrev F16 : List (HloOp τ sig (Elt F)) :=
  [ StableHlo.unary main_arg0 main_v128 ((extractStridedSlice S1024x100 ![0, 1616] · slices_S1024x2626_S1024x100_0_1616) : (⟨S1024x2626, .i32⟩ : BufTy).Contents (Elt F) → (⟨S1024x100, .i32⟩ : BufTy).Contents (Elt F)),
    StableHlo.unary main_arg2 main_v129 ((extractStridedSlice S1x100x1 ![16, 0, 0] · slices_S26x100x1_S1x100x1_16_0_0) : (⟨S26x100x1, .f32⟩ : BufTy).Contents (Elt F) → (⟨S1x100x1, .f32⟩ : BufTy).Contents (Elt F)),
    StableHlo.reshape main_v129 main_v130 rfl shapeCasts_S1x100x1_S100x1,
    StableHlo.TRef.nullary main_call32.c (constantI S_ 32 0#32),
    StableHlo.TRef.unary main_call32.c main_call32.v0 (broadcastInDim S1024x100 ![] bcast_S_S1024x100),
    StableHlo.TRef.binary (.of main_v128 : StableHlo.TRef sig ⟨S1024x100, .i32⟩) main_call32.v0 main_call32.v1 (cmpi .slt),
    StableHlo.TRef.nullary main_call32.c_0 (constantI S_ 32 100#32),
    StableHlo.TRef.unary main_call32.c_0 main_call32.v2 (broadcastInDim S1024x100 ![] bcast_S_S1024x100),
    StableHlo.TRef.binary (.of main_v128 : StableHlo.TRef sig ⟨S1024x100, .i32⟩) main_call32.v2 main_call32.v3 addi,
    StableHlo.TRef.ternary main_call32.v1 main_call32.v3 (.of main_v128 : StableHlo.TRef sig ⟨S1024x100, .i32⟩) main_call32.call0.v0 select,
    StableHlo.TRef.unary main_call32.call0.v0 main_call32.v5 (broadcastInDim S1024x100x1 ![0, 1] bcast_S1024x100_S1024x100x1_0_1),
    StableHlo.TRef.nullary main_call32.c_1 (constantI S1 32 99#32),
    StableHlo.TRef.nullary main_call32.c_2 (constantI S_ 32 0#32),
    StableHlo.TRef.unary main_call32.c_2 main_call32.v6 (broadcastInDim S1024x100x1 ![] bcast_S_S1024x100x1),
    StableHlo.TRef.binary main_call32.v5 main_call32.v6 main_call32.v7 (cmpi .sge),
    StableHlo.TRef.unary main_call32.c_1 main_call32.v8 (broadcastInDim S1x1x1 ![2] bcast_S1_S1x1x1_2),
    StableHlo.TRef.unary main_call32.v8 main_call32.v9 (broadcastInDim S1024x100x1 ![0, 1, 2] bcast_S1x1x1_S1024x100x1_0_1_2),
    StableHlo.TRef.binary main_call32.v5 main_call32.v9 main_call32.v10 (cmpi .sle),
    StableHlo.TRef.binary main_call32.v7 main_call32.v10 main_call32.v11 andi,
    StableHlo.TRef.nullary main_call32.c_3 (constantI S_ 1 1#1),
    StableHlo.TRef.binary main_call32.v11 main_call32.c_3 main_call32.v12 (fun x v => Host.reduce IntOp.andi x v reducesTo_S1024x100x1_S1024x100_d2 h_S_),
    StableHlo.TRef.binary (.of main_v130 : StableHlo.TRef sig ⟨S100x1, .f32⟩) main_call32.v5 main_call32.v13 (fun x i => Host.gather gather_S100x1_S1024x100x1_S1024x100x1_2_0_n_n_0_2_11 x i),
    StableHlo.TRef.unary main_call32.v12 main_call32.v14 (broadcastInDim S1024x100x1 ![0, 1] bcast_S1024x100_S1024x100x1_0_1),
    StableHlo.TRef.nullary main_call32.cst (constant S_ .f32 0x7FC00000#32),
    StableHlo.TRef.unary main_call32.cst main_call32.v15 (broadcastInDim S1024x100x1 ![] bcast_S_S1024x100x1),
    StableHlo.TRef.ternary main_call32.v14 main_call32.v13 main_call32.v15 main_call32.v16 select,
    StableHlo.nullary main_cst_15 (constant S_ .f32 0x00000000#32),
    StableHlo.binary main_v131 main_cst_15 main_v132 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v133 ((extractStridedSlice S1x100x32 ![16, 0, 0] · slices_S26x100x32_S1x100x32_16_0_0) : (⟨S26x100x32, .f32⟩ : BufTy).Contents (Elt F) → (⟨S1x100x32, .f32⟩ : BufTy).Contents (Elt F)),
    StableHlo.reshape main_v133 main_v134 rfl shapeCasts_S1x100x32_S100x32,
    StableHlo.TRef.nullary main_call33.c (constantI S_ 32 0#32),
    StableHlo.TRef.unary main_call33.c main_call33.v0 (broadcastInDim S1024x100 ![] bcast_S_S1024x100),
    StableHlo.TRef.binary (.of main_v128 : StableHlo.TRef sig ⟨S1024x100, .i32⟩) main_call33.v0 main_call33.v1 (cmpi .slt),
    StableHlo.TRef.nullary main_call33.c_0 (constantI S_ 32 100#32),
    StableHlo.TRef.unary main_call33.c_0 main_call33.v2 (broadcastInDim S1024x100 ![] bcast_S_S1024x100),
    StableHlo.TRef.binary (.of main_v128 : StableHlo.TRef sig ⟨S1024x100, .i32⟩) main_call33.v2 main_call33.v3 addi,
    StableHlo.TRef.ternary main_call33.v1 main_call33.v3 (.of main_v128 : StableHlo.TRef sig ⟨S1024x100, .i32⟩) main_call33.call0.v0 select,
    StableHlo.TRef.unary main_call33.call0.v0 main_call33.v5 (broadcastInDim S1024x100x1 ![0, 1] bcast_S1024x100_S1024x100x1_0_1),
    StableHlo.TRef.nullary main_call33.c_1 (constantI S1 32 99#32),
    StableHlo.TRef.nullary main_call33.c_2 (constantI S_ 32 0#32),
    StableHlo.TRef.unary main_call33.c_2 main_call33.v6 (broadcastInDim S1024x100x1 ![] bcast_S_S1024x100x1),
    StableHlo.TRef.binary main_call33.v5 main_call33.v6 main_call33.v7 (cmpi .sge),
    StableHlo.TRef.unary main_call33.c_1 main_call33.v8 (broadcastInDim S1x1x1 ![2] bcast_S1_S1x1x1_2),
    StableHlo.TRef.unary main_call33.v8 main_call33.v9 (broadcastInDim S1024x100x1 ![0, 1, 2] bcast_S1x1x1_S1024x100x1_0_1_2),
    StableHlo.TRef.binary main_call33.v5 main_call33.v9 main_call33.v10 (cmpi .sle),
    StableHlo.TRef.binary main_call33.v7 main_call33.v10 main_call33.v11 andi,
    StableHlo.TRef.nullary main_call33.c_3 (constantI S_ 1 1#1),
    StableHlo.TRef.binary main_call33.v11 main_call33.c_3 main_call33.v12 (fun x v => Host.reduce IntOp.andi x v reducesTo_S1024x100x1_S1024x100_d2 h_S_),
    StableHlo.TRef.binary (.of main_v134 : StableHlo.TRef sig ⟨S100x32, .f32⟩) main_call33.v5 main_call33.v13 (fun x i => Host.gather gather_S100x32_S1024x100x1_S1024x100x32_2_0_n_n_0_2_132 x i),
    StableHlo.TRef.unary main_call33.v12 main_call33.v14 (broadcastInDim S1024x100x32 ![0, 1] bcast_S1024x100_S1024x100x32_0_1),
    StableHlo.TRef.nullary main_call33.cst (constant S_ .f32 0x7FC00000#32),
    StableHlo.TRef.unary main_call33.cst main_call33.v15 (broadcastInDim S1024x100x32 ![] bcast_S_S1024x100x32),
    StableHlo.TRef.ternary main_call33.v14 main_call33.v13 main_call33.v15 main_call33.v16 select ]

abbrev F17 : List (HloOp τ sig (Elt F)) :=
  [ StableHlo.unary main_arg0 main_v136 ((extractStridedSlice S1024x100 ![0, 1717] · slices_S1024x2626_S1024x100_0_1717) : (⟨S1024x2626, .i32⟩ : BufTy).Contents (Elt F) → (⟨S1024x100, .i32⟩ : BufTy).Contents (Elt F)),
    StableHlo.unary main_arg2 main_v137 ((extractStridedSlice S1x100x1 ![17, 0, 0] · slices_S26x100x1_S1x100x1_17_0_0) : (⟨S26x100x1, .f32⟩ : BufTy).Contents (Elt F) → (⟨S1x100x1, .f32⟩ : BufTy).Contents (Elt F)),
    StableHlo.reshape main_v137 main_v138 rfl shapeCasts_S1x100x1_S100x1,
    StableHlo.TRef.nullary main_call34.c (constantI S_ 32 0#32),
    StableHlo.TRef.unary main_call34.c main_call34.v0 (broadcastInDim S1024x100 ![] bcast_S_S1024x100),
    StableHlo.TRef.binary (.of main_v136 : StableHlo.TRef sig ⟨S1024x100, .i32⟩) main_call34.v0 main_call34.v1 (cmpi .slt),
    StableHlo.TRef.nullary main_call34.c_0 (constantI S_ 32 100#32),
    StableHlo.TRef.unary main_call34.c_0 main_call34.v2 (broadcastInDim S1024x100 ![] bcast_S_S1024x100),
    StableHlo.TRef.binary (.of main_v136 : StableHlo.TRef sig ⟨S1024x100, .i32⟩) main_call34.v2 main_call34.v3 addi,
    StableHlo.TRef.ternary main_call34.v1 main_call34.v3 (.of main_v136 : StableHlo.TRef sig ⟨S1024x100, .i32⟩) main_call34.call0.v0 select,
    StableHlo.TRef.unary main_call34.call0.v0 main_call34.v5 (broadcastInDim S1024x100x1 ![0, 1] bcast_S1024x100_S1024x100x1_0_1),
    StableHlo.TRef.nullary main_call34.c_1 (constantI S1 32 99#32),
    StableHlo.TRef.nullary main_call34.c_2 (constantI S_ 32 0#32),
    StableHlo.TRef.unary main_call34.c_2 main_call34.v6 (broadcastInDim S1024x100x1 ![] bcast_S_S1024x100x1),
    StableHlo.TRef.binary main_call34.v5 main_call34.v6 main_call34.v7 (cmpi .sge),
    StableHlo.TRef.unary main_call34.c_1 main_call34.v8 (broadcastInDim S1x1x1 ![2] bcast_S1_S1x1x1_2),
    StableHlo.TRef.unary main_call34.v8 main_call34.v9 (broadcastInDim S1024x100x1 ![0, 1, 2] bcast_S1x1x1_S1024x100x1_0_1_2),
    StableHlo.TRef.binary main_call34.v5 main_call34.v9 main_call34.v10 (cmpi .sle),
    StableHlo.TRef.binary main_call34.v7 main_call34.v10 main_call34.v11 andi,
    StableHlo.TRef.nullary main_call34.c_3 (constantI S_ 1 1#1),
    StableHlo.TRef.binary main_call34.v11 main_call34.c_3 main_call34.v12 (fun x v => Host.reduce IntOp.andi x v reducesTo_S1024x100x1_S1024x100_d2 h_S_),
    StableHlo.TRef.binary (.of main_v138 : StableHlo.TRef sig ⟨S100x1, .f32⟩) main_call34.v5 main_call34.v13 (fun x i => Host.gather gather_S100x1_S1024x100x1_S1024x100x1_2_0_n_n_0_2_11 x i),
    StableHlo.TRef.unary main_call34.v12 main_call34.v14 (broadcastInDim S1024x100x1 ![0, 1] bcast_S1024x100_S1024x100x1_0_1),
    StableHlo.TRef.nullary main_call34.cst (constant S_ .f32 0x7FC00000#32),
    StableHlo.TRef.unary main_call34.cst main_call34.v15 (broadcastInDim S1024x100x1 ![] bcast_S_S1024x100x1),
    StableHlo.TRef.ternary main_call34.v14 main_call34.v13 main_call34.v15 main_call34.v16 select,
    StableHlo.nullary main_cst_16 (constant S_ .f32 0x00000000#32),
    StableHlo.binary main_v139 main_cst_16 main_v140 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v141 ((extractStridedSlice S1x100x32 ![17, 0, 0] · slices_S26x100x32_S1x100x32_17_0_0) : (⟨S26x100x32, .f32⟩ : BufTy).Contents (Elt F) → (⟨S1x100x32, .f32⟩ : BufTy).Contents (Elt F)),
    StableHlo.reshape main_v141 main_v142 rfl shapeCasts_S1x100x32_S100x32,
    StableHlo.TRef.nullary main_call35.c (constantI S_ 32 0#32),
    StableHlo.TRef.unary main_call35.c main_call35.v0 (broadcastInDim S1024x100 ![] bcast_S_S1024x100),
    StableHlo.TRef.binary (.of main_v136 : StableHlo.TRef sig ⟨S1024x100, .i32⟩) main_call35.v0 main_call35.v1 (cmpi .slt),
    StableHlo.TRef.nullary main_call35.c_0 (constantI S_ 32 100#32),
    StableHlo.TRef.unary main_call35.c_0 main_call35.v2 (broadcastInDim S1024x100 ![] bcast_S_S1024x100),
    StableHlo.TRef.binary (.of main_v136 : StableHlo.TRef sig ⟨S1024x100, .i32⟩) main_call35.v2 main_call35.v3 addi,
    StableHlo.TRef.ternary main_call35.v1 main_call35.v3 (.of main_v136 : StableHlo.TRef sig ⟨S1024x100, .i32⟩) main_call35.call0.v0 select,
    StableHlo.TRef.unary main_call35.call0.v0 main_call35.v5 (broadcastInDim S1024x100x1 ![0, 1] bcast_S1024x100_S1024x100x1_0_1),
    StableHlo.TRef.nullary main_call35.c_1 (constantI S1 32 99#32),
    StableHlo.TRef.nullary main_call35.c_2 (constantI S_ 32 0#32),
    StableHlo.TRef.unary main_call35.c_2 main_call35.v6 (broadcastInDim S1024x100x1 ![] bcast_S_S1024x100x1),
    StableHlo.TRef.binary main_call35.v5 main_call35.v6 main_call35.v7 (cmpi .sge),
    StableHlo.TRef.unary main_call35.c_1 main_call35.v8 (broadcastInDim S1x1x1 ![2] bcast_S1_S1x1x1_2),
    StableHlo.TRef.unary main_call35.v8 main_call35.v9 (broadcastInDim S1024x100x1 ![0, 1, 2] bcast_S1x1x1_S1024x100x1_0_1_2),
    StableHlo.TRef.binary main_call35.v5 main_call35.v9 main_call35.v10 (cmpi .sle),
    StableHlo.TRef.binary main_call35.v7 main_call35.v10 main_call35.v11 andi,
    StableHlo.TRef.nullary main_call35.c_3 (constantI S_ 1 1#1),
    StableHlo.TRef.binary main_call35.v11 main_call35.c_3 main_call35.v12 (fun x v => Host.reduce IntOp.andi x v reducesTo_S1024x100x1_S1024x100_d2 h_S_),
    StableHlo.TRef.binary (.of main_v142 : StableHlo.TRef sig ⟨S100x32, .f32⟩) main_call35.v5 main_call35.v13 (fun x i => Host.gather gather_S100x32_S1024x100x1_S1024x100x32_2_0_n_n_0_2_132 x i),
    StableHlo.TRef.unary main_call35.v12 main_call35.v14 (broadcastInDim S1024x100x32 ![0, 1] bcast_S1024x100_S1024x100x32_0_1),
    StableHlo.TRef.nullary main_call35.cst (constant S_ .f32 0x7FC00000#32),
    StableHlo.TRef.unary main_call35.cst main_call35.v15 (broadcastInDim S1024x100x32 ![] bcast_S_S1024x100x32),
    StableHlo.TRef.ternary main_call35.v14 main_call35.v13 main_call35.v15 main_call35.v16 select ]

abbrev F18 : List (HloOp τ sig (Elt F)) :=
  [ StableHlo.unary main_arg0 main_v144 ((extractStridedSlice S1024x100 ![0, 1818] · slices_S1024x2626_S1024x100_0_1818) : (⟨S1024x2626, .i32⟩ : BufTy).Contents (Elt F) → (⟨S1024x100, .i32⟩ : BufTy).Contents (Elt F)),
    StableHlo.unary main_arg2 main_v145 ((extractStridedSlice S1x100x1 ![18, 0, 0] · slices_S26x100x1_S1x100x1_18_0_0) : (⟨S26x100x1, .f32⟩ : BufTy).Contents (Elt F) → (⟨S1x100x1, .f32⟩ : BufTy).Contents (Elt F)),
    StableHlo.reshape main_v145 main_v146 rfl shapeCasts_S1x100x1_S100x1,
    StableHlo.TRef.nullary main_call36.c (constantI S_ 32 0#32),
    StableHlo.TRef.unary main_call36.c main_call36.v0 (broadcastInDim S1024x100 ![] bcast_S_S1024x100),
    StableHlo.TRef.binary (.of main_v144 : StableHlo.TRef sig ⟨S1024x100, .i32⟩) main_call36.v0 main_call36.v1 (cmpi .slt),
    StableHlo.TRef.nullary main_call36.c_0 (constantI S_ 32 100#32),
    StableHlo.TRef.unary main_call36.c_0 main_call36.v2 (broadcastInDim S1024x100 ![] bcast_S_S1024x100),
    StableHlo.TRef.binary (.of main_v144 : StableHlo.TRef sig ⟨S1024x100, .i32⟩) main_call36.v2 main_call36.v3 addi,
    StableHlo.TRef.ternary main_call36.v1 main_call36.v3 (.of main_v144 : StableHlo.TRef sig ⟨S1024x100, .i32⟩) main_call36.call0.v0 select,
    StableHlo.TRef.unary main_call36.call0.v0 main_call36.v5 (broadcastInDim S1024x100x1 ![0, 1] bcast_S1024x100_S1024x100x1_0_1),
    StableHlo.TRef.nullary main_call36.c_1 (constantI S1 32 99#32),
    StableHlo.TRef.nullary main_call36.c_2 (constantI S_ 32 0#32),
    StableHlo.TRef.unary main_call36.c_2 main_call36.v6 (broadcastInDim S1024x100x1 ![] bcast_S_S1024x100x1),
    StableHlo.TRef.binary main_call36.v5 main_call36.v6 main_call36.v7 (cmpi .sge),
    StableHlo.TRef.unary main_call36.c_1 main_call36.v8 (broadcastInDim S1x1x1 ![2] bcast_S1_S1x1x1_2),
    StableHlo.TRef.unary main_call36.v8 main_call36.v9 (broadcastInDim S1024x100x1 ![0, 1, 2] bcast_S1x1x1_S1024x100x1_0_1_2),
    StableHlo.TRef.binary main_call36.v5 main_call36.v9 main_call36.v10 (cmpi .sle),
    StableHlo.TRef.binary main_call36.v7 main_call36.v10 main_call36.v11 andi,
    StableHlo.TRef.nullary main_call36.c_3 (constantI S_ 1 1#1),
    StableHlo.TRef.binary main_call36.v11 main_call36.c_3 main_call36.v12 (fun x v => Host.reduce IntOp.andi x v reducesTo_S1024x100x1_S1024x100_d2 h_S_),
    StableHlo.TRef.binary (.of main_v146 : StableHlo.TRef sig ⟨S100x1, .f32⟩) main_call36.v5 main_call36.v13 (fun x i => Host.gather gather_S100x1_S1024x100x1_S1024x100x1_2_0_n_n_0_2_11 x i),
    StableHlo.TRef.unary main_call36.v12 main_call36.v14 (broadcastInDim S1024x100x1 ![0, 1] bcast_S1024x100_S1024x100x1_0_1),
    StableHlo.TRef.nullary main_call36.cst (constant S_ .f32 0x7FC00000#32),
    StableHlo.TRef.unary main_call36.cst main_call36.v15 (broadcastInDim S1024x100x1 ![] bcast_S_S1024x100x1),
    StableHlo.TRef.ternary main_call36.v14 main_call36.v13 main_call36.v15 main_call36.v16 select,
    StableHlo.nullary main_cst_17 (constant S_ .f32 0x00000000#32),
    StableHlo.binary main_v147 main_cst_17 main_v148 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v149 ((extractStridedSlice S1x100x32 ![18, 0, 0] · slices_S26x100x32_S1x100x32_18_0_0) : (⟨S26x100x32, .f32⟩ : BufTy).Contents (Elt F) → (⟨S1x100x32, .f32⟩ : BufTy).Contents (Elt F)),
    StableHlo.reshape main_v149 main_v150 rfl shapeCasts_S1x100x32_S100x32,
    StableHlo.TRef.nullary main_call37.c (constantI S_ 32 0#32),
    StableHlo.TRef.unary main_call37.c main_call37.v0 (broadcastInDim S1024x100 ![] bcast_S_S1024x100),
    StableHlo.TRef.binary (.of main_v144 : StableHlo.TRef sig ⟨S1024x100, .i32⟩) main_call37.v0 main_call37.v1 (cmpi .slt),
    StableHlo.TRef.nullary main_call37.c_0 (constantI S_ 32 100#32),
    StableHlo.TRef.unary main_call37.c_0 main_call37.v2 (broadcastInDim S1024x100 ![] bcast_S_S1024x100),
    StableHlo.TRef.binary (.of main_v144 : StableHlo.TRef sig ⟨S1024x100, .i32⟩) main_call37.v2 main_call37.v3 addi,
    StableHlo.TRef.ternary main_call37.v1 main_call37.v3 (.of main_v144 : StableHlo.TRef sig ⟨S1024x100, .i32⟩) main_call37.call0.v0 select,
    StableHlo.TRef.unary main_call37.call0.v0 main_call37.v5 (broadcastInDim S1024x100x1 ![0, 1] bcast_S1024x100_S1024x100x1_0_1),
    StableHlo.TRef.nullary main_call37.c_1 (constantI S1 32 99#32),
    StableHlo.TRef.nullary main_call37.c_2 (constantI S_ 32 0#32),
    StableHlo.TRef.unary main_call37.c_2 main_call37.v6 (broadcastInDim S1024x100x1 ![] bcast_S_S1024x100x1),
    StableHlo.TRef.binary main_call37.v5 main_call37.v6 main_call37.v7 (cmpi .sge),
    StableHlo.TRef.unary main_call37.c_1 main_call37.v8 (broadcastInDim S1x1x1 ![2] bcast_S1_S1x1x1_2),
    StableHlo.TRef.unary main_call37.v8 main_call37.v9 (broadcastInDim S1024x100x1 ![0, 1, 2] bcast_S1x1x1_S1024x100x1_0_1_2),
    StableHlo.TRef.binary main_call37.v5 main_call37.v9 main_call37.v10 (cmpi .sle),
    StableHlo.TRef.binary main_call37.v7 main_call37.v10 main_call37.v11 andi,
    StableHlo.TRef.nullary main_call37.c_3 (constantI S_ 1 1#1),
    StableHlo.TRef.binary main_call37.v11 main_call37.c_3 main_call37.v12 (fun x v => Host.reduce IntOp.andi x v reducesTo_S1024x100x1_S1024x100_d2 h_S_),
    StableHlo.TRef.binary (.of main_v150 : StableHlo.TRef sig ⟨S100x32, .f32⟩) main_call37.v5 main_call37.v13 (fun x i => Host.gather gather_S100x32_S1024x100x1_S1024x100x32_2_0_n_n_0_2_132 x i),
    StableHlo.TRef.unary main_call37.v12 main_call37.v14 (broadcastInDim S1024x100x32 ![0, 1] bcast_S1024x100_S1024x100x32_0_1),
    StableHlo.TRef.nullary main_call37.cst (constant S_ .f32 0x7FC00000#32),
    StableHlo.TRef.unary main_call37.cst main_call37.v15 (broadcastInDim S1024x100x32 ![] bcast_S_S1024x100x32),
    StableHlo.TRef.ternary main_call37.v14 main_call37.v13 main_call37.v15 main_call37.v16 select ]

abbrev F19 : List (HloOp τ sig (Elt F)) :=
  [ StableHlo.unary main_arg0 main_v152 ((extractStridedSlice S1024x100 ![0, 1919] · slices_S1024x2626_S1024x100_0_1919) : (⟨S1024x2626, .i32⟩ : BufTy).Contents (Elt F) → (⟨S1024x100, .i32⟩ : BufTy).Contents (Elt F)),
    StableHlo.unary main_arg2 main_v153 ((extractStridedSlice S1x100x1 ![19, 0, 0] · slices_S26x100x1_S1x100x1_19_0_0) : (⟨S26x100x1, .f32⟩ : BufTy).Contents (Elt F) → (⟨S1x100x1, .f32⟩ : BufTy).Contents (Elt F)),
    StableHlo.reshape main_v153 main_v154 rfl shapeCasts_S1x100x1_S100x1,
    StableHlo.TRef.nullary main_call38.c (constantI S_ 32 0#32),
    StableHlo.TRef.unary main_call38.c main_call38.v0 (broadcastInDim S1024x100 ![] bcast_S_S1024x100),
    StableHlo.TRef.binary (.of main_v152 : StableHlo.TRef sig ⟨S1024x100, .i32⟩) main_call38.v0 main_call38.v1 (cmpi .slt),
    StableHlo.TRef.nullary main_call38.c_0 (constantI S_ 32 100#32),
    StableHlo.TRef.unary main_call38.c_0 main_call38.v2 (broadcastInDim S1024x100 ![] bcast_S_S1024x100),
    StableHlo.TRef.binary (.of main_v152 : StableHlo.TRef sig ⟨S1024x100, .i32⟩) main_call38.v2 main_call38.v3 addi,
    StableHlo.TRef.ternary main_call38.v1 main_call38.v3 (.of main_v152 : StableHlo.TRef sig ⟨S1024x100, .i32⟩) main_call38.call0.v0 select,
    StableHlo.TRef.unary main_call38.call0.v0 main_call38.v5 (broadcastInDim S1024x100x1 ![0, 1] bcast_S1024x100_S1024x100x1_0_1),
    StableHlo.TRef.nullary main_call38.c_1 (constantI S1 32 99#32),
    StableHlo.TRef.nullary main_call38.c_2 (constantI S_ 32 0#32),
    StableHlo.TRef.unary main_call38.c_2 main_call38.v6 (broadcastInDim S1024x100x1 ![] bcast_S_S1024x100x1),
    StableHlo.TRef.binary main_call38.v5 main_call38.v6 main_call38.v7 (cmpi .sge),
    StableHlo.TRef.unary main_call38.c_1 main_call38.v8 (broadcastInDim S1x1x1 ![2] bcast_S1_S1x1x1_2),
    StableHlo.TRef.unary main_call38.v8 main_call38.v9 (broadcastInDim S1024x100x1 ![0, 1, 2] bcast_S1x1x1_S1024x100x1_0_1_2),
    StableHlo.TRef.binary main_call38.v5 main_call38.v9 main_call38.v10 (cmpi .sle),
    StableHlo.TRef.binary main_call38.v7 main_call38.v10 main_call38.v11 andi,
    StableHlo.TRef.nullary main_call38.c_3 (constantI S_ 1 1#1),
    StableHlo.TRef.binary main_call38.v11 main_call38.c_3 main_call38.v12 (fun x v => Host.reduce IntOp.andi x v reducesTo_S1024x100x1_S1024x100_d2 h_S_),
    StableHlo.TRef.binary (.of main_v154 : StableHlo.TRef sig ⟨S100x1, .f32⟩) main_call38.v5 main_call38.v13 (fun x i => Host.gather gather_S100x1_S1024x100x1_S1024x100x1_2_0_n_n_0_2_11 x i),
    StableHlo.TRef.unary main_call38.v12 main_call38.v14 (broadcastInDim S1024x100x1 ![0, 1] bcast_S1024x100_S1024x100x1_0_1),
    StableHlo.TRef.nullary main_call38.cst (constant S_ .f32 0x7FC00000#32),
    StableHlo.TRef.unary main_call38.cst main_call38.v15 (broadcastInDim S1024x100x1 ![] bcast_S_S1024x100x1),
    StableHlo.TRef.ternary main_call38.v14 main_call38.v13 main_call38.v15 main_call38.v16 select,
    StableHlo.nullary main_cst_18 (constant S_ .f32 0x00000000#32),
    StableHlo.binary main_v155 main_cst_18 main_v156 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v157 ((extractStridedSlice S1x100x32 ![19, 0, 0] · slices_S26x100x32_S1x100x32_19_0_0) : (⟨S26x100x32, .f32⟩ : BufTy).Contents (Elt F) → (⟨S1x100x32, .f32⟩ : BufTy).Contents (Elt F)),
    StableHlo.reshape main_v157 main_v158 rfl shapeCasts_S1x100x32_S100x32,
    StableHlo.TRef.nullary main_call39.c (constantI S_ 32 0#32),
    StableHlo.TRef.unary main_call39.c main_call39.v0 (broadcastInDim S1024x100 ![] bcast_S_S1024x100),
    StableHlo.TRef.binary (.of main_v152 : StableHlo.TRef sig ⟨S1024x100, .i32⟩) main_call39.v0 main_call39.v1 (cmpi .slt),
    StableHlo.TRef.nullary main_call39.c_0 (constantI S_ 32 100#32),
    StableHlo.TRef.unary main_call39.c_0 main_call39.v2 (broadcastInDim S1024x100 ![] bcast_S_S1024x100),
    StableHlo.TRef.binary (.of main_v152 : StableHlo.TRef sig ⟨S1024x100, .i32⟩) main_call39.v2 main_call39.v3 addi,
    StableHlo.TRef.ternary main_call39.v1 main_call39.v3 (.of main_v152 : StableHlo.TRef sig ⟨S1024x100, .i32⟩) main_call39.call0.v0 select,
    StableHlo.TRef.unary main_call39.call0.v0 main_call39.v5 (broadcastInDim S1024x100x1 ![0, 1] bcast_S1024x100_S1024x100x1_0_1),
    StableHlo.TRef.nullary main_call39.c_1 (constantI S1 32 99#32),
    StableHlo.TRef.nullary main_call39.c_2 (constantI S_ 32 0#32),
    StableHlo.TRef.unary main_call39.c_2 main_call39.v6 (broadcastInDim S1024x100x1 ![] bcast_S_S1024x100x1),
    StableHlo.TRef.binary main_call39.v5 main_call39.v6 main_call39.v7 (cmpi .sge),
    StableHlo.TRef.unary main_call39.c_1 main_call39.v8 (broadcastInDim S1x1x1 ![2] bcast_S1_S1x1x1_2),
    StableHlo.TRef.unary main_call39.v8 main_call39.v9 (broadcastInDim S1024x100x1 ![0, 1, 2] bcast_S1x1x1_S1024x100x1_0_1_2),
    StableHlo.TRef.binary main_call39.v5 main_call39.v9 main_call39.v10 (cmpi .sle),
    StableHlo.TRef.binary main_call39.v7 main_call39.v10 main_call39.v11 andi,
    StableHlo.TRef.nullary main_call39.c_3 (constantI S_ 1 1#1),
    StableHlo.TRef.binary main_call39.v11 main_call39.c_3 main_call39.v12 (fun x v => Host.reduce IntOp.andi x v reducesTo_S1024x100x1_S1024x100_d2 h_S_),
    StableHlo.TRef.binary (.of main_v158 : StableHlo.TRef sig ⟨S100x32, .f32⟩) main_call39.v5 main_call39.v13 (fun x i => Host.gather gather_S100x32_S1024x100x1_S1024x100x32_2_0_n_n_0_2_132 x i),
    StableHlo.TRef.unary main_call39.v12 main_call39.v14 (broadcastInDim S1024x100x32 ![0, 1] bcast_S1024x100_S1024x100x32_0_1),
    StableHlo.TRef.nullary main_call39.cst (constant S_ .f32 0x7FC00000#32),
    StableHlo.TRef.unary main_call39.cst main_call39.v15 (broadcastInDim S1024x100x32 ![] bcast_S_S1024x100x32),
    StableHlo.TRef.ternary main_call39.v14 main_call39.v13 main_call39.v15 main_call39.v16 select ]

abbrev F20 : List (HloOp τ sig (Elt F)) :=
  [ StableHlo.unary main_arg0 main_v160 ((extractStridedSlice S1024x100 ![0, 2020] · slices_S1024x2626_S1024x100_0_2020) : (⟨S1024x2626, .i32⟩ : BufTy).Contents (Elt F) → (⟨S1024x100, .i32⟩ : BufTy).Contents (Elt F)),
    StableHlo.unary main_arg2 main_v161 ((extractStridedSlice S1x100x1 ![20, 0, 0] · slices_S26x100x1_S1x100x1_20_0_0) : (⟨S26x100x1, .f32⟩ : BufTy).Contents (Elt F) → (⟨S1x100x1, .f32⟩ : BufTy).Contents (Elt F)),
    StableHlo.reshape main_v161 main_v162 rfl shapeCasts_S1x100x1_S100x1,
    StableHlo.TRef.nullary main_call40.c (constantI S_ 32 0#32),
    StableHlo.TRef.unary main_call40.c main_call40.v0 (broadcastInDim S1024x100 ![] bcast_S_S1024x100),
    StableHlo.TRef.binary (.of main_v160 : StableHlo.TRef sig ⟨S1024x100, .i32⟩) main_call40.v0 main_call40.v1 (cmpi .slt),
    StableHlo.TRef.nullary main_call40.c_0 (constantI S_ 32 100#32),
    StableHlo.TRef.unary main_call40.c_0 main_call40.v2 (broadcastInDim S1024x100 ![] bcast_S_S1024x100),
    StableHlo.TRef.binary (.of main_v160 : StableHlo.TRef sig ⟨S1024x100, .i32⟩) main_call40.v2 main_call40.v3 addi,
    StableHlo.TRef.ternary main_call40.v1 main_call40.v3 (.of main_v160 : StableHlo.TRef sig ⟨S1024x100, .i32⟩) main_call40.call0.v0 select,
    StableHlo.TRef.unary main_call40.call0.v0 main_call40.v5 (broadcastInDim S1024x100x1 ![0, 1] bcast_S1024x100_S1024x100x1_0_1),
    StableHlo.TRef.nullary main_call40.c_1 (constantI S1 32 99#32),
    StableHlo.TRef.nullary main_call40.c_2 (constantI S_ 32 0#32),
    StableHlo.TRef.unary main_call40.c_2 main_call40.v6 (broadcastInDim S1024x100x1 ![] bcast_S_S1024x100x1),
    StableHlo.TRef.binary main_call40.v5 main_call40.v6 main_call40.v7 (cmpi .sge),
    StableHlo.TRef.unary main_call40.c_1 main_call40.v8 (broadcastInDim S1x1x1 ![2] bcast_S1_S1x1x1_2),
    StableHlo.TRef.unary main_call40.v8 main_call40.v9 (broadcastInDim S1024x100x1 ![0, 1, 2] bcast_S1x1x1_S1024x100x1_0_1_2),
    StableHlo.TRef.binary main_call40.v5 main_call40.v9 main_call40.v10 (cmpi .sle),
    StableHlo.TRef.binary main_call40.v7 main_call40.v10 main_call40.v11 andi,
    StableHlo.TRef.nullary main_call40.c_3 (constantI S_ 1 1#1),
    StableHlo.TRef.binary main_call40.v11 main_call40.c_3 main_call40.v12 (fun x v => Host.reduce IntOp.andi x v reducesTo_S1024x100x1_S1024x100_d2 h_S_),
    StableHlo.TRef.binary (.of main_v162 : StableHlo.TRef sig ⟨S100x1, .f32⟩) main_call40.v5 main_call40.v13 (fun x i => Host.gather gather_S100x1_S1024x100x1_S1024x100x1_2_0_n_n_0_2_11 x i),
    StableHlo.TRef.unary main_call40.v12 main_call40.v14 (broadcastInDim S1024x100x1 ![0, 1] bcast_S1024x100_S1024x100x1_0_1),
    StableHlo.TRef.nullary main_call40.cst (constant S_ .f32 0x7FC00000#32),
    StableHlo.TRef.unary main_call40.cst main_call40.v15 (broadcastInDim S1024x100x1 ![] bcast_S_S1024x100x1),
    StableHlo.TRef.ternary main_call40.v14 main_call40.v13 main_call40.v15 main_call40.v16 select,
    StableHlo.nullary main_cst_19 (constant S_ .f32 0x00000000#32),
    StableHlo.binary main_v163 main_cst_19 main_v164 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v165 ((extractStridedSlice S1x100x32 ![20, 0, 0] · slices_S26x100x32_S1x100x32_20_0_0) : (⟨S26x100x32, .f32⟩ : BufTy).Contents (Elt F) → (⟨S1x100x32, .f32⟩ : BufTy).Contents (Elt F)),
    StableHlo.reshape main_v165 main_v166 rfl shapeCasts_S1x100x32_S100x32,
    StableHlo.TRef.nullary main_call41.c (constantI S_ 32 0#32),
    StableHlo.TRef.unary main_call41.c main_call41.v0 (broadcastInDim S1024x100 ![] bcast_S_S1024x100),
    StableHlo.TRef.binary (.of main_v160 : StableHlo.TRef sig ⟨S1024x100, .i32⟩) main_call41.v0 main_call41.v1 (cmpi .slt),
    StableHlo.TRef.nullary main_call41.c_0 (constantI S_ 32 100#32),
    StableHlo.TRef.unary main_call41.c_0 main_call41.v2 (broadcastInDim S1024x100 ![] bcast_S_S1024x100),
    StableHlo.TRef.binary (.of main_v160 : StableHlo.TRef sig ⟨S1024x100, .i32⟩) main_call41.v2 main_call41.v3 addi,
    StableHlo.TRef.ternary main_call41.v1 main_call41.v3 (.of main_v160 : StableHlo.TRef sig ⟨S1024x100, .i32⟩) main_call41.call0.v0 select,
    StableHlo.TRef.unary main_call41.call0.v0 main_call41.v5 (broadcastInDim S1024x100x1 ![0, 1] bcast_S1024x100_S1024x100x1_0_1),
    StableHlo.TRef.nullary main_call41.c_1 (constantI S1 32 99#32),
    StableHlo.TRef.nullary main_call41.c_2 (constantI S_ 32 0#32),
    StableHlo.TRef.unary main_call41.c_2 main_call41.v6 (broadcastInDim S1024x100x1 ![] bcast_S_S1024x100x1),
    StableHlo.TRef.binary main_call41.v5 main_call41.v6 main_call41.v7 (cmpi .sge),
    StableHlo.TRef.unary main_call41.c_1 main_call41.v8 (broadcastInDim S1x1x1 ![2] bcast_S1_S1x1x1_2),
    StableHlo.TRef.unary main_call41.v8 main_call41.v9 (broadcastInDim S1024x100x1 ![0, 1, 2] bcast_S1x1x1_S1024x100x1_0_1_2),
    StableHlo.TRef.binary main_call41.v5 main_call41.v9 main_call41.v10 (cmpi .sle),
    StableHlo.TRef.binary main_call41.v7 main_call41.v10 main_call41.v11 andi,
    StableHlo.TRef.nullary main_call41.c_3 (constantI S_ 1 1#1),
    StableHlo.TRef.binary main_call41.v11 main_call41.c_3 main_call41.v12 (fun x v => Host.reduce IntOp.andi x v reducesTo_S1024x100x1_S1024x100_d2 h_S_),
    StableHlo.TRef.binary (.of main_v166 : StableHlo.TRef sig ⟨S100x32, .f32⟩) main_call41.v5 main_call41.v13 (fun x i => Host.gather gather_S100x32_S1024x100x1_S1024x100x32_2_0_n_n_0_2_132 x i),
    StableHlo.TRef.unary main_call41.v12 main_call41.v14 (broadcastInDim S1024x100x32 ![0, 1] bcast_S1024x100_S1024x100x32_0_1),
    StableHlo.TRef.nullary main_call41.cst (constant S_ .f32 0x7FC00000#32),
    StableHlo.TRef.unary main_call41.cst main_call41.v15 (broadcastInDim S1024x100x32 ![] bcast_S_S1024x100x32),
    StableHlo.TRef.ternary main_call41.v14 main_call41.v13 main_call41.v15 main_call41.v16 select ]

abbrev F21 : List (HloOp τ sig (Elt F)) :=
  [ StableHlo.unary main_arg0 main_v168 ((extractStridedSlice S1024x100 ![0, 2121] · slices_S1024x2626_S1024x100_0_2121) : (⟨S1024x2626, .i32⟩ : BufTy).Contents (Elt F) → (⟨S1024x100, .i32⟩ : BufTy).Contents (Elt F)),
    StableHlo.unary main_arg2 main_v169 ((extractStridedSlice S1x100x1 ![21, 0, 0] · slices_S26x100x1_S1x100x1_21_0_0) : (⟨S26x100x1, .f32⟩ : BufTy).Contents (Elt F) → (⟨S1x100x1, .f32⟩ : BufTy).Contents (Elt F)),
    StableHlo.reshape main_v169 main_v170 rfl shapeCasts_S1x100x1_S100x1,
    StableHlo.TRef.nullary main_call42.c (constantI S_ 32 0#32),
    StableHlo.TRef.unary main_call42.c main_call42.v0 (broadcastInDim S1024x100 ![] bcast_S_S1024x100),
    StableHlo.TRef.binary (.of main_v168 : StableHlo.TRef sig ⟨S1024x100, .i32⟩) main_call42.v0 main_call42.v1 (cmpi .slt),
    StableHlo.TRef.nullary main_call42.c_0 (constantI S_ 32 100#32),
    StableHlo.TRef.unary main_call42.c_0 main_call42.v2 (broadcastInDim S1024x100 ![] bcast_S_S1024x100),
    StableHlo.TRef.binary (.of main_v168 : StableHlo.TRef sig ⟨S1024x100, .i32⟩) main_call42.v2 main_call42.v3 addi,
    StableHlo.TRef.ternary main_call42.v1 main_call42.v3 (.of main_v168 : StableHlo.TRef sig ⟨S1024x100, .i32⟩) main_call42.call0.v0 select,
    StableHlo.TRef.unary main_call42.call0.v0 main_call42.v5 (broadcastInDim S1024x100x1 ![0, 1] bcast_S1024x100_S1024x100x1_0_1),
    StableHlo.TRef.nullary main_call42.c_1 (constantI S1 32 99#32),
    StableHlo.TRef.nullary main_call42.c_2 (constantI S_ 32 0#32),
    StableHlo.TRef.unary main_call42.c_2 main_call42.v6 (broadcastInDim S1024x100x1 ![] bcast_S_S1024x100x1),
    StableHlo.TRef.binary main_call42.v5 main_call42.v6 main_call42.v7 (cmpi .sge),
    StableHlo.TRef.unary main_call42.c_1 main_call42.v8 (broadcastInDim S1x1x1 ![2] bcast_S1_S1x1x1_2),
    StableHlo.TRef.unary main_call42.v8 main_call42.v9 (broadcastInDim S1024x100x1 ![0, 1, 2] bcast_S1x1x1_S1024x100x1_0_1_2),
    StableHlo.TRef.binary main_call42.v5 main_call42.v9 main_call42.v10 (cmpi .sle),
    StableHlo.TRef.binary main_call42.v7 main_call42.v10 main_call42.v11 andi,
    StableHlo.TRef.nullary main_call42.c_3 (constantI S_ 1 1#1),
    StableHlo.TRef.binary main_call42.v11 main_call42.c_3 main_call42.v12 (fun x v => Host.reduce IntOp.andi x v reducesTo_S1024x100x1_S1024x100_d2 h_S_),
    StableHlo.TRef.binary (.of main_v170 : StableHlo.TRef sig ⟨S100x1, .f32⟩) main_call42.v5 main_call42.v13 (fun x i => Host.gather gather_S100x1_S1024x100x1_S1024x100x1_2_0_n_n_0_2_11 x i),
    StableHlo.TRef.unary main_call42.v12 main_call42.v14 (broadcastInDim S1024x100x1 ![0, 1] bcast_S1024x100_S1024x100x1_0_1),
    StableHlo.TRef.nullary main_call42.cst (constant S_ .f32 0x7FC00000#32),
    StableHlo.TRef.unary main_call42.cst main_call42.v15 (broadcastInDim S1024x100x1 ![] bcast_S_S1024x100x1),
    StableHlo.TRef.ternary main_call42.v14 main_call42.v13 main_call42.v15 main_call42.v16 select,
    StableHlo.nullary main_cst_20 (constant S_ .f32 0x00000000#32),
    StableHlo.binary main_v171 main_cst_20 main_v172 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v173 ((extractStridedSlice S1x100x32 ![21, 0, 0] · slices_S26x100x32_S1x100x32_21_0_0) : (⟨S26x100x32, .f32⟩ : BufTy).Contents (Elt F) → (⟨S1x100x32, .f32⟩ : BufTy).Contents (Elt F)),
    StableHlo.reshape main_v173 main_v174 rfl shapeCasts_S1x100x32_S100x32,
    StableHlo.TRef.nullary main_call43.c (constantI S_ 32 0#32),
    StableHlo.TRef.unary main_call43.c main_call43.v0 (broadcastInDim S1024x100 ![] bcast_S_S1024x100),
    StableHlo.TRef.binary (.of main_v168 : StableHlo.TRef sig ⟨S1024x100, .i32⟩) main_call43.v0 main_call43.v1 (cmpi .slt),
    StableHlo.TRef.nullary main_call43.c_0 (constantI S_ 32 100#32),
    StableHlo.TRef.unary main_call43.c_0 main_call43.v2 (broadcastInDim S1024x100 ![] bcast_S_S1024x100),
    StableHlo.TRef.binary (.of main_v168 : StableHlo.TRef sig ⟨S1024x100, .i32⟩) main_call43.v2 main_call43.v3 addi,
    StableHlo.TRef.ternary main_call43.v1 main_call43.v3 (.of main_v168 : StableHlo.TRef sig ⟨S1024x100, .i32⟩) main_call43.call0.v0 select,
    StableHlo.TRef.unary main_call43.call0.v0 main_call43.v5 (broadcastInDim S1024x100x1 ![0, 1] bcast_S1024x100_S1024x100x1_0_1),
    StableHlo.TRef.nullary main_call43.c_1 (constantI S1 32 99#32),
    StableHlo.TRef.nullary main_call43.c_2 (constantI S_ 32 0#32),
    StableHlo.TRef.unary main_call43.c_2 main_call43.v6 (broadcastInDim S1024x100x1 ![] bcast_S_S1024x100x1),
    StableHlo.TRef.binary main_call43.v5 main_call43.v6 main_call43.v7 (cmpi .sge),
    StableHlo.TRef.unary main_call43.c_1 main_call43.v8 (broadcastInDim S1x1x1 ![2] bcast_S1_S1x1x1_2),
    StableHlo.TRef.unary main_call43.v8 main_call43.v9 (broadcastInDim S1024x100x1 ![0, 1, 2] bcast_S1x1x1_S1024x100x1_0_1_2),
    StableHlo.TRef.binary main_call43.v5 main_call43.v9 main_call43.v10 (cmpi .sle),
    StableHlo.TRef.binary main_call43.v7 main_call43.v10 main_call43.v11 andi,
    StableHlo.TRef.nullary main_call43.c_3 (constantI S_ 1 1#1),
    StableHlo.TRef.binary main_call43.v11 main_call43.c_3 main_call43.v12 (fun x v => Host.reduce IntOp.andi x v reducesTo_S1024x100x1_S1024x100_d2 h_S_),
    StableHlo.TRef.binary (.of main_v174 : StableHlo.TRef sig ⟨S100x32, .f32⟩) main_call43.v5 main_call43.v13 (fun x i => Host.gather gather_S100x32_S1024x100x1_S1024x100x32_2_0_n_n_0_2_132 x i),
    StableHlo.TRef.unary main_call43.v12 main_call43.v14 (broadcastInDim S1024x100x32 ![0, 1] bcast_S1024x100_S1024x100x32_0_1),
    StableHlo.TRef.nullary main_call43.cst (constant S_ .f32 0x7FC00000#32),
    StableHlo.TRef.unary main_call43.cst main_call43.v15 (broadcastInDim S1024x100x32 ![] bcast_S_S1024x100x32),
    StableHlo.TRef.ternary main_call43.v14 main_call43.v13 main_call43.v15 main_call43.v16 select ]

abbrev F22 : List (HloOp τ sig (Elt F)) :=
  [ StableHlo.unary main_arg0 main_v176 ((extractStridedSlice S1024x100 ![0, 2222] · slices_S1024x2626_S1024x100_0_2222) : (⟨S1024x2626, .i32⟩ : BufTy).Contents (Elt F) → (⟨S1024x100, .i32⟩ : BufTy).Contents (Elt F)),
    StableHlo.unary main_arg2 main_v177 ((extractStridedSlice S1x100x1 ![22, 0, 0] · slices_S26x100x1_S1x100x1_22_0_0) : (⟨S26x100x1, .f32⟩ : BufTy).Contents (Elt F) → (⟨S1x100x1, .f32⟩ : BufTy).Contents (Elt F)),
    StableHlo.reshape main_v177 main_v178 rfl shapeCasts_S1x100x1_S100x1,
    StableHlo.TRef.nullary main_call44.c (constantI S_ 32 0#32),
    StableHlo.TRef.unary main_call44.c main_call44.v0 (broadcastInDim S1024x100 ![] bcast_S_S1024x100),
    StableHlo.TRef.binary (.of main_v176 : StableHlo.TRef sig ⟨S1024x100, .i32⟩) main_call44.v0 main_call44.v1 (cmpi .slt),
    StableHlo.TRef.nullary main_call44.c_0 (constantI S_ 32 100#32),
    StableHlo.TRef.unary main_call44.c_0 main_call44.v2 (broadcastInDim S1024x100 ![] bcast_S_S1024x100),
    StableHlo.TRef.binary (.of main_v176 : StableHlo.TRef sig ⟨S1024x100, .i32⟩) main_call44.v2 main_call44.v3 addi,
    StableHlo.TRef.ternary main_call44.v1 main_call44.v3 (.of main_v176 : StableHlo.TRef sig ⟨S1024x100, .i32⟩) main_call44.call0.v0 select,
    StableHlo.TRef.unary main_call44.call0.v0 main_call44.v5 (broadcastInDim S1024x100x1 ![0, 1] bcast_S1024x100_S1024x100x1_0_1),
    StableHlo.TRef.nullary main_call44.c_1 (constantI S1 32 99#32),
    StableHlo.TRef.nullary main_call44.c_2 (constantI S_ 32 0#32),
    StableHlo.TRef.unary main_call44.c_2 main_call44.v6 (broadcastInDim S1024x100x1 ![] bcast_S_S1024x100x1),
    StableHlo.TRef.binary main_call44.v5 main_call44.v6 main_call44.v7 (cmpi .sge),
    StableHlo.TRef.unary main_call44.c_1 main_call44.v8 (broadcastInDim S1x1x1 ![2] bcast_S1_S1x1x1_2),
    StableHlo.TRef.unary main_call44.v8 main_call44.v9 (broadcastInDim S1024x100x1 ![0, 1, 2] bcast_S1x1x1_S1024x100x1_0_1_2),
    StableHlo.TRef.binary main_call44.v5 main_call44.v9 main_call44.v10 (cmpi .sle),
    StableHlo.TRef.binary main_call44.v7 main_call44.v10 main_call44.v11 andi,
    StableHlo.TRef.nullary main_call44.c_3 (constantI S_ 1 1#1),
    StableHlo.TRef.binary main_call44.v11 main_call44.c_3 main_call44.v12 (fun x v => Host.reduce IntOp.andi x v reducesTo_S1024x100x1_S1024x100_d2 h_S_),
    StableHlo.TRef.binary (.of main_v178 : StableHlo.TRef sig ⟨S100x1, .f32⟩) main_call44.v5 main_call44.v13 (fun x i => Host.gather gather_S100x1_S1024x100x1_S1024x100x1_2_0_n_n_0_2_11 x i),
    StableHlo.TRef.unary main_call44.v12 main_call44.v14 (broadcastInDim S1024x100x1 ![0, 1] bcast_S1024x100_S1024x100x1_0_1),
    StableHlo.TRef.nullary main_call44.cst (constant S_ .f32 0x7FC00000#32),
    StableHlo.TRef.unary main_call44.cst main_call44.v15 (broadcastInDim S1024x100x1 ![] bcast_S_S1024x100x1),
    StableHlo.TRef.ternary main_call44.v14 main_call44.v13 main_call44.v15 main_call44.v16 select,
    StableHlo.nullary main_cst_21 (constant S_ .f32 0x00000000#32),
    StableHlo.binary main_v179 main_cst_21 main_v180 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v181 ((extractStridedSlice S1x100x32 ![22, 0, 0] · slices_S26x100x32_S1x100x32_22_0_0) : (⟨S26x100x32, .f32⟩ : BufTy).Contents (Elt F) → (⟨S1x100x32, .f32⟩ : BufTy).Contents (Elt F)),
    StableHlo.reshape main_v181 main_v182 rfl shapeCasts_S1x100x32_S100x32,
    StableHlo.TRef.nullary main_call45.c (constantI S_ 32 0#32),
    StableHlo.TRef.unary main_call45.c main_call45.v0 (broadcastInDim S1024x100 ![] bcast_S_S1024x100),
    StableHlo.TRef.binary (.of main_v176 : StableHlo.TRef sig ⟨S1024x100, .i32⟩) main_call45.v0 main_call45.v1 (cmpi .slt),
    StableHlo.TRef.nullary main_call45.c_0 (constantI S_ 32 100#32),
    StableHlo.TRef.unary main_call45.c_0 main_call45.v2 (broadcastInDim S1024x100 ![] bcast_S_S1024x100),
    StableHlo.TRef.binary (.of main_v176 : StableHlo.TRef sig ⟨S1024x100, .i32⟩) main_call45.v2 main_call45.v3 addi,
    StableHlo.TRef.ternary main_call45.v1 main_call45.v3 (.of main_v176 : StableHlo.TRef sig ⟨S1024x100, .i32⟩) main_call45.call0.v0 select,
    StableHlo.TRef.unary main_call45.call0.v0 main_call45.v5 (broadcastInDim S1024x100x1 ![0, 1] bcast_S1024x100_S1024x100x1_0_1),
    StableHlo.TRef.nullary main_call45.c_1 (constantI S1 32 99#32),
    StableHlo.TRef.nullary main_call45.c_2 (constantI S_ 32 0#32),
    StableHlo.TRef.unary main_call45.c_2 main_call45.v6 (broadcastInDim S1024x100x1 ![] bcast_S_S1024x100x1),
    StableHlo.TRef.binary main_call45.v5 main_call45.v6 main_call45.v7 (cmpi .sge),
    StableHlo.TRef.unary main_call45.c_1 main_call45.v8 (broadcastInDim S1x1x1 ![2] bcast_S1_S1x1x1_2),
    StableHlo.TRef.unary main_call45.v8 main_call45.v9 (broadcastInDim S1024x100x1 ![0, 1, 2] bcast_S1x1x1_S1024x100x1_0_1_2),
    StableHlo.TRef.binary main_call45.v5 main_call45.v9 main_call45.v10 (cmpi .sle),
    StableHlo.TRef.binary main_call45.v7 main_call45.v10 main_call45.v11 andi,
    StableHlo.TRef.nullary main_call45.c_3 (constantI S_ 1 1#1),
    StableHlo.TRef.binary main_call45.v11 main_call45.c_3 main_call45.v12 (fun x v => Host.reduce IntOp.andi x v reducesTo_S1024x100x1_S1024x100_d2 h_S_),
    StableHlo.TRef.binary (.of main_v182 : StableHlo.TRef sig ⟨S100x32, .f32⟩) main_call45.v5 main_call45.v13 (fun x i => Host.gather gather_S100x32_S1024x100x1_S1024x100x32_2_0_n_n_0_2_132 x i),
    StableHlo.TRef.unary main_call45.v12 main_call45.v14 (broadcastInDim S1024x100x32 ![0, 1] bcast_S1024x100_S1024x100x32_0_1),
    StableHlo.TRef.nullary main_call45.cst (constant S_ .f32 0x7FC00000#32),
    StableHlo.TRef.unary main_call45.cst main_call45.v15 (broadcastInDim S1024x100x32 ![] bcast_S_S1024x100x32),
    StableHlo.TRef.ternary main_call45.v14 main_call45.v13 main_call45.v15 main_call45.v16 select ]

abbrev F23 : List (HloOp τ sig (Elt F)) :=
  [ StableHlo.unary main_arg0 main_v184 ((extractStridedSlice S1024x100 ![0, 2323] · slices_S1024x2626_S1024x100_0_2323) : (⟨S1024x2626, .i32⟩ : BufTy).Contents (Elt F) → (⟨S1024x100, .i32⟩ : BufTy).Contents (Elt F)),
    StableHlo.unary main_arg2 main_v185 ((extractStridedSlice S1x100x1 ![23, 0, 0] · slices_S26x100x1_S1x100x1_23_0_0) : (⟨S26x100x1, .f32⟩ : BufTy).Contents (Elt F) → (⟨S1x100x1, .f32⟩ : BufTy).Contents (Elt F)),
    StableHlo.reshape main_v185 main_v186 rfl shapeCasts_S1x100x1_S100x1,
    StableHlo.TRef.nullary main_call46.c (constantI S_ 32 0#32),
    StableHlo.TRef.unary main_call46.c main_call46.v0 (broadcastInDim S1024x100 ![] bcast_S_S1024x100),
    StableHlo.TRef.binary (.of main_v184 : StableHlo.TRef sig ⟨S1024x100, .i32⟩) main_call46.v0 main_call46.v1 (cmpi .slt),
    StableHlo.TRef.nullary main_call46.c_0 (constantI S_ 32 100#32),
    StableHlo.TRef.unary main_call46.c_0 main_call46.v2 (broadcastInDim S1024x100 ![] bcast_S_S1024x100),
    StableHlo.TRef.binary (.of main_v184 : StableHlo.TRef sig ⟨S1024x100, .i32⟩) main_call46.v2 main_call46.v3 addi,
    StableHlo.TRef.ternary main_call46.v1 main_call46.v3 (.of main_v184 : StableHlo.TRef sig ⟨S1024x100, .i32⟩) main_call46.call0.v0 select,
    StableHlo.TRef.unary main_call46.call0.v0 main_call46.v5 (broadcastInDim S1024x100x1 ![0, 1] bcast_S1024x100_S1024x100x1_0_1),
    StableHlo.TRef.nullary main_call46.c_1 (constantI S1 32 99#32),
    StableHlo.TRef.nullary main_call46.c_2 (constantI S_ 32 0#32),
    StableHlo.TRef.unary main_call46.c_2 main_call46.v6 (broadcastInDim S1024x100x1 ![] bcast_S_S1024x100x1),
    StableHlo.TRef.binary main_call46.v5 main_call46.v6 main_call46.v7 (cmpi .sge),
    StableHlo.TRef.unary main_call46.c_1 main_call46.v8 (broadcastInDim S1x1x1 ![2] bcast_S1_S1x1x1_2),
    StableHlo.TRef.unary main_call46.v8 main_call46.v9 (broadcastInDim S1024x100x1 ![0, 1, 2] bcast_S1x1x1_S1024x100x1_0_1_2),
    StableHlo.TRef.binary main_call46.v5 main_call46.v9 main_call46.v10 (cmpi .sle),
    StableHlo.TRef.binary main_call46.v7 main_call46.v10 main_call46.v11 andi,
    StableHlo.TRef.nullary main_call46.c_3 (constantI S_ 1 1#1),
    StableHlo.TRef.binary main_call46.v11 main_call46.c_3 main_call46.v12 (fun x v => Host.reduce IntOp.andi x v reducesTo_S1024x100x1_S1024x100_d2 h_S_),
    StableHlo.TRef.binary (.of main_v186 : StableHlo.TRef sig ⟨S100x1, .f32⟩) main_call46.v5 main_call46.v13 (fun x i => Host.gather gather_S100x1_S1024x100x1_S1024x100x1_2_0_n_n_0_2_11 x i),
    StableHlo.TRef.unary main_call46.v12 main_call46.v14 (broadcastInDim S1024x100x1 ![0, 1] bcast_S1024x100_S1024x100x1_0_1),
    StableHlo.TRef.nullary main_call46.cst (constant S_ .f32 0x7FC00000#32),
    StableHlo.TRef.unary main_call46.cst main_call46.v15 (broadcastInDim S1024x100x1 ![] bcast_S_S1024x100x1),
    StableHlo.TRef.ternary main_call46.v14 main_call46.v13 main_call46.v15 main_call46.v16 select,
    StableHlo.nullary main_cst_22 (constant S_ .f32 0x00000000#32),
    StableHlo.binary main_v187 main_cst_22 main_v188 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v189 ((extractStridedSlice S1x100x32 ![23, 0, 0] · slices_S26x100x32_S1x100x32_23_0_0) : (⟨S26x100x32, .f32⟩ : BufTy).Contents (Elt F) → (⟨S1x100x32, .f32⟩ : BufTy).Contents (Elt F)),
    StableHlo.reshape main_v189 main_v190 rfl shapeCasts_S1x100x32_S100x32,
    StableHlo.TRef.nullary main_call47.c (constantI S_ 32 0#32),
    StableHlo.TRef.unary main_call47.c main_call47.v0 (broadcastInDim S1024x100 ![] bcast_S_S1024x100),
    StableHlo.TRef.binary (.of main_v184 : StableHlo.TRef sig ⟨S1024x100, .i32⟩) main_call47.v0 main_call47.v1 (cmpi .slt),
    StableHlo.TRef.nullary main_call47.c_0 (constantI S_ 32 100#32),
    StableHlo.TRef.unary main_call47.c_0 main_call47.v2 (broadcastInDim S1024x100 ![] bcast_S_S1024x100),
    StableHlo.TRef.binary (.of main_v184 : StableHlo.TRef sig ⟨S1024x100, .i32⟩) main_call47.v2 main_call47.v3 addi,
    StableHlo.TRef.ternary main_call47.v1 main_call47.v3 (.of main_v184 : StableHlo.TRef sig ⟨S1024x100, .i32⟩) main_call47.call0.v0 select,
    StableHlo.TRef.unary main_call47.call0.v0 main_call47.v5 (broadcastInDim S1024x100x1 ![0, 1] bcast_S1024x100_S1024x100x1_0_1),
    StableHlo.TRef.nullary main_call47.c_1 (constantI S1 32 99#32),
    StableHlo.TRef.nullary main_call47.c_2 (constantI S_ 32 0#32),
    StableHlo.TRef.unary main_call47.c_2 main_call47.v6 (broadcastInDim S1024x100x1 ![] bcast_S_S1024x100x1),
    StableHlo.TRef.binary main_call47.v5 main_call47.v6 main_call47.v7 (cmpi .sge),
    StableHlo.TRef.unary main_call47.c_1 main_call47.v8 (broadcastInDim S1x1x1 ![2] bcast_S1_S1x1x1_2),
    StableHlo.TRef.unary main_call47.v8 main_call47.v9 (broadcastInDim S1024x100x1 ![0, 1, 2] bcast_S1x1x1_S1024x100x1_0_1_2),
    StableHlo.TRef.binary main_call47.v5 main_call47.v9 main_call47.v10 (cmpi .sle),
    StableHlo.TRef.binary main_call47.v7 main_call47.v10 main_call47.v11 andi,
    StableHlo.TRef.nullary main_call47.c_3 (constantI S_ 1 1#1),
    StableHlo.TRef.binary main_call47.v11 main_call47.c_3 main_call47.v12 (fun x v => Host.reduce IntOp.andi x v reducesTo_S1024x100x1_S1024x100_d2 h_S_),
    StableHlo.TRef.binary (.of main_v190 : StableHlo.TRef sig ⟨S100x32, .f32⟩) main_call47.v5 main_call47.v13 (fun x i => Host.gather gather_S100x32_S1024x100x1_S1024x100x32_2_0_n_n_0_2_132 x i),
    StableHlo.TRef.unary main_call47.v12 main_call47.v14 (broadcastInDim S1024x100x32 ![0, 1] bcast_S1024x100_S1024x100x32_0_1),
    StableHlo.TRef.nullary main_call47.cst (constant S_ .f32 0x7FC00000#32),
    StableHlo.TRef.unary main_call47.cst main_call47.v15 (broadcastInDim S1024x100x32 ![] bcast_S_S1024x100x32),
    StableHlo.TRef.ternary main_call47.v14 main_call47.v13 main_call47.v15 main_call47.v16 select ]

abbrev F24 : List (HloOp τ sig (Elt F)) :=
  [ StableHlo.unary main_arg0 main_v192 ((extractStridedSlice S1024x100 ![0, 2424] · slices_S1024x2626_S1024x100_0_2424) : (⟨S1024x2626, .i32⟩ : BufTy).Contents (Elt F) → (⟨S1024x100, .i32⟩ : BufTy).Contents (Elt F)),
    StableHlo.unary main_arg2 main_v193 ((extractStridedSlice S1x100x1 ![24, 0, 0] · slices_S26x100x1_S1x100x1_24_0_0) : (⟨S26x100x1, .f32⟩ : BufTy).Contents (Elt F) → (⟨S1x100x1, .f32⟩ : BufTy).Contents (Elt F)),
    StableHlo.reshape main_v193 main_v194 rfl shapeCasts_S1x100x1_S100x1,
    StableHlo.TRef.nullary main_call48.c (constantI S_ 32 0#32),
    StableHlo.TRef.unary main_call48.c main_call48.v0 (broadcastInDim S1024x100 ![] bcast_S_S1024x100),
    StableHlo.TRef.binary (.of main_v192 : StableHlo.TRef sig ⟨S1024x100, .i32⟩) main_call48.v0 main_call48.v1 (cmpi .slt),
    StableHlo.TRef.nullary main_call48.c_0 (constantI S_ 32 100#32),
    StableHlo.TRef.unary main_call48.c_0 main_call48.v2 (broadcastInDim S1024x100 ![] bcast_S_S1024x100),
    StableHlo.TRef.binary (.of main_v192 : StableHlo.TRef sig ⟨S1024x100, .i32⟩) main_call48.v2 main_call48.v3 addi,
    StableHlo.TRef.ternary main_call48.v1 main_call48.v3 (.of main_v192 : StableHlo.TRef sig ⟨S1024x100, .i32⟩) main_call48.call0.v0 select,
    StableHlo.TRef.unary main_call48.call0.v0 main_call48.v5 (broadcastInDim S1024x100x1 ![0, 1] bcast_S1024x100_S1024x100x1_0_1),
    StableHlo.TRef.nullary main_call48.c_1 (constantI S1 32 99#32),
    StableHlo.TRef.nullary main_call48.c_2 (constantI S_ 32 0#32),
    StableHlo.TRef.unary main_call48.c_2 main_call48.v6 (broadcastInDim S1024x100x1 ![] bcast_S_S1024x100x1),
    StableHlo.TRef.binary main_call48.v5 main_call48.v6 main_call48.v7 (cmpi .sge),
    StableHlo.TRef.unary main_call48.c_1 main_call48.v8 (broadcastInDim S1x1x1 ![2] bcast_S1_S1x1x1_2),
    StableHlo.TRef.unary main_call48.v8 main_call48.v9 (broadcastInDim S1024x100x1 ![0, 1, 2] bcast_S1x1x1_S1024x100x1_0_1_2),
    StableHlo.TRef.binary main_call48.v5 main_call48.v9 main_call48.v10 (cmpi .sle),
    StableHlo.TRef.binary main_call48.v7 main_call48.v10 main_call48.v11 andi,
    StableHlo.TRef.nullary main_call48.c_3 (constantI S_ 1 1#1),
    StableHlo.TRef.binary main_call48.v11 main_call48.c_3 main_call48.v12 (fun x v => Host.reduce IntOp.andi x v reducesTo_S1024x100x1_S1024x100_d2 h_S_),
    StableHlo.TRef.binary (.of main_v194 : StableHlo.TRef sig ⟨S100x1, .f32⟩) main_call48.v5 main_call48.v13 (fun x i => Host.gather gather_S100x1_S1024x100x1_S1024x100x1_2_0_n_n_0_2_11 x i),
    StableHlo.TRef.unary main_call48.v12 main_call48.v14 (broadcastInDim S1024x100x1 ![0, 1] bcast_S1024x100_S1024x100x1_0_1),
    StableHlo.TRef.nullary main_call48.cst (constant S_ .f32 0x7FC00000#32),
    StableHlo.TRef.unary main_call48.cst main_call48.v15 (broadcastInDim S1024x100x1 ![] bcast_S_S1024x100x1),
    StableHlo.TRef.ternary main_call48.v14 main_call48.v13 main_call48.v15 main_call48.v16 select,
    StableHlo.nullary main_cst_23 (constant S_ .f32 0x00000000#32),
    StableHlo.binary main_v195 main_cst_23 main_v196 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v197 ((extractStridedSlice S1x100x32 ![24, 0, 0] · slices_S26x100x32_S1x100x32_24_0_0) : (⟨S26x100x32, .f32⟩ : BufTy).Contents (Elt F) → (⟨S1x100x32, .f32⟩ : BufTy).Contents (Elt F)),
    StableHlo.reshape main_v197 main_v198 rfl shapeCasts_S1x100x32_S100x32,
    StableHlo.TRef.nullary main_call49.c (constantI S_ 32 0#32),
    StableHlo.TRef.unary main_call49.c main_call49.v0 (broadcastInDim S1024x100 ![] bcast_S_S1024x100),
    StableHlo.TRef.binary (.of main_v192 : StableHlo.TRef sig ⟨S1024x100, .i32⟩) main_call49.v0 main_call49.v1 (cmpi .slt),
    StableHlo.TRef.nullary main_call49.c_0 (constantI S_ 32 100#32),
    StableHlo.TRef.unary main_call49.c_0 main_call49.v2 (broadcastInDim S1024x100 ![] bcast_S_S1024x100),
    StableHlo.TRef.binary (.of main_v192 : StableHlo.TRef sig ⟨S1024x100, .i32⟩) main_call49.v2 main_call49.v3 addi,
    StableHlo.TRef.ternary main_call49.v1 main_call49.v3 (.of main_v192 : StableHlo.TRef sig ⟨S1024x100, .i32⟩) main_call49.call0.v0 select,
    StableHlo.TRef.unary main_call49.call0.v0 main_call49.v5 (broadcastInDim S1024x100x1 ![0, 1] bcast_S1024x100_S1024x100x1_0_1),
    StableHlo.TRef.nullary main_call49.c_1 (constantI S1 32 99#32),
    StableHlo.TRef.nullary main_call49.c_2 (constantI S_ 32 0#32),
    StableHlo.TRef.unary main_call49.c_2 main_call49.v6 (broadcastInDim S1024x100x1 ![] bcast_S_S1024x100x1),
    StableHlo.TRef.binary main_call49.v5 main_call49.v6 main_call49.v7 (cmpi .sge),
    StableHlo.TRef.unary main_call49.c_1 main_call49.v8 (broadcastInDim S1x1x1 ![2] bcast_S1_S1x1x1_2),
    StableHlo.TRef.unary main_call49.v8 main_call49.v9 (broadcastInDim S1024x100x1 ![0, 1, 2] bcast_S1x1x1_S1024x100x1_0_1_2),
    StableHlo.TRef.binary main_call49.v5 main_call49.v9 main_call49.v10 (cmpi .sle),
    StableHlo.TRef.binary main_call49.v7 main_call49.v10 main_call49.v11 andi,
    StableHlo.TRef.nullary main_call49.c_3 (constantI S_ 1 1#1),
    StableHlo.TRef.binary main_call49.v11 main_call49.c_3 main_call49.v12 (fun x v => Host.reduce IntOp.andi x v reducesTo_S1024x100x1_S1024x100_d2 h_S_),
    StableHlo.TRef.binary (.of main_v198 : StableHlo.TRef sig ⟨S100x32, .f32⟩) main_call49.v5 main_call49.v13 (fun x i => Host.gather gather_S100x32_S1024x100x1_S1024x100x32_2_0_n_n_0_2_132 x i),
    StableHlo.TRef.unary main_call49.v12 main_call49.v14 (broadcastInDim S1024x100x32 ![0, 1] bcast_S1024x100_S1024x100x32_0_1),
    StableHlo.TRef.nullary main_call49.cst (constant S_ .f32 0x7FC00000#32),
    StableHlo.TRef.unary main_call49.cst main_call49.v15 (broadcastInDim S1024x100x32 ![] bcast_S_S1024x100x32),
    StableHlo.TRef.ternary main_call49.v14 main_call49.v13 main_call49.v15 main_call49.v16 select ]

abbrev F25 : List (HloOp τ sig (Elt F)) :=
  [ StableHlo.unary main_arg0 main_v200 ((extractStridedSlice S1024x100 ![0, 2525] · slices_S1024x2626_S1024x100_0_2525) : (⟨S1024x2626, .i32⟩ : BufTy).Contents (Elt F) → (⟨S1024x100, .i32⟩ : BufTy).Contents (Elt F)),
    StableHlo.unary main_arg2 main_v201 ((extractStridedSlice S1x100x1 ![25, 0, 0] · slices_S26x100x1_S1x100x1_25_0_0) : (⟨S26x100x1, .f32⟩ : BufTy).Contents (Elt F) → (⟨S1x100x1, .f32⟩ : BufTy).Contents (Elt F)),
    StableHlo.reshape main_v201 main_v202 rfl shapeCasts_S1x100x1_S100x1,
    StableHlo.TRef.nullary main_call50.c (constantI S_ 32 0#32),
    StableHlo.TRef.unary main_call50.c main_call50.v0 (broadcastInDim S1024x100 ![] bcast_S_S1024x100),
    StableHlo.TRef.binary (.of main_v200 : StableHlo.TRef sig ⟨S1024x100, .i32⟩) main_call50.v0 main_call50.v1 (cmpi .slt),
    StableHlo.TRef.nullary main_call50.c_0 (constantI S_ 32 100#32),
    StableHlo.TRef.unary main_call50.c_0 main_call50.v2 (broadcastInDim S1024x100 ![] bcast_S_S1024x100),
    StableHlo.TRef.binary (.of main_v200 : StableHlo.TRef sig ⟨S1024x100, .i32⟩) main_call50.v2 main_call50.v3 addi,
    StableHlo.TRef.ternary main_call50.v1 main_call50.v3 (.of main_v200 : StableHlo.TRef sig ⟨S1024x100, .i32⟩) main_call50.call0.v0 select,
    StableHlo.TRef.unary main_call50.call0.v0 main_call50.v5 (broadcastInDim S1024x100x1 ![0, 1] bcast_S1024x100_S1024x100x1_0_1),
    StableHlo.TRef.nullary main_call50.c_1 (constantI S1 32 99#32),
    StableHlo.TRef.nullary main_call50.c_2 (constantI S_ 32 0#32),
    StableHlo.TRef.unary main_call50.c_2 main_call50.v6 (broadcastInDim S1024x100x1 ![] bcast_S_S1024x100x1),
    StableHlo.TRef.binary main_call50.v5 main_call50.v6 main_call50.v7 (cmpi .sge),
    StableHlo.TRef.unary main_call50.c_1 main_call50.v8 (broadcastInDim S1x1x1 ![2] bcast_S1_S1x1x1_2),
    StableHlo.TRef.unary main_call50.v8 main_call50.v9 (broadcastInDim S1024x100x1 ![0, 1, 2] bcast_S1x1x1_S1024x100x1_0_1_2),
    StableHlo.TRef.binary main_call50.v5 main_call50.v9 main_call50.v10 (cmpi .sle),
    StableHlo.TRef.binary main_call50.v7 main_call50.v10 main_call50.v11 andi,
    StableHlo.TRef.nullary main_call50.c_3 (constantI S_ 1 1#1),
    StableHlo.TRef.binary main_call50.v11 main_call50.c_3 main_call50.v12 (fun x v => Host.reduce IntOp.andi x v reducesTo_S1024x100x1_S1024x100_d2 h_S_),
    StableHlo.TRef.binary (.of main_v202 : StableHlo.TRef sig ⟨S100x1, .f32⟩) main_call50.v5 main_call50.v13 (fun x i => Host.gather gather_S100x1_S1024x100x1_S1024x100x1_2_0_n_n_0_2_11 x i),
    StableHlo.TRef.unary main_call50.v12 main_call50.v14 (broadcastInDim S1024x100x1 ![0, 1] bcast_S1024x100_S1024x100x1_0_1),
    StableHlo.TRef.nullary main_call50.cst (constant S_ .f32 0x7FC00000#32),
    StableHlo.TRef.unary main_call50.cst main_call50.v15 (broadcastInDim S1024x100x1 ![] bcast_S_S1024x100x1),
    StableHlo.TRef.ternary main_call50.v14 main_call50.v13 main_call50.v15 main_call50.v16 select,
    StableHlo.nullary main_cst_24 (constant S_ .f32 0x00000000#32),
    StableHlo.binary main_v203 main_cst_24 main_v204 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v205 ((extractStridedSlice S1x100x32 ![25, 0, 0] · slices_S26x100x32_S1x100x32_25_0_0) : (⟨S26x100x32, .f32⟩ : BufTy).Contents (Elt F) → (⟨S1x100x32, .f32⟩ : BufTy).Contents (Elt F)),
    StableHlo.reshape main_v205 main_v206 rfl shapeCasts_S1x100x32_S100x32,
    StableHlo.TRef.nullary main_call51.c (constantI S_ 32 0#32),
    StableHlo.TRef.unary main_call51.c main_call51.v0 (broadcastInDim S1024x100 ![] bcast_S_S1024x100),
    StableHlo.TRef.binary (.of main_v200 : StableHlo.TRef sig ⟨S1024x100, .i32⟩) main_call51.v0 main_call51.v1 (cmpi .slt),
    StableHlo.TRef.nullary main_call51.c_0 (constantI S_ 32 100#32),
    StableHlo.TRef.unary main_call51.c_0 main_call51.v2 (broadcastInDim S1024x100 ![] bcast_S_S1024x100),
    StableHlo.TRef.binary (.of main_v200 : StableHlo.TRef sig ⟨S1024x100, .i32⟩) main_call51.v2 main_call51.v3 addi,
    StableHlo.TRef.ternary main_call51.v1 main_call51.v3 (.of main_v200 : StableHlo.TRef sig ⟨S1024x100, .i32⟩) main_call51.call0.v0 select,
    StableHlo.TRef.unary main_call51.call0.v0 main_call51.v5 (broadcastInDim S1024x100x1 ![0, 1] bcast_S1024x100_S1024x100x1_0_1),
    StableHlo.TRef.nullary main_call51.c_1 (constantI S1 32 99#32),
    StableHlo.TRef.nullary main_call51.c_2 (constantI S_ 32 0#32),
    StableHlo.TRef.unary main_call51.c_2 main_call51.v6 (broadcastInDim S1024x100x1 ![] bcast_S_S1024x100x1),
    StableHlo.TRef.binary main_call51.v5 main_call51.v6 main_call51.v7 (cmpi .sge),
    StableHlo.TRef.unary main_call51.c_1 main_call51.v8 (broadcastInDim S1x1x1 ![2] bcast_S1_S1x1x1_2),
    StableHlo.TRef.unary main_call51.v8 main_call51.v9 (broadcastInDim S1024x100x1 ![0, 1, 2] bcast_S1x1x1_S1024x100x1_0_1_2),
    StableHlo.TRef.binary main_call51.v5 main_call51.v9 main_call51.v10 (cmpi .sle),
    StableHlo.TRef.binary main_call51.v7 main_call51.v10 main_call51.v11 andi,
    StableHlo.TRef.nullary main_call51.c_3 (constantI S_ 1 1#1),
    StableHlo.TRef.binary main_call51.v11 main_call51.c_3 main_call51.v12 (fun x v => Host.reduce IntOp.andi x v reducesTo_S1024x100x1_S1024x100_d2 h_S_),
    StableHlo.TRef.binary (.of main_v206 : StableHlo.TRef sig ⟨S100x32, .f32⟩) main_call51.v5 main_call51.v13 (fun x i => Host.gather gather_S100x32_S1024x100x1_S1024x100x32_2_0_n_n_0_2_132 x i),
    StableHlo.TRef.unary main_call51.v12 main_call51.v14 (broadcastInDim S1024x100x32 ![0, 1] bcast_S1024x100_S1024x100x32_0_1),
    StableHlo.TRef.nullary main_call51.cst (constant S_ .f32 0x7FC00000#32),
    StableHlo.TRef.unary main_call51.cst main_call51.v15 (broadcastInDim S1024x100x32 ![] bcast_S_S1024x100x32),
    StableHlo.TRef.ternary main_call51.v14 main_call51.v13 main_call51.v15 main_call51.v16 select ]

abbrev Tl : List (HloOp τ sig (Elt F)) :=
  [ StableHlo.nary ![main_v4, main_v12, main_v20, main_v28, main_v36, main_v44, main_v52, main_v60, main_v68, main_v76, main_v84, main_v92, main_v100, main_v108, main_v116, main_v124] main_v208 (fun u => concatenate S1024x16 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩, ⟨S1024x1, u 10⟩, ⟨S1024x1, u 11⟩, ⟨S1024x1, u 12⟩, ⟨S1024x1, u 13⟩, ⟨S1024x1, u 14⟩, ⟨S1024x1, u 15⟩] concatenates_S1024x1_S1024x1_S1024x1_S1024x1_S1024x1_S1024x1_S1024x1_S1024x1_S1024x1_S1024x1_S1024x1_S1024x1_S1024x1_S1024x1_S1024x1_S1024x1_S1024x16_d1),
    StableHlo.nary ![main_v132, main_v140, main_v148, main_v156, main_v164, main_v172, main_v180, main_v188, main_v196, main_v204] main_v209 (fun u => concatenate S1024x10 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩] concatenates_S1024x1_S1024x1_S1024x1_S1024x1_S1024x1_S1024x1_S1024x1_S1024x1_S1024x1_S1024x1_S1024x10_d1),
    StableHlo.binary main_v208 main_v209 main_v210 ((fun a b => concatenate S1024x26 1 [⟨S1024x16, a⟩, ⟨S1024x10, b⟩] concatenates_S1024x16_S1024x10_S1024x26_d1) : (⟨S1024x16, .f32⟩ : BufTy).Contents (Elt F) → (⟨S1024x10, .f32⟩ : BufTy).Contents (Elt F) → (⟨S1024x26, .f32⟩ : BufTy).Contents (Elt F)),
    StableHlo.binary main_v210 main_arg1 main_v211 ((fun a b => concatenate S1024x39 1 [⟨S1024x26, a⟩, ⟨S1024x13, b⟩] concatenates_S1024x26_S1024x13_S1024x39_d1) : (⟨S1024x26, .f32⟩ : BufTy).Contents (Elt F) → (⟨S1024x13, .f32⟩ : BufTy).Contents (Elt F) → (⟨S1024x39, .f32⟩ : BufTy).Contents (Elt F)),
    StableHlo.binary main_v211 main_arg4 main_v212 ((fun l r => Host.dotGeneral dot_S1024x39_S39x1_S1024x1_1_0_0_1_n_n none l r) : (⟨S1024x39, .f32⟩ : BufTy).Contents (Elt F) → (⟨S39x1, .f32⟩ : BufTy).Contents (Elt F) → (⟨S1024x1, .f32⟩ : BufTy).Contents (Elt F)),
    StableHlo.unary main_arg5 main_v213 (broadcastInDim S1x1 ![1] bcast_S1_S1x1_1 : (⟨S1, .f32⟩ : BufTy).Contents (Elt F) → (⟨S1x1, .f32⟩ : BufTy).Contents (Elt F)),
    StableHlo.unary main_v213 main_v214 (broadcastInDim S1024x1 ![0, 1] bcast_S1x1_S1024x1_0_1 : (⟨S1x1, .f32⟩ : BufTy).Contents (Elt F) → (⟨S1024x1, .f32⟩ : BufTy).Contents (Elt F)),
    StableHlo.binary main_v212 main_v214 main_v215 (addf : (⟨S1024x1, .f32⟩ : BufTy).Contents (Elt F) → (⟨S1024x1, .f32⟩ : BufTy).Contents (Elt F) → (⟨S1024x1, .f32⟩ : BufTy).Contents (Elt F)),
    StableHlo.nary ![main_v7, main_v15, main_v23, main_v31, main_v39, main_v47, main_v55, main_v63, main_v71, main_v79, main_v87, main_v95, main_v103, main_v111, main_v119, main_v127] main_v216 (fun u => concatenate S1024x1600x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩, ⟨S1024x100x32, u 10⟩, ⟨S1024x100x32, u 11⟩, ⟨S1024x100x32, u 12⟩, ⟨S1024x100x32, u 13⟩, ⟨S1024x100x32, u 14⟩, ⟨S1024x100x32, u 15⟩] concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1),
    StableHlo.nary ![main_v135, main_v143, main_v151, main_v159, main_v167, main_v175, main_v183, main_v191, main_v199, main_v207] main_v217 (fun u => concatenate S1024x1000x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩] concatenates_S1024x100x32_S1024x100x32_S1024x100x32_S1024x100x32_S1024x100x32_S1024x100x32_S1024x100x32_S1024x100x32_S1024x100x32_S1024x100x32_S1024x1000x32_d1),
    StableHlo.binary main_v216 main_v217 main_v218 ((fun a b => concatenate S1024x2600x32 1 [⟨S1024x1600x32, a⟩, ⟨S1024x1000x32, b⟩] concatenates_S1024x1600x32_S1024x1000x32_S1024x2600x32_d1) : (⟨S1024x1600x32, .f32⟩ : BufTy).Contents (Elt F) → (⟨S1024x1000x32, .f32⟩ : BufTy).Contents (Elt F) → (⟨S1024x2600x32, .f32⟩ : BufTy).Contents (Elt F)),
    StableHlo.nullary main_cst_25 (constant S_ .f32 0x00000000#32),
    StableHlo.binary main_v218 main_cst_25 main_v219 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v219 main_v220 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v220 main_v220 main_v221 (mulf : (⟨S1024x1x32, .f32⟩ : BufTy).Contents (Elt F) → (⟨S1024x1x32, .f32⟩ : BufTy).Contents (Elt F) → (⟨S1024x1x32, .f32⟩ : BufTy).Contents (Elt F)),
    StableHlo.binary main_v218 main_v218 main_v222 (mulf : (⟨S1024x2600x32, .f32⟩ : BufTy).Contents (Elt F) → (⟨S1024x2600x32, .f32⟩ : BufTy).Contents (Elt F) → (⟨S1024x2600x32, .f32⟩ : BufTy).Contents (Elt F)),
    StableHlo.nullary main_cst_26 (constant S_ .f32 0x00000000#32),
    StableHlo.binary main_v222 main_cst_26 main_v223 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v223 main_v224 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v221 main_v224 main_v225 (subf : (⟨S1024x1x32, .f32⟩ : BufTy).Contents (Elt F) → (⟨S1024x1x32, .f32⟩ : BufTy).Contents (Elt F) → (⟨S1024x1x32, .f32⟩ : BufTy).Contents (Elt F)),
    StableHlo.nullary main_cst_27 (constant S_ .f32 0x00000000#32),
    StableHlo.binary main_v225 main_cst_27 main_v226 ((fun x v => Host.reduceAdd x v reducesTo_S1024x1x32_S1024x1_d2 h_S_) : (⟨S1024x1x32, .f32⟩ : BufTy).Contents (Elt F) → (⟨S_, .f32⟩ : BufTy).Contents (Elt F) → (⟨S1024x1, .f32⟩ : BufTy).Contents (Elt F)),
    StableHlo.nullary main_cst_28 (constant S_ .f32 0x3F000000#32),
    StableHlo.unary main_cst_28 main_v227 (broadcastInDim S1024x1 ![] bcast_S_S1024x1 : (⟨S_, .f32⟩ : BufTy).Contents (Elt F) → (⟨S1024x1, .f32⟩ : BufTy).Contents (Elt F)),
    StableHlo.binary main_v227 main_v226 main_v228 (mulf : (⟨S1024x1, .f32⟩ : BufTy).Contents (Elt F) → (⟨S1024x1, .f32⟩ : BufTy).Contents (Elt F) → (⟨S1024x1, .f32⟩ : BufTy).Contents (Elt F)),
    StableHlo.binary main_v215 main_v228 main_v229 (addf : (⟨S1024x1, .f32⟩ : BufTy).Contents (Elt F) → (⟨S1024x1, .f32⟩ : BufTy).Contents (Elt F) → (⟨S1024x1, .f32⟩ : BufTy).Contents (Elt F)),
    StableHlo.unary main_v229 main_v230 (Host.negf : (⟨S1024x1, .f32⟩ : BufTy).Contents (Elt F) → (⟨S1024x1, .f32⟩ : BufTy).Contents (Elt F)),
    StableHlo.unary main_v230 main_v231 (Host.exp : (⟨S1024x1, .f32⟩ : BufTy).Contents (Elt F) → (⟨S1024x1, .f32⟩ : BufTy).Contents (Elt F)),
    StableHlo.nullary main_cst_29 (constant S_ .f32 0x3F800000#32),
    StableHlo.unary main_cst_29 main_v232 (broadcastInDim S1024x1 ![] bcast_S_S1024x1 : (⟨S_, .f32⟩ : BufTy).Contents (Elt F) → (⟨S1024x1, .f32⟩ : BufTy).Contents (Elt F)),
    StableHlo.binary main_v232 main_v231 main_v233 (addf : (⟨S1024x1, .f32⟩ : BufTy).Contents (Elt F) → (⟨S1024x1, .f32⟩ : BufTy).Contents (Elt F) → (⟨S1024x1, .f32⟩ : BufTy).Contents (Elt F)),
    StableHlo.nullary main_cst_30 (constant S_ .f32 0x3F800000#32),
    StableHlo.unary main_cst_30 main_v234 (broadcastInDim S1024x1 ![] bcast_S_S1024x1 : (⟨S_, .f32⟩ : BufTy).Contents (Elt F) → (⟨S1024x1, .f32⟩ : BufTy).Contents (Elt F)),
    StableHlo.binary main_v234 main_v233 main_v235 (Host.divf : (⟨S1024x1, .f32⟩ : BufTy).Contents (Elt F) → (⟨S1024x1, .f32⟩ : BufTy).Contents (Elt F) → (⟨S1024x1, .f32⟩ : BufTy).Contents (Elt F)) ]

abbrev W0 : List (HloOp τ sig (Elt F)) :=
  [ StableHlo.unary main_arg0 main_v0 ((extractStridedSlice S1024x100 ![0, 0] · slices_S1024x2626_S1024x100_0_0) : (⟨S1024x2626, .i32⟩ : BufTy).Contents (Elt F) → (⟨S1024x100, .i32⟩ : BufTy).Contents (Elt F)),
    StableHlo.unary main_arg2 main_v1 ((extractStridedSlice S1x100x1 ![0, 0, 0] · slices_S26x100x1_S1x100x1_0_0_0) : (⟨S26x100x1, .f32⟩ : BufTy).Contents (Elt F) → (⟨S1x100x1, .f32⟩ : BufTy).Contents (Elt F)),
    StableHlo.reshape main_v1 main_v2 rfl shapeCasts_S1x100x1_S100x1,
    StableHlo.TRef.nullary main_call0.c (constantI S_ 32 0#32),
    StableHlo.TRef.unary main_call0.c main_call0.v0 (broadcastInDim S1024x100 ![] bcast_S_S1024x100),
    StableHlo.TRef.binary (.of main_v0 : StableHlo.TRef sig ⟨S1024x100, .i32⟩) main_call0.v0 main_call0.v1 (cmpi .slt),
    StableHlo.TRef.nullary main_call0.c_0 (constantI S_ 32 100#32),
    StableHlo.TRef.unary main_call0.c_0 main_call0.v2 (broadcastInDim S1024x100 ![] bcast_S_S1024x100),
    StableHlo.TRef.binary (.of main_v0 : StableHlo.TRef sig ⟨S1024x100, .i32⟩) main_call0.v2 main_call0.v3 addi,
    StableHlo.TRef.ternary main_call0.v1 main_call0.v3 (.of main_v0 : StableHlo.TRef sig ⟨S1024x100, .i32⟩) main_call0.call0.v0 select,
    StableHlo.TRef.unary main_call0.call0.v0 main_call0.v5 (broadcastInDim S1024x100x1 ![0, 1] bcast_S1024x100_S1024x100x1_0_1),
    StableHlo.TRef.nullary main_call0.c_1 (constantI S1 32 99#32),
    StableHlo.TRef.nullary main_call0.c_2 (constantI S_ 32 0#32),
    StableHlo.TRef.unary main_call0.c_2 main_call0.v6 (broadcastInDim S1024x100x1 ![] bcast_S_S1024x100x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x100x1 ![0, 1, 2] bcast_S1x1x1_S1024x100x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x100x1_S1024x100_d2 h_S_),
    StableHlo.TRef.binary (.of main_v2 : StableHlo.TRef sig ⟨S100x1, .f32⟩) main_call0.v5 main_call0.v13 (fun x i => Host.gather gather_S100x1_S1024x100x1_S1024x100x1_2_0_n_n_0_2_11 x i),
    StableHlo.TRef.unary main_call0.v12 main_call0.v14 (broadcastInDim S1024x100x1 ![0, 1] bcast_S1024x100_S1024x100x1_0_1),
    StableHlo.TRef.nullary main_call0.cst (constant S_ .f32 0x7FC00000#32),
    StableHlo.TRef.unary main_call0.cst main_call0.v15 (broadcastInDim S1024x100x1 ![] bcast_S_S1024x100x1),
    StableHlo.TRef.ternary main_call0.v14 main_call0.v13 main_call0.v15 main_call0.v16 select,
    StableHlo.nullary main_cst (constant S_ .f32 0x00000000#32),
    StableHlo.binary main_v3 main_cst main_v4 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v5 ((extractStridedSlice S1x100x32 ![0, 0, 0] · slices_S26x100x32_S1x100x32_0_0_0) : (⟨S26x100x32, .f32⟩ : BufTy).Contents (Elt F) → (⟨S1x100x32, .f32⟩ : BufTy).Contents (Elt F)),
    StableHlo.reshape main_v5 main_v6 rfl shapeCasts_S1x100x32_S100x32,
    StableHlo.TRef.nullary main_call1.c (constantI S_ 32 0#32),
    StableHlo.TRef.unary main_call1.c main_call1.v0 (broadcastInDim S1024x100 ![] bcast_S_S1024x100),
    StableHlo.TRef.binary (.of main_v0 : StableHlo.TRef sig ⟨S1024x100, .i32⟩) main_call1.v0 main_call1.v1 (cmpi .slt),
    StableHlo.TRef.nullary main_call1.c_0 (constantI S_ 32 100#32),
    StableHlo.TRef.unary main_call1.c_0 main_call1.v2 (broadcastInDim S1024x100 ![] bcast_S_S1024x100),
    StableHlo.TRef.binary (.of main_v0 : StableHlo.TRef sig ⟨S1024x100, .i32⟩) main_call1.v2 main_call1.v3 addi,
    StableHlo.TRef.ternary main_call1.v1 main_call1.v3 (.of main_v0 : StableHlo.TRef sig ⟨S1024x100, .i32⟩) main_call1.call0.v0 select,
    StableHlo.TRef.unary main_call1.call0.v0 main_call1.v5 (broadcastInDim S1024x100x1 ![0, 1] bcast_S1024x100_S1024x100x1_0_1),
    StableHlo.TRef.nullary main_call1.c_1 (constantI S1 32 99#32),
    StableHlo.TRef.nullary main_call1.c_2 (constantI S_ 32 0#32),
    StableHlo.TRef.unary main_call1.c_2 main_call1.v6 (broadcastInDim S1024x100x1 ![] bcast_S_S1024x100x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x100x1 ![0, 1, 2] bcast_S1x1x1_S1024x100x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x100x1_S1024x100_d2 h_S_),
    StableHlo.TRef.binary (.of main_v6 : StableHlo.TRef sig ⟨S100x32, .f32⟩) main_call1.v5 main_call1.v13 (fun x i => Host.gather gather_S100x32_S1024x100x1_S1024x100x32_2_0_n_n_0_2_132 x i),
    StableHlo.TRef.unary main_call1.v12 main_call1.v14 (broadcastInDim S1024x100x32 ![0, 1] bcast_S1024x100_S1024x100x32_0_1),
    StableHlo.TRef.nullary main_call1.cst (constant S_ .f32 0x7FC00000#32),
    StableHlo.TRef.unary main_call1.cst main_call1.v15 (broadcastInDim S1024x100x32 ![] bcast_S_S1024x100x32),
    StableHlo.TRef.ternary main_call1.v14 main_call1.v13 main_call1.v15 main_call1.v16 select,
    StableHlo.unary main_arg0 main_v8 ((extractStridedSlice S1024x100 ![0, 101] · slices_S1024x2626_S1024x100_0_101) : (⟨S1024x2626, .i32⟩ : BufTy).Contents (Elt F) → (⟨S1024x100, .i32⟩ : BufTy).Contents (Elt F)),
    StableHlo.unary main_arg2 main_v9 ((extractStridedSlice S1x100x1 ![1, 0, 0] · slices_S26x100x1_S1x100x1_1_0_0) : (⟨S26x100x1, .f32⟩ : BufTy).Contents (Elt F) → (⟨S1x100x1, .f32⟩ : BufTy).Contents (Elt F)),
    StableHlo.reshape main_v9 main_v10 rfl shapeCasts_S1x100x1_S100x1,
    StableHlo.TRef.nullary main_call2.c (constantI S_ 32 0#32),
    StableHlo.TRef.unary main_call2.c main_call2.v0 (broadcastInDim S1024x100 ![] bcast_S_S1024x100),
    StableHlo.TRef.binary (.of main_v8 : StableHlo.TRef sig ⟨S1024x100, .i32⟩) main_call2.v0 main_call2.v1 (cmpi .slt),
    StableHlo.TRef.nullary main_call2.c_0 (constantI S_ 32 100#32),
    StableHlo.TRef.unary main_call2.c_0 main_call2.v2 (broadcastInDim S1024x100 ![] bcast_S_S1024x100),
    StableHlo.TRef.binary (.of main_v8 : StableHlo.TRef sig ⟨S1024x100, .i32⟩) main_call2.v2 main_call2.v3 addi,
    StableHlo.TRef.ternary main_call2.v1 main_call2.v3 (.of main_v8 : StableHlo.TRef sig ⟨S1024x100, .i32⟩) main_call2.call0.v0 select,
    StableHlo.TRef.unary main_call2.call0.v0 main_call2.v5 (broadcastInDim S1024x100x1 ![0, 1] bcast_S1024x100_S1024x100x1_0_1),
    StableHlo.TRef.nullary main_call2.c_1 (constantI S1 32 99#32),
    StableHlo.TRef.nullary main_call2.c_2 (constantI S_ 32 0#32),
    StableHlo.TRef.unary main_call2.c_2 main_call2.v6 (broadcastInDim S1024x100x1 ![] bcast_S_S1024x100x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x100x1 ![0, 1, 2] bcast_S1x1x1_S1024x100x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x100x1_S1024x100_d2 h_S_),
    StableHlo.TRef.binary (.of main_v10 : StableHlo.TRef sig ⟨S100x1, .f32⟩) main_call2.v5 main_call2.v13 (fun x i => Host.gather gather_S100x1_S1024x100x1_S1024x100x1_2_0_n_n_0_2_11 x i),
    StableHlo.TRef.unary main_call2.v12 main_call2.v14 (broadcastInDim S1024x100x1 ![0, 1] bcast_S1024x100_S1024x100x1_0_1),
    StableHlo.TRef.nullary main_call2.cst (constant S_ .f32 0x7FC00000#32),
    StableHlo.TRef.unary main_call2.cst main_call2.v15 (broadcastInDim S1024x100x1 ![] bcast_S_S1024x100x1),
    StableHlo.TRef.ternary main_call2.v14 main_call2.v13 main_call2.v15 main_call2.v16 select,
    StableHlo.nullary main_cst_0 (constant S_ .f32 0x00000000#32),
    StableHlo.binary main_v11 main_cst_0 main_v12 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v13 ((extractStridedSlice S1x100x32 ![1, 0, 0] · slices_S26x100x32_S1x100x32_1_0_0) : (⟨S26x100x32, .f32⟩ : BufTy).Contents (Elt F) → (⟨S1x100x32, .f32⟩ : BufTy).Contents (Elt F)),
    StableHlo.reshape main_v13 main_v14 rfl shapeCasts_S1x100x32_S100x32,
    StableHlo.TRef.nullary main_call3.c (constantI S_ 32 0#32),
    StableHlo.TRef.unary main_call3.c main_call3.v0 (broadcastInDim S1024x100 ![] bcast_S_S1024x100),
    StableHlo.TRef.binary (.of main_v8 : StableHlo.TRef sig ⟨S1024x100, .i32⟩) main_call3.v0 main_call3.v1 (cmpi .slt),
    StableHlo.TRef.nullary main_call3.c_0 (constantI S_ 32 100#32),
    StableHlo.TRef.unary main_call3.c_0 main_call3.v2 (broadcastInDim S1024x100 ![] bcast_S_S1024x100),
    StableHlo.TRef.binary (.of main_v8 : StableHlo.TRef sig ⟨S1024x100, .i32⟩) main_call3.v2 main_call3.v3 addi,
    StableHlo.TRef.ternary main_call3.v1 main_call3.v3 (.of main_v8 : StableHlo.TRef sig ⟨S1024x100, .i32⟩) main_call3.call0.v0 select,
    StableHlo.TRef.unary main_call3.call0.v0 main_call3.v5 (broadcastInDim S1024x100x1 ![0, 1] bcast_S1024x100_S1024x100x1_0_1),
    StableHlo.TRef.nullary main_call3.c_1 (constantI S1 32 99#32),
    StableHlo.TRef.nullary main_call3.c_2 (constantI S_ 32 0#32),
    StableHlo.TRef.unary main_call3.c_2 main_call3.v6 (broadcastInDim S1024x100x1 ![] bcast_S_S1024x100x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S1024x100x1 ![0, 1, 2] bcast_S1x1x1_S1024x100x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1024x100x1_S1024x100_d2 h_S_),
    StableHlo.TRef.binary (.of main_v14 : StableHlo.TRef sig ⟨S100x32, .f32⟩) main_call3.v5 main_call3.v13 (fun x i => Host.gather gather_S100x32_S1024x100x1_S1024x100x32_2_0_n_n_0_2_132 x i),
    StableHlo.TRef.unary main_call3.v12 main_call3.v14 (broadcastInDim S1024x100x32 ![0, 1] bcast_S1024x100_S1024x100x32_0_1),
    StableHlo.TRef.nullary main_call3.cst (constant S_ .f32 0x7FC00000#32),
    StableHlo.TRef.unary main_call3.cst main_call3.v15 (broadcastInDim S1024x100x32 ![] bcast_S_S1024x100x32),
    StableHlo.TRef.ternary main_call3.v14 main_call3.v13 main_call3.v15 main_call3.v16 select,
    StableHlo.unary main_arg0 main_v16 ((extractStridedSlice S1024x100 ![0, 202] · slices_S1024x2626_S1024x100_0_202) : (⟨S1024x2626, .i32⟩ : BufTy).Contents (Elt F) → (⟨S1024x100, .i32⟩ : BufTy).Contents (Elt F)),
    StableHlo.unary main_arg2 main_v17 ((extractStridedSlice S1x100x1 ![2, 0, 0] · slices_S26x100x1_S1x100x1_2_0_0) : (⟨S26x100x1, .f32⟩ : BufTy).Contents (Elt F) → (⟨S1x100x1, .f32⟩ : BufTy).Contents (Elt F)),
    StableHlo.reshape main_v17 main_v18 rfl shapeCasts_S1x100x1_S100x1,
    StableHlo.TRef.nullary main_call4.c (constantI S_ 32 0#32),
    StableHlo.TRef.unary main_call4.c main_call4.v0 (broadcastInDim S1024x100 ![] bcast_S_S1024x100),
    StableHlo.TRef.binary (.of main_v16 : StableHlo.TRef sig ⟨S1024x100, .i32⟩) main_call4.v0 main_call4.v1 (cmpi .slt),
    StableHlo.TRef.nullary main_call4.c_0 (constantI S_ 32 100#32),
    StableHlo.TRef.unary main_call4.c_0 main_call4.v2 (broadcastInDim S1024x100 ![] bcast_S_S1024x100),
    StableHlo.TRef.binary (.of main_v16 : StableHlo.TRef sig ⟨S1024x100, .i32⟩) main_call4.v2 main_call4.v3 addi,
    StableHlo.TRef.ternary main_call4.v1 main_call4.v3 (.of main_v16 : StableHlo.TRef sig ⟨S1024x100, .i32⟩) main_call4.call0.v0 select,
    StableHlo.TRef.unary main_call4.call0.v0 main_call4.v5 (broadcastInDim S1024x100x1 ![0, 1] bcast_S1024x100_S1024x100x1_0_1),
    StableHlo.TRef.nullary main_call4.c_1 (constantI S1 32 99#32),
    StableHlo.TRef.nullary main_call4.c_2 (constantI S_ 32 0#32),
    StableHlo.TRef.unary main_call4.c_2 main_call4.v6 (broadcastInDim S1024x100x1 ![] bcast_S_S1024x100x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S1024x100x1 ![0, 1, 2] bcast_S1x1x1_S1024x100x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1024x100x1_S1024x100_d2 h_S_),
    StableHlo.TRef.binary (.of main_v18 : StableHlo.TRef sig ⟨S100x1, .f32⟩) main_call4.v5 main_call4.v13 (fun x i => Host.gather gather_S100x1_S1024x100x1_S1024x100x1_2_0_n_n_0_2_11 x i),
    StableHlo.TRef.unary main_call4.v12 main_call4.v14 (broadcastInDim S1024x100x1 ![0, 1] bcast_S1024x100_S1024x100x1_0_1),
    StableHlo.TRef.nullary main_call4.cst (constant S_ .f32 0x7FC00000#32),
    StableHlo.TRef.unary main_call4.cst main_call4.v15 (broadcastInDim S1024x100x1 ![] bcast_S_S1024x100x1),
    StableHlo.TRef.ternary main_call4.v14 main_call4.v13 main_call4.v15 main_call4.v16 select,
    StableHlo.nullary main_cst_1 (constant S_ .f32 0x00000000#32),
    StableHlo.binary main_v19 main_cst_1 main_v20 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v21 ((extractStridedSlice S1x100x32 ![2, 0, 0] · slices_S26x100x32_S1x100x32_2_0_0) : (⟨S26x100x32, .f32⟩ : BufTy).Contents (Elt F) → (⟨S1x100x32, .f32⟩ : BufTy).Contents (Elt F)),
    StableHlo.reshape main_v21 main_v22 rfl shapeCasts_S1x100x32_S100x32,
    StableHlo.TRef.nullary main_call5.c (constantI S_ 32 0#32),
    StableHlo.TRef.unary main_call5.c main_call5.v0 (broadcastInDim S1024x100 ![] bcast_S_S1024x100),
    StableHlo.TRef.binary (.of main_v16 : StableHlo.TRef sig ⟨S1024x100, .i32⟩) main_call5.v0 main_call5.v1 (cmpi .slt),
    StableHlo.TRef.nullary main_call5.c_0 (constantI S_ 32 100#32),
    StableHlo.TRef.unary main_call5.c_0 main_call5.v2 (broadcastInDim S1024x100 ![] bcast_S_S1024x100),
    StableHlo.TRef.binary (.of main_v16 : StableHlo.TRef sig ⟨S1024x100, .i32⟩) main_call5.v2 main_call5.v3 addi,
    StableHlo.TRef.ternary main_call5.v1 main_call5.v3 (.of main_v16 : StableHlo.TRef sig ⟨S1024x100, .i32⟩) main_call5.call0.v0 select,
    StableHlo.TRef.unary main_call5.call0.v0 main_call5.v5 (broadcastInDim S1024x100x1 ![0, 1] bcast_S1024x100_S1024x100x1_0_1),
    StableHlo.TRef.nullary main_call5.c_1 (constantI S1 32 99#32),
    StableHlo.TRef.nullary main_call5.c_2 (constantI S_ 32 0#32),
    StableHlo.TRef.unary main_call5.c_2 main_call5.v6 (broadcastInDim S1024x100x1 ![] bcast_S_S1024x100x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x100x1 ![0, 1, 2] bcast_S1x1x1_S1024x100x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x100x1_S1024x100_d2 h_S_),
    StableHlo.TRef.binary (.of main_v22 : StableHlo.TRef sig ⟨S100x32, .f32⟩) main_call5.v5 main_call5.v13 (fun x i => Host.gather gather_S100x32_S1024x100x1_S1024x100x32_2_0_n_n_0_2_132 x i),
    StableHlo.TRef.unary main_call5.v12 main_call5.v14 (broadcastInDim S1024x100x32 ![0, 1] bcast_S1024x100_S1024x100x32_0_1),
    StableHlo.TRef.nullary main_call5.cst (constant S_ .f32 0x7FC00000#32),
    StableHlo.TRef.unary main_call5.cst main_call5.v15 (broadcastInDim S1024x100x32 ![] bcast_S_S1024x100x32),
    StableHlo.TRef.ternary main_call5.v14 main_call5.v13 main_call5.v15 main_call5.v16 select,
    StableHlo.unary main_arg0 main_v24 ((extractStridedSlice S1024x100 ![0, 303] · slices_S1024x2626_S1024x100_0_303) : (⟨S1024x2626, .i32⟩ : BufTy).Contents (Elt F) → (⟨S1024x100, .i32⟩ : BufTy).Contents (Elt F)),
    StableHlo.unary main_arg2 main_v25 ((extractStridedSlice S1x100x1 ![3, 0, 0] · slices_S26x100x1_S1x100x1_3_0_0) : (⟨S26x100x1, .f32⟩ : BufTy).Contents (Elt F) → (⟨S1x100x1, .f32⟩ : BufTy).Contents (Elt F)),
    StableHlo.reshape main_v25 main_v26 rfl shapeCasts_S1x100x1_S100x1,
    StableHlo.TRef.nullary main_call6.c (constantI S_ 32 0#32),
    StableHlo.TRef.unary main_call6.c main_call6.v0 (broadcastInDim S1024x100 ![] bcast_S_S1024x100),
    StableHlo.TRef.binary (.of main_v24 : StableHlo.TRef sig ⟨S1024x100, .i32⟩) main_call6.v0 main_call6.v1 (cmpi .slt),
    StableHlo.TRef.nullary main_call6.c_0 (constantI S_ 32 100#32),
    StableHlo.TRef.unary main_call6.c_0 main_call6.v2 (broadcastInDim S1024x100 ![] bcast_S_S1024x100),
    StableHlo.TRef.binary (.of main_v24 : StableHlo.TRef sig ⟨S1024x100, .i32⟩) main_call6.v2 main_call6.v3 addi,
    StableHlo.TRef.ternary main_call6.v1 main_call6.v3 (.of main_v24 : StableHlo.TRef sig ⟨S1024x100, .i32⟩) main_call6.call0.v0 select,
    StableHlo.TRef.unary main_call6.call0.v0 main_call6.v5 (broadcastInDim S1024x100x1 ![0, 1] bcast_S1024x100_S1024x100x1_0_1),
    StableHlo.TRef.nullary main_call6.c_1 (constantI S1 32 99#32),
    StableHlo.TRef.nullary main_call6.c_2 (constantI S_ 32 0#32),
    StableHlo.TRef.unary main_call6.c_2 main_call6.v6 (broadcastInDim S1024x100x1 ![] bcast_S_S1024x100x1),
    StableHlo.TRef.binary main_call6.v5 main_call6.v6 main_call6.v7 (cmpi .sge),
    StableHlo.TRef.unary main_call6.c_1 main_call6.v8 (broadcastInDim S1x1x1 ![2] bcast_S1_S1x1x1_2),
    StableHlo.TRef.unary main_call6.v8 main_call6.v9 (broadcastInDim S1024x100x1 ![0, 1, 2] bcast_S1x1x1_S1024x100x1_0_1_2),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1024x100x1_S1024x100_d2 h_S_),
    StableHlo.TRef.binary (.of main_v26 : StableHlo.TRef sig ⟨S100x1, .f32⟩) main_call6.v5 main_call6.v13 (fun x i => Host.gather gather_S100x1_S1024x100x1_S1024x100x1_2_0_n_n_0_2_11 x i),
    StableHlo.TRef.unary main_call6.v12 main_call6.v14 (broadcastInDim S1024x100x1 ![0, 1] bcast_S1024x100_S1024x100x1_0_1),
    StableHlo.TRef.nullary main_call6.cst (constant S_ .f32 0x7FC00000#32),
    StableHlo.TRef.unary main_call6.cst main_call6.v15 (broadcastInDim S1024x100x1 ![] bcast_S_S1024x100x1),
    StableHlo.TRef.ternary main_call6.v14 main_call6.v13 main_call6.v15 main_call6.v16 select,
    StableHlo.nullary main_cst_2 (constant S_ .f32 0x00000000#32),
    StableHlo.binary main_v27 main_cst_2 main_v28 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v29 ((extractStridedSlice S1x100x32 ![3, 0, 0] · slices_S26x100x32_S1x100x32_3_0_0) : (⟨S26x100x32, .f32⟩ : BufTy).Contents (Elt F) → (⟨S1x100x32, .f32⟩ : BufTy).Contents (Elt F)),
    StableHlo.reshape main_v29 main_v30 rfl shapeCasts_S1x100x32_S100x32,
    StableHlo.TRef.nullary main_call7.c (constantI S_ 32 0#32),
    StableHlo.TRef.unary main_call7.c main_call7.v0 (broadcastInDim S1024x100 ![] bcast_S_S1024x100),
    StableHlo.TRef.binary (.of main_v24 : StableHlo.TRef sig ⟨S1024x100, .i32⟩) main_call7.v0 main_call7.v1 (cmpi .slt),
    StableHlo.TRef.nullary main_call7.c_0 (constantI S_ 32 100#32),
    StableHlo.TRef.unary main_call7.c_0 main_call7.v2 (broadcastInDim S1024x100 ![] bcast_S_S1024x100),
    StableHlo.TRef.binary (.of main_v24 : StableHlo.TRef sig ⟨S1024x100, .i32⟩) main_call7.v2 main_call7.v3 addi,
    StableHlo.TRef.ternary main_call7.v1 main_call7.v3 (.of main_v24 : StableHlo.TRef sig ⟨S1024x100, .i32⟩) main_call7.call0.v0 select,
    StableHlo.TRef.unary main_call7.call0.v0 main_call7.v5 (broadcastInDim S1024x100x1 ![0, 1] bcast_S1024x100_S1024x100x1_0_1),
    StableHlo.TRef.nullary main_call7.c_1 (constantI S1 32 99#32),
    StableHlo.TRef.nullary main_call7.c_2 (constantI S_ 32 0#32),
    StableHlo.TRef.unary main_call7.c_2 main_call7.v6 (broadcastInDim S1024x100x1 ![] bcast_S_S1024x100x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S1024x100x1 ![0, 1, 2] bcast_S1x1x1_S1024x100x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S1024x100x1_S1024x100_d2 h_S_),
    StableHlo.TRef.binary (.of main_v30 : StableHlo.TRef sig ⟨S100x32, .f32⟩) main_call7.v5 main_call7.v13 (fun x i => Host.gather gather_S100x32_S1024x100x1_S1024x100x32_2_0_n_n_0_2_132 x i),
    StableHlo.TRef.unary main_call7.v12 main_call7.v14 (broadcastInDim S1024x100x32 ![0, 1] bcast_S1024x100_S1024x100x32_0_1),
    StableHlo.TRef.nullary main_call7.cst (constant S_ .f32 0x7FC00000#32),
    StableHlo.TRef.unary main_call7.cst main_call7.v15 (broadcastInDim S1024x100x32 ![] bcast_S_S1024x100x32),
    StableHlo.TRef.ternary main_call7.v14 main_call7.v13 main_call7.v15 main_call7.v16 select,
    StableHlo.unary main_arg0 main_v32 ((extractStridedSlice S1024x100 ![0, 404] · slices_S1024x2626_S1024x100_0_404) : (⟨S1024x2626, .i32⟩ : BufTy).Contents (Elt F) → (⟨S1024x100, .i32⟩ : BufTy).Contents (Elt F)),
    StableHlo.unary main_arg2 main_v33 ((extractStridedSlice S1x100x1 ![4, 0, 0] · slices_S26x100x1_S1x100x1_4_0_0) : (⟨S26x100x1, .f32⟩ : BufTy).Contents (Elt F) → (⟨S1x100x1, .f32⟩ : BufTy).Contents (Elt F)),
    StableHlo.reshape main_v33 main_v34 rfl shapeCasts_S1x100x1_S100x1,
    StableHlo.TRef.nullary main_call8.c (constantI S_ 32 0#32),
    StableHlo.TRef.unary main_call8.c main_call8.v0 (broadcastInDim S1024x100 ![] bcast_S_S1024x100),
    StableHlo.TRef.binary (.of main_v32 : StableHlo.TRef sig ⟨S1024x100, .i32⟩) main_call8.v0 main_call8.v1 (cmpi .slt),
    StableHlo.TRef.nullary main_call8.c_0 (constantI S_ 32 100#32),
    StableHlo.TRef.unary main_call8.c_0 main_call8.v2 (broadcastInDim S1024x100 ![] bcast_S_S1024x100),
    StableHlo.TRef.binary (.of main_v32 : StableHlo.TRef sig ⟨S1024x100, .i32⟩) main_call8.v2 main_call8.v3 addi,
    StableHlo.TRef.ternary main_call8.v1 main_call8.v3 (.of main_v32 : StableHlo.TRef sig ⟨S1024x100, .i32⟩) main_call8.call0.v0 select,
    StableHlo.TRef.unary main_call8.call0.v0 main_call8.v5 (broadcastInDim S1024x100x1 ![0, 1] bcast_S1024x100_S1024x100x1_0_1),
    StableHlo.TRef.nullary main_call8.c_1 (constantI S1 32 99#32),
    StableHlo.TRef.nullary main_call8.c_2 (constantI S_ 32 0#32),
    StableHlo.TRef.unary main_call8.c_2 main_call8.v6 (broadcastInDim S1024x100x1 ![] bcast_S_S1024x100x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S1024x100x1 ![0, 1, 2] bcast_S1x1x1_S1024x100x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1024x100x1_S1024x100_d2 h_S_),
    StableHlo.TRef.binary (.of main_v34 : StableHlo.TRef sig ⟨S100x1, .f32⟩) main_call8.v5 main_call8.v13 (fun x i => Host.gather gather_S100x1_S1024x100x1_S1024x100x1_2_0_n_n_0_2_11 x i),
    StableHlo.TRef.unary main_call8.v12 main_call8.v14 (broadcastInDim S1024x100x1 ![0, 1] bcast_S1024x100_S1024x100x1_0_1),
    StableHlo.TRef.nullary main_call8.cst (constant S_ .f32 0x7FC00000#32),
    StableHlo.TRef.unary main_call8.cst main_call8.v15 (broadcastInDim S1024x100x1 ![] bcast_S_S1024x100x1),
    StableHlo.TRef.ternary main_call8.v14 main_call8.v13 main_call8.v15 main_call8.v16 select,
    StableHlo.nullary main_cst_3 (constant S_ .f32 0x00000000#32),
    StableHlo.binary main_v35 main_cst_3 main_v36 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v37 ((extractStridedSlice S1x100x32 ![4, 0, 0] · slices_S26x100x32_S1x100x32_4_0_0) : (⟨S26x100x32, .f32⟩ : BufTy).Contents (Elt F) → (⟨S1x100x32, .f32⟩ : BufTy).Contents (Elt F)),
    StableHlo.reshape main_v37 main_v38 rfl shapeCasts_S1x100x32_S100x32,
    StableHlo.TRef.nullary main_call9.c (constantI S_ 32 0#32),
    StableHlo.TRef.unary main_call9.c main_call9.v0 (broadcastInDim S1024x100 ![] bcast_S_S1024x100),
    StableHlo.TRef.binary (.of main_v32 : StableHlo.TRef sig ⟨S1024x100, .i32⟩) main_call9.v0 main_call9.v1 (cmpi .slt),
    StableHlo.TRef.nullary main_call9.c_0 (constantI S_ 32 100#32),
    StableHlo.TRef.unary main_call9.c_0 main_call9.v2 (broadcastInDim S1024x100 ![] bcast_S_S1024x100),
    StableHlo.TRef.binary (.of main_v32 : StableHlo.TRef sig ⟨S1024x100, .i32⟩) main_call9.v2 main_call9.v3 addi,
    StableHlo.TRef.ternary main_call9.v1 main_call9.v3 (.of main_v32 : StableHlo.TRef sig ⟨S1024x100, .i32⟩) main_call9.call0.v0 select,
    StableHlo.TRef.unary main_call9.call0.v0 main_call9.v5 (broadcastInDim S1024x100x1 ![0, 1] bcast_S1024x100_S1024x100x1_0_1),
    StableHlo.TRef.nullary main_call9.c_1 (constantI S1 32 99#32),
    StableHlo.TRef.nullary main_call9.c_2 (constantI S_ 32 0#32),
    StableHlo.TRef.unary main_call9.c_2 main_call9.v6 (broadcastInDim S1024x100x1 ![] bcast_S_S1024x100x1),
    StableHlo.TRef.binary main_call9.v5 main_call9.v6 main_call9.v7 (cmpi .sge),
    StableHlo.TRef.unary main_call9.c_1 main_call9.v8 (broadcastInDim S1x1x1 ![2] bcast_S1_S1x1x1_2),
    StableHlo.TRef.unary main_call9.v8 main_call9.v9 (broadcastInDim S1024x100x1 ![0, 1, 2] bcast_S1x1x1_S1024x100x1_0_1_2),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S1024x100x1_S1024x100_d2 h_S_),
    StableHlo.TRef.binary (.of main_v38 : StableHlo.TRef sig ⟨S100x32, .f32⟩) main_call9.v5 main_call9.v13 (fun x i => Host.gather gather_S100x32_S1024x100x1_S1024x100x32_2_0_n_n_0_2_132 x i),
    StableHlo.TRef.unary main_call9.v12 main_call9.v14 (broadcastInDim S1024x100x32 ![0, 1] bcast_S1024x100_S1024x100x32_0_1),
    StableHlo.TRef.nullary main_call9.cst (constant S_ .f32 0x7FC00000#32),
    StableHlo.TRef.unary main_call9.cst main_call9.v15 (broadcastInDim S1024x100x32 ![] bcast_S_S1024x100x32),
    StableHlo.TRef.ternary main_call9.v14 main_call9.v13 main_call9.v15 main_call9.v16 select,
    StableHlo.unary main_arg0 main_v40 ((extractStridedSlice S1024x100 ![0, 505] · slices_S1024x2626_S1024x100_0_505) : (⟨S1024x2626, .i32⟩ : BufTy).Contents (Elt F) → (⟨S1024x100, .i32⟩ : BufTy).Contents (Elt F)),
    StableHlo.unary main_arg2 main_v41 ((extractStridedSlice S1x100x1 ![5, 0, 0] · slices_S26x100x1_S1x100x1_5_0_0) : (⟨S26x100x1, .f32⟩ : BufTy).Contents (Elt F) → (⟨S1x100x1, .f32⟩ : BufTy).Contents (Elt F)),
    StableHlo.reshape main_v41 main_v42 rfl shapeCasts_S1x100x1_S100x1,
    StableHlo.TRef.nullary main_call10.c (constantI S_ 32 0#32),
    StableHlo.TRef.unary main_call10.c main_call10.v0 (broadcastInDim S1024x100 ![] bcast_S_S1024x100),
    StableHlo.TRef.binary (.of main_v40 : StableHlo.TRef sig ⟨S1024x100, .i32⟩) main_call10.v0 main_call10.v1 (cmpi .slt),
    StableHlo.TRef.nullary main_call10.c_0 (constantI S_ 32 100#32),
    StableHlo.TRef.unary main_call10.c_0 main_call10.v2 (broadcastInDim S1024x100 ![] bcast_S_S1024x100),
    StableHlo.TRef.binary (.of main_v40 : StableHlo.TRef sig ⟨S1024x100, .i32⟩) main_call10.v2 main_call10.v3 addi,
    StableHlo.TRef.ternary main_call10.v1 main_call10.v3 (.of main_v40 : StableHlo.TRef sig ⟨S1024x100, .i32⟩) main_call10.call0.v0 select,
    StableHlo.TRef.unary main_call10.call0.v0 main_call10.v5 (broadcastInDim S1024x100x1 ![0, 1] bcast_S1024x100_S1024x100x1_0_1),
    StableHlo.TRef.nullary main_call10.c_1 (constantI S1 32 99#32),
    StableHlo.TRef.nullary main_call10.c_2 (constantI S_ 32 0#32),
    StableHlo.TRef.unary main_call10.c_2 main_call10.v6 (broadcastInDim S1024x100x1 ![] bcast_S_S1024x100x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S1024x100x1 ![0, 1, 2] bcast_S1x1x1_S1024x100x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S1024x100x1_S1024x100_d2 h_S_),
    StableHlo.TRef.binary (.of main_v42 : StableHlo.TRef sig ⟨S100x1, .f32⟩) main_call10.v5 main_call10.v13 (fun x i => Host.gather gather_S100x1_S1024x100x1_S1024x100x1_2_0_n_n_0_2_11 x i),
    StableHlo.TRef.unary main_call10.v12 main_call10.v14 (broadcastInDim S1024x100x1 ![0, 1] bcast_S1024x100_S1024x100x1_0_1),
    StableHlo.TRef.nullary main_call10.cst (constant S_ .f32 0x7FC00000#32),
    StableHlo.TRef.unary main_call10.cst main_call10.v15 (broadcastInDim S1024x100x1 ![] bcast_S_S1024x100x1),
    StableHlo.TRef.ternary main_call10.v14 main_call10.v13 main_call10.v15 main_call10.v16 select,
    StableHlo.nullary main_cst_4 (constant S_ .f32 0x00000000#32),
    StableHlo.binary main_v43 main_cst_4 main_v44 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v45 ((extractStridedSlice S1x100x32 ![5, 0, 0] · slices_S26x100x32_S1x100x32_5_0_0) : (⟨S26x100x32, .f32⟩ : BufTy).Contents (Elt F) → (⟨S1x100x32, .f32⟩ : BufTy).Contents (Elt F)),
    StableHlo.reshape main_v45 main_v46 rfl shapeCasts_S1x100x32_S100x32,
    StableHlo.TRef.nullary main_call11.c (constantI S_ 32 0#32),
    StableHlo.TRef.unary main_call11.c main_call11.v0 (broadcastInDim S1024x100 ![] bcast_S_S1024x100),
    StableHlo.TRef.binary (.of main_v40 : StableHlo.TRef sig ⟨S1024x100, .i32⟩) main_call11.v0 main_call11.v1 (cmpi .slt),
    StableHlo.TRef.nullary main_call11.c_0 (constantI S_ 32 100#32),
    StableHlo.TRef.unary main_call11.c_0 main_call11.v2 (broadcastInDim S1024x100 ![] bcast_S_S1024x100),
    StableHlo.TRef.binary (.of main_v40 : StableHlo.TRef sig ⟨S1024x100, .i32⟩) main_call11.v2 main_call11.v3 addi,
    StableHlo.TRef.ternary main_call11.v1 main_call11.v3 (.of main_v40 : StableHlo.TRef sig ⟨S1024x100, .i32⟩) main_call11.call0.v0 select,
    StableHlo.TRef.unary main_call11.call0.v0 main_call11.v5 (broadcastInDim S1024x100x1 ![0, 1] bcast_S1024x100_S1024x100x1_0_1),
    StableHlo.TRef.nullary main_call11.c_1 (constantI S1 32 99#32),
    StableHlo.TRef.nullary main_call11.c_2 (constantI S_ 32 0#32),
    StableHlo.TRef.unary main_call11.c_2 main_call11.v6 (broadcastInDim S1024x100x1 ![] bcast_S_S1024x100x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S1024x100x1 ![0, 1, 2] bcast_S1x1x1_S1024x100x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1024x100x1_S1024x100_d2 h_S_),
    StableHlo.TRef.binary (.of main_v46 : StableHlo.TRef sig ⟨S100x32, .f32⟩) main_call11.v5 main_call11.v13 (fun x i => Host.gather gather_S100x32_S1024x100x1_S1024x100x32_2_0_n_n_0_2_132 x i),
    StableHlo.TRef.unary main_call11.v12 main_call11.v14 (broadcastInDim S1024x100x32 ![0, 1] bcast_S1024x100_S1024x100x32_0_1),
    StableHlo.TRef.nullary main_call11.cst (constant S_ .f32 0x7FC00000#32),
    StableHlo.TRef.unary main_call11.cst main_call11.v15 (broadcastInDim S1024x100x32 ![] bcast_S_S1024x100x32),
    StableHlo.TRef.ternary main_call11.v14 main_call11.v13 main_call11.v15 main_call11.v16 select,
    StableHlo.unary main_arg0 main_v48 ((extractStridedSlice S1024x100 ![0, 606] · slices_S1024x2626_S1024x100_0_606) : (⟨S1024x2626, .i32⟩ : BufTy).Contents (Elt F) → (⟨S1024x100, .i32⟩ : BufTy).Contents (Elt F)),
    StableHlo.unary main_arg2 main_v49 ((extractStridedSlice S1x100x1 ![6, 0, 0] · slices_S26x100x1_S1x100x1_6_0_0) : (⟨S26x100x1, .f32⟩ : BufTy).Contents (Elt F) → (⟨S1x100x1, .f32⟩ : BufTy).Contents (Elt F)),
    StableHlo.reshape main_v49 main_v50 rfl shapeCasts_S1x100x1_S100x1,
    StableHlo.TRef.nullary main_call12.c (constantI S_ 32 0#32),
    StableHlo.TRef.unary main_call12.c main_call12.v0 (broadcastInDim S1024x100 ![] bcast_S_S1024x100),
    StableHlo.TRef.binary (.of main_v48 : StableHlo.TRef sig ⟨S1024x100, .i32⟩) main_call12.v0 main_call12.v1 (cmpi .slt),
    StableHlo.TRef.nullary main_call12.c_0 (constantI S_ 32 100#32),
    StableHlo.TRef.unary main_call12.c_0 main_call12.v2 (broadcastInDim S1024x100 ![] bcast_S_S1024x100),
    StableHlo.TRef.binary (.of main_v48 : StableHlo.TRef sig ⟨S1024x100, .i32⟩) main_call12.v2 main_call12.v3 addi,
    StableHlo.TRef.ternary main_call12.v1 main_call12.v3 (.of main_v48 : StableHlo.TRef sig ⟨S1024x100, .i32⟩) main_call12.call0.v0 select,
    StableHlo.TRef.unary main_call12.call0.v0 main_call12.v5 (broadcastInDim S1024x100x1 ![0, 1] bcast_S1024x100_S1024x100x1_0_1),
    StableHlo.TRef.nullary main_call12.c_1 (constantI S1 32 99#32),
    StableHlo.TRef.nullary main_call12.c_2 (constantI S_ 32 0#32),
    StableHlo.TRef.unary main_call12.c_2 main_call12.v6 (broadcastInDim S1024x100x1 ![] bcast_S_S1024x100x1),
    StableHlo.TRef.binary main_call12.v5 main_call12.v6 main_call12.v7 (cmpi .sge),
    StableHlo.TRef.unary main_call12.c_1 main_call12.v8 (broadcastInDim S1x1x1 ![2] bcast_S1_S1x1x1_2),
    StableHlo.TRef.unary main_call12.v8 main_call12.v9 (broadcastInDim S1024x100x1 ![0, 1, 2] bcast_S1x1x1_S1024x100x1_0_1_2),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S1024x100x1_S1024x100_d2 h_S_),
    StableHlo.TRef.binary (.of main_v50 : StableHlo.TRef sig ⟨S100x1, .f32⟩) main_call12.v5 main_call12.v13 (fun x i => Host.gather gather_S100x1_S1024x100x1_S1024x100x1_2_0_n_n_0_2_11 x i),
    StableHlo.TRef.unary main_call12.v12 main_call12.v14 (broadcastInDim S1024x100x1 ![0, 1] bcast_S1024x100_S1024x100x1_0_1),
    StableHlo.TRef.nullary main_call12.cst (constant S_ .f32 0x7FC00000#32),
    StableHlo.TRef.unary main_call12.cst main_call12.v15 (broadcastInDim S1024x100x1 ![] bcast_S_S1024x100x1),
    StableHlo.TRef.ternary main_call12.v14 main_call12.v13 main_call12.v15 main_call12.v16 select,
    StableHlo.nullary main_cst_5 (constant S_ .f32 0x00000000#32),
    StableHlo.binary main_v51 main_cst_5 main_v52 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)) ]

abbrev W1 : List (HloOp τ sig (Elt F)) :=
  [ StableHlo.unary main_arg3 main_v53 ((extractStridedSlice S1x100x32 ![6, 0, 0] · slices_S26x100x32_S1x100x32_6_0_0) : (⟨S26x100x32, .f32⟩ : BufTy).Contents (Elt F) → (⟨S1x100x32, .f32⟩ : BufTy).Contents (Elt F)),
    StableHlo.reshape main_v53 main_v54 rfl shapeCasts_S1x100x32_S100x32,
    StableHlo.TRef.nullary main_call13.c (constantI S_ 32 0#32),
    StableHlo.TRef.unary main_call13.c main_call13.v0 (broadcastInDim S1024x100 ![] bcast_S_S1024x100),
    StableHlo.TRef.binary (.of main_v48 : StableHlo.TRef sig ⟨S1024x100, .i32⟩) main_call13.v0 main_call13.v1 (cmpi .slt),
    StableHlo.TRef.nullary main_call13.c_0 (constantI S_ 32 100#32),
    StableHlo.TRef.unary main_call13.c_0 main_call13.v2 (broadcastInDim S1024x100 ![] bcast_S_S1024x100),
    StableHlo.TRef.binary (.of main_v48 : StableHlo.TRef sig ⟨S1024x100, .i32⟩) main_call13.v2 main_call13.v3 addi,
    StableHlo.TRef.ternary main_call13.v1 main_call13.v3 (.of main_v48 : StableHlo.TRef sig ⟨S1024x100, .i32⟩) main_call13.call0.v0 select,
    StableHlo.TRef.unary main_call13.call0.v0 main_call13.v5 (broadcastInDim S1024x100x1 ![0, 1] bcast_S1024x100_S1024x100x1_0_1),
    StableHlo.TRef.nullary main_call13.c_1 (constantI S1 32 99#32),
    StableHlo.TRef.nullary main_call13.c_2 (constantI S_ 32 0#32),
    StableHlo.TRef.unary main_call13.c_2 main_call13.v6 (broadcastInDim S1024x100x1 ![] bcast_S_S1024x100x1),
    StableHlo.TRef.binary main_call13.v5 main_call13.v6 main_call13.v7 (cmpi .sge),
    StableHlo.TRef.unary main_call13.c_1 main_call13.v8 (broadcastInDim S1x1x1 ![2] bcast_S1_S1x1x1_2),
    StableHlo.TRef.unary main_call13.v8 main_call13.v9 (broadcastInDim S1024x100x1 ![0, 1, 2] bcast_S1x1x1_S1024x100x1_0_1_2),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S1024x100x1_S1024x100_d2 h_S_),
    StableHlo.TRef.binary (.of main_v54 : StableHlo.TRef sig ⟨S100x32, .f32⟩) main_call13.v5 main_call13.v13 (fun x i => Host.gather gather_S100x32_S1024x100x1_S1024x100x32_2_0_n_n_0_2_132 x i),
    StableHlo.TRef.unary main_call13.v12 main_call13.v14 (broadcastInDim S1024x100x32 ![0, 1] bcast_S1024x100_S1024x100x32_0_1),
    StableHlo.TRef.nullary main_call13.cst (constant S_ .f32 0x7FC00000#32),
    StableHlo.TRef.unary main_call13.cst main_call13.v15 (broadcastInDim S1024x100x32 ![] bcast_S_S1024x100x32),
    StableHlo.TRef.ternary main_call13.v14 main_call13.v13 main_call13.v15 main_call13.v16 select,
    StableHlo.unary main_arg0 main_v56 ((extractStridedSlice S1024x100 ![0, 707] · slices_S1024x2626_S1024x100_0_707) : (⟨S1024x2626, .i32⟩ : BufTy).Contents (Elt F) → (⟨S1024x100, .i32⟩ : BufTy).Contents (Elt F)),
    StableHlo.unary main_arg2 main_v57 ((extractStridedSlice S1x100x1 ![7, 0, 0] · slices_S26x100x1_S1x100x1_7_0_0) : (⟨S26x100x1, .f32⟩ : BufTy).Contents (Elt F) → (⟨S1x100x1, .f32⟩ : BufTy).Contents (Elt F)),
    StableHlo.reshape main_v57 main_v58 rfl shapeCasts_S1x100x1_S100x1,
    StableHlo.TRef.nullary main_call14.c (constantI S_ 32 0#32),
    StableHlo.TRef.unary main_call14.c main_call14.v0 (broadcastInDim S1024x100 ![] bcast_S_S1024x100),
    StableHlo.TRef.binary (.of main_v56 : StableHlo.TRef sig ⟨S1024x100, .i32⟩) main_call14.v0 main_call14.v1 (cmpi .slt),
    StableHlo.TRef.nullary main_call14.c_0 (constantI S_ 32 100#32),
    StableHlo.TRef.unary main_call14.c_0 main_call14.v2 (broadcastInDim S1024x100 ![] bcast_S_S1024x100),
    StableHlo.TRef.binary (.of main_v56 : StableHlo.TRef sig ⟨S1024x100, .i32⟩) main_call14.v2 main_call14.v3 addi,
    StableHlo.TRef.ternary main_call14.v1 main_call14.v3 (.of main_v56 : StableHlo.TRef sig ⟨S1024x100, .i32⟩) main_call14.call0.v0 select,
    StableHlo.TRef.unary main_call14.call0.v0 main_call14.v5 (broadcastInDim S1024x100x1 ![0, 1] bcast_S1024x100_S1024x100x1_0_1),
    StableHlo.TRef.nullary main_call14.c_1 (constantI S1 32 99#32),
    StableHlo.TRef.nullary main_call14.c_2 (constantI S_ 32 0#32),
    StableHlo.TRef.unary main_call14.c_2 main_call14.v6 (broadcastInDim S1024x100x1 ![] bcast_S_S1024x100x1),
    StableHlo.TRef.binary main_call14.v5 main_call14.v6 main_call14.v7 (cmpi .sge),
    StableHlo.TRef.unary main_call14.c_1 main_call14.v8 (broadcastInDim S1x1x1 ![2] bcast_S1_S1x1x1_2),
    StableHlo.TRef.unary main_call14.v8 main_call14.v9 (broadcastInDim S1024x100x1 ![0, 1, 2] bcast_S1x1x1_S1024x100x1_0_1_2),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S1024x100x1_S1024x100_d2 h_S_),
    StableHlo.TRef.binary (.of main_v58 : StableHlo.TRef sig ⟨S100x1, .f32⟩) main_call14.v5 main_call14.v13 (fun x i => Host.gather gather_S100x1_S1024x100x1_S1024x100x1_2_0_n_n_0_2_11 x i),
    StableHlo.TRef.unary main_call14.v12 main_call14.v14 (broadcastInDim S1024x100x1 ![0, 1] bcast_S1024x100_S1024x100x1_0_1),
    StableHlo.TRef.nullary main_call14.cst (constant S_ .f32 0x7FC00000#32),
    StableHlo.TRef.unary main_call14.cst main_call14.v15 (broadcastInDim S1024x100x1 ![] bcast_S_S1024x100x1),
    StableHlo.TRef.ternary main_call14.v14 main_call14.v13 main_call14.v15 main_call14.v16 select,
    StableHlo.nullary main_cst_6 (constant S_ .f32 0x00000000#32),
    StableHlo.binary main_v59 main_cst_6 main_v60 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v61 ((extractStridedSlice S1x100x32 ![7, 0, 0] · slices_S26x100x32_S1x100x32_7_0_0) : (⟨S26x100x32, .f32⟩ : BufTy).Contents (Elt F) → (⟨S1x100x32, .f32⟩ : BufTy).Contents (Elt F)),
    StableHlo.reshape main_v61 main_v62 rfl shapeCasts_S1x100x32_S100x32,
    StableHlo.TRef.nullary main_call15.c (constantI S_ 32 0#32),
    StableHlo.TRef.unary main_call15.c main_call15.v0 (broadcastInDim S1024x100 ![] bcast_S_S1024x100),
    StableHlo.TRef.binary (.of main_v56 : StableHlo.TRef sig ⟨S1024x100, .i32⟩) main_call15.v0 main_call15.v1 (cmpi .slt),
    StableHlo.TRef.nullary main_call15.c_0 (constantI S_ 32 100#32),
    StableHlo.TRef.unary main_call15.c_0 main_call15.v2 (broadcastInDim S1024x100 ![] bcast_S_S1024x100),
    StableHlo.TRef.binary (.of main_v56 : StableHlo.TRef sig ⟨S1024x100, .i32⟩) main_call15.v2 main_call15.v3 addi,
    StableHlo.TRef.ternary main_call15.v1 main_call15.v3 (.of main_v56 : StableHlo.TRef sig ⟨S1024x100, .i32⟩) main_call15.call0.v0 select,
    StableHlo.TRef.unary main_call15.call0.v0 main_call15.v5 (broadcastInDim S1024x100x1 ![0, 1] bcast_S1024x100_S1024x100x1_0_1),
    StableHlo.TRef.nullary main_call15.c_1 (constantI S1 32 99#32),
    StableHlo.TRef.nullary main_call15.c_2 (constantI S_ 32 0#32),
    StableHlo.TRef.unary main_call15.c_2 main_call15.v6 (broadcastInDim S1024x100x1 ![] bcast_S_S1024x100x1),
    StableHlo.TRef.binary main_call15.v5 main_call15.v6 main_call15.v7 (cmpi .sge),
    StableHlo.TRef.unary main_call15.c_1 main_call15.v8 (broadcastInDim S1x1x1 ![2] bcast_S1_S1x1x1_2),
    StableHlo.TRef.unary main_call15.v8 main_call15.v9 (broadcastInDim S1024x100x1 ![0, 1, 2] bcast_S1x1x1_S1024x100x1_0_1_2),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S1024x100x1_S1024x100_d2 h_S_),
    StableHlo.TRef.binary (.of main_v62 : StableHlo.TRef sig ⟨S100x32, .f32⟩) main_call15.v5 main_call15.v13 (fun x i => Host.gather gather_S100x32_S1024x100x1_S1024x100x32_2_0_n_n_0_2_132 x i),
    StableHlo.TRef.unary main_call15.v12 main_call15.v14 (broadcastInDim S1024x100x32 ![0, 1] bcast_S1024x100_S1024x100x32_0_1),
    StableHlo.TRef.nullary main_call15.cst (constant S_ .f32 0x7FC00000#32),
    StableHlo.TRef.unary main_call15.cst main_call15.v15 (broadcastInDim S1024x100x32 ![] bcast_S_S1024x100x32),
    StableHlo.TRef.ternary main_call15.v14 main_call15.v13 main_call15.v15 main_call15.v16 select,
    StableHlo.unary main_arg0 main_v64 ((extractStridedSlice S1024x100 ![0, 808] · slices_S1024x2626_S1024x100_0_808) : (⟨S1024x2626, .i32⟩ : BufTy).Contents (Elt F) → (⟨S1024x100, .i32⟩ : BufTy).Contents (Elt F)),
    StableHlo.unary main_arg2 main_v65 ((extractStridedSlice S1x100x1 ![8, 0, 0] · slices_S26x100x1_S1x100x1_8_0_0) : (⟨S26x100x1, .f32⟩ : BufTy).Contents (Elt F) → (⟨S1x100x1, .f32⟩ : BufTy).Contents (Elt F)),
    StableHlo.reshape main_v65 main_v66 rfl shapeCasts_S1x100x1_S100x1,
    StableHlo.TRef.nullary main_call16.c (constantI S_ 32 0#32),
    StableHlo.TRef.unary main_call16.c main_call16.v0 (broadcastInDim S1024x100 ![] bcast_S_S1024x100),
    StableHlo.TRef.binary (.of main_v64 : StableHlo.TRef sig ⟨S1024x100, .i32⟩) main_call16.v0 main_call16.v1 (cmpi .slt),
    StableHlo.TRef.nullary main_call16.c_0 (constantI S_ 32 100#32),
    StableHlo.TRef.unary main_call16.c_0 main_call16.v2 (broadcastInDim S1024x100 ![] bcast_S_S1024x100),
    StableHlo.TRef.binary (.of main_v64 : StableHlo.TRef sig ⟨S1024x100, .i32⟩) main_call16.v2 main_call16.v3 addi,
    StableHlo.TRef.ternary main_call16.v1 main_call16.v3 (.of main_v64 : StableHlo.TRef sig ⟨S1024x100, .i32⟩) main_call16.call0.v0 select,
    StableHlo.TRef.unary main_call16.call0.v0 main_call16.v5 (broadcastInDim S1024x100x1 ![0, 1] bcast_S1024x100_S1024x100x1_0_1),
    StableHlo.TRef.nullary main_call16.c_1 (constantI S1 32 99#32),
    StableHlo.TRef.nullary main_call16.c_2 (constantI S_ 32 0#32),
    StableHlo.TRef.unary main_call16.c_2 main_call16.v6 (broadcastInDim S1024x100x1 ![] bcast_S_S1024x100x1),
    StableHlo.TRef.binary main_call16.v5 main_call16.v6 main_call16.v7 (cmpi .sge),
    StableHlo.TRef.unary main_call16.c_1 main_call16.v8 (broadcastInDim S1x1x1 ![2] bcast_S1_S1x1x1_2),
    StableHlo.TRef.unary main_call16.v8 main_call16.v9 (broadcastInDim S1024x100x1 ![0, 1, 2] bcast_S1x1x1_S1024x100x1_0_1_2),
    StableHlo.TRef.binary main_call16.v5 main_call16.v9 main_call16.v10 (cmpi .sle),
    StableHlo.TRef.binary main_call16.v7 main_call16.v10 main_call16.v11 andi,
    StableHlo.TRef.nullary main_call16.c_3 (constantI S_ 1 1#1),
    StableHlo.TRef.binary main_call16.v11 main_call16.c_3 main_call16.v12 (fun x v => Host.reduce IntOp.andi x v reducesTo_S1024x100x1_S1024x100_d2 h_S_),
    StableHlo.TRef.binary (.of main_v66 : StableHlo.TRef sig ⟨S100x1, .f32⟩) main_call16.v5 main_call16.v13 (fun x i => Host.gather gather_S100x1_S1024x100x1_S1024x100x1_2_0_n_n_0_2_11 x i),
    StableHlo.TRef.unary main_call16.v12 main_call16.v14 (broadcastInDim S1024x100x1 ![0, 1] bcast_S1024x100_S1024x100x1_0_1),
    StableHlo.TRef.nullary main_call16.cst (constant S_ .f32 0x7FC00000#32),
    StableHlo.TRef.unary main_call16.cst main_call16.v15 (broadcastInDim S1024x100x1 ![] bcast_S_S1024x100x1),
    StableHlo.TRef.ternary main_call16.v14 main_call16.v13 main_call16.v15 main_call16.v16 select,
    StableHlo.nullary main_cst_7 (constant S_ .f32 0x00000000#32),
    StableHlo.binary main_v67 main_cst_7 main_v68 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v69 ((extractStridedSlice S1x100x32 ![8, 0, 0] · slices_S26x100x32_S1x100x32_8_0_0) : (⟨S26x100x32, .f32⟩ : BufTy).Contents (Elt F) → (⟨S1x100x32, .f32⟩ : BufTy).Contents (Elt F)),
    StableHlo.reshape main_v69 main_v70 rfl shapeCasts_S1x100x32_S100x32,
    StableHlo.TRef.nullary main_call17.c (constantI S_ 32 0#32),
    StableHlo.TRef.unary main_call17.c main_call17.v0 (broadcastInDim S1024x100 ![] bcast_S_S1024x100),
    StableHlo.TRef.binary (.of main_v64 : StableHlo.TRef sig ⟨S1024x100, .i32⟩) main_call17.v0 main_call17.v1 (cmpi .slt),
    StableHlo.TRef.nullary main_call17.c_0 (constantI S_ 32 100#32),
    StableHlo.TRef.unary main_call17.c_0 main_call17.v2 (broadcastInDim S1024x100 ![] bcast_S_S1024x100),
    StableHlo.TRef.binary (.of main_v64 : StableHlo.TRef sig ⟨S1024x100, .i32⟩) main_call17.v2 main_call17.v3 addi,
    StableHlo.TRef.ternary main_call17.v1 main_call17.v3 (.of main_v64 : StableHlo.TRef sig ⟨S1024x100, .i32⟩) main_call17.call0.v0 select,
    StableHlo.TRef.unary main_call17.call0.v0 main_call17.v5 (broadcastInDim S1024x100x1 ![0, 1] bcast_S1024x100_S1024x100x1_0_1),
    StableHlo.TRef.nullary main_call17.c_1 (constantI S1 32 99#32),
    StableHlo.TRef.nullary main_call17.c_2 (constantI S_ 32 0#32),
    StableHlo.TRef.unary main_call17.c_2 main_call17.v6 (broadcastInDim S1024x100x1 ![] bcast_S_S1024x100x1),
    StableHlo.TRef.binary main_call17.v5 main_call17.v6 main_call17.v7 (cmpi .sge),
    StableHlo.TRef.unary main_call17.c_1 main_call17.v8 (broadcastInDim S1x1x1 ![2] bcast_S1_S1x1x1_2),
    StableHlo.TRef.unary main_call17.v8 main_call17.v9 (broadcastInDim S1024x100x1 ![0, 1, 2] bcast_S1x1x1_S1024x100x1_0_1_2),
    StableHlo.TRef.binary main_call17.v5 main_call17.v9 main_call17.v10 (cmpi .sle),
    StableHlo.TRef.binary main_call17.v7 main_call17.v10 main_call17.v11 andi,
    StableHlo.TRef.nullary main_call17.c_3 (constantI S_ 1 1#1),
    StableHlo.TRef.binary main_call17.v11 main_call17.c_3 main_call17.v12 (fun x v => Host.reduce IntOp.andi x v reducesTo_S1024x100x1_S1024x100_d2 h_S_),
    StableHlo.TRef.binary (.of main_v70 : StableHlo.TRef sig ⟨S100x32, .f32⟩) main_call17.v5 main_call17.v13 (fun x i => Host.gather gather_S100x32_S1024x100x1_S1024x100x32_2_0_n_n_0_2_132 x i),
    StableHlo.TRef.unary main_call17.v12 main_call17.v14 (broadcastInDim S1024x100x32 ![0, 1] bcast_S1024x100_S1024x100x32_0_1),
    StableHlo.TRef.nullary main_call17.cst (constant S_ .f32 0x7FC00000#32),
    StableHlo.TRef.unary main_call17.cst main_call17.v15 (broadcastInDim S1024x100x32 ![] bcast_S_S1024x100x32),
    StableHlo.TRef.ternary main_call17.v14 main_call17.v13 main_call17.v15 main_call17.v16 select,
    StableHlo.unary main_arg0 main_v72 ((extractStridedSlice S1024x100 ![0, 909] · slices_S1024x2626_S1024x100_0_909) : (⟨S1024x2626, .i32⟩ : BufTy).Contents (Elt F) → (⟨S1024x100, .i32⟩ : BufTy).Contents (Elt F)),
    StableHlo.unary main_arg2 main_v73 ((extractStridedSlice S1x100x1 ![9, 0, 0] · slices_S26x100x1_S1x100x1_9_0_0) : (⟨S26x100x1, .f32⟩ : BufTy).Contents (Elt F) → (⟨S1x100x1, .f32⟩ : BufTy).Contents (Elt F)),
    StableHlo.reshape main_v73 main_v74 rfl shapeCasts_S1x100x1_S100x1,
    StableHlo.TRef.nullary main_call18.c (constantI S_ 32 0#32),
    StableHlo.TRef.unary main_call18.c main_call18.v0 (broadcastInDim S1024x100 ![] bcast_S_S1024x100),
    StableHlo.TRef.binary (.of main_v72 : StableHlo.TRef sig ⟨S1024x100, .i32⟩) main_call18.v0 main_call18.v1 (cmpi .slt),
    StableHlo.TRef.nullary main_call18.c_0 (constantI S_ 32 100#32),
    StableHlo.TRef.unary main_call18.c_0 main_call18.v2 (broadcastInDim S1024x100 ![] bcast_S_S1024x100),
    StableHlo.TRef.binary (.of main_v72 : StableHlo.TRef sig ⟨S1024x100, .i32⟩) main_call18.v2 main_call18.v3 addi,
    StableHlo.TRef.ternary main_call18.v1 main_call18.v3 (.of main_v72 : StableHlo.TRef sig ⟨S1024x100, .i32⟩) main_call18.call0.v0 select,
    StableHlo.TRef.unary main_call18.call0.v0 main_call18.v5 (broadcastInDim S1024x100x1 ![0, 1] bcast_S1024x100_S1024x100x1_0_1),
    StableHlo.TRef.nullary main_call18.c_1 (constantI S1 32 99#32),
    StableHlo.TRef.nullary main_call18.c_2 (constantI S_ 32 0#32),
    StableHlo.TRef.unary main_call18.c_2 main_call18.v6 (broadcastInDim S1024x100x1 ![] bcast_S_S1024x100x1),
    StableHlo.TRef.binary main_call18.v5 main_call18.v6 main_call18.v7 (cmpi .sge),
    StableHlo.TRef.unary main_call18.c_1 main_call18.v8 (broadcastInDim S1x1x1 ![2] bcast_S1_S1x1x1_2),
    StableHlo.TRef.unary main_call18.v8 main_call18.v9 (broadcastInDim S1024x100x1 ![0, 1, 2] bcast_S1x1x1_S1024x100x1_0_1_2),
    StableHlo.TRef.binary main_call18.v5 main_call18.v9 main_call18.v10 (cmpi .sle),
    StableHlo.TRef.binary main_call18.v7 main_call18.v10 main_call18.v11 andi,
    StableHlo.TRef.nullary main_call18.c_3 (constantI S_ 1 1#1),
    StableHlo.TRef.binary main_call18.v11 main_call18.c_3 main_call18.v12 (fun x v => Host.reduce IntOp.andi x v reducesTo_S1024x100x1_S1024x100_d2 h_S_),
    StableHlo.TRef.binary (.of main_v74 : StableHlo.TRef sig ⟨S100x1, .f32⟩) main_call18.v5 main_call18.v13 (fun x i => Host.gather gather_S100x1_S1024x100x1_S1024x100x1_2_0_n_n_0_2_11 x i),
    StableHlo.TRef.unary main_call18.v12 main_call18.v14 (broadcastInDim S1024x100x1 ![0, 1] bcast_S1024x100_S1024x100x1_0_1),
    StableHlo.TRef.nullary main_call18.cst (constant S_ .f32 0x7FC00000#32),
    StableHlo.TRef.unary main_call18.cst main_call18.v15 (broadcastInDim S1024x100x1 ![] bcast_S_S1024x100x1),
    StableHlo.TRef.ternary main_call18.v14 main_call18.v13 main_call18.v15 main_call18.v16 select,
    StableHlo.nullary main_cst_8 (constant S_ .f32 0x00000000#32),
    StableHlo.binary main_v75 main_cst_8 main_v76 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v77 ((extractStridedSlice S1x100x32 ![9, 0, 0] · slices_S26x100x32_S1x100x32_9_0_0) : (⟨S26x100x32, .f32⟩ : BufTy).Contents (Elt F) → (⟨S1x100x32, .f32⟩ : BufTy).Contents (Elt F)),
    StableHlo.reshape main_v77 main_v78 rfl shapeCasts_S1x100x32_S100x32,
    StableHlo.TRef.nullary main_call19.c (constantI S_ 32 0#32),
    StableHlo.TRef.unary main_call19.c main_call19.v0 (broadcastInDim S1024x100 ![] bcast_S_S1024x100),
    StableHlo.TRef.binary (.of main_v72 : StableHlo.TRef sig ⟨S1024x100, .i32⟩) main_call19.v0 main_call19.v1 (cmpi .slt),
    StableHlo.TRef.nullary main_call19.c_0 (constantI S_ 32 100#32),
    StableHlo.TRef.unary main_call19.c_0 main_call19.v2 (broadcastInDim S1024x100 ![] bcast_S_S1024x100),
    StableHlo.TRef.binary (.of main_v72 : StableHlo.TRef sig ⟨S1024x100, .i32⟩) main_call19.v2 main_call19.v3 addi,
    StableHlo.TRef.ternary main_call19.v1 main_call19.v3 (.of main_v72 : StableHlo.TRef sig ⟨S1024x100, .i32⟩) main_call19.call0.v0 select,
    StableHlo.TRef.unary main_call19.call0.v0 main_call19.v5 (broadcastInDim S1024x100x1 ![0, 1] bcast_S1024x100_S1024x100x1_0_1),
    StableHlo.TRef.nullary main_call19.c_1 (constantI S1 32 99#32),
    StableHlo.TRef.nullary main_call19.c_2 (constantI S_ 32 0#32),
    StableHlo.TRef.unary main_call19.c_2 main_call19.v6 (broadcastInDim S1024x100x1 ![] bcast_S_S1024x100x1),
    StableHlo.TRef.binary main_call19.v5 main_call19.v6 main_call19.v7 (cmpi .sge),
    StableHlo.TRef.unary main_call19.c_1 main_call19.v8 (broadcastInDim S1x1x1 ![2] bcast_S1_S1x1x1_2),
    StableHlo.TRef.unary main_call19.v8 main_call19.v9 (broadcastInDim S1024x100x1 ![0, 1, 2] bcast_S1x1x1_S1024x100x1_0_1_2),
    StableHlo.TRef.binary main_call19.v5 main_call19.v9 main_call19.v10 (cmpi .sle),
    StableHlo.TRef.binary main_call19.v7 main_call19.v10 main_call19.v11 andi,
    StableHlo.TRef.nullary main_call19.c_3 (constantI S_ 1 1#1),
    StableHlo.TRef.binary main_call19.v11 main_call19.c_3 main_call19.v12 (fun x v => Host.reduce IntOp.andi x v reducesTo_S1024x100x1_S1024x100_d2 h_S_),
    StableHlo.TRef.binary (.of main_v78 : StableHlo.TRef sig ⟨S100x32, .f32⟩) main_call19.v5 main_call19.v13 (fun x i => Host.gather gather_S100x32_S1024x100x1_S1024x100x32_2_0_n_n_0_2_132 x i),
    StableHlo.TRef.unary main_call19.v12 main_call19.v14 (broadcastInDim S1024x100x32 ![0, 1] bcast_S1024x100_S1024x100x32_0_1),
    StableHlo.TRef.nullary main_call19.cst (constant S_ .f32 0x7FC00000#32),
    StableHlo.TRef.unary main_call19.cst main_call19.v15 (broadcastInDim S1024x100x32 ![] bcast_S_S1024x100x32),
    StableHlo.TRef.ternary main_call19.v14 main_call19.v13 main_call19.v15 main_call19.v16 select,
    StableHlo.unary main_arg0 main_v80 ((extractStridedSlice S1024x100 ![0, 1010] · slices_S1024x2626_S1024x100_0_1010) : (⟨S1024x2626, .i32⟩ : BufTy).Contents (Elt F) → (⟨S1024x100, .i32⟩ : BufTy).Contents (Elt F)),
    StableHlo.unary main_arg2 main_v81 ((extractStridedSlice S1x100x1 ![10, 0, 0] · slices_S26x100x1_S1x100x1_10_0_0) : (⟨S26x100x1, .f32⟩ : BufTy).Contents (Elt F) → (⟨S1x100x1, .f32⟩ : BufTy).Contents (Elt F)),
    StableHlo.reshape main_v81 main_v82 rfl shapeCasts_S1x100x1_S100x1,
    StableHlo.TRef.nullary main_call20.c (constantI S_ 32 0#32),
    StableHlo.TRef.unary main_call20.c main_call20.v0 (broadcastInDim S1024x100 ![] bcast_S_S1024x100),
    StableHlo.TRef.binary (.of main_v80 : StableHlo.TRef sig ⟨S1024x100, .i32⟩) main_call20.v0 main_call20.v1 (cmpi .slt),
    StableHlo.TRef.nullary main_call20.c_0 (constantI S_ 32 100#32),
    StableHlo.TRef.unary main_call20.c_0 main_call20.v2 (broadcastInDim S1024x100 ![] bcast_S_S1024x100),
    StableHlo.TRef.binary (.of main_v80 : StableHlo.TRef sig ⟨S1024x100, .i32⟩) main_call20.v2 main_call20.v3 addi,
    StableHlo.TRef.ternary main_call20.v1 main_call20.v3 (.of main_v80 : StableHlo.TRef sig ⟨S1024x100, .i32⟩) main_call20.call0.v0 select,
    StableHlo.TRef.unary main_call20.call0.v0 main_call20.v5 (broadcastInDim S1024x100x1 ![0, 1] bcast_S1024x100_S1024x100x1_0_1),
    StableHlo.TRef.nullary main_call20.c_1 (constantI S1 32 99#32),
    StableHlo.TRef.nullary main_call20.c_2 (constantI S_ 32 0#32),
    StableHlo.TRef.unary main_call20.c_2 main_call20.v6 (broadcastInDim S1024x100x1 ![] bcast_S_S1024x100x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S1024x100x1 ![0, 1, 2] bcast_S1x1x1_S1024x100x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S1024x100x1_S1024x100_d2 h_S_),
    StableHlo.TRef.binary (.of main_v82 : StableHlo.TRef sig ⟨S100x1, .f32⟩) main_call20.v5 main_call20.v13 (fun x i => Host.gather gather_S100x1_S1024x100x1_S1024x100x1_2_0_n_n_0_2_11 x i),
    StableHlo.TRef.unary main_call20.v12 main_call20.v14 (broadcastInDim S1024x100x1 ![0, 1] bcast_S1024x100_S1024x100x1_0_1),
    StableHlo.TRef.nullary main_call20.cst (constant S_ .f32 0x7FC00000#32),
    StableHlo.TRef.unary main_call20.cst main_call20.v15 (broadcastInDim S1024x100x1 ![] bcast_S_S1024x100x1),
    StableHlo.TRef.ternary main_call20.v14 main_call20.v13 main_call20.v15 main_call20.v16 select,
    StableHlo.nullary main_cst_9 (constant S_ .f32 0x00000000#32),
    StableHlo.binary main_v83 main_cst_9 main_v84 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v85 ((extractStridedSlice S1x100x32 ![10, 0, 0] · slices_S26x100x32_S1x100x32_10_0_0) : (⟨S26x100x32, .f32⟩ : BufTy).Contents (Elt F) → (⟨S1x100x32, .f32⟩ : BufTy).Contents (Elt F)),
    StableHlo.reshape main_v85 main_v86 rfl shapeCasts_S1x100x32_S100x32,
    StableHlo.TRef.nullary main_call21.c (constantI S_ 32 0#32),
    StableHlo.TRef.unary main_call21.c main_call21.v0 (broadcastInDim S1024x100 ![] bcast_S_S1024x100),
    StableHlo.TRef.binary (.of main_v80 : StableHlo.TRef sig ⟨S1024x100, .i32⟩) main_call21.v0 main_call21.v1 (cmpi .slt),
    StableHlo.TRef.nullary main_call21.c_0 (constantI S_ 32 100#32),
    StableHlo.TRef.unary main_call21.c_0 main_call21.v2 (broadcastInDim S1024x100 ![] bcast_S_S1024x100),
    StableHlo.TRef.binary (.of main_v80 : StableHlo.TRef sig ⟨S1024x100, .i32⟩) main_call21.v2 main_call21.v3 addi,
    StableHlo.TRef.ternary main_call21.v1 main_call21.v3 (.of main_v80 : StableHlo.TRef sig ⟨S1024x100, .i32⟩) main_call21.call0.v0 select,
    StableHlo.TRef.unary main_call21.call0.v0 main_call21.v5 (broadcastInDim S1024x100x1 ![0, 1] bcast_S1024x100_S1024x100x1_0_1),
    StableHlo.TRef.nullary main_call21.c_1 (constantI S1 32 99#32),
    StableHlo.TRef.nullary main_call21.c_2 (constantI S_ 32 0#32),
    StableHlo.TRef.unary main_call21.c_2 main_call21.v6 (broadcastInDim S1024x100x1 ![] bcast_S_S1024x100x1),
    StableHlo.TRef.binary main_call21.v5 main_call21.v6 main_call21.v7 (cmpi .sge),
    StableHlo.TRef.unary main_call21.c_1 main_call21.v8 (broadcastInDim S1x1x1 ![2] bcast_S1_S1x1x1_2),
    StableHlo.TRef.unary main_call21.v8 main_call21.v9 (broadcastInDim S1024x100x1 ![0, 1, 2] bcast_S1x1x1_S1024x100x1_0_1_2),
    StableHlo.TRef.binary main_call21.v5 main_call21.v9 main_call21.v10 (cmpi .sle),
    StableHlo.TRef.binary main_call21.v7 main_call21.v10 main_call21.v11 andi,
    StableHlo.TRef.nullary main_call21.c_3 (constantI S_ 1 1#1),
    StableHlo.TRef.binary main_call21.v11 main_call21.c_3 main_call21.v12 (fun x v => Host.reduce IntOp.andi x v reducesTo_S1024x100x1_S1024x100_d2 h_S_),
    StableHlo.TRef.binary (.of main_v86 : StableHlo.TRef sig ⟨S100x32, .f32⟩) main_call21.v5 main_call21.v13 (fun x i => Host.gather gather_S100x32_S1024x100x1_S1024x100x32_2_0_n_n_0_2_132 x i),
    StableHlo.TRef.unary main_call21.v12 main_call21.v14 (broadcastInDim S1024x100x32 ![0, 1] bcast_S1024x100_S1024x100x32_0_1),
    StableHlo.TRef.nullary main_call21.cst (constant S_ .f32 0x7FC00000#32),
    StableHlo.TRef.unary main_call21.cst main_call21.v15 (broadcastInDim S1024x100x32 ![] bcast_S_S1024x100x32),
    StableHlo.TRef.ternary main_call21.v14 main_call21.v13 main_call21.v15 main_call21.v16 select,
    StableHlo.unary main_arg0 main_v88 ((extractStridedSlice S1024x100 ![0, 1111] · slices_S1024x2626_S1024x100_0_1111) : (⟨S1024x2626, .i32⟩ : BufTy).Contents (Elt F) → (⟨S1024x100, .i32⟩ : BufTy).Contents (Elt F)),
    StableHlo.unary main_arg2 main_v89 ((extractStridedSlice S1x100x1 ![11, 0, 0] · slices_S26x100x1_S1x100x1_11_0_0) : (⟨S26x100x1, .f32⟩ : BufTy).Contents (Elt F) → (⟨S1x100x1, .f32⟩ : BufTy).Contents (Elt F)),
    StableHlo.reshape main_v89 main_v90 rfl shapeCasts_S1x100x1_S100x1,
    StableHlo.TRef.nullary main_call22.c (constantI S_ 32 0#32),
    StableHlo.TRef.unary main_call22.c main_call22.v0 (broadcastInDim S1024x100 ![] bcast_S_S1024x100),
    StableHlo.TRef.binary (.of main_v88 : StableHlo.TRef sig ⟨S1024x100, .i32⟩) main_call22.v0 main_call22.v1 (cmpi .slt),
    StableHlo.TRef.nullary main_call22.c_0 (constantI S_ 32 100#32),
    StableHlo.TRef.unary main_call22.c_0 main_call22.v2 (broadcastInDim S1024x100 ![] bcast_S_S1024x100),
    StableHlo.TRef.binary (.of main_v88 : StableHlo.TRef sig ⟨S1024x100, .i32⟩) main_call22.v2 main_call22.v3 addi,
    StableHlo.TRef.ternary main_call22.v1 main_call22.v3 (.of main_v88 : StableHlo.TRef sig ⟨S1024x100, .i32⟩) main_call22.call0.v0 select,
    StableHlo.TRef.unary main_call22.call0.v0 main_call22.v5 (broadcastInDim S1024x100x1 ![0, 1] bcast_S1024x100_S1024x100x1_0_1),
    StableHlo.TRef.nullary main_call22.c_1 (constantI S1 32 99#32),
    StableHlo.TRef.nullary main_call22.c_2 (constantI S_ 32 0#32),
    StableHlo.TRef.unary main_call22.c_2 main_call22.v6 (broadcastInDim S1024x100x1 ![] bcast_S_S1024x100x1),
    StableHlo.TRef.binary main_call22.v5 main_call22.v6 main_call22.v7 (cmpi .sge),
    StableHlo.TRef.unary main_call22.c_1 main_call22.v8 (broadcastInDim S1x1x1 ![2] bcast_S1_S1x1x1_2),
    StableHlo.TRef.unary main_call22.v8 main_call22.v9 (broadcastInDim S1024x100x1 ![0, 1, 2] bcast_S1x1x1_S1024x100x1_0_1_2),
    StableHlo.TRef.binary main_call22.v5 main_call22.v9 main_call22.v10 (cmpi .sle),
    StableHlo.TRef.binary main_call22.v7 main_call22.v10 main_call22.v11 andi,
    StableHlo.TRef.nullary main_call22.c_3 (constantI S_ 1 1#1),
    StableHlo.TRef.binary main_call22.v11 main_call22.c_3 main_call22.v12 (fun x v => Host.reduce IntOp.andi x v reducesTo_S1024x100x1_S1024x100_d2 h_S_),
    StableHlo.TRef.binary (.of main_v90 : StableHlo.TRef sig ⟨S100x1, .f32⟩) main_call22.v5 main_call22.v13 (fun x i => Host.gather gather_S100x1_S1024x100x1_S1024x100x1_2_0_n_n_0_2_11 x i),
    StableHlo.TRef.unary main_call22.v12 main_call22.v14 (broadcastInDim S1024x100x1 ![0, 1] bcast_S1024x100_S1024x100x1_0_1),
    StableHlo.TRef.nullary main_call22.cst (constant S_ .f32 0x7FC00000#32),
    StableHlo.TRef.unary main_call22.cst main_call22.v15 (broadcastInDim S1024x100x1 ![] bcast_S_S1024x100x1),
    StableHlo.TRef.ternary main_call22.v14 main_call22.v13 main_call22.v15 main_call22.v16 select,
    StableHlo.nullary main_cst_10 (constant S_ .f32 0x00000000#32),
    StableHlo.binary main_v91 main_cst_10 main_v92 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v93 ((extractStridedSlice S1x100x32 ![11, 0, 0] · slices_S26x100x32_S1x100x32_11_0_0) : (⟨S26x100x32, .f32⟩ : BufTy).Contents (Elt F) → (⟨S1x100x32, .f32⟩ : BufTy).Contents (Elt F)),
    StableHlo.reshape main_v93 main_v94 rfl shapeCasts_S1x100x32_S100x32,
    StableHlo.TRef.nullary main_call23.c (constantI S_ 32 0#32),
    StableHlo.TRef.unary main_call23.c main_call23.v0 (broadcastInDim S1024x100 ![] bcast_S_S1024x100),
    StableHlo.TRef.binary (.of main_v88 : StableHlo.TRef sig ⟨S1024x100, .i32⟩) main_call23.v0 main_call23.v1 (cmpi .slt),
    StableHlo.TRef.nullary main_call23.c_0 (constantI S_ 32 100#32),
    StableHlo.TRef.unary main_call23.c_0 main_call23.v2 (broadcastInDim S1024x100 ![] bcast_S_S1024x100),
    StableHlo.TRef.binary (.of main_v88 : StableHlo.TRef sig ⟨S1024x100, .i32⟩) main_call23.v2 main_call23.v3 addi,
    StableHlo.TRef.ternary main_call23.v1 main_call23.v3 (.of main_v88 : StableHlo.TRef sig ⟨S1024x100, .i32⟩) main_call23.call0.v0 select,
    StableHlo.TRef.unary main_call23.call0.v0 main_call23.v5 (broadcastInDim S1024x100x1 ![0, 1] bcast_S1024x100_S1024x100x1_0_1),
    StableHlo.TRef.nullary main_call23.c_1 (constantI S1 32 99#32),
    StableHlo.TRef.nullary main_call23.c_2 (constantI S_ 32 0#32),
    StableHlo.TRef.unary main_call23.c_2 main_call23.v6 (broadcastInDim S1024x100x1 ![] bcast_S_S1024x100x1),
    StableHlo.TRef.binary main_call23.v5 main_call23.v6 main_call23.v7 (cmpi .sge),
    StableHlo.TRef.unary main_call23.c_1 main_call23.v8 (broadcastInDim S1x1x1 ![2] bcast_S1_S1x1x1_2),
    StableHlo.TRef.unary main_call23.v8 main_call23.v9 (broadcastInDim S1024x100x1 ![0, 1, 2] bcast_S1x1x1_S1024x100x1_0_1_2),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S1024x100x1_S1024x100_d2 h_S_),
    StableHlo.TRef.binary (.of main_v94 : StableHlo.TRef sig ⟨S100x32, .f32⟩) main_call23.v5 main_call23.v13 (fun x i => Host.gather gather_S100x32_S1024x100x1_S1024x100x32_2_0_n_n_0_2_132 x i),
    StableHlo.TRef.unary main_call23.v12 main_call23.v14 (broadcastInDim S1024x100x32 ![0, 1] bcast_S1024x100_S1024x100x32_0_1),
    StableHlo.TRef.nullary main_call23.cst (constant S_ .f32 0x7FC00000#32),
    StableHlo.TRef.unary main_call23.cst main_call23.v15 (broadcastInDim S1024x100x32 ![] bcast_S_S1024x100x32),
    StableHlo.TRef.ternary main_call23.v14 main_call23.v13 main_call23.v15 main_call23.v16 select,
    StableHlo.unary main_arg0 main_v96 ((extractStridedSlice S1024x100 ![0, 1212] · slices_S1024x2626_S1024x100_0_1212) : (⟨S1024x2626, .i32⟩ : BufTy).Contents (Elt F) → (⟨S1024x100, .i32⟩ : BufTy).Contents (Elt F)),
    StableHlo.unary main_arg2 main_v97 ((extractStridedSlice S1x100x1 ![12, 0, 0] · slices_S26x100x1_S1x100x1_12_0_0) : (⟨S26x100x1, .f32⟩ : BufTy).Contents (Elt F) → (⟨S1x100x1, .f32⟩ : BufTy).Contents (Elt F)),
    StableHlo.reshape main_v97 main_v98 rfl shapeCasts_S1x100x1_S100x1,
    StableHlo.TRef.nullary main_call24.c (constantI S_ 32 0#32),
    StableHlo.TRef.unary main_call24.c main_call24.v0 (broadcastInDim S1024x100 ![] bcast_S_S1024x100),
    StableHlo.TRef.binary (.of main_v96 : StableHlo.TRef sig ⟨S1024x100, .i32⟩) main_call24.v0 main_call24.v1 (cmpi .slt),
    StableHlo.TRef.nullary main_call24.c_0 (constantI S_ 32 100#32),
    StableHlo.TRef.unary main_call24.c_0 main_call24.v2 (broadcastInDim S1024x100 ![] bcast_S_S1024x100),
    StableHlo.TRef.binary (.of main_v96 : StableHlo.TRef sig ⟨S1024x100, .i32⟩) main_call24.v2 main_call24.v3 addi,
    StableHlo.TRef.ternary main_call24.v1 main_call24.v3 (.of main_v96 : StableHlo.TRef sig ⟨S1024x100, .i32⟩) main_call24.call0.v0 select,
    StableHlo.TRef.unary main_call24.call0.v0 main_call24.v5 (broadcastInDim S1024x100x1 ![0, 1] bcast_S1024x100_S1024x100x1_0_1),
    StableHlo.TRef.nullary main_call24.c_1 (constantI S1 32 99#32),
    StableHlo.TRef.nullary main_call24.c_2 (constantI S_ 32 0#32),
    StableHlo.TRef.unary main_call24.c_2 main_call24.v6 (broadcastInDim S1024x100x1 ![] bcast_S_S1024x100x1),
    StableHlo.TRef.binary main_call24.v5 main_call24.v6 main_call24.v7 (cmpi .sge),
    StableHlo.TRef.unary main_call24.c_1 main_call24.v8 (broadcastInDim S1x1x1 ![2] bcast_S1_S1x1x1_2),
    StableHlo.TRef.unary main_call24.v8 main_call24.v9 (broadcastInDim S1024x100x1 ![0, 1, 2] bcast_S1x1x1_S1024x100x1_0_1_2),
    StableHlo.TRef.binary main_call24.v5 main_call24.v9 main_call24.v10 (cmpi .sle),
    StableHlo.TRef.binary main_call24.v7 main_call24.v10 main_call24.v11 andi,
    StableHlo.TRef.nullary main_call24.c_3 (constantI S_ 1 1#1),
    StableHlo.TRef.binary main_call24.v11 main_call24.c_3 main_call24.v12 (fun x v => Host.reduce IntOp.andi x v reducesTo_S1024x100x1_S1024x100_d2 h_S_),
    StableHlo.TRef.binary (.of main_v98 : StableHlo.TRef sig ⟨S100x1, .f32⟩) main_call24.v5 main_call24.v13 (fun x i => Host.gather gather_S100x1_S1024x100x1_S1024x100x1_2_0_n_n_0_2_11 x i),
    StableHlo.TRef.unary main_call24.v12 main_call24.v14 (broadcastInDim S1024x100x1 ![0, 1] bcast_S1024x100_S1024x100x1_0_1),
    StableHlo.TRef.nullary main_call24.cst (constant S_ .f32 0x7FC00000#32),
    StableHlo.TRef.unary main_call24.cst main_call24.v15 (broadcastInDim S1024x100x1 ![] bcast_S_S1024x100x1),
    StableHlo.TRef.ternary main_call24.v14 main_call24.v13 main_call24.v15 main_call24.v16 select,
    StableHlo.nullary main_cst_11 (constant S_ .f32 0x00000000#32),
    StableHlo.binary main_v99 main_cst_11 main_v100 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v101 ((extractStridedSlice S1x100x32 ![12, 0, 0] · slices_S26x100x32_S1x100x32_12_0_0) : (⟨S26x100x32, .f32⟩ : BufTy).Contents (Elt F) → (⟨S1x100x32, .f32⟩ : BufTy).Contents (Elt F)),
    StableHlo.reshape main_v101 main_v102 rfl shapeCasts_S1x100x32_S100x32,
    StableHlo.TRef.nullary main_call25.c (constantI S_ 32 0#32),
    StableHlo.TRef.unary main_call25.c main_call25.v0 (broadcastInDim S1024x100 ![] bcast_S_S1024x100),
    StableHlo.TRef.binary (.of main_v96 : StableHlo.TRef sig ⟨S1024x100, .i32⟩) main_call25.v0 main_call25.v1 (cmpi .slt),
    StableHlo.TRef.nullary main_call25.c_0 (constantI S_ 32 100#32),
    StableHlo.TRef.unary main_call25.c_0 main_call25.v2 (broadcastInDim S1024x100 ![] bcast_S_S1024x100),
    StableHlo.TRef.binary (.of main_v96 : StableHlo.TRef sig ⟨S1024x100, .i32⟩) main_call25.v2 main_call25.v3 addi,
    StableHlo.TRef.ternary main_call25.v1 main_call25.v3 (.of main_v96 : StableHlo.TRef sig ⟨S1024x100, .i32⟩) main_call25.call0.v0 select,
    StableHlo.TRef.unary main_call25.call0.v0 main_call25.v5 (broadcastInDim S1024x100x1 ![0, 1] bcast_S1024x100_S1024x100x1_0_1),
    StableHlo.TRef.nullary main_call25.c_1 (constantI S1 32 99#32),
    StableHlo.TRef.nullary main_call25.c_2 (constantI S_ 32 0#32),
    StableHlo.TRef.unary main_call25.c_2 main_call25.v6 (broadcastInDim S1024x100x1 ![] bcast_S_S1024x100x1),
    StableHlo.TRef.binary main_call25.v5 main_call25.v6 main_call25.v7 (cmpi .sge),
    StableHlo.TRef.unary main_call25.c_1 main_call25.v8 (broadcastInDim S1x1x1 ![2] bcast_S1_S1x1x1_2),
    StableHlo.TRef.unary main_call25.v8 main_call25.v9 (broadcastInDim S1024x100x1 ![0, 1, 2] bcast_S1x1x1_S1024x100x1_0_1_2),
    StableHlo.TRef.binary main_call25.v5 main_call25.v9 main_call25.v10 (cmpi .sle),
    StableHlo.TRef.binary main_call25.v7 main_call25.v10 main_call25.v11 andi,
    StableHlo.TRef.nullary main_call25.c_3 (constantI S_ 1 1#1),
    StableHlo.TRef.binary main_call25.v11 main_call25.c_3 main_call25.v12 (fun x v => Host.reduce IntOp.andi x v reducesTo_S1024x100x1_S1024x100_d2 h_S_),
    StableHlo.TRef.binary (.of main_v102 : StableHlo.TRef sig ⟨S100x32, .f32⟩) main_call25.v5 main_call25.v13 (fun x i => Host.gather gather_S100x32_S1024x100x1_S1024x100x32_2_0_n_n_0_2_132 x i),
    StableHlo.TRef.unary main_call25.v12 main_call25.v14 (broadcastInDim S1024x100x32 ![0, 1] bcast_S1024x100_S1024x100x32_0_1),
    StableHlo.TRef.nullary main_call25.cst (constant S_ .f32 0x7FC00000#32),
    StableHlo.TRef.unary main_call25.cst main_call25.v15 (broadcastInDim S1024x100x32 ![] bcast_S_S1024x100x32),
    StableHlo.TRef.ternary main_call25.v14 main_call25.v13 main_call25.v15 main_call25.v16 select,
    StableHlo.unary main_arg0 main_v104 ((extractStridedSlice S1024x100 ![0, 1313] · slices_S1024x2626_S1024x100_0_1313) : (⟨S1024x2626, .i32⟩ : BufTy).Contents (Elt F) → (⟨S1024x100, .i32⟩ : BufTy).Contents (Elt F)),
    StableHlo.unary main_arg2 main_v105 ((extractStridedSlice S1x100x1 ![13, 0, 0] · slices_S26x100x1_S1x100x1_13_0_0) : (⟨S26x100x1, .f32⟩ : BufTy).Contents (Elt F) → (⟨S1x100x1, .f32⟩ : BufTy).Contents (Elt F)),
    StableHlo.reshape main_v105 main_v106 rfl shapeCasts_S1x100x1_S100x1 ]

abbrev W2 : List (HloOp τ sig (Elt F)) :=
  [ StableHlo.TRef.nullary main_call26.c (constantI S_ 32 0#32),
    StableHlo.TRef.unary main_call26.c main_call26.v0 (broadcastInDim S1024x100 ![] bcast_S_S1024x100),
    StableHlo.TRef.binary (.of main_v104 : StableHlo.TRef sig ⟨S1024x100, .i32⟩) main_call26.v0 main_call26.v1 (cmpi .slt),
    StableHlo.TRef.nullary main_call26.c_0 (constantI S_ 32 100#32),
    StableHlo.TRef.unary main_call26.c_0 main_call26.v2 (broadcastInDim S1024x100 ![] bcast_S_S1024x100),
    StableHlo.TRef.binary (.of main_v104 : StableHlo.TRef sig ⟨S1024x100, .i32⟩) main_call26.v2 main_call26.v3 addi,
    StableHlo.TRef.ternary main_call26.v1 main_call26.v3 (.of main_v104 : StableHlo.TRef sig ⟨S1024x100, .i32⟩) main_call26.call0.v0 select,
    StableHlo.TRef.unary main_call26.call0.v0 main_call26.v5 (broadcastInDim S1024x100x1 ![0, 1] bcast_S1024x100_S1024x100x1_0_1),
    StableHlo.TRef.nullary main_call26.c_1 (constantI S1 32 99#32),
    StableHlo.TRef.nullary main_call26.c_2 (constantI S_ 32 0#32),
    StableHlo.TRef.unary main_call26.c_2 main_call26.v6 (broadcastInDim S1024x100x1 ![] bcast_S_S1024x100x1),
    StableHlo.TRef.binary main_call26.v5 main_call26.v6 main_call26.v7 (cmpi .sge),
    StableHlo.TRef.unary main_call26.c_1 main_call26.v8 (broadcastInDim S1x1x1 ![2] bcast_S1_S1x1x1_2),
    StableHlo.TRef.unary main_call26.v8 main_call26.v9 (broadcastInDim S1024x100x1 ![0, 1, 2] bcast_S1x1x1_S1024x100x1_0_1_2),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S1024x100x1_S1024x100_d2 h_S_),
    StableHlo.TRef.binary (.of main_v106 : StableHlo.TRef sig ⟨S100x1, .f32⟩) main_call26.v5 main_call26.v13 (fun x i => Host.gather gather_S100x1_S1024x100x1_S1024x100x1_2_0_n_n_0_2_11 x i),
    StableHlo.TRef.unary main_call26.v12 main_call26.v14 (broadcastInDim S1024x100x1 ![0, 1] bcast_S1024x100_S1024x100x1_0_1),
    StableHlo.TRef.nullary main_call26.cst (constant S_ .f32 0x7FC00000#32),
    StableHlo.TRef.unary main_call26.cst main_call26.v15 (broadcastInDim S1024x100x1 ![] bcast_S_S1024x100x1),
    StableHlo.TRef.ternary main_call26.v14 main_call26.v13 main_call26.v15 main_call26.v16 select,
    StableHlo.nullary main_cst_12 (constant S_ .f32 0x00000000#32),
    StableHlo.binary main_v107 main_cst_12 main_v108 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v109 ((extractStridedSlice S1x100x32 ![13, 0, 0] · slices_S26x100x32_S1x100x32_13_0_0) : (⟨S26x100x32, .f32⟩ : BufTy).Contents (Elt F) → (⟨S1x100x32, .f32⟩ : BufTy).Contents (Elt F)),
    StableHlo.reshape main_v109 main_v110 rfl shapeCasts_S1x100x32_S100x32,
    StableHlo.TRef.nullary main_call27.c (constantI S_ 32 0#32),
    StableHlo.TRef.unary main_call27.c main_call27.v0 (broadcastInDim S1024x100 ![] bcast_S_S1024x100),
    StableHlo.TRef.binary (.of main_v104 : StableHlo.TRef sig ⟨S1024x100, .i32⟩) main_call27.v0 main_call27.v1 (cmpi .slt),
    StableHlo.TRef.nullary main_call27.c_0 (constantI S_ 32 100#32),
    StableHlo.TRef.unary main_call27.c_0 main_call27.v2 (broadcastInDim S1024x100 ![] bcast_S_S1024x100),
    StableHlo.TRef.binary (.of main_v104 : StableHlo.TRef sig ⟨S1024x100, .i32⟩) main_call27.v2 main_call27.v3 addi,
    StableHlo.TRef.ternary main_call27.v1 main_call27.v3 (.of main_v104 : StableHlo.TRef sig ⟨S1024x100, .i32⟩) main_call27.call0.v0 select,
    StableHlo.TRef.unary main_call27.call0.v0 main_call27.v5 (broadcastInDim S1024x100x1 ![0, 1] bcast_S1024x100_S1024x100x1_0_1),
    StableHlo.TRef.nullary main_call27.c_1 (constantI S1 32 99#32),
    StableHlo.TRef.nullary main_call27.c_2 (constantI S_ 32 0#32),
    StableHlo.TRef.unary main_call27.c_2 main_call27.v6 (broadcastInDim S1024x100x1 ![] bcast_S_S1024x100x1),
    StableHlo.TRef.binary main_call27.v5 main_call27.v6 main_call27.v7 (cmpi .sge),
    StableHlo.TRef.unary main_call27.c_1 main_call27.v8 (broadcastInDim S1x1x1 ![2] bcast_S1_S1x1x1_2),
    StableHlo.TRef.unary main_call27.v8 main_call27.v9 (broadcastInDim S1024x100x1 ![0, 1, 2] bcast_S1x1x1_S1024x100x1_0_1_2),
    StableHlo.TRef.binary main_call27.v5 main_call27.v9 main_call27.v10 (cmpi .sle),
    StableHlo.TRef.binary main_call27.v7 main_call27.v10 main_call27.v11 andi,
    StableHlo.TRef.nullary main_call27.c_3 (constantI S_ 1 1#1),
    StableHlo.TRef.binary main_call27.v11 main_call27.c_3 main_call27.v12 (fun x v => Host.reduce IntOp.andi x v reducesTo_S1024x100x1_S1024x100_d2 h_S_),
    StableHlo.TRef.binary (.of main_v110 : StableHlo.TRef sig ⟨S100x32, .f32⟩) main_call27.v5 main_call27.v13 (fun x i => Host.gather gather_S100x32_S1024x100x1_S1024x100x32_2_0_n_n_0_2_132 x i),
    StableHlo.TRef.unary main_call27.v12 main_call27.v14 (broadcastInDim S1024x100x32 ![0, 1] bcast_S1024x100_S1024x100x32_0_1),
    StableHlo.TRef.nullary main_call27.cst (constant S_ .f32 0x7FC00000#32),
    StableHlo.TRef.unary main_call27.cst main_call27.v15 (broadcastInDim S1024x100x32 ![] bcast_S_S1024x100x32),
    StableHlo.TRef.ternary main_call27.v14 main_call27.v13 main_call27.v15 main_call27.v16 select,
    StableHlo.unary main_arg0 main_v112 ((extractStridedSlice S1024x100 ![0, 1414] · slices_S1024x2626_S1024x100_0_1414) : (⟨S1024x2626, .i32⟩ : BufTy).Contents (Elt F) → (⟨S1024x100, .i32⟩ : BufTy).Contents (Elt F)),
    StableHlo.unary main_arg2 main_v113 ((extractStridedSlice S1x100x1 ![14, 0, 0] · slices_S26x100x1_S1x100x1_14_0_0) : (⟨S26x100x1, .f32⟩ : BufTy).Contents (Elt F) → (⟨S1x100x1, .f32⟩ : BufTy).Contents (Elt F)),
    StableHlo.reshape main_v113 main_v114 rfl shapeCasts_S1x100x1_S100x1,
    StableHlo.TRef.nullary main_call28.c (constantI S_ 32 0#32),
    StableHlo.TRef.unary main_call28.c main_call28.v0 (broadcastInDim S1024x100 ![] bcast_S_S1024x100),
    StableHlo.TRef.binary (.of main_v112 : StableHlo.TRef sig ⟨S1024x100, .i32⟩) main_call28.v0 main_call28.v1 (cmpi .slt),
    StableHlo.TRef.nullary main_call28.c_0 (constantI S_ 32 100#32),
    StableHlo.TRef.unary main_call28.c_0 main_call28.v2 (broadcastInDim S1024x100 ![] bcast_S_S1024x100),
    StableHlo.TRef.binary (.of main_v112 : StableHlo.TRef sig ⟨S1024x100, .i32⟩) main_call28.v2 main_call28.v3 addi,
    StableHlo.TRef.ternary main_call28.v1 main_call28.v3 (.of main_v112 : StableHlo.TRef sig ⟨S1024x100, .i32⟩) main_call28.call0.v0 select,
    StableHlo.TRef.unary main_call28.call0.v0 main_call28.v5 (broadcastInDim S1024x100x1 ![0, 1] bcast_S1024x100_S1024x100x1_0_1),
    StableHlo.TRef.nullary main_call28.c_1 (constantI S1 32 99#32),
    StableHlo.TRef.nullary main_call28.c_2 (constantI S_ 32 0#32),
    StableHlo.TRef.unary main_call28.c_2 main_call28.v6 (broadcastInDim S1024x100x1 ![] bcast_S_S1024x100x1),
    StableHlo.TRef.binary main_call28.v5 main_call28.v6 main_call28.v7 (cmpi .sge),
    StableHlo.TRef.unary main_call28.c_1 main_call28.v8 (broadcastInDim S1x1x1 ![2] bcast_S1_S1x1x1_2),
    StableHlo.TRef.unary main_call28.v8 main_call28.v9 (broadcastInDim S1024x100x1 ![0, 1, 2] bcast_S1x1x1_S1024x100x1_0_1_2),
    StableHlo.TRef.binary main_call28.v5 main_call28.v9 main_call28.v10 (cmpi .sle),
    StableHlo.TRef.binary main_call28.v7 main_call28.v10 main_call28.v11 andi,
    StableHlo.TRef.nullary main_call28.c_3 (constantI S_ 1 1#1),
    StableHlo.TRef.binary main_call28.v11 main_call28.c_3 main_call28.v12 (fun x v => Host.reduce IntOp.andi x v reducesTo_S1024x100x1_S1024x100_d2 h_S_),
    StableHlo.TRef.binary (.of main_v114 : StableHlo.TRef sig ⟨S100x1, .f32⟩) main_call28.v5 main_call28.v13 (fun x i => Host.gather gather_S100x1_S1024x100x1_S1024x100x1_2_0_n_n_0_2_11 x i),
    StableHlo.TRef.unary main_call28.v12 main_call28.v14 (broadcastInDim S1024x100x1 ![0, 1] bcast_S1024x100_S1024x100x1_0_1),
    StableHlo.TRef.nullary main_call28.cst (constant S_ .f32 0x7FC00000#32),
    StableHlo.TRef.unary main_call28.cst main_call28.v15 (broadcastInDim S1024x100x1 ![] bcast_S_S1024x100x1),
    StableHlo.TRef.ternary main_call28.v14 main_call28.v13 main_call28.v15 main_call28.v16 select,
    StableHlo.nullary main_cst_13 (constant S_ .f32 0x00000000#32),
    StableHlo.binary main_v115 main_cst_13 main_v116 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v117 ((extractStridedSlice S1x100x32 ![14, 0, 0] · slices_S26x100x32_S1x100x32_14_0_0) : (⟨S26x100x32, .f32⟩ : BufTy).Contents (Elt F) → (⟨S1x100x32, .f32⟩ : BufTy).Contents (Elt F)),
    StableHlo.reshape main_v117 main_v118 rfl shapeCasts_S1x100x32_S100x32,
    StableHlo.TRef.nullary main_call29.c (constantI S_ 32 0#32),
    StableHlo.TRef.unary main_call29.c main_call29.v0 (broadcastInDim S1024x100 ![] bcast_S_S1024x100),
    StableHlo.TRef.binary (.of main_v112 : StableHlo.TRef sig ⟨S1024x100, .i32⟩) main_call29.v0 main_call29.v1 (cmpi .slt),
    StableHlo.TRef.nullary main_call29.c_0 (constantI S_ 32 100#32),
    StableHlo.TRef.unary main_call29.c_0 main_call29.v2 (broadcastInDim S1024x100 ![] bcast_S_S1024x100),
    StableHlo.TRef.binary (.of main_v112 : StableHlo.TRef sig ⟨S1024x100, .i32⟩) main_call29.v2 main_call29.v3 addi,
    StableHlo.TRef.ternary main_call29.v1 main_call29.v3 (.of main_v112 : StableHlo.TRef sig ⟨S1024x100, .i32⟩) main_call29.call0.v0 select,
    StableHlo.TRef.unary main_call29.call0.v0 main_call29.v5 (broadcastInDim S1024x100x1 ![0, 1] bcast_S1024x100_S1024x100x1_0_1),
    StableHlo.TRef.nullary main_call29.c_1 (constantI S1 32 99#32),
    StableHlo.TRef.nullary main_call29.c_2 (constantI S_ 32 0#32),
    StableHlo.TRef.unary main_call29.c_2 main_call29.v6 (broadcastInDim S1024x100x1 ![] bcast_S_S1024x100x1),
    StableHlo.TRef.binary main_call29.v5 main_call29.v6 main_call29.v7 (cmpi .sge),
    StableHlo.TRef.unary main_call29.c_1 main_call29.v8 (broadcastInDim S1x1x1 ![2] bcast_S1_S1x1x1_2),
    StableHlo.TRef.unary main_call29.v8 main_call29.v9 (broadcastInDim S1024x100x1 ![0, 1, 2] bcast_S1x1x1_S1024x100x1_0_1_2),
    StableHlo.TRef.binary main_call29.v5 main_call29.v9 main_call29.v10 (cmpi .sle),
    StableHlo.TRef.binary main_call29.v7 main_call29.v10 main_call29.v11 andi,
    StableHlo.TRef.nullary main_call29.c_3 (constantI S_ 1 1#1),
    StableHlo.TRef.binary main_call29.v11 main_call29.c_3 main_call29.v12 (fun x v => Host.reduce IntOp.andi x v reducesTo_S1024x100x1_S1024x100_d2 h_S_),
    StableHlo.TRef.binary (.of main_v118 : StableHlo.TRef sig ⟨S100x32, .f32⟩) main_call29.v5 main_call29.v13 (fun x i => Host.gather gather_S100x32_S1024x100x1_S1024x100x32_2_0_n_n_0_2_132 x i),
    StableHlo.TRef.unary main_call29.v12 main_call29.v14 (broadcastInDim S1024x100x32 ![0, 1] bcast_S1024x100_S1024x100x32_0_1),
    StableHlo.TRef.nullary main_call29.cst (constant S_ .f32 0x7FC00000#32),
    StableHlo.TRef.unary main_call29.cst main_call29.v15 (broadcastInDim S1024x100x32 ![] bcast_S_S1024x100x32),
    StableHlo.TRef.ternary main_call29.v14 main_call29.v13 main_call29.v15 main_call29.v16 select,
    StableHlo.unary main_arg0 main_v120 ((extractStridedSlice S1024x100 ![0, 1515] · slices_S1024x2626_S1024x100_0_1515) : (⟨S1024x2626, .i32⟩ : BufTy).Contents (Elt F) → (⟨S1024x100, .i32⟩ : BufTy).Contents (Elt F)),
    StableHlo.unary main_arg2 main_v121 ((extractStridedSlice S1x100x1 ![15, 0, 0] · slices_S26x100x1_S1x100x1_15_0_0) : (⟨S26x100x1, .f32⟩ : BufTy).Contents (Elt F) → (⟨S1x100x1, .f32⟩ : BufTy).Contents (Elt F)),
    StableHlo.reshape main_v121 main_v122 rfl shapeCasts_S1x100x1_S100x1,
    StableHlo.TRef.nullary main_call30.c (constantI S_ 32 0#32),
    StableHlo.TRef.unary main_call30.c main_call30.v0 (broadcastInDim S1024x100 ![] bcast_S_S1024x100),
    StableHlo.TRef.binary (.of main_v120 : StableHlo.TRef sig ⟨S1024x100, .i32⟩) main_call30.v0 main_call30.v1 (cmpi .slt),
    StableHlo.TRef.nullary main_call30.c_0 (constantI S_ 32 100#32),
    StableHlo.TRef.unary main_call30.c_0 main_call30.v2 (broadcastInDim S1024x100 ![] bcast_S_S1024x100),
    StableHlo.TRef.binary (.of main_v120 : StableHlo.TRef sig ⟨S1024x100, .i32⟩) main_call30.v2 main_call30.v3 addi,
    StableHlo.TRef.ternary main_call30.v1 main_call30.v3 (.of main_v120 : StableHlo.TRef sig ⟨S1024x100, .i32⟩) main_call30.call0.v0 select,
    StableHlo.TRef.unary main_call30.call0.v0 main_call30.v5 (broadcastInDim S1024x100x1 ![0, 1] bcast_S1024x100_S1024x100x1_0_1),
    StableHlo.TRef.nullary main_call30.c_1 (constantI S1 32 99#32),
    StableHlo.TRef.nullary main_call30.c_2 (constantI S_ 32 0#32),
    StableHlo.TRef.unary main_call30.c_2 main_call30.v6 (broadcastInDim S1024x100x1 ![] bcast_S_S1024x100x1),
    StableHlo.TRef.binary main_call30.v5 main_call30.v6 main_call30.v7 (cmpi .sge),
    StableHlo.TRef.unary main_call30.c_1 main_call30.v8 (broadcastInDim S1x1x1 ![2] bcast_S1_S1x1x1_2),
    StableHlo.TRef.unary main_call30.v8 main_call30.v9 (broadcastInDim S1024x100x1 ![0, 1, 2] bcast_S1x1x1_S1024x100x1_0_1_2),
    StableHlo.TRef.binary main_call30.v5 main_call30.v9 main_call30.v10 (cmpi .sle),
    StableHlo.TRef.binary main_call30.v7 main_call30.v10 main_call30.v11 andi,
    StableHlo.TRef.nullary main_call30.c_3 (constantI S_ 1 1#1),
    StableHlo.TRef.binary main_call30.v11 main_call30.c_3 main_call30.v12 (fun x v => Host.reduce IntOp.andi x v reducesTo_S1024x100x1_S1024x100_d2 h_S_),
    StableHlo.TRef.binary (.of main_v122 : StableHlo.TRef sig ⟨S100x1, .f32⟩) main_call30.v5 main_call30.v13 (fun x i => Host.gather gather_S100x1_S1024x100x1_S1024x100x1_2_0_n_n_0_2_11 x i),
    StableHlo.TRef.unary main_call30.v12 main_call30.v14 (broadcastInDim S1024x100x1 ![0, 1] bcast_S1024x100_S1024x100x1_0_1),
    StableHlo.TRef.nullary main_call30.cst (constant S_ .f32 0x7FC00000#32),
    StableHlo.TRef.unary main_call30.cst main_call30.v15 (broadcastInDim S1024x100x1 ![] bcast_S_S1024x100x1),
    StableHlo.TRef.ternary main_call30.v14 main_call30.v13 main_call30.v15 main_call30.v16 select,
    StableHlo.nullary main_cst_14 (constant S_ .f32 0x00000000#32),
    StableHlo.binary main_v123 main_cst_14 main_v124 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v125 ((extractStridedSlice S1x100x32 ![15, 0, 0] · slices_S26x100x32_S1x100x32_15_0_0) : (⟨S26x100x32, .f32⟩ : BufTy).Contents (Elt F) → (⟨S1x100x32, .f32⟩ : BufTy).Contents (Elt F)),
    StableHlo.reshape main_v125 main_v126 rfl shapeCasts_S1x100x32_S100x32,
    StableHlo.TRef.nullary main_call31.c (constantI S_ 32 0#32),
    StableHlo.TRef.unary main_call31.c main_call31.v0 (broadcastInDim S1024x100 ![] bcast_S_S1024x100),
    StableHlo.TRef.binary (.of main_v120 : StableHlo.TRef sig ⟨S1024x100, .i32⟩) main_call31.v0 main_call31.v1 (cmpi .slt),
    StableHlo.TRef.nullary main_call31.c_0 (constantI S_ 32 100#32),
    StableHlo.TRef.unary main_call31.c_0 main_call31.v2 (broadcastInDim S1024x100 ![] bcast_S_S1024x100),
    StableHlo.TRef.binary (.of main_v120 : StableHlo.TRef sig ⟨S1024x100, .i32⟩) main_call31.v2 main_call31.v3 addi,
    StableHlo.TRef.ternary main_call31.v1 main_call31.v3 (.of main_v120 : StableHlo.TRef sig ⟨S1024x100, .i32⟩) main_call31.call0.v0 select,
    StableHlo.TRef.unary main_call31.call0.v0 main_call31.v5 (broadcastInDim S1024x100x1 ![0, 1] bcast_S1024x100_S1024x100x1_0_1),
    StableHlo.TRef.nullary main_call31.c_1 (constantI S1 32 99#32),
    StableHlo.TRef.nullary main_call31.c_2 (constantI S_ 32 0#32),
    StableHlo.TRef.unary main_call31.c_2 main_call31.v6 (broadcastInDim S1024x100x1 ![] bcast_S_S1024x100x1),
    StableHlo.TRef.binary main_call31.v5 main_call31.v6 main_call31.v7 (cmpi .sge),
    StableHlo.TRef.unary main_call31.c_1 main_call31.v8 (broadcastInDim S1x1x1 ![2] bcast_S1_S1x1x1_2),
    StableHlo.TRef.unary main_call31.v8 main_call31.v9 (broadcastInDim S1024x100x1 ![0, 1, 2] bcast_S1x1x1_S1024x100x1_0_1_2),
    StableHlo.TRef.binary main_call31.v5 main_call31.v9 main_call31.v10 (cmpi .sle),
    StableHlo.TRef.binary main_call31.v7 main_call31.v10 main_call31.v11 andi,
    StableHlo.TRef.nullary main_call31.c_3 (constantI S_ 1 1#1),
    StableHlo.TRef.binary main_call31.v11 main_call31.c_3 main_call31.v12 (fun x v => Host.reduce IntOp.andi x v reducesTo_S1024x100x1_S1024x100_d2 h_S_),
    StableHlo.TRef.binary (.of main_v126 : StableHlo.TRef sig ⟨S100x32, .f32⟩) main_call31.v5 main_call31.v13 (fun x i => Host.gather gather_S100x32_S1024x100x1_S1024x100x32_2_0_n_n_0_2_132 x i),
    StableHlo.TRef.unary main_call31.v12 main_call31.v14 (broadcastInDim S1024x100x32 ![0, 1] bcast_S1024x100_S1024x100x32_0_1),
    StableHlo.TRef.nullary main_call31.cst (constant S_ .f32 0x7FC00000#32),
    StableHlo.TRef.unary main_call31.cst main_call31.v15 (broadcastInDim S1024x100x32 ![] bcast_S_S1024x100x32),
    StableHlo.TRef.ternary main_call31.v14 main_call31.v13 main_call31.v15 main_call31.v16 select,
    StableHlo.unary main_arg0 main_v128 ((extractStridedSlice S1024x100 ![0, 1616] · slices_S1024x2626_S1024x100_0_1616) : (⟨S1024x2626, .i32⟩ : BufTy).Contents (Elt F) → (⟨S1024x100, .i32⟩ : BufTy).Contents (Elt F)),
    StableHlo.unary main_arg2 main_v129 ((extractStridedSlice S1x100x1 ![16, 0, 0] · slices_S26x100x1_S1x100x1_16_0_0) : (⟨S26x100x1, .f32⟩ : BufTy).Contents (Elt F) → (⟨S1x100x1, .f32⟩ : BufTy).Contents (Elt F)),
    StableHlo.reshape main_v129 main_v130 rfl shapeCasts_S1x100x1_S100x1,
    StableHlo.TRef.nullary main_call32.c (constantI S_ 32 0#32),
    StableHlo.TRef.unary main_call32.c main_call32.v0 (broadcastInDim S1024x100 ![] bcast_S_S1024x100),
    StableHlo.TRef.binary (.of main_v128 : StableHlo.TRef sig ⟨S1024x100, .i32⟩) main_call32.v0 main_call32.v1 (cmpi .slt),
    StableHlo.TRef.nullary main_call32.c_0 (constantI S_ 32 100#32),
    StableHlo.TRef.unary main_call32.c_0 main_call32.v2 (broadcastInDim S1024x100 ![] bcast_S_S1024x100),
    StableHlo.TRef.binary (.of main_v128 : StableHlo.TRef sig ⟨S1024x100, .i32⟩) main_call32.v2 main_call32.v3 addi,
    StableHlo.TRef.ternary main_call32.v1 main_call32.v3 (.of main_v128 : StableHlo.TRef sig ⟨S1024x100, .i32⟩) main_call32.call0.v0 select,
    StableHlo.TRef.unary main_call32.call0.v0 main_call32.v5 (broadcastInDim S1024x100x1 ![0, 1] bcast_S1024x100_S1024x100x1_0_1),
    StableHlo.TRef.nullary main_call32.c_1 (constantI S1 32 99#32),
    StableHlo.TRef.nullary main_call32.c_2 (constantI S_ 32 0#32),
    StableHlo.TRef.unary main_call32.c_2 main_call32.v6 (broadcastInDim S1024x100x1 ![] bcast_S_S1024x100x1),
    StableHlo.TRef.binary main_call32.v5 main_call32.v6 main_call32.v7 (cmpi .sge),
    StableHlo.TRef.unary main_call32.c_1 main_call32.v8 (broadcastInDim S1x1x1 ![2] bcast_S1_S1x1x1_2),
    StableHlo.TRef.unary main_call32.v8 main_call32.v9 (broadcastInDim S1024x100x1 ![0, 1, 2] bcast_S1x1x1_S1024x100x1_0_1_2),
    StableHlo.TRef.binary main_call32.v5 main_call32.v9 main_call32.v10 (cmpi .sle),
    StableHlo.TRef.binary main_call32.v7 main_call32.v10 main_call32.v11 andi,
    StableHlo.TRef.nullary main_call32.c_3 (constantI S_ 1 1#1),
    StableHlo.TRef.binary main_call32.v11 main_call32.c_3 main_call32.v12 (fun x v => Host.reduce IntOp.andi x v reducesTo_S1024x100x1_S1024x100_d2 h_S_),
    StableHlo.TRef.binary (.of main_v130 : StableHlo.TRef sig ⟨S100x1, .f32⟩) main_call32.v5 main_call32.v13 (fun x i => Host.gather gather_S100x1_S1024x100x1_S1024x100x1_2_0_n_n_0_2_11 x i),
    StableHlo.TRef.unary main_call32.v12 main_call32.v14 (broadcastInDim S1024x100x1 ![0, 1] bcast_S1024x100_S1024x100x1_0_1),
    StableHlo.TRef.nullary main_call32.cst (constant S_ .f32 0x7FC00000#32),
    StableHlo.TRef.unary main_call32.cst main_call32.v15 (broadcastInDim S1024x100x1 ![] bcast_S_S1024x100x1),
    StableHlo.TRef.ternary main_call32.v14 main_call32.v13 main_call32.v15 main_call32.v16 select,
    StableHlo.nullary main_cst_15 (constant S_ .f32 0x00000000#32),
    StableHlo.binary main_v131 main_cst_15 main_v132 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v133 ((extractStridedSlice S1x100x32 ![16, 0, 0] · slices_S26x100x32_S1x100x32_16_0_0) : (⟨S26x100x32, .f32⟩ : BufTy).Contents (Elt F) → (⟨S1x100x32, .f32⟩ : BufTy).Contents (Elt F)),
    StableHlo.reshape main_v133 main_v134 rfl shapeCasts_S1x100x32_S100x32,
    StableHlo.TRef.nullary main_call33.c (constantI S_ 32 0#32),
    StableHlo.TRef.unary main_call33.c main_call33.v0 (broadcastInDim S1024x100 ![] bcast_S_S1024x100),
    StableHlo.TRef.binary (.of main_v128 : StableHlo.TRef sig ⟨S1024x100, .i32⟩) main_call33.v0 main_call33.v1 (cmpi .slt),
    StableHlo.TRef.nullary main_call33.c_0 (constantI S_ 32 100#32),
    StableHlo.TRef.unary main_call33.c_0 main_call33.v2 (broadcastInDim S1024x100 ![] bcast_S_S1024x100),
    StableHlo.TRef.binary (.of main_v128 : StableHlo.TRef sig ⟨S1024x100, .i32⟩) main_call33.v2 main_call33.v3 addi,
    StableHlo.TRef.ternary main_call33.v1 main_call33.v3 (.of main_v128 : StableHlo.TRef sig ⟨S1024x100, .i32⟩) main_call33.call0.v0 select,
    StableHlo.TRef.unary main_call33.call0.v0 main_call33.v5 (broadcastInDim S1024x100x1 ![0, 1] bcast_S1024x100_S1024x100x1_0_1),
    StableHlo.TRef.nullary main_call33.c_1 (constantI S1 32 99#32),
    StableHlo.TRef.nullary main_call33.c_2 (constantI S_ 32 0#32),
    StableHlo.TRef.unary main_call33.c_2 main_call33.v6 (broadcastInDim S1024x100x1 ![] bcast_S_S1024x100x1),
    StableHlo.TRef.binary main_call33.v5 main_call33.v6 main_call33.v7 (cmpi .sge),
    StableHlo.TRef.unary main_call33.c_1 main_call33.v8 (broadcastInDim S1x1x1 ![2] bcast_S1_S1x1x1_2),
    StableHlo.TRef.unary main_call33.v8 main_call33.v9 (broadcastInDim S1024x100x1 ![0, 1, 2] bcast_S1x1x1_S1024x100x1_0_1_2),
    StableHlo.TRef.binary main_call33.v5 main_call33.v9 main_call33.v10 (cmpi .sle),
    StableHlo.TRef.binary main_call33.v7 main_call33.v10 main_call33.v11 andi,
    StableHlo.TRef.nullary main_call33.c_3 (constantI S_ 1 1#1),
    StableHlo.TRef.binary main_call33.v11 main_call33.c_3 main_call33.v12 (fun x v => Host.reduce IntOp.andi x v reducesTo_S1024x100x1_S1024x100_d2 h_S_),
    StableHlo.TRef.binary (.of main_v134 : StableHlo.TRef sig ⟨S100x32, .f32⟩) main_call33.v5 main_call33.v13 (fun x i => Host.gather gather_S100x32_S1024x100x1_S1024x100x32_2_0_n_n_0_2_132 x i),
    StableHlo.TRef.unary main_call33.v12 main_call33.v14 (broadcastInDim S1024x100x32 ![0, 1] bcast_S1024x100_S1024x100x32_0_1),
    StableHlo.TRef.nullary main_call33.cst (constant S_ .f32 0x7FC00000#32),
    StableHlo.TRef.unary main_call33.cst main_call33.v15 (broadcastInDim S1024x100x32 ![] bcast_S_S1024x100x32),
    StableHlo.TRef.ternary main_call33.v14 main_call33.v13 main_call33.v15 main_call33.v16 select,
    StableHlo.unary main_arg0 main_v136 ((extractStridedSlice S1024x100 ![0, 1717] · slices_S1024x2626_S1024x100_0_1717) : (⟨S1024x2626, .i32⟩ : BufTy).Contents (Elt F) → (⟨S1024x100, .i32⟩ : BufTy).Contents (Elt F)),
    StableHlo.unary main_arg2 main_v137 ((extractStridedSlice S1x100x1 ![17, 0, 0] · slices_S26x100x1_S1x100x1_17_0_0) : (⟨S26x100x1, .f32⟩ : BufTy).Contents (Elt F) → (⟨S1x100x1, .f32⟩ : BufTy).Contents (Elt F)),
    StableHlo.reshape main_v137 main_v138 rfl shapeCasts_S1x100x1_S100x1,
    StableHlo.TRef.nullary main_call34.c (constantI S_ 32 0#32),
    StableHlo.TRef.unary main_call34.c main_call34.v0 (broadcastInDim S1024x100 ![] bcast_S_S1024x100),
    StableHlo.TRef.binary (.of main_v136 : StableHlo.TRef sig ⟨S1024x100, .i32⟩) main_call34.v0 main_call34.v1 (cmpi .slt),
    StableHlo.TRef.nullary main_call34.c_0 (constantI S_ 32 100#32),
    StableHlo.TRef.unary main_call34.c_0 main_call34.v2 (broadcastInDim S1024x100 ![] bcast_S_S1024x100),
    StableHlo.TRef.binary (.of main_v136 : StableHlo.TRef sig ⟨S1024x100, .i32⟩) main_call34.v2 main_call34.v3 addi,
    StableHlo.TRef.ternary main_call34.v1 main_call34.v3 (.of main_v136 : StableHlo.TRef sig ⟨S1024x100, .i32⟩) main_call34.call0.v0 select,
    StableHlo.TRef.unary main_call34.call0.v0 main_call34.v5 (broadcastInDim S1024x100x1 ![0, 1] bcast_S1024x100_S1024x100x1_0_1),
    StableHlo.TRef.nullary main_call34.c_1 (constantI S1 32 99#32),
    StableHlo.TRef.nullary main_call34.c_2 (constantI S_ 32 0#32),
    StableHlo.TRef.unary main_call34.c_2 main_call34.v6 (broadcastInDim S1024x100x1 ![] bcast_S_S1024x100x1),
    StableHlo.TRef.binary main_call34.v5 main_call34.v6 main_call34.v7 (cmpi .sge),
    StableHlo.TRef.unary main_call34.c_1 main_call34.v8 (broadcastInDim S1x1x1 ![2] bcast_S1_S1x1x1_2),
    StableHlo.TRef.unary main_call34.v8 main_call34.v9 (broadcastInDim S1024x100x1 ![0, 1, 2] bcast_S1x1x1_S1024x100x1_0_1_2),
    StableHlo.TRef.binary main_call34.v5 main_call34.v9 main_call34.v10 (cmpi .sle),
    StableHlo.TRef.binary main_call34.v7 main_call34.v10 main_call34.v11 andi,
    StableHlo.TRef.nullary main_call34.c_3 (constantI S_ 1 1#1),
    StableHlo.TRef.binary main_call34.v11 main_call34.c_3 main_call34.v12 (fun x v => Host.reduce IntOp.andi x v reducesTo_S1024x100x1_S1024x100_d2 h_S_),
    StableHlo.TRef.binary (.of main_v138 : StableHlo.TRef sig ⟨S100x1, .f32⟩) main_call34.v5 main_call34.v13 (fun x i => Host.gather gather_S100x1_S1024x100x1_S1024x100x1_2_0_n_n_0_2_11 x i),
    StableHlo.TRef.unary main_call34.v12 main_call34.v14 (broadcastInDim S1024x100x1 ![0, 1] bcast_S1024x100_S1024x100x1_0_1),
    StableHlo.TRef.nullary main_call34.cst (constant S_ .f32 0x7FC00000#32),
    StableHlo.TRef.unary main_call34.cst main_call34.v15 (broadcastInDim S1024x100x1 ![] bcast_S_S1024x100x1),
    StableHlo.TRef.ternary main_call34.v14 main_call34.v13 main_call34.v15 main_call34.v16 select,
    StableHlo.nullary main_cst_16 (constant S_ .f32 0x00000000#32),
    StableHlo.binary main_v139 main_cst_16 main_v140 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v141 ((extractStridedSlice S1x100x32 ![17, 0, 0] · slices_S26x100x32_S1x100x32_17_0_0) : (⟨S26x100x32, .f32⟩ : BufTy).Contents (Elt F) → (⟨S1x100x32, .f32⟩ : BufTy).Contents (Elt F)),
    StableHlo.reshape main_v141 main_v142 rfl shapeCasts_S1x100x32_S100x32,
    StableHlo.TRef.nullary main_call35.c (constantI S_ 32 0#32),
    StableHlo.TRef.unary main_call35.c main_call35.v0 (broadcastInDim S1024x100 ![] bcast_S_S1024x100),
    StableHlo.TRef.binary (.of main_v136 : StableHlo.TRef sig ⟨S1024x100, .i32⟩) main_call35.v0 main_call35.v1 (cmpi .slt),
    StableHlo.TRef.nullary main_call35.c_0 (constantI S_ 32 100#32),
    StableHlo.TRef.unary main_call35.c_0 main_call35.v2 (broadcastInDim S1024x100 ![] bcast_S_S1024x100),
    StableHlo.TRef.binary (.of main_v136 : StableHlo.TRef sig ⟨S1024x100, .i32⟩) main_call35.v2 main_call35.v3 addi,
    StableHlo.TRef.ternary main_call35.v1 main_call35.v3 (.of main_v136 : StableHlo.TRef sig ⟨S1024x100, .i32⟩) main_call35.call0.v0 select,
    StableHlo.TRef.unary main_call35.call0.v0 main_call35.v5 (broadcastInDim S1024x100x1 ![0, 1] bcast_S1024x100_S1024x100x1_0_1),
    StableHlo.TRef.nullary main_call35.c_1 (constantI S1 32 99#32),
    StableHlo.TRef.nullary main_call35.c_2 (constantI S_ 32 0#32),
    StableHlo.TRef.unary main_call35.c_2 main_call35.v6 (broadcastInDim S1024x100x1 ![] bcast_S_S1024x100x1),
    StableHlo.TRef.binary main_call35.v5 main_call35.v6 main_call35.v7 (cmpi .sge),
    StableHlo.TRef.unary main_call35.c_1 main_call35.v8 (broadcastInDim S1x1x1 ![2] bcast_S1_S1x1x1_2),
    StableHlo.TRef.unary main_call35.v8 main_call35.v9 (broadcastInDim S1024x100x1 ![0, 1, 2] bcast_S1x1x1_S1024x100x1_0_1_2),
    StableHlo.TRef.binary main_call35.v5 main_call35.v9 main_call35.v10 (cmpi .sle),
    StableHlo.TRef.binary main_call35.v7 main_call35.v10 main_call35.v11 andi,
    StableHlo.TRef.nullary main_call35.c_3 (constantI S_ 1 1#1),
    StableHlo.TRef.binary main_call35.v11 main_call35.c_3 main_call35.v12 (fun x v => Host.reduce IntOp.andi x v reducesTo_S1024x100x1_S1024x100_d2 h_S_),
    StableHlo.TRef.binary (.of main_v142 : StableHlo.TRef sig ⟨S100x32, .f32⟩) main_call35.v5 main_call35.v13 (fun x i => Host.gather gather_S100x32_S1024x100x1_S1024x100x32_2_0_n_n_0_2_132 x i),
    StableHlo.TRef.unary main_call35.v12 main_call35.v14 (broadcastInDim S1024x100x32 ![0, 1] bcast_S1024x100_S1024x100x32_0_1),
    StableHlo.TRef.nullary main_call35.cst (constant S_ .f32 0x7FC00000#32),
    StableHlo.TRef.unary main_call35.cst main_call35.v15 (broadcastInDim S1024x100x32 ![] bcast_S_S1024x100x32),
    StableHlo.TRef.ternary main_call35.v14 main_call35.v13 main_call35.v15 main_call35.v16 select,
    StableHlo.unary main_arg0 main_v144 ((extractStridedSlice S1024x100 ![0, 1818] · slices_S1024x2626_S1024x100_0_1818) : (⟨S1024x2626, .i32⟩ : BufTy).Contents (Elt F) → (⟨S1024x100, .i32⟩ : BufTy).Contents (Elt F)),
    StableHlo.unary main_arg2 main_v145 ((extractStridedSlice S1x100x1 ![18, 0, 0] · slices_S26x100x1_S1x100x1_18_0_0) : (⟨S26x100x1, .f32⟩ : BufTy).Contents (Elt F) → (⟨S1x100x1, .f32⟩ : BufTy).Contents (Elt F)),
    StableHlo.reshape main_v145 main_v146 rfl shapeCasts_S1x100x1_S100x1,
    StableHlo.TRef.nullary main_call36.c (constantI S_ 32 0#32),
    StableHlo.TRef.unary main_call36.c main_call36.v0 (broadcastInDim S1024x100 ![] bcast_S_S1024x100),
    StableHlo.TRef.binary (.of main_v144 : StableHlo.TRef sig ⟨S1024x100, .i32⟩) main_call36.v0 main_call36.v1 (cmpi .slt),
    StableHlo.TRef.nullary main_call36.c_0 (constantI S_ 32 100#32),
    StableHlo.TRef.unary main_call36.c_0 main_call36.v2 (broadcastInDim S1024x100 ![] bcast_S_S1024x100),
    StableHlo.TRef.binary (.of main_v144 : StableHlo.TRef sig ⟨S1024x100, .i32⟩) main_call36.v2 main_call36.v3 addi,
    StableHlo.TRef.ternary main_call36.v1 main_call36.v3 (.of main_v144 : StableHlo.TRef sig ⟨S1024x100, .i32⟩) main_call36.call0.v0 select,
    StableHlo.TRef.unary main_call36.call0.v0 main_call36.v5 (broadcastInDim S1024x100x1 ![0, 1] bcast_S1024x100_S1024x100x1_0_1),
    StableHlo.TRef.nullary main_call36.c_1 (constantI S1 32 99#32),
    StableHlo.TRef.nullary main_call36.c_2 (constantI S_ 32 0#32),
    StableHlo.TRef.unary main_call36.c_2 main_call36.v6 (broadcastInDim S1024x100x1 ![] bcast_S_S1024x100x1),
    StableHlo.TRef.binary main_call36.v5 main_call36.v6 main_call36.v7 (cmpi .sge),
    StableHlo.TRef.unary main_call36.c_1 main_call36.v8 (broadcastInDim S1x1x1 ![2] bcast_S1_S1x1x1_2),
    StableHlo.TRef.unary main_call36.v8 main_call36.v9 (broadcastInDim S1024x100x1 ![0, 1, 2] bcast_S1x1x1_S1024x100x1_0_1_2),
    StableHlo.TRef.binary main_call36.v5 main_call36.v9 main_call36.v10 (cmpi .sle),
    StableHlo.TRef.binary main_call36.v7 main_call36.v10 main_call36.v11 andi,
    StableHlo.TRef.nullary main_call36.c_3 (constantI S_ 1 1#1),
    StableHlo.TRef.binary main_call36.v11 main_call36.c_3 main_call36.v12 (fun x v => Host.reduce IntOp.andi x v reducesTo_S1024x100x1_S1024x100_d2 h_S_),
    StableHlo.TRef.binary (.of main_v146 : StableHlo.TRef sig ⟨S100x1, .f32⟩) main_call36.v5 main_call36.v13 (fun x i => Host.gather gather_S100x1_S1024x100x1_S1024x100x1_2_0_n_n_0_2_11 x i),
    StableHlo.TRef.unary main_call36.v12 main_call36.v14 (broadcastInDim S1024x100x1 ![0, 1] bcast_S1024x100_S1024x100x1_0_1),
    StableHlo.TRef.nullary main_call36.cst (constant S_ .f32 0x7FC00000#32),
    StableHlo.TRef.unary main_call36.cst main_call36.v15 (broadcastInDim S1024x100x1 ![] bcast_S_S1024x100x1),
    StableHlo.TRef.ternary main_call36.v14 main_call36.v13 main_call36.v15 main_call36.v16 select,
    StableHlo.nullary main_cst_17 (constant S_ .f32 0x00000000#32),
    StableHlo.binary main_v147 main_cst_17 main_v148 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v149 ((extractStridedSlice S1x100x32 ![18, 0, 0] · slices_S26x100x32_S1x100x32_18_0_0) : (⟨S26x100x32, .f32⟩ : BufTy).Contents (Elt F) → (⟨S1x100x32, .f32⟩ : BufTy).Contents (Elt F)),
    StableHlo.reshape main_v149 main_v150 rfl shapeCasts_S1x100x32_S100x32,
    StableHlo.TRef.nullary main_call37.c (constantI S_ 32 0#32),
    StableHlo.TRef.unary main_call37.c main_call37.v0 (broadcastInDim S1024x100 ![] bcast_S_S1024x100),
    StableHlo.TRef.binary (.of main_v144 : StableHlo.TRef sig ⟨S1024x100, .i32⟩) main_call37.v0 main_call37.v1 (cmpi .slt),
    StableHlo.TRef.nullary main_call37.c_0 (constantI S_ 32 100#32),
    StableHlo.TRef.unary main_call37.c_0 main_call37.v2 (broadcastInDim S1024x100 ![] bcast_S_S1024x100),
    StableHlo.TRef.binary (.of main_v144 : StableHlo.TRef sig ⟨S1024x100, .i32⟩) main_call37.v2 main_call37.v3 addi,
    StableHlo.TRef.ternary main_call37.v1 main_call37.v3 (.of main_v144 : StableHlo.TRef sig ⟨S1024x100, .i32⟩) main_call37.call0.v0 select,
    StableHlo.TRef.unary main_call37.call0.v0 main_call37.v5 (broadcastInDim S1024x100x1 ![0, 1] bcast_S1024x100_S1024x100x1_0_1),
    StableHlo.TRef.nullary main_call37.c_1 (constantI S1 32 99#32),
    StableHlo.TRef.nullary main_call37.c_2 (constantI S_ 32 0#32),
    StableHlo.TRef.unary main_call37.c_2 main_call37.v6 (broadcastInDim S1024x100x1 ![] bcast_S_S1024x100x1),
    StableHlo.TRef.binary main_call37.v5 main_call37.v6 main_call37.v7 (cmpi .sge),
    StableHlo.TRef.unary main_call37.c_1 main_call37.v8 (broadcastInDim S1x1x1 ![2] bcast_S1_S1x1x1_2),
    StableHlo.TRef.unary main_call37.v8 main_call37.v9 (broadcastInDim S1024x100x1 ![0, 1, 2] bcast_S1x1x1_S1024x100x1_0_1_2),
    StableHlo.TRef.binary main_call37.v5 main_call37.v9 main_call37.v10 (cmpi .sle),
    StableHlo.TRef.binary main_call37.v7 main_call37.v10 main_call37.v11 andi,
    StableHlo.TRef.nullary main_call37.c_3 (constantI S_ 1 1#1),
    StableHlo.TRef.binary main_call37.v11 main_call37.c_3 main_call37.v12 (fun x v => Host.reduce IntOp.andi x v reducesTo_S1024x100x1_S1024x100_d2 h_S_),
    StableHlo.TRef.binary (.of main_v150 : StableHlo.TRef sig ⟨S100x32, .f32⟩) main_call37.v5 main_call37.v13 (fun x i => Host.gather gather_S100x32_S1024x100x1_S1024x100x32_2_0_n_n_0_2_132 x i),
    StableHlo.TRef.unary main_call37.v12 main_call37.v14 (broadcastInDim S1024x100x32 ![0, 1] bcast_S1024x100_S1024x100x32_0_1),
    StableHlo.TRef.nullary main_call37.cst (constant S_ .f32 0x7FC00000#32),
    StableHlo.TRef.unary main_call37.cst main_call37.v15 (broadcastInDim S1024x100x32 ![] bcast_S_S1024x100x32),
    StableHlo.TRef.ternary main_call37.v14 main_call37.v13 main_call37.v15 main_call37.v16 select,
    StableHlo.unary main_arg0 main_v152 ((extractStridedSlice S1024x100 ![0, 1919] · slices_S1024x2626_S1024x100_0_1919) : (⟨S1024x2626, .i32⟩ : BufTy).Contents (Elt F) → (⟨S1024x100, .i32⟩ : BufTy).Contents (Elt F)),
    StableHlo.unary main_arg2 main_v153 ((extractStridedSlice S1x100x1 ![19, 0, 0] · slices_S26x100x1_S1x100x1_19_0_0) : (⟨S26x100x1, .f32⟩ : BufTy).Contents (Elt F) → (⟨S1x100x1, .f32⟩ : BufTy).Contents (Elt F)),
    StableHlo.reshape main_v153 main_v154 rfl shapeCasts_S1x100x1_S100x1,
    StableHlo.TRef.nullary main_call38.c (constantI S_ 32 0#32),
    StableHlo.TRef.unary main_call38.c main_call38.v0 (broadcastInDim S1024x100 ![] bcast_S_S1024x100),
    StableHlo.TRef.binary (.of main_v152 : StableHlo.TRef sig ⟨S1024x100, .i32⟩) main_call38.v0 main_call38.v1 (cmpi .slt),
    StableHlo.TRef.nullary main_call38.c_0 (constantI S_ 32 100#32),
    StableHlo.TRef.unary main_call38.c_0 main_call38.v2 (broadcastInDim S1024x100 ![] bcast_S_S1024x100),
    StableHlo.TRef.binary (.of main_v152 : StableHlo.TRef sig ⟨S1024x100, .i32⟩) main_call38.v2 main_call38.v3 addi,
    StableHlo.TRef.ternary main_call38.v1 main_call38.v3 (.of main_v152 : StableHlo.TRef sig ⟨S1024x100, .i32⟩) main_call38.call0.v0 select,
    StableHlo.TRef.unary main_call38.call0.v0 main_call38.v5 (broadcastInDim S1024x100x1 ![0, 1] bcast_S1024x100_S1024x100x1_0_1),
    StableHlo.TRef.nullary main_call38.c_1 (constantI S1 32 99#32),
    StableHlo.TRef.nullary main_call38.c_2 (constantI S_ 32 0#32),
    StableHlo.TRef.unary main_call38.c_2 main_call38.v6 (broadcastInDim S1024x100x1 ![] bcast_S_S1024x100x1),
    StableHlo.TRef.binary main_call38.v5 main_call38.v6 main_call38.v7 (cmpi .sge),
    StableHlo.TRef.unary main_call38.c_1 main_call38.v8 (broadcastInDim S1x1x1 ![2] bcast_S1_S1x1x1_2),
    StableHlo.TRef.unary main_call38.v8 main_call38.v9 (broadcastInDim S1024x100x1 ![0, 1, 2] bcast_S1x1x1_S1024x100x1_0_1_2),
    StableHlo.TRef.binary main_call38.v5 main_call38.v9 main_call38.v10 (cmpi .sle),
    StableHlo.TRef.binary main_call38.v7 main_call38.v10 main_call38.v11 andi,
    StableHlo.TRef.nullary main_call38.c_3 (constantI S_ 1 1#1),
    StableHlo.TRef.binary main_call38.v11 main_call38.c_3 main_call38.v12 (fun x v => Host.reduce IntOp.andi x v reducesTo_S1024x100x1_S1024x100_d2 h_S_),
    StableHlo.TRef.binary (.of main_v154 : StableHlo.TRef sig ⟨S100x1, .f32⟩) main_call38.v5 main_call38.v13 (fun x i => Host.gather gather_S100x1_S1024x100x1_S1024x100x1_2_0_n_n_0_2_11 x i),
    StableHlo.TRef.unary main_call38.v12 main_call38.v14 (broadcastInDim S1024x100x1 ![0, 1] bcast_S1024x100_S1024x100x1_0_1),
    StableHlo.TRef.nullary main_call38.cst (constant S_ .f32 0x7FC00000#32),
    StableHlo.TRef.unary main_call38.cst main_call38.v15 (broadcastInDim S1024x100x1 ![] bcast_S_S1024x100x1),
    StableHlo.TRef.ternary main_call38.v14 main_call38.v13 main_call38.v15 main_call38.v16 select,
    StableHlo.nullary main_cst_18 (constant S_ .f32 0x00000000#32),
    StableHlo.binary main_v155 main_cst_18 main_v156 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v157 ((extractStridedSlice S1x100x32 ![19, 0, 0] · slices_S26x100x32_S1x100x32_19_0_0) : (⟨S26x100x32, .f32⟩ : BufTy).Contents (Elt F) → (⟨S1x100x32, .f32⟩ : BufTy).Contents (Elt F)),
    StableHlo.reshape main_v157 main_v158 rfl shapeCasts_S1x100x32_S100x32,
    StableHlo.TRef.nullary main_call39.c (constantI S_ 32 0#32),
    StableHlo.TRef.unary main_call39.c main_call39.v0 (broadcastInDim S1024x100 ![] bcast_S_S1024x100),
    StableHlo.TRef.binary (.of main_v152 : StableHlo.TRef sig ⟨S1024x100, .i32⟩) main_call39.v0 main_call39.v1 (cmpi .slt),
    StableHlo.TRef.nullary main_call39.c_0 (constantI S_ 32 100#32),
    StableHlo.TRef.unary main_call39.c_0 main_call39.v2 (broadcastInDim S1024x100 ![] bcast_S_S1024x100),
    StableHlo.TRef.binary (.of main_v152 : StableHlo.TRef sig ⟨S1024x100, .i32⟩) main_call39.v2 main_call39.v3 addi,
    StableHlo.TRef.ternary main_call39.v1 main_call39.v3 (.of main_v152 : StableHlo.TRef sig ⟨S1024x100, .i32⟩) main_call39.call0.v0 select,
    StableHlo.TRef.unary main_call39.call0.v0 main_call39.v5 (broadcastInDim S1024x100x1 ![0, 1] bcast_S1024x100_S1024x100x1_0_1),
    StableHlo.TRef.nullary main_call39.c_1 (constantI S1 32 99#32),
    StableHlo.TRef.nullary main_call39.c_2 (constantI S_ 32 0#32),
    StableHlo.TRef.unary main_call39.c_2 main_call39.v6 (broadcastInDim S1024x100x1 ![] bcast_S_S1024x100x1),
    StableHlo.TRef.binary main_call39.v5 main_call39.v6 main_call39.v7 (cmpi .sge),
    StableHlo.TRef.unary main_call39.c_1 main_call39.v8 (broadcastInDim S1x1x1 ![2] bcast_S1_S1x1x1_2),
    StableHlo.TRef.unary main_call39.v8 main_call39.v9 (broadcastInDim S1024x100x1 ![0, 1, 2] bcast_S1x1x1_S1024x100x1_0_1_2),
    StableHlo.TRef.binary main_call39.v5 main_call39.v9 main_call39.v10 (cmpi .sle),
    StableHlo.TRef.binary main_call39.v7 main_call39.v10 main_call39.v11 andi,
    StableHlo.TRef.nullary main_call39.c_3 (constantI S_ 1 1#1),
    StableHlo.TRef.binary main_call39.v11 main_call39.c_3 main_call39.v12 (fun x v => Host.reduce IntOp.andi x v reducesTo_S1024x100x1_S1024x100_d2 h_S_),
    StableHlo.TRef.binary (.of main_v158 : StableHlo.TRef sig ⟨S100x32, .f32⟩) main_call39.v5 main_call39.v13 (fun x i => Host.gather gather_S100x32_S1024x100x1_S1024x100x32_2_0_n_n_0_2_132 x i),
    StableHlo.TRef.unary main_call39.v12 main_call39.v14 (broadcastInDim S1024x100x32 ![0, 1] bcast_S1024x100_S1024x100x32_0_1),
    StableHlo.TRef.nullary main_call39.cst (constant S_ .f32 0x7FC00000#32),
    StableHlo.TRef.unary main_call39.cst main_call39.v15 (broadcastInDim S1024x100x32 ![] bcast_S_S1024x100x32),
    StableHlo.TRef.ternary main_call39.v14 main_call39.v13 main_call39.v15 main_call39.v16 select ]

abbrev W3 : List (HloOp τ sig (Elt F)) :=
  [ StableHlo.unary main_arg0 main_v160 ((extractStridedSlice S1024x100 ![0, 2020] · slices_S1024x2626_S1024x100_0_2020) : (⟨S1024x2626, .i32⟩ : BufTy).Contents (Elt F) → (⟨S1024x100, .i32⟩ : BufTy).Contents (Elt F)),
    StableHlo.unary main_arg2 main_v161 ((extractStridedSlice S1x100x1 ![20, 0, 0] · slices_S26x100x1_S1x100x1_20_0_0) : (⟨S26x100x1, .f32⟩ : BufTy).Contents (Elt F) → (⟨S1x100x1, .f32⟩ : BufTy).Contents (Elt F)),
    StableHlo.reshape main_v161 main_v162 rfl shapeCasts_S1x100x1_S100x1,
    StableHlo.TRef.nullary main_call40.c (constantI S_ 32 0#32),
    StableHlo.TRef.unary main_call40.c main_call40.v0 (broadcastInDim S1024x100 ![] bcast_S_S1024x100),
    StableHlo.TRef.binary (.of main_v160 : StableHlo.TRef sig ⟨S1024x100, .i32⟩) main_call40.v0 main_call40.v1 (cmpi .slt),
    StableHlo.TRef.nullary main_call40.c_0 (constantI S_ 32 100#32),
    StableHlo.TRef.unary main_call40.c_0 main_call40.v2 (broadcastInDim S1024x100 ![] bcast_S_S1024x100),
    StableHlo.TRef.binary (.of main_v160 : StableHlo.TRef sig ⟨S1024x100, .i32⟩) main_call40.v2 main_call40.v3 addi,
    StableHlo.TRef.ternary main_call40.v1 main_call40.v3 (.of main_v160 : StableHlo.TRef sig ⟨S1024x100, .i32⟩) main_call40.call0.v0 select,
    StableHlo.TRef.unary main_call40.call0.v0 main_call40.v5 (broadcastInDim S1024x100x1 ![0, 1] bcast_S1024x100_S1024x100x1_0_1),
    StableHlo.TRef.nullary main_call40.c_1 (constantI S1 32 99#32),
    StableHlo.TRef.nullary main_call40.c_2 (constantI S_ 32 0#32),
    StableHlo.TRef.unary main_call40.c_2 main_call40.v6 (broadcastInDim S1024x100x1 ![] bcast_S_S1024x100x1),
    StableHlo.TRef.binary main_call40.v5 main_call40.v6 main_call40.v7 (cmpi .sge),
    StableHlo.TRef.unary main_call40.c_1 main_call40.v8 (broadcastInDim S1x1x1 ![2] bcast_S1_S1x1x1_2),
    StableHlo.TRef.unary main_call40.v8 main_call40.v9 (broadcastInDim S1024x100x1 ![0, 1, 2] bcast_S1x1x1_S1024x100x1_0_1_2),
    StableHlo.TRef.binary main_call40.v5 main_call40.v9 main_call40.v10 (cmpi .sle),
    StableHlo.TRef.binary main_call40.v7 main_call40.v10 main_call40.v11 andi,
    StableHlo.TRef.nullary main_call40.c_3 (constantI S_ 1 1#1),
    StableHlo.TRef.binary main_call40.v11 main_call40.c_3 main_call40.v12 (fun x v => Host.reduce IntOp.andi x v reducesTo_S1024x100x1_S1024x100_d2 h_S_),
    StableHlo.TRef.binary (.of main_v162 : StableHlo.TRef sig ⟨S100x1, .f32⟩) main_call40.v5 main_call40.v13 (fun x i => Host.gather gather_S100x1_S1024x100x1_S1024x100x1_2_0_n_n_0_2_11 x i),
    StableHlo.TRef.unary main_call40.v12 main_call40.v14 (broadcastInDim S1024x100x1 ![0, 1] bcast_S1024x100_S1024x100x1_0_1),
    StableHlo.TRef.nullary main_call40.cst (constant S_ .f32 0x7FC00000#32),
    StableHlo.TRef.unary main_call40.cst main_call40.v15 (broadcastInDim S1024x100x1 ![] bcast_S_S1024x100x1),
    StableHlo.TRef.ternary main_call40.v14 main_call40.v13 main_call40.v15 main_call40.v16 select,
    StableHlo.nullary main_cst_19 (constant S_ .f32 0x00000000#32),
    StableHlo.binary main_v163 main_cst_19 main_v164 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v165 ((extractStridedSlice S1x100x32 ![20, 0, 0] · slices_S26x100x32_S1x100x32_20_0_0) : (⟨S26x100x32, .f32⟩ : BufTy).Contents (Elt F) → (⟨S1x100x32, .f32⟩ : BufTy).Contents (Elt F)),
    StableHlo.reshape main_v165 main_v166 rfl shapeCasts_S1x100x32_S100x32,
    StableHlo.TRef.nullary main_call41.c (constantI S_ 32 0#32),
    StableHlo.TRef.unary main_call41.c main_call41.v0 (broadcastInDim S1024x100 ![] bcast_S_S1024x100),
    StableHlo.TRef.binary (.of main_v160 : StableHlo.TRef sig ⟨S1024x100, .i32⟩) main_call41.v0 main_call41.v1 (cmpi .slt),
    StableHlo.TRef.nullary main_call41.c_0 (constantI S_ 32 100#32),
    StableHlo.TRef.unary main_call41.c_0 main_call41.v2 (broadcastInDim S1024x100 ![] bcast_S_S1024x100),
    StableHlo.TRef.binary (.of main_v160 : StableHlo.TRef sig ⟨S1024x100, .i32⟩) main_call41.v2 main_call41.v3 addi,
    StableHlo.TRef.ternary main_call41.v1 main_call41.v3 (.of main_v160 : StableHlo.TRef sig ⟨S1024x100, .i32⟩) main_call41.call0.v0 select,
    StableHlo.TRef.unary main_call41.call0.v0 main_call41.v5 (broadcastInDim S1024x100x1 ![0, 1] bcast_S1024x100_S1024x100x1_0_1),
    StableHlo.TRef.nullary main_call41.c_1 (constantI S1 32 99#32),
    StableHlo.TRef.nullary main_call41.c_2 (constantI S_ 32 0#32),
    StableHlo.TRef.unary main_call41.c_2 main_call41.v6 (broadcastInDim S1024x100x1 ![] bcast_S_S1024x100x1),
    StableHlo.TRef.binary main_call41.v5 main_call41.v6 main_call41.v7 (cmpi .sge),
    StableHlo.TRef.unary main_call41.c_1 main_call41.v8 (broadcastInDim S1x1x1 ![2] bcast_S1_S1x1x1_2),
    StableHlo.TRef.unary main_call41.v8 main_call41.v9 (broadcastInDim S1024x100x1 ![0, 1, 2] bcast_S1x1x1_S1024x100x1_0_1_2),
    StableHlo.TRef.binary main_call41.v5 main_call41.v9 main_call41.v10 (cmpi .sle),
    StableHlo.TRef.binary main_call41.v7 main_call41.v10 main_call41.v11 andi,
    StableHlo.TRef.nullary main_call41.c_3 (constantI S_ 1 1#1),
    StableHlo.TRef.binary main_call41.v11 main_call41.c_3 main_call41.v12 (fun x v => Host.reduce IntOp.andi x v reducesTo_S1024x100x1_S1024x100_d2 h_S_),
    StableHlo.TRef.binary (.of main_v166 : StableHlo.TRef sig ⟨S100x32, .f32⟩) main_call41.v5 main_call41.v13 (fun x i => Host.gather gather_S100x32_S1024x100x1_S1024x100x32_2_0_n_n_0_2_132 x i),
    StableHlo.TRef.unary main_call41.v12 main_call41.v14 (broadcastInDim S1024x100x32 ![0, 1] bcast_S1024x100_S1024x100x32_0_1),
    StableHlo.TRef.nullary main_call41.cst (constant S_ .f32 0x7FC00000#32),
    StableHlo.TRef.unary main_call41.cst main_call41.v15 (broadcastInDim S1024x100x32 ![] bcast_S_S1024x100x32),
    StableHlo.TRef.ternary main_call41.v14 main_call41.v13 main_call41.v15 main_call41.v16 select,
    StableHlo.unary main_arg0 main_v168 ((extractStridedSlice S1024x100 ![0, 2121] · slices_S1024x2626_S1024x100_0_2121) : (⟨S1024x2626, .i32⟩ : BufTy).Contents (Elt F) → (⟨S1024x100, .i32⟩ : BufTy).Contents (Elt F)),
    StableHlo.unary main_arg2 main_v169 ((extractStridedSlice S1x100x1 ![21, 0, 0] · slices_S26x100x1_S1x100x1_21_0_0) : (⟨S26x100x1, .f32⟩ : BufTy).Contents (Elt F) → (⟨S1x100x1, .f32⟩ : BufTy).Contents (Elt F)),
    StableHlo.reshape main_v169 main_v170 rfl shapeCasts_S1x100x1_S100x1,
    StableHlo.TRef.nullary main_call42.c (constantI S_ 32 0#32),
    StableHlo.TRef.unary main_call42.c main_call42.v0 (broadcastInDim S1024x100 ![] bcast_S_S1024x100),
    StableHlo.TRef.binary (.of main_v168 : StableHlo.TRef sig ⟨S1024x100, .i32⟩) main_call42.v0 main_call42.v1 (cmpi .slt),
    StableHlo.TRef.nullary main_call42.c_0 (constantI S_ 32 100#32),
    StableHlo.TRef.unary main_call42.c_0 main_call42.v2 (broadcastInDim S1024x100 ![] bcast_S_S1024x100),
    StableHlo.TRef.binary (.of main_v168 : StableHlo.TRef sig ⟨S1024x100, .i32⟩) main_call42.v2 main_call42.v3 addi,
    StableHlo.TRef.ternary main_call42.v1 main_call42.v3 (.of main_v168 : StableHlo.TRef sig ⟨S1024x100, .i32⟩) main_call42.call0.v0 select,
    StableHlo.TRef.unary main_call42.call0.v0 main_call42.v5 (broadcastInDim S1024x100x1 ![0, 1] bcast_S1024x100_S1024x100x1_0_1),
    StableHlo.TRef.nullary main_call42.c_1 (constantI S1 32 99#32),
    StableHlo.TRef.nullary main_call42.c_2 (constantI S_ 32 0#32),
    StableHlo.TRef.unary main_call42.c_2 main_call42.v6 (broadcastInDim S1024x100x1 ![] bcast_S_S1024x100x1),
    StableHlo.TRef.binary main_call42.v5 main_call42.v6 main_call42.v7 (cmpi .sge),
    StableHlo.TRef.unary main_call42.c_1 main_call42.v8 (broadcastInDim S1x1x1 ![2] bcast_S1_S1x1x1_2),
    StableHlo.TRef.unary main_call42.v8 main_call42.v9 (broadcastInDim S1024x100x1 ![0, 1, 2] bcast_S1x1x1_S1024x100x1_0_1_2),
    StableHlo.TRef.binary main_call42.v5 main_call42.v9 main_call42.v10 (cmpi .sle),
    StableHlo.TRef.binary main_call42.v7 main_call42.v10 main_call42.v11 andi,
    StableHlo.TRef.nullary main_call42.c_3 (constantI S_ 1 1#1),
    StableHlo.TRef.binary main_call42.v11 main_call42.c_3 main_call42.v12 (fun x v => Host.reduce IntOp.andi x v reducesTo_S1024x100x1_S1024x100_d2 h_S_),
    StableHlo.TRef.binary (.of main_v170 : StableHlo.TRef sig ⟨S100x1, .f32⟩) main_call42.v5 main_call42.v13 (fun x i => Host.gather gather_S100x1_S1024x100x1_S1024x100x1_2_0_n_n_0_2_11 x i),
    StableHlo.TRef.unary main_call42.v12 main_call42.v14 (broadcastInDim S1024x100x1 ![0, 1] bcast_S1024x100_S1024x100x1_0_1),
    StableHlo.TRef.nullary main_call42.cst (constant S_ .f32 0x7FC00000#32),
    StableHlo.TRef.unary main_call42.cst main_call42.v15 (broadcastInDim S1024x100x1 ![] bcast_S_S1024x100x1),
    StableHlo.TRef.ternary main_call42.v14 main_call42.v13 main_call42.v15 main_call42.v16 select,
    StableHlo.nullary main_cst_20 (constant S_ .f32 0x00000000#32),
    StableHlo.binary main_v171 main_cst_20 main_v172 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v173 ((extractStridedSlice S1x100x32 ![21, 0, 0] · slices_S26x100x32_S1x100x32_21_0_0) : (⟨S26x100x32, .f32⟩ : BufTy).Contents (Elt F) → (⟨S1x100x32, .f32⟩ : BufTy).Contents (Elt F)),
    StableHlo.reshape main_v173 main_v174 rfl shapeCasts_S1x100x32_S100x32,
    StableHlo.TRef.nullary main_call43.c (constantI S_ 32 0#32),
    StableHlo.TRef.unary main_call43.c main_call43.v0 (broadcastInDim S1024x100 ![] bcast_S_S1024x100),
    StableHlo.TRef.binary (.of main_v168 : StableHlo.TRef sig ⟨S1024x100, .i32⟩) main_call43.v0 main_call43.v1 (cmpi .slt),
    StableHlo.TRef.nullary main_call43.c_0 (constantI S_ 32 100#32),
    StableHlo.TRef.unary main_call43.c_0 main_call43.v2 (broadcastInDim S1024x100 ![] bcast_S_S1024x100),
    StableHlo.TRef.binary (.of main_v168 : StableHlo.TRef sig ⟨S1024x100, .i32⟩) main_call43.v2 main_call43.v3 addi,
    StableHlo.TRef.ternary main_call43.v1 main_call43.v3 (.of main_v168 : StableHlo.TRef sig ⟨S1024x100, .i32⟩) main_call43.call0.v0 select,
    StableHlo.TRef.unary main_call43.call0.v0 main_call43.v5 (broadcastInDim S1024x100x1 ![0, 1] bcast_S1024x100_S1024x100x1_0_1),
    StableHlo.TRef.nullary main_call43.c_1 (constantI S1 32 99#32),
    StableHlo.TRef.nullary main_call43.c_2 (constantI S_ 32 0#32),
    StableHlo.TRef.unary main_call43.c_2 main_call43.v6 (broadcastInDim S1024x100x1 ![] bcast_S_S1024x100x1),
    StableHlo.TRef.binary main_call43.v5 main_call43.v6 main_call43.v7 (cmpi .sge),
    StableHlo.TRef.unary main_call43.c_1 main_call43.v8 (broadcastInDim S1x1x1 ![2] bcast_S1_S1x1x1_2),
    StableHlo.TRef.unary main_call43.v8 main_call43.v9 (broadcastInDim S1024x100x1 ![0, 1, 2] bcast_S1x1x1_S1024x100x1_0_1_2),
    StableHlo.TRef.binary main_call43.v5 main_call43.v9 main_call43.v10 (cmpi .sle),
    StableHlo.TRef.binary main_call43.v7 main_call43.v10 main_call43.v11 andi,
    StableHlo.TRef.nullary main_call43.c_3 (constantI S_ 1 1#1),
    StableHlo.TRef.binary main_call43.v11 main_call43.c_3 main_call43.v12 (fun x v => Host.reduce IntOp.andi x v reducesTo_S1024x100x1_S1024x100_d2 h_S_),
    StableHlo.TRef.binary (.of main_v174 : StableHlo.TRef sig ⟨S100x32, .f32⟩) main_call43.v5 main_call43.v13 (fun x i => Host.gather gather_S100x32_S1024x100x1_S1024x100x32_2_0_n_n_0_2_132 x i),
    StableHlo.TRef.unary main_call43.v12 main_call43.v14 (broadcastInDim S1024x100x32 ![0, 1] bcast_S1024x100_S1024x100x32_0_1),
    StableHlo.TRef.nullary main_call43.cst (constant S_ .f32 0x7FC00000#32),
    StableHlo.TRef.unary main_call43.cst main_call43.v15 (broadcastInDim S1024x100x32 ![] bcast_S_S1024x100x32),
    StableHlo.TRef.ternary main_call43.v14 main_call43.v13 main_call43.v15 main_call43.v16 select,
    StableHlo.unary main_arg0 main_v176 ((extractStridedSlice S1024x100 ![0, 2222] · slices_S1024x2626_S1024x100_0_2222) : (⟨S1024x2626, .i32⟩ : BufTy).Contents (Elt F) → (⟨S1024x100, .i32⟩ : BufTy).Contents (Elt F)),
    StableHlo.unary main_arg2 main_v177 ((extractStridedSlice S1x100x1 ![22, 0, 0] · slices_S26x100x1_S1x100x1_22_0_0) : (⟨S26x100x1, .f32⟩ : BufTy).Contents (Elt F) → (⟨S1x100x1, .f32⟩ : BufTy).Contents (Elt F)),
    StableHlo.reshape main_v177 main_v178 rfl shapeCasts_S1x100x1_S100x1,
    StableHlo.TRef.nullary main_call44.c (constantI S_ 32 0#32),
    StableHlo.TRef.unary main_call44.c main_call44.v0 (broadcastInDim S1024x100 ![] bcast_S_S1024x100),
    StableHlo.TRef.binary (.of main_v176 : StableHlo.TRef sig ⟨S1024x100, .i32⟩) main_call44.v0 main_call44.v1 (cmpi .slt),
    StableHlo.TRef.nullary main_call44.c_0 (constantI S_ 32 100#32),
    StableHlo.TRef.unary main_call44.c_0 main_call44.v2 (broadcastInDim S1024x100 ![] bcast_S_S1024x100),
    StableHlo.TRef.binary (.of main_v176 : StableHlo.TRef sig ⟨S1024x100, .i32⟩) main_call44.v2 main_call44.v3 addi,
    StableHlo.TRef.ternary main_call44.v1 main_call44.v3 (.of main_v176 : StableHlo.TRef sig ⟨S1024x100, .i32⟩) main_call44.call0.v0 select,
    StableHlo.TRef.unary main_call44.call0.v0 main_call44.v5 (broadcastInDim S1024x100x1 ![0, 1] bcast_S1024x100_S1024x100x1_0_1),
    StableHlo.TRef.nullary main_call44.c_1 (constantI S1 32 99#32),
    StableHlo.TRef.nullary main_call44.c_2 (constantI S_ 32 0#32),
    StableHlo.TRef.unary main_call44.c_2 main_call44.v6 (broadcastInDim S1024x100x1 ![] bcast_S_S1024x100x1),
    StableHlo.TRef.binary main_call44.v5 main_call44.v6 main_call44.v7 (cmpi .sge),
    StableHlo.TRef.unary main_call44.c_1 main_call44.v8 (broadcastInDim S1x1x1 ![2] bcast_S1_S1x1x1_2),
    StableHlo.TRef.unary main_call44.v8 main_call44.v9 (broadcastInDim S1024x100x1 ![0, 1, 2] bcast_S1x1x1_S1024x100x1_0_1_2),
    StableHlo.TRef.binary main_call44.v5 main_call44.v9 main_call44.v10 (cmpi .sle),
    StableHlo.TRef.binary main_call44.v7 main_call44.v10 main_call44.v11 andi,
    StableHlo.TRef.nullary main_call44.c_3 (constantI S_ 1 1#1),
    StableHlo.TRef.binary main_call44.v11 main_call44.c_3 main_call44.v12 (fun x v => Host.reduce IntOp.andi x v reducesTo_S1024x100x1_S1024x100_d2 h_S_),
    StableHlo.TRef.binary (.of main_v178 : StableHlo.TRef sig ⟨S100x1, .f32⟩) main_call44.v5 main_call44.v13 (fun x i => Host.gather gather_S100x1_S1024x100x1_S1024x100x1_2_0_n_n_0_2_11 x i),
    StableHlo.TRef.unary main_call44.v12 main_call44.v14 (broadcastInDim S1024x100x1 ![0, 1] bcast_S1024x100_S1024x100x1_0_1),
    StableHlo.TRef.nullary main_call44.cst (constant S_ .f32 0x7FC00000#32),
    StableHlo.TRef.unary main_call44.cst main_call44.v15 (broadcastInDim S1024x100x1 ![] bcast_S_S1024x100x1),
    StableHlo.TRef.ternary main_call44.v14 main_call44.v13 main_call44.v15 main_call44.v16 select,
    StableHlo.nullary main_cst_21 (constant S_ .f32 0x00000000#32),
    StableHlo.binary main_v179 main_cst_21 main_v180 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v181 ((extractStridedSlice S1x100x32 ![22, 0, 0] · slices_S26x100x32_S1x100x32_22_0_0) : (⟨S26x100x32, .f32⟩ : BufTy).Contents (Elt F) → (⟨S1x100x32, .f32⟩ : BufTy).Contents (Elt F)),
    StableHlo.reshape main_v181 main_v182 rfl shapeCasts_S1x100x32_S100x32,
    StableHlo.TRef.nullary main_call45.c (constantI S_ 32 0#32),
    StableHlo.TRef.unary main_call45.c main_call45.v0 (broadcastInDim S1024x100 ![] bcast_S_S1024x100),
    StableHlo.TRef.binary (.of main_v176 : StableHlo.TRef sig ⟨S1024x100, .i32⟩) main_call45.v0 main_call45.v1 (cmpi .slt),
    StableHlo.TRef.nullary main_call45.c_0 (constantI S_ 32 100#32),
    StableHlo.TRef.unary main_call45.c_0 main_call45.v2 (broadcastInDim S1024x100 ![] bcast_S_S1024x100),
    StableHlo.TRef.binary (.of main_v176 : StableHlo.TRef sig ⟨S1024x100, .i32⟩) main_call45.v2 main_call45.v3 addi,
    StableHlo.TRef.ternary main_call45.v1 main_call45.v3 (.of main_v176 : StableHlo.TRef sig ⟨S1024x100, .i32⟩) main_call45.call0.v0 select,
    StableHlo.TRef.unary main_call45.call0.v0 main_call45.v5 (broadcastInDim S1024x100x1 ![0, 1] bcast_S1024x100_S1024x100x1_0_1),
    StableHlo.TRef.nullary main_call45.c_1 (constantI S1 32 99#32),
    StableHlo.TRef.nullary main_call45.c_2 (constantI S_ 32 0#32),
    StableHlo.TRef.unary main_call45.c_2 main_call45.v6 (broadcastInDim S1024x100x1 ![] bcast_S_S1024x100x1),
    StableHlo.TRef.binary main_call45.v5 main_call45.v6 main_call45.v7 (cmpi .sge),
    StableHlo.TRef.unary main_call45.c_1 main_call45.v8 (broadcastInDim S1x1x1 ![2] bcast_S1_S1x1x1_2),
    StableHlo.TRef.unary main_call45.v8 main_call45.v9 (broadcastInDim S1024x100x1 ![0, 1, 2] bcast_S1x1x1_S1024x100x1_0_1_2),
    StableHlo.TRef.binary main_call45.v5 main_call45.v9 main_call45.v10 (cmpi .sle),
    StableHlo.TRef.binary main_call45.v7 main_call45.v10 main_call45.v11 andi,
    StableHlo.TRef.nullary main_call45.c_3 (constantI S_ 1 1#1),
    StableHlo.TRef.binary main_call45.v11 main_call45.c_3 main_call45.v12 (fun x v => Host.reduce IntOp.andi x v reducesTo_S1024x100x1_S1024x100_d2 h_S_),
    StableHlo.TRef.binary (.of main_v182 : StableHlo.TRef sig ⟨S100x32, .f32⟩) main_call45.v5 main_call45.v13 (fun x i => Host.gather gather_S100x32_S1024x100x1_S1024x100x32_2_0_n_n_0_2_132 x i),
    StableHlo.TRef.unary main_call45.v12 main_call45.v14 (broadcastInDim S1024x100x32 ![0, 1] bcast_S1024x100_S1024x100x32_0_1),
    StableHlo.TRef.nullary main_call45.cst (constant S_ .f32 0x7FC00000#32),
    StableHlo.TRef.unary main_call45.cst main_call45.v15 (broadcastInDim S1024x100x32 ![] bcast_S_S1024x100x32),
    StableHlo.TRef.ternary main_call45.v14 main_call45.v13 main_call45.v15 main_call45.v16 select,
    StableHlo.unary main_arg0 main_v184 ((extractStridedSlice S1024x100 ![0, 2323] · slices_S1024x2626_S1024x100_0_2323) : (⟨S1024x2626, .i32⟩ : BufTy).Contents (Elt F) → (⟨S1024x100, .i32⟩ : BufTy).Contents (Elt F)),
    StableHlo.unary main_arg2 main_v185 ((extractStridedSlice S1x100x1 ![23, 0, 0] · slices_S26x100x1_S1x100x1_23_0_0) : (⟨S26x100x1, .f32⟩ : BufTy).Contents (Elt F) → (⟨S1x100x1, .f32⟩ : BufTy).Contents (Elt F)),
    StableHlo.reshape main_v185 main_v186 rfl shapeCasts_S1x100x1_S100x1,
    StableHlo.TRef.nullary main_call46.c (constantI S_ 32 0#32),
    StableHlo.TRef.unary main_call46.c main_call46.v0 (broadcastInDim S1024x100 ![] bcast_S_S1024x100),
    StableHlo.TRef.binary (.of main_v184 : StableHlo.TRef sig ⟨S1024x100, .i32⟩) main_call46.v0 main_call46.v1 (cmpi .slt),
    StableHlo.TRef.nullary main_call46.c_0 (constantI S_ 32 100#32),
    StableHlo.TRef.unary main_call46.c_0 main_call46.v2 (broadcastInDim S1024x100 ![] bcast_S_S1024x100),
    StableHlo.TRef.binary (.of main_v184 : StableHlo.TRef sig ⟨S1024x100, .i32⟩) main_call46.v2 main_call46.v3 addi,
    StableHlo.TRef.ternary main_call46.v1 main_call46.v3 (.of main_v184 : StableHlo.TRef sig ⟨S1024x100, .i32⟩) main_call46.call0.v0 select,
    StableHlo.TRef.unary main_call46.call0.v0 main_call46.v5 (broadcastInDim S1024x100x1 ![0, 1] bcast_S1024x100_S1024x100x1_0_1),
    StableHlo.TRef.nullary main_call46.c_1 (constantI S1 32 99#32),
    StableHlo.TRef.nullary main_call46.c_2 (constantI S_ 32 0#32),
    StableHlo.TRef.unary main_call46.c_2 main_call46.v6 (broadcastInDim S1024x100x1 ![] bcast_S_S1024x100x1),
    StableHlo.TRef.binary main_call46.v5 main_call46.v6 main_call46.v7 (cmpi .sge),
    StableHlo.TRef.unary main_call46.c_1 main_call46.v8 (broadcastInDim S1x1x1 ![2] bcast_S1_S1x1x1_2),
    StableHlo.TRef.unary main_call46.v8 main_call46.v9 (broadcastInDim S1024x100x1 ![0, 1, 2] bcast_S1x1x1_S1024x100x1_0_1_2),
    StableHlo.TRef.binary main_call46.v5 main_call46.v9 main_call46.v10 (cmpi .sle),
    StableHlo.TRef.binary main_call46.v7 main_call46.v10 main_call46.v11 andi,
    StableHlo.TRef.nullary main_call46.c_3 (constantI S_ 1 1#1),
    StableHlo.TRef.binary main_call46.v11 main_call46.c_3 main_call46.v12 (fun x v => Host.reduce IntOp.andi x v reducesTo_S1024x100x1_S1024x100_d2 h_S_),
    StableHlo.TRef.binary (.of main_v186 : StableHlo.TRef sig ⟨S100x1, .f32⟩) main_call46.v5 main_call46.v13 (fun x i => Host.gather gather_S100x1_S1024x100x1_S1024x100x1_2_0_n_n_0_2_11 x i),
    StableHlo.TRef.unary main_call46.v12 main_call46.v14 (broadcastInDim S1024x100x1 ![0, 1] bcast_S1024x100_S1024x100x1_0_1),
    StableHlo.TRef.nullary main_call46.cst (constant S_ .f32 0x7FC00000#32),
    StableHlo.TRef.unary main_call46.cst main_call46.v15 (broadcastInDim S1024x100x1 ![] bcast_S_S1024x100x1),
    StableHlo.TRef.ternary main_call46.v14 main_call46.v13 main_call46.v15 main_call46.v16 select,
    StableHlo.nullary main_cst_22 (constant S_ .f32 0x00000000#32),
    StableHlo.binary main_v187 main_cst_22 main_v188 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v189 ((extractStridedSlice S1x100x32 ![23, 0, 0] · slices_S26x100x32_S1x100x32_23_0_0) : (⟨S26x100x32, .f32⟩ : BufTy).Contents (Elt F) → (⟨S1x100x32, .f32⟩ : BufTy).Contents (Elt F)),
    StableHlo.reshape main_v189 main_v190 rfl shapeCasts_S1x100x32_S100x32,
    StableHlo.TRef.nullary main_call47.c (constantI S_ 32 0#32),
    StableHlo.TRef.unary main_call47.c main_call47.v0 (broadcastInDim S1024x100 ![] bcast_S_S1024x100),
    StableHlo.TRef.binary (.of main_v184 : StableHlo.TRef sig ⟨S1024x100, .i32⟩) main_call47.v0 main_call47.v1 (cmpi .slt),
    StableHlo.TRef.nullary main_call47.c_0 (constantI S_ 32 100#32),
    StableHlo.TRef.unary main_call47.c_0 main_call47.v2 (broadcastInDim S1024x100 ![] bcast_S_S1024x100),
    StableHlo.TRef.binary (.of main_v184 : StableHlo.TRef sig ⟨S1024x100, .i32⟩) main_call47.v2 main_call47.v3 addi,
    StableHlo.TRef.ternary main_call47.v1 main_call47.v3 (.of main_v184 : StableHlo.TRef sig ⟨S1024x100, .i32⟩) main_call47.call0.v0 select,
    StableHlo.TRef.unary main_call47.call0.v0 main_call47.v5 (broadcastInDim S1024x100x1 ![0, 1] bcast_S1024x100_S1024x100x1_0_1),
    StableHlo.TRef.nullary main_call47.c_1 (constantI S1 32 99#32),
    StableHlo.TRef.nullary main_call47.c_2 (constantI S_ 32 0#32),
    StableHlo.TRef.unary main_call47.c_2 main_call47.v6 (broadcastInDim S1024x100x1 ![] bcast_S_S1024x100x1),
    StableHlo.TRef.binary main_call47.v5 main_call47.v6 main_call47.v7 (cmpi .sge),
    StableHlo.TRef.unary main_call47.c_1 main_call47.v8 (broadcastInDim S1x1x1 ![2] bcast_S1_S1x1x1_2),
    StableHlo.TRef.unary main_call47.v8 main_call47.v9 (broadcastInDim S1024x100x1 ![0, 1, 2] bcast_S1x1x1_S1024x100x1_0_1_2),
    StableHlo.TRef.binary main_call47.v5 main_call47.v9 main_call47.v10 (cmpi .sle),
    StableHlo.TRef.binary main_call47.v7 main_call47.v10 main_call47.v11 andi,
    StableHlo.TRef.nullary main_call47.c_3 (constantI S_ 1 1#1),
    StableHlo.TRef.binary main_call47.v11 main_call47.c_3 main_call47.v12 (fun x v => Host.reduce IntOp.andi x v reducesTo_S1024x100x1_S1024x100_d2 h_S_),
    StableHlo.TRef.binary (.of main_v190 : StableHlo.TRef sig ⟨S100x32, .f32⟩) main_call47.v5 main_call47.v13 (fun x i => Host.gather gather_S100x32_S1024x100x1_S1024x100x32_2_0_n_n_0_2_132 x i),
    StableHlo.TRef.unary main_call47.v12 main_call47.v14 (broadcastInDim S1024x100x32 ![0, 1] bcast_S1024x100_S1024x100x32_0_1),
    StableHlo.TRef.nullary main_call47.cst (constant S_ .f32 0x7FC00000#32),
    StableHlo.TRef.unary main_call47.cst main_call47.v15 (broadcastInDim S1024x100x32 ![] bcast_S_S1024x100x32),
    StableHlo.TRef.ternary main_call47.v14 main_call47.v13 main_call47.v15 main_call47.v16 select,
    StableHlo.unary main_arg0 main_v192 ((extractStridedSlice S1024x100 ![0, 2424] · slices_S1024x2626_S1024x100_0_2424) : (⟨S1024x2626, .i32⟩ : BufTy).Contents (Elt F) → (⟨S1024x100, .i32⟩ : BufTy).Contents (Elt F)),
    StableHlo.unary main_arg2 main_v193 ((extractStridedSlice S1x100x1 ![24, 0, 0] · slices_S26x100x1_S1x100x1_24_0_0) : (⟨S26x100x1, .f32⟩ : BufTy).Contents (Elt F) → (⟨S1x100x1, .f32⟩ : BufTy).Contents (Elt F)),
    StableHlo.reshape main_v193 main_v194 rfl shapeCasts_S1x100x1_S100x1,
    StableHlo.TRef.nullary main_call48.c (constantI S_ 32 0#32),
    StableHlo.TRef.unary main_call48.c main_call48.v0 (broadcastInDim S1024x100 ![] bcast_S_S1024x100),
    StableHlo.TRef.binary (.of main_v192 : StableHlo.TRef sig ⟨S1024x100, .i32⟩) main_call48.v0 main_call48.v1 (cmpi .slt),
    StableHlo.TRef.nullary main_call48.c_0 (constantI S_ 32 100#32),
    StableHlo.TRef.unary main_call48.c_0 main_call48.v2 (broadcastInDim S1024x100 ![] bcast_S_S1024x100),
    StableHlo.TRef.binary (.of main_v192 : StableHlo.TRef sig ⟨S1024x100, .i32⟩) main_call48.v2 main_call48.v3 addi,
    StableHlo.TRef.ternary main_call48.v1 main_call48.v3 (.of main_v192 : StableHlo.TRef sig ⟨S1024x100, .i32⟩) main_call48.call0.v0 select,
    StableHlo.TRef.unary main_call48.call0.v0 main_call48.v5 (broadcastInDim S1024x100x1 ![0, 1] bcast_S1024x100_S1024x100x1_0_1),
    StableHlo.TRef.nullary main_call48.c_1 (constantI S1 32 99#32),
    StableHlo.TRef.nullary main_call48.c_2 (constantI S_ 32 0#32),
    StableHlo.TRef.unary main_call48.c_2 main_call48.v6 (broadcastInDim S1024x100x1 ![] bcast_S_S1024x100x1),
    StableHlo.TRef.binary main_call48.v5 main_call48.v6 main_call48.v7 (cmpi .sge),
    StableHlo.TRef.unary main_call48.c_1 main_call48.v8 (broadcastInDim S1x1x1 ![2] bcast_S1_S1x1x1_2),
    StableHlo.TRef.unary main_call48.v8 main_call48.v9 (broadcastInDim S1024x100x1 ![0, 1, 2] bcast_S1x1x1_S1024x100x1_0_1_2),
    StableHlo.TRef.binary main_call48.v5 main_call48.v9 main_call48.v10 (cmpi .sle),
    StableHlo.TRef.binary main_call48.v7 main_call48.v10 main_call48.v11 andi,
    StableHlo.TRef.nullary main_call48.c_3 (constantI S_ 1 1#1),
    StableHlo.TRef.binary main_call48.v11 main_call48.c_3 main_call48.v12 (fun x v => Host.reduce IntOp.andi x v reducesTo_S1024x100x1_S1024x100_d2 h_S_),
    StableHlo.TRef.binary (.of main_v194 : StableHlo.TRef sig ⟨S100x1, .f32⟩) main_call48.v5 main_call48.v13 (fun x i => Host.gather gather_S100x1_S1024x100x1_S1024x100x1_2_0_n_n_0_2_11 x i),
    StableHlo.TRef.unary main_call48.v12 main_call48.v14 (broadcastInDim S1024x100x1 ![0, 1] bcast_S1024x100_S1024x100x1_0_1),
    StableHlo.TRef.nullary main_call48.cst (constant S_ .f32 0x7FC00000#32),
    StableHlo.TRef.unary main_call48.cst main_call48.v15 (broadcastInDim S1024x100x1 ![] bcast_S_S1024x100x1),
    StableHlo.TRef.ternary main_call48.v14 main_call48.v13 main_call48.v15 main_call48.v16 select,
    StableHlo.nullary main_cst_23 (constant S_ .f32 0x00000000#32),
    StableHlo.binary main_v195 main_cst_23 main_v196 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v197 ((extractStridedSlice S1x100x32 ![24, 0, 0] · slices_S26x100x32_S1x100x32_24_0_0) : (⟨S26x100x32, .f32⟩ : BufTy).Contents (Elt F) → (⟨S1x100x32, .f32⟩ : BufTy).Contents (Elt F)),
    StableHlo.reshape main_v197 main_v198 rfl shapeCasts_S1x100x32_S100x32,
    StableHlo.TRef.nullary main_call49.c (constantI S_ 32 0#32),
    StableHlo.TRef.unary main_call49.c main_call49.v0 (broadcastInDim S1024x100 ![] bcast_S_S1024x100),
    StableHlo.TRef.binary (.of main_v192 : StableHlo.TRef sig ⟨S1024x100, .i32⟩) main_call49.v0 main_call49.v1 (cmpi .slt),
    StableHlo.TRef.nullary main_call49.c_0 (constantI S_ 32 100#32),
    StableHlo.TRef.unary main_call49.c_0 main_call49.v2 (broadcastInDim S1024x100 ![] bcast_S_S1024x100),
    StableHlo.TRef.binary (.of main_v192 : StableHlo.TRef sig ⟨S1024x100, .i32⟩) main_call49.v2 main_call49.v3 addi,
    StableHlo.TRef.ternary main_call49.v1 main_call49.v3 (.of main_v192 : StableHlo.TRef sig ⟨S1024x100, .i32⟩) main_call49.call0.v0 select,
    StableHlo.TRef.unary main_call49.call0.v0 main_call49.v5 (broadcastInDim S1024x100x1 ![0, 1] bcast_S1024x100_S1024x100x1_0_1),
    StableHlo.TRef.nullary main_call49.c_1 (constantI S1 32 99#32),
    StableHlo.TRef.nullary main_call49.c_2 (constantI S_ 32 0#32),
    StableHlo.TRef.unary main_call49.c_2 main_call49.v6 (broadcastInDim S1024x100x1 ![] bcast_S_S1024x100x1),
    StableHlo.TRef.binary main_call49.v5 main_call49.v6 main_call49.v7 (cmpi .sge),
    StableHlo.TRef.unary main_call49.c_1 main_call49.v8 (broadcastInDim S1x1x1 ![2] bcast_S1_S1x1x1_2),
    StableHlo.TRef.unary main_call49.v8 main_call49.v9 (broadcastInDim S1024x100x1 ![0, 1, 2] bcast_S1x1x1_S1024x100x1_0_1_2),
    StableHlo.TRef.binary main_call49.v5 main_call49.v9 main_call49.v10 (cmpi .sle),
    StableHlo.TRef.binary main_call49.v7 main_call49.v10 main_call49.v11 andi,
    StableHlo.TRef.nullary main_call49.c_3 (constantI S_ 1 1#1),
    StableHlo.TRef.binary main_call49.v11 main_call49.c_3 main_call49.v12 (fun x v => Host.reduce IntOp.andi x v reducesTo_S1024x100x1_S1024x100_d2 h_S_),
    StableHlo.TRef.binary (.of main_v198 : StableHlo.TRef sig ⟨S100x32, .f32⟩) main_call49.v5 main_call49.v13 (fun x i => Host.gather gather_S100x32_S1024x100x1_S1024x100x32_2_0_n_n_0_2_132 x i),
    StableHlo.TRef.unary main_call49.v12 main_call49.v14 (broadcastInDim S1024x100x32 ![0, 1] bcast_S1024x100_S1024x100x32_0_1),
    StableHlo.TRef.nullary main_call49.cst (constant S_ .f32 0x7FC00000#32),
    StableHlo.TRef.unary main_call49.cst main_call49.v15 (broadcastInDim S1024x100x32 ![] bcast_S_S1024x100x32),
    StableHlo.TRef.ternary main_call49.v14 main_call49.v13 main_call49.v15 main_call49.v16 select,
    StableHlo.unary main_arg0 main_v200 ((extractStridedSlice S1024x100 ![0, 2525] · slices_S1024x2626_S1024x100_0_2525) : (⟨S1024x2626, .i32⟩ : BufTy).Contents (Elt F) → (⟨S1024x100, .i32⟩ : BufTy).Contents (Elt F)),
    StableHlo.unary main_arg2 main_v201 ((extractStridedSlice S1x100x1 ![25, 0, 0] · slices_S26x100x1_S1x100x1_25_0_0) : (⟨S26x100x1, .f32⟩ : BufTy).Contents (Elt F) → (⟨S1x100x1, .f32⟩ : BufTy).Contents (Elt F)),
    StableHlo.reshape main_v201 main_v202 rfl shapeCasts_S1x100x1_S100x1,
    StableHlo.TRef.nullary main_call50.c (constantI S_ 32 0#32),
    StableHlo.TRef.unary main_call50.c main_call50.v0 (broadcastInDim S1024x100 ![] bcast_S_S1024x100),
    StableHlo.TRef.binary (.of main_v200 : StableHlo.TRef sig ⟨S1024x100, .i32⟩) main_call50.v0 main_call50.v1 (cmpi .slt),
    StableHlo.TRef.nullary main_call50.c_0 (constantI S_ 32 100#32),
    StableHlo.TRef.unary main_call50.c_0 main_call50.v2 (broadcastInDim S1024x100 ![] bcast_S_S1024x100),
    StableHlo.TRef.binary (.of main_v200 : StableHlo.TRef sig ⟨S1024x100, .i32⟩) main_call50.v2 main_call50.v3 addi,
    StableHlo.TRef.ternary main_call50.v1 main_call50.v3 (.of main_v200 : StableHlo.TRef sig ⟨S1024x100, .i32⟩) main_call50.call0.v0 select,
    StableHlo.TRef.unary main_call50.call0.v0 main_call50.v5 (broadcastInDim S1024x100x1 ![0, 1] bcast_S1024x100_S1024x100x1_0_1),
    StableHlo.TRef.nullary main_call50.c_1 (constantI S1 32 99#32),
    StableHlo.TRef.nullary main_call50.c_2 (constantI S_ 32 0#32),
    StableHlo.TRef.unary main_call50.c_2 main_call50.v6 (broadcastInDim S1024x100x1 ![] bcast_S_S1024x100x1),
    StableHlo.TRef.binary main_call50.v5 main_call50.v6 main_call50.v7 (cmpi .sge),
    StableHlo.TRef.unary main_call50.c_1 main_call50.v8 (broadcastInDim S1x1x1 ![2] bcast_S1_S1x1x1_2),
    StableHlo.TRef.unary main_call50.v8 main_call50.v9 (broadcastInDim S1024x100x1 ![0, 1, 2] bcast_S1x1x1_S1024x100x1_0_1_2),
    StableHlo.TRef.binary main_call50.v5 main_call50.v9 main_call50.v10 (cmpi .sle),
    StableHlo.TRef.binary main_call50.v7 main_call50.v10 main_call50.v11 andi,
    StableHlo.TRef.nullary main_call50.c_3 (constantI S_ 1 1#1),
    StableHlo.TRef.binary main_call50.v11 main_call50.c_3 main_call50.v12 (fun x v => Host.reduce IntOp.andi x v reducesTo_S1024x100x1_S1024x100_d2 h_S_),
    StableHlo.TRef.binary (.of main_v202 : StableHlo.TRef sig ⟨S100x1, .f32⟩) main_call50.v5 main_call50.v13 (fun x i => Host.gather gather_S100x1_S1024x100x1_S1024x100x1_2_0_n_n_0_2_11 x i),
    StableHlo.TRef.unary main_call50.v12 main_call50.v14 (broadcastInDim S1024x100x1 ![0, 1] bcast_S1024x100_S1024x100x1_0_1),
    StableHlo.TRef.nullary main_call50.cst (constant S_ .f32 0x7FC00000#32),
    StableHlo.TRef.unary main_call50.cst main_call50.v15 (broadcastInDim S1024x100x1 ![] bcast_S_S1024x100x1),
    StableHlo.TRef.ternary main_call50.v14 main_call50.v13 main_call50.v15 main_call50.v16 select,
    StableHlo.nullary main_cst_24 (constant S_ .f32 0x00000000#32),
    StableHlo.binary main_v203 main_cst_24 main_v204 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v205 ((extractStridedSlice S1x100x32 ![25, 0, 0] · slices_S26x100x32_S1x100x32_25_0_0) : (⟨S26x100x32, .f32⟩ : BufTy).Contents (Elt F) → (⟨S1x100x32, .f32⟩ : BufTy).Contents (Elt F)),
    StableHlo.reshape main_v205 main_v206 rfl shapeCasts_S1x100x32_S100x32,
    StableHlo.TRef.nullary main_call51.c (constantI S_ 32 0#32),
    StableHlo.TRef.unary main_call51.c main_call51.v0 (broadcastInDim S1024x100 ![] bcast_S_S1024x100),
    StableHlo.TRef.binary (.of main_v200 : StableHlo.TRef sig ⟨S1024x100, .i32⟩) main_call51.v0 main_call51.v1 (cmpi .slt),
    StableHlo.TRef.nullary main_call51.c_0 (constantI S_ 32 100#32),
    StableHlo.TRef.unary main_call51.c_0 main_call51.v2 (broadcastInDim S1024x100 ![] bcast_S_S1024x100),
    StableHlo.TRef.binary (.of main_v200 : StableHlo.TRef sig ⟨S1024x100, .i32⟩) main_call51.v2 main_call51.v3 addi,
    StableHlo.TRef.ternary main_call51.v1 main_call51.v3 (.of main_v200 : StableHlo.TRef sig ⟨S1024x100, .i32⟩) main_call51.call0.v0 select,
    StableHlo.TRef.unary main_call51.call0.v0 main_call51.v5 (broadcastInDim S1024x100x1 ![0, 1] bcast_S1024x100_S1024x100x1_0_1),
    StableHlo.TRef.nullary main_call51.c_1 (constantI S1 32 99#32),
    StableHlo.TRef.nullary main_call51.c_2 (constantI S_ 32 0#32),
    StableHlo.TRef.unary main_call51.c_2 main_call51.v6 (broadcastInDim S1024x100x1 ![] bcast_S_S1024x100x1),
    StableHlo.TRef.binary main_call51.v5 main_call51.v6 main_call51.v7 (cmpi .sge),
    StableHlo.TRef.unary main_call51.c_1 main_call51.v8 (broadcastInDim S1x1x1 ![2] bcast_S1_S1x1x1_2),
    StableHlo.TRef.unary main_call51.v8 main_call51.v9 (broadcastInDim S1024x100x1 ![0, 1, 2] bcast_S1x1x1_S1024x100x1_0_1_2),
    StableHlo.TRef.binary main_call51.v5 main_call51.v9 main_call51.v10 (cmpi .sle),
    StableHlo.TRef.binary main_call51.v7 main_call51.v10 main_call51.v11 andi,
    StableHlo.TRef.nullary main_call51.c_3 (constantI S_ 1 1#1),
    StableHlo.TRef.binary main_call51.v11 main_call51.c_3 main_call51.v12 (fun x v => Host.reduce IntOp.andi x v reducesTo_S1024x100x1_S1024x100_d2 h_S_),
    StableHlo.TRef.binary (.of main_v206 : StableHlo.TRef sig ⟨S100x32, .f32⟩) main_call51.v5 main_call51.v13 (fun x i => Host.gather gather_S100x32_S1024x100x1_S1024x100x32_2_0_n_n_0_2_132 x i),
    StableHlo.TRef.unary main_call51.v12 main_call51.v14 (broadcastInDim S1024x100x32 ![0, 1] bcast_S1024x100_S1024x100x32_0_1),
    StableHlo.TRef.nullary main_call51.cst (constant S_ .f32 0x7FC00000#32),
    StableHlo.TRef.unary main_call51.cst main_call51.v15 (broadcastInDim S1024x100x32 ![] bcast_S_S1024x100x32),
    StableHlo.TRef.ternary main_call51.v14 main_call51.v13 main_call51.v15 main_call51.v16 select,
    StableHlo.nary ![main_v4, main_v12, main_v20, main_v28, main_v36, main_v44, main_v52, main_v60, main_v68, main_v76, main_v84, main_v92, main_v100, main_v108, main_v116, main_v124] main_v208 (fun u => concatenate S1024x16 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩, ⟨S1024x1, u 10⟩, ⟨S1024x1, u 11⟩, ⟨S1024x1, u 12⟩, ⟨S1024x1, u 13⟩, ⟨S1024x1, u 14⟩, ⟨S1024x1, u 15⟩] concatenates_S1024x1_S1024x1_S1024x1_S1024x1_S1024x1_S1024x1_S1024x1_S1024x1_S1024x1_S1024x1_S1024x1_S1024x1_S1024x1_S1024x1_S1024x1_S1024x1_S1024x16_d1),
    StableHlo.nary ![main_v132, main_v140, main_v148, main_v156, main_v164, main_v172, main_v180, main_v188, main_v196, main_v204] main_v209 (fun u => concatenate S1024x10 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩] concatenates_S1024x1_S1024x1_S1024x1_S1024x1_S1024x1_S1024x1_S1024x1_S1024x1_S1024x1_S1024x1_S1024x10_d1),
    StableHlo.binary main_v208 main_v209 main_v210 ((fun a b => concatenate S1024x26 1 [⟨S1024x16, a⟩, ⟨S1024x10, b⟩] concatenates_S1024x16_S1024x10_S1024x26_d1) : (⟨S1024x16, .f32⟩ : BufTy).Contents (Elt F) → (⟨S1024x10, .f32⟩ : BufTy).Contents (Elt F) → (⟨S1024x26, .f32⟩ : BufTy).Contents (Elt F)),
    StableHlo.binary main_v210 main_arg1 main_v211 ((fun a b => concatenate S1024x39 1 [⟨S1024x26, a⟩, ⟨S1024x13, b⟩] concatenates_S1024x26_S1024x13_S1024x39_d1) : (⟨S1024x26, .f32⟩ : BufTy).Contents (Elt F) → (⟨S1024x13, .f32⟩ : BufTy).Contents (Elt F) → (⟨S1024x39, .f32⟩ : BufTy).Contents (Elt F)),
    StableHlo.binary main_v211 main_arg4 main_v212 ((fun l r => Host.dotGeneral dot_S1024x39_S39x1_S1024x1_1_0_0_1_n_n none l r) : (⟨S1024x39, .f32⟩ : BufTy).Contents (Elt F) → (⟨S39x1, .f32⟩ : BufTy).Contents (Elt F) → (⟨S1024x1, .f32⟩ : BufTy).Contents (Elt F)),
    StableHlo.unary main_arg5 main_v213 (broadcastInDim S1x1 ![1] bcast_S1_S1x1_1 : (⟨S1, .f32⟩ : BufTy).Contents (Elt F) → (⟨S1x1, .f32⟩ : BufTy).Contents (Elt F)) ]

abbrev W4 : List (HloOp τ sig (Elt F)) :=
  [ StableHlo.unary main_v213 main_v214 (broadcastInDim S1024x1 ![0, 1] bcast_S1x1_S1024x1_0_1 : (⟨S1x1, .f32⟩ : BufTy).Contents (Elt F) → (⟨S1024x1, .f32⟩ : BufTy).Contents (Elt F)),
    StableHlo.binary main_v212 main_v214 main_v215 (addf : (⟨S1024x1, .f32⟩ : BufTy).Contents (Elt F) → (⟨S1024x1, .f32⟩ : BufTy).Contents (Elt F) → (⟨S1024x1, .f32⟩ : BufTy).Contents (Elt F)),
    StableHlo.nary ![main_v7, main_v15, main_v23, main_v31, main_v39, main_v47, main_v55, main_v63, main_v71, main_v79, main_v87, main_v95, main_v103, main_v111, main_v119, main_v127] main_v216 (fun u => concatenate S1024x1600x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩, ⟨S1024x100x32, u 10⟩, ⟨S1024x100x32, u 11⟩, ⟨S1024x100x32, u 12⟩, ⟨S1024x100x32, u 13⟩, ⟨S1024x100x32, u 14⟩, ⟨S1024x100x32, u 15⟩] concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1),
    StableHlo.nary ![main_v135, main_v143, main_v151, main_v159, main_v167, main_v175, main_v183, main_v191, main_v199, main_v207] main_v217 (fun u => concatenate S1024x1000x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩] concatenates_S1024x100x32_S1024x100x32_S1024x100x32_S1024x100x32_S1024x100x32_S1024x100x32_S1024x100x32_S1024x100x32_S1024x100x32_S1024x100x32_S1024x1000x32_d1),
    StableHlo.binary main_v216 main_v217 main_v218 ((fun a b => concatenate S1024x2600x32 1 [⟨S1024x1600x32, a⟩, ⟨S1024x1000x32, b⟩] concatenates_S1024x1600x32_S1024x1000x32_S1024x2600x32_d1) : (⟨S1024x1600x32, .f32⟩ : BufTy).Contents (Elt F) → (⟨S1024x1000x32, .f32⟩ : BufTy).Contents (Elt F) → (⟨S1024x2600x32, .f32⟩ : BufTy).Contents (Elt F)),
    StableHlo.nullary main_cst_25 (constant S_ .f32 0x00000000#32),
    StableHlo.binary main_v218 main_cst_25 main_v219 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v219 main_v220 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v220 main_v220 main_v221 (mulf : (⟨S1024x1x32, .f32⟩ : BufTy).Contents (Elt F) → (⟨S1024x1x32, .f32⟩ : BufTy).Contents (Elt F) → (⟨S1024x1x32, .f32⟩ : BufTy).Contents (Elt F)),
    StableHlo.binary main_v218 main_v218 main_v222 (mulf : (⟨S1024x2600x32, .f32⟩ : BufTy).Contents (Elt F) → (⟨S1024x2600x32, .f32⟩ : BufTy).Contents (Elt F) → (⟨S1024x2600x32, .f32⟩ : BufTy).Contents (Elt F)),
    StableHlo.nullary main_cst_26 (constant S_ .f32 0x00000000#32),
    StableHlo.binary main_v222 main_cst_26 main_v223 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v223 main_v224 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v221 main_v224 main_v225 (subf : (⟨S1024x1x32, .f32⟩ : BufTy).Contents (Elt F) → (⟨S1024x1x32, .f32⟩ : BufTy).Contents (Elt F) → (⟨S1024x1x32, .f32⟩ : BufTy).Contents (Elt F)),
    StableHlo.nullary main_cst_27 (constant S_ .f32 0x00000000#32),
    StableHlo.binary main_v225 main_cst_27 main_v226 ((fun x v => Host.reduceAdd x v reducesTo_S1024x1x32_S1024x1_d2 h_S_) : (⟨S1024x1x32, .f32⟩ : BufTy).Contents (Elt F) → (⟨S_, .f32⟩ : BufTy).Contents (Elt F) → (⟨S1024x1, .f32⟩ : BufTy).Contents (Elt F)),
    StableHlo.nullary main_cst_28 (constant S_ .f32 0x3F000000#32),
    StableHlo.unary main_cst_28 main_v227 (broadcastInDim S1024x1 ![] bcast_S_S1024x1 : (⟨S_, .f32⟩ : BufTy).Contents (Elt F) → (⟨S1024x1, .f32⟩ : BufTy).Contents (Elt F)),
    StableHlo.binary main_v227 main_v226 main_v228 (mulf : (⟨S1024x1, .f32⟩ : BufTy).Contents (Elt F) → (⟨S1024x1, .f32⟩ : BufTy).Contents (Elt F) → (⟨S1024x1, .f32⟩ : BufTy).Contents (Elt F)),
    StableHlo.binary main_v215 main_v228 main_v229 (addf : (⟨S1024x1, .f32⟩ : BufTy).Contents (Elt F) → (⟨S1024x1, .f32⟩ : BufTy).Contents (Elt F) → (⟨S1024x1, .f32⟩ : BufTy).Contents (Elt F)),
    StableHlo.unary main_v229 main_v230 (Host.negf : (⟨S1024x1, .f32⟩ : BufTy).Contents (Elt F) → (⟨S1024x1, .f32⟩ : BufTy).Contents (Elt F)),
    StableHlo.unary main_v230 main_v231 (Host.exp : (⟨S1024x1, .f32⟩ : BufTy).Contents (Elt F) → (⟨S1024x1, .f32⟩ : BufTy).Contents (Elt F)),
    StableHlo.nullary main_cst_29 (constant S_ .f32 0x3F800000#32),
    StableHlo.unary main_cst_29 main_v232 (broadcastInDim S1024x1 ![] bcast_S_S1024x1 : (⟨S_, .f32⟩ : BufTy).Contents (Elt F) → (⟨S1024x1, .f32⟩ : BufTy).Contents (Elt F)),
    StableHlo.binary main_v232 main_v231 main_v233 (addf : (⟨S1024x1, .f32⟩ : BufTy).Contents (Elt F) → (⟨S1024x1, .f32⟩ : BufTy).Contents (Elt F) → (⟨S1024x1, .f32⟩ : BufTy).Contents (Elt F)),
    StableHlo.nullary main_cst_30 (constant S_ .f32 0x3F800000#32),
    StableHlo.unary main_cst_30 main_v234 (broadcastInDim S1024x1 ![] bcast_S_S1024x1 : (⟨S_, .f32⟩ : BufTy).Contents (Elt F) → (⟨S1024x1, .f32⟩ : BufTy).Contents (Elt F)),
    StableHlo.binary main_v234 main_v233 main_v235 (Host.divf : (⟨S1024x1, .f32⟩ : BufTy).Contents (Elt F) → (⟨S1024x1, .f32⟩ : BufTy).Contents (Elt F) → (⟨S1024x1, .f32⟩ : BufTy).Contents (Elt F)) ]

/-- All operations, field by field. -/
abbrev opsF : List (HloOp τ sig (Elt F)) := F0 ++ (F1 ++ (F2 ++ (F3 ++ (F4 ++ (F5 ++ (F6 ++ (F7 ++ (F8 ++ (F9 ++ (F10 ++ (F11 ++ (F12 ++ (F13 ++ (F14 ++ (F15 ++ (F16 ++ (F17 ++ (F18 ++ (F19 ++ (F20 ++ (F21 ++ (F22 ++ (F23 ++ (F24 ++ (F25 ++ (Tl))))))))))))))))))))))))))
/-- All operations, window by window. -/
abbrev opsW : List (HloOp τ sig (Elt F)) := W0 ++ (W1 ++ (W2 ++ (W3 ++ W4)))

/-- The two groupings are one list. -/
theorem ops_eq : (opsW : List (HloOp τ sig (Elt F))) = opsF := rfl

end Cert.ReferenceIdeal.RefValue

end
-- ==== Proof.RefLib.lean ====
/-
  Small facts for reading a long straight line of host operations piece by piece: a piece whose written buffers are
  listed leaves every other buffer alone, and a property of every operation of two lists holds of their concatenation.
-/
import proofs.«205260_g26156350832969_cont_9to1_3_23_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A single written buffer that is in a list of references is in the list's image. -/
theorem wsub {W : List (Ref sig .tc)} {y : Ref sig .tc} (hy : y ∈ W) :
    ({Proc.devRef .tc y} : Finset (DevRef τ sig)) ⊆ (W.map (Proc.devRef (τ := τ) .tc)).toFinset :=
  Finset.singleton_subset_iff.mpr (List.mem_toFinset.mpr (List.mem_map.mpr ⟨y, hy, rfl⟩))

/-- What holds of every element of two lists holds of every element of their concatenation. -/
theorem forall_append {α : Type} {P : α → Prop} {l₁ l₂ : List α} (h₁ : l₁.Forall P) (h₂ : l₂.Forall P) :
    (l₁ ++ l₂).Forall P := by
  rw [List.forall_iff_forall_mem] at *
  intro x hx
  rcases List.mem_append.mp hx with h | h
  · exact h₁ x h
  · exact h₂ x h

/-- The fold over a concatenation is the fold over the second list from the fold over the first. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefValue

end
-- ==== Proof.RefFieldsA.lean ====
/-
  What each field's operations leave in the field's two results (the linear term and the looked-up rows) as functions
  of the arguments, which buffers they write, and that they touch device buffers only.  Fields 0 to 6.
-/
import proofs.«205260_g26156350832969_cont_9to1_3_23_alg».proof.Proof.Gen.ReferenceIdeal
import Idealize.ShloMosaic.Lib.StableHlo.Run
import proofs.«205260_g26156350832969_cont_9to1_3_23_alg».proof.Proof.RefDefs
import proofs.«205260_g26156350832969_cont_9to1_3_23_alg».proof.Proof.RefOps
import proofs.«205260_g26156350832969_cont_9to1_3_23_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ### Field 0 -/

set_option maxRecDepth 100000 in
set_option maxHeartbeats 1600000 in
theorem F0_lin (V : Valuation τ sig (Elt F)) :
    after F0 V (main_v4 : DevRef τ sig)
      = linField 0 slices_S1024x2626_S1024x100_0_0 0 slices_S26x100x1_S1x100x1_0_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F0_emb (V : Valuation τ sig (Elt F)) :
    after F0 V (main_v7 : DevRef τ sig)
      = embField 0 slices_S1024x2626_S1024x100_0_0 0 slices_S26x100x32_S1x100x32_0_0_0
          (V (main_arg0 : DevRef τ sig)) (V (main_arg3 : DevRef τ sig)) := by
  after_results_simp
  simp only [TRef.toBuf, TRef.ofBuf, cast_eq]
  rfl

/-- The buffers these operations write. -/
abbrev Wr0 : List (Ref sig .tc) :=
  [main_v0, main_v1, main_v2, main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref, main_cst, main_v4, main_v5, main_v6, main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]

theorem F0_writes : (F0 : List (HloOp τ sig (Elt F))).Forall fun op => op.writes ⊆ ((Wr0).map (Proc.devRef (τ := τ) .tc)).toFinset :=
  ⟨wsub (y := main_v0) (by decide),
   wsub (y := main_v1) (by decide),
   wsub (y := main_v2) (by decide),
   wsub (y := main_call0.c.ref) (by decide),
   wsub (y := main_call0.v0.ref) (by decide),
   wsub (y := main_call0.v1.ref) (by decide),
   wsub (y := main_call0.c_0.ref) (by decide),
   wsub (y := main_call0.v2.ref) (by decide),
   wsub (y := main_call0.v3.ref) (by decide),
   wsub (y := main_call0.call0.v0.ref) (by decide),
   wsub (y := main_call0.v5.ref) (by decide),
   wsub (y := main_call0.c_1.ref) (by decide),
   wsub (y := main_call0.c_2.ref) (by decide),
   wsub (y := main_call0.v6.ref) (by decide),
   wsub (y := main_call0.v7.ref) (by decide),
   wsub (y := main_call0.v8.ref) (by decide),
   wsub (y := main_call0.v9.ref) (by decide),
   wsub (y := main_call0.v10.ref) (by decide),
   wsub (y := main_call0.v11.ref) (by decide),
   wsub (y := main_call0.c_3.ref) (by decide),
   wsub (y := main_call0.v12.ref) (by decide),
   wsub (y := main_call0.v13.ref) (by decide),
   wsub (y := main_call0.v14.ref) (by decide),
   wsub (y := main_call0.cst.ref) (by decide),
   wsub (y := main_call0.v15.ref) (by decide),
   wsub (y := main_call0.v16.ref) (by decide),
   wsub (y := main_cst) (by decide),
   wsub (y := main_v4) (by decide),
   wsub (y := main_v5) (by decide),
   wsub (y := main_v6) (by decide),
   wsub (y := main_call1.c.ref) (by decide),
   wsub (y := main_call1.v0.ref) (by decide),
   wsub (y := main_call1.v1.ref) (by decide),
   wsub (y := main_call1.c_0.ref) (by decide),
   wsub (y := main_call1.v2.ref) (by decide),
   wsub (y := main_call1.v3.ref) (by decide),
   wsub (y := main_call1.call0.v0.ref) (by decide),
   wsub (y := main_call1.v5.ref) (by decide),
   wsub (y := main_call1.c_1.ref) (by decide),
   wsub (y := main_call1.c_2.ref) (by decide),
   wsub (y := main_call1.v6.ref) (by decide),
   wsub (y := main_call1.v7.ref) (by decide),
   wsub (y := main_call1.v8.ref) (by decide),
   wsub (y := main_call1.v9.ref) (by decide),
   wsub (y := main_call1.v10.ref) (by decide),
   wsub (y := main_call1.v11.ref) (by decide),
   wsub (y := main_call1.c_3.ref) (by decide),
   wsub (y := main_call1.v12.ref) (by decide),
   wsub (y := main_call1.v13.ref) (by decide),
   wsub (y := main_call1.v14.ref) (by decide),
   wsub (y := main_call1.cst.ref) (by decide),
   wsub (y := main_call1.v15.ref) (by decide),
   wsub (y := main_call1.v16.ref) (by decide)⟩

/-- A buffer these operations do not write keeps its contents. -/
theorem F0_frame (V : Valuation τ sig (Elt F)) {r : Ref sig .tc} (hr : r ∉ Wr0) :
    after F0 V (Proc.devRef .tc r) = V (Proc.devRef .tc r) :=
  after_of_writes_sub F0 V F0_writes hr

theorem F0_sub : (F0 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F0_fresh : (F0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 1 -/

set_option maxRecDepth 100000 in
set_option maxHeartbeats 1600000 in
theorem F1_lin (V : Valuation τ sig (Elt F)) :
    after F1 V (main_v12 : DevRef τ sig)
      = linField 101 slices_S1024x2626_S1024x100_0_101 1 slices_S26x100x1_S1x100x1_1_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F1_emb (V : Valuation τ sig (Elt F)) :
    after F1 V (main_v15 : DevRef τ sig)
      = embField 101 slices_S1024x2626_S1024x100_0_101 1 slices_S26x100x32_S1x100x32_1_0_0
          (V (main_arg0 : DevRef τ sig)) (V (main_arg3 : DevRef τ sig)) := by
  after_results_simp
  simp only [TRef.toBuf, TRef.ofBuf, cast_eq]
  rfl

/-- The buffers these operations write. -/
abbrev Wr1 : List (Ref sig .tc) :=
  [main_v8, main_v9, main_v10, main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref, main_cst_0, main_v12, main_v13, main_v14, main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]

theorem F1_writes : (F1 : List (HloOp τ sig (Elt F))).Forall fun op => op.writes ⊆ ((Wr1).map (Proc.devRef (τ := τ) .tc)).toFinset :=
  ⟨wsub (y := main_v8) (by decide),
   wsub (y := main_v9) (by decide),
   wsub (y := main_v10) (by decide),
   wsub (y := main_call2.c.ref) (by decide),
   wsub (y := main_call2.v0.ref) (by decide),
   wsub (y := main_call2.v1.ref) (by decide),
   wsub (y := main_call2.c_0.ref) (by decide),
   wsub (y := main_call2.v2.ref) (by decide),
   wsub (y := main_call2.v3.ref) (by decide),
   wsub (y := main_call2.call0.v0.ref) (by decide),
   wsub (y := main_call2.v5.ref) (by decide),
   wsub (y := main_call2.c_1.ref) (by decide),
   wsub (y := main_call2.c_2.ref) (by decide),
   wsub (y := main_call2.v6.ref) (by decide),
   wsub (y := main_call2.v7.ref) (by decide),
   wsub (y := main_call2.v8.ref) (by decide),
   wsub (y := main_call2.v9.ref) (by decide),
   wsub (y := main_call2.v10.ref) (by decide),
   wsub (y := main_call2.v11.ref) (by decide),
   wsub (y := main_call2.c_3.ref) (by decide),
   wsub (y := main_call2.v12.ref) (by decide),
   wsub (y := main_call2.v13.ref) (by decide),
   wsub (y := main_call2.v14.ref) (by decide),
   wsub (y := main_call2.cst.ref) (by decide),
   wsub (y := main_call2.v15.ref) (by decide),
   wsub (y := main_call2.v16.ref) (by decide),
   wsub (y := main_cst_0) (by decide),
   wsub (y := main_v12) (by decide),
   wsub (y := main_v13) (by decide),
   wsub (y := main_v14) (by decide),
   wsub (y := main_call3.c.ref) (by decide),
   wsub (y := main_call3.v0.ref) (by decide),
   wsub (y := main_call3.v1.ref) (by decide),
   wsub (y := main_call3.c_0.ref) (by decide),
   wsub (y := main_call3.v2.ref) (by decide),
   wsub (y := main_call3.v3.ref) (by decide),
   wsub (y := main_call3.call0.v0.ref) (by decide),
   wsub (y := main_call3.v5.ref) (by decide),
   wsub (y := main_call3.c_1.ref) (by decide),
   wsub (y := main_call3.c_2.ref) (by decide),
   wsub (y := main_call3.v6.ref) (by decide),
   wsub (y := main_call3.v7.ref) (by decide),
   wsub (y := main_call3.v8.ref) (by decide),
   wsub (y := main_call3.v9.ref) (by decide),
   wsub (y := main_call3.v10.ref) (by decide),
   wsub (y := main_call3.v11.ref) (by decide),
   wsub (y := main_call3.c_3.ref) (by decide),
   wsub (y := main_call3.v12.ref) (by decide),
   wsub (y := main_call3.v13.ref) (by decide),
   wsub (y := main_call3.v14.ref) (by decide),
   wsub (y := main_call3.cst.ref) (by decide),
   wsub (y := main_call3.v15.ref) (by decide),
   wsub (y := main_call3.v16.ref) (by decide)⟩

/-- A buffer these operations do not write keeps its contents. -/
theorem F1_frame (V : Valuation τ sig (Elt F)) {r : Ref sig .tc} (hr : r ∉ Wr1) :
    after F1 V (Proc.devRef .tc r) = V (Proc.devRef .tc r) :=
  after_of_writes_sub F1 V F1_writes hr

theorem F1_sub : (F1 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F1_fresh : (F1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 2 -/

set_option maxRecDepth 100000 in
set_option maxHeartbeats 1600000 in
theorem F2_lin (V : Valuation τ sig (Elt F)) :
    after F2 V (main_v20 : DevRef τ sig)
      = linField 202 slices_S1024x2626_S1024x100_0_202 2 slices_S26x100x1_S1x100x1_2_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F2_emb (V : Valuation τ sig (Elt F)) :
    after F2 V (main_v23 : DevRef τ sig)
      = embField 202 slices_S1024x2626_S1024x100_0_202 2 slices_S26x100x32_S1x100x32_2_0_0
          (V (main_arg0 : DevRef τ sig)) (V (main_arg3 : DevRef τ sig)) := by
  after_results_simp
  simp only [TRef.toBuf, TRef.ofBuf, cast_eq]
  rfl

/-- The buffers these operations write. -/
abbrev Wr2 : List (Ref sig .tc) :=
  [main_v16, main_v17, main_v18, main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref, main_cst_1, main_v20, main_v21, main_v22, main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.v11.ref, main_call5.c_3.ref, main_call5.v12.ref, main_call5.v13.ref, main_call5.v14.ref, main_call5.cst.ref, main_call5.v15.ref, main_call5.v16.ref]

theorem F2_writes : (F2 : List (HloOp τ sig (Elt F))).Forall fun op => op.writes ⊆ ((Wr2).map (Proc.devRef (τ := τ) .tc)).toFinset :=
  ⟨wsub (y := main_v16) (by decide),
   wsub (y := main_v17) (by decide),
   wsub (y := main_v18) (by decide),
   wsub (y := main_call4.c.ref) (by decide),
   wsub (y := main_call4.v0.ref) (by decide),
   wsub (y := main_call4.v1.ref) (by decide),
   wsub (y := main_call4.c_0.ref) (by decide),
   wsub (y := main_call4.v2.ref) (by decide),
   wsub (y := main_call4.v3.ref) (by decide),
   wsub (y := main_call4.call0.v0.ref) (by decide),
   wsub (y := main_call4.v5.ref) (by decide),
   wsub (y := main_call4.c_1.ref) (by decide),
   wsub (y := main_call4.c_2.ref) (by decide),
   wsub (y := main_call4.v6.ref) (by decide),
   wsub (y := main_call4.v7.ref) (by decide),
   wsub (y := main_call4.v8.ref) (by decide),
   wsub (y := main_call4.v9.ref) (by decide),
   wsub (y := main_call4.v10.ref) (by decide),
   wsub (y := main_call4.v11.ref) (by decide),
   wsub (y := main_call4.c_3.ref) (by decide),
   wsub (y := main_call4.v12.ref) (by decide),
   wsub (y := main_call4.v13.ref) (by decide),
   wsub (y := main_call4.v14.ref) (by decide),
   wsub (y := main_call4.cst.ref) (by decide),
   wsub (y := main_call4.v15.ref) (by decide),
   wsub (y := main_call4.v16.ref) (by decide),
   wsub (y := main_cst_1) (by decide),
   wsub (y := main_v20) (by decide),
   wsub (y := main_v21) (by decide),
   wsub (y := main_v22) (by decide),
   wsub (y := main_call5.c.ref) (by decide),
   wsub (y := main_call5.v0.ref) (by decide),
   wsub (y := main_call5.v1.ref) (by decide),
   wsub (y := main_call5.c_0.ref) (by decide),
   wsub (y := main_call5.v2.ref) (by decide),
   wsub (y := main_call5.v3.ref) (by decide),
   wsub (y := main_call5.call0.v0.ref) (by decide),
   wsub (y := main_call5.v5.ref) (by decide),
   wsub (y := main_call5.c_1.ref) (by decide),
   wsub (y := main_call5.c_2.ref) (by decide),
   wsub (y := main_call5.v6.ref) (by decide),
   wsub (y := main_call5.v7.ref) (by decide),
   wsub (y := main_call5.v8.ref) (by decide),
   wsub (y := main_call5.v9.ref) (by decide),
   wsub (y := main_call5.v10.ref) (by decide),
   wsub (y := main_call5.v11.ref) (by decide),
   wsub (y := main_call5.c_3.ref) (by decide),
   wsub (y := main_call5.v12.ref) (by decide),
   wsub (y := main_call5.v13.ref) (by decide),
   wsub (y := main_call5.v14.ref) (by decide),
   wsub (y := main_call5.cst.ref) (by decide),
   wsub (y := main_call5.v15.ref) (by decide),
   wsub (y := main_call5.v16.ref) (by decide)⟩

/-- A buffer these operations do not write keeps its contents. -/
theorem F2_frame (V : Valuation τ sig (Elt F)) {r : Ref sig .tc} (hr : r ∉ Wr2) :
    after F2 V (Proc.devRef .tc r) = V (Proc.devRef .tc r) :=
  after_of_writes_sub F2 V F2_writes hr

theorem F2_sub : (F2 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F2_fresh : (F2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 3 -/

set_option maxRecDepth 100000 in
set_option maxHeartbeats 1600000 in
theorem F3_lin (V : Valuation τ sig (Elt F)) :
    after F3 V (main_v28 : DevRef τ sig)
      = linField 303 slices_S1024x2626_S1024x100_0_303 3 slices_S26x100x1_S1x100x1_3_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F3_emb (V : Valuation τ sig (Elt F)) :
    after F3 V (main_v31 : DevRef τ sig)
      = embField 303 slices_S1024x2626_S1024x100_0_303 3 slices_S26x100x32_S1x100x32_3_0_0
          (V (main_arg0 : DevRef τ sig)) (V (main_arg3 : DevRef τ sig)) := by
  after_results_simp
  simp only [TRef.toBuf, TRef.ofBuf, cast_eq]
  rfl

/-- The buffers these operations write. -/
abbrev Wr3 : List (Ref sig .tc) :=
  [main_v24, main_v25, main_v26, main_call6.c.ref, main_call6.v0.ref, main_call6.v1.ref, main_call6.c_0.ref, main_call6.v2.ref, main_call6.v3.ref, main_call6.call0.v0.ref, main_call6.v5.ref, main_call6.c_1.ref, main_call6.c_2.ref, main_call6.v6.ref, main_call6.v7.ref, main_call6.v8.ref, main_call6.v9.ref, main_call6.v10.ref, main_call6.v11.ref, main_call6.c_3.ref, main_call6.v12.ref, main_call6.v13.ref, main_call6.v14.ref, main_call6.cst.ref, main_call6.v15.ref, main_call6.v16.ref, main_cst_2, main_v28, main_v29, main_v30, main_call7.c.ref, main_call7.v0.ref, main_call7.v1.ref, main_call7.c_0.ref, main_call7.v2.ref, main_call7.v3.ref, main_call7.call0.v0.ref, main_call7.v5.ref, main_call7.c_1.ref, main_call7.c_2.ref, main_call7.v6.ref, main_call7.v7.ref, main_call7.v8.ref, main_call7.v9.ref, main_call7.v10.ref, main_call7.v11.ref, main_call7.c_3.ref, main_call7.v12.ref, main_call7.v13.ref, main_call7.v14.ref, main_call7.cst.ref, main_call7.v15.ref, main_call7.v16.ref]

theorem F3_writes : (F3 : List (HloOp τ sig (Elt F))).Forall fun op => op.writes ⊆ ((Wr3).map (Proc.devRef (τ := τ) .tc)).toFinset :=
  ⟨wsub (y := main_v24) (by decide),
   wsub (y := main_v25) (by decide),
   wsub (y := main_v26) (by decide),
   wsub (y := main_call6.c.ref) (by decide),
   wsub (y := main_call6.v0.ref) (by decide),
   wsub (y := main_call6.v1.ref) (by decide),
   wsub (y := main_call6.c_0.ref) (by decide),
   wsub (y := main_call6.v2.ref) (by decide),
   wsub (y := main_call6.v3.ref) (by decide),
   wsub (y := main_call6.call0.v0.ref) (by decide),
   wsub (y := main_call6.v5.ref) (by decide),
   wsub (y := main_call6.c_1.ref) (by decide),
   wsub (y := main_call6.c_2.ref) (by decide),
   wsub (y := main_call6.v6.ref) (by decide),
   wsub (y := main_call6.v7.ref) (by decide),
   wsub (y := main_call6.v8.ref) (by decide),
   wsub (y := main_call6.v9.ref) (by decide),
   wsub (y := main_call6.v10.ref) (by decide),
   wsub (y := main_call6.v11.ref) (by decide),
   wsub (y := main_call6.c_3.ref) (by decide),
   wsub (y := main_call6.v12.ref) (by decide),
   wsub (y := main_call6.v13.ref) (by decide),
   wsub (y := main_call6.v14.ref) (by decide),
   wsub (y := main_call6.cst.ref) (by decide),
   wsub (y := main_call6.v15.ref) (by decide),
   wsub (y := main_call6.v16.ref) (by decide),
   wsub (y := main_cst_2) (by decide),
   wsub (y := main_v28) (by decide),
   wsub (y := main_v29) (by decide),
   wsub (y := main_v30) (by decide),
   wsub (y := main_call7.c.ref) (by decide),
   wsub (y := main_call7.v0.ref) (by decide),
   wsub (y := main_call7.v1.ref) (by decide),
   wsub (y := main_call7.c_0.ref) (by decide),
   wsub (y := main_call7.v2.ref) (by decide),
   wsub (y := main_call7.v3.ref) (by decide),
   wsub (y := main_call7.call0.v0.ref) (by decide),
   wsub (y := main_call7.v5.ref) (by decide),
   wsub (y := main_call7.c_1.ref) (by decide),
   wsub (y := main_call7.c_2.ref) (by decide),
   wsub (y := main_call7.v6.ref) (by decide),
   wsub (y := main_call7.v7.ref) (by decide),
   wsub (y := main_call7.v8.ref) (by decide),
   wsub (y := main_call7.v9.ref) (by decide),
   wsub (y := main_call7.v10.ref) (by decide),
   wsub (y := main_call7.v11.ref) (by decide),
   wsub (y := main_call7.c_3.ref) (by decide),
   wsub (y := main_call7.v12.ref) (by decide),
   wsub (y := main_call7.v13.ref) (by decide),
   wsub (y := main_call7.v14.ref) (by decide),
   wsub (y := main_call7.cst.ref) (by decide),
   wsub (y := main_call7.v15.ref) (by decide),
   wsub (y := main_call7.v16.ref) (by decide)⟩

/-- A buffer these operations do not write keeps its contents. -/
theorem F3_frame (V : Valuation τ sig (Elt F)) {r : Ref sig .tc} (hr : r ∉ Wr3) :
    after F3 V (Proc.devRef .tc r) = V (Proc.devRef .tc r) :=
  after_of_writes_sub F3 V F3_writes hr

theorem F3_sub : (F3 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F3_fresh : (F3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 4 -/

set_option maxRecDepth 100000 in
set_option maxHeartbeats 1600000 in
theorem F4_lin (V : Valuation τ sig (Elt F)) :
    after F4 V (main_v36 : DevRef τ sig)
      = linField 404 slices_S1024x2626_S1024x100_0_404 4 slices_S26x100x1_S1x100x1_4_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F4_emb (V : Valuation τ sig (Elt F)) :
    after F4 V (main_v39 : DevRef τ sig)
      = embField 404 slices_S1024x2626_S1024x100_0_404 4 slices_S26x100x32_S1x100x32_4_0_0
          (V (main_arg0 : DevRef τ sig)) (V (main_arg3 : DevRef τ sig)) := by
  after_results_simp
  simp only [TRef.toBuf, TRef.ofBuf, cast_eq]
  rfl

/-- The buffers these operations write. -/
abbrev Wr4 : List (Ref sig .tc) :=
  [main_v32, main_v33, main_v34, main_call8.c.ref, main_call8.v0.ref, main_call8.v1.ref, main_call8.c_0.ref, main_call8.v2.ref, main_call8.v3.ref, main_call8.call0.v0.ref, main_call8.v5.ref, main_call8.c_1.ref, main_call8.c_2.ref, main_call8.v6.ref, main_call8.v7.ref, main_call8.v8.ref, main_call8.v9.ref, main_call8.v10.ref, main_call8.v11.ref, main_call8.c_3.ref, main_call8.v12.ref, main_call8.v13.ref, main_call8.v14.ref, main_call8.cst.ref, main_call8.v15.ref, main_call8.v16.ref, main_cst_3, main_v36, main_v37, main_v38, main_call9.c.ref, main_call9.v0.ref, main_call9.v1.ref, main_call9.c_0.ref, main_call9.v2.ref, main_call9.v3.ref, main_call9.call0.v0.ref, main_call9.v5.ref, main_call9.c_1.ref, main_call9.c_2.ref, main_call9.v6.ref, main_call9.v7.ref, main_call9.v8.ref, main_call9.v9.ref, main_call9.v10.ref, main_call9.v11.ref, main_call9.c_3.ref, main_call9.v12.ref, main_call9.v13.ref, main_call9.v14.ref, main_call9.cst.ref, main_call9.v15.ref, main_call9.v16.ref]

theorem F4_writes : (F4 : List (HloOp τ sig (Elt F))).Forall fun op => op.writes ⊆ ((Wr4).map (Proc.devRef (τ := τ) .tc)).toFinset :=
  ⟨wsub (y := main_v32) (by decide),
   wsub (y := main_v33) (by decide),
   wsub (y := main_v34) (by decide),
   wsub (y := main_call8.c.ref) (by decide),
   wsub (y := main_call8.v0.ref) (by decide),
   wsub (y := main_call8.v1.ref) (by decide),
   wsub (y := main_call8.c_0.ref) (by decide),
   wsub (y := main_call8.v2.ref) (by decide),
   wsub (y := main_call8.v3.ref) (by decide),
   wsub (y := main_call8.call0.v0.ref) (by decide),
   wsub (y := main_call8.v5.ref) (by decide),
   wsub (y := main_call8.c_1.ref) (by decide),
   wsub (y := main_call8.c_2.ref) (by decide),
   wsub (y := main_call8.v6.ref) (by decide),
   wsub (y := main_call8.v7.ref) (by decide),
   wsub (y := main_call8.v8.ref) (by decide),
   wsub (y := main_call8.v9.ref) (by decide),
   wsub (y := main_call8.v10.ref) (by decide),
   wsub (y := main_call8.v11.ref) (by decide),
   wsub (y := main_call8.c_3.ref) (by decide),
   wsub (y := main_call8.v12.ref) (by decide),
   wsub (y := main_call8.v13.ref) (by decide),
   wsub (y := main_call8.v14.ref) (by decide),
   wsub (y := main_call8.cst.ref) (by decide),
   wsub (y := main_call8.v15.ref) (by decide),
   wsub (y := main_call8.v16.ref) (by decide),
   wsub (y := main_cst_3) (by decide),
   wsub (y := main_v36) (by decide),
   wsub (y := main_v37) (by decide),
   wsub (y := main_v38) (by decide),
   wsub (y := main_call9.c.ref) (by decide),
   wsub (y := main_call9.v0.ref) (by decide),
   wsub (y := main_call9.v1.ref) (by decide),
   wsub (y := main_call9.c_0.ref) (by decide),
   wsub (y := main_call9.v2.ref) (by decide),
   wsub (y := main_call9.v3.ref) (by decide),
   wsub (y := main_call9.call0.v0.ref) (by decide),
   wsub (y := main_call9.v5.ref) (by decide),
   wsub (y := main_call9.c_1.ref) (by decide),
   wsub (y := main_call9.c_2.ref) (by decide),
   wsub (y := main_call9.v6.ref) (by decide),
   wsub (y := main_call9.v7.ref) (by decide),
   wsub (y := main_call9.v8.ref) (by decide),
   wsub (y := main_call9.v9.ref) (by decide),
   wsub (y := main_call9.v10.ref) (by decide),
   wsub (y := main_call9.v11.ref) (by decide),
   wsub (y := main_call9.c_3.ref) (by decide),
   wsub (y := main_call9.v12.ref) (by decide),
   wsub (y := main_call9.v13.ref) (by decide),
   wsub (y := main_call9.v14.ref) (by decide),
   wsub (y := main_call9.cst.ref) (by decide),
   wsub (y := main_call9.v15.ref) (by decide),
   wsub (y := main_call9.v16.ref) (by decide)⟩

/-- A buffer these operations do not write keeps its contents. -/
theorem F4_frame (V : Valuation τ sig (Elt F)) {r : Ref sig .tc} (hr : r ∉ Wr4) :
    after F4 V (Proc.devRef .tc r) = V (Proc.devRef .tc r) :=
  after_of_writes_sub F4 V F4_writes hr

theorem F4_sub : (F4 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F4_fresh : (F4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 5 -/

set_option maxRecDepth 100000 in
set_option maxHeartbeats 1600000 in
theorem F5_lin (V : Valuation τ sig (Elt F)) :
    after F5 V (main_v44 : DevRef τ sig)
      = linField 505 slices_S1024x2626_S1024x100_0_505 5 slices_S26x100x1_S1x100x1_5_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F5_emb (V : Valuation τ sig (Elt F)) :
    after F5 V (main_v47 : DevRef τ sig)
      = embField 505 slices_S1024x2626_S1024x100_0_505 5 slices_S26x100x32_S1x100x32_5_0_0
          (V (main_arg0 : DevRef τ sig)) (V (main_arg3 : DevRef τ sig)) := by
  after_results_simp
  simp only [TRef.toBuf, TRef.ofBuf, cast_eq]
  rfl

/-- The buffers these operations write. -/
abbrev Wr5 : List (Ref sig .tc) :=
  [main_v40, main_v41, main_v42, main_call10.c.ref, main_call10.v0.ref, main_call10.v1.ref, main_call10.c_0.ref, main_call10.v2.ref, main_call10.v3.ref, main_call10.call0.v0.ref, main_call10.v5.ref, main_call10.c_1.ref, main_call10.c_2.ref, main_call10.v6.ref, main_call10.v7.ref, main_call10.v8.ref, main_call10.v9.ref, main_call10.v10.ref, main_call10.v11.ref, main_call10.c_3.ref, main_call10.v12.ref, main_call10.v13.ref, main_call10.v14.ref, main_call10.cst.ref, main_call10.v15.ref, main_call10.v16.ref, main_cst_4, main_v44, main_v45, main_v46, main_call11.c.ref, main_call11.v0.ref, main_call11.v1.ref, main_call11.c_0.ref, main_call11.v2.ref, main_call11.v3.ref, main_call11.call0.v0.ref, main_call11.v5.ref, main_call11.c_1.ref, main_call11.c_2.ref, main_call11.v6.ref, main_call11.v7.ref, main_call11.v8.ref, main_call11.v9.ref, main_call11.v10.ref, main_call11.v11.ref, main_call11.c_3.ref, main_call11.v12.ref, main_call11.v13.ref, main_call11.v14.ref, main_call11.cst.ref, main_call11.v15.ref, main_call11.v16.ref]

theorem F5_writes : (F5 : List (HloOp τ sig (Elt F))).Forall fun op => op.writes ⊆ ((Wr5).map (Proc.devRef (τ := τ) .tc)).toFinset :=
  ⟨wsub (y := main_v40) (by decide),
   wsub (y := main_v41) (by decide),
   wsub (y := main_v42) (by decide),
   wsub (y := main_call10.c.ref) (by decide),
   wsub (y := main_call10.v0.ref) (by decide),
   wsub (y := main_call10.v1.ref) (by decide),
   wsub (y := main_call10.c_0.ref) (by decide),
   wsub (y := main_call10.v2.ref) (by decide),
   wsub (y := main_call10.v3.ref) (by decide),
   wsub (y := main_call10.call0.v0.ref) (by decide),
   wsub (y := main_call10.v5.ref) (by decide),
   wsub (y := main_call10.c_1.ref) (by decide),
   wsub (y := main_call10.c_2.ref) (by decide),
   wsub (y := main_call10.v6.ref) (by decide),
   wsub (y := main_call10.v7.ref) (by decide),
   wsub (y := main_call10.v8.ref) (by decide),
   wsub (y := main_call10.v9.ref) (by decide),
   wsub (y := main_call10.v10.ref) (by decide),
   wsub (y := main_call10.v11.ref) (by decide),
   wsub (y := main_call10.c_3.ref) (by decide),
   wsub (y := main_call10.v12.ref) (by decide),
   wsub (y := main_call10.v13.ref) (by decide),
   wsub (y := main_call10.v14.ref) (by decide),
   wsub (y := main_call10.cst.ref) (by decide),
   wsub (y := main_call10.v15.ref) (by decide),
   wsub (y := main_call10.v16.ref) (by decide),
   wsub (y := main_cst_4) (by decide),
   wsub (y := main_v44) (by decide),
   wsub (y := main_v45) (by decide),
   wsub (y := main_v46) (by decide),
   wsub (y := main_call11.c.ref) (by decide),
   wsub (y := main_call11.v0.ref) (by decide),
   wsub (y := main_call11.v1.ref) (by decide),
   wsub (y := main_call11.c_0.ref) (by decide),
   wsub (y := main_call11.v2.ref) (by decide),
   wsub (y := main_call11.v3.ref) (by decide),
   wsub (y := main_call11.call0.v0.ref) (by decide),
   wsub (y := main_call11.v5.ref) (by decide),
   wsub (y := main_call11.c_1.ref) (by decide),
   wsub (y := main_call11.c_2.ref) (by decide),
   wsub (y := main_call11.v6.ref) (by decide),
   wsub (y := main_call11.v7.ref) (by decide),
   wsub (y := main_call11.v8.ref) (by decide),
   wsub (y := main_call11.v9.ref) (by decide),
   wsub (y := main_call11.v10.ref) (by decide),
   wsub (y := main_call11.v11.ref) (by decide),
   wsub (y := main_call11.c_3.ref) (by decide),
   wsub (y := main_call11.v12.ref) (by decide),
   wsub (y := main_call11.v13.ref) (by decide),
   wsub (y := main_call11.v14.ref) (by decide),
   wsub (y := main_call11.cst.ref) (by decide),
   wsub (y := main_call11.v15.ref) (by decide),
   wsub (y := main_call11.v16.ref) (by decide)⟩

/-- A buffer these operations do not write keeps its contents. -/
theorem F5_frame (V : Valuation τ sig (Elt F)) {r : Ref sig .tc} (hr : r ∉ Wr5) :
    after F5 V (Proc.devRef .tc r) = V (Proc.devRef .tc r) :=
  after_of_writes_sub F5 V F5_writes hr

theorem F5_sub : (F5 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F5_fresh : (F5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 6 -/

set_option maxRecDepth 100000 in
set_option maxHeartbeats 1600000 in
theorem F6_lin (V : Valuation τ sig (Elt F)) :
    after F6 V (main_v52 : DevRef τ sig)
      = linField 606 slices_S1024x2626_S1024x100_0_606 6 slices_S26x100x1_S1x100x1_6_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F6_emb (V : Valuation τ sig (Elt F)) :
    after F6 V (main_v55 : DevRef τ sig)
      = embField 606 slices_S1024x2626_S1024x100_0_606 6 slices_S26x100x32_S1x100x32_6_0_0
          (V (main_arg0 : DevRef τ sig)) (V (main_arg3 : DevRef τ sig)) := by
  after_results_simp
  simp only [TRef.toBuf, TRef.ofBuf, cast_eq]
  rfl

/-- The buffers these operations write. -/
abbrev Wr6 : List (Ref sig .tc) :=
  [main_v48, main_v49, main_v50, main_call12.c.ref, main_call12.v0.ref, main_call12.v1.ref, main_call12.c_0.ref, main_call12.v2.ref, main_call12.v3.ref, main_call12.call0.v0.ref, main_call12.v5.ref, main_call12.c_1.ref, main_call12.c_2.ref, main_call12.v6.ref, main_call12.v7.ref, main_call12.v8.ref, main_call12.v9.ref, main_call12.v10.ref, main_call12.v11.ref, main_call12.c_3.ref, main_call12.v12.ref, main_call12.v13.ref, main_call12.v14.ref, main_call12.cst.ref, main_call12.v15.ref, main_call12.v16.ref, main_cst_5, main_v52, main_v53, main_v54, main_call13.c.ref, main_call13.v0.ref, main_call13.v1.ref, main_call13.c_0.ref, main_call13.v2.ref, main_call13.v3.ref, main_call13.call0.v0.ref, main_call13.v5.ref, main_call13.c_1.ref, main_call13.c_2.ref, main_call13.v6.ref, main_call13.v7.ref, main_call13.v8.ref, main_call13.v9.ref, main_call13.v10.ref, main_call13.v11.ref, main_call13.c_3.ref, main_call13.v12.ref, main_call13.v13.ref, main_call13.v14.ref, main_call13.cst.ref, main_call13.v15.ref, main_call13.v16.ref]

theorem F6_writes : (F6 : List (HloOp τ sig (Elt F))).Forall fun op => op.writes ⊆ ((Wr6).map (Proc.devRef (τ := τ) .tc)).toFinset :=
  ⟨wsub (y := main_v48) (by decide),
   wsub (y := main_v49) (by decide),
   wsub (y := main_v50) (by decide),
   wsub (y := main_call12.c.ref) (by decide),
   wsub (y := main_call12.v0.ref) (by decide),
   wsub (y := main_call12.v1.ref) (by decide),
   wsub (y := main_call12.c_0.ref) (by decide),
   wsub (y := main_call12.v2.ref) (by decide),
   wsub (y := main_call12.v3.ref) (by decide),
   wsub (y := main_call12.call0.v0.ref) (by decide),
   wsub (y := main_call12.v5.ref) (by decide),
   wsub (y := main_call12.c_1.ref) (by decide),
   wsub (y := main_call12.c_2.ref) (by decide),
   wsub (y := main_call12.v6.ref) (by decide),
   wsub (y := main_call12.v7.ref) (by decide),
   wsub (y := main_call12.v8.ref) (by decide),
   wsub (y := main_call12.v9.ref) (by decide),
   wsub (y := main_call12.v10.ref) (by decide),
   wsub (y := main_call12.v11.ref) (by decide),
   wsub (y := main_call12.c_3.ref) (by decide),
   wsub (y := main_call12.v12.ref) (by decide),
   wsub (y := main_call12.v13.ref) (by decide),
   wsub (y := main_call12.v14.ref) (by decide),
   wsub (y := main_call12.cst.ref) (by decide),
   wsub (y := main_call12.v15.ref) (by decide),
   wsub (y := main_call12.v16.ref) (by decide),
   wsub (y := main_cst_5) (by decide),
   wsub (y := main_v52) (by decide),
   wsub (y := main_v53) (by decide),
   wsub (y := main_v54) (by decide),
   wsub (y := main_call13.c.ref) (by decide),
   wsub (y := main_call13.v0.ref) (by decide),
   wsub (y := main_call13.v1.ref) (by decide),
   wsub (y := main_call13.c_0.ref) (by decide),
   wsub (y := main_call13.v2.ref) (by decide),
   wsub (y := main_call13.v3.ref) (by decide),
   wsub (y := main_call13.call0.v0.ref) (by decide),
   wsub (y := main_call13.v5.ref) (by decide),
   wsub (y := main_call13.c_1.ref) (by decide),
   wsub (y := main_call13.c_2.ref) (by decide),
   wsub (y := main_call13.v6.ref) (by decide),
   wsub (y := main_call13.v7.ref) (by decide),
   wsub (y := main_call13.v8.ref) (by decide),
   wsub (y := main_call13.v9.ref) (by decide),
   wsub (y := main_call13.v10.ref) (by decide),
   wsub (y := main_call13.v11.ref) (by decide),
   wsub (y := main_call13.c_3.ref) (by decide),
   wsub (y := main_call13.v12.ref) (by decide),
   wsub (y := main_call13.v13.ref) (by decide),
   wsub (y := main_call13.v14.ref) (by decide),
   wsub (y := main_call13.cst.ref) (by decide),
   wsub (y := main_call13.v15.ref) (by decide),
   wsub (y := main_call13.v16.ref) (by decide)⟩

/-- A buffer these operations do not write keeps its contents. -/
theorem F6_frame (V : Valuation τ sig (Elt F)) {r : Ref sig .tc} (hr : r ∉ Wr6) :
    after F6 V (Proc.devRef .tc r) = V (Proc.devRef .tc r) :=
  after_of_writes_sub F6 V F6_writes hr

theorem F6_sub : (F6 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F6_fresh : (F6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefFieldsB.lean ====
/-
  What each field's operations leave in the field's two results (the linear term and the looked-up rows) as functions
  of the arguments, which buffers they write, and that they touch device buffers only.  Fields 7 to 13.
-/
import proofs.«205260_g26156350832969_cont_9to1_3_23_alg».proof.Proof.Gen.ReferenceIdeal
import Idealize.ShloMosaic.Lib.StableHlo.Run
import proofs.«205260_g26156350832969_cont_9to1_3_23_alg».proof.Proof.RefDefs
import proofs.«205260_g26156350832969_cont_9to1_3_23_alg».proof.Proof.RefOps
import proofs.«205260_g26156350832969_cont_9to1_3_23_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ### Field 7 -/

set_option maxRecDepth 100000 in
set_option maxHeartbeats 1600000 in
theorem F7_lin (V : Valuation τ sig (Elt F)) :
    after F7 V (main_v60 : DevRef τ sig)
      = linField 707 slices_S1024x2626_S1024x100_0_707 7 slices_S26x100x1_S1x100x1_7_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F7_emb (V : Valuation τ sig (Elt F)) :
    after F7 V (main_v63 : DevRef τ sig)
      = embField 707 slices_S1024x2626_S1024x100_0_707 7 slices_S26x100x32_S1x100x32_7_0_0
          (V (main_arg0 : DevRef τ sig)) (V (main_arg3 : DevRef τ sig)) := by
  after_results_simp
  simp only [TRef.toBuf, TRef.ofBuf, cast_eq]
  rfl

/-- The buffers these operations write. -/
abbrev Wr7 : List (Ref sig .tc) :=
  [main_v56, main_v57, main_v58, main_call14.c.ref, main_call14.v0.ref, main_call14.v1.ref, main_call14.c_0.ref, main_call14.v2.ref, main_call14.v3.ref, main_call14.call0.v0.ref, main_call14.v5.ref, main_call14.c_1.ref, main_call14.c_2.ref, main_call14.v6.ref, main_call14.v7.ref, main_call14.v8.ref, main_call14.v9.ref, main_call14.v10.ref, main_call14.v11.ref, main_call14.c_3.ref, main_call14.v12.ref, main_call14.v13.ref, main_call14.v14.ref, main_call14.cst.ref, main_call14.v15.ref, main_call14.v16.ref, main_cst_6, main_v60, main_v61, main_v62, main_call15.c.ref, main_call15.v0.ref, main_call15.v1.ref, main_call15.c_0.ref, main_call15.v2.ref, main_call15.v3.ref, main_call15.call0.v0.ref, main_call15.v5.ref, main_call15.c_1.ref, main_call15.c_2.ref, main_call15.v6.ref, main_call15.v7.ref, main_call15.v8.ref, main_call15.v9.ref, main_call15.v10.ref, main_call15.v11.ref, main_call15.c_3.ref, main_call15.v12.ref, main_call15.v13.ref, main_call15.v14.ref, main_call15.cst.ref, main_call15.v15.ref, main_call15.v16.ref]

theorem F7_writes : (F7 : List (HloOp τ sig (Elt F))).Forall fun op => op.writes ⊆ ((Wr7).map (Proc.devRef (τ := τ) .tc)).toFinset :=
  ⟨wsub (y := main_v56) (by decide),
   wsub (y := main_v57) (by decide),
   wsub (y := main_v58) (by decide),
   wsub (y := main_call14.c.ref) (by decide),
   wsub (y := main_call14.v0.ref) (by decide),
   wsub (y := main_call14.v1.ref) (by decide),
   wsub (y := main_call14.c_0.ref) (by decide),
   wsub (y := main_call14.v2.ref) (by decide),
   wsub (y := main_call14.v3.ref) (by decide),
   wsub (y := main_call14.call0.v0.ref) (by decide),
   wsub (y := main_call14.v5.ref) (by decide),
   wsub (y := main_call14.c_1.ref) (by decide),
   wsub (y := main_call14.c_2.ref) (by decide),
   wsub (y := main_call14.v6.ref) (by decide),
   wsub (y := main_call14.v7.ref) (by decide),
   wsub (y := main_call14.v8.ref) (by decide),
   wsub (y := main_call14.v9.ref) (by decide),
   wsub (y := main_call14.v10.ref) (by decide),
   wsub (y := main_call14.v11.ref) (by decide),
   wsub (y := main_call14.c_3.ref) (by decide),
   wsub (y := main_call14.v12.ref) (by decide),
   wsub (y := main_call14.v13.ref) (by decide),
   wsub (y := main_call14.v14.ref) (by decide),
   wsub (y := main_call14.cst.ref) (by decide),
   wsub (y := main_call14.v15.ref) (by decide),
   wsub (y := main_call14.v16.ref) (by decide),
   wsub (y := main_cst_6) (by decide),
   wsub (y := main_v60) (by decide),
   wsub (y := main_v61) (by decide),
   wsub (y := main_v62) (by decide),
   wsub (y := main_call15.c.ref) (by decide),
   wsub (y := main_call15.v0.ref) (by decide),
   wsub (y := main_call15.v1.ref) (by decide),
   wsub (y := main_call15.c_0.ref) (by decide),
   wsub (y := main_call15.v2.ref) (by decide),
   wsub (y := main_call15.v3.ref) (by decide),
   wsub (y := main_call15.call0.v0.ref) (by decide),
   wsub (y := main_call15.v5.ref) (by decide),
   wsub (y := main_call15.c_1.ref) (by decide),
   wsub (y := main_call15.c_2.ref) (by decide),
   wsub (y := main_call15.v6.ref) (by decide),
   wsub (y := main_call15.v7.ref) (by decide),
   wsub (y := main_call15.v8.ref) (by decide),
   wsub (y := main_call15.v9.ref) (by decide),
   wsub (y := main_call15.v10.ref) (by decide),
   wsub (y := main_call15.v11.ref) (by decide),
   wsub (y := main_call15.c_3.ref) (by decide),
   wsub (y := main_call15.v12.ref) (by decide),
   wsub (y := main_call15.v13.ref) (by decide),
   wsub (y := main_call15.v14.ref) (by decide),
   wsub (y := main_call15.cst.ref) (by decide),
   wsub (y := main_call15.v15.ref) (by decide),
   wsub (y := main_call15.v16.ref) (by decide)⟩

/-- A buffer these operations do not write keeps its contents. -/
theorem F7_frame (V : Valuation τ sig (Elt F)) {r : Ref sig .tc} (hr : r ∉ Wr7) :
    after F7 V (Proc.devRef .tc r) = V (Proc.devRef .tc r) :=
  after_of_writes_sub F7 V F7_writes hr

theorem F7_sub : (F7 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F7_fresh : (F7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 8 -/

set_option maxRecDepth 100000 in
set_option maxHeartbeats 1600000 in
theorem F8_lin (V : Valuation τ sig (Elt F)) :
    after F8 V (main_v68 : DevRef τ sig)
      = linField 808 slices_S1024x2626_S1024x100_0_808 8 slices_S26x100x1_S1x100x1_8_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F8_emb (V : Valuation τ sig (Elt F)) :
    after F8 V (main_v71 : DevRef τ sig)
      = embField 808 slices_S1024x2626_S1024x100_0_808 8 slices_S26x100x32_S1x100x32_8_0_0
          (V (main_arg0 : DevRef τ sig)) (V (main_arg3 : DevRef τ sig)) := by
  after_results_simp
  simp only [TRef.toBuf, TRef.ofBuf, cast_eq]
  rfl

/-- The buffers these operations write. -/
abbrev Wr8 : List (Ref sig .tc) :=
  [main_v64, main_v65, main_v66, main_call16.c.ref, main_call16.v0.ref, main_call16.v1.ref, main_call16.c_0.ref, main_call16.v2.ref, main_call16.v3.ref, main_call16.call0.v0.ref, main_call16.v5.ref, main_call16.c_1.ref, main_call16.c_2.ref, main_call16.v6.ref, main_call16.v7.ref, main_call16.v8.ref, main_call16.v9.ref, main_call16.v10.ref, main_call16.v11.ref, main_call16.c_3.ref, main_call16.v12.ref, main_call16.v13.ref, main_call16.v14.ref, main_call16.cst.ref, main_call16.v15.ref, main_call16.v16.ref, main_cst_7, main_v68, main_v69, main_v70, main_call17.c.ref, main_call17.v0.ref, main_call17.v1.ref, main_call17.c_0.ref, main_call17.v2.ref, main_call17.v3.ref, main_call17.call0.v0.ref, main_call17.v5.ref, main_call17.c_1.ref, main_call17.c_2.ref, main_call17.v6.ref, main_call17.v7.ref, main_call17.v8.ref, main_call17.v9.ref, main_call17.v10.ref, main_call17.v11.ref, main_call17.c_3.ref, main_call17.v12.ref, main_call17.v13.ref, main_call17.v14.ref, main_call17.cst.ref, main_call17.v15.ref, main_call17.v16.ref]

theorem F8_writes : (F8 : List (HloOp τ sig (Elt F))).Forall fun op => op.writes ⊆ ((Wr8).map (Proc.devRef (τ := τ) .tc)).toFinset :=
  ⟨wsub (y := main_v64) (by decide),
   wsub (y := main_v65) (by decide),
   wsub (y := main_v66) (by decide),
   wsub (y := main_call16.c.ref) (by decide),
   wsub (y := main_call16.v0.ref) (by decide),
   wsub (y := main_call16.v1.ref) (by decide),
   wsub (y := main_call16.c_0.ref) (by decide),
   wsub (y := main_call16.v2.ref) (by decide),
   wsub (y := main_call16.v3.ref) (by decide),
   wsub (y := main_call16.call0.v0.ref) (by decide),
   wsub (y := main_call16.v5.ref) (by decide),
   wsub (y := main_call16.c_1.ref) (by decide),
   wsub (y := main_call16.c_2.ref) (by decide),
   wsub (y := main_call16.v6.ref) (by decide),
   wsub (y := main_call16.v7.ref) (by decide),
   wsub (y := main_call16.v8.ref) (by decide),
   wsub (y := main_call16.v9.ref) (by decide),
   wsub (y := main_call16.v10.ref) (by decide),
   wsub (y := main_call16.v11.ref) (by decide),
   wsub (y := main_call16.c_3.ref) (by decide),
   wsub (y := main_call16.v12.ref) (by decide),
   wsub (y := main_call16.v13.ref) (by decide),
   wsub (y := main_call16.v14.ref) (by decide),
   wsub (y := main_call16.cst.ref) (by decide),
   wsub (y := main_call16.v15.ref) (by decide),
   wsub (y := main_call16.v16.ref) (by decide),
   wsub (y := main_cst_7) (by decide),
   wsub (y := main_v68) (by decide),
   wsub (y := main_v69) (by decide),
   wsub (y := main_v70) (by decide),
   wsub (y := main_call17.c.ref) (by decide),
   wsub (y := main_call17.v0.ref) (by decide),
   wsub (y := main_call17.v1.ref) (by decide),
   wsub (y := main_call17.c_0.ref) (by decide),
   wsub (y := main_call17.v2.ref) (by decide),
   wsub (y := main_call17.v3.ref) (by decide),
   wsub (y := main_call17.call0.v0.ref) (by decide),
   wsub (y := main_call17.v5.ref) (by decide),
   wsub (y := main_call17.c_1.ref) (by decide),
   wsub (y := main_call17.c_2.ref) (by decide),
   wsub (y := main_call17.v6.ref) (by decide),
   wsub (y := main_call17.v7.ref) (by decide),
   wsub (y := main_call17.v8.ref) (by decide),
   wsub (y := main_call17.v9.ref) (by decide),
   wsub (y := main_call17.v10.ref) (by decide),
   wsub (y := main_call17.v11.ref) (by decide),
   wsub (y := main_call17.c_3.ref) (by decide),
   wsub (y := main_call17.v12.ref) (by decide),
   wsub (y := main_call17.v13.ref) (by decide),
   wsub (y := main_call17.v14.ref) (by decide),
   wsub (y := main_call17.cst.ref) (by decide),
   wsub (y := main_call17.v15.ref) (by decide),
   wsub (y := main_call17.v16.ref) (by decide)⟩

/-- A buffer these operations do not write keeps its contents. -/
theorem F8_frame (V : Valuation τ sig (Elt F)) {r : Ref sig .tc} (hr : r ∉ Wr8) :
    after F8 V (Proc.devRef .tc r) = V (Proc.devRef .tc r) :=
  after_of_writes_sub F8 V F8_writes hr

theorem F8_sub : (F8 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F8_fresh : (F8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 9 -/

set_option maxRecDepth 100000 in
set_option maxHeartbeats 1600000 in
theorem F9_lin (V : Valuation τ sig (Elt F)) :
    after F9 V (main_v76 : DevRef τ sig)
      = linField 909 slices_S1024x2626_S1024x100_0_909 9 slices_S26x100x1_S1x100x1_9_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F9_emb (V : Valuation τ sig (Elt F)) :
    after F9 V (main_v79 : DevRef τ sig)
      = embField 909 slices_S1024x2626_S1024x100_0_909 9 slices_S26x100x32_S1x100x32_9_0_0
          (V (main_arg0 : DevRef τ sig)) (V (main_arg3 : DevRef τ sig)) := by
  after_results_simp
  simp only [TRef.toBuf, TRef.ofBuf, cast_eq]
  rfl

/-- The buffers these operations write. -/
abbrev Wr9 : List (Ref sig .tc) :=
  [main_v72, main_v73, main_v74, main_call18.c.ref, main_call18.v0.ref, main_call18.v1.ref, main_call18.c_0.ref, main_call18.v2.ref, main_call18.v3.ref, main_call18.call0.v0.ref, main_call18.v5.ref, main_call18.c_1.ref, main_call18.c_2.ref, main_call18.v6.ref, main_call18.v7.ref, main_call18.v8.ref, main_call18.v9.ref, main_call18.v10.ref, main_call18.v11.ref, main_call18.c_3.ref, main_call18.v12.ref, main_call18.v13.ref, main_call18.v14.ref, main_call18.cst.ref, main_call18.v15.ref, main_call18.v16.ref, main_cst_8, main_v76, main_v77, main_v78, main_call19.c.ref, main_call19.v0.ref, main_call19.v1.ref, main_call19.c_0.ref, main_call19.v2.ref, main_call19.v3.ref, main_call19.call0.v0.ref, main_call19.v5.ref, main_call19.c_1.ref, main_call19.c_2.ref, main_call19.v6.ref, main_call19.v7.ref, main_call19.v8.ref, main_call19.v9.ref, main_call19.v10.ref, main_call19.v11.ref, main_call19.c_3.ref, main_call19.v12.ref, main_call19.v13.ref, main_call19.v14.ref, main_call19.cst.ref, main_call19.v15.ref, main_call19.v16.ref]

theorem F9_writes : (F9 : List (HloOp τ sig (Elt F))).Forall fun op => op.writes ⊆ ((Wr9).map (Proc.devRef (τ := τ) .tc)).toFinset :=
  ⟨wsub (y := main_v72) (by decide),
   wsub (y := main_v73) (by decide),
   wsub (y := main_v74) (by decide),
   wsub (y := main_call18.c.ref) (by decide),
   wsub (y := main_call18.v0.ref) (by decide),
   wsub (y := main_call18.v1.ref) (by decide),
   wsub (y := main_call18.c_0.ref) (by decide),
   wsub (y := main_call18.v2.ref) (by decide),
   wsub (y := main_call18.v3.ref) (by decide),
   wsub (y := main_call18.call0.v0.ref) (by decide),
   wsub (y := main_call18.v5.ref) (by decide),
   wsub (y := main_call18.c_1.ref) (by decide),
   wsub (y := main_call18.c_2.ref) (by decide),
   wsub (y := main_call18.v6.ref) (by decide),
   wsub (y := main_call18.v7.ref) (by decide),
   wsub (y := main_call18.v8.ref) (by decide),
   wsub (y := main_call18.v9.ref) (by decide),
   wsub (y := main_call18.v10.ref) (by decide),
   wsub (y := main_call18.v11.ref) (by decide),
   wsub (y := main_call18.c_3.ref) (by decide),
   wsub (y := main_call18.v12.ref) (by decide),
   wsub (y := main_call18.v13.ref) (by decide),
   wsub (y := main_call18.v14.ref) (by decide),
   wsub (y := main_call18.cst.ref) (by decide),
   wsub (y := main_call18.v15.ref) (by decide),
   wsub (y := main_call18.v16.ref) (by decide),
   wsub (y := main_cst_8) (by decide),
   wsub (y := main_v76) (by decide),
   wsub (y := main_v77) (by decide),
   wsub (y := main_v78) (by decide),
   wsub (y := main_call19.c.ref) (by decide),
   wsub (y := main_call19.v0.ref) (by decide),
   wsub (y := main_call19.v1.ref) (by decide),
   wsub (y := main_call19.c_0.ref) (by decide),
   wsub (y := main_call19.v2.ref) (by decide),
   wsub (y := main_call19.v3.ref) (by decide),
   wsub (y := main_call19.call0.v0.ref) (by decide),
   wsub (y := main_call19.v5.ref) (by decide),
   wsub (y := main_call19.c_1.ref) (by decide),
   wsub (y := main_call19.c_2.ref) (by decide),
   wsub (y := main_call19.v6.ref) (by decide),
   wsub (y := main_call19.v7.ref) (by decide),
   wsub (y := main_call19.v8.ref) (by decide),
   wsub (y := main_call19.v9.ref) (by decide),
   wsub (y := main_call19.v10.ref) (by decide),
   wsub (y := main_call19.v11.ref) (by decide),
   wsub (y := main_call19.c_3.ref) (by decide),
   wsub (y := main_call19.v12.ref) (by decide),
   wsub (y := main_call19.v13.ref) (by decide),
   wsub (y := main_call19.v14.ref) (by decide),
   wsub (y := main_call19.cst.ref) (by decide),
   wsub (y := main_call19.v15.ref) (by decide),
   wsub (y := main_call19.v16.ref) (by decide)⟩

/-- A buffer these operations do not write keeps its contents. -/
theorem F9_frame (V : Valuation τ sig (Elt F)) {r : Ref sig .tc} (hr : r ∉ Wr9) :
    after F9 V (Proc.devRef .tc r) = V (Proc.devRef .tc r) :=
  after_of_writes_sub F9 V F9_writes hr

theorem F9_sub : (F9 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F9_fresh : (F9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 10 -/

set_option maxRecDepth 100000 in
set_option maxHeartbeats 1600000 in
theorem F10_lin (V : Valuation τ sig (Elt F)) :
    after F10 V (main_v84 : DevRef τ sig)
      = linField 1010 slices_S1024x2626_S1024x100_0_1010 10 slices_S26x100x1_S1x100x1_10_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F10_emb (V : Valuation τ sig (Elt F)) :
    after F10 V (main_v87 : DevRef τ sig)
      = embField 1010 slices_S1024x2626_S1024x100_0_1010 10 slices_S26x100x32_S1x100x32_10_0_0
          (V (main_arg0 : DevRef τ sig)) (V (main_arg3 : DevRef τ sig)) := by
  after_results_simp
  simp only [TRef.toBuf, TRef.ofBuf, cast_eq]
  rfl

/-- The buffers these operations write. -/
abbrev Wr10 : List (Ref sig .tc) :=
  [main_v80, main_v81, main_v82, main_call20.c.ref, main_call20.v0.ref, main_call20.v1.ref, main_call20.c_0.ref, main_call20.v2.ref, main_call20.v3.ref, main_call20.call0.v0.ref, main_call20.v5.ref, main_call20.c_1.ref, main_call20.c_2.ref, main_call20.v6.ref, main_call20.v7.ref, main_call20.v8.ref, main_call20.v9.ref, main_call20.v10.ref, main_call20.v11.ref, main_call20.c_3.ref, main_call20.v12.ref, main_call20.v13.ref, main_call20.v14.ref, main_call20.cst.ref, main_call20.v15.ref, main_call20.v16.ref, main_cst_9, main_v84, main_v85, main_v86, main_call21.c.ref, main_call21.v0.ref, main_call21.v1.ref, main_call21.c_0.ref, main_call21.v2.ref, main_call21.v3.ref, main_call21.call0.v0.ref, main_call21.v5.ref, main_call21.c_1.ref, main_call21.c_2.ref, main_call21.v6.ref, main_call21.v7.ref, main_call21.v8.ref, main_call21.v9.ref, main_call21.v10.ref, main_call21.v11.ref, main_call21.c_3.ref, main_call21.v12.ref, main_call21.v13.ref, main_call21.v14.ref, main_call21.cst.ref, main_call21.v15.ref, main_call21.v16.ref]

theorem F10_writes : (F10 : List (HloOp τ sig (Elt F))).Forall fun op => op.writes ⊆ ((Wr10).map (Proc.devRef (τ := τ) .tc)).toFinset :=
  ⟨wsub (y := main_v80) (by decide),
   wsub (y := main_v81) (by decide),
   wsub (y := main_v82) (by decide),
   wsub (y := main_call20.c.ref) (by decide),
   wsub (y := main_call20.v0.ref) (by decide),
   wsub (y := main_call20.v1.ref) (by decide),
   wsub (y := main_call20.c_0.ref) (by decide),
   wsub (y := main_call20.v2.ref) (by decide),
   wsub (y := main_call20.v3.ref) (by decide),
   wsub (y := main_call20.call0.v0.ref) (by decide),
   wsub (y := main_call20.v5.ref) (by decide),
   wsub (y := main_call20.c_1.ref) (by decide),
   wsub (y := main_call20.c_2.ref) (by decide),
   wsub (y := main_call20.v6.ref) (by decide),
   wsub (y := main_call20.v7.ref) (by decide),
   wsub (y := main_call20.v8.ref) (by decide),
   wsub (y := main_call20.v9.ref) (by decide),
   wsub (y := main_call20.v10.ref) (by decide),
   wsub (y := main_call20.v11.ref) (by decide),
   wsub (y := main_call20.c_3.ref) (by decide),
   wsub (y := main_call20.v12.ref) (by decide),
   wsub (y := main_call20.v13.ref) (by decide),
   wsub (y := main_call20.v14.ref) (by decide),
   wsub (y := main_call20.cst.ref) (by decide),
   wsub (y := main_call20.v15.ref) (by decide),
   wsub (y := main_call20.v16.ref) (by decide),
   wsub (y := main_cst_9) (by decide),
   wsub (y := main_v84) (by decide),
   wsub (y := main_v85) (by decide),
   wsub (y := main_v86) (by decide),
   wsub (y := main_call21.c.ref) (by decide),
   wsub (y := main_call21.v0.ref) (by decide),
   wsub (y := main_call21.v1.ref) (by decide),
   wsub (y := main_call21.c_0.ref) (by decide),
   wsub (y := main_call21.v2.ref) (by decide),
   wsub (y := main_call21.v3.ref) (by decide),
   wsub (y := main_call21.call0.v0.ref) (by decide),
   wsub (y := main_call21.v5.ref) (by decide),
   wsub (y := main_call21.c_1.ref) (by decide),
   wsub (y := main_call21.c_2.ref) (by decide),
   wsub (y := main_call21.v6.ref) (by decide),
   wsub (y := main_call21.v7.ref) (by decide),
   wsub (y := main_call21.v8.ref) (by decide),
   wsub (y := main_call21.v9.ref) (by decide),
   wsub (y := main_call21.v10.ref) (by decide),
   wsub (y := main_call21.v11.ref) (by decide),
   wsub (y := main_call21.c_3.ref) (by decide),
   wsub (y := main_call21.v12.ref) (by decide),
   wsub (y := main_call21.v13.ref) (by decide),
   wsub (y := main_call21.v14.ref) (by decide),
   wsub (y := main_call21.cst.ref) (by decide),
   wsub (y := main_call21.v15.ref) (by decide),
   wsub (y := main_call21.v16.ref) (by decide)⟩

/-- A buffer these operations do not write keeps its contents. -/
theorem F10_frame (V : Valuation τ sig (Elt F)) {r : Ref sig .tc} (hr : r ∉ Wr10) :
    after F10 V (Proc.devRef .tc r) = V (Proc.devRef .tc r) :=
  after_of_writes_sub F10 V F10_writes hr

theorem F10_sub : (F10 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F10_fresh : (F10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 11 -/

set_option maxRecDepth 100000 in
set_option maxHeartbeats 1600000 in
theorem F11_lin (V : Valuation τ sig (Elt F)) :
    after F11 V (main_v92 : DevRef τ sig)
      = linField 1111 slices_S1024x2626_S1024x100_0_1111 11 slices_S26x100x1_S1x100x1_11_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F11_emb (V : Valuation τ sig (Elt F)) :
    after F11 V (main_v95 : DevRef τ sig)
      = embField 1111 slices_S1024x2626_S1024x100_0_1111 11 slices_S26x100x32_S1x100x32_11_0_0
          (V (main_arg0 : DevRef τ sig)) (V (main_arg3 : DevRef τ sig)) := by
  after_results_simp
  simp only [TRef.toBuf, TRef.ofBuf, cast_eq]
  rfl

/-- The buffers these operations write. -/
abbrev Wr11 : List (Ref sig .tc) :=
  [main_v88, main_v89, main_v90, main_call22.c.ref, main_call22.v0.ref, main_call22.v1.ref, main_call22.c_0.ref, main_call22.v2.ref, main_call22.v3.ref, main_call22.call0.v0.ref, main_call22.v5.ref, main_call22.c_1.ref, main_call22.c_2.ref, main_call22.v6.ref, main_call22.v7.ref, main_call22.v8.ref, main_call22.v9.ref, main_call22.v10.ref, main_call22.v11.ref, main_call22.c_3.ref, main_call22.v12.ref, main_call22.v13.ref, main_call22.v14.ref, main_call22.cst.ref, main_call22.v15.ref, main_call22.v16.ref, main_cst_10, main_v92, main_v93, main_v94, main_call23.c.ref, main_call23.v0.ref, main_call23.v1.ref, main_call23.c_0.ref, main_call23.v2.ref, main_call23.v3.ref, main_call23.call0.v0.ref, main_call23.v5.ref, main_call23.c_1.ref, main_call23.c_2.ref, main_call23.v6.ref, main_call23.v7.ref, main_call23.v8.ref, main_call23.v9.ref, main_call23.v10.ref, main_call23.v11.ref, main_call23.c_3.ref, main_call23.v12.ref, main_call23.v13.ref, main_call23.v14.ref, main_call23.cst.ref, main_call23.v15.ref, main_call23.v16.ref]

theorem F11_writes : (F11 : List (HloOp τ sig (Elt F))).Forall fun op => op.writes ⊆ ((Wr11).map (Proc.devRef (τ := τ) .tc)).toFinset :=
  ⟨wsub (y := main_v88) (by decide),
   wsub (y := main_v89) (by decide),
   wsub (y := main_v90) (by decide),
   wsub (y := main_call22.c.ref) (by decide),
   wsub (y := main_call22.v0.ref) (by decide),
   wsub (y := main_call22.v1.ref) (by decide),
   wsub (y := main_call22.c_0.ref) (by decide),
   wsub (y := main_call22.v2.ref) (by decide),
   wsub (y := main_call22.v3.ref) (by decide),
   wsub (y := main_call22.call0.v0.ref) (by decide),
   wsub (y := main_call22.v5.ref) (by decide),
   wsub (y := main_call22.c_1.ref) (by decide),
   wsub (y := main_call22.c_2.ref) (by decide),
   wsub (y := main_call22.v6.ref) (by decide),
   wsub (y := main_call22.v7.ref) (by decide),
   wsub (y := main_call22.v8.ref) (by decide),
   wsub (y := main_call22.v9.ref) (by decide),
   wsub (y := main_call22.v10.ref) (by decide),
   wsub (y := main_call22.v11.ref) (by decide),
   wsub (y := main_call22.c_3.ref) (by decide),
   wsub (y := main_call22.v12.ref) (by decide),
   wsub (y := main_call22.v13.ref) (by decide),
   wsub (y := main_call22.v14.ref) (by decide),
   wsub (y := main_call22.cst.ref) (by decide),
   wsub (y := main_call22.v15.ref) (by decide),
   wsub (y := main_call22.v16.ref) (by decide),
   wsub (y := main_cst_10) (by decide),
   wsub (y := main_v92) (by decide),
   wsub (y := main_v93) (by decide),
   wsub (y := main_v94) (by decide),
   wsub (y := main_call23.c.ref) (by decide),
   wsub (y := main_call23.v0.ref) (by decide),
   wsub (y := main_call23.v1.ref) (by decide),
   wsub (y := main_call23.c_0.ref) (by decide),
   wsub (y := main_call23.v2.ref) (by decide),
   wsub (y := main_call23.v3.ref) (by decide),
   wsub (y := main_call23.call0.v0.ref) (by decide),
   wsub (y := main_call23.v5.ref) (by decide),
   wsub (y := main_call23.c_1.ref) (by decide),
   wsub (y := main_call23.c_2.ref) (by decide),
   wsub (y := main_call23.v6.ref) (by decide),
   wsub (y := main_call23.v7.ref) (by decide),
   wsub (y := main_call23.v8.ref) (by decide),
   wsub (y := main_call23.v9.ref) (by decide),
   wsub (y := main_call23.v10.ref) (by decide),
   wsub (y := main_call23.v11.ref) (by decide),
   wsub (y := main_call23.c_3.ref) (by decide),
   wsub (y := main_call23.v12.ref) (by decide),
   wsub (y := main_call23.v13.ref) (by decide),
   wsub (y := main_call23.v14.ref) (by decide),
   wsub (y := main_call23.cst.ref) (by decide),
   wsub (y := main_call23.v15.ref) (by decide),
   wsub (y := main_call23.v16.ref) (by decide)⟩

/-- A buffer these operations do not write keeps its contents. -/
theorem F11_frame (V : Valuation τ sig (Elt F)) {r : Ref sig .tc} (hr : r ∉ Wr11) :
    after F11 V (Proc.devRef .tc r) = V (Proc.devRef .tc r) :=
  after_of_writes_sub F11 V F11_writes hr

theorem F11_sub : (F11 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F11_fresh : (F11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 12 -/

set_option maxRecDepth 100000 in
set_option maxHeartbeats 1600000 in
theorem F12_lin (V : Valuation τ sig (Elt F)) :
    after F12 V (main_v100 : DevRef τ sig)
      = linField 1212 slices_S1024x2626_S1024x100_0_1212 12 slices_S26x100x1_S1x100x1_12_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F12_emb (V : Valuation τ sig (Elt F)) :
    after F12 V (main_v103 : DevRef τ sig)
      = embField 1212 slices_S1024x2626_S1024x100_0_1212 12 slices_S26x100x32_S1x100x32_12_0_0
          (V (main_arg0 : DevRef τ sig)) (V (main_arg3 : DevRef τ sig)) := by
  after_results_simp
  simp only [TRef.toBuf, TRef.ofBuf, cast_eq]
  rfl

/-- The buffers these operations write. -/
abbrev Wr12 : List (Ref sig .tc) :=
  [main_v96, main_v97, main_v98, main_call24.c.ref, main_call24.v0.ref, main_call24.v1.ref, main_call24.c_0.ref, main_call24.v2.ref, main_call24.v3.ref, main_call24.call0.v0.ref, main_call24.v5.ref, main_call24.c_1.ref, main_call24.c_2.ref, main_call24.v6.ref, main_call24.v7.ref, main_call24.v8.ref, main_call24.v9.ref, main_call24.v10.ref, main_call24.v11.ref, main_call24.c_3.ref, main_call24.v12.ref, main_call24.v13.ref, main_call24.v14.ref, main_call24.cst.ref, main_call24.v15.ref, main_call24.v16.ref, main_cst_11, main_v100, main_v101, main_v102, main_call25.c.ref, main_call25.v0.ref, main_call25.v1.ref, main_call25.c_0.ref, main_call25.v2.ref, main_call25.v3.ref, main_call25.call0.v0.ref, main_call25.v5.ref, main_call25.c_1.ref, main_call25.c_2.ref, main_call25.v6.ref, main_call25.v7.ref, main_call25.v8.ref, main_call25.v9.ref, main_call25.v10.ref, main_call25.v11.ref, main_call25.c_3.ref, main_call25.v12.ref, main_call25.v13.ref, main_call25.v14.ref, main_call25.cst.ref, main_call25.v15.ref, main_call25.v16.ref]

theorem F12_writes : (F12 : List (HloOp τ sig (Elt F))).Forall fun op => op.writes ⊆ ((Wr12).map (Proc.devRef (τ := τ) .tc)).toFinset :=
  ⟨wsub (y := main_v96) (by decide),
   wsub (y := main_v97) (by decide),
   wsub (y := main_v98) (by decide),
   wsub (y := main_call24.c.ref) (by decide),
   wsub (y := main_call24.v0.ref) (by decide),
   wsub (y := main_call24.v1.ref) (by decide),
   wsub (y := main_call24.c_0.ref) (by decide),
   wsub (y := main_call24.v2.ref) (by decide),
   wsub (y := main_call24.v3.ref) (by decide),
   wsub (y := main_call24.call0.v0.ref) (by decide),
   wsub (y := main_call24.v5.ref) (by decide),
   wsub (y := main_call24.c_1.ref) (by decide),
   wsub (y := main_call24.c_2.ref) (by decide),
   wsub (y := main_call24.v6.ref) (by decide),
   wsub (y := main_call24.v7.ref) (by decide),
   wsub (y := main_call24.v8.ref) (by decide),
   wsub (y := main_call24.v9.ref) (by decide),
   wsub (y := main_call24.v10.ref) (by decide),
   wsub (y := main_call24.v11.ref) (by decide),
   wsub (y := main_call24.c_3.ref) (by decide),
   wsub (y := main_call24.v12.ref) (by decide),
   wsub (y := main_call24.v13.ref) (by decide),
   wsub (y := main_call24.v14.ref) (by decide),
   wsub (y := main_call24.cst.ref) (by decide),
   wsub (y := main_call24.v15.ref) (by decide),
   wsub (y := main_call24.v16.ref) (by decide),
   wsub (y := main_cst_11) (by decide),
   wsub (y := main_v100) (by decide),
   wsub (y := main_v101) (by decide),
   wsub (y := main_v102) (by decide),
   wsub (y := main_call25.c.ref) (by decide),
   wsub (y := main_call25.v0.ref) (by decide),
   wsub (y := main_call25.v1.ref) (by decide),
   wsub (y := main_call25.c_0.ref) (by decide),
   wsub (y := main_call25.v2.ref) (by decide),
   wsub (y := main_call25.v3.ref) (by decide),
   wsub (y := main_call25.call0.v0.ref) (by decide),
   wsub (y := main_call25.v5.ref) (by decide),
   wsub (y := main_call25.c_1.ref) (by decide),
   wsub (y := main_call25.c_2.ref) (by decide),
   wsub (y := main_call25.v6.ref) (by decide),
   wsub (y := main_call25.v7.ref) (by decide),
   wsub (y := main_call25.v8.ref) (by decide),
   wsub (y := main_call25.v9.ref) (by decide),
   wsub (y := main_call25.v10.ref) (by decide),
   wsub (y := main_call25.v11.ref) (by decide),
   wsub (y := main_call25.c_3.ref) (by decide),
   wsub (y := main_call25.v12.ref) (by decide),
   wsub (y := main_call25.v13.ref) (by decide),
   wsub (y := main_call25.v14.ref) (by decide),
   wsub (y := main_call25.cst.ref) (by decide),
   wsub (y := main_call25.v15.ref) (by decide),
   wsub (y := main_call25.v16.ref) (by decide)⟩

/-- A buffer these operations do not write keeps its contents. -/
theorem F12_frame (V : Valuation τ sig (Elt F)) {r : Ref sig .tc} (hr : r ∉ Wr12) :
    after F12 V (Proc.devRef .tc r) = V (Proc.devRef .tc r) :=
  after_of_writes_sub F12 V F12_writes hr

theorem F12_sub : (F12 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F12_fresh : (F12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 13 -/

set_option maxRecDepth 100000 in
set_option maxHeartbeats 1600000 in
theorem F13_lin (V : Valuation τ sig (Elt F)) :
    after F13 V (main_v108 : DevRef τ sig)
      = linField 1313 slices_S1024x2626_S1024x100_0_1313 13 slices_S26x100x1_S1x100x1_13_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F13_emb (V : Valuation τ sig (Elt F)) :
    after F13 V (main_v111 : DevRef τ sig)
      = embField 1313 slices_S1024x2626_S1024x100_0_1313 13 slices_S26x100x32_S1x100x32_13_0_0
          (V (main_arg0 : DevRef τ sig)) (V (main_arg3 : DevRef τ sig)) := by
  after_results_simp
  simp only [TRef.toBuf, TRef.ofBuf, cast_eq]
  rfl

/-- The buffers these operations write. -/
abbrev Wr13 : List (Ref sig .tc) :=
  [main_v104, main_v105, main_v106, main_call26.c.ref, main_call26.v0.ref, main_call26.v1.ref, main_call26.c_0.ref, main_call26.v2.ref, main_call26.v3.ref, main_call26.call0.v0.ref, main_call26.v5.ref, main_call26.c_1.ref, main_call26.c_2.ref, main_call26.v6.ref, main_call26.v7.ref, main_call26.v8.ref, main_call26.v9.ref, main_call26.v10.ref, main_call26.v11.ref, main_call26.c_3.ref, main_call26.v12.ref, main_call26.v13.ref, main_call26.v14.ref, main_call26.cst.ref, main_call26.v15.ref, main_call26.v16.ref, main_cst_12, main_v108, main_v109, main_v110, main_call27.c.ref, main_call27.v0.ref, main_call27.v1.ref, main_call27.c_0.ref, main_call27.v2.ref, main_call27.v3.ref, main_call27.call0.v0.ref, main_call27.v5.ref, main_call27.c_1.ref, main_call27.c_2.ref, main_call27.v6.ref, main_call27.v7.ref, main_call27.v8.ref, main_call27.v9.ref, main_call27.v10.ref, main_call27.v11.ref, main_call27.c_3.ref, main_call27.v12.ref, main_call27.v13.ref, main_call27.v14.ref, main_call27.cst.ref, main_call27.v15.ref, main_call27.v16.ref]

theorem F13_writes : (F13 : List (HloOp τ sig (Elt F))).Forall fun op => op.writes ⊆ ((Wr13).map (Proc.devRef (τ := τ) .tc)).toFinset :=
  ⟨wsub (y := main_v104) (by decide),
   wsub (y := main_v105) (by decide),
   wsub (y := main_v106) (by decide),
   wsub (y := main_call26.c.ref) (by decide),
   wsub (y := main_call26.v0.ref) (by decide),
   wsub (y := main_call26.v1.ref) (by decide),
   wsub (y := main_call26.c_0.ref) (by decide),
   wsub (y := main_call26.v2.ref) (by decide),
   wsub (y := main_call26.v3.ref) (by decide),
   wsub (y := main_call26.call0.v0.ref) (by decide),
   wsub (y := main_call26.v5.ref) (by decide),
   wsub (y := main_call26.c_1.ref) (by decide),
   wsub (y := main_call26.c_2.ref) (by decide),
   wsub (y := main_call26.v6.ref) (by decide),
   wsub (y := main_call26.v7.ref) (by decide),
   wsub (y := main_call26.v8.ref) (by decide),
   wsub (y := main_call26.v9.ref) (by decide),
   wsub (y := main_call26.v10.ref) (by decide),
   wsub (y := main_call26.v11.ref) (by decide),
   wsub (y := main_call26.c_3.ref) (by decide),
   wsub (y := main_call26.v12.ref) (by decide),
   wsub (y := main_call26.v13.ref) (by decide),
   wsub (y := main_call26.v14.ref) (by decide),
   wsub (y := main_call26.cst.ref) (by decide),
   wsub (y := main_call26.v15.ref) (by decide),
   wsub (y := main_call26.v16.ref) (by decide),
   wsub (y := main_cst_12) (by decide),
   wsub (y := main_v108) (by decide),
   wsub (y := main_v109) (by decide),
   wsub (y := main_v110) (by decide),
   wsub (y := main_call27.c.ref) (by decide),
   wsub (y := main_call27.v0.ref) (by decide),
   wsub (y := main_call27.v1.ref) (by decide),
   wsub (y := main_call27.c_0.ref) (by decide),
   wsub (y := main_call27.v2.ref) (by decide),
   wsub (y := main_call27.v3.ref) (by decide),
   wsub (y := main_call27.call0.v0.ref) (by decide),
   wsub (y := main_call27.v5.ref) (by decide),
   wsub (y := main_call27.c_1.ref) (by decide),
   wsub (y := main_call27.c_2.ref) (by decide),
   wsub (y := main_call27.v6.ref) (by decide),
   wsub (y := main_call27.v7.ref) (by decide),
   wsub (y := main_call27.v8.ref) (by decide),
   wsub (y := main_call27.v9.ref) (by decide),
   wsub (y := main_call27.v10.ref) (by decide),
   wsub (y := main_call27.v11.ref) (by decide),
   wsub (y := main_call27.c_3.ref) (by decide),
   wsub (y := main_call27.v12.ref) (by decide),
   wsub (y := main_call27.v13.ref) (by decide),
   wsub (y := main_call27.v14.ref) (by decide),
   wsub (y := main_call27.cst.ref) (by decide),
   wsub (y := main_call27.v15.ref) (by decide),
   wsub (y := main_call27.v16.ref) (by decide)⟩

/-- A buffer these operations do not write keeps its contents. -/
theorem F13_frame (V : Valuation τ sig (Elt F)) {r : Ref sig .tc} (hr : r ∉ Wr13) :
    after F13 V (Proc.devRef .tc r) = V (Proc.devRef .tc r) :=
  after_of_writes_sub F13 V F13_writes hr

theorem F13_sub : (F13 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F13_fresh : (F13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefFieldsC.lean ====
/-
  What each field's operations leave in the field's two results (the linear term and the looked-up rows) as functions
  of the arguments, which buffers they write, and that they touch device buffers only.  Fields 14 to 19.
-/
import proofs.«205260_g26156350832969_cont_9to1_3_23_alg».proof.Proof.Gen.ReferenceIdeal
import Idealize.ShloMosaic.Lib.StableHlo.Run
import proofs.«205260_g26156350832969_cont_9to1_3_23_alg».proof.Proof.RefDefs
import proofs.«205260_g26156350832969_cont_9to1_3_23_alg».proof.Proof.RefOps
import proofs.«205260_g26156350832969_cont_9to1_3_23_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ### Field 14 -/

set_option maxRecDepth 100000 in
set_option maxHeartbeats 1600000 in
theorem F14_lin (V : Valuation τ sig (Elt F)) :
    after F14 V (main_v116 : DevRef τ sig)
      = linField 1414 slices_S1024x2626_S1024x100_0_1414 14 slices_S26x100x1_S1x100x1_14_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F14_emb (V : Valuation τ sig (Elt F)) :
    after F14 V (main_v119 : DevRef τ sig)
      = embField 1414 slices_S1024x2626_S1024x100_0_1414 14 slices_S26x100x32_S1x100x32_14_0_0
          (V (main_arg0 : DevRef τ sig)) (V (main_arg3 : DevRef τ sig)) := by
  after_results_simp
  simp only [TRef.toBuf, TRef.ofBuf, cast_eq]
  rfl

/-- The buffers these operations write. -/
abbrev Wr14 : List (Ref sig .tc) :=
  [main_v112, main_v113, main_v114, main_call28.c.ref, main_call28.v0.ref, main_call28.v1.ref, main_call28.c_0.ref, main_call28.v2.ref, main_call28.v3.ref, main_call28.call0.v0.ref, main_call28.v5.ref, main_call28.c_1.ref, main_call28.c_2.ref, main_call28.v6.ref, main_call28.v7.ref, main_call28.v8.ref, main_call28.v9.ref, main_call28.v10.ref, main_call28.v11.ref, main_call28.c_3.ref, main_call28.v12.ref, main_call28.v13.ref, main_call28.v14.ref, main_call28.cst.ref, main_call28.v15.ref, main_call28.v16.ref, main_cst_13, main_v116, main_v117, main_v118, main_call29.c.ref, main_call29.v0.ref, main_call29.v1.ref, main_call29.c_0.ref, main_call29.v2.ref, main_call29.v3.ref, main_call29.call0.v0.ref, main_call29.v5.ref, main_call29.c_1.ref, main_call29.c_2.ref, main_call29.v6.ref, main_call29.v7.ref, main_call29.v8.ref, main_call29.v9.ref, main_call29.v10.ref, main_call29.v11.ref, main_call29.c_3.ref, main_call29.v12.ref, main_call29.v13.ref, main_call29.v14.ref, main_call29.cst.ref, main_call29.v15.ref, main_call29.v16.ref]

theorem F14_writes : (F14 : List (HloOp τ sig (Elt F))).Forall fun op => op.writes ⊆ ((Wr14).map (Proc.devRef (τ := τ) .tc)).toFinset :=
  ⟨wsub (y := main_v112) (by decide),
   wsub (y := main_v113) (by decide),
   wsub (y := main_v114) (by decide),
   wsub (y := main_call28.c.ref) (by decide),
   wsub (y := main_call28.v0.ref) (by decide),
   wsub (y := main_call28.v1.ref) (by decide),
   wsub (y := main_call28.c_0.ref) (by decide),
   wsub (y := main_call28.v2.ref) (by decide),
   wsub (y := main_call28.v3.ref) (by decide),
   wsub (y := main_call28.call0.v0.ref) (by decide),
   wsub (y := main_call28.v5.ref) (by decide),
   wsub (y := main_call28.c_1.ref) (by decide),
   wsub (y := main_call28.c_2.ref) (by decide),
   wsub (y := main_call28.v6.ref) (by decide),
   wsub (y := main_call28.v7.ref) (by decide),
   wsub (y := main_call28.v8.ref) (by decide),
   wsub (y := main_call28.v9.ref) (by decide),
   wsub (y := main_call28.v10.ref) (by decide),
   wsub (y := main_call28.v11.ref) (by decide),
   wsub (y := main_call28.c_3.ref) (by decide),
   wsub (y := main_call28.v12.ref) (by decide),
   wsub (y := main_call28.v13.ref) (by decide),
   wsub (y := main_call28.v14.ref) (by decide),
   wsub (y := main_call28.cst.ref) (by decide),
   wsub (y := main_call28.v15.ref) (by decide),
   wsub (y := main_call28.v16.ref) (by decide),
   wsub (y := main_cst_13) (by decide),
   wsub (y := main_v116) (by decide),
   wsub (y := main_v117) (by decide),
   wsub (y := main_v118) (by decide),
   wsub (y := main_call29.c.ref) (by decide),
   wsub (y := main_call29.v0.ref) (by decide),
   wsub (y := main_call29.v1.ref) (by decide),
   wsub (y := main_call29.c_0.ref) (by decide),
   wsub (y := main_call29.v2.ref) (by decide),
   wsub (y := main_call29.v3.ref) (by decide),
   wsub (y := main_call29.call0.v0.ref) (by decide),
   wsub (y := main_call29.v5.ref) (by decide),
   wsub (y := main_call29.c_1.ref) (by decide),
   wsub (y := main_call29.c_2.ref) (by decide),
   wsub (y := main_call29.v6.ref) (by decide),
   wsub (y := main_call29.v7.ref) (by decide),
   wsub (y := main_call29.v8.ref) (by decide),
   wsub (y := main_call29.v9.ref) (by decide),
   wsub (y := main_call29.v10.ref) (by decide),
   wsub (y := main_call29.v11.ref) (by decide),
   wsub (y := main_call29.c_3.ref) (by decide),
   wsub (y := main_call29.v12.ref) (by decide),
   wsub (y := main_call29.v13.ref) (by decide),
   wsub (y := main_call29.v14.ref) (by decide),
   wsub (y := main_call29.cst.ref) (by decide),
   wsub (y := main_call29.v15.ref) (by decide),
   wsub (y := main_call29.v16.ref) (by decide)⟩

/-- A buffer these operations do not write keeps its contents. -/
theorem F14_frame (V : Valuation τ sig (Elt F)) {r : Ref sig .tc} (hr : r ∉ Wr14) :
    after F14 V (Proc.devRef .tc r) = V (Proc.devRef .tc r) :=
  after_of_writes_sub F14 V F14_writes hr

theorem F14_sub : (F14 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F14_fresh : (F14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 15 -/

set_option maxRecDepth 100000 in
set_option maxHeartbeats 1600000 in
theorem F15_lin (V : Valuation τ sig (Elt F)) :
    after F15 V (main_v124 : DevRef τ sig)
      = linField 1515 slices_S1024x2626_S1024x100_0_1515 15 slices_S26x100x1_S1x100x1_15_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F15_emb (V : Valuation τ sig (Elt F)) :
    after F15 V (main_v127 : DevRef τ sig)
      = embField 1515 slices_S1024x2626_S1024x100_0_1515 15 slices_S26x100x32_S1x100x32_15_0_0
          (V (main_arg0 : DevRef τ sig)) (V (main_arg3 : DevRef τ sig)) := by
  after_results_simp
  simp only [TRef.toBuf, TRef.ofBuf, cast_eq]
  rfl

/-- The buffers these operations write. -/
abbrev Wr15 : List (Ref sig .tc) :=
  [main_v120, main_v121, main_v122, main_call30.c.ref, main_call30.v0.ref, main_call30.v1.ref, main_call30.c_0.ref, main_call30.v2.ref, main_call30.v3.ref, main_call30.call0.v0.ref, main_call30.v5.ref, main_call30.c_1.ref, main_call30.c_2.ref, main_call30.v6.ref, main_call30.v7.ref, main_call30.v8.ref, main_call30.v9.ref, main_call30.v10.ref, main_call30.v11.ref, main_call30.c_3.ref, main_call30.v12.ref, main_call30.v13.ref, main_call30.v14.ref, main_call30.cst.ref, main_call30.v15.ref, main_call30.v16.ref, main_cst_14, main_v124, main_v125, main_v126, main_call31.c.ref, main_call31.v0.ref, main_call31.v1.ref, main_call31.c_0.ref, main_call31.v2.ref, main_call31.v3.ref, main_call31.call0.v0.ref, main_call31.v5.ref, main_call31.c_1.ref, main_call31.c_2.ref, main_call31.v6.ref, main_call31.v7.ref, main_call31.v8.ref, main_call31.v9.ref, main_call31.v10.ref, main_call31.v11.ref, main_call31.c_3.ref, main_call31.v12.ref, main_call31.v13.ref, main_call31.v14.ref, main_call31.cst.ref, main_call31.v15.ref, main_call31.v16.ref]

theorem F15_writes : (F15 : List (HloOp τ sig (Elt F))).Forall fun op => op.writes ⊆ ((Wr15).map (Proc.devRef (τ := τ) .tc)).toFinset :=
  ⟨wsub (y := main_v120) (by decide),
   wsub (y := main_v121) (by decide),
   wsub (y := main_v122) (by decide),
   wsub (y := main_call30.c.ref) (by decide),
   wsub (y := main_call30.v0.ref) (by decide),
   wsub (y := main_call30.v1.ref) (by decide),
   wsub (y := main_call30.c_0.ref) (by decide),
   wsub (y := main_call30.v2.ref) (by decide),
   wsub (y := main_call30.v3.ref) (by decide),
   wsub (y := main_call30.call0.v0.ref) (by decide),
   wsub (y := main_call30.v5.ref) (by decide),
   wsub (y := main_call30.c_1.ref) (by decide),
   wsub (y := main_call30.c_2.ref) (by decide),
   wsub (y := main_call30.v6.ref) (by decide),
   wsub (y := main_call30.v7.ref) (by decide),
   wsub (y := main_call30.v8.ref) (by decide),
   wsub (y := main_call30.v9.ref) (by decide),
   wsub (y := main_call30.v10.ref) (by decide),
   wsub (y := main_call30.v11.ref) (by decide),
   wsub (y := main_call30.c_3.ref) (by decide),
   wsub (y := main_call30.v12.ref) (by decide),
   wsub (y := main_call30.v13.ref) (by decide),
   wsub (y := main_call30.v14.ref) (by decide),
   wsub (y := main_call30.cst.ref) (by decide),
   wsub (y := main_call30.v15.ref) (by decide),
   wsub (y := main_call30.v16.ref) (by decide),
   wsub (y := main_cst_14) (by decide),
   wsub (y := main_v124) (by decide),
   wsub (y := main_v125) (by decide),
   wsub (y := main_v126) (by decide),
   wsub (y := main_call31.c.ref) (by decide),
   wsub (y := main_call31.v0.ref) (by decide),
   wsub (y := main_call31.v1.ref) (by decide),
   wsub (y := main_call31.c_0.ref) (by decide),
   wsub (y := main_call31.v2.ref) (by decide),
   wsub (y := main_call31.v3.ref) (by decide),
   wsub (y := main_call31.call0.v0.ref) (by decide),
   wsub (y := main_call31.v5.ref) (by decide),
   wsub (y := main_call31.c_1.ref) (by decide),
   wsub (y := main_call31.c_2.ref) (by decide),
   wsub (y := main_call31.v6.ref) (by decide),
   wsub (y := main_call31.v7.ref) (by decide),
   wsub (y := main_call31.v8.ref) (by decide),
   wsub (y := main_call31.v9.ref) (by decide),
   wsub (y := main_call31.v10.ref) (by decide),
   wsub (y := main_call31.v11.ref) (by decide),
   wsub (y := main_call31.c_3.ref) (by decide),
   wsub (y := main_call31.v12.ref) (by decide),
   wsub (y := main_call31.v13.ref) (by decide),
   wsub (y := main_call31.v14.ref) (by decide),
   wsub (y := main_call31.cst.ref) (by decide),
   wsub (y := main_call31.v15.ref) (by decide),
   wsub (y := main_call31.v16.ref) (by decide)⟩

/-- A buffer these operations do not write keeps its contents. -/
theorem F15_frame (V : Valuation τ sig (Elt F)) {r : Ref sig .tc} (hr : r ∉ Wr15) :
    after F15 V (Proc.devRef .tc r) = V (Proc.devRef .tc r) :=
  after_of_writes_sub F15 V F15_writes hr

theorem F15_sub : (F15 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F15_fresh : (F15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 16 -/

set_option maxRecDepth 100000 in
set_option maxHeartbeats 1600000 in
theorem F16_lin (V : Valuation τ sig (Elt F)) :
    after F16 V (main_v132 : DevRef τ sig)
      = linField 1616 slices_S1024x2626_S1024x100_0_1616 16 slices_S26x100x1_S1x100x1_16_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F16_emb (V : Valuation τ sig (Elt F)) :
    after F16 V (main_v135 : DevRef τ sig)
      = embField 1616 slices_S1024x2626_S1024x100_0_1616 16 slices_S26x100x32_S1x100x32_16_0_0
          (V (main_arg0 : DevRef τ sig)) (V (main_arg3 : DevRef τ sig)) := by
  after_results_simp
  simp only [TRef.toBuf, TRef.ofBuf, cast_eq]
  rfl

/-- The buffers these operations write. -/
abbrev Wr16 : List (Ref sig .tc) :=
  [main_v128, main_v129, main_v130, main_call32.c.ref, main_call32.v0.ref, main_call32.v1.ref, main_call32.c_0.ref, main_call32.v2.ref, main_call32.v3.ref, main_call32.call0.v0.ref, main_call32.v5.ref, main_call32.c_1.ref, main_call32.c_2.ref, main_call32.v6.ref, main_call32.v7.ref, main_call32.v8.ref, main_call32.v9.ref, main_call32.v10.ref, main_call32.v11.ref, main_call32.c_3.ref, main_call32.v12.ref, main_call32.v13.ref, main_call32.v14.ref, main_call32.cst.ref, main_call32.v15.ref, main_call32.v16.ref, main_cst_15, main_v132, main_v133, main_v134, main_call33.c.ref, main_call33.v0.ref, main_call33.v1.ref, main_call33.c_0.ref, main_call33.v2.ref, main_call33.v3.ref, main_call33.call0.v0.ref, main_call33.v5.ref, main_call33.c_1.ref, main_call33.c_2.ref, main_call33.v6.ref, main_call33.v7.ref, main_call33.v8.ref, main_call33.v9.ref, main_call33.v10.ref, main_call33.v11.ref, main_call33.c_3.ref, main_call33.v12.ref, main_call33.v13.ref, main_call33.v14.ref, main_call33.cst.ref, main_call33.v15.ref, main_call33.v16.ref]

theorem F16_writes : (F16 : List (HloOp τ sig (Elt F))).Forall fun op => op.writes ⊆ ((Wr16).map (Proc.devRef (τ := τ) .tc)).toFinset :=
  ⟨wsub (y := main_v128) (by decide),
   wsub (y := main_v129) (by decide),
   wsub (y := main_v130) (by decide),
   wsub (y := main_call32.c.ref) (by decide),
   wsub (y := main_call32.v0.ref) (by decide),
   wsub (y := main_call32.v1.ref) (by decide),
   wsub (y := main_call32.c_0.ref) (by decide),
   wsub (y := main_call32.v2.ref) (by decide),
   wsub (y := main_call32.v3.ref) (by decide),
   wsub (y := main_call32.call0.v0.ref) (by decide),
   wsub (y := main_call32.v5.ref) (by decide),
   wsub (y := main_call32.c_1.ref) (by decide),
   wsub (y := main_call32.c_2.ref) (by decide),
   wsub (y := main_call32.v6.ref) (by decide),
   wsub (y := main_call32.v7.ref) (by decide),
   wsub (y := main_call32.v8.ref) (by decide),
   wsub (y := main_call32.v9.ref) (by decide),
   wsub (y := main_call32.v10.ref) (by decide),
   wsub (y := main_call32.v11.ref) (by decide),
   wsub (y := main_call32.c_3.ref) (by decide),
   wsub (y := main_call32.v12.ref) (by decide),
   wsub (y := main_call32.v13.ref) (by decide),
   wsub (y := main_call32.v14.ref) (by decide),
   wsub (y := main_call32.cst.ref) (by decide),
   wsub (y := main_call32.v15.ref) (by decide),
   wsub (y := main_call32.v16.ref) (by decide),
   wsub (y := main_cst_15) (by decide),
   wsub (y := main_v132) (by decide),
   wsub (y := main_v133) (by decide),
   wsub (y := main_v134) (by decide),
   wsub (y := main_call33.c.ref) (by decide),
   wsub (y := main_call33.v0.ref) (by decide),
   wsub (y := main_call33.v1.ref) (by decide),
   wsub (y := main_call33.c_0.ref) (by decide),
   wsub (y := main_call33.v2.ref) (by decide),
   wsub (y := main_call33.v3.ref) (by decide),
   wsub (y := main_call33.call0.v0.ref) (by decide),
   wsub (y := main_call33.v5.ref) (by decide),
   wsub (y := main_call33.c_1.ref) (by decide),
   wsub (y := main_call33.c_2.ref) (by decide),
   wsub (y := main_call33.v6.ref) (by decide),
   wsub (y := main_call33.v7.ref) (by decide),
   wsub (y := main_call33.v8.ref) (by decide),
   wsub (y := main_call33.v9.ref) (by decide),
   wsub (y := main_call33.v10.ref) (by decide),
   wsub (y := main_call33.v11.ref) (by decide),
   wsub (y := main_call33.c_3.ref) (by decide),
   wsub (y := main_call33.v12.ref) (by decide),
   wsub (y := main_call33.v13.ref) (by decide),
   wsub (y := main_call33.v14.ref) (by decide),
   wsub (y := main_call33.cst.ref) (by decide),
   wsub (y := main_call33.v15.ref) (by decide),
   wsub (y := main_call33.v16.ref) (by decide)⟩

/-- A buffer these operations do not write keeps its contents. -/
theorem F16_frame (V : Valuation τ sig (Elt F)) {r : Ref sig .tc} (hr : r ∉ Wr16) :
    after F16 V (Proc.devRef .tc r) = V (Proc.devRef .tc r) :=
  after_of_writes_sub F16 V F16_writes hr

theorem F16_sub : (F16 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F16_fresh : (F16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 17 -/

set_option maxRecDepth 100000 in
set_option maxHeartbeats 1600000 in
theorem F17_lin (V : Valuation τ sig (Elt F)) :
    after F17 V (main_v140 : DevRef τ sig)
      = linField 1717 slices_S1024x2626_S1024x100_0_1717 17 slices_S26x100x1_S1x100x1_17_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F17_emb (V : Valuation τ sig (Elt F)) :
    after F17 V (main_v143 : DevRef τ sig)
      = embField 1717 slices_S1024x2626_S1024x100_0_1717 17 slices_S26x100x32_S1x100x32_17_0_0
          (V (main_arg0 : DevRef τ sig)) (V (main_arg3 : DevRef τ sig)) := by
  after_results_simp
  simp only [TRef.toBuf, TRef.ofBuf, cast_eq]
  rfl

/-- The buffers these operations write. -/
abbrev Wr17 : List (Ref sig .tc) :=
  [main_v136, main_v137, main_v138, main_call34.c.ref, main_call34.v0.ref, main_call34.v1.ref, main_call34.c_0.ref, main_call34.v2.ref, main_call34.v3.ref, main_call34.call0.v0.ref, main_call34.v5.ref, main_call34.c_1.ref, main_call34.c_2.ref, main_call34.v6.ref, main_call34.v7.ref, main_call34.v8.ref, main_call34.v9.ref, main_call34.v10.ref, main_call34.v11.ref, main_call34.c_3.ref, main_call34.v12.ref, main_call34.v13.ref, main_call34.v14.ref, main_call34.cst.ref, main_call34.v15.ref, main_call34.v16.ref, main_cst_16, main_v140, main_v141, main_v142, main_call35.c.ref, main_call35.v0.ref, main_call35.v1.ref, main_call35.c_0.ref, main_call35.v2.ref, main_call35.v3.ref, main_call35.call0.v0.ref, main_call35.v5.ref, main_call35.c_1.ref, main_call35.c_2.ref, main_call35.v6.ref, main_call35.v7.ref, main_call35.v8.ref, main_call35.v9.ref, main_call35.v10.ref, main_call35.v11.ref, main_call35.c_3.ref, main_call35.v12.ref, main_call35.v13.ref, main_call35.v14.ref, main_call35.cst.ref, main_call35.v15.ref, main_call35.v16.ref]

theorem F17_writes : (F17 : List (HloOp τ sig (Elt F))).Forall fun op => op.writes ⊆ ((Wr17).map (Proc.devRef (τ := τ) .tc)).toFinset :=
  ⟨wsub (y := main_v136) (by decide),
   wsub (y := main_v137) (by decide),
   wsub (y := main_v138) (by decide),
   wsub (y := main_call34.c.ref) (by decide),
   wsub (y := main_call34.v0.ref) (by decide),
   wsub (y := main_call34.v1.ref) (by decide),
   wsub (y := main_call34.c_0.ref) (by decide),
   wsub (y := main_call34.v2.ref) (by decide),
   wsub (y := main_call34.v3.ref) (by decide),
   wsub (y := main_call34.call0.v0.ref) (by decide),
   wsub (y := main_call34.v5.ref) (by decide),
   wsub (y := main_call34.c_1.ref) (by decide),
   wsub (y := main_call34.c_2.ref) (by decide),
   wsub (y := main_call34.v6.ref) (by decide),
   wsub (y := main_call34.v7.ref) (by decide),
   wsub (y := main_call34.v8.ref) (by decide),
   wsub (y := main_call34.v9.ref) (by decide),
   wsub (y := main_call34.v10.ref) (by decide),
   wsub (y := main_call34.v11.ref) (by decide),
   wsub (y := main_call34.c_3.ref) (by decide),
   wsub (y := main_call34.v12.ref) (by decide),
   wsub (y := main_call34.v13.ref) (by decide),
   wsub (y := main_call34.v14.ref) (by decide),
   wsub (y := main_call34.cst.ref) (by decide),
   wsub (y := main_call34.v15.ref) (by decide),
   wsub (y := main_call34.v16.ref) (by decide),
   wsub (y := main_cst_16) (by decide),
   wsub (y := main_v140) (by decide),
   wsub (y := main_v141) (by decide),
   wsub (y := main_v142) (by decide),
   wsub (y := main_call35.c.ref) (by decide),
   wsub (y := main_call35.v0.ref) (by decide),
   wsub (y := main_call35.v1.ref) (by decide),
   wsub (y := main_call35.c_0.ref) (by decide),
   wsub (y := main_call35.v2.ref) (by decide),
   wsub (y := main_call35.v3.ref) (by decide),
   wsub (y := main_call35.call0.v0.ref) (by decide),
   wsub (y := main_call35.v5.ref) (by decide),
   wsub (y := main_call35.c_1.ref) (by decide),
   wsub (y := main_call35.c_2.ref) (by decide),
   wsub (y := main_call35.v6.ref) (by decide),
   wsub (y := main_call35.v7.ref) (by decide),
   wsub (y := main_call35.v8.ref) (by decide),
   wsub (y := main_call35.v9.ref) (by decide),
   wsub (y := main_call35.v10.ref) (by decide),
   wsub (y := main_call35.v11.ref) (by decide),
   wsub (y := main_call35.c_3.ref) (by decide),
   wsub (y := main_call35.v12.ref) (by decide),
   wsub (y := main_call35.v13.ref) (by decide),
   wsub (y := main_call35.v14.ref) (by decide),
   wsub (y := main_call35.cst.ref) (by decide),
   wsub (y := main_call35.v15.ref) (by decide),
   wsub (y := main_call35.v16.ref) (by decide)⟩

/-- A buffer these operations do not write keeps its contents. -/
theorem F17_frame (V : Valuation τ sig (Elt F)) {r : Ref sig .tc} (hr : r ∉ Wr17) :
    after F17 V (Proc.devRef .tc r) = V (Proc.devRef .tc r) :=
  after_of_writes_sub F17 V F17_writes hr

theorem F17_sub : (F17 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F17_fresh : (F17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 18 -/

set_option maxRecDepth 100000 in
set_option maxHeartbeats 1600000 in
theorem F18_lin (V : Valuation τ sig (Elt F)) :
    after F18 V (main_v148 : DevRef τ sig)
      = linField 1818 slices_S1024x2626_S1024x100_0_1818 18 slices_S26x100x1_S1x100x1_18_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F18_emb (V : Valuation τ sig (Elt F)) :
    after F18 V (main_v151 : DevRef τ sig)
      = embField 1818 slices_S1024x2626_S1024x100_0_1818 18 slices_S26x100x32_S1x100x32_18_0_0
          (V (main_arg0 : DevRef τ sig)) (V (main_arg3 : DevRef τ sig)) := by
  after_results_simp
  simp only [TRef.toBuf, TRef.ofBuf, cast_eq]
  rfl

/-- The buffers these operations write. -/
abbrev Wr18 : List (Ref sig .tc) :=
  [main_v144, main_v145, main_v146, main_call36.c.ref, main_call36.v0.ref, main_call36.v1.ref, main_call36.c_0.ref, main_call36.v2.ref, main_call36.v3.ref, main_call36.call0.v0.ref, main_call36.v5.ref, main_call36.c_1.ref, main_call36.c_2.ref, main_call36.v6.ref, main_call36.v7.ref, main_call36.v8.ref, main_call36.v9.ref, main_call36.v10.ref, main_call36.v11.ref, main_call36.c_3.ref, main_call36.v12.ref, main_call36.v13.ref, main_call36.v14.ref, main_call36.cst.ref, main_call36.v15.ref, main_call36.v16.ref, main_cst_17, main_v148, main_v149, main_v150, main_call37.c.ref, main_call37.v0.ref, main_call37.v1.ref, main_call37.c_0.ref, main_call37.v2.ref, main_call37.v3.ref, main_call37.call0.v0.ref, main_call37.v5.ref, main_call37.c_1.ref, main_call37.c_2.ref, main_call37.v6.ref, main_call37.v7.ref, main_call37.v8.ref, main_call37.v9.ref, main_call37.v10.ref, main_call37.v11.ref, main_call37.c_3.ref, main_call37.v12.ref, main_call37.v13.ref, main_call37.v14.ref, main_call37.cst.ref, main_call37.v15.ref, main_call37.v16.ref]

theorem F18_writes : (F18 : List (HloOp τ sig (Elt F))).Forall fun op => op.writes ⊆ ((Wr18).map (Proc.devRef (τ := τ) .tc)).toFinset :=
  ⟨wsub (y := main_v144) (by decide),
   wsub (y := main_v145) (by decide),
   wsub (y := main_v146) (by decide),
   wsub (y := main_call36.c.ref) (by decide),
   wsub (y := main_call36.v0.ref) (by decide),
   wsub (y := main_call36.v1.ref) (by decide),
   wsub (y := main_call36.c_0.ref) (by decide),
   wsub (y := main_call36.v2.ref) (by decide),
   wsub (y := main_call36.v3.ref) (by decide),
   wsub (y := main_call36.call0.v0.ref) (by decide),
   wsub (y := main_call36.v5.ref) (by decide),
   wsub (y := main_call36.c_1.ref) (by decide),
   wsub (y := main_call36.c_2.ref) (by decide),
   wsub (y := main_call36.v6.ref) (by decide),
   wsub (y := main_call36.v7.ref) (by decide),
   wsub (y := main_call36.v8.ref) (by decide),
   wsub (y := main_call36.v9.ref) (by decide),
   wsub (y := main_call36.v10.ref) (by decide),
   wsub (y := main_call36.v11.ref) (by decide),
   wsub (y := main_call36.c_3.ref) (by decide),
   wsub (y := main_call36.v12.ref) (by decide),
   wsub (y := main_call36.v13.ref) (by decide),
   wsub (y := main_call36.v14.ref) (by decide),
   wsub (y := main_call36.cst.ref) (by decide),
   wsub (y := main_call36.v15.ref) (by decide),
   wsub (y := main_call36.v16.ref) (by decide),
   wsub (y := main_cst_17) (by decide),
   wsub (y := main_v148) (by decide),
   wsub (y := main_v149) (by decide),
   wsub (y := main_v150) (by decide),
   wsub (y := main_call37.c.ref) (by decide),
   wsub (y := main_call37.v0.ref) (by decide),
   wsub (y := main_call37.v1.ref) (by decide),
   wsub (y := main_call37.c_0.ref) (by decide),
   wsub (y := main_call37.v2.ref) (by decide),
   wsub (y := main_call37.v3.ref) (by decide),
   wsub (y := main_call37.call0.v0.ref) (by decide),
   wsub (y := main_call37.v5.ref) (by decide),
   wsub (y := main_call37.c_1.ref) (by decide),
   wsub (y := main_call37.c_2.ref) (by decide),
   wsub (y := main_call37.v6.ref) (by decide),
   wsub (y := main_call37.v7.ref) (by decide),
   wsub (y := main_call37.v8.ref) (by decide),
   wsub (y := main_call37.v9.ref) (by decide),
   wsub (y := main_call37.v10.ref) (by decide),
   wsub (y := main_call37.v11.ref) (by decide),
   wsub (y := main_call37.c_3.ref) (by decide),
   wsub (y := main_call37.v12.ref) (by decide),
   wsub (y := main_call37.v13.ref) (by decide),
   wsub (y := main_call37.v14.ref) (by decide),
   wsub (y := main_call37.cst.ref) (by decide),
   wsub (y := main_call37.v15.ref) (by decide),
   wsub (y := main_call37.v16.ref) (by decide)⟩

/-- A buffer these operations do not write keeps its contents. -/
theorem F18_frame (V : Valuation τ sig (Elt F)) {r : Ref sig .tc} (hr : r ∉ Wr18) :
    after F18 V (Proc.devRef .tc r) = V (Proc.devRef .tc r) :=
  after_of_writes_sub F18 V F18_writes hr

theorem F18_sub : (F18 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F18_fresh : (F18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 19 -/

set_option maxRecDepth 100000 in
set_option maxHeartbeats 1600000 in
theorem F19_lin (V : Valuation τ sig (Elt F)) :
    after F19 V (main_v156 : DevRef τ sig)
      = linField 1919 slices_S1024x2626_S1024x100_0_1919 19 slices_S26x100x1_S1x100x1_19_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F19_emb (V : Valuation τ sig (Elt F)) :
    after F19 V (main_v159 : DevRef τ sig)
      = embField 1919 slices_S1024x2626_S1024x100_0_1919 19 slices_S26x100x32_S1x100x32_19_0_0
          (V (main_arg0 : DevRef τ sig)) (V (main_arg3 : DevRef τ sig)) := by
  after_results_simp
  simp only [TRef.toBuf, TRef.ofBuf, cast_eq]
  rfl

/-- The buffers these operations write. -/
abbrev Wr19 : List (Ref sig .tc) :=
  [main_v152, main_v153, main_v154, main_call38.c.ref, main_call38.v0.ref, main_call38.v1.ref, main_call38.c_0.ref, main_call38.v2.ref, main_call38.v3.ref, main_call38.call0.v0.ref, main_call38.v5.ref, main_call38.c_1.ref, main_call38.c_2.ref, main_call38.v6.ref, main_call38.v7.ref, main_call38.v8.ref, main_call38.v9.ref, main_call38.v10.ref, main_call38.v11.ref, main_call38.c_3.ref, main_call38.v12.ref, main_call38.v13.ref, main_call38.v14.ref, main_call38.cst.ref, main_call38.v15.ref, main_call38.v16.ref, main_cst_18, main_v156, main_v157, main_v158, main_call39.c.ref, main_call39.v0.ref, main_call39.v1.ref, main_call39.c_0.ref, main_call39.v2.ref, main_call39.v3.ref, main_call39.call0.v0.ref, main_call39.v5.ref, main_call39.c_1.ref, main_call39.c_2.ref, main_call39.v6.ref, main_call39.v7.ref, main_call39.v8.ref, main_call39.v9.ref, main_call39.v10.ref, main_call39.v11.ref, main_call39.c_3.ref, main_call39.v12.ref, main_call39.v13.ref, main_call39.v14.ref, main_call39.cst.ref, main_call39.v15.ref, main_call39.v16.ref]

theorem F19_writes : (F19 : List (HloOp τ sig (Elt F))).Forall fun op => op.writes ⊆ ((Wr19).map (Proc.devRef (τ := τ) .tc)).toFinset :=
  ⟨wsub (y := main_v152) (by decide),
   wsub (y := main_v153) (by decide),
   wsub (y := main_v154) (by decide),
   wsub (y := main_call38.c.ref) (by decide),
   wsub (y := main_call38.v0.ref) (by decide),
   wsub (y := main_call38.v1.ref) (by decide),
   wsub (y := main_call38.c_0.ref) (by decide),
   wsub (y := main_call38.v2.ref) (by decide),
   wsub (y := main_call38.v3.ref) (by decide),
   wsub (y := main_call38.call0.v0.ref) (by decide),
   wsub (y := main_call38.v5.ref) (by decide),
   wsub (y := main_call38.c_1.ref) (by decide),
   wsub (y := main_call38.c_2.ref) (by decide),
   wsub (y := main_call38.v6.ref) (by decide),
   wsub (y := main_call38.v7.ref) (by decide),
   wsub (y := main_call38.v8.ref) (by decide),
   wsub (y := main_call38.v9.ref) (by decide),
   wsub (y := main_call38.v10.ref) (by decide),
   wsub (y := main_call38.v11.ref) (by decide),
   wsub (y := main_call38.c_3.ref) (by decide),
   wsub (y := main_call38.v12.ref) (by decide),
   wsub (y := main_call38.v13.ref) (by decide),
   wsub (y := main_call38.v14.ref) (by decide),
   wsub (y := main_call38.cst.ref) (by decide),
   wsub (y := main_call38.v15.ref) (by decide),
   wsub (y := main_call38.v16.ref) (by decide),
   wsub (y := main_cst_18) (by decide),
   wsub (y := main_v156) (by decide),
   wsub (y := main_v157) (by decide),
   wsub (y := main_v158) (by decide),
   wsub (y := main_call39.c.ref) (by decide),
   wsub (y := main_call39.v0.ref) (by decide),
   wsub (y := main_call39.v1.ref) (by decide),
   wsub (y := main_call39.c_0.ref) (by decide),
   wsub (y := main_call39.v2.ref) (by decide),
   wsub (y := main_call39.v3.ref) (by decide),
   wsub (y := main_call39.call0.v0.ref) (by decide),
   wsub (y := main_call39.v5.ref) (by decide),
   wsub (y := main_call39.c_1.ref) (by decide),
   wsub (y := main_call39.c_2.ref) (by decide),
   wsub (y := main_call39.v6.ref) (by decide),
   wsub (y := main_call39.v7.ref) (by decide),
   wsub (y := main_call39.v8.ref) (by decide),
   wsub (y := main_call39.v9.ref) (by decide),
   wsub (y := main_call39.v10.ref) (by decide),
   wsub (y := main_call39.v11.ref) (by decide),
   wsub (y := main_call39.c_3.ref) (by decide),
   wsub (y := main_call39.v12.ref) (by decide),
   wsub (y := main_call39.v13.ref) (by decide),
   wsub (y := main_call39.v14.ref) (by decide),
   wsub (y := main_call39.cst.ref) (by decide),
   wsub (y := main_call39.v15.ref) (by decide),
   wsub (y := main_call39.v16.ref) (by decide)⟩

/-- A buffer these operations do not write keeps its contents. -/
theorem F19_frame (V : Valuation τ sig (Elt F)) {r : Ref sig .tc} (hr : r ∉ Wr19) :
    after F19 V (Proc.devRef .tc r) = V (Proc.devRef .tc r) :=
  after_of_writes_sub F19 V F19_writes hr

theorem F19_sub : (F19 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F19_fresh : (F19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefFieldsD.lean ====
/-
  What each field's operations leave in the field's two results (the linear term and the looked-up rows) as functions
  of the arguments, which buffers they write, and that they touch device buffers only.  Fields 20 to 25.
-/
import proofs.«205260_g26156350832969_cont_9to1_3_23_alg».proof.Proof.Gen.ReferenceIdeal
import Idealize.ShloMosaic.Lib.StableHlo.Run
import proofs.«205260_g26156350832969_cont_9to1_3_23_alg».proof.Proof.RefDefs
import proofs.«205260_g26156350832969_cont_9to1_3_23_alg».proof.Proof.RefOps
import proofs.«205260_g26156350832969_cont_9to1_3_23_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ### Field 20 -/

set_option maxRecDepth 100000 in
set_option maxHeartbeats 1600000 in
theorem F20_lin (V : Valuation τ sig (Elt F)) :
    after F20 V (main_v164 : DevRef τ sig)
      = linField 2020 slices_S1024x2626_S1024x100_0_2020 20 slices_S26x100x1_S1x100x1_20_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F20_emb (V : Valuation τ sig (Elt F)) :
    after F20 V (main_v167 : DevRef τ sig)
      = embField 2020 slices_S1024x2626_S1024x100_0_2020 20 slices_S26x100x32_S1x100x32_20_0_0
          (V (main_arg0 : DevRef τ sig)) (V (main_arg3 : DevRef τ sig)) := by
  after_results_simp
  simp only [TRef.toBuf, TRef.ofBuf, cast_eq]
  rfl

/-- The buffers these operations write. -/
abbrev Wr20 : List (Ref sig .tc) :=
  [main_v160, main_v161, main_v162, main_call40.c.ref, main_call40.v0.ref, main_call40.v1.ref, main_call40.c_0.ref, main_call40.v2.ref, main_call40.v3.ref, main_call40.call0.v0.ref, main_call40.v5.ref, main_call40.c_1.ref, main_call40.c_2.ref, main_call40.v6.ref, main_call40.v7.ref, main_call40.v8.ref, main_call40.v9.ref, main_call40.v10.ref, main_call40.v11.ref, main_call40.c_3.ref, main_call40.v12.ref, main_call40.v13.ref, main_call40.v14.ref, main_call40.cst.ref, main_call40.v15.ref, main_call40.v16.ref, main_cst_19, main_v164, main_v165, main_v166, main_call41.c.ref, main_call41.v0.ref, main_call41.v1.ref, main_call41.c_0.ref, main_call41.v2.ref, main_call41.v3.ref, main_call41.call0.v0.ref, main_call41.v5.ref, main_call41.c_1.ref, main_call41.c_2.ref, main_call41.v6.ref, main_call41.v7.ref, main_call41.v8.ref, main_call41.v9.ref, main_call41.v10.ref, main_call41.v11.ref, main_call41.c_3.ref, main_call41.v12.ref, main_call41.v13.ref, main_call41.v14.ref, main_call41.cst.ref, main_call41.v15.ref, main_call41.v16.ref]

theorem F20_writes : (F20 : List (HloOp τ sig (Elt F))).Forall fun op => op.writes ⊆ ((Wr20).map (Proc.devRef (τ := τ) .tc)).toFinset :=
  ⟨wsub (y := main_v160) (by decide),
   wsub (y := main_v161) (by decide),
   wsub (y := main_v162) (by decide),
   wsub (y := main_call40.c.ref) (by decide),
   wsub (y := main_call40.v0.ref) (by decide),
   wsub (y := main_call40.v1.ref) (by decide),
   wsub (y := main_call40.c_0.ref) (by decide),
   wsub (y := main_call40.v2.ref) (by decide),
   wsub (y := main_call40.v3.ref) (by decide),
   wsub (y := main_call40.call0.v0.ref) (by decide),
   wsub (y := main_call40.v5.ref) (by decide),
   wsub (y := main_call40.c_1.ref) (by decide),
   wsub (y := main_call40.c_2.ref) (by decide),
   wsub (y := main_call40.v6.ref) (by decide),
   wsub (y := main_call40.v7.ref) (by decide),
   wsub (y := main_call40.v8.ref) (by decide),
   wsub (y := main_call40.v9.ref) (by decide),
   wsub (y := main_call40.v10.ref) (by decide),
   wsub (y := main_call40.v11.ref) (by decide),
   wsub (y := main_call40.c_3.ref) (by decide),
   wsub (y := main_call40.v12.ref) (by decide),
   wsub (y := main_call40.v13.ref) (by decide),
   wsub (y := main_call40.v14.ref) (by decide),
   wsub (y := main_call40.cst.ref) (by decide),
   wsub (y := main_call40.v15.ref) (by decide),
   wsub (y := main_call40.v16.ref) (by decide),
   wsub (y := main_cst_19) (by decide),
   wsub (y := main_v164) (by decide),
   wsub (y := main_v165) (by decide),
   wsub (y := main_v166) (by decide),
   wsub (y := main_call41.c.ref) (by decide),
   wsub (y := main_call41.v0.ref) (by decide),
   wsub (y := main_call41.v1.ref) (by decide),
   wsub (y := main_call41.c_0.ref) (by decide),
   wsub (y := main_call41.v2.ref) (by decide),
   wsub (y := main_call41.v3.ref) (by decide),
   wsub (y := main_call41.call0.v0.ref) (by decide),
   wsub (y := main_call41.v5.ref) (by decide),
   wsub (y := main_call41.c_1.ref) (by decide),
   wsub (y := main_call41.c_2.ref) (by decide),
   wsub (y := main_call41.v6.ref) (by decide),
   wsub (y := main_call41.v7.ref) (by decide),
   wsub (y := main_call41.v8.ref) (by decide),
   wsub (y := main_call41.v9.ref) (by decide),
   wsub (y := main_call41.v10.ref) (by decide),
   wsub (y := main_call41.v11.ref) (by decide),
   wsub (y := main_call41.c_3.ref) (by decide),
   wsub (y := main_call41.v12.ref) (by decide),
   wsub (y := main_call41.v13.ref) (by decide),
   wsub (y := main_call41.v14.ref) (by decide),
   wsub (y := main_call41.cst.ref) (by decide),
   wsub (y := main_call41.v15.ref) (by decide),
   wsub (y := main_call41.v16.ref) (by decide)⟩

/-- A buffer these operations do not write keeps its contents. -/
theorem F20_frame (V : Valuation τ sig (Elt F)) {r : Ref sig .tc} (hr : r ∉ Wr20) :
    after F20 V (Proc.devRef .tc r) = V (Proc.devRef .tc r) :=
  after_of_writes_sub F20 V F20_writes hr

theorem F20_sub : (F20 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F20_fresh : (F20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 21 -/

set_option maxRecDepth 100000 in
set_option maxHeartbeats 1600000 in
theorem F21_lin (V : Valuation τ sig (Elt F)) :
    after F21 V (main_v172 : DevRef τ sig)
      = linField 2121 slices_S1024x2626_S1024x100_0_2121 21 slices_S26x100x1_S1x100x1_21_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F21_emb (V : Valuation τ sig (Elt F)) :
    after F21 V (main_v175 : DevRef τ sig)
      = embField 2121 slices_S1024x2626_S1024x100_0_2121 21 slices_S26x100x32_S1x100x32_21_0_0
          (V (main_arg0 : DevRef τ sig)) (V (main_arg3 : DevRef τ sig)) := by
  after_results_simp
  simp only [TRef.toBuf, TRef.ofBuf, cast_eq]
  rfl

/-- The buffers these operations write. -/
abbrev Wr21 : List (Ref sig .tc) :=
  [main_v168, main_v169, main_v170, main_call42.c.ref, main_call42.v0.ref, main_call42.v1.ref, main_call42.c_0.ref, main_call42.v2.ref, main_call42.v3.ref, main_call42.call0.v0.ref, main_call42.v5.ref, main_call42.c_1.ref, main_call42.c_2.ref, main_call42.v6.ref, main_call42.v7.ref, main_call42.v8.ref, main_call42.v9.ref, main_call42.v10.ref, main_call42.v11.ref, main_call42.c_3.ref, main_call42.v12.ref, main_call42.v13.ref, main_call42.v14.ref, main_call42.cst.ref, main_call42.v15.ref, main_call42.v16.ref, main_cst_20, main_v172, main_v173, main_v174, main_call43.c.ref, main_call43.v0.ref, main_call43.v1.ref, main_call43.c_0.ref, main_call43.v2.ref, main_call43.v3.ref, main_call43.call0.v0.ref, main_call43.v5.ref, main_call43.c_1.ref, main_call43.c_2.ref, main_call43.v6.ref, main_call43.v7.ref, main_call43.v8.ref, main_call43.v9.ref, main_call43.v10.ref, main_call43.v11.ref, main_call43.c_3.ref, main_call43.v12.ref, main_call43.v13.ref, main_call43.v14.ref, main_call43.cst.ref, main_call43.v15.ref, main_call43.v16.ref]

theorem F21_writes : (F21 : List (HloOp τ sig (Elt F))).Forall fun op => op.writes ⊆ ((Wr21).map (Proc.devRef (τ := τ) .tc)).toFinset :=
  ⟨wsub (y := main_v168) (by decide),
   wsub (y := main_v169) (by decide),
   wsub (y := main_v170) (by decide),
   wsub (y := main_call42.c.ref) (by decide),
   wsub (y := main_call42.v0.ref) (by decide),
   wsub (y := main_call42.v1.ref) (by decide),
   wsub (y := main_call42.c_0.ref) (by decide),
   wsub (y := main_call42.v2.ref) (by decide),
   wsub (y := main_call42.v3.ref) (by decide),
   wsub (y := main_call42.call0.v0.ref) (by decide),
   wsub (y := main_call42.v5.ref) (by decide),
   wsub (y := main_call42.c_1.ref) (by decide),
   wsub (y := main_call42.c_2.ref) (by decide),
   wsub (y := main_call42.v6.ref) (by decide),
   wsub (y := main_call42.v7.ref) (by decide),
   wsub (y := main_call42.v8.ref) (by decide),
   wsub (y := main_call42.v9.ref) (by decide),
   wsub (y := main_call42.v10.ref) (by decide),
   wsub (y := main_call42.v11.ref) (by decide),
   wsub (y := main_call42.c_3.ref) (by decide),
   wsub (y := main_call42.v12.ref) (by decide),
   wsub (y := main_call42.v13.ref) (by decide),
   wsub (y := main_call42.v14.ref) (by decide),
   wsub (y := main_call42.cst.ref) (by decide),
   wsub (y := main_call42.v15.ref) (by decide),
   wsub (y := main_call42.v16.ref) (by decide),
   wsub (y := main_cst_20) (by decide),
   wsub (y := main_v172) (by decide),
   wsub (y := main_v173) (by decide),
   wsub (y := main_v174) (by decide),
   wsub (y := main_call43.c.ref) (by decide),
   wsub (y := main_call43.v0.ref) (by decide),
   wsub (y := main_call43.v1.ref) (by decide),
   wsub (y := main_call43.c_0.ref) (by decide),
   wsub (y := main_call43.v2.ref) (by decide),
   wsub (y := main_call43.v3.ref) (by decide),
   wsub (y := main_call43.call0.v0.ref) (by decide),
   wsub (y := main_call43.v5.ref) (by decide),
   wsub (y := main_call43.c_1.ref) (by decide),
   wsub (y := main_call43.c_2.ref) (by decide),
   wsub (y := main_call43.v6.ref) (by decide),
   wsub (y := main_call43.v7.ref) (by decide),
   wsub (y := main_call43.v8.ref) (by decide),
   wsub (y := main_call43.v9.ref) (by decide),
   wsub (y := main_call43.v10.ref) (by decide),
   wsub (y := main_call43.v11.ref) (by decide),
   wsub (y := main_call43.c_3.ref) (by decide),
   wsub (y := main_call43.v12.ref) (by decide),
   wsub (y := main_call43.v13.ref) (by decide),
   wsub (y := main_call43.v14.ref) (by decide),
   wsub (y := main_call43.cst.ref) (by decide),
   wsub (y := main_call43.v15.ref) (by decide),
   wsub (y := main_call43.v16.ref) (by decide)⟩

/-- A buffer these operations do not write keeps its contents. -/
theorem F21_frame (V : Valuation τ sig (Elt F)) {r : Ref sig .tc} (hr : r ∉ Wr21) :
    after F21 V (Proc.devRef .tc r) = V (Proc.devRef .tc r) :=
  after_of_writes_sub F21 V F21_writes hr

theorem F21_sub : (F21 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F21_fresh : (F21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 22 -/

set_option maxRecDepth 100000 in
set_option maxHeartbeats 1600000 in
theorem F22_lin (V : Valuation τ sig (Elt F)) :
    after F22 V (main_v180 : DevRef τ sig)
      = linField 2222 slices_S1024x2626_S1024x100_0_2222 22 slices_S26x100x1_S1x100x1_22_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F22_emb (V : Valuation τ sig (Elt F)) :
    after F22 V (main_v183 : DevRef τ sig)
      = embField 2222 slices_S1024x2626_S1024x100_0_2222 22 slices_S26x100x32_S1x100x32_22_0_0
          (V (main_arg0 : DevRef τ sig)) (V (main_arg3 : DevRef τ sig)) := by
  after_results_simp
  simp only [TRef.toBuf, TRef.ofBuf, cast_eq]
  rfl

/-- The buffers these operations write. -/
abbrev Wr22 : List (Ref sig .tc) :=
  [main_v176, main_v177, main_v178, main_call44.c.ref, main_call44.v0.ref, main_call44.v1.ref, main_call44.c_0.ref, main_call44.v2.ref, main_call44.v3.ref, main_call44.call0.v0.ref, main_call44.v5.ref, main_call44.c_1.ref, main_call44.c_2.ref, main_call44.v6.ref, main_call44.v7.ref, main_call44.v8.ref, main_call44.v9.ref, main_call44.v10.ref, main_call44.v11.ref, main_call44.c_3.ref, main_call44.v12.ref, main_call44.v13.ref, main_call44.v14.ref, main_call44.cst.ref, main_call44.v15.ref, main_call44.v16.ref, main_cst_21, main_v180, main_v181, main_v182, main_call45.c.ref, main_call45.v0.ref, main_call45.v1.ref, main_call45.c_0.ref, main_call45.v2.ref, main_call45.v3.ref, main_call45.call0.v0.ref, main_call45.v5.ref, main_call45.c_1.ref, main_call45.c_2.ref, main_call45.v6.ref, main_call45.v7.ref, main_call45.v8.ref, main_call45.v9.ref, main_call45.v10.ref, main_call45.v11.ref, main_call45.c_3.ref, main_call45.v12.ref, main_call45.v13.ref, main_call45.v14.ref, main_call45.cst.ref, main_call45.v15.ref, main_call45.v16.ref]

theorem F22_writes : (F22 : List (HloOp τ sig (Elt F))).Forall fun op => op.writes ⊆ ((Wr22).map (Proc.devRef (τ := τ) .tc)).toFinset :=
  ⟨wsub (y := main_v176) (by decide),
   wsub (y := main_v177) (by decide),
   wsub (y := main_v178) (by decide),
   wsub (y := main_call44.c.ref) (by decide),
   wsub (y := main_call44.v0.ref) (by decide),
   wsub (y := main_call44.v1.ref) (by decide),
   wsub (y := main_call44.c_0.ref) (by decide),
   wsub (y := main_call44.v2.ref) (by decide),
   wsub (y := main_call44.v3.ref) (by decide),
   wsub (y := main_call44.call0.v0.ref) (by decide),
   wsub (y := main_call44.v5.ref) (by decide),
   wsub (y := main_call44.c_1.ref) (by decide),
   wsub (y := main_call44.c_2.ref) (by decide),
   wsub (y := main_call44.v6.ref) (by decide),
   wsub (y := main_call44.v7.ref) (by decide),
   wsub (y := main_call44.v8.ref) (by decide),
   wsub (y := main_call44.v9.ref) (by decide),
   wsub (y := main_call44.v10.ref) (by decide),
   wsub (y := main_call44.v11.ref) (by decide),
   wsub (y := main_call44.c_3.ref) (by decide),
   wsub (y := main_call44.v12.ref) (by decide),
   wsub (y := main_call44.v13.ref) (by decide),
   wsub (y := main_call44.v14.ref) (by decide),
   wsub (y := main_call44.cst.ref) (by decide),
   wsub (y := main_call44.v15.ref) (by decide),
   wsub (y := main_call44.v16.ref) (by decide),
   wsub (y := main_cst_21) (by decide),
   wsub (y := main_v180) (by decide),
   wsub (y := main_v181) (by decide),
   wsub (y := main_v182) (by decide),
   wsub (y := main_call45.c.ref) (by decide),
   wsub (y := main_call45.v0.ref) (by decide),
   wsub (y := main_call45.v1.ref) (by decide),
   wsub (y := main_call45.c_0.ref) (by decide),
   wsub (y := main_call45.v2.ref) (by decide),
   wsub (y := main_call45.v3.ref) (by decide),
   wsub (y := main_call45.call0.v0.ref) (by decide),
   wsub (y := main_call45.v5.ref) (by decide),
   wsub (y := main_call45.c_1.ref) (by decide),
   wsub (y := main_call45.c_2.ref) (by decide),
   wsub (y := main_call45.v6.ref) (by decide),
   wsub (y := main_call45.v7.ref) (by decide),
   wsub (y := main_call45.v8.ref) (by decide),
   wsub (y := main_call45.v9.ref) (by decide),
   wsub (y := main_call45.v10.ref) (by decide),
   wsub (y := main_call45.v11.ref) (by decide),
   wsub (y := main_call45.c_3.ref) (by decide),
   wsub (y := main_call45.v12.ref) (by decide),
   wsub (y := main_call45.v13.ref) (by decide),
   wsub (y := main_call45.v14.ref) (by decide),
   wsub (y := main_call45.cst.ref) (by decide),
   wsub (y := main_call45.v15.ref) (by decide),
   wsub (y := main_call45.v16.ref) (by decide)⟩

/-- A buffer these operations do not write keeps its contents. -/
theorem F22_frame (V : Valuation τ sig (Elt F)) {r : Ref sig .tc} (hr : r ∉ Wr22) :
    after F22 V (Proc.devRef .tc r) = V (Proc.devRef .tc r) :=
  after_of_writes_sub F22 V F22_writes hr

theorem F22_sub : (F22 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F22_fresh : (F22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 23 -/

set_option maxRecDepth 100000 in
set_option maxHeartbeats 1600000 in
theorem F23_lin (V : Valuation τ sig (Elt F)) :
    after F23 V (main_v188 : DevRef τ sig)
      = linField 2323 slices_S1024x2626_S1024x100_0_2323 23 slices_S26x100x1_S1x100x1_23_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F23_emb (V : Valuation τ sig (Elt F)) :
    after F23 V (main_v191 : DevRef τ sig)
      = embField 2323 slices_S1024x2626_S1024x100_0_2323 23 slices_S26x100x32_S1x100x32_23_0_0
          (V (main_arg0 : DevRef τ sig)) (V (main_arg3 : DevRef τ sig)) := by
  after_results_simp
  simp only [TRef.toBuf, TRef.ofBuf, cast_eq]
  rfl

/-- The buffers these operations write. -/
abbrev Wr23 : List (Ref sig .tc) :=
  [main_v184, main_v185, main_v186, main_call46.c.ref, main_call46.v0.ref, main_call46.v1.ref, main_call46.c_0.ref, main_call46.v2.ref, main_call46.v3.ref, main_call46.call0.v0.ref, main_call46.v5.ref, main_call46.c_1.ref, main_call46.c_2.ref, main_call46.v6.ref, main_call46.v7.ref, main_call46.v8.ref, main_call46.v9.ref, main_call46.v10.ref, main_call46.v11.ref, main_call46.c_3.ref, main_call46.v12.ref, main_call46.v13.ref, main_call46.v14.ref, main_call46.cst.ref, main_call46.v15.ref, main_call46.v16.ref, main_cst_22, main_v188, main_v189, main_v190, main_call47.c.ref, main_call47.v0.ref, main_call47.v1.ref, main_call47.c_0.ref, main_call47.v2.ref, main_call47.v3.ref, main_call47.call0.v0.ref, main_call47.v5.ref, main_call47.c_1.ref, main_call47.c_2.ref, main_call47.v6.ref, main_call47.v7.ref, main_call47.v8.ref, main_call47.v9.ref, main_call47.v10.ref, main_call47.v11.ref, main_call47.c_3.ref, main_call47.v12.ref, main_call47.v13.ref, main_call47.v14.ref, main_call47.cst.ref, main_call47.v15.ref, main_call47.v16.ref]

theorem F23_writes : (F23 : List (HloOp τ sig (Elt F))).Forall fun op => op.writes ⊆ ((Wr23).map (Proc.devRef (τ := τ) .tc)).toFinset :=
  ⟨wsub (y := main_v184) (by decide),
   wsub (y := main_v185) (by decide),
   wsub (y := main_v186) (by decide),
   wsub (y := main_call46.c.ref) (by decide),
   wsub (y := main_call46.v0.ref) (by decide),
   wsub (y := main_call46.v1.ref) (by decide),
   wsub (y := main_call46.c_0.ref) (by decide),
   wsub (y := main_call46.v2.ref) (by decide),
   wsub (y := main_call46.v3.ref) (by decide),
   wsub (y := main_call46.call0.v0.ref) (by decide),
   wsub (y := main_call46.v5.ref) (by decide),
   wsub (y := main_call46.c_1.ref) (by decide),
   wsub (y := main_call46.c_2.ref) (by decide),
   wsub (y := main_call46.v6.ref) (by decide),
   wsub (y := main_call46.v7.ref) (by decide),
   wsub (y := main_call46.v8.ref) (by decide),
   wsub (y := main_call46.v9.ref) (by decide),
   wsub (y := main_call46.v10.ref) (by decide),
   wsub (y := main_call46.v11.ref) (by decide),
   wsub (y := main_call46.c_3.ref) (by decide),
   wsub (y := main_call46.v12.ref) (by decide),
   wsub (y := main_call46.v13.ref) (by decide),
   wsub (y := main_call46.v14.ref) (by decide),
   wsub (y := main_call46.cst.ref) (by decide),
   wsub (y := main_call46.v15.ref) (by decide),
   wsub (y := main_call46.v16.ref) (by decide),
   wsub (y := main_cst_22) (by decide),
   wsub (y := main_v188) (by decide),
   wsub (y := main_v189) (by decide),
   wsub (y := main_v190) (by decide),
   wsub (y := main_call47.c.ref) (by decide),
   wsub (y := main_call47.v0.ref) (by decide),
   wsub (y := main_call47.v1.ref) (by decide),
   wsub (y := main_call47.c_0.ref) (by decide),
   wsub (y := main_call47.v2.ref) (by decide),
   wsub (y := main_call47.v3.ref) (by decide),
   wsub (y := main_call47.call0.v0.ref) (by decide),
   wsub (y := main_call47.v5.ref) (by decide),
   wsub (y := main_call47.c_1.ref) (by decide),
   wsub (y := main_call47.c_2.ref) (by decide),
   wsub (y := main_call47.v6.ref) (by decide),
   wsub (y := main_call47.v7.ref) (by decide),
   wsub (y := main_call47.v8.ref) (by decide),
   wsub (y := main_call47.v9.ref) (by decide),
   wsub (y := main_call47.v10.ref) (by decide),
   wsub (y := main_call47.v11.ref) (by decide),
   wsub (y := main_call47.c_3.ref) (by decide),
   wsub (y := main_call47.v12.ref) (by decide),
   wsub (y := main_call47.v13.ref) (by decide),
   wsub (y := main_call47.v14.ref) (by decide),
   wsub (y := main_call47.cst.ref) (by decide),
   wsub (y := main_call47.v15.ref) (by decide),
   wsub (y := main_call47.v16.ref) (by decide)⟩

/-- A buffer these operations do not write keeps its contents. -/
theorem F23_frame (V : Valuation τ sig (Elt F)) {r : Ref sig .tc} (hr : r ∉ Wr23) :
    after F23 V (Proc.devRef .tc r) = V (Proc.devRef .tc r) :=
  after_of_writes_sub F23 V F23_writes hr

theorem F23_sub : (F23 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F23_fresh : (F23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 24 -/

set_option maxRecDepth 100000 in
set_option maxHeartbeats 1600000 in
theorem F24_lin (V : Valuation τ sig (Elt F)) :
    after F24 V (main_v196 : DevRef τ sig)
      = linField 2424 slices_S1024x2626_S1024x100_0_2424 24 slices_S26x100x1_S1x100x1_24_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F24_emb (V : Valuation τ sig (Elt F)) :
    after F24 V (main_v199 : DevRef τ sig)
      = embField 2424 slices_S1024x2626_S1024x100_0_2424 24 slices_S26x100x32_S1x100x32_24_0_0
          (V (main_arg0 : DevRef τ sig)) (V (main_arg3 : DevRef τ sig)) := by
  after_results_simp
  simp only [TRef.toBuf, TRef.ofBuf, cast_eq]
  rfl

/-- The buffers these operations write. -/
abbrev Wr24 : List (Ref sig .tc) :=
  [main_v192, main_v193, main_v194, main_call48.c.ref, main_call48.v0.ref, main_call48.v1.ref, main_call48.c_0.ref, main_call48.v2.ref, main_call48.v3.ref, main_call48.call0.v0.ref, main_call48.v5.ref, main_call48.c_1.ref, main_call48.c_2.ref, main_call48.v6.ref, main_call48.v7.ref, main_call48.v8.ref, main_call48.v9.ref, main_call48.v10.ref, main_call48.v11.ref, main_call48.c_3.ref, main_call48.v12.ref, main_call48.v13.ref, main_call48.v14.ref, main_call48.cst.ref, main_call48.v15.ref, main_call48.v16.ref, main_cst_23, main_v196, main_v197, main_v198, main_call49.c.ref, main_call49.v0.ref, main_call49.v1.ref, main_call49.c_0.ref, main_call49.v2.ref, main_call49.v3.ref, main_call49.call0.v0.ref, main_call49.v5.ref, main_call49.c_1.ref, main_call49.c_2.ref, main_call49.v6.ref, main_call49.v7.ref, main_call49.v8.ref, main_call49.v9.ref, main_call49.v10.ref, main_call49.v11.ref, main_call49.c_3.ref, main_call49.v12.ref, main_call49.v13.ref, main_call49.v14.ref, main_call49.cst.ref, main_call49.v15.ref, main_call49.v16.ref]

theorem F24_writes : (F24 : List (HloOp τ sig (Elt F))).Forall fun op => op.writes ⊆ ((Wr24).map (Proc.devRef (τ := τ) .tc)).toFinset :=
  ⟨wsub (y := main_v192) (by decide),
   wsub (y := main_v193) (by decide),
   wsub (y := main_v194) (by decide),
   wsub (y := main_call48.c.ref) (by decide),
   wsub (y := main_call48.v0.ref) (by decide),
   wsub (y := main_call48.v1.ref) (by decide),
   wsub (y := main_call48.c_0.ref) (by decide),
   wsub (y := main_call48.v2.ref) (by decide),
   wsub (y := main_call48.v3.ref) (by decide),
   wsub (y := main_call48.call0.v0.ref) (by decide),
   wsub (y := main_call48.v5.ref) (by decide),
   wsub (y := main_call48.c_1.ref) (by decide),
   wsub (y := main_call48.c_2.ref) (by decide),
   wsub (y := main_call48.v6.ref) (by decide),
   wsub (y := main_call48.v7.ref) (by decide),
   wsub (y := main_call48.v8.ref) (by decide),
   wsub (y := main_call48.v9.ref) (by decide),
   wsub (y := main_call48.v10.ref) (by decide),
   wsub (y := main_call48.v11.ref) (by decide),
   wsub (y := main_call48.c_3.ref) (by decide),
   wsub (y := main_call48.v12.ref) (by decide),
   wsub (y := main_call48.v13.ref) (by decide),
   wsub (y := main_call48.v14.ref) (by decide),
   wsub (y := main_call48.cst.ref) (by decide),
   wsub (y := main_call48.v15.ref) (by decide),
   wsub (y := main_call48.v16.ref) (by decide),
   wsub (y := main_cst_23) (by decide),
   wsub (y := main_v196) (by decide),
   wsub (y := main_v197) (by decide),
   wsub (y := main_v198) (by decide),
   wsub (y := main_call49.c.ref) (by decide),
   wsub (y := main_call49.v0.ref) (by decide),
   wsub (y := main_call49.v1.ref) (by decide),
   wsub (y := main_call49.c_0.ref) (by decide),
   wsub (y := main_call49.v2.ref) (by decide),
   wsub (y := main_call49.v3.ref) (by decide),
   wsub (y := main_call49.call0.v0.ref) (by decide),
   wsub (y := main_call49.v5.ref) (by decide),
   wsub (y := main_call49.c_1.ref) (by decide),
   wsub (y := main_call49.c_2.ref) (by decide),
   wsub (y := main_call49.v6.ref) (by decide),
   wsub (y := main_call49.v7.ref) (by decide),
   wsub (y := main_call49.v8.ref) (by decide),
   wsub (y := main_call49.v9.ref) (by decide),
   wsub (y := main_call49.v10.ref) (by decide),
   wsub (y := main_call49.v11.ref) (by decide),
   wsub (y := main_call49.c_3.ref) (by decide),
   wsub (y := main_call49.v12.ref) (by decide),
   wsub (y := main_call49.v13.ref) (by decide),
   wsub (y := main_call49.v14.ref) (by decide),
   wsub (y := main_call49.cst.ref) (by decide),
   wsub (y := main_call49.v15.ref) (by decide),
   wsub (y := main_call49.v16.ref) (by decide)⟩

/-- A buffer these operations do not write keeps its contents. -/
theorem F24_frame (V : Valuation τ sig (Elt F)) {r : Ref sig .tc} (hr : r ∉ Wr24) :
    after F24 V (Proc.devRef .tc r) = V (Proc.devRef .tc r) :=
  after_of_writes_sub F24 V F24_writes hr

theorem F24_sub : (F24 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F24_fresh : (F24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### Field 25 -/

set_option maxRecDepth 100000 in
set_option maxHeartbeats 1600000 in
theorem F25_lin (V : Valuation τ sig (Elt F)) :
    after F25 V (main_v204 : DevRef τ sig)
      = linField 2525 slices_S1024x2626_S1024x100_0_2525 25 slices_S26x100x1_S1x100x1_25_0_0
          (V (main_arg0 : DevRef τ sig)) (V (main_arg2 : DevRef τ sig)) := by
  after_results_simp
  simp only [TRef.toBuf, TRef.ofBuf, cast_eq]
  rfl

set_option maxRecDepth 100000 in
set_option maxHeartbeats 1600000 in
theorem F25_emb (V : Valuation τ sig (Elt F)) :
    after F25 V (main_v207 : DevRef τ sig)
      = embField 2525 slices_S1024x2626_S1024x100_0_2525 25 slices_S26x100x32_S1x100x32_25_0_0
          (V (main_arg0 : DevRef τ sig)) (V (main_arg3 : DevRef τ sig)) := by
  after_results_simp
  simp only [TRef.toBuf, TRef.ofBuf, cast_eq]
  rfl

/-- The buffers these operations write. -/
abbrev Wr25 : List (Ref sig .tc) :=
  [main_v200, main_v201, main_v202, main_call50.c.ref, main_call50.v0.ref, main_call50.v1.ref, main_call50.c_0.ref, main_call50.v2.ref, main_call50.v3.ref, main_call50.call0.v0.ref, main_call50.v5.ref, main_call50.c_1.ref, main_call50.c_2.ref, main_call50.v6.ref, main_call50.v7.ref, main_call50.v8.ref, main_call50.v9.ref, main_call50.v10.ref, main_call50.v11.ref, main_call50.c_3.ref, main_call50.v12.ref, main_call50.v13.ref, main_call50.v14.ref, main_call50.cst.ref, main_call50.v15.ref, main_call50.v16.ref, main_cst_24, main_v204, main_v205, main_v206, main_call51.c.ref, main_call51.v0.ref, main_call51.v1.ref, main_call51.c_0.ref, main_call51.v2.ref, main_call51.v3.ref, main_call51.call0.v0.ref, main_call51.v5.ref, main_call51.c_1.ref, main_call51.c_2.ref, main_call51.v6.ref, main_call51.v7.ref, main_call51.v8.ref, main_call51.v9.ref, main_call51.v10.ref, main_call51.v11.ref, main_call51.c_3.ref, main_call51.v12.ref, main_call51.v13.ref, main_call51.v14.ref, main_call51.cst.ref, main_call51.v15.ref, main_call51.v16.ref]

theorem F25_writes : (F25 : List (HloOp τ sig (Elt F))).Forall fun op => op.writes ⊆ ((Wr25).map (Proc.devRef (τ := τ) .tc)).toFinset :=
  ⟨wsub (y := main_v200) (by decide),
   wsub (y := main_v201) (by decide),
   wsub (y := main_v202) (by decide),
   wsub (y := main_call50.c.ref) (by decide),
   wsub (y := main_call50.v0.ref) (by decide),
   wsub (y := main_call50.v1.ref) (by decide),
   wsub (y := main_call50.c_0.ref) (by decide),
   wsub (y := main_call50.v2.ref) (by decide),
   wsub (y := main_call50.v3.ref) (by decide),
   wsub (y := main_call50.call0.v0.ref) (by decide),
   wsub (y := main_call50.v5.ref) (by decide),
   wsub (y := main_call50.c_1.ref) (by decide),
   wsub (y := main_call50.c_2.ref) (by decide),
   wsub (y := main_call50.v6.ref) (by decide),
   wsub (y := main_call50.v7.ref) (by decide),
   wsub (y := main_call50.v8.ref) (by decide),
   wsub (y := main_call50.v9.ref) (by decide),
   wsub (y := main_call50.v10.ref) (by decide),
   wsub (y := main_call50.v11.ref) (by decide),
   wsub (y := main_call50.c_3.ref) (by decide),
   wsub (y := main_call50.v12.ref) (by decide),
   wsub (y := main_call50.v13.ref) (by decide),
   wsub (y := main_call50.v14.ref) (by decide),
   wsub (y := main_call50.cst.ref) (by decide),
   wsub (y := main_call50.v15.ref) (by decide),
   wsub (y := main_call50.v16.ref) (by decide),
   wsub (y := main_cst_24) (by decide),
   wsub (y := main_v204) (by decide),
   wsub (y := main_v205) (by decide),
   wsub (y := main_v206) (by decide),
   wsub (y := main_call51.c.ref) (by decide),
   wsub (y := main_call51.v0.ref) (by decide),
   wsub (y := main_call51.v1.ref) (by decide),
   wsub (y := main_call51.c_0.ref) (by decide),
   wsub (y := main_call51.v2.ref) (by decide),
   wsub (y := main_call51.v3.ref) (by decide),
   wsub (y := main_call51.call0.v0.ref) (by decide),
   wsub (y := main_call51.v5.ref) (by decide),
   wsub (y := main_call51.c_1.ref) (by decide),
   wsub (y := main_call51.c_2.ref) (by decide),
   wsub (y := main_call51.v6.ref) (by decide),
   wsub (y := main_call51.v7.ref) (by decide),
   wsub (y := main_call51.v8.ref) (by decide),
   wsub (y := main_call51.v9.ref) (by decide),
   wsub (y := main_call51.v10.ref) (by decide),
   wsub (y := main_call51.v11.ref) (by decide),
   wsub (y := main_call51.c_3.ref) (by decide),
   wsub (y := main_call51.v12.ref) (by decide),
   wsub (y := main_call51.v13.ref) (by decide),
   wsub (y := main_call51.v14.ref) (by decide),
   wsub (y := main_call51.cst.ref) (by decide),
   wsub (y := main_call51.v15.ref) (by decide),
   wsub (y := main_call51.v16.ref) (by decide)⟩

/-- A buffer these operations do not write keeps its contents. -/
theorem F25_frame (V : Valuation τ sig (Elt F)) {r : Ref sig .tc} (hr : r ∉ Wr25) :
    after F25 V (Proc.devRef .tc r) = V (Proc.devRef .tc r) :=
  after_of_writes_sub F25 V F25_writes hr

theorem F25_sub : (F25 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem F25_fresh : (F25 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefTail.lean ====
/-
  The closing operations (concatenations, linear layer, interaction term, logistic function): what they leave in the
  result buffer as a function of the fields' results and the dense arguments, and which buffers they write.
-/
import proofs.«205260_g26156350832969_cont_9to1_3_23_alg».proof.Proof.Gen.ReferenceIdeal
import Idealize.ShloMosaic.Lib.StableHlo.Run
import proofs.«205260_g26156350832969_cont_9to1_3_23_alg».proof.Proof.RefDefs
import proofs.«205260_g26156350832969_cont_9to1_3_23_alg».proof.Proof.RefOps
import proofs.«205260_g26156350832969_cont_9to1_3_23_alg».proof.Proof.RefLib

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A 16-operand operation's result with each operand's contents at its own reference. -/
theorem nary16_result' {x0 x1 x2 x3 x4 x5 x6 x7 x8 x9 x10 x11 x12 x13 x14 x15 y : Ref sig .tc}
    (f : ((k : Fin 16) → ((![x0, x1, x2, x3, x4, x5, x6, x7, x8, x9, x10, x11, x12, x13, x14, x15] : Fin 16 → Ref sig .tc) k).ty.Contents (Elt F)) → y.ty.Contents (Elt F)) (hxs hy)
    (V : Valuation τ sig (Elt F)) :
    (nary (τ := τ) ![x0, x1, x2, x3, x4, x5, x6, x7, x8, x9, x10, x11, x12, x13, x14, x15] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (Fin.cons (V (Proc.devRef .tc x9)) (Fin.cons (V (Proc.devRef .tc x10)) (Fin.cons (V (Proc.devRef .tc x11)) (Fin.cons (V (Proc.devRef .tc x12)) (Fin.cons (V (Proc.devRef .tc x13)) (Fin.cons (V (Proc.devRef .tc x14)) (Fin.cons (V (Proc.devRef .tc x15)) (fun i => i.elim0))))))))))))))))) := by
  rw [nary_result]; congr 1; funext k; fin_cases k <;> rfl

/-- A 10-operand operation's result with each operand's contents at its own reference. -/
theorem nary10_result' {x0 x1 x2 x3 x4 x5 x6 x7 x8 x9 y : Ref sig .tc}
    (f : ((k : Fin 10) → ((![x0, x1, x2, x3, x4, x5, x6, x7, x8, x9] : Fin 10 → Ref sig .tc) k).ty.Contents (Elt F)) → y.ty.Contents (Elt F)) (hxs hy)
    (V : Valuation τ sig (Elt F)) :
    (nary (τ := τ) ![x0, x1, x2, x3, x4, x5, x6, x7, x8, x9] y f hxs hy).result V (no_index (Proc.devRef .tc y))
      = f (Fin.cons (V (Proc.devRef .tc x0)) (Fin.cons (V (Proc.devRef .tc x1)) (Fin.cons (V (Proc.devRef .tc x2)) (Fin.cons (V (Proc.devRef .tc x3)) (Fin.cons (V (Proc.devRef .tc x4)) (Fin.cons (V (Proc.devRef .tc x5)) (Fin.cons (V (Proc.devRef .tc x6)) (Fin.cons (V (Proc.devRef .tc x7)) (Fin.cons (V (Proc.devRef .tc x8)) (Fin.cons (V (Proc.devRef .tc x9)) (fun i => i.elim0))))))))))) := by
  rw [nary_result]; congr 1; funext k; fin_cases k <;> rfl

set_option maxRecDepth 100000 in
set_option maxHeartbeats 3200000 in
/-- The result buffer after the closing operations, from any contents. -/
theorem tail_after (V : Valuation τ sig (Elt F)) :
    after Tl V (main_v235 : DevRef τ sig)
      = headFn
          (linCat ![(V (main_v4 : DevRef τ sig) : FVec F S1024x1 .f32),
            (V (main_v12 : DevRef τ sig) : FVec F S1024x1 .f32),
            (V (main_v20 : DevRef τ sig) : FVec F S1024x1 .f32),
            (V (main_v28 : DevRef τ sig) : FVec F S1024x1 .f32),
            (V (main_v36 : DevRef τ sig) : FVec F S1024x1 .f32),
            (V (main_v44 : DevRef τ sig) : FVec F S1024x1 .f32),
            (V (main_v52 : DevRef τ sig) : FVec F S1024x1 .f32),
            (V (main_v60 : DevRef τ sig) : FVec F S1024x1 .f32),
            (V (main_v68 : DevRef τ sig) : FVec F S1024x1 .f32),
            (V (main_v76 : DevRef τ sig) : FVec F S1024x1 .f32),
            (V (main_v84 : DevRef τ sig) : FVec F S1024x1 .f32),
            (V (main_v92 : DevRef τ sig) : FVec F S1024x1 .f32),
            (V (main_v100 : DevRef τ sig) : FVec F S1024x1 .f32),
            (V (main_v108 : DevRef τ sig) : FVec F S1024x1 .f32),
            (V (main_v116 : DevRef τ sig) : FVec F S1024x1 .f32),
            (V (main_v124 : DevRef τ sig) : FVec F S1024x1 .f32),
            (V (main_v132 : DevRef τ sig) : FVec F S1024x1 .f32),
            (V (main_v140 : DevRef τ sig) : FVec F S1024x1 .f32),
            (V (main_v148 : DevRef τ sig) : FVec F S1024x1 .f32),
            (V (main_v156 : DevRef τ sig) : FVec F S1024x1 .f32),
            (V (main_v164 : DevRef τ sig) : FVec F S1024x1 .f32),
            (V (main_v172 : DevRef τ sig) : FVec F S1024x1 .f32),
            (V (main_v180 : DevRef τ sig) : FVec F S1024x1 .f32),
            (V (main_v188 : DevRef τ sig) : FVec F S1024x1 .f32),
            (V (main_v196 : DevRef τ sig) : FVec F S1024x1 .f32),
            (V (main_v204 : DevRef τ sig) : FVec F S1024x1 .f32)])
          (embCat ![(V (main_v7 : DevRef τ sig) : FVec F S1024x100x32 .f32),
            (V (main_v15 : DevRef τ sig) : FVec F S1024x100x32 .f32),
            (V (main_v23 : DevRef τ sig) : FVec F S1024x100x32 .f32),
            (V (main_v31 : DevRef τ sig) : FVec F S1024x100x32 .f32),
            (V (main_v39 : DevRef τ sig) : FVec F S1024x100x32 .f32),
            (V (main_v47 : DevRef τ sig) : FVec F S1024x100x32 .f32),
            (V (main_v55 : DevRef τ sig) : FVec F S1024x100x32 .f32),
            (V (main_v63 : DevRef τ sig) : FVec F S1024x100x32 .f32),
            (V (main_v71 : DevRef τ sig) : FVec F S1024x100x32 .f32),
            (V (main_v79 : DevRef τ sig) : FVec F S1024x100x32 .f32),
            (V (main_v87 : DevRef τ sig) : FVec F S1024x100x32 .f32),
            (V (main_v95 : DevRef τ sig) : FVec F S1024x100x32 .f32),
            (V (main_v103 : DevRef τ sig) : FVec F S1024x100x32 .f32),
            (V (main_v111 : DevRef τ sig) : FVec F S1024x100x32 .f32),
            (V (main_v119 : DevRef τ sig) : FVec F S1024x100x32 .f32),
            (V (main_v127 : DevRef τ sig) : FVec F S1024x100x32 .f32),
            (V (main_v135 : DevRef τ sig) : FVec F S1024x100x32 .f32),
            (V (main_v143 : DevRef τ sig) : FVec F S1024x100x32 .f32),
            (V (main_v151 : DevRef τ sig) : FVec F S1024x100x32 .f32),
            (V (main_v159 : DevRef τ sig) : FVec F S1024x100x32 .f32),
            (V (main_v167 : DevRef τ sig) : FVec F S1024x100x32 .f32),
            (V (main_v175 : DevRef τ sig) : FVec F S1024x100x32 .f32),
            (V (main_v183 : DevRef τ sig) : FVec F S1024x100x32 .f32),
            (V (main_v191 : DevRef τ sig) : FVec F S1024x100x32 .f32),
            (V (main_v199 : DevRef τ sig) : FVec F S1024x100x32 .f32),
            (V (main_v207 : DevRef τ sig) : FVec F S1024x100x32 .f32)])
          (V (main_arg1 : DevRef τ sig)) (V (main_arg4 : DevRef τ sig)) (V (main_arg5 : DevRef τ sig)) := by
  simp (disch := decide) only [after_cons, after_nil, nary16_result', nary10_result',
    nullary_result', unary_result', binary_result', ternary_result', quaternary_result', reshape_result',
    nullary_result_ne', unary_result_ne', binary_result_ne', ternary_result_ne', quaternary_result_ne', reshape_result_ne',
    nary_result_ne']
  rfl

/-- The buffers these operations write. -/
abbrev WrT : List (Ref sig .tc) :=
  [main_v208, main_v209, main_v210, main_v211, main_v212, main_v213, main_v214, main_v215, main_v216, main_v217, main_v218, main_cst_25, main_v219, main_v220, main_v221, main_v222, main_cst_26, main_v223, main_v224, main_v225, main_cst_27, main_v226, main_cst_28, main_v227, main_v228, main_v229, main_v230, main_v231, main_cst_29, main_v232, main_v233, main_cst_30, main_v234, main_v235]

theorem Tl_writes : (Tl : List (HloOp τ sig (Elt F))).Forall fun op => op.writes ⊆ ((WrT).map (Proc.devRef (τ := τ) .tc)).toFinset :=
  ⟨wsub (y := main_v208) (by decide),
   wsub (y := main_v209) (by decide),
   wsub (y := main_v210) (by decide),
   wsub (y := main_v211) (by decide),
   wsub (y := main_v212) (by decide),
   wsub (y := main_v213) (by decide),
   wsub (y := main_v214) (by decide),
   wsub (y := main_v215) (by decide),
   wsub (y := main_v216) (by decide),
   wsub (y := main_v217) (by decide),
   wsub (y := main_v218) (by decide),
   wsub (y := main_cst_25) (by decide),
   wsub (y := main_v219) (by decide),
   wsub (y := main_v220) (by decide),
   wsub (y := main_v221) (by decide),
   wsub (y := main_v222) (by decide),
   wsub (y := main_cst_26) (by decide),
   wsub (y := main_v223) (by decide),
   wsub (y := main_v224) (by decide),
   wsub (y := main_v225) (by decide),
   wsub (y := main_cst_27) (by decide),
   wsub (y := main_v226) (by decide),
   wsub (y := main_cst_28) (by decide),
   wsub (y := main_v227) (by decide),
   wsub (y := main_v228) (by decide),
   wsub (y := main_v229) (by decide),
   wsub (y := main_v230) (by decide),
   wsub (y := main_v231) (by decide),
   wsub (y := main_cst_29) (by decide),
   wsub (y := main_v232) (by decide),
   wsub (y := main_v233) (by decide),
   wsub (y := main_cst_30) (by decide),
   wsub (y := main_v234) (by decide),
   wsub (y := main_v235) (by decide)⟩

/-- A buffer these operations do not write keeps its contents. -/
theorem Tl_frame (V : Valuation τ sig (Elt F)) {r : Ref sig .tc} (hr : r ∉ WrT) :
    after Tl V (Proc.devRef .tc r) = V (Proc.devRef .tc r) :=
  after_of_writes_sub Tl V Tl_writes hr

theorem Tl_sub : (Tl : List (HloOp τ sig (Elt F))).Forall fun op => op.bufs ⊆ tcRefs τ sig :=
  ⟨nary_bufs_sub .., nary_bufs_sub .., binary_bufs_sub .., binary_bufs_sub .., binary_bufs_sub .., unary_bufs_sub .., unary_bufs_sub .., binary_bufs_sub .., nary_bufs_sub .., nary_bufs_sub .., binary_bufs_sub .., nullary_bufs_sub .., binary_bufs_sub .., unary_bufs_sub .., binary_bufs_sub .., binary_bufs_sub .., nullary_bufs_sub .., binary_bufs_sub .., unary_bufs_sub .., binary_bufs_sub .., nullary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

theorem Tl_fresh : (Tl : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.RefValue

end
-- ==== Proof.RefMainEq.lean ====
/-
  The printed program is the straight line of its operations.  Each of the five windows is cut in two halves; each
  half is the line of its own operations (the lookups' bodies unfolded at their calls); the halves in order are the
  window, and the windows in order are the whole line.
-/
import proofs.«205260_g26156350832969_cont_9to1_3_23_alg».proof.Proof.Gen.ReferenceIdeal
import Idealize.ShloMosaic.Lib.StableHlo.Run
import proofs.«205260_g26156350832969_cont_9to1_3_23_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Window 0, first half. -/
def part0_a : Dev nD → Prog (TpuEff nD τ sig (Elt F) (Pipeline.Sig Λ₀ (Fin 0) fun p => (pcfgs (F := F) p).Adm) .tc) PUnit := fun _ => do
  hlo rfl (StableHlo.unary main_arg0 main_v0 ((extractStridedSlice S1024x100 ![0, 0] · slices_S1024x2626_S1024x100_0_0) : (⟨S1024x2626, .i32⟩ : BufTy).Contents (Elt F) → (⟨S1024x100, .i32⟩ : BufTy).Contents (Elt F))) (fun _ => .ret ⟨⟩)
  hlo rfl (StableHlo.unary main_arg2 main_v1 ((extractStridedSlice S1x100x1 ![0, 0, 0] · slices_S26x100x1_S1x100x1_0_0_0) : (⟨S26x100x1, .f32⟩ : BufTy).Contents (Elt F) → (⟨S1x100x1, .f32⟩ : BufTy).Contents (Elt F))) (fun _ => .ret ⟨⟩)
  hlo rfl (StableHlo.reshape main_v1 main_v2 rfl shapeCasts_S1x100x1_S100x1) (fun _ => .ret ⟨⟩)
  fn_take.body (.of main_v2) (.of main_v0) main_call0
  hlo rfl (StableHlo.nullary main_cst (constant S_ .f32 0x00000000#32)) (fun _ => .ret ⟨⟩)
  hlo rfl (StableHlo.binary main_v3 main_cst main_v4 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v5 ((extractStridedSlice S1x100x32 ![0, 0, 0] · slices_S26x100x32_S1x100x32_0_0_0) : (⟨S26x100x32, .f32⟩ : BufTy).Contents (Elt F) → (⟨S1x100x32, .f32⟩ : BufTy).Contents (Elt F))) (fun _ => .ret ⟨⟩)
  hlo rfl (StableHlo.reshape main_v5 main_v6 rfl shapeCasts_S1x100x32_S100x32) (fun _ => .ret ⟨⟩)
  fn_take_0.body (.of main_v6) (.of main_v0) main_call1
  hlo rfl (StableHlo.unary main_arg0 main_v8 ((extractStridedSlice S1024x100 ![0, 101] · slices_S1024x2626_S1024x100_0_101) : (⟨S1024x2626, .i32⟩ : BufTy).Contents (Elt F) → (⟨S1024x100, .i32⟩ : BufTy).Contents (Elt F))) (fun _ => .ret ⟨⟩)
  hlo rfl (StableHlo.unary main_arg2 main_v9 ((extractStridedSlice S1x100x1 ![1, 0, 0] · slices_S26x100x1_S1x100x1_1_0_0) : (⟨S26x100x1, .f32⟩ : BufTy).Contents (Elt F) → (⟨S1x100x1, .f32⟩ : BufTy).Contents (Elt F))) (fun _ => .ret ⟨⟩)
  hlo rfl (StableHlo.reshape main_v9 main_v10 rfl shapeCasts_S1x100x1_S100x1) (fun _ => .ret ⟨⟩)
  fn_take.body (.of main_v10) (.of main_v8) main_call2
  hlo rfl (StableHlo.nullary main_cst_0 (constant S_ .f32 0x00000000#32)) (fun _ => .ret ⟨⟩)
  hlo rfl (StableHlo.binary main_v11 main_cst_0 main_v12 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v13 ((extractStridedSlice S1x100x32 ![1, 0, 0] · slices_S26x100x32_S1x100x32_1_0_0) : (⟨S26x100x32, .f32⟩ : BufTy).Contents (Elt F) → (⟨S1x100x32, .f32⟩ : BufTy).Contents (Elt F))) (fun _ => .ret ⟨⟩)
  hlo rfl (StableHlo.reshape main_v13 main_v14 rfl shapeCasts_S1x100x32_S100x32) (fun _ => .ret ⟨⟩)
  fn_take_0.body (.of main_v14) (.of main_v8) main_call3
  hlo rfl (StableHlo.unary main_arg0 main_v16 ((extractStridedSlice S1024x100 ![0, 202] · slices_S1024x2626_S1024x100_0_202) : (⟨S1024x2626, .i32⟩ : BufTy).Contents (Elt F) → (⟨S1024x100, .i32⟩ : BufTy).Contents (Elt F))) (fun _ => .ret ⟨⟩)
  hlo rfl (StableHlo.unary main_arg2 main_v17 ((extractStridedSlice S1x100x1 ![2, 0, 0] · slices_S26x100x1_S1x100x1_2_0_0) : (⟨S26x100x1, .f32⟩ : BufTy).Contents (Elt F) → (⟨S1x100x1, .f32⟩ : BufTy).Contents (Elt F))) (fun _ => .ret ⟨⟩)
  hlo rfl (StableHlo.reshape main_v17 main_v18 rfl shapeCasts_S1x100x1_S100x1) (fun _ => .ret ⟨⟩)
  fn_take.body (.of main_v18) (.of main_v16) main_call4
  hlo rfl (StableHlo.nullary main_cst_1 (constant S_ .f32 0x00000000#32)) (fun _ => .ret ⟨⟩)
  hlo rfl (StableHlo.binary main_v19 main_cst_1 main_v20 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v21 ((extractStridedSlice S1x100x32 ![2, 0, 0] · slices_S26x100x32_S1x100x32_2_0_0) : (⟨S26x100x32, .f32⟩ : BufTy).Contents (Elt F) → (⟨S1x100x32, .f32⟩ : BufTy).Contents (Elt F))) (fun _ => .ret ⟨⟩)
  hlo rfl (StableHlo.reshape main_v21 main_v22 rfl shapeCasts_S1x100x32_S100x32) (fun _ => .ret ⟨⟩)
  fn_take_0.body (.of main_v22) (.of main_v16) main_call5
  hlo rfl (StableHlo.unary main_arg0 main_v24 ((extractStridedSlice S1024x100 ![0, 303] · slices_S1024x2626_S1024x100_0_303) : (⟨S1024x2626, .i32⟩ : BufTy).Contents (Elt F) → (⟨S1024x100, .i32⟩ : BufTy).Contents (Elt F))) (fun _ => .ret ⟨⟩)
  hlo rfl (StableHlo.unary main_arg2 main_v25 ((extractStridedSlice S1x100x1 ![3, 0, 0] · slices_S26x100x1_S1x100x1_3_0_0) : (⟨S26x100x1, .f32⟩ : BufTy).Contents (Elt F) → (⟨S1x100x1, .f32⟩ : BufTy).Contents (Elt F))) (fun _ => .ret ⟨⟩)
  hlo rfl (StableHlo.reshape main_v25 main_v26 rfl shapeCasts_S1x100x1_S100x1) (fun _ => .ret ⟨⟩)

set_option maxHeartbeats 40000000 in
/-- Window 0, second half. -/
def part0_b : Dev nD → Prog (TpuEff nD τ sig (Elt F) (Pipeline.Sig Λ₀ (Fin 0) fun p => (pcfgs (F := F) p).Adm) .tc) PUnit := fun _ => do
  fn_take.body (.of main_v26) (.of main_v24) main_call6
  hlo rfl (StableHlo.nullary main_cst_2 (constant S_ .f32 0x00000000#32)) (fun _ => .ret ⟨⟩)
  hlo rfl (StableHlo.binary main_v27 main_cst_2 main_v28 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v29 ((extractStridedSlice S1x100x32 ![3, 0, 0] · slices_S26x100x32_S1x100x32_3_0_0) : (⟨S26x100x32, .f32⟩ : BufTy).Contents (Elt F) → (⟨S1x100x32, .f32⟩ : BufTy).Contents (Elt F))) (fun _ => .ret ⟨⟩)
  hlo rfl (StableHlo.reshape main_v29 main_v30 rfl shapeCasts_S1x100x32_S100x32) (fun _ => .ret ⟨⟩)
  fn_take_0.body (.of main_v30) (.of main_v24) main_call7
  hlo rfl (StableHlo.unary main_arg0 main_v32 ((extractStridedSlice S1024x100 ![0, 404] · slices_S1024x2626_S1024x100_0_404) : (⟨S1024x2626, .i32⟩ : BufTy).Contents (Elt F) → (⟨S1024x100, .i32⟩ : BufTy).Contents (Elt F))) (fun _ => .ret ⟨⟩)
  hlo rfl (StableHlo.unary main_arg2 main_v33 ((extractStridedSlice S1x100x1 ![4, 0, 0] · slices_S26x100x1_S1x100x1_4_0_0) : (⟨S26x100x1, .f32⟩ : BufTy).Contents (Elt F) → (⟨S1x100x1, .f32⟩ : BufTy).Contents (Elt F))) (fun _ => .ret ⟨⟩)
  hlo rfl (StableHlo.reshape main_v33 main_v34 rfl shapeCasts_S1x100x1_S100x1) (fun _ => .ret ⟨⟩)
  fn_take.body (.of main_v34) (.of main_v32) main_call8
  hlo rfl (StableHlo.nullary main_cst_3 (constant S_ .f32 0x00000000#32)) (fun _ => .ret ⟨⟩)
  hlo rfl (StableHlo.binary main_v35 main_cst_3 main_v36 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v37 ((extractStridedSlice S1x100x32 ![4, 0, 0] · slices_S26x100x32_S1x100x32_4_0_0) : (⟨S26x100x32, .f32⟩ : BufTy).Contents (Elt F) → (⟨S1x100x32, .f32⟩ : BufTy).Contents (Elt F))) (fun _ => .ret ⟨⟩)
  hlo rfl (StableHlo.reshape main_v37 main_v38 rfl shapeCasts_S1x100x32_S100x32) (fun _ => .ret ⟨⟩)
  fn_take_0.body (.of main_v38) (.of main_v32) main_call9
  hlo rfl (StableHlo.unary main_arg0 main_v40 ((extractStridedSlice S1024x100 ![0, 505] · slices_S1024x2626_S1024x100_0_505) : (⟨S1024x2626, .i32⟩ : BufTy).Contents (Elt F) → (⟨S1024x100, .i32⟩ : BufTy).Contents (Elt F))) (fun _ => .ret ⟨⟩)
  hlo rfl (StableHlo.unary main_arg2 main_v41 ((extractStridedSlice S1x100x1 ![5, 0, 0] · slices_S26x100x1_S1x100x1_5_0_0) : (⟨S26x100x1, .f32⟩ : BufTy).Contents (Elt F) → (⟨S1x100x1, .f32⟩ : BufTy).Contents (Elt F))) (fun _ => .ret ⟨⟩)
  hlo rfl (StableHlo.reshape main_v41 main_v42 rfl shapeCasts_S1x100x1_S100x1) (fun _ => .ret ⟨⟩)
  fn_take.body (.of main_v42) (.of main_v40) main_call10
  hlo rfl (StableHlo.nullary main_cst_4 (constant S_ .f32 0x00000000#32)) (fun _ => .ret ⟨⟩)
  hlo rfl (StableHlo.binary main_v43 main_cst_4 main_v44 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v45 ((extractStridedSlice S1x100x32 ![5, 0, 0] · slices_S26x100x32_S1x100x32_5_0_0) : (⟨S26x100x32, .f32⟩ : BufTy).Contents (Elt F) → (⟨S1x100x32, .f32⟩ : BufTy).Contents (Elt F))) (fun _ => .ret ⟨⟩)
  hlo rfl (StableHlo.reshape main_v45 main_v46 rfl shapeCasts_S1x100x32_S100x32) (fun _ => .ret ⟨⟩)
  fn_take_0.body (.of main_v46) (.of main_v40) main_call11
  hlo rfl (StableHlo.unary main_arg0 main_v48 ((extractStridedSlice S1024x100 ![0, 606] · slices_S1024x2626_S1024x100_0_606) : (⟨S1024x2626, .i32⟩ : BufTy).Contents (Elt F) → (⟨S1024x100, .i32⟩ : BufTy).Contents (Elt F))) (fun _ => .ret ⟨⟩)
  hlo rfl (StableHlo.unary main_arg2 main_v49 ((extractStridedSlice S1x100x1 ![6, 0, 0] · slices_S26x100x1_S1x100x1_6_0_0) : (⟨S26x100x1, .f32⟩ : BufTy).Contents (Elt F) → (⟨S1x100x1, .f32⟩ : BufTy).Contents (Elt F))) (fun _ => .ret ⟨⟩)
  hlo rfl (StableHlo.reshape main_v49 main_v50 rfl shapeCasts_S1x100x1_S100x1) (fun _ => .ret ⟨⟩)
  fn_take.body (.of main_v50) (.of main_v48) main_call12
  hlo rfl (StableHlo.nullary main_cst_5 (constant S_ .f32 0x00000000#32)) (fun _ => .ret ⟨⟩)
  hlo rfl (StableHlo.binary main_v51 main_cst_5 main_v52 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)

abbrev W0a : List (HloOp τ sig (Elt F)) :=
  [ StableHlo.unary main_arg0 main_v0 ((extractStridedSlice S1024x100 ![0, 0] · slices_S1024x2626_S1024x100_0_0) : (⟨S1024x2626, .i32⟩ : BufTy).Contents (Elt F) → (⟨S1024x100, .i32⟩ : BufTy).Contents (Elt F)),
    StableHlo.unary main_arg2 main_v1 ((extractStridedSlice S1x100x1 ![0, 0, 0] · slices_S26x100x1_S1x100x1_0_0_0) : (⟨S26x100x1, .f32⟩ : BufTy).Contents (Elt F) → (⟨S1x100x1, .f32⟩ : BufTy).Contents (Elt F)),
    StableHlo.reshape main_v1 main_v2 rfl shapeCasts_S1x100x1_S100x1,
    StableHlo.TRef.nullary main_call0.c (constantI S_ 32 0#32),
    StableHlo.TRef.unary main_call0.c main_call0.v0 (broadcastInDim S1024x100 ![] bcast_S_S1024x100),
    StableHlo.TRef.binary (.of main_v0 : StableHlo.TRef sig ⟨S1024x100, .i32⟩) main_call0.v0 main_call0.v1 (cmpi .slt),
    StableHlo.TRef.nullary main_call0.c_0 (constantI S_ 32 100#32),
    StableHlo.TRef.unary main_call0.c_0 main_call0.v2 (broadcastInDim S1024x100 ![] bcast_S_S1024x100),
    StableHlo.TRef.binary (.of main_v0 : StableHlo.TRef sig ⟨S1024x100, .i32⟩) main_call0.v2 main_call0.v3 addi,
    StableHlo.TRef.ternary main_call0.v1 main_call0.v3 (.of main_v0 : StableHlo.TRef sig ⟨S1024x100, .i32⟩) main_call0.call0.v0 select,
    StableHlo.TRef.unary main_call0.call0.v0 main_call0.v5 (broadcastInDim S1024x100x1 ![0, 1] bcast_S1024x100_S1024x100x1_0_1),
    StableHlo.TRef.nullary main_call0.c_1 (constantI S1 32 99#32),
    StableHlo.TRef.nullary main_call0.c_2 (constantI S_ 32 0#32),
    StableHlo.TRef.unary main_call0.c_2 main_call0.v6 (broadcastInDim S1024x100x1 ![] bcast_S_S1024x100x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S1024x100x1 ![0, 1, 2] bcast_S1x1x1_S1024x100x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1024x100x1_S1024x100_d2 h_S_),
    StableHlo.TRef.binary (.of main_v2 : StableHlo.TRef sig ⟨S100x1, .f32⟩) main_call0.v5 main_call0.v13 (fun x i => Host.gather gather_S100x1_S1024x100x1_S1024x100x1_2_0_n_n_0_2_11 x i),
    StableHlo.TRef.unary main_call0.v12 main_call0.v14 (broadcastInDim S1024x100x1 ![0, 1] bcast_S1024x100_S1024x100x1_0_1),
    StableHlo.TRef.nullary main_call0.cst (constant S_ .f32 0x7FC00000#32),
    StableHlo.TRef.unary main_call0.cst main_call0.v15 (broadcastInDim S1024x100x1 ![] bcast_S_S1024x100x1),
    StableHlo.TRef.ternary main_call0.v14 main_call0.v13 main_call0.v15 main_call0.v16 select,
    StableHlo.nullary main_cst (constant S_ .f32 0x00000000#32),
    StableHlo.binary main_v3 main_cst main_v4 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v5 ((extractStridedSlice S1x100x32 ![0, 0, 0] · slices_S26x100x32_S1x100x32_0_0_0) : (⟨S26x100x32, .f32⟩ : BufTy).Contents (Elt F) → (⟨S1x100x32, .f32⟩ : BufTy).Contents (Elt F)),
    StableHlo.reshape main_v5 main_v6 rfl shapeCasts_S1x100x32_S100x32,
    StableHlo.TRef.nullary main_call1.c (constantI S_ 32 0#32),
    StableHlo.TRef.unary main_call1.c main_call1.v0 (broadcastInDim S1024x100 ![] bcast_S_S1024x100),
    StableHlo.TRef.binary (.of main_v0 : StableHlo.TRef sig ⟨S1024x100, .i32⟩) main_call1.v0 main_call1.v1 (cmpi .slt),
    StableHlo.TRef.nullary main_call1.c_0 (constantI S_ 32 100#32),
    StableHlo.TRef.unary main_call1.c_0 main_call1.v2 (broadcastInDim S1024x100 ![] bcast_S_S1024x100),
    StableHlo.TRef.binary (.of main_v0 : StableHlo.TRef sig ⟨S1024x100, .i32⟩) main_call1.v2 main_call1.v3 addi,
    StableHlo.TRef.ternary main_call1.v1 main_call1.v3 (.of main_v0 : StableHlo.TRef sig ⟨S1024x100, .i32⟩) main_call1.call0.v0 select,
    StableHlo.TRef.unary main_call1.call0.v0 main_call1.v5 (broadcastInDim S1024x100x1 ![0, 1] bcast_S1024x100_S1024x100x1_0_1),
    StableHlo.TRef.nullary main_call1.c_1 (constantI S1 32 99#32),
    StableHlo.TRef.nullary main_call1.c_2 (constantI S_ 32 0#32),
    StableHlo.TRef.unary main_call1.c_2 main_call1.v6 (broadcastInDim S1024x100x1 ![] bcast_S_S1024x100x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S1024x100x1 ![0, 1, 2] bcast_S1x1x1_S1024x100x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1024x100x1_S1024x100_d2 h_S_),
    StableHlo.TRef.binary (.of main_v6 : StableHlo.TRef sig ⟨S100x32, .f32⟩) main_call1.v5 main_call1.v13 (fun x i => Host.gather gather_S100x32_S1024x100x1_S1024x100x32_2_0_n_n_0_2_132 x i),
    StableHlo.TRef.unary main_call1.v12 main_call1.v14 (broadcastInDim S1024x100x32 ![0, 1] bcast_S1024x100_S1024x100x32_0_1),
    StableHlo.TRef.nullary main_call1.cst (constant S_ .f32 0x7FC00000#32),
    StableHlo.TRef.unary main_call1.cst main_call1.v15 (broadcastInDim S1024x100x32 ![] bcast_S_S1024x100x32),
    StableHlo.TRef.ternary main_call1.v14 main_call1.v13 main_call1.v15 main_call1.v16 select,
    StableHlo.unary main_arg0 main_v8 ((extractStridedSlice S1024x100 ![0, 101] · slices_S1024x2626_S1024x100_0_101) : (⟨S1024x2626, .i32⟩ : BufTy).Contents (Elt F) → (⟨S1024x100, .i32⟩ : BufTy).Contents (Elt F)),
    StableHlo.unary main_arg2 main_v9 ((extractStridedSlice S1x100x1 ![1, 0, 0] · slices_S26x100x1_S1x100x1_1_0_0) : (⟨S26x100x1, .f32⟩ : BufTy).Contents (Elt F) → (⟨S1x100x1, .f32⟩ : BufTy).Contents (Elt F)),
    StableHlo.reshape main_v9 main_v10 rfl shapeCasts_S1x100x1_S100x1,
    StableHlo.TRef.nullary main_call2.c (constantI S_ 32 0#32),
    StableHlo.TRef.unary main_call2.c main_call2.v0 (broadcastInDim S1024x100 ![] bcast_S_S1024x100),
    StableHlo.TRef.binary (.of main_v8 : StableHlo.TRef sig ⟨S1024x100, .i32⟩) main_call2.v0 main_call2.v1 (cmpi .slt),
    StableHlo.TRef.nullary main_call2.c_0 (constantI S_ 32 100#32),
    StableHlo.TRef.unary main_call2.c_0 main_call2.v2 (broadcastInDim S1024x100 ![] bcast_S_S1024x100),
    StableHlo.TRef.binary (.of main_v8 : StableHlo.TRef sig ⟨S1024x100, .i32⟩) main_call2.v2 main_call2.v3 addi,
    StableHlo.TRef.ternary main_call2.v1 main_call2.v3 (.of main_v8 : StableHlo.TRef sig ⟨S1024x100, .i32⟩) main_call2.call0.v0 select,
    StableHlo.TRef.unary main_call2.call0.v0 main_call2.v5 (broadcastInDim S1024x100x1 ![0, 1] bcast_S1024x100_S1024x100x1_0_1),
    StableHlo.TRef.nullary main_call2.c_1 (constantI S1 32 99#32),
    StableHlo.TRef.nullary main_call2.c_2 (constantI S_ 32 0#32),
    StableHlo.TRef.unary main_call2.c_2 main_call2.v6 (broadcastInDim S1024x100x1 ![] bcast_S_S1024x100x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S1024x100x1 ![0, 1, 2] bcast_S1x1x1_S1024x100x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1024x100x1_S1024x100_d2 h_S_),
    StableHlo.TRef.binary (.of main_v10 : StableHlo.TRef sig ⟨S100x1, .f32⟩) main_call2.v5 main_call2.v13 (fun x i => Host.gather gather_S100x1_S1024x100x1_S1024x100x1_2_0_n_n_0_2_11 x i),
    StableHlo.TRef.unary main_call2.v12 main_call2.v14 (broadcastInDim S1024x100x1 ![0, 1] bcast_S1024x100_S1024x100x1_0_1),
    StableHlo.TRef.nullary main_call2.cst (constant S_ .f32 0x7FC00000#32),
    StableHlo.TRef.unary main_call2.cst main_call2.v15 (broadcastInDim S1024x100x1 ![] bcast_S_S1024x100x1),
    StableHlo.TRef.ternary main_call2.v14 main_call2.v13 main_call2.v15 main_call2.v16 select,
    StableHlo.nullary main_cst_0 (constant S_ .f32 0x00000000#32),
    StableHlo.binary main_v11 main_cst_0 main_v12 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v13 ((extractStridedSlice S1x100x32 ![1, 0, 0] · slices_S26x100x32_S1x100x32_1_0_0) : (⟨S26x100x32, .f32⟩ : BufTy).Contents (Elt F) → (⟨S1x100x32, .f32⟩ : BufTy).Contents (Elt F)),
    StableHlo.reshape main_v13 main_v14 rfl shapeCasts_S1x100x32_S100x32,
    StableHlo.TRef.nullary main_call3.c (constantI S_ 32 0#32),
    StableHlo.TRef.unary main_call3.c main_call3.v0 (broadcastInDim S1024x100 ![] bcast_S_S1024x100),
    StableHlo.TRef.binary (.of main_v8 : StableHlo.TRef sig ⟨S1024x100, .i32⟩) main_call3.v0 main_call3.v1 (cmpi .slt),
    StableHlo.TRef.nullary main_call3.c_0 (constantI S_ 32 100#32),
    StableHlo.TRef.unary main_call3.c_0 main_call3.v2 (broadcastInDim S1024x100 ![] bcast_S_S1024x100),
    StableHlo.TRef.binary (.of main_v8 : StableHlo.TRef sig ⟨S1024x100, .i32⟩) main_call3.v2 main_call3.v3 addi,
    StableHlo.TRef.ternary main_call3.v1 main_call3.v3 (.of main_v8 : StableHlo.TRef sig ⟨S1024x100, .i32⟩) main_call3.call0.v0 select,
    StableHlo.TRef.unary main_call3.call0.v0 main_call3.v5 (broadcastInDim S1024x100x1 ![0, 1] bcast_S1024x100_S1024x100x1_0_1),
    StableHlo.TRef.nullary main_call3.c_1 (constantI S1 32 99#32),
    StableHlo.TRef.nullary main_call3.c_2 (constantI S_ 32 0#32),
    StableHlo.TRef.unary main_call3.c_2 main_call3.v6 (broadcastInDim S1024x100x1 ![] bcast_S_S1024x100x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S1024x100x1 ![0, 1, 2] bcast_S1x1x1_S1024x100x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S1024x100x1_S1024x100_d2 h_S_),
    StableHlo.TRef.binary (.of main_v14 : StableHlo.TRef sig ⟨S100x32, .f32⟩) main_call3.v5 main_call3.v13 (fun x i => Host.gather gather_S100x32_S1024x100x1_S1024x100x32_2_0_n_n_0_2_132 x i),
    StableHlo.TRef.unary main_call3.v12 main_call3.v14 (broadcastInDim S1024x100x32 ![0, 1] bcast_S1024x100_S1024x100x32_0_1),
    StableHlo.TRef.nullary main_call3.cst (constant S_ .f32 0x7FC00000#32),
    StableHlo.TRef.unary main_call3.cst main_call3.v15 (broadcastInDim S1024x100x32 ![] bcast_S_S1024x100x32),
    StableHlo.TRef.ternary main_call3.v14 main_call3.v13 main_call3.v15 main_call3.v16 select,
    StableHlo.unary main_arg0 main_v16 ((extractStridedSlice S1024x100 ![0, 202] · slices_S1024x2626_S1024x100_0_202) : (⟨S1024x2626, .i32⟩ : BufTy).Contents (Elt F) → (⟨S1024x100, .i32⟩ : BufTy).Contents (Elt F)),
    StableHlo.unary main_arg2 main_v17 ((extractStridedSlice S1x100x1 ![2, 0, 0] · slices_S26x100x1_S1x100x1_2_0_0) : (⟨S26x100x1, .f32⟩ : BufTy).Contents (Elt F) → (⟨S1x100x1, .f32⟩ : BufTy).Contents (Elt F)),
    StableHlo.reshape main_v17 main_v18 rfl shapeCasts_S1x100x1_S100x1,
    StableHlo.TRef.nullary main_call4.c (constantI S_ 32 0#32),
    StableHlo.TRef.unary main_call4.c main_call4.v0 (broadcastInDim S1024x100 ![] bcast_S_S1024x100),
    StableHlo.TRef.binary (.of main_v16 : StableHlo.TRef sig ⟨S1024x100, .i32⟩) main_call4.v0 main_call4.v1 (cmpi .slt),
    StableHlo.TRef.nullary main_call4.c_0 (constantI S_ 32 100#32),
    StableHlo.TRef.unary main_call4.c_0 main_call4.v2 (broadcastInDim S1024x100 ![] bcast_S_S1024x100),
    StableHlo.TRef.binary (.of main_v16 : StableHlo.TRef sig ⟨S1024x100, .i32⟩) main_call4.v2 main_call4.v3 addi,
    StableHlo.TRef.ternary main_call4.v1 main_call4.v3 (.of main_v16 : StableHlo.TRef sig ⟨S1024x100, .i32⟩) main_call4.call0.v0 select,
    StableHlo.TRef.unary main_call4.call0.v0 main_call4.v5 (broadcastInDim S1024x100x1 ![0, 1] bcast_S1024x100_S1024x100x1_0_1),
    StableHlo.TRef.nullary main_call4.c_1 (constantI S1 32 99#32),
    StableHlo.TRef.nullary main_call4.c_2 (constantI S_ 32 0#32),
    StableHlo.TRef.unary main_call4.c_2 main_call4.v6 (broadcastInDim S1024x100x1 ![] bcast_S_S1024x100x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S1024x100x1 ![0, 1, 2] bcast_S1x1x1_S1024x100x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1024x100x1_S1024x100_d2 h_S_),
    StableHlo.TRef.binary (.of main_v18 : StableHlo.TRef sig ⟨S100x1, .f32⟩) main_call4.v5 main_call4.v13 (fun x i => Host.gather gather_S100x1_S1024x100x1_S1024x100x1_2_0_n_n_0_2_11 x i),
    StableHlo.TRef.unary main_call4.v12 main_call4.v14 (broadcastInDim S1024x100x1 ![0, 1] bcast_S1024x100_S1024x100x1_0_1),
    StableHlo.TRef.nullary main_call4.cst (constant S_ .f32 0x7FC00000#32),
    StableHlo.TRef.unary main_call4.cst main_call4.v15 (broadcastInDim S1024x100x1 ![] bcast_S_S1024x100x1),
    StableHlo.TRef.ternary main_call4.v14 main_call4.v13 main_call4.v15 main_call4.v16 select,
    StableHlo.nullary main_cst_1 (constant S_ .f32 0x00000000#32),
    StableHlo.binary main_v19 main_cst_1 main_v20 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v21 ((extractStridedSlice S1x100x32 ![2, 0, 0] · slices_S26x100x32_S1x100x32_2_0_0) : (⟨S26x100x32, .f32⟩ : BufTy).Contents (Elt F) → (⟨S1x100x32, .f32⟩ : BufTy).Contents (Elt F)),
    StableHlo.reshape main_v21 main_v22 rfl shapeCasts_S1x100x32_S100x32,
    StableHlo.TRef.nullary main_call5.c (constantI S_ 32 0#32),
    StableHlo.TRef.unary main_call5.c main_call5.v0 (broadcastInDim S1024x100 ![] bcast_S_S1024x100),
    StableHlo.TRef.binary (.of main_v16 : StableHlo.TRef sig ⟨S1024x100, .i32⟩) main_call5.v0 main_call5.v1 (cmpi .slt),
    StableHlo.TRef.nullary main_call5.c_0 (constantI S_ 32 100#32),
    StableHlo.TRef.unary main_call5.c_0 main_call5.v2 (broadcastInDim S1024x100 ![] bcast_S_S1024x100),
    StableHlo.TRef.binary (.of main_v16 : StableHlo.TRef sig ⟨S1024x100, .i32⟩) main_call5.v2 main_call5.v3 addi,
    StableHlo.TRef.ternary main_call5.v1 main_call5.v3 (.of main_v16 : StableHlo.TRef sig ⟨S1024x100, .i32⟩) main_call5.call0.v0 select,
    StableHlo.TRef.unary main_call5.call0.v0 main_call5.v5 (broadcastInDim S1024x100x1 ![0, 1] bcast_S1024x100_S1024x100x1_0_1),
    StableHlo.TRef.nullary main_call5.c_1 (constantI S1 32 99#32),
    StableHlo.TRef.nullary main_call5.c_2 (constantI S_ 32 0#32),
    StableHlo.TRef.unary main_call5.c_2 main_call5.v6 (broadcastInDim S1024x100x1 ![] bcast_S_S1024x100x1),
    StableHlo.TRef.binary main_call5.v5 main_call5.v6 main_call5.v7 (cmpi .sge),
    StableHlo.TRef.unary main_call5.c_1 main_call5.v8 (broadcastInDim S1x1x1 ![2] bcast_S1_S1x1x1_2),
    StableHlo.TRef.unary main_call5.v8 main_call5.v9 (broadcastInDim S1024x100x1 ![0, 1, 2] bcast_S1x1x1_S1024x100x1_0_1_2),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x100x1_S1024x100_d2 h_S_),
    StableHlo.TRef.binary (.of main_v22 : StableHlo.TRef sig ⟨S100x32, .f32⟩) main_call5.v5 main_call5.v13 (fun x i => Host.gather gather_S100x32_S1024x100x1_S1024x100x32_2_0_n_n_0_2_132 x i),
    StableHlo.TRef.unary main_call5.v12 main_call5.v14 (broadcastInDim S1024x100x32 ![0, 1] bcast_S1024x100_S1024x100x32_0_1),
    StableHlo.TRef.nullary main_call5.cst (constant S_ .f32 0x7FC00000#32),
    StableHlo.TRef.unary main_call5.cst main_call5.v15 (broadcastInDim S1024x100x32 ![] bcast_S_S1024x100x32),
    StableHlo.TRef.ternary main_call5.v14 main_call5.v13 main_call5.v15 main_call5.v16 select,
    StableHlo.unary main_arg0 main_v24 ((extractStridedSlice S1024x100 ![0, 303] · slices_S1024x2626_S1024x100_0_303) : (⟨S1024x2626, .i32⟩ : BufTy).Contents (Elt F) → (⟨S1024x100, .i32⟩ : BufTy).Contents (Elt F)),
    StableHlo.unary main_arg2 main_v25 ((extractStridedSlice S1x100x1 ![3, 0, 0] · slices_S26x100x1_S1x100x1_3_0_0) : (⟨S26x100x1, .f32⟩ : BufTy).Contents (Elt F) → (⟨S1x100x1, .f32⟩ : BufTy).Contents (Elt F)),
    StableHlo.reshape main_v25 main_v26 rfl shapeCasts_S1x100x1_S100x1 ]

abbrev W0b : List (HloOp τ sig (Elt F)) :=
  [ StableHlo.TRef.nullary main_call6.c (constantI S_ 32 0#32),
    StableHlo.TRef.unary main_call6.c main_call6.v0 (broadcastInDim S1024x100 ![] bcast_S_S1024x100),
    StableHlo.TRef.binary (.of main_v24 : StableHlo.TRef sig ⟨S1024x100, .i32⟩) main_call6.v0 main_call6.v1 (cmpi .slt),
    StableHlo.TRef.nullary main_call6.c_0 (constantI S_ 32 100#32),
    StableHlo.TRef.unary main_call6.c_0 main_call6.v2 (broadcastInDim S1024x100 ![] bcast_S_S1024x100),
    StableHlo.TRef.binary (.of main_v24 : StableHlo.TRef sig ⟨S1024x100, .i32⟩) main_call6.v2 main_call6.v3 addi,
    StableHlo.TRef.ternary main_call6.v1 main_call6.v3 (.of main_v24 : StableHlo.TRef sig ⟨S1024x100, .i32⟩) main_call6.call0.v0 select,
    StableHlo.TRef.unary main_call6.call0.v0 main_call6.v5 (broadcastInDim S1024x100x1 ![0, 1] bcast_S1024x100_S1024x100x1_0_1),
    StableHlo.TRef.nullary main_call6.c_1 (constantI S1 32 99#32),
    StableHlo.TRef.nullary main_call6.c_2 (constantI S_ 32 0#32),
    StableHlo.TRef.unary main_call6.c_2 main_call6.v6 (broadcastInDim S1024x100x1 ![] bcast_S_S1024x100x1),
    StableHlo.TRef.binary main_call6.v5 main_call6.v6 main_call6.v7 (cmpi .sge),
    StableHlo.TRef.unary main_call6.c_1 main_call6.v8 (broadcastInDim S1x1x1 ![2] bcast_S1_S1x1x1_2),
    StableHlo.TRef.unary main_call6.v8 main_call6.v9 (broadcastInDim S1024x100x1 ![0, 1, 2] bcast_S1x1x1_S1024x100x1_0_1_2),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1024x100x1_S1024x100_d2 h_S_),
    StableHlo.TRef.binary (.of main_v26 : StableHlo.TRef sig ⟨S100x1, .f32⟩) main_call6.v5 main_call6.v13 (fun x i => Host.gather gather_S100x1_S1024x100x1_S1024x100x1_2_0_n_n_0_2_11 x i),
    StableHlo.TRef.unary main_call6.v12 main_call6.v14 (broadcastInDim S1024x100x1 ![0, 1] bcast_S1024x100_S1024x100x1_0_1),
    StableHlo.TRef.nullary main_call6.cst (constant S_ .f32 0x7FC00000#32),
    StableHlo.TRef.unary main_call6.cst main_call6.v15 (broadcastInDim S1024x100x1 ![] bcast_S_S1024x100x1),
    StableHlo.TRef.ternary main_call6.v14 main_call6.v13 main_call6.v15 main_call6.v16 select,
    StableHlo.nullary main_cst_2 (constant S_ .f32 0x00000000#32),
    StableHlo.binary main_v27 main_cst_2 main_v28 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v29 ((extractStridedSlice S1x100x32 ![3, 0, 0] · slices_S26x100x32_S1x100x32_3_0_0) : (⟨S26x100x32, .f32⟩ : BufTy).Contents (Elt F) → (⟨S1x100x32, .f32⟩ : BufTy).Contents (Elt F)),
    StableHlo.reshape main_v29 main_v30 rfl shapeCasts_S1x100x32_S100x32,
    StableHlo.TRef.nullary main_call7.c (constantI S_ 32 0#32),
    StableHlo.TRef.unary main_call7.c main_call7.v0 (broadcastInDim S1024x100 ![] bcast_S_S1024x100),
    StableHlo.TRef.binary (.of main_v24 : StableHlo.TRef sig ⟨S1024x100, .i32⟩) main_call7.v0 main_call7.v1 (cmpi .slt),
    StableHlo.TRef.nullary main_call7.c_0 (constantI S_ 32 100#32),
    StableHlo.TRef.unary main_call7.c_0 main_call7.v2 (broadcastInDim S1024x100 ![] bcast_S_S1024x100),
    StableHlo.TRef.binary (.of main_v24 : StableHlo.TRef sig ⟨S1024x100, .i32⟩) main_call7.v2 main_call7.v3 addi,
    StableHlo.TRef.ternary main_call7.v1 main_call7.v3 (.of main_v24 : StableHlo.TRef sig ⟨S1024x100, .i32⟩) main_call7.call0.v0 select,
    StableHlo.TRef.unary main_call7.call0.v0 main_call7.v5 (broadcastInDim S1024x100x1 ![0, 1] bcast_S1024x100_S1024x100x1_0_1),
    StableHlo.TRef.nullary main_call7.c_1 (constantI S1 32 99#32),
    StableHlo.TRef.nullary main_call7.c_2 (constantI S_ 32 0#32),
    StableHlo.TRef.unary main_call7.c_2 main_call7.v6 (broadcastInDim S1024x100x1 ![] bcast_S_S1024x100x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S1024x100x1 ![0, 1, 2] bcast_S1x1x1_S1024x100x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S1024x100x1_S1024x100_d2 h_S_),
    StableHlo.TRef.binary (.of main_v30 : StableHlo.TRef sig ⟨S100x32, .f32⟩) main_call7.v5 main_call7.v13 (fun x i => Host.gather gather_S100x32_S1024x100x1_S1024x100x32_2_0_n_n_0_2_132 x i),
    StableHlo.TRef.unary main_call7.v12 main_call7.v14 (broadcastInDim S1024x100x32 ![0, 1] bcast_S1024x100_S1024x100x32_0_1),
    StableHlo.TRef.nullary main_call7.cst (constant S_ .f32 0x7FC00000#32),
    StableHlo.TRef.unary main_call7.cst main_call7.v15 (broadcastInDim S1024x100x32 ![] bcast_S_S1024x100x32),
    StableHlo.TRef.ternary main_call7.v14 main_call7.v13 main_call7.v15 main_call7.v16 select,
    StableHlo.unary main_arg0 main_v32 ((extractStridedSlice S1024x100 ![0, 404] · slices_S1024x2626_S1024x100_0_404) : (⟨S1024x2626, .i32⟩ : BufTy).Contents (Elt F) → (⟨S1024x100, .i32⟩ : BufTy).Contents (Elt F)),
    StableHlo.unary main_arg2 main_v33 ((extractStridedSlice S1x100x1 ![4, 0, 0] · slices_S26x100x1_S1x100x1_4_0_0) : (⟨S26x100x1, .f32⟩ : BufTy).Contents (Elt F) → (⟨S1x100x1, .f32⟩ : BufTy).Contents (Elt F)),
    StableHlo.reshape main_v33 main_v34 rfl shapeCasts_S1x100x1_S100x1,
    StableHlo.TRef.nullary main_call8.c (constantI S_ 32 0#32),
    StableHlo.TRef.unary main_call8.c main_call8.v0 (broadcastInDim S1024x100 ![] bcast_S_S1024x100),
    StableHlo.TRef.binary (.of main_v32 : StableHlo.TRef sig ⟨S1024x100, .i32⟩) main_call8.v0 main_call8.v1 (cmpi .slt),
    StableHlo.TRef.nullary main_call8.c_0 (constantI S_ 32 100#32),
    StableHlo.TRef.unary main_call8.c_0 main_call8.v2 (broadcastInDim S1024x100 ![] bcast_S_S1024x100),
    StableHlo.TRef.binary (.of main_v32 : StableHlo.TRef sig ⟨S1024x100, .i32⟩) main_call8.v2 main_call8.v3 addi,
    StableHlo.TRef.ternary main_call8.v1 main_call8.v3 (.of main_v32 : StableHlo.TRef sig ⟨S1024x100, .i32⟩) main_call8.call0.v0 select,
    StableHlo.TRef.unary main_call8.call0.v0 main_call8.v5 (broadcastInDim S1024x100x1 ![0, 1] bcast_S1024x100_S1024x100x1_0_1),
    StableHlo.TRef.nullary main_call8.c_1 (constantI S1 32 99#32),
    StableHlo.TRef.nullary main_call8.c_2 (constantI S_ 32 0#32),
    StableHlo.TRef.unary main_call8.c_2 main_call8.v6 (broadcastInDim S1024x100x1 ![] bcast_S_S1024x100x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S1024x100x1 ![0, 1, 2] bcast_S1x1x1_S1024x100x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1024x100x1_S1024x100_d2 h_S_),
    StableHlo.TRef.binary (.of main_v34 : StableHlo.TRef sig ⟨S100x1, .f32⟩) main_call8.v5 main_call8.v13 (fun x i => Host.gather gather_S100x1_S1024x100x1_S1024x100x1_2_0_n_n_0_2_11 x i),
    StableHlo.TRef.unary main_call8.v12 main_call8.v14 (broadcastInDim S1024x100x1 ![0, 1] bcast_S1024x100_S1024x100x1_0_1),
    StableHlo.TRef.nullary main_call8.cst (constant S_ .f32 0x7FC00000#32),
    StableHlo.TRef.unary main_call8.cst main_call8.v15 (broadcastInDim S1024x100x1 ![] bcast_S_S1024x100x1),
    StableHlo.TRef.ternary main_call8.v14 main_call8.v13 main_call8.v15 main_call8.v16 select,
    StableHlo.nullary main_cst_3 (constant S_ .f32 0x00000000#32),
    StableHlo.binary main_v35 main_cst_3 main_v36 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v37 ((extractStridedSlice S1x100x32 ![4, 0, 0] · slices_S26x100x32_S1x100x32_4_0_0) : (⟨S26x100x32, .f32⟩ : BufTy).Contents (Elt F) → (⟨S1x100x32, .f32⟩ : BufTy).Contents (Elt F)),
    StableHlo.reshape main_v37 main_v38 rfl shapeCasts_S1x100x32_S100x32,
    StableHlo.TRef.nullary main_call9.c (constantI S_ 32 0#32),
    StableHlo.TRef.unary main_call9.c main_call9.v0 (broadcastInDim S1024x100 ![] bcast_S_S1024x100),
    StableHlo.TRef.binary (.of main_v32 : StableHlo.TRef sig ⟨S1024x100, .i32⟩) main_call9.v0 main_call9.v1 (cmpi .slt),
    StableHlo.TRef.nullary main_call9.c_0 (constantI S_ 32 100#32),
    StableHlo.TRef.unary main_call9.c_0 main_call9.v2 (broadcastInDim S1024x100 ![] bcast_S_S1024x100),
    StableHlo.TRef.binary (.of main_v32 : StableHlo.TRef sig ⟨S1024x100, .i32⟩) main_call9.v2 main_call9.v3 addi,
    StableHlo.TRef.ternary main_call9.v1 main_call9.v3 (.of main_v32 : StableHlo.TRef sig ⟨S1024x100, .i32⟩) main_call9.call0.v0 select,
    StableHlo.TRef.unary main_call9.call0.v0 main_call9.v5 (broadcastInDim S1024x100x1 ![0, 1] bcast_S1024x100_S1024x100x1_0_1),
    StableHlo.TRef.nullary main_call9.c_1 (constantI S1 32 99#32),
    StableHlo.TRef.nullary main_call9.c_2 (constantI S_ 32 0#32),
    StableHlo.TRef.unary main_call9.c_2 main_call9.v6 (broadcastInDim S1024x100x1 ![] bcast_S_S1024x100x1),
    StableHlo.TRef.binary main_call9.v5 main_call9.v6 main_call9.v7 (cmpi .sge),
    StableHlo.TRef.unary main_call9.c_1 main_call9.v8 (broadcastInDim S1x1x1 ![2] bcast_S1_S1x1x1_2),
    StableHlo.TRef.unary main_call9.v8 main_call9.v9 (broadcastInDim S1024x100x1 ![0, 1, 2] bcast_S1x1x1_S1024x100x1_0_1_2),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S1024x100x1_S1024x100_d2 h_S_),
    StableHlo.TRef.binary (.of main_v38 : StableHlo.TRef sig ⟨S100x32, .f32⟩) main_call9.v5 main_call9.v13 (fun x i => Host.gather gather_S100x32_S1024x100x1_S1024x100x32_2_0_n_n_0_2_132 x i),
    StableHlo.TRef.unary main_call9.v12 main_call9.v14 (broadcastInDim S1024x100x32 ![0, 1] bcast_S1024x100_S1024x100x32_0_1),
    StableHlo.TRef.nullary main_call9.cst (constant S_ .f32 0x7FC00000#32),
    StableHlo.TRef.unary main_call9.cst main_call9.v15 (broadcastInDim S1024x100x32 ![] bcast_S_S1024x100x32),
    StableHlo.TRef.ternary main_call9.v14 main_call9.v13 main_call9.v15 main_call9.v16 select,
    StableHlo.unary main_arg0 main_v40 ((extractStridedSlice S1024x100 ![0, 505] · slices_S1024x2626_S1024x100_0_505) : (⟨S1024x2626, .i32⟩ : BufTy).Contents (Elt F) → (⟨S1024x100, .i32⟩ : BufTy).Contents (Elt F)),
    StableHlo.unary main_arg2 main_v41 ((extractStridedSlice S1x100x1 ![5, 0, 0] · slices_S26x100x1_S1x100x1_5_0_0) : (⟨S26x100x1, .f32⟩ : BufTy).Contents (Elt F) → (⟨S1x100x1, .f32⟩ : BufTy).Contents (Elt F)),
    StableHlo.reshape main_v41 main_v42 rfl shapeCasts_S1x100x1_S100x1,
    StableHlo.TRef.nullary main_call10.c (constantI S_ 32 0#32),
    StableHlo.TRef.unary main_call10.c main_call10.v0 (broadcastInDim S1024x100 ![] bcast_S_S1024x100),
    StableHlo.TRef.binary (.of main_v40 : StableHlo.TRef sig ⟨S1024x100, .i32⟩) main_call10.v0 main_call10.v1 (cmpi .slt),
    StableHlo.TRef.nullary main_call10.c_0 (constantI S_ 32 100#32),
    StableHlo.TRef.unary main_call10.c_0 main_call10.v2 (broadcastInDim S1024x100 ![] bcast_S_S1024x100),
    StableHlo.TRef.binary (.of main_v40 : StableHlo.TRef sig ⟨S1024x100, .i32⟩) main_call10.v2 main_call10.v3 addi,
    StableHlo.TRef.ternary main_call10.v1 main_call10.v3 (.of main_v40 : StableHlo.TRef sig ⟨S1024x100, .i32⟩) main_call10.call0.v0 select,
    StableHlo.TRef.unary main_call10.call0.v0 main_call10.v5 (broadcastInDim S1024x100x1 ![0, 1] bcast_S1024x100_S1024x100x1_0_1),
    StableHlo.TRef.nullary main_call10.c_1 (constantI S1 32 99#32),
    StableHlo.TRef.nullary main_call10.c_2 (constantI S_ 32 0#32),
    StableHlo.TRef.unary main_call10.c_2 main_call10.v6 (broadcastInDim S1024x100x1 ![] bcast_S_S1024x100x1),
    StableHlo.TRef.binary main_call10.v5 main_call10.v6 main_call10.v7 (cmpi .sge),
    StableHlo.TRef.unary main_call10.c_1 main_call10.v8 (broadcastInDim S1x1x1 ![2] bcast_S1_S1x1x1_2),
    StableHlo.TRef.unary main_call10.v8 main_call10.v9 (broadcastInDim S1024x100x1 ![0, 1, 2] bcast_S1x1x1_S1024x100x1_0_1_2),
    StableHlo.TRef.binary main_call10.v5 main_call10.v9 main_call10.v10 (cmpi .sle),
    StableHlo.TRef.binary main_call10.v7 main_call10.v10 main_call10.v11 andi,
    StableHlo.TRef.nullary main_call10.c_3 (constantI S_ 1 1#1),
    StableHlo.TRef.binary main_call10.v11 main_call10.c_3 main_call10.v12 (fun x v => Host.reduce IntOp.andi x v reducesTo_S1024x100x1_S1024x100_d2 h_S_),
    StableHlo.TRef.binary (.of main_v42 : StableHlo.TRef sig ⟨S100x1, .f32⟩) main_call10.v5 main_call10.v13 (fun x i => Host.gather gather_S100x1_S1024x100x1_S1024x100x1_2_0_n_n_0_2_11 x i),
    StableHlo.TRef.unary main_call10.v12 main_call10.v14 (broadcastInDim S1024x100x1 ![0, 1] bcast_S1024x100_S1024x100x1_0_1),
    StableHlo.TRef.nullary main_call10.cst (constant S_ .f32 0x7FC00000#32),
    StableHlo.TRef.unary main_call10.cst main_call10.v15 (broadcastInDim S1024x100x1 ![] bcast_S_S1024x100x1),
    StableHlo.TRef.ternary main_call10.v14 main_call10.v13 main_call10.v15 main_call10.v16 select,
    StableHlo.nullary main_cst_4 (constant S_ .f32 0x00000000#32),
    StableHlo.binary main_v43 main_cst_4 main_v44 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v45 ((extractStridedSlice S1x100x32 ![5, 0, 0] · slices_S26x100x32_S1x100x32_5_0_0) : (⟨S26x100x32, .f32⟩ : BufTy).Contents (Elt F) → (⟨S1x100x32, .f32⟩ : BufTy).Contents (Elt F)),
    StableHlo.reshape main_v45 main_v46 rfl shapeCasts_S1x100x32_S100x32,
    StableHlo.TRef.nullary main_call11.c (constantI S_ 32 0#32),
    StableHlo.TRef.unary main_call11.c main_call11.v0 (broadcastInDim S1024x100 ![] bcast_S_S1024x100),
    StableHlo.TRef.binary (.of main_v40 : StableHlo.TRef sig ⟨S1024x100, .i32⟩) main_call11.v0 main_call11.v1 (cmpi .slt),
    StableHlo.TRef.nullary main_call11.c_0 (constantI S_ 32 100#32),
    StableHlo.TRef.unary main_call11.c_0 main_call11.v2 (broadcastInDim S1024x100 ![] bcast_S_S1024x100),
    StableHlo.TRef.binary (.of main_v40 : StableHlo.TRef sig ⟨S1024x100, .i32⟩) main_call11.v2 main_call11.v3 addi,
    StableHlo.TRef.ternary main_call11.v1 main_call11.v3 (.of main_v40 : StableHlo.TRef sig ⟨S1024x100, .i32⟩) main_call11.call0.v0 select,
    StableHlo.TRef.unary main_call11.call0.v0 main_call11.v5 (broadcastInDim S1024x100x1 ![0, 1] bcast_S1024x100_S1024x100x1_0_1),
    StableHlo.TRef.nullary main_call11.c_1 (constantI S1 32 99#32),
    StableHlo.TRef.nullary main_call11.c_2 (constantI S_ 32 0#32),
    StableHlo.TRef.unary main_call11.c_2 main_call11.v6 (broadcastInDim S1024x100x1 ![] bcast_S_S1024x100x1),
    StableHlo.TRef.binary main_call11.v5 main_call11.v6 main_call11.v7 (cmpi .sge),
    StableHlo.TRef.unary main_call11.c_1 main_call11.v8 (broadcastInDim S1x1x1 ![2] bcast_S1_S1x1x1_2),
    StableHlo.TRef.unary main_call11.v8 main_call11.v9 (broadcastInDim S1024x100x1 ![0, 1, 2] bcast_S1x1x1_S1024x100x1_0_1_2),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1024x100x1_S1024x100_d2 h_S_),
    StableHlo.TRef.binary (.of main_v46 : StableHlo.TRef sig ⟨S100x32, .f32⟩) main_call11.v5 main_call11.v13 (fun x i => Host.gather gather_S100x32_S1024x100x1_S1024x100x32_2_0_n_n_0_2_132 x i),
    StableHlo.TRef.unary main_call11.v12 main_call11.v14 (broadcastInDim S1024x100x32 ![0, 1] bcast_S1024x100_S1024x100x32_0_1),
    StableHlo.TRef.nullary main_call11.cst (constant S_ .f32 0x7FC00000#32),
    StableHlo.TRef.unary main_call11.cst main_call11.v15 (broadcastInDim S1024x100x32 ![] bcast_S_S1024x100x32),
    StableHlo.TRef.ternary main_call11.v14 main_call11.v13 main_call11.v15 main_call11.v16 select,
    StableHlo.unary main_arg0 main_v48 ((extractStridedSlice S1024x100 ![0, 606] · slices_S1024x2626_S1024x100_0_606) : (⟨S1024x2626, .i32⟩ : BufTy).Contents (Elt F) → (⟨S1024x100, .i32⟩ : BufTy).Contents (Elt F)),
    StableHlo.unary main_arg2 main_v49 ((extractStridedSlice S1x100x1 ![6, 0, 0] · slices_S26x100x1_S1x100x1_6_0_0) : (⟨S26x100x1, .f32⟩ : BufTy).Contents (Elt F) → (⟨S1x100x1, .f32⟩ : BufTy).Contents (Elt F)),
    StableHlo.reshape main_v49 main_v50 rfl shapeCasts_S1x100x1_S100x1,
    StableHlo.TRef.nullary main_call12.c (constantI S_ 32 0#32),
    StableHlo.TRef.unary main_call12.c main_call12.v0 (broadcastInDim S1024x100 ![] bcast_S_S1024x100),
    StableHlo.TRef.binary (.of main_v48 : StableHlo.TRef sig ⟨S1024x100, .i32⟩) main_call12.v0 main_call12.v1 (cmpi .slt),
    StableHlo.TRef.nullary main_call12.c_0 (constantI S_ 32 100#32),
    StableHlo.TRef.unary main_call12.c_0 main_call12.v2 (broadcastInDim S1024x100 ![] bcast_S_S1024x100),
    StableHlo.TRef.binary (.of main_v48 : StableHlo.TRef sig ⟨S1024x100, .i32⟩) main_call12.v2 main_call12.v3 addi,
    StableHlo.TRef.ternary main_call12.v1 main_call12.v3 (.of main_v48 : StableHlo.TRef sig ⟨S1024x100, .i32⟩) main_call12.call0.v0 select,
    StableHlo.TRef.unary main_call12.call0.v0 main_call12.v5 (broadcastInDim S1024x100x1 ![0, 1] bcast_S1024x100_S1024x100x1_0_1),
    StableHlo.TRef.nullary main_call12.c_1 (constantI S1 32 99#32),
    StableHlo.TRef.nullary main_call12.c_2 (constantI S_ 32 0#32),
    StableHlo.TRef.unary main_call12.c_2 main_call12.v6 (broadcastInDim S1024x100x1 ![] bcast_S_S1024x100x1),
    StableHlo.TRef.binary main_call12.v5 main_call12.v6 main_call12.v7 (cmpi .sge),
    StableHlo.TRef.unary main_call12.c_1 main_call12.v8 (broadcastInDim S1x1x1 ![2] bcast_S1_S1x1x1_2),
    StableHlo.TRef.unary main_call12.v8 main_call12.v9 (broadcastInDim S1024x100x1 ![0, 1, 2] bcast_S1x1x1_S1024x100x1_0_1_2),
    StableHlo.TRef.binary main_call12.v5 main_call12.v9 main_call12.v10 (cmpi .sle),
    StableHlo.TRef.binary main_call12.v7 main_call12.v10 main_call12.v11 andi,
    StableHlo.TRef.nullary main_call12.c_3 (constantI S_ 1 1#1),
    StableHlo.TRef.binary main_call12.v11 main_call12.c_3 main_call12.v12 (fun x v => Host.reduce IntOp.andi x v reducesTo_S1024x100x1_S1024x100_d2 h_S_),
    StableHlo.TRef.binary (.of main_v50 : StableHlo.TRef sig ⟨S100x1, .f32⟩) main_call12.v5 main_call12.v13 (fun x i => Host.gather gather_S100x1_S1024x100x1_S1024x100x1_2_0_n_n_0_2_11 x i),
    StableHlo.TRef.unary main_call12.v12 main_call12.v14 (broadcastInDim S1024x100x1 ![0, 1] bcast_S1024x100_S1024x100x1_0_1),
    StableHlo.TRef.nullary main_call12.cst (constant S_ .f32 0x7FC00000#32),
    StableHlo.TRef.unary main_call12.cst main_call12.v15 (broadcastInDim S1024x100x1 ![] bcast_S_S1024x100x1),
    StableHlo.TRef.ternary main_call12.v14 main_call12.v13 main_call12.v15 main_call12.v16 select,
    StableHlo.nullary main_cst_5 (constant S_ .f32 0x00000000#32),
    StableHlo.binary main_v51 main_cst_5 main_v52 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)) ]

theorem W0_split : (W0 : List (HloOp τ sig (Elt F))) = W0a ++ W0b := rfl

set_option maxRecDepth 65536 in
set_option maxHeartbeats 8000000 in
theorem part0_split (c : Dev nD) : main_part0 (F := F) c = (part0_a c >>= fun _ => part0_b c) := rfl

set_option maxRecDepth 65536 in
set_option maxHeartbeats 8000000 in
theorem part0_a_eq (c : Dev nD) : part0_a (F := F) c = seq W0a := rfl

set_option maxRecDepth 65536 in
set_option maxHeartbeats 8000000 in
theorem part0_b_eq (c : Dev nD) : part0_b (F := F) c = seq W0b := rfl

theorem part0_eq (c : Dev nD) : main_part0 (F := F) c = seq W0 := by
  rw [part0_split, part0_a_eq, part0_b_eq, W0_split, seq_append]

set_option maxHeartbeats 40000000 in
/-- Window 1, first half. -/
def part1_a : Dev nD → Prog (TpuEff nD τ sig (Elt F) (Pipeline.Sig Λ₀ (Fin 0) fun p => (pcfgs (F := F) p).Adm) .tc) PUnit := fun _ => do
  hlo rfl (StableHlo.unary main_arg3 main_v53 ((extractStridedSlice S1x100x32 ![6, 0, 0] · slices_S26x100x32_S1x100x32_6_0_0) : (⟨S26x100x32, .f32⟩ : BufTy).Contents (Elt F) → (⟨S1x100x32, .f32⟩ : BufTy).Contents (Elt F))) (fun _ => .ret ⟨⟩)
  hlo rfl (StableHlo.reshape main_v53 main_v54 rfl shapeCasts_S1x100x32_S100x32) (fun _ => .ret ⟨⟩)
  fn_take_0.body (.of main_v54) (.of main_v48) main_call13
  hlo rfl (StableHlo.unary main_arg0 main_v56 ((extractStridedSlice S1024x100 ![0, 707] · slices_S1024x2626_S1024x100_0_707) : (⟨S1024x2626, .i32⟩ : BufTy).Contents (Elt F) → (⟨S1024x100, .i32⟩ : BufTy).Contents (Elt F))) (fun _ => .ret ⟨⟩)
  hlo rfl (StableHlo.unary main_arg2 main_v57 ((extractStridedSlice S1x100x1 ![7, 0, 0] · slices_S26x100x1_S1x100x1_7_0_0) : (⟨S26x100x1, .f32⟩ : BufTy).Contents (Elt F) → (⟨S1x100x1, .f32⟩ : BufTy).Contents (Elt F))) (fun _ => .ret ⟨⟩)
  hlo rfl (StableHlo.reshape main_v57 main_v58 rfl shapeCasts_S1x100x1_S100x1) (fun _ => .ret ⟨⟩)
  fn_take.body (.of main_v58) (.of main_v56) main_call14
  hlo rfl (StableHlo.nullary main_cst_6 (constant S_ .f32 0x00000000#32)) (fun _ => .ret ⟨⟩)
  hlo rfl (StableHlo.binary main_v59 main_cst_6 main_v60 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v61 ((extractStridedSlice S1x100x32 ![7, 0, 0] · slices_S26x100x32_S1x100x32_7_0_0) : (⟨S26x100x32, .f32⟩ : BufTy).Contents (Elt F) → (⟨S1x100x32, .f32⟩ : BufTy).Contents (Elt F))) (fun _ => .ret ⟨⟩)
  hlo rfl (StableHlo.reshape main_v61 main_v62 rfl shapeCasts_S1x100x32_S100x32) (fun _ => .ret ⟨⟩)
  fn_take_0.body (.of main_v62) (.of main_v56) main_call15
  hlo rfl (StableHlo.unary main_arg0 main_v64 ((extractStridedSlice S1024x100 ![0, 808] · slices_S1024x2626_S1024x100_0_808) : (⟨S1024x2626, .i32⟩ : BufTy).Contents (Elt F) → (⟨S1024x100, .i32⟩ : BufTy).Contents (Elt F))) (fun _ => .ret ⟨⟩)
  hlo rfl (StableHlo.unary main_arg2 main_v65 ((extractStridedSlice S1x100x1 ![8, 0, 0] · slices_S26x100x1_S1x100x1_8_0_0) : (⟨S26x100x1, .f32⟩ : BufTy).Contents (Elt F) → (⟨S1x100x1, .f32⟩ : BufTy).Contents (Elt F))) (fun _ => .ret ⟨⟩)
  hlo rfl (StableHlo.reshape main_v65 main_v66 rfl shapeCasts_S1x100x1_S100x1) (fun _ => .ret ⟨⟩)
  fn_take.body (.of main_v66) (.of main_v64) main_call16
  hlo rfl (StableHlo.nullary main_cst_7 (constant S_ .f32 0x00000000#32)) (fun _ => .ret ⟨⟩)
  hlo rfl (StableHlo.binary main_v67 main_cst_7 main_v68 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v69 ((extractStridedSlice S1x100x32 ![8, 0, 0] · slices_S26x100x32_S1x100x32_8_0_0) : (⟨S26x100x32, .f32⟩ : BufTy).Contents (Elt F) → (⟨S1x100x32, .f32⟩ : BufTy).Contents (Elt F))) (fun _ => .ret ⟨⟩)
  hlo rfl (StableHlo.reshape main_v69 main_v70 rfl shapeCasts_S1x100x32_S100x32) (fun _ => .ret ⟨⟩)
  fn_take_0.body (.of main_v70) (.of main_v64) main_call17
  hlo rfl (StableHlo.unary main_arg0 main_v72 ((extractStridedSlice S1024x100 ![0, 909] · slices_S1024x2626_S1024x100_0_909) : (⟨S1024x2626, .i32⟩ : BufTy).Contents (Elt F) → (⟨S1024x100, .i32⟩ : BufTy).Contents (Elt F))) (fun _ => .ret ⟨⟩)
  hlo rfl (StableHlo.unary main_arg2 main_v73 ((extractStridedSlice S1x100x1 ![9, 0, 0] · slices_S26x100x1_S1x100x1_9_0_0) : (⟨S26x100x1, .f32⟩ : BufTy).Contents (Elt F) → (⟨S1x100x1, .f32⟩ : BufTy).Contents (Elt F))) (fun _ => .ret ⟨⟩)
  hlo rfl (StableHlo.reshape main_v73 main_v74 rfl shapeCasts_S1x100x1_S100x1) (fun _ => .ret ⟨⟩)
  fn_take.body (.of main_v74) (.of main_v72) main_call18
  hlo rfl (StableHlo.nullary main_cst_8 (constant S_ .f32 0x00000000#32)) (fun _ => .ret ⟨⟩)
  hlo rfl (StableHlo.binary main_v75 main_cst_8 main_v76 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v77 ((extractStridedSlice S1x100x32 ![9, 0, 0] · slices_S26x100x32_S1x100x32_9_0_0) : (⟨S26x100x32, .f32⟩ : BufTy).Contents (Elt F) → (⟨S1x100x32, .f32⟩ : BufTy).Contents (Elt F))) (fun _ => .ret ⟨⟩)
  hlo rfl (StableHlo.reshape main_v77 main_v78 rfl shapeCasts_S1x100x32_S100x32) (fun _ => .ret ⟨⟩)
  fn_take_0.body (.of main_v78) (.of main_v72) main_call19

set_option maxHeartbeats 40000000 in
/-- Window 1, second half. -/
def part1_b : Dev nD → Prog (TpuEff nD τ sig (Elt F) (Pipeline.Sig Λ₀ (Fin 0) fun p => (pcfgs (F := F) p).Adm) .tc) PUnit := fun _ => do
  hlo rfl (StableHlo.unary main_arg0 main_v80 ((extractStridedSlice S1024x100 ![0, 1010] · slices_S1024x2626_S1024x100_0_1010) : (⟨S1024x2626, .i32⟩ : BufTy).Contents (Elt F) → (⟨S1024x100, .i32⟩ : BufTy).Contents (Elt F))) (fun _ => .ret ⟨⟩)
  hlo rfl (StableHlo.unary main_arg2 main_v81 ((extractStridedSlice S1x100x1 ![10, 0, 0] · slices_S26x100x1_S1x100x1_10_0_0) : (⟨S26x100x1, .f32⟩ : BufTy).Contents (Elt F) → (⟨S1x100x1, .f32⟩ : BufTy).Contents (Elt F))) (fun _ => .ret ⟨⟩)
  hlo rfl (StableHlo.reshape main_v81 main_v82 rfl shapeCasts_S1x100x1_S100x1) (fun _ => .ret ⟨⟩)
  fn_take.body (.of main_v82) (.of main_v80) main_call20
  hlo rfl (StableHlo.nullary main_cst_9 (constant S_ .f32 0x00000000#32)) (fun _ => .ret ⟨⟩)
  hlo rfl (StableHlo.binary main_v83 main_cst_9 main_v84 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v85 ((extractStridedSlice S1x100x32 ![10, 0, 0] · slices_S26x100x32_S1x100x32_10_0_0) : (⟨S26x100x32, .f32⟩ : BufTy).Contents (Elt F) → (⟨S1x100x32, .f32⟩ : BufTy).Contents (Elt F))) (fun _ => .ret ⟨⟩)
  hlo rfl (StableHlo.reshape main_v85 main_v86 rfl shapeCasts_S1x100x32_S100x32) (fun _ => .ret ⟨⟩)
  fn_take_0.body (.of main_v86) (.of main_v80) main_call21
  hlo rfl (StableHlo.unary main_arg0 main_v88 ((extractStridedSlice S1024x100 ![0, 1111] · slices_S1024x2626_S1024x100_0_1111) : (⟨S1024x2626, .i32⟩ : BufTy).Contents (Elt F) → (⟨S1024x100, .i32⟩ : BufTy).Contents (Elt F))) (fun _ => .ret ⟨⟩)
  hlo rfl (StableHlo.unary main_arg2 main_v89 ((extractStridedSlice S1x100x1 ![11, 0, 0] · slices_S26x100x1_S1x100x1_11_0_0) : (⟨S26x100x1, .f32⟩ : BufTy).Contents (Elt F) → (⟨S1x100x1, .f32⟩ : BufTy).Contents (Elt F))) (fun _ => .ret ⟨⟩)
  hlo rfl (StableHlo.reshape main_v89 main_v90 rfl shapeCasts_S1x100x1_S100x1) (fun _ => .ret ⟨⟩)
  fn_take.body (.of main_v90) (.of main_v88) main_call22
  hlo rfl (StableHlo.nullary main_cst_10 (constant S_ .f32 0x00000000#32)) (fun _ => .ret ⟨⟩)
  hlo rfl (StableHlo.binary main_v91 main_cst_10 main_v92 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v93 ((extractStridedSlice S1x100x32 ![11, 0, 0] · slices_S26x100x32_S1x100x32_11_0_0) : (⟨S26x100x32, .f32⟩ : BufTy).Contents (Elt F) → (⟨S1x100x32, .f32⟩ : BufTy).Contents (Elt F))) (fun _ => .ret ⟨⟩)
  hlo rfl (StableHlo.reshape main_v93 main_v94 rfl shapeCasts_S1x100x32_S100x32) (fun _ => .ret ⟨⟩)
  fn_take_0.body (.of main_v94) (.of main_v88) main_call23
  hlo rfl (StableHlo.unary main_arg0 main_v96 ((extractStridedSlice S1024x100 ![0, 1212] · slices_S1024x2626_S1024x100_0_1212) : (⟨S1024x2626, .i32⟩ : BufTy).Contents (Elt F) → (⟨S1024x100, .i32⟩ : BufTy).Contents (Elt F))) (fun _ => .ret ⟨⟩)
  hlo rfl (StableHlo.unary main_arg2 main_v97 ((extractStridedSlice S1x100x1 ![12, 0, 0] · slices_S26x100x1_S1x100x1_12_0_0) : (⟨S26x100x1, .f32⟩ : BufTy).Contents (Elt F) → (⟨S1x100x1, .f32⟩ : BufTy).Contents (Elt F))) (fun _ => .ret ⟨⟩)
  hlo rfl (StableHlo.reshape main_v97 main_v98 rfl shapeCasts_S1x100x1_S100x1) (fun _ => .ret ⟨⟩)
  fn_take.body (.of main_v98) (.of main_v96) main_call24
  hlo rfl (StableHlo.nullary main_cst_11 (constant S_ .f32 0x00000000#32)) (fun _ => .ret ⟨⟩)
  hlo rfl (StableHlo.binary main_v99 main_cst_11 main_v100 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v101 ((extractStridedSlice S1x100x32 ![12, 0, 0] · slices_S26x100x32_S1x100x32_12_0_0) : (⟨S26x100x32, .f32⟩ : BufTy).Contents (Elt F) → (⟨S1x100x32, .f32⟩ : BufTy).Contents (Elt F))) (fun _ => .ret ⟨⟩)
  hlo rfl (StableHlo.reshape main_v101 main_v102 rfl shapeCasts_S1x100x32_S100x32) (fun _ => .ret ⟨⟩)
  fn_take_0.body (.of main_v102) (.of main_v96) main_call25
  hlo rfl (StableHlo.unary main_arg0 main_v104 ((extractStridedSlice S1024x100 ![0, 1313] · slices_S1024x2626_S1024x100_0_1313) : (⟨S1024x2626, .i32⟩ : BufTy).Contents (Elt F) → (⟨S1024x100, .i32⟩ : BufTy).Contents (Elt F))) (fun _ => .ret ⟨⟩)
  hlo rfl (StableHlo.unary main_arg2 main_v105 ((extractStridedSlice S1x100x1 ![13, 0, 0] · slices_S26x100x1_S1x100x1_13_0_0) : (⟨S26x100x1, .f32⟩ : BufTy).Contents (Elt F) → (⟨S1x100x1, .f32⟩ : BufTy).Contents (Elt F))) (fun _ => .ret ⟨⟩)
  hlo rfl (StableHlo.reshape main_v105 main_v106 rfl shapeCasts_S1x100x1_S100x1) (fun _ => .ret ⟨⟩)

abbrev W1a : List (HloOp τ sig (Elt F)) :=
  [ StableHlo.unary main_arg3 main_v53 ((extractStridedSlice S1x100x32 ![6, 0, 0] · slices_S26x100x32_S1x100x32_6_0_0) : (⟨S26x100x32, .f32⟩ : BufTy).Contents (Elt F) → (⟨S1x100x32, .f32⟩ : BufTy).Contents (Elt F)),
    StableHlo.reshape main_v53 main_v54 rfl shapeCasts_S1x100x32_S100x32,
    StableHlo.TRef.nullary main_call13.c (constantI S_ 32 0#32),
    StableHlo.TRef.unary main_call13.c main_call13.v0 (broadcastInDim S1024x100 ![] bcast_S_S1024x100),
    StableHlo.TRef.binary (.of main_v48 : StableHlo.TRef sig ⟨S1024x100, .i32⟩) main_call13.v0 main_call13.v1 (cmpi .slt),
    StableHlo.TRef.nullary main_call13.c_0 (constantI S_ 32 100#32),
    StableHlo.TRef.unary main_call13.c_0 main_call13.v2 (broadcastInDim S1024x100 ![] bcast_S_S1024x100),
    StableHlo.TRef.binary (.of main_v48 : StableHlo.TRef sig ⟨S1024x100, .i32⟩) main_call13.v2 main_call13.v3 addi,
    StableHlo.TRef.ternary main_call13.v1 main_call13.v3 (.of main_v48 : StableHlo.TRef sig ⟨S1024x100, .i32⟩) main_call13.call0.v0 select,
    StableHlo.TRef.unary main_call13.call0.v0 main_call13.v5 (broadcastInDim S1024x100x1 ![0, 1] bcast_S1024x100_S1024x100x1_0_1),
    StableHlo.TRef.nullary main_call13.c_1 (constantI S1 32 99#32),
    StableHlo.TRef.nullary main_call13.c_2 (constantI S_ 32 0#32),
    StableHlo.TRef.unary main_call13.c_2 main_call13.v6 (broadcastInDim S1024x100x1 ![] bcast_S_S1024x100x1),
    StableHlo.TRef.binary main_call13.v5 main_call13.v6 main_call13.v7 (cmpi .sge),
    StableHlo.TRef.unary main_call13.c_1 main_call13.v8 (broadcastInDim S1x1x1 ![2] bcast_S1_S1x1x1_2),
    StableHlo.TRef.unary main_call13.v8 main_call13.v9 (broadcastInDim S1024x100x1 ![0, 1, 2] bcast_S1x1x1_S1024x100x1_0_1_2),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S1024x100x1_S1024x100_d2 h_S_),
    StableHlo.TRef.binary (.of main_v54 : StableHlo.TRef sig ⟨S100x32, .f32⟩) main_call13.v5 main_call13.v13 (fun x i => Host.gather gather_S100x32_S1024x100x1_S1024x100x32_2_0_n_n_0_2_132 x i),
    StableHlo.TRef.unary main_call13.v12 main_call13.v14 (broadcastInDim S1024x100x32 ![0, 1] bcast_S1024x100_S1024x100x32_0_1),
    StableHlo.TRef.nullary main_call13.cst (constant S_ .f32 0x7FC00000#32),
    StableHlo.TRef.unary main_call13.cst main_call13.v15 (broadcastInDim S1024x100x32 ![] bcast_S_S1024x100x32),
    StableHlo.TRef.ternary main_call13.v14 main_call13.v13 main_call13.v15 main_call13.v16 select,
    StableHlo.unary main_arg0 main_v56 ((extractStridedSlice S1024x100 ![0, 707] · slices_S1024x2626_S1024x100_0_707) : (⟨S1024x2626, .i32⟩ : BufTy).Contents (Elt F) → (⟨S1024x100, .i32⟩ : BufTy).Contents (Elt F)),
    StableHlo.unary main_arg2 main_v57 ((extractStridedSlice S1x100x1 ![7, 0, 0] · slices_S26x100x1_S1x100x1_7_0_0) : (⟨S26x100x1, .f32⟩ : BufTy).Contents (Elt F) → (⟨S1x100x1, .f32⟩ : BufTy).Contents (Elt F)),
    StableHlo.reshape main_v57 main_v58 rfl shapeCasts_S1x100x1_S100x1,
    StableHlo.TRef.nullary main_call14.c (constantI S_ 32 0#32),
    StableHlo.TRef.unary main_call14.c main_call14.v0 (broadcastInDim S1024x100 ![] bcast_S_S1024x100),
    StableHlo.TRef.binary (.of main_v56 : StableHlo.TRef sig ⟨S1024x100, .i32⟩) main_call14.v0 main_call14.v1 (cmpi .slt),
    StableHlo.TRef.nullary main_call14.c_0 (constantI S_ 32 100#32),
    StableHlo.TRef.unary main_call14.c_0 main_call14.v2 (broadcastInDim S1024x100 ![] bcast_S_S1024x100),
    StableHlo.TRef.binary (.of main_v56 : StableHlo.TRef sig ⟨S1024x100, .i32⟩) main_call14.v2 main_call14.v3 addi,
    StableHlo.TRef.ternary main_call14.v1 main_call14.v3 (.of main_v56 : StableHlo.TRef sig ⟨S1024x100, .i32⟩) main_call14.call0.v0 select,
    StableHlo.TRef.unary main_call14.call0.v0 main_call14.v5 (broadcastInDim S1024x100x1 ![0, 1] bcast_S1024x100_S1024x100x1_0_1),
    StableHlo.TRef.nullary main_call14.c_1 (constantI S1 32 99#32),
    StableHlo.TRef.nullary main_call14.c_2 (constantI S_ 32 0#32),
    StableHlo.TRef.unary main_call14.c_2 main_call14.v6 (broadcastInDim S1024x100x1 ![] bcast_S_S1024x100x1),
    StableHlo.TRef.binary main_call14.v5 main_call14.v6 main_call14.v7 (cmpi .sge),
    StableHlo.TRef.unary main_call14.c_1 main_call14.v8 (broadcastInDim S1x1x1 ![2] bcast_S1_S1x1x1_2),
    StableHlo.TRef.unary main_call14.v8 main_call14.v9 (broadcastInDim S1024x100x1 ![0, 1, 2] bcast_S1x1x1_S1024x100x1_0_1_2),
    StableHlo.TRef.binary main_call14.v5 main_call14.v9 main_call14.v10 (cmpi .sle),
    StableHlo.TRef.binary main_call14.v7 main_call14.v10 main_call14.v11 andi,
    StableHlo.TRef.nullary main_call14.c_3 (constantI S_ 1 1#1),
    StableHlo.TRef.binary main_call14.v11 main_call14.c_3 main_call14.v12 (fun x v => Host.reduce IntOp.andi x v reducesTo_S1024x100x1_S1024x100_d2 h_S_),
    StableHlo.TRef.binary (.of main_v58 : StableHlo.TRef sig ⟨S100x1, .f32⟩) main_call14.v5 main_call14.v13 (fun x i => Host.gather gather_S100x1_S1024x100x1_S1024x100x1_2_0_n_n_0_2_11 x i),
    StableHlo.TRef.unary main_call14.v12 main_call14.v14 (broadcastInDim S1024x100x1 ![0, 1] bcast_S1024x100_S1024x100x1_0_1),
    StableHlo.TRef.nullary main_call14.cst (constant S_ .f32 0x7FC00000#32),
    StableHlo.TRef.unary main_call14.cst main_call14.v15 (broadcastInDim S1024x100x1 ![] bcast_S_S1024x100x1),
    StableHlo.TRef.ternary main_call14.v14 main_call14.v13 main_call14.v15 main_call14.v16 select,
    StableHlo.nullary main_cst_6 (constant S_ .f32 0x00000000#32),
    StableHlo.binary main_v59 main_cst_6 main_v60 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v61 ((extractStridedSlice S1x100x32 ![7, 0, 0] · slices_S26x100x32_S1x100x32_7_0_0) : (⟨S26x100x32, .f32⟩ : BufTy).Contents (Elt F) → (⟨S1x100x32, .f32⟩ : BufTy).Contents (Elt F)),
    StableHlo.reshape main_v61 main_v62 rfl shapeCasts_S1x100x32_S100x32,
    StableHlo.TRef.nullary main_call15.c (constantI S_ 32 0#32),
    StableHlo.TRef.unary main_call15.c main_call15.v0 (broadcastInDim S1024x100 ![] bcast_S_S1024x100),
    StableHlo.TRef.binary (.of main_v56 : StableHlo.TRef sig ⟨S1024x100, .i32⟩) main_call15.v0 main_call15.v1 (cmpi .slt),
    StableHlo.TRef.nullary main_call15.c_0 (constantI S_ 32 100#32),
    StableHlo.TRef.unary main_call15.c_0 main_call15.v2 (broadcastInDim S1024x100 ![] bcast_S_S1024x100),
    StableHlo.TRef.binary (.of main_v56 : StableHlo.TRef sig ⟨S1024x100, .i32⟩) main_call15.v2 main_call15.v3 addi,
    StableHlo.TRef.ternary main_call15.v1 main_call15.v3 (.of main_v56 : StableHlo.TRef sig ⟨S1024x100, .i32⟩) main_call15.call0.v0 select,
    StableHlo.TRef.unary main_call15.call0.v0 main_call15.v5 (broadcastInDim S1024x100x1 ![0, 1] bcast_S1024x100_S1024x100x1_0_1),
    StableHlo.TRef.nullary main_call15.c_1 (constantI S1 32 99#32),
    StableHlo.TRef.nullary main_call15.c_2 (constantI S_ 32 0#32),
    StableHlo.TRef.unary main_call15.c_2 main_call15.v6 (broadcastInDim S1024x100x1 ![] bcast_S_S1024x100x1),
    StableHlo.TRef.binary main_call15.v5 main_call15.v6 main_call15.v7 (cmpi .sge),
    StableHlo.TRef.unary main_call15.c_1 main_call15.v8 (broadcastInDim S1x1x1 ![2] bcast_S1_S1x1x1_2),
    StableHlo.TRef.unary main_call15.v8 main_call15.v9 (broadcastInDim S1024x100x1 ![0, 1, 2] bcast_S1x1x1_S1024x100x1_0_1_2),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S1024x100x1_S1024x100_d2 h_S_),
    StableHlo.TRef.binary (.of main_v62 : StableHlo.TRef sig ⟨S100x32, .f32⟩) main_call15.v5 main_call15.v13 (fun x i => Host.gather gather_S100x32_S1024x100x1_S1024x100x32_2_0_n_n_0_2_132 x i),
    StableHlo.TRef.unary main_call15.v12 main_call15.v14 (broadcastInDim S1024x100x32 ![0, 1] bcast_S1024x100_S1024x100x32_0_1),
    StableHlo.TRef.nullary main_call15.cst (constant S_ .f32 0x7FC00000#32),
    StableHlo.TRef.unary main_call15.cst main_call15.v15 (broadcastInDim S1024x100x32 ![] bcast_S_S1024x100x32),
    StableHlo.TRef.ternary main_call15.v14 main_call15.v13 main_call15.v15 main_call15.v16 select,
    StableHlo.unary main_arg0 main_v64 ((extractStridedSlice S1024x100 ![0, 808] · slices_S1024x2626_S1024x100_0_808) : (⟨S1024x2626, .i32⟩ : BufTy).Contents (Elt F) → (⟨S1024x100, .i32⟩ : BufTy).Contents (Elt F)),
    StableHlo.unary main_arg2 main_v65 ((extractStridedSlice S1x100x1 ![8, 0, 0] · slices_S26x100x1_S1x100x1_8_0_0) : (⟨S26x100x1, .f32⟩ : BufTy).Contents (Elt F) → (⟨S1x100x1, .f32⟩ : BufTy).Contents (Elt F)),
    StableHlo.reshape main_v65 main_v66 rfl shapeCasts_S1x100x1_S100x1,
    StableHlo.TRef.nullary main_call16.c (constantI S_ 32 0#32),
    StableHlo.TRef.unary main_call16.c main_call16.v0 (broadcastInDim S1024x100 ![] bcast_S_S1024x100),
    StableHlo.TRef.binary (.of main_v64 : StableHlo.TRef sig ⟨S1024x100, .i32⟩) main_call16.v0 main_call16.v1 (cmpi .slt),
    StableHlo.TRef.nullary main_call16.c_0 (constantI S_ 32 100#32),
    StableHlo.TRef.unary main_call16.c_0 main_call16.v2 (broadcastInDim S1024x100 ![] bcast_S_S1024x100),
    StableHlo.TRef.binary (.of main_v64 : StableHlo.TRef sig ⟨S1024x100, .i32⟩) main_call16.v2 main_call16.v3 addi,
    StableHlo.TRef.ternary main_call16.v1 main_call16.v3 (.of main_v64 : StableHlo.TRef sig ⟨S1024x100, .i32⟩) main_call16.call0.v0 select,
    StableHlo.TRef.unary main_call16.call0.v0 main_call16.v5 (broadcastInDim S1024x100x1 ![0, 1] bcast_S1024x100_S1024x100x1_0_1),
    StableHlo.TRef.nullary main_call16.c_1 (constantI S1 32 99#32),
    StableHlo.TRef.nullary main_call16.c_2 (constantI S_ 32 0#32),
    StableHlo.TRef.unary main_call16.c_2 main_call16.v6 (broadcastInDim S1024x100x1 ![] bcast_S_S1024x100x1),
    StableHlo.TRef.binary main_call16.v5 main_call16.v6 main_call16.v7 (cmpi .sge),
    StableHlo.TRef.unary main_call16.c_1 main_call16.v8 (broadcastInDim S1x1x1 ![2] bcast_S1_S1x1x1_2),
    StableHlo.TRef.unary main_call16.v8 main_call16.v9 (broadcastInDim S1024x100x1 ![0, 1, 2] bcast_S1x1x1_S1024x100x1_0_1_2),
    StableHlo.TRef.binary main_call16.v5 main_call16.v9 main_call16.v10 (cmpi .sle),
    StableHlo.TRef.binary main_call16.v7 main_call16.v10 main_call16.v11 andi,
    StableHlo.TRef.nullary main_call16.c_3 (constantI S_ 1 1#1),
    StableHlo.TRef.binary main_call16.v11 main_call16.c_3 main_call16.v12 (fun x v => Host.reduce IntOp.andi x v reducesTo_S1024x100x1_S1024x100_d2 h_S_),
    StableHlo.TRef.binary (.of main_v66 : StableHlo.TRef sig ⟨S100x1, .f32⟩) main_call16.v5 main_call16.v13 (fun x i => Host.gather gather_S100x1_S1024x100x1_S1024x100x1_2_0_n_n_0_2_11 x i),
    StableHlo.TRef.unary main_call16.v12 main_call16.v14 (broadcastInDim S1024x100x1 ![0, 1] bcast_S1024x100_S1024x100x1_0_1),
    StableHlo.TRef.nullary main_call16.cst (constant S_ .f32 0x7FC00000#32),
    StableHlo.TRef.unary main_call16.cst main_call16.v15 (broadcastInDim S1024x100x1 ![] bcast_S_S1024x100x1),
    StableHlo.TRef.ternary main_call16.v14 main_call16.v13 main_call16.v15 main_call16.v16 select,
    StableHlo.nullary main_cst_7 (constant S_ .f32 0x00000000#32),
    StableHlo.binary main_v67 main_cst_7 main_v68 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v69 ((extractStridedSlice S1x100x32 ![8, 0, 0] · slices_S26x100x32_S1x100x32_8_0_0) : (⟨S26x100x32, .f32⟩ : BufTy).Contents (Elt F) → (⟨S1x100x32, .f32⟩ : BufTy).Contents (Elt F)),
    StableHlo.reshape main_v69 main_v70 rfl shapeCasts_S1x100x32_S100x32,
    StableHlo.TRef.nullary main_call17.c (constantI S_ 32 0#32),
    StableHlo.TRef.unary main_call17.c main_call17.v0 (broadcastInDim S1024x100 ![] bcast_S_S1024x100),
    StableHlo.TRef.binary (.of main_v64 : StableHlo.TRef sig ⟨S1024x100, .i32⟩) main_call17.v0 main_call17.v1 (cmpi .slt),
    StableHlo.TRef.nullary main_call17.c_0 (constantI S_ 32 100#32),
    StableHlo.TRef.unary main_call17.c_0 main_call17.v2 (broadcastInDim S1024x100 ![] bcast_S_S1024x100),
    StableHlo.TRef.binary (.of main_v64 : StableHlo.TRef sig ⟨S1024x100, .i32⟩) main_call17.v2 main_call17.v3 addi,
    StableHlo.TRef.ternary main_call17.v1 main_call17.v3 (.of main_v64 : StableHlo.TRef sig ⟨S1024x100, .i32⟩) main_call17.call0.v0 select,
    StableHlo.TRef.unary main_call17.call0.v0 main_call17.v5 (broadcastInDim S1024x100x1 ![0, 1] bcast_S1024x100_S1024x100x1_0_1),
    StableHlo.TRef.nullary main_call17.c_1 (constantI S1 32 99#32),
    StableHlo.TRef.nullary main_call17.c_2 (constantI S_ 32 0#32),
    StableHlo.TRef.unary main_call17.c_2 main_call17.v6 (broadcastInDim S1024x100x1 ![] bcast_S_S1024x100x1),
    StableHlo.TRef.binary main_call17.v5 main_call17.v6 main_call17.v7 (cmpi .sge),
    StableHlo.TRef.unary main_call17.c_1 main_call17.v8 (broadcastInDim S1x1x1 ![2] bcast_S1_S1x1x1_2),
    StableHlo.TRef.unary main_call17.v8 main_call17.v9 (broadcastInDim S1024x100x1 ![0, 1, 2] bcast_S1x1x1_S1024x100x1_0_1_2),
    StableHlo.TRef.binary main_call17.v5 main_call17.v9 main_call17.v10 (cmpi .sle),
    StableHlo.TRef.binary main_call17.v7 main_call17.v10 main_call17.v11 andi,
    StableHlo.TRef.nullary main_call17.c_3 (constantI S_ 1 1#1),
    StableHlo.TRef.binary main_call17.v11 main_call17.c_3 main_call17.v12 (fun x v => Host.reduce IntOp.andi x v reducesTo_S1024x100x1_S1024x100_d2 h_S_),
    StableHlo.TRef.binary (.of main_v70 : StableHlo.TRef sig ⟨S100x32, .f32⟩) main_call17.v5 main_call17.v13 (fun x i => Host.gather gather_S100x32_S1024x100x1_S1024x100x32_2_0_n_n_0_2_132 x i),
    StableHlo.TRef.unary main_call17.v12 main_call17.v14 (broadcastInDim S1024x100x32 ![0, 1] bcast_S1024x100_S1024x100x32_0_1),
    StableHlo.TRef.nullary main_call17.cst (constant S_ .f32 0x7FC00000#32),
    StableHlo.TRef.unary main_call17.cst main_call17.v15 (broadcastInDim S1024x100x32 ![] bcast_S_S1024x100x32),
    StableHlo.TRef.ternary main_call17.v14 main_call17.v13 main_call17.v15 main_call17.v16 select,
    StableHlo.unary main_arg0 main_v72 ((extractStridedSlice S1024x100 ![0, 909] · slices_S1024x2626_S1024x100_0_909) : (⟨S1024x2626, .i32⟩ : BufTy).Contents (Elt F) → (⟨S1024x100, .i32⟩ : BufTy).Contents (Elt F)),
    StableHlo.unary main_arg2 main_v73 ((extractStridedSlice S1x100x1 ![9, 0, 0] · slices_S26x100x1_S1x100x1_9_0_0) : (⟨S26x100x1, .f32⟩ : BufTy).Contents (Elt F) → (⟨S1x100x1, .f32⟩ : BufTy).Contents (Elt F)),
    StableHlo.reshape main_v73 main_v74 rfl shapeCasts_S1x100x1_S100x1,
    StableHlo.TRef.nullary main_call18.c (constantI S_ 32 0#32),
    StableHlo.TRef.unary main_call18.c main_call18.v0 (broadcastInDim S1024x100 ![] bcast_S_S1024x100),
    StableHlo.TRef.binary (.of main_v72 : StableHlo.TRef sig ⟨S1024x100, .i32⟩) main_call18.v0 main_call18.v1 (cmpi .slt),
    StableHlo.TRef.nullary main_call18.c_0 (constantI S_ 32 100#32),
    StableHlo.TRef.unary main_call18.c_0 main_call18.v2 (broadcastInDim S1024x100 ![] bcast_S_S1024x100),
    StableHlo.TRef.binary (.of main_v72 : StableHlo.TRef sig ⟨S1024x100, .i32⟩) main_call18.v2 main_call18.v3 addi,
    StableHlo.TRef.ternary main_call18.v1 main_call18.v3 (.of main_v72 : StableHlo.TRef sig ⟨S1024x100, .i32⟩) main_call18.call0.v0 select,
    StableHlo.TRef.unary main_call18.call0.v0 main_call18.v5 (broadcastInDim S1024x100x1 ![0, 1] bcast_S1024x100_S1024x100x1_0_1),
    StableHlo.TRef.nullary main_call18.c_1 (constantI S1 32 99#32),
    StableHlo.TRef.nullary main_call18.c_2 (constantI S_ 32 0#32),
    StableHlo.TRef.unary main_call18.c_2 main_call18.v6 (broadcastInDim S1024x100x1 ![] bcast_S_S1024x100x1),
    StableHlo.TRef.binary main_call18.v5 main_call18.v6 main_call18.v7 (cmpi .sge),
    StableHlo.TRef.unary main_call18.c_1 main_call18.v8 (broadcastInDim S1x1x1 ![2] bcast_S1_S1x1x1_2),
    StableHlo.TRef.unary main_call18.v8 main_call18.v9 (broadcastInDim S1024x100x1 ![0, 1, 2] bcast_S1x1x1_S1024x100x1_0_1_2),
    StableHlo.TRef.binary main_call18.v5 main_call18.v9 main_call18.v10 (cmpi .sle),
    StableHlo.TRef.binary main_call18.v7 main_call18.v10 main_call18.v11 andi,
    StableHlo.TRef.nullary main_call18.c_3 (constantI S_ 1 1#1),
    StableHlo.TRef.binary main_call18.v11 main_call18.c_3 main_call18.v12 (fun x v => Host.reduce IntOp.andi x v reducesTo_S1024x100x1_S1024x100_d2 h_S_),
    StableHlo.TRef.binary (.of main_v74 : StableHlo.TRef sig ⟨S100x1, .f32⟩) main_call18.v5 main_call18.v13 (fun x i => Host.gather gather_S100x1_S1024x100x1_S1024x100x1_2_0_n_n_0_2_11 x i),
    StableHlo.TRef.unary main_call18.v12 main_call18.v14 (broadcastInDim S1024x100x1 ![0, 1] bcast_S1024x100_S1024x100x1_0_1),
    StableHlo.TRef.nullary main_call18.cst (constant S_ .f32 0x7FC00000#32),
    StableHlo.TRef.unary main_call18.cst main_call18.v15 (broadcastInDim S1024x100x1 ![] bcast_S_S1024x100x1),
    StableHlo.TRef.ternary main_call18.v14 main_call18.v13 main_call18.v15 main_call18.v16 select,
    StableHlo.nullary main_cst_8 (constant S_ .f32 0x00000000#32),
    StableHlo.binary main_v75 main_cst_8 main_v76 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v77 ((extractStridedSlice S1x100x32 ![9, 0, 0] · slices_S26x100x32_S1x100x32_9_0_0) : (⟨S26x100x32, .f32⟩ : BufTy).Contents (Elt F) → (⟨S1x100x32, .f32⟩ : BufTy).Contents (Elt F)),
    StableHlo.reshape main_v77 main_v78 rfl shapeCasts_S1x100x32_S100x32,
    StableHlo.TRef.nullary main_call19.c (constantI S_ 32 0#32),
    StableHlo.TRef.unary main_call19.c main_call19.v0 (broadcastInDim S1024x100 ![] bcast_S_S1024x100),
    StableHlo.TRef.binary (.of main_v72 : StableHlo.TRef sig ⟨S1024x100, .i32⟩) main_call19.v0 main_call19.v1 (cmpi .slt),
    StableHlo.TRef.nullary main_call19.c_0 (constantI S_ 32 100#32),
    StableHlo.TRef.unary main_call19.c_0 main_call19.v2 (broadcastInDim S1024x100 ![] bcast_S_S1024x100),
    StableHlo.TRef.binary (.of main_v72 : StableHlo.TRef sig ⟨S1024x100, .i32⟩) main_call19.v2 main_call19.v3 addi,
    StableHlo.TRef.ternary main_call19.v1 main_call19.v3 (.of main_v72 : StableHlo.TRef sig ⟨S1024x100, .i32⟩) main_call19.call0.v0 select,
    StableHlo.TRef.unary main_call19.call0.v0 main_call19.v5 (broadcastInDim S1024x100x1 ![0, 1] bcast_S1024x100_S1024x100x1_0_1),
    StableHlo.TRef.nullary main_call19.c_1 (constantI S1 32 99#32),
    StableHlo.TRef.nullary main_call19.c_2 (constantI S_ 32 0#32),
    StableHlo.TRef.unary main_call19.c_2 main_call19.v6 (broadcastInDim S1024x100x1 ![] bcast_S_S1024x100x1),
    StableHlo.TRef.binary main_call19.v5 main_call19.v6 main_call19.v7 (cmpi .sge),
    StableHlo.TRef.unary main_call19.c_1 main_call19.v8 (broadcastInDim S1x1x1 ![2] bcast_S1_S1x1x1_2),
    StableHlo.TRef.unary main_call19.v8 main_call19.v9 (broadcastInDim S1024x100x1 ![0, 1, 2] bcast_S1x1x1_S1024x100x1_0_1_2),
    StableHlo.TRef.binary main_call19.v5 main_call19.v9 main_call19.v10 (cmpi .sle),
    StableHlo.TRef.binary main_call19.v7 main_call19.v10 main_call19.v11 andi,
    StableHlo.TRef.nullary main_call19.c_3 (constantI S_ 1 1#1),
    StableHlo.TRef.binary main_call19.v11 main_call19.c_3 main_call19.v12 (fun x v => Host.reduce IntOp.andi x v reducesTo_S1024x100x1_S1024x100_d2 h_S_),
    StableHlo.TRef.binary (.of main_v78 : StableHlo.TRef sig ⟨S100x32, .f32⟩) main_call19.v5 main_call19.v13 (fun x i => Host.gather gather_S100x32_S1024x100x1_S1024x100x32_2_0_n_n_0_2_132 x i),
    StableHlo.TRef.unary main_call19.v12 main_call19.v14 (broadcastInDim S1024x100x32 ![0, 1] bcast_S1024x100_S1024x100x32_0_1),
    StableHlo.TRef.nullary main_call19.cst (constant S_ .f32 0x7FC00000#32),
    StableHlo.TRef.unary main_call19.cst main_call19.v15 (broadcastInDim S1024x100x32 ![] bcast_S_S1024x100x32),
    StableHlo.TRef.ternary main_call19.v14 main_call19.v13 main_call19.v15 main_call19.v16 select ]

abbrev W1b : List (HloOp τ sig (Elt F)) :=
  [ StableHlo.unary main_arg0 main_v80 ((extractStridedSlice S1024x100 ![0, 1010] · slices_S1024x2626_S1024x100_0_1010) : (⟨S1024x2626, .i32⟩ : BufTy).Contents (Elt F) → (⟨S1024x100, .i32⟩ : BufTy).Contents (Elt F)),
    StableHlo.unary main_arg2 main_v81 ((extractStridedSlice S1x100x1 ![10, 0, 0] · slices_S26x100x1_S1x100x1_10_0_0) : (⟨S26x100x1, .f32⟩ : BufTy).Contents (Elt F) → (⟨S1x100x1, .f32⟩ : BufTy).Contents (Elt F)),
    StableHlo.reshape main_v81 main_v82 rfl shapeCasts_S1x100x1_S100x1,
    StableHlo.TRef.nullary main_call20.c (constantI S_ 32 0#32),
    StableHlo.TRef.unary main_call20.c main_call20.v0 (broadcastInDim S1024x100 ![] bcast_S_S1024x100),
    StableHlo.TRef.binary (.of main_v80 : StableHlo.TRef sig ⟨S1024x100, .i32⟩) main_call20.v0 main_call20.v1 (cmpi .slt),
    StableHlo.TRef.nullary main_call20.c_0 (constantI S_ 32 100#32),
    StableHlo.TRef.unary main_call20.c_0 main_call20.v2 (broadcastInDim S1024x100 ![] bcast_S_S1024x100),
    StableHlo.TRef.binary (.of main_v80 : StableHlo.TRef sig ⟨S1024x100, .i32⟩) main_call20.v2 main_call20.v3 addi,
    StableHlo.TRef.ternary main_call20.v1 main_call20.v3 (.of main_v80 : StableHlo.TRef sig ⟨S1024x100, .i32⟩) main_call20.call0.v0 select,
    StableHlo.TRef.unary main_call20.call0.v0 main_call20.v5 (broadcastInDim S1024x100x1 ![0, 1] bcast_S1024x100_S1024x100x1_0_1),
    StableHlo.TRef.nullary main_call20.c_1 (constantI S1 32 99#32),
    StableHlo.TRef.nullary main_call20.c_2 (constantI S_ 32 0#32),
    StableHlo.TRef.unary main_call20.c_2 main_call20.v6 (broadcastInDim S1024x100x1 ![] bcast_S_S1024x100x1),
    StableHlo.TRef.binary main_call20.v5 main_call20.v6 main_call20.v7 (cmpi .sge),
    StableHlo.TRef.unary main_call20.c_1 main_call20.v8 (broadcastInDim S1x1x1 ![2] bcast_S1_S1x1x1_2),
    StableHlo.TRef.unary main_call20.v8 main_call20.v9 (broadcastInDim S1024x100x1 ![0, 1, 2] bcast_S1x1x1_S1024x100x1_0_1_2),
    StableHlo.TRef.binary main_call20.v5 main_call20.v9 main_call20.v10 (cmpi .sle),
    StableHlo.TRef.binary main_call20.v7 main_call20.v10 main_call20.v11 andi,
    StableHlo.TRef.nullary main_call20.c_3 (constantI S_ 1 1#1),
    StableHlo.TRef.binary main_call20.v11 main_call20.c_3 main_call20.v12 (fun x v => Host.reduce IntOp.andi x v reducesTo_S1024x100x1_S1024x100_d2 h_S_),
    StableHlo.TRef.binary (.of main_v82 : StableHlo.TRef sig ⟨S100x1, .f32⟩) main_call20.v5 main_call20.v13 (fun x i => Host.gather gather_S100x1_S1024x100x1_S1024x100x1_2_0_n_n_0_2_11 x i),
    StableHlo.TRef.unary main_call20.v12 main_call20.v14 (broadcastInDim S1024x100x1 ![0, 1] bcast_S1024x100_S1024x100x1_0_1),
    StableHlo.TRef.nullary main_call20.cst (constant S_ .f32 0x7FC00000#32),
    StableHlo.TRef.unary main_call20.cst main_call20.v15 (broadcastInDim S1024x100x1 ![] bcast_S_S1024x100x1),
    StableHlo.TRef.ternary main_call20.v14 main_call20.v13 main_call20.v15 main_call20.v16 select,
    StableHlo.nullary main_cst_9 (constant S_ .f32 0x00000000#32),
    StableHlo.binary main_v83 main_cst_9 main_v84 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v85 ((extractStridedSlice S1x100x32 ![10, 0, 0] · slices_S26x100x32_S1x100x32_10_0_0) : (⟨S26x100x32, .f32⟩ : BufTy).Contents (Elt F) → (⟨S1x100x32, .f32⟩ : BufTy).Contents (Elt F)),
    StableHlo.reshape main_v85 main_v86 rfl shapeCasts_S1x100x32_S100x32,
    StableHlo.TRef.nullary main_call21.c (constantI S_ 32 0#32),
    StableHlo.TRef.unary main_call21.c main_call21.v0 (broadcastInDim S1024x100 ![] bcast_S_S1024x100),
    StableHlo.TRef.binary (.of main_v80 : StableHlo.TRef sig ⟨S1024x100, .i32⟩) main_call21.v0 main_call21.v1 (cmpi .slt),
    StableHlo.TRef.nullary main_call21.c_0 (constantI S_ 32 100#32),
    StableHlo.TRef.unary main_call21.c_0 main_call21.v2 (broadcastInDim S1024x100 ![] bcast_S_S1024x100),
    StableHlo.TRef.binary (.of main_v80 : StableHlo.TRef sig ⟨S1024x100, .i32⟩) main_call21.v2 main_call21.v3 addi,
    StableHlo.TRef.ternary main_call21.v1 main_call21.v3 (.of main_v80 : StableHlo.TRef sig ⟨S1024x100, .i32⟩) main_call21.call0.v0 select,
    StableHlo.TRef.unary main_call21.call0.v0 main_call21.v5 (broadcastInDim S1024x100x1 ![0, 1] bcast_S1024x100_S1024x100x1_0_1),
    StableHlo.TRef.nullary main_call21.c_1 (constantI S1 32 99#32),
    StableHlo.TRef.nullary main_call21.c_2 (constantI S_ 32 0#32),
    StableHlo.TRef.unary main_call21.c_2 main_call21.v6 (broadcastInDim S1024x100x1 ![] bcast_S_S1024x100x1),
    StableHlo.TRef.binary main_call21.v5 main_call21.v6 main_call21.v7 (cmpi .sge),
    StableHlo.TRef.unary main_call21.c_1 main_call21.v8 (broadcastInDim S1x1x1 ![2] bcast_S1_S1x1x1_2),
    StableHlo.TRef.unary main_call21.v8 main_call21.v9 (broadcastInDim S1024x100x1 ![0, 1, 2] bcast_S1x1x1_S1024x100x1_0_1_2),
    StableHlo.TRef.binary main_call21.v5 main_call21.v9 main_call21.v10 (cmpi .sle),
    StableHlo.TRef.binary main_call21.v7 main_call21.v10 main_call21.v11 andi,
    StableHlo.TRef.nullary main_call21.c_3 (constantI S_ 1 1#1),
    StableHlo.TRef.binary main_call21.v11 main_call21.c_3 main_call21.v12 (fun x v => Host.reduce IntOp.andi x v reducesTo_S1024x100x1_S1024x100_d2 h_S_),
    StableHlo.TRef.binary (.of main_v86 : StableHlo.TRef sig ⟨S100x32, .f32⟩) main_call21.v5 main_call21.v13 (fun x i => Host.gather gather_S100x32_S1024x100x1_S1024x100x32_2_0_n_n_0_2_132 x i),
    StableHlo.TRef.unary main_call21.v12 main_call21.v14 (broadcastInDim S1024x100x32 ![0, 1] bcast_S1024x100_S1024x100x32_0_1),
    StableHlo.TRef.nullary main_call21.cst (constant S_ .f32 0x7FC00000#32),
    StableHlo.TRef.unary main_call21.cst main_call21.v15 (broadcastInDim S1024x100x32 ![] bcast_S_S1024x100x32),
    StableHlo.TRef.ternary main_call21.v14 main_call21.v13 main_call21.v15 main_call21.v16 select,
    StableHlo.unary main_arg0 main_v88 ((extractStridedSlice S1024x100 ![0, 1111] · slices_S1024x2626_S1024x100_0_1111) : (⟨S1024x2626, .i32⟩ : BufTy).Contents (Elt F) → (⟨S1024x100, .i32⟩ : BufTy).Contents (Elt F)),
    StableHlo.unary main_arg2 main_v89 ((extractStridedSlice S1x100x1 ![11, 0, 0] · slices_S26x100x1_S1x100x1_11_0_0) : (⟨S26x100x1, .f32⟩ : BufTy).Contents (Elt F) → (⟨S1x100x1, .f32⟩ : BufTy).Contents (Elt F)),
    StableHlo.reshape main_v89 main_v90 rfl shapeCasts_S1x100x1_S100x1,
    StableHlo.TRef.nullary main_call22.c (constantI S_ 32 0#32),
    StableHlo.TRef.unary main_call22.c main_call22.v0 (broadcastInDim S1024x100 ![] bcast_S_S1024x100),
    StableHlo.TRef.binary (.of main_v88 : StableHlo.TRef sig ⟨S1024x100, .i32⟩) main_call22.v0 main_call22.v1 (cmpi .slt),
    StableHlo.TRef.nullary main_call22.c_0 (constantI S_ 32 100#32),
    StableHlo.TRef.unary main_call22.c_0 main_call22.v2 (broadcastInDim S1024x100 ![] bcast_S_S1024x100),
    StableHlo.TRef.binary (.of main_v88 : StableHlo.TRef sig ⟨S1024x100, .i32⟩) main_call22.v2 main_call22.v3 addi,
    StableHlo.TRef.ternary main_call22.v1 main_call22.v3 (.of main_v88 : StableHlo.TRef sig ⟨S1024x100, .i32⟩) main_call22.call0.v0 select,
    StableHlo.TRef.unary main_call22.call0.v0 main_call22.v5 (broadcastInDim S1024x100x1 ![0, 1] bcast_S1024x100_S1024x100x1_0_1),
    StableHlo.TRef.nullary main_call22.c_1 (constantI S1 32 99#32),
    StableHlo.TRef.nullary main_call22.c_2 (constantI S_ 32 0#32),
    StableHlo.TRef.unary main_call22.c_2 main_call22.v6 (broadcastInDim S1024x100x1 ![] bcast_S_S1024x100x1),
    StableHlo.TRef.binary main_call22.v5 main_call22.v6 main_call22.v7 (cmpi .sge),
    StableHlo.TRef.unary main_call22.c_1 main_call22.v8 (broadcastInDim S1x1x1 ![2] bcast_S1_S1x1x1_2),
    StableHlo.TRef.unary main_call22.v8 main_call22.v9 (broadcastInDim S1024x100x1 ![0, 1, 2] bcast_S1x1x1_S1024x100x1_0_1_2),
    StableHlo.TRef.binary main_call22.v5 main_call22.v9 main_call22.v10 (cmpi .sle),
    StableHlo.TRef.binary main_call22.v7 main_call22.v10 main_call22.v11 andi,
    StableHlo.TRef.nullary main_call22.c_3 (constantI S_ 1 1#1),
    StableHlo.TRef.binary main_call22.v11 main_call22.c_3 main_call22.v12 (fun x v => Host.reduce IntOp.andi x v reducesTo_S1024x100x1_S1024x100_d2 h_S_),
    StableHlo.TRef.binary (.of main_v90 : StableHlo.TRef sig ⟨S100x1, .f32⟩) main_call22.v5 main_call22.v13 (fun x i => Host.gather gather_S100x1_S1024x100x1_S1024x100x1_2_0_n_n_0_2_11 x i),
    StableHlo.TRef.unary main_call22.v12 main_call22.v14 (broadcastInDim S1024x100x1 ![0, 1] bcast_S1024x100_S1024x100x1_0_1),
    StableHlo.TRef.nullary main_call22.cst (constant S_ .f32 0x7FC00000#32),
    StableHlo.TRef.unary main_call22.cst main_call22.v15 (broadcastInDim S1024x100x1 ![] bcast_S_S1024x100x1),
    StableHlo.TRef.ternary main_call22.v14 main_call22.v13 main_call22.v15 main_call22.v16 select,
    StableHlo.nullary main_cst_10 (constant S_ .f32 0x00000000#32),
    StableHlo.binary main_v91 main_cst_10 main_v92 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v93 ((extractStridedSlice S1x100x32 ![11, 0, 0] · slices_S26x100x32_S1x100x32_11_0_0) : (⟨S26x100x32, .f32⟩ : BufTy).Contents (Elt F) → (⟨S1x100x32, .f32⟩ : BufTy).Contents (Elt F)),
    StableHlo.reshape main_v93 main_v94 rfl shapeCasts_S1x100x32_S100x32,
    StableHlo.TRef.nullary main_call23.c (constantI S_ 32 0#32),
    StableHlo.TRef.unary main_call23.c main_call23.v0 (broadcastInDim S1024x100 ![] bcast_S_S1024x100),
    StableHlo.TRef.binary (.of main_v88 : StableHlo.TRef sig ⟨S1024x100, .i32⟩) main_call23.v0 main_call23.v1 (cmpi .slt),
    StableHlo.TRef.nullary main_call23.c_0 (constantI S_ 32 100#32),
    StableHlo.TRef.unary main_call23.c_0 main_call23.v2 (broadcastInDim S1024x100 ![] bcast_S_S1024x100),
    StableHlo.TRef.binary (.of main_v88 : StableHlo.TRef sig ⟨S1024x100, .i32⟩) main_call23.v2 main_call23.v3 addi,
    StableHlo.TRef.ternary main_call23.v1 main_call23.v3 (.of main_v88 : StableHlo.TRef sig ⟨S1024x100, .i32⟩) main_call23.call0.v0 select,
    StableHlo.TRef.unary main_call23.call0.v0 main_call23.v5 (broadcastInDim S1024x100x1 ![0, 1] bcast_S1024x100_S1024x100x1_0_1),
    StableHlo.TRef.nullary main_call23.c_1 (constantI S1 32 99#32),
    StableHlo.TRef.nullary main_call23.c_2 (constantI S_ 32 0#32),
    StableHlo.TRef.unary main_call23.c_2 main_call23.v6 (broadcastInDim S1024x100x1 ![] bcast_S_S1024x100x1),
    StableHlo.TRef.binary main_call23.v5 main_call23.v6 main_call23.v7 (cmpi .sge),
    StableHlo.TRef.unary main_call23.c_1 main_call23.v8 (broadcastInDim S1x1x1 ![2] bcast_S1_S1x1x1_2),
    StableHlo.TRef.unary main_call23.v8 main_call23.v9 (broadcastInDim S1024x100x1 ![0, 1, 2] bcast_S1x1x1_S1024x100x1_0_1_2),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S1024x100x1_S1024x100_d2 h_S_),
    StableHlo.TRef.binary (.of main_v94 : StableHlo.TRef sig ⟨S100x32, .f32⟩) main_call23.v5 main_call23.v13 (fun x i => Host.gather gather_S100x32_S1024x100x1_S1024x100x32_2_0_n_n_0_2_132 x i),
    StableHlo.TRef.unary main_call23.v12 main_call23.v14 (broadcastInDim S1024x100x32 ![0, 1] bcast_S1024x100_S1024x100x32_0_1),
    StableHlo.TRef.nullary main_call23.cst (constant S_ .f32 0x7FC00000#32),
    StableHlo.TRef.unary main_call23.cst main_call23.v15 (broadcastInDim S1024x100x32 ![] bcast_S_S1024x100x32),
    StableHlo.TRef.ternary main_call23.v14 main_call23.v13 main_call23.v15 main_call23.v16 select,
    StableHlo.unary main_arg0 main_v96 ((extractStridedSlice S1024x100 ![0, 1212] · slices_S1024x2626_S1024x100_0_1212) : (⟨S1024x2626, .i32⟩ : BufTy).Contents (Elt F) → (⟨S1024x100, .i32⟩ : BufTy).Contents (Elt F)),
    StableHlo.unary main_arg2 main_v97 ((extractStridedSlice S1x100x1 ![12, 0, 0] · slices_S26x100x1_S1x100x1_12_0_0) : (⟨S26x100x1, .f32⟩ : BufTy).Contents (Elt F) → (⟨S1x100x1, .f32⟩ : BufTy).Contents (Elt F)),
    StableHlo.reshape main_v97 main_v98 rfl shapeCasts_S1x100x1_S100x1,
    StableHlo.TRef.nullary main_call24.c (constantI S_ 32 0#32),
    StableHlo.TRef.unary main_call24.c main_call24.v0 (broadcastInDim S1024x100 ![] bcast_S_S1024x100),
    StableHlo.TRef.binary (.of main_v96 : StableHlo.TRef sig ⟨S1024x100, .i32⟩) main_call24.v0 main_call24.v1 (cmpi .slt),
    StableHlo.TRef.nullary main_call24.c_0 (constantI S_ 32 100#32),
    StableHlo.TRef.unary main_call24.c_0 main_call24.v2 (broadcastInDim S1024x100 ![] bcast_S_S1024x100),
    StableHlo.TRef.binary (.of main_v96 : StableHlo.TRef sig ⟨S1024x100, .i32⟩) main_call24.v2 main_call24.v3 addi,
    StableHlo.TRef.ternary main_call24.v1 main_call24.v3 (.of main_v96 : StableHlo.TRef sig ⟨S1024x100, .i32⟩) main_call24.call0.v0 select,
    StableHlo.TRef.unary main_call24.call0.v0 main_call24.v5 (broadcastInDim S1024x100x1 ![0, 1] bcast_S1024x100_S1024x100x1_0_1),
    StableHlo.TRef.nullary main_call24.c_1 (constantI S1 32 99#32),
    StableHlo.TRef.nullary main_call24.c_2 (constantI S_ 32 0#32),
    StableHlo.TRef.unary main_call24.c_2 main_call24.v6 (broadcastInDim S1024x100x1 ![] bcast_S_S1024x100x1),
    StableHlo.TRef.binary main_call24.v5 main_call24.v6 main_call24.v7 (cmpi .sge),
    StableHlo.TRef.unary main_call24.c_1 main_call24.v8 (broadcastInDim S1x1x1 ![2] bcast_S1_S1x1x1_2),
    StableHlo.TRef.unary main_call24.v8 main_call24.v9 (broadcastInDim S1024x100x1 ![0, 1, 2] bcast_S1x1x1_S1024x100x1_0_1_2),
    StableHlo.TRef.binary main_call24.v5 main_call24.v9 main_call24.v10 (cmpi .sle),
    StableHlo.TRef.binary main_call24.v7 main_call24.v10 main_call24.v11 andi,
    StableHlo.TRef.nullary main_call24.c_3 (constantI S_ 1 1#1),
    StableHlo.TRef.binary main_call24.v11 main_call24.c_3 main_call24.v12 (fun x v => Host.reduce IntOp.andi x v reducesTo_S1024x100x1_S1024x100_d2 h_S_),
    StableHlo.TRef.binary (.of main_v98 : StableHlo.TRef sig ⟨S100x1, .f32⟩) main_call24.v5 main_call24.v13 (fun x i => Host.gather gather_S100x1_S1024x100x1_S1024x100x1_2_0_n_n_0_2_11 x i),
    StableHlo.TRef.unary main_call24.v12 main_call24.v14 (broadcastInDim S1024x100x1 ![0, 1] bcast_S1024x100_S1024x100x1_0_1),
    StableHlo.TRef.nullary main_call24.cst (constant S_ .f32 0x7FC00000#32),
    StableHlo.TRef.unary main_call24.cst main_call24.v15 (broadcastInDim S1024x100x1 ![] bcast_S_S1024x100x1),
    StableHlo.TRef.ternary main_call24.v14 main_call24.v13 main_call24.v15 main_call24.v16 select,
    StableHlo.nullary main_cst_11 (constant S_ .f32 0x00000000#32),
    StableHlo.binary main_v99 main_cst_11 main_v100 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v101 ((extractStridedSlice S1x100x32 ![12, 0, 0] · slices_S26x100x32_S1x100x32_12_0_0) : (⟨S26x100x32, .f32⟩ : BufTy).Contents (Elt F) → (⟨S1x100x32, .f32⟩ : BufTy).Contents (Elt F)),
    StableHlo.reshape main_v101 main_v102 rfl shapeCasts_S1x100x32_S100x32,
    StableHlo.TRef.nullary main_call25.c (constantI S_ 32 0#32),
    StableHlo.TRef.unary main_call25.c main_call25.v0 (broadcastInDim S1024x100 ![] bcast_S_S1024x100),
    StableHlo.TRef.binary (.of main_v96 : StableHlo.TRef sig ⟨S1024x100, .i32⟩) main_call25.v0 main_call25.v1 (cmpi .slt),
    StableHlo.TRef.nullary main_call25.c_0 (constantI S_ 32 100#32),
    StableHlo.TRef.unary main_call25.c_0 main_call25.v2 (broadcastInDim S1024x100 ![] bcast_S_S1024x100),
    StableHlo.TRef.binary (.of main_v96 : StableHlo.TRef sig ⟨S1024x100, .i32⟩) main_call25.v2 main_call25.v3 addi,
    StableHlo.TRef.ternary main_call25.v1 main_call25.v3 (.of main_v96 : StableHlo.TRef sig ⟨S1024x100, .i32⟩) main_call25.call0.v0 select,
    StableHlo.TRef.unary main_call25.call0.v0 main_call25.v5 (broadcastInDim S1024x100x1 ![0, 1] bcast_S1024x100_S1024x100x1_0_1),
    StableHlo.TRef.nullary main_call25.c_1 (constantI S1 32 99#32),
    StableHlo.TRef.nullary main_call25.c_2 (constantI S_ 32 0#32),
    StableHlo.TRef.unary main_call25.c_2 main_call25.v6 (broadcastInDim S1024x100x1 ![] bcast_S_S1024x100x1),
    StableHlo.TRef.binary main_call25.v5 main_call25.v6 main_call25.v7 (cmpi .sge),
    StableHlo.TRef.unary main_call25.c_1 main_call25.v8 (broadcastInDim S1x1x1 ![2] bcast_S1_S1x1x1_2),
    StableHlo.TRef.unary main_call25.v8 main_call25.v9 (broadcastInDim S1024x100x1 ![0, 1, 2] bcast_S1x1x1_S1024x100x1_0_1_2),
    StableHlo.TRef.binary main_call25.v5 main_call25.v9 main_call25.v10 (cmpi .sle),
    StableHlo.TRef.binary main_call25.v7 main_call25.v10 main_call25.v11 andi,
    StableHlo.TRef.nullary main_call25.c_3 (constantI S_ 1 1#1),
    StableHlo.TRef.binary main_call25.v11 main_call25.c_3 main_call25.v12 (fun x v => Host.reduce IntOp.andi x v reducesTo_S1024x100x1_S1024x100_d2 h_S_),
    StableHlo.TRef.binary (.of main_v102 : StableHlo.TRef sig ⟨S100x32, .f32⟩) main_call25.v5 main_call25.v13 (fun x i => Host.gather gather_S100x32_S1024x100x1_S1024x100x32_2_0_n_n_0_2_132 x i),
    StableHlo.TRef.unary main_call25.v12 main_call25.v14 (broadcastInDim S1024x100x32 ![0, 1] bcast_S1024x100_S1024x100x32_0_1),
    StableHlo.TRef.nullary main_call25.cst (constant S_ .f32 0x7FC00000#32),
    StableHlo.TRef.unary main_call25.cst main_call25.v15 (broadcastInDim S1024x100x32 ![] bcast_S_S1024x100x32),
    StableHlo.TRef.ternary main_call25.v14 main_call25.v13 main_call25.v15 main_call25.v16 select,
    StableHlo.unary main_arg0 main_v104 ((extractStridedSlice S1024x100 ![0, 1313] · slices_S1024x2626_S1024x100_0_1313) : (⟨S1024x2626, .i32⟩ : BufTy).Contents (Elt F) → (⟨S1024x100, .i32⟩ : BufTy).Contents (Elt F)),
    StableHlo.unary main_arg2 main_v105 ((extractStridedSlice S1x100x1 ![13, 0, 0] · slices_S26x100x1_S1x100x1_13_0_0) : (⟨S26x100x1, .f32⟩ : BufTy).Contents (Elt F) → (⟨S1x100x1, .f32⟩ : BufTy).Contents (Elt F)),
    StableHlo.reshape main_v105 main_v106 rfl shapeCasts_S1x100x1_S100x1 ]

theorem W1_split : (W1 : List (HloOp τ sig (Elt F))) = W1a ++ W1b := rfl

set_option maxRecDepth 65536 in
set_option maxHeartbeats 8000000 in
theorem part1_split (c : Dev nD) : main_part1 (F := F) c = (part1_a c >>= fun _ => part1_b c) := rfl

set_option maxRecDepth 65536 in
set_option maxHeartbeats 8000000 in
theorem part1_a_eq (c : Dev nD) : part1_a (F := F) c = seq W1a := rfl

set_option maxRecDepth 65536 in
set_option maxHeartbeats 8000000 in
theorem part1_b_eq (c : Dev nD) : part1_b (F := F) c = seq W1b := rfl

theorem part1_eq (c : Dev nD) : main_part1 (F := F) c = seq W1 := by
  rw [part1_split, part1_a_eq, part1_b_eq, W1_split, seq_append]

set_option maxHeartbeats 40000000 in
/-- Window 2, first half. -/
def part2_a : Dev nD → Prog (TpuEff nD τ sig (Elt F) (Pipeline.Sig Λ₀ (Fin 0) fun p => (pcfgs (F := F) p).Adm) .tc) PUnit := fun _ => do
  fn_take.body (.of main_v106) (.of main_v104) main_call26
  hlo rfl (StableHlo.nullary main_cst_12 (constant S_ .f32 0x00000000#32)) (fun _ => .ret ⟨⟩)
  hlo rfl (StableHlo.binary main_v107 main_cst_12 main_v108 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v109 ((extractStridedSlice S1x100x32 ![13, 0, 0] · slices_S26x100x32_S1x100x32_13_0_0) : (⟨S26x100x32, .f32⟩ : BufTy).Contents (Elt F) → (⟨S1x100x32, .f32⟩ : BufTy).Contents (Elt F))) (fun _ => .ret ⟨⟩)
  hlo rfl (StableHlo.reshape main_v109 main_v110 rfl shapeCasts_S1x100x32_S100x32) (fun _ => .ret ⟨⟩)
  fn_take_0.body (.of main_v110) (.of main_v104) main_call27
  hlo rfl (StableHlo.unary main_arg0 main_v112 ((extractStridedSlice S1024x100 ![0, 1414] · slices_S1024x2626_S1024x100_0_1414) : (⟨S1024x2626, .i32⟩ : BufTy).Contents (Elt F) → (⟨S1024x100, .i32⟩ : BufTy).Contents (Elt F))) (fun _ => .ret ⟨⟩)
  hlo rfl (StableHlo.unary main_arg2 main_v113 ((extractStridedSlice S1x100x1 ![14, 0, 0] · slices_S26x100x1_S1x100x1_14_0_0) : (⟨S26x100x1, .f32⟩ : BufTy).Contents (Elt F) → (⟨S1x100x1, .f32⟩ : BufTy).Contents (Elt F))) (fun _ => .ret ⟨⟩)
  hlo rfl (StableHlo.reshape main_v113 main_v114 rfl shapeCasts_S1x100x1_S100x1) (fun _ => .ret ⟨⟩)
  fn_take.body (.of main_v114) (.of main_v112) main_call28
  hlo rfl (StableHlo.nullary main_cst_13 (constant S_ .f32 0x00000000#32)) (fun _ => .ret ⟨⟩)
  hlo rfl (StableHlo.binary main_v115 main_cst_13 main_v116 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v117 ((extractStridedSlice S1x100x32 ![14, 0, 0] · slices_S26x100x32_S1x100x32_14_0_0) : (⟨S26x100x32, .f32⟩ : BufTy).Contents (Elt F) → (⟨S1x100x32, .f32⟩ : BufTy).Contents (Elt F))) (fun _ => .ret ⟨⟩)
  hlo rfl (StableHlo.reshape main_v117 main_v118 rfl shapeCasts_S1x100x32_S100x32) (fun _ => .ret ⟨⟩)
  fn_take_0.body (.of main_v118) (.of main_v112) main_call29
  hlo rfl (StableHlo.unary main_arg0 main_v120 ((extractStridedSlice S1024x100 ![0, 1515] · slices_S1024x2626_S1024x100_0_1515) : (⟨S1024x2626, .i32⟩ : BufTy).Contents (Elt F) → (⟨S1024x100, .i32⟩ : BufTy).Contents (Elt F))) (fun _ => .ret ⟨⟩)
  hlo rfl (StableHlo.unary main_arg2 main_v121 ((extractStridedSlice S1x100x1 ![15, 0, 0] · slices_S26x100x1_S1x100x1_15_0_0) : (⟨S26x100x1, .f32⟩ : BufTy).Contents (Elt F) → (⟨S1x100x1, .f32⟩ : BufTy).Contents (Elt F))) (fun _ => .ret ⟨⟩)
  hlo rfl (StableHlo.reshape main_v121 main_v122 rfl shapeCasts_S1x100x1_S100x1) (fun _ => .ret ⟨⟩)
  fn_take.body (.of main_v122) (.of main_v120) main_call30
  hlo rfl (StableHlo.nullary main_cst_14 (constant S_ .f32 0x00000000#32)) (fun _ => .ret ⟨⟩)
  hlo rfl (StableHlo.binary main_v123 main_cst_14 main_v124 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v125 ((extractStridedSlice S1x100x32 ![15, 0, 0] · slices_S26x100x32_S1x100x32_15_0_0) : (⟨S26x100x32, .f32⟩ : BufTy).Contents (Elt F) → (⟨S1x100x32, .f32⟩ : BufTy).Contents (Elt F))) (fun _ => .ret ⟨⟩)
  hlo rfl (StableHlo.reshape main_v125 main_v126 rfl shapeCasts_S1x100x32_S100x32) (fun _ => .ret ⟨⟩)
  fn_take_0.body (.of main_v126) (.of main_v120) main_call31
  hlo rfl (StableHlo.unary main_arg0 main_v128 ((extractStridedSlice S1024x100 ![0, 1616] · slices_S1024x2626_S1024x100_0_1616) : (⟨S1024x2626, .i32⟩ : BufTy).Contents (Elt F) → (⟨S1024x100, .i32⟩ : BufTy).Contents (Elt F))) (fun _ => .ret ⟨⟩)
  hlo rfl (StableHlo.unary main_arg2 main_v129 ((extractStridedSlice S1x100x1 ![16, 0, 0] · slices_S26x100x1_S1x100x1_16_0_0) : (⟨S26x100x1, .f32⟩ : BufTy).Contents (Elt F) → (⟨S1x100x1, .f32⟩ : BufTy).Contents (Elt F))) (fun _ => .ret ⟨⟩)
  hlo rfl (StableHlo.reshape main_v129 main_v130 rfl shapeCasts_S1x100x1_S100x1) (fun _ => .ret ⟨⟩)
  fn_take.body (.of main_v130) (.of main_v128) main_call32
  hlo rfl (StableHlo.nullary main_cst_15 (constant S_ .f32 0x00000000#32)) (fun _ => .ret ⟨⟩)
  hlo rfl (StableHlo.binary main_v131 main_cst_15 main_v132 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)

set_option maxHeartbeats 40000000 in
/-- Window 2, second half. -/
def part2_b : Dev nD → Prog (TpuEff nD τ sig (Elt F) (Pipeline.Sig Λ₀ (Fin 0) fun p => (pcfgs (F := F) p).Adm) .tc) PUnit := fun _ => do
  hlo rfl (StableHlo.unary main_arg3 main_v133 ((extractStridedSlice S1x100x32 ![16, 0, 0] · slices_S26x100x32_S1x100x32_16_0_0) : (⟨S26x100x32, .f32⟩ : BufTy).Contents (Elt F) → (⟨S1x100x32, .f32⟩ : BufTy).Contents (Elt F))) (fun _ => .ret ⟨⟩)
  hlo rfl (StableHlo.reshape main_v133 main_v134 rfl shapeCasts_S1x100x32_S100x32) (fun _ => .ret ⟨⟩)
  fn_take_0.body (.of main_v134) (.of main_v128) main_call33
  hlo rfl (StableHlo.unary main_arg0 main_v136 ((extractStridedSlice S1024x100 ![0, 1717] · slices_S1024x2626_S1024x100_0_1717) : (⟨S1024x2626, .i32⟩ : BufTy).Contents (Elt F) → (⟨S1024x100, .i32⟩ : BufTy).Contents (Elt F))) (fun _ => .ret ⟨⟩)
  hlo rfl (StableHlo.unary main_arg2 main_v137 ((extractStridedSlice S1x100x1 ![17, 0, 0] · slices_S26x100x1_S1x100x1_17_0_0) : (⟨S26x100x1, .f32⟩ : BufTy).Contents (Elt F) → (⟨S1x100x1, .f32⟩ : BufTy).Contents (Elt F))) (fun _ => .ret ⟨⟩)
  hlo rfl (StableHlo.reshape main_v137 main_v138 rfl shapeCasts_S1x100x1_S100x1) (fun _ => .ret ⟨⟩)
  fn_take.body (.of main_v138) (.of main_v136) main_call34
  hlo rfl (StableHlo.nullary main_cst_16 (constant S_ .f32 0x00000000#32)) (fun _ => .ret ⟨⟩)
  hlo rfl (StableHlo.binary main_v139 main_cst_16 main_v140 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v141 ((extractStridedSlice S1x100x32 ![17, 0, 0] · slices_S26x100x32_S1x100x32_17_0_0) : (⟨S26x100x32, .f32⟩ : BufTy).Contents (Elt F) → (⟨S1x100x32, .f32⟩ : BufTy).Contents (Elt F))) (fun _ => .ret ⟨⟩)
  hlo rfl (StableHlo.reshape main_v141 main_v142 rfl shapeCasts_S1x100x32_S100x32) (fun _ => .ret ⟨⟩)
  fn_take_0.body (.of main_v142) (.of main_v136) main_call35
  hlo rfl (StableHlo.unary main_arg0 main_v144 ((extractStridedSlice S1024x100 ![0, 1818] · slices_S1024x2626_S1024x100_0_1818) : (⟨S1024x2626, .i32⟩ : BufTy).Contents (Elt F) → (⟨S1024x100, .i32⟩ : BufTy).Contents (Elt F))) (fun _ => .ret ⟨⟩)
  hlo rfl (StableHlo.unary main_arg2 main_v145 ((extractStridedSlice S1x100x1 ![18, 0, 0] · slices_S26x100x1_S1x100x1_18_0_0) : (⟨S26x100x1, .f32⟩ : BufTy).Contents (Elt F) → (⟨S1x100x1, .f32⟩ : BufTy).Contents (Elt F))) (fun _ => .ret ⟨⟩)
  hlo rfl (StableHlo.reshape main_v145 main_v146 rfl shapeCasts_S1x100x1_S100x1) (fun _ => .ret ⟨⟩)
  fn_take.body (.of main_v146) (.of main_v144) main_call36
  hlo rfl (StableHlo.nullary main_cst_17 (constant S_ .f32 0x00000000#32)) (fun _ => .ret ⟨⟩)
  hlo rfl (StableHlo.binary main_v147 main_cst_17 main_v148 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v149 ((extractStridedSlice S1x100x32 ![18, 0, 0] · slices_S26x100x32_S1x100x32_18_0_0) : (⟨S26x100x32, .f32⟩ : BufTy).Contents (Elt F) → (⟨S1x100x32, .f32⟩ : BufTy).Contents (Elt F))) (fun _ => .ret ⟨⟩)
  hlo rfl (StableHlo.reshape main_v149 main_v150 rfl shapeCasts_S1x100x32_S100x32) (fun _ => .ret ⟨⟩)
  fn_take_0.body (.of main_v150) (.of main_v144) main_call37
  hlo rfl (StableHlo.unary main_arg0 main_v152 ((extractStridedSlice S1024x100 ![0, 1919] · slices_S1024x2626_S1024x100_0_1919) : (⟨S1024x2626, .i32⟩ : BufTy).Contents (Elt F) → (⟨S1024x100, .i32⟩ : BufTy).Contents (Elt F))) (fun _ => .ret ⟨⟩)
  hlo rfl (StableHlo.unary main_arg2 main_v153 ((extractStridedSlice S1x100x1 ![19, 0, 0] · slices_S26x100x1_S1x100x1_19_0_0) : (⟨S26x100x1, .f32⟩ : BufTy).Contents (Elt F) → (⟨S1x100x1, .f32⟩ : BufTy).Contents (Elt F))) (fun _ => .ret ⟨⟩)
  hlo rfl (StableHlo.reshape main_v153 main_v154 rfl shapeCasts_S1x100x1_S100x1) (fun _ => .ret ⟨⟩)
  fn_take.body (.of main_v154) (.of main_v152) main_call38
  hlo rfl (StableHlo.nullary main_cst_18 (constant S_ .f32 0x00000000#32)) (fun _ => .ret ⟨⟩)
  hlo rfl (StableHlo.binary main_v155 main_cst_18 main_v156 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v157 ((extractStridedSlice S1x100x32 ![19, 0, 0] · slices_S26x100x32_S1x100x32_19_0_0) : (⟨S26x100x32, .f32⟩ : BufTy).Contents (Elt F) → (⟨S1x100x32, .f32⟩ : BufTy).Contents (Elt F))) (fun _ => .ret ⟨⟩)
  hlo rfl (StableHlo.reshape main_v157 main_v158 rfl shapeCasts_S1x100x32_S100x32) (fun _ => .ret ⟨⟩)
  fn_take_0.body (.of main_v158) (.of main_v152) main_call39

abbrev W2a : List (HloOp τ sig (Elt F)) :=
  [ StableHlo.TRef.nullary main_call26.c (constantI S_ 32 0#32),
    StableHlo.TRef.unary main_call26.c main_call26.v0 (broadcastInDim S1024x100 ![] bcast_S_S1024x100),
    StableHlo.TRef.binary (.of main_v104 : StableHlo.TRef sig ⟨S1024x100, .i32⟩) main_call26.v0 main_call26.v1 (cmpi .slt),
    StableHlo.TRef.nullary main_call26.c_0 (constantI S_ 32 100#32),
    StableHlo.TRef.unary main_call26.c_0 main_call26.v2 (broadcastInDim S1024x100 ![] bcast_S_S1024x100),
    StableHlo.TRef.binary (.of main_v104 : StableHlo.TRef sig ⟨S1024x100, .i32⟩) main_call26.v2 main_call26.v3 addi,
    StableHlo.TRef.ternary main_call26.v1 main_call26.v3 (.of main_v104 : StableHlo.TRef sig ⟨S1024x100, .i32⟩) main_call26.call0.v0 select,
    StableHlo.TRef.unary main_call26.call0.v0 main_call26.v5 (broadcastInDim S1024x100x1 ![0, 1] bcast_S1024x100_S1024x100x1_0_1),
    StableHlo.TRef.nullary main_call26.c_1 (constantI S1 32 99#32),
    StableHlo.TRef.nullary main_call26.c_2 (constantI S_ 32 0#32),
    StableHlo.TRef.unary main_call26.c_2 main_call26.v6 (broadcastInDim S1024x100x1 ![] bcast_S_S1024x100x1),
    StableHlo.TRef.binary main_call26.v5 main_call26.v6 main_call26.v7 (cmpi .sge),
    StableHlo.TRef.unary main_call26.c_1 main_call26.v8 (broadcastInDim S1x1x1 ![2] bcast_S1_S1x1x1_2),
    StableHlo.TRef.unary main_call26.v8 main_call26.v9 (broadcastInDim S1024x100x1 ![0, 1, 2] bcast_S1x1x1_S1024x100x1_0_1_2),
    StableHlo.TRef.binary main_call26.v5 main_call26.v9 main_call26.v10 (cmpi .sle),
    StableHlo.TRef.binary main_call26.v7 main_call26.v10 main_call26.v11 andi,
    StableHlo.TRef.nullary main_call26.c_3 (constantI S_ 1 1#1),
    StableHlo.TRef.binary main_call26.v11 main_call26.c_3 main_call26.v12 (fun x v => Host.reduce IntOp.andi x v reducesTo_S1024x100x1_S1024x100_d2 h_S_),
    StableHlo.TRef.binary (.of main_v106 : StableHlo.TRef sig ⟨S100x1, .f32⟩) main_call26.v5 main_call26.v13 (fun x i => Host.gather gather_S100x1_S1024x100x1_S1024x100x1_2_0_n_n_0_2_11 x i),
    StableHlo.TRef.unary main_call26.v12 main_call26.v14 (broadcastInDim S1024x100x1 ![0, 1] bcast_S1024x100_S1024x100x1_0_1),
    StableHlo.TRef.nullary main_call26.cst (constant S_ .f32 0x7FC00000#32),
    StableHlo.TRef.unary main_call26.cst main_call26.v15 (broadcastInDim S1024x100x1 ![] bcast_S_S1024x100x1),
    StableHlo.TRef.ternary main_call26.v14 main_call26.v13 main_call26.v15 main_call26.v16 select,
    StableHlo.nullary main_cst_12 (constant S_ .f32 0x00000000#32),
    StableHlo.binary main_v107 main_cst_12 main_v108 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v109 ((extractStridedSlice S1x100x32 ![13, 0, 0] · slices_S26x100x32_S1x100x32_13_0_0) : (⟨S26x100x32, .f32⟩ : BufTy).Contents (Elt F) → (⟨S1x100x32, .f32⟩ : BufTy).Contents (Elt F)),
    StableHlo.reshape main_v109 main_v110 rfl shapeCasts_S1x100x32_S100x32,
    StableHlo.TRef.nullary main_call27.c (constantI S_ 32 0#32),
    StableHlo.TRef.unary main_call27.c main_call27.v0 (broadcastInDim S1024x100 ![] bcast_S_S1024x100),
    StableHlo.TRef.binary (.of main_v104 : StableHlo.TRef sig ⟨S1024x100, .i32⟩) main_call27.v0 main_call27.v1 (cmpi .slt),
    StableHlo.TRef.nullary main_call27.c_0 (constantI S_ 32 100#32),
    StableHlo.TRef.unary main_call27.c_0 main_call27.v2 (broadcastInDim S1024x100 ![] bcast_S_S1024x100),
    StableHlo.TRef.binary (.of main_v104 : StableHlo.TRef sig ⟨S1024x100, .i32⟩) main_call27.v2 main_call27.v3 addi,
    StableHlo.TRef.ternary main_call27.v1 main_call27.v3 (.of main_v104 : StableHlo.TRef sig ⟨S1024x100, .i32⟩) main_call27.call0.v0 select,
    StableHlo.TRef.unary main_call27.call0.v0 main_call27.v5 (broadcastInDim S1024x100x1 ![0, 1] bcast_S1024x100_S1024x100x1_0_1),
    StableHlo.TRef.nullary main_call27.c_1 (constantI S1 32 99#32),
    StableHlo.TRef.nullary main_call27.c_2 (constantI S_ 32 0#32),
    StableHlo.TRef.unary main_call27.c_2 main_call27.v6 (broadcastInDim S1024x100x1 ![] bcast_S_S1024x100x1),
    StableHlo.TRef.binary main_call27.v5 main_call27.v6 main_call27.v7 (cmpi .sge),
    StableHlo.TRef.unary main_call27.c_1 main_call27.v8 (broadcastInDim S1x1x1 ![2] bcast_S1_S1x1x1_2),
    StableHlo.TRef.unary main_call27.v8 main_call27.v9 (broadcastInDim S1024x100x1 ![0, 1, 2] bcast_S1x1x1_S1024x100x1_0_1_2),
    StableHlo.TRef.binary main_call27.v5 main_call27.v9 main_call27.v10 (cmpi .sle),
    StableHlo.TRef.binary main_call27.v7 main_call27.v10 main_call27.v11 andi,
    StableHlo.TRef.nullary main_call27.c_3 (constantI S_ 1 1#1),
    StableHlo.TRef.binary main_call27.v11 main_call27.c_3 main_call27.v12 (fun x v => Host.reduce IntOp.andi x v reducesTo_S1024x100x1_S1024x100_d2 h_S_),
    StableHlo.TRef.binary (.of main_v110 : StableHlo.TRef sig ⟨S100x32, .f32⟩) main_call27.v5 main_call27.v13 (fun x i => Host.gather gather_S100x32_S1024x100x1_S1024x100x32_2_0_n_n_0_2_132 x i),
    StableHlo.TRef.unary main_call27.v12 main_call27.v14 (broadcastInDim S1024x100x32 ![0, 1] bcast_S1024x100_S1024x100x32_0_1),
    StableHlo.TRef.nullary main_call27.cst (constant S_ .f32 0x7FC00000#32),
    StableHlo.TRef.unary main_call27.cst main_call27.v15 (broadcastInDim S1024x100x32 ![] bcast_S_S1024x100x32),
    StableHlo.TRef.ternary main_call27.v14 main_call27.v13 main_call27.v15 main_call27.v16 select,
    StableHlo.unary main_arg0 main_v112 ((extractStridedSlice S1024x100 ![0, 1414] · slices_S1024x2626_S1024x100_0_1414) : (⟨S1024x2626, .i32⟩ : BufTy).Contents (Elt F) → (⟨S1024x100, .i32⟩ : BufTy).Contents (Elt F)),
    StableHlo.unary main_arg2 main_v113 ((extractStridedSlice S1x100x1 ![14, 0, 0] · slices_S26x100x1_S1x100x1_14_0_0) : (⟨S26x100x1, .f32⟩ : BufTy).Contents (Elt F) → (⟨S1x100x1, .f32⟩ : BufTy).Contents (Elt F)),
    StableHlo.reshape main_v113 main_v114 rfl shapeCasts_S1x100x1_S100x1,
    StableHlo.TRef.nullary main_call28.c (constantI S_ 32 0#32),
    StableHlo.TRef.unary main_call28.c main_call28.v0 (broadcastInDim S1024x100 ![] bcast_S_S1024x100),
    StableHlo.TRef.binary (.of main_v112 : StableHlo.TRef sig ⟨S1024x100, .i32⟩) main_call28.v0 main_call28.v1 (cmpi .slt),
    StableHlo.TRef.nullary main_call28.c_0 (constantI S_ 32 100#32),
    StableHlo.TRef.unary main_call28.c_0 main_call28.v2 (broadcastInDim S1024x100 ![] bcast_S_S1024x100),
    StableHlo.TRef.binary (.of main_v112 : StableHlo.TRef sig ⟨S1024x100, .i32⟩) main_call28.v2 main_call28.v3 addi,
    StableHlo.TRef.ternary main_call28.v1 main_call28.v3 (.of main_v112 : StableHlo.TRef sig ⟨S1024x100, .i32⟩) main_call28.call0.v0 select,
    StableHlo.TRef.unary main_call28.call0.v0 main_call28.v5 (broadcastInDim S1024x100x1 ![0, 1] bcast_S1024x100_S1024x100x1_0_1),
    StableHlo.TRef.nullary main_call28.c_1 (constantI S1 32 99#32),
    StableHlo.TRef.nullary main_call28.c_2 (constantI S_ 32 0#32),
    StableHlo.TRef.unary main_call28.c_2 main_call28.v6 (broadcastInDim S1024x100x1 ![] bcast_S_S1024x100x1),
    StableHlo.TRef.binary main_call28.v5 main_call28.v6 main_call28.v7 (cmpi .sge),
    StableHlo.TRef.unary main_call28.c_1 main_call28.v8 (broadcastInDim S1x1x1 ![2] bcast_S1_S1x1x1_2),
    StableHlo.TRef.unary main_call28.v8 main_call28.v9 (broadcastInDim S1024x100x1 ![0, 1, 2] bcast_S1x1x1_S1024x100x1_0_1_2),
    StableHlo.TRef.binary main_call28.v5 main_call28.v9 main_call28.v10 (cmpi .sle),
    StableHlo.TRef.binary main_call28.v7 main_call28.v10 main_call28.v11 andi,
    StableHlo.TRef.nullary main_call28.c_3 (constantI S_ 1 1#1),
    StableHlo.TRef.binary main_call28.v11 main_call28.c_3 main_call28.v12 (fun x v => Host.reduce IntOp.andi x v reducesTo_S1024x100x1_S1024x100_d2 h_S_),
    StableHlo.TRef.binary (.of main_v114 : StableHlo.TRef sig ⟨S100x1, .f32⟩) main_call28.v5 main_call28.v13 (fun x i => Host.gather gather_S100x1_S1024x100x1_S1024x100x1_2_0_n_n_0_2_11 x i),
    StableHlo.TRef.unary main_call28.v12 main_call28.v14 (broadcastInDim S1024x100x1 ![0, 1] bcast_S1024x100_S1024x100x1_0_1),
    StableHlo.TRef.nullary main_call28.cst (constant S_ .f32 0x7FC00000#32),
    StableHlo.TRef.unary main_call28.cst main_call28.v15 (broadcastInDim S1024x100x1 ![] bcast_S_S1024x100x1),
    StableHlo.TRef.ternary main_call28.v14 main_call28.v13 main_call28.v15 main_call28.v16 select,
    StableHlo.nullary main_cst_13 (constant S_ .f32 0x00000000#32),
    StableHlo.binary main_v115 main_cst_13 main_v116 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v117 ((extractStridedSlice S1x100x32 ![14, 0, 0] · slices_S26x100x32_S1x100x32_14_0_0) : (⟨S26x100x32, .f32⟩ : BufTy).Contents (Elt F) → (⟨S1x100x32, .f32⟩ : BufTy).Contents (Elt F)),
    StableHlo.reshape main_v117 main_v118 rfl shapeCasts_S1x100x32_S100x32,
    StableHlo.TRef.nullary main_call29.c (constantI S_ 32 0#32),
    StableHlo.TRef.unary main_call29.c main_call29.v0 (broadcastInDim S1024x100 ![] bcast_S_S1024x100),
    StableHlo.TRef.binary (.of main_v112 : StableHlo.TRef sig ⟨S1024x100, .i32⟩) main_call29.v0 main_call29.v1 (cmpi .slt),
    StableHlo.TRef.nullary main_call29.c_0 (constantI S_ 32 100#32),
    StableHlo.TRef.unary main_call29.c_0 main_call29.v2 (broadcastInDim S1024x100 ![] bcast_S_S1024x100),
    StableHlo.TRef.binary (.of main_v112 : StableHlo.TRef sig ⟨S1024x100, .i32⟩) main_call29.v2 main_call29.v3 addi,
    StableHlo.TRef.ternary main_call29.v1 main_call29.v3 (.of main_v112 : StableHlo.TRef sig ⟨S1024x100, .i32⟩) main_call29.call0.v0 select,
    StableHlo.TRef.unary main_call29.call0.v0 main_call29.v5 (broadcastInDim S1024x100x1 ![0, 1] bcast_S1024x100_S1024x100x1_0_1),
    StableHlo.TRef.nullary main_call29.c_1 (constantI S1 32 99#32),
    StableHlo.TRef.nullary main_call29.c_2 (constantI S_ 32 0#32),
    StableHlo.TRef.unary main_call29.c_2 main_call29.v6 (broadcastInDim S1024x100x1 ![] bcast_S_S1024x100x1),
    StableHlo.TRef.binary main_call29.v5 main_call29.v6 main_call29.v7 (cmpi .sge),
    StableHlo.TRef.unary main_call29.c_1 main_call29.v8 (broadcastInDim S1x1x1 ![2] bcast_S1_S1x1x1_2),
    StableHlo.TRef.unary main_call29.v8 main_call29.v9 (broadcastInDim S1024x100x1 ![0, 1, 2] bcast_S1x1x1_S1024x100x1_0_1_2),
    StableHlo.TRef.binary main_call29.v5 main_call29.v9 main_call29.v10 (cmpi .sle),
    StableHlo.TRef.binary main_call29.v7 main_call29.v10 main_call29.v11 andi,
    StableHlo.TRef.nullary main_call29.c_3 (constantI S_ 1 1#1),
    StableHlo.TRef.binary main_call29.v11 main_call29.c_3 main_call29.v12 (fun x v => Host.reduce IntOp.andi x v reducesTo_S1024x100x1_S1024x100_d2 h_S_),
    StableHlo.TRef.binary (.of main_v118 : StableHlo.TRef sig ⟨S100x32, .f32⟩) main_call29.v5 main_call29.v13 (fun x i => Host.gather gather_S100x32_S1024x100x1_S1024x100x32_2_0_n_n_0_2_132 x i),
    StableHlo.TRef.unary main_call29.v12 main_call29.v14 (broadcastInDim S1024x100x32 ![0, 1] bcast_S1024x100_S1024x100x32_0_1),
    StableHlo.TRef.nullary main_call29.cst (constant S_ .f32 0x7FC00000#32),
    StableHlo.TRef.unary main_call29.cst main_call29.v15 (broadcastInDim S1024x100x32 ![] bcast_S_S1024x100x32),
    StableHlo.TRef.ternary main_call29.v14 main_call29.v13 main_call29.v15 main_call29.v16 select,
    StableHlo.unary main_arg0 main_v120 ((extractStridedSlice S1024x100 ![0, 1515] · slices_S1024x2626_S1024x100_0_1515) : (⟨S1024x2626, .i32⟩ : BufTy).Contents (Elt F) → (⟨S1024x100, .i32⟩ : BufTy).Contents (Elt F)),
    StableHlo.unary main_arg2 main_v121 ((extractStridedSlice S1x100x1 ![15, 0, 0] · slices_S26x100x1_S1x100x1_15_0_0) : (⟨S26x100x1, .f32⟩ : BufTy).Contents (Elt F) → (⟨S1x100x1, .f32⟩ : BufTy).Contents (Elt F)),
    StableHlo.reshape main_v121 main_v122 rfl shapeCasts_S1x100x1_S100x1,
    StableHlo.TRef.nullary main_call30.c (constantI S_ 32 0#32),
    StableHlo.TRef.unary main_call30.c main_call30.v0 (broadcastInDim S1024x100 ![] bcast_S_S1024x100),
    StableHlo.TRef.binary (.of main_v120 : StableHlo.TRef sig ⟨S1024x100, .i32⟩) main_call30.v0 main_call30.v1 (cmpi .slt),
    StableHlo.TRef.nullary main_call30.c_0 (constantI S_ 32 100#32),
    StableHlo.TRef.unary main_call30.c_0 main_call30.v2 (broadcastInDim S1024x100 ![] bcast_S_S1024x100),
    StableHlo.TRef.binary (.of main_v120 : StableHlo.TRef sig ⟨S1024x100, .i32⟩) main_call30.v2 main_call30.v3 addi,
    StableHlo.TRef.ternary main_call30.v1 main_call30.v3 (.of main_v120 : StableHlo.TRef sig ⟨S1024x100, .i32⟩) main_call30.call0.v0 select,
    StableHlo.TRef.unary main_call30.call0.v0 main_call30.v5 (broadcastInDim S1024x100x1 ![0, 1] bcast_S1024x100_S1024x100x1_0_1),
    StableHlo.TRef.nullary main_call30.c_1 (constantI S1 32 99#32),
    StableHlo.TRef.nullary main_call30.c_2 (constantI S_ 32 0#32),
    StableHlo.TRef.unary main_call30.c_2 main_call30.v6 (broadcastInDim S1024x100x1 ![] bcast_S_S1024x100x1),
    StableHlo.TRef.binary main_call30.v5 main_call30.v6 main_call30.v7 (cmpi .sge),
    StableHlo.TRef.unary main_call30.c_1 main_call30.v8 (broadcastInDim S1x1x1 ![2] bcast_S1_S1x1x1_2),
    StableHlo.TRef.unary main_call30.v8 main_call30.v9 (broadcastInDim S1024x100x1 ![0, 1, 2] bcast_S1x1x1_S1024x100x1_0_1_2),
    StableHlo.TRef.binary main_call30.v5 main_call30.v9 main_call30.v10 (cmpi .sle),
    StableHlo.TRef.binary main_call30.v7 main_call30.v10 main_call30.v11 andi,
    StableHlo.TRef.nullary main_call30.c_3 (constantI S_ 1 1#1),
    StableHlo.TRef.binary main_call30.v11 main_call30.c_3 main_call30.v12 (fun x v => Host.reduce IntOp.andi x v reducesTo_S1024x100x1_S1024x100_d2 h_S_),
    StableHlo.TRef.binary (.of main_v122 : StableHlo.TRef sig ⟨S100x1, .f32⟩) main_call30.v5 main_call30.v13 (fun x i => Host.gather gather_S100x1_S1024x100x1_S1024x100x1_2_0_n_n_0_2_11 x i),
    StableHlo.TRef.unary main_call30.v12 main_call30.v14 (broadcastInDim S1024x100x1 ![0, 1] bcast_S1024x100_S1024x100x1_0_1),
    StableHlo.TRef.nullary main_call30.cst (constant S_ .f32 0x7FC00000#32),
    StableHlo.TRef.unary main_call30.cst main_call30.v15 (broadcastInDim S1024x100x1 ![] bcast_S_S1024x100x1),
    StableHlo.TRef.ternary main_call30.v14 main_call30.v13 main_call30.v15 main_call30.v16 select,
    StableHlo.nullary main_cst_14 (constant S_ .f32 0x00000000#32),
    StableHlo.binary main_v123 main_cst_14 main_v124 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v125 ((extractStridedSlice S1x100x32 ![15, 0, 0] · slices_S26x100x32_S1x100x32_15_0_0) : (⟨S26x100x32, .f32⟩ : BufTy).Contents (Elt F) → (⟨S1x100x32, .f32⟩ : BufTy).Contents (Elt F)),
    StableHlo.reshape main_v125 main_v126 rfl shapeCasts_S1x100x32_S100x32,
    StableHlo.TRef.nullary main_call31.c (constantI S_ 32 0#32),
    StableHlo.TRef.unary main_call31.c main_call31.v0 (broadcastInDim S1024x100 ![] bcast_S_S1024x100),
    StableHlo.TRef.binary (.of main_v120 : StableHlo.TRef sig ⟨S1024x100, .i32⟩) main_call31.v0 main_call31.v1 (cmpi .slt),
    StableHlo.TRef.nullary main_call31.c_0 (constantI S_ 32 100#32),
    StableHlo.TRef.unary main_call31.c_0 main_call31.v2 (broadcastInDim S1024x100 ![] bcast_S_S1024x100),
    StableHlo.TRef.binary (.of main_v120 : StableHlo.TRef sig ⟨S1024x100, .i32⟩) main_call31.v2 main_call31.v3 addi,
    StableHlo.TRef.ternary main_call31.v1 main_call31.v3 (.of main_v120 : StableHlo.TRef sig ⟨S1024x100, .i32⟩) main_call31.call0.v0 select,
    StableHlo.TRef.unary main_call31.call0.v0 main_call31.v5 (broadcastInDim S1024x100x1 ![0, 1] bcast_S1024x100_S1024x100x1_0_1),
    StableHlo.TRef.nullary main_call31.c_1 (constantI S1 32 99#32),
    StableHlo.TRef.nullary main_call31.c_2 (constantI S_ 32 0#32),
    StableHlo.TRef.unary main_call31.c_2 main_call31.v6 (broadcastInDim S1024x100x1 ![] bcast_S_S1024x100x1),
    StableHlo.TRef.binary main_call31.v5 main_call31.v6 main_call31.v7 (cmpi .sge),
    StableHlo.TRef.unary main_call31.c_1 main_call31.v8 (broadcastInDim S1x1x1 ![2] bcast_S1_S1x1x1_2),
    StableHlo.TRef.unary main_call31.v8 main_call31.v9 (broadcastInDim S1024x100x1 ![0, 1, 2] bcast_S1x1x1_S1024x100x1_0_1_2),
    StableHlo.TRef.binary main_call31.v5 main_call31.v9 main_call31.v10 (cmpi .sle),
    StableHlo.TRef.binary main_call31.v7 main_call31.v10 main_call31.v11 andi,
    StableHlo.TRef.nullary main_call31.c_3 (constantI S_ 1 1#1),
    StableHlo.TRef.binary main_call31.v11 main_call31.c_3 main_call31.v12 (fun x v => Host.reduce IntOp.andi x v reducesTo_S1024x100x1_S1024x100_d2 h_S_),
    StableHlo.TRef.binary (.of main_v126 : StableHlo.TRef sig ⟨S100x32, .f32⟩) main_call31.v5 main_call31.v13 (fun x i => Host.gather gather_S100x32_S1024x100x1_S1024x100x32_2_0_n_n_0_2_132 x i),
    StableHlo.TRef.unary main_call31.v12 main_call31.v14 (broadcastInDim S1024x100x32 ![0, 1] bcast_S1024x100_S1024x100x32_0_1),
    StableHlo.TRef.nullary main_call31.cst (constant S_ .f32 0x7FC00000#32),
    StableHlo.TRef.unary main_call31.cst main_call31.v15 (broadcastInDim S1024x100x32 ![] bcast_S_S1024x100x32),
    StableHlo.TRef.ternary main_call31.v14 main_call31.v13 main_call31.v15 main_call31.v16 select,
    StableHlo.unary main_arg0 main_v128 ((extractStridedSlice S1024x100 ![0, 1616] · slices_S1024x2626_S1024x100_0_1616) : (⟨S1024x2626, .i32⟩ : BufTy).Contents (Elt F) → (⟨S1024x100, .i32⟩ : BufTy).Contents (Elt F)),
    StableHlo.unary main_arg2 main_v129 ((extractStridedSlice S1x100x1 ![16, 0, 0] · slices_S26x100x1_S1x100x1_16_0_0) : (⟨S26x100x1, .f32⟩ : BufTy).Contents (Elt F) → (⟨S1x100x1, .f32⟩ : BufTy).Contents (Elt F)),
    StableHlo.reshape main_v129 main_v130 rfl shapeCasts_S1x100x1_S100x1,
    StableHlo.TRef.nullary main_call32.c (constantI S_ 32 0#32),
    StableHlo.TRef.unary main_call32.c main_call32.v0 (broadcastInDim S1024x100 ![] bcast_S_S1024x100),
    StableHlo.TRef.binary (.of main_v128 : StableHlo.TRef sig ⟨S1024x100, .i32⟩) main_call32.v0 main_call32.v1 (cmpi .slt),
    StableHlo.TRef.nullary main_call32.c_0 (constantI S_ 32 100#32),
    StableHlo.TRef.unary main_call32.c_0 main_call32.v2 (broadcastInDim S1024x100 ![] bcast_S_S1024x100),
    StableHlo.TRef.binary (.of main_v128 : StableHlo.TRef sig ⟨S1024x100, .i32⟩) main_call32.v2 main_call32.v3 addi,
    StableHlo.TRef.ternary main_call32.v1 main_call32.v3 (.of main_v128 : StableHlo.TRef sig ⟨S1024x100, .i32⟩) main_call32.call0.v0 select,
    StableHlo.TRef.unary main_call32.call0.v0 main_call32.v5 (broadcastInDim S1024x100x1 ![0, 1] bcast_S1024x100_S1024x100x1_0_1),
    StableHlo.TRef.nullary main_call32.c_1 (constantI S1 32 99#32),
    StableHlo.TRef.nullary main_call32.c_2 (constantI S_ 32 0#32),
    StableHlo.TRef.unary main_call32.c_2 main_call32.v6 (broadcastInDim S1024x100x1 ![] bcast_S_S1024x100x1),
    StableHlo.TRef.binary main_call32.v5 main_call32.v6 main_call32.v7 (cmpi .sge),
    StableHlo.TRef.unary main_call32.c_1 main_call32.v8 (broadcastInDim S1x1x1 ![2] bcast_S1_S1x1x1_2),
    StableHlo.TRef.unary main_call32.v8 main_call32.v9 (broadcastInDim S1024x100x1 ![0, 1, 2] bcast_S1x1x1_S1024x100x1_0_1_2),
    StableHlo.TRef.binary main_call32.v5 main_call32.v9 main_call32.v10 (cmpi .sle),
    StableHlo.TRef.binary main_call32.v7 main_call32.v10 main_call32.v11 andi,
    StableHlo.TRef.nullary main_call32.c_3 (constantI S_ 1 1#1),
    StableHlo.TRef.binary main_call32.v11 main_call32.c_3 main_call32.v12 (fun x v => Host.reduce IntOp.andi x v reducesTo_S1024x100x1_S1024x100_d2 h_S_),
    StableHlo.TRef.binary (.of main_v130 : StableHlo.TRef sig ⟨S100x1, .f32⟩) main_call32.v5 main_call32.v13 (fun x i => Host.gather gather_S100x1_S1024x100x1_S1024x100x1_2_0_n_n_0_2_11 x i),
    StableHlo.TRef.unary main_call32.v12 main_call32.v14 (broadcastInDim S1024x100x1 ![0, 1] bcast_S1024x100_S1024x100x1_0_1),
    StableHlo.TRef.nullary main_call32.cst (constant S_ .f32 0x7FC00000#32),
    StableHlo.TRef.unary main_call32.cst main_call32.v15 (broadcastInDim S1024x100x1 ![] bcast_S_S1024x100x1),
    StableHlo.TRef.ternary main_call32.v14 main_call32.v13 main_call32.v15 main_call32.v16 select,
    StableHlo.nullary main_cst_15 (constant S_ .f32 0x00000000#32),
    StableHlo.binary main_v131 main_cst_15 main_v132 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)) ]

abbrev W2b : List (HloOp τ sig (Elt F)) :=
  [ StableHlo.unary main_arg3 main_v133 ((extractStridedSlice S1x100x32 ![16, 0, 0] · slices_S26x100x32_S1x100x32_16_0_0) : (⟨S26x100x32, .f32⟩ : BufTy).Contents (Elt F) → (⟨S1x100x32, .f32⟩ : BufTy).Contents (Elt F)),
    StableHlo.reshape main_v133 main_v134 rfl shapeCasts_S1x100x32_S100x32,
    StableHlo.TRef.nullary main_call33.c (constantI S_ 32 0#32),
    StableHlo.TRef.unary main_call33.c main_call33.v0 (broadcastInDim S1024x100 ![] bcast_S_S1024x100),
    StableHlo.TRef.binary (.of main_v128 : StableHlo.TRef sig ⟨S1024x100, .i32⟩) main_call33.v0 main_call33.v1 (cmpi .slt),
    StableHlo.TRef.nullary main_call33.c_0 (constantI S_ 32 100#32),
    StableHlo.TRef.unary main_call33.c_0 main_call33.v2 (broadcastInDim S1024x100 ![] bcast_S_S1024x100),
    StableHlo.TRef.binary (.of main_v128 : StableHlo.TRef sig ⟨S1024x100, .i32⟩) main_call33.v2 main_call33.v3 addi,
    StableHlo.TRef.ternary main_call33.v1 main_call33.v3 (.of main_v128 : StableHlo.TRef sig ⟨S1024x100, .i32⟩) main_call33.call0.v0 select,
    StableHlo.TRef.unary main_call33.call0.v0 main_call33.v5 (broadcastInDim S1024x100x1 ![0, 1] bcast_S1024x100_S1024x100x1_0_1),
    StableHlo.TRef.nullary main_call33.c_1 (constantI S1 32 99#32),
    StableHlo.TRef.nullary main_call33.c_2 (constantI S_ 32 0#32),
    StableHlo.TRef.unary main_call33.c_2 main_call33.v6 (broadcastInDim S1024x100x1 ![] bcast_S_S1024x100x1),
    StableHlo.TRef.binary main_call33.v5 main_call33.v6 main_call33.v7 (cmpi .sge),
    StableHlo.TRef.unary main_call33.c_1 main_call33.v8 (broadcastInDim S1x1x1 ![2] bcast_S1_S1x1x1_2),
    StableHlo.TRef.unary main_call33.v8 main_call33.v9 (broadcastInDim S1024x100x1 ![0, 1, 2] bcast_S1x1x1_S1024x100x1_0_1_2),
    StableHlo.TRef.binary main_call33.v5 main_call33.v9 main_call33.v10 (cmpi .sle),
    StableHlo.TRef.binary main_call33.v7 main_call33.v10 main_call33.v11 andi,
    StableHlo.TRef.nullary main_call33.c_3 (constantI S_ 1 1#1),
    StableHlo.TRef.binary main_call33.v11 main_call33.c_3 main_call33.v12 (fun x v => Host.reduce IntOp.andi x v reducesTo_S1024x100x1_S1024x100_d2 h_S_),
    StableHlo.TRef.binary (.of main_v134 : StableHlo.TRef sig ⟨S100x32, .f32⟩) main_call33.v5 main_call33.v13 (fun x i => Host.gather gather_S100x32_S1024x100x1_S1024x100x32_2_0_n_n_0_2_132 x i),
    StableHlo.TRef.unary main_call33.v12 main_call33.v14 (broadcastInDim S1024x100x32 ![0, 1] bcast_S1024x100_S1024x100x32_0_1),
    StableHlo.TRef.nullary main_call33.cst (constant S_ .f32 0x7FC00000#32),
    StableHlo.TRef.unary main_call33.cst main_call33.v15 (broadcastInDim S1024x100x32 ![] bcast_S_S1024x100x32),
    StableHlo.TRef.ternary main_call33.v14 main_call33.v13 main_call33.v15 main_call33.v16 select,
    StableHlo.unary main_arg0 main_v136 ((extractStridedSlice S1024x100 ![0, 1717] · slices_S1024x2626_S1024x100_0_1717) : (⟨S1024x2626, .i32⟩ : BufTy).Contents (Elt F) → (⟨S1024x100, .i32⟩ : BufTy).Contents (Elt F)),
    StableHlo.unary main_arg2 main_v137 ((extractStridedSlice S1x100x1 ![17, 0, 0] · slices_S26x100x1_S1x100x1_17_0_0) : (⟨S26x100x1, .f32⟩ : BufTy).Contents (Elt F) → (⟨S1x100x1, .f32⟩ : BufTy).Contents (Elt F)),
    StableHlo.reshape main_v137 main_v138 rfl shapeCasts_S1x100x1_S100x1,
    StableHlo.TRef.nullary main_call34.c (constantI S_ 32 0#32),
    StableHlo.TRef.unary main_call34.c main_call34.v0 (broadcastInDim S1024x100 ![] bcast_S_S1024x100),
    StableHlo.TRef.binary (.of main_v136 : StableHlo.TRef sig ⟨S1024x100, .i32⟩) main_call34.v0 main_call34.v1 (cmpi .slt),
    StableHlo.TRef.nullary main_call34.c_0 (constantI S_ 32 100#32),
    StableHlo.TRef.unary main_call34.c_0 main_call34.v2 (broadcastInDim S1024x100 ![] bcast_S_S1024x100),
    StableHlo.TRef.binary (.of main_v136 : StableHlo.TRef sig ⟨S1024x100, .i32⟩) main_call34.v2 main_call34.v3 addi,
    StableHlo.TRef.ternary main_call34.v1 main_call34.v3 (.of main_v136 : StableHlo.TRef sig ⟨S1024x100, .i32⟩) main_call34.call0.v0 select,
    StableHlo.TRef.unary main_call34.call0.v0 main_call34.v5 (broadcastInDim S1024x100x1 ![0, 1] bcast_S1024x100_S1024x100x1_0_1),
    StableHlo.TRef.nullary main_call34.c_1 (constantI S1 32 99#32),
    StableHlo.TRef.nullary main_call34.c_2 (constantI S_ 32 0#32),
    StableHlo.TRef.unary main_call34.c_2 main_call34.v6 (broadcastInDim S1024x100x1 ![] bcast_S_S1024x100x1),
    StableHlo.TRef.binary main_call34.v5 main_call34.v6 main_call34.v7 (cmpi .sge),
    StableHlo.TRef.unary main_call34.c_1 main_call34.v8 (broadcastInDim S1x1x1 ![2] bcast_S1_S1x1x1_2),
    StableHlo.TRef.unary main_call34.v8 main_call34.v9 (broadcastInDim S1024x100x1 ![0, 1, 2] bcast_S1x1x1_S1024x100x1_0_1_2),
    StableHlo.TRef.binary main_call34.v5 main_call34.v9 main_call34.v10 (cmpi .sle),
    StableHlo.TRef.binary main_call34.v7 main_call34.v10 main_call34.v11 andi,
    StableHlo.TRef.nullary main_call34.c_3 (constantI S_ 1 1#1),
    StableHlo.TRef.binary main_call34.v11 main_call34.c_3 main_call34.v12 (fun x v => Host.reduce IntOp.andi x v reducesTo_S1024x100x1_S1024x100_d2 h_S_),
    StableHlo.TRef.binary (.of main_v138 : StableHlo.TRef sig ⟨S100x1, .f32⟩) main_call34.v5 main_call34.v13 (fun x i => Host.gather gather_S100x1_S1024x100x1_S1024x100x1_2_0_n_n_0_2_11 x i),
    StableHlo.TRef.unary main_call34.v12 main_call34.v14 (broadcastInDim S1024x100x1 ![0, 1] bcast_S1024x100_S1024x100x1_0_1),
    StableHlo.TRef.nullary main_call34.cst (constant S_ .f32 0x7FC00000#32),
    StableHlo.TRef.unary main_call34.cst main_call34.v15 (broadcastInDim S1024x100x1 ![] bcast_S_S1024x100x1),
    StableHlo.TRef.ternary main_call34.v14 main_call34.v13 main_call34.v15 main_call34.v16 select,
    StableHlo.nullary main_cst_16 (constant S_ .f32 0x00000000#32),
    StableHlo.binary main_v139 main_cst_16 main_v140 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v141 ((extractStridedSlice S1x100x32 ![17, 0, 0] · slices_S26x100x32_S1x100x32_17_0_0) : (⟨S26x100x32, .f32⟩ : BufTy).Contents (Elt F) → (⟨S1x100x32, .f32⟩ : BufTy).Contents (Elt F)),
    StableHlo.reshape main_v141 main_v142 rfl shapeCasts_S1x100x32_S100x32,
    StableHlo.TRef.nullary main_call35.c (constantI S_ 32 0#32),
    StableHlo.TRef.unary main_call35.c main_call35.v0 (broadcastInDim S1024x100 ![] bcast_S_S1024x100),
    StableHlo.TRef.binary (.of main_v136 : StableHlo.TRef sig ⟨S1024x100, .i32⟩) main_call35.v0 main_call35.v1 (cmpi .slt),
    StableHlo.TRef.nullary main_call35.c_0 (constantI S_ 32 100#32),
    StableHlo.TRef.unary main_call35.c_0 main_call35.v2 (broadcastInDim S1024x100 ![] bcast_S_S1024x100),
    StableHlo.TRef.binary (.of main_v136 : StableHlo.TRef sig ⟨S1024x100, .i32⟩) main_call35.v2 main_call35.v3 addi,
    StableHlo.TRef.ternary main_call35.v1 main_call35.v3 (.of main_v136 : StableHlo.TRef sig ⟨S1024x100, .i32⟩) main_call35.call0.v0 select,
    StableHlo.TRef.unary main_call35.call0.v0 main_call35.v5 (broadcastInDim S1024x100x1 ![0, 1] bcast_S1024x100_S1024x100x1_0_1),
    StableHlo.TRef.nullary main_call35.c_1 (constantI S1 32 99#32),
    StableHlo.TRef.nullary main_call35.c_2 (constantI S_ 32 0#32),
    StableHlo.TRef.unary main_call35.c_2 main_call35.v6 (broadcastInDim S1024x100x1 ![] bcast_S_S1024x100x1),
    StableHlo.TRef.binary main_call35.v5 main_call35.v6 main_call35.v7 (cmpi .sge),
    StableHlo.TRef.unary main_call35.c_1 main_call35.v8 (broadcastInDim S1x1x1 ![2] bcast_S1_S1x1x1_2),
    StableHlo.TRef.unary main_call35.v8 main_call35.v9 (broadcastInDim S1024x100x1 ![0, 1, 2] bcast_S1x1x1_S1024x100x1_0_1_2),
    StableHlo.TRef.binary main_call35.v5 main_call35.v9 main_call35.v10 (cmpi .sle),
    StableHlo.TRef.binary main_call35.v7 main_call35.v10 main_call35.v11 andi,
    StableHlo.TRef.nullary main_call35.c_3 (constantI S_ 1 1#1),
    StableHlo.TRef.binary main_call35.v11 main_call35.c_3 main_call35.v12 (fun x v => Host.reduce IntOp.andi x v reducesTo_S1024x100x1_S1024x100_d2 h_S_),
    StableHlo.TRef.binary (.of main_v142 : StableHlo.TRef sig ⟨S100x32, .f32⟩) main_call35.v5 main_call35.v13 (fun x i => Host.gather gather_S100x32_S1024x100x1_S1024x100x32_2_0_n_n_0_2_132 x i),
    StableHlo.TRef.unary main_call35.v12 main_call35.v14 (broadcastInDim S1024x100x32 ![0, 1] bcast_S1024x100_S1024x100x32_0_1),
    StableHlo.TRef.nullary main_call35.cst (constant S_ .f32 0x7FC00000#32),
    StableHlo.TRef.unary main_call35.cst main_call35.v15 (broadcastInDim S1024x100x32 ![] bcast_S_S1024x100x32),
    StableHlo.TRef.ternary main_call35.v14 main_call35.v13 main_call35.v15 main_call35.v16 select,
    StableHlo.unary main_arg0 main_v144 ((extractStridedSlice S1024x100 ![0, 1818] · slices_S1024x2626_S1024x100_0_1818) : (⟨S1024x2626, .i32⟩ : BufTy).Contents (Elt F) → (⟨S1024x100, .i32⟩ : BufTy).Contents (Elt F)),
    StableHlo.unary main_arg2 main_v145 ((extractStridedSlice S1x100x1 ![18, 0, 0] · slices_S26x100x1_S1x100x1_18_0_0) : (⟨S26x100x1, .f32⟩ : BufTy).Contents (Elt F) → (⟨S1x100x1, .f32⟩ : BufTy).Contents (Elt F)),
    StableHlo.reshape main_v145 main_v146 rfl shapeCasts_S1x100x1_S100x1,
    StableHlo.TRef.nullary main_call36.c (constantI S_ 32 0#32),
    StableHlo.TRef.unary main_call36.c main_call36.v0 (broadcastInDim S1024x100 ![] bcast_S_S1024x100),
    StableHlo.TRef.binary (.of main_v144 : StableHlo.TRef sig ⟨S1024x100, .i32⟩) main_call36.v0 main_call36.v1 (cmpi .slt),
    StableHlo.TRef.nullary main_call36.c_0 (constantI S_ 32 100#32),
    StableHlo.TRef.unary main_call36.c_0 main_call36.v2 (broadcastInDim S1024x100 ![] bcast_S_S1024x100),
    StableHlo.TRef.binary (.of main_v144 : StableHlo.TRef sig ⟨S1024x100, .i32⟩) main_call36.v2 main_call36.v3 addi,
    StableHlo.TRef.ternary main_call36.v1 main_call36.v3 (.of main_v144 : StableHlo.TRef sig ⟨S1024x100, .i32⟩) main_call36.call0.v0 select,
    StableHlo.TRef.unary main_call36.call0.v0 main_call36.v5 (broadcastInDim S1024x100x1 ![0, 1] bcast_S1024x100_S1024x100x1_0_1),
    StableHlo.TRef.nullary main_call36.c_1 (constantI S1 32 99#32),
    StableHlo.TRef.nullary main_call36.c_2 (constantI S_ 32 0#32),
    StableHlo.TRef.unary main_call36.c_2 main_call36.v6 (broadcastInDim S1024x100x1 ![] bcast_S_S1024x100x1),
    StableHlo.TRef.binary main_call36.v5 main_call36.v6 main_call36.v7 (cmpi .sge),
    StableHlo.TRef.unary main_call36.c_1 main_call36.v8 (broadcastInDim S1x1x1 ![2] bcast_S1_S1x1x1_2),
    StableHlo.TRef.unary main_call36.v8 main_call36.v9 (broadcastInDim S1024x100x1 ![0, 1, 2] bcast_S1x1x1_S1024x100x1_0_1_2),
    StableHlo.TRef.binary main_call36.v5 main_call36.v9 main_call36.v10 (cmpi .sle),
    StableHlo.TRef.binary main_call36.v7 main_call36.v10 main_call36.v11 andi,
    StableHlo.TRef.nullary main_call36.c_3 (constantI S_ 1 1#1),
    StableHlo.TRef.binary main_call36.v11 main_call36.c_3 main_call36.v12 (fun x v => Host.reduce IntOp.andi x v reducesTo_S1024x100x1_S1024x100_d2 h_S_),
    StableHlo.TRef.binary (.of main_v146 : StableHlo.TRef sig ⟨S100x1, .f32⟩) main_call36.v5 main_call36.v13 (fun x i => Host.gather gather_S100x1_S1024x100x1_S1024x100x1_2_0_n_n_0_2_11 x i),
    StableHlo.TRef.unary main_call36.v12 main_call36.v14 (broadcastInDim S1024x100x1 ![0, 1] bcast_S1024x100_S1024x100x1_0_1),
    StableHlo.TRef.nullary main_call36.cst (constant S_ .f32 0x7FC00000#32),
    StableHlo.TRef.unary main_call36.cst main_call36.v15 (broadcastInDim S1024x100x1 ![] bcast_S_S1024x100x1),
    StableHlo.TRef.ternary main_call36.v14 main_call36.v13 main_call36.v15 main_call36.v16 select,
    StableHlo.nullary main_cst_17 (constant S_ .f32 0x00000000#32),
    StableHlo.binary main_v147 main_cst_17 main_v148 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v149 ((extractStridedSlice S1x100x32 ![18, 0, 0] · slices_S26x100x32_S1x100x32_18_0_0) : (⟨S26x100x32, .f32⟩ : BufTy).Contents (Elt F) → (⟨S1x100x32, .f32⟩ : BufTy).Contents (Elt F)),
    StableHlo.reshape main_v149 main_v150 rfl shapeCasts_S1x100x32_S100x32,
    StableHlo.TRef.nullary main_call37.c (constantI S_ 32 0#32),
    StableHlo.TRef.unary main_call37.c main_call37.v0 (broadcastInDim S1024x100 ![] bcast_S_S1024x100),
    StableHlo.TRef.binary (.of main_v144 : StableHlo.TRef sig ⟨S1024x100, .i32⟩) main_call37.v0 main_call37.v1 (cmpi .slt),
    StableHlo.TRef.nullary main_call37.c_0 (constantI S_ 32 100#32),
    StableHlo.TRef.unary main_call37.c_0 main_call37.v2 (broadcastInDim S1024x100 ![] bcast_S_S1024x100),
    StableHlo.TRef.binary (.of main_v144 : StableHlo.TRef sig ⟨S1024x100, .i32⟩) main_call37.v2 main_call37.v3 addi,
    StableHlo.TRef.ternary main_call37.v1 main_call37.v3 (.of main_v144 : StableHlo.TRef sig ⟨S1024x100, .i32⟩) main_call37.call0.v0 select,
    StableHlo.TRef.unary main_call37.call0.v0 main_call37.v5 (broadcastInDim S1024x100x1 ![0, 1] bcast_S1024x100_S1024x100x1_0_1),
    StableHlo.TRef.nullary main_call37.c_1 (constantI S1 32 99#32),
    StableHlo.TRef.nullary main_call37.c_2 (constantI S_ 32 0#32),
    StableHlo.TRef.unary main_call37.c_2 main_call37.v6 (broadcastInDim S1024x100x1 ![] bcast_S_S1024x100x1),
    StableHlo.TRef.binary main_call37.v5 main_call37.v6 main_call37.v7 (cmpi .sge),
    StableHlo.TRef.unary main_call37.c_1 main_call37.v8 (broadcastInDim S1x1x1 ![2] bcast_S1_S1x1x1_2),
    StableHlo.TRef.unary main_call37.v8 main_call37.v9 (broadcastInDim S1024x100x1 ![0, 1, 2] bcast_S1x1x1_S1024x100x1_0_1_2),
    StableHlo.TRef.binary main_call37.v5 main_call37.v9 main_call37.v10 (cmpi .sle),
    StableHlo.TRef.binary main_call37.v7 main_call37.v10 main_call37.v11 andi,
    StableHlo.TRef.nullary main_call37.c_3 (constantI S_ 1 1#1),
    StableHlo.TRef.binary main_call37.v11 main_call37.c_3 main_call37.v12 (fun x v => Host.reduce IntOp.andi x v reducesTo_S1024x100x1_S1024x100_d2 h_S_),
    StableHlo.TRef.binary (.of main_v150 : StableHlo.TRef sig ⟨S100x32, .f32⟩) main_call37.v5 main_call37.v13 (fun x i => Host.gather gather_S100x32_S1024x100x1_S1024x100x32_2_0_n_n_0_2_132 x i),
    StableHlo.TRef.unary main_call37.v12 main_call37.v14 (broadcastInDim S1024x100x32 ![0, 1] bcast_S1024x100_S1024x100x32_0_1),
    StableHlo.TRef.nullary main_call37.cst (constant S_ .f32 0x7FC00000#32),
    StableHlo.TRef.unary main_call37.cst main_call37.v15 (broadcastInDim S1024x100x32 ![] bcast_S_S1024x100x32),
    StableHlo.TRef.ternary main_call37.v14 main_call37.v13 main_call37.v15 main_call37.v16 select,
    StableHlo.unary main_arg0 main_v152 ((extractStridedSlice S1024x100 ![0, 1919] · slices_S1024x2626_S1024x100_0_1919) : (⟨S1024x2626, .i32⟩ : BufTy).Contents (Elt F) → (⟨S1024x100, .i32⟩ : BufTy).Contents (Elt F)),
    StableHlo.unary main_arg2 main_v153 ((extractStridedSlice S1x100x1 ![19, 0, 0] · slices_S26x100x1_S1x100x1_19_0_0) : (⟨S26x100x1, .f32⟩ : BufTy).Contents (Elt F) → (⟨S1x100x1, .f32⟩ : BufTy).Contents (Elt F)),
    StableHlo.reshape main_v153 main_v154 rfl shapeCasts_S1x100x1_S100x1,
    StableHlo.TRef.nullary main_call38.c (constantI S_ 32 0#32),
    StableHlo.TRef.unary main_call38.c main_call38.v0 (broadcastInDim S1024x100 ![] bcast_S_S1024x100),
    StableHlo.TRef.binary (.of main_v152 : StableHlo.TRef sig ⟨S1024x100, .i32⟩) main_call38.v0 main_call38.v1 (cmpi .slt),
    StableHlo.TRef.nullary main_call38.c_0 (constantI S_ 32 100#32),
    StableHlo.TRef.unary main_call38.c_0 main_call38.v2 (broadcastInDim S1024x100 ![] bcast_S_S1024x100),
    StableHlo.TRef.binary (.of main_v152 : StableHlo.TRef sig ⟨S1024x100, .i32⟩) main_call38.v2 main_call38.v3 addi,
    StableHlo.TRef.ternary main_call38.v1 main_call38.v3 (.of main_v152 : StableHlo.TRef sig ⟨S1024x100, .i32⟩) main_call38.call0.v0 select,
    StableHlo.TRef.unary main_call38.call0.v0 main_call38.v5 (broadcastInDim S1024x100x1 ![0, 1] bcast_S1024x100_S1024x100x1_0_1),
    StableHlo.TRef.nullary main_call38.c_1 (constantI S1 32 99#32),
    StableHlo.TRef.nullary main_call38.c_2 (constantI S_ 32 0#32),
    StableHlo.TRef.unary main_call38.c_2 main_call38.v6 (broadcastInDim S1024x100x1 ![] bcast_S_S1024x100x1),
    StableHlo.TRef.binary main_call38.v5 main_call38.v6 main_call38.v7 (cmpi .sge),
    StableHlo.TRef.unary main_call38.c_1 main_call38.v8 (broadcastInDim S1x1x1 ![2] bcast_S1_S1x1x1_2),
    StableHlo.TRef.unary main_call38.v8 main_call38.v9 (broadcastInDim S1024x100x1 ![0, 1, 2] bcast_S1x1x1_S1024x100x1_0_1_2),
    StableHlo.TRef.binary main_call38.v5 main_call38.v9 main_call38.v10 (cmpi .sle),
    StableHlo.TRef.binary main_call38.v7 main_call38.v10 main_call38.v11 andi,
    StableHlo.TRef.nullary main_call38.c_3 (constantI S_ 1 1#1),
    StableHlo.TRef.binary main_call38.v11 main_call38.c_3 main_call38.v12 (fun x v => Host.reduce IntOp.andi x v reducesTo_S1024x100x1_S1024x100_d2 h_S_),
    StableHlo.TRef.binary (.of main_v154 : StableHlo.TRef sig ⟨S100x1, .f32⟩) main_call38.v5 main_call38.v13 (fun x i => Host.gather gather_S100x1_S1024x100x1_S1024x100x1_2_0_n_n_0_2_11 x i),
    StableHlo.TRef.unary main_call38.v12 main_call38.v14 (broadcastInDim S1024x100x1 ![0, 1] bcast_S1024x100_S1024x100x1_0_1),
    StableHlo.TRef.nullary main_call38.cst (constant S_ .f32 0x7FC00000#32),
    StableHlo.TRef.unary main_call38.cst main_call38.v15 (broadcastInDim S1024x100x1 ![] bcast_S_S1024x100x1),
    StableHlo.TRef.ternary main_call38.v14 main_call38.v13 main_call38.v15 main_call38.v16 select,
    StableHlo.nullary main_cst_18 (constant S_ .f32 0x00000000#32),
    StableHlo.binary main_v155 main_cst_18 main_v156 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v157 ((extractStridedSlice S1x100x32 ![19, 0, 0] · slices_S26x100x32_S1x100x32_19_0_0) : (⟨S26x100x32, .f32⟩ : BufTy).Contents (Elt F) → (⟨S1x100x32, .f32⟩ : BufTy).Contents (Elt F)),
    StableHlo.reshape main_v157 main_v158 rfl shapeCasts_S1x100x32_S100x32,
    StableHlo.TRef.nullary main_call39.c (constantI S_ 32 0#32),
    StableHlo.TRef.unary main_call39.c main_call39.v0 (broadcastInDim S1024x100 ![] bcast_S_S1024x100),
    StableHlo.TRef.binary (.of main_v152 : StableHlo.TRef sig ⟨S1024x100, .i32⟩) main_call39.v0 main_call39.v1 (cmpi .slt),
    StableHlo.TRef.nullary main_call39.c_0 (constantI S_ 32 100#32),
    StableHlo.TRef.unary main_call39.c_0 main_call39.v2 (broadcastInDim S1024x100 ![] bcast_S_S1024x100),
    StableHlo.TRef.binary (.of main_v152 : StableHlo.TRef sig ⟨S1024x100, .i32⟩) main_call39.v2 main_call39.v3 addi,
    StableHlo.TRef.ternary main_call39.v1 main_call39.v3 (.of main_v152 : StableHlo.TRef sig ⟨S1024x100, .i32⟩) main_call39.call0.v0 select,
    StableHlo.TRef.unary main_call39.call0.v0 main_call39.v5 (broadcastInDim S1024x100x1 ![0, 1] bcast_S1024x100_S1024x100x1_0_1),
    StableHlo.TRef.nullary main_call39.c_1 (constantI S1 32 99#32),
    StableHlo.TRef.nullary main_call39.c_2 (constantI S_ 32 0#32),
    StableHlo.TRef.unary main_call39.c_2 main_call39.v6 (broadcastInDim S1024x100x1 ![] bcast_S_S1024x100x1),
    StableHlo.TRef.binary main_call39.v5 main_call39.v6 main_call39.v7 (cmpi .sge),
    StableHlo.TRef.unary main_call39.c_1 main_call39.v8 (broadcastInDim S1x1x1 ![2] bcast_S1_S1x1x1_2),
    StableHlo.TRef.unary main_call39.v8 main_call39.v9 (broadcastInDim S1024x100x1 ![0, 1, 2] bcast_S1x1x1_S1024x100x1_0_1_2),
    StableHlo.TRef.binary main_call39.v5 main_call39.v9 main_call39.v10 (cmpi .sle),
    StableHlo.TRef.binary main_call39.v7 main_call39.v10 main_call39.v11 andi,
    StableHlo.TRef.nullary main_call39.c_3 (constantI S_ 1 1#1),
    StableHlo.TRef.binary main_call39.v11 main_call39.c_3 main_call39.v12 (fun x v => Host.reduce IntOp.andi x v reducesTo_S1024x100x1_S1024x100_d2 h_S_),
    StableHlo.TRef.binary (.of main_v158 : StableHlo.TRef sig ⟨S100x32, .f32⟩) main_call39.v5 main_call39.v13 (fun x i => Host.gather gather_S100x32_S1024x100x1_S1024x100x32_2_0_n_n_0_2_132 x i),
    StableHlo.TRef.unary main_call39.v12 main_call39.v14 (broadcastInDim S1024x100x32 ![0, 1] bcast_S1024x100_S1024x100x32_0_1),
    StableHlo.TRef.nullary main_call39.cst (constant S_ .f32 0x7FC00000#32),
    StableHlo.TRef.unary main_call39.cst main_call39.v15 (broadcastInDim S1024x100x32 ![] bcast_S_S1024x100x32),
    StableHlo.TRef.ternary main_call39.v14 main_call39.v13 main_call39.v15 main_call39.v16 select ]

theorem W2_split : (W2 : List (HloOp τ sig (Elt F))) = W2a ++ W2b := rfl

set_option maxRecDepth 65536 in
set_option maxHeartbeats 8000000 in
theorem part2_split (c : Dev nD) : main_part2 (F := F) c = (part2_a c >>= fun _ => part2_b c) := rfl

set_option maxRecDepth 65536 in
set_option maxHeartbeats 8000000 in
theorem part2_a_eq (c : Dev nD) : part2_a (F := F) c = seq W2a := rfl

set_option maxRecDepth 65536 in
set_option maxHeartbeats 8000000 in
theorem part2_b_eq (c : Dev nD) : part2_b (F := F) c = seq W2b := rfl

theorem part2_eq (c : Dev nD) : main_part2 (F := F) c = seq W2 := by
  rw [part2_split, part2_a_eq, part2_b_eq, W2_split, seq_append]

set_option maxHeartbeats 40000000 in
/-- Window 3, first half. -/
def part3_a : Dev nD → Prog (TpuEff nD τ sig (Elt F) (Pipeline.Sig Λ₀ (Fin 0) fun p => (pcfgs (F := F) p).Adm) .tc) PUnit := fun _ => do
  hlo rfl (StableHlo.unary main_arg0 main_v160 ((extractStridedSlice S1024x100 ![0, 2020] · slices_S1024x2626_S1024x100_0_2020) : (⟨S1024x2626, .i32⟩ : BufTy).Contents (Elt F) → (⟨S1024x100, .i32⟩ : BufTy).Contents (Elt F))) (fun _ => .ret ⟨⟩)
  hlo rfl (StableHlo.unary main_arg2 main_v161 ((extractStridedSlice S1x100x1 ![20, 0, 0] · slices_S26x100x1_S1x100x1_20_0_0) : (⟨S26x100x1, .f32⟩ : BufTy).Contents (Elt F) → (⟨S1x100x1, .f32⟩ : BufTy).Contents (Elt F))) (fun _ => .ret ⟨⟩)
  hlo rfl (StableHlo.reshape main_v161 main_v162 rfl shapeCasts_S1x100x1_S100x1) (fun _ => .ret ⟨⟩)
  fn_take.body (.of main_v162) (.of main_v160) main_call40
  hlo rfl (StableHlo.nullary main_cst_19 (constant S_ .f32 0x00000000#32)) (fun _ => .ret ⟨⟩)
  hlo rfl (StableHlo.binary main_v163 main_cst_19 main_v164 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v165 ((extractStridedSlice S1x100x32 ![20, 0, 0] · slices_S26x100x32_S1x100x32_20_0_0) : (⟨S26x100x32, .f32⟩ : BufTy).Contents (Elt F) → (⟨S1x100x32, .f32⟩ : BufTy).Contents (Elt F))) (fun _ => .ret ⟨⟩)
  hlo rfl (StableHlo.reshape main_v165 main_v166 rfl shapeCasts_S1x100x32_S100x32) (fun _ => .ret ⟨⟩)
  fn_take_0.body (.of main_v166) (.of main_v160) main_call41
  hlo rfl (StableHlo.unary main_arg0 main_v168 ((extractStridedSlice S1024x100 ![0, 2121] · slices_S1024x2626_S1024x100_0_2121) : (⟨S1024x2626, .i32⟩ : BufTy).Contents (Elt F) → (⟨S1024x100, .i32⟩ : BufTy).Contents (Elt F))) (fun _ => .ret ⟨⟩)
  hlo rfl (StableHlo.unary main_arg2 main_v169 ((extractStridedSlice S1x100x1 ![21, 0, 0] · slices_S26x100x1_S1x100x1_21_0_0) : (⟨S26x100x1, .f32⟩ : BufTy).Contents (Elt F) → (⟨S1x100x1, .f32⟩ : BufTy).Contents (Elt F))) (fun _ => .ret ⟨⟩)
  hlo rfl (StableHlo.reshape main_v169 main_v170 rfl shapeCasts_S1x100x1_S100x1) (fun _ => .ret ⟨⟩)
  fn_take.body (.of main_v170) (.of main_v168) main_call42
  hlo rfl (StableHlo.nullary main_cst_20 (constant S_ .f32 0x00000000#32)) (fun _ => .ret ⟨⟩)
  hlo rfl (StableHlo.binary main_v171 main_cst_20 main_v172 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v173 ((extractStridedSlice S1x100x32 ![21, 0, 0] · slices_S26x100x32_S1x100x32_21_0_0) : (⟨S26x100x32, .f32⟩ : BufTy).Contents (Elt F) → (⟨S1x100x32, .f32⟩ : BufTy).Contents (Elt F))) (fun _ => .ret ⟨⟩)
  hlo rfl (StableHlo.reshape main_v173 main_v174 rfl shapeCasts_S1x100x32_S100x32) (fun _ => .ret ⟨⟩)
  fn_take_0.body (.of main_v174) (.of main_v168) main_call43
  hlo rfl (StableHlo.unary main_arg0 main_v176 ((extractStridedSlice S1024x100 ![0, 2222] · slices_S1024x2626_S1024x100_0_2222) : (⟨S1024x2626, .i32⟩ : BufTy).Contents (Elt F) → (⟨S1024x100, .i32⟩ : BufTy).Contents (Elt F))) (fun _ => .ret ⟨⟩)
  hlo rfl (StableHlo.unary main_arg2 main_v177 ((extractStridedSlice S1x100x1 ![22, 0, 0] · slices_S26x100x1_S1x100x1_22_0_0) : (⟨S26x100x1, .f32⟩ : BufTy).Contents (Elt F) → (⟨S1x100x1, .f32⟩ : BufTy).Contents (Elt F))) (fun _ => .ret ⟨⟩)
  hlo rfl (StableHlo.reshape main_v177 main_v178 rfl shapeCasts_S1x100x1_S100x1) (fun _ => .ret ⟨⟩)
  fn_take.body (.of main_v178) (.of main_v176) main_call44
  hlo rfl (StableHlo.nullary main_cst_21 (constant S_ .f32 0x00000000#32)) (fun _ => .ret ⟨⟩)
  hlo rfl (StableHlo.binary main_v179 main_cst_21 main_v180 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v181 ((extractStridedSlice S1x100x32 ![22, 0, 0] · slices_S26x100x32_S1x100x32_22_0_0) : (⟨S26x100x32, .f32⟩ : BufTy).Contents (Elt F) → (⟨S1x100x32, .f32⟩ : BufTy).Contents (Elt F))) (fun _ => .ret ⟨⟩)
  hlo rfl (StableHlo.reshape main_v181 main_v182 rfl shapeCasts_S1x100x32_S100x32) (fun _ => .ret ⟨⟩)
  fn_take_0.body (.of main_v182) (.of main_v176) main_call45
  hlo rfl (StableHlo.unary main_arg0 main_v184 ((extractStridedSlice S1024x100 ![0, 2323] · slices_S1024x2626_S1024x100_0_2323) : (⟨S1024x2626, .i32⟩ : BufTy).Contents (Elt F) → (⟨S1024x100, .i32⟩ : BufTy).Contents (Elt F))) (fun _ => .ret ⟨⟩)
  hlo rfl (StableHlo.unary main_arg2 main_v185 ((extractStridedSlice S1x100x1 ![23, 0, 0] · slices_S26x100x1_S1x100x1_23_0_0) : (⟨S26x100x1, .f32⟩ : BufTy).Contents (Elt F) → (⟨S1x100x1, .f32⟩ : BufTy).Contents (Elt F))) (fun _ => .ret ⟨⟩)
  hlo rfl (StableHlo.reshape main_v185 main_v186 rfl shapeCasts_S1x100x1_S100x1) (fun _ => .ret ⟨⟩)

set_option maxHeartbeats 40000000 in
/-- Window 3, second half. -/
def part3_b : Dev nD → Prog (TpuEff nD τ sig (Elt F) (Pipeline.Sig Λ₀ (Fin 0) fun p => (pcfgs (F := F) p).Adm) .tc) PUnit := fun _ => do
  fn_take.body (.of main_v186) (.of main_v184) main_call46
  hlo rfl (StableHlo.nullary main_cst_22 (constant S_ .f32 0x00000000#32)) (fun _ => .ret ⟨⟩)
  hlo rfl (StableHlo.binary main_v187 main_cst_22 main_v188 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v189 ((extractStridedSlice S1x100x32 ![23, 0, 0] · slices_S26x100x32_S1x100x32_23_0_0) : (⟨S26x100x32, .f32⟩ : BufTy).Contents (Elt F) → (⟨S1x100x32, .f32⟩ : BufTy).Contents (Elt F))) (fun _ => .ret ⟨⟩)
  hlo rfl (StableHlo.reshape main_v189 main_v190 rfl shapeCasts_S1x100x32_S100x32) (fun _ => .ret ⟨⟩)
  fn_take_0.body (.of main_v190) (.of main_v184) main_call47
  hlo rfl (StableHlo.unary main_arg0 main_v192 ((extractStridedSlice S1024x100 ![0, 2424] · slices_S1024x2626_S1024x100_0_2424) : (⟨S1024x2626, .i32⟩ : BufTy).Contents (Elt F) → (⟨S1024x100, .i32⟩ : BufTy).Contents (Elt F))) (fun _ => .ret ⟨⟩)
  hlo rfl (StableHlo.unary main_arg2 main_v193 ((extractStridedSlice S1x100x1 ![24, 0, 0] · slices_S26x100x1_S1x100x1_24_0_0) : (⟨S26x100x1, .f32⟩ : BufTy).Contents (Elt F) → (⟨S1x100x1, .f32⟩ : BufTy).Contents (Elt F))) (fun _ => .ret ⟨⟩)
  hlo rfl (StableHlo.reshape main_v193 main_v194 rfl shapeCasts_S1x100x1_S100x1) (fun _ => .ret ⟨⟩)
  fn_take.body (.of main_v194) (.of main_v192) main_call48
  hlo rfl (StableHlo.nullary main_cst_23 (constant S_ .f32 0x00000000#32)) (fun _ => .ret ⟨⟩)
  hlo rfl (StableHlo.binary main_v195 main_cst_23 main_v196 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v197 ((extractStridedSlice S1x100x32 ![24, 0, 0] · slices_S26x100x32_S1x100x32_24_0_0) : (⟨S26x100x32, .f32⟩ : BufTy).Contents (Elt F) → (⟨S1x100x32, .f32⟩ : BufTy).Contents (Elt F))) (fun _ => .ret ⟨⟩)
  hlo rfl (StableHlo.reshape main_v197 main_v198 rfl shapeCasts_S1x100x32_S100x32) (fun _ => .ret ⟨⟩)
  fn_take_0.body (.of main_v198) (.of main_v192) main_call49
  hlo rfl (StableHlo.unary main_arg0 main_v200 ((extractStridedSlice S1024x100 ![0, 2525] · slices_S1024x2626_S1024x100_0_2525) : (⟨S1024x2626, .i32⟩ : BufTy).Contents (Elt F) → (⟨S1024x100, .i32⟩ : BufTy).Contents (Elt F))) (fun _ => .ret ⟨⟩)
  hlo rfl (StableHlo.unary main_arg2 main_v201 ((extractStridedSlice S1x100x1 ![25, 0, 0] · slices_S26x100x1_S1x100x1_25_0_0) : (⟨S26x100x1, .f32⟩ : BufTy).Contents (Elt F) → (⟨S1x100x1, .f32⟩ : BufTy).Contents (Elt F))) (fun _ => .ret ⟨⟩)
  hlo rfl (StableHlo.reshape main_v201 main_v202 rfl shapeCasts_S1x100x1_S100x1) (fun _ => .ret ⟨⟩)
  fn_take.body (.of main_v202) (.of main_v200) main_call50
  hlo rfl (StableHlo.nullary main_cst_24 (constant S_ .f32 0x00000000#32)) (fun _ => .ret ⟨⟩)
  hlo rfl (StableHlo.binary main_v203 main_cst_24 main_v204 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F))) (fun _ => .ret ⟨⟩)
  hlo rfl (StableHlo.unary main_arg3 main_v205 ((extractStridedSlice S1x100x32 ![25, 0, 0] · slices_S26x100x32_S1x100x32_25_0_0) : (⟨S26x100x32, .f32⟩ : BufTy).Contents (Elt F) → (⟨S1x100x32, .f32⟩ : BufTy).Contents (Elt F))) (fun _ => .ret ⟨⟩)
  hlo rfl (StableHlo.reshape main_v205 main_v206 rfl shapeCasts_S1x100x32_S100x32) (fun _ => .ret ⟨⟩)
  fn_take_0.body (.of main_v206) (.of main_v200) main_call51
  hlo rfl (StableHlo.nary ![main_v4, main_v12, main_v20, main_v28, main_v36, main_v44, main_v52, main_v60, main_v68, main_v76, main_v84, main_v92, main_v100, main_v108, main_v116, main_v124] main_v208 (fun u => concatenate S1024x16 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩, ⟨S1024x1, u 10⟩, ⟨S1024x1, u 11⟩, ⟨S1024x1, u 12⟩, ⟨S1024x1, u 13⟩, ⟨S1024x1, u 14⟩, ⟨S1024x1, u 15⟩] concatenates_S1024x1_S1024x1_S1024x1_S1024x1_S1024x1_S1024x1_S1024x1_S1024x1_S1024x1_S1024x1_S1024x1_S1024x1_S1024x1_S1024x1_S1024x1_S1024x1_S1024x16_d1)) (fun _ => .ret ⟨⟩)
  hlo rfl (StableHlo.nary ![main_v132, main_v140, main_v148, main_v156, main_v164, main_v172, main_v180, main_v188, main_v196, main_v204] main_v209 (fun u => concatenate S1024x10 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩] concatenates_S1024x1_S1024x1_S1024x1_S1024x1_S1024x1_S1024x1_S1024x1_S1024x1_S1024x1_S1024x1_S1024x10_d1)) (fun _ => .ret ⟨⟩)
  hlo rfl (StableHlo.binary main_v208 main_v209 main_v210 ((fun a b => concatenate S1024x26 1 [⟨S1024x16, a⟩, ⟨S1024x10, b⟩] concatenates_S1024x16_S1024x10_S1024x26_d1) : (⟨S1024x16, .f32⟩ : BufTy).Contents (Elt F) → (⟨S1024x10, .f32⟩ : BufTy).Contents (Elt F) → (⟨S1024x26, .f32⟩ : BufTy).Contents (Elt F))) (fun _ => .ret ⟨⟩)
  hlo rfl (StableHlo.binary main_v210 main_arg1 main_v211 ((fun a b => concatenate S1024x39 1 [⟨S1024x26, a⟩, ⟨S1024x13, b⟩] concatenates_S1024x26_S1024x13_S1024x39_d1) : (⟨S1024x26, .f32⟩ : BufTy).Contents (Elt F) → (⟨S1024x13, .f32⟩ : BufTy).Contents (Elt F) → (⟨S1024x39, .f32⟩ : BufTy).Contents (Elt F))) (fun _ => .ret ⟨⟩)
  hlo rfl (StableHlo.binary main_v211 main_arg4 main_v212 ((fun l r => Host.dotGeneral dot_S1024x39_S39x1_S1024x1_1_0_0_1_n_n none l r) : (⟨S1024x39, .f32⟩ : BufTy).Contents (Elt F) → (⟨S39x1, .f32⟩ : BufTy).Contents (Elt F) → (⟨S1024x1, .f32⟩ : BufTy).Contents (Elt F))) (fun _ => .ret ⟨⟩)
  hlo rfl (StableHlo.unary main_arg5 main_v213 (broadcastInDim S1x1 ![1] bcast_S1_S1x1_1 : (⟨S1, .f32⟩ : BufTy).Contents (Elt F) → (⟨S1x1, .f32⟩ : BufTy).Contents (Elt F))) (fun _ => .ret ⟨⟩)

abbrev W3a : List (HloOp τ sig (Elt F)) :=
  [ StableHlo.unary main_arg0 main_v160 ((extractStridedSlice S1024x100 ![0, 2020] · slices_S1024x2626_S1024x100_0_2020) : (⟨S1024x2626, .i32⟩ : BufTy).Contents (Elt F) → (⟨S1024x100, .i32⟩ : BufTy).Contents (Elt F)),
    StableHlo.unary main_arg2 main_v161 ((extractStridedSlice S1x100x1 ![20, 0, 0] · slices_S26x100x1_S1x100x1_20_0_0) : (⟨S26x100x1, .f32⟩ : BufTy).Contents (Elt F) → (⟨S1x100x1, .f32⟩ : BufTy).Contents (Elt F)),
    StableHlo.reshape main_v161 main_v162 rfl shapeCasts_S1x100x1_S100x1,
    StableHlo.TRef.nullary main_call40.c (constantI S_ 32 0#32),
    StableHlo.TRef.unary main_call40.c main_call40.v0 (broadcastInDim S1024x100 ![] bcast_S_S1024x100),
    StableHlo.TRef.binary (.of main_v160 : StableHlo.TRef sig ⟨S1024x100, .i32⟩) main_call40.v0 main_call40.v1 (cmpi .slt),
    StableHlo.TRef.nullary main_call40.c_0 (constantI S_ 32 100#32),
    StableHlo.TRef.unary main_call40.c_0 main_call40.v2 (broadcastInDim S1024x100 ![] bcast_S_S1024x100),
    StableHlo.TRef.binary (.of main_v160 : StableHlo.TRef sig ⟨S1024x100, .i32⟩) main_call40.v2 main_call40.v3 addi,
    StableHlo.TRef.ternary main_call40.v1 main_call40.v3 (.of main_v160 : StableHlo.TRef sig ⟨S1024x100, .i32⟩) main_call40.call0.v0 select,
    StableHlo.TRef.unary main_call40.call0.v0 main_call40.v5 (broadcastInDim S1024x100x1 ![0, 1] bcast_S1024x100_S1024x100x1_0_1),
    StableHlo.TRef.nullary main_call40.c_1 (constantI S1 32 99#32),
    StableHlo.TRef.nullary main_call40.c_2 (constantI S_ 32 0#32),
    StableHlo.TRef.unary main_call40.c_2 main_call40.v6 (broadcastInDim S1024x100x1 ![] bcast_S_S1024x100x1),
    StableHlo.TRef.binary main_call40.v5 main_call40.v6 main_call40.v7 (cmpi .sge),
    StableHlo.TRef.unary main_call40.c_1 main_call40.v8 (broadcastInDim S1x1x1 ![2] bcast_S1_S1x1x1_2),
    StableHlo.TRef.unary main_call40.v8 main_call40.v9 (broadcastInDim S1024x100x1 ![0, 1, 2] bcast_S1x1x1_S1024x100x1_0_1_2),
    StableHlo.TRef.binary main_call40.v5 main_call40.v9 main_call40.v10 (cmpi .sle),
    StableHlo.TRef.binary main_call40.v7 main_call40.v10 main_call40.v11 andi,
    StableHlo.TRef.nullary main_call40.c_3 (constantI S_ 1 1#1),
    StableHlo.TRef.binary main_call40.v11 main_call40.c_3 main_call40.v12 (fun x v => Host.reduce IntOp.andi x v reducesTo_S1024x100x1_S1024x100_d2 h_S_),
    StableHlo.TRef.binary (.of main_v162 : StableHlo.TRef sig ⟨S100x1, .f32⟩) main_call40.v5 main_call40.v13 (fun x i => Host.gather gather_S100x1_S1024x100x1_S1024x100x1_2_0_n_n_0_2_11 x i),
    StableHlo.TRef.unary main_call40.v12 main_call40.v14 (broadcastInDim S1024x100x1 ![0, 1] bcast_S1024x100_S1024x100x1_0_1),
    StableHlo.TRef.nullary main_call40.cst (constant S_ .f32 0x7FC00000#32),
    StableHlo.TRef.unary main_call40.cst main_call40.v15 (broadcastInDim S1024x100x1 ![] bcast_S_S1024x100x1),
    StableHlo.TRef.ternary main_call40.v14 main_call40.v13 main_call40.v15 main_call40.v16 select,
    StableHlo.nullary main_cst_19 (constant S_ .f32 0x00000000#32),
    StableHlo.binary main_v163 main_cst_19 main_v164 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v165 ((extractStridedSlice S1x100x32 ![20, 0, 0] · slices_S26x100x32_S1x100x32_20_0_0) : (⟨S26x100x32, .f32⟩ : BufTy).Contents (Elt F) → (⟨S1x100x32, .f32⟩ : BufTy).Contents (Elt F)),
    StableHlo.reshape main_v165 main_v166 rfl shapeCasts_S1x100x32_S100x32,
    StableHlo.TRef.nullary main_call41.c (constantI S_ 32 0#32),
    StableHlo.TRef.unary main_call41.c main_call41.v0 (broadcastInDim S1024x100 ![] bcast_S_S1024x100),
    StableHlo.TRef.binary (.of main_v160 : StableHlo.TRef sig ⟨S1024x100, .i32⟩) main_call41.v0 main_call41.v1 (cmpi .slt),
    StableHlo.TRef.nullary main_call41.c_0 (constantI S_ 32 100#32),
    StableHlo.TRef.unary main_call41.c_0 main_call41.v2 (broadcastInDim S1024x100 ![] bcast_S_S1024x100),
    StableHlo.TRef.binary (.of main_v160 : StableHlo.TRef sig ⟨S1024x100, .i32⟩) main_call41.v2 main_call41.v3 addi,
    StableHlo.TRef.ternary main_call41.v1 main_call41.v3 (.of main_v160 : StableHlo.TRef sig ⟨S1024x100, .i32⟩) main_call41.call0.v0 select,
    StableHlo.TRef.unary main_call41.call0.v0 main_call41.v5 (broadcastInDim S1024x100x1 ![0, 1] bcast_S1024x100_S1024x100x1_0_1),
    StableHlo.TRef.nullary main_call41.c_1 (constantI S1 32 99#32),
    StableHlo.TRef.nullary main_call41.c_2 (constantI S_ 32 0#32),
    StableHlo.TRef.unary main_call41.c_2 main_call41.v6 (broadcastInDim S1024x100x1 ![] bcast_S_S1024x100x1),
    StableHlo.TRef.binary main_call41.v5 main_call41.v6 main_call41.v7 (cmpi .sge),
    StableHlo.TRef.unary main_call41.c_1 main_call41.v8 (broadcastInDim S1x1x1 ![2] bcast_S1_S1x1x1_2),
    StableHlo.TRef.unary main_call41.v8 main_call41.v9 (broadcastInDim S1024x100x1 ![0, 1, 2] bcast_S1x1x1_S1024x100x1_0_1_2),
    StableHlo.TRef.binary main_call41.v5 main_call41.v9 main_call41.v10 (cmpi .sle),
    StableHlo.TRef.binary main_call41.v7 main_call41.v10 main_call41.v11 andi,
    StableHlo.TRef.nullary main_call41.c_3 (constantI S_ 1 1#1),
    StableHlo.TRef.binary main_call41.v11 main_call41.c_3 main_call41.v12 (fun x v => Host.reduce IntOp.andi x v reducesTo_S1024x100x1_S1024x100_d2 h_S_),
    StableHlo.TRef.binary (.of main_v166 : StableHlo.TRef sig ⟨S100x32, .f32⟩) main_call41.v5 main_call41.v13 (fun x i => Host.gather gather_S100x32_S1024x100x1_S1024x100x32_2_0_n_n_0_2_132 x i),
    StableHlo.TRef.unary main_call41.v12 main_call41.v14 (broadcastInDim S1024x100x32 ![0, 1] bcast_S1024x100_S1024x100x32_0_1),
    StableHlo.TRef.nullary main_call41.cst (constant S_ .f32 0x7FC00000#32),
    StableHlo.TRef.unary main_call41.cst main_call41.v15 (broadcastInDim S1024x100x32 ![] bcast_S_S1024x100x32),
    StableHlo.TRef.ternary main_call41.v14 main_call41.v13 main_call41.v15 main_call41.v16 select,
    StableHlo.unary main_arg0 main_v168 ((extractStridedSlice S1024x100 ![0, 2121] · slices_S1024x2626_S1024x100_0_2121) : (⟨S1024x2626, .i32⟩ : BufTy).Contents (Elt F) → (⟨S1024x100, .i32⟩ : BufTy).Contents (Elt F)),
    StableHlo.unary main_arg2 main_v169 ((extractStridedSlice S1x100x1 ![21, 0, 0] · slices_S26x100x1_S1x100x1_21_0_0) : (⟨S26x100x1, .f32⟩ : BufTy).Contents (Elt F) → (⟨S1x100x1, .f32⟩ : BufTy).Contents (Elt F)),
    StableHlo.reshape main_v169 main_v170 rfl shapeCasts_S1x100x1_S100x1,
    StableHlo.TRef.nullary main_call42.c (constantI S_ 32 0#32),
    StableHlo.TRef.unary main_call42.c main_call42.v0 (broadcastInDim S1024x100 ![] bcast_S_S1024x100),
    StableHlo.TRef.binary (.of main_v168 : StableHlo.TRef sig ⟨S1024x100, .i32⟩) main_call42.v0 main_call42.v1 (cmpi .slt),
    StableHlo.TRef.nullary main_call42.c_0 (constantI S_ 32 100#32),
    StableHlo.TRef.unary main_call42.c_0 main_call42.v2 (broadcastInDim S1024x100 ![] bcast_S_S1024x100),
    StableHlo.TRef.binary (.of main_v168 : StableHlo.TRef sig ⟨S1024x100, .i32⟩) main_call42.v2 main_call42.v3 addi,
    StableHlo.TRef.ternary main_call42.v1 main_call42.v3 (.of main_v168 : StableHlo.TRef sig ⟨S1024x100, .i32⟩) main_call42.call0.v0 select,
    StableHlo.TRef.unary main_call42.call0.v0 main_call42.v5 (broadcastInDim S1024x100x1 ![0, 1] bcast_S1024x100_S1024x100x1_0_1),
    StableHlo.TRef.nullary main_call42.c_1 (constantI S1 32 99#32),
    StableHlo.TRef.nullary main_call42.c_2 (constantI S_ 32 0#32),
    StableHlo.TRef.unary main_call42.c_2 main_call42.v6 (broadcastInDim S1024x100x1 ![] bcast_S_S1024x100x1),
    StableHlo.TRef.binary main_call42.v5 main_call42.v6 main_call42.v7 (cmpi .sge),
    StableHlo.TRef.unary main_call42.c_1 main_call42.v8 (broadcastInDim S1x1x1 ![2] bcast_S1_S1x1x1_2),
    StableHlo.TRef.unary main_call42.v8 main_call42.v9 (broadcastInDim S1024x100x1 ![0, 1, 2] bcast_S1x1x1_S1024x100x1_0_1_2),
    StableHlo.TRef.binary main_call42.v5 main_call42.v9 main_call42.v10 (cmpi .sle),
    StableHlo.TRef.binary main_call42.v7 main_call42.v10 main_call42.v11 andi,
    StableHlo.TRef.nullary main_call42.c_3 (constantI S_ 1 1#1),
    StableHlo.TRef.binary main_call42.v11 main_call42.c_3 main_call42.v12 (fun x v => Host.reduce IntOp.andi x v reducesTo_S1024x100x1_S1024x100_d2 h_S_),
    StableHlo.TRef.binary (.of main_v170 : StableHlo.TRef sig ⟨S100x1, .f32⟩) main_call42.v5 main_call42.v13 (fun x i => Host.gather gather_S100x1_S1024x100x1_S1024x100x1_2_0_n_n_0_2_11 x i),
    StableHlo.TRef.unary main_call42.v12 main_call42.v14 (broadcastInDim S1024x100x1 ![0, 1] bcast_S1024x100_S1024x100x1_0_1),
    StableHlo.TRef.nullary main_call42.cst (constant S_ .f32 0x7FC00000#32),
    StableHlo.TRef.unary main_call42.cst main_call42.v15 (broadcastInDim S1024x100x1 ![] bcast_S_S1024x100x1),
    StableHlo.TRef.ternary main_call42.v14 main_call42.v13 main_call42.v15 main_call42.v16 select,
    StableHlo.nullary main_cst_20 (constant S_ .f32 0x00000000#32),
    StableHlo.binary main_v171 main_cst_20 main_v172 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v173 ((extractStridedSlice S1x100x32 ![21, 0, 0] · slices_S26x100x32_S1x100x32_21_0_0) : (⟨S26x100x32, .f32⟩ : BufTy).Contents (Elt F) → (⟨S1x100x32, .f32⟩ : BufTy).Contents (Elt F)),
    StableHlo.reshape main_v173 main_v174 rfl shapeCasts_S1x100x32_S100x32,
    StableHlo.TRef.nullary main_call43.c (constantI S_ 32 0#32),
    StableHlo.TRef.unary main_call43.c main_call43.v0 (broadcastInDim S1024x100 ![] bcast_S_S1024x100),
    StableHlo.TRef.binary (.of main_v168 : StableHlo.TRef sig ⟨S1024x100, .i32⟩) main_call43.v0 main_call43.v1 (cmpi .slt),
    StableHlo.TRef.nullary main_call43.c_0 (constantI S_ 32 100#32),
    StableHlo.TRef.unary main_call43.c_0 main_call43.v2 (broadcastInDim S1024x100 ![] bcast_S_S1024x100),
    StableHlo.TRef.binary (.of main_v168 : StableHlo.TRef sig ⟨S1024x100, .i32⟩) main_call43.v2 main_call43.v3 addi,
    StableHlo.TRef.ternary main_call43.v1 main_call43.v3 (.of main_v168 : StableHlo.TRef sig ⟨S1024x100, .i32⟩) main_call43.call0.v0 select,
    StableHlo.TRef.unary main_call43.call0.v0 main_call43.v5 (broadcastInDim S1024x100x1 ![0, 1] bcast_S1024x100_S1024x100x1_0_1),
    StableHlo.TRef.nullary main_call43.c_1 (constantI S1 32 99#32),
    StableHlo.TRef.nullary main_call43.c_2 (constantI S_ 32 0#32),
    StableHlo.TRef.unary main_call43.c_2 main_call43.v6 (broadcastInDim S1024x100x1 ![] bcast_S_S1024x100x1),
    StableHlo.TRef.binary main_call43.v5 main_call43.v6 main_call43.v7 (cmpi .sge),
    StableHlo.TRef.unary main_call43.c_1 main_call43.v8 (broadcastInDim S1x1x1 ![2] bcast_S1_S1x1x1_2),
    StableHlo.TRef.unary main_call43.v8 main_call43.v9 (broadcastInDim S1024x100x1 ![0, 1, 2] bcast_S1x1x1_S1024x100x1_0_1_2),
    StableHlo.TRef.binary main_call43.v5 main_call43.v9 main_call43.v10 (cmpi .sle),
    StableHlo.TRef.binary main_call43.v7 main_call43.v10 main_call43.v11 andi,
    StableHlo.TRef.nullary main_call43.c_3 (constantI S_ 1 1#1),
    StableHlo.TRef.binary main_call43.v11 main_call43.c_3 main_call43.v12 (fun x v => Host.reduce IntOp.andi x v reducesTo_S1024x100x1_S1024x100_d2 h_S_),
    StableHlo.TRef.binary (.of main_v174 : StableHlo.TRef sig ⟨S100x32, .f32⟩) main_call43.v5 main_call43.v13 (fun x i => Host.gather gather_S100x32_S1024x100x1_S1024x100x32_2_0_n_n_0_2_132 x i),
    StableHlo.TRef.unary main_call43.v12 main_call43.v14 (broadcastInDim S1024x100x32 ![0, 1] bcast_S1024x100_S1024x100x32_0_1),
    StableHlo.TRef.nullary main_call43.cst (constant S_ .f32 0x7FC00000#32),
    StableHlo.TRef.unary main_call43.cst main_call43.v15 (broadcastInDim S1024x100x32 ![] bcast_S_S1024x100x32),
    StableHlo.TRef.ternary main_call43.v14 main_call43.v13 main_call43.v15 main_call43.v16 select,
    StableHlo.unary main_arg0 main_v176 ((extractStridedSlice S1024x100 ![0, 2222] · slices_S1024x2626_S1024x100_0_2222) : (⟨S1024x2626, .i32⟩ : BufTy).Contents (Elt F) → (⟨S1024x100, .i32⟩ : BufTy).Contents (Elt F)),
    StableHlo.unary main_arg2 main_v177 ((extractStridedSlice S1x100x1 ![22, 0, 0] · slices_S26x100x1_S1x100x1_22_0_0) : (⟨S26x100x1, .f32⟩ : BufTy).Contents (Elt F) → (⟨S1x100x1, .f32⟩ : BufTy).Contents (Elt F)),
    StableHlo.reshape main_v177 main_v178 rfl shapeCasts_S1x100x1_S100x1,
    StableHlo.TRef.nullary main_call44.c (constantI S_ 32 0#32),
    StableHlo.TRef.unary main_call44.c main_call44.v0 (broadcastInDim S1024x100 ![] bcast_S_S1024x100),
    StableHlo.TRef.binary (.of main_v176 : StableHlo.TRef sig ⟨S1024x100, .i32⟩) main_call44.v0 main_call44.v1 (cmpi .slt),
    StableHlo.TRef.nullary main_call44.c_0 (constantI S_ 32 100#32),
    StableHlo.TRef.unary main_call44.c_0 main_call44.v2 (broadcastInDim S1024x100 ![] bcast_S_S1024x100),
    StableHlo.TRef.binary (.of main_v176 : StableHlo.TRef sig ⟨S1024x100, .i32⟩) main_call44.v2 main_call44.v3 addi,
    StableHlo.TRef.ternary main_call44.v1 main_call44.v3 (.of main_v176 : StableHlo.TRef sig ⟨S1024x100, .i32⟩) main_call44.call0.v0 select,
    StableHlo.TRef.unary main_call44.call0.v0 main_call44.v5 (broadcastInDim S1024x100x1 ![0, 1] bcast_S1024x100_S1024x100x1_0_1),
    StableHlo.TRef.nullary main_call44.c_1 (constantI S1 32 99#32),
    StableHlo.TRef.nullary main_call44.c_2 (constantI S_ 32 0#32),
    StableHlo.TRef.unary main_call44.c_2 main_call44.v6 (broadcastInDim S1024x100x1 ![] bcast_S_S1024x100x1),
    StableHlo.TRef.binary main_call44.v5 main_call44.v6 main_call44.v7 (cmpi .sge),
    StableHlo.TRef.unary main_call44.c_1 main_call44.v8 (broadcastInDim S1x1x1 ![2] bcast_S1_S1x1x1_2),
    StableHlo.TRef.unary main_call44.v8 main_call44.v9 (broadcastInDim S1024x100x1 ![0, 1, 2] bcast_S1x1x1_S1024x100x1_0_1_2),
    StableHlo.TRef.binary main_call44.v5 main_call44.v9 main_call44.v10 (cmpi .sle),
    StableHlo.TRef.binary main_call44.v7 main_call44.v10 main_call44.v11 andi,
    StableHlo.TRef.nullary main_call44.c_3 (constantI S_ 1 1#1),
    StableHlo.TRef.binary main_call44.v11 main_call44.c_3 main_call44.v12 (fun x v => Host.reduce IntOp.andi x v reducesTo_S1024x100x1_S1024x100_d2 h_S_),
    StableHlo.TRef.binary (.of main_v178 : StableHlo.TRef sig ⟨S100x1, .f32⟩) main_call44.v5 main_call44.v13 (fun x i => Host.gather gather_S100x1_S1024x100x1_S1024x100x1_2_0_n_n_0_2_11 x i),
    StableHlo.TRef.unary main_call44.v12 main_call44.v14 (broadcastInDim S1024x100x1 ![0, 1] bcast_S1024x100_S1024x100x1_0_1),
    StableHlo.TRef.nullary main_call44.cst (constant S_ .f32 0x7FC00000#32),
    StableHlo.TRef.unary main_call44.cst main_call44.v15 (broadcastInDim S1024x100x1 ![] bcast_S_S1024x100x1),
    StableHlo.TRef.ternary main_call44.v14 main_call44.v13 main_call44.v15 main_call44.v16 select,
    StableHlo.nullary main_cst_21 (constant S_ .f32 0x00000000#32),
    StableHlo.binary main_v179 main_cst_21 main_v180 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v181 ((extractStridedSlice S1x100x32 ![22, 0, 0] · slices_S26x100x32_S1x100x32_22_0_0) : (⟨S26x100x32, .f32⟩ : BufTy).Contents (Elt F) → (⟨S1x100x32, .f32⟩ : BufTy).Contents (Elt F)),
    StableHlo.reshape main_v181 main_v182 rfl shapeCasts_S1x100x32_S100x32,
    StableHlo.TRef.nullary main_call45.c (constantI S_ 32 0#32),
    StableHlo.TRef.unary main_call45.c main_call45.v0 (broadcastInDim S1024x100 ![] bcast_S_S1024x100),
    StableHlo.TRef.binary (.of main_v176 : StableHlo.TRef sig ⟨S1024x100, .i32⟩) main_call45.v0 main_call45.v1 (cmpi .slt),
    StableHlo.TRef.nullary main_call45.c_0 (constantI S_ 32 100#32),
    StableHlo.TRef.unary main_call45.c_0 main_call45.v2 (broadcastInDim S1024x100 ![] bcast_S_S1024x100),
    StableHlo.TRef.binary (.of main_v176 : StableHlo.TRef sig ⟨S1024x100, .i32⟩) main_call45.v2 main_call45.v3 addi,
    StableHlo.TRef.ternary main_call45.v1 main_call45.v3 (.of main_v176 : StableHlo.TRef sig ⟨S1024x100, .i32⟩) main_call45.call0.v0 select,
    StableHlo.TRef.unary main_call45.call0.v0 main_call45.v5 (broadcastInDim S1024x100x1 ![0, 1] bcast_S1024x100_S1024x100x1_0_1),
    StableHlo.TRef.nullary main_call45.c_1 (constantI S1 32 99#32),
    StableHlo.TRef.nullary main_call45.c_2 (constantI S_ 32 0#32),
    StableHlo.TRef.unary main_call45.c_2 main_call45.v6 (broadcastInDim S1024x100x1 ![] bcast_S_S1024x100x1),
    StableHlo.TRef.binary main_call45.v5 main_call45.v6 main_call45.v7 (cmpi .sge),
    StableHlo.TRef.unary main_call45.c_1 main_call45.v8 (broadcastInDim S1x1x1 ![2] bcast_S1_S1x1x1_2),
    StableHlo.TRef.unary main_call45.v8 main_call45.v9 (broadcastInDim S1024x100x1 ![0, 1, 2] bcast_S1x1x1_S1024x100x1_0_1_2),
    StableHlo.TRef.binary main_call45.v5 main_call45.v9 main_call45.v10 (cmpi .sle),
    StableHlo.TRef.binary main_call45.v7 main_call45.v10 main_call45.v11 andi,
    StableHlo.TRef.nullary main_call45.c_3 (constantI S_ 1 1#1),
    StableHlo.TRef.binary main_call45.v11 main_call45.c_3 main_call45.v12 (fun x v => Host.reduce IntOp.andi x v reducesTo_S1024x100x1_S1024x100_d2 h_S_),
    StableHlo.TRef.binary (.of main_v182 : StableHlo.TRef sig ⟨S100x32, .f32⟩) main_call45.v5 main_call45.v13 (fun x i => Host.gather gather_S100x32_S1024x100x1_S1024x100x32_2_0_n_n_0_2_132 x i),
    StableHlo.TRef.unary main_call45.v12 main_call45.v14 (broadcastInDim S1024x100x32 ![0, 1] bcast_S1024x100_S1024x100x32_0_1),
    StableHlo.TRef.nullary main_call45.cst (constant S_ .f32 0x7FC00000#32),
    StableHlo.TRef.unary main_call45.cst main_call45.v15 (broadcastInDim S1024x100x32 ![] bcast_S_S1024x100x32),
    StableHlo.TRef.ternary main_call45.v14 main_call45.v13 main_call45.v15 main_call45.v16 select,
    StableHlo.unary main_arg0 main_v184 ((extractStridedSlice S1024x100 ![0, 2323] · slices_S1024x2626_S1024x100_0_2323) : (⟨S1024x2626, .i32⟩ : BufTy).Contents (Elt F) → (⟨S1024x100, .i32⟩ : BufTy).Contents (Elt F)),
    StableHlo.unary main_arg2 main_v185 ((extractStridedSlice S1x100x1 ![23, 0, 0] · slices_S26x100x1_S1x100x1_23_0_0) : (⟨S26x100x1, .f32⟩ : BufTy).Contents (Elt F) → (⟨S1x100x1, .f32⟩ : BufTy).Contents (Elt F)),
    StableHlo.reshape main_v185 main_v186 rfl shapeCasts_S1x100x1_S100x1 ]

abbrev W3b : List (HloOp τ sig (Elt F)) :=
  [ StableHlo.TRef.nullary main_call46.c (constantI S_ 32 0#32),
    StableHlo.TRef.unary main_call46.c main_call46.v0 (broadcastInDim S1024x100 ![] bcast_S_S1024x100),
    StableHlo.TRef.binary (.of main_v184 : StableHlo.TRef sig ⟨S1024x100, .i32⟩) main_call46.v0 main_call46.v1 (cmpi .slt),
    StableHlo.TRef.nullary main_call46.c_0 (constantI S_ 32 100#32),
    StableHlo.TRef.unary main_call46.c_0 main_call46.v2 (broadcastInDim S1024x100 ![] bcast_S_S1024x100),
    StableHlo.TRef.binary (.of main_v184 : StableHlo.TRef sig ⟨S1024x100, .i32⟩) main_call46.v2 main_call46.v3 addi,
    StableHlo.TRef.ternary main_call46.v1 main_call46.v3 (.of main_v184 : StableHlo.TRef sig ⟨S1024x100, .i32⟩) main_call46.call0.v0 select,
    StableHlo.TRef.unary main_call46.call0.v0 main_call46.v5 (broadcastInDim S1024x100x1 ![0, 1] bcast_S1024x100_S1024x100x1_0_1),
    StableHlo.TRef.nullary main_call46.c_1 (constantI S1 32 99#32),
    StableHlo.TRef.nullary main_call46.c_2 (constantI S_ 32 0#32),
    StableHlo.TRef.unary main_call46.c_2 main_call46.v6 (broadcastInDim S1024x100x1 ![] bcast_S_S1024x100x1),
    StableHlo.TRef.binary main_call46.v5 main_call46.v6 main_call46.v7 (cmpi .sge),
    StableHlo.TRef.unary main_call46.c_1 main_call46.v8 (broadcastInDim S1x1x1 ![2] bcast_S1_S1x1x1_2),
    StableHlo.TRef.unary main_call46.v8 main_call46.v9 (broadcastInDim S1024x100x1 ![0, 1, 2] bcast_S1x1x1_S1024x100x1_0_1_2),
    StableHlo.TRef.binary main_call46.v5 main_call46.v9 main_call46.v10 (cmpi .sle),
    StableHlo.TRef.binary main_call46.v7 main_call46.v10 main_call46.v11 andi,
    StableHlo.TRef.nullary main_call46.c_3 (constantI S_ 1 1#1),
    StableHlo.TRef.binary main_call46.v11 main_call46.c_3 main_call46.v12 (fun x v => Host.reduce IntOp.andi x v reducesTo_S1024x100x1_S1024x100_d2 h_S_),
    StableHlo.TRef.binary (.of main_v186 : StableHlo.TRef sig ⟨S100x1, .f32⟩) main_call46.v5 main_call46.v13 (fun x i => Host.gather gather_S100x1_S1024x100x1_S1024x100x1_2_0_n_n_0_2_11 x i),
    StableHlo.TRef.unary main_call46.v12 main_call46.v14 (broadcastInDim S1024x100x1 ![0, 1] bcast_S1024x100_S1024x100x1_0_1),
    StableHlo.TRef.nullary main_call46.cst (constant S_ .f32 0x7FC00000#32),
    StableHlo.TRef.unary main_call46.cst main_call46.v15 (broadcastInDim S1024x100x1 ![] bcast_S_S1024x100x1),
    StableHlo.TRef.ternary main_call46.v14 main_call46.v13 main_call46.v15 main_call46.v16 select,
    StableHlo.nullary main_cst_22 (constant S_ .f32 0x00000000#32),
    StableHlo.binary main_v187 main_cst_22 main_v188 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v189 ((extractStridedSlice S1x100x32 ![23, 0, 0] · slices_S26x100x32_S1x100x32_23_0_0) : (⟨S26x100x32, .f32⟩ : BufTy).Contents (Elt F) → (⟨S1x100x32, .f32⟩ : BufTy).Contents (Elt F)),
    StableHlo.reshape main_v189 main_v190 rfl shapeCasts_S1x100x32_S100x32,
    StableHlo.TRef.nullary main_call47.c (constantI S_ 32 0#32),
    StableHlo.TRef.unary main_call47.c main_call47.v0 (broadcastInDim S1024x100 ![] bcast_S_S1024x100),
    StableHlo.TRef.binary (.of main_v184 : StableHlo.TRef sig ⟨S1024x100, .i32⟩) main_call47.v0 main_call47.v1 (cmpi .slt),
    StableHlo.TRef.nullary main_call47.c_0 (constantI S_ 32 100#32),
    StableHlo.TRef.unary main_call47.c_0 main_call47.v2 (broadcastInDim S1024x100 ![] bcast_S_S1024x100),
    StableHlo.TRef.binary (.of main_v184 : StableHlo.TRef sig ⟨S1024x100, .i32⟩) main_call47.v2 main_call47.v3 addi,
    StableHlo.TRef.ternary main_call47.v1 main_call47.v3 (.of main_v184 : StableHlo.TRef sig ⟨S1024x100, .i32⟩) main_call47.call0.v0 select,
    StableHlo.TRef.unary main_call47.call0.v0 main_call47.v5 (broadcastInDim S1024x100x1 ![0, 1] bcast_S1024x100_S1024x100x1_0_1),
    StableHlo.TRef.nullary main_call47.c_1 (constantI S1 32 99#32),
    StableHlo.TRef.nullary main_call47.c_2 (constantI S_ 32 0#32),
    StableHlo.TRef.unary main_call47.c_2 main_call47.v6 (broadcastInDim S1024x100x1 ![] bcast_S_S1024x100x1),
    StableHlo.TRef.binary main_call47.v5 main_call47.v6 main_call47.v7 (cmpi .sge),
    StableHlo.TRef.unary main_call47.c_1 main_call47.v8 (broadcastInDim S1x1x1 ![2] bcast_S1_S1x1x1_2),
    StableHlo.TRef.unary main_call47.v8 main_call47.v9 (broadcastInDim S1024x100x1 ![0, 1, 2] bcast_S1x1x1_S1024x100x1_0_1_2),
    StableHlo.TRef.binary main_call47.v5 main_call47.v9 main_call47.v10 (cmpi .sle),
    StableHlo.TRef.binary main_call47.v7 main_call47.v10 main_call47.v11 andi,
    StableHlo.TRef.nullary main_call47.c_3 (constantI S_ 1 1#1),
    StableHlo.TRef.binary main_call47.v11 main_call47.c_3 main_call47.v12 (fun x v => Host.reduce IntOp.andi x v reducesTo_S1024x100x1_S1024x100_d2 h_S_),
    StableHlo.TRef.binary (.of main_v190 : StableHlo.TRef sig ⟨S100x32, .f32⟩) main_call47.v5 main_call47.v13 (fun x i => Host.gather gather_S100x32_S1024x100x1_S1024x100x32_2_0_n_n_0_2_132 x i),
    StableHlo.TRef.unary main_call47.v12 main_call47.v14 (broadcastInDim S1024x100x32 ![0, 1] bcast_S1024x100_S1024x100x32_0_1),
    StableHlo.TRef.nullary main_call47.cst (constant S_ .f32 0x7FC00000#32),
    StableHlo.TRef.unary main_call47.cst main_call47.v15 (broadcastInDim S1024x100x32 ![] bcast_S_S1024x100x32),
    StableHlo.TRef.ternary main_call47.v14 main_call47.v13 main_call47.v15 main_call47.v16 select,
    StableHlo.unary main_arg0 main_v192 ((extractStridedSlice S1024x100 ![0, 2424] · slices_S1024x2626_S1024x100_0_2424) : (⟨S1024x2626, .i32⟩ : BufTy).Contents (Elt F) → (⟨S1024x100, .i32⟩ : BufTy).Contents (Elt F)),
    StableHlo.unary main_arg2 main_v193 ((extractStridedSlice S1x100x1 ![24, 0, 0] · slices_S26x100x1_S1x100x1_24_0_0) : (⟨S26x100x1, .f32⟩ : BufTy).Contents (Elt F) → (⟨S1x100x1, .f32⟩ : BufTy).Contents (Elt F)),
    StableHlo.reshape main_v193 main_v194 rfl shapeCasts_S1x100x1_S100x1,
    StableHlo.TRef.nullary main_call48.c (constantI S_ 32 0#32),
    StableHlo.TRef.unary main_call48.c main_call48.v0 (broadcastInDim S1024x100 ![] bcast_S_S1024x100),
    StableHlo.TRef.binary (.of main_v192 : StableHlo.TRef sig ⟨S1024x100, .i32⟩) main_call48.v0 main_call48.v1 (cmpi .slt),
    StableHlo.TRef.nullary main_call48.c_0 (constantI S_ 32 100#32),
    StableHlo.TRef.unary main_call48.c_0 main_call48.v2 (broadcastInDim S1024x100 ![] bcast_S_S1024x100),
    StableHlo.TRef.binary (.of main_v192 : StableHlo.TRef sig ⟨S1024x100, .i32⟩) main_call48.v2 main_call48.v3 addi,
    StableHlo.TRef.ternary main_call48.v1 main_call48.v3 (.of main_v192 : StableHlo.TRef sig ⟨S1024x100, .i32⟩) main_call48.call0.v0 select,
    StableHlo.TRef.unary main_call48.call0.v0 main_call48.v5 (broadcastInDim S1024x100x1 ![0, 1] bcast_S1024x100_S1024x100x1_0_1),
    StableHlo.TRef.nullary main_call48.c_1 (constantI S1 32 99#32),
    StableHlo.TRef.nullary main_call48.c_2 (constantI S_ 32 0#32),
    StableHlo.TRef.unary main_call48.c_2 main_call48.v6 (broadcastInDim S1024x100x1 ![] bcast_S_S1024x100x1),
    StableHlo.TRef.binary main_call48.v5 main_call48.v6 main_call48.v7 (cmpi .sge),
    StableHlo.TRef.unary main_call48.c_1 main_call48.v8 (broadcastInDim S1x1x1 ![2] bcast_S1_S1x1x1_2),
    StableHlo.TRef.unary main_call48.v8 main_call48.v9 (broadcastInDim S1024x100x1 ![0, 1, 2] bcast_S1x1x1_S1024x100x1_0_1_2),
    StableHlo.TRef.binary main_call48.v5 main_call48.v9 main_call48.v10 (cmpi .sle),
    StableHlo.TRef.binary main_call48.v7 main_call48.v10 main_call48.v11 andi,
    StableHlo.TRef.nullary main_call48.c_3 (constantI S_ 1 1#1),
    StableHlo.TRef.binary main_call48.v11 main_call48.c_3 main_call48.v12 (fun x v => Host.reduce IntOp.andi x v reducesTo_S1024x100x1_S1024x100_d2 h_S_),
    StableHlo.TRef.binary (.of main_v194 : StableHlo.TRef sig ⟨S100x1, .f32⟩) main_call48.v5 main_call48.v13 (fun x i => Host.gather gather_S100x1_S1024x100x1_S1024x100x1_2_0_n_n_0_2_11 x i),
    StableHlo.TRef.unary main_call48.v12 main_call48.v14 (broadcastInDim S1024x100x1 ![0, 1] bcast_S1024x100_S1024x100x1_0_1),
    StableHlo.TRef.nullary main_call48.cst (constant S_ .f32 0x7FC00000#32),
    StableHlo.TRef.unary main_call48.cst main_call48.v15 (broadcastInDim S1024x100x1 ![] bcast_S_S1024x100x1),
    StableHlo.TRef.ternary main_call48.v14 main_call48.v13 main_call48.v15 main_call48.v16 select,
    StableHlo.nullary main_cst_23 (constant S_ .f32 0x00000000#32),
    StableHlo.binary main_v195 main_cst_23 main_v196 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v197 ((extractStridedSlice S1x100x32 ![24, 0, 0] · slices_S26x100x32_S1x100x32_24_0_0) : (⟨S26x100x32, .f32⟩ : BufTy).Contents (Elt F) → (⟨S1x100x32, .f32⟩ : BufTy).Contents (Elt F)),
    StableHlo.reshape main_v197 main_v198 rfl shapeCasts_S1x100x32_S100x32,
    StableHlo.TRef.nullary main_call49.c (constantI S_ 32 0#32),
    StableHlo.TRef.unary main_call49.c main_call49.v0 (broadcastInDim S1024x100 ![] bcast_S_S1024x100),
    StableHlo.TRef.binary (.of main_v192 : StableHlo.TRef sig ⟨S1024x100, .i32⟩) main_call49.v0 main_call49.v1 (cmpi .slt),
    StableHlo.TRef.nullary main_call49.c_0 (constantI S_ 32 100#32),
    StableHlo.TRef.unary main_call49.c_0 main_call49.v2 (broadcastInDim S1024x100 ![] bcast_S_S1024x100),
    StableHlo.TRef.binary (.of main_v192 : StableHlo.TRef sig ⟨S1024x100, .i32⟩) main_call49.v2 main_call49.v3 addi,
    StableHlo.TRef.ternary main_call49.v1 main_call49.v3 (.of main_v192 : StableHlo.TRef sig ⟨S1024x100, .i32⟩) main_call49.call0.v0 select,
    StableHlo.TRef.unary main_call49.call0.v0 main_call49.v5 (broadcastInDim S1024x100x1 ![0, 1] bcast_S1024x100_S1024x100x1_0_1),
    StableHlo.TRef.nullary main_call49.c_1 (constantI S1 32 99#32),
    StableHlo.TRef.nullary main_call49.c_2 (constantI S_ 32 0#32),
    StableHlo.TRef.unary main_call49.c_2 main_call49.v6 (broadcastInDim S1024x100x1 ![] bcast_S_S1024x100x1),
    StableHlo.TRef.binary main_call49.v5 main_call49.v6 main_call49.v7 (cmpi .sge),
    StableHlo.TRef.unary main_call49.c_1 main_call49.v8 (broadcastInDim S1x1x1 ![2] bcast_S1_S1x1x1_2),
    StableHlo.TRef.unary main_call49.v8 main_call49.v9 (broadcastInDim S1024x100x1 ![0, 1, 2] bcast_S1x1x1_S1024x100x1_0_1_2),
    StableHlo.TRef.binary main_call49.v5 main_call49.v9 main_call49.v10 (cmpi .sle),
    StableHlo.TRef.binary main_call49.v7 main_call49.v10 main_call49.v11 andi,
    StableHlo.TRef.nullary main_call49.c_3 (constantI S_ 1 1#1),
    StableHlo.TRef.binary main_call49.v11 main_call49.c_3 main_call49.v12 (fun x v => Host.reduce IntOp.andi x v reducesTo_S1024x100x1_S1024x100_d2 h_S_),
    StableHlo.TRef.binary (.of main_v198 : StableHlo.TRef sig ⟨S100x32, .f32⟩) main_call49.v5 main_call49.v13 (fun x i => Host.gather gather_S100x32_S1024x100x1_S1024x100x32_2_0_n_n_0_2_132 x i),
    StableHlo.TRef.unary main_call49.v12 main_call49.v14 (broadcastInDim S1024x100x32 ![0, 1] bcast_S1024x100_S1024x100x32_0_1),
    StableHlo.TRef.nullary main_call49.cst (constant S_ .f32 0x7FC00000#32),
    StableHlo.TRef.unary main_call49.cst main_call49.v15 (broadcastInDim S1024x100x32 ![] bcast_S_S1024x100x32),
    StableHlo.TRef.ternary main_call49.v14 main_call49.v13 main_call49.v15 main_call49.v16 select,
    StableHlo.unary main_arg0 main_v200 ((extractStridedSlice S1024x100 ![0, 2525] · slices_S1024x2626_S1024x100_0_2525) : (⟨S1024x2626, .i32⟩ : BufTy).Contents (Elt F) → (⟨S1024x100, .i32⟩ : BufTy).Contents (Elt F)),
    StableHlo.unary main_arg2 main_v201 ((extractStridedSlice S1x100x1 ![25, 0, 0] · slices_S26x100x1_S1x100x1_25_0_0) : (⟨S26x100x1, .f32⟩ : BufTy).Contents (Elt F) → (⟨S1x100x1, .f32⟩ : BufTy).Contents (Elt F)),
    StableHlo.reshape main_v201 main_v202 rfl shapeCasts_S1x100x1_S100x1,
    StableHlo.TRef.nullary main_call50.c (constantI S_ 32 0#32),
    StableHlo.TRef.unary main_call50.c main_call50.v0 (broadcastInDim S1024x100 ![] bcast_S_S1024x100),
    StableHlo.TRef.binary (.of main_v200 : StableHlo.TRef sig ⟨S1024x100, .i32⟩) main_call50.v0 main_call50.v1 (cmpi .slt),
    StableHlo.TRef.nullary main_call50.c_0 (constantI S_ 32 100#32),
    StableHlo.TRef.unary main_call50.c_0 main_call50.v2 (broadcastInDim S1024x100 ![] bcast_S_S1024x100),
    StableHlo.TRef.binary (.of main_v200 : StableHlo.TRef sig ⟨S1024x100, .i32⟩) main_call50.v2 main_call50.v3 addi,
    StableHlo.TRef.ternary main_call50.v1 main_call50.v3 (.of main_v200 : StableHlo.TRef sig ⟨S1024x100, .i32⟩) main_call50.call0.v0 select,
    StableHlo.TRef.unary main_call50.call0.v0 main_call50.v5 (broadcastInDim S1024x100x1 ![0, 1] bcast_S1024x100_S1024x100x1_0_1),
    StableHlo.TRef.nullary main_call50.c_1 (constantI S1 32 99#32),
    StableHlo.TRef.nullary main_call50.c_2 (constantI S_ 32 0#32),
    StableHlo.TRef.unary main_call50.c_2 main_call50.v6 (broadcastInDim S1024x100x1 ![] bcast_S_S1024x100x1),
    StableHlo.TRef.binary main_call50.v5 main_call50.v6 main_call50.v7 (cmpi .sge),
    StableHlo.TRef.unary main_call50.c_1 main_call50.v8 (broadcastInDim S1x1x1 ![2] bcast_S1_S1x1x1_2),
    StableHlo.TRef.unary main_call50.v8 main_call50.v9 (broadcastInDim S1024x100x1 ![0, 1, 2] bcast_S1x1x1_S1024x100x1_0_1_2),
    StableHlo.TRef.binary main_call50.v5 main_call50.v9 main_call50.v10 (cmpi .sle),
    StableHlo.TRef.binary main_call50.v7 main_call50.v10 main_call50.v11 andi,
    StableHlo.TRef.nullary main_call50.c_3 (constantI S_ 1 1#1),
    StableHlo.TRef.binary main_call50.v11 main_call50.c_3 main_call50.v12 (fun x v => Host.reduce IntOp.andi x v reducesTo_S1024x100x1_S1024x100_d2 h_S_),
    StableHlo.TRef.binary (.of main_v202 : StableHlo.TRef sig ⟨S100x1, .f32⟩) main_call50.v5 main_call50.v13 (fun x i => Host.gather gather_S100x1_S1024x100x1_S1024x100x1_2_0_n_n_0_2_11 x i),
    StableHlo.TRef.unary main_call50.v12 main_call50.v14 (broadcastInDim S1024x100x1 ![0, 1] bcast_S1024x100_S1024x100x1_0_1),
    StableHlo.TRef.nullary main_call50.cst (constant S_ .f32 0x7FC00000#32),
    StableHlo.TRef.unary main_call50.cst main_call50.v15 (broadcastInDim S1024x100x1 ![] bcast_S_S1024x100x1),
    StableHlo.TRef.ternary main_call50.v14 main_call50.v13 main_call50.v15 main_call50.v16 select,
    StableHlo.nullary main_cst_24 (constant S_ .f32 0x00000000#32),
    StableHlo.binary main_v203 main_cst_24 main_v204 ((fun x v => Host.reduceAdd x v reducesTo_S1024x100x1_S1024x1_d1 h_S_) : (⟨S1024x100x1, .f32⟩ : BufTy).Contents (Elt F) → (⟨S_, .f32⟩ : BufTy).Contents (Elt F) → (⟨S1024x1, .f32⟩ : BufTy).Contents (Elt F)),
    StableHlo.unary main_arg3 main_v205 ((extractStridedSlice S1x100x32 ![25, 0, 0] · slices_S26x100x32_S1x100x32_25_0_0) : (⟨S26x100x32, .f32⟩ : BufTy).Contents (Elt F) → (⟨S1x100x32, .f32⟩ : BufTy).Contents (Elt F)),
    StableHlo.reshape main_v205 main_v206 rfl shapeCasts_S1x100x32_S100x32,
    StableHlo.TRef.nullary main_call51.c (constantI S_ 32 0#32),
    StableHlo.TRef.unary main_call51.c main_call51.v0 (broadcastInDim S1024x100 ![] bcast_S_S1024x100),
    StableHlo.TRef.binary (.of main_v200 : StableHlo.TRef sig ⟨S1024x100, .i32⟩) main_call51.v0 main_call51.v1 (cmpi .slt),
    StableHlo.TRef.nullary main_call51.c_0 (constantI S_ 32 100#32),
    StableHlo.TRef.unary main_call51.c_0 main_call51.v2 (broadcastInDim S1024x100 ![] bcast_S_S1024x100),
    StableHlo.TRef.binary (.of main_v200 : StableHlo.TRef sig ⟨S1024x100, .i32⟩) main_call51.v2 main_call51.v3 addi,
    StableHlo.TRef.ternary main_call51.v1 main_call51.v3 (.of main_v200 : StableHlo.TRef sig ⟨S1024x100, .i32⟩) main_call51.call0.v0 select,
    StableHlo.TRef.unary main_call51.call0.v0 main_call51.v5 (broadcastInDim S1024x100x1 ![0, 1] bcast_S1024x100_S1024x100x1_0_1),
    StableHlo.TRef.nullary main_call51.c_1 (constantI S1 32 99#32),
    StableHlo.TRef.nullary main_call51.c_2 (constantI S_ 32 0#32),
    StableHlo.TRef.unary main_call51.c_2 main_call51.v6 (broadcastInDim S1024x100x1 ![] bcast_S_S1024x100x1),
    StableHlo.TRef.binary main_call51.v5 main_call51.v6 main_call51.v7 (cmpi .sge),
    StableHlo.TRef.unary main_call51.c_1 main_call51.v8 (broadcastInDim S1x1x1 ![2] bcast_S1_S1x1x1_2),
    StableHlo.TRef.unary main_call51.v8 main_call51.v9 (broadcastInDim S1024x100x1 ![0, 1, 2] bcast_S1x1x1_S1024x100x1_0_1_2),
    StableHlo.TRef.binary main_call51.v5 main_call51.v9 main_call51.v10 (cmpi .sle),
    StableHlo.TRef.binary main_call51.v7 main_call51.v10 main_call51.v11 andi,
    StableHlo.TRef.nullary main_call51.c_3 (constantI S_ 1 1#1),
    StableHlo.TRef.binary main_call51.v11 main_call51.c_3 main_call51.v12 (fun x v => Host.reduce IntOp.andi x v reducesTo_S1024x100x1_S1024x100_d2 h_S_),
    StableHlo.TRef.binary (.of main_v206 : StableHlo.TRef sig ⟨S100x32, .f32⟩) main_call51.v5 main_call51.v13 (fun x i => Host.gather gather_S100x32_S1024x100x1_S1024x100x32_2_0_n_n_0_2_132 x i),
    StableHlo.TRef.unary main_call51.v12 main_call51.v14 (broadcastInDim S1024x100x32 ![0, 1] bcast_S1024x100_S1024x100x32_0_1),
    StableHlo.TRef.nullary main_call51.cst (constant S_ .f32 0x7FC00000#32),
    StableHlo.TRef.unary main_call51.cst main_call51.v15 (broadcastInDim S1024x100x32 ![] bcast_S_S1024x100x32),
    StableHlo.TRef.ternary main_call51.v14 main_call51.v13 main_call51.v15 main_call51.v16 select,
    StableHlo.nary ![main_v4, main_v12, main_v20, main_v28, main_v36, main_v44, main_v52, main_v60, main_v68, main_v76, main_v84, main_v92, main_v100, main_v108, main_v116, main_v124] main_v208 (fun u => concatenate S1024x16 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩, ⟨S1024x1, u 10⟩, ⟨S1024x1, u 11⟩, ⟨S1024x1, u 12⟩, ⟨S1024x1, u 13⟩, ⟨S1024x1, u 14⟩, ⟨S1024x1, u 15⟩] concatenates_S1024x1_S1024x1_S1024x1_S1024x1_S1024x1_S1024x1_S1024x1_S1024x1_S1024x1_S1024x1_S1024x1_S1024x1_S1024x1_S1024x1_S1024x1_S1024x1_S1024x16_d1),
    StableHlo.nary ![main_v132, main_v140, main_v148, main_v156, main_v164, main_v172, main_v180, main_v188, main_v196, main_v204] main_v209 (fun u => concatenate S1024x10 1 [⟨S1024x1, u 0⟩, ⟨S1024x1, u 1⟩, ⟨S1024x1, u 2⟩, ⟨S1024x1, u 3⟩, ⟨S1024x1, u 4⟩, ⟨S1024x1, u 5⟩, ⟨S1024x1, u 6⟩, ⟨S1024x1, u 7⟩, ⟨S1024x1, u 8⟩, ⟨S1024x1, u 9⟩] concatenates_S1024x1_S1024x1_S1024x1_S1024x1_S1024x1_S1024x1_S1024x1_S1024x1_S1024x1_S1024x1_S1024x10_d1),
    StableHlo.binary main_v208 main_v209 main_v210 ((fun a b => concatenate S1024x26 1 [⟨S1024x16, a⟩, ⟨S1024x10, b⟩] concatenates_S1024x16_S1024x10_S1024x26_d1) : (⟨S1024x16, .f32⟩ : BufTy).Contents (Elt F) → (⟨S1024x10, .f32⟩ : BufTy).Contents (Elt F) → (⟨S1024x26, .f32⟩ : BufTy).Contents (Elt F)),
    StableHlo.binary main_v210 main_arg1 main_v211 ((fun a b => concatenate S1024x39 1 [⟨S1024x26, a⟩, ⟨S1024x13, b⟩] concatenates_S1024x26_S1024x13_S1024x39_d1) : (⟨S1024x26, .f32⟩ : BufTy).Contents (Elt F) → (⟨S1024x13, .f32⟩ : BufTy).Contents (Elt F) → (⟨S1024x39, .f32⟩ : BufTy).Contents (Elt F)),
    StableHlo.binary main_v211 main_arg4 main_v212 ((fun l r => Host.dotGeneral dot_S1024x39_S39x1_S1024x1_1_0_0_1_n_n none l r) : (⟨S1024x39, .f32⟩ : BufTy).Contents (Elt F) → (⟨S39x1, .f32⟩ : BufTy).Contents (Elt F) → (⟨S1024x1, .f32⟩ : BufTy).Contents (Elt F)),
    StableHlo.unary main_arg5 main_v213 (broadcastInDim S1x1 ![1] bcast_S1_S1x1_1 : (⟨S1, .f32⟩ : BufTy).Contents (Elt F) → (⟨S1x1, .f32⟩ : BufTy).Contents (Elt F)) ]

theorem W3_split : (W3 : List (HloOp τ sig (Elt F))) = W3a ++ W3b := rfl

set_option maxRecDepth 65536 in
set_option maxHeartbeats 8000000 in
theorem part3_split (c : Dev nD) : main_part3 (F := F) c = (part3_a c >>= fun _ => part3_b c) := rfl

set_option maxRecDepth 65536 in
set_option maxHeartbeats 8000000 in
theorem part3_a_eq (c : Dev nD) : part3_a (F := F) c = seq W3a := rfl

set_option maxRecDepth 65536 in
set_option maxHeartbeats 8000000 in
theorem part3_b_eq (c : Dev nD) : part3_b (F := F) c = seq W3b := rfl

theorem part3_eq (c : Dev nD) : main_part3 (F := F) c = seq W3 := by
  rw [part3_split, part3_a_eq, part3_b_eq, W3_split, seq_append]

set_option maxHeartbeats 40000000 in
/-- Window 4, first half. -/
def part4_a : Dev nD → Prog (TpuEff nD τ sig (Elt F) (Pipeline.Sig Λ₀ (Fin 0) fun p => (pcfgs (F := F) p).Adm) .tc) PUnit := fun _ => do
  hlo rfl (StableHlo.unary main_v213 main_v214 (broadcastInDim S1024x1 ![0, 1] bcast_S1x1_S1024x1_0_1 : (⟨S1x1, .f32⟩ : BufTy).Contents (Elt F) → (⟨S1024x1, .f32⟩ : BufTy).Contents (Elt F))) (fun _ => .ret ⟨⟩)
  hlo rfl (StableHlo.binary main_v212 main_v214 main_v215 (addf : (⟨S1024x1, .f32⟩ : BufTy).Contents (Elt F) → (⟨S1024x1, .f32⟩ : BufTy).Contents (Elt F) → (⟨S1024x1, .f32⟩ : BufTy).Contents (Elt F))) (fun _ => .ret ⟨⟩)
  hlo rfl (StableHlo.nary ![main_v7, main_v15, main_v23, main_v31, main_v39, main_v47, main_v55, main_v63, main_v71, main_v79, main_v87, main_v95, main_v103, main_v111, main_v119, main_v127] main_v216 (fun u => concatenate S1024x1600x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩, ⟨S1024x100x32, u 10⟩, ⟨S1024x100x32, u 11⟩, ⟨S1024x100x32, u 12⟩, ⟨S1024x100x32, u 13⟩, ⟨S1024x100x32, u 14⟩, ⟨S1024x100x32, u 15⟩] concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1)) (fun _ => .ret ⟨⟩)
  hlo rfl (StableHlo.nary ![main_v135, main_v143, main_v151, main_v159, main_v167, main_v175, main_v183, main_v191, main_v199, main_v207] main_v217 (fun u => concatenate S1024x1000x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩] concatenates_S1024x100x32_S1024x100x32_S1024x100x32_S1024x100x32_S1024x100x32_S1024x100x32_S1024x100x32_S1024x100x32_S1024x100x32_S1024x100x32_S1024x1000x32_d1)) (fun _ => .ret ⟨⟩)
  hlo rfl (StableHlo.binary main_v216 main_v217 main_v218 ((fun a b => concatenate S1024x2600x32 1 [⟨S1024x1600x32, a⟩, ⟨S1024x1000x32, b⟩] concatenates_S1024x1600x32_S1024x1000x32_S1024x2600x32_d1) : (⟨S1024x1600x32, .f32⟩ : BufTy).Contents (Elt F) → (⟨S1024x1000x32, .f32⟩ : BufTy).Contents (Elt F) → (⟨S1024x2600x32, .f32⟩ : BufTy).Contents (Elt F))) (fun _ => .ret ⟨⟩)
  hlo rfl (StableHlo.nullary main_cst_25 (constant S_ .f32 0x00000000#32)) (fun _ => .ret ⟨⟩)
  hlo rfl (StableHlo.binary main_v218 main_cst_25 main_v219 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F))) (fun _ => .ret ⟨⟩)
  hlo rfl (StableHlo.unary main_v219 main_v220 (broadcastInDim S1024x1x32 ![0, 2] bcast_S1024x32_S1024x1x32_0_2 : (⟨S1024x32, .f32⟩ : BufTy).Contents (Elt F) → (⟨S1024x1x32, .f32⟩ : BufTy).Contents (Elt F))) (fun _ => .ret ⟨⟩)
  hlo rfl (StableHlo.binary main_v220 main_v220 main_v221 (mulf : (⟨S1024x1x32, .f32⟩ : BufTy).Contents (Elt F) → (⟨S1024x1x32, .f32⟩ : BufTy).Contents (Elt F) → (⟨S1024x1x32, .f32⟩ : BufTy).Contents (Elt F))) (fun _ => .ret ⟨⟩)
  hlo rfl (StableHlo.binary main_v218 main_v218 main_v222 (mulf : (⟨S1024x2600x32, .f32⟩ : BufTy).Contents (Elt F) → (⟨S1024x2600x32, .f32⟩ : BufTy).Contents (Elt F) → (⟨S1024x2600x32, .f32⟩ : BufTy).Contents (Elt F))) (fun _ => .ret ⟨⟩)
  hlo rfl (StableHlo.nullary main_cst_26 (constant S_ .f32 0x00000000#32)) (fun _ => .ret ⟨⟩)
  hlo rfl (StableHlo.binary main_v222 main_cst_26 main_v223 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F))) (fun _ => .ret ⟨⟩)
  hlo rfl (StableHlo.unary main_v223 main_v224 (broadcastInDim S1024x1x32 ![0, 2] bcast_S1024x32_S1024x1x32_0_2 : (⟨S1024x32, .f32⟩ : BufTy).Contents (Elt F) → (⟨S1024x1x32, .f32⟩ : BufTy).Contents (Elt F))) (fun _ => .ret ⟨⟩)
  hlo rfl (StableHlo.binary main_v221 main_v224 main_v225 (subf : (⟨S1024x1x32, .f32⟩ : BufTy).Contents (Elt F) → (⟨S1024x1x32, .f32⟩ : BufTy).Contents (Elt F) → (⟨S1024x1x32, .f32⟩ : BufTy).Contents (Elt F))) (fun _ => .ret ⟨⟩)
  hlo rfl (StableHlo.nullary main_cst_27 (constant S_ .f32 0x00000000#32)) (fun _ => .ret ⟨⟩)

set_option maxHeartbeats 40000000 in
/-- Window 4, second half. -/
def part4_b : Dev nD → Prog (TpuEff nD τ sig (Elt F) (Pipeline.Sig Λ₀ (Fin 0) fun p => (pcfgs (F := F) p).Adm) .tc) PUnit := fun _ => do
  hlo rfl (StableHlo.binary main_v225 main_cst_27 main_v226 ((fun x v => Host.reduceAdd x v reducesTo_S1024x1x32_S1024x1_d2 h_S_) : (⟨S1024x1x32, .f32⟩ : BufTy).Contents (Elt F) → (⟨S_, .f32⟩ : BufTy).Contents (Elt F) → (⟨S1024x1, .f32⟩ : BufTy).Contents (Elt F))) (fun _ => .ret ⟨⟩)
  hlo rfl (StableHlo.nullary main_cst_28 (constant S_ .f32 0x3F000000#32)) (fun _ => .ret ⟨⟩)
  hlo rfl (StableHlo.unary main_cst_28 main_v227 (broadcastInDim S1024x1 ![] bcast_S_S1024x1 : (⟨S_, .f32⟩ : BufTy).Contents (Elt F) → (⟨S1024x1, .f32⟩ : BufTy).Contents (Elt F))) (fun _ => .ret ⟨⟩)
  hlo rfl (StableHlo.binary main_v227 main_v226 main_v228 (mulf : (⟨S1024x1, .f32⟩ : BufTy).Contents (Elt F) → (⟨S1024x1, .f32⟩ : BufTy).Contents (Elt F) → (⟨S1024x1, .f32⟩ : BufTy).Contents (Elt F))) (fun _ => .ret ⟨⟩)
  hlo rfl (StableHlo.binary main_v215 main_v228 main_v229 (addf : (⟨S1024x1, .f32⟩ : BufTy).Contents (Elt F) → (⟨S1024x1, .f32⟩ : BufTy).Contents (Elt F) → (⟨S1024x1, .f32⟩ : BufTy).Contents (Elt F))) (fun _ => .ret ⟨⟩)
  hlo rfl (StableHlo.unary main_v229 main_v230 (Host.negf : (⟨S1024x1, .f32⟩ : BufTy).Contents (Elt F) → (⟨S1024x1, .f32⟩ : BufTy).Contents (Elt F))) (fun _ => .ret ⟨⟩)
  hlo rfl (StableHlo.unary main_v230 main_v231 (Host.exp : (⟨S1024x1, .f32⟩ : BufTy).Contents (Elt F) → (⟨S1024x1, .f32⟩ : BufTy).Contents (Elt F))) (fun _ => .ret ⟨⟩)
  hlo rfl (StableHlo.nullary main_cst_29 (constant S_ .f32 0x3F800000#32)) (fun _ => .ret ⟨⟩)
  hlo rfl (StableHlo.unary main_cst_29 main_v232 (broadcastInDim S1024x1 ![] bcast_S_S1024x1 : (⟨S_, .f32⟩ : BufTy).Contents (Elt F) → (⟨S1024x1, .f32⟩ : BufTy).Contents (Elt F))) (fun _ => .ret ⟨⟩)
  hlo rfl (StableHlo.binary main_v232 main_v231 main_v233 (addf : (⟨S1024x1, .f32⟩ : BufTy).Contents (Elt F) → (⟨S1024x1, .f32⟩ : BufTy).Contents (Elt F) → (⟨S1024x1, .f32⟩ : BufTy).Contents (Elt F))) (fun _ => .ret ⟨⟩)
  hlo rfl (StableHlo.nullary main_cst_30 (constant S_ .f32 0x3F800000#32)) (fun _ => .ret ⟨⟩)
  hlo rfl (StableHlo.unary main_cst_30 main_v234 (broadcastInDim S1024x1 ![] bcast_S_S1024x1 : (⟨S_, .f32⟩ : BufTy).Contents (Elt F) → (⟨S1024x1, .f32⟩ : BufTy).Contents (Elt F))) (fun _ => .ret ⟨⟩)
  hlo rfl (StableHlo.binary main_v234 main_v233 main_v235 (Host.divf : (⟨S1024x1, .f32⟩ : BufTy).Contents (Elt F) → (⟨S1024x1, .f32⟩ : BufTy).Contents (Elt F) → (⟨S1024x1, .f32⟩ : BufTy).Contents (Elt F))) (fun _ => .ret ⟨⟩)
  pure ⟨⟩

abbrev W4a : List (HloOp τ sig (Elt F)) :=
  [ StableHlo.unary main_v213 main_v214 (broadcastInDim S1024x1 ![0, 1] bcast_S1x1_S1024x1_0_1 : (⟨S1x1, .f32⟩ : BufTy).Contents (Elt F) → (⟨S1024x1, .f32⟩ : BufTy).Contents (Elt F)),
    StableHlo.binary main_v212 main_v214 main_v215 (addf : (⟨S1024x1, .f32⟩ : BufTy).Contents (Elt F) → (⟨S1024x1, .f32⟩ : BufTy).Contents (Elt F) → (⟨S1024x1, .f32⟩ : BufTy).Contents (Elt F)),
    StableHlo.nary ![main_v7, main_v15, main_v23, main_v31, main_v39, main_v47, main_v55, main_v63, main_v71, main_v79, main_v87, main_v95, main_v103, main_v111, main_v119, main_v127] main_v216 (fun u => concatenate S1024x1600x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩, ⟨S1024x100x32, u 10⟩, ⟨S1024x100x32, u 11⟩, ⟨S1024x100x32, u 12⟩, ⟨S1024x100x32, u 13⟩, ⟨S1024x100x32, u 14⟩, ⟨S1024x100x32, u 15⟩] concatenates_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x100x32_S1024x1600x32_d1),
    StableHlo.nary ![main_v135, main_v143, main_v151, main_v159, main_v167, main_v175, main_v183, main_v191, main_v199, main_v207] main_v217 (fun u => concatenate S1024x1000x32 1 [⟨S1024x100x32, u 0⟩, ⟨S1024x100x32, u 1⟩, ⟨S1024x100x32, u 2⟩, ⟨S1024x100x32, u 3⟩, ⟨S1024x100x32, u 4⟩, ⟨S1024x100x32, u 5⟩, ⟨S1024x100x32, u 6⟩, ⟨S1024x100x32, u 7⟩, ⟨S1024x100x32, u 8⟩, ⟨S1024x100x32, u 9⟩] concatenates_S1024x100x32_S1024x100x32_S1024x100x32_S1024x100x32_S1024x100x32_S1024x100x32_S1024x100x32_S1024x100x32_S1024x100x32_S1024x100x32_S1024x1000x32_d1),
    StableHlo.binary main_v216 main_v217 main_v218 ((fun a b => concatenate S1024x2600x32 1 [⟨S1024x1600x32, a⟩, ⟨S1024x1000x32, b⟩] concatenates_S1024x1600x32_S1024x1000x32_S1024x2600x32_d1) : (⟨S1024x1600x32, .f32⟩ : BufTy).Contents (Elt F) → (⟨S1024x1000x32, .f32⟩ : BufTy).Contents (Elt F) → (⟨S1024x2600x32, .f32⟩ : BufTy).Contents (Elt F)),
    StableHlo.nullary main_cst_25 (constant S_ .f32 0x00000000#32),
    StableHlo.binary main_v218 main_cst_25 main_v219 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v219 main_v220 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v220 main_v220 main_v221 (mulf : (⟨S1024x1x32, .f32⟩ : BufTy).Contents (Elt F) → (⟨S1024x1x32, .f32⟩ : BufTy).Contents (Elt F) → (⟨S1024x1x32, .f32⟩ : BufTy).Contents (Elt F)),
    StableHlo.binary main_v218 main_v218 main_v222 (mulf : (⟨S1024x2600x32, .f32⟩ : BufTy).Contents (Elt F) → (⟨S1024x2600x32, .f32⟩ : BufTy).Contents (Elt F) → (⟨S1024x2600x32, .f32⟩ : BufTy).Contents (Elt F)),
    StableHlo.nullary main_cst_26 (constant S_ .f32 0x00000000#32),
    StableHlo.binary main_v222 main_cst_26 main_v223 ((fun x v => Host.reduceAdd x v reducesTo_S1024x2600x32_S1024x32_d1 h_S_) : (⟨S1024x2600x32, .f32⟩ : BufTy).Contents (Elt F) → (⟨S_, .f32⟩ : BufTy).Contents (Elt F) → (⟨S1024x32, .f32⟩ : BufTy).Contents (Elt F)),
    StableHlo.unary main_v223 main_v224 (broadcastInDim S1024x1x32 ![0, 2] bcast_S1024x32_S1024x1x32_0_2 : (⟨S1024x32, .f32⟩ : BufTy).Contents (Elt F) → (⟨S1024x1x32, .f32⟩ : BufTy).Contents (Elt F)),
    StableHlo.binary main_v221 main_v224 main_v225 (subf : (⟨S1024x1x32, .f32⟩ : BufTy).Contents (Elt F) → (⟨S1024x1x32, .f32⟩ : BufTy).Contents (Elt F) → (⟨S1024x1x32, .f32⟩ : BufTy).Contents (Elt F)),
    StableHlo.nullary main_cst_27 (constant S_ .f32 0x00000000#32) ]

abbrev W4b : List (HloOp τ sig (Elt F)) :=
  [ StableHlo.binary main_v225 main_cst_27 main_v226 ((fun x v => Host.reduceAdd x v reducesTo_S1024x1x32_S1024x1_d2 h_S_) : (⟨S1024x1x32, .f32⟩ : BufTy).Contents (Elt F) → (⟨S_, .f32⟩ : BufTy).Contents (Elt F) → (⟨S1024x1, .f32⟩ : BufTy).Contents (Elt F)),
    StableHlo.nullary main_cst_28 (constant S_ .f32 0x3F000000#32),
    StableHlo.unary main_cst_28 main_v227 (broadcastInDim S1024x1 ![] bcast_S_S1024x1 : (⟨S_, .f32⟩ : BufTy).Contents (Elt F) → (⟨S1024x1, .f32⟩ : BufTy).Contents (Elt F)),
    StableHlo.binary main_v227 main_v226 main_v228 (mulf : (⟨S1024x1, .f32⟩ : BufTy).Contents (Elt F) → (⟨S1024x1, .f32⟩ : BufTy).Contents (Elt F) → (⟨S1024x1, .f32⟩ : BufTy).Contents (Elt F)),
    StableHlo.binary main_v215 main_v228 main_v229 (addf : (⟨S1024x1, .f32⟩ : BufTy).Contents (Elt F) → (⟨S1024x1, .f32⟩ : BufTy).Contents (Elt F) → (⟨S1024x1, .f32⟩ : BufTy).Contents (Elt F)),
    StableHlo.unary main_v229 main_v230 (Host.negf : (⟨S1024x1, .f32⟩ : BufTy).Contents (Elt F) → (⟨S1024x1, .f32⟩ : BufTy).Contents (Elt F)),
    StableHlo.unary main_v230 main_v231 (Host.exp : (⟨S1024x1, .f32⟩ : BufTy).Contents (Elt F) → (⟨S1024x1, .f32⟩ : BufTy).Contents (Elt F)),
    StableHlo.nullary main_cst_29 (constant S_ .f32 0x3F800000#32),
    StableHlo.unary main_cst_29 main_v232 (broadcastInDim S1024x1 ![] bcast_S_S1024x1 : (⟨S_, .f32⟩ : BufTy).Contents (Elt F) → (⟨S1024x1, .f32⟩ : BufTy).Contents (Elt F)),
    StableHlo.binary main_v232 main_v231 main_v233 (addf : (⟨S1024x1, .f32⟩ : BufTy).Contents (Elt F) → (⟨S1024x1, .f32⟩ : BufTy).Contents (Elt F) → (⟨S1024x1, .f32⟩ : BufTy).Contents (Elt F)),
    StableHlo.nullary main_cst_30 (constant S_ .f32 0x3F800000#32),
    StableHlo.unary main_cst_30 main_v234 (broadcastInDim S1024x1 ![] bcast_S_S1024x1 : (⟨S_, .f32⟩ : BufTy).Contents (Elt F) → (⟨S1024x1, .f32⟩ : BufTy).Contents (Elt F)),
    StableHlo.binary main_v234 main_v233 main_v235 (Host.divf : (⟨S1024x1, .f32⟩ : BufTy).Contents (Elt F) → (⟨S1024x1, .f32⟩ : BufTy).Contents (Elt F) → (⟨S1024x1, .f32⟩ : BufTy).Contents (Elt F)) ]

theorem W4_split : (W4 : List (HloOp τ sig (Elt F))) = W4a ++ W4b := rfl

set_option maxRecDepth 65536 in
set_option maxHeartbeats 8000000 in
theorem part4_split (c : Dev nD) : main_part4 (F := F) c = (part4_a c >>= fun _ => part4_b c) := rfl

set_option maxRecDepth 65536 in
set_option maxHeartbeats 8000000 in
theorem part4_a_eq (c : Dev nD) : part4_a (F := F) c = seq W4a := rfl

set_option maxRecDepth 65536 in
set_option maxHeartbeats 8000000 in
theorem part4_b_eq (c : Dev nD) : part4_b (F := F) c = seq W4b := rfl

theorem part4_eq (c : Dev nD) : main_part4 (F := F) c = seq W4 := by
  rw [part4_split, part4_a_eq, part4_b_eq, W4_split, seq_append]

/-- @main is the line of all its operations, listed field by field. -/
theorem main_eq (c : Dev nD) : main (F := F) c = seq opsF := by
  have h1 : main (F := F) c
      = (seq W0 >>= fun _ => seq W1 >>= fun _ => seq W2 >>= fun _ => seq W3 >>= fun _ => seq W4) := by
    rw [← part0_eq c, ← part1_eq c, ← part2_eq c, ← part3_eq c, ← part4_eq c]
    rfl
  have h2 : (seq opsW : Prog (TpuEff nD τ sig (Elt F) (Pipeline.Sig Λ₀ (Fin 0) fun p => (pcfgs (F := F) p).Adm) .tc) PUnit)
      = (seq W0 >>= fun _ => seq W1 >>= fun _ => seq W2 >>= fun _ => seq W3 >>= fun _ => seq W4) := by
    show seq (W0 ++ (W1 ++ (W2 ++ (W3 ++ W4)))) = _
    rw [seq_append, seq_append, seq_append, seq_append]
  rw [h1, ← h2, ops_eq]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.RefValue

end
-- ==== Proof.RefRun.lean ====
/-
  The reference's run.  Its operations, field by field, leave each field's linear term and looked-up rows as
  functions of the arguments and never write an argument; the closing operations then compute the result from
  those.  Hence every weakly fair execution of the program ends with the result buffer at `refOut` of the arguments
  and the arguments unchanged.
-/
import proofs.«205260_g26156350832969_cont_9to1_3_23_alg».proof.Proof.Gen.ReferenceIdeal
import Idealize.ShloMosaic.Lib.StableHlo.Run
import proofs.«205260_g26156350832969_cont_9to1_3_23_alg».proof.Proof.RefFieldsA
import proofs.«205260_g26156350832969_cont_9to1_3_23_alg».proof.Proof.RefFieldsB
import proofs.«205260_g26156350832969_cont_9to1_3_23_alg».proof.Proof.RefFieldsC
import proofs.«205260_g26156350832969_cont_9to1_3_23_alg».proof.Proof.RefFieldsD
import proofs.«205260_g26156350832969_cont_9to1_3_23_alg».proof.Proof.RefTail
import proofs.«205260_g26156350832969_cont_9to1_3_23_alg».proof.Proof.RefMainEq

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

theorem opsF_sub : (opsF : List (HloOp τ sig (Elt F))).Forall fun op => op.bufs ⊆ tcRefs τ sig :=
  forall_append F0_sub (forall_append F1_sub (forall_append F2_sub (forall_append F3_sub (forall_append F4_sub (forall_append F5_sub (forall_append F6_sub (forall_append F7_sub (forall_append F8_sub (forall_append F9_sub (forall_append F10_sub (forall_append F11_sub (forall_append F12_sub (forall_append F13_sub (forall_append F14_sub (forall_append F15_sub (forall_append F16_sub (forall_append F17_sub (forall_append F18_sub (forall_append F19_sub (forall_append F20_sub (forall_append F21_sub (forall_append F22_sub (forall_append F23_sub (forall_append F24_sub (forall_append F25_sub (Tl_sub))))))))))))))))))))))))))

theorem opsF_fresh : ∀ op ∈ (opsF : List (HloOp τ sig (Elt F))), op.fresh = ∅ :=
  List.forall_iff_forall_mem.mp (forall_append F0_fresh (forall_append F1_fresh (forall_append F2_fresh (forall_append F3_fresh (forall_append F4_fresh (forall_append F5_fresh (forall_append F6_fresh (forall_append F7_fresh (forall_append F8_fresh (forall_append F9_fresh (forall_append F10_fresh (forall_append F11_fresh (forall_append F12_fresh (forall_append F13_fresh (forall_append F14_fresh (forall_append F15_fresh (forall_append F16_fresh (forall_append F17_fresh (forall_append F18_fresh (forall_append F19_fresh (forall_append F20_fresh (forall_append F21_fresh (forall_append F22_fresh (forall_append F23_fresh (forall_append F24_fresh (forall_append F25_fresh (Tl_fresh)))))))))))))))))))))))))))

/-- A buffer no operation writes keeps its contents through the whole program. -/
theorem opsF_frame (V : Valuation τ sig (Elt F)) {r : Ref sig .tc} (h0 : r ∉ Wr0) (h1 : r ∉ Wr1) (h2 : r ∉ Wr2) (h3 : r ∉ Wr3) (h4 : r ∉ Wr4) (h5 : r ∉ Wr5) (h6 : r ∉ Wr6) (h7 : r ∉ Wr7) (h8 : r ∉ Wr8) (h9 : r ∉ Wr9) (h10 : r ∉ Wr10) (h11 : r ∉ Wr11) (h12 : r ∉ Wr12) (h13 : r ∉ Wr13) (h14 : r ∉ Wr14) (h15 : r ∉ Wr15) (h16 : r ∉ Wr16) (h17 : r ∉ Wr17) (h18 : r ∉ Wr18) (h19 : r ∉ Wr19) (h20 : r ∉ Wr20) (h21 : r ∉ Wr21) (h22 : r ∉ Wr22) (h23 : r ∉ Wr23) (h24 : r ∉ Wr24) (h25 : r ∉ Wr25) (hT : r ∉ WrT) :
    after opsF V (Proc.devRef .tc r) = V (Proc.devRef .tc r) := by
  show after (F0 ++ (F1 ++ (F2 ++ (F3 ++ (F4 ++ (F5 ++ (F6 ++ (F7 ++ (F8 ++ (F9 ++ (F10 ++ (F11 ++ (F12 ++ (F13 ++ (F14 ++ (F15 ++ (F16 ++ (F17 ++ (F18 ++ (F19 ++ (F20 ++ (F21 ++ (F22 ++ (F23 ++ (F24 ++ (F25 ++ (Tl))))))))))))))))))))))))))) V _ = _
  simp only [after_append']
  rw [Tl_frame _ hT, F25_frame _ h25, F24_frame _ h24, F23_frame _ h23, F22_frame _ h22, F21_frame _ h21, F20_frame _ h20, F19_frame _ h19, F18_frame _ h18, F17_frame _ h17, F16_frame _ h16, F15_frame _ h15, F14_frame _ h14, F13_frame _ h13, F12_frame _ h12, F11_frame _ h11, F10_frame _ h10, F9_frame _ h9, F8_frame _ h8, F7_frame _ h7, F6_frame _ h6, F5_frame _ h5, F4_frame _ h4, F3_frame _ h3, F2_frame _ h2, F1_frame _ h1, F0_frame _ h0]

theorem arg0_after (V : Valuation τ sig (Elt F)) : after opsF V (main_arg0 : DevRef τ sig) = V (main_arg0 : DevRef τ sig) :=
  opsF_frame V (r := main_arg0) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem arg1_after (V : Valuation τ sig (Elt F)) : after opsF V (main_arg1 : DevRef τ sig) = V (main_arg1 : DevRef τ sig) :=
  opsF_frame V (r := main_arg1) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem arg2_after (V : Valuation τ sig (Elt F)) : after opsF V (main_arg2 : DevRef τ sig) = V (main_arg2 : DevRef τ sig) :=
  opsF_frame V (r := main_arg2) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem arg3_after (V : Valuation τ sig (Elt F)) : after opsF V (main_arg3 : DevRef τ sig) = V (main_arg3 : DevRef τ sig) :=
  opsF_frame V (r := main_arg3) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem arg4_after (V : Valuation τ sig (Elt F)) : after opsF V (main_arg4 : DevRef τ sig) = V (main_arg4 : DevRef τ sig) :=
  opsF_frame V (r := main_arg4) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)
theorem arg5_after (V : Valuation τ sig (Elt F)) : after opsF V (main_arg5 : DevRef τ sig) = V (main_arg5 : DevRef τ sig) :=
  opsF_frame V (r := main_arg5) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide) (by decide)

set_option maxRecDepth 100000 in
set_option maxHeartbeats 16000000 in
/-- The result buffer after the whole program. -/
theorem out_after (V : Valuation τ sig (Elt F)) :
    after opsF V (main_v235 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  show after (F0 ++ (F1 ++ (F2 ++ (F3 ++ (F4 ++ (F5 ++ (F6 ++ (F7 ++ (F8 ++ (F9 ++ (F10 ++ (F11 ++ (F12 ++ (F13 ++ (F14 ++ (F15 ++ (F16 ++ (F17 ++ (F18 ++ (F19 ++ (F20 ++ (F21 ++ (F22 ++ (F23 ++ (F24 ++ (F25 ++ (Tl))))))))))))))))))))))))))) V _ = _
  -- field 0
  rw [after_append']
  generalize hV1 : after F0 V = V1
  have a0_1 : V1 (main_arg0 : DevRef τ sig) = V (main_arg0 : DevRef τ sig) := by
    rw [← hV1]; exact F0_frame V (r := main_arg0) (by decide)
  have a1_1 : V1 (main_arg1 : DevRef τ sig) = V (main_arg1 : DevRef τ sig) := by
    rw [← hV1]; exact F0_frame V (r := main_arg1) (by decide)
  have a2_1 : V1 (main_arg2 : DevRef τ sig) = V (main_arg2 : DevRef τ sig) := by
    rw [← hV1]; exact F0_frame V (r := main_arg2) (by decide)
  have a3_1 : V1 (main_arg3 : DevRef τ sig) = V (main_arg3 : DevRef τ sig) := by
    rw [← hV1]; exact F0_frame V (r := main_arg3) (by decide)
  have a4_1 : V1 (main_arg4 : DevRef τ sig) = V (main_arg4 : DevRef τ sig) := by
    rw [← hV1]; exact F0_frame V (r := main_arg4) (by decide)
  have a5_1 : V1 (main_arg5 : DevRef τ sig) = V (main_arg5 : DevRef τ sig) := by
    rw [← hV1]; exact F0_frame V (r := main_arg5) (by decide)
  have l0_1 : V1 (main_v4 : DevRef τ sig) = linOf (V (main_arg0 : DevRef τ sig)) (V (main_arg2 : DevRef τ sig)) ⟨0, by decide⟩ := by
    rw [← hV1, F0_lin V]; rfl
  have e0_1 : V1 (main_v7 : DevRef τ sig) = embOf (V (main_arg0 : DevRef τ sig)) (V (main_arg3 : DevRef τ sig)) ⟨0, by decide⟩ := by
    rw [← hV1, F0_emb V]; rfl
  clear hV1
  -- field 1
  rw [after_append']
  generalize hV2 : after F1 V1 = V2
  have a0_2 : V2 (main_arg0 : DevRef τ sig) = V (main_arg0 : DevRef τ sig) := by
    rw [← hV2]; exact (F1_frame V1 (r := main_arg0) (by decide)).trans a0_1
  have a1_2 : V2 (main_arg1 : DevRef τ sig) = V (main_arg1 : DevRef τ sig) := by
    rw [← hV2]; exact (F1_frame V1 (r := main_arg1) (by decide)).trans a1_1
  have a2_2 : V2 (main_arg2 : DevRef τ sig) = V (main_arg2 : DevRef τ sig) := by
    rw [← hV2]; exact (F1_frame V1 (r := main_arg2) (by decide)).trans a2_1
  have a3_2 : V2 (main_arg3 : DevRef τ sig) = V (main_arg3 : DevRef τ sig) := by
    rw [← hV2]; exact (F1_frame V1 (r := main_arg3) (by decide)).trans a3_1
  have a4_2 : V2 (main_arg4 : DevRef τ sig) = V (main_arg4 : DevRef τ sig) := by
    rw [← hV2]; exact (F1_frame V1 (r := main_arg4) (by decide)).trans a4_1
  have a5_2 : V2 (main_arg5 : DevRef τ sig) = V (main_arg5 : DevRef τ sig) := by
    rw [← hV2]; exact (F1_frame V1 (r := main_arg5) (by decide)).trans a5_1
  have l0_2 : V2 (main_v4 : DevRef τ sig) = linOf (V (main_arg0 : DevRef τ sig)) (V (main_arg2 : DevRef τ sig)) ⟨0, by decide⟩ := by
    rw [← hV2]; exact (F1_frame V1 (r := main_v4) (by decide)).trans l0_1
  have e0_2 : V2 (main_v7 : DevRef τ sig) = embOf (V (main_arg0 : DevRef τ sig)) (V (main_arg3 : DevRef τ sig)) ⟨0, by decide⟩ := by
    rw [← hV2]; exact (F1_frame V1 (r := main_v7) (by decide)).trans e0_1
  have l1_2 : V2 (main_v12 : DevRef τ sig) = linOf (V (main_arg0 : DevRef τ sig)) (V (main_arg2 : DevRef τ sig)) ⟨1, by decide⟩ := by
    rw [← hV2, F1_lin V1, a0_1, a2_1]; rfl
  have e1_2 : V2 (main_v15 : DevRef τ sig) = embOf (V (main_arg0 : DevRef τ sig)) (V (main_arg3 : DevRef τ sig)) ⟨1, by decide⟩ := by
    rw [← hV2, F1_emb V1, a0_1, a3_1]; rfl
  clear hV2 a0_1 a1_1 a2_1 a3_1 a4_1 a5_1 l0_1 e0_1
  -- field 2
  rw [after_append']
  generalize hV3 : after F2 V2 = V3
  have a0_3 : V3 (main_arg0 : DevRef τ sig) = V (main_arg0 : DevRef τ sig) := by
    rw [← hV3]; exact (F2_frame V2 (r := main_arg0) (by decide)).trans a0_2
  have a1_3 : V3 (main_arg1 : DevRef τ sig) = V (main_arg1 : DevRef τ sig) := by
    rw [← hV3]; exact (F2_frame V2 (r := main_arg1) (by decide)).trans a1_2
  have a2_3 : V3 (main_arg2 : DevRef τ sig) = V (main_arg2 : DevRef τ sig) := by
    rw [← hV3]; exact (F2_frame V2 (r := main_arg2) (by decide)).trans a2_2
  have a3_3 : V3 (main_arg3 : DevRef τ sig) = V (main_arg3 : DevRef τ sig) := by
    rw [← hV3]; exact (F2_frame V2 (r := main_arg3) (by decide)).trans a3_2
  have a4_3 : V3 (main_arg4 : DevRef τ sig) = V (main_arg4 : DevRef τ sig) := by
    rw [← hV3]; exact (F2_frame V2 (r := main_arg4) (by decide)).trans a4_2
  have a5_3 : V3 (main_arg5 : DevRef τ sig) = V (main_arg5 : DevRef τ sig) := by
    rw [← hV3]; exact (F2_frame V2 (r := main_arg5) (by decide)).trans a5_2
  have l0_3 : V3 (main_v4 : DevRef τ sig) = linOf (V (main_arg0 : DevRef τ sig)) (V (main_arg2 : DevRef τ sig)) ⟨0, by decide⟩ := by
    rw [← hV3]; exact (F2_frame V2 (r := main_v4) (by decide)).trans l0_2
  have e0_3 : V3 (main_v7 : DevRef τ sig) = embOf (V (main_arg0 : DevRef τ sig)) (V (main_arg3 : DevRef τ sig)) ⟨0, by decide⟩ := by
    rw [← hV3]; exact (F2_frame V2 (r := main_v7) (by decide)).trans e0_2
  have l1_3 : V3 (main_v12 : DevRef τ sig) = linOf (V (main_arg0 : DevRef τ sig)) (V (main_arg2 : DevRef τ sig)) ⟨1, by decide⟩ := by
    rw [← hV3]; exact (F2_frame V2 (r := main_v12) (by decide)).trans l1_2
  have e1_3 : V3 (main_v15 : DevRef τ sig) = embOf (V (main_arg0 : DevRef τ sig)) (V (main_arg3 : DevRef τ sig)) ⟨1, by decide⟩ := by
    rw [← hV3]; exact (F2_frame V2 (r := main_v15) (by decide)).trans e1_2
  have l2_3 : V3 (main_v20 : DevRef τ sig) = linOf (V (main_arg0 : DevRef τ sig)) (V (main_arg2 : DevRef τ sig)) ⟨2, by decide⟩ := by
    rw [← hV3, F2_lin V2, a0_2, a2_2]; rfl
  have e2_3 : V3 (main_v23 : DevRef τ sig) = embOf (V (main_arg0 : DevRef τ sig)) (V (main_arg3 : DevRef τ sig)) ⟨2, by decide⟩ := by
    rw [← hV3, F2_emb V2, a0_2, a3_2]; rfl
  clear hV3 a0_2 a1_2 a2_2 a3_2 a4_2 a5_2 l0_2 e0_2 l1_2 e1_2
  -- field 3
  rw [after_append']
  generalize hV4 : after F3 V3 = V4
  have a0_4 : V4 (main_arg0 : DevRef τ sig) = V (main_arg0 : DevRef τ sig) := by
    rw [← hV4]; exact (F3_frame V3 (r := main_arg0) (by decide)).trans a0_3
  have a1_4 : V4 (main_arg1 : DevRef τ sig) = V (main_arg1 : DevRef τ sig) := by
    rw [← hV4]; exact (F3_frame V3 (r := main_arg1) (by decide)).trans a1_3
  have a2_4 : V4 (main_arg2 : DevRef τ sig) = V (main_arg2 : DevRef τ sig) := by
    rw [← hV4]; exact (F3_frame V3 (r := main_arg2) (by decide)).trans a2_3
  have a3_4 : V4 (main_arg3 : DevRef τ sig) = V (main_arg3 : DevRef τ sig) := by
    rw [← hV4]; exact (F3_frame V3 (r := main_arg3) (by decide)).trans a3_3
  have a4_4 : V4 (main_arg4 : DevRef τ sig) = V (main_arg4 : DevRef τ sig) := by
    rw [← hV4]; exact (F3_frame V3 (r := main_arg4) (by decide)).trans a4_3
  have a5_4 : V4 (main_arg5 : DevRef τ sig) = V (main_arg5 : DevRef τ sig) := by
    rw [← hV4]; exact (F3_frame V3 (r := main_arg5) (by decide)).trans a5_3
  have l0_4 : V4 (main_v4 : DevRef τ sig) = linOf (V (main_arg0 : DevRef τ sig)) (V (main_arg2 : DevRef τ sig)) ⟨0, by decide⟩ := by
    rw [← hV4]; exact (F3_frame V3 (r := main_v4) (by decide)).trans l0_3
  have e0_4 : V4 (main_v7 : DevRef τ sig) = embOf (V (main_arg0 : DevRef τ sig)) (V (main_arg3 : DevRef τ sig)) ⟨0, by decide⟩ := by
    rw [← hV4]; exact (F3_frame V3 (r := main_v7) (by decide)).trans e0_3
  have l1_4 : V4 (main_v12 : DevRef τ sig) = linOf (V (main_arg0 : DevRef τ sig)) (V (main_arg2 : DevRef τ sig)) ⟨1, by decide⟩ := by
    rw [← hV4]; exact (F3_frame V3 (r := main_v12) (by decide)).trans l1_3
  have e1_4 : V4 (main_v15 : DevRef τ sig) = embOf (V (main_arg0 : DevRef τ sig)) (V (main_arg3 : DevRef τ sig)) ⟨1, by decide⟩ := by
    rw [← hV4]; exact (F3_frame V3 (r := main_v15) (by decide)).trans e1_3
  have l2_4 : V4 (main_v20 : DevRef τ sig) = linOf (V (main_arg0 : DevRef τ sig)) (V (main_arg2 : DevRef τ sig)) ⟨2, by decide⟩ := by
    rw [← hV4]; exact (F3_frame V3 (r := main_v20) (by decide)).trans l2_3
  have e2_4 : V4 (main_v23 : DevRef τ sig) = embOf (V (main_arg0 : DevRef τ sig)) (V (main_arg3 : DevRef τ sig)) ⟨2, by decide⟩ := by
    rw [← hV4]; exact (F3_frame V3 (r := main_v23) (by decide)).trans e2_3
  have l3_4 : V4 (main_v28 : DevRef τ sig) = linOf (V (main_arg0 : DevRef τ sig)) (V (main_arg2 : DevRef τ sig)) ⟨3, by decide⟩ := by
    rw [← hV4, F3_lin V3, a0_3, a2_3]; rfl
  have e3_4 : V4 (main_v31 : DevRef τ sig) = embOf (V (main_arg0 : DevRef τ sig)) (V (main_arg3 : DevRef τ sig)) ⟨3, by decide⟩ := by
    rw [← hV4, F3_emb V3, a0_3, a3_3]; rfl
  clear hV4 a0_3 a1_3 a2_3 a3_3 a4_3 a5_3 l0_3 e0_3 l1_3 e1_3 l2_3 e2_3
  -- field 4
  rw [after_append']
  generalize hV5 : after F4 V4 = V5
  have a0_5 : V5 (main_arg0 : DevRef τ sig) = V (main_arg0 : DevRef τ sig) := by
    rw [← hV5]; exact (F4_frame V4 (r := main_arg0) (by decide)).trans a0_4
  have a1_5 : V5 (main_arg1 : DevRef τ sig) = V (main_arg1 : DevRef τ sig) := by
    rw [← hV5]; exact (F4_frame V4 (r := main_arg1) (by decide)).trans a1_4
  have a2_5 : V5 (main_arg2 : DevRef τ sig) = V (main_arg2 : DevRef τ sig) := by
    rw [← hV5]; exact (F4_frame V4 (r := main_arg2) (by decide)).trans a2_4
  have a3_5 : V5 (main_arg3 : DevRef τ sig) = V (main_arg3 : DevRef τ sig) := by
    rw [← hV5]; exact (F4_frame V4 (r := main_arg3) (by decide)).trans a3_4
  have a4_5 : V5 (main_arg4 : DevRef τ sig) = V (main_arg4 : DevRef τ sig) := by
    rw [← hV5]; exact (F4_frame V4 (r := main_arg4) (by decide)).trans a4_4
  have a5_5 : V5 (main_arg5 : DevRef τ sig) = V (main_arg5 : DevRef τ sig) := by
    rw [← hV5]; exact (F4_frame V4 (r := main_arg5) (by decide)).trans a5_4
  have l0_5 : V5 (main_v4 : DevRef τ sig) = linOf (V (main_arg0 : DevRef τ sig)) (V (main_arg2 : DevRef τ sig)) ⟨0, by decide⟩ := by
    rw [← hV5]; exact (F4_frame V4 (r := main_v4) (by decide)).trans l0_4
  have e0_5 : V5 (main_v7 : DevRef τ sig) = embOf (V (main_arg0 : DevRef τ sig)) (V (main_arg3 : DevRef τ sig)) ⟨0, by decide⟩ := by
    rw [← hV5]; exact (F4_frame V4 (r := main_v7) (by decide)).trans e0_4
  have l1_5 : V5 (main_v12 : DevRef τ sig) = linOf (V (main_arg0 : DevRef τ sig)) (V (main_arg2 : DevRef τ sig)) ⟨1, by decide⟩ := by
    rw [← hV5]; exact (F4_frame V4 (r := main_v12) (by decide)).trans l1_4
  have e1_5 : V5 (main_v15 : DevRef τ sig) = embOf (V (main_arg0 : DevRef τ sig)) (V (main_arg3 : DevRef τ sig)) ⟨1, by decide⟩ := by
    rw [← hV5]; exact (F4_frame V4 (r := main_v15) (by decide)).trans e1_4
  have l2_5 : V5 (main_v20 : DevRef τ sig) = linOf (V (main_arg0 : DevRef τ sig)) (V (main_arg2 : DevRef τ sig)) ⟨2, by decide⟩ := by
    rw [← hV5]; exact (F4_frame V4 (r := main_v20) (by decide)).trans l2_4
  have e2_5 : V5 (main_v23 : DevRef τ sig) = embOf (V (main_arg0 : DevRef τ sig)) (V (main_arg3 : DevRef τ sig)) ⟨2, by decide⟩ := by
    rw [← hV5]; exact (F4_frame V4 (r := main_v23) (by decide)).trans e2_4
  have l3_5 : V5 (main_v28 : DevRef τ sig) = linOf (V (main_arg0 : DevRef τ sig)) (V (main_arg2 : DevRef τ sig)) ⟨3, by decide⟩ := by
    rw [← hV5]; exact (F4_frame V4 (r := main_v28) (by decide)).trans l3_4
  have e3_5 : V5 (main_v31 : DevRef τ sig) = embOf (V (main_arg0 : DevRef τ sig)) (V (main_arg3 : DevRef τ sig)) ⟨3, by decide⟩ := by
    rw [← hV5]; exact (F4_frame V4 (r := main_v31) (by decide)).trans e3_4
  have l4_5 : V5 (main_v36 : DevRef τ sig) = linOf (V (main_arg0 : DevRef τ sig)) (V (main_arg2 : DevRef τ sig)) ⟨4, by decide⟩ := by
    rw [← hV5, F4_lin V4, a0_4, a2_4]; rfl
  have e4_5 : V5 (main_v39 : DevRef τ sig) = embOf (V (main_arg0 : DevRef τ sig)) (V (main_arg3 : DevRef τ sig)) ⟨4, by decide⟩ := by
    rw [← hV5, F4_emb V4, a0_4, a3_4]; rfl
  clear hV5 a0_4 a1_4 a2_4 a3_4 a4_4 a5_4 l0_4 e0_4 l1_4 e1_4 l2_4 e2_4 l3_4 e3_4
  -- field 5
  rw [after_append']
  generalize hV6 : after F5 V5 = V6
  have a0_6 : V6 (main_arg0 : DevRef τ sig) = V (main_arg0 : DevRef τ sig) := by
    rw [← hV6]; exact (F5_frame V5 (r := main_arg0) (by decide)).trans a0_5
  have a1_6 : V6 (main_arg1 : DevRef τ sig) = V (main_arg1 : DevRef τ sig) := by
    rw [← hV6]; exact (F5_frame V5 (r := main_arg1) (by decide)).trans a1_5
  have a2_6 : V6 (main_arg2 : DevRef τ sig) = V (main_arg2 : DevRef τ sig) := by
    rw [← hV6]; exact (F5_frame V5 (r := main_arg2) (by decide)).trans a2_5
  have a3_6 : V6 (main_arg3 : DevRef τ sig) = V (main_arg3 : DevRef τ sig) := by
    rw [← hV6]; exact (F5_frame V5 (r := main_arg3) (by decide)).trans a3_5
  have a4_6 : V6 (main_arg4 : DevRef τ sig) = V (main_arg4 : DevRef τ sig) := by
    rw [← hV6]; exact (F5_frame V5 (r := main_arg4) (by decide)).trans a4_5
  have a5_6 : V6 (main_arg5 : DevRef τ sig) = V (main_arg5 : DevRef τ sig) := by
    rw [← hV6]; exact (F5_frame V5 (r := main_arg5) (by decide)).trans a5_5
  have l0_6 : V6 (main_v4 : DevRef τ sig) = linOf (V (main_arg0 : DevRef τ sig)) (V (main_arg2 : DevRef τ sig)) ⟨0, by decide⟩ := by
    rw [← hV6]; exact (F5_frame V5 (r := main_v4) (by decide)).trans l0_5
  have e0_6 : V6 (main_v7 : DevRef τ sig) = embOf (V (main_arg0 : DevRef τ sig)) (V (main_arg3 : DevRef τ sig)) ⟨0, by decide⟩ := by
    rw [← hV6]; exact (F5_frame V5 (r := main_v7) (by decide)).trans e0_5
  have l1_6 : V6 (main_v12 : DevRef τ sig) = linOf (V (main_arg0 : DevRef τ sig)) (V (main_arg2 : DevRef τ sig)) ⟨1, by decide⟩ := by
    rw [← hV6]; exact (F5_frame V5 (r := main_v12) (by decide)).trans l1_5
  have e1_6 : V6 (main_v15 : DevRef τ sig) = embOf (V (main_arg0 : DevRef τ sig)) (V (main_arg3 : DevRef τ sig)) ⟨1, by decide⟩ := by
    rw [← hV6]; exact (F5_frame V5 (r := main_v15) (by decide)).trans e1_5
  have l2_6 : V6 (main_v20 : DevRef τ sig) = linOf (V (main_arg0 : DevRef τ sig)) (V (main_arg2 : DevRef τ sig)) ⟨2, by decide⟩ := by
    rw [← hV6]; exact (F5_frame V5 (r := main_v20) (by decide)).trans l2_5
  have e2_6 : V6 (main_v23 : DevRef τ sig) = embOf (V (main_arg0 : DevRef τ sig)) (V (main_arg3 : DevRef τ sig)) ⟨2, by decide⟩ := by
    rw [← hV6]; exact (F5_frame V5 (r := main_v23) (by decide)).trans e2_5
  have l3_6 : V6 (main_v28 : DevRef τ sig) = linOf (V (main_arg0 : DevRef τ sig)) (V (main_arg2 : DevRef τ sig)) ⟨3, by decide⟩ := by
    rw [← hV6]; exact (F5_frame V5 (r := main_v28) (by decide)).trans l3_5
  have e3_6 : V6 (main_v31 : DevRef τ sig) = embOf (V (main_arg0 : DevRef τ sig)) (V (main_arg3 : DevRef τ sig)) ⟨3, by decide⟩ := by
    rw [← hV6]; exact (F5_frame V5 (r := main_v31) (by decide)).trans e3_5
  have l4_6 : V6 (main_v36 : DevRef τ sig) = linOf (V (main_arg0 : DevRef τ sig)) (V (main_arg2 : DevRef τ sig)) ⟨4, by decide⟩ := by
    rw [← hV6]; exact (F5_frame V5 (r := main_v36) (by decide)).trans l4_5
  have e4_6 : V6 (main_v39 : DevRef τ sig) = embOf (V (main_arg0 : DevRef τ sig)) (V (main_arg3 : DevRef τ sig)) ⟨4, by decide⟩ := by
    rw [← hV6]; exact (F5_frame V5 (r := main_v39) (by decide)).trans e4_5
  have l5_6 : V6 (main_v44 : DevRef τ sig) = linOf (V (main_arg0 : DevRef τ sig)) (V (main_arg2 : DevRef τ sig)) ⟨5, by decide⟩ := by
    rw [← hV6, F5_lin V5, a0_5, a2_5]; rfl
  have e5_6 : V6 (main_v47 : DevRef τ sig) = embOf (V (main_arg0 : DevRef τ sig)) (V (main_arg3 : DevRef τ sig)) ⟨5, by decide⟩ := by
    rw [← hV6, F5_emb V5, a0_5, a3_5]; rfl
  clear hV6 a0_5 a1_5 a2_5 a3_5 a4_5 a5_5 l0_5 e0_5 l1_5 e1_5 l2_5 e2_5 l3_5 e3_5 l4_5 e4_5
  -- field 6
  rw [after_append']
  generalize hV7 : after F6 V6 = V7
  have a0_7 : V7 (main_arg0 : DevRef τ sig) = V (main_arg0 : DevRef τ sig) := by
    rw [← hV7]; exact (F6_frame V6 (r := main_arg0) (by decide)).trans a0_6
  have a1_7 : V7 (main_arg1 : DevRef τ sig) = V (main_arg1 : DevRef τ sig) := by
    rw [← hV7]; exact (F6_frame V6 (r := main_arg1) (by decide)).trans a1_6
  have a2_7 : V7 (main_arg2 : DevRef τ sig) = V (main_arg2 : DevRef τ sig) := by
    rw [← hV7]; exact (F6_frame V6 (r := main_arg2) (by decide)).trans a2_6
  have a3_7 : V7 (main_arg3 : DevRef τ sig) = V (main_arg3 : DevRef τ sig) := by
    rw [← hV7]; exact (F6_frame V6 (r := main_arg3) (by decide)).trans a3_6
  have a4_7 : V7 (main_arg4 : DevRef τ sig) = V (main_arg4 : DevRef τ sig) := by
    rw [← hV7]; exact (F6_frame V6 (r := main_arg4) (by decide)).trans a4_6
  have a5_7 : V7 (main_arg5 : DevRef τ sig) = V (main_arg5 : DevRef τ sig) := by
    rw [← hV7]; exact (F6_frame V6 (r := main_arg5) (by decide)).trans a5_6
  have l0_7 : V7 (main_v4 : DevRef τ sig) = linOf (V (main_arg0 : DevRef τ sig)) (V (main_arg2 : DevRef τ sig)) ⟨0, by decide⟩ := by
    rw [← hV7]; exact (F6_frame V6 (r := main_v4) (by decide)).trans l0_6
  have e0_7 : V7 (main_v7 : DevRef τ sig) = embOf (V (main_arg0 : DevRef τ sig)) (V (main_arg3 : DevRef τ sig)) ⟨0, by decide⟩ := by
    rw [← hV7]; exact (F6_frame V6 (r := main_v7) (by decide)).trans e0_6
  have l1_7 : V7 (main_v12 : DevRef τ sig) = linOf (V (main_arg0 : DevRef τ sig)) (V (main_arg2 : DevRef τ sig)) ⟨1, by decide⟩ := by
    rw [← hV7]; exact (F6_frame V6 (r := main_v12) (by decide)).trans l1_6
  have e1_7 : V7 (main_v15 : DevRef τ sig) = embOf (V (main_arg0 : DevRef τ sig)) (V (main_arg3 : DevRef τ sig)) ⟨1, by decide⟩ := by
    rw [← hV7]; exact (F6_frame V6 (r := main_v15) (by decide)).trans e1_6
  have l2_7 : V7 (main_v20 : DevRef τ sig) = linOf (V (main_arg0 : DevRef τ sig)) (V (main_arg2 : DevRef τ sig)) ⟨2, by decide⟩ := by
    rw [← hV7]; exact (F6_frame V6 (r := main_v20) (by decide)).trans l2_6
  have e2_7 : V7 (main_v23 : DevRef τ sig) = embOf (V (main_arg0 : DevRef τ sig)) (V (main_arg3 : DevRef τ sig)) ⟨2, by decide⟩ := by
    rw [← hV7]; exact (F6_frame V6 (r := main_v23) (by decide)).trans e2_6
  have l3_7 : V7 (main_v28 : DevRef τ sig) = linOf (V (main_arg0 : DevRef τ sig)) (V (main_arg2 : DevRef τ sig)) ⟨3, by decide⟩ := by
    rw [← hV7]; exact (F6_frame V6 (r := main_v28) (by decide)).trans l3_6
  have e3_7 : V7 (main_v31 : DevRef τ sig) = embOf (V (main_arg0 : DevRef τ sig)) (V (main_arg3 : DevRef τ sig)) ⟨3, by decide⟩ := by
    rw [← hV7]; exact (F6_frame V6 (r := main_v31) (by decide)).trans e3_6
  have l4_7 : V7 (main_v36 : DevRef τ sig) = linOf (V (main_arg0 : DevRef τ sig)) (V (main_arg2 : DevRef τ sig)) ⟨4, by decide⟩ := by
    rw [← hV7]; exact (F6_frame V6 (r := main_v36) (by decide)).trans l4_6
  have e4_7 : V7 (main_v39 : DevRef τ sig) = embOf (V (main_arg0 : DevRef τ sig)) (V (main_arg3 : DevRef τ sig)) ⟨4, by decide⟩ := by
    rw [← hV7]; exact (F6_frame V6 (r := main_v39) (by decide)).trans e4_6
  have l5_7 : V7 (main_v44 : DevRef τ sig) = linOf (V (main_arg0 : DevRef τ sig)) (V (main_arg2 : DevRef τ sig)) ⟨5, by decide⟩ := by
    rw [← hV7]; exact (F6_frame V6 (r := main_v44) (by decide)).trans l5_6
  have e5_7 : V7 (main_v47 : DevRef τ sig) = embOf (V (main_arg0 : DevRef τ sig)) (V (main_arg3 : DevRef τ sig)) ⟨5, by decide⟩ := by
    rw [← hV7]; exact (F6_frame V6 (r := main_v47) (by decide)).trans e5_6
  have l6_7 : V7 (main_v52 : DevRef τ sig) = linOf (V (main_arg0 : DevRef τ sig)) (V (main_arg2 : DevRef τ sig)) ⟨6, by decide⟩ := by
    rw [← hV7, F6_lin V6, a0_6, a2_6]; rfl
  have e6_7 : V7 (main_v55 : DevRef τ sig) = embOf (V (main_arg0 : DevRef τ sig)) (V (main_arg3 : DevRef τ sig)) ⟨6, by decide⟩ := by
    rw [← hV7, F6_emb V6, a0_6, a3_6]; rfl
  clear hV7 a0_6 a1_6 a2_6 a3_6 a4_6 a5_6 l0_6 e0_6 l1_6 e1_6 l2_6 e2_6 l3_6 e3_6 l4_6 e4_6 l5_6 e5_6
  -- field 7
  rw [after_append']
  generalize hV8 : after F7 V7 = V8
  have a0_8 : V8 (main_arg0 : DevRef τ sig) = V (main_arg0 : DevRef τ sig) := by
    rw [← hV8]; exact (F7_frame V7 (r := main_arg0) (by decide)).trans a0_7
  have a1_8 : V8 (main_arg1 : DevRef τ sig) = V (main_arg1 : DevRef τ sig) := by
    rw [← hV8]; exact (F7_frame V7 (r := main_arg1) (by decide)).trans a1_7
  have a2_8 : V8 (main_arg2 : DevRef τ sig) = V (main_arg2 : DevRef τ sig) := by
    rw [← hV8]; exact (F7_frame V7 (r := main_arg2) (by decide)).trans a2_7
  have a3_8 : V8 (main_arg3 : DevRef τ sig) = V (main_arg3 : DevRef τ sig) := by
    rw [← hV8]; exact (F7_frame V7 (r := main_arg3) (by decide)).trans a3_7
  have a4_8 : V8 (main_arg4 : DevRef τ sig) = V (main_arg4 : DevRef τ sig) := by
    rw [← hV8]; exact (F7_frame V7 (r := main_arg4) (by decide)).trans a4_7
  have a5_8 : V8 (main_arg5 : DevRef τ sig) = V (main_arg5 : DevRef τ sig) := by
    rw [← hV8]; exact (F7_frame V7 (r := main_arg5) (by decide)).trans a5_7
  have l0_8 : V8 (main_v4 : DevRef τ sig) = linOf (V (main_arg0 : DevRef τ sig)) (V (main_arg2 : DevRef τ sig)) ⟨0, by decide⟩ := by
    rw [← hV8]; exact (F7_frame V7 (r := main_v4) (by decide)).trans l0_7
  have e0_8 : V8 (main_v7 : DevRef τ sig) = embOf (V (main_arg0 : DevRef τ sig)) (V (main_arg3 : DevRef τ sig)) ⟨0, by decide⟩ := by
    rw [← hV8]; exact (F7_frame V7 (r := main_v7) (by decide)).trans e0_7
  have l1_8 : V8 (main_v12 : DevRef τ sig) = linOf (V (main_arg0 : DevRef τ sig)) (V (main_arg2 : DevRef τ sig)) ⟨1, by decide⟩ := by
    rw [← hV8]; exact (F7_frame V7 (r := main_v12) (by decide)).trans l1_7
  have e1_8 : V8 (main_v15 : DevRef τ sig) = embOf (V (main_arg0 : DevRef τ sig)) (V (main_arg3 : DevRef τ sig)) ⟨1, by decide⟩ := by
    rw [← hV8]; exact (F7_frame V7 (r := main_v15) (by decide)).trans e1_7
  have l2_8 : V8 (main_v20 : DevRef τ sig) = linOf (V (main_arg0 : DevRef τ sig)) (V (main_arg2 : DevRef τ sig)) ⟨2, by decide⟩ := by
    rw [← hV8]; exact (F7_frame V7 (r := main_v20) (by decide)).trans l2_7
  have e2_8 : V8 (main_v23 : DevRef τ sig) = embOf (V (main_arg0 : DevRef τ sig)) (V (main_arg3 : DevRef τ sig)) ⟨2, by decide⟩ := by
    rw [← hV8]; exact (F7_frame V7 (r := main_v23) (by decide)).trans e2_7
  have l3_8 : V8 (main_v28 : DevRef τ sig) = linOf (V (main_arg0 : DevRef τ sig)) (V (main_arg2 : DevRef τ sig)) ⟨3, by decide⟩ := by
    rw [← hV8]; exact (F7_frame V7 (r := main_v28) (by decide)).trans l3_7
  have e3_8 : V8 (main_v31 : DevRef τ sig) = embOf (V (main_arg0 : DevRef τ sig)) (V (main_arg3 : DevRef τ sig)) ⟨3, by decide⟩ := by
    rw [← hV8]; exact (F7_frame V7 (r := main_v31) (by decide)).trans e3_7
  have l4_8 : V8 (main_v36 : DevRef τ sig) = linOf (V (main_arg0 : DevRef τ sig)) (V (main_arg2 : DevRef τ sig)) ⟨4, by decide⟩ := by
    rw [← hV8]; exact (F7_frame V7 (r := main_v36) (by decide)).trans l4_7
  have e4_8 : V8 (main_v39 : DevRef τ sig) = embOf (V (main_arg0 : DevRef τ sig)) (V (main_arg3 : DevRef τ sig)) ⟨4, by decide⟩ := by
    rw [← hV8]; exact (F7_frame V7 (r := main_v39) (by decide)).trans e4_7
  have l5_8 : V8 (main_v44 : DevRef τ sig) = linOf (V (main_arg0 : DevRef τ sig)) (V (main_arg2 : DevRef τ sig)) ⟨5, by decide⟩ := by
    rw [← hV8]; exact (F7_frame V7 (r := main_v44) (by decide)).trans l5_7
  have e5_8 : V8 (main_v47 : DevRef τ sig) = embOf (V (main_arg0 : DevRef τ sig)) (V (main_arg3 : DevRef τ sig)) ⟨5, by decide⟩ := by
    rw [← hV8]; exact (F7_frame V7 (r := main_v47) (by decide)).trans e5_7
  have l6_8 : V8 (main_v52 : DevRef τ sig) = linOf (V (main_arg0 : DevRef τ sig)) (V (main_arg2 : DevRef τ sig)) ⟨6, by decide⟩ := by
    rw [← hV8]; exact (F7_frame V7 (r := main_v52) (by decide)).trans l6_7
  have e6_8 : V8 (main_v55 : DevRef τ sig) = embOf (V (main_arg0 : DevRef τ sig)) (V (main_arg3 : DevRef τ sig)) ⟨6, by decide⟩ := by
    rw [← hV8]; exact (F7_frame V7 (r := main_v55) (by decide)).trans e6_7
  have l7_8 : V8 (main_v60 : DevRef τ sig) = linOf (V (main_arg0 : DevRef τ sig)) (V (main_arg2 : DevRef τ sig)) ⟨7, by decide⟩ := by
    rw [← hV8, F7_lin V7, a0_7, a2_7]; rfl
  have e7_8 : V8 (main_v63 : DevRef τ sig) = embOf (V (main_arg0 : DevRef τ sig)) (V (main_arg3 : DevRef τ sig)) ⟨7, by decide⟩ := by
    rw [← hV8, F7_emb V7, a0_7, a3_7]; rfl
  clear hV8 a0_7 a1_7 a2_7 a3_7 a4_7 a5_7 l0_7 e0_7 l1_7 e1_7 l2_7 e2_7 l3_7 e3_7 l4_7 e4_7 l5_7 e5_7 l6_7 e6_7
  -- field 8
  rw [after_append']
  generalize hV9 : after F8 V8 = V9
  have a0_9 : V9 (main_arg0 : DevRef τ sig) = V (main_arg0 : DevRef τ sig) := by
    rw [← hV9]; exact (F8_frame V8 (r := main_arg0) (by decide)).trans a0_8
  have a1_9 : V9 (main_arg1 : DevRef τ sig) = V (main_arg1 : DevRef τ sig) := by
    rw [← hV9]; exact (F8_frame V8 (r := main_arg1) (by decide)).trans a1_8
  have a2_9 : V9 (main_arg2 : DevRef τ sig) = V (main_arg2 : DevRef τ sig) := by
    rw [← hV9]; exact (F8_frame V8 (r := main_arg2) (by decide)).trans a2_8
  have a3_9 : V9 (main_arg3 : DevRef τ sig) = V (main_arg3 : DevRef τ sig) := by
    rw [← hV9]; exact (F8_frame V8 (r := main_arg3) (by decide)).trans a3_8
  have a4_9 : V9 (main_arg4 : DevRef τ sig) = V (main_arg4 : DevRef τ sig) := by
    rw [← hV9]; exact (F8_frame V8 (r := main_arg4) (by decide)).trans a4_8
  have a5_9 : V9 (main_arg5 : DevRef τ sig) = V (main_arg5 : DevRef τ sig) := by
    rw [← hV9]; exact (F8_frame V8 (r := main_arg5) (by decide)).trans a5_8
  have l0_9 : V9 (main_v4 : DevRef τ sig) = linOf (V (main_arg0 : DevRef τ sig)) (V (main_arg2 : DevRef τ sig)) ⟨0, by decide⟩ := by
    rw [← hV9]; exact (F8_frame V8 (r := main_v4) (by decide)).trans l0_8
  have e0_9 : V9 (main_v7 : DevRef τ sig) = embOf (V (main_arg0 : DevRef τ sig)) (V (main_arg3 : DevRef τ sig)) ⟨0, by decide⟩ := by
    rw [← hV9]; exact (F8_frame V8 (r := main_v7) (by decide)).trans e0_8
  have l1_9 : V9 (main_v12 : DevRef τ sig) = linOf (V (main_arg0 : DevRef τ sig)) (V (main_arg2 : DevRef τ sig)) ⟨1, by decide⟩ := by
    rw [← hV9]; exact (F8_frame V8 (r := main_v12) (by decide)).trans l1_8
  have e1_9 : V9 (main_v15 : DevRef τ sig) = embOf (V (main_arg0 : DevRef τ sig)) (V (main_arg3 : DevRef τ sig)) ⟨1, by decide⟩ := by
    rw [← hV9]; exact (F8_frame V8 (r := main_v15) (by decide)).trans e1_8
  have l2_9 : V9 (main_v20 : DevRef τ sig) = linOf (V (main_arg0 : DevRef τ sig)) (V (main_arg2 : DevRef τ sig)) ⟨2, by decide⟩ := by
    rw [← hV9]; exact (F8_frame V8 (r := main_v20) (by decide)).trans l2_8
  have e2_9 : V9 (main_v23 : DevRef τ sig) = embOf (V (main_arg0 : DevRef τ sig)) (V (main_arg3 : DevRef τ sig)) ⟨2, by decide⟩ := by
    rw [← hV9]; exact (F8_frame V8 (r := main_v23) (by decide)).trans e2_8
  have l3_9 : V9 (main_v28 : DevRef τ sig) = linOf (V (main_arg0 : DevRef τ sig)) (V (main_arg2 : DevRef τ sig)) ⟨3, by decide⟩ := by
    rw [← hV9]; exact (F8_frame V8 (r := main_v28) (by decide)).trans l3_8
  have e3_9 : V9 (main_v31 : DevRef τ sig) = embOf (V (main_arg0 : DevRef τ sig)) (V (main_arg3 : DevRef τ sig)) ⟨3, by decide⟩ := by
    rw [← hV9]; exact (F8_frame V8 (r := main_v31) (by decide)).trans e3_8
  have l4_9 : V9 (main_v36 : DevRef τ sig) = linOf (V (main_arg0 : DevRef τ sig)) (V (main_arg2 : DevRef τ sig)) ⟨4, by decide⟩ := by
    rw [← hV9]; exact (F8_frame V8 (r := main_v36) (by decide)).trans l4_8
  have e4_9 : V9 (main_v39 : DevRef τ sig) = embOf (V (main_arg0 : DevRef τ sig)) (V (main_arg3 : DevRef τ sig)) ⟨4, by decide⟩ := by
    rw [← hV9]; exact (F8_frame V8 (r := main_v39) (by decide)).trans e4_8
  have l5_9 : V9 (main_v44 : DevRef τ sig) = linOf (V (main_arg0 : DevRef τ sig)) (V (main_arg2 : DevRef τ sig)) ⟨5, by decide⟩ := by
    rw [← hV9]; exact (F8_frame V8 (r := main_v44) (by decide)).trans l5_8
  have e5_9 : V9 (main_v47 : DevRef τ sig) = embOf (V (main_arg0 : DevRef τ sig)) (V (main_arg3 : DevRef τ sig)) ⟨5, by decide⟩ := by
    rw [← hV9]; exact (F8_frame V8 (r := main_v47) (by decide)).trans e5_8
  have l6_9 : V9 (main_v52 : DevRef τ sig) = linOf (V (main_arg0 : DevRef τ sig)) (V (main_arg2 : DevRef τ sig)) ⟨6, by decide⟩ := by
    rw [← hV9]; exact (F8_frame V8 (r := main_v52) (by decide)).trans l6_8
  have e6_9 : V9 (main_v55 : DevRef τ sig) = embOf (V (main_arg0 : DevRef τ sig)) (V (main_arg3 : DevRef τ sig)) ⟨6, by decide⟩ := by
    rw [← hV9]; exact (F8_frame V8 (r := main_v55) (by decide)).trans e6_8
  have l7_9 : V9 (main_v60 : DevRef τ sig) = linOf (V (main_arg0 : DevRef τ sig)) (V (main_arg2 : DevRef τ sig)) ⟨7, by decide⟩ := by
    rw [← hV9]; exact (F8_frame V8 (r := main_v60) (by decide)).trans l7_8
  have e7_9 : V9 (main_v63 : DevRef τ sig) = embOf (V (main_arg0 : DevRef τ sig)) (V (main_arg3 : DevRef τ sig)) ⟨7, by decide⟩ := by
    rw [← hV9]; exact (F8_frame V8 (r := main_v63) (by decide)).trans e7_8
  have l8_9 : V9 (main_v68 : DevRef τ sig) = linOf (V (main_arg0 : DevRef τ sig)) (V (main_arg2 : DevRef τ sig)) ⟨8, by decide⟩ := by
    rw [← hV9, F8_lin V8, a0_8, a2_8]; rfl
  have e8_9 : V9 (main_v71 : DevRef τ sig) = embOf (V (main_arg0 : DevRef τ sig)) (V (main_arg3 : DevRef τ sig)) ⟨8, by decide⟩ := by
    rw [← hV9, F8_emb V8, a0_8, a3_8]; rfl
  clear hV9 a0_8 a1_8 a2_8 a3_8 a4_8 a5_8 l0_8 e0_8 l1_8 e1_8 l2_8 e2_8 l3_8 e3_8 l4_8 e4_8 l5_8 e5_8 l6_8 e6_8 l7_8 e7_8
  -- field 9
  rw [after_append']
  generalize hV10 : after F9 V9 = V10
  have a0_10 : V10 (main_arg0 : DevRef τ sig) = V (main_arg0 : DevRef τ sig) := by
    rw [← hV10]; exact (F9_frame V9 (r := main_arg0) (by decide)).trans a0_9
  have a1_10 : V10 (main_arg1 : DevRef τ sig) = V (main_arg1 : DevRef τ sig) := by
    rw [← hV10]; exact (F9_frame V9 (r := main_arg1) (by decide)).trans a1_9
  have a2_10 : V10 (main_arg2 : DevRef τ sig) = V (main_arg2 : DevRef τ sig) := by
    rw [← hV10]; exact (F9_frame V9 (r := main_arg2) (by decide)).trans a2_9
  have a3_10 : V10 (main_arg3 : DevRef τ sig) = V (main_arg3 : DevRef τ sig) := by
    rw [← hV10]; exact (F9_frame V9 (r := main_arg3) (by decide)).trans a3_9
  have a4_10 : V10 (main_arg4 : DevRef τ sig) = V (main_arg4 : DevRef τ sig) := by
    rw [← hV10]; exact (F9_frame V9 (r := main_arg4) (by decide)).trans a4_9
  have a5_10 : V10 (main_arg5 : DevRef τ sig) = V (main_arg5 : DevRef τ sig) := by
    rw [← hV10]; exact (F9_frame V9 (r := main_arg5) (by decide)).trans a5_9
  have l0_10 : V10 (main_v4 : DevRef τ sig) = linOf (V (main_arg0 : DevRef τ sig)) (V (main_arg2 : DevRef τ sig)) ⟨0, by decide⟩ := by
    rw [← hV10]; exact (F9_frame V9 (r := main_v4) (by decide)).trans l0_9
  have e0_10 : V10 (main_v7 : DevRef τ sig) = embOf (V (main_arg0 : DevRef τ sig)) (V (main_arg3 : DevRef τ sig)) ⟨0, by decide⟩ := by
    rw [← hV10]; exact (F9_frame V9 (r := main_v7) (by decide)).trans e0_9
  have l1_10 : V10 (main_v12 : DevRef τ sig) = linOf (V (main_arg0 : DevRef τ sig)) (V (main_arg2 : DevRef τ sig)) ⟨1, by decide⟩ := by
    rw [← hV10]; exact (F9_frame V9 (r := main_v12) (by decide)).trans l1_9
  have e1_10 : V10 (main_v15 : DevRef τ sig) = embOf (V (main_arg0 : DevRef τ sig)) (V (main_arg3 : DevRef τ sig)) ⟨1, by decide⟩ := by
    rw [← hV10]; exact (F9_frame V9 (r := main_v15) (by decide)).trans e1_9
  have l2_10 : V10 (main_v20 : DevRef τ sig) = linOf (V (main_arg0 : DevRef τ sig)) (V (main_arg2 : DevRef τ sig)) ⟨2, by decide⟩ := by
    rw [← hV10]; exact (F9_frame V9 (r := main_v20) (by decide)).trans l2_9
  have e2_10 : V10 (main_v23 : DevRef τ sig) = embOf (V (main_arg0 : DevRef τ sig)) (V (main_arg3 : DevRef τ sig)) ⟨2, by decide⟩ := by
    rw [← hV10]; exact (F9_frame V9 (r := main_v23) (by decide)).trans e2_9
  have l3_10 : V10 (main_v28 : DevRef τ sig) = linOf (V (main_arg0 : DevRef τ sig)) (V (main_arg2 : DevRef τ sig)) ⟨3, by decide⟩ := by
    rw [← hV10]; exact (F9_frame V9 (r := main_v28) (by decide)).trans l3_9
  have e3_10 : V10 (main_v31 : DevRef τ sig) = embOf (V (main_arg0 : DevRef τ sig)) (V (main_arg3 : DevRef τ sig)) ⟨3, by decide⟩ := by
    rw [← hV10]; exact (F9_frame V9 (r := main_v31) (by decide)).trans e3_9
  have l4_10 : V10 (main_v36 : DevRef τ sig) = linOf (V (main_arg0 : DevRef τ sig)) (V (main_arg2 : DevRef τ sig)) ⟨4, by decide⟩ := by
    rw [← hV10]; exact (F9_frame V9 (r := main_v36) (by decide)).trans l4_9
  have e4_10 : V10 (main_v39 : DevRef τ sig) = embOf (V (main_arg0 : DevRef τ sig)) (V (main_arg3 : DevRef τ sig)) ⟨4, by decide⟩ := by
    rw [← hV10]; exact (F9_frame V9 (r := main_v39) (by decide)).trans e4_9
  have l5_10 : V10 (main_v44 : DevRef τ sig) = linOf (V (main_arg0 : DevRef τ sig)) (V (main_arg2 : DevRef τ sig)) ⟨5, by decide⟩ := by
    rw [← hV10]; exact (F9_frame V9 (r := main_v44) (by decide)).trans l5_9
  have e5_10 : V10 (main_v47 : DevRef τ sig) = embOf (V (main_arg0 : DevRef τ sig)) (V (main_arg3 : DevRef τ sig)) ⟨5, by decide⟩ := by
    rw [← hV10]; exact (F9_frame V9 (r := main_v47) (by decide)).trans e5_9
  have l6_10 : V10 (main_v52 : DevRef τ sig) = linOf (V (main_arg0 : DevRef τ sig)) (V (main_arg2 : DevRef τ sig)) ⟨6, by decide⟩ := by
    rw [← hV10]; exact (F9_frame V9 (r := main_v52) (by decide)).trans l6_9
  have e6_10 : V10 (main_v55 : DevRef τ sig) = embOf (V (main_arg0 : DevRef τ sig)) (V (main_arg3 : DevRef τ sig)) ⟨6, by decide⟩ := by
    rw [← hV10]; exact (F9_frame V9 (r := main_v55) (by decide)).trans e6_9
  have l7_10 : V10 (main_v60 : DevRef τ sig) = linOf (V (main_arg0 : DevRef τ sig)) (V (main_arg2 : DevRef τ sig)) ⟨7, by decide⟩ := by
    rw [← hV10]; exact (F9_frame V9 (r := main_v60) (by decide)).trans l7_9
  have e7_10 : V10 (main_v63 : DevRef τ sig) = embOf (V (main_arg0 : DevRef τ sig)) (V (main_arg3 : DevRef τ sig)) ⟨7, by decide⟩ := by
    rw [← hV10]; exact (F9_frame V9 (r := main_v63) (by decide)).trans e7_9
  have l8_10 : V10 (main_v68 : DevRef τ sig) = linOf (V (main_arg0 : DevRef τ sig)) (V (main_arg2 : DevRef τ sig)) ⟨8, by decide⟩ := by
    rw [← hV10]; exact (F9_frame V9 (r := main_v68) (by decide)).trans l8_9
  have e8_10 : V10 (main_v71 : DevRef τ sig) = embOf (V (main_arg0 : DevRef τ sig)) (V (main_arg3 : DevRef τ sig)) ⟨8, by decide⟩ := by
    rw [← hV10]; exact (F9_frame V9 (r := main_v71) (by decide)).trans e8_9
  have l9_10 : V10 (main_v76 : DevRef τ sig) = linOf (V (main_arg0 : DevRef τ sig)) (V (main_arg2 : DevRef τ sig)) ⟨9, by decide⟩ := by
    rw [← hV10, F9_lin V9, a0_9, a2_9]; rfl
  have e9_10 : V10 (main_v79 : DevRef τ sig) = embOf (V (main_arg0 : DevRef τ sig)) (V (main_arg3 : DevRef τ sig)) ⟨9, by decide⟩ := by
    rw [← hV10, F9_emb V9, a0_9, a3_9]; rfl
  clear hV10 a0_9 a1_9 a2_9 a3_9 a4_9 a5_9 l0_9 e0_9 l1_9 e1_9 l2_9 e2_9 l3_9 e3_9 l4_9 e4_9 l5_9 e5_9 l6_9 e6_9 l7_9 e7_9 l8_9 e8_9
  -- field 10
  rw [after_append']
  generalize hV11 : after F10 V10 = V11
  have a0_11 : V11 (main_arg0 : DevRef τ sig) = V (main_arg0 : DevRef τ sig) := by
    rw [← hV11]; exact (F10_frame V10 (r := main_arg0) (by decide)).trans a0_10
  have a1_11 : V11 (main_arg1 : DevRef τ sig) = V (main_arg1 : DevRef τ sig) := by
    rw [← hV11]; exact (F10_frame V10 (r := main_arg1) (by decide)).trans a1_10
  have a2_11 : V11 (main_arg2 : DevRef τ sig) = V (main_arg2 : DevRef τ sig) := by
    rw [← hV11]; exact (F10_frame V10 (r := main_arg2) (by decide)).trans a2_10
  have a3_11 : V11 (main_arg3 : DevRef τ sig) = V (main_arg3 : DevRef τ sig) := by
    rw [← hV11]; exact (F10_frame V10 (r := main_arg3) (by decide)).trans a3_10
  have a4_11 : V11 (main_arg4 : DevRef τ sig) = V (main_arg4 : DevRef τ sig) := by
    rw [← hV11]; exact (F10_frame V10 (r := main_arg4) (by decide)).trans a4_10
  have a5_11 : V11 (main_arg5 : DevRef τ sig) = V (main_arg5 : DevRef τ sig) := by
    rw [← hV11]; exact (F10_frame V10 (r := main_arg5) (by decide)).trans a5_10
  have l0_11 : V11 (main_v4 : DevRef τ sig) = linOf (V (main_arg0 : DevRef τ sig)) (V (main_arg2 : DevRef τ sig)) ⟨0, by decide⟩ := by
    rw [← hV11]; exact (F10_frame V10 (r := main_v4) (by decide)).trans l0_10
  have e0_11 : V11 (main_v7 : DevRef τ sig) = embOf (V (main_arg0 : DevRef τ sig)) (V (main_arg3 : DevRef τ sig)) ⟨0, by decide⟩ := by
    rw [← hV11]; exact (F10_frame V10 (r := main_v7) (by decide)).trans e0_10
  have l1_11 : V11 (main_v12 : DevRef τ sig) = linOf (V (main_arg0 : DevRef τ sig)) (V (main_arg2 : DevRef τ sig)) ⟨1, by decide⟩ := by
    rw [← hV11]; exact (F10_frame V10 (r := main_v12) (by decide)).trans l1_10
  have e1_11 : V11 (main_v15 : DevRef τ sig) = embOf (V (main_arg0 : DevRef τ sig)) (V (main_arg3 : DevRef τ sig)) ⟨1, by decide⟩ := by
    rw [← hV11]; exact (F10_frame V10 (r := main_v15) (by decide)).trans e1_10
  have l2_11 : V11 (main_v20 : DevRef τ sig) = linOf (V (main_arg0 : DevRef τ sig)) (V (main_arg2 : DevRef τ sig)) ⟨2, by decide⟩ := by
    rw [← hV11]; exact (F10_frame V10 (r := main_v20) (by decide)).trans l2_10
  have e2_11 : V11 (main_v23 : DevRef τ sig) = embOf (V (main_arg0 : DevRef τ sig)) (V (main_arg3 : DevRef τ sig)) ⟨2, by decide⟩ := by
    rw [← hV11]; exact (F10_frame V10 (r := main_v23) (by decide)).trans e2_10
  have l3_11 : V11 (main_v28 : DevRef τ sig) = linOf (V (main_arg0 : DevRef τ sig)) (V (main_arg2 : DevRef τ sig)) ⟨3, by decide⟩ := by
    rw [← hV11]; exact (F10_frame V10 (r := main_v28) (by decide)).trans l3_10
  have e3_11 : V11 (main_v31 : DevRef τ sig) = embOf (V (main_arg0 : DevRef τ sig)) (V (main_arg3 : DevRef τ sig)) ⟨3, by decide⟩ := by
    rw [← hV11]; exact (F10_frame V10 (r := main_v31) (by decide)).trans e3_10
  have l4_11 : V11 (main_v36 : DevRef τ sig) = linOf (V (main_arg0 : DevRef τ sig)) (V (main_arg2 : DevRef τ sig)) ⟨4, by decide⟩ := by
    rw [← hV11]; exact (F10_frame V10 (r := main_v36) (by decide)).trans l4_10
  have e4_11 : V11 (main_v39 : DevRef τ sig) = embOf (V (main_arg0 : DevRef τ sig)) (V (main_arg3 : DevRef τ sig)) ⟨4, by decide⟩ := by
    rw [← hV11]; exact (F10_frame V10 (r := main_v39) (by decide)).trans e4_10
  have l5_11 : V11 (main_v44 : DevRef τ sig) = linOf (V (main_arg0 : DevRef τ sig)) (V (main_arg2 : DevRef τ sig)) ⟨5, by decide⟩ := by
    rw [← hV11]; exact (F10_frame V10 (r := main_v44) (by decide)).trans l5_10
  have e5_11 : V11 (main_v47 : DevRef τ sig) = embOf (V (main_arg0 : DevRef τ sig)) (V (main_arg3 : DevRef τ sig)) ⟨5, by decide⟩ := by
    rw [← hV11]; exact (F10_frame V10 (r := main_v47) (by decide)).trans e5_10
  have l6_11 : V11 (main_v52 : DevRef τ sig) = linOf (V (main_arg0 : DevRef τ sig)) (V (main_arg2 : DevRef τ sig)) ⟨6, by decide⟩ := by
    rw [← hV11]; exact (F10_frame V10 (r := main_v52) (by decide)).trans l6_10
  have e6_11 : V11 (main_v55 : DevRef τ sig) = embOf (V (main_arg0 : DevRef τ sig)) (V (main_arg3 : DevRef τ sig)) ⟨6, by decide⟩ := by
    rw [← hV11]; exact (F10_frame V10 (r := main_v55) (by decide)).trans e6_10
  have l7_11 : V11 (main_v60 : DevRef τ sig) = linOf (V (main_arg0 : DevRef τ sig)) (V (main_arg2 : DevRef τ sig)) ⟨7, by decide⟩ := by
    rw [← hV11]; exact (F10_frame V10 (r := main_v60) (by decide)).trans l7_10
  have e7_11 : V11 (main_v63 : DevRef τ sig) = embOf (V (main_arg0 : DevRef τ sig)) (V (main_arg3 : DevRef τ sig)) ⟨7, by decide⟩ := by
    rw [← hV11]; exact (F10_frame V10 (r := main_v63) (by decide)).trans e7_10
  have l8_11 : V11 (main_v68 : DevRef τ sig) = linOf (V (main_arg0 : DevRef τ sig)) (V (main_arg2 : DevRef τ sig)) ⟨8, by decide⟩ := by
    rw [← hV11]; exact (F10_frame V10 (r := main_v68) (by decide)).trans l8_10
  have e8_11 : V11 (main_v71 : DevRef τ sig) = embOf (V (main_arg0 : DevRef τ sig)) (V (main_arg3 : DevRef τ sig)) ⟨8, by decide⟩ := by
    rw [← hV11]; exact (F10_frame V10 (r := main_v71) (by decide)).trans e8_10
  have l9_11 : V11 (main_v76 : DevRef τ sig) = linOf (V (main_arg0 : DevRef τ sig)) (V (main_arg2 : DevRef τ sig)) ⟨9, by decide⟩ := by
    rw [← hV11]; exact (F10_frame V10 (r := main_v76) (by decide)).trans l9_10
  have e9_11 : V11 (main_v79 : DevRef τ sig) = embOf (V (main_arg0 : DevRef τ sig)) (V (main_arg3 : DevRef τ sig)) ⟨9, by decide⟩ := by
    rw [← hV11]; exact (F10_frame V10 (r := main_v79) (by decide)).trans e9_10
  have l10_11 : V11 (main_v84 : DevRef τ sig) = linOf (V (main_arg0 : DevRef τ sig)) (V (main_arg2 : DevRef τ sig)) ⟨10, by decide⟩ := by
    rw [← hV11, F10_lin V10, a0_10, a2_10]; rfl
  have e10_11 : V11 (main_v87 : DevRef τ sig) = embOf (V (main_arg0 : DevRef τ sig)) (V (main_arg3 : DevRef τ sig)) ⟨10, by decide⟩ := by
    rw [← hV11, F10_emb V10, a0_10, a3_10]; rfl
  clear hV11 a0_10 a1_10 a2_10 a3_10 a4_10 a5_10 l0_10 e0_10 l1_10 e1_10 l2_10 e2_10 l3_10 e3_10 l4_10 e4_10 l5_10 e5_10 l6_10 e6_10 l7_10 e7_10 l8_10 e8_10 l9_10 e9_10
  -- field 11
  rw [after_append']
  generalize hV12 : after F11 V11 = V12
  have a0_12 : V12 (main_arg0 : DevRef τ sig) = V (main_arg0 : DevRef τ sig) := by
    rw [← hV12]; exact (F11_frame V11 (r := main_arg0) (by decide)).trans a0_11
  have a1_12 : V12 (main_arg1 : DevRef τ sig) = V (main_arg1 : DevRef τ sig) := by
    rw [← hV12]; exact (F11_frame V11 (r := main_arg1) (by decide)).trans a1_11
  have a2_12 : V12 (main_arg2 : DevRef τ sig) = V (main_arg2 : DevRef τ sig) := by
    rw [← hV12]; exact (F11_frame V11 (r := main_arg2) (by decide)).trans a2_11
  have a3_12 : V12 (main_arg3 : DevRef τ sig) = V (main_arg3 : DevRef τ sig) := by
    rw [← hV12]; exact (F11_frame V11 (r := main_arg3) (by decide)).trans a3_11
  have a4_12 : V12 (main_arg4 : DevRef τ sig) = V (main_arg4 : DevRef τ sig) := by
    rw [← hV12]; exact (F11_frame V11 (r := main_arg4) (by decide)).trans a4_11
  have a5_12 : V12 (main_arg5 : DevRef τ sig) = V (main_arg5 : DevRef τ sig) := by
    rw [← hV12]; exact (F11_frame V11 (r := main_arg5) (by decide)).trans a5_11
  have l0_12 : V12 (main_v4 : DevRef τ sig) = linOf (V (main_arg0 : DevRef τ sig)) (V (main_arg2 : DevRef τ sig)) ⟨0, by decide⟩ := by
    rw [← hV12]; exact (F11_frame V11 (r := main_v4) (by decide)).trans l0_11
  have e0_12 : V12 (main_v7 : DevRef τ sig) = embOf (V (main_arg0 : DevRef τ sig)) (V (main_arg3 : DevRef τ sig)) ⟨0, by decide⟩ := by
    rw [← hV12]; exact (F11_frame V11 (r := main_v7) (by decide)).trans e0_11
  have l1_12 : V12 (main_v12 : DevRef τ sig) = linOf (V (main_arg0 : DevRef τ sig)) (V (main_arg2 : DevRef τ sig)) ⟨1, by decide⟩ := by
    rw [← hV12]; exact (F11_frame V11 (r := main_v12) (by decide)).trans l1_11
  have e1_12 : V12 (main_v15 : DevRef τ sig) = embOf (V (main_arg0 : DevRef τ sig)) (V (main_arg3 : DevRef τ sig)) ⟨1, by decide⟩ := by
    rw [← hV12]; exact (F11_frame V11 (r := main_v15) (by decide)).trans e1_11
  have l2_12 : V12 (main_v20 : DevRef τ sig) = linOf (V (main_arg0 : DevRef τ sig)) (V (main_arg2 : DevRef τ sig)) ⟨2, by decide⟩ := by
    rw [← hV12]; exact (F11_frame V11 (r := main_v20) (by decide)).trans l2_11
  have e2_12 : V12 (main_v23 : DevRef τ sig) = embOf (V (main_arg0 : DevRef τ sig)) (V (main_arg3 : DevRef τ sig)) ⟨2, by decide⟩ := by
    rw [← hV12]; exact (F11_frame V11 (r := main_v23) (by decide)).trans e2_11
  have l3_12 : V12 (main_v28 : DevRef τ sig) = linOf (V (main_arg0 : DevRef τ sig)) (V (main_arg2 : DevRef τ sig)) ⟨3, by decide⟩ := by
    rw [← hV12]; exact (F11_frame V11 (r := main_v28) (by decide)).trans l3_11
  have e3_12 : V12 (main_v31 : DevRef τ sig) = embOf (V (main_arg0 : DevRef τ sig)) (V (main_arg3 : DevRef τ sig)) ⟨3, by decide⟩ := by
    rw [← hV12]; exact (F11_frame V11 (r := main_v31) (by decide)).trans e3_11
  have l4_12 : V12 (main_v36 : DevRef τ sig) = linOf (V (main_arg0 : DevRef τ sig)) (V (main_arg2 : DevRef τ sig)) ⟨4, by decide⟩ := by
    rw [← hV12]; exact (F11_frame V11 (r := main_v36) (by decide)).trans l4_11
  have e4_12 : V12 (main_v39 : DevRef τ sig) = embOf (V (main_arg0 : DevRef τ sig)) (V (main_arg3 : DevRef τ sig)) ⟨4, by decide⟩ := by
    rw [← hV12]; exact (F11_frame V11 (r := main_v39) (by decide)).trans e4_11
  have l5_12 : V12 (main_v44 : DevRef τ sig) = linOf (V (main_arg0 : DevRef τ sig)) (V (main_arg2 : DevRef τ sig)) ⟨5, by decide⟩ := by
    rw [← hV12]; exact (F11_frame V11 (r := main_v44) (by decide)).trans l5_11
  have e5_12 : V12 (main_v47 : DevRef τ sig) = embOf (V (main_arg0 : DevRef τ sig)) (V (main_arg3 : DevRef τ sig)) ⟨5, by decide⟩ := by
    rw [← hV12]; exact (F11_frame V11 (r := main_v47) (by decide)).trans e5_11
  have l6_12 : V12 (main_v52 : DevRef τ sig) = linOf (V (main_arg0 : DevRef τ sig)) (V (main_arg2 : DevRef τ sig)) ⟨6, by decide⟩ := by
    rw [← hV12]; exact (F11_frame V11 (r := main_v52) (by decide)).trans l6_11
  have e6_12 : V12 (main_v55 : DevRef τ sig) = embOf (V (main_arg0 : DevRef τ sig)) (V (main_arg3 : DevRef τ sig)) ⟨6, by decide⟩ := by
    rw [← hV12]; exact (F11_frame V11 (r := main_v55) (by decide)).trans e6_11
  have l7_12 : V12 (main_v60 : DevRef τ sig) = linOf (V (main_arg0 : DevRef τ sig)) (V (main_arg2 : DevRef τ sig)) ⟨7, by decide⟩ := by
    rw [← hV12]; exact (F11_frame V11 (r := main_v60) (by decide)).trans l7_11
  have e7_12 : V12 (main_v63 : DevRef τ sig) = embOf (V (main_arg0 : DevRef τ sig)) (V (main_arg3 : DevRef τ sig)) ⟨7, by decide⟩ := by
    rw [← hV12]; exact (F11_frame V11 (r := main_v63) (by decide)).trans e7_11
  have l8_12 : V12 (main_v68 : DevRef τ sig) = linOf (V (main_arg0 : DevRef τ sig)) (V (main_arg2 : DevRef τ sig)) ⟨8, by decide⟩ := by
    rw [← hV12]; exact (F11_frame V11 (r := main_v68) (by decide)).trans l8_11
  have e8_12 : V12 (main_v71 : DevRef τ sig) = embOf (V (main_arg0 : DevRef τ sig)) (V (main_arg3 : DevRef τ sig)) ⟨8, by decide⟩ := by
    rw [← hV12]; exact (F11_frame V11 (r := main_v71) (by decide)).trans e8_11
  have l9_12 : V12 (main_v76 : DevRef τ sig) = linOf (V (main_arg0 : DevRef τ sig)) (V (main_arg2 : DevRef τ sig)) ⟨9, by decide⟩ := by
    rw [← hV12]; exact (F11_frame V11 (r := main_v76) (by decide)).trans l9_11
  have e9_12 : V12 (main_v79 : DevRef τ sig) = embOf (V (main_arg0 : DevRef τ sig)) (V (main_arg3 : DevRef τ sig)) ⟨9, by decide⟩ := by
    rw [← hV12]; exact (F11_frame V11 (r := main_v79) (by decide)).trans e9_11
  have l10_12 : V12 (main_v84 : DevRef τ sig) = linOf (V (main_arg0 : DevRef τ sig)) (V (main_arg2 : DevRef τ sig)) ⟨10, by decide⟩ := by
    rw [← hV12]; exact (F11_frame V11 (r := main_v84) (by decide)).trans l10_11
  have e10_12 : V12 (main_v87 : DevRef τ sig) = embOf (V (main_arg0 : DevRef τ sig)) (V (main_arg3 : DevRef τ sig)) ⟨10, by decide⟩ := by
    rw [← hV12]; exact (F11_frame V11 (r := main_v87) (by decide)).trans e10_11
  have l11_12 : V12 (main_v92 : DevRef τ sig) = linOf (V (main_arg0 : DevRef τ sig)) (V (main_arg2 : DevRef τ sig)) ⟨11, by decide⟩ := by
    rw [← hV12, F11_lin V11, a0_11, a2_11]; rfl
  have e11_12 : V12 (main_v95 : DevRef τ sig) = embOf (V (main_arg0 : DevRef τ sig)) (V (main_arg3 : DevRef τ sig)) ⟨11, by decide⟩ := by
    rw [← hV12, F11_emb V11, a0_11, a3_11]; rfl
  clear hV12 a0_11 a1_11 a2_11 a3_11 a4_11 a5_11 l0_11 e0_11 l1_11 e1_11 l2_11 e2_11 l3_11 e3_11 l4_11 e4_11 l5_11 e5_11 l6_11 e6_11 l7_11 e7_11 l8_11 e8_11 l9_11 e9_11 l10_11 e10_11
  -- field 12
  rw [after_append']
  generalize hV13 : after F12 V12 = V13
  have a0_13 : V13 (main_arg0 : DevRef τ sig) = V (main_arg0 : DevRef τ sig) := by
    rw [← hV13]; exact (F12_frame V12 (r := main_arg0) (by decide)).trans a0_12
  have a1_13 : V13 (main_arg1 : DevRef τ sig) = V (main_arg1 : DevRef τ sig) := by
    rw [← hV13]; exact (F12_frame V12 (r := main_arg1) (by decide)).trans a1_12
  have a2_13 : V13 (main_arg2 : DevRef τ sig) = V (main_arg2 : DevRef τ sig) := by
    rw [← hV13]; exact (F12_frame V12 (r := main_arg2) (by decide)).trans a2_12
  have a3_13 : V13 (main_arg3 : DevRef τ sig) = V (main_arg3 : DevRef τ sig) := by
    rw [← hV13]; exact (F12_frame V12 (r := main_arg3) (by decide)).trans a3_12
  have a4_13 : V13 (main_arg4 : DevRef τ sig) = V (main_arg4 : DevRef τ sig) := by
    rw [← hV13]; exact (F12_frame V12 (r := main_arg4) (by decide)).trans a4_12
  have a5_13 : V13 (main_arg5 : DevRef τ sig) = V (main_arg5 : DevRef τ sig) := by
    rw [← hV13]; exact (F12_frame V12 (r := main_arg5) (by decide)).trans a5_12
  have l0_13 : V13 (main_v4 : DevRef τ sig) = linOf (V (main_arg0 : DevRef τ sig)) (V (main_arg2 : DevRef τ sig)) ⟨0, by decide⟩ := by
    rw [← hV13]; exact (F12_frame V12 (r := main_v4) (by decide)).trans l0_12
  have e0_13 : V13 (main_v7 : DevRef τ sig) = embOf (V (main_arg0 : DevRef τ sig)) (V (main_arg3 : DevRef τ sig)) ⟨0, by decide⟩ := by
    rw [← hV13]; exact (F12_frame V12 (r := main_v7) (by decide)).trans e0_12
  have l1_13 : V13 (main_v12 : DevRef τ sig) = linOf (V (main_arg0 : DevRef τ sig)) (V (main_arg2 : DevRef τ sig)) ⟨1, by decide⟩ := by
    rw [← hV13]; exact (F12_frame V12 (r := main_v12) (by decide)).trans l1_12
  have e1_13 : V13 (main_v15 : DevRef τ sig) = embOf (V (main_arg0 : DevRef τ sig)) (V (main_arg3 : DevRef τ sig)) ⟨1, by decide⟩ := by
    rw [← hV13]; exact (F12_frame V12 (r := main_v15) (by decide)).trans e1_12
  have l2_13 : V13 (main_v20 : DevRef τ sig) = linOf (V (main_arg0 : DevRef τ sig)) (V (main_arg2 : DevRef τ sig)) ⟨2, by decide⟩ := by
    rw [← hV13]; exact (F12_frame V12 (r := main_v20) (by decide)).trans l2_12
  have e2_13 : V13 (main_v23 : DevRef τ sig) = embOf (V (main_arg0 : DevRef τ sig)) (V (main_arg3 : DevRef τ sig)) ⟨2, by decide⟩ := by
    rw [← hV13]; exact (F12_frame V12 (r := main_v23) (by decide)).trans e2_12
  have l3_13 : V13 (main_v28 : DevRef τ sig) = linOf (V (main_arg0 : DevRef τ sig)) (V (main_arg2 : DevRef τ sig)) ⟨3, by decide⟩ := by
    rw [← hV13]; exact (F12_frame V12 (r := main_v28) (by decide)).trans l3_12
  have e3_13 : V13 (main_v31 : DevRef τ sig) = embOf (V (main_arg0 : DevRef τ sig)) (V (main_arg3 : DevRef τ sig)) ⟨3, by decide⟩ := by
    rw [← hV13]; exact (F12_frame V12 (r := main_v31) (by decide)).trans e3_12
  have l4_13 : V13 (main_v36 : DevRef τ sig) = linOf (V (main_arg0 : DevRef τ sig)) (V (main_arg2 : DevRef τ sig)) ⟨4, by decide⟩ := by
    rw [← hV13]; exact (F12_frame V12 (r := main_v36) (by decide)).trans l4_12
  have e4_13 : V13 (main_v39 : DevRef τ sig) = embOf (V (main_arg0 : DevRef τ sig)) (V (main_arg3 : DevRef τ sig)) ⟨4, by decide⟩ := by
    rw [← hV13]; exact (F12_frame V12 (r := main_v39) (by decide)).trans e4_12
  have l5_13 : V13 (main_v44 : DevRef τ sig) = linOf (V (main_arg0 : DevRef τ sig)) (V (main_arg2 : DevRef τ sig)) ⟨5, by decide⟩ := by
    rw [← hV13]; exact (F12_frame V12 (r := main_v44) (by decide)).trans l5_12
  have e5_13 : V13 (main_v47 : DevRef τ sig) = embOf (V (main_arg0 : DevRef τ sig)) (V (main_arg3 : DevRef τ sig)) ⟨5, by decide⟩ := by
    rw [← hV13]; exact (F12_frame V12 (r := main_v47) (by decide)).trans e5_12
  have l6_13 : V13 (main_v52 : DevRef τ sig) = linOf (V (main_arg0 : DevRef τ sig)) (V (main_arg2 : DevRef τ sig)) ⟨6, by decide⟩ := by
    rw [← hV13]; exact (F12_frame V12 (r := main_v52) (by decide)).trans l6_12
  have e6_13 : V13 (main_v55 : DevRef τ sig) = embOf (V (main_arg0 : DevRef τ sig)) (V (main_arg3 : DevRef τ sig)) ⟨6, by decide⟩ := by
    rw [← hV13]; exact (F12_frame V12 (r := main_v55) (by decide)).trans e6_12
  have l7_13 : V13 (main_v60 : DevRef τ sig) = linOf (V (main_arg0 : DevRef τ sig)) (V (main_arg2 : DevRef τ sig)) ⟨7, by decide⟩ := by
    rw [← hV13]; exact (F12_frame V12 (r := main_v60) (by decide)).trans l7_12
  have e7_13 : V13 (main_v63 : DevRef τ sig) = embOf (V (main_arg0 : DevRef τ sig)) (V (main_arg3 : DevRef τ sig)) ⟨7, by decide⟩ := by
    rw [← hV13]; exact (F12_frame V12 (r := main_v63) (by decide)).trans e7_12
  have l8_13 : V13 (main_v68 : DevRef τ sig) = linOf (V (main_arg0 : DevRef τ sig)) (V (main_arg2 : DevRef τ sig)) ⟨8, by decide⟩ := by
    rw [← hV13]; exact (F12_frame V12 (r := main_v68) (by decide)).trans l8_12
  have e8_13 : V13 (main_v71 : DevRef τ sig) = embOf (V (main_arg0 : DevRef τ sig)) (V (main_arg3 : DevRef τ sig)) ⟨8, by decide⟩ := by
    rw [← hV13]; exact (F12_frame V12 (r := main_v71) (by decide)).trans e8_12
  have l9_13 : V13 (main_v76 : DevRef τ sig) = linOf (V (main_arg0 : DevRef τ sig)) (V (main_arg2 : DevRef τ sig)) ⟨9, by decide⟩ := by
    rw [← hV13]; exact (F12_frame V12 (r := main_v76) (by decide)).trans l9_12
  have e9_13 : V13 (main_v79 : DevRef τ sig) = embOf (V (main_arg0 : DevRef τ sig)) (V (main_arg3 : DevRef τ sig)) ⟨9, by decide⟩ := by
    rw [← hV13]; exact (F12_frame V12 (r := main_v79) (by decide)).trans e9_12
  have l10_13 : V13 (main_v84 : DevRef τ sig) = linOf (V (main_arg0 : DevRef τ sig)) (V (main_arg2 : DevRef τ sig)) ⟨10, by decide⟩ := by
    rw [← hV13]; exact (F12_frame V12 (r := main_v84) (by decide)).trans l10_12
  have e10_13 : V13 (main_v87 : DevRef τ sig) = embOf (V (main_arg0 : DevRef τ sig)) (V (main_arg3 : DevRef τ sig)) ⟨10, by decide⟩ := by
    rw [← hV13]; exact (F12_frame V12 (r := main_v87) (by decide)).trans e10_12
  have l11_13 : V13 (main_v92 : DevRef τ sig) = linOf (V (main_arg0 : DevRef τ sig)) (V (main_arg2 : DevRef τ sig)) ⟨11, by decide⟩ := by
    rw [← hV13]; exact (F12_frame V12 (r := main_v92) (by decide)).trans l11_12
  have e11_13 : V13 (main_v95 : DevRef τ sig) = embOf (V (main_arg0 : DevRef τ sig)) (V (main_arg3 : DevRef τ sig)) ⟨11, by decide⟩ := by
    rw [← hV13]; exact (F12_frame V12 (r := main_v95) (by decide)).trans e11_12
  have l12_13 : V13 (main_v100 : DevRef τ sig) = linOf (V (main_arg0 : DevRef τ sig)) (V (main_arg2 : DevRef τ sig)) ⟨12, by decide⟩ := by
    rw [← hV13, F12_lin V12, a0_12, a2_12]; rfl
  have e12_13 : V13 (main_v103 : DevRef τ sig) = embOf (V (main_arg0 : DevRef τ sig)) (V (main_arg3 : DevRef τ sig)) ⟨12, by decide⟩ := by
    rw [← hV13, F12_emb V12, a0_12, a3_12]; rfl
  clear hV13 a0_12 a1_12 a2_12 a3_12 a4_12 a5_12 l0_12 e0_12 l1_12 e1_12 l2_12 e2_12 l3_12 e3_12 l4_12 e4_12 l5_12 e5_12 l6_12 e6_12 l7_12 e7_12 l8_12 e8_12 l9_12 e9_12 l10_12 e10_12 l11_12 e11_12
  -- field 13
  rw [after_append']
  generalize hV14 : after F13 V13 = V14
  have a0_14 : V14 (main_arg0 : DevRef τ sig) = V (main_arg0 : DevRef τ sig) := by
    rw [← hV14]; exact (F13_frame V13 (r := main_arg0) (by decide)).trans a0_13
  have a1_14 : V14 (main_arg1 : DevRef τ sig) = V (main_arg1 : DevRef τ sig) := by
    rw [← hV14]; exact (F13_frame V13 (r := main_arg1) (by decide)).trans a1_13
  have a2_14 : V14 (main_arg2 : DevRef τ sig) = V (main_arg2 : DevRef τ sig) := by
    rw [← hV14]; exact (F13_frame V13 (r := main_arg2) (by decide)).trans a2_13
  have a3_14 : V14 (main_arg3 : DevRef τ sig) = V (main_arg3 : DevRef τ sig) := by
    rw [← hV14]; exact (F13_frame V13 (r := main_arg3) (by decide)).trans a3_13
  have a4_14 : V14 (main_arg4 : DevRef τ sig) = V (main_arg4 : DevRef τ sig) := by
    rw [← hV14]; exact (F13_frame V13 (r := main_arg4) (by decide)).trans a4_13
  have a5_14 : V14 (main_arg5 : DevRef τ sig) = V (main_arg5 : DevRef τ sig) := by
    rw [← hV14]; exact (F13_frame V13 (r := main_arg5) (by decide)).trans a5_13
  have l0_14 : V14 (main_v4 : DevRef τ sig) = linOf (V (main_arg0 : DevRef τ sig)) (V (main_arg2 : DevRef τ sig)) ⟨0, by decide⟩ := by
    rw [← hV14]; exact (F13_frame V13 (r := main_v4) (by decide)).trans l0_13
  have e0_14 : V14 (main_v7 : DevRef τ sig) = embOf (V (main_arg0 : DevRef τ sig)) (V (main_arg3 : DevRef τ sig)) ⟨0, by decide⟩ := by
    rw [← hV14]; exact (F13_frame V13 (r := main_v7) (by decide)).trans e0_13
  have l1_14 : V14 (main_v12 : DevRef τ sig) = linOf (V (main_arg0 : DevRef τ sig)) (V (main_arg2 : DevRef τ sig)) ⟨1, by decide⟩ := by
    rw [← hV14]; exact (F13_frame V13 (r := main_v12) (by decide)).trans l1_13
  have e1_14 : V14 (main_v15 : DevRef τ sig) = embOf (V (main_arg0 : DevRef τ sig)) (V (main_arg3 : DevRef τ sig)) ⟨1, by decide⟩ := by
    rw [← hV14]; exact (F13_frame V13 (r := main_v15) (by decide)).trans e1_13
  have l2_14 : V14 (main_v20 : DevRef τ sig) = linOf (V (main_arg0 : DevRef τ sig)) (V (main_arg2 : DevRef τ sig)) ⟨2, by decide⟩ := by
    rw [← hV14]; exact (F13_frame V13 (r := main_v20) (by decide)).trans l2_13
  have e2_14 : V14 (main_v23 : DevRef τ sig) = embOf (V (main_arg0 : DevRef τ sig)) (V (main_arg3 : DevRef τ sig)) ⟨2, by decide⟩ := by
    rw [← hV14]; exact (F13_frame V13 (r := main_v23) (by decide)).trans e2_13
  have l3_14 : V14 (main_v28 : DevRef τ sig) = linOf (V (main_arg0 : DevRef τ sig)) (V (main_arg2 : DevRef τ sig)) ⟨3, by decide⟩ := by
    rw [← hV14]; exact (F13_frame V13 (r := main_v28) (by decide)).trans l3_13
  have e3_14 : V14 (main_v31 : DevRef τ sig) = embOf (V (main_arg0 : DevRef τ sig)) (V (main_arg3 : DevRef τ sig)) ⟨3, by decide⟩ := by
    rw [← hV14]; exact (F13_frame V13 (r := main_v31) (by decide)).trans e3_13
  have l4_14 : V14 (main_v36 : DevRef τ sig) = linOf (V (main_arg0 : DevRef τ sig)) (V (main_arg2 : DevRef τ sig)) ⟨4, by decide⟩ := by
    rw [← hV14]; exact (F13_frame V13 (r := main_v36) (by decide)).trans l4_13
  have e4_14 : V14 (main_v39 : DevRef τ sig) = embOf (V (main_arg0 : DevRef τ sig)) (V (main_arg3 : DevRef τ sig)) ⟨4, by decide⟩ := by
    rw [← hV14]; exact (F13_frame V13 (r := main_v39) (by decide)).trans e4_13
  have l5_14 : V14 (main_v44 : DevRef τ sig) = linOf (V (main_arg0 : DevRef τ sig)) (V (main_arg2 : DevRef τ sig)) ⟨5, by decide⟩ := by
    rw [← hV14]; exact (F13_frame V13 (r := main_v44) (by decide)).trans l5_13
  have e5_14 : V14 (main_v47 : DevRef τ sig) = embOf (V (main_arg0 : DevRef τ sig)) (V (main_arg3 : DevRef τ sig)) ⟨5, by decide⟩ := by
    rw [← hV14]; exact (F13_frame V13 (r := main_v47) (by decide)).trans e5_13
  have l6_14 : V14 (main_v52 : DevRef τ sig) = linOf (V (main_arg0 : DevRef τ sig)) (V (main_arg2 : DevRef τ sig)) ⟨6, by decide⟩ := by
    rw [← hV14]; exact (F13_frame V13 (r := main_v52) (by decide)).trans l6_13
  have e6_14 : V14 (main_v55 : DevRef τ sig) = embOf (V (main_arg0 : DevRef τ sig)) (V (main_arg3 : DevRef τ sig)) ⟨6, by decide⟩ := by
    rw [← hV14]; exact (F13_frame V13 (r := main_v55) (by decide)).trans e6_13
  have l7_14 : V14 (main_v60 : DevRef τ sig) = linOf (V (main_arg0 : DevRef τ sig)) (V (main_arg2 : DevRef τ sig)) ⟨7, by decide⟩ := by
    rw [← hV14]; exact (F13_frame V13 (r := main_v60) (by decide)).trans l7_13
  have e7_14 : V14 (main_v63 : DevRef τ sig) = embOf (V (main_arg0 : DevRef τ sig)) (V (main_arg3 : DevRef τ sig)) ⟨7, by decide⟩ := by
    rw [← hV14]; exact (F13_frame V13 (r := main_v63) (by decide)).trans e7_13
  have l8_14 : V14 (main_v68 : DevRef τ sig) = linOf (V (main_arg0 : DevRef τ sig)) (V (main_arg2 : DevRef τ sig)) ⟨8, by decide⟩ := by
    rw [← hV14]; exact (F13_frame V13 (r := main_v68) (by decide)).trans l8_13
  have e8_14 : V14 (main_v71 : DevRef τ sig) = embOf (V (main_arg0 : DevRef τ sig)) (V (main_arg3 : DevRef τ sig)) ⟨8, by decide⟩ := by
    rw [← hV14]; exact (F13_frame V13 (r := main_v71) (by decide)).trans e8_13
  have l9_14 : V14 (main_v76 : DevRef τ sig) = linOf (V (main_arg0 : DevRef τ sig)) (V (main_arg2 : DevRef τ sig)) ⟨9, by decide⟩ := by
    rw [← hV14]; exact (F13_frame V13 (r := main_v76) (by decide)).trans l9_13
  have e9_14 : V14 (main_v79 : DevRef τ sig) = embOf (V (main_arg0 : DevRef τ sig)) (V (main_arg3 : DevRef τ sig)) ⟨9, by decide⟩ := by
    rw [← hV14]; exact (F13_frame V13 (r := main_v79) (by decide)).trans e9_13
  have l10_14 : V14 (main_v84 : DevRef τ sig) = linOf (V (main_arg0 : DevRef τ sig)) (V (main_arg2 : DevRef τ sig)) ⟨10, by decide⟩ := by
    rw [← hV14]; exact (F13_frame V13 (r := main_v84) (by decide)).trans l10_13
  have e10_14 : V14 (main_v87 : DevRef τ sig) = embOf (V (main_arg0 : DevRef τ sig)) (V (main_arg3 : DevRef τ sig)) ⟨10, by decide⟩ := by
    rw [← hV14]; exact (F13_frame V13 (r := main_v87) (by decide)).trans e10_13
  have l11_14 : V14 (main_v92 : DevRef τ sig) = linOf (V (main_arg0 : DevRef τ sig)) (V (main_arg2 : DevRef τ sig)) ⟨11, by decide⟩ := by
    rw [← hV14]; exact (F13_frame V13 (r := main_v92) (by decide)).trans l11_13
  have e11_14 : V14 (main_v95 : DevRef τ sig) = embOf (V (main_arg0 : DevRef τ sig)) (V (main_arg3 : DevRef τ sig)) ⟨11, by decide⟩ := by
    rw [← hV14]; exact (F13_frame V13 (r := main_v95) (by decide)).trans e11_13
  have l12_14 : V14 (main_v100 : DevRef τ sig) = linOf (V (main_arg0 : DevRef τ sig)) (V (main_arg2 : DevRef τ sig)) ⟨12, by decide⟩ := by
    rw [← hV14]; exact (F13_frame V13 (r := main_v100) (by decide)).trans l12_13
  have e12_14 : V14 (main_v103 : DevRef τ sig) = embOf (V (main_arg0 : DevRef τ sig)) (V (main_arg3 : DevRef τ sig)) ⟨12, by decide⟩ := by
    rw [← hV14]; exact (F13_frame V13 (r := main_v103) (by decide)).trans e12_13
  have l13_14 : V14 (main_v108 : DevRef τ sig) = linOf (V (main_arg0 : DevRef τ sig)) (V (main_arg2 : DevRef τ sig)) ⟨13, by decide⟩ := by
    rw [← hV14, F13_lin V13, a0_13, a2_13]; rfl
  have e13_14 : V14 (main_v111 : DevRef τ sig) = embOf (V (main_arg0 : DevRef τ sig)) (V (main_arg3 : DevRef τ sig)) ⟨13, by decide⟩ := by
    rw [← hV14, F13_emb V13, a0_13, a3_13]; rfl
  clear hV14 a0_13 a1_13 a2_13 a3_13 a4_13 a5_13 l0_13 e0_13 l1_13 e1_13 l2_13 e2_13 l3_13 e3_13 l4_13 e4_13 l5_13 e5_13 l6_13 e6_13 l7_13 e7_13 l8_13 e8_13 l9_13 e9_13 l10_13 e10_13 l11_13 e11_13 l12_13 e12_13
  -- field 14
  rw [after_append']
  generalize hV15 : after F14 V14 = V15
  have a0_15 : V15 (main_arg0 : DevRef τ sig) = V (main_arg0 : DevRef τ sig) := by
    rw [← hV15]; exact (F14_frame V14 (r := main_arg0) (by decide)).trans a0_14
  have a1_15 : V15 (main_arg1 : DevRef τ sig) = V (main_arg1 : DevRef τ sig) := by
    rw [← hV15]; exact (F14_frame V14 (r := main_arg1) (by decide)).trans a1_14
  have a2_15 : V15 (main_arg2 : DevRef τ sig) = V (main_arg2 : DevRef τ sig) := by
    rw [← hV15]; exact (F14_frame V14 (r := main_arg2) (by decide)).trans a2_14
  have a3_15 : V15 (main_arg3 : DevRef τ sig) = V (main_arg3 : DevRef τ sig) := by
    rw [← hV15]; exact (F14_frame V14 (r := main_arg3) (by decide)).trans a3_14
  have a4_15 : V15 (main_arg4 : DevRef τ sig) = V (main_arg4 : DevRef τ sig) := by
    rw [← hV15]; exact (F14_frame V14 (r := main_arg4) (by decide)).trans a4_14
  have a5_15 : V15 (main_arg5 : DevRef τ sig) = V (main_arg5 : DevRef τ sig) := by
    rw [← hV15]; exact (F14_frame V14 (r := main_arg5) (by decide)).trans a5_14
  have l0_15 : V15 (main_v4 : DevRef τ sig) = linOf (V (main_arg0 : DevRef τ sig)) (V (main_arg2 : DevRef τ sig)) ⟨0, by decide⟩ := by
    rw [← hV15]; exact (F14_frame V14 (r := main_v4) (by decide)).trans l0_14
  have e0_15 : V15 (main_v7 : DevRef τ sig) = embOf (V (main_arg0 : DevRef τ sig)) (V (main_arg3 : DevRef τ sig)) ⟨0, by decide⟩ := by
    rw [← hV15]; exact (F14_frame V14 (r := main_v7) (by decide)).trans e0_14
  have l1_15 : V15 (main_v12 : DevRef τ sig) = linOf (V (main_arg0 : DevRef τ sig)) (V (main_arg2 : DevRef τ sig)) ⟨1, by decide⟩ := by
    rw [← hV15]; exact (F14_frame V14 (r := main_v12) (by decide)).trans l1_14
  have e1_15 : V15 (main_v15 : DevRef τ sig) = embOf (V (main_arg0 : DevRef τ sig)) (V (main_arg3 : DevRef τ sig)) ⟨1, by decide⟩ := by
    rw [← hV15]; exact (F14_frame V14 (r := main_v15) (by decide)).trans e1_14
  have l2_15 : V15 (main_v20 : DevRef τ sig) = linOf (V (main_arg0 : DevRef τ sig)) (V (main_arg2 : DevRef τ sig)) ⟨2, by decide⟩ := by
    rw [← hV15]; exact (F14_frame V14 (r := main_v20) (by decide)).trans l2_14
  have e2_15 : V15 (main_v23 : DevRef τ sig) = embOf (V (main_arg0 : DevRef τ sig)) (V (main_arg3 : DevRef τ sig)) ⟨2, by decide⟩ := by
    rw [← hV15]; exact (F14_frame V14 (r := main_v23) (by decide)).trans e2_14
  have l3_15 : V15 (main_v28 : DevRef τ sig) = linOf (V (main_arg0 : DevRef τ sig)) (V (main_arg2 : DevRef τ sig)) ⟨3, by decide⟩ := by
    rw [← hV15]; exact (F14_frame V14 (r := main_v28) (by decide)).trans l3_14
  have e3_15 : V15 (main_v31 : DevRef τ sig) = embOf (V (main_arg0 : DevRef τ sig)) (V (main_arg3 : DevRef τ sig)) ⟨3, by decide⟩ := by
    rw [← hV15]; exact (F14_frame V14 (r := main_v31) (by decide)).trans e3_14
  have l4_15 : V15 (main_v36 : DevRef τ sig) = linOf (V (main_arg0 : DevRef τ sig)) (V (main_arg2 : DevRef τ sig)) ⟨4, by decide⟩ := by
    rw [← hV15]; exact (F14_frame V14 (r := main_v36) (by decide)).trans l4_14
  have e4_15 : V15 (main_v39 : DevRef τ sig) = embOf (V (main_arg0 : DevRef τ sig)) (V (main_arg3 : DevRef τ sig)) ⟨4, by decide⟩ := by
    rw [← hV15]; exact (F14_frame V14 (r := main_v39) (by decide)).trans e4_14
  have l5_15 : V15 (main_v44 : DevRef τ sig) = linOf (V (main_arg0 : DevRef τ sig)) (V (main_arg2 : DevRef τ sig)) ⟨5, by decide⟩ := by
    rw [← hV15]; exact (F14_frame V14 (r := main_v44) (by decide)).trans l5_14
  have e5_15 : V15 (main_v47 : DevRef τ sig) = embOf (V (main_arg0 : DevRef τ sig)) (V (main_arg3 : DevRef τ sig)) ⟨5, by decide⟩ := by
    rw [← hV15]; exact (F14_frame V14 (r := main_v47) (by decide)).trans e5_14
  have l6_15 : V15 (main_v52 : DevRef τ sig) = linOf (V (main_arg0 : DevRef τ sig)) (V (main_arg2 : DevRef τ sig)) ⟨6, by decide⟩ := by
    rw [← hV15]; exact (F14_frame V14 (r := main_v52) (by decide)).trans l6_14
  have e6_15 : V15 (main_v55 : DevRef τ sig) = embOf (V (main_arg0 : DevRef τ sig)) (V (main_arg3 : DevRef τ sig)) ⟨6, by decide⟩ := by
    rw [← hV15]; exact (F14_frame V14 (r := main_v55) (by decide)).trans e6_14
  have l7_15 : V15 (main_v60 : DevRef τ sig) = linOf (V (main_arg0 : DevRef τ sig)) (V (main_arg2 : DevRef τ sig)) ⟨7, by decide⟩ := by
    rw [← hV15]; exact (F14_frame V14 (r := main_v60) (by decide)).trans l7_14
  have e7_15 : V15 (main_v63 : DevRef τ sig) = embOf (V (main_arg0 : DevRef τ sig)) (V (main_arg3 : DevRef τ sig)) ⟨7, by decide⟩ := by
    rw [← hV15]; exact (F14_frame V14 (r := main_v63) (by decide)).trans e7_14
  have l8_15 : V15 (main_v68 : DevRef τ sig) = linOf (V (main_arg0 : DevRef τ sig)) (V (main_arg2 : DevRef τ sig)) ⟨8, by decide⟩ := by
    rw [← hV15]; exact (F14_frame V14 (r := main_v68) (by decide)).trans l8_14
  have e8_15 : V15 (main_v71 : DevRef τ sig) = embOf (V (main_arg0 : DevRef τ sig)) (V (main_arg3 : DevRef τ sig)) ⟨8, by decide⟩ := by
    rw [← hV15]; exact (F14_frame V14 (r := main_v71) (by decide)).trans e8_14
  have l9_15 : V15 (main_v76 : DevRef τ sig) = linOf (V (main_arg0 : DevRef τ sig)) (V (main_arg2 : DevRef τ sig)) ⟨9, by decide⟩ := by
    rw [← hV15]; exact (F14_frame V14 (r := main_v76) (by decide)).trans l9_14
  have e9_15 : V15 (main_v79 : DevRef τ sig) = embOf (V (main_arg0 : DevRef τ sig)) (V (main_arg3 : DevRef τ sig)) ⟨9, by decide⟩ := by
    rw [← hV15]; exact (F14_frame V14 (r := main_v79) (by decide)).trans e9_14
  have l10_15 : V15 (main_v84 : DevRef τ sig) = linOf (V (main_arg0 : DevRef τ sig)) (V (main_arg2 : DevRef τ sig)) ⟨10, by decide⟩ := by
    rw [← hV15]; exact (F14_frame V14 (r := main_v84) (by decide)).trans l10_14
  have e10_15 : V15 (main_v87 : DevRef τ sig) = embOf (V (main_arg0 : DevRef τ sig)) (V (main_arg3 : DevRef τ sig)) ⟨10, by decide⟩ := by
    rw [← hV15]; exact (F14_frame V14 (r := main_v87) (by decide)).trans e10_14
  have l11_15 : V15 (main_v92 : DevRef τ sig) = linOf (V (main_arg0 : DevRef τ sig)) (V (main_arg2 : DevRef τ sig)) ⟨11, by decide⟩ := by
    rw [← hV15]; exact (F14_frame V14 (r := main_v92) (by decide)).trans l11_14
  have e11_15 : V15 (main_v95 : DevRef τ sig) = embOf (V (main_arg0 : DevRef τ sig)) (V (main_arg3 : DevRef τ sig)) ⟨11, by decide⟩ := by
    rw [← hV15]; exact (F14_frame V14 (r := main_v95) (by decide)).trans e11_14
  have l12_15 : V15 (main_v100 : DevRef τ sig) = linOf (V (main_arg0 : DevRef τ sig)) (V (main_arg2 : DevRef τ sig)) ⟨12, by decide⟩ := by
    rw [← hV15]; exact (F14_frame V14 (r := main_v100) (by decide)).trans l12_14
  have e12_15 : V15 (main_v103 : DevRef τ sig) = embOf (V (main_arg0 : DevRef τ sig)) (V (main_arg3 : DevRef τ sig)) ⟨12, by decide⟩ := by
    rw [← hV15]; exact (F14_frame V14 (r := main_v103) (by decide)).trans e12_14
  have l13_15 : V15 (main_v108 : DevRef τ sig) = linOf (V (main_arg0 : DevRef τ sig)) (V (main_arg2 : DevRef τ sig)) ⟨13, by decide⟩ := by
    rw [← hV15]; exact (F14_frame V14 (r := main_v108) (by decide)).trans l13_14
  have e13_15 : V15 (main_v111 : DevRef τ sig) = embOf (V (main_arg0 : DevRef τ sig)) (V (main_arg3 : DevRef τ sig)) ⟨13, by decide⟩ := by
    rw [← hV15]; exact (F14_frame V14 (r := main_v111) (by decide)).trans e13_14
  have l14_15 : V15 (main_v116 : DevRef τ sig) = linOf (V (main_arg0 : DevRef τ sig)) (V (main_arg2 : DevRef τ sig)) ⟨14, by decide⟩ := by
    rw [← hV15, F14_lin V14, a0_14, a2_14]; rfl
  have e14_15 : V15 (main_v119 : DevRef τ sig) = embOf (V (main_arg0 : DevRef τ sig)) (V (main_arg3 : DevRef τ sig)) ⟨14, by decide⟩ := by
    rw [← hV15, F14_emb V14, a0_14, a3_14]; rfl
  clear hV15 a0_14 a1_14 a2_14 a3_14 a4_14 a5_14 l0_14 e0_14 l1_14 e1_14 l2_14 e2_14 l3_14 e3_14 l4_14 e4_14 l5_14 e5_14 l6_14 e6_14 l7_14 e7_14 l8_14 e8_14 l9_14 e9_14 l10_14 e10_14 l11_14 e11_14 l12_14 e12_14 l13_14 e13_14
  -- field 15
  rw [after_append']
  generalize hV16 : after F15 V15 = V16
  have a0_16 : V16 (main_arg0 : DevRef τ sig) = V (main_arg0 : DevRef τ sig) := by
    rw [← hV16]; exact (F15_frame V15 (r := main_arg0) (by decide)).trans a0_15
  have a1_16 : V16 (main_arg1 : DevRef τ sig) = V (main_arg1 : DevRef τ sig) := by
    rw [← hV16]; exact (F15_frame V15 (r := main_arg1) (by decide)).trans a1_15
  have a2_16 : V16 (main_arg2 : DevRef τ sig) = V (main_arg2 : DevRef τ sig) := by
    rw [← hV16]; exact (F15_frame V15 (r := main_arg2) (by decide)).trans a2_15
  have a3_16 : V16 (main_arg3 : DevRef τ sig) = V (main_arg3 : DevRef τ sig) := by
    rw [← hV16]; exact (F15_frame V15 (r := main_arg3) (by decide)).trans a3_15
  have a4_16 : V16 (main_arg4 : DevRef τ sig) = V (main_arg4 : DevRef τ sig) := by
    rw [← hV16]; exact (F15_frame V15 (r := main_arg4) (by decide)).trans a4_15
  have a5_16 : V16 (main_arg5 : DevRef τ sig) = V (main_arg5 : DevRef τ sig) := by
    rw [← hV16]; exact (F15_frame V15 (r := main_arg5) (by decide)).trans a5_15
  have l0_16 : V16 (main_v4 : DevRef τ sig) = linOf (V (main_arg0 : DevRef τ sig)) (V (main_arg2 : DevRef τ sig)) ⟨0, by decide⟩ := by
    rw [← hV16]; exact (F15_frame V15 (r := main_v4) (by decide)).trans l0_15
  have e0_16 : V16 (main_v7 : DevRef τ sig) = embOf (V (main_arg0 : DevRef τ sig)) (V (main_arg3 : DevRef τ sig)) ⟨0, by decide⟩ := by
    rw [← hV16]; exact (F15_frame V15 (r := main_v7) (by decide)).trans e0_15
  have l1_16 : V16 (main_v12 : DevRef τ sig) = linOf (V (main_arg0 : DevRef τ sig)) (V (main_arg2 : DevRef τ sig)) ⟨1, by decide⟩ := by
    rw [← hV16]; exact (F15_frame V15 (r := main_v12) (by decide)).trans l1_15
  have e1_16 : V16 (main_v15 : DevRef τ sig) = embOf (V (main_arg0 : DevRef τ sig)) (V (main_arg3 : DevRef τ sig)) ⟨1, by decide⟩ := by
    rw [← hV16]; exact (F15_frame V15 (r := main_v15) (by decide)).trans e1_15
  have l2_16 : V16 (main_v20 : DevRef τ sig) = linOf (V (main_arg0 : DevRef τ sig)) (V (main_arg2 : DevRef τ sig)) ⟨2, by decide⟩ := by
    rw [← hV16]; exact (F15_frame V15 (r := main_v20) (by decide)).trans l2_15
  have e2_16 : V16 (main_v23 : DevRef τ sig) = embOf (V (main_arg0 : DevRef τ sig)) (V (main_arg3 : DevRef τ sig)) ⟨2, by decide⟩ := by
    rw [← hV16]; exact (F15_frame V15 (r := main_v23) (by decide)).trans e2_15
  have l3_16 : V16 (main_v28 : DevRef τ sig) = linOf (V (main_arg0 : DevRef τ sig)) (V (main_arg2 : DevRef τ sig)) ⟨3, by decide⟩ := by
    rw [← hV16]; exact (F15_frame V15 (r := main_v28) (by decide)).trans l3_15
  have e3_16 : V16 (main_v31 : DevRef τ sig) = embOf (V (main_arg0 : DevRef τ sig)) (V (main_arg3 : DevRef τ sig)) ⟨3, by decide⟩ := by
    rw [← hV16]; exact (F15_frame V15 (r := main_v31) (by decide)).trans e3_15
  have l4_16 : V16 (main_v36 : DevRef τ sig) = linOf (V (main_arg0 : DevRef τ sig)) (V (main_arg2 : DevRef τ sig)) ⟨4, by decide⟩ := by
    rw [← hV16]; exact (F15_frame V15 (r := main_v36) (by decide)).trans l4_15
  have e4_16 : V16 (main_v39 : DevRef τ sig) = embOf (V (main_arg0 : DevRef τ sig)) (V (main_arg3 : DevRef τ sig)) ⟨4, by decide⟩ := by
    rw [← hV16]; exact (F15_frame V15 (r := main_v39) (by decide)).trans e4_15
  have l5_16 : V16 (main_v44 : DevRef τ sig) = linOf (V (main_arg0 : DevRef τ sig)) (V (main_arg2 : DevRef τ sig)) ⟨5, by decide⟩ := by
    rw [← hV16]; exact (F15_frame V15 (r := main_v44) (by decide)).trans l5_15
  have e5_16 : V16 (main_v47 : DevRef τ sig) = embOf (V (main_arg0 : DevRef τ sig)) (V (main_arg3 : DevRef τ sig)) ⟨5, by decide⟩ := by
    rw [← hV16]; exact (F15_frame V15 (r := main_v47) (by decide)).trans e5_15
  have l6_16 : V16 (main_v52 : DevRef τ sig) = linOf (V (main_arg0 : DevRef τ sig)) (V (main_arg2 : DevRef τ sig)) ⟨6, by decide⟩ := by
    rw [← hV16]; exact (F15_frame V15 (r := main_v52) (by decide)).trans l6_15
  have e6_16 : V16 (main_v55 : DevRef τ sig) = embOf (V (main_arg0 : DevRef τ sig)) (V (main_arg3 : DevRef τ sig)) ⟨6, by decide⟩ := by
    rw [← hV16]; exact (F15_frame V15 (r := main_v55) (by decide)).trans e6_15
  have l7_16 : V16 (main_v60 : DevRef τ sig) = linOf (V (main_arg0 : DevRef τ sig)) (V (main_arg2 : DevRef τ sig)) ⟨7, by decide⟩ := by
    rw [← hV16]; exact (F15_frame V15 (r := main_v60) (by decide)).trans l7_15
  have e7_16 : V16 (main_v63 : DevRef τ sig) = embOf (V (main_arg0 : DevRef τ sig)) (V (main_arg3 : DevRef τ sig)) ⟨7, by decide⟩ := by
    rw [← hV16]; exact (F15_frame V15 (r := main_v63) (by decide)).trans e7_15
  have l8_16 : V16 (main_v68 : DevRef τ sig) = linOf (V (main_arg0 : DevRef τ sig)) (V (main_arg2 : DevRef τ sig)) ⟨8, by decide⟩ := by
    rw [← hV16]; exact (F15_frame V15 (r := main_v68) (by decide)).trans l8_15
  have e8_16 : V16 (main_v71 : DevRef τ sig) = embOf (V (main_arg0 : DevRef τ sig)) (V (main_arg3 : DevRef τ sig)) ⟨8, by decide⟩ := by
    rw [← hV16]; exact (F15_frame V15 (r := main_v71) (by decide)).trans e8_15
  have l9_16 : V16 (main_v76 : DevRef τ sig) = linOf (V (main_arg0 : DevRef τ sig)) (V (main_arg2 : DevRef τ sig)) ⟨9, by decide⟩ := by
    rw [← hV16]; exact (F15_frame V15 (r := main_v76) (by decide)).trans l9_15
  have e9_16 : V16 (main_v79 : DevRef τ sig) = embOf (V (main_arg0 : DevRef τ sig)) (V (main_arg3 : DevRef τ sig)) ⟨9, by decide⟩ := by
    rw [← hV16]; exact (F15_frame V15 (r := main_v79) (by decide)).trans e9_15
  have l10_16 : V16 (main_v84 : DevRef τ sig) = linOf (V (main_arg0 : DevRef τ sig)) (V (main_arg2 : DevRef τ sig)) ⟨10, by decide⟩ := by
    rw [← hV16]; exact (F15_frame V15 (r := main_v84) (by decide)).trans l10_15
  have e10_16 : V16 (main_v87 : DevRef τ sig) = embOf (V (main_arg0 : DevRef τ sig)) (V (main_arg3 : DevRef τ sig)) ⟨10, by decide⟩ := by
    rw [← hV16]; exact (F15_frame V15 (r := main_v87) (by decide)).trans e10_15
  have l11_16 : V16 (main_v92 : DevRef τ sig) = linOf (V (main_arg0 : DevRef τ sig)) (V (main_arg2 : DevRef τ sig)) ⟨11, by decide⟩ := by
    rw [← hV16]; exact (F15_frame V15 (r := main_v92) (by decide)).trans l11_15
  have e11_16 : V16 (main_v95 : DevRef τ sig) = embOf (V (main_arg0 : DevRef τ sig)) (V (main_arg3 : DevRef τ sig)) ⟨11, by decide⟩ := by
    rw [← hV16]; exact (F15_frame V15 (r := main_v95) (by decide)).trans e11_15
  have l12_16 : V16 (main_v100 : DevRef τ sig) = linOf (V (main_arg0 : DevRef τ sig)) (V (main_arg2 : DevRef τ sig)) ⟨12, by decide⟩ := by
    rw [← hV16]; exact (F15_frame V15 (r := main_v100) (by decide)).trans l12_15
  have e12_16 : V16 (main_v103 : DevRef τ sig) = embOf (V (main_arg0 : DevRef τ sig)) (V (main_arg3 : DevRef τ sig)) ⟨12, by decide⟩ := by
    rw [← hV16]; exact (F15_frame V15 (r := main_v103) (by decide)).trans e12_15
  have l13_16 : V16 (main_v108 : DevRef τ sig) = linOf (V (main_arg0 : DevRef τ sig)) (V (main_arg2 : DevRef τ sig)) ⟨13, by decide⟩ := by
    rw [← hV16]; exact (F15_frame V15 (r := main_v108) (by decide)).trans l13_15
  have e13_16 : V16 (main_v111 : DevRef τ sig) = embOf (V (main_arg0 : DevRef τ sig)) (V (main_arg3 : DevRef τ sig)) ⟨13, by decide⟩ := by
    rw [← hV16]; exact (F15_frame V15 (r := main_v111) (by decide)).trans e13_15
  have l14_16 : V16 (main_v116 : DevRef τ sig) = linOf (V (main_arg0 : DevRef τ sig)) (V (main_arg2 : DevRef τ sig)) ⟨14, by decide⟩ := by
    rw [← hV16]; exact (F15_frame V15 (r := main_v116) (by decide)).trans l14_15
  have e14_16 : V16 (main_v119 : DevRef τ sig) = embOf (V (main_arg0 : DevRef τ sig)) (V (main_arg3 : DevRef τ sig)) ⟨14, by decide⟩ := by
    rw [← hV16]; exact (F15_frame V15 (r := main_v119) (by decide)).trans e14_15
  have l15_16 : V16 (main_v124 : DevRef τ sig) = linOf (V (main_arg0 : DevRef τ sig)) (V (main_arg2 : DevRef τ sig)) ⟨15, by decide⟩ := by
    rw [← hV16, F15_lin V15, a0_15, a2_15]; rfl
  have e15_16 : V16 (main_v127 : DevRef τ sig) = embOf (V (main_arg0 : DevRef τ sig)) (V (main_arg3 : DevRef τ sig)) ⟨15, by decide⟩ := by
    rw [← hV16, F15_emb V15, a0_15, a3_15]; rfl
  clear hV16 a0_15 a1_15 a2_15 a3_15 a4_15 a5_15 l0_15 e0_15 l1_15 e1_15 l2_15 e2_15 l3_15 e3_15 l4_15 e4_15 l5_15 e5_15 l6_15 e6_15 l7_15 e7_15 l8_15 e8_15 l9_15 e9_15 l10_15 e10_15 l11_15 e11_15 l12_15 e12_15 l13_15 e13_15 l14_15 e14_15
  -- field 16
  rw [after_append']
  generalize hV17 : after F16 V16 = V17
  have a0_17 : V17 (main_arg0 : DevRef τ sig) = V (main_arg0 : DevRef τ sig) := by
    rw [← hV17]; exact (F16_frame V16 (r := main_arg0) (by decide)).trans a0_16
  have a1_17 : V17 (main_arg1 : DevRef τ sig) = V (main_arg1 : DevRef τ sig) := by
    rw [← hV17]; exact (F16_frame V16 (r := main_arg1) (by decide)).trans a1_16
  have a2_17 : V17 (main_arg2 : DevRef τ sig) = V (main_arg2 : DevRef τ sig) := by
    rw [← hV17]; exact (F16_frame V16 (r := main_arg2) (by decide)).trans a2_16
  have a3_17 : V17 (main_arg3 : DevRef τ sig) = V (main_arg3 : DevRef τ sig) := by
    rw [← hV17]; exact (F16_frame V16 (r := main_arg3) (by decide)).trans a3_16
  have a4_17 : V17 (main_arg4 : DevRef τ sig) = V (main_arg4 : DevRef τ sig) := by
    rw [← hV17]; exact (F16_frame V16 (r := main_arg4) (by decide)).trans a4_16
  have a5_17 : V17 (main_arg5 : DevRef τ sig) = V (main_arg5 : DevRef τ sig) := by
    rw [← hV17]; exact (F16_frame V16 (r := main_arg5) (by decide)).trans a5_16
  have l0_17 : V17 (main_v4 : DevRef τ sig) = linOf (V (main_arg0 : DevRef τ sig)) (V (main_arg2 : DevRef τ sig)) ⟨0, by decide⟩ := by
    rw [← hV17]; exact (F16_frame V16 (r := main_v4) (by decide)).trans l0_16
  have e0_17 : V17 (main_v7 : DevRef τ sig) = embOf (V (main_arg0 : DevRef τ sig)) (V (main_arg3 : DevRef τ sig)) ⟨0, by decide⟩ := by
    rw [← hV17]; exact (F16_frame V16 (r := main_v7) (by decide)).trans e0_16
  have l1_17 : V17 (main_v12 : DevRef τ sig) = linOf (V (main_arg0 : DevRef τ sig)) (V (main_arg2 : DevRef τ sig)) ⟨1, by decide⟩ := by
    rw [← hV17]; exact (F16_frame V16 (r := main_v12) (by decide)).trans l1_16
  have e1_17 : V17 (main_v15 : DevRef τ sig) = embOf (V (main_arg0 : DevRef τ sig)) (V (main_arg3 : DevRef τ sig)) ⟨1, by decide⟩ := by
    rw [← hV17]; exact (F16_frame V16 (r := main_v15) (by decide)).trans e1_16
  have l2_17 : V17 (main_v20 : DevRef τ sig) = linOf (V (main_arg0 : DevRef τ sig)) (V (main_arg2 : DevRef τ sig)) ⟨2, by decide⟩ := by
    rw [← hV17]; exact (F16_frame V16 (r := main_v20) (by decide)).trans l2_16
  have e2_17 : V17 (main_v23 : DevRef τ sig) = embOf (V (main_arg0 : DevRef τ sig)) (V (main_arg3 : DevRef τ sig)) ⟨2, by decide⟩ := by
    rw [← hV17]; exact (F16_frame V16 (r := main_v23) (by decide)).trans e2_16
  have l3_17 : V17 (main_v28 : DevRef τ sig) = linOf (V (main_arg0 : DevRef τ sig)) (V (main_arg2 : DevRef τ sig)) ⟨3, by decide⟩ := by
    rw [← hV17]; exact (F16_frame V16 (r := main_v28) (by decide)).trans l3_16
  have e3_17 : V17 (main_v31 : DevRef τ sig) = embOf (V (main_arg0 : DevRef τ sig)) (V (main_arg3 : DevRef τ sig)) ⟨3, by decide⟩ := by
    rw [← hV17]; exact (F16_frame V16 (r := main_v31) (by decide)).trans e3_16
  have l4_17 : V17 (main_v36 : DevRef τ sig) = linOf (V (main_arg0 : DevRef τ sig)) (V (main_arg2 : DevRef τ sig)) ⟨4, by decide⟩ := by
    rw [← hV17]; exact (F16_frame V16 (r := main_v36) (by decide)).trans l4_16
  have e4_17 : V17 (main_v39 : DevRef τ sig) = embOf (V (main_arg0 : DevRef τ sig)) (V (main_arg3 : DevRef τ sig)) ⟨4, by decide⟩ := by
    rw [← hV17]; exact (F16_frame V16 (r := main_v39) (by decide)).trans e4_16
  have l5_17 : V17 (main_v44 : DevRef τ sig) = linOf (V (main_arg0 : DevRef τ sig)) (V (main_arg2 : DevRef τ sig)) ⟨5, by decide⟩ := by
    rw [← hV17]; exact (F16_frame V16 (r := main_v44) (by decide)).trans l5_16
  have e5_17 : V17 (main_v47 : DevRef τ sig) = embOf (V (main_arg0 : DevRef τ sig)) (V (main_arg3 : DevRef τ sig)) ⟨5, by decide⟩ := by
    rw [← hV17]; exact (F16_frame V16 (r := main_v47) (by decide)).trans e5_16
  have l6_17 : V17 (main_v52 : DevRef τ sig) = linOf (V (main_arg0 : DevRef τ sig)) (V (main_arg2 : DevRef τ sig)) ⟨6, by decide⟩ := by
    rw [← hV17]; exact (F16_frame V16 (r := main_v52) (by decide)).trans l6_16
  have e6_17 : V17 (main_v55 : DevRef τ sig) = embOf (V (main_arg0 : DevRef τ sig)) (V (main_arg3 : DevRef τ sig)) ⟨6, by decide⟩ := by
    rw [← hV17]; exact (F16_frame V16 (r := main_v55) (by decide)).trans e6_16
  have l7_17 : V17 (main_v60 : DevRef τ sig) = linOf (V (main_arg0 : DevRef τ sig)) (V (main_arg2 : DevRef τ sig)) ⟨7, by decide⟩ := by
    rw [← hV17]; exact (F16_frame V16 (r := main_v60) (by decide)).trans l7_16
  have e7_17 : V17 (main_v63 : DevRef τ sig) = embOf (V (main_arg0 : DevRef τ sig)) (V (main_arg3 : DevRef τ sig)) ⟨7, by decide⟩ := by
    rw [← hV17]; exact (F16_frame V16 (r := main_v63) (by decide)).trans e7_16
  have l8_17 : V17 (main_v68 : DevRef τ sig) = linOf (V (main_arg0 : DevRef τ sig)) (V (main_arg2 : DevRef τ sig)) ⟨8, by decide⟩ := by
    rw [← hV17]; exact (F16_frame V16 (r := main_v68) (by decide)).trans l8_16
  have e8_17 : V17 (main_v71 : DevRef τ sig) = embOf (V (main_arg0 : DevRef τ sig)) (V (main_arg3 : DevRef τ sig)) ⟨8, by decide⟩ := by
    rw [← hV17]; exact (F16_frame V16 (r := main_v71) (by decide)).trans e8_16
  have l9_17 : V17 (main_v76 : DevRef τ sig) = linOf (V (main_arg0 : DevRef τ sig)) (V (main_arg2 : DevRef τ sig)) ⟨9, by decide⟩ := by
    rw [← hV17]; exact (F16_frame V16 (r := main_v76) (by decide)).trans l9_16
  have e9_17 : V17 (main_v79 : DevRef τ sig) = embOf (V (main_arg0 : DevRef τ sig)) (V (main_arg3 : DevRef τ sig)) ⟨9, by decide⟩ := by
    rw [← hV17]; exact (F16_frame V16 (r := main_v79) (by decide)).trans e9_16
  have l10_17 : V17 (main_v84 : DevRef τ sig) = linOf (V (main_arg0 : DevRef τ sig)) (V (main_arg2 : DevRef τ sig)) ⟨10, by decide⟩ := by
    rw [← hV17]; exact (F16_frame V16 (r := main_v84) (by decide)).trans l10_16
  have e10_17 : V17 (main_v87 : DevRef τ sig) = embOf (V (main_arg0 : DevRef τ sig)) (V (main_arg3 : DevRef τ sig)) ⟨10, by decide⟩ := by
    rw [← hV17]; exact (F16_frame V16 (r := main_v87) (by decide)).trans e10_16
  have l11_17 : V17 (main_v92 : DevRef τ sig) = linOf (V (main_arg0 : DevRef τ sig)) (V (main_arg2 : DevRef τ sig)) ⟨11, by decide⟩ := by
    rw [← hV17]; exact (F16_frame V16 (r := main_v92) (by decide)).trans l11_16
  have e11_17 : V17 (main_v95 : DevRef τ sig) = embOf (V (main_arg0 : DevRef τ sig)) (V (main_arg3 : DevRef τ sig)) ⟨11, by decide⟩ := by
    rw [← hV17]; exact (F16_frame V16 (r := main_v95) (by decide)).trans e11_16
  have l12_17 : V17 (main_v100 : DevRef τ sig) = linOf (V (main_arg0 : DevRef τ sig)) (V (main_arg2 : DevRef τ sig)) ⟨12, by decide⟩ := by
    rw [← hV17]; exact (F16_frame V16 (r := main_v100) (by decide)).trans l12_16
  have e12_17 : V17 (main_v103 : DevRef τ sig) = embOf (V (main_arg0 : DevRef τ sig)) (V (main_arg3 : DevRef τ sig)) ⟨12, by decide⟩ := by
    rw [← hV17]; exact (F16_frame V16 (r := main_v103) (by decide)).trans e12_16
  have l13_17 : V17 (main_v108 : DevRef τ sig) = linOf (V (main_arg0 : DevRef τ sig)) (V (main_arg2 : DevRef τ sig)) ⟨13, by decide⟩ := by
    rw [← hV17]; exact (F16_frame V16 (r := main_v108) (by decide)).trans l13_16
  have e13_17 : V17 (main_v111 : DevRef τ sig) = embOf (V (main_arg0 : DevRef τ sig)) (V (main_arg3 : DevRef τ sig)) ⟨13, by decide⟩ := by
    rw [← hV17]; exact (F16_frame V16 (r := main_v111) (by decide)).trans e13_16
  have l14_17 : V17 (main_v116 : DevRef τ sig) = linOf (V (main_arg0 : DevRef τ sig)) (V (main_arg2 : DevRef τ sig)) ⟨14, by decide⟩ := by
    rw [← hV17]; exact (F16_frame V16 (r := main_v116) (by decide)).trans l14_16
  have e14_17 : V17 (main_v119 : DevRef τ sig) = embOf (V (main_arg0 : DevRef τ sig)) (V (main_arg3 : DevRef τ sig)) ⟨14, by decide⟩ := by
    rw [← hV17]; exact (F16_frame V16 (r := main_v119) (by decide)).trans e14_16
  have l15_17 : V17 (main_v124 : DevRef τ sig) = linOf (V (main_arg0 : DevRef τ sig)) (V (main_arg2 : DevRef τ sig)) ⟨15, by decide⟩ := by
    rw [← hV17]; exact (F16_frame V16 (r := main_v124) (by decide)).trans l15_16
  have e15_17 : V17 (main_v127 : DevRef τ sig) = embOf (V (main_arg0 : DevRef τ sig)) (V (main_arg3 : DevRef τ sig)) ⟨15, by decide⟩ := by
    rw [← hV17]; exact (F16_frame V16 (r := main_v127) (by decide)).trans e15_16
  have l16_17 : V17 (main_v132 : DevRef τ sig) = linOf (V (main_arg0 : DevRef τ sig)) (V (main_arg2 : DevRef τ sig)) ⟨16, by decide⟩ := by
    rw [← hV17, F16_lin V16, a0_16, a2_16]; rfl
  have e16_17 : V17 (main_v135 : DevRef τ sig) = embOf (V (main_arg0 : DevRef τ sig)) (V (main_arg3 : DevRef τ sig)) ⟨16, by decide⟩ := by
    rw [← hV17, F16_emb V16, a0_16, a3_16]; rfl
  clear hV17 a0_16 a1_16 a2_16 a3_16 a4_16 a5_16 l0_16 e0_16 l1_16 e1_16 l2_16 e2_16 l3_16 e3_16 l4_16 e4_16 l5_16 e5_16 l6_16 e6_16 l7_16 e7_16 l8_16 e8_16 l9_16 e9_16 l10_16 e10_16 l11_16 e11_16 l12_16 e12_16 l13_16 e13_16 l14_16 e14_16 l15_16 e15_16
  -- field 17
  rw [after_append']
  generalize hV18 : after F17 V17 = V18
  have a0_18 : V18 (main_arg0 : DevRef τ sig) = V (main_arg0 : DevRef τ sig) := by
    rw [← hV18]; exact (F17_frame V17 (r := main_arg0) (by decide)).trans a0_17
  have a1_18 : V18 (main_arg1 : DevRef τ sig) = V (main_arg1 : DevRef τ sig) := by
    rw [← hV18]; exact (F17_frame V17 (r := main_arg1) (by decide)).trans a1_17
  have a2_18 : V18 (main_arg2 : DevRef τ sig) = V (main_arg2 : DevRef τ sig) := by
    rw [← hV18]; exact (F17_frame V17 (r := main_arg2) (by decide)).trans a2_17
  have a3_18 : V18 (main_arg3 : DevRef τ sig) = V (main_arg3 : DevRef τ sig) := by
    rw [← hV18]; exact (F17_frame V17 (r := main_arg3) (by decide)).trans a3_17
  have a4_18 : V18 (main_arg4 : DevRef τ sig) = V (main_arg4 : DevRef τ sig) := by
    rw [← hV18]; exact (F17_frame V17 (r := main_arg4) (by decide)).trans a4_17
  have a5_18 : V18 (main_arg5 : DevRef τ sig) = V (main_arg5 : DevRef τ sig) := by
    rw [← hV18]; exact (F17_frame V17 (r := main_arg5) (by decide)).trans a5_17
  have l0_18 : V18 (main_v4 : DevRef τ sig) = linOf (V (main_arg0 : DevRef τ sig)) (V (main_arg2 : DevRef τ sig)) ⟨0, by decide⟩ := by
    rw [← hV18]; exact (F17_frame V17 (r := main_v4) (by decide)).trans l0_17
  have e0_18 : V18 (main_v7 : DevRef τ sig) = embOf (V (main_arg0 : DevRef τ sig)) (V (main_arg3 : DevRef τ sig)) ⟨0, by decide⟩ := by
    rw [← hV18]; exact (F17_frame V17 (r := main_v7) (by decide)).trans e0_17
  have l1_18 : V18 (main_v12 : DevRef τ sig) = linOf (V (main_arg0 : DevRef τ sig)) (V (main_arg2 : DevRef τ sig)) ⟨1, by decide⟩ := by
    rw [← hV18]; exact (F17_frame V17 (r := main_v12) (by decide)).trans l1_17
  have e1_18 : V18 (main_v15 : DevRef τ sig) = embOf (V (main_arg0 : DevRef τ sig)) (V (main_arg3 : DevRef τ sig)) ⟨1, by decide⟩ := by
    rw [← hV18]; exact (F17_frame V17 (r := main_v15) (by decide)).trans e1_17
  have l2_18 : V18 (main_v20 : DevRef τ sig) = linOf (V (main_arg0 : DevRef τ sig)) (V (main_arg2 : DevRef τ sig)) ⟨2, by decide⟩ := by
    rw [← hV18]; exact (F17_frame V17 (r := main_v20) (by decide)).trans l2_17
  have e2_18 : V18 (main_v23 : DevRef τ sig) = embOf (V (main_arg0 : DevRef τ sig)) (V (main_arg3 : DevRef τ sig)) ⟨2, by decide⟩ := by
    rw [← hV18]; exact (F17_frame V17 (r := main_v23) (by decide)).trans e2_17
  have l3_18 : V18 (main_v28 : DevRef τ sig) = linOf (V (main_arg0 : DevRef τ sig)) (V (main_arg2 : DevRef τ sig)) ⟨3, by decide⟩ := by
    rw [← hV18]; exact (F17_frame V17 (r := main_v28) (by decide)).trans l3_17
  have e3_18 : V18 (main_v31 : DevRef τ sig) = embOf (V (main_arg0 : DevRef τ sig)) (V (main_arg3 : DevRef τ sig)) ⟨3, by decide⟩ := by
    rw [← hV18]; exact (F17_frame V17 (r := main_v31) (by decide)).trans e3_17
  have l4_18 : V18 (main_v36 : DevRef τ sig) = linOf (V (main_arg0 : DevRef τ sig)) (V (main_arg2 : DevRef τ sig)) ⟨4, by decide⟩ := by
    rw [← hV18]; exact (F17_frame V17 (r := main_v36) (by decide)).trans l4_17
  have e4_18 : V18 (main_v39 : DevRef τ sig) = embOf (V (main_arg0 : DevRef τ sig)) (V (main_arg3 : DevRef τ sig)) ⟨4, by decide⟩ := by
    rw [← hV18]; exact (F17_frame V17 (r := main_v39) (by decide)).trans e4_17
  have l5_18 : V18 (main_v44 : DevRef τ sig) = linOf (V (main_arg0 : DevRef τ sig)) (V (main_arg2 : DevRef τ sig)) ⟨5, by decide⟩ := by
    rw [← hV18]; exact (F17_frame V17 (r := main_v44) (by decide)).trans l5_17
  have e5_18 : V18 (main_v47 : DevRef τ sig) = embOf (V (main_arg0 : DevRef τ sig)) (V (main_arg3 : DevRef τ sig)) ⟨5, by decide⟩ := by
    rw [← hV18]; exact (F17_frame V17 (r := main_v47) (by decide)).trans e5_17
  have l6_18 : V18 (main_v52 : DevRef τ sig) = linOf (V (main_arg0 : DevRef τ sig)) (V (main_arg2 : DevRef τ sig)) ⟨6, by decide⟩ := by
    rw [← hV18]; exact (F17_frame V17 (r := main_v52) (by decide)).trans l6_17
  have e6_18 : V18 (main_v55 : DevRef τ sig) = embOf (V (main_arg0 : DevRef τ sig)) (V (main_arg3 : DevRef τ sig)) ⟨6, by decide⟩ := by
    rw [← hV18]; exact (F17_frame V17 (r := main_v55) (by decide)).trans e6_17
  have l7_18 : V18 (main_v60 : DevRef τ sig) = linOf (V (main_arg0 : DevRef τ sig)) (V (main_arg2 : DevRef τ sig)) ⟨7, by decide⟩ := by
    rw [← hV18]; exact (F17_frame V17 (r := main_v60) (by decide)).trans l7_17
  have e7_18 : V18 (main_v63 : DevRef τ sig) = embOf (V (main_arg0 : DevRef τ sig)) (V (main_arg3 : DevRef τ sig)) ⟨7, by decide⟩ := by
    rw [← hV18]; exact (F17_frame V17 (r := main_v63) (by decide)).trans e7_17
  have l8_18 : V18 (main_v68 : DevRef τ sig) = linOf (V (main_arg0 : DevRef τ sig)) (V (main_arg2 : DevRef τ sig)) ⟨8, by decide⟩ := by
    rw [← hV18]; exact (F17_frame V17 (r := main_v68) (by decide)).trans l8_17
  have e8_18 : V18 (main_v71 : DevRef τ sig) = embOf (V (main_arg0 : DevRef τ sig)) (V (main_arg3 : DevRef τ sig)) ⟨8, by decide⟩ := by
    rw [← hV18]; exact (F17_frame V17 (r := main_v71) (by decide)).trans e8_17
  have l9_18 : V18 (main_v76 : DevRef τ sig) = linOf (V (main_arg0 : DevRef τ sig)) (V (main_arg2 : DevRef τ sig)) ⟨9, by decide⟩ := by
    rw [← hV18]; exact (F17_frame V17 (r := main_v76) (by decide)).trans l9_17
  have e9_18 : V18 (main_v79 : DevRef τ sig) = embOf (V (main_arg0 : DevRef τ sig)) (V (main_arg3 : DevRef τ sig)) ⟨9, by decide⟩ := by
    rw [← hV18]; exact (F17_frame V17 (r := main_v79) (by decide)).trans e9_17
  have l10_18 : V18 (main_v84 : DevRef τ sig) = linOf (V (main_arg0 : DevRef τ sig)) (V (main_arg2 : DevRef τ sig)) ⟨10, by decide⟩ := by
    rw [← hV18]; exact (F17_frame V17 (r := main_v84) (by decide)).trans l10_17
  have e10_18 : V18 (main_v87 : DevRef τ sig) = embOf (V (main_arg0 : DevRef τ sig)) (V (main_arg3 : DevRef τ sig)) ⟨10, by decide⟩ := by
    rw [← hV18]; exact (F17_frame V17 (r := main_v87) (by decide)).trans e10_17
  have l11_18 : V18 (main_v92 : DevRef τ sig) = linOf (V (main_arg0 : DevRef τ sig)) (V (main_arg2 : DevRef τ sig)) ⟨11, by decide⟩ := by
    rw [← hV18]; exact (F17_frame V17 (r := main_v92) (by decide)).trans l11_17
  have e11_18 : V18 (main_v95 : DevRef τ sig) = embOf (V (main_arg0 : DevRef τ sig)) (V (main_arg3 : DevRef τ sig)) ⟨11, by decide⟩ := by
    rw [← hV18]; exact (F17_frame V17 (r := main_v95) (by decide)).trans e11_17
  have l12_18 : V18 (main_v100 : DevRef τ sig) = linOf (V (main_arg0 : DevRef τ sig)) (V (main_arg2 : DevRef τ sig)) ⟨12, by decide⟩ := by
    rw [← hV18]; exact (F17_frame V17 (r := main_v100) (by decide)).trans l12_17
  have e12_18 : V18 (main_v103 : DevRef τ sig) = embOf (V (main_arg0 : DevRef τ sig)) (V (main_arg3 : DevRef τ sig)) ⟨12, by decide⟩ := by
    rw [← hV18]; exact (F17_frame V17 (r := main_v103) (by decide)).trans e12_17
  have l13_18 : V18 (main_v108 : DevRef τ sig) = linOf (V (main_arg0 : DevRef τ sig)) (V (main_arg2 : DevRef τ sig)) ⟨13, by decide⟩ := by
    rw [← hV18]; exact (F17_frame V17 (r := main_v108) (by decide)).trans l13_17
  have e13_18 : V18 (main_v111 : DevRef τ sig) = embOf (V (main_arg0 : DevRef τ sig)) (V (main_arg3 : DevRef τ sig)) ⟨13, by decide⟩ := by
    rw [← hV18]; exact (F17_frame V17 (r := main_v111) (by decide)).trans e13_17
  have l14_18 : V18 (main_v116 : DevRef τ sig) = linOf (V (main_arg0 : DevRef τ sig)) (V (main_arg2 : DevRef τ sig)) ⟨14, by decide⟩ := by
    rw [← hV18]; exact (F17_frame V17 (r := main_v116) (by decide)).trans l14_17
  have e14_18 : V18 (main_v119 : DevRef τ sig) = embOf (V (main_arg0 : DevRef τ sig)) (V (main_arg3 : DevRef τ sig)) ⟨14, by decide⟩ := by
    rw [← hV18]; exact (F17_frame V17 (r := main_v119) (by decide)).trans e14_17
  have l15_18 : V18 (main_v124 : DevRef τ sig) = linOf (V (main_arg0 : DevRef τ sig)) (V (main_arg2 : DevRef τ sig)) ⟨15, by decide⟩ := by
    rw [← hV18]; exact (F17_frame V17 (r := main_v124) (by decide)).trans l15_17
  have e15_18 : V18 (main_v127 : DevRef τ sig) = embOf (V (main_arg0 : DevRef τ sig)) (V (main_arg3 : DevRef τ sig)) ⟨15, by decide⟩ := by
    rw [← hV18]; exact (F17_frame V17 (r := main_v127) (by decide)).trans e15_17
  have l16_18 : V18 (main_v132 : DevRef τ sig) = linOf (V (main_arg0 : DevRef τ sig)) (V (main_arg2 : DevRef τ sig)) ⟨16, by decide⟩ := by
    rw [← hV18]; exact (F17_frame V17 (r := main_v132) (by decide)).trans l16_17
  have e16_18 : V18 (main_v135 : DevRef τ sig) = embOf (V (main_arg0 : DevRef τ sig)) (V (main_arg3 : DevRef τ sig)) ⟨16, by decide⟩ := by
    rw [← hV18]; exact (F17_frame V17 (r := main_v135) (by decide)).trans e16_17
  have l17_18 : V18 (main_v140 : DevRef τ sig) = linOf (V (main_arg0 : DevRef τ sig)) (V (main_arg2 : DevRef τ sig)) ⟨17, by decide⟩ := by
    rw [← hV18, F17_lin V17, a0_17, a2_17]; rfl
  have e17_18 : V18 (main_v143 : DevRef τ sig) = embOf (V (main_arg0 : DevRef τ sig)) (V (main_arg3 : DevRef τ sig)) ⟨17, by decide⟩ := by
    rw [← hV18, F17_emb V17, a0_17, a3_17]; rfl
  clear hV18 a0_17 a1_17 a2_17 a3_17 a4_17 a5_17 l0_17 e0_17 l1_17 e1_17 l2_17 e2_17 l3_17 e3_17 l4_17 e4_17 l5_17 e5_17 l6_17 e6_17 l7_17 e7_17 l8_17 e8_17 l9_17 e9_17 l10_17 e10_17 l11_17 e11_17 l12_17 e12_17 l13_17 e13_17 l14_17 e14_17 l15_17 e15_17 l16_17 e16_17
  -- field 18
  rw [after_append']
  generalize hV19 : after F18 V18 = V19
  have a0_19 : V19 (main_arg0 : DevRef τ sig) = V (main_arg0 : DevRef τ sig) := by
    rw [← hV19]; exact (F18_frame V18 (r := main_arg0) (by decide)).trans a0_18
  have a1_19 : V19 (main_arg1 : DevRef τ sig) = V (main_arg1 : DevRef τ sig) := by
    rw [← hV19]; exact (F18_frame V18 (r := main_arg1) (by decide)).trans a1_18
  have a2_19 : V19 (main_arg2 : DevRef τ sig) = V (main_arg2 : DevRef τ sig) := by
    rw [← hV19]; exact (F18_frame V18 (r := main_arg2) (by decide)).trans a2_18
  have a3_19 : V19 (main_arg3 : DevRef τ sig) = V (main_arg3 : DevRef τ sig) := by
    rw [← hV19]; exact (F18_frame V18 (r := main_arg3) (by decide)).trans a3_18
  have a4_19 : V19 (main_arg4 : DevRef τ sig) = V (main_arg4 : DevRef τ sig) := by
    rw [← hV19]; exact (F18_frame V18 (r := main_arg4) (by decide)).trans a4_18
  have a5_19 : V19 (main_arg5 : DevRef τ sig) = V (main_arg5 : DevRef τ sig) := by
    rw [← hV19]; exact (F18_frame V18 (r := main_arg5) (by decide)).trans a5_18
  have l0_19 : V19 (main_v4 : DevRef τ sig) = linOf (V (main_arg0 : DevRef τ sig)) (V (main_arg2 : DevRef τ sig)) ⟨0, by decide⟩ := by
    rw [← hV19]; exact (F18_frame V18 (r := main_v4) (by decide)).trans l0_18
  have e0_19 : V19 (main_v7 : DevRef τ sig) = embOf (V (main_arg0 : DevRef τ sig)) (V (main_arg3 : DevRef τ sig)) ⟨0, by decide⟩ := by
    rw [← hV19]; exact (F18_frame V18 (r := main_v7) (by decide)).trans e0_18
  have l1_19 : V19 (main_v12 : DevRef τ sig) = linOf (V (main_arg0 : DevRef τ sig)) (V (main_arg2 : DevRef τ sig)) ⟨1, by decide⟩ := by
    rw [← hV19]; exact (F18_frame V18 (r := main_v12) (by decide)).trans l1_18
  have e1_19 : V19 (main_v15 : DevRef τ sig) = embOf (V (main_arg0 : DevRef τ sig)) (V (main_arg3 : DevRef τ sig)) ⟨1, by decide⟩ := by
    rw [← hV19]; exact (F18_frame V18 (r := main_v15) (by decide)).trans e1_18
  have l2_19 : V19 (main_v20 : DevRef τ sig) = linOf (V (main_arg0 : DevRef τ sig)) (V (main_arg2 : DevRef τ sig)) ⟨2, by decide⟩ := by
    rw [← hV19]; exact (F18_frame V18 (r := main_v20) (by decide)).trans l2_18
  have e2_19 : V19 (main_v23 : DevRef τ sig) = embOf (V (main_arg0 : DevRef τ sig)) (V (main_arg3 : DevRef τ sig)) ⟨2, by decide⟩ := by
    rw [← hV19]; exact (F18_frame V18 (r := main_v23) (by decide)).trans e2_18
  have l3_19 : V19 (main_v28 : DevRef τ sig) = linOf (V (main_arg0 : DevRef τ sig)) (V (main_arg2 : DevRef τ sig)) ⟨3, by decide⟩ := by
    rw [← hV19]; exact (F18_frame V18 (r := main_v28) (by decide)).trans l3_18
  have e3_19 : V19 (main_v31 : DevRef τ sig) = embOf (V (main_arg0 : DevRef τ sig)) (V (main_arg3 : DevRef τ sig)) ⟨3, by decide⟩ := by
    rw [← hV19]; exact (F18_frame V18 (r := main_v31) (by decide)).trans e3_18
  have l4_19 : V19 (main_v36 : DevRef τ sig) = linOf (V (main_arg0 : DevRef τ sig)) (V (main_arg2 : DevRef τ sig)) ⟨4, by decide⟩ := by
    rw [← hV19]; exact (F18_frame V18 (r := main_v36) (by decide)).trans l4_18
  have e4_19 : V19 (main_v39 : DevRef τ sig) = embOf (V (main_arg0 : DevRef τ sig)) (V (main_arg3 : DevRef τ sig)) ⟨4, by decide⟩ := by
    rw [← hV19]; exact (F18_frame V18 (r := main_v39) (by decide)).trans e4_18
  have l5_19 : V19 (main_v44 : DevRef τ sig) = linOf (V (main_arg0 : DevRef τ sig)) (V (main_arg2 : DevRef τ sig)) ⟨5, by decide⟩ := by
    rw [← hV19]; exact (F18_frame V18 (r := main_v44) (by decide)).trans l5_18
  have e5_19 : V19 (main_v47 : DevRef τ sig) = embOf (V (main_arg0 : DevRef τ sig)) (V (main_arg3 : DevRef τ sig)) ⟨5, by decide⟩ := by
    rw [← hV19]; exact (F18_frame V18 (r := main_v47) (by decide)).trans e5_18
  have l6_19 : V19 (main_v52 : DevRef τ sig) = linOf (V (main_arg0 : DevRef τ sig)) (V (main_arg2 : DevRef τ sig)) ⟨6, by decide⟩ := by
    rw [← hV19]; exact (F18_frame V18 (r := main_v52) (by decide)).trans l6_18
  have e6_19 : V19 (main_v55 : DevRef τ sig) = embOf (V (main_arg0 : DevRef τ sig)) (V (main_arg3 : DevRef τ sig)) ⟨6, by decide⟩ := by
    rw [← hV19]; exact (F18_frame V18 (r := main_v55) (by decide)).trans e6_18
  have l7_19 : V19 (main_v60 : DevRef τ sig) = linOf (V (main_arg0 : DevRef τ sig)) (V (main_arg2 : DevRef τ sig)) ⟨7, by decide⟩ := by
    rw [← hV19]; exact (F18_frame V18 (r := main_v60) (by decide)).trans l7_18
  have e7_19 : V19 (main_v63 : DevRef τ sig) = embOf (V (main_arg0 : DevRef τ sig)) (V (main_arg3 : DevRef τ sig)) ⟨7, by decide⟩ := by
    rw [← hV19]; exact (F18_frame V18 (r := main_v63) (by decide)).trans e7_18
  have l8_19 : V19 (main_v68 : DevRef τ sig) = linOf (V (main_arg0 : DevRef τ sig)) (V (main_arg2 : DevRef τ sig)) ⟨8, by decide⟩ := by
    rw [← hV19]; exact (F18_frame V18 (r := main_v68) (by decide)).trans l8_18
  have e8_19 : V19 (main_v71 : DevRef τ sig) = embOf (V (main_arg0 : DevRef τ sig)) (V (main_arg3 : DevRef τ sig)) ⟨8, by decide⟩ := by
    rw [← hV19]; exact (F18_frame V18 (r := main_v71) (by decide)).trans e8_18
  have l9_19 : V19 (main_v76 : DevRef τ sig) = linOf (V (main_arg0 : DevRef τ sig)) (V (main_arg2 : DevRef τ sig)) ⟨9, by decide⟩ := by
    rw [← hV19]; exact (F18_frame V18 (r := main_v76) (by decide)).trans l9_18
  have e9_19 : V19 (main_v79 : DevRef τ sig) = embOf (V (main_arg0 : DevRef τ sig)) (V (main_arg3 : DevRef τ sig)) ⟨9, by decide⟩ := by
    rw [← hV19]; exact (F18_frame V18 (r := main_v79) (by decide)).trans e9_18
  have l10_19 : V19 (main_v84 : DevRef τ sig) = linOf (V (main_arg0 : DevRef τ sig)) (V (main_arg2 : DevRef τ sig)) ⟨10, by decide⟩ := by
    rw [← hV19]; exact (F18_frame V18 (r := main_v84) (by decide)).trans l10_18
  have e10_19 : V19 (main_v87 : DevRef τ sig) = embOf (V (main_arg0 : DevRef τ sig)) (V (main_arg3 : DevRef τ sig)) ⟨10, by decide⟩ := by
    rw [← hV19]; exact (F18_frame V18 (r := main_v87) (by decide)).trans e10_18
  have l11_19 : V19 (main_v92 : DevRef τ sig) = linOf (V (main_arg0 : DevRef τ sig)) (V (main_arg2 : DevRef τ sig)) ⟨11, by decide⟩ := by
    rw [← hV19]; exact (F18_frame V18 (r := main_v92) (by decide)).trans l11_18
  have e11_19 : V19 (main_v95 : DevRef τ sig) = embOf (V (main_arg0 : DevRef τ sig)) (V (main_arg3 : DevRef τ sig)) ⟨11, by decide⟩ := by
    rw [← hV19]; exact (F18_frame V18 (r := main_v95) (by decide)).trans e11_18
  have l12_19 : V19 (main_v100 : DevRef τ sig) = linOf (V (main_arg0 : DevRef τ sig)) (V (main_arg2 : DevRef τ sig)) ⟨12, by decide⟩ := by
    rw [← hV19]; exact (F18_frame V18 (r := main_v100) (by decide)).trans l12_18
  have e12_19 : V19 (main_v103 : DevRef τ sig) = embOf (V (main_arg0 : DevRef τ sig)) (V (main_arg3 : DevRef τ sig)) ⟨12, by decide⟩ := by
    rw [← hV19]; exact (F18_frame V18 (r := main_v103) (by decide)).trans e12_18
  have l13_19 : V19 (main_v108 : DevRef τ sig) = linOf (V (main_arg0 : DevRef τ sig)) (V (main_arg2 : DevRef τ sig)) ⟨13, by decide⟩ := by
    rw [← hV19]; exact (F18_frame V18 (r := main_v108) (by decide)).trans l13_18
  have e13_19 : V19 (main_v111 : DevRef τ sig) = embOf (V (main_arg0 : DevRef τ sig)) (V (main_arg3 : DevRef τ sig)) ⟨13, by decide⟩ := by
    rw [← hV19]; exact (F18_frame V18 (r := main_v111) (by decide)).trans e13_18
  have l14_19 : V19 (main_v116 : DevRef τ sig) = linOf (V (main_arg0 : DevRef τ sig)) (V (main_arg2 : DevRef τ sig)) ⟨14, by decide⟩ := by
    rw [← hV19]; exact (F18_frame V18 (r := main_v116) (by decide)).trans l14_18
  have e14_19 : V19 (main_v119 : DevRef τ sig) = embOf (V (main_arg0 : DevRef τ sig)) (V (main_arg3 : DevRef τ sig)) ⟨14, by decide⟩ := by
    rw [← hV19]; exact (F18_frame V18 (r := main_v119) (by decide)).trans e14_18
  have l15_19 : V19 (main_v124 : DevRef τ sig) = linOf (V (main_arg0 : DevRef τ sig)) (V (main_arg2 : DevRef τ sig)) ⟨15, by decide⟩ := by
    rw [← hV19]; exact (F18_frame V18 (r := main_v124) (by decide)).trans l15_18
  have e15_19 : V19 (main_v127 : DevRef τ sig) = embOf (V (main_arg0 : DevRef τ sig)) (V (main_arg3 : DevRef τ sig)) ⟨15, by decide⟩ := by
    rw [← hV19]; exact (F18_frame V18 (r := main_v127) (by decide)).trans e15_18
  have l16_19 : V19 (main_v132 : DevRef τ sig) = linOf (V (main_arg0 : DevRef τ sig)) (V (main_arg2 : DevRef τ sig)) ⟨16, by decide⟩ := by
    rw [← hV19]; exact (F18_frame V18 (r := main_v132) (by decide)).trans l16_18
  have e16_19 : V19 (main_v135 : DevRef τ sig) = embOf (V (main_arg0 : DevRef τ sig)) (V (main_arg3 : DevRef τ sig)) ⟨16, by decide⟩ := by
    rw [← hV19]; exact (F18_frame V18 (r := main_v135) (by decide)).trans e16_18
  have l17_19 : V19 (main_v140 : DevRef τ sig) = linOf (V (main_arg0 : DevRef τ sig)) (V (main_arg2 : DevRef τ sig)) ⟨17, by decide⟩ := by
    rw [← hV19]; exact (F18_frame V18 (r := main_v140) (by decide)).trans l17_18
  have e17_19 : V19 (main_v143 : DevRef τ sig) = embOf (V (main_arg0 : DevRef τ sig)) (V (main_arg3 : DevRef τ sig)) ⟨17, by decide⟩ := by
    rw [← hV19]; exact (F18_frame V18 (r := main_v143) (by decide)).trans e17_18
  have l18_19 : V19 (main_v148 : DevRef τ sig) = linOf (V (main_arg0 : DevRef τ sig)) (V (main_arg2 : DevRef τ sig)) ⟨18, by decide⟩ := by
    rw [← hV19, F18_lin V18, a0_18, a2_18]; rfl
  have e18_19 : V19 (main_v151 : DevRef τ sig) = embOf (V (main_arg0 : DevRef τ sig)) (V (main_arg3 : DevRef τ sig)) ⟨18, by decide⟩ := by
    rw [← hV19, F18_emb V18, a0_18, a3_18]; rfl
  clear hV19 a0_18 a1_18 a2_18 a3_18 a4_18 a5_18 l0_18 e0_18 l1_18 e1_18 l2_18 e2_18 l3_18 e3_18 l4_18 e4_18 l5_18 e5_18 l6_18 e6_18 l7_18 e7_18 l8_18 e8_18 l9_18 e9_18 l10_18 e10_18 l11_18 e11_18 l12_18 e12_18 l13_18 e13_18 l14_18 e14_18 l15_18 e15_18 l16_18 e16_18 l17_18 e17_18
  -- field 19
  rw [after_append']
  generalize hV20 : after F19 V19 = V20
  have a0_20 : V20 (main_arg0 : DevRef τ sig) = V (main_arg0 : DevRef τ sig) := by
    rw [← hV20]; exact (F19_frame V19 (r := main_arg0) (by decide)).trans a0_19
  have a1_20 : V20 (main_arg1 : DevRef τ sig) = V (main_arg1 : DevRef τ sig) := by
    rw [← hV20]; exact (F19_frame V19 (r := main_arg1) (by decide)).trans a1_19
  have a2_20 : V20 (main_arg2 : DevRef τ sig) = V (main_arg2 : DevRef τ sig) := by
    rw [← hV20]; exact (F19_frame V19 (r := main_arg2) (by decide)).trans a2_19
  have a3_20 : V20 (main_arg3 : DevRef τ sig) = V (main_arg3 : DevRef τ sig) := by
    rw [← hV20]; exact (F19_frame V19 (r := main_arg3) (by decide)).trans a3_19
  have a4_20 : V20 (main_arg4 : DevRef τ sig) = V (main_arg4 : DevRef τ sig) := by
    rw [← hV20]; exact (F19_frame V19 (r := main_arg4) (by decide)).trans a4_19
  have a5_20 : V20 (main_arg5 : DevRef τ sig) = V (main_arg5 : DevRef τ sig) := by
    rw [← hV20]; exact (F19_frame V19 (r := main_arg5) (by decide)).trans a5_19
  have l0_20 : V20 (main_v4 : DevRef τ sig) = linOf (V (main_arg0 : DevRef τ sig)) (V (main_arg2 : DevRef τ sig)) ⟨0, by decide⟩ := by
    rw [← hV20]; exact (F19_frame V19 (r := main_v4) (by decide)).trans l0_19
  have e0_20 : V20 (main_v7 : DevRef τ sig) = embOf (V (main_arg0 : DevRef τ sig)) (V (main_arg3 : DevRef τ sig)) ⟨0, by decide⟩ := by
    rw [← hV20]; exact (F19_frame V19 (r := main_v7) (by decide)).trans e0_19
  have l1_20 : V20 (main_v12 : DevRef τ sig) = linOf (V (main_arg0 : DevRef τ sig)) (V (main_arg2 : DevRef τ sig)) ⟨1, by decide⟩ := by
    rw [← hV20]; exact (F19_frame V19 (r := main_v12) (by decide)).trans l1_19
  have e1_20 : V20 (main_v15 : DevRef τ sig) = embOf (V (main_arg0 : DevRef τ sig)) (V (main_arg3 : DevRef τ sig)) ⟨1, by decide⟩ := by
    rw [← hV20]; exact (F19_frame V19 (r := main_v15) (by decide)).trans e1_19
  have l2_20 : V20 (main_v20 : DevRef τ sig) = linOf (V (main_arg0 : DevRef τ sig)) (V (main_arg2 : DevRef τ sig)) ⟨2, by decide⟩ := by
    rw [← hV20]; exact (F19_frame V19 (r := main_v20) (by decide)).trans l2_19
  have e2_20 : V20 (main_v23 : DevRef τ sig) = embOf (V (main_arg0 : DevRef τ sig)) (V (main_arg3 : DevRef τ sig)) ⟨2, by decide⟩ := by
    rw [← hV20]; exact (F19_frame V19 (r := main_v23) (by decide)).trans e2_19
  have l3_20 : V20 (main_v28 : DevRef τ sig) = linOf (V (main_arg0 : DevRef τ sig)) (V (main_arg2 : DevRef τ sig)) ⟨3, by decide⟩ := by
    rw [← hV20]; exact (F19_frame V19 (r := main_v28) (by decide)).trans l3_19
  have e3_20 : V20 (main_v31 : DevRef τ sig) = embOf (V (main_arg0 : DevRef τ sig)) (V (main_arg3 : DevRef τ sig)) ⟨3, by decide⟩ := by
    rw [← hV20]; exact (F19_frame V19 (r := main_v31) (by decide)).trans e3_19
  have l4_20 : V20 (main_v36 : DevRef τ sig) = linOf (V (main_arg0 : DevRef τ sig)) (V (main_arg2 : DevRef τ sig)) ⟨4, by decide⟩ := by
    rw [← hV20]; exact (F19_frame V19 (r := main_v36) (by decide)).trans l4_19
  have e4_20 : V20 (main_v39 : DevRef τ sig) = embOf (V (main_arg0 : DevRef τ sig)) (V (main_arg3 : DevRef τ sig)) ⟨4, by decide⟩ := by
    rw [← hV20]; exact (F19_frame V19 (r := main_v39) (by decide)).trans e4_19
  have l5_20 : V20 (main_v44 : DevRef τ sig) = linOf (V (main_arg0 : DevRef τ sig)) (V (main_arg2 : DevRef τ sig)) ⟨5, by decide⟩ := by
    rw [← hV20]; exact (F19_frame V19 (r := main_v44) (by decide)).trans l5_19
  have e5_20 : V20 (main_v47 : DevRef τ sig) = embOf (V (main_arg0 : DevRef τ sig)) (V (main_arg3 : DevRef τ sig)) ⟨5, by decide⟩ := by
    rw [← hV20]; exact (F19_frame V19 (r := main_v47) (by decide)).trans e5_19
  have l6_20 : V20 (main_v52 : DevRef τ sig) = linOf (V (main_arg0 : DevRef τ sig)) (V (main_arg2 : DevRef τ sig)) ⟨6, by decide⟩ := by
    rw [← hV20]; exact (F19_frame V19 (r := main_v52) (by decide)).trans l6_19
  have e6_20 : V20 (main_v55 : DevRef τ sig) = embOf (V (main_arg0 : DevRef τ sig)) (V (main_arg3 : DevRef τ sig)) ⟨6, by decide⟩ := by
    rw [← hV20]; exact (F19_frame V19 (r := main_v55) (by decide)).trans e6_19
  have l7_20 : V20 (main_v60 : DevRef τ sig) = linOf (V (main_arg0 : DevRef τ sig)) (V (main_arg2 : DevRef τ sig)) ⟨7, by decide⟩ := by
    rw [← hV20]; exact (F19_frame V19 (r := main_v60) (by decide)).trans l7_19
  have e7_20 : V20 (main_v63 : DevRef τ sig) = embOf (V (main_arg0 : DevRef τ sig)) (V (main_arg3 : DevRef τ sig)) ⟨7, by decide⟩ := by
    rw [← hV20]; exact (F19_frame V19 (r := main_v63) (by decide)).trans e7_19
  have l8_20 : V20 (main_v68 : DevRef τ sig) = linOf (V (main_arg0 : DevRef τ sig)) (V (main_arg2 : DevRef τ sig)) ⟨8, by decide⟩ := by
    rw [← hV20]; exact (F19_frame V19 (r := main_v68) (by decide)).trans l8_19
  have e8_20 : V20 (main_v71 : DevRef τ sig) = embOf (V (main_arg0 : DevRef τ sig)) (V (main_arg3 : DevRef τ sig)) ⟨8, by decide⟩ := by
    rw [← hV20]; exact (F19_frame V19 (r := main_v71) (by decide)).trans e8_19
  have l9_20 : V20 (main_v76 : DevRef τ sig) = linOf (V (main_arg0 : DevRef τ sig)) (V (main_arg2 : DevRef τ sig)) ⟨9, by decide⟩ := by
    rw [← hV20]; exact (F19_frame V19 (r := main_v76) (by decide)).trans l9_19
  have e9_20 : V20 (main_v79 : DevRef τ sig) = embOf (V (main_arg0 : DevRef τ sig)) (V (main_arg3 : DevRef τ sig)) ⟨9, by decide⟩ := by
    rw [← hV20]; exact (F19_frame V19 (r := main_v79) (by decide)).trans e9_19
  have l10_20 : V20 (main_v84 : DevRef τ sig) = linOf (V (main_arg0 : DevRef τ sig)) (V (main_arg2 : DevRef τ sig)) ⟨10, by decide⟩ := by
    rw [← hV20]; exact (F19_frame V19 (r := main_v84) (by decide)).trans l10_19
  have e10_20 : V20 (main_v87 : DevRef τ sig) = embOf (V (main_arg0 : DevRef τ sig)) (V (main_arg3 : DevRef τ sig)) ⟨10, by decide⟩ := by
    rw [← hV20]; exact (F19_frame V19 (r := main_v87) (by decide)).trans e10_19
  have l11_20 : V20 (main_v92 : DevRef τ sig) = linOf (V (main_arg0 : DevRef τ sig)) (V (main_arg2 : DevRef τ sig)) ⟨11, by decide⟩ := by
    rw [← hV20]; exact (F19_frame V19 (r := main_v92) (by decide)).trans l11_19
  have e11_20 : V20 (main_v95 : DevRef τ sig) = embOf (V (main_arg0 : DevRef τ sig)) (V (main_arg3 : DevRef τ sig)) ⟨11, by decide⟩ := by
    rw [← hV20]; exact (F19_frame V19 (r := main_v95) (by decide)).trans e11_19
  have l12_20 : V20 (main_v100 : DevRef τ sig) = linOf (V (main_arg0 : DevRef τ sig)) (V (main_arg2 : DevRef τ sig)) ⟨12, by decide⟩ := by
    rw [← hV20]; exact (F19_frame V19 (r := main_v100) (by decide)).trans l12_19
  have e12_20 : V20 (main_v103 : DevRef τ sig) = embOf (V (main_arg0 : DevRef τ sig)) (V (main_arg3 : DevRef τ sig)) ⟨12, by decide⟩ := by
    rw [← hV20]; exact (F19_frame V19 (r := main_v103) (by decide)).trans e12_19
  have l13_20 : V20 (main_v108 : DevRef τ sig) = linOf (V (main_arg0 : DevRef τ sig)) (V (main_arg2 : DevRef τ sig)) ⟨13, by decide⟩ := by
    rw [← hV20]; exact (F19_frame V19 (r := main_v108) (by decide)).trans l13_19
  have e13_20 : V20 (main_v111 : DevRef τ sig) = embOf (V (main_arg0 : DevRef τ sig)) (V (main_arg3 : DevRef τ sig)) ⟨13, by decide⟩ := by
    rw [← hV20]; exact (F19_frame V19 (r := main_v111) (by decide)).trans e13_19
  have l14_20 : V20 (main_v116 : DevRef τ sig) = linOf (V (main_arg0 : DevRef τ sig)) (V (main_arg2 : DevRef τ sig)) ⟨14, by decide⟩ := by
    rw [← hV20]; exact (F19_frame V19 (r := main_v116) (by decide)).trans l14_19
  have e14_20 : V20 (main_v119 : DevRef τ sig) = embOf (V (main_arg0 : DevRef τ sig)) (V (main_arg3 : DevRef τ sig)) ⟨14, by decide⟩ := by
    rw [← hV20]; exact (F19_frame V19 (r := main_v119) (by decide)).trans e14_19
  have l15_20 : V20 (main_v124 : DevRef τ sig) = linOf (V (main_arg0 : DevRef τ sig)) (V (main_arg2 : DevRef τ sig)) ⟨15, by decide⟩ := by
    rw [← hV20]; exact (F19_frame V19 (r := main_v124) (by decide)).trans l15_19
  have e15_20 : V20 (main_v127 : DevRef τ sig) = embOf (V (main_arg0 : DevRef τ sig)) (V (main_arg3 : DevRef τ sig)) ⟨15, by decide⟩ := by
    rw [← hV20]; exact (F19_frame V19 (r := main_v127) (by decide)).trans e15_19
  have l16_20 : V20 (main_v132 : DevRef τ sig) = linOf (V (main_arg0 : DevRef τ sig)) (V (main_arg2 : DevRef τ sig)) ⟨16, by decide⟩ := by
    rw [← hV20]; exact (F19_frame V19 (r := main_v132) (by decide)).trans l16_19
  have e16_20 : V20 (main_v135 : DevRef τ sig) = embOf (V (main_arg0 : DevRef τ sig)) (V (main_arg3 : DevRef τ sig)) ⟨16, by decide⟩ := by
    rw [← hV20]; exact (F19_frame V19 (r := main_v135) (by decide)).trans e16_19
  have l17_20 : V20 (main_v140 : DevRef τ sig) = linOf (V (main_arg0 : DevRef τ sig)) (V (main_arg2 : DevRef τ sig)) ⟨17, by decide⟩ := by
    rw [← hV20]; exact (F19_frame V19 (r := main_v140) (by decide)).trans l17_19
  have e17_20 : V20 (main_v143 : DevRef τ sig) = embOf (V (main_arg0 : DevRef τ sig)) (V (main_arg3 : DevRef τ sig)) ⟨17, by decide⟩ := by
    rw [← hV20]; exact (F19_frame V19 (r := main_v143) (by decide)).trans e17_19
  have l18_20 : V20 (main_v148 : DevRef τ sig) = linOf (V (main_arg0 : DevRef τ sig)) (V (main_arg2 : DevRef τ sig)) ⟨18, by decide⟩ := by
    rw [← hV20]; exact (F19_frame V19 (r := main_v148) (by decide)).trans l18_19
  have e18_20 : V20 (main_v151 : DevRef τ sig) = embOf (V (main_arg0 : DevRef τ sig)) (V (main_arg3 : DevRef τ sig)) ⟨18, by decide⟩ := by
    rw [← hV20]; exact (F19_frame V19 (r := main_v151) (by decide)).trans e18_19
  have l19_20 : V20 (main_v156 : DevRef τ sig) = linOf (V (main_arg0 : DevRef τ sig)) (V (main_arg2 : DevRef τ sig)) ⟨19, by decide⟩ := by
    rw [← hV20, F19_lin V19, a0_19, a2_19]; rfl
  have e19_20 : V20 (main_v159 : DevRef τ sig) = embOf (V (main_arg0 : DevRef τ sig)) (V (main_arg3 : DevRef τ sig)) ⟨19, by decide⟩ := by
    rw [← hV20, F19_emb V19, a0_19, a3_19]; rfl
  clear hV20 a0_19 a1_19 a2_19 a3_19 a4_19 a5_19 l0_19 e0_19 l1_19 e1_19 l2_19 e2_19 l3_19 e3_19 l4_19 e4_19 l5_19 e5_19 l6_19 e6_19 l7_19 e7_19 l8_19 e8_19 l9_19 e9_19 l10_19 e10_19 l11_19 e11_19 l12_19 e12_19 l13_19 e13_19 l14_19 e14_19 l15_19 e15_19 l16_19 e16_19 l17_19 e17_19 l18_19 e18_19
  -- field 20
  rw [after_append']
  generalize hV21 : after F20 V20 = V21
  have a0_21 : V21 (main_arg0 : DevRef τ sig) = V (main_arg0 : DevRef τ sig) := by
    rw [← hV21]; exact (F20_frame V20 (r := main_arg0) (by decide)).trans a0_20
  have a1_21 : V21 (main_arg1 : DevRef τ sig) = V (main_arg1 : DevRef τ sig) := by
    rw [← hV21]; exact (F20_frame V20 (r := main_arg1) (by decide)).trans a1_20
  have a2_21 : V21 (main_arg2 : DevRef τ sig) = V (main_arg2 : DevRef τ sig) := by
    rw [← hV21]; exact (F20_frame V20 (r := main_arg2) (by decide)).trans a2_20
  have a3_21 : V21 (main_arg3 : DevRef τ sig) = V (main_arg3 : DevRef τ sig) := by
    rw [← hV21]; exact (F20_frame V20 (r := main_arg3) (by decide)).trans a3_20
  have a4_21 : V21 (main_arg4 : DevRef τ sig) = V (main_arg4 : DevRef τ sig) := by
    rw [← hV21]; exact (F20_frame V20 (r := main_arg4) (by decide)).trans a4_20
  have a5_21 : V21 (main_arg5 : DevRef τ sig) = V (main_arg5 : DevRef τ sig) := by
    rw [← hV21]; exact (F20_frame V20 (r := main_arg5) (by decide)).trans a5_20
  have l0_21 : V21 (main_v4 : DevRef τ sig) = linOf (V (main_arg0 : DevRef τ sig)) (V (main_arg2 : DevRef τ sig)) ⟨0, by decide⟩ := by
    rw [← hV21]; exact (F20_frame V20 (r := main_v4) (by decide)).trans l0_20
  have e0_21 : V21 (main_v7 : DevRef τ sig) = embOf (V (main_arg0 : DevRef τ sig)) (V (main_arg3 : DevRef τ sig)) ⟨0, by decide⟩ := by
    rw [← hV21]; exact (F20_frame V20 (r := main_v7) (by decide)).trans e0_20
  have l1_21 : V21 (main_v12 : DevRef τ sig) = linOf (V (main_arg0 : DevRef τ sig)) (V (main_arg2 : DevRef τ sig)) ⟨1, by decide⟩ := by
    rw [← hV21]; exact (F20_frame V20 (r := main_v12) (by decide)).trans l1_20
  have e1_21 : V21 (main_v15 : DevRef τ sig) = embOf (V (main_arg0 : DevRef τ sig)) (V (main_arg3 : DevRef τ sig)) ⟨1, by decide⟩ := by
    rw [← hV21]; exact (F20_frame V20 (r := main_v15) (by decide)).trans e1_20
  have l2_21 : V21 (main_v20 : DevRef τ sig) = linOf (V (main_arg0 : DevRef τ sig)) (V (main_arg2 : DevRef τ sig)) ⟨2, by decide⟩ := by
    rw [← hV21]; exact (F20_frame V20 (r := main_v20) (by decide)).trans l2_20
  have e2_21 : V21 (main_v23 : DevRef τ sig) = embOf (V (main_arg0 : DevRef τ sig)) (V (main_arg3 : DevRef τ sig)) ⟨2, by decide⟩ := by
    rw [← hV21]; exact (F20_frame V20 (r := main_v23) (by decide)).trans e2_20
  have l3_21 : V21 (main_v28 : DevRef τ sig) = linOf (V (main_arg0 : DevRef τ sig)) (V (main_arg2 : DevRef τ sig)) ⟨3, by decide⟩ := by
    rw [← hV21]; exact (F20_frame V20 (r := main_v28) (by decide)).trans l3_20
  have e3_21 : V21 (main_v31 : DevRef τ sig) = embOf (V (main_arg0 : DevRef τ sig)) (V (main_arg3 : DevRef τ sig)) ⟨3, by decide⟩ := by
    rw [← hV21]; exact (F20_frame V20 (r := main_v31) (by decide)).trans e3_20
  have l4_21 : V21 (main_v36 : DevRef τ sig) = linOf (V (main_arg0 : DevRef τ sig)) (V (main_arg2 : DevRef τ sig)) ⟨4, by decide⟩ := by
    rw [← hV21]; exact (F20_frame V20 (r := main_v36) (by decide)).trans l4_20
  have e4_21 : V21 (main_v39 : DevRef τ sig) = embOf (V (main_arg0 : DevRef τ sig)) (V (main_arg3 : DevRef τ sig)) ⟨4, by decide⟩ := by
    rw [← hV21]; exact (F20_frame V20 (r := main_v39) (by decide)).trans e4_20
  have l5_21 : V21 (main_v44 : DevRef τ sig) = linOf (V (main_arg0 : DevRef τ sig)) (V (main_arg2 : DevRef τ sig)) ⟨5, by decide⟩ := by
    rw [← hV21]; exact (F20_frame V20 (r := main_v44) (by decide)).trans l5_20
  have e5_21 : V21 (main_v47 : DevRef τ sig) = embOf (V (main_arg0 : DevRef τ sig)) (V (main_arg3 : DevRef τ sig)) ⟨5, by decide⟩ := by
    rw [← hV21]; exact (F20_frame V20 (r := main_v47) (by decide)).trans e5_20
  have l6_21 : V21 (main_v52 : DevRef τ sig) = linOf (V (main_arg0 : DevRef τ sig)) (V (main_arg2 : DevRef τ sig)) ⟨6, by decide⟩ := by
    rw [← hV21]; exact (F20_frame V20 (r := main_v52) (by decide)).trans l6_20
  have e6_21 : V21 (main_v55 : DevRef τ sig) = embOf (V (main_arg0 : DevRef τ sig)) (V (main_arg3 : DevRef τ sig)) ⟨6, by decide⟩ := by
    rw [← hV21]; exact (F20_frame V20 (r := main_v55) (by decide)).trans e6_20
  have l7_21 : V21 (main_v60 : DevRef τ sig) = linOf (V (main_arg0 : DevRef τ sig)) (V (main_arg2 : DevRef τ sig)) ⟨7, by decide⟩ := by
    rw [← hV21]; exact (F20_frame V20 (r := main_v60) (by decide)).trans l7_20
  have e7_21 : V21 (main_v63 : DevRef τ sig) = embOf (V (main_arg0 : DevRef τ sig)) (V (main_arg3 : DevRef τ sig)) ⟨7, by decide⟩ := by
    rw [← hV21]; exact (F20_frame V20 (r := main_v63) (by decide)).trans e7_20
  have l8_21 : V21 (main_v68 : DevRef τ sig) = linOf (V (main_arg0 : DevRef τ sig)) (V (main_arg2 : DevRef τ sig)) ⟨8, by decide⟩ := by
    rw [← hV21]; exact (F20_frame V20 (r := main_v68) (by decide)).trans l8_20
  have e8_21 : V21 (main_v71 : DevRef τ sig) = embOf (V (main_arg0 : DevRef τ sig)) (V (main_arg3 : DevRef τ sig)) ⟨8, by decide⟩ := by
    rw [← hV21]; exact (F20_frame V20 (r := main_v71) (by decide)).trans e8_20
  have l9_21 : V21 (main_v76 : DevRef τ sig) = linOf (V (main_arg0 : DevRef τ sig)) (V (main_arg2 : DevRef τ sig)) ⟨9, by decide⟩ := by
    rw [← hV21]; exact (F20_frame V20 (r := main_v76) (by decide)).trans l9_20
  have e9_21 : V21 (main_v79 : DevRef τ sig) = embOf (V (main_arg0 : DevRef τ sig)) (V (main_arg3 : DevRef τ sig)) ⟨9, by decide⟩ := by
    rw [← hV21]; exact (F20_frame V20 (r := main_v79) (by decide)).trans e9_20
  have l10_21 : V21 (main_v84 : DevRef τ sig) = linOf (V (main_arg0 : DevRef τ sig)) (V (main_arg2 : DevRef τ sig)) ⟨10, by decide⟩ := by
    rw [← hV21]; exact (F20_frame V20 (r := main_v84) (by decide)).trans l10_20
  have e10_21 : V21 (main_v87 : DevRef τ sig) = embOf (V (main_arg0 : DevRef τ sig)) (V (main_arg3 : DevRef τ sig)) ⟨10, by decide⟩ := by
    rw [← hV21]; exact (F20_frame V20 (r := main_v87) (by decide)).trans e10_20
  have l11_21 : V21 (main_v92 : DevRef τ sig) = linOf (V (main_arg0 : DevRef τ sig)) (V (main_arg2 : DevRef τ sig)) ⟨11, by decide⟩ := by
    rw [← hV21]; exact (F20_frame V20 (r := main_v92) (by decide)).trans l11_20
  have e11_21 : V21 (main_v95 : DevRef τ sig) = embOf (V (main_arg0 : DevRef τ sig)) (V (main_arg3 : DevRef τ sig)) ⟨11, by decide⟩ := by
    rw [← hV21]; exact (F20_frame V20 (r := main_v95) (by decide)).trans e11_20
  have l12_21 : V21 (main_v100 : DevRef τ sig) = linOf (V (main_arg0 : DevRef τ sig)) (V (main_arg2 : DevRef τ sig)) ⟨12, by decide⟩ := by
    rw [← hV21]; exact (F20_frame V20 (r := main_v100) (by decide)).trans l12_20
  have e12_21 : V21 (main_v103 : DevRef τ sig) = embOf (V (main_arg0 : DevRef τ sig)) (V (main_arg3 : DevRef τ sig)) ⟨12, by decide⟩ := by
    rw [← hV21]; exact (F20_frame V20 (r := main_v103) (by decide)).trans e12_20
  have l13_21 : V21 (main_v108 : DevRef τ sig) = linOf (V (main_arg0 : DevRef τ sig)) (V (main_arg2 : DevRef τ sig)) ⟨13, by decide⟩ := by
    rw [← hV21]; exact (F20_frame V20 (r := main_v108) (by decide)).trans l13_20
  have e13_21 : V21 (main_v111 : DevRef τ sig) = embOf (V (main_arg0 : DevRef τ sig)) (V (main_arg3 : DevRef τ sig)) ⟨13, by decide⟩ := by
    rw [← hV21]; exact (F20_frame V20 (r := main_v111) (by decide)).trans e13_20
  have l14_21 : V21 (main_v116 : DevRef τ sig) = linOf (V (main_arg0 : DevRef τ sig)) (V (main_arg2 : DevRef τ sig)) ⟨14, by decide⟩ := by
    rw [← hV21]; exact (F20_frame V20 (r := main_v116) (by decide)).trans l14_20
  have e14_21 : V21 (main_v119 : DevRef τ sig) = embOf (V (main_arg0 : DevRef τ sig)) (V (main_arg3 : DevRef τ sig)) ⟨14, by decide⟩ := by
    rw [← hV21]; exact (F20_frame V20 (r := main_v119) (by decide)).trans e14_20
  have l15_21 : V21 (main_v124 : DevRef τ sig) = linOf (V (main_arg0 : DevRef τ sig)) (V (main_arg2 : DevRef τ sig)) ⟨15, by decide⟩ := by
    rw [← hV21]; exact (F20_frame V20 (r := main_v124) (by decide)).trans l15_20
  have e15_21 : V21 (main_v127 : DevRef τ sig) = embOf (V (main_arg0 : DevRef τ sig)) (V (main_arg3 : DevRef τ sig)) ⟨15, by decide⟩ := by
    rw [← hV21]; exact (F20_frame V20 (r := main_v127) (by decide)).trans e15_20
  have l16_21 : V21 (main_v132 : DevRef τ sig) = linOf (V (main_arg0 : DevRef τ sig)) (V (main_arg2 : DevRef τ sig)) ⟨16, by decide⟩ := by
    rw [← hV21]; exact (F20_frame V20 (r := main_v132) (by decide)).trans l16_20
  have e16_21 : V21 (main_v135 : DevRef τ sig) = embOf (V (main_arg0 : DevRef τ sig)) (V (main_arg3 : DevRef τ sig)) ⟨16, by decide⟩ := by
    rw [← hV21]; exact (F20_frame V20 (r := main_v135) (by decide)).trans e16_20
  have l17_21 : V21 (main_v140 : DevRef τ sig) = linOf (V (main_arg0 : DevRef τ sig)) (V (main_arg2 : DevRef τ sig)) ⟨17, by decide⟩ := by
    rw [← hV21]; exact (F20_frame V20 (r := main_v140) (by decide)).trans l17_20
  have e17_21 : V21 (main_v143 : DevRef τ sig) = embOf (V (main_arg0 : DevRef τ sig)) (V (main_arg3 : DevRef τ sig)) ⟨17, by decide⟩ := by
    rw [← hV21]; exact (F20_frame V20 (r := main_v143) (by decide)).trans e17_20
  have l18_21 : V21 (main_v148 : DevRef τ sig) = linOf (V (main_arg0 : DevRef τ sig)) (V (main_arg2 : DevRef τ sig)) ⟨18, by decide⟩ := by
    rw [← hV21]; exact (F20_frame V20 (r := main_v148) (by decide)).trans l18_20
  have e18_21 : V21 (main_v151 : DevRef τ sig) = embOf (V (main_arg0 : DevRef τ sig)) (V (main_arg3 : DevRef τ sig)) ⟨18, by decide⟩ := by
    rw [← hV21]; exact (F20_frame V20 (r := main_v151) (by decide)).trans e18_20
  have l19_21 : V21 (main_v156 : DevRef τ sig) = linOf (V (main_arg0 : DevRef τ sig)) (V (main_arg2 : DevRef τ sig)) ⟨19, by decide⟩ := by
    rw [← hV21]; exact (F20_frame V20 (r := main_v156) (by decide)).trans l19_20
  have e19_21 : V21 (main_v159 : DevRef τ sig) = embOf (V (main_arg0 : DevRef τ sig)) (V (main_arg3 : DevRef τ sig)) ⟨19, by decide⟩ := by
    rw [← hV21]; exact (F20_frame V20 (r := main_v159) (by decide)).trans e19_20
  have l20_21 : V21 (main_v164 : DevRef τ sig) = linOf (V (main_arg0 : DevRef τ sig)) (V (main_arg2 : DevRef τ sig)) ⟨20, by decide⟩ := by
    rw [← hV21, F20_lin V20, a0_20, a2_20]; rfl
  have e20_21 : V21 (main_v167 : DevRef τ sig) = embOf (V (main_arg0 : DevRef τ sig)) (V (main_arg3 : DevRef τ sig)) ⟨20, by decide⟩ := by
    rw [← hV21, F20_emb V20, a0_20, a3_20]; rfl
  clear hV21 a0_20 a1_20 a2_20 a3_20 a4_20 a5_20 l0_20 e0_20 l1_20 e1_20 l2_20 e2_20 l3_20 e3_20 l4_20 e4_20 l5_20 e5_20 l6_20 e6_20 l7_20 e7_20 l8_20 e8_20 l9_20 e9_20 l10_20 e10_20 l11_20 e11_20 l12_20 e12_20 l13_20 e13_20 l14_20 e14_20 l15_20 e15_20 l16_20 e16_20 l17_20 e17_20 l18_20 e18_20 l19_20 e19_20
  -- field 21
  rw [after_append']
  generalize hV22 : after F21 V21 = V22
  have a0_22 : V22 (main_arg0 : DevRef τ sig) = V (main_arg0 : DevRef τ sig) := by
    rw [← hV22]; exact (F21_frame V21 (r := main_arg0) (by decide)).trans a0_21
  have a1_22 : V22 (main_arg1 : DevRef τ sig) = V (main_arg1 : DevRef τ sig) := by
    rw [← hV22]; exact (F21_frame V21 (r := main_arg1) (by decide)).trans a1_21
  have a2_22 : V22 (main_arg2 : DevRef τ sig) = V (main_arg2 : DevRef τ sig) := by
    rw [← hV22]; exact (F21_frame V21 (r := main_arg2) (by decide)).trans a2_21
  have a3_22 : V22 (main_arg3 : DevRef τ sig) = V (main_arg3 : DevRef τ sig) := by
    rw [← hV22]; exact (F21_frame V21 (r := main_arg3) (by decide)).trans a3_21
  have a4_22 : V22 (main_arg4 : DevRef τ sig) = V (main_arg4 : DevRef τ sig) := by
    rw [← hV22]; exact (F21_frame V21 (r := main_arg4) (by decide)).trans a4_21
  have a5_22 : V22 (main_arg5 : DevRef τ sig) = V (main_arg5 : DevRef τ sig) := by
    rw [← hV22]; exact (F21_frame V21 (r := main_arg5) (by decide)).trans a5_21
  have l0_22 : V22 (main_v4 : DevRef τ sig) = linOf (V (main_arg0 : DevRef τ sig)) (V (main_arg2 : DevRef τ sig)) ⟨0, by decide⟩ := by
    rw [← hV22]; exact (F21_frame V21 (r := main_v4) (by decide)).trans l0_21
  have e0_22 : V22 (main_v7 : DevRef τ sig) = embOf (V (main_arg0 : DevRef τ sig)) (V (main_arg3 : DevRef τ sig)) ⟨0, by decide⟩ := by
    rw [← hV22]; exact (F21_frame V21 (r := main_v7) (by decide)).trans e0_21
  have l1_22 : V22 (main_v12 : DevRef τ sig) = linOf (V (main_arg0 : DevRef τ sig)) (V (main_arg2 : DevRef τ sig)) ⟨1, by decide⟩ := by
    rw [← hV22]; exact (F21_frame V21 (r := main_v12) (by decide)).trans l1_21
  have e1_22 : V22 (main_v15 : DevRef τ sig) = embOf (V (main_arg0 : DevRef τ sig)) (V (main_arg3 : DevRef τ sig)) ⟨1, by decide⟩ := by
    rw [← hV22]; exact (F21_frame V21 (r := main_v15) (by decide)).trans e1_21
  have l2_22 : V22 (main_v20 : DevRef τ sig) = linOf (V (main_arg0 : DevRef τ sig)) (V (main_arg2 : DevRef τ sig)) ⟨2, by decide⟩ := by
    rw [← hV22]; exact (F21_frame V21 (r := main_v20) (by decide)).trans l2_21
  have e2_22 : V22 (main_v23 : DevRef τ sig) = embOf (V (main_arg0 : DevRef τ sig)) (V (main_arg3 : DevRef τ sig)) ⟨2, by decide⟩ := by
    rw [← hV22]; exact (F21_frame V21 (r := main_v23) (by decide)).trans e2_21
  have l3_22 : V22 (main_v28 : DevRef τ sig) = linOf (V (main_arg0 : DevRef τ sig)) (V (main_arg2 : DevRef τ sig)) ⟨3, by decide⟩ := by
    rw [← hV22]; exact (F21_frame V21 (r := main_v28) (by decide)).trans l3_21
  have e3_22 : V22 (main_v31 : DevRef τ sig) = embOf (V (main_arg0 : DevRef τ sig)) (V (main_arg3 : DevRef τ sig)) ⟨3, by decide⟩ := by
    rw [← hV22]; exact (F21_frame V21 (r := main_v31) (by decide)).trans e3_21
  have l4_22 : V22 (main_v36 : DevRef τ sig) = linOf (V (main_arg0 : DevRef τ sig)) (V (main_arg2 : DevRef τ sig)) ⟨4, by decide⟩ := by
    rw [← hV22]; exact (F21_frame V21 (r := main_v36) (by decide)).trans l4_21
  have e4_22 : V22 (main_v39 : DevRef τ sig) = embOf (V (main_arg0 : DevRef τ sig)) (V (main_arg3 : DevRef τ sig)) ⟨4, by decide⟩ := by
    rw [← hV22]; exact (F21_frame V21 (r := main_v39) (by decide)).trans e4_21
  have l5_22 : V22 (main_v44 : DevRef τ sig) = linOf (V (main_arg0 : DevRef τ sig)) (V (main_arg2 : DevRef τ sig)) ⟨5, by decide⟩ := by
    rw [← hV22]; exact (F21_frame V21 (r := main_v44) (by decide)).trans l5_21
  have e5_22 : V22 (main_v47 : DevRef τ sig) = embOf (V (main_arg0 : DevRef τ sig)) (V (main_arg3 : DevRef τ sig)) ⟨5, by decide⟩ := by
    rw [← hV22]; exact (F21_frame V21 (r := main_v47) (by decide)).trans e5_21
  have l6_22 : V22 (main_v52 : DevRef τ sig) = linOf (V (main_arg0 : DevRef τ sig)) (V (main_arg2 : DevRef τ sig)) ⟨6, by decide⟩ := by
    rw [← hV22]; exact (F21_frame V21 (r := main_v52) (by decide)).trans l6_21
  have e6_22 : V22 (main_v55 : DevRef τ sig) = embOf (V (main_arg0 : DevRef τ sig)) (V (main_arg3 : DevRef τ sig)) ⟨6, by decide⟩ := by
    rw [← hV22]; exact (F21_frame V21 (r := main_v55) (by decide)).trans e6_21
  have l7_22 : V22 (main_v60 : DevRef τ sig) = linOf (V (main_arg0 : DevRef τ sig)) (V (main_arg2 : DevRef τ sig)) ⟨7, by decide⟩ := by
    rw [← hV22]; exact (F21_frame V21 (r := main_v60) (by decide)).trans l7_21
  have e7_22 : V22 (main_v63 : DevRef τ sig) = embOf (V (main_arg0 : DevRef τ sig)) (V (main_arg3 : DevRef τ sig)) ⟨7, by decide⟩ := by
    rw [← hV22]; exact (F21_frame V21 (r := main_v63) (by decide)).trans e7_21
  have l8_22 : V22 (main_v68 : DevRef τ sig) = linOf (V (main_arg0 : DevRef τ sig)) (V (main_arg2 : DevRef τ sig)) ⟨8, by decide⟩ := by
    rw [← hV22]; exact (F21_frame V21 (r := main_v68) (by decide)).trans l8_21
  have e8_22 : V22 (main_v71 : DevRef τ sig) = embOf (V (main_arg0 : DevRef τ sig)) (V (main_arg3 : DevRef τ sig)) ⟨8, by decide⟩ := by
    rw [← hV22]; exact (F21_frame V21 (r := main_v71) (by decide)).trans e8_21
  have l9_22 : V22 (main_v76 : DevRef τ sig) = linOf (V (main_arg0 : DevRef τ sig)) (V (main_arg2 : DevRef τ sig)) ⟨9, by decide⟩ := by
    rw [← hV22]; exact (F21_frame V21 (r := main_v76) (by decide)).trans l9_21
  have e9_22 : V22 (main_v79 : DevRef τ sig) = embOf (V (main_arg0 : DevRef τ sig)) (V (main_arg3 : DevRef τ sig)) ⟨9, by decide⟩ := by
    rw [← hV22]; exact (F21_frame V21 (r := main_v79) (by decide)).trans e9_21
  have l10_22 : V22 (main_v84 : DevRef τ sig) = linOf (V (main_arg0 : DevRef τ sig)) (V (main_arg2 : DevRef τ sig)) ⟨10, by decide⟩ := by
    rw [← hV22]; exact (F21_frame V21 (r := main_v84) (by decide)).trans l10_21
  have e10_22 : V22 (main_v87 : DevRef τ sig) = embOf (V (main_arg0 : DevRef τ sig)) (V (main_arg3 : DevRef τ sig)) ⟨10, by decide⟩ := by
    rw [← hV22]; exact (F21_frame V21 (r := main_v87) (by decide)).trans e10_21
  have l11_22 : V22 (main_v92 : DevRef τ sig) = linOf (V (main_arg0 : DevRef τ sig)) (V (main_arg2 : DevRef τ sig)) ⟨11, by decide⟩ := by
    rw [← hV22]; exact (F21_frame V21 (r := main_v92) (by decide)).trans l11_21
  have e11_22 : V22 (main_v95 : DevRef τ sig) = embOf (V (main_arg0 : DevRef τ sig)) (V (main_arg3 : DevRef τ sig)) ⟨11, by decide⟩ := by
    rw [← hV22]; exact (F21_frame V21 (r := main_v95) (by decide)).trans e11_21
  have l12_22 : V22 (main_v100 : DevRef τ sig) = linOf (V (main_arg0 : DevRef τ sig)) (V (main_arg2 : DevRef τ sig)) ⟨12, by decide⟩ := by
    rw [← hV22]; exact (F21_frame V21 (r := main_v100) (by decide)).trans l12_21
  have e12_22 : V22 (main_v103 : DevRef τ sig) = embOf (V (main_arg0 : DevRef τ sig)) (V (main_arg3 : DevRef τ sig)) ⟨12, by decide⟩ := by
    rw [← hV22]; exact (F21_frame V21 (r := main_v103) (by decide)).trans e12_21
  have l13_22 : V22 (main_v108 : DevRef τ sig) = linOf (V (main_arg0 : DevRef τ sig)) (V (main_arg2 : DevRef τ sig)) ⟨13, by decide⟩ := by
    rw [← hV22]; exact (F21_frame V21 (r := main_v108) (by decide)).trans l13_21
  have e13_22 : V22 (main_v111 : DevRef τ sig) = embOf (V (main_arg0 : DevRef τ sig)) (V (main_arg3 : DevRef τ sig)) ⟨13, by decide⟩ := by
    rw [← hV22]; exact (F21_frame V21 (r := main_v111) (by decide)).trans e13_21
  have l14_22 : V22 (main_v116 : DevRef τ sig) = linOf (V (main_arg0 : DevRef τ sig)) (V (main_arg2 : DevRef τ sig)) ⟨14, by decide⟩ := by
    rw [← hV22]; exact (F21_frame V21 (r := main_v116) (by decide)).trans l14_21
  have e14_22 : V22 (main_v119 : DevRef τ sig) = embOf (V (main_arg0 : DevRef τ sig)) (V (main_arg3 : DevRef τ sig)) ⟨14, by decide⟩ := by
    rw [← hV22]; exact (F21_frame V21 (r := main_v119) (by decide)).trans e14_21
  have l15_22 : V22 (main_v124 : DevRef τ sig) = linOf (V (main_arg0 : DevRef τ sig)) (V (main_arg2 : DevRef τ sig)) ⟨15, by decide⟩ := by
    rw [← hV22]; exact (F21_frame V21 (r := main_v124) (by decide)).trans l15_21
  have e15_22 : V22 (main_v127 : DevRef τ sig) = embOf (V (main_arg0 : DevRef τ sig)) (V (main_arg3 : DevRef τ sig)) ⟨15, by decide⟩ := by
    rw [← hV22]; exact (F21_frame V21 (r := main_v127) (by decide)).trans e15_21
  have l16_22 : V22 (main_v132 : DevRef τ sig) = linOf (V (main_arg0 : DevRef τ sig)) (V (main_arg2 : DevRef τ sig)) ⟨16, by decide⟩ := by
    rw [← hV22]; exact (F21_frame V21 (r := main_v132) (by decide)).trans l16_21
  have e16_22 : V22 (main_v135 : DevRef τ sig) = embOf (V (main_arg0 : DevRef τ sig)) (V (main_arg3 : DevRef τ sig)) ⟨16, by decide⟩ := by
    rw [← hV22]; exact (F21_frame V21 (r := main_v135) (by decide)).trans e16_21
  have l17_22 : V22 (main_v140 : DevRef τ sig) = linOf (V (main_arg0 : DevRef τ sig)) (V (main_arg2 : DevRef τ sig)) ⟨17, by decide⟩ := by
    rw [← hV22]; exact (F21_frame V21 (r := main_v140) (by decide)).trans l17_21
  have e17_22 : V22 (main_v143 : DevRef τ sig) = embOf (V (main_arg0 : DevRef τ sig)) (V (main_arg3 : DevRef τ sig)) ⟨17, by decide⟩ := by
    rw [← hV22]; exact (F21_frame V21 (r := main_v143) (by decide)).trans e17_21
  have l18_22 : V22 (main_v148 : DevRef τ sig) = linOf (V (main_arg0 : DevRef τ sig)) (V (main_arg2 : DevRef τ sig)) ⟨18, by decide⟩ := by
    rw [← hV22]; exact (F21_frame V21 (r := main_v148) (by decide)).trans l18_21
  have e18_22 : V22 (main_v151 : DevRef τ sig) = embOf (V (main_arg0 : DevRef τ sig)) (V (main_arg3 : DevRef τ sig)) ⟨18, by decide⟩ := by
    rw [← hV22]; exact (F21_frame V21 (r := main_v151) (by decide)).trans e18_21
  have l19_22 : V22 (main_v156 : DevRef τ sig) = linOf (V (main_arg0 : DevRef τ sig)) (V (main_arg2 : DevRef τ sig)) ⟨19, by decide⟩ := by
    rw [← hV22]; exact (F21_frame V21 (r := main_v156) (by decide)).trans l19_21
  have e19_22 : V22 (main_v159 : DevRef τ sig) = embOf (V (main_arg0 : DevRef τ sig)) (V (main_arg3 : DevRef τ sig)) ⟨19, by decide⟩ := by
    rw [← hV22]; exact (F21_frame V21 (r := main_v159) (by decide)).trans e19_21
  have l20_22 : V22 (main_v164 : DevRef τ sig) = linOf (V (main_arg0 : DevRef τ sig)) (V (main_arg2 : DevRef τ sig)) ⟨20, by decide⟩ := by
    rw [← hV22]; exact (F21_frame V21 (r := main_v164) (by decide)).trans l20_21
  have e20_22 : V22 (main_v167 : DevRef τ sig) = embOf (V (main_arg0 : DevRef τ sig)) (V (main_arg3 : DevRef τ sig)) ⟨20, by decide⟩ := by
    rw [← hV22]; exact (F21_frame V21 (r := main_v167) (by decide)).trans e20_21
  have l21_22 : V22 (main_v172 : DevRef τ sig) = linOf (V (main_arg0 : DevRef τ sig)) (V (main_arg2 : DevRef τ sig)) ⟨21, by decide⟩ := by
    rw [← hV22, F21_lin V21, a0_21, a2_21]; rfl
  have e21_22 : V22 (main_v175 : DevRef τ sig) = embOf (V (main_arg0 : DevRef τ sig)) (V (main_arg3 : DevRef τ sig)) ⟨21, by decide⟩ := by
    rw [← hV22, F21_emb V21, a0_21, a3_21]; rfl
  clear hV22 a0_21 a1_21 a2_21 a3_21 a4_21 a5_21 l0_21 e0_21 l1_21 e1_21 l2_21 e2_21 l3_21 e3_21 l4_21 e4_21 l5_21 e5_21 l6_21 e6_21 l7_21 e7_21 l8_21 e8_21 l9_21 e9_21 l10_21 e10_21 l11_21 e11_21 l12_21 e12_21 l13_21 e13_21 l14_21 e14_21 l15_21 e15_21 l16_21 e16_21 l17_21 e17_21 l18_21 e18_21 l19_21 e19_21 l20_21 e20_21
  -- field 22
  rw [after_append']
  generalize hV23 : after F22 V22 = V23
  have a0_23 : V23 (main_arg0 : DevRef τ sig) = V (main_arg0 : DevRef τ sig) := by
    rw [← hV23]; exact (F22_frame V22 (r := main_arg0) (by decide)).trans a0_22
  have a1_23 : V23 (main_arg1 : DevRef τ sig) = V (main_arg1 : DevRef τ sig) := by
    rw [← hV23]; exact (F22_frame V22 (r := main_arg1) (by decide)).trans a1_22
  have a2_23 : V23 (main_arg2 : DevRef τ sig) = V (main_arg2 : DevRef τ sig) := by
    rw [← hV23]; exact (F22_frame V22 (r := main_arg2) (by decide)).trans a2_22
  have a3_23 : V23 (main_arg3 : DevRef τ sig) = V (main_arg3 : DevRef τ sig) := by
    rw [← hV23]; exact (F22_frame V22 (r := main_arg3) (by decide)).trans a3_22
  have a4_23 : V23 (main_arg4 : DevRef τ sig) = V (main_arg4 : DevRef τ sig) := by
    rw [← hV23]; exact (F22_frame V22 (r := main_arg4) (by decide)).trans a4_22
  have a5_23 : V23 (main_arg5 : DevRef τ sig) = V (main_arg5 : DevRef τ sig) := by
    rw [← hV23]; exact (F22_frame V22 (r := main_arg5) (by decide)).trans a5_22
  have l0_23 : V23 (main_v4 : DevRef τ sig) = linOf (V (main_arg0 : DevRef τ sig)) (V (main_arg2 : DevRef τ sig)) ⟨0, by decide⟩ := by
    rw [← hV23]; exact (F22_frame V22 (r := main_v4) (by decide)).trans l0_22
  have e0_23 : V23 (main_v7 : DevRef τ sig) = embOf (V (main_arg0 : DevRef τ sig)) (V (main_arg3 : DevRef τ sig)) ⟨0, by decide⟩ := by
    rw [← hV23]; exact (F22_frame V22 (r := main_v7) (by decide)).trans e0_22
  have l1_23 : V23 (main_v12 : DevRef τ sig) = linOf (V (main_arg0 : DevRef τ sig)) (V (main_arg2 : DevRef τ sig)) ⟨1, by decide⟩ := by
    rw [← hV23]; exact (F22_frame V22 (r := main_v12) (by decide)).trans l1_22
  have e1_23 : V23 (main_v15 : DevRef τ sig) = embOf (V (main_arg0 : DevRef τ sig)) (V (main_arg3 : DevRef τ sig)) ⟨1, by decide⟩ := by
    rw [← hV23]; exact (F22_frame V22 (r := main_v15) (by decide)).trans e1_22
  have l2_23 : V23 (main_v20 : DevRef τ sig) = linOf (V (main_arg0 : DevRef τ sig)) (V (main_arg2 : DevRef τ sig)) ⟨2, by decide⟩ := by
    rw [← hV23]; exact (F22_frame V22 (r := main_v20) (by decide)).trans l2_22
  have e2_23 : V23 (main_v23 : DevRef τ sig) = embOf (V (main_arg0 : DevRef τ sig)) (V (main_arg3 : DevRef τ sig)) ⟨2, by decide⟩ := by
    rw [← hV23]; exact (F22_frame V22 (r := main_v23) (by decide)).trans e2_22
  have l3_23 : V23 (main_v28 : DevRef τ sig) = linOf (V (main_arg0 : DevRef τ sig)) (V (main_arg2 : DevRef τ sig)) ⟨3, by decide⟩ := by
    rw [← hV23]; exact (F22_frame V22 (r := main_v28) (by decide)).trans l3_22
  have e3_23 : V23 (main_v31 : DevRef τ sig) = embOf (V (main_arg0 : DevRef τ sig)) (V (main_arg3 : DevRef τ sig)) ⟨3, by decide⟩ := by
    rw [← hV23]; exact (F22_frame V22 (r := main_v31) (by decide)).trans e3_22
  have l4_23 : V23 (main_v36 : DevRef τ sig) = linOf (V (main_arg0 : DevRef τ sig)) (V (main_arg2 : DevRef τ sig)) ⟨4, by decide⟩ := by
    rw [← hV23]; exact (F22_frame V22 (r := main_v36) (by decide)).trans l4_22
  have e4_23 : V23 (main_v39 : DevRef τ sig) = embOf (V (main_arg0 : DevRef τ sig)) (V (main_arg3 : DevRef τ sig)) ⟨4, by decide⟩ := by
    rw [← hV23]; exact (F22_frame V22 (r := main_v39) (by decide)).trans e4_22
  have l5_23 : V23 (main_v44 : DevRef τ sig) = linOf (V (main_arg0 : DevRef τ sig)) (V (main_arg2 : DevRef τ sig)) ⟨5, by decide⟩ := by
    rw [← hV23]; exact (F22_frame V22 (r := main_v44) (by decide)).trans l5_22
  have e5_23 : V23 (main_v47 : DevRef τ sig) = embOf (V (main_arg0 : DevRef τ sig)) (V (main_arg3 : DevRef τ sig)) ⟨5, by decide⟩ := by
    rw [← hV23]; exact (F22_frame V22 (r := main_v47) (by decide)).trans e5_22
  have l6_23 : V23 (main_v52 : DevRef τ sig) = linOf (V (main_arg0 : DevRef τ sig)) (V (main_arg2 : DevRef τ sig)) ⟨6, by decide⟩ := by
    rw [← hV23]; exact (F22_frame V22 (r := main_v52) (by decide)).trans l6_22
  have e6_23 : V23 (main_v55 : DevRef τ sig) = embOf (V (main_arg0 : DevRef τ sig)) (V (main_arg3 : DevRef τ sig)) ⟨6, by decide⟩ := by
    rw [← hV23]; exact (F22_frame V22 (r := main_v55) (by decide)).trans e6_22
  have l7_23 : V23 (main_v60 : DevRef τ sig) = linOf (V (main_arg0 : DevRef τ sig)) (V (main_arg2 : DevRef τ sig)) ⟨7, by decide⟩ := by
    rw [← hV23]; exact (F22_frame V22 (r := main_v60) (by decide)).trans l7_22
  have e7_23 : V23 (main_v63 : DevRef τ sig) = embOf (V (main_arg0 : DevRef τ sig)) (V (main_arg3 : DevRef τ sig)) ⟨7, by decide⟩ := by
    rw [← hV23]; exact (F22_frame V22 (r := main_v63) (by decide)).trans e7_22
  have l8_23 : V23 (main_v68 : DevRef τ sig) = linOf (V (main_arg0 : DevRef τ sig)) (V (main_arg2 : DevRef τ sig)) ⟨8, by decide⟩ := by
    rw [← hV23]; exact (F22_frame V22 (r := main_v68) (by decide)).trans l8_22
  have e8_23 : V23 (main_v71 : DevRef τ sig) = embOf (V (main_arg0 : DevRef τ sig)) (V (main_arg3 : DevRef τ sig)) ⟨8, by decide⟩ := by
    rw [← hV23]; exact (F22_frame V22 (r := main_v71) (by decide)).trans e8_22
  have l9_23 : V23 (main_v76 : DevRef τ sig) = linOf (V (main_arg0 : DevRef τ sig)) (V (main_arg2 : DevRef τ sig)) ⟨9, by decide⟩ := by
    rw [← hV23]; exact (F22_frame V22 (r := main_v76) (by decide)).trans l9_22
  have e9_23 : V23 (main_v79 : DevRef τ sig) = embOf (V (main_arg0 : DevRef τ sig)) (V (main_arg3 : DevRef τ sig)) ⟨9, by decide⟩ := by
    rw [← hV23]; exact (F22_frame V22 (r := main_v79) (by decide)).trans e9_22
  have l10_23 : V23 (main_v84 : DevRef τ sig) = linOf (V (main_arg0 : DevRef τ sig)) (V (main_arg2 : DevRef τ sig)) ⟨10, by decide⟩ := by
    rw [← hV23]; exact (F22_frame V22 (r := main_v84) (by decide)).trans l10_22
  have e10_23 : V23 (main_v87 : DevRef τ sig) = embOf (V (main_arg0 : DevRef τ sig)) (V (main_arg3 : DevRef τ sig)) ⟨10, by decide⟩ := by
    rw [← hV23]; exact (F22_frame V22 (r := main_v87) (by decide)).trans e10_22
  have l11_23 : V23 (main_v92 : DevRef τ sig) = linOf (V (main_arg0 : DevRef τ sig)) (V (main_arg2 : DevRef τ sig)) ⟨11, by decide⟩ := by
    rw [← hV23]; exact (F22_frame V22 (r := main_v92) (by decide)).trans l11_22
  have e11_23 : V23 (main_v95 : DevRef τ sig) = embOf (V (main_arg0 : DevRef τ sig)) (V (main_arg3 : DevRef τ sig)) ⟨11, by decide⟩ := by
    rw [← hV23]; exact (F22_frame V22 (r := main_v95) (by decide)).trans e11_22
  have l12_23 : V23 (main_v100 : DevRef τ sig) = linOf (V (main_arg0 : DevRef τ sig)) (V (main_arg2 : DevRef τ sig)) ⟨12, by decide⟩ := by
    rw [← hV23]; exact (F22_frame V22 (r := main_v100) (by decide)).trans l12_22
  have e12_23 : V23 (main_v103 : DevRef τ sig) = embOf (V (main_arg0 : DevRef τ sig)) (V (main_arg3 : DevRef τ sig)) ⟨12, by decide⟩ := by
    rw [← hV23]; exact (F22_frame V22 (r := main_v103) (by decide)).trans e12_22
  have l13_23 : V23 (main_v108 : DevRef τ sig) = linOf (V (main_arg0 : DevRef τ sig)) (V (main_arg2 : DevRef τ sig)) ⟨13, by decide⟩ := by
    rw [← hV23]; exact (F22_frame V22 (r := main_v108) (by decide)).trans l13_22
  have e13_23 : V23 (main_v111 : DevRef τ sig) = embOf (V (main_arg0 : DevRef τ sig)) (V (main_arg3 : DevRef τ sig)) ⟨13, by decide⟩ := by
    rw [← hV23]; exact (F22_frame V22 (r := main_v111) (by decide)).trans e13_22
  have l14_23 : V23 (main_v116 : DevRef τ sig) = linOf (V (main_arg0 : DevRef τ sig)) (V (main_arg2 : DevRef τ sig)) ⟨14, by decide⟩ := by
    rw [← hV23]; exact (F22_frame V22 (r := main_v116) (by decide)).trans l14_22
  have e14_23 : V23 (main_v119 : DevRef τ sig) = embOf (V (main_arg0 : DevRef τ sig)) (V (main_arg3 : DevRef τ sig)) ⟨14, by decide⟩ := by
    rw [← hV23]; exact (F22_frame V22 (r := main_v119) (by decide)).trans e14_22
  have l15_23 : V23 (main_v124 : DevRef τ sig) = linOf (V (main_arg0 : DevRef τ sig)) (V (main_arg2 : DevRef τ sig)) ⟨15, by decide⟩ := by
    rw [← hV23]; exact (F22_frame V22 (r := main_v124) (by decide)).trans l15_22
  have e15_23 : V23 (main_v127 : DevRef τ sig) = embOf (V (main_arg0 : DevRef τ sig)) (V (main_arg3 : DevRef τ sig)) ⟨15, by decide⟩ := by
    rw [← hV23]; exact (F22_frame V22 (r := main_v127) (by decide)).trans e15_22
  have l16_23 : V23 (main_v132 : DevRef τ sig) = linOf (V (main_arg0 : DevRef τ sig)) (V (main_arg2 : DevRef τ sig)) ⟨16, by decide⟩ := by
    rw [← hV23]; exact (F22_frame V22 (r := main_v132) (by decide)).trans l16_22
  have e16_23 : V23 (main_v135 : DevRef τ sig) = embOf (V (main_arg0 : DevRef τ sig)) (V (main_arg3 : DevRef τ sig)) ⟨16, by decide⟩ := by
    rw [← hV23]; exact (F22_frame V22 (r := main_v135) (by decide)).trans e16_22
  have l17_23 : V23 (main_v140 : DevRef τ sig) = linOf (V (main_arg0 : DevRef τ sig)) (V (main_arg2 : DevRef τ sig)) ⟨17, by decide⟩ := by
    rw [← hV23]; exact (F22_frame V22 (r := main_v140) (by decide)).trans l17_22
  have e17_23 : V23 (main_v143 : DevRef τ sig) = embOf (V (main_arg0 : DevRef τ sig)) (V (main_arg3 : DevRef τ sig)) ⟨17, by decide⟩ := by
    rw [← hV23]; exact (F22_frame V22 (r := main_v143) (by decide)).trans e17_22
  have l18_23 : V23 (main_v148 : DevRef τ sig) = linOf (V (main_arg0 : DevRef τ sig)) (V (main_arg2 : DevRef τ sig)) ⟨18, by decide⟩ := by
    rw [← hV23]; exact (F22_frame V22 (r := main_v148) (by decide)).trans l18_22
  have e18_23 : V23 (main_v151 : DevRef τ sig) = embOf (V (main_arg0 : DevRef τ sig)) (V (main_arg3 : DevRef τ sig)) ⟨18, by decide⟩ := by
    rw [← hV23]; exact (F22_frame V22 (r := main_v151) (by decide)).trans e18_22
  have l19_23 : V23 (main_v156 : DevRef τ sig) = linOf (V (main_arg0 : DevRef τ sig)) (V (main_arg2 : DevRef τ sig)) ⟨19, by decide⟩ := by
    rw [← hV23]; exact (F22_frame V22 (r := main_v156) (by decide)).trans l19_22
  have e19_23 : V23 (main_v159 : DevRef τ sig) = embOf (V (main_arg0 : DevRef τ sig)) (V (main_arg3 : DevRef τ sig)) ⟨19, by decide⟩ := by
    rw [← hV23]; exact (F22_frame V22 (r := main_v159) (by decide)).trans e19_22
  have l20_23 : V23 (main_v164 : DevRef τ sig) = linOf (V (main_arg0 : DevRef τ sig)) (V (main_arg2 : DevRef τ sig)) ⟨20, by decide⟩ := by
    rw [← hV23]; exact (F22_frame V22 (r := main_v164) (by decide)).trans l20_22
  have e20_23 : V23 (main_v167 : DevRef τ sig) = embOf (V (main_arg0 : DevRef τ sig)) (V (main_arg3 : DevRef τ sig)) ⟨20, by decide⟩ := by
    rw [← hV23]; exact (F22_frame V22 (r := main_v167) (by decide)).trans e20_22
  have l21_23 : V23 (main_v172 : DevRef τ sig) = linOf (V (main_arg0 : DevRef τ sig)) (V (main_arg2 : DevRef τ sig)) ⟨21, by decide⟩ := by
    rw [← hV23]; exact (F22_frame V22 (r := main_v172) (by decide)).trans l21_22
  have e21_23 : V23 (main_v175 : DevRef τ sig) = embOf (V (main_arg0 : DevRef τ sig)) (V (main_arg3 : DevRef τ sig)) ⟨21, by decide⟩ := by
    rw [← hV23]; exact (F22_frame V22 (r := main_v175) (by decide)).trans e21_22
  have l22_23 : V23 (main_v180 : DevRef τ sig) = linOf (V (main_arg0 : DevRef τ sig)) (V (main_arg2 : DevRef τ sig)) ⟨22, by decide⟩ := by
    rw [← hV23, F22_lin V22, a0_22, a2_22]; rfl
  have e22_23 : V23 (main_v183 : DevRef τ sig) = embOf (V (main_arg0 : DevRef τ sig)) (V (main_arg3 : DevRef τ sig)) ⟨22, by decide⟩ := by
    rw [← hV23, F22_emb V22, a0_22, a3_22]; rfl
  clear hV23 a0_22 a1_22 a2_22 a3_22 a4_22 a5_22 l0_22 e0_22 l1_22 e1_22 l2_22 e2_22 l3_22 e3_22 l4_22 e4_22 l5_22 e5_22 l6_22 e6_22 l7_22 e7_22 l8_22 e8_22 l9_22 e9_22 l10_22 e10_22 l11_22 e11_22 l12_22 e12_22 l13_22 e13_22 l14_22 e14_22 l15_22 e15_22 l16_22 e16_22 l17_22 e17_22 l18_22 e18_22 l19_22 e19_22 l20_22 e20_22 l21_22 e21_22
  -- field 23
  rw [after_append']
  generalize hV24 : after F23 V23 = V24
  have a0_24 : V24 (main_arg0 : DevRef τ sig) = V (main_arg0 : DevRef τ sig) := by
    rw [← hV24]; exact (F23_frame V23 (r := main_arg0) (by decide)).trans a0_23
  have a1_24 : V24 (main_arg1 : DevRef τ sig) = V (main_arg1 : DevRef τ sig) := by
    rw [← hV24]; exact (F23_frame V23 (r := main_arg1) (by decide)).trans a1_23
  have a2_24 : V24 (main_arg2 : DevRef τ sig) = V (main_arg2 : DevRef τ sig) := by
    rw [← hV24]; exact (F23_frame V23 (r := main_arg2) (by decide)).trans a2_23
  have a3_24 : V24 (main_arg3 : DevRef τ sig) = V (main_arg3 : DevRef τ sig) := by
    rw [← hV24]; exact (F23_frame V23 (r := main_arg3) (by decide)).trans a3_23
  have a4_24 : V24 (main_arg4 : DevRef τ sig) = V (main_arg4 : DevRef τ sig) := by
    rw [← hV24]; exact (F23_frame V23 (r := main_arg4) (by decide)).trans a4_23
  have a5_24 : V24 (main_arg5 : DevRef τ sig) = V (main_arg5 : DevRef τ sig) := by
    rw [← hV24]; exact (F23_frame V23 (r := main_arg5) (by decide)).trans a5_23
  have l0_24 : V24 (main_v4 : DevRef τ sig) = linOf (V (main_arg0 : DevRef τ sig)) (V (main_arg2 : DevRef τ sig)) ⟨0, by decide⟩ := by
    rw [← hV24]; exact (F23_frame V23 (r := main_v4) (by decide)).trans l0_23
  have e0_24 : V24 (main_v7 : DevRef τ sig) = embOf (V (main_arg0 : DevRef τ sig)) (V (main_arg3 : DevRef τ sig)) ⟨0, by decide⟩ := by
    rw [← hV24]; exact (F23_frame V23 (r := main_v7) (by decide)).trans e0_23
  have l1_24 : V24 (main_v12 : DevRef τ sig) = linOf (V (main_arg0 : DevRef τ sig)) (V (main_arg2 : DevRef τ sig)) ⟨1, by decide⟩ := by
    rw [← hV24]; exact (F23_frame V23 (r := main_v12) (by decide)).trans l1_23
  have e1_24 : V24 (main_v15 : DevRef τ sig) = embOf (V (main_arg0 : DevRef τ sig)) (V (main_arg3 : DevRef τ sig)) ⟨1, by decide⟩ := by
    rw [← hV24]; exact (F23_frame V23 (r := main_v15) (by decide)).trans e1_23
  have l2_24 : V24 (main_v20 : DevRef τ sig) = linOf (V (main_arg0 : DevRef τ sig)) (V (main_arg2 : DevRef τ sig)) ⟨2, by decide⟩ := by
    rw [← hV24]; exact (F23_frame V23 (r := main_v20) (by decide)).trans l2_23
  have e2_24 : V24 (main_v23 : DevRef τ sig) = embOf (V (main_arg0 : DevRef τ sig)) (V (main_arg3 : DevRef τ sig)) ⟨2, by decide⟩ := by
    rw [← hV24]; exact (F23_frame V23 (r := main_v23) (by decide)).trans e2_23
  have l3_24 : V24 (main_v28 : DevRef τ sig) = linOf (V (main_arg0 : DevRef τ sig)) (V (main_arg2 : DevRef τ sig)) ⟨3, by decide⟩ := by
    rw [← hV24]; exact (F23_frame V23 (r := main_v28) (by decide)).trans l3_23
  have e3_24 : V24 (main_v31 : DevRef τ sig) = embOf (V (main_arg0 : DevRef τ sig)) (V (main_arg3 : DevRef τ sig)) ⟨3, by decide⟩ := by
    rw [← hV24]; exact (F23_frame V23 (r := main_v31) (by decide)).trans e3_23
  have l4_24 : V24 (main_v36 : DevRef τ sig) = linOf (V (main_arg0 : DevRef τ sig)) (V (main_arg2 : DevRef τ sig)) ⟨4, by decide⟩ := by
    rw [← hV24]; exact (F23_frame V23 (r := main_v36) (by decide)).trans l4_23
  have e4_24 : V24 (main_v39 : DevRef τ sig) = embOf (V (main_arg0 : DevRef τ sig)) (V (main_arg3 : DevRef τ sig)) ⟨4, by decide⟩ := by
    rw [← hV24]; exact (F23_frame V23 (r := main_v39) (by decide)).trans e4_23
  have l5_24 : V24 (main_v44 : DevRef τ sig) = linOf (V (main_arg0 : DevRef τ sig)) (V (main_arg2 : DevRef τ sig)) ⟨5, by decide⟩ := by
    rw [← hV24]; exact (F23_frame V23 (r := main_v44) (by decide)).trans l5_23
  have e5_24 : V24 (main_v47 : DevRef τ sig) = embOf (V (main_arg0 : DevRef τ sig)) (V (main_arg3 : DevRef τ sig)) ⟨5, by decide⟩ := by
    rw [← hV24]; exact (F23_frame V23 (r := main_v47) (by decide)).trans e5_23
  have l6_24 : V24 (main_v52 : DevRef τ sig) = linOf (V (main_arg0 : DevRef τ sig)) (V (main_arg2 : DevRef τ sig)) ⟨6, by decide⟩ := by
    rw [← hV24]; exact (F23_frame V23 (r := main_v52) (by decide)).trans l6_23
  have e6_24 : V24 (main_v55 : DevRef τ sig) = embOf (V (main_arg0 : DevRef τ sig)) (V (main_arg3 : DevRef τ sig)) ⟨6, by decide⟩ := by
    rw [← hV24]; exact (F23_frame V23 (r := main_v55) (by decide)).trans e6_23
  have l7_24 : V24 (main_v60 : DevRef τ sig) = linOf (V (main_arg0 : DevRef τ sig)) (V (main_arg2 : DevRef τ sig)) ⟨7, by decide⟩ := by
    rw [← hV24]; exact (F23_frame V23 (r := main_v60) (by decide)).trans l7_23
  have e7_24 : V24 (main_v63 : DevRef τ sig) = embOf (V (main_arg0 : DevRef τ sig)) (V (main_arg3 : DevRef τ sig)) ⟨7, by decide⟩ := by
    rw [← hV24]; exact (F23_frame V23 (r := main_v63) (by decide)).trans e7_23
  have l8_24 : V24 (main_v68 : DevRef τ sig) = linOf (V (main_arg0 : DevRef τ sig)) (V (main_arg2 : DevRef τ sig)) ⟨8, by decide⟩ := by
    rw [← hV24]; exact (F23_frame V23 (r := main_v68) (by decide)).trans l8_23
  have e8_24 : V24 (main_v71 : DevRef τ sig) = embOf (V (main_arg0 : DevRef τ sig)) (V (main_arg3 : DevRef τ sig)) ⟨8, by decide⟩ := by
    rw [← hV24]; exact (F23_frame V23 (r := main_v71) (by decide)).trans e8_23
  have l9_24 : V24 (main_v76 : DevRef τ sig) = linOf (V (main_arg0 : DevRef τ sig)) (V (main_arg2 : DevRef τ sig)) ⟨9, by decide⟩ := by
    rw [← hV24]; exact (F23_frame V23 (r := main_v76) (by decide)).trans l9_23
  have e9_24 : V24 (main_v79 : DevRef τ sig) = embOf (V (main_arg0 : DevRef τ sig)) (V (main_arg3 : DevRef τ sig)) ⟨9, by decide⟩ := by
    rw [← hV24]; exact (F23_frame V23 (r := main_v79) (by decide)).trans e9_23
  have l10_24 : V24 (main_v84 : DevRef τ sig) = linOf (V (main_arg0 : DevRef τ sig)) (V (main_arg2 : DevRef τ sig)) ⟨10, by decide⟩ := by
    rw [← hV24]; exact (F23_frame V23 (r := main_v84) (by decide)).trans l10_23
  have e10_24 : V24 (main_v87 : DevRef τ sig) = embOf (V (main_arg0 : DevRef τ sig)) (V (main_arg3 : DevRef τ sig)) ⟨10, by decide⟩ := by
    rw [← hV24]; exact (F23_frame V23 (r := main_v87) (by decide)).trans e10_23
  have l11_24 : V24 (main_v92 : DevRef τ sig) = linOf (V (main_arg0 : DevRef τ sig)) (V (main_arg2 : DevRef τ sig)) ⟨11, by decide⟩ := by
    rw [← hV24]; exact (F23_frame V23 (r := main_v92) (by decide)).trans l11_23
  have e11_24 : V24 (main_v95 : DevRef τ sig) = embOf (V (main_arg0 : DevRef τ sig)) (V (main_arg3 : DevRef τ sig)) ⟨11, by decide⟩ := by
    rw [← hV24]; exact (F23_frame V23 (r := main_v95) (by decide)).trans e11_23
  have l12_24 : V24 (main_v100 : DevRef τ sig) = linOf (V (main_arg0 : DevRef τ sig)) (V (main_arg2 : DevRef τ sig)) ⟨12, by decide⟩ := by
    rw [← hV24]; exact (F23_frame V23 (r := main_v100) (by decide)).trans l12_23
  have e12_24 : V24 (main_v103 : DevRef τ sig) = embOf (V (main_arg0 : DevRef τ sig)) (V (main_arg3 : DevRef τ sig)) ⟨12, by decide⟩ := by
    rw [← hV24]; exact (F23_frame V23 (r := main_v103) (by decide)).trans e12_23
  have l13_24 : V24 (main_v108 : DevRef τ sig) = linOf (V (main_arg0 : DevRef τ sig)) (V (main_arg2 : DevRef τ sig)) ⟨13, by decide⟩ := by
    rw [← hV24]; exact (F23_frame V23 (r := main_v108) (by decide)).trans l13_23
  have e13_24 : V24 (main_v111 : DevRef τ sig) = embOf (V (main_arg0 : DevRef τ sig)) (V (main_arg3 : DevRef τ sig)) ⟨13, by decide⟩ := by
    rw [← hV24]; exact (F23_frame V23 (r := main_v111) (by decide)).trans e13_23
  have l14_24 : V24 (main_v116 : DevRef τ sig) = linOf (V (main_arg0 : DevRef τ sig)) (V (main_arg2 : DevRef τ sig)) ⟨14, by decide⟩ := by
    rw [← hV24]; exact (F23_frame V23 (r := main_v116) (by decide)).trans l14_23
  have e14_24 : V24 (main_v119 : DevRef τ sig) = embOf (V (main_arg0 : DevRef τ sig)) (V (main_arg3 : DevRef τ sig)) ⟨14, by decide⟩ := by
    rw [← hV24]; exact (F23_frame V23 (r := main_v119) (by decide)).trans e14_23
  have l15_24 : V24 (main_v124 : DevRef τ sig) = linOf (V (main_arg0 : DevRef τ sig)) (V (main_arg2 : DevRef τ sig)) ⟨15, by decide⟩ := by
    rw [← hV24]; exact (F23_frame V23 (r := main_v124) (by decide)).trans l15_23
  have e15_24 : V24 (main_v127 : DevRef τ sig) = embOf (V (main_arg0 : DevRef τ sig)) (V (main_arg3 : DevRef τ sig)) ⟨15, by decide⟩ := by
    rw [← hV24]; exact (F23_frame V23 (r := main_v127) (by decide)).trans e15_23
  have l16_24 : V24 (main_v132 : DevRef τ sig) = linOf (V (main_arg0 : DevRef τ sig)) (V (main_arg2 : DevRef τ sig)) ⟨16, by decide⟩ := by
    rw [← hV24]; exact (F23_frame V23 (r := main_v132) (by decide)).trans l16_23
  have e16_24 : V24 (main_v135 : DevRef τ sig) = embOf (V (main_arg0 : DevRef τ sig)) (V (main_arg3 : DevRef τ sig)) ⟨16, by decide⟩ := by
    rw [← hV24]; exact (F23_frame V23 (r := main_v135) (by decide)).trans e16_23
  have l17_24 : V24 (main_v140 : DevRef τ sig) = linOf (V (main_arg0 : DevRef τ sig)) (V (main_arg2 : DevRef τ sig)) ⟨17, by decide⟩ := by
    rw [← hV24]; exact (F23_frame V23 (r := main_v140) (by decide)).trans l17_23
  have e17_24 : V24 (main_v143 : DevRef τ sig) = embOf (V (main_arg0 : DevRef τ sig)) (V (main_arg3 : DevRef τ sig)) ⟨17, by decide⟩ := by
    rw [← hV24]; exact (F23_frame V23 (r := main_v143) (by decide)).trans e17_23
  have l18_24 : V24 (main_v148 : DevRef τ sig) = linOf (V (main_arg0 : DevRef τ sig)) (V (main_arg2 : DevRef τ sig)) ⟨18, by decide⟩ := by
    rw [← hV24]; exact (F23_frame V23 (r := main_v148) (by decide)).trans l18_23
  have e18_24 : V24 (main_v151 : DevRef τ sig) = embOf (V (main_arg0 : DevRef τ sig)) (V (main_arg3 : DevRef τ sig)) ⟨18, by decide⟩ := by
    rw [← hV24]; exact (F23_frame V23 (r := main_v151) (by decide)).trans e18_23
  have l19_24 : V24 (main_v156 : DevRef τ sig) = linOf (V (main_arg0 : DevRef τ sig)) (V (main_arg2 : DevRef τ sig)) ⟨19, by decide⟩ := by
    rw [← hV24]; exact (F23_frame V23 (r := main_v156) (by decide)).trans l19_23
  have e19_24 : V24 (main_v159 : DevRef τ sig) = embOf (V (main_arg0 : DevRef τ sig)) (V (main_arg3 : DevRef τ sig)) ⟨19, by decide⟩ := by
    rw [← hV24]; exact (F23_frame V23 (r := main_v159) (by decide)).trans e19_23
  have l20_24 : V24 (main_v164 : DevRef τ sig) = linOf (V (main_arg0 : DevRef τ sig)) (V (main_arg2 : DevRef τ sig)) ⟨20, by decide⟩ := by
    rw [← hV24]; exact (F23_frame V23 (r := main_v164) (by decide)).trans l20_23
  have e20_24 : V24 (main_v167 : DevRef τ sig) = embOf (V (main_arg0 : DevRef τ sig)) (V (main_arg3 : DevRef τ sig)) ⟨20, by decide⟩ := by
    rw [← hV24]; exact (F23_frame V23 (r := main_v167) (by decide)).trans e20_23
  have l21_24 : V24 (main_v172 : DevRef τ sig) = linOf (V (main_arg0 : DevRef τ sig)) (V (main_arg2 : DevRef τ sig)) ⟨21, by decide⟩ := by
    rw [← hV24]; exact (F23_frame V23 (r := main_v172) (by decide)).trans l21_23
  have e21_24 : V24 (main_v175 : DevRef τ sig) = embOf (V (main_arg0 : DevRef τ sig)) (V (main_arg3 : DevRef τ sig)) ⟨21, by decide⟩ := by
    rw [← hV24]; exact (F23_frame V23 (r := main_v175) (by decide)).trans e21_23
  have l22_24 : V24 (main_v180 : DevRef τ sig) = linOf (V (main_arg0 : DevRef τ sig)) (V (main_arg2 : DevRef τ sig)) ⟨22, by decide⟩ := by
    rw [← hV24]; exact (F23_frame V23 (r := main_v180) (by decide)).trans l22_23
  have e22_24 : V24 (main_v183 : DevRef τ sig) = embOf (V (main_arg0 : DevRef τ sig)) (V (main_arg3 : DevRef τ sig)) ⟨22, by decide⟩ := by
    rw [← hV24]; exact (F23_frame V23 (r := main_v183) (by decide)).trans e22_23
  have l23_24 : V24 (main_v188 : DevRef τ sig) = linOf (V (main_arg0 : DevRef τ sig)) (V (main_arg2 : DevRef τ sig)) ⟨23, by decide⟩ := by
    rw [← hV24, F23_lin V23, a0_23, a2_23]; rfl
  have e23_24 : V24 (main_v191 : DevRef τ sig) = embOf (V (main_arg0 : DevRef τ sig)) (V (main_arg3 : DevRef τ sig)) ⟨23, by decide⟩ := by
    rw [← hV24, F23_emb V23, a0_23, a3_23]; rfl
  clear hV24 a0_23 a1_23 a2_23 a3_23 a4_23 a5_23 l0_23 e0_23 l1_23 e1_23 l2_23 e2_23 l3_23 e3_23 l4_23 e4_23 l5_23 e5_23 l6_23 e6_23 l7_23 e7_23 l8_23 e8_23 l9_23 e9_23 l10_23 e10_23 l11_23 e11_23 l12_23 e12_23 l13_23 e13_23 l14_23 e14_23 l15_23 e15_23 l16_23 e16_23 l17_23 e17_23 l18_23 e18_23 l19_23 e19_23 l20_23 e20_23 l21_23 e21_23 l22_23 e22_23
  -- field 24
  rw [after_append']
  generalize hV25 : after F24 V24 = V25
  have a0_25 : V25 (main_arg0 : DevRef τ sig) = V (main_arg0 : DevRef τ sig) := by
    rw [← hV25]; exact (F24_frame V24 (r := main_arg0) (by decide)).trans a0_24
  have a1_25 : V25 (main_arg1 : DevRef τ sig) = V (main_arg1 : DevRef τ sig) := by
    rw [← hV25]; exact (F24_frame V24 (r := main_arg1) (by decide)).trans a1_24
  have a2_25 : V25 (main_arg2 : DevRef τ sig) = V (main_arg2 : DevRef τ sig) := by
    rw [← hV25]; exact (F24_frame V24 (r := main_arg2) (by decide)).trans a2_24
  have a3_25 : V25 (main_arg3 : DevRef τ sig) = V (main_arg3 : DevRef τ sig) := by
    rw [← hV25]; exact (F24_frame V24 (r := main_arg3) (by decide)).trans a3_24
  have a4_25 : V25 (main_arg4 : DevRef τ sig) = V (main_arg4 : DevRef τ sig) := by
    rw [← hV25]; exact (F24_frame V24 (r := main_arg4) (by decide)).trans a4_24
  have a5_25 : V25 (main_arg5 : DevRef τ sig) = V (main_arg5 : DevRef τ sig) := by
    rw [← hV25]; exact (F24_frame V24 (r := main_arg5) (by decide)).trans a5_24
  have l0_25 : V25 (main_v4 : DevRef τ sig) = linOf (V (main_arg0 : DevRef τ sig)) (V (main_arg2 : DevRef τ sig)) ⟨0, by decide⟩ := by
    rw [← hV25]; exact (F24_frame V24 (r := main_v4) (by decide)).trans l0_24
  have e0_25 : V25 (main_v7 : DevRef τ sig) = embOf (V (main_arg0 : DevRef τ sig)) (V (main_arg3 : DevRef τ sig)) ⟨0, by decide⟩ := by
    rw [← hV25]; exact (F24_frame V24 (r := main_v7) (by decide)).trans e0_24
  have l1_25 : V25 (main_v12 : DevRef τ sig) = linOf (V (main_arg0 : DevRef τ sig)) (V (main_arg2 : DevRef τ sig)) ⟨1, by decide⟩ := by
    rw [← hV25]; exact (F24_frame V24 (r := main_v12) (by decide)).trans l1_24
  have e1_25 : V25 (main_v15 : DevRef τ sig) = embOf (V (main_arg0 : DevRef τ sig)) (V (main_arg3 : DevRef τ sig)) ⟨1, by decide⟩ := by
    rw [← hV25]; exact (F24_frame V24 (r := main_v15) (by decide)).trans e1_24
  have l2_25 : V25 (main_v20 : DevRef τ sig) = linOf (V (main_arg0 : DevRef τ sig)) (V (main_arg2 : DevRef τ sig)) ⟨2, by decide⟩ := by
    rw [← hV25]; exact (F24_frame V24 (r := main_v20) (by decide)).trans l2_24
  have e2_25 : V25 (main_v23 : DevRef τ sig) = embOf (V (main_arg0 : DevRef τ sig)) (V (main_arg3 : DevRef τ sig)) ⟨2, by decide⟩ := by
    rw [← hV25]; exact (F24_frame V24 (r := main_v23) (by decide)).trans e2_24
  have l3_25 : V25 (main_v28 : DevRef τ sig) = linOf (V (main_arg0 : DevRef τ sig)) (V (main_arg2 : DevRef τ sig)) ⟨3, by decide⟩ := by
    rw [← hV25]; exact (F24_frame V24 (r := main_v28) (by decide)).trans l3_24
  have e3_25 : V25 (main_v31 : DevRef τ sig) = embOf (V (main_arg0 : DevRef τ sig)) (V (main_arg3 : DevRef τ sig)) ⟨3, by decide⟩ := by
    rw [← hV25]; exact (F24_frame V24 (r := main_v31) (by decide)).trans e3_24
  have l4_25 : V25 (main_v36 : DevRef τ sig) = linOf (V (main_arg0 : DevRef τ sig)) (V (main_arg2 : DevRef τ sig)) ⟨4, by decide⟩ := by
    rw [← hV25]; exact (F24_frame V24 (r := main_v36) (by decide)).trans l4_24
  have e4_25 : V25 (main_v39 : DevRef τ sig) = embOf (V (main_arg0 : DevRef τ sig)) (V (main_arg3 : DevRef τ sig)) ⟨4, by decide⟩ := by
    rw [← hV25]; exact (F24_frame V24 (r := main_v39) (by decide)).trans e4_24
  have l5_25 : V25 (main_v44 : DevRef τ sig) = linOf (V (main_arg0 : DevRef τ sig)) (V (main_arg2 : DevRef τ sig)) ⟨5, by decide⟩ := by
    rw [← hV25]; exact (F24_frame V24 (r := main_v44) (by decide)).trans l5_24
  have e5_25 : V25 (main_v47 : DevRef τ sig) = embOf (V (main_arg0 : DevRef τ sig)) (V (main_arg3 : DevRef τ sig)) ⟨5, by decide⟩ := by
    rw [← hV25]; exact (F24_frame V24 (r := main_v47) (by decide)).trans e5_24
  have l6_25 : V25 (main_v52 : DevRef τ sig) = linOf (V (main_arg0 : DevRef τ sig)) (V (main_arg2 : DevRef τ sig)) ⟨6, by decide⟩ := by
    rw [← hV25]; exact (F24_frame V24 (r := main_v52) (by decide)).trans l6_24
  have e6_25 : V25 (main_v55 : DevRef τ sig) = embOf (V (main_arg0 : DevRef τ sig)) (V (main_arg3 : DevRef τ sig)) ⟨6, by decide⟩ := by
    rw [← hV25]; exact (F24_frame V24 (r := main_v55) (by decide)).trans e6_24
  have l7_25 : V25 (main_v60 : DevRef τ sig) = linOf (V (main_arg0 : DevRef τ sig)) (V (main_arg2 : DevRef τ sig)) ⟨7, by decide⟩ := by
    rw [← hV25]; exact (F24_frame V24 (r := main_v60) (by decide)).trans l7_24
  have e7_25 : V25 (main_v63 : DevRef τ sig) = embOf (V (main_arg0 : DevRef τ sig)) (V (main_arg3 : DevRef τ sig)) ⟨7, by decide⟩ := by
    rw [← hV25]; exact (F24_frame V24 (r := main_v63) (by decide)).trans e7_24
  have l8_25 : V25 (main_v68 : DevRef τ sig) = linOf (V (main_arg0 : DevRef τ sig)) (V (main_arg2 : DevRef τ sig)) ⟨8, by decide⟩ := by
    rw [← hV25]; exact (F24_frame V24 (r := main_v68) (by decide)).trans l8_24
  have e8_25 : V25 (main_v71 : DevRef τ sig) = embOf (V (main_arg0 : DevRef τ sig)) (V (main_arg3 : DevRef τ sig)) ⟨8, by decide⟩ := by
    rw [← hV25]; exact (F24_frame V24 (r := main_v71) (by decide)).trans e8_24
  have l9_25 : V25 (main_v76 : DevRef τ sig) = linOf (V (main_arg0 : DevRef τ sig)) (V (main_arg2 : DevRef τ sig)) ⟨9, by decide⟩ := by
    rw [← hV25]; exact (F24_frame V24 (r := main_v76) (by decide)).trans l9_24
  have e9_25 : V25 (main_v79 : DevRef τ sig) = embOf (V (main_arg0 : DevRef τ sig)) (V (main_arg3 : DevRef τ sig)) ⟨9, by decide⟩ := by
    rw [← hV25]; exact (F24_frame V24 (r := main_v79) (by decide)).trans e9_24
  have l10_25 : V25 (main_v84 : DevRef τ sig) = linOf (V (main_arg0 : DevRef τ sig)) (V (main_arg2 : DevRef τ sig)) ⟨10, by decide⟩ := by
    rw [← hV25]; exact (F24_frame V24 (r := main_v84) (by decide)).trans l10_24
  have e10_25 : V25 (main_v87 : DevRef τ sig) = embOf (V (main_arg0 : DevRef τ sig)) (V (main_arg3 : DevRef τ sig)) ⟨10, by decide⟩ := by
    rw [← hV25]; exact (F24_frame V24 (r := main_v87) (by decide)).trans e10_24
  have l11_25 : V25 (main_v92 : DevRef τ sig) = linOf (V (main_arg0 : DevRef τ sig)) (V (main_arg2 : DevRef τ sig)) ⟨11, by decide⟩ := by
    rw [← hV25]; exact (F24_frame V24 (r := main_v92) (by decide)).trans l11_24
  have e11_25 : V25 (main_v95 : DevRef τ sig) = embOf (V (main_arg0 : DevRef τ sig)) (V (main_arg3 : DevRef τ sig)) ⟨11, by decide⟩ := by
    rw [← hV25]; exact (F24_frame V24 (r := main_v95) (by decide)).trans e11_24
  have l12_25 : V25 (main_v100 : DevRef τ sig) = linOf (V (main_arg0 : DevRef τ sig)) (V (main_arg2 : DevRef τ sig)) ⟨12, by decide⟩ := by
    rw [← hV25]; exact (F24_frame V24 (r := main_v100) (by decide)).trans l12_24
  have e12_25 : V25 (main_v103 : DevRef τ sig) = embOf (V (main_arg0 : DevRef τ sig)) (V (main_arg3 : DevRef τ sig)) ⟨12, by decide⟩ := by
    rw [← hV25]; exact (F24_frame V24 (r := main_v103) (by decide)).trans e12_24
  have l13_25 : V25 (main_v108 : DevRef τ sig) = linOf (V (main_arg0 : DevRef τ sig)) (V (main_arg2 : DevRef τ sig)) ⟨13, by decide⟩ := by
    rw [← hV25]; exact (F24_frame V24 (r := main_v108) (by decide)).trans l13_24
  have e13_25 : V25 (main_v111 : DevRef τ sig) = embOf (V (main_arg0 : DevRef τ sig)) (V (main_arg3 : DevRef τ sig)) ⟨13, by decide⟩ := by
    rw [← hV25]; exact (F24_frame V24 (r := main_v111) (by decide)).trans e13_24
  have l14_25 : V25 (main_v116 : DevRef τ sig) = linOf (V (main_arg0 : DevRef τ sig)) (V (main_arg2 : DevRef τ sig)) ⟨14, by decide⟩ := by
    rw [← hV25]; exact (F24_frame V24 (r := main_v116) (by decide)).trans l14_24
  have e14_25 : V25 (main_v119 : DevRef τ sig) = embOf (V (main_arg0 : DevRef τ sig)) (V (main_arg3 : DevRef τ sig)) ⟨14, by decide⟩ := by
    rw [← hV25]; exact (F24_frame V24 (r := main_v119) (by decide)).trans e14_24
  have l15_25 : V25 (main_v124 : DevRef τ sig) = linOf (V (main_arg0 : DevRef τ sig)) (V (main_arg2 : DevRef τ sig)) ⟨15, by decide⟩ := by
    rw [← hV25]; exact (F24_frame V24 (r := main_v124) (by decide)).trans l15_24
  have e15_25 : V25 (main_v127 : DevRef τ sig) = embOf (V (main_arg0 : DevRef τ sig)) (V (main_arg3 : DevRef τ sig)) ⟨15, by decide⟩ := by
    rw [← hV25]; exact (F24_frame V24 (r := main_v127) (by decide)).trans e15_24
  have l16_25 : V25 (main_v132 : DevRef τ sig) = linOf (V (main_arg0 : DevRef τ sig)) (V (main_arg2 : DevRef τ sig)) ⟨16, by decide⟩ := by
    rw [← hV25]; exact (F24_frame V24 (r := main_v132) (by decide)).trans l16_24
  have e16_25 : V25 (main_v135 : DevRef τ sig) = embOf (V (main_arg0 : DevRef τ sig)) (V (main_arg3 : DevRef τ sig)) ⟨16, by decide⟩ := by
    rw [← hV25]; exact (F24_frame V24 (r := main_v135) (by decide)).trans e16_24
  have l17_25 : V25 (main_v140 : DevRef τ sig) = linOf (V (main_arg0 : DevRef τ sig)) (V (main_arg2 : DevRef τ sig)) ⟨17, by decide⟩ := by
    rw [← hV25]; exact (F24_frame V24 (r := main_v140) (by decide)).trans l17_24
  have e17_25 : V25 (main_v143 : DevRef τ sig) = embOf (V (main_arg0 : DevRef τ sig)) (V (main_arg3 : DevRef τ sig)) ⟨17, by decide⟩ := by
    rw [← hV25]; exact (F24_frame V24 (r := main_v143) (by decide)).trans e17_24
  have l18_25 : V25 (main_v148 : DevRef τ sig) = linOf (V (main_arg0 : DevRef τ sig)) (V (main_arg2 : DevRef τ sig)) ⟨18, by decide⟩ := by
    rw [← hV25]; exact (F24_frame V24 (r := main_v148) (by decide)).trans l18_24
  have e18_25 : V25 (main_v151 : DevRef τ sig) = embOf (V (main_arg0 : DevRef τ sig)) (V (main_arg3 : DevRef τ sig)) ⟨18, by decide⟩ := by
    rw [← hV25]; exact (F24_frame V24 (r := main_v151) (by decide)).trans e18_24
  have l19_25 : V25 (main_v156 : DevRef τ sig) = linOf (V (main_arg0 : DevRef τ sig)) (V (main_arg2 : DevRef τ sig)) ⟨19, by decide⟩ := by
    rw [← hV25]; exact (F24_frame V24 (r := main_v156) (by decide)).trans l19_24
  have e19_25 : V25 (main_v159 : DevRef τ sig) = embOf (V (main_arg0 : DevRef τ sig)) (V (main_arg3 : DevRef τ sig)) ⟨19, by decide⟩ := by
    rw [← hV25]; exact (F24_frame V24 (r := main_v159) (by decide)).trans e19_24
  have l20_25 : V25 (main_v164 : DevRef τ sig) = linOf (V (main_arg0 : DevRef τ sig)) (V (main_arg2 : DevRef τ sig)) ⟨20, by decide⟩ := by
    rw [← hV25]; exact (F24_frame V24 (r := main_v164) (by decide)).trans l20_24
  have e20_25 : V25 (main_v167 : DevRef τ sig) = embOf (V (main_arg0 : DevRef τ sig)) (V (main_arg3 : DevRef τ sig)) ⟨20, by decide⟩ := by
    rw [← hV25]; exact (F24_frame V24 (r := main_v167) (by decide)).trans e20_24
  have l21_25 : V25 (main_v172 : DevRef τ sig) = linOf (V (main_arg0 : DevRef τ sig)) (V (main_arg2 : DevRef τ sig)) ⟨21, by decide⟩ := by
    rw [← hV25]; exact (F24_frame V24 (r := main_v172) (by decide)).trans l21_24
  have e21_25 : V25 (main_v175 : DevRef τ sig) = embOf (V (main_arg0 : DevRef τ sig)) (V (main_arg3 : DevRef τ sig)) ⟨21, by decide⟩ := by
    rw [← hV25]; exact (F24_frame V24 (r := main_v175) (by decide)).trans e21_24
  have l22_25 : V25 (main_v180 : DevRef τ sig) = linOf (V (main_arg0 : DevRef τ sig)) (V (main_arg2 : DevRef τ sig)) ⟨22, by decide⟩ := by
    rw [← hV25]; exact (F24_frame V24 (r := main_v180) (by decide)).trans l22_24
  have e22_25 : V25 (main_v183 : DevRef τ sig) = embOf (V (main_arg0 : DevRef τ sig)) (V (main_arg3 : DevRef τ sig)) ⟨22, by decide⟩ := by
    rw [← hV25]; exact (F24_frame V24 (r := main_v183) (by decide)).trans e22_24
  have l23_25 : V25 (main_v188 : DevRef τ sig) = linOf (V (main_arg0 : DevRef τ sig)) (V (main_arg2 : DevRef τ sig)) ⟨23, by decide⟩ := by
    rw [← hV25]; exact (F24_frame V24 (r := main_v188) (by decide)).trans l23_24
  have e23_25 : V25 (main_v191 : DevRef τ sig) = embOf (V (main_arg0 : DevRef τ sig)) (V (main_arg3 : DevRef τ sig)) ⟨23, by decide⟩ := by
    rw [← hV25]; exact (F24_frame V24 (r := main_v191) (by decide)).trans e23_24
  have l24_25 : V25 (main_v196 : DevRef τ sig) = linOf (V (main_arg0 : DevRef τ sig)) (V (main_arg2 : DevRef τ sig)) ⟨24, by decide⟩ := by
    rw [← hV25, F24_lin V24, a0_24, a2_24]; rfl
  have e24_25 : V25 (main_v199 : DevRef τ sig) = embOf (V (main_arg0 : DevRef τ sig)) (V (main_arg3 : DevRef τ sig)) ⟨24, by decide⟩ := by
    rw [← hV25, F24_emb V24, a0_24, a3_24]; rfl
  clear hV25 a0_24 a1_24 a2_24 a3_24 a4_24 a5_24 l0_24 e0_24 l1_24 e1_24 l2_24 e2_24 l3_24 e3_24 l4_24 e4_24 l5_24 e5_24 l6_24 e6_24 l7_24 e7_24 l8_24 e8_24 l9_24 e9_24 l10_24 e10_24 l11_24 e11_24 l12_24 e12_24 l13_24 e13_24 l14_24 e14_24 l15_24 e15_24 l16_24 e16_24 l17_24 e17_24 l18_24 e18_24 l19_24 e19_24 l20_24 e20_24 l21_24 e21_24 l22_24 e22_24 l23_24 e23_24
  -- field 25
  rw [after_append']
  generalize hV26 : after F25 V25 = V26
  have a0_26 : V26 (main_arg0 : DevRef τ sig) = V (main_arg0 : DevRef τ sig) := by
    rw [← hV26]; exact (F25_frame V25 (r := main_arg0) (by decide)).trans a0_25
  have a1_26 : V26 (main_arg1 : DevRef τ sig) = V (main_arg1 : DevRef τ sig) := by
    rw [← hV26]; exact (F25_frame V25 (r := main_arg1) (by decide)).trans a1_25
  have a2_26 : V26 (main_arg2 : DevRef τ sig) = V (main_arg2 : DevRef τ sig) := by
    rw [← hV26]; exact (F25_frame V25 (r := main_arg2) (by decide)).trans a2_25
  have a3_26 : V26 (main_arg3 : DevRef τ sig) = V (main_arg3 : DevRef τ sig) := by
    rw [← hV26]; exact (F25_frame V25 (r := main_arg3) (by decide)).trans a3_25
  have a4_26 : V26 (main_arg4 : DevRef τ sig) = V (main_arg4 : DevRef τ sig) := by
    rw [← hV26]; exact (F25_frame V25 (r := main_arg4) (by decide)).trans a4_25
  have a5_26 : V26 (main_arg5 : DevRef τ sig) = V (main_arg5 : DevRef τ sig) := by
    rw [← hV26]; exact (F25_frame V25 (r := main_arg5) (by decide)).trans a5_25
  have l0_26 : V26 (main_v4 : DevRef τ sig) = linOf (V (main_arg0 : DevRef τ sig)) (V (main_arg2 : DevRef τ sig)) ⟨0, by decide⟩ := by
    rw [← hV26]; exact (F25_frame V25 (r := main_v4) (by decide)).trans l0_25
  have e0_26 : V26 (main_v7 : DevRef τ sig) = embOf (V (main_arg0 : DevRef τ sig)) (V (main_arg3 : DevRef τ sig)) ⟨0, by decide⟩ := by
    rw [← hV26]; exact (F25_frame V25 (r := main_v7) (by decide)).trans e0_25
  have l1_26 : V26 (main_v12 : DevRef τ sig) = linOf (V (main_arg0 : DevRef τ sig)) (V (main_arg2 : DevRef τ sig)) ⟨1, by decide⟩ := by
    rw [← hV26]; exact (F25_frame V25 (r := main_v12) (by decide)).trans l1_25
  have e1_26 : V26 (main_v15 : DevRef τ sig) = embOf (V (main_arg0 : DevRef τ sig)) (V (main_arg3 : DevRef τ sig)) ⟨1, by decide⟩ := by
    rw [← hV26]; exact (F25_frame V25 (r := main_v15) (by decide)).trans e1_25
  have l2_26 : V26 (main_v20 : DevRef τ sig) = linOf (V (main_arg0 : DevRef τ sig)) (V (main_arg2 : DevRef τ sig)) ⟨2, by decide⟩ := by
    rw [← hV26]; exact (F25_frame V25 (r := main_v20) (by decide)).trans l2_25
  have e2_26 : V26 (main_v23 : DevRef τ sig) = embOf (V (main_arg0 : DevRef τ sig)) (V (main_arg3 : DevRef τ sig)) ⟨2, by decide⟩ := by
    rw [← hV26]; exact (F25_frame V25 (r := main_v23) (by decide)).trans e2_25
  have l3_26 : V26 (main_v28 : DevRef τ sig) = linOf (V (main_arg0 : DevRef τ sig)) (V (main_arg2 : DevRef τ sig)) ⟨3, by decide⟩ := by
    rw [← hV26]; exact (F25_frame V25 (r := main_v28) (by decide)).trans l3_25
  have e3_26 : V26 (main_v31 : DevRef τ sig) = embOf (V (main_arg0 : DevRef τ sig)) (V (main_arg3 : DevRef τ sig)) ⟨3, by decide⟩ := by
    rw [← hV26]; exact (F25_frame V25 (r := main_v31) (by decide)).trans e3_25
  have l4_26 : V26 (main_v36 : DevRef τ sig) = linOf (V (main_arg0 : DevRef τ sig)) (V (main_arg2 : DevRef τ sig)) ⟨4, by decide⟩ := by
    rw [← hV26]; exact (F25_frame V25 (r := main_v36) (by decide)).trans l4_25
  have e4_26 : V26 (main_v39 : DevRef τ sig) = embOf (V (main_arg0 : DevRef τ sig)) (V (main_arg3 : DevRef τ sig)) ⟨4, by decide⟩ := by
    rw [← hV26]; exact (F25_frame V25 (r := main_v39) (by decide)).trans e4_25
  have l5_26 : V26 (main_v44 : DevRef τ sig) = linOf (V (main_arg0 : DevRef τ sig)) (V (main_arg2 : DevRef τ sig)) ⟨5, by decide⟩ := by
    rw [← hV26]; exact (F25_frame V25 (r := main_v44) (by decide)).trans l5_25
  have e5_26 : V26 (main_v47 : DevRef τ sig) = embOf (V (main_arg0 : DevRef τ sig)) (V (main_arg3 : DevRef τ sig)) ⟨5, by decide⟩ := by
    rw [← hV26]; exact (F25_frame V25 (r := main_v47) (by decide)).trans e5_25
  have l6_26 : V26 (main_v52 : DevRef τ sig) = linOf (V (main_arg0 : DevRef τ sig)) (V (main_arg2 : DevRef τ sig)) ⟨6, by decide⟩ := by
    rw [← hV26]; exact (F25_frame V25 (r := main_v52) (by decide)).trans l6_25
  have e6_26 : V26 (main_v55 : DevRef τ sig) = embOf (V (main_arg0 : DevRef τ sig)) (V (main_arg3 : DevRef τ sig)) ⟨6, by decide⟩ := by
    rw [← hV26]; exact (F25_frame V25 (r := main_v55) (by decide)).trans e6_25
  have l7_26 : V26 (main_v60 : DevRef τ sig) = linOf (V (main_arg0 : DevRef τ sig)) (V (main_arg2 : DevRef τ sig)) ⟨7, by decide⟩ := by
    rw [← hV26]; exact (F25_frame V25 (r := main_v60) (by decide)).trans l7_25
  have e7_26 : V26 (main_v63 : DevRef τ sig) = embOf (V (main_arg0 : DevRef τ sig)) (V (main_arg3 : DevRef τ sig)) ⟨7, by decide⟩ := by
    rw [← hV26]; exact (F25_frame V25 (r := main_v63) (by decide)).trans e7_25
  have l8_26 : V26 (main_v68 : DevRef τ sig) = linOf (V (main_arg0 : DevRef τ sig)) (V (main_arg2 : DevRef τ sig)) ⟨8, by decide⟩ := by
    rw [← hV26]; exact (F25_frame V25 (r := main_v68) (by decide)).trans l8_25
  have e8_26 : V26 (main_v71 : DevRef τ sig) = embOf (V (main_arg0 : DevRef τ sig)) (V (main_arg3 : DevRef τ sig)) ⟨8, by decide⟩ := by
    rw [← hV26]; exact (F25_frame V25 (r := main_v71) (by decide)).trans e8_25
  have l9_26 : V26 (main_v76 : DevRef τ sig) = linOf (V (main_arg0 : DevRef τ sig)) (V (main_arg2 : DevRef τ sig)) ⟨9, by decide⟩ := by
    rw [← hV26]; exact (F25_frame V25 (r := main_v76) (by decide)).trans l9_25
  have e9_26 : V26 (main_v79 : DevRef τ sig) = embOf (V (main_arg0 : DevRef τ sig)) (V (main_arg3 : DevRef τ sig)) ⟨9, by decide⟩ := by
    rw [← hV26]; exact (F25_frame V25 (r := main_v79) (by decide)).trans e9_25
  have l10_26 : V26 (main_v84 : DevRef τ sig) = linOf (V (main_arg0 : DevRef τ sig)) (V (main_arg2 : DevRef τ sig)) ⟨10, by decide⟩ := by
    rw [← hV26]; exact (F25_frame V25 (r := main_v84) (by decide)).trans l10_25
  have e10_26 : V26 (main_v87 : DevRef τ sig) = embOf (V (main_arg0 : DevRef τ sig)) (V (main_arg3 : DevRef τ sig)) ⟨10, by decide⟩ := by
    rw [← hV26]; exact (F25_frame V25 (r := main_v87) (by decide)).trans e10_25
  have l11_26 : V26 (main_v92 : DevRef τ sig) = linOf (V (main_arg0 : DevRef τ sig)) (V (main_arg2 : DevRef τ sig)) ⟨11, by decide⟩ := by
    rw [← hV26]; exact (F25_frame V25 (r := main_v92) (by decide)).trans l11_25
  have e11_26 : V26 (main_v95 : DevRef τ sig) = embOf (V (main_arg0 : DevRef τ sig)) (V (main_arg3 : DevRef τ sig)) ⟨11, by decide⟩ := by
    rw [← hV26]; exact (F25_frame V25 (r := main_v95) (by decide)).trans e11_25
  have l12_26 : V26 (main_v100 : DevRef τ sig) = linOf (V (main_arg0 : DevRef τ sig)) (V (main_arg2 : DevRef τ sig)) ⟨12, by decide⟩ := by
    rw [← hV26]; exact (F25_frame V25 (r := main_v100) (by decide)).trans l12_25
  have e12_26 : V26 (main_v103 : DevRef τ sig) = embOf (V (main_arg0 : DevRef τ sig)) (V (main_arg3 : DevRef τ sig)) ⟨12, by decide⟩ := by
    rw [← hV26]; exact (F25_frame V25 (r := main_v103) (by decide)).trans e12_25
  have l13_26 : V26 (main_v108 : DevRef τ sig) = linOf (V (main_arg0 : DevRef τ sig)) (V (main_arg2 : DevRef τ sig)) ⟨13, by decide⟩ := by
    rw [← hV26]; exact (F25_frame V25 (r := main_v108) (by decide)).trans l13_25
  have e13_26 : V26 (main_v111 : DevRef τ sig) = embOf (V (main_arg0 : DevRef τ sig)) (V (main_arg3 : DevRef τ sig)) ⟨13, by decide⟩ := by
    rw [← hV26]; exact (F25_frame V25 (r := main_v111) (by decide)).trans e13_25
  have l14_26 : V26 (main_v116 : DevRef τ sig) = linOf (V (main_arg0 : DevRef τ sig)) (V (main_arg2 : DevRef τ sig)) ⟨14, by decide⟩ := by
    rw [← hV26]; exact (F25_frame V25 (r := main_v116) (by decide)).trans l14_25
  have e14_26 : V26 (main_v119 : DevRef τ sig) = embOf (V (main_arg0 : DevRef τ sig)) (V (main_arg3 : DevRef τ sig)) ⟨14, by decide⟩ := by
    rw [← hV26]; exact (F25_frame V25 (r := main_v119) (by decide)).trans e14_25
  have l15_26 : V26 (main_v124 : DevRef τ sig) = linOf (V (main_arg0 : DevRef τ sig)) (V (main_arg2 : DevRef τ sig)) ⟨15, by decide⟩ := by
    rw [← hV26]; exact (F25_frame V25 (r := main_v124) (by decide)).trans l15_25
  have e15_26 : V26 (main_v127 : DevRef τ sig) = embOf (V (main_arg0 : DevRef τ sig)) (V (main_arg3 : DevRef τ sig)) ⟨15, by decide⟩ := by
    rw [← hV26]; exact (F25_frame V25 (r := main_v127) (by decide)).trans e15_25
  have l16_26 : V26 (main_v132 : DevRef τ sig) = linOf (V (main_arg0 : DevRef τ sig)) (V (main_arg2 : DevRef τ sig)) ⟨16, by decide⟩ := by
    rw [← hV26]; exact (F25_frame V25 (r := main_v132) (by decide)).trans l16_25
  have e16_26 : V26 (main_v135 : DevRef τ sig) = embOf (V (main_arg0 : DevRef τ sig)) (V (main_arg3 : DevRef τ sig)) ⟨16, by decide⟩ := by
    rw [← hV26]; exact (F25_frame V25 (r := main_v135) (by decide)).trans e16_25
  have l17_26 : V26 (main_v140 : DevRef τ sig) = linOf (V (main_arg0 : DevRef τ sig)) (V (main_arg2 : DevRef τ sig)) ⟨17, by decide⟩ := by
    rw [← hV26]; exact (F25_frame V25 (r := main_v140) (by decide)).trans l17_25
  have e17_26 : V26 (main_v143 : DevRef τ sig) = embOf (V (main_arg0 : DevRef τ sig)) (V (main_arg3 : DevRef τ sig)) ⟨17, by decide⟩ := by
    rw [← hV26]; exact (F25_frame V25 (r := main_v143) (by decide)).trans e17_25
  have l18_26 : V26 (main_v148 : DevRef τ sig) = linOf (V (main_arg0 : DevRef τ sig)) (V (main_arg2 : DevRef τ sig)) ⟨18, by decide⟩ := by
    rw [← hV26]; exact (F25_frame V25 (r := main_v148) (by decide)).trans l18_25
  have e18_26 : V26 (main_v151 : DevRef τ sig) = embOf (V (main_arg0 : DevRef τ sig)) (V (main_arg3 : DevRef τ sig)) ⟨18, by decide⟩ := by
    rw [← hV26]; exact (F25_frame V25 (r := main_v151) (by decide)).trans e18_25
  have l19_26 : V26 (main_v156 : DevRef τ sig) = linOf (V (main_arg0 : DevRef τ sig)) (V (main_arg2 : DevRef τ sig)) ⟨19, by decide⟩ := by
    rw [← hV26]; exact (F25_frame V25 (r := main_v156) (by decide)).trans l19_25
  have e19_26 : V26 (main_v159 : DevRef τ sig) = embOf (V (main_arg0 : DevRef τ sig)) (V (main_arg3 : DevRef τ sig)) ⟨19, by decide⟩ := by
    rw [← hV26]; exact (F25_frame V25 (r := main_v159) (by decide)).trans e19_25
  have l20_26 : V26 (main_v164 : DevRef τ sig) = linOf (V (main_arg0 : DevRef τ sig)) (V (main_arg2 : DevRef τ sig)) ⟨20, by decide⟩ := by
    rw [← hV26]; exact (F25_frame V25 (r := main_v164) (by decide)).trans l20_25
  have e20_26 : V26 (main_v167 : DevRef τ sig) = embOf (V (main_arg0 : DevRef τ sig)) (V (main_arg3 : DevRef τ sig)) ⟨20, by decide⟩ := by
    rw [← hV26]; exact (F25_frame V25 (r := main_v167) (by decide)).trans e20_25
  have l21_26 : V26 (main_v172 : DevRef τ sig) = linOf (V (main_arg0 : DevRef τ sig)) (V (main_arg2 : DevRef τ sig)) ⟨21, by decide⟩ := by
    rw [← hV26]; exact (F25_frame V25 (r := main_v172) (by decide)).trans l21_25
  have e21_26 : V26 (main_v175 : DevRef τ sig) = embOf (V (main_arg0 : DevRef τ sig)) (V (main_arg3 : DevRef τ sig)) ⟨21, by decide⟩ := by
    rw [← hV26]; exact (F25_frame V25 (r := main_v175) (by decide)).trans e21_25
  have l22_26 : V26 (main_v180 : DevRef τ sig) = linOf (V (main_arg0 : DevRef τ sig)) (V (main_arg2 : DevRef τ sig)) ⟨22, by decide⟩ := by
    rw [← hV26]; exact (F25_frame V25 (r := main_v180) (by decide)).trans l22_25
  have e22_26 : V26 (main_v183 : DevRef τ sig) = embOf (V (main_arg0 : DevRef τ sig)) (V (main_arg3 : DevRef τ sig)) ⟨22, by decide⟩ := by
    rw [← hV26]; exact (F25_frame V25 (r := main_v183) (by decide)).trans e22_25
  have l23_26 : V26 (main_v188 : DevRef τ sig) = linOf (V (main_arg0 : DevRef τ sig)) (V (main_arg2 : DevRef τ sig)) ⟨23, by decide⟩ := by
    rw [← hV26]; exact (F25_frame V25 (r := main_v188) (by decide)).trans l23_25
  have e23_26 : V26 (main_v191 : DevRef τ sig) = embOf (V (main_arg0 : DevRef τ sig)) (V (main_arg3 : DevRef τ sig)) ⟨23, by decide⟩ := by
    rw [← hV26]; exact (F25_frame V25 (r := main_v191) (by decide)).trans e23_25
  have l24_26 : V26 (main_v196 : DevRef τ sig) = linOf (V (main_arg0 : DevRef τ sig)) (V (main_arg2 : DevRef τ sig)) ⟨24, by decide⟩ := by
    rw [← hV26]; exact (F25_frame V25 (r := main_v196) (by decide)).trans l24_25
  have e24_26 : V26 (main_v199 : DevRef τ sig) = embOf (V (main_arg0 : DevRef τ sig)) (V (main_arg3 : DevRef τ sig)) ⟨24, by decide⟩ := by
    rw [← hV26]; exact (F25_frame V25 (r := main_v199) (by decide)).trans e24_25
  have l25_26 : V26 (main_v204 : DevRef τ sig) = linOf (V (main_arg0 : DevRef τ sig)) (V (main_arg2 : DevRef τ sig)) ⟨25, by decide⟩ := by
    rw [← hV26, F25_lin V25, a0_25, a2_25]; rfl
  have e25_26 : V26 (main_v207 : DevRef τ sig) = embOf (V (main_arg0 : DevRef τ sig)) (V (main_arg3 : DevRef τ sig)) ⟨25, by decide⟩ := by
    rw [← hV26, F25_emb V25, a0_25, a3_25]; rfl
  clear hV26 a0_25 a1_25 a2_25 a3_25 a4_25 a5_25 l0_25 e0_25 l1_25 e1_25 l2_25 e2_25 l3_25 e3_25 l4_25 e4_25 l5_25 e5_25 l6_25 e6_25 l7_25 e7_25 l8_25 e8_25 l9_25 e9_25 l10_25 e10_25 l11_25 e11_25 l12_25 e12_25 l13_25 e13_25 l14_25 e14_25 l15_25 e15_25 l16_25 e16_25 l17_25 e17_25 l18_25 e18_25 l19_25 e19_25 l20_25 e20_25 l21_25 e21_25 l22_25 e22_25 l23_25 e23_25 l24_25 e24_25
  have hl : (![(V26 (main_v4 : DevRef τ sig) : FVec F S1024x1 .f32),
        (V26 (main_v12 : DevRef τ sig) : FVec F S1024x1 .f32),
        (V26 (main_v20 : DevRef τ sig) : FVec F S1024x1 .f32),
        (V26 (main_v28 : DevRef τ sig) : FVec F S1024x1 .f32),
        (V26 (main_v36 : DevRef τ sig) : FVec F S1024x1 .f32),
        (V26 (main_v44 : DevRef τ sig) : FVec F S1024x1 .f32),
        (V26 (main_v52 : DevRef τ sig) : FVec F S1024x1 .f32),
        (V26 (main_v60 : DevRef τ sig) : FVec F S1024x1 .f32),
        (V26 (main_v68 : DevRef τ sig) : FVec F S1024x1 .f32),
        (V26 (main_v76 : DevRef τ sig) : FVec F S1024x1 .f32),
        (V26 (main_v84 : DevRef τ sig) : FVec F S1024x1 .f32),
        (V26 (main_v92 : DevRef τ sig) : FVec F S1024x1 .f32),
        (V26 (main_v100 : DevRef τ sig) : FVec F S1024x1 .f32),
        (V26 (main_v108 : DevRef τ sig) : FVec F S1024x1 .f32),
        (V26 (main_v116 : DevRef τ sig) : FVec F S1024x1 .f32),
        (V26 (main_v124 : DevRef τ sig) : FVec F S1024x1 .f32),
        (V26 (main_v132 : DevRef τ sig) : FVec F S1024x1 .f32),
        (V26 (main_v140 : DevRef τ sig) : FVec F S1024x1 .f32),
        (V26 (main_v148 : DevRef τ sig) : FVec F S1024x1 .f32),
        (V26 (main_v156 : DevRef τ sig) : FVec F S1024x1 .f32),
        (V26 (main_v164 : DevRef τ sig) : FVec F S1024x1 .f32),
        (V26 (main_v172 : DevRef τ sig) : FVec F S1024x1 .f32),
        (V26 (main_v180 : DevRef τ sig) : FVec F S1024x1 .f32),
        (V26 (main_v188 : DevRef τ sig) : FVec F S1024x1 .f32),
        (V26 (main_v196 : DevRef τ sig) : FVec F S1024x1 .f32),
        (V26 (main_v204 : DevRef τ sig) : FVec F S1024x1 .f32)] : Fin 26 → FVec F S1024x1 .f32) = linOf (V (main_arg0 : DevRef τ sig)) (V (main_arg2 : DevRef τ sig)) := by
    funext k; fin_cases k
    exacts [l0_26, l1_26, l2_26, l3_26, l4_26, l5_26, l6_26, l7_26, l8_26, l9_26, l10_26, l11_26, l12_26, l13_26, l14_26, l15_26, l16_26, l17_26, l18_26, l19_26, l20_26, l21_26, l22_26, l23_26, l24_26, l25_26]
  have he : (![(V26 (main_v7 : DevRef τ sig) : FVec F S1024x100x32 .f32),
        (V26 (main_v15 : DevRef τ sig) : FVec F S1024x100x32 .f32),
        (V26 (main_v23 : DevRef τ sig) : FVec F S1024x100x32 .f32),
        (V26 (main_v31 : DevRef τ sig) : FVec F S1024x100x32 .f32),
        (V26 (main_v39 : DevRef τ sig) : FVec F S1024x100x32 .f32),
        (V26 (main_v47 : DevRef τ sig) : FVec F S1024x100x32 .f32),
        (V26 (main_v55 : DevRef τ sig) : FVec F S1024x100x32 .f32),
        (V26 (main_v63 : DevRef τ sig) : FVec F S1024x100x32 .f32),
        (V26 (main_v71 : DevRef τ sig) : FVec F S1024x100x32 .f32),
        (V26 (main_v79 : DevRef τ sig) : FVec F S1024x100x32 .f32),
        (V26 (main_v87 : DevRef τ sig) : FVec F S1024x100x32 .f32),
        (V26 (main_v95 : DevRef τ sig) : FVec F S1024x100x32 .f32),
        (V26 (main_v103 : DevRef τ sig) : FVec F S1024x100x32 .f32),
        (V26 (main_v111 : DevRef τ sig) : FVec F S1024x100x32 .f32),
        (V26 (main_v119 : DevRef τ sig) : FVec F S1024x100x32 .f32),
        (V26 (main_v127 : DevRef τ sig) : FVec F S1024x100x32 .f32),
        (V26 (main_v135 : DevRef τ sig) : FVec F S1024x100x32 .f32),
        (V26 (main_v143 : DevRef τ sig) : FVec F S1024x100x32 .f32),
        (V26 (main_v151 : DevRef τ sig) : FVec F S1024x100x32 .f32),
        (V26 (main_v159 : DevRef τ sig) : FVec F S1024x100x32 .f32),
        (V26 (main_v167 : DevRef τ sig) : FVec F S1024x100x32 .f32),
        (V26 (main_v175 : DevRef τ sig) : FVec F S1024x100x32 .f32),
        (V26 (main_v183 : DevRef τ sig) : FVec F S1024x100x32 .f32),
        (V26 (main_v191 : DevRef τ sig) : FVec F S1024x100x32 .f32),
        (V26 (main_v199 : DevRef τ sig) : FVec F S1024x100x32 .f32),
        (V26 (main_v207 : DevRef τ sig) : FVec F S1024x100x32 .f32)] : Fin 26 → FVec F S1024x100x32 .f32) = embOf (V (main_arg0 : DevRef τ sig)) (V (main_arg3 : DevRef τ sig)) := by
    funext k; fin_cases k
    exacts [e0_26, e1_26, e2_26, e3_26, e4_26, e5_26, e6_26, e7_26, e8_26, e9_26, e10_26, e11_26, e12_26, e13_26, e14_26, e15_26, e16_26, e17_26, e18_26, e19_26, e20_26, e21_26, e22_26, e23_26, e24_26, e25_26]
  rw [tail_after V26, hl, he, a1_26, a4_26, a5_26]
  rfl

/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v235).trans (out_after _),
      (h c main_arg0).trans (arg0_after _), (h c main_arg1).trans (arg1_after _), (h c main_arg2).trans (arg2_after _),
      (h c main_arg3).trans (arg3_after _), (h c main_arg4).trans (arg4_after _), (h c main_arg5).trans (arg5_after _)⟩)
    (run_seq scopedRefs_eq scopedSems_eq defs main (fun _ => opsF) main_eq (fun _ => opsF_sub) m ρ (fun _ => opsF_fresh))

end Cert.ReferenceIdeal.RefValue

end
-- ==== Proof.lean ====
/-
  The certificate's claim: the five conjuncts, from one vector subcore's task at each float instance (its loop's trip in
  three regimes, assembled over the rows it owns), the launch of the whole thread family with the dense head's region, the
  reference's run, and the bridge between the two results (ClaimOf.lean says how they combine).
-/
import proofs.«205260_g26156350832969_cont_9to1_3_23_alg».proof.Defs
import proofs.«205260_g26156350832969_cont_9to1_3_23_alg».proof.Proof.ClaimOf
import proofs.«205260_g26156350832969_cont_9to1_3_23_alg».proof.Proof.ScBody
import proofs.«205260_g26156350832969_cont_9to1_3_23_alg».proof.Proof.ScBodyW
import proofs.«205260_g26156350832969_cont_9to1_3_23_alg».proof.Proof.ScTripFirst
import proofs.«205260_g26156350832969_cont_9to1_3_23_alg».proof.Proof.ScTripMid
import proofs.«205260_g26156350832969_cont_9to1_3_23_alg».proof.Proof.ScTripLast
import proofs.«205260_g26156350832969_cont_9to1_3_23_alg».proof.Proof.ScTripFirstW
import proofs.«205260_g26156350832969_cont_9to1_3_23_alg».proof.Proof.ScTripMidW
import proofs.«205260_g26156350832969_cont_9to1_3_23_alg».proof.Proof.ScTripLastW
import proofs.«205260_g26156350832969_cont_9to1_3_23_alg».proof.Proof.RefRun

noncomputable section

namespace Cert.Proof

open Idealize.ShloMosaic Idealize.SL.Sem

theorem claim : Cert.Claim :=
  claim_of
    (fun XP hpk => KI.tile_body XP hpk KI.trip_first KI.trip_mid KI.trip_last)
    (fun XP hpk => KW.tile_body XP hpk KW.trip_first KW.trip_mid KW.trip_last)
    (fun m g _ => Cert.ReferenceIdeal.RefValue.run (F := Ideal) m g)

end Cert.Proof

end
